-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x64x36 : Shape := ⟨3, ![4096, 64, 36]⟩
abbrev S_ : Shape := ⟨0, ![]⟩
abbrev S26x100000x64 : Shape := ⟨3, ![26, 100000, 64]⟩

class Facts : Prop where
  bcast_S_S26x100000x64 : S_.BroadcastsInDim S26x100000x64 (![] : Fin 0 → Fin S26x100000x64.rank)
  reducesTo_S26x100000x64_S_d0_1_2 : S26x100000x64.ReducesTo [0, 1, 2] S_
  h_S_ : 0 < S_.numel
  bcast_S_S4096x64x36 : S_.BroadcastsInDim S4096x64x36 (![] : Fin 0 → Fin S4096x64x36.rank)
  reducesTo_S4096x64x36_S_d0_1_2 : S4096x64x36.ReducesTo [0, 1, 2] S_
  reducesTo_S_S_d : S_.ReducesTo [] S_

variable [Facts]

def fn {F : FTy → Type} [FloatOps F] (main_arg0 : IVec S4096x64x36 32) (main_arg1 : IVec S_ 32) (main_arg2 : FVec F S26x100000x64 .f32) : IVec S_ 1 :=
  let main_v0 : FVec F S26x100000x64 .f32 := Host.absf main_arg2
  let main_cst : FVec F S_ .f32 := constant S_ .f32 0x7F800000#32
  let main_v1 : FVec F S26x100000x64 .f32 := broadcastInDim S26x100000x64 ![] bcast_S_S26x100000x64 main_cst
  let main_v2 : IVec S26x100000x64 1 := cmpf .olt main_v0 main_v1
  let main_c : IVec S_ 1 := constantI S_ 1 1#1
  let main_v3 : IVec S_ 1 := (fun x v => Host.reduce IntOp.andi x v reducesTo_S26x100000x64_S_d0_1_2 h_S_) main_v2 main_c
  let main_c_0 : IVec S_ 32 := constantI S_ 32 0#32
  let main_v4 : IVec S4096x64x36 32 := broadcastInDim S4096x64x36 ![] bcast_S_S4096x64x36 main_c_0
  let main_v5 : IVec S4096x64x36 1 := cmpi .sge main_arg0 main_v4
  let main_c_1 : IVec S_ 32 := constantI S_ 32 99999#32
  let main_v6 : IVec S4096x64x36 32 := broadcastInDim S4096x64x36 ![] bcast_S_S4096x64x36 main_c_1
  let main_v7 : IVec S4096x64x36 1 := cmpi .sle main_arg0 main_v6
  let main_v8 : IVec S4096x64x36 1 := andi main_v5 main_v7
  let main_c_2 : IVec S_ 1 := constantI S_ 1 1#1
  let main_v9 : IVec S_ 1 := (fun x v => Host.reduce IntOp.andi x v reducesTo_S4096x64x36_S_d0_1_2 h_S_) main_v8 main_c_2
  let main_v10 : IVec S_ 1 := andi main_v3 main_v9
  let main_c_3 : IVec S_ 32 := constantI S_ 32 4294967295#32
  let main_v11 : IVec S_ 1 := cmpi .sge main_arg1 main_c_3
  let main_c_4 : IVec S_ 32 := constantI S_ 32 4294967295#32
  let main_v12 : IVec S_ 1 := cmpi .sle main_arg1 main_c_4
  let main_v13 : IVec S_ 1 := andi main_v11 main_v12
  let main_c_5 : IVec S_ 1 := constantI S_ 1 1#1
  let main_v14 : IVec S_ 1 := (fun x v => Host.reduce IntOp.andi x v reducesTo_S_S_d h_S_) main_v13 main_c_5
  let main_v15 : IVec S_ 1 := andi main_v10 main_v14
  main_v15
-- ==== Kernel.lean ====
abbrev S4096x64x36 : Shape := ⟨3, ![4096, 64, 36]⟩
abbrev S_ : Shape := ⟨0, ![]⟩
abbrev S26x100000x64 : Shape := ⟨3, ![26, 100000, 64]⟩
abbrev S4096x64x10 : Shape := ⟨3, ![4096, 64, 10]⟩
abbrev S4096x52x10 : Shape := ⟨3, ![4096, 52, 10]⟩
abbrev S4096x12x10 : Shape := ⟨3, ![4096, 12, 10]⟩
abbrev S26x64x100000 : Shape := ⟨3, ![26, 64, 100000]⟩
abbrev S802816x128 : Shape := ⟨2, ![802816, 128]⟩
abbrev S1x64x25088 : Shape := ⟨3, ![1, 64, 25088]⟩
abbrev S25088x128 : Shape := ⟨2, ![25088, 128]⟩
abbrev S64x25088 : Shape := ⟨2, ![64, 25088]⟩
abbrev S25088x64 : Shape := ⟨2, ![25088, 64]⟩
abbrev S501760x128 : Shape := ⟨2, ![501760, 128]⟩
abbrev S4096x1x16 : Shape := ⟨3, ![4096, 1, 16]⟩
abbrev S4096x16 : Shape := ⟨2, ![4096, 16]⟩
abbrev S65536 : Shape := ⟨1, ![65536]⟩
abbrev S4096x1x10 : Shape := ⟨3, ![4096, 1, 10]⟩
abbrev S4096x10 : Shape := ⟨2, ![4096, 10]⟩
abbrev S40960 : Shape := ⟨1, ![40960]⟩
abbrev S2048x128 : Shape := ⟨2, ![2048, 128]⟩
abbrev S2048 : Shape := ⟨1, ![2048]⟩
abbrev S2064 : Shape := ⟨1, ![2064]⟩
abbrev S2x128x128 : Shape := ⟨3, ![2, 128, 128]⟩
abbrev S64x128 : Shape := ⟨2, ![64, 128]⟩
abbrev S16 : Shape := ⟨1, ![16]⟩
abbrev S1x128x128 : Shape := ⟨3, ![1, 128, 128]⟩
abbrev S128x128 : Shape := ⟨2, ![128, 128]⟩
abbrev S128 : Shape := ⟨1, ![128]⟩
abbrev S1 : Shape := ⟨1, ![1]⟩
abbrev S1x1x16 : Shape := ⟨3, ![1, 1, 16]⟩
abbrev S1x16 : Shape := ⟨2, ![1, 16]⟩
abbrev S1280 : Shape := ⟨1, ![1280]⟩
abbrev S1296 : Shape := ⟨1, ![1296]⟩
abbrev S2x80x128 : Shape := ⟨3, ![2, 80, 128]⟩
abbrev S1x80x128 : Shape := ⟨3, ![1, 80, 128]⟩
abbrev S80x128 : Shape := ⟨2, ![80, 128]⟩
abbrev S80 : Shape := ⟨1, ![80]⟩
abbrev S4096x64 : Shape := ⟨2, ![4096, 64]⟩

abbrev nBuf : Table → Nat
  | .hbm => 20
  | .local .tc .vmem => 12
  | .local .scVector .vmem => 8
  | _ => 0

abbrev bufTy : (tb : Table) → Fin (nBuf tb) → BufTy
  | .hbm, ⟨0, _⟩ => ⟨S4096x64x36, .i32⟩
  | .hbm, ⟨1, _⟩ => ⟨S_, .i32⟩
  | .hbm, ⟨2, _⟩ => ⟨S26x100000x64, .f32⟩
  | .hbm, ⟨3, _⟩ => ⟨S4096x64x10, .i32⟩
  | .hbm, ⟨4, _⟩ => ⟨S4096x64x10, .f32⟩
  | .hbm, ⟨5, _⟩ => ⟨S4096x52x10, .f32⟩
  | .hbm, ⟨6, _⟩ => ⟨S4096x12x10, .f32⟩
  | .hbm, ⟨7, _⟩ => ⟨S26x64x100000, .f32⟩
  | .hbm, ⟨8, _⟩ => ⟨S802816x128, .f32⟩
  | .hbm, ⟨9, _⟩ => ⟨S501760x128, .f32⟩
  | .hbm, ⟨10, _⟩ => ⟨S4096x1x16, .i32⟩
  | .hbm, ⟨11, _⟩ => ⟨S4096x16, .i32⟩
  | .hbm, ⟨12, _⟩ => ⟨S65536, .i32⟩
  | .hbm, ⟨13, _⟩ => ⟨S4096x1x10, .i32⟩
  | .hbm, ⟨14, _⟩ => ⟨S4096x10, .i32⟩
  | .hbm, ⟨15, _⟩ => ⟨S40960, .i32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S4096x64, .f32⟩
  | .local .tc .vmem, ⟨0, _⟩ => ⟨S1x64x25088, .f32⟩
  | .local .tc .vmem, ⟨1, _⟩ => ⟨S1x64x25088, .f32⟩
  | .local .tc .vmem, ⟨2, _⟩ => ⟨S1x64x25088, .f32⟩
  | .local .tc .vmem, ⟨3, _⟩ => ⟨S1x64x25088, .f32⟩
  | .local .tc .vmem, ⟨4, _⟩ => ⟨S25088x128, .f32⟩
  | .local .tc .vmem, ⟨5, _⟩ => ⟨S25088x128, .f32⟩
  | .local .tc .vmem, ⟨6, _⟩ => ⟨S1x64x25088, .f32⟩
  | .local .tc .vmem, ⟨7, _⟩ => ⟨S1x64x25088, .f32⟩
  | .local .tc .vmem, ⟨8, _⟩ => ⟨S1x64x25088, .f32⟩
  | .local .tc .vmem, ⟨9, _⟩ => ⟨S1x64x25088, .f32⟩
  | .local .tc .vmem, ⟨10, _⟩ => ⟨S25088x128, .f32⟩
  | .local .tc .vmem, ⟨11, _⟩ => ⟨S25088x128, .f32⟩
  | .local .scVector .vmem, ⟨0, _⟩ => ⟨S2048, .i32⟩
  | .local .scVector .vmem, ⟨1, _⟩ => ⟨S2064, .i32⟩
  | .local .scVector .vmem, ⟨2, _⟩ => ⟨S2x128x128, .f32⟩
  | .local .scVector .vmem, ⟨3, _⟩ => ⟨S64x128, .f32⟩
  | .local .scVector .vmem, ⟨4, _⟩ => ⟨S1280, .i32⟩
  | .local .scVector .vmem, ⟨5, _⟩ => ⟨S1296, .i32⟩
  | .local .scVector .vmem, ⟨6, _⟩ => ⟨S2x80x128, .f32⟩
  | .local .scVector .vmem, ⟨7, _⟩ => ⟨S64x128, .f32⟩
  | _, _ => ⟨S4096x64x36, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v5_scv : Ref sig .scVector := ⟨.hbm, 8, rfl⟩
abbrev main_v9_scv : Ref sig .scVector := ⟨.hbm, 12, rfl⟩
abbrev main_v13_scv : Ref sig .scVector := ⟨.hbm, 16, rfl⟩
abbrev main_v6_scv : Ref sig .scVector := ⟨.hbm, 9, rfl⟩
abbrev main_v12_scv : Ref sig .scVector := ⟨.hbm, 15, rfl⟩
abbrev main_v14_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc3_scratch0 : Ref sig .scVector := ⟨.vmem, 4, rfl⟩
abbrev cc3_scratch1 : Ref sig .scVector := ⟨.vmem, 5, rfl⟩
abbrev cc3_scratch2 : Ref sig .scVector := ⟨.vmem, 6, rfl⟩
abbrev cc3_scratch3 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 32 := Scalar.muli c2_i32 v0
  let c0_i32_0 : BitVec 32 := 0#32
  let c0_i32_1 : BitVec 32 := 0#32
  ![v1.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let v1 : BitVec 32 := Scalar.muli c2_i32 v0
  let c1_i32 : BitVec 32 := 1#32
  let v2 : BitVec 32 := Scalar.addi v1 c1_i32
  let c0_i32_0 : BitVec 32 := 0#32
  let c0_i32_1 : BitVec 32 := 0#32
  ![v2.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x64x25088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x25088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S25088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![5, 4], ![false, false]⟩

def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c2_i32 : BitVec 32 := 2#32
  let v1 : BitVec 32 := Scalar.muli c2_i32 v0
  let c0_i32 : BitVec 32 := 0#32
  let c0_i32_0 : BitVec 32 := 0#32
  ![v1.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c2_i32 : BitVec 32 := 2#32
  let v1 : BitVec 32 := Scalar.muli c2_i32 v0
  let c1_i32 : BitVec 32 := 1#32
  let v2 : BitVec 32 := Scalar.addi v1 c1_i32
  let c0_i32 : BitVec 32 := 0#32
  let c0_i32_0 : BitVec 32 := 0#32
  ![v2.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1x64x25088 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x25088 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S25088x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k2_t1_loop : Scf.Loop 32 :=
  let c0_i32_0 : BitVec 32 := 0#32
  let c128_i32 : BitVec 32 := 128#32
  let v3 : BitVec 32 := Scalar.addi c0_i32_0 c128_i32
  let c1_i32 : BitVec 32 := 1#32
  ⟨c0_i32_0, v3, c1_i32⟩
def k2_mult1 (k2_t1 : Fin k2_t1_loop.trips) : BitVec 32 :=
  let c0_i32_0 : BitVec 32 := 0#32
  let c1_i32 : BitVec 32 := 1#32
  let arg11 : BitVec 32 := Scf.iv c0_i32_0 c1_i32 k2_t1
  let c16_i32 : BitVec 32 := 16#32
  let v14 : BitVec 32 := Scalar.muli arg11 c16_i32
  v14
def k2_off2 (k2_t1 : Fin k2_t1_loop.trips) : Fin 1 → Nat :=
  let c0_i32_0 : BitVec 32 := 0#32
  let c1_i32 : BitVec 32 := 1#32
  let arg11 : BitVec 32 := Scf.iv c0_i32_0 c1_i32 k2_t1
  let c16_i32 : BitVec 32 := 16#32
  let v14 : BitVec 32 := Scalar.muli arg11 c16_i32
  let v15 : BitVec 32 := v14
  let v25 : Index := Scalar.indexCast v15
  ![v25.toNat]
def k2_off3 (k2_t1 : Fin k2_t1_loop.trips) : Fin 1 → Nat :=
  let c0_i32_0 : BitVec 32 := 0#32
  let c1_i32 : BitVec 32 := 1#32
  let arg11 : BitVec 32 := Scf.iv c0_i32_0 c1_i32 k2_t1
  let c16_i32 : BitVec 32 := 16#32
  let v14 : BitVec 32 := Scalar.muli arg11 c16_i32
  let v15 : BitVec 32 := v14
  let v29 : Index := Scalar.indexCast v15
  ![v29.toNat]
@[reducible] def k2_t2_loop : Scf.Loop 32 :=
  let c0_i32_15 : BitVec 32 := 0#32
  let c8_i32 : BitVec 32 := 8#32
  let v12 : BitVec 32 := Scalar.addi c0_i32_15 c8_i32
  let c1_i32_16 : BitVec 32 := 1#32
  ⟨c0_i32_15, v12, c1_i32_16⟩
def k2_off4 (k2_t2 : Fin k2_t2_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c128_i32_19 : BitVec 32 := 128#32
  let v15 : BitVec 32 := Scalar.muli v14 c128_i32_19
  ![v15.toNat]
@[reducible] def k2_t3_loop : Scf.Loop 32 :=
  let c0_i32_28 : BitVec 32 := 0#32
  let c16_i32 : BitVec 32 := 16#32
  let v24 : BitVec 32 := Scalar.addi c0_i32_28 c16_i32
  let c1_i32_29 : BitVec 32 := 1#32
  ⟨c0_i32_28, v24, c1_i32_29⟩
def k2_off5 (k2_t2 : Fin k2_t2_loop.trips) (k2_t3 : Fin k2_t3_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c128_i32_251 : BitVec 32 := 128#32
  let v419 : BitVec 32 := Scalar.muli v14 c128_i32_251
  let c0_i32_250 : BitVec 32 := 0#32
  let c0_i32_28 : BitVec 32 := 0#32
  let c1_i32_29 : BitVec 32 := 1#32
  let arg12 : BitVec 32 := Scf.iv c0_i32_28 c1_i32_29 k2_t3
  let v418 : BitVec 32 := Scalar.addi c0_i32_250 arg12
  let v420 : BitVec 32 := Scalar.addi v419 v418
  let v421 : Index := Scalar.indexCast v420
  ![v421.toNat]
def k2_off6 (k2_t3 : Fin k2_t3_loop.trips) (v425 : BitVec 32) (c0_i32_252 : BitVec 32) : Fin 3 → Nat :=
  let c0_i32_253 : BitVec 32 := 0#32
  let v427 : Index := Scalar.indexCast c0_i32_253
  let c0_i32_250 : BitVec 32 := 0#32
  let c0_i32_28 : BitVec 32 := 0#32
  let c1_i32_29 : BitVec 32 := 1#32
  let arg12 : BitVec 32 := Scf.iv c0_i32_28 c1_i32_29 k2_t3
  let v418 : BitVec 32 := Scalar.addi c0_i32_250 arg12
  let v428 : Index := Scalar.indexCast v418
  let v426 : BitVec 32 := Scalar.addi v425 c0_i32_252
  let v429 : Index := Scalar.indexCast v426
  ![0, v428.toNat, v429.toNat]

def k2_chk1 (k2_t3 : Fin k2_t3_loop.trips) (v425 : BitVec 32) : Prop :=
  (∀ (r : Fin 4), ∀ a, (k2_off6 k2_t3 v425 (BitVec.ofNat 32 (16 * r.val))) a + S1x1x16.size a ≤ S2x128x128.size a)
instance k2_chk1.dec : ∀ (k2_t3 : Fin k2_t3_loop.trips) (v425 : BitVec 32), Decidable (k2_chk1 k2_t3 v425) := fun k2_t3 v425 => decidable_of_iff' _ (Iff.of_eq (k2_chk1.eq_1 k2_t3 v425))
theorem k2_off6_inb : ∀ (k2_t3 : Fin k2_t3_loop.trips) (v425 : BitVec 32) (k2_hw1 : k2_chk1 k2_t3 v425), ∀ (r : Fin 4), ∀ a, (k2_off6 k2_t3 v425 (BitVec.ofNat 32 (16 * r.val))) a + S1x1x16.size a ≤ S2x128x128.size a := fun k2_t3 v425 k2_hw1 r => k2_hw1 r

def k2_off7 (k2_t2 : Fin k2_t2_loop.trips) (c0_i32_31 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c4_i32 : BitVec 32 := 4#32
  let v26 : BitVec 32 := Scalar.muli v14 c4_i32
  let v27 : BitVec 32 := Scalar.addi v26 c0_i32_31
  let v28 : Index := Scalar.indexCast v27
  let c0 : Index := 0#32
  ![v28.toNat, 0]
def k2_off8 (k2_t2 : Fin k2_t2_loop.trips) (c0_i32_31 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c4_i32 : BitVec 32 := 4#32
  let v26 : BitVec 32 := Scalar.muli v14 c4_i32
  let v27 : BitVec 32 := Scalar.addi v26 c0_i32_31
  let v32 : Index := Scalar.indexCast v27
  let c16 : Index := 16#32
  ![v32.toNat, 16]
def k2_off9 (k2_t2 : Fin k2_t2_loop.trips) (c0_i32_31 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c4_i32 : BitVec 32 := 4#32
  let v26 : BitVec 32 := Scalar.muli v14 c4_i32
  let v27 : BitVec 32 := Scalar.addi v26 c0_i32_31
  let v36 : Index := Scalar.indexCast v27
  let c32 : Index := 32#32
  ![v36.toNat, 32]
def k2_off10 (k2_t2 : Fin k2_t2_loop.trips) (c0_i32_31 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c4_i32 : BitVec 32 := 4#32
  let v26 : BitVec 32 := Scalar.muli v14 c4_i32
  let v27 : BitVec 32 := Scalar.addi v26 c0_i32_31
  let v40 : Index := Scalar.indexCast v27
  let c48 : Index := 48#32
  ![v40.toNat, 48]
@[reducible] def k2_t4_loop : Scf.Loop 32 :=
  let c0_i32_36 : BitVec 32 := 0#32
  let c16_i32_37 : BitVec 32 := 16#32
  let v48 : BitVec 32 := Scalar.addi c0_i32_36 c16_i32_37
  let c1_i32_38 : BitVec 32 := 1#32
  ⟨c0_i32_36, v48, c1_i32_38⟩
def k2_off11 (k2_t2 : Fin k2_t2_loop.trips) (k2_t4 : Fin k2_t4_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c128_i32_251 : BitVec 32 := 128#32
  let v419 : BitVec 32 := Scalar.muli v14 c128_i32_251
  let c16_i32_250 : BitVec 32 := 16#32
  let c0_i32_36 : BitVec 32 := 0#32
  let c1_i32_38 : BitVec 32 := 1#32
  let arg12 : BitVec 32 := Scf.iv c0_i32_36 c1_i32_38 k2_t4
  let v418 : BitVec 32 := Scalar.addi c16_i32_250 arg12
  let v420 : BitVec 32 := Scalar.addi v419 v418
  let v421 : Index := Scalar.indexCast v420
  ![v421.toNat]
def k2_off12 (k2_t4 : Fin k2_t4_loop.trips) (v425 : BitVec 32) (c0_i32_252 : BitVec 32) : Fin 3 → Nat :=
  let c0_i32_253 : BitVec 32 := 0#32
  let v427 : Index := Scalar.indexCast c0_i32_253
  let c16_i32_250 : BitVec 32 := 16#32
  let c0_i32_36 : BitVec 32 := 0#32
  let c1_i32_38 : BitVec 32 := 1#32
  let arg12 : BitVec 32 := Scf.iv c0_i32_36 c1_i32_38 k2_t4
  let v418 : BitVec 32 := Scalar.addi c16_i32_250 arg12
  let v428 : Index := Scalar.indexCast v418
  let v426 : BitVec 32 := Scalar.addi v425 c0_i32_252
  let v429 : Index := Scalar.indexCast v426
  ![0, v428.toNat, v429.toNat]

def k2_chk2 (k2_t4 : Fin k2_t4_loop.trips) (v425 : BitVec 32) : Prop :=
  (∀ (r : Fin 4), ∀ a, (k2_off12 k2_t4 v425 (BitVec.ofNat 32 (16 * r.val))) a + S1x1x16.size a ≤ S2x128x128.size a)
instance k2_chk2.dec : ∀ (k2_t4 : Fin k2_t4_loop.trips) (v425 : BitVec 32), Decidable (k2_chk2 k2_t4 v425) := fun k2_t4 v425 => decidable_of_iff' _ (Iff.of_eq (k2_chk2.eq_1 k2_t4 v425))
theorem k2_off12_inb : ∀ (k2_t4 : Fin k2_t4_loop.trips) (v425 : BitVec 32) (k2_hw2 : k2_chk2 k2_t4 v425), ∀ (r : Fin 4), ∀ a, (k2_off12 k2_t4 v425 (BitVec.ofNat 32 (16 * r.val))) a + S1x1x16.size a ≤ S2x128x128.size a := fun k2_t4 v425 k2_hw2 r => k2_hw2 r

def k2_off13 (k2_t2 : Fin k2_t2_loop.trips) (c0_i32_41 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c4_i32_40 : BitVec 32 := 4#32
  let v50 : BitVec 32 := Scalar.muli v14 c4_i32_40
  let v51 : BitVec 32 := Scalar.addi v50 c0_i32_41
  let v52 : Index := Scalar.indexCast v51
  let c64 : Index := 64#32
  ![v52.toNat, 64]
def k2_off14 (k2_t2 : Fin k2_t2_loop.trips) (c0_i32_41 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c4_i32_40 : BitVec 32 := 4#32
  let v50 : BitVec 32 := Scalar.muli v14 c4_i32_40
  let v51 : BitVec 32 := Scalar.addi v50 c0_i32_41
  let v56 : Index := Scalar.indexCast v51
  let c80 : Index := 80#32
  ![v56.toNat, 80]
def k2_off15 (k2_t2 : Fin k2_t2_loop.trips) (c0_i32_41 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c4_i32_40 : BitVec 32 := 4#32
  let v50 : BitVec 32 := Scalar.muli v14 c4_i32_40
  let v51 : BitVec 32 := Scalar.addi v50 c0_i32_41
  let v60 : Index := Scalar.indexCast v51
  let c96 : Index := 96#32
  ![v60.toNat, 96]
def k2_off16 (k2_t2 : Fin k2_t2_loop.trips) (c0_i32_41 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c4_i32_40 : BitVec 32 := 4#32
  let v50 : BitVec 32 := Scalar.muli v14 c4_i32_40
  let v51 : BitVec 32 := Scalar.addi v50 c0_i32_41
  let v64 : Index := Scalar.indexCast v51
  let c112 : Index := 112#32
  ![v64.toNat, 112]
@[reducible] def k2_t5_loop : Scf.Loop 32 :=
  let c0_i32_46 : BitVec 32 := 0#32
  let c16_i32_47 : BitVec 32 := 16#32
  let v72 : BitVec 32 := Scalar.addi c0_i32_46 c16_i32_47
  let c1_i32_48 : BitVec 32 := 1#32
  ⟨c0_i32_46, v72, c1_i32_48⟩
def k2_off17 (k2_t2 : Fin k2_t2_loop.trips) (k2_t5 : Fin k2_t5_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c128_i32_250 : BitVec 32 := 128#32
  let v419 : BitVec 32 := Scalar.muli v14 c128_i32_250
  let c32_i32 : BitVec 32 := 32#32
  let c0_i32_46 : BitVec 32 := 0#32
  let c1_i32_48 : BitVec 32 := 1#32
  let arg12 : BitVec 32 := Scf.iv c0_i32_46 c1_i32_48 k2_t5
  let v418 : BitVec 32 := Scalar.addi c32_i32 arg12
  let v420 : BitVec 32 := Scalar.addi v419 v418
  let v421 : Index := Scalar.indexCast v420
  ![v421.toNat]
def k2_off18 (k2_t5 : Fin k2_t5_loop.trips) (v425 : BitVec 32) (c0_i32_251 : BitVec 32) : Fin 3 → Nat :=
  let c0_i32_252 : BitVec 32 := 0#32
  let v427 : Index := Scalar.indexCast c0_i32_252
  let c32_i32 : BitVec 32 := 32#32
  let c0_i32_46 : BitVec 32 := 0#32
  let c1_i32_48 : BitVec 32 := 1#32
  let arg12 : BitVec 32 := Scf.iv c0_i32_46 c1_i32_48 k2_t5
  let v418 : BitVec 32 := Scalar.addi c32_i32 arg12
  let v428 : Index := Scalar.indexCast v418
  let v426 : BitVec 32 := Scalar.addi v425 c0_i32_251
  let v429 : Index := Scalar.indexCast v426
  ![0, v428.toNat, v429.toNat]

def k2_chk3 (k2_t5 : Fin k2_t5_loop.trips) (v425 : BitVec 32) : Prop :=
  (∀ (r : Fin 4), ∀ a, (k2_off18 k2_t5 v425 (BitVec.ofNat 32 (16 * r.val))) a + S1x1x16.size a ≤ S2x128x128.size a)
instance k2_chk3.dec : ∀ (k2_t5 : Fin k2_t5_loop.trips) (v425 : BitVec 32), Decidable (k2_chk3 k2_t5 v425) := fun k2_t5 v425 => decidable_of_iff' _ (Iff.of_eq (k2_chk3.eq_1 k2_t5 v425))
theorem k2_off18_inb : ∀ (k2_t5 : Fin k2_t5_loop.trips) (v425 : BitVec 32) (k2_hw3 : k2_chk3 k2_t5 v425), ∀ (r : Fin 4), ∀ a, (k2_off18 k2_t5 v425 (BitVec.ofNat 32 (16 * r.val))) a + S1x1x16.size a ≤ S2x128x128.size a := fun k2_t5 v425 k2_hw3 r => k2_hw3 r

@[reducible] def k2_t6_loop : Scf.Loop 32 :=
  let c0_i32_60 : BitVec 32 := 0#32
  let c16_i32_61 : BitVec 32 := 16#32
  let v96 : BitVec 32 := Scalar.addi c0_i32_60 c16_i32_61
  let c1_i32_62 : BitVec 32 := 1#32
  ⟨c0_i32_60, v96, c1_i32_62⟩
def k2_off19 (k2_t2 : Fin k2_t2_loop.trips) (k2_t6 : Fin k2_t6_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c128_i32_250 : BitVec 32 := 128#32
  let v419 : BitVec 32 := Scalar.muli v14 c128_i32_250
  let c48_i32 : BitVec 32 := 48#32
  let c0_i32_60 : BitVec 32 := 0#32
  let c1_i32_62 : BitVec 32 := 1#32
  let arg12 : BitVec 32 := Scf.iv c0_i32_60 c1_i32_62 k2_t6
  let v418 : BitVec 32 := Scalar.addi c48_i32 arg12
  let v420 : BitVec 32 := Scalar.addi v419 v418
  let v421 : Index := Scalar.indexCast v420
  ![v421.toNat]
def k2_off20 (k2_t6 : Fin k2_t6_loop.trips) (v425 : BitVec 32) (c0_i32_251 : BitVec 32) : Fin 3 → Nat :=
  let c0_i32_252 : BitVec 32 := 0#32
  let v427 : Index := Scalar.indexCast c0_i32_252
  let c48_i32 : BitVec 32 := 48#32
  let c0_i32_60 : BitVec 32 := 0#32
  let c1_i32_62 : BitVec 32 := 1#32
  let arg12 : BitVec 32 := Scf.iv c0_i32_60 c1_i32_62 k2_t6
  let v418 : BitVec 32 := Scalar.addi c48_i32 arg12
  let v428 : Index := Scalar.indexCast v418
  let v426 : BitVec 32 := Scalar.addi v425 c0_i32_251
  let v429 : Index := Scalar.indexCast v426
  ![0, v428.toNat, v429.toNat]

def k2_chk4 (k2_t6 : Fin k2_t6_loop.trips) (v425 : BitVec 32) : Prop :=
  (∀ (r : Fin 4), ∀ a, (k2_off20 k2_t6 v425 (BitVec.ofNat 32 (16 * r.val))) a + S1x1x16.size a ≤ S2x128x128.size a)
instance k2_chk4.dec : ∀ (k2_t6 : Fin k2_t6_loop.trips) (v425 : BitVec 32), Decidable (k2_chk4 k2_t6 v425) := fun k2_t6 v425 => decidable_of_iff' _ (Iff.of_eq (k2_chk4.eq_1 k2_t6 v425))
theorem k2_off20_inb : ∀ (k2_t6 : Fin k2_t6_loop.trips) (v425 : BitVec 32) (k2_hw4 : k2_chk4 k2_t6 v425), ∀ (r : Fin 4), ∀ a, (k2_off20 k2_t6 v425 (BitVec.ofNat 32 (16 * r.val))) a + S1x1x16.size a ≤ S2x128x128.size a := fun k2_t6 v425 k2_hw4 r => k2_hw4 r

@[reducible] def k2_t7_loop : Scf.Loop 32 :=
  let c0_i32_74 : BitVec 32 := 0#32
  let c16_i32_75 : BitVec 32 := 16#32
  let v120 : BitVec 32 := Scalar.addi c0_i32_74 c16_i32_75
  let c1_i32_76 : BitVec 32 := 1#32
  ⟨c0_i32_74, v120, c1_i32_76⟩
def k2_off21 (k2_t2 : Fin k2_t2_loop.trips) (k2_t7 : Fin k2_t7_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c128_i32_251 : BitVec 32 := 128#32
  let v419 : BitVec 32 := Scalar.muli v14 c128_i32_251
  let c64_i32_250 : BitVec 32 := 64#32
  let c0_i32_74 : BitVec 32 := 0#32
  let c1_i32_76 : BitVec 32 := 1#32
  let arg12 : BitVec 32 := Scf.iv c0_i32_74 c1_i32_76 k2_t7
  let v418 : BitVec 32 := Scalar.addi c64_i32_250 arg12
  let v420 : BitVec 32 := Scalar.addi v419 v418
  let v421 : Index := Scalar.indexCast v420
  ![v421.toNat]
def k2_off22 (k2_t7 : Fin k2_t7_loop.trips) (v425 : BitVec 32) (c0_i32_252 : BitVec 32) : Fin 3 → Nat :=
  let c0_i32_253 : BitVec 32 := 0#32
  let v427 : Index := Scalar.indexCast c0_i32_253
  let c64_i32_250 : BitVec 32 := 64#32
  let c0_i32_74 : BitVec 32 := 0#32
  let c1_i32_76 : BitVec 32 := 1#32
  let arg12 : BitVec 32 := Scf.iv c0_i32_74 c1_i32_76 k2_t7
  let v418 : BitVec 32 := Scalar.addi c64_i32_250 arg12
  let v428 : Index := Scalar.indexCast v418
  let v426 : BitVec 32 := Scalar.addi v425 c0_i32_252
  let v429 : Index := Scalar.indexCast v426
  ![0, v428.toNat, v429.toNat]

def k2_chk5 (k2_t7 : Fin k2_t7_loop.trips) (v425 : BitVec 32) : Prop :=
  (∀ (r : Fin 4), ∀ a, (k2_off22 k2_t7 v425 (BitVec.ofNat 32 (16 * r.val))) a + S1x1x16.size a ≤ S2x128x128.size a)
instance k2_chk5.dec : ∀ (k2_t7 : Fin k2_t7_loop.trips) (v425 : BitVec 32), Decidable (k2_chk5 k2_t7 v425) := fun k2_t7 v425 => decidable_of_iff' _ (Iff.of_eq (k2_chk5.eq_1 k2_t7 v425))
theorem k2_off22_inb : ∀ (k2_t7 : Fin k2_t7_loop.trips) (v425 : BitVec 32) (k2_hw5 : k2_chk5 k2_t7 v425), ∀ (r : Fin 4), ∀ a, (k2_off22 k2_t7 v425 (BitVec.ofNat 32 (16 * r.val))) a + S1x1x16.size a ≤ S2x128x128.size a := fun k2_t7 v425 k2_hw5 r => k2_hw5 r

@[reducible] def k2_t8_loop : Scf.Loop 32 :=
  let c0_i32_88 : BitVec 32 := 0#32
  let c16_i32_89 : BitVec 32 := 16#32
  let v144 : BitVec 32 := Scalar.addi c0_i32_88 c16_i32_89
  let c1_i32_90 : BitVec 32 := 1#32
  ⟨c0_i32_88, v144, c1_i32_90⟩
def k2_off23 (k2_t2 : Fin k2_t2_loop.trips) (k2_t8 : Fin k2_t8_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c128_i32_250 : BitVec 32 := 128#32
  let v419 : BitVec 32 := Scalar.muli v14 c128_i32_250
  let c80_i32 : BitVec 32 := 80#32
  let c0_i32_88 : BitVec 32 := 0#32
  let c1_i32_90 : BitVec 32 := 1#32
  let arg12 : BitVec 32 := Scf.iv c0_i32_88 c1_i32_90 k2_t8
  let v418 : BitVec 32 := Scalar.addi c80_i32 arg12
  let v420 : BitVec 32 := Scalar.addi v419 v418
  let v421 : Index := Scalar.indexCast v420
  ![v421.toNat]
def k2_off24 (k2_t8 : Fin k2_t8_loop.trips) (v425 : BitVec 32) (c0_i32_251 : BitVec 32) : Fin 3 → Nat :=
  let c0_i32_252 : BitVec 32 := 0#32
  let v427 : Index := Scalar.indexCast c0_i32_252
  let c80_i32 : BitVec 32 := 80#32
  let c0_i32_88 : BitVec 32 := 0#32
  let c1_i32_90 : BitVec 32 := 1#32
  let arg12 : BitVec 32 := Scf.iv c0_i32_88 c1_i32_90 k2_t8
  let v418 : BitVec 32 := Scalar.addi c80_i32 arg12
  let v428 : Index := Scalar.indexCast v418
  let v426 : BitVec 32 := Scalar.addi v425 c0_i32_251
  let v429 : Index := Scalar.indexCast v426
  ![0, v428.toNat, v429.toNat]

def k2_chk6 (k2_t8 : Fin k2_t8_loop.trips) (v425 : BitVec 32) : Prop :=
  (∀ (r : Fin 4), ∀ a, (k2_off24 k2_t8 v425 (BitVec.ofNat 32 (16 * r.val))) a + S1x1x16.size a ≤ S2x128x128.size a)
instance k2_chk6.dec : ∀ (k2_t8 : Fin k2_t8_loop.trips) (v425 : BitVec 32), Decidable (k2_chk6 k2_t8 v425) := fun k2_t8 v425 => decidable_of_iff' _ (Iff.of_eq (k2_chk6.eq_1 k2_t8 v425))
theorem k2_off24_inb : ∀ (k2_t8 : Fin k2_t8_loop.trips) (v425 : BitVec 32) (k2_hw6 : k2_chk6 k2_t8 v425), ∀ (r : Fin 4), ∀ a, (k2_off24 k2_t8 v425 (BitVec.ofNat 32 (16 * r.val))) a + S1x1x16.size a ≤ S2x128x128.size a := fun k2_t8 v425 k2_hw6 r => k2_hw6 r

@[reducible] def k2_t9_loop : Scf.Loop 32 :=
  let c0_i32_102 : BitVec 32 := 0#32
  let c16_i32_103 : BitVec 32 := 16#32
  let v168 : BitVec 32 := Scalar.addi c0_i32_102 c16_i32_103
  let c1_i32_104 : BitVec 32 := 1#32
  ⟨c0_i32_102, v168, c1_i32_104⟩
def k2_off25 (k2_t2 : Fin k2_t2_loop.trips) (k2_t9 : Fin k2_t9_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c128_i32_250 : BitVec 32 := 128#32
  let v419 : BitVec 32 := Scalar.muli v14 c128_i32_250
  let c96_i32 : BitVec 32 := 96#32
  let c0_i32_102 : BitVec 32 := 0#32
  let c1_i32_104 : BitVec 32 := 1#32
  let arg12 : BitVec 32 := Scf.iv c0_i32_102 c1_i32_104 k2_t9
  let v418 : BitVec 32 := Scalar.addi c96_i32 arg12
  let v420 : BitVec 32 := Scalar.addi v419 v418
  let v421 : Index := Scalar.indexCast v420
  ![v421.toNat]
def k2_off26 (k2_t9 : Fin k2_t9_loop.trips) (v425 : BitVec 32) (c0_i32_251 : BitVec 32) : Fin 3 → Nat :=
  let c0_i32_252 : BitVec 32 := 0#32
  let v427 : Index := Scalar.indexCast c0_i32_252
  let c96_i32 : BitVec 32 := 96#32
  let c0_i32_102 : BitVec 32 := 0#32
  let c1_i32_104 : BitVec 32 := 1#32
  let arg12 : BitVec 32 := Scf.iv c0_i32_102 c1_i32_104 k2_t9
  let v418 : BitVec 32 := Scalar.addi c96_i32 arg12
  let v428 : Index := Scalar.indexCast v418
  let v426 : BitVec 32 := Scalar.addi v425 c0_i32_251
  let v429 : Index := Scalar.indexCast v426
  ![0, v428.toNat, v429.toNat]

def k2_chk7 (k2_t9 : Fin k2_t9_loop.trips) (v425 : BitVec 32) : Prop :=
  (∀ (r : Fin 4), ∀ a, (k2_off26 k2_t9 v425 (BitVec.ofNat 32 (16 * r.val))) a + S1x1x16.size a ≤ S2x128x128.size a)
instance k2_chk7.dec : ∀ (k2_t9 : Fin k2_t9_loop.trips) (v425 : BitVec 32), Decidable (k2_chk7 k2_t9 v425) := fun k2_t9 v425 => decidable_of_iff' _ (Iff.of_eq (k2_chk7.eq_1 k2_t9 v425))
theorem k2_off26_inb : ∀ (k2_t9 : Fin k2_t9_loop.trips) (v425 : BitVec 32) (k2_hw7 : k2_chk7 k2_t9 v425), ∀ (r : Fin 4), ∀ a, (k2_off26 k2_t9 v425 (BitVec.ofNat 32 (16 * r.val))) a + S1x1x16.size a ≤ S2x128x128.size a := fun k2_t9 v425 k2_hw7 r => k2_hw7 r

@[reducible] def k2_t10_loop : Scf.Loop 32 :=
  let c0_i32_115 : BitVec 32 := 0#32
  let c16_i32_116 : BitVec 32 := 16#32
  let v192 : BitVec 32 := Scalar.addi c0_i32_115 c16_i32_116
  let c1_i32_117 : BitVec 32 := 1#32
  ⟨c0_i32_115, v192, c1_i32_117⟩
def k2_off27 (k2_t2 : Fin k2_t2_loop.trips) (k2_t10 : Fin k2_t10_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c128_i32_250 : BitVec 32 := 128#32
  let v419 : BitVec 32 := Scalar.muli v14 c128_i32_250
  let c112_i32 : BitVec 32 := 112#32
  let c0_i32_115 : BitVec 32 := 0#32
  let c1_i32_117 : BitVec 32 := 1#32
  let arg12 : BitVec 32 := Scf.iv c0_i32_115 c1_i32_117 k2_t10
  let v418 : BitVec 32 := Scalar.addi c112_i32 arg12
  let v420 : BitVec 32 := Scalar.addi v419 v418
  let v421 : Index := Scalar.indexCast v420
  ![v421.toNat]
def k2_off28 (k2_t10 : Fin k2_t10_loop.trips) (v425 : BitVec 32) (c0_i32_251 : BitVec 32) : Fin 3 → Nat :=
  let c0_i32_252 : BitVec 32 := 0#32
  let v427 : Index := Scalar.indexCast c0_i32_252
  let c112_i32 : BitVec 32 := 112#32
  let c0_i32_115 : BitVec 32 := 0#32
  let c1_i32_117 : BitVec 32 := 1#32
  let arg12 : BitVec 32 := Scf.iv c0_i32_115 c1_i32_117 k2_t10
  let v418 : BitVec 32 := Scalar.addi c112_i32 arg12
  let v428 : Index := Scalar.indexCast v418
  let v426 : BitVec 32 := Scalar.addi v425 c0_i32_251
  let v429 : Index := Scalar.indexCast v426
  ![0, v428.toNat, v429.toNat]

def k2_chk8 (k2_t10 : Fin k2_t10_loop.trips) (v425 : BitVec 32) : Prop :=
  (∀ (r : Fin 4), ∀ a, (k2_off28 k2_t10 v425 (BitVec.ofNat 32 (16 * r.val))) a + S1x1x16.size a ≤ S2x128x128.size a)
instance k2_chk8.dec : ∀ (k2_t10 : Fin k2_t10_loop.trips) (v425 : BitVec 32), Decidable (k2_chk8 k2_t10 v425) := fun k2_t10 v425 => decidable_of_iff' _ (Iff.of_eq (k2_chk8.eq_1 k2_t10 v425))
theorem k2_off28_inb : ∀ (k2_t10 : Fin k2_t10_loop.trips) (v425 : BitVec 32) (k2_hw8 : k2_chk8 k2_t10 v425), ∀ (r : Fin 4), ∀ a, (k2_off28 k2_t10 v425 (BitVec.ofNat 32 (16 * r.val))) a + S1x1x16.size a ≤ S2x128x128.size a := fun k2_t10 v425 k2_hw8 r => k2_hw8 r

def k2_cond1 (k2_t2 : Fin k2_t2_loop.trips) : BitVec 1 :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c2_i32_125 : BitVec 32 := 2#32
  let v212 : BitVec 32 := Scalar.addi v14 c2_i32_125
  let c16_i32_126 : BitVec 32 := 16#32
  let v213 : BitVec 1 := Scalar.cmpi .slt v212 c16_i32_126
  let v214 : BitVec 32 := Scalar.extui v213
  let c0_i32_127 : BitVec 32 := 0#32
  let v215 : BitVec 1 := Scalar.cmpi .ne v214 c0_i32_127
  v215

def k2_off29 (k2_t2 : Fin k2_t2_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c2_i32_250 : BitVec 32 := 2#32
  let v418 : BitVec 32 := Scalar.addi v14 c2_i32_250
  let c128_i32_251 : BitVec 32 := 128#32
  let v419 : BitVec 32 := Scalar.muli v418 c128_i32_251
  ![v419.toNat]
def k2_off30 (k2_t2 : Fin k2_t2_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c128_i32_129 : BitVec 32 := 128#32
  let v217 : BitVec 32 := Scalar.muli v216 c128_i32_129
  ![v217.toNat]
@[reducible] def k2_t11_loop : Scf.Loop 32 :=
  let c0_i32_139 : BitVec 32 := 0#32
  let c16_i32_140 : BitVec 32 := 16#32
  let v226 : BitVec 32 := Scalar.addi c0_i32_139 c16_i32_140
  let c1_i32_141 : BitVec 32 := 1#32
  ⟨c0_i32_139, v226, c1_i32_141⟩
def k2_off31 (k2_t2 : Fin k2_t2_loop.trips) (k2_t11 : Fin k2_t11_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c128_i32_251 : BitVec 32 := 128#32
  let v419 : BitVec 32 := Scalar.muli v216 c128_i32_251
  let c0_i32_250 : BitVec 32 := 0#32
  let c0_i32_139 : BitVec 32 := 0#32
  let c1_i32_141 : BitVec 32 := 1#32
  let arg12 : BitVec 32 := Scf.iv c0_i32_139 c1_i32_141 k2_t11
  let v418 : BitVec 32 := Scalar.addi c0_i32_250 arg12
  let v420 : BitVec 32 := Scalar.addi v419 v418
  let v421 : Index := Scalar.indexCast v420
  ![v421.toNat]
def k2_off32 (k2_t11 : Fin k2_t11_loop.trips) (v425 : BitVec 32) (c0_i32_252 : BitVec 32) : Fin 3 → Nat :=
  let c1_i32_253 : BitVec 32 := 1#32
  let v427 : Index := Scalar.indexCast c1_i32_253
  let c0_i32_250 : BitVec 32 := 0#32
  let c0_i32_139 : BitVec 32 := 0#32
  let c1_i32_141 : BitVec 32 := 1#32
  let arg12 : BitVec 32 := Scf.iv c0_i32_139 c1_i32_141 k2_t11
  let v418 : BitVec 32 := Scalar.addi c0_i32_250 arg12
  let v428 : Index := Scalar.indexCast v418
  let v426 : BitVec 32 := Scalar.addi v425 c0_i32_252
  let v429 : Index := Scalar.indexCast v426
  ![1, v428.toNat, v429.toNat]

def k2_chk9 (k2_t11 : Fin k2_t11_loop.trips) (v425 : BitVec 32) : Prop :=
  (∀ (r : Fin 4), ∀ a, (k2_off32 k2_t11 v425 (BitVec.ofNat 32 (16 * r.val))) a + S1x1x16.size a ≤ S2x128x128.size a)
instance k2_chk9.dec : ∀ (k2_t11 : Fin k2_t11_loop.trips) (v425 : BitVec 32), Decidable (k2_chk9 k2_t11 v425) := fun k2_t11 v425 => decidable_of_iff' _ (Iff.of_eq (k2_chk9.eq_1 k2_t11 v425))
theorem k2_off32_inb : ∀ (k2_t11 : Fin k2_t11_loop.trips) (v425 : BitVec 32) (k2_hw9 : k2_chk9 k2_t11 v425), ∀ (r : Fin 4), ∀ a, (k2_off32 k2_t11 v425 (BitVec.ofNat 32 (16 * r.val))) a + S1x1x16.size a ≤ S2x128x128.size a := fun k2_t11 v425 k2_hw9 r => k2_hw9 r

def k2_off33 (k2_t2 : Fin k2_t2_loop.trips) (c0_i32_144 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c4_i32_143 : BitVec 32 := 4#32
  let v228 : BitVec 32 := Scalar.muli v216 c4_i32_143
  let v229 : BitVec 32 := Scalar.addi v228 c0_i32_144
  let v230 : Index := Scalar.indexCast v229
  let c0_145 : Index := 0#32
  ![v230.toNat, 0]
def k2_off34 (k2_t2 : Fin k2_t2_loop.trips) (c0_i32_144 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c4_i32_143 : BitVec 32 := 4#32
  let v228 : BitVec 32 := Scalar.muli v216 c4_i32_143
  let v229 : BitVec 32 := Scalar.addi v228 c0_i32_144
  let v234 : Index := Scalar.indexCast v229
  let c16_146 : Index := 16#32
  ![v234.toNat, 16]
def k2_off35 (k2_t2 : Fin k2_t2_loop.trips) (c0_i32_144 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c4_i32_143 : BitVec 32 := 4#32
  let v228 : BitVec 32 := Scalar.muli v216 c4_i32_143
  let v229 : BitVec 32 := Scalar.addi v228 c0_i32_144
  let v238 : Index := Scalar.indexCast v229
  let c32_147 : Index := 32#32
  ![v238.toNat, 32]
def k2_off36 (k2_t2 : Fin k2_t2_loop.trips) (c0_i32_144 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c4_i32_143 : BitVec 32 := 4#32
  let v228 : BitVec 32 := Scalar.muli v216 c4_i32_143
  let v229 : BitVec 32 := Scalar.addi v228 c0_i32_144
  let v242 : Index := Scalar.indexCast v229
  let c48_148 : Index := 48#32
  ![v242.toNat, 48]
@[reducible] def k2_t12_loop : Scf.Loop 32 :=
  let c0_i32_153 : BitVec 32 := 0#32
  let c16_i32_154 : BitVec 32 := 16#32
  let v250 : BitVec 32 := Scalar.addi c0_i32_153 c16_i32_154
  let c1_i32_155 : BitVec 32 := 1#32
  ⟨c0_i32_153, v250, c1_i32_155⟩
def k2_off37 (k2_t2 : Fin k2_t2_loop.trips) (k2_t12 : Fin k2_t12_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c128_i32_251 : BitVec 32 := 128#32
  let v419 : BitVec 32 := Scalar.muli v216 c128_i32_251
  let c16_i32_250 : BitVec 32 := 16#32
  let c0_i32_153 : BitVec 32 := 0#32
  let c1_i32_155 : BitVec 32 := 1#32
  let arg12 : BitVec 32 := Scf.iv c0_i32_153 c1_i32_155 k2_t12
  let v418 : BitVec 32 := Scalar.addi c16_i32_250 arg12
  let v420 : BitVec 32 := Scalar.addi v419 v418
  let v421 : Index := Scalar.indexCast v420
  ![v421.toNat]
def k2_off38 (k2_t12 : Fin k2_t12_loop.trips) (v425 : BitVec 32) (c0_i32_252 : BitVec 32) : Fin 3 → Nat :=
  let c1_i32_253 : BitVec 32 := 1#32
  let v427 : Index := Scalar.indexCast c1_i32_253
  let c16_i32_250 : BitVec 32 := 16#32
  let c0_i32_153 : BitVec 32 := 0#32
  let c1_i32_155 : BitVec 32 := 1#32
  let arg12 : BitVec 32 := Scf.iv c0_i32_153 c1_i32_155 k2_t12
  let v418 : BitVec 32 := Scalar.addi c16_i32_250 arg12
  let v428 : Index := Scalar.indexCast v418
  let v426 : BitVec 32 := Scalar.addi v425 c0_i32_252
  let v429 : Index := Scalar.indexCast v426
  ![1, v428.toNat, v429.toNat]

def k2_chk10 (k2_t12 : Fin k2_t12_loop.trips) (v425 : BitVec 32) : Prop :=
  (∀ (r : Fin 4), ∀ a, (k2_off38 k2_t12 v425 (BitVec.ofNat 32 (16 * r.val))) a + S1x1x16.size a ≤ S2x128x128.size a)
instance k2_chk10.dec : ∀ (k2_t12 : Fin k2_t12_loop.trips) (v425 : BitVec 32), Decidable (k2_chk10 k2_t12 v425) := fun k2_t12 v425 => decidable_of_iff' _ (Iff.of_eq (k2_chk10.eq_1 k2_t12 v425))
theorem k2_off38_inb : ∀ (k2_t12 : Fin k2_t12_loop.trips) (v425 : BitVec 32) (k2_hw10 : k2_chk10 k2_t12 v425), ∀ (r : Fin 4), ∀ a, (k2_off38 k2_t12 v425 (BitVec.ofNat 32 (16 * r.val))) a + S1x1x16.size a ≤ S2x128x128.size a := fun k2_t12 v425 k2_hw10 r => k2_hw10 r

def k2_off39 (k2_t2 : Fin k2_t2_loop.trips) (c0_i32_158 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c4_i32_157 : BitVec 32 := 4#32
  let v252 : BitVec 32 := Scalar.muli v216 c4_i32_157
  let v253 : BitVec 32 := Scalar.addi v252 c0_i32_158
  let v254 : Index := Scalar.indexCast v253
  let c64_159 : Index := 64#32
  ![v254.toNat, 64]
def k2_off40 (k2_t2 : Fin k2_t2_loop.trips) (c0_i32_158 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c4_i32_157 : BitVec 32 := 4#32
  let v252 : BitVec 32 := Scalar.muli v216 c4_i32_157
  let v253 : BitVec 32 := Scalar.addi v252 c0_i32_158
  let v258 : Index := Scalar.indexCast v253
  let c80_160 : Index := 80#32
  ![v258.toNat, 80]
def k2_off41 (k2_t2 : Fin k2_t2_loop.trips) (c0_i32_158 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c4_i32_157 : BitVec 32 := 4#32
  let v252 : BitVec 32 := Scalar.muli v216 c4_i32_157
  let v253 : BitVec 32 := Scalar.addi v252 c0_i32_158
  let v262 : Index := Scalar.indexCast v253
  let c96_161 : Index := 96#32
  ![v262.toNat, 96]
def k2_off42 (k2_t2 : Fin k2_t2_loop.trips) (c0_i32_158 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c4_i32_157 : BitVec 32 := 4#32
  let v252 : BitVec 32 := Scalar.muli v216 c4_i32_157
  let v253 : BitVec 32 := Scalar.addi v252 c0_i32_158
  let v266 : Index := Scalar.indexCast v253
  let c112_162 : Index := 112#32
  ![v266.toNat, 112]
@[reducible] def k2_t13_loop : Scf.Loop 32 :=
  let c0_i32_167 : BitVec 32 := 0#32
  let c16_i32_168 : BitVec 32 := 16#32
  let v274 : BitVec 32 := Scalar.addi c0_i32_167 c16_i32_168
  let c1_i32_169 : BitVec 32 := 1#32
  ⟨c0_i32_167, v274, c1_i32_169⟩
def k2_off43 (k2_t2 : Fin k2_t2_loop.trips) (k2_t13 : Fin k2_t13_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c128_i32_250 : BitVec 32 := 128#32
  let v419 : BitVec 32 := Scalar.muli v216 c128_i32_250
  let c32_i32 : BitVec 32 := 32#32
  let c0_i32_167 : BitVec 32 := 0#32
  let c1_i32_169 : BitVec 32 := 1#32
  let arg12 : BitVec 32 := Scf.iv c0_i32_167 c1_i32_169 k2_t13
  let v418 : BitVec 32 := Scalar.addi c32_i32 arg12
  let v420 : BitVec 32 := Scalar.addi v419 v418
  let v421 : Index := Scalar.indexCast v420
  ![v421.toNat]
def k2_off44 (k2_t13 : Fin k2_t13_loop.trips) (v425 : BitVec 32) (c0_i32_251 : BitVec 32) : Fin 3 → Nat :=
  let c1_i32_252 : BitVec 32 := 1#32
  let v427 : Index := Scalar.indexCast c1_i32_252
  let c32_i32 : BitVec 32 := 32#32
  let c0_i32_167 : BitVec 32 := 0#32
  let c1_i32_169 : BitVec 32 := 1#32
  let arg12 : BitVec 32 := Scf.iv c0_i32_167 c1_i32_169 k2_t13
  let v418 : BitVec 32 := Scalar.addi c32_i32 arg12
  let v428 : Index := Scalar.indexCast v418
  let v426 : BitVec 32 := Scalar.addi v425 c0_i32_251
  let v429 : Index := Scalar.indexCast v426
  ![1, v428.toNat, v429.toNat]

def k2_chk11 (k2_t13 : Fin k2_t13_loop.trips) (v425 : BitVec 32) : Prop :=
  (∀ (r : Fin 4), ∀ a, (k2_off44 k2_t13 v425 (BitVec.ofNat 32 (16 * r.val))) a + S1x1x16.size a ≤ S2x128x128.size a)
instance k2_chk11.dec : ∀ (k2_t13 : Fin k2_t13_loop.trips) (v425 : BitVec 32), Decidable (k2_chk11 k2_t13 v425) := fun k2_t13 v425 => decidable_of_iff' _ (Iff.of_eq (k2_chk11.eq_1 k2_t13 v425))
theorem k2_off44_inb : ∀ (k2_t13 : Fin k2_t13_loop.trips) (v425 : BitVec 32) (k2_hw11 : k2_chk11 k2_t13 v425), ∀ (r : Fin 4), ∀ a, (k2_off44 k2_t13 v425 (BitVec.ofNat 32 (16 * r.val))) a + S1x1x16.size a ≤ S2x128x128.size a := fun k2_t13 v425 k2_hw11 r => k2_hw11 r

@[reducible] def k2_t14_loop : Scf.Loop 32 :=
  let c0_i32_181 : BitVec 32 := 0#32
  let c16_i32_182 : BitVec 32 := 16#32
  let v298 : BitVec 32 := Scalar.addi c0_i32_181 c16_i32_182
  let c1_i32_183 : BitVec 32 := 1#32
  ⟨c0_i32_181, v298, c1_i32_183⟩
def k2_off45 (k2_t2 : Fin k2_t2_loop.trips) (k2_t14 : Fin k2_t14_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c128_i32_250 : BitVec 32 := 128#32
  let v419 : BitVec 32 := Scalar.muli v216 c128_i32_250
  let c48_i32 : BitVec 32 := 48#32
  let c0_i32_181 : BitVec 32 := 0#32
  let c1_i32_183 : BitVec 32 := 1#32
  let arg12 : BitVec 32 := Scf.iv c0_i32_181 c1_i32_183 k2_t14
  let v418 : BitVec 32 := Scalar.addi c48_i32 arg12
  let v420 : BitVec 32 := Scalar.addi v419 v418
  let v421 : Index := Scalar.indexCast v420
  ![v421.toNat]
def k2_off46 (k2_t14 : Fin k2_t14_loop.trips) (v425 : BitVec 32) (c0_i32_251 : BitVec 32) : Fin 3 → Nat :=
  let c1_i32_252 : BitVec 32 := 1#32
  let v427 : Index := Scalar.indexCast c1_i32_252
  let c48_i32 : BitVec 32 := 48#32
  let c0_i32_181 : BitVec 32 := 0#32
  let c1_i32_183 : BitVec 32 := 1#32
  let arg12 : BitVec 32 := Scf.iv c0_i32_181 c1_i32_183 k2_t14
  let v418 : BitVec 32 := Scalar.addi c48_i32 arg12
  let v428 : Index := Scalar.indexCast v418
  let v426 : BitVec 32 := Scalar.addi v425 c0_i32_251
  let v429 : Index := Scalar.indexCast v426
  ![1, v428.toNat, v429.toNat]

def k2_chk12 (k2_t14 : Fin k2_t14_loop.trips) (v425 : BitVec 32) : Prop :=
  (∀ (r : Fin 4), ∀ a, (k2_off46 k2_t14 v425 (BitVec.ofNat 32 (16 * r.val))) a + S1x1x16.size a ≤ S2x128x128.size a)
instance k2_chk12.dec : ∀ (k2_t14 : Fin k2_t14_loop.trips) (v425 : BitVec 32), Decidable (k2_chk12 k2_t14 v425) := fun k2_t14 v425 => decidable_of_iff' _ (Iff.of_eq (k2_chk12.eq_1 k2_t14 v425))
theorem k2_off46_inb : ∀ (k2_t14 : Fin k2_t14_loop.trips) (v425 : BitVec 32) (k2_hw12 : k2_chk12 k2_t14 v425), ∀ (r : Fin 4), ∀ a, (k2_off46 k2_t14 v425 (BitVec.ofNat 32 (16 * r.val))) a + S1x1x16.size a ≤ S2x128x128.size a := fun k2_t14 v425 k2_hw12 r => k2_hw12 r

@[reducible] def k2_t15_loop : Scf.Loop 32 :=
  let c0_i32_195 : BitVec 32 := 0#32
  let c16_i32_196 : BitVec 32 := 16#32
  let v322 : BitVec 32 := Scalar.addi c0_i32_195 c16_i32_196
  let c1_i32_197 : BitVec 32 := 1#32
  ⟨c0_i32_195, v322, c1_i32_197⟩
def k2_off47 (k2_t2 : Fin k2_t2_loop.trips) (k2_t15 : Fin k2_t15_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c128_i32_251 : BitVec 32 := 128#32
  let v419 : BitVec 32 := Scalar.muli v216 c128_i32_251
  let c64_i32_250 : BitVec 32 := 64#32
  let c0_i32_195 : BitVec 32 := 0#32
  let c1_i32_197 : BitVec 32 := 1#32
  let arg12 : BitVec 32 := Scf.iv c0_i32_195 c1_i32_197 k2_t15
  let v418 : BitVec 32 := Scalar.addi c64_i32_250 arg12
  let v420 : BitVec 32 := Scalar.addi v419 v418
  let v421 : Index := Scalar.indexCast v420
  ![v421.toNat]
def k2_off48 (k2_t15 : Fin k2_t15_loop.trips) (v425 : BitVec 32) (c0_i32_252 : BitVec 32) : Fin 3 → Nat :=
  let c1_i32_253 : BitVec 32 := 1#32
  let v427 : Index := Scalar.indexCast c1_i32_253
  let c64_i32_250 : BitVec 32 := 64#32
  let c0_i32_195 : BitVec 32 := 0#32
  let c1_i32_197 : BitVec 32 := 1#32
  let arg12 : BitVec 32 := Scf.iv c0_i32_195 c1_i32_197 k2_t15
  let v418 : BitVec 32 := Scalar.addi c64_i32_250 arg12
  let v428 : Index := Scalar.indexCast v418
  let v426 : BitVec 32 := Scalar.addi v425 c0_i32_252
  let v429 : Index := Scalar.indexCast v426
  ![1, v428.toNat, v429.toNat]

def k2_chk13 (k2_t15 : Fin k2_t15_loop.trips) (v425 : BitVec 32) : Prop :=
  (∀ (r : Fin 4), ∀ a, (k2_off48 k2_t15 v425 (BitVec.ofNat 32 (16 * r.val))) a + S1x1x16.size a ≤ S2x128x128.size a)
instance k2_chk13.dec : ∀ (k2_t15 : Fin k2_t15_loop.trips) (v425 : BitVec 32), Decidable (k2_chk13 k2_t15 v425) := fun k2_t15 v425 => decidable_of_iff' _ (Iff.of_eq (k2_chk13.eq_1 k2_t15 v425))
theorem k2_off48_inb : ∀ (k2_t15 : Fin k2_t15_loop.trips) (v425 : BitVec 32) (k2_hw13 : k2_chk13 k2_t15 v425), ∀ (r : Fin 4), ∀ a, (k2_off48 k2_t15 v425 (BitVec.ofNat 32 (16 * r.val))) a + S1x1x16.size a ≤ S2x128x128.size a := fun k2_t15 v425 k2_hw13 r => k2_hw13 r

@[reducible] def k2_t16_loop : Scf.Loop 32 :=
  let c0_i32_209 : BitVec 32 := 0#32
  let c16_i32_210 : BitVec 32 := 16#32
  let v346 : BitVec 32 := Scalar.addi c0_i32_209 c16_i32_210
  let c1_i32_211 : BitVec 32 := 1#32
  ⟨c0_i32_209, v346, c1_i32_211⟩
def k2_off49 (k2_t2 : Fin k2_t2_loop.trips) (k2_t16 : Fin k2_t16_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c128_i32_250 : BitVec 32 := 128#32
  let v419 : BitVec 32 := Scalar.muli v216 c128_i32_250
  let c80_i32 : BitVec 32 := 80#32
  let c0_i32_209 : BitVec 32 := 0#32
  let c1_i32_211 : BitVec 32 := 1#32
  let arg12 : BitVec 32 := Scf.iv c0_i32_209 c1_i32_211 k2_t16
  let v418 : BitVec 32 := Scalar.addi c80_i32 arg12
  let v420 : BitVec 32 := Scalar.addi v419 v418
  let v421 : Index := Scalar.indexCast v420
  ![v421.toNat]
def k2_off50 (k2_t16 : Fin k2_t16_loop.trips) (v425 : BitVec 32) (c0_i32_251 : BitVec 32) : Fin 3 → Nat :=
  let c1_i32_252 : BitVec 32 := 1#32
  let v427 : Index := Scalar.indexCast c1_i32_252
  let c80_i32 : BitVec 32 := 80#32
  let c0_i32_209 : BitVec 32 := 0#32
  let c1_i32_211 : BitVec 32 := 1#32
  let arg12 : BitVec 32 := Scf.iv c0_i32_209 c1_i32_211 k2_t16
  let v418 : BitVec 32 := Scalar.addi c80_i32 arg12
  let v428 : Index := Scalar.indexCast v418
  let v426 : BitVec 32 := Scalar.addi v425 c0_i32_251
  let v429 : Index := Scalar.indexCast v426
  ![1, v428.toNat, v429.toNat]

def k2_chk14 (k2_t16 : Fin k2_t16_loop.trips) (v425 : BitVec 32) : Prop :=
  (∀ (r : Fin 4), ∀ a, (k2_off50 k2_t16 v425 (BitVec.ofNat 32 (16 * r.val))) a + S1x1x16.size a ≤ S2x128x128.size a)
instance k2_chk14.dec : ∀ (k2_t16 : Fin k2_t16_loop.trips) (v425 : BitVec 32), Decidable (k2_chk14 k2_t16 v425) := fun k2_t16 v425 => decidable_of_iff' _ (Iff.of_eq (k2_chk14.eq_1 k2_t16 v425))
theorem k2_off50_inb : ∀ (k2_t16 : Fin k2_t16_loop.trips) (v425 : BitVec 32) (k2_hw14 : k2_chk14 k2_t16 v425), ∀ (r : Fin 4), ∀ a, (k2_off50 k2_t16 v425 (BitVec.ofNat 32 (16 * r.val))) a + S1x1x16.size a ≤ S2x128x128.size a := fun k2_t16 v425 k2_hw14 r => k2_hw14 r

@[reducible] def k2_t17_loop : Scf.Loop 32 :=
  let c0_i32_223 : BitVec 32 := 0#32
  let c16_i32_224 : BitVec 32 := 16#32
  let v370 : BitVec 32 := Scalar.addi c0_i32_223 c16_i32_224
  let c1_i32_225 : BitVec 32 := 1#32
  ⟨c0_i32_223, v370, c1_i32_225⟩
def k2_off51 (k2_t2 : Fin k2_t2_loop.trips) (k2_t17 : Fin k2_t17_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c128_i32_250 : BitVec 32 := 128#32
  let v419 : BitVec 32 := Scalar.muli v216 c128_i32_250
  let c96_i32 : BitVec 32 := 96#32
  let c0_i32_223 : BitVec 32 := 0#32
  let c1_i32_225 : BitVec 32 := 1#32
  let arg12 : BitVec 32 := Scf.iv c0_i32_223 c1_i32_225 k2_t17
  let v418 : BitVec 32 := Scalar.addi c96_i32 arg12
  let v420 : BitVec 32 := Scalar.addi v419 v418
  let v421 : Index := Scalar.indexCast v420
  ![v421.toNat]
def k2_off52 (k2_t17 : Fin k2_t17_loop.trips) (v425 : BitVec 32) (c0_i32_251 : BitVec 32) : Fin 3 → Nat :=
  let c1_i32_252 : BitVec 32 := 1#32
  let v427 : Index := Scalar.indexCast c1_i32_252
  let c96_i32 : BitVec 32 := 96#32
  let c0_i32_223 : BitVec 32 := 0#32
  let c1_i32_225 : BitVec 32 := 1#32
  let arg12 : BitVec 32 := Scf.iv c0_i32_223 c1_i32_225 k2_t17
  let v418 : BitVec 32 := Scalar.addi c96_i32 arg12
  let v428 : Index := Scalar.indexCast v418
  let v426 : BitVec 32 := Scalar.addi v425 c0_i32_251
  let v429 : Index := Scalar.indexCast v426
  ![1, v428.toNat, v429.toNat]

def k2_chk15 (k2_t17 : Fin k2_t17_loop.trips) (v425 : BitVec 32) : Prop :=
  (∀ (r : Fin 4), ∀ a, (k2_off52 k2_t17 v425 (BitVec.ofNat 32 (16 * r.val))) a + S1x1x16.size a ≤ S2x128x128.size a)
instance k2_chk15.dec : ∀ (k2_t17 : Fin k2_t17_loop.trips) (v425 : BitVec 32), Decidable (k2_chk15 k2_t17 v425) := fun k2_t17 v425 => decidable_of_iff' _ (Iff.of_eq (k2_chk15.eq_1 k2_t17 v425))
theorem k2_off52_inb : ∀ (k2_t17 : Fin k2_t17_loop.trips) (v425 : BitVec 32) (k2_hw15 : k2_chk15 k2_t17 v425), ∀ (r : Fin 4), ∀ a, (k2_off52 k2_t17 v425 (BitVec.ofNat 32 (16 * r.val))) a + S1x1x16.size a ≤ S2x128x128.size a := fun k2_t17 v425 k2_hw15 r => k2_hw15 r

@[reducible] def k2_t18_loop : Scf.Loop 32 :=
  let c0_i32_237 : BitVec 32 := 0#32
  let c16_i32_238 : BitVec 32 := 16#32
  let v394 : BitVec 32 := Scalar.addi c0_i32_237 c16_i32_238
  let c1_i32_239 : BitVec 32 := 1#32
  ⟨c0_i32_237, v394, c1_i32_239⟩
def k2_off53 (k2_t2 : Fin k2_t2_loop.trips) (k2_t18 : Fin k2_t18_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c128_i32_250 : BitVec 32 := 128#32
  let v419 : BitVec 32 := Scalar.muli v216 c128_i32_250
  let c112_i32 : BitVec 32 := 112#32
  let c0_i32_237 : BitVec 32 := 0#32
  let c1_i32_239 : BitVec 32 := 1#32
  let arg12 : BitVec 32 := Scf.iv c0_i32_237 c1_i32_239 k2_t18
  let v418 : BitVec 32 := Scalar.addi c112_i32 arg12
  let v420 : BitVec 32 := Scalar.addi v419 v418
  let v421 : Index := Scalar.indexCast v420
  ![v421.toNat]
def k2_off54 (k2_t18 : Fin k2_t18_loop.trips) (v425 : BitVec 32) (c0_i32_251 : BitVec 32) : Fin 3 → Nat :=
  let c1_i32_252 : BitVec 32 := 1#32
  let v427 : Index := Scalar.indexCast c1_i32_252
  let c112_i32 : BitVec 32 := 112#32
  let c0_i32_237 : BitVec 32 := 0#32
  let c1_i32_239 : BitVec 32 := 1#32
  let arg12 : BitVec 32 := Scf.iv c0_i32_237 c1_i32_239 k2_t18
  let v418 : BitVec 32 := Scalar.addi c112_i32 arg12
  let v428 : Index := Scalar.indexCast v418
  let v426 : BitVec 32 := Scalar.addi v425 c0_i32_251
  let v429 : Index := Scalar.indexCast v426
  ![1, v428.toNat, v429.toNat]

def k2_chk16 (k2_t18 : Fin k2_t18_loop.trips) (v425 : BitVec 32) : Prop :=
  (∀ (r : Fin 4), ∀ a, (k2_off54 k2_t18 v425 (BitVec.ofNat 32 (16 * r.val))) a + S1x1x16.size a ≤ S2x128x128.size a)
instance k2_chk16.dec : ∀ (k2_t18 : Fin k2_t18_loop.trips) (v425 : BitVec 32), Decidable (k2_chk16 k2_t18 v425) := fun k2_t18 v425 => decidable_of_iff' _ (Iff.of_eq (k2_chk16.eq_1 k2_t18 v425))
theorem k2_off54_inb : ∀ (k2_t18 : Fin k2_t18_loop.trips) (v425 : BitVec 32) (k2_hw16 : k2_chk16 k2_t18 v425), ∀ (r : Fin 4), ∀ a, (k2_off54 k2_t18 v425 (BitVec.ofNat 32 (16 * r.val))) a + S1x1x16.size a ≤ S2x128x128.size a := fun k2_t18 v425 k2_hw16 r => k2_hw16 r

def k2_cond2 (k2_t2 : Fin k2_t2_loop.trips) : BitVec 1 :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c2_i32_247 : BitVec 32 := 2#32
  let v414 : BitVec 32 := Scalar.addi v216 c2_i32_247
  let c16_i32_248 : BitVec 32 := 16#32
  let v415 : BitVec 1 := Scalar.cmpi .slt v414 c16_i32_248
  let v416 : BitVec 32 := Scalar.extui v415
  let c0_i32_249 : BitVec 32 := 0#32
  let v417 : BitVec 1 := Scalar.cmpi .ne v416 c0_i32_249
  v417

def k2_off55 (k2_t2 : Fin k2_t2_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k2_t2
  let v14 : BitVec 32 := Scalar.muli c2_i32_18 arg11
  let c1_i32_128 : BitVec 32 := 1#32
  let v216 : BitVec 32 := Scalar.addi v14 c1_i32_128
  let c2_i32_250 : BitVec 32 := 2#32
  let v418 : BitVec 32 := Scalar.addi v216 c2_i32_250
  let c128_i32_251 : BitVec 32 := 128#32
  let v419 : BitVec 32 := Scalar.muli v418 c128_i32_251
  ![v419.toNat]
def k2_off56 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v13 : BitVec 32 := Scalar.muli v1 c64_i32
  let c0_i32_18_r1 : BitVec 32 := 0#32
  ![v13.toNat, 0]
abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  ![v2.toNat]
@[reducible] def k3_t1_loop : Scf.Loop 32 :=
  let c0_i32_0 : BitVec 32 := 0#32
  let c80_i32 : BitVec 32 := 80#32
  let v3 : BitVec 32 := Scalar.addi c0_i32_0 c80_i32
  let c1_i32 : BitVec 32 := 1#32
  ⟨c0_i32_0, v3, c1_i32⟩
def k3_mult1 (k3_t1 : Fin k3_t1_loop.trips) : BitVec 32 :=
  let c0_i32_0 : BitVec 32 := 0#32
  let c1_i32 : BitVec 32 := 1#32
  let arg11 : BitVec 32 := Scf.iv c0_i32_0 c1_i32 k3_t1
  let c16_i32 : BitVec 32 := 16#32
  let v14 : BitVec 32 := Scalar.muli arg11 c16_i32
  v14
def k3_off2 (k3_t1 : Fin k3_t1_loop.trips) : Fin 1 → Nat :=
  let c0_i32_0 : BitVec 32 := 0#32
  let c1_i32 : BitVec 32 := 1#32
  let arg11 : BitVec 32 := Scf.iv c0_i32_0 c1_i32 k3_t1
  let c16_i32 : BitVec 32 := 16#32
  let v14 : BitVec 32 := Scalar.muli arg11 c16_i32
  let v15 : BitVec 32 := v14
  let v25 : Index := Scalar.indexCast v15
  ![v25.toNat]
def k3_off3 (k3_t1 : Fin k3_t1_loop.trips) : Fin 1 → Nat :=
  let c0_i32_0 : BitVec 32 := 0#32
  let c1_i32 : BitVec 32 := 1#32
  let arg11 : BitVec 32 := Scf.iv c0_i32_0 c1_i32 k3_t1
  let c16_i32 : BitVec 32 := 16#32
  let v14 : BitVec 32 := Scalar.muli arg11 c16_i32
  let v15 : BitVec 32 := v14
  let v29 : Index := Scalar.indexCast v15
  ![v29.toNat]
@[reducible] def k3_t2_loop : Scf.Loop 32 :=
  let c0_i32_15 : BitVec 32 := 0#32
  let c8_i32 : BitVec 32 := 8#32
  let v12 : BitVec 32 := Scalar.addi c0_i32_15 c8_i32
  let c1_i32_16 : BitVec 32 := 1#32
  ⟨c0_i32_15, v12, c1_i32_16⟩
def k3_off4 (k3_t2 : Fin k3_t2_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c80_i32_19 : BitVec 32 := 80#32
  let v15 : BitVec 32 := Scalar.muli v14 c80_i32_19
  ![v15.toNat]
@[reducible] def k3_t3_loop : Scf.Loop 32 :=
  let c0_i32_28 : BitVec 32 := 0#32
  let c10_i32 : BitVec 32 := 10#32
  let v24 : BitVec 32 := Scalar.addi c0_i32_28 c10_i32
  let c1_i32_29 : BitVec 32 := 1#32
  ⟨c0_i32_28, v24, c1_i32_29⟩
def k3_off5 (k3_t2 : Fin k3_t2_loop.trips) (k3_t3 : Fin k3_t3_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c80_i32_250 : BitVec 32 := 80#32
  let v419 : BitVec 32 := Scalar.muli v14 c80_i32_250
  let c0_i32_249 : BitVec 32 := 0#32
  let c0_i32_28 : BitVec 32 := 0#32
  let c1_i32_29 : BitVec 32 := 1#32
  let arg12 : BitVec 32 := Scf.iv c0_i32_28 c1_i32_29 k3_t3
  let v418 : BitVec 32 := Scalar.addi c0_i32_249 arg12
  let v420 : BitVec 32 := Scalar.addi v419 v418
  let v421 : Index := Scalar.indexCast v420
  ![v421.toNat]
def k3_off6 (k3_t3 : Fin k3_t3_loop.trips) (v425 : BitVec 32) (c0_i32_251 : BitVec 32) : Fin 3 → Nat :=
  let c0_i32_252 : BitVec 32 := 0#32
  let v427 : Index := Scalar.indexCast c0_i32_252
  let c0_i32_249 : BitVec 32 := 0#32
  let c0_i32_28 : BitVec 32 := 0#32
  let c1_i32_29 : BitVec 32 := 1#32
  let arg12 : BitVec 32 := Scf.iv c0_i32_28 c1_i32_29 k3_t3
  let v418 : BitVec 32 := Scalar.addi c0_i32_249 arg12
  let v428 : Index := Scalar.indexCast v418
  let v426 : BitVec 32 := Scalar.addi v425 c0_i32_251
  let v429 : Index := Scalar.indexCast v426
  ![0, v428.toNat, v429.toNat]

def k3_chk1 (k3_t3 : Fin k3_t3_loop.trips) (v425 : BitVec 32) : Prop :=
  (∀ (r : Fin 4), ∀ a, (k3_off6 k3_t3 v425 (BitVec.ofNat 32 (16 * r.val))) a + S1x1x16.size a ≤ S2x80x128.size a)
instance k3_chk1.dec : ∀ (k3_t3 : Fin k3_t3_loop.trips) (v425 : BitVec 32), Decidable (k3_chk1 k3_t3 v425) := fun k3_t3 v425 => decidable_of_iff' _ (Iff.of_eq (k3_chk1.eq_1 k3_t3 v425))
theorem k3_off6_inb : ∀ (k3_t3 : Fin k3_t3_loop.trips) (v425 : BitVec 32) (k3_hw1 : k3_chk1 k3_t3 v425), ∀ (r : Fin 4), ∀ a, (k3_off6 k3_t3 v425 (BitVec.ofNat 32 (16 * r.val))) a + S1x1x16.size a ≤ S2x80x128.size a := fun k3_t3 v425 k3_hw1 r => k3_hw1 r

def k3_off7 (k3_t2 : Fin k3_t2_loop.trips) (c0_i32_31 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c4_i32 : BitVec 32 := 4#32
  let v26 : BitVec 32 := Scalar.muli v14 c4_i32
  let v27 : BitVec 32 := Scalar.addi v26 c0_i32_31
  let v28 : Index := Scalar.indexCast v27
  let c0 : Index := 0#32
  ![v28.toNat, 0]
def k3_off8 (k3_t2 : Fin k3_t2_loop.trips) (c0_i32_31 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c4_i32 : BitVec 32 := 4#32
  let v26 : BitVec 32 := Scalar.muli v14 c4_i32
  let v27 : BitVec 32 := Scalar.addi v26 c0_i32_31
  let v32 : Index := Scalar.indexCast v27
  let c16 : Index := 16#32
  ![v32.toNat, 16]
def k3_off9 (k3_t2 : Fin k3_t2_loop.trips) (c0_i32_31 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c4_i32 : BitVec 32 := 4#32
  let v26 : BitVec 32 := Scalar.muli v14 c4_i32
  let v27 : BitVec 32 := Scalar.addi v26 c0_i32_31
  let v36 : Index := Scalar.indexCast v27
  let c32 : Index := 32#32
  ![v36.toNat, 32]
def k3_off10 (k3_t2 : Fin k3_t2_loop.trips) (c0_i32_31 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c4_i32 : BitVec 32 := 4#32
  let v26 : BitVec 32 := Scalar.muli v14 c4_i32
  let v27 : BitVec 32 := Scalar.addi v26 c0_i32_31
  let v40 : Index := Scalar.indexCast v27
  let c48 : Index := 48#32
  ![v40.toNat, 48]
@[reducible] def k3_t4_loop : Scf.Loop 32 :=
  let c0_i32_36 : BitVec 32 := 0#32
  let c10_i32_37 : BitVec 32 := 10#32
  let v48 : BitVec 32 := Scalar.addi c0_i32_36 c10_i32_37
  let c1_i32_38 : BitVec 32 := 1#32
  ⟨c0_i32_36, v48, c1_i32_38⟩
def k3_off11 (k3_t2 : Fin k3_t2_loop.trips) (k3_t4 : Fin k3_t4_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c80_i32_250 : BitVec 32 := 80#32
  let v419 : BitVec 32 := Scalar.muli v14 c80_i32_250
  let c10_i32_249 : BitVec 32 := 10#32
  let c0_i32_36 : BitVec 32 := 0#32
  let c1_i32_38 : BitVec 32 := 1#32
  let arg12 : BitVec 32 := Scf.iv c0_i32_36 c1_i32_38 k3_t4
  let v418 : BitVec 32 := Scalar.addi c10_i32_249 arg12
  let v420 : BitVec 32 := Scalar.addi v419 v418
  let v421 : Index := Scalar.indexCast v420
  ![v421.toNat]
def k3_off12 (k3_t4 : Fin k3_t4_loop.trips) (v425 : BitVec 32) (c0_i32_251 : BitVec 32) : Fin 3 → Nat :=
  let c0_i32_252 : BitVec 32 := 0#32
  let v427 : Index := Scalar.indexCast c0_i32_252
  let c10_i32_249 : BitVec 32 := 10#32
  let c0_i32_36 : BitVec 32 := 0#32
  let c1_i32_38 : BitVec 32 := 1#32
  let arg12 : BitVec 32 := Scf.iv c0_i32_36 c1_i32_38 k3_t4
  let v418 : BitVec 32 := Scalar.addi c10_i32_249 arg12
  let v428 : Index := Scalar.indexCast v418
  let v426 : BitVec 32 := Scalar.addi v425 c0_i32_251
  let v429 : Index := Scalar.indexCast v426
  ![0, v428.toNat, v429.toNat]

def k3_chk2 (k3_t4 : Fin k3_t4_loop.trips) (v425 : BitVec 32) : Prop :=
  (∀ (r : Fin 4), ∀ a, (k3_off12 k3_t4 v425 (BitVec.ofNat 32 (16 * r.val))) a + S1x1x16.size a ≤ S2x80x128.size a)
instance k3_chk2.dec : ∀ (k3_t4 : Fin k3_t4_loop.trips) (v425 : BitVec 32), Decidable (k3_chk2 k3_t4 v425) := fun k3_t4 v425 => decidable_of_iff' _ (Iff.of_eq (k3_chk2.eq_1 k3_t4 v425))
theorem k3_off12_inb : ∀ (k3_t4 : Fin k3_t4_loop.trips) (v425 : BitVec 32) (k3_hw2 : k3_chk2 k3_t4 v425), ∀ (r : Fin 4), ∀ a, (k3_off12 k3_t4 v425 (BitVec.ofNat 32 (16 * r.val))) a + S1x1x16.size a ≤ S2x80x128.size a := fun k3_t4 v425 k3_hw2 r => k3_hw2 r

def k3_off13 (k3_t2 : Fin k3_t2_loop.trips) (c0_i32_41 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c4_i32_40 : BitVec 32 := 4#32
  let v50 : BitVec 32 := Scalar.muli v14 c4_i32_40
  let v51 : BitVec 32 := Scalar.addi v50 c0_i32_41
  let v52 : Index := Scalar.indexCast v51
  let c64 : Index := 64#32
  ![v52.toNat, 64]
def k3_off14 (k3_t2 : Fin k3_t2_loop.trips) (c0_i32_41 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c4_i32_40 : BitVec 32 := 4#32
  let v50 : BitVec 32 := Scalar.muli v14 c4_i32_40
  let v51 : BitVec 32 := Scalar.addi v50 c0_i32_41
  let v56 : Index := Scalar.indexCast v51
  let c80 : Index := 80#32
  ![v56.toNat, 80]
def k3_off15 (k3_t2 : Fin k3_t2_loop.trips) (c0_i32_41 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c4_i32_40 : BitVec 32 := 4#32
  let v50 : BitVec 32 := Scalar.muli v14 c4_i32_40
  let v51 : BitVec 32 := Scalar.addi v50 c0_i32_41
  let v60 : Index := Scalar.indexCast v51
  let c96 : Index := 96#32
  ![v60.toNat, 96]
def k3_off16 (k3_t2 : Fin k3_t2_loop.trips) (c0_i32_41 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c4_i32_40 : BitVec 32 := 4#32
  let v50 : BitVec 32 := Scalar.muli v14 c4_i32_40
  let v51 : BitVec 32 := Scalar.addi v50 c0_i32_41
  let v64 : Index := Scalar.indexCast v51
  let c112 : Index := 112#32
  ![v64.toNat, 112]
@[reducible] def k3_t5_loop : Scf.Loop 32 :=
  let c0_i32_46 : BitVec 32 := 0#32
  let c10_i32_47 : BitVec 32 := 10#32
  let v72 : BitVec 32 := Scalar.addi c0_i32_46 c10_i32_47
  let c1_i32_48 : BitVec 32 := 1#32
  ⟨c0_i32_46, v72, c1_i32_48⟩
def k3_off17 (k3_t2 : Fin k3_t2_loop.trips) (k3_t5 : Fin k3_t5_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c80_i32_249 : BitVec 32 := 80#32
  let v419 : BitVec 32 := Scalar.muli v14 c80_i32_249
  let c20_i32 : BitVec 32 := 20#32
  let c0_i32_46 : BitVec 32 := 0#32
  let c1_i32_48 : BitVec 32 := 1#32
  let arg12 : BitVec 32 := Scf.iv c0_i32_46 c1_i32_48 k3_t5
  let v418 : BitVec 32 := Scalar.addi c20_i32 arg12
  let v420 : BitVec 32 := Scalar.addi v419 v418
  let v421 : Index := Scalar.indexCast v420
  ![v421.toNat]
def k3_off18 (k3_t5 : Fin k3_t5_loop.trips) (v425 : BitVec 32) (c0_i32_250 : BitVec 32) : Fin 3 → Nat :=
  let c0_i32_251 : BitVec 32 := 0#32
  let v427 : Index := Scalar.indexCast c0_i32_251
  let c20_i32 : BitVec 32 := 20#32
  let c0_i32_46 : BitVec 32 := 0#32
  let c1_i32_48 : BitVec 32 := 1#32
  let arg12 : BitVec 32 := Scf.iv c0_i32_46 c1_i32_48 k3_t5
  let v418 : BitVec 32 := Scalar.addi c20_i32 arg12
  let v428 : Index := Scalar.indexCast v418
  let v426 : BitVec 32 := Scalar.addi v425 c0_i32_250
  let v429 : Index := Scalar.indexCast v426
  ![0, v428.toNat, v429.toNat]

def k3_chk3 (k3_t5 : Fin k3_t5_loop.trips) (v425 : BitVec 32) : Prop :=
  (∀ (r : Fin 4), ∀ a, (k3_off18 k3_t5 v425 (BitVec.ofNat 32 (16 * r.val))) a + S1x1x16.size a ≤ S2x80x128.size a)
instance k3_chk3.dec : ∀ (k3_t5 : Fin k3_t5_loop.trips) (v425 : BitVec 32), Decidable (k3_chk3 k3_t5 v425) := fun k3_t5 v425 => decidable_of_iff' _ (Iff.of_eq (k3_chk3.eq_1 k3_t5 v425))
theorem k3_off18_inb : ∀ (k3_t5 : Fin k3_t5_loop.trips) (v425 : BitVec 32) (k3_hw3 : k3_chk3 k3_t5 v425), ∀ (r : Fin 4), ∀ a, (k3_off18 k3_t5 v425 (BitVec.ofNat 32 (16 * r.val))) a + S1x1x16.size a ≤ S2x80x128.size a := fun k3_t5 v425 k3_hw3 r => k3_hw3 r

@[reducible] def k3_t6_loop : Scf.Loop 32 :=
  let c0_i32_60 : BitVec 32 := 0#32
  let c10_i32_61 : BitVec 32 := 10#32
  let v96 : BitVec 32 := Scalar.addi c0_i32_60 c10_i32_61
  let c1_i32_62 : BitVec 32 := 1#32
  ⟨c0_i32_60, v96, c1_i32_62⟩
def k3_off19 (k3_t2 : Fin k3_t2_loop.trips) (k3_t6 : Fin k3_t6_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c80_i32_249 : BitVec 32 := 80#32
  let v419 : BitVec 32 := Scalar.muli v14 c80_i32_249
  let c30_i32 : BitVec 32 := 30#32
  let c0_i32_60 : BitVec 32 := 0#32
  let c1_i32_62 : BitVec 32 := 1#32
  let arg12 : BitVec 32 := Scf.iv c0_i32_60 c1_i32_62 k3_t6
  let v418 : BitVec 32 := Scalar.addi c30_i32 arg12
  let v420 : BitVec 32 := Scalar.addi v419 v418
  let v421 : Index := Scalar.indexCast v420
  ![v421.toNat]
def k3_off20 (k3_t6 : Fin k3_t6_loop.trips) (v425 : BitVec 32) (c0_i32_250 : BitVec 32) : Fin 3 → Nat :=
  let c0_i32_251 : BitVec 32 := 0#32
  let v427 : Index := Scalar.indexCast c0_i32_251
  let c30_i32 : BitVec 32 := 30#32
  let c0_i32_60 : BitVec 32 := 0#32
  let c1_i32_62 : BitVec 32 := 1#32
  let arg12 : BitVec 32 := Scf.iv c0_i32_60 c1_i32_62 k3_t6
  let v418 : BitVec 32 := Scalar.addi c30_i32 arg12
  let v428 : Index := Scalar.indexCast v418
  let v426 : BitVec 32 := Scalar.addi v425 c0_i32_250
  let v429 : Index := Scalar.indexCast v426
  ![0, v428.toNat, v429.toNat]

def k3_chk4 (k3_t6 : Fin k3_t6_loop.trips) (v425 : BitVec 32) : Prop :=
  (∀ (r : Fin 4), ∀ a, (k3_off20 k3_t6 v425 (BitVec.ofNat 32 (16 * r.val))) a + S1x1x16.size a ≤ S2x80x128.size a)
instance k3_chk4.dec : ∀ (k3_t6 : Fin k3_t6_loop.trips) (v425 : BitVec 32), Decidable (k3_chk4 k3_t6 v425) := fun k3_t6 v425 => decidable_of_iff' _ (Iff.of_eq (k3_chk4.eq_1 k3_t6 v425))
theorem k3_off20_inb : ∀ (k3_t6 : Fin k3_t6_loop.trips) (v425 : BitVec 32) (k3_hw4 : k3_chk4 k3_t6 v425), ∀ (r : Fin 4), ∀ a, (k3_off20 k3_t6 v425 (BitVec.ofNat 32 (16 * r.val))) a + S1x1x16.size a ≤ S2x80x128.size a := fun k3_t6 v425 k3_hw4 r => k3_hw4 r

@[reducible] def k3_t7_loop : Scf.Loop 32 :=
  let c0_i32_74 : BitVec 32 := 0#32
  let c10_i32_75 : BitVec 32 := 10#32
  let v120 : BitVec 32 := Scalar.addi c0_i32_74 c10_i32_75
  let c1_i32_76 : BitVec 32 := 1#32
  ⟨c0_i32_74, v120, c1_i32_76⟩
def k3_off21 (k3_t2 : Fin k3_t2_loop.trips) (k3_t7 : Fin k3_t7_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c80_i32_249 : BitVec 32 := 80#32
  let v419 : BitVec 32 := Scalar.muli v14 c80_i32_249
  let c40_i32 : BitVec 32 := 40#32
  let c0_i32_74 : BitVec 32 := 0#32
  let c1_i32_76 : BitVec 32 := 1#32
  let arg12 : BitVec 32 := Scf.iv c0_i32_74 c1_i32_76 k3_t7
  let v418 : BitVec 32 := Scalar.addi c40_i32 arg12
  let v420 : BitVec 32 := Scalar.addi v419 v418
  let v421 : Index := Scalar.indexCast v420
  ![v421.toNat]
def k3_off22 (k3_t7 : Fin k3_t7_loop.trips) (v425 : BitVec 32) (c0_i32_250 : BitVec 32) : Fin 3 → Nat :=
  let c0_i32_251 : BitVec 32 := 0#32
  let v427 : Index := Scalar.indexCast c0_i32_251
  let c40_i32 : BitVec 32 := 40#32
  let c0_i32_74 : BitVec 32 := 0#32
  let c1_i32_76 : BitVec 32 := 1#32
  let arg12 : BitVec 32 := Scf.iv c0_i32_74 c1_i32_76 k3_t7
  let v418 : BitVec 32 := Scalar.addi c40_i32 arg12
  let v428 : Index := Scalar.indexCast v418
  let v426 : BitVec 32 := Scalar.addi v425 c0_i32_250
  let v429 : Index := Scalar.indexCast v426
  ![0, v428.toNat, v429.toNat]

def k3_chk5 (k3_t7 : Fin k3_t7_loop.trips) (v425 : BitVec 32) : Prop :=
  (∀ (r : Fin 4), ∀ a, (k3_off22 k3_t7 v425 (BitVec.ofNat 32 (16 * r.val))) a + S1x1x16.size a ≤ S2x80x128.size a)
instance k3_chk5.dec : ∀ (k3_t7 : Fin k3_t7_loop.trips) (v425 : BitVec 32), Decidable (k3_chk5 k3_t7 v425) := fun k3_t7 v425 => decidable_of_iff' _ (Iff.of_eq (k3_chk5.eq_1 k3_t7 v425))
theorem k3_off22_inb : ∀ (k3_t7 : Fin k3_t7_loop.trips) (v425 : BitVec 32) (k3_hw5 : k3_chk5 k3_t7 v425), ∀ (r : Fin 4), ∀ a, (k3_off22 k3_t7 v425 (BitVec.ofNat 32 (16 * r.val))) a + S1x1x16.size a ≤ S2x80x128.size a := fun k3_t7 v425 k3_hw5 r => k3_hw5 r

@[reducible] def k3_t8_loop : Scf.Loop 32 :=
  let c0_i32_88 : BitVec 32 := 0#32
  let c10_i32_89 : BitVec 32 := 10#32
  let v144 : BitVec 32 := Scalar.addi c0_i32_88 c10_i32_89
  let c1_i32_90 : BitVec 32 := 1#32
  ⟨c0_i32_88, v144, c1_i32_90⟩
def k3_off23 (k3_t2 : Fin k3_t2_loop.trips) (k3_t8 : Fin k3_t8_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c80_i32_249 : BitVec 32 := 80#32
  let v419 : BitVec 32 := Scalar.muli v14 c80_i32_249
  let c50_i32 : BitVec 32 := 50#32
  let c0_i32_88 : BitVec 32 := 0#32
  let c1_i32_90 : BitVec 32 := 1#32
  let arg12 : BitVec 32 := Scf.iv c0_i32_88 c1_i32_90 k3_t8
  let v418 : BitVec 32 := Scalar.addi c50_i32 arg12
  let v420 : BitVec 32 := Scalar.addi v419 v418
  let v421 : Index := Scalar.indexCast v420
  ![v421.toNat]
def k3_off24 (k3_t8 : Fin k3_t8_loop.trips) (v425 : BitVec 32) (c0_i32_250 : BitVec 32) : Fin 3 → Nat :=
  let c0_i32_251 : BitVec 32 := 0#32
  let v427 : Index := Scalar.indexCast c0_i32_251
  let c50_i32 : BitVec 32 := 50#32
  let c0_i32_88 : BitVec 32 := 0#32
  let c1_i32_90 : BitVec 32 := 1#32
  let arg12 : BitVec 32 := Scf.iv c0_i32_88 c1_i32_90 k3_t8
  let v418 : BitVec 32 := Scalar.addi c50_i32 arg12
  let v428 : Index := Scalar.indexCast v418
  let v426 : BitVec 32 := Scalar.addi v425 c0_i32_250
  let v429 : Index := Scalar.indexCast v426
  ![0, v428.toNat, v429.toNat]

def k3_chk6 (k3_t8 : Fin k3_t8_loop.trips) (v425 : BitVec 32) : Prop :=
  (∀ (r : Fin 4), ∀ a, (k3_off24 k3_t8 v425 (BitVec.ofNat 32 (16 * r.val))) a + S1x1x16.size a ≤ S2x80x128.size a)
instance k3_chk6.dec : ∀ (k3_t8 : Fin k3_t8_loop.trips) (v425 : BitVec 32), Decidable (k3_chk6 k3_t8 v425) := fun k3_t8 v425 => decidable_of_iff' _ (Iff.of_eq (k3_chk6.eq_1 k3_t8 v425))
theorem k3_off24_inb : ∀ (k3_t8 : Fin k3_t8_loop.trips) (v425 : BitVec 32) (k3_hw6 : k3_chk6 k3_t8 v425), ∀ (r : Fin 4), ∀ a, (k3_off24 k3_t8 v425 (BitVec.ofNat 32 (16 * r.val))) a + S1x1x16.size a ≤ S2x80x128.size a := fun k3_t8 v425 k3_hw6 r => k3_hw6 r

@[reducible] def k3_t9_loop : Scf.Loop 32 :=
  let c0_i32_102 : BitVec 32 := 0#32
  let c10_i32_103 : BitVec 32 := 10#32
  let v168 : BitVec 32 := Scalar.addi c0_i32_102 c10_i32_103
  let c1_i32_104 : BitVec 32 := 1#32
  ⟨c0_i32_102, v168, c1_i32_104⟩
def k3_off25 (k3_t2 : Fin k3_t2_loop.trips) (k3_t9 : Fin k3_t9_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c80_i32_249 : BitVec 32 := 80#32
  let v419 : BitVec 32 := Scalar.muli v14 c80_i32_249
  let c60_i32 : BitVec 32 := 60#32
  let c0_i32_102 : BitVec 32 := 0#32
  let c1_i32_104 : BitVec 32 := 1#32
  let arg12 : BitVec 32 := Scf.iv c0_i32_102 c1_i32_104 k3_t9
  let v418 : BitVec 32 := Scalar.addi c60_i32 arg12
  let v420 : BitVec 32 := Scalar.addi v419 v418
  let v421 : Index := Scalar.indexCast v420
  ![v421.toNat]
def k3_off26 (k3_t9 : Fin k3_t9_loop.trips) (v425 : BitVec 32) (c0_i32_250 : BitVec 32) : Fin 3 → Nat :=
  let c0_i32_251 : BitVec 32 := 0#32
  let v427 : Index := Scalar.indexCast c0_i32_251
  let c60_i32 : BitVec 32 := 60#32
  let c0_i32_102 : BitVec 32 := 0#32
  let c1_i32_104 : BitVec 32 := 1#32
  let arg12 : BitVec 32 := Scf.iv c0_i32_102 c1_i32_104 k3_t9
  let v418 : BitVec 32 := Scalar.addi c60_i32 arg12
  let v428 : Index := Scalar.indexCast v418
  let v426 : BitVec 32 := Scalar.addi v425 c0_i32_250
  let v429 : Index := Scalar.indexCast v426
  ![0, v428.toNat, v429.toNat]

def k3_chk7 (k3_t9 : Fin k3_t9_loop.trips) (v425 : BitVec 32) : Prop :=
  (∀ (r : Fin 4), ∀ a, (k3_off26 k3_t9 v425 (BitVec.ofNat 32 (16 * r.val))) a + S1x1x16.size a ≤ S2x80x128.size a)
instance k3_chk7.dec : ∀ (k3_t9 : Fin k3_t9_loop.trips) (v425 : BitVec 32), Decidable (k3_chk7 k3_t9 v425) := fun k3_t9 v425 => decidable_of_iff' _ (Iff.of_eq (k3_chk7.eq_1 k3_t9 v425))
theorem k3_off26_inb : ∀ (k3_t9 : Fin k3_t9_loop.trips) (v425 : BitVec 32) (k3_hw7 : k3_chk7 k3_t9 v425), ∀ (r : Fin 4), ∀ a, (k3_off26 k3_t9 v425 (BitVec.ofNat 32 (16 * r.val))) a + S1x1x16.size a ≤ S2x80x128.size a := fun k3_t9 v425 k3_hw7 r => k3_hw7 r

@[reducible] def k3_t10_loop : Scf.Loop 32 :=
  let c0_i32_115 : BitVec 32 := 0#32
  let c10_i32_116 : BitVec 32 := 10#32
  let v192 : BitVec 32 := Scalar.addi c0_i32_115 c10_i32_116
  let c1_i32_117 : BitVec 32 := 1#32
  ⟨c0_i32_115, v192, c1_i32_117⟩
def k3_off27 (k3_t2 : Fin k3_t2_loop.trips) (k3_t10 : Fin k3_t10_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c80_i32_249 : BitVec 32 := 80#32
  let v419 : BitVec 32 := Scalar.muli v14 c80_i32_249
  let c70_i32 : BitVec 32 := 70#32
  let c0_i32_115 : BitVec 32 := 0#32
  let c1_i32_117 : BitVec 32 := 1#32
  let arg12 : BitVec 32 := Scf.iv c0_i32_115 c1_i32_117 k3_t10
  let v418 : BitVec 32 := Scalar.addi c70_i32 arg12
  let v420 : BitVec 32 := Scalar.addi v419 v418
  let v421 : Index := Scalar.indexCast v420
  ![v421.toNat]
def k3_off28 (k3_t10 : Fin k3_t10_loop.trips) (v425 : BitVec 32) (c0_i32_250 : BitVec 32) : Fin 3 → Nat :=
  let c0_i32_251 : BitVec 32 := 0#32
  let v427 : Index := Scalar.indexCast c0_i32_251
  let c70_i32 : BitVec 32 := 70#32
  let c0_i32_115 : BitVec 32 := 0#32
  let c1_i32_117 : BitVec 32 := 1#32
  let arg12 : BitVec 32 := Scf.iv c0_i32_115 c1_i32_117 k3_t10
  let v418 : BitVec 32 := Scalar.addi c70_i32 arg12
  let v428 : Index := Scalar.indexCast v418
  let v426 : BitVec 32 := Scalar.addi v425 c0_i32_250
  let v429 : Index := Scalar.indexCast v426
  ![0, v428.toNat, v429.toNat]

def k3_chk8 (k3_t10 : Fin k3_t10_loop.trips) (v425 : BitVec 32) : Prop :=
  (∀ (r : Fin 4), ∀ a, (k3_off28 k3_t10 v425 (BitVec.ofNat 32 (16 * r.val))) a + S1x1x16.size a ≤ S2x80x128.size a)
instance k3_chk8.dec : ∀ (k3_t10 : Fin k3_t10_loop.trips) (v425 : BitVec 32), Decidable (k3_chk8 k3_t10 v425) := fun k3_t10 v425 => decidable_of_iff' _ (Iff.of_eq (k3_chk8.eq_1 k3_t10 v425))
theorem k3_off28_inb : ∀ (k3_t10 : Fin k3_t10_loop.trips) (v425 : BitVec 32) (k3_hw8 : k3_chk8 k3_t10 v425), ∀ (r : Fin 4), ∀ a, (k3_off28 k3_t10 v425 (BitVec.ofNat 32 (16 * r.val))) a + S1x1x16.size a ≤ S2x80x128.size a := fun k3_t10 v425 k3_hw8 r => k3_hw8 r

def k3_cond1 (k3_t2 : Fin k3_t2_loop.trips) : BitVec 1 :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c2_i32_125 : BitVec 32 := 2#32
  let v212 : BitVec 32 := Scalar.addi v14 c2_i32_125
  let c16_i32 : BitVec 32 := 16#32
  let v213 : BitVec 1 := Scalar.cmpi .slt v212 c16_i32
  let v214 : BitVec 32 := Scalar.extui v213
  let c0_i32_126 : BitVec 32 := 0#32
  let v215 : BitVec 1 := Scalar.cmpi .ne v214 c0_i32_126
  v215

def k3_off29 (k3_t2 : Fin k3_t2_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c2_i32_249 : BitVec 32 := 2#32
  let v418 : BitVec 32 := Scalar.addi v14 c2_i32_249
  let c80_i32_250 : BitVec 32 := 80#32
  let v419 : BitVec 32 := Scalar.muli v418 c80_i32_250
  ![v419.toNat]
def k3_off30 (k3_t2 : Fin k3_t2_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c80_i32_128 : BitVec 32 := 80#32
  let v217 : BitVec 32 := Scalar.muli v216 c80_i32_128
  ![v217.toNat]
@[reducible] def k3_t11_loop : Scf.Loop 32 :=
  let c0_i32_138 : BitVec 32 := 0#32
  let c10_i32_139 : BitVec 32 := 10#32
  let v226 : BitVec 32 := Scalar.addi c0_i32_138 c10_i32_139
  let c1_i32_140 : BitVec 32 := 1#32
  ⟨c0_i32_138, v226, c1_i32_140⟩
def k3_off31 (k3_t2 : Fin k3_t2_loop.trips) (k3_t11 : Fin k3_t11_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c80_i32_250 : BitVec 32 := 80#32
  let v419 : BitVec 32 := Scalar.muli v216 c80_i32_250
  let c0_i32_249 : BitVec 32 := 0#32
  let c0_i32_138 : BitVec 32 := 0#32
  let c1_i32_140 : BitVec 32 := 1#32
  let arg12 : BitVec 32 := Scf.iv c0_i32_138 c1_i32_140 k3_t11
  let v418 : BitVec 32 := Scalar.addi c0_i32_249 arg12
  let v420 : BitVec 32 := Scalar.addi v419 v418
  let v421 : Index := Scalar.indexCast v420
  ![v421.toNat]
def k3_off32 (k3_t11 : Fin k3_t11_loop.trips) (v425 : BitVec 32) (c0_i32_251 : BitVec 32) : Fin 3 → Nat :=
  let c1_i32_252 : BitVec 32 := 1#32
  let v427 : Index := Scalar.indexCast c1_i32_252
  let c0_i32_249 : BitVec 32 := 0#32
  let c0_i32_138 : BitVec 32 := 0#32
  let c1_i32_140 : BitVec 32 := 1#32
  let arg12 : BitVec 32 := Scf.iv c0_i32_138 c1_i32_140 k3_t11
  let v418 : BitVec 32 := Scalar.addi c0_i32_249 arg12
  let v428 : Index := Scalar.indexCast v418
  let v426 : BitVec 32 := Scalar.addi v425 c0_i32_251
  let v429 : Index := Scalar.indexCast v426
  ![1, v428.toNat, v429.toNat]

def k3_chk9 (k3_t11 : Fin k3_t11_loop.trips) (v425 : BitVec 32) : Prop :=
  (∀ (r : Fin 4), ∀ a, (k3_off32 k3_t11 v425 (BitVec.ofNat 32 (16 * r.val))) a + S1x1x16.size a ≤ S2x80x128.size a)
instance k3_chk9.dec : ∀ (k3_t11 : Fin k3_t11_loop.trips) (v425 : BitVec 32), Decidable (k3_chk9 k3_t11 v425) := fun k3_t11 v425 => decidable_of_iff' _ (Iff.of_eq (k3_chk9.eq_1 k3_t11 v425))
theorem k3_off32_inb : ∀ (k3_t11 : Fin k3_t11_loop.trips) (v425 : BitVec 32) (k3_hw9 : k3_chk9 k3_t11 v425), ∀ (r : Fin 4), ∀ a, (k3_off32 k3_t11 v425 (BitVec.ofNat 32 (16 * r.val))) a + S1x1x16.size a ≤ S2x80x128.size a := fun k3_t11 v425 k3_hw9 r => k3_hw9 r

def k3_off33 (k3_t2 : Fin k3_t2_loop.trips) (c0_i32_143 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c4_i32_142 : BitVec 32 := 4#32
  let v228 : BitVec 32 := Scalar.muli v216 c4_i32_142
  let v229 : BitVec 32 := Scalar.addi v228 c0_i32_143
  let v230 : Index := Scalar.indexCast v229
  let c0_144 : Index := 0#32
  ![v230.toNat, 0]
def k3_off34 (k3_t2 : Fin k3_t2_loop.trips) (c0_i32_143 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c4_i32_142 : BitVec 32 := 4#32
  let v228 : BitVec 32 := Scalar.muli v216 c4_i32_142
  let v229 : BitVec 32 := Scalar.addi v228 c0_i32_143
  let v234 : Index := Scalar.indexCast v229
  let c16_145 : Index := 16#32
  ![v234.toNat, 16]
def k3_off35 (k3_t2 : Fin k3_t2_loop.trips) (c0_i32_143 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c4_i32_142 : BitVec 32 := 4#32
  let v228 : BitVec 32 := Scalar.muli v216 c4_i32_142
  let v229 : BitVec 32 := Scalar.addi v228 c0_i32_143
  let v238 : Index := Scalar.indexCast v229
  let c32_146 : Index := 32#32
  ![v238.toNat, 32]
def k3_off36 (k3_t2 : Fin k3_t2_loop.trips) (c0_i32_143 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c4_i32_142 : BitVec 32 := 4#32
  let v228 : BitVec 32 := Scalar.muli v216 c4_i32_142
  let v229 : BitVec 32 := Scalar.addi v228 c0_i32_143
  let v242 : Index := Scalar.indexCast v229
  let c48_147 : Index := 48#32
  ![v242.toNat, 48]
@[reducible] def k3_t12_loop : Scf.Loop 32 :=
  let c0_i32_152 : BitVec 32 := 0#32
  let c10_i32_153 : BitVec 32 := 10#32
  let v250 : BitVec 32 := Scalar.addi c0_i32_152 c10_i32_153
  let c1_i32_154 : BitVec 32 := 1#32
  ⟨c0_i32_152, v250, c1_i32_154⟩
def k3_off37 (k3_t2 : Fin k3_t2_loop.trips) (k3_t12 : Fin k3_t12_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c80_i32_250 : BitVec 32 := 80#32
  let v419 : BitVec 32 := Scalar.muli v216 c80_i32_250
  let c10_i32_249 : BitVec 32 := 10#32
  let c0_i32_152 : BitVec 32 := 0#32
  let c1_i32_154 : BitVec 32 := 1#32
  let arg12 : BitVec 32 := Scf.iv c0_i32_152 c1_i32_154 k3_t12
  let v418 : BitVec 32 := Scalar.addi c10_i32_249 arg12
  let v420 : BitVec 32 := Scalar.addi v419 v418
  let v421 : Index := Scalar.indexCast v420
  ![v421.toNat]
def k3_off38 (k3_t12 : Fin k3_t12_loop.trips) (v425 : BitVec 32) (c0_i32_251 : BitVec 32) : Fin 3 → Nat :=
  let c1_i32_252 : BitVec 32 := 1#32
  let v427 : Index := Scalar.indexCast c1_i32_252
  let c10_i32_249 : BitVec 32 := 10#32
  let c0_i32_152 : BitVec 32 := 0#32
  let c1_i32_154 : BitVec 32 := 1#32
  let arg12 : BitVec 32 := Scf.iv c0_i32_152 c1_i32_154 k3_t12
  let v418 : BitVec 32 := Scalar.addi c10_i32_249 arg12
  let v428 : Index := Scalar.indexCast v418
  let v426 : BitVec 32 := Scalar.addi v425 c0_i32_251
  let v429 : Index := Scalar.indexCast v426
  ![1, v428.toNat, v429.toNat]

def k3_chk10 (k3_t12 : Fin k3_t12_loop.trips) (v425 : BitVec 32) : Prop :=
  (∀ (r : Fin 4), ∀ a, (k3_off38 k3_t12 v425 (BitVec.ofNat 32 (16 * r.val))) a + S1x1x16.size a ≤ S2x80x128.size a)
instance k3_chk10.dec : ∀ (k3_t12 : Fin k3_t12_loop.trips) (v425 : BitVec 32), Decidable (k3_chk10 k3_t12 v425) := fun k3_t12 v425 => decidable_of_iff' _ (Iff.of_eq (k3_chk10.eq_1 k3_t12 v425))
theorem k3_off38_inb : ∀ (k3_t12 : Fin k3_t12_loop.trips) (v425 : BitVec 32) (k3_hw10 : k3_chk10 k3_t12 v425), ∀ (r : Fin 4), ∀ a, (k3_off38 k3_t12 v425 (BitVec.ofNat 32 (16 * r.val))) a + S1x1x16.size a ≤ S2x80x128.size a := fun k3_t12 v425 k3_hw10 r => k3_hw10 r

def k3_off39 (k3_t2 : Fin k3_t2_loop.trips) (c0_i32_157 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c4_i32_156 : BitVec 32 := 4#32
  let v252 : BitVec 32 := Scalar.muli v216 c4_i32_156
  let v253 : BitVec 32 := Scalar.addi v252 c0_i32_157
  let v254 : Index := Scalar.indexCast v253
  let c64_158 : Index := 64#32
  ![v254.toNat, 64]
def k3_off40 (k3_t2 : Fin k3_t2_loop.trips) (c0_i32_157 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c4_i32_156 : BitVec 32 := 4#32
  let v252 : BitVec 32 := Scalar.muli v216 c4_i32_156
  let v253 : BitVec 32 := Scalar.addi v252 c0_i32_157
  let v258 : Index := Scalar.indexCast v253
  let c80_159 : Index := 80#32
  ![v258.toNat, 80]
def k3_off41 (k3_t2 : Fin k3_t2_loop.trips) (c0_i32_157 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c4_i32_156 : BitVec 32 := 4#32
  let v252 : BitVec 32 := Scalar.muli v216 c4_i32_156
  let v253 : BitVec 32 := Scalar.addi v252 c0_i32_157
  let v262 : Index := Scalar.indexCast v253
  let c96_160 : Index := 96#32
  ![v262.toNat, 96]
def k3_off42 (k3_t2 : Fin k3_t2_loop.trips) (c0_i32_157 : BitVec 32) : Fin 2 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c4_i32_156 : BitVec 32 := 4#32
  let v252 : BitVec 32 := Scalar.muli v216 c4_i32_156
  let v253 : BitVec 32 := Scalar.addi v252 c0_i32_157
  let v266 : Index := Scalar.indexCast v253
  let c112_161 : Index := 112#32
  ![v266.toNat, 112]
@[reducible] def k3_t13_loop : Scf.Loop 32 :=
  let c0_i32_166 : BitVec 32 := 0#32
  let c10_i32_167 : BitVec 32 := 10#32
  let v274 : BitVec 32 := Scalar.addi c0_i32_166 c10_i32_167
  let c1_i32_168 : BitVec 32 := 1#32
  ⟨c0_i32_166, v274, c1_i32_168⟩
def k3_off43 (k3_t2 : Fin k3_t2_loop.trips) (k3_t13 : Fin k3_t13_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c80_i32_249 : BitVec 32 := 80#32
  let v419 : BitVec 32 := Scalar.muli v216 c80_i32_249
  let c20_i32 : BitVec 32 := 20#32
  let c0_i32_166 : BitVec 32 := 0#32
  let c1_i32_168 : BitVec 32 := 1#32
  let arg12 : BitVec 32 := Scf.iv c0_i32_166 c1_i32_168 k3_t13
  let v418 : BitVec 32 := Scalar.addi c20_i32 arg12
  let v420 : BitVec 32 := Scalar.addi v419 v418
  let v421 : Index := Scalar.indexCast v420
  ![v421.toNat]
def k3_off44 (k3_t13 : Fin k3_t13_loop.trips) (v425 : BitVec 32) (c0_i32_250 : BitVec 32) : Fin 3 → Nat :=
  let c1_i32_251 : BitVec 32 := 1#32
  let v427 : Index := Scalar.indexCast c1_i32_251
  let c20_i32 : BitVec 32 := 20#32
  let c0_i32_166 : BitVec 32 := 0#32
  let c1_i32_168 : BitVec 32 := 1#32
  let arg12 : BitVec 32 := Scf.iv c0_i32_166 c1_i32_168 k3_t13
  let v418 : BitVec 32 := Scalar.addi c20_i32 arg12
  let v428 : Index := Scalar.indexCast v418
  let v426 : BitVec 32 := Scalar.addi v425 c0_i32_250
  let v429 : Index := Scalar.indexCast v426
  ![1, v428.toNat, v429.toNat]

def k3_chk11 (k3_t13 : Fin k3_t13_loop.trips) (v425 : BitVec 32) : Prop :=
  (∀ (r : Fin 4), ∀ a, (k3_off44 k3_t13 v425 (BitVec.ofNat 32 (16 * r.val))) a + S1x1x16.size a ≤ S2x80x128.size a)
instance k3_chk11.dec : ∀ (k3_t13 : Fin k3_t13_loop.trips) (v425 : BitVec 32), Decidable (k3_chk11 k3_t13 v425) := fun k3_t13 v425 => decidable_of_iff' _ (Iff.of_eq (k3_chk11.eq_1 k3_t13 v425))
theorem k3_off44_inb : ∀ (k3_t13 : Fin k3_t13_loop.trips) (v425 : BitVec 32) (k3_hw11 : k3_chk11 k3_t13 v425), ∀ (r : Fin 4), ∀ a, (k3_off44 k3_t13 v425 (BitVec.ofNat 32 (16 * r.val))) a + S1x1x16.size a ≤ S2x80x128.size a := fun k3_t13 v425 k3_hw11 r => k3_hw11 r

@[reducible] def k3_t14_loop : Scf.Loop 32 :=
  let c0_i32_180 : BitVec 32 := 0#32
  let c10_i32_181 : BitVec 32 := 10#32
  let v298 : BitVec 32 := Scalar.addi c0_i32_180 c10_i32_181
  let c1_i32_182 : BitVec 32 := 1#32
  ⟨c0_i32_180, v298, c1_i32_182⟩
def k3_off45 (k3_t2 : Fin k3_t2_loop.trips) (k3_t14 : Fin k3_t14_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c80_i32_249 : BitVec 32 := 80#32
  let v419 : BitVec 32 := Scalar.muli v216 c80_i32_249
  let c30_i32 : BitVec 32 := 30#32
  let c0_i32_180 : BitVec 32 := 0#32
  let c1_i32_182 : BitVec 32 := 1#32
  let arg12 : BitVec 32 := Scf.iv c0_i32_180 c1_i32_182 k3_t14
  let v418 : BitVec 32 := Scalar.addi c30_i32 arg12
  let v420 : BitVec 32 := Scalar.addi v419 v418
  let v421 : Index := Scalar.indexCast v420
  ![v421.toNat]
def k3_off46 (k3_t14 : Fin k3_t14_loop.trips) (v425 : BitVec 32) (c0_i32_250 : BitVec 32) : Fin 3 → Nat :=
  let c1_i32_251 : BitVec 32 := 1#32
  let v427 : Index := Scalar.indexCast c1_i32_251
  let c30_i32 : BitVec 32 := 30#32
  let c0_i32_180 : BitVec 32 := 0#32
  let c1_i32_182 : BitVec 32 := 1#32
  let arg12 : BitVec 32 := Scf.iv c0_i32_180 c1_i32_182 k3_t14
  let v418 : BitVec 32 := Scalar.addi c30_i32 arg12
  let v428 : Index := Scalar.indexCast v418
  let v426 : BitVec 32 := Scalar.addi v425 c0_i32_250
  let v429 : Index := Scalar.indexCast v426
  ![1, v428.toNat, v429.toNat]

def k3_chk12 (k3_t14 : Fin k3_t14_loop.trips) (v425 : BitVec 32) : Prop :=
  (∀ (r : Fin 4), ∀ a, (k3_off46 k3_t14 v425 (BitVec.ofNat 32 (16 * r.val))) a + S1x1x16.size a ≤ S2x80x128.size a)
instance k3_chk12.dec : ∀ (k3_t14 : Fin k3_t14_loop.trips) (v425 : BitVec 32), Decidable (k3_chk12 k3_t14 v425) := fun k3_t14 v425 => decidable_of_iff' _ (Iff.of_eq (k3_chk12.eq_1 k3_t14 v425))
theorem k3_off46_inb : ∀ (k3_t14 : Fin k3_t14_loop.trips) (v425 : BitVec 32) (k3_hw12 : k3_chk12 k3_t14 v425), ∀ (r : Fin 4), ∀ a, (k3_off46 k3_t14 v425 (BitVec.ofNat 32 (16 * r.val))) a + S1x1x16.size a ≤ S2x80x128.size a := fun k3_t14 v425 k3_hw12 r => k3_hw12 r

@[reducible] def k3_t15_loop : Scf.Loop 32 :=
  let c0_i32_194 : BitVec 32 := 0#32
  let c10_i32_195 : BitVec 32 := 10#32
  let v322 : BitVec 32 := Scalar.addi c0_i32_194 c10_i32_195
  let c1_i32_196 : BitVec 32 := 1#32
  ⟨c0_i32_194, v322, c1_i32_196⟩
def k3_off47 (k3_t2 : Fin k3_t2_loop.trips) (k3_t15 : Fin k3_t15_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c80_i32_249 : BitVec 32 := 80#32
  let v419 : BitVec 32 := Scalar.muli v216 c80_i32_249
  let c40_i32 : BitVec 32 := 40#32
  let c0_i32_194 : BitVec 32 := 0#32
  let c1_i32_196 : BitVec 32 := 1#32
  let arg12 : BitVec 32 := Scf.iv c0_i32_194 c1_i32_196 k3_t15
  let v418 : BitVec 32 := Scalar.addi c40_i32 arg12
  let v420 : BitVec 32 := Scalar.addi v419 v418
  let v421 : Index := Scalar.indexCast v420
  ![v421.toNat]
def k3_off48 (k3_t15 : Fin k3_t15_loop.trips) (v425 : BitVec 32) (c0_i32_250 : BitVec 32) : Fin 3 → Nat :=
  let c1_i32_251 : BitVec 32 := 1#32
  let v427 : Index := Scalar.indexCast c1_i32_251
  let c40_i32 : BitVec 32 := 40#32
  let c0_i32_194 : BitVec 32 := 0#32
  let c1_i32_196 : BitVec 32 := 1#32
  let arg12 : BitVec 32 := Scf.iv c0_i32_194 c1_i32_196 k3_t15
  let v418 : BitVec 32 := Scalar.addi c40_i32 arg12
  let v428 : Index := Scalar.indexCast v418
  let v426 : BitVec 32 := Scalar.addi v425 c0_i32_250
  let v429 : Index := Scalar.indexCast v426
  ![1, v428.toNat, v429.toNat]

def k3_chk13 (k3_t15 : Fin k3_t15_loop.trips) (v425 : BitVec 32) : Prop :=
  (∀ (r : Fin 4), ∀ a, (k3_off48 k3_t15 v425 (BitVec.ofNat 32 (16 * r.val))) a + S1x1x16.size a ≤ S2x80x128.size a)
instance k3_chk13.dec : ∀ (k3_t15 : Fin k3_t15_loop.trips) (v425 : BitVec 32), Decidable (k3_chk13 k3_t15 v425) := fun k3_t15 v425 => decidable_of_iff' _ (Iff.of_eq (k3_chk13.eq_1 k3_t15 v425))
theorem k3_off48_inb : ∀ (k3_t15 : Fin k3_t15_loop.trips) (v425 : BitVec 32) (k3_hw13 : k3_chk13 k3_t15 v425), ∀ (r : Fin 4), ∀ a, (k3_off48 k3_t15 v425 (BitVec.ofNat 32 (16 * r.val))) a + S1x1x16.size a ≤ S2x80x128.size a := fun k3_t15 v425 k3_hw13 r => k3_hw13 r

@[reducible] def k3_t16_loop : Scf.Loop 32 :=
  let c0_i32_208 : BitVec 32 := 0#32
  let c10_i32_209 : BitVec 32 := 10#32
  let v346 : BitVec 32 := Scalar.addi c0_i32_208 c10_i32_209
  let c1_i32_210 : BitVec 32 := 1#32
  ⟨c0_i32_208, v346, c1_i32_210⟩
def k3_off49 (k3_t2 : Fin k3_t2_loop.trips) (k3_t16 : Fin k3_t16_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c80_i32_249 : BitVec 32 := 80#32
  let v419 : BitVec 32 := Scalar.muli v216 c80_i32_249
  let c50_i32 : BitVec 32 := 50#32
  let c0_i32_208 : BitVec 32 := 0#32
  let c1_i32_210 : BitVec 32 := 1#32
  let arg12 : BitVec 32 := Scf.iv c0_i32_208 c1_i32_210 k3_t16
  let v418 : BitVec 32 := Scalar.addi c50_i32 arg12
  let v420 : BitVec 32 := Scalar.addi v419 v418
  let v421 : Index := Scalar.indexCast v420
  ![v421.toNat]
def k3_off50 (k3_t16 : Fin k3_t16_loop.trips) (v425 : BitVec 32) (c0_i32_250 : BitVec 32) : Fin 3 → Nat :=
  let c1_i32_251 : BitVec 32 := 1#32
  let v427 : Index := Scalar.indexCast c1_i32_251
  let c50_i32 : BitVec 32 := 50#32
  let c0_i32_208 : BitVec 32 := 0#32
  let c1_i32_210 : BitVec 32 := 1#32
  let arg12 : BitVec 32 := Scf.iv c0_i32_208 c1_i32_210 k3_t16
  let v418 : BitVec 32 := Scalar.addi c50_i32 arg12
  let v428 : Index := Scalar.indexCast v418
  let v426 : BitVec 32 := Scalar.addi v425 c0_i32_250
  let v429 : Index := Scalar.indexCast v426
  ![1, v428.toNat, v429.toNat]

def k3_chk14 (k3_t16 : Fin k3_t16_loop.trips) (v425 : BitVec 32) : Prop :=
  (∀ (r : Fin 4), ∀ a, (k3_off50 k3_t16 v425 (BitVec.ofNat 32 (16 * r.val))) a + S1x1x16.size a ≤ S2x80x128.size a)
instance k3_chk14.dec : ∀ (k3_t16 : Fin k3_t16_loop.trips) (v425 : BitVec 32), Decidable (k3_chk14 k3_t16 v425) := fun k3_t16 v425 => decidable_of_iff' _ (Iff.of_eq (k3_chk14.eq_1 k3_t16 v425))
theorem k3_off50_inb : ∀ (k3_t16 : Fin k3_t16_loop.trips) (v425 : BitVec 32) (k3_hw14 : k3_chk14 k3_t16 v425), ∀ (r : Fin 4), ∀ a, (k3_off50 k3_t16 v425 (BitVec.ofNat 32 (16 * r.val))) a + S1x1x16.size a ≤ S2x80x128.size a := fun k3_t16 v425 k3_hw14 r => k3_hw14 r

@[reducible] def k3_t17_loop : Scf.Loop 32 :=
  let c0_i32_222 : BitVec 32 := 0#32
  let c10_i32_223 : BitVec 32 := 10#32
  let v370 : BitVec 32 := Scalar.addi c0_i32_222 c10_i32_223
  let c1_i32_224 : BitVec 32 := 1#32
  ⟨c0_i32_222, v370, c1_i32_224⟩
def k3_off51 (k3_t2 : Fin k3_t2_loop.trips) (k3_t17 : Fin k3_t17_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c80_i32_249 : BitVec 32 := 80#32
  let v419 : BitVec 32 := Scalar.muli v216 c80_i32_249
  let c60_i32 : BitVec 32 := 60#32
  let c0_i32_222 : BitVec 32 := 0#32
  let c1_i32_224 : BitVec 32 := 1#32
  let arg12 : BitVec 32 := Scf.iv c0_i32_222 c1_i32_224 k3_t17
  let v418 : BitVec 32 := Scalar.addi c60_i32 arg12
  let v420 : BitVec 32 := Scalar.addi v419 v418
  let v421 : Index := Scalar.indexCast v420
  ![v421.toNat]
def k3_off52 (k3_t17 : Fin k3_t17_loop.trips) (v425 : BitVec 32) (c0_i32_250 : BitVec 32) : Fin 3 → Nat :=
  let c1_i32_251 : BitVec 32 := 1#32
  let v427 : Index := Scalar.indexCast c1_i32_251
  let c60_i32 : BitVec 32 := 60#32
  let c0_i32_222 : BitVec 32 := 0#32
  let c1_i32_224 : BitVec 32 := 1#32
  let arg12 : BitVec 32 := Scf.iv c0_i32_222 c1_i32_224 k3_t17
  let v418 : BitVec 32 := Scalar.addi c60_i32 arg12
  let v428 : Index := Scalar.indexCast v418
  let v426 : BitVec 32 := Scalar.addi v425 c0_i32_250
  let v429 : Index := Scalar.indexCast v426
  ![1, v428.toNat, v429.toNat]

def k3_chk15 (k3_t17 : Fin k3_t17_loop.trips) (v425 : BitVec 32) : Prop :=
  (∀ (r : Fin 4), ∀ a, (k3_off52 k3_t17 v425 (BitVec.ofNat 32 (16 * r.val))) a + S1x1x16.size a ≤ S2x80x128.size a)
instance k3_chk15.dec : ∀ (k3_t17 : Fin k3_t17_loop.trips) (v425 : BitVec 32), Decidable (k3_chk15 k3_t17 v425) := fun k3_t17 v425 => decidable_of_iff' _ (Iff.of_eq (k3_chk15.eq_1 k3_t17 v425))
theorem k3_off52_inb : ∀ (k3_t17 : Fin k3_t17_loop.trips) (v425 : BitVec 32) (k3_hw15 : k3_chk15 k3_t17 v425), ∀ (r : Fin 4), ∀ a, (k3_off52 k3_t17 v425 (BitVec.ofNat 32 (16 * r.val))) a + S1x1x16.size a ≤ S2x80x128.size a := fun k3_t17 v425 k3_hw15 r => k3_hw15 r

@[reducible] def k3_t18_loop : Scf.Loop 32 :=
  let c0_i32_236 : BitVec 32 := 0#32
  let c10_i32_237 : BitVec 32 := 10#32
  let v394 : BitVec 32 := Scalar.addi c0_i32_236 c10_i32_237
  let c1_i32_238 : BitVec 32 := 1#32
  ⟨c0_i32_236, v394, c1_i32_238⟩
def k3_off53 (k3_t2 : Fin k3_t2_loop.trips) (k3_t18 : Fin k3_t18_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c80_i32_249 : BitVec 32 := 80#32
  let v419 : BitVec 32 := Scalar.muli v216 c80_i32_249
  let c70_i32 : BitVec 32 := 70#32
  let c0_i32_236 : BitVec 32 := 0#32
  let c1_i32_238 : BitVec 32 := 1#32
  let arg12 : BitVec 32 := Scf.iv c0_i32_236 c1_i32_238 k3_t18
  let v418 : BitVec 32 := Scalar.addi c70_i32 arg12
  let v420 : BitVec 32 := Scalar.addi v419 v418
  let v421 : Index := Scalar.indexCast v420
  ![v421.toNat]
def k3_off54 (k3_t18 : Fin k3_t18_loop.trips) (v425 : BitVec 32) (c0_i32_250 : BitVec 32) : Fin 3 → Nat :=
  let c1_i32_251 : BitVec 32 := 1#32
  let v427 : Index := Scalar.indexCast c1_i32_251
  let c70_i32 : BitVec 32 := 70#32
  let c0_i32_236 : BitVec 32 := 0#32
  let c1_i32_238 : BitVec 32 := 1#32
  let arg12 : BitVec 32 := Scf.iv c0_i32_236 c1_i32_238 k3_t18
  let v418 : BitVec 32 := Scalar.addi c70_i32 arg12
  let v428 : Index := Scalar.indexCast v418
  let v426 : BitVec 32 := Scalar.addi v425 c0_i32_250
  let v429 : Index := Scalar.indexCast v426
  ![1, v428.toNat, v429.toNat]

def k3_chk16 (k3_t18 : Fin k3_t18_loop.trips) (v425 : BitVec 32) : Prop :=
  (∀ (r : Fin 4), ∀ a, (k3_off54 k3_t18 v425 (BitVec.ofNat 32 (16 * r.val))) a + S1x1x16.size a ≤ S2x80x128.size a)
instance k3_chk16.dec : ∀ (k3_t18 : Fin k3_t18_loop.trips) (v425 : BitVec 32), Decidable (k3_chk16 k3_t18 v425) := fun k3_t18 v425 => decidable_of_iff' _ (Iff.of_eq (k3_chk16.eq_1 k3_t18 v425))
theorem k3_off54_inb : ∀ (k3_t18 : Fin k3_t18_loop.trips) (v425 : BitVec 32) (k3_hw16 : k3_chk16 k3_t18 v425), ∀ (r : Fin 4), ∀ a, (k3_off54 k3_t18 v425 (BitVec.ofNat 32 (16 * r.val))) a + S1x1x16.size a ≤ S2x80x128.size a := fun k3_t18 v425 k3_hw16 r => k3_hw16 r

def k3_cond2 (k3_t2 : Fin k3_t2_loop.trips) : BitVec 1 :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c2_i32_246 : BitVec 32 := 2#32
  let v414 : BitVec 32 := Scalar.addi v216 c2_i32_246
  let c16_i32_247 : BitVec 32 := 16#32
  let v415 : BitVec 1 := Scalar.cmpi .slt v414 c16_i32_247
  let v416 : BitVec 32 := Scalar.extui v415
  let c0_i32_248 : BitVec 32 := 0#32
  let v417 : BitVec 1 := Scalar.cmpi .ne v416 c0_i32_248
  v417

def k3_off55 (k3_t2 : Fin k3_t2_loop.trips) : Fin 1 → Nat :=
  let c2_i32_18 : BitVec 32 := 2#32
  let c0_i32_15 : BitVec 32 := 0#32
  let c1_i32_16 : BitVec 32 := 1#32
  let arg11 : BitVec 32 := Scf.iv c0_i32_15 c1_i32_16 k3_t2
  let v14 : BitVec 32 := Scalar.muli c2_i32_18 arg11
  let c1_i32_127 : BitVec 32 := 1#32
  let v216 : BitVec 32 := Scalar.addi v14 c1_i32_127
  let c2_i32_249 : BitVec 32 := 2#32
  let v418 : BitVec 32 := Scalar.addi v216 c2_i32_249
  let c80_i32_250 : BitVec 32 := 80#32
  let v419 : BitVec 32 := Scalar.muli v418 c80_i32_250
  ![v419.toNat]
def k3_off56 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v13 : BitVec 32 := Scalar.muli v1 c64_i32
  let c0_i32_18_r1 : BitVec 32 := 0#32
  ![v13.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S4096x64x36_S4096x64x10_0_0_26 : S4096x64x36.Slices ![0, 0, 26] S4096x64x10
  slices_S4096x64x10_S4096x52x10_0_0_0 : S4096x64x10.Slices ![0, 0, 0] S4096x52x10
  slices_S4096x64x10_S4096x12x10_0_52_0 : S4096x64x10.Slices ![0, 52, 0] S4096x12x10
  transposes_S26x100000x64_S26x64x100000_0_2_1 : S26x100000x64.Transposes [0, 2, 1] S26x64x100000
  inb_S1x64x25088_S1x64x25088_0_0_0 : ∀ a, (![0, 0, 0] : Fin 3 → Nat) a + S1x64x25088.size a ≤ S1x64x25088.size a
  h_S1x64x25088 : 0 < S1x64x25088.numel
  shapeCasts_S1x64x25088_S64x25088 : S1x64x25088.ShapeCasts S64x25088
  transposes_S64x25088_p1_0_S25088x64 : S64x25088.Transposes [1, 0] S25088x64
  inb_S25088x128_S25088x64_0_0 : ∀ a, (![0, 0] : Fin 2 → Nat) a + S25088x64.size a ≤ S25088x128.size a
  h_S25088x64 : 0 < S25088x64.numel
  inb_S25088x128_S25088x64_0_64 : ∀ a, (![0, 64] : Fin 2 → Nat) a + S25088x64.size a ≤ S25088x128.size a
  slices_S4096x64x36_S4096x1x16_0_0_0 : S4096x64x36.Slices ![0, 0, 0] S4096x1x16
  shapeCasts_S4096x1x16_S4096x16 : S4096x1x16.ShapeCasts S4096x16
  shapeCasts_S4096x16_S65536 : S4096x16.ShapeCasts S65536
  slices_S4096x64x36_S4096x1x10_0_0_16 : S4096x64x36.Slices ![0, 0, 16] S4096x1x10
  shapeCasts_S4096x1x10_S4096x10 : S4096x1x10.ShapeCasts S4096x10
  shapeCasts_S4096x10_S40960 : S4096x10.ShapeCasts S40960
  iota_S16_d0_w32_scVector : S16.Iotas .scVector 32 [0]
  h_S16 : 0 < S16.numel
  shapeCasts_S16_S16 : S16.ShapeCasts S16
  inb_S2x128x128_S1x128x128_0_0_0 : ∀ a, (![0, 0, 0] : Fin 3 → Nat) a + S1x128x128.size a ≤ S2x128x128.size a
  squeezes_S1x128x128_S128x128 : S1x128x128.Squeezes S128x128
  inb_S2048_S128_0 : ∀ a, (![0] : Fin 1 → Nat) a + S128.size a ≤ S2048.size a
  inb_S802816x128_S802816x128_0_0 : ∀ a, (![0, 0] : Fin 2 → Nat) a + S802816x128.size a ≤ S802816x128.size a
  gathers_S802816x128_S128x128 : S802816x128.Gathers 0 S128x128
  inb_S2x128x128_S1x128x128_1_0_0 : ∀ a, (![1, 0, 0] : Fin 3 → Nat) a + S1x128x128.size a ≤ S2x128x128.size a
  inb_S2048_S128_128 : ∀ a, (![128] : Fin 1 → Nat) a + S128.size a ≤ S2048.size a
  slices_S16_o0_S1 : S16.Slices ![0] S1
  inpos_S1_p0 : ∀ a, (![0] : Fin 1 → Nat) a < S1.size a
  h_S1x1x16 : 0 < S1x1x16.numel
  shapeCasts_S1x1x16_S16 : S1x1x16.ShapeCasts S16
  h_S1x16 : 0 < S1x16.numel
  shapeCasts_S1x16_S16 : S1x16.ShapeCasts S16
  shapeCasts_S16_S1x16 : S16.ShapeCasts S1x16
  inb_S2x80x128_S1x80x128_0_0_0 : ∀ a, (![0, 0, 0] : Fin 3 → Nat) a + S1x80x128.size a ≤ S2x80x128.size a
  squeezes_S1x80x128_S80x128 : S1x80x128.Squeezes S80x128
  inb_S1280_S80_0 : ∀ a, (![0] : Fin 1 → Nat) a + S80.size a ≤ S1280.size a
  inb_S501760x128_S501760x128_0_0 : ∀ a, (![0, 0] : Fin 2 → Nat) a + S501760x128.size a ≤ S501760x128.size a
  gathers_S501760x128_S80x128 : S501760x128.Gathers 0 S80x128
  inb_S2x80x128_S1x80x128_1_0_0 : ∀ a, (![1, 0, 0] : Fin 3 → Nat) a + S1x80x128.size a ≤ S2x80x128.size a
  inb_S1280_S80_80 : ∀ a, (![80] : Fin 1 → Nat) a + S80.size a ≤ S1280.size a
  shapeCasts_S2048x128_S4096x64 : S2048x128.ShapeCasts S4096x64
  hcc2_scratch4 : 12 + S_.numel ≤ 20
  hcc2_scratch5 : 13 + S_.numel ≤ 20
  hcc2_scoped0 : 14 + S_.numel ≤ 20
  hcc2_scoped1 : 15 + S_.numel ≤ 20
  hcc3_scratch4 : 16 + S_.numel ≤ 20
  hcc3_scratch5 : 17 + S_.numel ≤ 20
  hcc3_scoped0 : 18 + S_.numel ≤ 20
  hcc3_scoped1 : 19 + S_.numel ≤ 20
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x64x25088.size a < S26x64x100000.size a
  hwx0_0 : ∀ i : grid0.Coords, EltTy.bits .f32 = 32 ∨ (Rect.unit (s := S26x64x100000) (fun a => cc0_transform_0 i a * S1x64x25088.size a) (fun a => (Pipeline.Clip.of (cc0_transform_0 i a) (S1x64x25088.size a) (S26x64x100000.size a)).extent (S1x64x25088.size a)) fun a => Pipeline.Clip.inb (Pipeline.Clip.ok_of (hstart0_0 i a))).WholeWords (EltTy.packing .f32)
  hwxs0_0 : ∀ i : grid0.Coords, EltTy.bits .f32 = 32 ∨ (Rect.unit (s := S1x64x25088) (fun _ => 0) (fun a => (Pipeline.Clip.of (cc0_transform_0 i a) (S1x64x25088.size a) (S26x64x100000.size a)).extent (S1x64x25088.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x64x25088.size a < S26x64x100000.size a
  hwx0_1 : ∀ i : grid0.Coords, EltTy.bits .f32 = 32 ∨ (Rect.unit (s := S26x64x100000) (fun a => cc0_transform_1 i a * S1x64x25088.size a) (fun a => (Pipeline.Clip.of (cc0_transform_1 i a) (S1x64x25088.size a) (S26x64x100000.size a)).extent (S1x64x25088.size a)) fun a => Pipeline.Clip.inb (Pipeline.Clip.ok_of (hstart0_1 i a))).WholeWords (EltTy.packing .f32)
  hwxs0_1 : ∀ i : grid0.Coords, EltTy.bits .f32 = 32 ∨ (Rect.unit (s := S1x64x25088) (fun _ => 0) (fun a => (Pipeline.Clip.of (cc0_transform_1 i a) (S1x64x25088.size a) (S26x64x100000.size a)).extent (S1x64x25088.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25088x128.size a ≤ S802816x128.size a
  hwx0_2 : ∀ i : grid0.Coords, EltTy.bits .f32 = 32 ∨ (Rect.block (s := S802816x128) S25088x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1x64x25088.size a < S26x64x100000.size a
  hwx1_0 : ∀ i : grid1.Coords, EltTy.bits .f32 = 32 ∨ (Rect.unit (s := S26x64x100000) (fun a => cc1_transform_0 i a * S1x64x25088.size a) (fun a => (Pipeline.Clip.of (cc1_transform_0 i a) (S1x64x25088.size a) (S26x64x100000.size a)).extent (S1x64x25088.size a)) fun a => Pipeline.Clip.inb (Pipeline.Clip.ok_of (hstart1_0 i a))).WholeWords (EltTy.packing .f32)
  hwxs1_0 : ∀ i : grid1.Coords, EltTy.bits .f32 = 32 ∨ (Rect.unit (s := S1x64x25088) (fun _ => 0) (fun a => (Pipeline.Clip.of (cc1_transform_0 i a) (S1x64x25088.size a) (S26x64x100000.size a)).extent (S1x64x25088.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1x64x25088.size a < S26x64x100000.size a
  hwx1_1 : ∀ i : grid1.Coords, EltTy.bits .f32 = 32 ∨ (Rect.unit (s := S26x64x100000) (fun a => cc1_transform_1 i a * S1x64x25088.size a) (fun a => (Pipeline.Clip.of (cc1_transform_1 i a) (S1x64x25088.size a) (S26x64x100000.size a)).extent (S1x64x25088.size a)) fun a => Pipeline.Clip.inb (Pipeline.Clip.ok_of (hstart1_1 i a))).WholeWords (EltTy.packing .f32)
  hwxs1_1 : ∀ i : grid1.Coords, EltTy.bits .f32 = 32 ∨ (Rect.unit (s := S1x64x25088) (fun _ => 0) (fun a => (Pipeline.Clip.of (cc1_transform_1 i a) (S1x64x25088.size a) (S26x64x100000.size a)).extent (S1x64x25088.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S25088x128.size a ≤ S501760x128.size a
  hwx1_2 : ∀ i : grid1.Coords, EltTy.bits .f32 = 32 ∨ (Rect.block (s := S501760x128) S25088x128.size (cc1_transform_2 i) (hinb1_2 i)).WholeWords (EltTy.packing .f32)
  hcore2 : grid2.bound 0 ≤ τ.nSC
  hsub2 : grid2.bound 1 ≤ τ.nSub
  k2_off1_inb : ∀ i : grid2.Coords, ∀ a, (k2_off1 i) a + S2048.size a ≤ S65536.size a
  k2_t1_ok : k2_t1_loop.OK
  k2_mult1_dvd : ∀ k2_t1 : Fin k2_t1_loop.trips, 16 ∣ (k2_mult1 k2_t1).toNat
  k2_off2_inb : ∀ k2_t1 : Fin k2_t1_loop.trips, ∀ a, (k2_off2 k2_t1) a + S16.size a ≤ S2064.size a
  k2_off3_inb : ∀ k2_t1 : Fin k2_t1_loop.trips, ∀ a, (k2_off3 k2_t1) a + S16.size a ≤ S2048.size a
  k2_t2_ok : k2_t2_loop.OK
  k2_off4_inb : ∀ k2_t2 : Fin k2_t2_loop.trips, ∀ a, (k2_off4 k2_t2) a + S128.size a ≤ S2048.size a
  k2_t3_ok : k2_t3_loop.OK
  k2_off5_inb : ∀ (k2_t2 : Fin k2_t2_loop.trips) (k2_t3 : Fin k2_t3_loop.trips), ∀ a, (k2_off5 k2_t2 k2_t3) a + S16.size a ≤ S2064.size a
  k2_off7_inb : ∀ k2_t2 : Fin k2_t2_loop.trips, ∀ (r : Fin 4), ∀ a, (k2_off7 k2_t2 (BitVec.ofNat 32 r.val)) a + S1x16.size a ≤ S64x128.size a
  k2_off8_inb : ∀ k2_t2 : Fin k2_t2_loop.trips, ∀ (r : Fin 4), ∀ a, (k2_off8 k2_t2 (BitVec.ofNat 32 r.val)) a + S1x16.size a ≤ S64x128.size a
  k2_off9_inb : ∀ k2_t2 : Fin k2_t2_loop.trips, ∀ (r : Fin 4), ∀ a, (k2_off9 k2_t2 (BitVec.ofNat 32 r.val)) a + S1x16.size a ≤ S64x128.size a
  k2_off10_inb : ∀ k2_t2 : Fin k2_t2_loop.trips, ∀ (r : Fin 4), ∀ a, (k2_off10 k2_t2 (BitVec.ofNat 32 r.val)) a + S1x16.size a ≤ S64x128.size a
  k2_t4_ok : k2_t4_loop.OK
  k2_off11_inb : ∀ (k2_t2 : Fin k2_t2_loop.trips) (k2_t4 : Fin k2_t4_loop.trips), ∀ a, (k2_off11 k2_t2 k2_t4) a + S16.size a ≤ S2064.size a
  k2_off13_inb : ∀ k2_t2 : Fin k2_t2_loop.trips, ∀ (r : Fin 4), ∀ a, (k2_off13 k2_t2 (BitVec.ofNat 32 r.val)) a + S1x16.size a ≤ S64x128.size a
  k2_off14_inb : ∀ k2_t2 : Fin k2_t2_loop.trips, ∀ (r : Fin 4), ∀ a, (k2_off14 k2_t2 (BitVec.ofNat 32 r.val)) a + S1x16.size a ≤ S64x128.size a
  k2_off15_inb : ∀ k2_t2 : Fin k2_t2_loop.trips, ∀ (r : Fin 4), ∀ a, (k2_off15 k2_t2 (BitVec.ofNat 32 r.val)) a + S1x16.size a ≤ S64x128.size a
  k2_off16_inb : ∀ k2_t2 : Fin k2_t2_loop.trips, ∀ (r : Fin 4), ∀ a, (k2_off16 k2_t2 (BitVec.ofNat 32 r.val)) a + S1x16.size a ≤ S64x128.size a
  k2_t5_ok : k2_t5_loop.OK
  k2_off17_inb : ∀ (k2_t2 : Fin k2_t2_loop.trips) (k2_t5 : Fin k2_t5_loop.trips), ∀ a, (k2_off17 k2_t2 k2_t5) a + S16.size a ≤ S2064.size a
  k2_t6_ok : k2_t6_loop.OK
  k2_off19_inb : ∀ (k2_t2 : Fin k2_t2_loop.trips) (k2_t6 : Fin k2_t6_loop.trips), ∀ a, (k2_off19 k2_t2 k2_t6) a + S16.size a ≤ S2064.size a
  k2_t7_ok : k2_t7_loop.OK
  k2_off21_inb : ∀ (k2_t2 : Fin k2_t2_loop.trips) (k2_t7 : Fin k2_t7_loop.trips), ∀ a, (k2_off21 k2_t2 k2_t7) a + S16.size a ≤ S2064.size a
  k2_t8_ok : k2_t8_loop.OK
  k2_off23_inb : ∀ (k2_t2 : Fin k2_t2_loop.trips) (k2_t8 : Fin k2_t8_loop.trips), ∀ a, (k2_off23 k2_t2 k2_t8) a + S16.size a ≤ S2064.size a
  k2_t9_ok : k2_t9_loop.OK
  k2_off25_inb : ∀ (k2_t2 : Fin k2_t2_loop.trips) (k2_t9 : Fin k2_t9_loop.trips), ∀ a, (k2_off25 k2_t2 k2_t9) a + S16.size a ≤ S2064.size a
  k2_t10_ok : k2_t10_loop.OK
  k2_off27_inb : ∀ (k2_t2 : Fin k2_t2_loop.trips) (k2_t10 : Fin k2_t10_loop.trips), ∀ a, (k2_off27 k2_t2 k2_t10) a + S16.size a ≤ S2064.size a
  k2_off29_inb : ∀ k2_t2 : Fin k2_t2_loop.trips, ∀ (k2_h1 : k2_cond1 k2_t2 = 1#1), ∀ a, (k2_off29 k2_t2) a + S128.size a ≤ S2048.size a
  k2_off30_inb : ∀ k2_t2 : Fin k2_t2_loop.trips, ∀ a, (k2_off30 k2_t2) a + S128.size a ≤ S2048.size a
  k2_t11_ok : k2_t11_loop.OK
  k2_off31_inb : ∀ (k2_t2 : Fin k2_t2_loop.trips) (k2_t11 : Fin k2_t11_loop.trips), ∀ a, (k2_off31 k2_t2 k2_t11) a + S16.size a ≤ S2064.size a
  k2_off33_inb : ∀ k2_t2 : Fin k2_t2_loop.trips, ∀ (r : Fin 4), ∀ a, (k2_off33 k2_t2 (BitVec.ofNat 32 r.val)) a + S1x16.size a ≤ S64x128.size a
  k2_off34_inb : ∀ k2_t2 : Fin k2_t2_loop.trips, ∀ (r : Fin 4), ∀ a, (k2_off34 k2_t2 (BitVec.ofNat 32 r.val)) a + S1x16.size a ≤ S64x128.size a
  k2_off35_inb : ∀ k2_t2 : Fin k2_t2_loop.trips, ∀ (r : Fin 4), ∀ a, (k2_off35 k2_t2 (BitVec.ofNat 32 r.val)) a + S1x16.size a ≤ S64x128.size a
  k2_off36_inb : ∀ k2_t2 : Fin k2_t2_loop.trips, ∀ (r : Fin 4), ∀ a, (k2_off36 k2_t2 (BitVec.ofNat 32 r.val)) a + S1x16.size a ≤ S64x128.size a
  k2_t12_ok : k2_t12_loop.OK
  k2_off37_inb : ∀ (k2_t2 : Fin k2_t2_loop.trips) (k2_t12 : Fin k2_t12_loop.trips), ∀ a, (k2_off37 k2_t2 k2_t12) a + S16.size a ≤ S2064.size a
  k2_off39_inb : ∀ k2_t2 : Fin k2_t2_loop.trips, ∀ (r : Fin 4), ∀ a, (k2_off39 k2_t2 (BitVec.ofNat 32 r.val)) a + S1x16.size a ≤ S64x128.size a
  k2_off40_inb : ∀ k2_t2 : Fin k2_t2_loop.trips, ∀ (r : Fin 4), ∀ a, (k2_off40 k2_t2 (BitVec.ofNat 32 r.val)) a + S1x16.size a ≤ S64x128.size a
  k2_off41_inb : ∀ k2_t2 : Fin k2_t2_loop.trips, ∀ (r : Fin 4), ∀ a, (k2_off41 k2_t2 (BitVec.ofNat 32 r.val)) a + S1x16.size a ≤ S64x128.size a
  k2_off42_inb : ∀ k2_t2 : Fin k2_t2_loop.trips, ∀ (r : Fin 4), ∀ a, (k2_off42 k2_t2 (BitVec.ofNat 32 r.val)) a + S1x16.size a ≤ S64x128.size a
  k2_t13_ok : k2_t13_loop.OK
  k2_off43_inb : ∀ (k2_t2 : Fin k2_t2_loop.trips) (k2_t13 : Fin k2_t13_loop.trips), ∀ a, (k2_off43 k2_t2 k2_t13) a + S16.size a ≤ S2064.size a
  k2_t14_ok : k2_t14_loop.OK
  k2_off45_inb : ∀ (k2_t2 : Fin k2_t2_loop.trips) (k2_t14 : Fin k2_t14_loop.trips), ∀ a, (k2_off45 k2_t2 k2_t14) a + S16.size a ≤ S2064.size a
  k2_t15_ok : k2_t15_loop.OK
  k2_off47_inb : ∀ (k2_t2 : Fin k2_t2_loop.trips) (k2_t15 : Fin k2_t15_loop.trips), ∀ a, (k2_off47 k2_t2 k2_t15) a + S16.size a ≤ S2064.size a
  k2_t16_ok : k2_t16_loop.OK
  k2_off49_inb : ∀ (k2_t2 : Fin k2_t2_loop.trips) (k2_t16 : Fin k2_t16_loop.trips), ∀ a, (k2_off49 k2_t2 k2_t16) a + S16.size a ≤ S2064.size a
  k2_t17_ok : k2_t17_loop.OK
  k2_off51_inb : ∀ (k2_t2 : Fin k2_t2_loop.trips) (k2_t17 : Fin k2_t17_loop.trips), ∀ a, (k2_off51 k2_t2 k2_t17) a + S16.size a ≤ S2064.size a
  k2_t18_ok : k2_t18_loop.OK
  k2_off53_inb : ∀ (k2_t2 : Fin k2_t2_loop.trips) (k2_t18 : Fin k2_t18_loop.trips), ∀ a, (k2_off53 k2_t2 k2_t18) a + S16.size a ≤ S2064.size a
  k2_off55_inb : ∀ k2_t2 : Fin k2_t2_loop.trips, ∀ (k2_h2 : k2_cond2 k2_t2 = 1#1), ∀ a, (k2_off55 k2_t2) a + S128.size a ≤ S2048.size a
  k2_off56_inb : ∀ i : grid2.Coords, ∀ a, (k2_off56 i) a + S64x128.size a ≤ S2048x128.size a
  hcore3 : grid3.bound 0 ≤ τ.nSC
  hsub3 : grid3.bound 1 ≤ τ.nSub
  k3_off1_inb : ∀ i : grid3.Coords, ∀ a, (k3_off1 i) a + S1280.size a ≤ S40960.size a
  k3_t1_ok : k3_t1_loop.OK
  k3_mult1_dvd : ∀ k3_t1 : Fin k3_t1_loop.trips, 16 ∣ (k3_mult1 k3_t1).toNat
  k3_off2_inb : ∀ k3_t1 : Fin k3_t1_loop.trips, ∀ a, (k3_off2 k3_t1) a + S16.size a ≤ S1296.size a
  k3_off3_inb : ∀ k3_t1 : Fin k3_t1_loop.trips, ∀ a, (k3_off3 k3_t1) a + S16.size a ≤ S1280.size a
  k3_t2_ok : k3_t2_loop.OK
  k3_off4_inb : ∀ k3_t2 : Fin k3_t2_loop.trips, ∀ a, (k3_off4 k3_t2) a + S80.size a ≤ S1280.size a
  k3_t3_ok : k3_t3_loop.OK
  k3_off5_inb : ∀ (k3_t2 : Fin k3_t2_loop.trips) (k3_t3 : Fin k3_t3_loop.trips), ∀ a, (k3_off5 k3_t2 k3_t3) a + S16.size a ≤ S1296.size a
  k3_off7_inb : ∀ k3_t2 : Fin k3_t2_loop.trips, ∀ (r : Fin 4), ∀ a, (k3_off7 k3_t2 (BitVec.ofNat 32 r.val)) a + S1x16.size a ≤ S64x128.size a
  k3_off8_inb : ∀ k3_t2 : Fin k3_t2_loop.trips, ∀ (r : Fin 4), ∀ a, (k3_off8 k3_t2 (BitVec.ofNat 32 r.val)) a + S1x16.size a ≤ S64x128.size a
  k3_off9_inb : ∀ k3_t2 : Fin k3_t2_loop.trips, ∀ (r : Fin 4), ∀ a, (k3_off9 k3_t2 (BitVec.ofNat 32 r.val)) a + S1x16.size a ≤ S64x128.size a
  k3_off10_inb : ∀ k3_t2 : Fin k3_t2_loop.trips, ∀ (r : Fin 4), ∀ a, (k3_off10 k3_t2 (BitVec.ofNat 32 r.val)) a + S1x16.size a ≤ S64x128.size a
  k3_t4_ok : k3_t4_loop.OK
  k3_off11_inb : ∀ (k3_t2 : Fin k3_t2_loop.trips) (k3_t4 : Fin k3_t4_loop.trips), ∀ a, (k3_off11 k3_t2 k3_t4) a + S16.size a ≤ S1296.size a
  k3_off13_inb : ∀ k3_t2 : Fin k3_t2_loop.trips, ∀ (r : Fin 4), ∀ a, (k3_off13 k3_t2 (BitVec.ofNat 32 r.val)) a + S1x16.size a ≤ S64x128.size a
  k3_off14_inb : ∀ k3_t2 : Fin k3_t2_loop.trips, ∀ (r : Fin 4), ∀ a, (k3_off14 k3_t2 (BitVec.ofNat 32 r.val)) a + S1x16.size a ≤ S64x128.size a
  k3_off15_inb : ∀ k3_t2 : Fin k3_t2_loop.trips, ∀ (r : Fin 4), ∀ a, (k3_off15 k3_t2 (BitVec.ofNat 32 r.val)) a + S1x16.size a ≤ S64x128.size a
  k3_off16_inb : ∀ k3_t2 : Fin k3_t2_loop.trips, ∀ (r : Fin 4), ∀ a, (k3_off16 k3_t2 (BitVec.ofNat 32 r.val)) a + S1x16.size a ≤ S64x128.size a
  k3_t5_ok : k3_t5_loop.OK
  k3_off17_inb : ∀ (k3_t2 : Fin k3_t2_loop.trips) (k3_t5 : Fin k3_t5_loop.trips), ∀ a, (k3_off17 k3_t2 k3_t5) a + S16.size a ≤ S1296.size a
  k3_t6_ok : k3_t6_loop.OK
  k3_off19_inb : ∀ (k3_t2 : Fin k3_t2_loop.trips) (k3_t6 : Fin k3_t6_loop.trips), ∀ a, (k3_off19 k3_t2 k3_t6) a + S16.size a ≤ S1296.size a
  k3_t7_ok : k3_t7_loop.OK
  k3_off21_inb : ∀ (k3_t2 : Fin k3_t2_loop.trips) (k3_t7 : Fin k3_t7_loop.trips), ∀ a, (k3_off21 k3_t2 k3_t7) a + S16.size a ≤ S1296.size a
  k3_t8_ok : k3_t8_loop.OK
  k3_off23_inb : ∀ (k3_t2 : Fin k3_t2_loop.trips) (k3_t8 : Fin k3_t8_loop.trips), ∀ a, (k3_off23 k3_t2 k3_t8) a + S16.size a ≤ S1296.size a
  k3_t9_ok : k3_t9_loop.OK
  k3_off25_inb : ∀ (k3_t2 : Fin k3_t2_loop.trips) (k3_t9 : Fin k3_t9_loop.trips), ∀ a, (k3_off25 k3_t2 k3_t9) a + S16.size a ≤ S1296.size a
  k3_t10_ok : k3_t10_loop.OK
  k3_off27_inb : ∀ (k3_t2 : Fin k3_t2_loop.trips) (k3_t10 : Fin k3_t10_loop.trips), ∀ a, (k3_off27 k3_t2 k3_t10) a + S16.size a ≤ S1296.size a
  k3_off29_inb : ∀ k3_t2 : Fin k3_t2_loop.trips, ∀ (k3_h1 : k3_cond1 k3_t2 = 1#1), ∀ a, (k3_off29 k3_t2) a + S80.size a ≤ S1280.size a
  k3_off30_inb : ∀ k3_t2 : Fin k3_t2_loop.trips, ∀ a, (k3_off30 k3_t2) a + S80.size a ≤ S1280.size a
  k3_t11_ok : k3_t11_loop.OK
  k3_off31_inb : ∀ (k3_t2 : Fin k3_t2_loop.trips) (k3_t11 : Fin k3_t11_loop.trips), ∀ a, (k3_off31 k3_t2 k3_t11) a + S16.size a ≤ S1296.size a
  k3_off33_inb : ∀ k3_t2 : Fin k3_t2_loop.trips, ∀ (r : Fin 4), ∀ a, (k3_off33 k3_t2 (BitVec.ofNat 32 r.val)) a + S1x16.size a ≤ S64x128.size a
  k3_off34_inb : ∀ k3_t2 : Fin k3_t2_loop.trips, ∀ (r : Fin 4), ∀ a, (k3_off34 k3_t2 (BitVec.ofNat 32 r.val)) a + S1x16.size a ≤ S64x128.size a
  k3_off35_inb : ∀ k3_t2 : Fin k3_t2_loop.trips, ∀ (r : Fin 4), ∀ a, (k3_off35 k3_t2 (BitVec.ofNat 32 r.val)) a + S1x16.size a ≤ S64x128.size a
  k3_off36_inb : ∀ k3_t2 : Fin k3_t2_loop.trips, ∀ (r : Fin 4), ∀ a, (k3_off36 k3_t2 (BitVec.ofNat 32 r.val)) a + S1x16.size a ≤ S64x128.size a
  k3_t12_ok : k3_t12_loop.OK
  k3_off37_inb : ∀ (k3_t2 : Fin k3_t2_loop.trips) (k3_t12 : Fin k3_t12_loop.trips), ∀ a, (k3_off37 k3_t2 k3_t12) a + S16.size a ≤ S1296.size a
  k3_off39_inb : ∀ k3_t2 : Fin k3_t2_loop.trips, ∀ (r : Fin 4), ∀ a, (k3_off39 k3_t2 (BitVec.ofNat 32 r.val)) a + S1x16.size a ≤ S64x128.size a
  k3_off40_inb : ∀ k3_t2 : Fin k3_t2_loop.trips, ∀ (r : Fin 4), ∀ a, (k3_off40 k3_t2 (BitVec.ofNat 32 r.val)) a + S1x16.size a ≤ S64x128.size a
  k3_off41_inb : ∀ k3_t2 : Fin k3_t2_loop.trips, ∀ (r : Fin 4), ∀ a, (k3_off41 k3_t2 (BitVec.ofNat 32 r.val)) a + S1x16.size a ≤ S64x128.size a
  k3_off42_inb : ∀ k3_t2 : Fin k3_t2_loop.trips, ∀ (r : Fin 4), ∀ a, (k3_off42 k3_t2 (BitVec.ofNat 32 r.val)) a + S1x16.size a ≤ S64x128.size a
  k3_t13_ok : k3_t13_loop.OK
  k3_off43_inb : ∀ (k3_t2 : Fin k3_t2_loop.trips) (k3_t13 : Fin k3_t13_loop.trips), ∀ a, (k3_off43 k3_t2 k3_t13) a + S16.size a ≤ S1296.size a
  k3_t14_ok : k3_t14_loop.OK
  k3_off45_inb : ∀ (k3_t2 : Fin k3_t2_loop.trips) (k3_t14 : Fin k3_t14_loop.trips), ∀ a, (k3_off45 k3_t2 k3_t14) a + S16.size a ≤ S1296.size a
  k3_t15_ok : k3_t15_loop.OK
  k3_off47_inb : ∀ (k3_t2 : Fin k3_t2_loop.trips) (k3_t15 : Fin k3_t15_loop.trips), ∀ a, (k3_off47 k3_t2 k3_t15) a + S16.size a ≤ S1296.size a
  k3_t16_ok : k3_t16_loop.OK
  k3_off49_inb : ∀ (k3_t2 : Fin k3_t2_loop.trips) (k3_t16 : Fin k3_t16_loop.trips), ∀ a, (k3_off49 k3_t2 k3_t16) a + S16.size a ≤ S1296.size a
  k3_t17_ok : k3_t17_loop.OK
  k3_off51_inb : ∀ (k3_t2 : Fin k3_t2_loop.trips) (k3_t17 : Fin k3_t17_loop.trips), ∀ a, (k3_off51 k3_t2 k3_t17) a + S16.size a ≤ S1296.size a
  k3_t18_ok : k3_t18_loop.OK
  k3_off53_inb : ∀ (k3_t2 : Fin k3_t2_loop.trips) (k3_t18 : Fin k3_t18_loop.trips), ∀ a, (k3_off53 k3_t2 k3_t18) a + S16.size a ≤ S1296.size a
  k3_off55_inb : ∀ k3_t2 : Fin k3_t2_loop.trips, ∀ (k3_h2 : k3_cond2 k3_t2 = 1#1), ∀ a, (k3_off55 k3_t2) a + S80.size a ≤ S1280.size a
  k3_off56_inb : ∀ i : grid3.Coords, ∀ a, (k3_off56 i) a + S64x128.size a ≤ S2048x128.size a

variable [Facts₀]

abbrev cc2_scratch4 : DmaSems sig S_ := SemArray.consecutive 12 S_ hcc2_scratch4
abbrev cc2_scratch5 : DmaSems sig S_ := SemArray.consecutive 13 S_ hcc2_scratch5
abbrev cc2_scoped0 : DmaSems sig S_ := SemArray.consecutive 14 S_ hcc2_scoped0
abbrev cc2_scoped1 : DmaSems sig S_ := SemArray.consecutive 15 S_ hcc2_scoped1
abbrev cc3_scratch4 : DmaSems sig S_ := SemArray.consecutive 16 S_ hcc3_scratch4
abbrev cc3_scratch5 : DmaSems sig S_ := SemArray.consecutive 17 S_ hcc3_scratch5
abbrev cc3_scoped0 : DmaSems sig S_ := SemArray.consecutive 18 S_ hcc3_scoped0
abbrev cc3_scoped1 : DmaSems sig S_ := SemArray.consecutive 19 S_ hcc3_scoped1

abbrev win0_0 : Pipeline.Window sig grid0 :=
  Pipeline.Window.ofSpecClip (Memref.whole main_v4) S1x64x25088.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v4) S1x64x25088.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v5) S25088x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v4) S1x64x25088.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v4) S1x64x25088.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v6) S25088x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x64x36 : Shape := ⟨3, ![4096, 64, 36]⟩
abbrev S_ : Shape := ⟨0, ![]⟩
abbrev S26x100000x64 : Shape := ⟨3, ![26, 100000, 64]⟩
abbrev S4096x64x10 : Shape := ⟨3, ![4096, 64, 10]⟩
abbrev S4096x52x10 : Shape := ⟨3, ![4096, 52, 10]⟩
abbrev S4096x12x10 : Shape := ⟨3, ![4096, 12, 10]⟩
abbrev S4096x1x26 : Shape := ⟨3, ![4096, 1, 26]⟩
abbrev S4096x26 : Shape := ⟨2, ![4096, 26]⟩
abbrev S26 : Shape := ⟨1, ![26]⟩
abbrev S1x26 : Shape := ⟨2, ![1, 26]⟩
abbrev S4096x26x1 : Shape := ⟨3, ![4096, 26, 1]⟩
abbrev S4096x26x2 : Shape := ⟨3, ![4096, 26, 2]⟩
abbrev S4096x26x64 : Shape := ⟨3, ![4096, 26, 64]⟩
abbrev S4096x64 : Shape := ⟨2, ![4096, 64]⟩

abbrev nBuf : Space → Nat
  | .hbm => 32
  | .vmem => 0
  | .smem => 0
  | _ => 0

abbrev bufTy : (tb : Table) → Fin (tcTables nBuf tb) → BufTy
  | .hbm, ⟨0, _⟩ => ⟨S4096x64x36, .i32⟩
  | .hbm, ⟨1, _⟩ => ⟨S_, .i32⟩
  | .hbm, ⟨2, _⟩ => ⟨S26x100000x64, .f32⟩
  | .hbm, ⟨3, _⟩ => ⟨S4096x64x10, .i32⟩
  | .hbm, ⟨4, _⟩ => ⟨S4096x64x10, .f32⟩
  | .hbm, ⟨5, _⟩ => ⟨S4096x52x10, .f32⟩
  | .hbm, ⟨6, _⟩ => ⟨S4096x12x10, .f32⟩
  | .hbm, ⟨7, _⟩ => ⟨S4096x1x26, .i32⟩
  | .hbm, ⟨8, _⟩ => ⟨S4096x26, .i32⟩
  | .hbm, ⟨9, _⟩ => ⟨S26, .i32⟩
  | .hbm, ⟨10, _⟩ => ⟨S1x26, .i32⟩
  | .hbm, ⟨11, _⟩ => ⟨S_, .i32⟩
  | .hbm, ⟨12, _⟩ => ⟨S1x26, .i32⟩
  | .hbm, ⟨13, _⟩ => ⟨S1x26, .i1⟩
  | .hbm, ⟨14, _⟩ => ⟨S_, .i32⟩
  | .hbm, ⟨15, _⟩ => ⟨S1x26, .i32⟩
  | .hbm, ⟨16, _⟩ => ⟨S1x26, .i32⟩
  | .hbm, ⟨17, _⟩ => ⟨S1x26, .i32⟩
  | .hbm, ⟨18, _⟩ => ⟨S_, .i32⟩
  | .hbm, ⟨19, _⟩ => ⟨S4096x26, .i32⟩
  | .hbm, ⟨20, _⟩ => ⟨S4096x26, .i1⟩
  | .hbm, ⟨21, _⟩ => ⟨S_, .i32⟩
  | .hbm, ⟨22, _⟩ => ⟨S4096x26, .i32⟩
  | .hbm, ⟨23, _⟩ => ⟨S4096x26, .i32⟩
  | .hbm, ⟨24, _⟩ => ⟨S4096x26, .i32⟩
  | .hbm, ⟨25, _⟩ => ⟨S4096x26, .i32⟩
  | .hbm, ⟨26, _⟩ => ⟨S4096x26x1, .i32⟩
  | .hbm, ⟨27, _⟩ => ⟨S4096x26x1, .i32⟩
  | .hbm, ⟨28, _⟩ => ⟨S4096x26x2, .i32⟩
  | .hbm, ⟨29, _⟩ => ⟨S4096x26x64, .f32⟩
  | .hbm, ⟨30, _⟩ => ⟨S_, .f32⟩
  | .hbm, ⟨31, _⟩ => ⟨S4096x64, .f32⟩
  | _, _ => ⟨S4096x64x36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  slices_S4096x64x36_S4096x64x10_0_0_26 : S4096x64x36.Slices ![0, 0, 26] S4096x64x10
  slices_S4096x64x10_S4096x52x10_0_0_0 : S4096x64x10.Slices ![0, 0, 0] S4096x52x10
  slices_S4096x64x10_S4096x12x10_0_52_0 : S4096x64x10.Slices ![0, 52, 0] S4096x12x10
  slices_S4096x64x36_S4096x1x26_0_0_0 : S4096x64x36.Slices ![0, 0, 0] S4096x1x26
  shapeCasts_S4096x1x26_S4096x26 : S4096x1x26.ShapeCasts S4096x26
  bcast_S26_S1x26_1 : S26.BroadcastsInDim S1x26 (![1] : Fin 1 → Fin S1x26.rank)
  bcast_S_S1x26 : S_.BroadcastsInDim S1x26 (![] : Fin 0 → Fin S1x26.rank)
  bcast_S_S4096x26 : S_.BroadcastsInDim S4096x26 (![] : Fin 0 → Fin S4096x26.rank)
  bcast_S1x26_S4096x26_0_1 : S1x26.BroadcastsInDim S4096x26 (![0, 1] : Fin 2 → Fin S4096x26.rank)
  bcast_S4096x26_S4096x26x1_0_1 : S4096x26.BroadcastsInDim S4096x26x1 (![0, 1] : Fin 2 → Fin S4096x26x1.rank)
  concatenates_S4096x26x1_S4096x26x1_S4096x26x2_d2 : Shape.Concatenates [S4096x26x1, S4096x26x1] S4096x26x2 2
  reducesTo_S4096x26x64_S4096x64_d1 : S4096x26x64.ReducesTo [1] S4096x64
  h_S_ : 0 < S_.numel
  gather_S26x100000x64_S4096x26x2_S4096x26x64_2_01_n_n_01_2_1164_wf : GatherDims.WF S26x100000x64 S4096x26x2 S4096x26x64 [2] [0, 1] [] [0, 1] [] 2 ![1, 1, 64]

variable [Facts₀]

def gather_S26x100000x64_S4096x26x2_S4096x26x64_2_01_n_n_01_2_1164 : GatherDims S26x100000x64 S4096x26x2 S4096x26x64 where
  offsetDims := [2]
  collapsedSliceDims := [0, 1]
  operandBatchingDims := []
  startIndicesBatchingDims := []
  startIndexMap := [0, 1]
  indexVectorDim := 2
  sliceSizes := ![1, 1, 64]
  wf := gather_S26x100000x64_S4096x26x2_S4096x26x64_2_01_n_n_01_2_1164_wf

class Facts : Prop extends Facts₀ where

variable [Facts]
-- ==== Proof.RefRun.lean ====
/-
  The reference program's run: every weakly fair execution of its host operations ends with the three results at
  the operations' composed terms of the arguments, and the arguments unchanged. Its frame is that run with the
  results' values dropped.
-/
import proofs.«219250_g10247791969013_week1_w1_750_27_alg».proof.Defs
import proofs.«219250_g10247791969013_week1_w1_750_27_alg».proof.Proof.Gen.ReferenceIdeal
import proofs.«219250_g10247791969013_week1_w1_750_27_alg».proof.Proof.Gen.ReferenceIdeal.Run
import proofs.«219250_g10247791969013_week1_w1_750_27_alg».proof.Proof.Gen.ReferenceIdeal.Read
import proofs.«219250_g10247791969013_week1_w1_750_27_alg».proof.Proof.Gen.Pre_input_domain

noncomputable section

open Idealize.ShloMosaic Idealize.SL.Sem

namespace Cert.Proof.RefRun

/-- The reference terminates on every weakly fair execution, faults nowhere and leaves its three arguments as they
    were: the run of its host operations, the results' values forgotten. -/
theorem frame : Cert.frame_ReferenceIdeal := fun m ρ _ =>
  (θ_run Cert.ReferenceIdeal.defs _ _).mono (fun _ h c => ⟨(h c).2.2.2.1, (h c).2.2.2.2.1, (h c).2.2.2.2.2⟩)
    (Cert.ReferenceIdeal.Value.run (F := Ideal) m ρ)

end Cert.Proof.RefRun

end
-- ==== Proof.KI.Base.lean ====
/-
  The idealized kernel program as the SparseCore launch theorem sees it, and the resource algebra every part of its
  proof is stated over: the launch handshakes' rounds, the two pipelined transposes' staging cells (rounds with unit
  duties), and the schedule-free counters of the vector subcores' own copies and gathers.
-/
import proofs.«219250_g10247791969013_week1_w1_750_27_alg».proof.KernelIdeal
import proofs.«219250_g10247791969013_week1_w1_750_27_alg».proof.Proof.Gen.KernelIdeal
import proofs.«219250_g10247791969013_week1_w1_750_27_alg».proof.Proof.Gen.KernelIdeal.Launch
import Idealize.ShloMosaic.Lib.SparseCore.Launch
import Idealize.ShloMosaic.Lib.Pipeline.Kit
import Idealize.ShloMosaic.Lib.Pipeline.Regions
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The label signature under the SparseCore calls: the kernels' labels and the two pipelined regions. -/
abbrev ΛP : Labels := Pipeline.Sig Λ₀ (Fin 2) fun p => (pcfgs (F := F) p).Adm
/-- The two SparseCore calls of @main. -/
abbrev K : SparseCore.Cfg τ sig (ΛP (F := F)) 2 := sc (F := F)
/-- The body table under them. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_q (q : Fin 2) : (K (F := F)).nCore q = 2 := by fin_cases q <;> rfl
theorem nSub_q (q : Fin 2) : (K (F := F)).nSub q = 16 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, staging cells, and the counters of the tiles' own transfers (found by instance in the right factor). -/
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

instance EP_landsIn : (EP : Emb UP 𝕄).LandsIn (upEmb : UEmb _ 𝕄) := by unfold EP; infer_instance

end Cert.Proof.KI

end
-- ==== Proof.KI.Host.lean ====
/-
  @main of the idealized kernel program, cut at its four kernel launches: three straight stretches of host
  operations (the numeric features' slices and the transposed tables; the two flat index lists; the final sum and
  reshape) around the two pipelined transposes and the two SparseCore calls, and the valuations the stretches
  leave.
-/
import proofs.«219250_g10247791969013_week1_w1_750_27_alg».proof.Proof.KI.Base
import Idealize.ShloMosaic.Lib.StableHlo.Run

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.Sem
open Idealize.ShloMosaic.StableHlo

variable {F : FTy → Type} [FloatOps F]

/-- The first stretch: the numeric columns sliced out, converted and cut into the past and future windows; the
    tables with their last two axes swapped. -/
abbrev opsA : List (HloOp τ sig (Elt F)) :=
  [
    unary main_arg0 main_v0 ((extractStridedSlice S4096x64x10 ![0, 0, 26] · slices_S4096x64x36_S4096x64x10_0_0_26) : (⟨S4096x64x36, .i32⟩ : BufTy).Contents (Elt F) → (⟨S4096x64x10, .i32⟩ : BufTy).Contents (Elt F)),
    unary main_v0 main_v1 (sitofp .f32 : (⟨S4096x64x10, .i32⟩ : BufTy).Contents (Elt F) → (⟨S4096x64x10, .f32⟩ : BufTy).Contents (Elt F)),
    unary main_v1 main_v2 ((extractStridedSlice S4096x52x10 ![0, 0, 0] · slices_S4096x64x10_S4096x52x10_0_0_0) : (⟨S4096x64x10, .f32⟩ : BufTy).Contents (Elt F) → (⟨S4096x52x10, .f32⟩ : BufTy).Contents (Elt F)),
    unary main_v1 main_v3 ((extractStridedSlice S4096x12x10 ![0, 52, 0] · slices_S4096x64x10_S4096x12x10_0_52_0) : (⟨S4096x64x10, .f32⟩ : BufTy).Contents (Elt F) → (⟨S4096x12x10, .f32⟩ : BufTy).Contents (Elt F)),
    unary main_arg2 main_v4 ((transpose S26x64x100000 [0, 2, 1] · transposes_S26x100000x64_S26x64x100000_0_2_1) : (⟨S26x100000x64, .f32⟩ : BufTy).Contents (Elt F) → (⟨S26x64x100000, .f32⟩ : BufTy).Contents (Elt F)) ]

/-- The second stretch: the index columns 0–15 and 16–25 of time step 0, each flattened batch-major. -/
abbrev opsB : List (HloOp τ sig (Elt F)) :=
  [
    unary main_arg0 main_v7 ((extractStridedSlice S4096x1x16 ![0, 0, 0] · slices_S4096x64x36_S4096x1x16_0_0_0) : (⟨S4096x64x36, .i32⟩ : BufTy).Contents (Elt F) → (⟨S4096x1x16, .i32⟩ : BufTy).Contents (Elt F)),
    reshape main_v7 main_v8 rfl shapeCasts_S4096x1x16_S4096x16,
    reshape main_v8 main_v9 rfl shapeCasts_S4096x16_S65536,
    unary main_arg0 main_v10 ((extractStridedSlice S4096x1x10 ![0, 0, 16] · slices_S4096x64x36_S4096x1x10_0_0_16) : (⟨S4096x64x36, .i32⟩ : BufTy).Contents (Elt F) → (⟨S4096x1x10, .i32⟩ : BufTy).Contents (Elt F)),
    reshape main_v10 main_v11 rfl shapeCasts_S4096x1x10_S4096x10,
    reshape main_v11 main_v12 rfl shapeCasts_S4096x10_S40960 ]

/-- The last stretch: the two partial sums added and reshaped to one row per batch element. -/
abbrev opsC : List (HloOp τ sig (Elt F)) :=
  [
    binary main_v13 main_v14 main_v15 (addf : (⟨S2048x128, .f32⟩ : BufTy).Contents (Elt F) → (⟨S2048x128, .f32⟩ : BufTy).Contents (Elt F) → (⟨S2048x128, .f32⟩ : BufTy).Contents (Elt F)),
    reshape main_v15 main_v16 rfl shapeCasts_S2048x128_S4096x64 ]

/-- @main is the three stretches around its four launches. -/
theorem main_eq (d : Dev nD) :
    main (F := F) d
      = (seq opsA >>= fun _ =>
          Prog.lift (.customCall (SparseCore.inner (Pipeline.entry 0)) ()) >>= fun _ =>
          Prog.lift (.customCall (SparseCore.inner (Pipeline.entry 1)) ()) >>= fun _ =>
          seq opsB >>= fun _ =>
          (sc (F := F)).run d 0 >>= fun _ =>
          (sc (F := F)).run d 1 >>= fun _ =>
          seq opsC) := rfl

/-- The launch valuation of device d, and the valuations after the first two stretches (the second stretch reads
    only the input, so it is taken from the first stretch's valuation whatever the transposes wrote). -/
abbrev V0 (m : (ℓ : Loc nD τ sig) → Buf (Elt F) ℓ) (d : Dev nD) : Valuation τ sig (Elt F) := launchContents m d
def VA (m : (ℓ : Loc nD τ sig) → Buf (Elt F) ℓ) (d : Dev nD) : Valuation τ sig (Elt F) := after opsA (V0 m d)
def VB (m : (ℓ : Loc nD τ sig) → Buf (Elt F) ℓ) (d : Dev nD) : Valuation τ sig (Elt F) := after opsB (VA m d)

end Cert.Proof.KI

end
-- ==== Proof.KI.Tile2Defs.lean ====
/-
  One vector subcore's task of the first embedding-sum call: what it is handed, what it leaves, and the value it
  writes. The task copies its 2048 index words into its own memory, turns each into a row number of the
  pair table (the word plus (position mod 16 / 2) * 100352) beside the lane offset (position mod 16 mod 2) * 64,
  gathers the named rows 128 at a time through two buffers, adds up sixteen gathered half-rows per batch row, and
  copies its 64 x 128 block of sums out.
-/
import proofs.«219250_g10247791969013_week1_w1_750_27_alg».proof.Proof.KI.Base
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The place -/

/-- The SparseCore of grid point `L`. -/
abbrev cV2 (L : grid2.Coords) : Fin τ.nSC := (L 0).castLE hcore2
/-- Its vector subcore. -/
abbrev jV2 (L : grid2.Coords) : Fin τ.nSub := (L 1).castLE hsub2
/-- The thread that runs the task of grid point `L` on device `d`. -/
abbrev thr2 (d : Dev nD) (L : grid2.Coords) : Thread nD τ := V d (cV2 L) (jV2 L)

/-- The pair table, whole. -/
abbrev tabM2 : Memref sig .scVector .hbm S802816x128 .f32 := Memref.whole main_v5_scv
/-- The flat index list, whole. -/
abbrev idxM2 : Memref sig .scVector .hbm S65536 .i32 := Memref.whole main_v9_scv
/-- The result, whole. -/
abbrev outM2 : Memref sig .scVector .hbm S2048x128 .f32 := Memref.whole main_v13_scv
/-- The 2048 index words of grid point `L`, as the task slices them. -/
abbrev idxSl2 (L : grid2.Coords) : Memref sig .scVector .hbm S2048 .i32 :=
  idxM2.slice (Rect.unit (s := S65536) (k2_off1 L) S2048.size (k2_off1_inb L)) (fun _ => rfl)
/-- The 64 result rows of grid point `L`, as the task slices them. -/
abbrev outSl2 (L : grid2.Coords) : Memref sig .scVector .hbm S64x128 .f32 :=
  outM2.slice (Rect.unit (s := S2048x128) (k2_off56 L) S64x128.size (k2_off56_inb L)) (fun _ => rfl)

/-! ## The value -/

/-- The zero word the sums start from. -/
def zf2 : Elt F .f32 := (Scalar.ofBits .f32 0x00000000#32 : F .f32)

/-- The table row the task's list names at position `p` after its rewrite: the index word there plus
    `(p mod 16 / 2) * 100352` (the pair's block of rows). -/
def gRow2 (ix : S2048.Idx → Elt F .i32) (p : ℕ) : ℕ :=
  if h : p < 2048 then (ix (ValueIdx.ix1 ⟨p, h⟩)).toNat + p % 16 / 2 * 100352 else 0

/-- The table at row `r`, column `c` (the zero word outside it). -/
def tbAt2 (tb : S802816x128.Idx → Elt F .f32) (r c : ℕ) : Elt F .f32 :=
  if h : r < 802816 ∧ c < 128 then tb (ValueIdx.ix2 ⟨r, h.1⟩ ⟨c, h.2⟩) else zf2

/-- What the task leaves at row `x 0`, lane `x 1` of its block: batch row `b = 2 (x 0) + (x 1) / 64` of the task,
    lane `(x 1) mod 64` of the sum of its sixteen embedding rows — the `j`-th being the half `j mod 2` of table row
    `gRow2 ix (16 b + j)` — added up from the zero word in the order `j = 0, …, 15`. -/
def OUT2 (tb : S802816x128.Idx → Elt F .f32) (ix : S2048.Idx → Elt F .i32) : S64x128.Idx → Elt F .f32 := fun x =>
  (List.range 16).foldl (fun acc j =>
    (FloatOps.addf (acc : F .f32) (tbAt2 tb (gRow2 ix ((2 * (x 0).val + (x 1).val / 64) * 16 + j)) (j % 2 * 64 + (x 1).val % 64)) : F .f32)) zf2

end Cert.Proof.KI

end
-- ==== Proof.KI.Tile3Defs.lean ====
/-
  One vector subcore's task of the second embedding-sum call: what it is handed, what it leaves, and the value it
  writes. The task copies its 1280 index words into its own memory, turns each into a row number of the
  pair table (the word plus (position mod 10 / 2) * 100352) beside the lane offset (position mod 10 mod 2) * 64,
  gathers the named rows 80 at a time through two buffers, adds up ten gathered half-rows per batch row, and
  copies its 64 x 128 block of sums out.
-/
import proofs.«219250_g10247791969013_week1_w1_750_27_alg».proof.Proof.KI.Base
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The place -/

/-- The SparseCore of grid point `L`. -/
abbrev cV3 (L : grid3.Coords) : Fin τ.nSC := (L 0).castLE hcore3
/-- Its vector subcore. -/
abbrev jV3 (L : grid3.Coords) : Fin τ.nSub := (L 1).castLE hsub3
/-- The thread that runs the task of grid point `L` on device `d`. -/
abbrev thr3 (d : Dev nD) (L : grid3.Coords) : Thread nD τ := V d (cV3 L) (jV3 L)

/-- The pair table, whole. -/
abbrev tabM3 : Memref sig .scVector .hbm S501760x128 .f32 := Memref.whole main_v6_scv
/-- The flat index list, whole. -/
abbrev idxM3 : Memref sig .scVector .hbm S40960 .i32 := Memref.whole main_v12_scv
/-- The result, whole. -/
abbrev outM3 : Memref sig .scVector .hbm S2048x128 .f32 := Memref.whole main_v14_scv
/-- The 1280 index words of grid point `L`, as the task slices them. -/
abbrev idxSl3 (L : grid3.Coords) : Memref sig .scVector .hbm S1280 .i32 :=
  idxM3.slice (Rect.unit (s := S40960) (k3_off1 L) S1280.size (k3_off1_inb L)) (fun _ => rfl)
/-- The 64 result rows of grid point `L`, as the task slices them. -/
abbrev outSl3 (L : grid3.Coords) : Memref sig .scVector .hbm S64x128 .f32 :=
  outM3.slice (Rect.unit (s := S2048x128) (k3_off56 L) S64x128.size (k3_off56_inb L)) (fun _ => rfl)

/-! ## The value -/

/-- The zero word the sums start from. -/
def zf3 : Elt F .f32 := (Scalar.ofBits .f32 0x00000000#32 : F .f32)

/-- The table row the task's list names at position `p` after its rewrite: the index word there plus
    `(p mod 10 / 2) * 100352` (the pair's block of rows). -/
def gRow3 (ix : S1280.Idx → Elt F .i32) (p : ℕ) : ℕ :=
  if h : p < 1280 then (ix (ValueIdx.ix1 ⟨p, h⟩)).toNat + p % 10 / 2 * 100352 else 0

/-- The table at row `r`, column `c` (the zero word outside it). -/
def tbAt3 (tb : S501760x128.Idx → Elt F .f32) (r c : ℕ) : Elt F .f32 :=
  if h : r < 501760 ∧ c < 128 then tb (ValueIdx.ix2 ⟨r, h.1⟩ ⟨c, h.2⟩) else zf3

/-- What the task leaves at row `x 0`, lane `x 1` of its block: batch row `b = 2 (x 0) + (x 1) / 64` of the task,
    lane `(x 1) mod 64` of the sum of its ten embedding rows — the `j`-th being the half `j mod 2` of table row
    `gRow3 ix (10 b + j)` — added up from the zero word in the order `j = 0, …, 9`. -/
def OUT3 (tb : S501760x128.Idx → Elt F .f32) (ix : S1280.Idx → Elt F .i32) : S64x128.Idx → Elt F .f32 := fun x =>
  (List.range 10).foldl (fun acc j =>
    (FloatOps.addf (acc : F .f32) (tbAt3 tb (gRow3 ix ((2 * (x 0).val + (x 1).val / 64) * 10 + j)) (j % 2 * 64 + (x 1).val % 64)) : F .f32)) zf3

end Cert.Proof.KI

end
-- ==== Proof.KI.Pay.lean ====
/-
  What the launch handshakes of the two SparseCore calls carry. Each call reads a pair table whole (every one of
  the 32 tasks holds a read share of it), cuts the flat index list into the tasks' 32 runs of words and the result
  into their 32 blocks of 64 rows; a task hands back its block at the sums of its batch rows. A SparseCore's part
  is the product of its sixteen tasks' parts, so the sequencer's split is the identity.

  The pair table a call finds is what the pipelined transpose before it wrote: on the rows of a pair's block below
  the vocabulary's size it is the transposed tables' entry, and above them (the 352 rows the last input block
  overhangs by) it is not determined. A task never reads those rows, and what it leaves is stated over the
  determined part only.
-/
import proofs.«219250_g10247791969013_week1_w1_750_27_alg».proof.Proof.KI.Base
import proofs.«219250_g10247791969013_week1_w1_750_27_alg».proof.Proof.KI.Host
import proofs.«219250_g10247791969013_week1_w1_750_27_alg».proof.Proof.KI.Tile2Defs
import proofs.«219250_g10247791969013_week1_w1_750_27_alg».proof.Proof.KI.Tile3Defs
import Idealize.ShloMosaic.Lib.Transfers
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-- A buffer of @main on device d, as the TensorCore names it. -/
abbrev tl (d : Dev nD) (b : Ref sig .tc) : Loc nD τ sig := (SparseCore.T d).loc b

/-! ## What the arrays hold -/

/-- The transposed tables [26, 64, 100000] the first stretch leaves. -/
def tabT (d : Dev nD) : S26x64x100000.Idx → Elt F .f32 := VA m d (Proc.devRef .tc main_v4)
/-- The flat index lists the second stretch leaves: columns 0–15, and columns 16–25. -/
def idxA (d : Dev nD) : S65536.Idx → Elt F .i32 := VB m d (Proc.devRef .tc main_v9)
def idxB (d : Dev nD) : S40960.Idx → Elt F .i32 := VB m d (Proc.devRef .tc main_v12)

/-- The pair table of pairs first, first + 1, …: row k * 100352 + v, lane h * 64 + e holds table 2 (first + k) + h,
    entry (v, e); stated with the vocabulary coordinate clamped, so that it is one total function (the clamp is
    never met on the rows a task reads). -/
def pairTab (first : ℕ) (npairs : ℕ) (A : S26x64x100000.Idx → Elt F .f32) (hn : 2 * (first + npairs) ≤ 26) :
    (⟨2, ![npairs * 100352, 128]⟩ : Shape).Idx → Elt F .f32 := fun i =>
  A (ix3 (⟨2 * (first + (i 0).val / 100352) + (i 1).val / 64, by
        have h0 : (i 0).val < npairs * 100352 := (i 0).isLt
        have h1 : (i 1).val < 128 := (i 1).isLt
        omega⟩ : Fin 26)
      (⟨(i 1).val % 64, Nat.mod_lt _ (by decide)⟩ : Fin 64)
      (⟨min ((i 0).val % 100352) 99999, by omega⟩ : Fin 100000))

/-- A table array agrees with the pair table on every row below the vocabulary's size within its pair's block. -/
def TabOK {n : ℕ} (want tb : (⟨2, ![n, 128]⟩ : Shape).Idx → Elt F .f32) : Prop :=
  ∀ i, (i 0).val % 100352 < 100000 → tb i = want i

/-- The read share of a pair table that the task at (c, s) holds: the full share cut in two for the SparseCores, each
    half in sixteen for its vector subcores. -/
abbrev tok (c : Fin 2) (s : Fin 16) : PosShare TreeShare :=
  Transfers.shareTok (Transfers.shareTok fullShare 2 c) 16 s

/-! ## Call 0: the tasks' parts -/

/-- Grid coordinates from a SparseCore and a vector subcore of the call's grid. -/
def coords2 (c : Fin 2) (s : Fin 16) : grid2.Coords :=
  fun | 0 => c | 1 => s | ⟨_ + 2, h⟩ => absurd h (Nat.not_lt.2 (Nat.le_add_left _ _))

/-- The call's pair table: pairs 0–7. -/
def wantA (d : Dev nD) : S802816x128.Idx → Elt F .f32 := pairTab 0 8 (tabT m d) (by decide)

/-- What the task at grid point L is handed: a read share q of the pair table (at contents that agree with the pair
    table where it is determined), its run of index words, and its block of result rows at any contents. -/
def tileIn2 (d : Dev nD) (L : grid2.Coords) (q : PosShare TreeShare) : sProp 𝕄 :=
  iprop((∃ Tb : S802816x128.Idx → Elt F .f32, ⌜TabOK (wantA m d) Tb⌝ ∗ (tl d main_v5 ↦{q} Tb))
        ∗ (tl d main_v9 ↦[(idxSl2 L).view.set]{fullShare} idxA m d)
        ∗ ∃ fo : S2048x128.Idx → Elt F .f32, tl d main_v13 ↦[(outSl2 L).view.set]{fullShare} fo)

/-- What it hands back: its block of result rows at the sums over the pair table of its run of index words. -/
def tileOut2 (d : Dev nD) (L : grid2.Coords) : sProp 𝕄 :=
  iprop(∃ fo : S2048x128.Idx → Elt F .f32, tl d main_v13 ↦[(outSl2 L).view.set]{fullShare}
    ((outSl2 L).view.write (Elt F) fo (OUT2 (wantA m d) ((idxSl2 L).view.read (Elt F) (idxA m d))) Finset.univ))

/-! ## Call 1: the tasks' parts -/

/-- Grid coordinates from a SparseCore and a vector subcore of the call's grid. -/
def coords3 (c : Fin 2) (s : Fin 16) : grid3.Coords :=
  fun | 0 => c | 1 => s | ⟨_ + 2, h⟩ => absurd h (Nat.not_lt.2 (Nat.le_add_left _ _))

/-- The call's pair table: pairs 8–12. -/
def wantB (d : Dev nD) : S501760x128.Idx → Elt F .f32 := pairTab 8 5 (tabT m d) (by decide)

/-- What the task at grid point L is handed: a read share q of the pair table (at contents that agree with the pair
    table where it is determined), its run of index words, and its block of result rows at any contents. -/
def tileIn3 (d : Dev nD) (L : grid3.Coords) (q : PosShare TreeShare) : sProp 𝕄 :=
  iprop((∃ Tb : S501760x128.Idx → Elt F .f32, ⌜TabOK (wantB m d) Tb⌝ ∗ (tl d main_v6 ↦{q} Tb))
        ∗ (tl d main_v12 ↦[(idxSl3 L).view.set]{fullShare} idxB m d)
        ∗ ∃ fo : S2048x128.Idx → Elt F .f32, tl d main_v14 ↦[(outSl3 L).view.set]{fullShare} fo)

/-- What it hands back: its block of result rows at the sums over the pair table of its run of index words. -/
def tileOut3 (d : Dev nD) (L : grid3.Coords) : sProp 𝕄 :=
  iprop(∃ fo : S2048x128.Idx → Elt F .f32, tl d main_v14 ↦[(outSl3 L).view.set]{fullShare}
    ((outSl3 L).view.write (Elt F) fo (OUT3 (wantB m d) ((idxSl3 L).view.read (Elt F) (idxB m d))) Finset.univ))

/-! ## The record -/

/-- What the handshakes carry: a SparseCore's part of a call is the product of its sixteen tasks' parts, both ways;
    no kernel's proof consumes anything of the launch's. -/
def P : (K (F := F)).Pay (nD := nD) (Val := Elt F) (Name := ℕ) (U := UU) where
  st := fun
    | 0 => fun d (c : Fin 2) => bigSep Finset.univ fun s : Fin 16 => tileIn2 m d (coords2 c s) (tok c s)
    | 1 => fun d (c : Fin 2) => bigSep Finset.univ fun s : Fin 16 => tileIn3 m d (coords3 c s) (tok c s)
    | ⟨_ + 2, h⟩ => absurd h (Nat.not_lt.2 (Nat.le_add_left _ _))
  dn := fun
    | 0 => fun d (c : Fin 2) => bigSep Finset.univ fun s : Fin 16 => tileOut2 m d (coords2 c s)
    | 1 => fun d (c : Fin 2) => bigSep Finset.univ fun s : Fin 16 => tileOut3 m d (coords3 c s)
    | ⟨_ + 2, h⟩ => absurd h (Nat.not_lt.2 (Nat.le_add_left _ _))
  go := fun
    | 0 => fun d (c : Fin 2) (s : Fin 16) => tileIn2 m d (coords2 c s) (tok c s)
    | 1 => fun d (c : Fin 2) (s : Fin 16) => tileIn3 m d (coords3 c s) (tok c s)
    | ⟨_ + 2, h⟩ => absurd h (Nat.not_lt.2 (Nat.le_add_left _ _))
  td := fun
    | 0 => fun d (c : Fin 2) (s : Fin 16) => tileOut2 m d (coords2 c s)
    | 1 => fun d (c : Fin 2) (s : Fin 16) => tileOut3 m d (coords3 c s)
    | ⟨_ + 2, h⟩ => absurd h (Nat.not_lt.2 (Nat.le_add_left _ _))
  x := fun _ _ => iprop(emp)

instance tileIn2_storable (d : Dev nD) (L : grid2.Coords) (q : PosShare TreeShare) : BI.Storable (upEmb : UEmb _ 𝕄) (tileIn2 m d L q) := by
  unfold tileIn2; infer_instance
instance tileOut2_storable (d : Dev nD) (L : grid2.Coords) : BI.Storable (upEmb : UEmb _ 𝕄) (tileOut2 m d L) := by
  unfold tileOut2; infer_instance
instance tileIn3_storable (d : Dev nD) (L : grid3.Coords) (q : PosShare TreeShare) : BI.Storable (upEmb : UEmb _ 𝕄) (tileIn3 m d L q) := by
  unfold tileIn3; infer_instance
instance tileOut3_storable (d : Dev nD) (L : grid3.Coords) : BI.Storable (upEmb : UEmb _ 𝕄) (tileOut3 m d L) := by
  unfold tileOut3; infer_instance

instance P_storable : (P (F := F) m).IsStorable where
  st q d c := match q with
    | 0 => (inferInstance : BI.Storable (upEmb : UEmb _ 𝕄) (bigSep Finset.univ fun s : Fin 16 => tileIn2 m d (coords2 c s) (tok c s)))
    | 1 => (inferInstance : BI.Storable (upEmb : UEmb _ 𝕄) (bigSep Finset.univ fun s : Fin 16 => tileIn3 m d (coords3 c s) (tok c s)))
  dn q d c := match q with
    | 0 => (inferInstance : BI.Storable (upEmb : UEmb _ 𝕄) (bigSep Finset.univ fun s : Fin 16 => tileOut2 m d (coords2 c s)))
    | 1 => (inferInstance : BI.Storable (upEmb : UEmb _ 𝕄) (bigSep Finset.univ fun s : Fin 16 => tileOut3 m d (coords3 c s)))
  go q d c s := match q with
    | 0 => (inferInstance : BI.Storable (upEmb : UEmb _ 𝕄) (tileIn2 m d (coords2 c s) (tok c s)))
    | 1 => (inferInstance : BI.Storable (upEmb : UEmb _ 𝕄) (tileIn3 m d (coords3 c s) (tok c s)))
  td q d c s := match q with
    | 0 => (inferInstance : BI.Storable (upEmb : UEmb _ 𝕄) (tileOut2 m d (coords2 c s)))
    | 1 => (inferInstance : BI.Storable (upEmb : UEmb _ 𝕄) (tileOut3 m d (coords3 c s)))

/-- The sequencer's split of a SparseCore's part into its tasks' parts, and the join back, are the identity. -/
theorem vecSplit (q : Fin 2) : (K (F := F)).VecSplit' (P m) q := by
  intro d c
  match q with
  | 0 =>
    show (bigSep Finset.univ fun s : Fin 16 => tileIn2 m d (coords2 c s) (tok c s)) ⊢ |={Set.univ}=> iprop(
      (bigSep Finset.univ fun s : Fin 16 => tileIn2 m d (coords2 c s) (tok c s))
      ∗ ((bigSep Finset.univ fun s : Fin 16 => tileOut2 m d (coords2 c s)) -∗ bigSep Finset.univ fun s : Fin 16 => tileOut2 m d (coords2 c s)))
    iintro H; imodintro
    isplitl [H]; · iexact H
    iintro H; iexact H
  | 1 =>
    show (bigSep Finset.univ fun s : Fin 16 => tileIn3 m d (coords3 c s) (tok c s)) ⊢ |={Set.univ}=> iprop(
      (bigSep Finset.univ fun s : Fin 16 => tileIn3 m d (coords3 c s) (tok c s))
      ∗ ((bigSep Finset.univ fun s : Fin 16 => tileOut3 m d (coords3 c s)) -∗ bigSep Finset.univ fun s : Fin 16 => tileOut3 m d (coords3 c s)))
    iintro H; imodintro
    isplitl [H]; · iexact H
    iintro H; iexact H

end Cert.Proof.KI

end
-- ==== Proof.KI.TransSpec.lean ====
import proofs.«219250_g10247791969013_week1_w1_750_27_alg».proof.Proof.KI.Base
import Idealize.ShloMosaic.Lib.ValueIdx

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

/-! ## What the two pipelined transposes compute

Pipeline 0 writes, for each of the first eight PAIRS of tables, the two tables of the pair side by side: row
`k * 100352 + v` of its result holds row `v` of table `2 k` in lanes `[0, 64)` and row `v` of table `2 k + 1` in lanes
`[64, 128)`, read off the transposed tables `A (table, d, v)`. Pipeline 1 does the same for pairs 8 … 12. The rows
`v ≥ 100000` of each pair (the part of the last block past the vocabulary) hold values nothing states. -/

/-- The pipelines' prefetched tables: none has one. -/
abbrev adm : (p : Fin 2) → (pcfgs (F := F) p).Adm := fun p => (cfgs p).toPCfg_adm

/-- Pipeline 0's result against the transposed tables. -/
def Trans0 (A : S26x64x100000.Idx → Elt F .f32) (f : S802816x128.Idx → Elt F .f32) : Prop :=
  ∀ (k v h d : ℕ) (hk : k < 8) (hv : v < 100000) (hh : h < 2) (hd : d < 64),
    f (ix2 (⟨k * 100352 + v, by omega⟩ : Fin 802816) (⟨h * 64 + d, by omega⟩ : Fin 128))
      = A (ix3 (⟨2 * k + h, by omega⟩ : Fin 26) (⟨d, hd⟩ : Fin 64) (⟨v, hv⟩ : Fin 100000))

/-- Pipeline 1's result against the transposed tables. -/
def Trans1 (A : S26x64x100000.Idx → Elt F .f32) (f : S501760x128.Idx → Elt F .f32) : Prop :=
  ∀ (k v h d : ℕ) (hk : k < 5) (hv : v < 100000) (hh : h < 2) (hd : d < 64),
    f (ix2 (⟨k * 100352 + v, by omega⟩ : Fin 501760) (⟨h * 64 + d, by omega⟩ : Fin 128))
      = A (ix3 (⟨2 * (k + 8) + h, by omega⟩ : Fin 26) (⟨d, hd⟩ : Fin 64) (⟨v, hv⟩ : Fin 100000))

/-- What the TensorCore holds of its own when it enters the first transpose: the transposed tables whole at `A`, the two
    results whole at anything, and what it owes, its recorded pairs at levels at most `b`. -/
def regPre (c : Dev nD) (A : S26x64x100000.Idx → Elt F .f32) (O : CellTallies nD τ sig (HIx 2)) (b : ℕ) : sProp 𝕄 :=
  iprop((((c.tc : Thread nD τ).loc main_v4) ↦{fullShare} A)
    ∗ (∃ f : S802816x128.Idx → Elt F .f32, ((c.tc : Thread nD τ).loc main_v5) ↦{fullShare} f)
    ∗ (∃ f : S501760x128.Idx → Elt F .f32, ((c.tc : Thread nD τ).loc main_v6) ↦{fullShare} f)
    ∗ ∃ W, ⌜(K (F := F)).WBelow (c.tc : Thread nD τ) W b⌝ ∗ owes (c.tc : Thread nD τ) O W)

/-- What it holds when it leaves the second: the tables unchanged, each result at contents that are the pairs side by
    side, and what it owes unchanged. -/
def regPost (c : Dev nD) (A : S26x64x100000.Idx → Elt F .f32) (O : CellTallies nD τ sig (HIx 2)) (b : ℕ) : sProp 𝕄 :=
  iprop((((c.tc : Thread nD τ).loc main_v4) ↦{fullShare} A)
    ∗ (∃ f : S802816x128.Idx → Elt F .f32, ⌜Trans0 A f⌝ ∗ ((c.tc : Thread nD τ).loc main_v5) ↦{fullShare} f)
    ∗ (∃ f : S501760x128.Idx → Elt F .f32, ⌜Trans1 A f⌝ ∗ ((c.tc : Thread nD τ).loc main_v6) ↦{fullShare} f)
    ∗ ∃ W, ⌜(K (F := F)).WBelow (c.tc : Thread nD τ) W b⌝ ∗ owes (c.tc : Thread nD τ) O W)

/-- The staging cells' ghost state of both pipelines on core `c`, as the launch element deals it. -/
def regGhost (c : Dev nD) : sProp 𝕄 :=
  iprop(Pipeline.cellsGhost (Pipeline.pin (pcfgs (F := F)) adm) EP 0 c ∗ Pipeline.toksInit (Pipeline.pin (pcfgs (F := F)) adm) EP 0 c
    ∗ Pipeline.cellsGhost (Pipeline.pin (pcfgs (F := F)) adm) EP 1 c ∗ Pipeline.toksInit (Pipeline.pin (pcfgs (F := F)) adm) EP 1 c)

end Cert.Proof.KI

end
-- ==== Proof.KI.Spec.lean ====
/-
  The four statements the launch of the idealized kernel program rests on, each proved in a module of its own: one
  vector subcore's task of each SparseCore call as a triple, what the launch element funds for the two pipelined
  transposes, and the two transposes run in sequence on the TensorCore. Stated here once, so that the launch is a
  proof FROM them and each of them a proof OF exactly this text.
-/
import proofs.«219250_g10247791969013_week1_w1_750_27_alg».proof.Proof.KI.Base
import proofs.«219250_g10247791969013_week1_w1_750_27_alg».proof.Proof.KI.TransSpec
import proofs.«219250_g10247791969013_week1_w1_750_27_alg».proof.Proof.KI.Tile2Defs
import proofs.«219250_g10247791969013_week1_w1_750_27_alg».proof.Proof.KI.Tile3Defs

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable (F : FTy → Type) [FloatOps F]

local notation "𝕄" => MT nD τ sig (HIx 2) (Elt F) ℕ UU ℕ

/-- One vector subcore's task of SparseCore call 0, as a triple: handed a share of the pair table, a share of its run of
    index words (each below 100000), its 64 result rows at any contents, its own buffers and semaphores, and owing
    O with the recorded waits W, the task's body runs to its end, gives the shares back unchanged, leaves its
    result rows at the sums, and owes O still. -/
def TileBody2 : Prop :=
  ∀ (d : Dev nD) (L : grid2.Coords) (_hF : (K (F := F)).Facts) (q qi : PosShare TreeShare)
    (Tb : Buf (Elt F) ((tabM2).view.loc (thr2 d L))) (Ix : Buf (Elt F) ((idxSl2 L).view.loc (thr2 d L)))
    (fo : Buf (Elt F) ((outSl2 L).view.loc (thr2 d L)))
    (_hIx : ∀ j, ((idxSl2 L).view.read (Elt F) Ix j).toNat < 100000)
    (O : CellTallies nD τ sig (HIx 2)) (W : Waits sig (HIx 2)) (_hO : ∀ g, O g none = 0),
    iprop(levAts (K (F := F)).L (K (F := F)).lev
        ∗ ((tabM2).view.loc (thr2 d L) ↦[(tabM2).view.set]{q} Tb)
        ∗ ((idxSl2 L).view.loc (thr2 d L) ↦[(idxSl2 L).view.set]{qi} Ix)
        ∗ ((outSl2 L).view.loc (thr2 d L) ↦[(outSl2 L).view.set]{fullShare} fo)
        ∗ scopedBufs (thr2 d L) ∗ scopedSems0 (thr2 d L) ∗ owes (thr2 d L) O W)
      ⊢ (wp frame (wpE (defs₀ (F := F)) 𝒱₀ (thr2 d L) none) Set.univ
          (cc2__emb_body L tabM2 (Memref.isWhole_whole _) idxM2 (Memref.isWhole_whole _) outM2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            cc2_scratch4 cc2_scratch5 cc2_scoped0 cc2_scoped1)
          fun _ => iprop(((tabM2).view.loc (thr2 d L) ↦[(tabM2).view.set]{q} Tb)
            ∗ ((idxSl2 L).view.loc (thr2 d L) ↦[(idxSl2 L).view.set]{qi} Ix)
            ∗ ((outSl2 L).view.loc (thr2 d L) ↦[(outSl2 L).view.set]{fullShare}
                ((outSl2 L).view.write (Elt F) fo (OUT2 ((tabM2).view.read (Elt F) Tb) ((idxSl2 L).view.read (Elt F) Ix)) Finset.univ))
            ∗ scopedBufs (thr2 d L) ∗ scopedSems0 (thr2 d L)
            ∗ ∃ W', ⌜∀ p ∈ W', p ∈ W ∨ p.2 = none⌝ ∗ owes (thr2 d L) O W') : sProp 𝕄)

/-- One vector subcore's task of SparseCore call 1, as a triple: handed a share of the pair table, a share of its run of
    index words (each below 100000), its 64 result rows at any contents, its own buffers and semaphores, and owing
    O with the recorded waits W, the task's body runs to its end, gives the shares back unchanged, leaves its
    result rows at the sums, and owes O still. -/
def TileBody3 : Prop :=
  ∀ (d : Dev nD) (L : grid3.Coords) (_hF : (K (F := F)).Facts) (q qi : PosShare TreeShare)
    (Tb : Buf (Elt F) ((tabM3).view.loc (thr3 d L))) (Ix : Buf (Elt F) ((idxSl3 L).view.loc (thr3 d L)))
    (fo : Buf (Elt F) ((outSl3 L).view.loc (thr3 d L)))
    (_hIx : ∀ j, ((idxSl3 L).view.read (Elt F) Ix j).toNat < 100000)
    (O : CellTallies nD τ sig (HIx 2)) (W : Waits sig (HIx 2)) (_hO : ∀ g, O g none = 0),
    iprop(levAts (K (F := F)).L (K (F := F)).lev
        ∗ ((tabM3).view.loc (thr3 d L) ↦[(tabM3).view.set]{q} Tb)
        ∗ ((idxSl3 L).view.loc (thr3 d L) ↦[(idxSl3 L).view.set]{qi} Ix)
        ∗ ((outSl3 L).view.loc (thr3 d L) ↦[(outSl3 L).view.set]{fullShare} fo)
        ∗ scopedBufs (thr3 d L) ∗ scopedSems0 (thr3 d L) ∗ owes (thr3 d L) O W)
      ⊢ (wp frame (wpE (defs₀ (F := F)) 𝒱₀ (thr3 d L) none) Set.univ
          (cc3__emb_body L tabM3 (Memref.isWhole_whole _) idxM3 (Memref.isWhole_whole _) outM3 (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            cc3_scratch4 cc3_scratch5 cc3_scoped0 cc3_scoped1)
          fun _ => iprop(((tabM3).view.loc (thr3 d L) ↦[(tabM3).view.set]{q} Tb)
            ∗ ((idxSl3 L).view.loc (thr3 d L) ↦[(idxSl3 L).view.set]{qi} Ix)
            ∗ ((outSl3 L).view.loc (thr3 d L) ↦[(outSl3 L).view.set]{fullShare}
                ((outSl3 L).view.write (Elt F) fo (OUT3 ((tabM3).view.read (Elt F) Tb) ((idxSl3 L).view.read (Elt F) Ix)) Finset.univ))
            ∗ scopedBufs (thr3 d L) ∗ scopedSems0 (thr3 d L)
            ∗ ∃ W', ⌜∀ p ∈ W', p ∈ W ∨ p.2 = none⌝ ∗ owes (thr3 d L) O W') : sProp 𝕄)

/-- What the launch element funds for the two transposes: from the rounds library's launch element at their staging
    cells, every core's staging cells' ghost state and duty tokens. -/
def RegionsFund : Prop :=
  ∀ (hinj : Function.Injective (Pipeline.cellOf (nD := nD) (τ := τ) (Pipeline.pin (pcfgs (F := F)) adm))),
    BI.own (EP (F := F) (initOf (Pipeline.cells (Pipeline.pin (pcfgs (F := F)) adm) hinj) (Pipeline.launchToks (Pipeline.pin (pcfgs (F := F)) adm) hinj)))
      ⊢ iprop(|==> bigSep Finset.univ fun c : Dev nD => (regGhost c : sProp 𝕄))

/-- The two pipelined transposes of @main, in sequence, on the TensorCore of c, inside the SparseCore launch: from the
    region boundary, the tables whole at A, the two results whole at anything, what the core owes (nothing at the
    index the pipelines wait at) and the staging cells' ghost state, they run to the boundary, the tables unchanged and
    each result holding the pairs of tables side by side; the continuation runs from there. -/
def RegionsWp : Prop :=
  ∀ (lv : GSem nD τ sig → HIx 2 → ℕ) (_hlv : (K (F := F)).Refines lv) (c : Dev nD)
    (A : S26x64x100000.Idx → Elt F .f32) (O : CellTallies nD τ sig (HIx 2)) (_hO : ∀ g, O g none = 0) (b : ℕ)
    {α : Type} (k : PUnit → Prog (TpuEff nD τ sig (Elt F) (SparseCore.Sig (ΛP (F := F)) 2) .tc) α) (Q : α → sProp 𝕄),
    iprop((iprop(boundary (c.tc : Thread nD τ) ∗ regPost c A O b)
            -∗ wp frame (wpE ((K (F := F)).defs D) 𝒱 (c.tc : Thread nD τ) none) Set.univ (k ⟨⟩) Q)
        ∗ boundary (c.tc : Thread nD τ) ∗ regPre c A O b ∗ levAts (K (F := F)).L lv ∗ regGhost c)
      ⊢ wp frame (wpE ((K (F := F)).defs D) 𝒱 (c.tc : Thread nD τ) none) Set.univ
          (Prog.lift (.customCall (SparseCore.inner (Pipeline.entry 0)) ()) >>= fun _ =>
            Prog.lift (.customCall (SparseCore.inner (Pipeline.entry 1)) ()) >>= k) Q

end Cert.Proof.KI

end
-- ==== Proof.KI.Obl.lean ====
/-
  The launch theorem's obligations for the two SparseCore calls, from the tasks' triples. A task is handed a pair
  table that is determined only on the rows it can name; what it leaves is rewritten over the determined pair
  table, so that the block it hands back is one function of the launch memory.
-/
import proofs.«219250_g10247791969013_week1_w1_750_27_alg».proof.Proof.KI.Pay
import proofs.«219250_g10247791969013_week1_w1_750_27_alg».proof.Proof.KI.Spec
import Idealize.ShloMosaic.Lib.SparseCore.Launch
import Idealize.ShloMosaic.Lib.Tactic

noncomputable section

namespace Cert.Proof.KI

open Cert.KernelIdeal Cert.KernelIdeal.Gen

open Idealize.ShloMosaic Idealize.ShloMosaic.ValueIdx
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The value does not read the undetermined rows -/

/-- What a task leaves depends on the pair table only through the rows below the vocabulary's size within each pair's
    block: two tables that agree there give the same sums, when every index word is below 100000. -/
theorem OUT2_congr (tb tb' : S802816x128.Idx → Elt F .f32) (ix : S2048.Idx → Elt F .i32)
    (hix : ∀ j, (ix j).toNat < 100000) (h : ∀ i, (i 0).val % 100352 < 100000 → tb i = tb' i) : OUT2 tb ix = OUT2 tb' ix := by
  funext x
  unfold OUT2
  refine List.foldl_ext _ _ _ fun acc j hj => ?_
  have hj' : j < 16 := List.mem_range.mp hj
  have hx0 : (x 0).val < 64 := (x 0).isLt
  have hx1 : (x 1).val < 128 := (x 1).isLt
  have hp : (2 * (x 0).val + (x 1).val / 64) * 16 + j < 2048 := by omega
  refine congrArg (FloatOps.addf (acc : F .f32)) ?_
  unfold gRow2
  rw [dif_pos hp]
  have hw := hix (ix1 ⟨(2 * (x 0).val + (x 1).val / 64) * 16 + j, hp⟩)
  generalize (ix (ix1 ⟨(2 * (x 0).val + (x 1).val / 64) * 16 + j, hp⟩)).toNat = w at hw
  have hr : w + ((2 * (x 0).val + (x 1).val / 64) * 16 + j) % 16 / 2 * 100352 < 802816 ∧ j % 2 * 64 + (x 1).val % 64 < 128 := by
    constructor <;> omega
  unfold tbAt2
  rw [dif_pos hr, dif_pos hr]
  refine h _ ?_
  show (w + ((2 * (x 0).val + (x 1).val / 64) * 16 + j) % 16 / 2 * 100352) % 100352 < 100000
  omega

/-- What a task leaves depends on the pair table only through the rows below the vocabulary's size within each pair's
    block: two tables that agree there give the same sums, when every index word is below 100000. -/
theorem OUT3_congr (tb tb' : S501760x128.Idx → Elt F .f32) (ix : S1280.Idx → Elt F .i32)
    (hix : ∀ j, (ix j).toNat < 100000) (h : ∀ i, (i 0).val % 100352 < 100000 → tb i = tb' i) : OUT3 tb ix = OUT3 tb' ix := by
  funext x
  unfold OUT3
  refine List.foldl_ext _ _ _ fun acc j hj => ?_
  have hj' : j < 10 := List.mem_range.mp hj
  have hx0 : (x 0).val < 64 := (x 0).isLt
  have hx1 : (x 1).val < 128 := (x 1).isLt
  have hp : (2 * (x 0).val + (x 1).val / 64) * 10 + j < 1280 := by omega
  refine congrArg (FloatOps.addf (acc : F .f32)) ?_
  unfold gRow3
  rw [dif_pos hp]
  have hw := hix (ix1 ⟨(2 * (x 0).val + (x 1).val / 64) * 10 + j, hp⟩)
  generalize (ix (ix1 ⟨(2 * (x 0).val + (x 1).val / 64) * 10 + j, hp⟩)).toNat = w at hw
  have hr : w + ((2 * (x 0).val + (x 1).val / 64) * 10 + j) % 10 / 2 * 100352 < 501760 ∧ j % 2 * 64 + (x 1).val % 64 < 128 := by
    constructor <;> omega
  unfold tbAt3
  rw [dif_pos hr, dif_pos hr]
  refine h _ ?_
  show (w + ((2 * (x 0).val + (x 1).val / 64) * 10 + j) % 10 / 2 * 100352) % 100352 < 100000
  omega

variable (m : (ℓ : Loc nD τ sig) → Buf (Elt F) ℓ)

/-! ## Call 0 -/

/-- The three arrays as the task's memrefs address them are the TensorCore's arrays. -/
theorem pts_tab2 (d : Dev nD) (L : grid2.Coords) (q : PosShare TreeShare) (f : S802816x128.Idx → Elt F .f32) :
    ((tabM2).view.loc (thr2 d L) ↦[(tabM2).view.set]{q} f : sProp 𝕄) = (tl d main_v5 ↦{q} f) := by
  simp only [Memref.view_whole, View.set_whole]
theorem pts_idx2 (d : Dev nD) (L : grid2.Coords) (q : PosShare TreeShare) (f : S65536.Idx → Elt F .i32) :
    ((idxSl2 L).view.loc (thr2 d L) ↦[(idxSl2 L).view.set]{q} f : sProp 𝕄) = (tl d main_v9 ↦[(idxSl2 L).view.set]{q} f) := rfl
theorem pts_out2 (d : Dev nD) (L : grid2.Coords) (q : PosShare TreeShare) (f : S2048x128.Idx → Elt F .f32) :
    ((outSl2 L).view.loc (thr2 d L) ↦[(outSl2 L).view.set]{q} f : sProp 𝕄) = (tl d main_v13 ↦[(outSl2 L).view.set]{q} f) := rfl

theorem defs₀_vector2 (c : Fin τ.nSC) (s : Fin τ.nSub) :
    defs₀ (F := F) (.scVector c s) 2 ()
      = SparseCore.onTile hcore2 hsub2 (fun c s => cc2__emb_body (fun | 0 => c | 1 => s | ⟨_ + 2, h⟩ => absurd h (Nat.not_lt.2 (Nat.le_add_left _ _)))
          (Memref.whole main_v5_scv) (Memref.isWhole_whole _) (Memref.whole main_v9_scv) (Memref.isWhole_whole _) (Memref.whole main_v13_scv) (Memref.isWhole_whole _)
          (Memref.whole cc2_scratch0) (Memref.isWhole_whole _) (Memref.whole cc2_scratch1) (Memref.isWhole_whole _)
          (Memref.whole cc2_scratch2) (Memref.isWhole_whole _) (Memref.whole cc2_scratch3) (Memref.isWhole_whole _)
          cc2_scratch4 cc2_scratch5 cc2_scoped0 cc2_scoped1) ⟨⟩ c s := rfl

/-- What the task's triple leaves is what the taskDone handshake carries: the result rows rewritten over the determined
    pair table, the shares of the table and of the index words dropped. -/
theorem tile2_post (d : Dev nD) (L : grid2.Coords) (q : PosShare TreeShare) (qq : Fin 2)
    (Tb : S802816x128.Idx → Elt F .f32) (fo : S2048x128.Idx → Elt F .f32) (hTb : TabOK (wantA m d) Tb)
    (hIx : ∀ j, ((idxSl2 L).view.read (Elt F) (idxA m d) j).toNat < 100000)
    (O : CellTallies nD τ sig (HIx 2)) (W : Waits sig (HIx 2)) :
    iprop(((tabM2).view.loc (thr2 d L) ↦[(tabM2).view.set]{q} Tb)
        ∗ ((idxSl2 L).view.loc (thr2 d L) ↦[(idxSl2 L).view.set]{fullShare} idxA m d)
        ∗ ((outSl2 L).view.loc (thr2 d L) ↦[(outSl2 L).view.set]{fullShare}
            ((outSl2 L).view.write (Elt F) fo (OUT2 ((tabM2).view.read (Elt F) Tb) ((idxSl2 L).view.read (Elt F) (idxA m d))) Finset.univ))
        ∗ scopedBufs (thr2 d L) ∗ scopedSems0 (thr2 d L)
        ∗ ∃ W', ⌜∀ p ∈ W', p ∈ W ∨ p.2 = none⌝ ∗ owes (thr2 d L) O W')
      ⊢ (iprop(tileOut2 m d L ∗ scopedBufs (thr2 d L) ∗ scopedSems0 (thr2 d L)
          ∗ ∃ W', ⌜∀ p ∈ W', p ∈ W ∨ p.2 = none ∨ p.2 = some qq⌝ ∗ owes (thr2 d L) O W') : sProp 𝕄) := by
  iintro ⟨-, -, Hout, Hsb, Hss, %W', %hW', HO⟩
  isplitl [Hout]
  · have hEq : (((outSl2 L).view.loc (thr2 d L) ↦[(outSl2 L).view.set]{fullShare}
            ((outSl2 L).view.write (Elt F) fo (OUT2 ((tabM2).view.read (Elt F) Tb) ((idxSl2 L).view.read (Elt F) (idxA m d))) Finset.univ)) : sProp 𝕄)
        = (tl d main_v13 ↦[(outSl2 L).view.set]{fullShare}
            ((outSl2 L).view.write (Elt F) fo (OUT2 (wantA m d) ((idxSl2 L).view.read (Elt F) (idxA m d))) Finset.univ)) := by
      rw [OUT2_congr ((tabM2).view.read (Elt F) Tb) (wantA m d) _ hIx (fun i hi => hTb i hi)]
    unfold tileOut2
    iexists fo
    iapply (Entails.of_eq hEq)
    iexact Hout
  isplitl [Hsb]; · iexact Hsb
  isplitl [Hss]; · iexact Hss
  iexists W'; isplitr
  · ipureintro; exact fun p hp => (hW' p hp).imp_right Or.inl
  · iexact HO

/-- One task of call 0: from what the go handshake hands it to what the taskDone handshake carries back. -/
theorem tile2_go_td (h2 : TileBody2 F) (hF : (K (F := F)).Facts) (hin : ∀ d i, (idxA m d i).toNat < 100000)
    (d : Dev nD) (L : grid2.Coords) (q : PosShare TreeShare) (qq : Fin 2)
    (O : CellTallies nD τ sig (HIx 2)) (W : Waits sig (HIx 2)) (hO : ∀ g, O g none = 0) :
    iprop(levAts (K (F := F)).L (K (F := F)).lev ∗ emp ∗ tileIn2 m d L q
        ∗ scopedBufs (thr2 d L) ∗ scopedSems0 (thr2 d L) ∗ owes (thr2 d L) O W)
      ⊢ (wp frame (wpE (defs₀ (F := F)) 𝒱₀ (thr2 d L) none) Set.univ
          (cc2__emb_body L tabM2 (Memref.isWhole_whole _) idxM2 (Memref.isWhole_whole _) outM2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            cc2_scratch4 cc2_scratch5 cc2_scoped0 cc2_scoped1)
          fun _ => iprop(tileOut2 m d L ∗ scopedBufs (thr2 d L) ∗ scopedSems0 (thr2 d L)
            ∗ ∃ W', ⌜∀ p ∈ W', p ∈ W ∨ p.2 = none ∨ p.2 = some qq⌝ ∗ owes (thr2 d L) O W') : sProp 𝕄) := by
  unfold tileIn2
  iintro ⟨#Hlv, -, ⟨⟨%Tb, %hTb, Htab⟩, Hidx, %fo, Hout⟩, Hsb, Hss, HO⟩
  have hIx : ∀ j, ((idxSl2 L).view.read (Elt F) (idxA m d) j).toNat < 100000 := fun j => hin d _
  iapply (wp_mono frame _ _ fun _ => tile2_post m d L q qq Tb fo hTb hIx O W)
  iapply (h2 d L hF q fullShare Tb (idxA m d) fo hIx O W hO)
  isplitr; · iexact Hlv
  isplitl [Htab]; · rw [pts_tab2]; iexact Htab
  isplitl [Hidx]; · rw [pts_idx2]; iexact Hidx
  isplitl [Hout]; · rw [pts_out2]; iexact Hout
  isplitl [Hsb]; · iexact Hsb
  isplitl [Hss]; · iexact Hss
  iexact HO

/-- The launch theorem's obligation for call 0: every task of its grid. -/
theorem tileObl2 (h2 : TileBody2 F) (hF : (K (F := F)).Facts) (hin : ∀ d i, (idxA m d i).toNat < 100000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector2]; simp only [SparseCore.onTile, hc, and_self, ↓reduceDIte]
  exact tile2_go_td m h2 hF hin d (coords2 c i) (tok c i) 0 O W hO

/-! ## Call 1 -/

/-- The three arrays as the task's memrefs address them are the TensorCore's arrays. -/
theorem pts_tab3 (d : Dev nD) (L : grid3.Coords) (q : PosShare TreeShare) (f : S501760x128.Idx → Elt F .f32) :
    ((tabM3).view.loc (thr3 d L) ↦[(tabM3).view.set]{q} f : sProp 𝕄) = (tl d main_v6 ↦{q} f) := by
  simp only [Memref.view_whole, View.set_whole]
theorem pts_idx3 (d : Dev nD) (L : grid3.Coords) (q : PosShare TreeShare) (f : S40960.Idx → Elt F .i32) :
    ((idxSl3 L).view.loc (thr3 d L) ↦[(idxSl3 L).view.set]{q} f : sProp 𝕄) = (tl d main_v12 ↦[(idxSl3 L).view.set]{q} f) := rfl
theorem pts_out3 (d : Dev nD) (L : grid3.Coords) (q : PosShare TreeShare) (f : S2048x128.Idx → Elt F .f32) :
    ((outSl3 L).view.loc (thr3 d L) ↦[(outSl3 L).view.set]{q} f : sProp 𝕄) = (tl d main_v14 ↦[(outSl3 L).view.set]{q} f) := rfl

theorem defs₀_vector3 (c : Fin τ.nSC) (s : Fin τ.nSub) :
    defs₀ (F := F) (.scVector c s) 3 ()
      = SparseCore.onTile hcore3 hsub3 (fun c s => cc3__emb_body (fun | 0 => c | 1 => s | ⟨_ + 2, h⟩ => absurd h (Nat.not_lt.2 (Nat.le_add_left _ _)))
          (Memref.whole main_v6_scv) (Memref.isWhole_whole _) (Memref.whole main_v12_scv) (Memref.isWhole_whole _) (Memref.whole main_v14_scv) (Memref.isWhole_whole _)
          (Memref.whole cc3_scratch0) (Memref.isWhole_whole _) (Memref.whole cc3_scratch1) (Memref.isWhole_whole _)
          (Memref.whole cc3_scratch2) (Memref.isWhole_whole _) (Memref.whole cc3_scratch3) (Memref.isWhole_whole _)
          cc3_scratch4 cc3_scratch5 cc3_scoped0 cc3_scoped1) ⟨⟩ c s := rfl

/-- What the task's triple leaves is what the taskDone handshake carries: the result rows rewritten over the determined
    pair table, the shares of the table and of the index words dropped. -/
theorem tile3_post (d : Dev nD) (L : grid3.Coords) (q : PosShare TreeShare) (qq : Fin 2)
    (Tb : S501760x128.Idx → Elt F .f32) (fo : S2048x128.Idx → Elt F .f32) (hTb : TabOK (wantB m d) Tb)
    (hIx : ∀ j, ((idxSl3 L).view.read (Elt F) (idxB m d) j).toNat < 100000)
    (O : CellTallies nD τ sig (HIx 2)) (W : Waits sig (HIx 2)) :
    iprop(((tabM3).view.loc (thr3 d L) ↦[(tabM3).view.set]{q} Tb)
        ∗ ((idxSl3 L).view.loc (thr3 d L) ↦[(idxSl3 L).view.set]{fullShare} idxB m d)
        ∗ ((outSl3 L).view.loc (thr3 d L) ↦[(outSl3 L).view.set]{fullShare}
            ((outSl3 L).view.write (Elt F) fo (OUT3 ((tabM3).view.read (Elt F) Tb) ((idxSl3 L).view.read (Elt F) (idxB m d))) Finset.univ))
        ∗ scopedBufs (thr3 d L) ∗ scopedSems0 (thr3 d L)
        ∗ ∃ W', ⌜∀ p ∈ W', p ∈ W ∨ p.2 = none⌝ ∗ owes (thr3 d L) O W')
      ⊢ (iprop(tileOut3 m d L ∗ scopedBufs (thr3 d L) ∗ scopedSems0 (thr3 d L)
          ∗ ∃ W', ⌜∀ p ∈ W', p ∈ W ∨ p.2 = none ∨ p.2 = some qq⌝ ∗ owes (thr3 d L) O W') : sProp 𝕄) := by
  iintro ⟨-, -, Hout, Hsb, Hss, %W', %hW', HO⟩
  isplitl [Hout]
  · have hEq : (((outSl3 L).view.loc (thr3 d L) ↦[(outSl3 L).view.set]{fullShare}
            ((outSl3 L).view.write (Elt F) fo (OUT3 ((tabM3).view.read (Elt F) Tb) ((idxSl3 L).view.read (Elt F) (idxB m d))) Finset.univ)) : sProp 𝕄)
        = (tl d main_v14 ↦[(outSl3 L).view.set]{fullShare}
            ((outSl3 L).view.write (Elt F) fo (OUT3 (wantB m d) ((idxSl3 L).view.read (Elt F) (idxB m d))) Finset.univ)) := by
      rw [OUT3_congr ((tabM3).view.read (Elt F) Tb) (wantB m d) _ hIx (fun i hi => hTb i hi)]
    unfold tileOut3
    iexists fo
    iapply (Entails.of_eq hEq)
    iexact Hout
  isplitl [Hsb]; · iexact Hsb
  isplitl [Hss]; · iexact Hss
  iexists W'; isplitr
  · ipureintro; exact fun p hp => (hW' p hp).imp_right Or.inl
  · iexact HO

/-- One task of call 1: from what the go handshake hands it to what the taskDone handshake carries back. -/
theorem tile3_go_td (h3 : TileBody3 F) (hF : (K (F := F)).Facts) (hin : ∀ d i, (idxB m d i).toNat < 100000)
    (d : Dev nD) (L : grid3.Coords) (q : PosShare TreeShare) (qq : Fin 2)
    (O : CellTallies nD τ sig (HIx 2)) (W : Waits sig (HIx 2)) (hO : ∀ g, O g none = 0) :
    iprop(levAts (K (F := F)).L (K (F := F)).lev ∗ emp ∗ tileIn3 m d L q
        ∗ scopedBufs (thr3 d L) ∗ scopedSems0 (thr3 d L) ∗ owes (thr3 d L) O W)
      ⊢ (wp frame (wpE (defs₀ (F := F)) 𝒱₀ (thr3 d L) none) Set.univ
          (cc3__emb_body L tabM3 (Memref.isWhole_whole _) idxM3 (Memref.isWhole_whole _) outM3 (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            cc3_scratch4 cc3_scratch5 cc3_scoped0 cc3_scoped1)
          fun _ => iprop(tileOut3 m d L ∗ scopedBufs (thr3 d L) ∗ scopedSems0 (thr3 d L)
            ∗ ∃ W', ⌜∀ p ∈ W', p ∈ W ∨ p.2 = none ∨ p.2 = some qq⌝ ∗ owes (thr3 d L) O W') : sProp 𝕄) := by
  unfold tileIn3
  iintro ⟨#Hlv, -, ⟨⟨%Tb, %hTb, Htab⟩, Hidx, %fo, Hout⟩, Hsb, Hss, HO⟩
  have hIx : ∀ j, ((idxSl3 L).view.read (Elt F) (idxB m d) j).toNat < 100000 := fun j => hin d _
  iapply (wp_mono frame _ _ fun _ => tile3_post m d L q qq Tb fo hTb hIx O W)
  iapply (h3 d L hF q fullShare Tb (idxB m d) fo hIx O W hO)
  isplitr; · iexact Hlv
  isplitl [Htab]; · rw [pts_tab3]; iexact Htab
  isplitl [Hidx]; · rw [pts_idx3]; iexact Hidx
  isplitl [Hout]; · rw [pts_out3]; iexact Hout
  isplitl [Hsb]; · iexact Hsb
  isplitl [Hss]; · iexact Hss
  iexact HO

/-- The launch theorem's obligation for call 1: every task of its grid. -/
theorem tileObl3 (h3 : TileBody3 F) (hF : (K (F := F)).Facts) (hin : ∀ d i, (idxB m d i).toNat < 100000) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  exact tile3_go_td m h3 hF hin d (coords3 c i) (tok c i) 1 O W hO

end Cert.Proof.KI

end
-- ==== Proof.KI.Cover.lean ====
/-
  How the two SparseCore calls cut their arrays among the 32 tasks: the task at SparseCore c, vector subcore s has
  number 2 s + c; the runs of index words of the tasks are consecutive and partition the flat index list, and their
  blocks of 64 result rows partition the result.
-/
import proofs.«219250_g10247791969013_week1_w1_750_27_alg».proof.Proof.KI.Pay

noncomputable section

namespace Cert.Proof.KI

open Cert.KernelIdeal Cert.KernelIdeal.Gen

open Idealize.ShloMosaic
open Idealize.SL Idealize.SL.Sem

/-! ## Call 0 -/

/-- The run of index words, and the block of result rows, of the task at SparseCore a.1, vector subcore a.2. -/
abbrev idxSet2 (a : Fin 2 × Fin 16) : Finset S65536.Idx := (idxSl2 (coords2 a.1 a.2)).view.set
abbrev outSet2 (a : Fin 2 × Fin 16) : Finset S2048x128.Idx := (outSl2 (coords2 a.1 a.2)).view.set

/-- A word of the flat index list belongs to the run of the task at (c, s) exactly when its position is in the task's
    2048 positions, which start at 2048 * (2 s + c). -/
theorem mem_idx2 (L : grid2.Coords) (i : S65536.Idx) :
    i ∈ ((idxSl2 L).view.set : Finset S65536.Idx) ↔ 4096 * (L 1).val + 2048 * (L 0).val ≤ (i 0).val ∧ (i 0).val < 4096 * (L 1).val + 2048 * (L 0).val + 2048 := by
  have hs : ((idxSl2 L).view.set : Finset S65536.Idx)
      = (Rect.unit (s := S65536) (k2_off1 L) S2048.size (k2_off1_inb L)).set := View.set_slice_whole _ _
  rw [hs, Rect.mem_set_unit]
  constructor
  · intro h
    have h0 := h 0
    rw [k2_off1_eq] at h0
    exact h0
  · intro h a
    obtain rfl : a = 0 := Subsingleton.elim _ _
    rw [k2_off1_eq]
    exact h

/-- A row of the result belongs to the block of the task at (c, s) exactly when it is one of the task's 64 rows, which
    start at 64 * (2 s + c). -/
theorem mem_out2 (L : grid2.Coords) (i : S2048x128.Idx) :
    i ∈ ((outSl2 L).view.set : Finset S2048x128.Idx) ↔ 128 * (L 1).val + 64 * (L 0).val ≤ (i 0).val ∧ (i 0).val < 128 * (L 1).val + 64 * (L 0).val + 64 := by
  have hs : ((outSl2 L).view.set : Finset S2048x128.Idx)
      = (Rect.unit (s := S2048x128) (k2_off56 L) S64x128.size (k2_off56_inb L)).set := View.set_slice_whole _ _
  rw [hs, Rect.mem_set_unit]
  constructor
  · intro h
    have h0 := h 0
    rw [k2_off56_eq] at h0
    exact h0
  · intro h a
    rw [k2_off56_eq]
    match a with
    | ⟨0, _⟩ => exact h
    | ⟨1, _⟩ =>
      have h1 : (i 1).val < 128 := (i 1).isLt
      exact ⟨Nat.zero_le _, (by show (i 1).val < 0 + 128; omega)⟩

theorem idx2_disjoint : ∀ a ∈ (Finset.univ : Finset (Fin 2 × Fin 16)), ∀ b ∈ (Finset.univ : Finset (Fin 2 × Fin 16)), a ≠ b →
    Disjoint (idxSet2 a) (idxSet2 b) := by
  intro a _ b _ hab
  refine Finset.disjoint_left.mpr fun i hi hj => hab ?_
  replace hi : i ∈ ((idxSl2 (coords2 a.1 a.2)).view.set : Finset S65536.Idx) := hi
  replace hj : i ∈ ((idxSl2 (coords2 b.1 b.2)).view.set : Finset S65536.Idx) := hj
  rw [mem_idx2] at hi hj
  have e0 : (coords2 a.1 a.2 0).val = a.1.val := rfl
  have e1 : (coords2 a.1 a.2 1).val = a.2.val := rfl
  have f0 : (coords2 b.1 b.2 0).val = b.1.val := rfl
  have f1 : (coords2 b.1 b.2 1).val = b.2.val := rfl
  rw [e0, e1] at hi; rw [f0, f1] at hj
  have ha1 := a.1.isLt; have hb1 := b.1.isLt
  exact Prod.ext (Fin.ext (by omega)) (Fin.ext (by omega))

theorem idx2_cover : (Finset.univ : Finset (Fin 2 × Fin 16)).biUnion idxSet2 = Finset.univ := by
  refine Finset.eq_univ_of_forall fun i => Finset.mem_biUnion.mpr ?_
  have hi : (i 0).val < 65536 := (i 0).isLt
  have hc : (i 0).val / 2048 % 2 < 2 := Nat.mod_lt _ (by decide)
  have hs : (i 0).val / 2048 / 2 < 16 := by omega
  refine ⟨(⟨(i 0).val / 2048 % 2, hc⟩, ⟨(i 0).val / 2048 / 2, hs⟩), Finset.mem_univ _,
    (mem_idx2 (coords2 ⟨(i 0).val / 2048 % 2, hc⟩ ⟨(i 0).val / 2048 / 2, hs⟩) i).mpr ?_⟩
  show 4096 * ((i 0).val / 2048 / 2) + 2048 * ((i 0).val / 2048 % 2) ≤ (i 0).val ∧ (i 0).val < 4096 * ((i 0).val / 2048 / 2) + 2048 * ((i 0).val / 2048 % 2) + 2048
  omega

theorem out2_disjoint : ∀ a ∈ (Finset.univ : Finset (Fin 2 × Fin 16)), ∀ b ∈ (Finset.univ : Finset (Fin 2 × Fin 16)), a ≠ b →
    Disjoint (outSet2 a) (outSet2 b) := by
  intro a _ b _ hab
  refine Finset.disjoint_left.mpr fun i hi hj => hab ?_
  replace hi : i ∈ ((outSl2 (coords2 a.1 a.2)).view.set : Finset S2048x128.Idx) := hi
  replace hj : i ∈ ((outSl2 (coords2 b.1 b.2)).view.set : Finset S2048x128.Idx) := hj
  rw [mem_out2] at hi hj
  have e0 : (coords2 a.1 a.2 0).val = a.1.val := rfl
  have e1 : (coords2 a.1 a.2 1).val = a.2.val := rfl
  have f0 : (coords2 b.1 b.2 0).val = b.1.val := rfl
  have f1 : (coords2 b.1 b.2 1).val = b.2.val := rfl
  rw [e0, e1] at hi; rw [f0, f1] at hj
  have ha1 := a.1.isLt; have hb1 := b.1.isLt
  exact Prod.ext (Fin.ext (by omega)) (Fin.ext (by omega))

theorem out2_cover : (Finset.univ : Finset (Fin 2 × Fin 16)).biUnion outSet2 = Finset.univ := by
  refine Finset.eq_univ_of_forall fun i => Finset.mem_biUnion.mpr ?_
  have hi : (i 0).val < 2048 := (i 0).isLt
  have hc : (i 0).val / 64 % 2 < 2 := Nat.mod_lt _ (by decide)
  have hs : (i 0).val / 64 / 2 < 16 := by omega
  refine ⟨(⟨(i 0).val / 64 % 2, hc⟩, ⟨(i 0).val / 64 / 2, hs⟩), Finset.mem_univ _,
    (mem_out2 (coords2 ⟨(i 0).val / 64 % 2, hc⟩ ⟨(i 0).val / 64 / 2, hs⟩) i).mpr ?_⟩
  show 128 * ((i 0).val / 64 / 2) + 64 * ((i 0).val / 64 % 2) ≤ (i 0).val ∧ (i 0).val < 128 * ((i 0).val / 64 / 2) + 64 * ((i 0).val / 64 % 2) + 64
  omega

/-! ## Call 1 -/

/-- The run of index words, and the block of result rows, of the task at SparseCore a.1, vector subcore a.2. -/
abbrev idxSet3 (a : Fin 2 × Fin 16) : Finset S40960.Idx := (idxSl3 (coords3 a.1 a.2)).view.set
abbrev outSet3 (a : Fin 2 × Fin 16) : Finset S2048x128.Idx := (outSl3 (coords3 a.1 a.2)).view.set

/-- A word of the flat index list belongs to the run of the task at (c, s) exactly when its position is in the task's
    1280 positions, which start at 1280 * (2 s + c). -/
theorem mem_idx3 (L : grid3.Coords) (i : S40960.Idx) :
    i ∈ ((idxSl3 L).view.set : Finset S40960.Idx) ↔ 2560 * (L 1).val + 1280 * (L 0).val ≤ (i 0).val ∧ (i 0).val < 2560 * (L 1).val + 1280 * (L 0).val + 1280 := by
  have hs : ((idxSl3 L).view.set : Finset S40960.Idx)
      = (Rect.unit (s := S40960) (k3_off1 L) S1280.size (k3_off1_inb L)).set := View.set_slice_whole _ _
  rw [hs, Rect.mem_set_unit]
  constructor
  · intro h
    have h0 := h 0
    rw [k3_off1_eq] at h0
    exact h0
  · intro h a
    obtain rfl : a = 0 := Subsingleton.elim _ _
    rw [k3_off1_eq]
    exact h

/-- A row of the result belongs to the block of the task at (c, s) exactly when it is one of the task's 64 rows, which
    start at 64 * (2 s + c). -/
theorem mem_out3 (L : grid3.Coords) (i : S2048x128.Idx) :
    i ∈ ((outSl3 L).view.set : Finset S2048x128.Idx) ↔ 128 * (L 1).val + 64 * (L 0).val ≤ (i 0).val ∧ (i 0).val < 128 * (L 1).val + 64 * (L 0).val + 64 := by
  have hs : ((outSl3 L).view.set : Finset S2048x128.Idx)
      = (Rect.unit (s := S2048x128) (k3_off56 L) S64x128.size (k3_off56_inb L)).set := View.set_slice_whole _ _
  rw [hs, Rect.mem_set_unit]
  constructor
  · intro h
    have h0 := h 0
    rw [k3_off56_eq] at h0
    exact h0
  · intro h a
    rw [k3_off56_eq]
    match a with
    | ⟨0, _⟩ => exact h
    | ⟨1, _⟩ =>
      have h1 : (i 1).val < 128 := (i 1).isLt
      exact ⟨Nat.zero_le _, (by show (i 1).val < 0 + 128; omega)⟩

theorem idx3_disjoint : ∀ a ∈ (Finset.univ : Finset (Fin 2 × Fin 16)), ∀ b ∈ (Finset.univ : Finset (Fin 2 × Fin 16)), a ≠ b →
    Disjoint (idxSet3 a) (idxSet3 b) := by
  intro a _ b _ hab
  refine Finset.disjoint_left.mpr fun i hi hj => hab ?_
  replace hi : i ∈ ((idxSl3 (coords3 a.1 a.2)).view.set : Finset S40960.Idx) := hi
  replace hj : i ∈ ((idxSl3 (coords3 b.1 b.2)).view.set : Finset S40960.Idx) := hj
  rw [mem_idx3] at hi hj
  have e0 : (coords3 a.1 a.2 0).val = a.1.val := rfl
  have e1 : (coords3 a.1 a.2 1).val = a.2.val := rfl
  have f0 : (coords3 b.1 b.2 0).val = b.1.val := rfl
  have f1 : (coords3 b.1 b.2 1).val = b.2.val := rfl
  rw [e0, e1] at hi; rw [f0, f1] at hj
  have ha1 := a.1.isLt; have hb1 := b.1.isLt
  exact Prod.ext (Fin.ext (by omega)) (Fin.ext (by omega))

theorem idx3_cover : (Finset.univ : Finset (Fin 2 × Fin 16)).biUnion idxSet3 = Finset.univ := by
  refine Finset.eq_univ_of_forall fun i => Finset.mem_biUnion.mpr ?_
  have hi : (i 0).val < 40960 := (i 0).isLt
  have hc : (i 0).val / 1280 % 2 < 2 := Nat.mod_lt _ (by decide)
  have hs : (i 0).val / 1280 / 2 < 16 := by omega
  refine ⟨(⟨(i 0).val / 1280 % 2, hc⟩, ⟨(i 0).val / 1280 / 2, hs⟩), Finset.mem_univ _,
    (mem_idx3 (coords3 ⟨(i 0).val / 1280 % 2, hc⟩ ⟨(i 0).val / 1280 / 2, hs⟩) i).mpr ?_⟩
  show 2560 * ((i 0).val / 1280 / 2) + 1280 * ((i 0).val / 1280 % 2) ≤ (i 0).val ∧ (i 0).val < 2560 * ((i 0).val / 1280 / 2) + 1280 * ((i 0).val / 1280 % 2) + 1280
  omega

theorem out3_disjoint : ∀ a ∈ (Finset.univ : Finset (Fin 2 × Fin 16)), ∀ b ∈ (Finset.univ : Finset (Fin 2 × Fin 16)), a ≠ b →
    Disjoint (outSet3 a) (outSet3 b) := by
  intro a _ b _ hab
  refine Finset.disjoint_left.mpr fun i hi hj => hab ?_
  replace hi : i ∈ ((outSl3 (coords3 a.1 a.2)).view.set : Finset S2048x128.Idx) := hi
  replace hj : i ∈ ((outSl3 (coords3 b.1 b.2)).view.set : Finset S2048x128.Idx) := hj
  rw [mem_out3] at hi hj
  have e0 : (coords3 a.1 a.2 0).val = a.1.val := rfl
  have e1 : (coords3 a.1 a.2 1).val = a.2.val := rfl
  have f0 : (coords3 b.1 b.2 0).val = b.1.val := rfl
  have f1 : (coords3 b.1 b.2 1).val = b.2.val := rfl
  rw [e0, e1] at hi; rw [f0, f1] at hj
  have ha1 := a.1.isLt; have hb1 := b.1.isLt
  exact Prod.ext (Fin.ext (by omega)) (Fin.ext (by omega))

theorem out3_cover : (Finset.univ : Finset (Fin 2 × Fin 16)).biUnion outSet3 = Finset.univ := by
  refine Finset.eq_univ_of_forall fun i => Finset.mem_biUnion.mpr ?_
  have hi : (i 0).val < 2048 := (i 0).isLt
  have hc : (i 0).val / 64 % 2 < 2 := Nat.mod_lt _ (by decide)
  have hs : (i 0).val / 64 / 2 < 16 := by omega
  refine ⟨(⟨(i 0).val / 64 % 2, hc⟩, ⟨(i 0).val / 64 / 2, hs⟩), Finset.mem_univ _,
    (mem_out3 (coords3 ⟨(i 0).val / 64 % 2, hc⟩ ⟨(i 0).val / 64 / 2, hs⟩) i).mpr ?_⟩
  show 128 * ((i 0).val / 64 / 2) + 64 * ((i 0).val / 64 % 2) ≤ (i 0).val ∧ (i 0).val < 128 * ((i 0).val / 64 / 2) + 64 * ((i 0).val / 64 % 2) + 64
  omega

end Cert.Proof.KI

end
-- ==== Proof.KI.ResSpec.lean ====
/-
  What @main leaves in its third result, stated from what the two SparseCore calls hand back. Each call's result
  array is known block by block: on the block of rows of the task at (c, s) it is that task's sums. The third result
  is the last stretch of host operations (the sum of the two arrays, reshaped to one row per batch element) applied
  to two such arrays.
-/
import proofs.«219250_g10247791969013_week1_w1_750_27_alg».proof.Proof.KI.Pay

noncomputable section

namespace Cert.Proof.KI

open Cert.KernelIdeal Cert.KernelIdeal.Gen

open Idealize.ShloMosaic Idealize.ShloMosaic.TcCoe
open Idealize.SL Idealize.SL.Sem
open Idealize.ShloMosaic.StableHlo

variable {F : FTy → Type} [FloatOps F]

variable (m : (ℓ : Loc nD τ sig) → Buf (Elt F) ℓ)

/-- A buffer of @main as a device buffer. -/
abbrev dr (b : Ref sig .tc) : DevRef τ sig := Proc.devRef .tc b

/-- An array g is call 0's result: on each task's block of rows it is that task's sums (written over whatever the
    block held). -/
def JoinA (d : Dev nD) (g : S2048x128.Idx → Elt F .f32) : Prop :=
  ∀ a : Fin 2 × Fin 16, ∃ fo : S2048x128.Idx → Elt F .f32,
    ∀ i ∈ ((outSl2 (coords2 a.1 a.2)).view.set : Finset S2048x128.Idx),
      g i = (outSl2 (coords2 a.1 a.2)).view.write (Elt F) fo
              (OUT2 (wantA m d) ((idxSl2 (coords2 a.1 a.2)).view.read (Elt F) (idxA m d))) Finset.univ i

/-- The same for call 1. -/
def JoinB (d : Dev nD) (g : S2048x128.Idx → Elt F .f32) : Prop :=
  ∀ a : Fin 2 × Fin 16, ∃ fo : S2048x128.Idx → Elt F .f32,
    ∀ i ∈ ((outSl3 (coords3 a.1 a.2)).view.set : Finset S2048x128.Idx),
      g i = (outSl3 (coords3 a.1 a.2)).view.write (Elt F) fo
              (OUT3 (wantB m d) ((idxSl3 (coords3 a.1 a.2)).view.read (Elt F) (idxB m d))) Finset.univ i

/-- The valuation the last stretch starts from: the second stretch's, with the two calls' results in place. -/
def VC (d : Dev nD) (gA gB : S2048x128.Idx → Elt F .f32) : Valuation τ sig (Elt F) :=
  Function.update (Function.update (VB m d) (dr main_v13) gA) (dr main_v14) gB

/-- The third result from the two calls' results. -/
def resOf (d : Dev nD) (gA gB : S2048x128.Idx → Elt F .f32) : S4096x64.Idx → Elt F .f32 :=
  after opsC (VC m d gA gB) (dr main_v16)

/-- An array is a third result of @main. -/
def ResOK (d : Dev nD) (R : S4096x64.Idx → Elt F .f32) : Prop :=
  ∃ gA gB, JoinA m d gA ∧ JoinB m d gB ∧ R = resOf m d gA gB

end Cert.Proof.KI

end
-- ==== Proof.KI.CallIO.lean ====
/-
  A SparseCore call's operands and results on the TensorCore's side: the pair table whole becomes the 32 tasks'
  read shares, the flat index list their 32 runs, the result their 32 blocks of rows; and the blocks the tasks hand
  back join into the result whole, known block by block.
-/
import proofs.«219250_g10247791969013_week1_w1_750_27_alg».proof.Proof.KI.Pay
import proofs.«219250_g10247791969013_week1_w1_750_27_alg».proof.Proof.KI.Cover
import proofs.«219250_g10247791969013_week1_w1_750_27_alg».proof.Proof.KI.ResSpec
import Idealize.ShloMosaic.Lib.SparseCore.Launch
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-! ## Call 0 -/

/-- The index list cut into the tasks' runs, and the result cut into their blocks. -/
theorem idx2_pieces (d : Dev nD) (f : S65536.Idx → Elt F .i32) :
    (tl d main_v9 ↦{fullShare} f : sProp 𝕄)
      = bigSep Finset.univ fun c : Fin 2 => bigSep Finset.univ fun s : Fin 16 => tl d main_v9 ↦[idxSet2 (c, s)]{fullShare} f := by
  rw [← bigSep_univ_prod (fun a : Fin 2 × Fin 16 => (tl d main_v9 ↦[idxSet2 a]{fullShare} f : sProp 𝕄)),
    ← pointsTo_biUnion Finset.univ (ℓ := tl d main_v9) idxSet2 idx2_disjoint, idx2_cover]
  try rfl
theorem out2_pieces (d : Dev nD) (f : S2048x128.Idx → Elt F .f32) :
    (tl d main_v13 ↦{fullShare} f : sProp 𝕄)
      = bigSep Finset.univ fun c : Fin 2 => bigSep Finset.univ fun s : Fin 16 => tl d main_v13 ↦[outSet2 (c, s)]{fullShare} f := by
  rw [← bigSep_univ_prod (fun a : Fin 2 × Fin 16 => (tl d main_v13 ↦[outSet2 a]{fullShare} f : sProp 𝕄)),
    ← pointsTo_biUnion Finset.univ (ℓ := tl d main_v13) outSet2 out2_disjoint, out2_cover]
  try rfl

/-- The pair table whole, cut into the 32 tasks' read shares. -/
theorem tab2_toks (d : Dev nD) (f : S802816x128.Idx → Elt F .f32) :
    (tl d main_v5 ↦{fullShare} f : sProp 𝕄)
      ⊢ bigSep Finset.univ fun c : Fin 2 => bigSep Finset.univ fun s : Fin 16 => tl d main_v5 ↦{tok c s} f := by
  refine (Transfers.pointsTo_toks_split fullShare 2).trans (sep_elim_right.trans ?_)
  exact bigSep_mono fun c _ => (Transfers.pointsTo_toks_split (Transfers.shareTok fullShare 2 c) 16).trans sep_elim_right

/-- What the call takes for the two SparseCores, from the TensorCore's three arrays. -/
theorem st2_intro (d : Dev nD) (f : S802816x128.Idx → Elt F .f32) (hf : TabOK (wantA m d) f) :
    iprop((tl d main_v5 ↦{fullShare} f) ∗ (tl d main_v9 ↦{fullShare} idxA m d)
        ∗ ∃ fo : S2048x128.Idx → Elt F .f32, tl d main_v13 ↦{fullShare} fo)
      ⊢ (bigSep Finset.univ fun c : Fin ((K (F := F)).nCore 0) => (P m).st 0 d c : sProp 𝕄) := by
  show _ ⊢ bigSep (Finset.univ : Finset (Fin 2)) fun c => bigSep Finset.univ fun s : Fin 16 => tileIn2 m d (coords2 c s) (tok c s)
  have key : ∀ (fo : S2048x128.Idx → Elt F .f32) (c : Fin 2) (s : Fin 16),
      iprop((tl d main_v5 ↦{tok c s} f) ∗ (tl d main_v9 ↦[idxSet2 (c, s)]{fullShare} idxA m d) ∗ (tl d main_v13 ↦[outSet2 (c, s)]{fullShare} fo))
        ⊢ (tileIn2 m d (coords2 c s) (tok c s) : sProp 𝕄) := fun fo c s => by
    unfold tileIn2
    iintro ⟨HA, HB, HC⟩
    isplitl [HA]
    · iexists f; isplitr
      · ipureintro; exact hf
      · iexact HA
    isplitl [HB]; · iexact HB
    iexists fo; iexact HC
  iintro ⟨HT, HI, %fo, HO⟩
  ihave HT' := (tab2_toks d f) $$ HT
  ihave HI' := (Entails.of_eq (idx2_pieces d (idxA m d))) $$ HI
  ihave HO' := (Entails.of_eq (out2_pieces d fo)) $$ HO
  have hmono : ((bigSep Finset.univ fun c : Fin 2 => bigSep Finset.univ fun s : Fin 16 =>
        iprop((tl d main_v5 ↦{tok c s} f) ∗ (tl d main_v9 ↦[idxSet2 (c, s)]{fullShare} idxA m d) ∗ (tl d main_v13 ↦[outSet2 (c, s)]{fullShare} fo))) : sProp 𝕄)
      ⊢ bigSep Finset.univ fun c : Fin 2 => bigSep Finset.univ fun s : Fin 16 => tileIn2 m d (coords2 c s) (tok c s) :=
    bigSep_mono fun c _ => bigSep_mono fun s _ => key fo c s
  iapply hmono
  simp only [bigSep_sep']
  isplitl [HT']; · iexact HT'
  isplitl [HI']; · iexact HI'
  iexact HO'

/-- What the call hands back: the result whole, known block by block. -/
theorem dn2_elim [∀ e, Nonempty (Elt F e)] (d : Dev nD) :
    (bigSep Finset.univ fun c : Fin ((K (F := F)).nCore 0) => (P m).dn 0 d c : sProp 𝕄)
      ⊢ iprop(∃ g : S2048x128.Idx → Elt F .f32, ⌜JoinA m d g⌝ ∗ tl d main_v13 ↦{fullShare} g) := by
  show (bigSep (Finset.univ : Finset (Fin 2)) fun c => bigSep Finset.univ fun s : Fin 16 => tileOut2 m d (coords2 c s)) ⊢ _
  rw [← bigSep_univ_prod (fun a : Fin 2 × Fin 16 => (tileOut2 m d (coords2 a.1 a.2) : sProp 𝕄))]
  unfold tileOut2
  refine (bigSep_exists_pi Finset.univ (fun (a : Fin 2 × Fin 16) (fo : S2048x128.Idx → Elt F .f32) =>
    (tl d main_v13 ↦[outSet2 a]{fullShare}
      ((outSl2 (coords2 a.1 a.2)).view.write (Elt F) fo (OUT2 (wantA m d) ((idxSl2 (coords2 a.1 a.2)).view.read (Elt F) (idxA m d))) Finset.univ) : sProp 𝕄))).trans ?_
  iintro ⟨%fs, H⟩
  ihave H' := (pointsTo_biUnion_join (ℓ := tl d main_v13) (q := fullShare) Finset.univ outSet2
    (fun a => (outSl2 (coords2 a.1 a.2)).view.write (Elt F) (fs a) (OUT2 (wantA m d) ((idxSl2 (coords2 a.1 a.2)).view.read (Elt F) (idxA m d))) Finset.univ)
    (fs (0, 0)) out2_disjoint) $$ H
  icases H' with ⟨%g, %hg, Hg⟩
  rw [out2_cover]
  iexists g; isplitr
  · ipureintro
    intro a
    exact ⟨fs a, fun i hi => hg a (Finset.mem_univ a) i hi⟩
  · iexact Hg

/-! ## Call 1 -/

/-- The index list cut into the tasks' runs, and the result cut into their blocks. -/
theorem idx3_pieces (d : Dev nD) (f : S40960.Idx → Elt F .i32) :
    (tl d main_v12 ↦{fullShare} f : sProp 𝕄)
      = bigSep Finset.univ fun c : Fin 2 => bigSep Finset.univ fun s : Fin 16 => tl d main_v12 ↦[idxSet3 (c, s)]{fullShare} f := by
  rw [← bigSep_univ_prod (fun a : Fin 2 × Fin 16 => (tl d main_v12 ↦[idxSet3 a]{fullShare} f : sProp 𝕄)),
    ← pointsTo_biUnion Finset.univ (ℓ := tl d main_v12) idxSet3 idx3_disjoint, idx3_cover]
  try rfl
theorem out3_pieces (d : Dev nD) (f : S2048x128.Idx → Elt F .f32) :
    (tl d main_v14 ↦{fullShare} f : sProp 𝕄)
      = bigSep Finset.univ fun c : Fin 2 => bigSep Finset.univ fun s : Fin 16 => tl d main_v14 ↦[outSet3 (c, s)]{fullShare} f := by
  rw [← bigSep_univ_prod (fun a : Fin 2 × Fin 16 => (tl d main_v14 ↦[outSet3 a]{fullShare} f : sProp 𝕄)),
    ← pointsTo_biUnion Finset.univ (ℓ := tl d main_v14) outSet3 out3_disjoint, out3_cover]
  try rfl

/-- The pair table whole, cut into the 32 tasks' read shares. -/
theorem tab3_toks (d : Dev nD) (f : S501760x128.Idx → Elt F .f32) :
    (tl d main_v6 ↦{fullShare} f : sProp 𝕄)
      ⊢ bigSep Finset.univ fun c : Fin 2 => bigSep Finset.univ fun s : Fin 16 => tl d main_v6 ↦{tok c s} f := by
  refine (Transfers.pointsTo_toks_split fullShare 2).trans (sep_elim_right.trans ?_)
  exact bigSep_mono fun c _ => (Transfers.pointsTo_toks_split (Transfers.shareTok fullShare 2 c) 16).trans sep_elim_right

/-- What the call takes for the two SparseCores, from the TensorCore's three arrays. -/
theorem st3_intro (d : Dev nD) (f : S501760x128.Idx → Elt F .f32) (hf : TabOK (wantB m d) f) :
    iprop((tl d main_v6 ↦{fullShare} f) ∗ (tl d main_v12 ↦{fullShare} idxB m d)
        ∗ ∃ fo : S2048x128.Idx → Elt F .f32, tl d main_v14 ↦{fullShare} fo)
      ⊢ (bigSep Finset.univ fun c : Fin ((K (F := F)).nCore 1) => (P m).st 1 d c : sProp 𝕄) := by
  show _ ⊢ bigSep (Finset.univ : Finset (Fin 2)) fun c => bigSep Finset.univ fun s : Fin 16 => tileIn3 m d (coords3 c s) (tok c s)
  have key : ∀ (fo : S2048x128.Idx → Elt F .f32) (c : Fin 2) (s : Fin 16),
      iprop((tl d main_v6 ↦{tok c s} f) ∗ (tl d main_v12 ↦[idxSet3 (c, s)]{fullShare} idxB m d) ∗ (tl d main_v14 ↦[outSet3 (c, s)]{fullShare} fo))
        ⊢ (tileIn3 m d (coords3 c s) (tok c s) : sProp 𝕄) := fun fo c s => by
    unfold tileIn3
    iintro ⟨HA, HB, HC⟩
    isplitl [HA]
    · iexists f; isplitr
      · ipureintro; exact hf
      · iexact HA
    isplitl [HB]; · iexact HB
    iexists fo; iexact HC
  iintro ⟨HT, HI, %fo, HO⟩
  ihave HT' := (tab3_toks d f) $$ HT
  ihave HI' := (Entails.of_eq (idx3_pieces d (idxB m d))) $$ HI
  ihave HO' := (Entails.of_eq (out3_pieces d fo)) $$ HO
  have hmono : ((bigSep Finset.univ fun c : Fin 2 => bigSep Finset.univ fun s : Fin 16 =>
        iprop((tl d main_v6 ↦{tok c s} f) ∗ (tl d main_v12 ↦[idxSet3 (c, s)]{fullShare} idxB m d) ∗ (tl d main_v14 ↦[outSet3 (c, s)]{fullShare} fo))) : sProp 𝕄)
      ⊢ bigSep Finset.univ fun c : Fin 2 => bigSep Finset.univ fun s : Fin 16 => tileIn3 m d (coords3 c s) (tok c s) :=
    bigSep_mono fun c _ => bigSep_mono fun s _ => key fo c s
  iapply hmono
  simp only [bigSep_sep']
  isplitl [HT']; · iexact HT'
  isplitl [HI']; · iexact HI'
  iexact HO'

/-- What the call hands back: the result whole, known block by block. -/
theorem dn3_elim [∀ e, Nonempty (Elt F e)] (d : Dev nD) :
    (bigSep Finset.univ fun c : Fin ((K (F := F)).nCore 1) => (P m).dn 1 d c : sProp 𝕄)
      ⊢ iprop(∃ g : S2048x128.Idx → Elt F .f32, ⌜JoinB m d g⌝ ∗ tl d main_v14 ↦{fullShare} g) := by
  show (bigSep (Finset.univ : Finset (Fin 2)) fun c => bigSep Finset.univ fun s : Fin 16 => tileOut3 m d (coords3 c s)) ⊢ _
  rw [← bigSep_univ_prod (fun a : Fin 2 × Fin 16 => (tileOut3 m d (coords3 a.1 a.2) : sProp 𝕄))]
  unfold tileOut3
  refine (bigSep_exists_pi Finset.univ (fun (a : Fin 2 × Fin 16) (fo : S2048x128.Idx → Elt F .f32) =>
    (tl d main_v14 ↦[outSet3 a]{fullShare}
      ((outSl3 (coords3 a.1 a.2)).view.write (Elt F) fo (OUT3 (wantB m d) ((idxSl3 (coords3 a.1 a.2)).view.read (Elt F) (idxB m d))) Finset.univ) : sProp 𝕄))).trans ?_
  iintro ⟨%fs, H⟩
  ihave H' := (pointsTo_biUnion_join (ℓ := tl d main_v14) (q := fullShare) Finset.univ outSet3
    (fun a => (outSl3 (coords3 a.1 a.2)).view.write (Elt F) (fs a) (OUT3 (wantB m d) ((idxSl3 (coords3 a.1 a.2)).view.read (Elt F) (idxB m d))) Finset.univ)
    (fs (0, 0)) out3_disjoint) $$ H
  icases H' with ⟨%g, %hg, Hg⟩
  rw [out3_cover]
  iexists g; isplitr
  · ipureintro
    intro a
    exact ⟨fs a, fun i hi => hg a (Finset.mem_univ a) i hi⟩
  · iexact Hg

end Cert.Proof.KI

end
-- ==== Proof.KI.LaunchElem.lean ====
/-
  The launch element of the certificate's ghost state: the launch handshakes' rounds, the two pipelines' staging
  cells (funded here into every core's cells' ghost state and duty tokens), and the unit of the tasks' transfer
  counters. No kernel's proof consumes anything of the launch's.
-/
import proofs.«219250_g10247791969013_week1_w1_750_27_alg».proof.Proof.KI.Pay
import proofs.«219250_g10247791969013_week1_w1_750_27_alg».proof.Proof.KI.Spec
import Idealize.ShloMosaic.Lib.SparseCore.Launch
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The staging cells of the two pipelines are pairwise distinct. -/
theorem cellOf_inj0 (F : FTy → Type) [FloatOps F] :
    Function.Injective (Pipeline.cellOf (nD := nD) (τ := τ) (Pipeline.pin (pcfgs (F := F)) adm)) := cellOf_inj

/-- The pipelines' part of the launch element: their staging cells' rounds, every duty's token. -/
def uP (F : FTy → Type) [FloatOps F] : UP :=
  initOf (Pipeline.cells (Pipeline.pin (pcfgs (F := F)) adm) (cellOf_inj0 F)) (Pipeline.launchToks (Pipeline.pin (pcfgs (F := F)) adm) (cellOf_inj0 F))

/-- The launch element. -/
def u₀ (F : FTy → Type) [FloatOps F] : UU := (initOf (K (F := F)).hsCells (K (F := F)).hsToks, (uP F, 1))

omit [FloatOps F] in
/-- The element splits into the handshakes' and the pipelines' parts. -/
theorem ownU_split (a : UH) (b : UP) (c : Counters) : (ownU (a, (b, c)) : sProp 𝕄) ⊢ iprop(BI.own (EH a) ∗ BI.own (EP (F := F) b)) := by
  iintro H
  ihave H' := (ownU_pair a (b, c)) $$ H
  icases H' with ⟨HH, HR⟩
  ihave HR' := (own_pair_emb (embR : Emb (UP × Counters) 𝕄) b c) $$ HR
  icases HR' with ⟨HP, -⟩
  isplitl [HH]; · iexact HH
  iexact HP

variable (m : (ℓ : Loc nD τ sig) → Buf (Elt F) ℓ)

theorem bigSep_emp' {I : Type} (s : Finset I) : (bigSep s fun _ => iprop(emp)) = (iprop(emp) : sProp 𝕄) := bigSep_emp_const s

/-- The launch element deals the handshakes their rounds and every core its pipelines' ghost state. -/
theorem hu₀ (hfund : RegionsFund F) : (ownU (u₀ F) : sProp 𝕄)
    ⊢ |={Set.univ}=> iprop(BI.own (EH (initOf (K (F := F)).hsCells (K (F := F)).hsToks)) ∗ (bigSep Finset.univ fun d : Dev nD => (regGhost d : sProp 𝕄))
        ∗ bigSep Finset.univ fun thr : Thread nD τ => bigSep Finset.univ fun q : Fin 2 => (P m).x q thr) := by
  unfold u₀ uP
  iintro Hu
  ihave H := (ownU_split _ _ _) $$ Hu
  icases H with ⟨HH, HP⟩
  imod (hfund (cellOf_inj0 F)) $$ HP with Hg
  imodintro
  isplitl [HH]; · iexact HH
  isplitl [Hg]; · iexact Hg
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The TensorCore's handshake state, opened at what it owes -/

/-- The TensorCore owes nothing at the index its own kernels' waits are recorded at. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The state before call n gives up what the core owes, and takes it back. -/
theorem tcSt_open (d : Dev nD) (n : ℕ) :
    ((K (F := F)).tcSt EH d n : sProp 𝕄)
      ⊢ iprop((∃ W, ⌜(K (F := F)).WBelow (SparseCore.T d) W (8 * n)⌝ ∗ owes (SparseCore.T d) ((K (F := F)).Otc d n) W)
          ∗ ((∃ W, ⌜(K (F := F)).WBelow (SparseCore.T d) W (8 * n)⌝ ∗ owes (SparseCore.T d) ((K (F := F)).Otc d n) W) -∗ (K (F := F)).tcSt EH d n)) := by
  unfold SparseCore.Cfg.tcSt
  iintro ⟨HO, Hr⟩
  isplitl [HO]; · iexact HO
  iintro HO
  isplitl [HO]; · iexact HO
  iexact Hr

end Cert.Proof.KI

end
-- ==== Proof.KI.MainTC.lean ====
/-
  @main on the TensorCore, inside the SparseCore launch: the first stretch of host operations; the two pipelined
  transposes (from the transposed tables to the two pair tables); the second stretch (the flat index lists); the
  two SparseCore calls, each handed its pair table, its index list and its result array and handing the result back
  known block by block; the last stretch (the sum and the reshape). It ends holding the three arguments and the two
  numeric results at their values, and the third result at an array that is a sum of two block-wise known arrays.
-/
import proofs.«219250_g10247791969013_week1_w1_750_27_alg».proof.Proof.KI.Obl
import proofs.«219250_g10247791969013_week1_w1_750_27_alg».proof.Proof.KI.CallIO
import proofs.«219250_g10247791969013_week1_w1_750_27_alg».proof.Proof.KI.LaunchElem
import Idealize.ShloMosaic.Lib.Pipeline.Frame
import Idealize.ShloMosaic.Lib.StableHlo.Run

noncomputable section

namespace Cert.Proof.KI

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The sets of arrays each step holds -/

/-- Every array of @main. -/
abbrev SAll : Finset (DevRef τ sig) := Pipeline.ucRefs τ sig
/-- The transposes' three arrays. -/
abbrev T1 : Finset (DevRef τ sig) := {dr main_v4, dr main_v5, dr main_v6}
/-- The calls' index lists and results, and the last stretch's two arrays. -/
abbrev T2 : Finset (DevRef τ sig) := {dr main_v9, dr main_v12, dr main_v13, dr main_v14, dr main_v15, dr main_v16}
/-- What the claim reads besides the third result. -/
abbrev T3 : Finset (DevRef τ sig) := {dr main_arg0, dr main_arg1, dr main_arg2, dr main_v2, dr main_v3}
/-- The last stretch's arrays. -/
abbrev T4 : Finset (DevRef τ sig) := {dr main_v13, dr main_v14, dr main_v15, dr main_v16}
abbrev S1 : Finset (DevRef τ sig) := SAll \ T1
abbrev S2 : Finset (DevRef τ sig) := S1 \ T2

theorem T1_sub : T1 ⊆ SAll := by decide
theorem T2_sub : T2 ⊆ S1 := by decide
theorem T3_sub : T3 ⊆ S2 := by decide

theorem opsA_sub : ∀ op ∈ (opsA : List (HloOp τ sig (Elt F))), op.bufs ⊆ SAll := by
  intro op hop
  simp only [opsA, List.mem_cons, List.mem_nil_iff, or_false] at hop
  rcases hop with rfl | rfl | rfl | rfl | rfl <;> first | (rw [StableHlo.unary_bufs]; decide) | (rw [StableHlo.reshape_bufs]; decide) | (rw [StableHlo.binary_bufs]; decide)
theorem opsB_sub : ∀ op ∈ (opsB : List (HloOp τ sig (Elt F))), op.bufs ⊆ S1 := by
  intro op hop
  simp only [opsB, List.mem_cons, List.mem_nil_iff, or_false] at hop
  rcases hop with rfl | rfl | rfl | rfl | rfl | rfl <;> first | (rw [StableHlo.unary_bufs]; decide) | (rw [StableHlo.reshape_bufs]; decide) | (rw [StableHlo.binary_bufs]; decide)
theorem opsC_sub : ∀ op ∈ (opsC : List (HloOp τ sig (Elt F))), op.bufs ⊆ T4 := by
  intro op hop
  simp only [opsC, List.mem_cons, List.mem_nil_iff, or_false] at hop
  rcases hop with rfl | rfl <;> first | (rw [StableHlo.unary_bufs]; decide) | (rw [StableHlo.reshape_bufs]; decide) | (rw [StableHlo.binary_bufs]; decide)
theorem opsA_fresh : ∀ op ∈ (opsA : List (HloOp τ sig (Elt F))), op.fresh = ∅ := by
  intro op hop
  simp only [opsA, List.mem_cons, List.mem_nil_iff, or_false] at hop
  rcases hop with rfl | rfl | rfl | rfl | rfl <;> rfl
theorem opsB_fresh : ∀ op ∈ (opsB : List (HloOp τ sig (Elt F))), op.fresh = ∅ := by
  intro op hop
  simp only [opsB, List.mem_cons, List.mem_nil_iff, or_false] at hop
  rcases hop with rfl | rfl | rfl | rfl | rfl | rfl <;> rfl
theorem opsC_fresh : ∀ op ∈ (opsC : List (HloOp τ sig (Elt F))), op.fresh = ∅ := by
  intro op hop
  simp only [opsC, List.mem_cons, List.mem_nil_iff, or_false] at hop
  rcases hop with rfl | rfl <;> rfl

omit [FloatOps F] in
theorem held_T1 (d : Dev nD) (W : Valuation τ sig (Elt F)) :
    (held (SparseCore.T d) T1 W : sProp 𝕄)
      = iprop((tl d main_v4 ↦{fullShare} W (dr main_v4)) ∗ (tl d main_v5 ↦{fullShare} W (dr main_v5)) ∗ tl d main_v6 ↦{fullShare} W (dr main_v6)) := by
  unfold held T1
  rw [SparseCore.bigSep_insert' (by decide), SparseCore.bigSep_insert' (by decide), bigSep_singleton]
omit [FloatOps F] in
theorem held_T2 (d : Dev nD) (W : Valuation τ sig (Elt F)) :
    (held (SparseCore.T d) T2 W : sProp 𝕄)
      = iprop((tl d main_v9 ↦{fullShare} W (dr main_v9)) ∗ (tl d main_v12 ↦{fullShare} W (dr main_v12)) ∗ (tl d main_v13 ↦{fullShare} W (dr main_v13))
          ∗ (tl d main_v14 ↦{fullShare} W (dr main_v14)) ∗ (tl d main_v15 ↦{fullShare} W (dr main_v15)) ∗ tl d main_v16 ↦{fullShare} W (dr main_v16)) := by
  unfold held T2
  rw [SparseCore.bigSep_insert' (by decide), SparseCore.bigSep_insert' (by decide), SparseCore.bigSep_insert' (by decide),
    SparseCore.bigSep_insert' (by decide), SparseCore.bigSep_insert' (by decide), bigSep_singleton]
omit [FloatOps F] in
theorem held_T4 (d : Dev nD) (W : Valuation τ sig (Elt F)) :
    (held (SparseCore.T d) T4 W : sProp 𝕄)
      = iprop((tl d main_v13 ↦{fullShare} W (dr main_v13)) ∗ (tl d main_v14 ↦{fullShare} W (dr main_v14))
          ∗ (tl d main_v15 ↦{fullShare} W (dr main_v15)) ∗ tl d main_v16 ↦{fullShare} W (dr main_v16)) := by
  unfold held T4
  rw [SparseCore.bigSep_insert' (by decide), SparseCore.bigSep_insert' (by decide), SparseCore.bigSep_insert' (by decide), bigSep_singleton]

omit [FloatOps F] in
theorem held_T3 (d : Dev nD) (W : Valuation τ sig (Elt F)) :
    (held (SparseCore.T d) T3 W : sProp 𝕄)
      = iprop((tl d main_arg0 ↦{fullShare} W (dr main_arg0)) ∗ (tl d main_arg1 ↦{fullShare} W (dr main_arg1)) ∗ (tl d main_arg2 ↦{fullShare} W (dr main_arg2))
          ∗ (tl d main_v2 ↦{fullShare} W (dr main_v2)) ∗ tl d main_v3 ↦{fullShare} W (dr main_v3)) := by
  unfold held T3
  rw [SparseCore.bigSep_insert' (by decide), SparseCore.bigSep_insert' (by decide), SparseCore.bigSep_insert' (by decide),
    SparseCore.bigSep_insert' (by decide), bigSep_singleton]

/-- The launch's arrays as a held set at the launch valuation. -/
theorem unscoped_held (d : Dev nD) :
    (unscopedBufs d (fun b => m ((SparseCore.T d).loc b)) : sProp 𝕄) = held (SparseCore.T d) SAll (V0 m d) :=
  Pipeline.unscopedBufs_held d (V0 m d)

/-! ## The pair tables the transposes leave are the determined pair tables where those are determined -/

theorem tabOK_of_trans0 (A : S26x64x100000.Idx → Elt F .f32) (f : S802816x128.Idx → Elt F .f32) (h : Trans0 A f) :
    TabOK (pairTab 0 8 A (by decide)) f := by
  intro i hi
  have h0 : (i 0).val < 802816 := (i 0).isLt
  have h1 : (i 1).val < 128 := (i 1).isLt
  have e := h ((i 0).val / 100352) ((i 0).val % 100352) ((i 1).val / 64) ((i 1).val % 64) (by omega) hi (by omega) (by omega)
  have hi' : i = ValueIdx.ix2 (⟨(i 0).val / 100352 * 100352 + (i 0).val % 100352, by omega⟩ : Fin 802816) (⟨(i 1).val / 64 * 64 + (i 1).val % 64, by omega⟩ : Fin 128) := by
    funext a; refine Fin.ext ?_
    match a with
    | ⟨0, _⟩ => show (i 0).val = (i 0).val / 100352 * 100352 + (i 0).val % 100352; omega
    | ⟨1, _⟩ => show (i 1).val = (i 1).val / 64 * 64 + (i 1).val % 64; omega
  have hfi : f i = f (ValueIdx.ix2 (⟨(i 0).val / 100352 * 100352 + (i 0).val % 100352, by omega⟩ : Fin 802816) (⟨(i 1).val / 64 * 64 + (i 1).val % 64, by omega⟩ : Fin 128)) :=
    congrArg f hi'
  rw [hfi, e]
  unfold pairTab
  refine congrArg A (funext fun a => Fin.ext ?_)
  match a with
  | ⟨0, _⟩ => show 2 * ((i 0).val / 100352) + (i 1).val / 64 = 2 * (0 + (i 0).val / 100352) + (i 1).val / 64; omega
  | ⟨1, _⟩ => rfl
  | ⟨2, _⟩ => show (i 0).val % 100352 = min ((i 0).val % 100352) 99999; omega

theorem tabOK_of_trans1 (A : S26x64x100000.Idx → Elt F .f32) (f : S501760x128.Idx → Elt F .f32) (h : Trans1 A f) :
    TabOK (pairTab 8 5 A (by decide)) f := by
  intro i hi
  have h0 : (i 0).val < 501760 := (i 0).isLt
  have h1 : (i 1).val < 128 := (i 1).isLt
  have e := h ((i 0).val / 100352) ((i 0).val % 100352) ((i 1).val / 64) ((i 1).val % 64) (by omega) hi (by omega) (by omega)
  have hi' : i = ValueIdx.ix2 (⟨(i 0).val / 100352 * 100352 + (i 0).val % 100352, by omega⟩ : Fin 501760) (⟨(i 1).val / 64 * 64 + (i 1).val % 64, by omega⟩ : Fin 128) := by
    funext a; refine Fin.ext ?_
    match a with
    | ⟨0, _⟩ => show (i 0).val = (i 0).val / 100352 * 100352 + (i 0).val % 100352; omega
    | ⟨1, _⟩ => show (i 1).val = (i 1).val / 64 * 64 + (i 1).val % 64; omega
  have hfi : f i = f (ValueIdx.ix2 (⟨(i 0).val / 100352 * 100352 + (i 0).val % 100352, by omega⟩ : Fin 501760) (⟨(i 1).val / 64 * 64 + (i 1).val % 64, by omega⟩ : Fin 128)) :=
    congrArg f hi'
  rw [hfi, e]
  unfold pairTab
  refine congrArg A (funext fun a => Fin.ext ?_)
  match a with
  | ⟨0, _⟩ => show 2 * ((i 0).val / 100352 + 8) + (i 1).val / 64 = 2 * (8 + (i 0).val / 100352) + (i 1).val / 64; omega
  | ⟨1, _⟩ => rfl
  | ⟨2, _⟩ => show (i 0).val % 100352 = min ((i 0).val % 100352) 99999; omega

/-- The transposes' results against the first stretch's transposed tables are the calls' determined pair tables. -/
theorem wantA_ok (d : Dev nD) (f : S802816x128.Idx → Elt F .f32) (h : Trans0 (tabT m d) f) : TabOK (wantA m d) f := by
  unfold wantA; exact tabOK_of_trans0 _ _ h
theorem wantB_ok (d : Dev nD) (f : S501760x128.Idx → Elt F .f32) (h : Trans1 (tabT m d) f) : TabOK (wantB m d) f := by
  unfold wantB; exact tabOK_of_trans1 _ _ h

/-! ## What @main leaves the claim -/

/-- The three arguments and the two numeric results at their values, and the third result at a sum of two block-wise
    known arrays. -/
def FIN (d : Dev nD) : sProp 𝕄 :=
  iprop((tl d main_arg0 ↦{fullShare} VB m d (dr main_arg0)) ∗ (tl d main_arg1 ↦{fullShare} VB m d (dr main_arg1))
    ∗ (tl d main_arg2 ↦{fullShare} VB m d (dr main_arg2)) ∗ (tl d main_v2 ↦{fullShare} VB m d (dr main_v2))
    ∗ (tl d main_v3 ↦{fullShare} VB m d (dr main_v3))
    ∗ ∃ R : S4096x64.Idx → Elt F .f32, ⌜ResOK m d R⌝ ∗ tl d main_v16 ↦{fullShare} R)

/-! ## @main -/

set_option maxHeartbeats 800000 in
/-- @main on device d's TensorCore. -/
theorem hmain (hreg : RegionsWp F) (κ : GSem nD τ sig → ℕ) (d : Dev nD) :
    iprop((K (F := F)).ctx EH (P m) κ ∗ (K (F := F)).tcSt EH d 0 ∗ (K (F := F)).tcRes m ρ d ∗ regGhost d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscoped_held, main_eq]
  iintro ⟨#Hctx, Hst, ⟨Hb, Hh, -, -⟩, Hg⟩
  -- the first stretch
  iapply (wp_seq 𝒱 none Set.univ d SAll _ opsA opsA_sub opsA_fresh (V0 m d)) $$ [Hb Hh]
  · isplitl [Hb]; · iexact Hb
    iexact Hh
  iintro ⟨Hb, Hh⟩
  ihave Hh := (Entails.of_eq (show (held (SparseCore.T d) SAll (after opsA (V0 m d)) : sProp 𝕄) = held (SparseCore.T d) SAll (VA m d) from by unfold VA; rfl)) $$ Hh
  ihave Hh' := (Entails.of_eq (held_sub_split (SparseCore.T d) T1_sub (VA m d))) $$ Hh
  icases Hh' with ⟨H1, Hh⟩
  ihave H1' := (Entails.of_eq (held_T1 d (VA m d))) $$ H1
  icases H1' with ⟨H4, H5, H6⟩
  ihave Hst' := (tcSt_open d 0) $$ Hst
  icases Hst' with ⟨HO, Hstk⟩
  -- the two transposes
  iapply (hreg (K (F := F)).lev (by sl_refines_lev) d (tabT m d) ((K (F := F)).Otc d 0) (Otc_none d 0) (8 * 0) _ _)
  isplitr [Hb H4 H5 H6 HO Hg]
  rotate_left
  · isplitl [Hb]; · iexact Hb
    isplitl [H4 H5 H6 HO]
    · unfold regPre
      isplitl [H4]
      · iapply (Entails.of_eq (show (tl d main_v4 ↦{fullShare} VA m d (dr main_v4) : sProp 𝕄) = (tl d main_v4 ↦{fullShare} tabT m d) from by unfold tabT; rfl))
        iexact H4
      isplitl [H5]; · iexists _; iexact H5
      isplitl [H6]; · iexists _; iexact H6
      iexact HO
    isplitr
    · iapply ((K (F := F)).ctx_levAts κ); iexact Hctx
    · iexact Hg
  iintro ⟨Hb, Hpost⟩
  unfold regPost
  icases Hpost with ⟨-, ⟨%f5, %h5, H5⟩, ⟨%f6, %h6, H6⟩, HO⟩
  ihave Hst := Hstk $$ HO
  -- the second stretch
  iapply (wp_seq 𝒱 none Set.univ d S1 _ opsB opsB_sub opsB_fresh (VA m d)) $$ [Hb Hh]
  · isplitl [Hb]; · iexact Hb
    iexact Hh
  iintro ⟨Hb, Hh⟩
  ihave Hh := (Entails.of_eq (show (held (SparseCore.T d) S1 (after opsB (VA m d)) : sProp 𝕄) = held (SparseCore.T d) S1 (VB m d) from by unfold VB; rfl)) $$ Hh
  ihave Hh' := (Entails.of_eq (held_sub_split (SparseCore.T d) T2_sub (VB m d))) $$ Hh
  icases Hh' with ⟨H2, Hh⟩
  ihave H2' := (Entails.of_eq (held_T2 d (VB m d))) $$ H2
  icases H2' with ⟨H9, H12, H13, H14, H15, H16⟩
  -- call 0
  rw [wp_bind]
  iapply ((K (F := F)).wp_run (D (F := F)) 𝒱 (EH := EH) (P := P m) κ d 0)
  isplitr; · iexact Hctx
  isplitl [Hst]; · iexact Hst
  isplitl [H5 H9 H13]
  · iapply (st2_intro m d f5 (wantA_ok m d f5 h5))
    isplitl [H5]; · iexact H5
    isplitl [H9]
    · iapply (Entails.of_eq (show (tl d main_v9 ↦{fullShare} VB m d (dr main_v9) : sProp 𝕄) = (tl d main_v9 ↦{fullShare} idxA m d) from by unfold idxA; rfl))
      iexact H9
    iexists _; iexact H13
  iintro ⟨Hst, Hdn⟩
  ihave Hdn' := (dn2_elim m d) $$ Hdn
  icases Hdn' with ⟨%gA, %hgA, H13⟩
  -- call 1
  rw [wp_bind]
  iapply ((K (F := F)).wp_run (D (F := F)) 𝒱 (EH := EH) (P := P m) κ d 1)
  isplitr; · iexact Hctx
  isplitl [Hst]; · iexact Hst
  isplitl [H6 H12 H14]
  · iapply (st3_intro m d f6 (wantB_ok m d f6 h6))
    isplitl [H6]; · iexact H6
    isplitl [H12]
    · iapply (Entails.of_eq (show (tl d main_v12 ↦{fullShare} VB m d (dr main_v12) : sProp 𝕄) = (tl d main_v12 ↦{fullShare} idxB m d) from by unfold idxB; rfl))
      iexact H12
    iexists _; iexact H14
  iintro ⟨Hst, Hdn⟩
  ihave Hdn' := (dn3_elim m d) $$ Hdn
  icases Hdn' with ⟨%gB, %hgB, H14⟩
  -- the last stretch
  rw [← bind_pure (seq opsC)]
  iapply (wp_seq 𝒱 none Set.univ d T4 _ opsC opsC_sub opsC_fresh (VC m d gA gB)) $$ [Hb H13 H14 H15 H16]
  · isplitl [Hb]; · iexact Hb
    rw [held_T4]
    unfold VC
    rw [Function.update_of_ne (show dr main_v13 ≠ dr main_v14 by decide), Function.update_self, Function.update_self,
      Function.update_of_ne (show dr main_v15 ≠ dr main_v14 by decide), Function.update_of_ne (show dr main_v15 ≠ dr main_v13 by decide),
      Function.update_of_ne (show dr main_v16 ≠ dr main_v14 by decide), Function.update_of_ne (show dr main_v16 ≠ dr main_v13 by decide)]
    isplitl [H13]; · iexact H13
    isplitl [H14]; · iexact H14
    isplitl [H15]; · iexact H15
    iexact H16
  iintro ⟨Hb, H4'⟩
  ihave H4'' := (Entails.of_eq (held_T4 d (after opsC (VC m d gA gB)))) $$ H4'
  icases H4'' with ⟨-, -, -, H16⟩
  ihave Hh' := (Entails.of_eq (held_sub_split (SparseCore.T d) T3_sub (VB m d))) $$ Hh
  icases Hh' with ⟨H3, -⟩
  rw [wp_pure]; imodintro
  isplitl [Hst]; · iexact Hst
  ihave H3' := (Entails.of_eq (held_T3 d (VB m d))) $$ H3
  icases H3' with ⟨Ha0, Ha1, Ha2, Hv2, Hv3⟩
  unfold FIN
  isplitl [Ha0]; · iexact Ha0
  isplitl [Ha1]; · iexact Ha1
  isplitl [Ha2]; · iexact Ha2
  isplitl [Hv2]; · iexact Hv2
  isplitl [Hv3]; · iexact Hv3
  iexists (resOf m d gA gB); isplitr
  · ipureintro; exact ⟨gA, gB, hgA, hgB, rfl⟩
  · iexact H16

end Cert.Proof.KI

end
-- ==== Proof.KI.Run.lean ====
/-
  The idealized kernel program's run, from the launch theorem: every weakly fair execution of all its threads
  terminates, nothing faulting, and every final memory has the three arguments and the two numeric results at the
  host stretches' values of the launch memory, and the third result at a sum of two block-wise known arrays.
-/
import proofs.«219250_g10247791969013_week1_w1_750_27_alg».proof.Proof.KI.MainTC

noncomputable section

namespace Cert.Proof.KI

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (m : (ℓ : Loc nD τ sig) → Buf (Elt F) ℓ) (ρ : Dev nD → PrngReg)

/-- What the final memory of device d is read for: the three arguments and the two numeric results at the second
    stretch's valuation, the third result a sum of two block-wise known arrays. -/
def fq (d : Dev nD) (s' : Phys nD τ sig (Elt F)) : Prop :=
  s'.mem.mem (tl d main_arg0) = VB m d (dr main_arg0) ∧ s'.mem.mem (tl d main_arg1) = VB m d (dr main_arg1)
    ∧ s'.mem.mem (tl d main_arg2) = VB m d (dr main_arg2) ∧ s'.mem.mem (tl d main_v2) = VB m d (dr main_v2)
    ∧ s'.mem.mem (tl d main_v3) = VB m d (dr main_v3) ∧ ResOK m d (s'.mem.mem (tl d main_v16))

theorem hfin (d : Dev nD) (s' : Phys nD τ sig (Elt F)) : iprop(FIN m d ∗ SI s') ⊢ (⌜fq m d s'⌝ : sProp 𝕄) := by
  unfold FIN
  iintro ⟨⟨Ha0, Ha1, Ha2, Hv2, Hv3, %R, %hR, H16⟩, HSI⟩
  ihave H := (persistent_entails_right (SI_pointsTo_agree (st := s') (ℓ := tl d main_arg0) (I := Finset.univ) (q := fullShare) (f := VB m d (dr main_arg0)))) $$ [HSI Ha0]
  · isplitl [HSI] <;> iassumption
  icases H with ⟨%h0, HSI, -⟩
  ihave H := (persistent_entails_right (SI_pointsTo_agree (st := s') (ℓ := tl d main_arg1) (I := Finset.univ) (q := fullShare) (f := VB m d (dr main_arg1)))) $$ [HSI Ha1]
  · isplitl [HSI] <;> iassumption
  icases H with ⟨%h1, HSI, -⟩
  ihave H := (persistent_entails_right (SI_pointsTo_agree (st := s') (ℓ := tl d main_arg2) (I := Finset.univ) (q := fullShare) (f := VB m d (dr main_arg2)))) $$ [HSI Ha2]
  · isplitl [HSI] <;> iassumption
  icases H with ⟨%h2, HSI, -⟩
  ihave H := (persistent_entails_right (SI_pointsTo_agree (st := s') (ℓ := tl d main_v2) (I := Finset.univ) (q := fullShare) (f := VB m d (dr main_v2)))) $$ [HSI Hv2]
  · isplitl [HSI] <;> iassumption
  icases H with ⟨%h3, HSI, -⟩
  ihave H := (persistent_entails_right (SI_pointsTo_agree (st := s') (ℓ := tl d main_v3) (I := Finset.univ) (q := fullShare) (f := VB m d (dr main_v3)))) $$ [HSI Hv3]
  · isplitl [HSI] <;> iassumption
  icases H with ⟨%h4, HSI, -⟩
  ihave H := (SI_pointsTo_agree (st := s') (ℓ := tl d main_v16) (I := Finset.univ) (q := fullShare) (f := R)) $$ [HSI H16]
  · isplitl [HSI] <;> iassumption
  icases H with %h5
  ipureintro
  refine ⟨funext fun i => h0 i (Finset.mem_univ i), funext fun i => h1 i (Finset.mem_univ i), funext fun i => h2 i (Finset.mem_univ i),
    funext fun i => h3 i (Finset.mem_univ i), funext fun i => h4 i (Finset.mem_univ i), ?_⟩
  rw [show s'.mem.mem (tl d main_v16) = R from funext fun i => h5 i (Finset.mem_univ i)]
  exact hR

/-- The program's run. -/
def QC : PUnit × MemSt nD τ sig (Elt F) → Prop := fun r => ∀ d : Dev nD,
  r.2.mem (tl d main_arg0) = VB m d (dr main_arg0) ∧ r.2.mem (tl d main_arg1) = VB m d (dr main_arg1)
    ∧ r.2.mem (tl d main_arg2) = VB m d (dr main_arg2) ∧ r.2.mem (tl d main_v2) = VB m d (dr main_v2)
    ∧ r.2.mem (tl d main_v3) = VB m d (dr main_v3) ∧ ResOK m d (r.2.mem (tl d main_v16))

theorem run_main [∀ e, Nonempty (Elt F e)] (h2 : TileBody2 F) (h3 : TileBody3 F) (hfund : RegionsFund F) (hreg : RegionsWp F)
    (hA : ∀ d i, (idxA m d i).toNat < 100000) (hB : ∀ d i, (idxB m d i).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl2 m h2 facts hA | 1 => tileObl3 m h3 facts hB)
    (fun q _ => SparseCore.Cfg.VecSplit.of_plain (vecSplit m q))
    m ρ main (fun d => regGhost d) (FIN m) (u₀ F) (sep_elim_left.trans (hu₀ m hfund)) (hmain m ρ hreg) (fq m) (hfin m) (QC m) (fun _ h => h)

end Cert.Proof.KI

end
-- ==== Proof.KI.HostVals.lean ====
/-
  What the host stretches leave: no operation writes an argument, so the arguments keep their launch contents; and
  the two flat index lists are slices of the input reshaped, so every one of their words is a word of the input.
-/
import proofs.«219250_g10247791969013_week1_w1_750_27_alg».proof.Proof.KI.Pay
import proofs.«219250_g10247791969013_week1_w1_750_27_alg».proof.Proof.KI.ResSpec

noncomputable section

namespace Cert.Proof.KI

open Cert.KernelIdeal Cert.KernelIdeal.Gen

open Idealize.ShloMosaic Idealize.ShloMosaic.TcCoe
open Idealize.SL Idealize.SL.Sem
open Idealize.ShloMosaic.StableHlo

variable {F : FTy → Type} [FloatOps F]

variable (m : (ℓ : Loc nD τ sig) → Buf (Elt F) ℓ)

theorem opsA_keeps {b : DevRef τ sig} (hb : b ∉ ({dr main_v0, dr main_v1, dr main_v2, dr main_v3, dr main_v4} : Finset (DevRef τ sig)))
    (W : Valuation τ sig (Elt F)) : after opsA W b = W b := by
  refine after_of_forall_not_mem opsA W fun op hop hw => hb ?_
  simp only [opsA, List.mem_cons, List.mem_nil_iff, or_false] at hop
  rcases hop with rfl | rfl | rfl | rfl | rfl
  all_goals
    rw [Finset.mem_singleton.mp hw]
    decide

theorem opsB_keeps {b : DevRef τ sig} (hb : b ∉ ({dr main_v7, dr main_v8, dr main_v9, dr main_v10, dr main_v11, dr main_v12} : Finset (DevRef τ sig)))
    (W : Valuation τ sig (Elt F)) : after opsB W b = W b := by
  refine after_of_forall_not_mem opsB W fun op hop hw => hb ?_
  simp only [opsB, List.mem_cons, List.mem_nil_iff, or_false] at hop
  rcases hop with rfl | rfl | rfl | rfl | rfl | rfl
  all_goals
    rw [Finset.mem_singleton.mp hw]
    decide

/-- The arguments after the two stretches are the launch's. -/
theorem VB_arg0 (d : Dev nD) : VB m d (dr main_arg0) = V0 m d (dr main_arg0) := by
  unfold VB VA; rw [opsB_keeps (by decide), opsA_keeps (by decide)]
theorem VB_arg1 (d : Dev nD) : VB m d (dr main_arg1) = V0 m d (dr main_arg1) := by
  unfold VB VA; rw [opsB_keeps (by decide), opsA_keeps (by decide)]
theorem VB_arg2 (d : Dev nD) : VB m d (dr main_arg2) = V0 m d (dr main_arg2) := by
  unfold VB VA; rw [opsB_keeps (by decide), opsA_keeps (by decide)]

/-- Every word of the first index list is a word of the input. -/
theorem idxA_word (d : Dev nD) (j : S65536.Idx) : ∃ i : S4096x64x36.Idx, idxA m d j = V0 m d (dr main_arg0) i := by
  have e : idxA m d = shapeCast S65536 (shapeCast S4096x16 (extractStridedSlice S4096x1x16 ![0, 0, 0] (V0 m d (dr main_arg0)) slices_S4096x64x36_S4096x1x16_0_0_0) shapeCasts_S4096x1x16_S4096x16) shapeCasts_S4096x16_S65536 := by
    unfold idxA VB
    after_results
    rw [show VA m d (dr main_arg0) = V0 m d (dr main_arg0) from by unfold VA; exact opsA_keeps (by decide) _]
    rfl
  rw [e]
  exact ⟨_, rfl⟩

/-- Every word of the second index list is a word of the input. -/
theorem idxB_word (d : Dev nD) (j : S40960.Idx) : ∃ i : S4096x64x36.Idx, idxB m d j = V0 m d (dr main_arg0) i := by
  have e : idxB m d = shapeCast S40960 (shapeCast S4096x10 (extractStridedSlice S4096x1x10 ![0, 0, 16] (V0 m d (dr main_arg0)) slices_S4096x64x36_S4096x1x10_0_0_16) shapeCasts_S4096x1x10_S4096x10) shapeCasts_S4096x10_S40960 := by
    unfold idxB VB
    after_results
    rw [show VA m d (dr main_arg0) = V0 m d (dr main_arg0) from by unfold VA; exact opsA_keeps (by decide) _]
    rfl
  rw [e]
  exact ⟨_, rfl⟩

end Cert.Proof.KI

end
-- ==== Proof.KI.EmbValue.lean ====
/-
  The value algebra of the embedding sum, over the extended reals (addition there is commutative and associative and
  `0 + x = x`; no finiteness is used).

  * a left fold of additions from a start value is the start plus the finite sum;
  * the sum over 26 features splits as the sum over the first 16 plus the sum over the last 10;
  * the paired tables — tables `2k` and `2k+1` side by side in a 128-lane row, pair `k` occupying rows
    `k·100352 …` — read at `(index + (j/2)·100352, (j mod 2)·64 + d)` give table `j` read at `(index, d)`;
  * regrouping a 2048×128 array row-major as 4096×64 reads entry `(b, d)` at `(b/2, (b mod 2)·64 + d)`.
-/
import Idealize.ShloMosaic.PureOps.Ideal
import Idealize.ShloMosaic.Lib.ValueIdx
import Idealize.ShloMosaic.Lib.IdealHost
import Idealize.ShloMosaic.Lib.Pipeline.Value

noncomputable section

namespace Cert.Proof.KI

open Idealize.ShloMosaic
open Idealize.ShloMosaic.ValueIdx
open scoped BigOperators

/-! ## Shapes of the statement (as the programs spell them) -/

/-- The stacked tables: 26 tables of 100000 rows of 64 lanes. -/
abbrev ShT : Shape := ⟨3, ![26, 100000, 64]⟩
/-- The input words: 4096 batch rows, 64 time steps, 36 features. -/
abbrev ShI : Shape := ⟨3, ![4096, 64, 36]⟩
/-- The result: 4096 batch rows of 64 lanes. -/
abbrev ShO : Shape := ⟨2, ![4096, 64]⟩
/-- The result as the kernels write it: two batch rows per 128-lane row. -/
abbrev ShP : Shape := ⟨2, ![2048, 128]⟩

/-! ## A left fold of additions is a finite sum -/

/-- Folding `a ↦ a + f j` over `j = 0, …, n-1` from `z` gives `z` plus the sum of the `f j`. -/
theorem foldl_add_eq_sum (f : ℕ → EReal) (z : EReal) (n : ℕ) :
    (List.range n).foldl (fun a j => a + f j) z = z + ∑ j ∈ Finset.range n, f j := by
  induction n with
  | zero => simp
  | succ n ih =>
    rw [List.range_succ, List.foldl_append, List.foldl_cons, List.foldl_nil, ih, Finset.sum_range_succ, add_assoc]

/-- For the ideal instance's addition from the zero word: the fold is the zero word plus the sum. -/
theorem foldl_addf_zero_eq_zero_add_sum (f : ℕ → Ideal .f32) (n : ℕ) :
    (List.range n).foldl (fun (a : Ideal .f32) j => FloatOps.addf a (f j)) (Scalar.ofBits (F := Ideal) .f32 0x00000000#32)
      = Ideal.ofBits .f32 0x00000000#32 + ∑ j ∈ Finset.range n, f j :=
  foldl_add_eq_sum f (Ideal.ofBits .f32 0x00000000#32) n

/-- The zero word is zero: the fold is the sum. -/
theorem foldl_addf_zero_eq_sum (f : ℕ → Ideal .f32) (n : ℕ) :
    (List.range n).foldl (fun (a : Ideal .f32) j => FloatOps.addf a (f j)) (Scalar.ofBits (F := Ideal) .f32 0x00000000#32)
      = ∑ j ∈ Finset.range n, f j := by
  rw [foldl_addf_zero_eq_zero_add_sum, Ideal.ofBits_zero_f32, zero_add]

/-! ## Twenty-six features: sixteen and ten -/

/-- The sum over 26 features is the sum over the first 16 plus the sum over the 10 after them. -/
theorem sum26_split (f : ℕ → EReal) :
    ∑ j ∈ Finset.range 26, f j = ∑ j ∈ Finset.range 16, f j + ∑ j ∈ Finset.range 10, f (16 + j) :=
  Finset.sum_range_add f 16 10

/-! ## The paired tables -/

/-- One call's sum through a paired table: with `A (v + k·100352) (h·64 + d) = T (base + 2k + h) v d` for the
    pairs the call uses, the lookups at `(w j + (j/2)·100352, (j mod 2)·64 + d)` are table `base + j` at `(w j, d)`. -/
theorem pair_sum_eq (T : ℕ → ℕ → ℕ → EReal) (A : ℕ → ℕ → EReal) (n base : ℕ) (w : ℕ → ℕ) (d : ℕ)
    (hA : ∀ k h v, 2 * k + h < n → h < 2 → v < 100000 → A (v + k * 100352) (h * 64 + d) = T (base + (2 * k + h)) v d)
    (hw : ∀ j, j < n → w j < 100000) :
    ∑ j ∈ Finset.range n, A (w j + j / 2 * 100352) (j % 2 * 64 + d) = ∑ j ∈ Finset.range n, T (base + j) (w j) d := by
  refine Finset.sum_congr rfl fun j hj => ?_
  have hj' : j < n := Finset.mem_range.mp hj
  have e : 2 * (j / 2) + j % 2 = j := Nat.div_add_mod j 2
  rw [hA (j / 2) (j % 2) (w j) (by omega) (Nat.mod_lt _ (by decide)) (hw j hj'), e]

/-- The two calls together are the specification's sum over all 26 features. -/
theorem emb_sum_eq (T : ℕ → ℕ → ℕ → EReal) (A B : ℕ → ℕ → EReal) (w : ℕ → ℕ) (d : ℕ)
    (hA : ∀ k h v, 2 * k + h < 16 → h < 2 → v < 100000 → A (v + k * 100352) (h * 64 + d) = T (2 * k + h) v d)
    (hB : ∀ k h v, 2 * k + h < 10 → h < 2 → v < 100000 → B (v + k * 100352) (h * 64 + d) = T (16 + (2 * k + h)) v d)
    (hw : ∀ j, j < 26 → w j < 100000) :
    (∑ j ∈ Finset.range 16, A (w j + j / 2 * 100352) (j % 2 * 64 + d))
        + (∑ j ∈ Finset.range 10, B (w (16 + j) + j / 2 * 100352) (j % 2 * 64 + d))
      = ∑ j ∈ Finset.range 26, T j (w j) d := by
  rw [sum26_split (fun j => T j (w j) d)]
  congr 1
  · have h := pair_sum_eq T A 16 0 w d (fun k h v h1 h2 h3 => by rw [hA k h v h1 h2 h3, Nat.zero_add])
      (fun j hj => hw j (by omega))
    rw [h]
    exact Finset.sum_congr rfl fun j _ => by rw [Nat.zero_add]
  · exact pair_sum_eq T B 10 16 (fun j => w (16 + j)) d hB (fun j hj => hw (16 + j) (by omega))

/-- The sum over `j < 26` as the sum over `Fin 26`. -/
theorem sum_range26_eq_fin (f : ℕ → EReal) : ∑ j ∈ Finset.range 26, f j = ∑ j : Fin 26, f j.val :=
  Finset.sum_range f

/-! ## The specification -/

/-- The embedding sum: entry `(b, d)` is the sum over the 26 features `j` of table `j` at row `w b j` (the input word
    of batch row `b`, time step 0, feature `j`, as a row number below 100000), lane `d`. -/
def embSpec (tables : ShT.Idx → EReal) (w : Fin 4096 → Fin 26 → Fin 100000) : ShO.Idx → EReal :=
  fun i => ∑ j : Fin 26, tables (ix3 j (w (i 0) j) (i 1))

theorem embSpec_apply (tables : ShT.Idx → EReal) (w : Fin 4096 → Fin 26 → Fin 100000) (b : Fin 4096) (d : Fin 64) :
    embSpec tables w (ix2 b d) = ∑ j : Fin 26, tables (ix3 j (w b j) d) := rfl

/-- The tables at natural coordinates (zero outside): what the paired-table equations are stated over. -/
def tblAt (tables : ShT.Idx → EReal) (j v d : ℕ) : EReal :=
  if h : j < 26 ∧ v < 100000 ∧ d < 64 then tables (ix3 ⟨j, h.1⟩ ⟨v, h.2.1⟩ ⟨d, h.2.2⟩) else 0

theorem tblAt_of_lt (tables : ShT.Idx → EReal) {j v d : ℕ} (hj : j < 26) (hv : v < 100000) (hd : d < 64) :
    tblAt tables j v d = tables (ix3 ⟨j, hj⟩ ⟨v, hv⟩ ⟨d, hd⟩) := dif_pos ⟨hj, hv, hd⟩

/-- THE VALUE: what the two calls add up to at batch row `b`, lane `d` is the specification's entry. -/
theorem calls_eq_embSpec (tables : ShT.Idx → EReal) (A B : ℕ → ℕ → EReal) (w : Fin 4096 → Fin 26 → Fin 100000)
    (b : Fin 4096) (d : Fin 64)
    (hA : ∀ k h v, 2 * k + h < 16 → h < 2 → v < 100000 → A (v + k * 100352) (h * 64 + d.val) = tblAt tables (2 * k + h) v d.val)
    (hB : ∀ k h v, 2 * k + h < 10 → h < 2 → v < 100000 → B (v + k * 100352) (h * 64 + d.val) = tblAt tables (16 + (2 * k + h)) v d.val)
    (wn : ℕ → ℕ) (hwn : ∀ j : Fin 26, wn j.val = (w b j).val) :
    (∑ j ∈ Finset.range 16, A (wn j + j / 2 * 100352) (j % 2 * 64 + d.val))
        + (∑ j ∈ Finset.range 10, B (wn (16 + j) + j / 2 * 100352) (j % 2 * 64 + d.val))
      = embSpec tables w (ix2 b d) := by
  rw [emb_sum_eq (tblAt tables) A B wn d.val hA hB (fun j hj => by rw [hwn ⟨j, hj⟩]; exact (w b ⟨j, hj⟩).isLt),
    sum_range26_eq_fin, embSpec_apply]
  refine Finset.sum_congr rfl fun j _ => ?_
  have hlt : wn j.val < 100000 := by rw [hwn j]; exact (w b j).isLt
  rw [tblAt_of_lt tables j.isLt hlt d.isLt]
  congr 1
  funext a
  match a with
  | ⟨0, _⟩ => rfl
  | ⟨1, _⟩ => exact Fin.ext (hwn j)
  | ⟨2, _⟩ => rfl

/-! ## The regrouping 2048×128 → 4096×64 -/

/-- Entry `(b, d)` of the regrouped array is entry `(b/2, (b mod 2)·64 + d)` of the array the kernels write. -/
theorem regroup_apply {α : Type} (x : ShP.Idx → α) (h : ShP.ShapeCasts ShO) (b : Fin 4096) (d : Fin 64) :
    shapeCast ShO x h (ix2 b d)
      = x (ix2 (⟨b.val / 2, by have := b.isLt; omega⟩ : Fin 2048) (⟨b.val % 2 * 64 + d.val, by have := d.isLt; omega⟩ : Fin 128)) := by
  refine shapeCast_apply x h _ _ ?_
  rw [Shape.rowMajor_val_two, Shape.rowMajor_val_two]
  show b.val / 2 * 128 + (b.val % 2 * 64 + d.val) = b.val * 64 + d.val
  omega

end Cert.Proof.KI

end
-- ==== Proof.KI.OutValue.lean ====
/-
  What a vector subcore's task leaves, over the extended reals: the left fold of sixteen (resp. ten) additions from the
  zero word is the finite sum of the table entries it names, and the row named at position `16 m + j` (resp.
  `10 m + j`) of the task's list is the index word there plus `(j / 2) · 100352`.
-/
import proofs.«219250_g10247791969013_week1_w1_750_27_alg».proof.Proof.KI.Tile2Defs
import proofs.«219250_g10247791969013_week1_w1_750_27_alg».proof.Proof.KI.Tile3Defs
import proofs.«219250_g10247791969013_week1_w1_750_27_alg».proof.Proof.KI.EmbValue

noncomputable section

namespace Cert.Proof.KI

open Cert.KernelIdeal

open Idealize.ShloMosaic
open Idealize.ShloMosaic.ValueIdx
open scoped BigOperators

/-! ## The first call: sixteen features -/

/-- The row the list names at position `16 m + j`, `j < 16`: the index word there plus `(j / 2) · 100352`. -/
theorem gRow2_eq {F : FTy → Type} (ix : S2048.Idx → Elt F .i32) (m j : ℕ) (hj : j < 16) (hm : m * 16 + j < 2048) :
    gRow2 (F := F) ix (m * 16 + j) = (ix (ix1 ⟨m * 16 + j, hm⟩)).toNat + j / 2 * 100352 := by
  unfold gRow2
  rw [dif_pos hm]
  have e : (m * 16 + j) % 16 = j := by omega
  rw [e]

/-- Over the extended reals the task's entry is the sum of the sixteen table entries it names. -/
theorem OUT2_ideal (tb : S802816x128.Idx → Elt Ideal .f32) (ix : S2048.Idx → Elt Ideal .i32) (x : S64x128.Idx) :
    OUT2 (F := Ideal) tb ix x
      = ∑ j ∈ Finset.range 16,
          tbAt2 (F := Ideal) tb (gRow2 (F := Ideal) ix ((2 * (x 0).val + (x 1).val / 64) * 16 + j)) (j % 2 * 64 + (x 1).val % 64) :=
  foldl_addf_zero_eq_sum
    (fun j => tbAt2 (F := Ideal) tb (gRow2 (F := Ideal) ix ((2 * (x 0).val + (x 1).val / 64) * 16 + j)) (j % 2 * 64 + (x 1).val % 64)) 16

/-- The same with the rows spelt out: `w j` the index word of feature `j` of the entry's batch row. -/
theorem OUT2_ideal_words (tb : S802816x128.Idx → Elt Ideal .f32) (ix : S2048.Idx → Elt Ideal .i32) (x : S64x128.Idx) (w : ℕ → ℕ)
    (hw : ∀ j (hj : j < 16) (hm : (2 * (x 0).val + (x 1).val / 64) * 16 + j < 2048),
      (ix (ix1 ⟨(2 * (x 0).val + (x 1).val / 64) * 16 + j, hm⟩)).toNat = w j) :
    OUT2 (F := Ideal) tb ix x
      = ∑ j ∈ Finset.range 16, tbAt2 (F := Ideal) tb (w j + j / 2 * 100352) (j % 2 * 64 + (x 1).val % 64) := by
  rw [OUT2_ideal]
  refine Finset.sum_congr rfl fun j hj => ?_
  have hj' : j < 16 := Finset.mem_range.mp hj
  have h0 : (x 0).val < 64 := (x 0).isLt
  have h1 : (x 1).val < 128 := (x 1).isLt
  have hm : (2 * (x 0).val + (x 1).val / 64) * 16 + j < 2048 := by omega
  rw [gRow2_eq ix _ j hj' hm, hw j hj' hm]

/-! ## The second call: ten features -/

/-- The row the list names at position `10 m + j`, `j < 10`: the index word there plus `(j / 2) · 100352`. -/
theorem gRow3_eq {F : FTy → Type} (ix : S1280.Idx → Elt F .i32) (m j : ℕ) (hj : j < 10) (hm : m * 10 + j < 1280) :
    gRow3 (F := F) ix (m * 10 + j) = (ix (ix1 ⟨m * 10 + j, hm⟩)).toNat + j / 2 * 100352 := by
  unfold gRow3
  rw [dif_pos hm]
  have e : (m * 10 + j) % 10 = j := by omega
  rw [e]

/-- Over the extended reals the task's entry is the sum of the ten table entries it names. -/
theorem OUT3_ideal (tb : S501760x128.Idx → Elt Ideal .f32) (ix : S1280.Idx → Elt Ideal .i32) (x : S64x128.Idx) :
    OUT3 (F := Ideal) tb ix x
      = ∑ j ∈ Finset.range 10,
          tbAt3 (F := Ideal) tb (gRow3 (F := Ideal) ix ((2 * (x 0).val + (x 1).val / 64) * 10 + j)) (j % 2 * 64 + (x 1).val % 64) :=
  foldl_addf_zero_eq_sum
    (fun j => tbAt3 (F := Ideal) tb (gRow3 (F := Ideal) ix ((2 * (x 0).val + (x 1).val / 64) * 10 + j)) (j % 2 * 64 + (x 1).val % 64)) 10

/-- The same with the rows spelt out. -/
theorem OUT3_ideal_words (tb : S501760x128.Idx → Elt Ideal .f32) (ix : S1280.Idx → Elt Ideal .i32) (x : S64x128.Idx) (w : ℕ → ℕ)
    (hw : ∀ j (hj : j < 10) (hm : (2 * (x 0).val + (x 1).val / 64) * 10 + j < 1280),
      (ix (ix1 ⟨(2 * (x 0).val + (x 1).val / 64) * 10 + j, hm⟩)).toNat = w j) :
    OUT3 (F := Ideal) tb ix x
      = ∑ j ∈ Finset.range 10, tbAt3 (F := Ideal) tb (w j + j / 2 * 100352) (j % 2 * 64 + (x 1).val % 64) := by
  rw [OUT3_ideal]
  refine Finset.sum_congr rfl fun j hj => ?_
  have hj' : j < 10 := Finset.mem_range.mp hj
  have h0 : (x 0).val < 64 := (x 0).isLt
  have h1 : (x 1).val < 128 := (x 1).isLt
  have hm : (2 * (x 0).val + (x 1).val / 64) * 10 + j < 1280 := by omega
  rw [gRow3_eq ix _ j hj' hm, hw j hj' hm]

/-! ## Both calls together: the specification's entry -/

/-- THE VALUE OF ONE ENTRY. Let `x` be the place, in a task's 64 × 128 block, of lane `d` of a batch row whose 26 index
    words are `w b ·`: the first call's list holds the first sixteen at positions `16 m + j`, the second call's the
    last ten at `10 m + j` (`m = 2 (x 0) + (x 1) / 64` the batch row within the task), and the two pair tables hold
    the stacked tables' rows two by two. Then the two tasks' entries add up to the embedding sum's entry `(b, d)`. -/
theorem tiles_eq_embSpec (tables : ShT.Idx → EReal)
    (tbA : S802816x128.Idx → Elt Ideal .f32) (tbB : S501760x128.Idx → Elt Ideal .f32)
    (ixA : S2048.Idx → Elt Ideal .i32) (ixB : S1280.Idx → Elt Ideal .i32) (x : S64x128.Idx)
    (w : Fin 4096 → Fin 26 → Fin 100000) (b : Fin 4096) (d : Fin 64)
    (hd : (x 1).val % 64 = d.val)
    (hixA : ∀ j (hj : j < 16) (hm : (2 * (x 0).val + (x 1).val / 64) * 16 + j < 2048),
      (ixA (ix1 ⟨(2 * (x 0).val + (x 1).val / 64) * 16 + j, hm⟩)).toNat = (w b ⟨j, by omega⟩).val)
    (hixB : ∀ j (hj : j < 10) (hm : (2 * (x 0).val + (x 1).val / 64) * 10 + j < 1280),
      (ixB (ix1 ⟨(2 * (x 0).val + (x 1).val / 64) * 10 + j, hm⟩)).toNat = (w b ⟨16 + j, by omega⟩).val)
    (hA : ∀ k h v, 2 * k + h < 16 → h < 2 → v < 100000 →
      tbAt2 (F := Ideal) tbA (v + k * 100352) (h * 64 + d.val) = tblAt tables (2 * k + h) v d.val)
    (hB : ∀ k h v, 2 * k + h < 10 → h < 2 → v < 100000 →
      tbAt3 (F := Ideal) tbB (v + k * 100352) (h * 64 + d.val) = tblAt tables (16 + (2 * k + h)) v d.val) :
    OUT2 (F := Ideal) tbA ixA x + OUT3 (F := Ideal) tbB ixB x = embSpec tables w (ix2 b d) := by
  have hwn : ∀ j : Fin 26, (fun j : ℕ => if h : j < 26 then (w b ⟨j, h⟩).val else 0) j.val = (w b j).val := by
    intro j; simp only [dif_pos j.isLt]
  rw [OUT2_ideal_words tbA ixA x (fun j : ℕ => if h : j < 26 then (w b ⟨j, h⟩).val else 0)
        (fun j hj hm => by rw [hixA j hj hm]; simp only [dif_pos (show j < 26 by omega)]),
      OUT3_ideal_words tbB ixB x (fun j : ℕ => if h : 16 + j < 26 then (w b ⟨16 + j, h⟩).val else 0)
        (fun j hj hm => by rw [hixB j hj hm]; simp only [dif_pos (show 16 + j < 26 by omega)]), hd]
  exact calls_eq_embSpec tables (tbAt2 (F := Ideal) tbA) (tbAt3 (F := Ideal) tbB) w b d hA hB
    (fun j : ℕ => if h : j < 26 then (w b ⟨j, h⟩).val else 0) hwn

end Cert.Proof.KI

end
-- ==== Proof.KI.ResValue.lean ====
/-
  The third result of the kernel program, entry by entry, over the extended reals: the sum of the two calls' result
  arrays regrouped to one row per batch element; each array on a task's block is that task's sums; a task's sums are
  finite sums of pair-table entries named by its run of the flat index list; the pair tables are the transposed tables
  laid two by two; the flat lists are the input's columns 0–15 and 16–25 at time step 0. Together: entry `(b, e)` is
  the sum over the 26 features `k` of table `k` at row `input (b, 0, k)`, lane `e`.
-/
import proofs.«219250_g10247791969013_week1_w1_750_27_alg».proof.Proof.KI.ResSpec
import proofs.«219250_g10247791969013_week1_w1_750_27_alg».proof.Proof.KI.OutValue
import Idealize.ShloMosaic.Lib.Pipeline.Value

noncomputable section

namespace Cert.Proof.KI

open Cert.KernelIdeal Cert.KernelIdeal.Gen

open Idealize.ShloMosaic Idealize.ShloMosaic.TcCoe Idealize.ShloMosaic.ValueIdx
open Idealize.SL Idealize.SL.Sem
open Idealize.ShloMosaic.StableHlo
open scoped BigOperators

/-- Each host operation's result at its own buffer is its function's value, and any other buffer keeps its contents. -/
local macro "host_results" : tactic =>
  `(tactic| (simp only [opsA, opsB, opsC, after_cons, after_nil]
             repeat (first
               | rw [unary_result] | rw [binary_result] | rw [reshape_result]
               | (rw [unary_result_ne]; rotate_left; decide)
               | (rw [binary_result_ne]; rotate_left; decide)
               | (rw [reshape_result_ne]; rotate_left; decide))))

/-! ## Layout chains read at an index -/

/-- Columns 0–15 of time step 0, flattened batch-major: position `p` is batch row `p / 16`, column `p mod 16`. -/
theorem flatA_apply {α : Type} (X : S4096x64x36.Idx → α) (h1 : S4096x64x36.Slices ![0, 0, 0] S4096x1x16)
    (h2 : S4096x1x16.ShapeCasts S4096x16) (h3 : S4096x16.ShapeCasts S65536) (p : ℕ) (hp : p < 65536) :
    shapeCast S65536 (shapeCast S4096x16 (extractStridedSlice S4096x1x16 ![0, 0, 0] X h1) h2) h3 (ix1 ⟨p, hp⟩)
      = X (ix3 (⟨p / 16, by omega⟩ : Fin 4096) (0 : Fin 64) (⟨p % 16, by omega⟩ : Fin 36)) := by
  rw [shapeCast_apply _ h3 _ (ix2 (⟨p / 16, by omega⟩ : Fin 4096) (⟨p % 16, Nat.mod_lt _ (by decide)⟩ : Fin 16)) (by
        rw [Shape.rowMajor_val_two, Shape.rowMajor_val_one]
        show p / 16 * 16 + p % 16 = p
        omega),
      shapeCast_apply _ h2 _ (ix3 (⟨p / 16, by omega⟩ : Fin 4096) (0 : Fin 1) (⟨p % 16, Nat.mod_lt _ (by decide)⟩ : Fin 16)) (by
        rw [Shape.rowMajor_val_three, Shape.rowMajor_val_two]
        show (p / 16 * 1 + 0) * 16 + p % 16 = p / 16 * 16 + p % 16
        omega)]
  exact extractStridedSlice_apply _ X h1 _ _ (fun a => by
    match a with
    | ⟨0, _⟩ => show p / 16 = 0 + p / 16; omega
    | ⟨1, _⟩ => show 0 = 0 + 0; rfl
    | ⟨2, _⟩ => show p % 16 = 0 + p % 16; omega)

/-- Columns 16–25 of time step 0, flattened batch-major: position `p` is batch row `p / 10`, column `16 + p mod 10`. -/
theorem flatB_apply {α : Type} (X : S4096x64x36.Idx → α) (h1 : S4096x64x36.Slices ![0, 0, 16] S4096x1x10)
    (h2 : S4096x1x10.ShapeCasts S4096x10) (h3 : S4096x10.ShapeCasts S40960) (p : ℕ) (hp : p < 40960) :
    shapeCast S40960 (shapeCast S4096x10 (extractStridedSlice S4096x1x10 ![0, 0, 16] X h1) h2) h3 (ix1 ⟨p, hp⟩)
      = X (ix3 (⟨p / 10, by omega⟩ : Fin 4096) (0 : Fin 64) (⟨16 + p % 10, by omega⟩ : Fin 36)) := by
  rw [shapeCast_apply _ h3 _ (ix2 (⟨p / 10, by omega⟩ : Fin 4096) (⟨p % 10, Nat.mod_lt _ (by decide)⟩ : Fin 10)) (by
        rw [Shape.rowMajor_val_two, Shape.rowMajor_val_one]
        show p / 10 * 10 + p % 10 = p
        omega),
      shapeCast_apply _ h2 _ (ix3 (⟨p / 10, by omega⟩ : Fin 4096) (0 : Fin 1) (⟨p % 10, Nat.mod_lt _ (by decide)⟩ : Fin 10)) (by
        rw [Shape.rowMajor_val_three, Shape.rowMajor_val_two]
        show (p / 10 * 1 + 0) * 10 + p % 10 = p / 10 * 10 + p % 10
        omega)]
  exact extractStridedSlice_apply _ X h1 _ _ (fun a => by
    match a with
    | ⟨0, _⟩ => show p / 10 = 0 + p / 10; omega
    | ⟨1, _⟩ => show 0 = 0 + 0; rfl
    | ⟨2, _⟩ => show 16 + p % 10 = 16 + p % 10; rfl)

/-! ## What the host stretches leave -/

section Host

variable {F : FTy → Type} [FloatOps F] (m : (ℓ : Loc nD τ sig) → Buf (Elt F) ℓ)

/-- The transposed tables: entry `(t, e, v)` is the tables' entry `(t, v, e)`. -/
theorem tabT_apply (d : Dev nD) (t : Fin 26) (e : Fin 64) (v : Fin 100000) :
    tabT m d (ix3 t e v) = (m (tl d main_arg2) : S26x100000x64.Idx → Elt F .f32) (ix3 t v e) := by
  unfold tabT VA
  show after opsA (launchContents m d) (Proc.devRef .tc main_v4) (ix3 t e v) = _
  host_results
  exact transpose_apply _ _ _ _ _ (fun b => by
    match b with
    | ⟨0, _⟩ => rfl
    | ⟨1, _⟩ => rfl
    | ⟨2, _⟩ => rfl)

/-- The first flat index list at position `p`: the input word of batch row `p / 16`, time step 0, column `p mod 16`. -/
theorem idxA_apply (d : Dev nD) (p : ℕ) (hp : p < 65536) :
    idxA m d (ix1 ⟨p, hp⟩)
      = (m (tl d main_arg0) : S4096x64x36.Idx → Elt F .i32) (ix3 (⟨p / 16, by omega⟩ : Fin 4096) (0 : Fin 64) (⟨p % 16, by omega⟩ : Fin 36)) := by
  unfold idxA VB VA
  show after opsB (after opsA (launchContents m d)) (Proc.devRef .tc main_v9) (ix1 ⟨p, hp⟩) = _
  host_results
  exact flatA_apply _ _ _ _ p hp

/-- The second flat index list at position `p`: the input word of batch row `p / 10`, time step 0, column `16 + p mod 10`. -/
theorem idxB_apply (d : Dev nD) (p : ℕ) (hp : p < 40960) :
    idxB m d (ix1 ⟨p, hp⟩)
      = (m (tl d main_arg0) : S4096x64x36.Idx → Elt F .i32) (ix3 (⟨p / 10, by omega⟩ : Fin 4096) (0 : Fin 64) (⟨16 + p % 10, by omega⟩ : Fin 36)) := by
  unfold idxB VB VA
  show after opsB (after opsA (launchContents m d)) (Proc.devRef .tc main_v12) (ix1 ⟨p, hp⟩) = _
  host_results
  exact flatB_apply _ _ _ _ p hp

/-- The pair table at row `v + k · 100352`, lane `h · 64 + e`: the transposed tables' entry of table
    `2 (first + k) + h`. -/
theorem pairTab_apply (first npairs : ℕ) (A : S26x64x100000.Idx → Elt F .f32) (hn : 2 * (first + npairs) ≤ 26)
    (i : (⟨2, ![npairs * 100352, 128]⟩ : Shape).Idx) (k h v e : ℕ) (t : Fin 26)
    (h0 : (i 0).val = v + k * 100352) (h1 : (i 1).val = h * 64 + e) (ht : t.val = 2 * (first + k) + h)
    (hv : v < 100000) (he : e < 64) (hh : h < 2) :
    pairTab first npairs A hn i = A (ix3 t (⟨e, he⟩ : Fin 64) (⟨v, hv⟩ : Fin 100000)) := by
  unfold pairTab
  show A _ = A _
  congr 1
  funext a
  match a with
  | ⟨0, _⟩ => exact Fin.ext (show 2 * (first + (i 0).val / 100352) + (i 1).val / 64 = t.val by rw [h0, h1, ht]; omega)
  | ⟨1, _⟩ => exact Fin.ext (show (i 1).val % 64 = e by rw [h1]; omega)
  | ⟨2, _⟩ => exact Fin.ext (show min ((i 0).val % 100352) 99999 = v by rw [h0]; omega)

/-- The first call's pair table, read as the task reads it, is the tables' entry. -/
theorem tbAt2_wantA (d : Dev nD) (k h v e : ℕ) (hk : 2 * k + h < 16) (hh : h < 2) (hv : v < 100000) (he : e < 64) :
    tbAt2 (F := F) (wantA m d) (v + k * 100352) (h * 64 + e)
      = (m (tl d main_arg2) : S26x100000x64.Idx → Elt F .f32) (ix3 (⟨2 * k + h, by omega⟩ : Fin 26) (⟨v, hv⟩ : Fin 100000) (⟨e, he⟩ : Fin 64)) := by
  unfold tbAt2
  rw [dif_pos (show v + k * 100352 < 802816 ∧ h * 64 + e < 128 by omega)]
  unfold wantA
  rw [pairTab_apply 0 8 (tabT m d) _ _ k h v e (⟨2 * k + h, by omega⟩ : Fin 26) rfl rfl (by show 2 * k + h = 2 * (0 + k) + h; omega) hv he hh,
    tabT_apply]

/-- The second call's pair table likewise: tables 16 to 25. -/
theorem tbAt3_wantB (d : Dev nD) (k h v e : ℕ) (hk : 2 * k + h < 10) (hh : h < 2) (hv : v < 100000) (he : e < 64) :
    tbAt3 (F := F) (wantB m d) (v + k * 100352) (h * 64 + e)
      = (m (tl d main_arg2) : S26x100000x64.Idx → Elt F .f32) (ix3 (⟨16 + (2 * k + h), by omega⟩ : Fin 26) (⟨v, hv⟩ : Fin 100000) (⟨e, he⟩ : Fin 64)) := by
  unfold tbAt3
  rw [dif_pos (show v + k * 100352 < 501760 ∧ h * 64 + e < 128 by omega)]
  unfold wantB
  rw [pairTab_apply 8 5 (tabT m d) _ _ k h v e (⟨16 + (2 * k + h), by omega⟩ : Fin 26) rfl rfl (by show 16 + (2 * k + h) = 2 * (8 + k) + h; omega) hv he hh,
    tabT_apply]

/-! ## A task's block of a call's result, and its run of the flat list -/

/-- Call 0's result at the place `x` of the block of the task at `(c, s)` is that task's entry. -/
theorem joinA_entry (d : Dev nD) (g : S2048x128.Idx → Elt F .f32) (hg : JoinA m d g) (a : Fin 2 × Fin 16) (x : S64x128.Idx) :
    g ((outSl2 (coords2 a.1 a.2)).view.emb x)
      = OUT2 (wantA m d) ((idxSl2 (coords2 a.1 a.2)).view.read (Elt F) (idxA m d)) x := by
  obtain ⟨fo, h⟩ := hg a
  rw [h _ (View.emb_mem_set _ x)]
  exact View.write_emb_of_mem (v := (outSl2 (coords2 a.1 a.2)).view) (Val := Elt F) fo _ (Finset.mem_univ x)

/-- Call 1's likewise. -/
theorem joinB_entry (d : Dev nD) (g : S2048x128.Idx → Elt F .f32) (hg : JoinB m d g) (a : Fin 2 × Fin 16) (x : S64x128.Idx) :
    g ((outSl3 (coords3 a.1 a.2)).view.emb x)
      = OUT3 (wantB m d) ((idxSl3 (coords3 a.1 a.2)).view.read (Elt F) (idxB m d)) x := by
  obtain ⟨fo, h⟩ := hg a
  rw [h _ (View.emb_mem_set _ x)]
  exact View.write_emb_of_mem (v := (outSl3 (coords3 a.1 a.2)).view) (Val := Elt F) fo _ (Finset.mem_univ x)

/-- The place `x` of the block of the task at `(c, s)` is row `64 (2 s + c) + x 0`, lane `x 1` of the result. -/
theorem outSl2_emb (c : Fin 2) (s : Fin 16) (x : S64x128.Idx) (r : Fin 2048) (hr : r.val = 128 * s.val + 64 * c.val + (x 0).val) :
    (outSl2 (coords2 c s)).view.emb x = (ix2 r (x 1 : Fin 128) : S2048x128.Idx) := by
  funext a
  match a with
  | ⟨0, _⟩ =>
    refine Fin.ext ?_
    show k2_off56 (coords2 c s) 0 + 1 * (x 0).val = r.val
    rw [k2_off56_eq, hr]
    show 128 * s.val + 64 * c.val + 1 * (x 0).val = _
    omega
  | ⟨1, _⟩ =>
    refine Fin.ext ?_
    show k2_off56 (coords2 c s) 1 + 1 * (x 1).val = (x 1).val
    rw [k2_off56_eq]
    show 0 + 1 * (x 1).val = _
    omega

theorem outSl3_emb (c : Fin 2) (s : Fin 16) (x : S64x128.Idx) (r : Fin 2048) (hr : r.val = 128 * s.val + 64 * c.val + (x 0).val) :
    (outSl3 (coords3 c s)).view.emb x = (ix2 r (x 1 : Fin 128) : S2048x128.Idx) := by
  funext a
  match a with
  | ⟨0, _⟩ =>
    refine Fin.ext ?_
    show k3_off56 (coords3 c s) 0 + 1 * (x 0).val = r.val
    rw [k3_off56_eq, hr]
    show 128 * s.val + 64 * c.val + 1 * (x 0).val = _
    omega
  | ⟨1, _⟩ =>
    refine Fin.ext ?_
    show k3_off56 (coords3 c s) 1 + 1 * (x 1).val = (x 1).val
    rw [k3_off56_eq]
    show 0 + 1 * (x 1).val = _
    omega

/-- The task's run of the first flat list at position `q` is the list at `2048 (2 s + c) + q`. -/
theorem idxSl2_read (c : Fin 2) (s : Fin 16) (f : S65536.Idx → Elt F .i32) (q : ℕ) (hq : q < 2048) :
    (idxSl2 (coords2 c s)).view.read (Elt F) f (ix1 ⟨q, hq⟩)
      = f (ix1 (⟨4096 * s.val + 2048 * c.val + q, by have := c.isLt; have := s.isLt; omega⟩ : Fin 65536)) := by
  show f ((idxSl2 (coords2 c s)).view.emb (ix1 ⟨q, hq⟩)) = _
  congr 1
  funext a
  match a with
  | ⟨0, _⟩ =>
    refine Fin.ext ?_
    show k2_off1 (coords2 c s) 0 + 1 * q = 4096 * s.val + 2048 * c.val + q
    rw [k2_off1_eq]
    show 4096 * s.val + 2048 * c.val + 1 * q = _
    omega

/-- The task's run of the second flat list at position `q` is the list at `1280 (2 s + c) + q`. -/
theorem idxSl3_read (c : Fin 2) (s : Fin 16) (f : S40960.Idx → Elt F .i32) (q : ℕ) (hq : q < 1280) :
    (idxSl3 (coords3 c s)).view.read (Elt F) f (ix1 ⟨q, hq⟩)
      = f (ix1 (⟨2560 * s.val + 1280 * c.val + q, by have := c.isLt; have := s.isLt; omega⟩ : Fin 40960)) := by
  show f ((idxSl3 (coords3 c s)).view.emb (ix1 ⟨q, hq⟩)) = _
  congr 1
  funext a
  match a with
  | ⟨0, _⟩ =>
    refine Fin.ext ?_
    show k3_off1 (coords3 c s) 0 + 1 * q = 2560 * s.val + 1280 * c.val + q
    rw [k3_off1_eq]
    show 2560 * s.val + 1280 * c.val + 1 * q = _
    omega

/-! ## The last stretch -/

/-- The third result at `(b, e)`: the two calls' arrays added at row `b / 2`, lane `(b mod 2) · 64 + e`. -/
theorem resOf_apply (d : Dev nD) (gA gB : S2048x128.Idx → Elt F .f32) (b : Fin 4096) (e : Fin 64) :
    resOf m d gA gB (ix2 b e)
      = FloatOps.addf (gA (ix2 (⟨b.val / 2, by have := b.isLt; omega⟩ : Fin 2048) (⟨b.val % 2 * 64 + e.val, by have := e.isLt; omega⟩ : Fin 128)))
          (gB (ix2 (⟨b.val / 2, by have := b.isLt; omega⟩ : Fin 2048) (⟨b.val % 2 * 64 + e.val, by have := e.isLt; omega⟩ : Fin 128))) := by
  unfold resOf
  show after opsC (VC m d gA gB) (Proc.devRef .tc main_v16) (ix2 b e) = _
  host_results
  have hA : VC m d gA gB (Proc.devRef .tc main_v13) = gA := by
    unfold VC
    rw [Function.update_of_ne (by decide), Function.update_self]
  have hB : VC m d gA gB (Proc.devRef .tc main_v14) = gB := by
    unfold VC
    rw [Function.update_self]
  rw [hA, hB]
  exact regroup_apply (addf gA gB) _ b e

end Host

/-! ## The value -/

/-- THE THIRD RESULT over the extended reals, when every input word is below 100000: entry `(b, e)` is the sum over
    the 26 features `k` of table `k` at row `input (b, 0, k)`, lane `e`. -/
theorem res_value (m : (ℓ : Loc nD τ sig) → Buf (Elt Ideal) ℓ) (d : Dev nD)
    (x0 : S4096x64x36.Idx → BitVec 32) (x2 : S26x100000x64.Idx → EReal)
    (hx0 : x0 = m (tl d main_arg0)) (hx2 : x2 = m (tl d main_arg2))
    (hin : ∀ i, (x0 i).toNat < 100000)
    (R : S4096x64.Idx → Elt Ideal .f32) (h : ResOK m d R) (b : Fin 4096) (e : Fin 64) :
    R (ix2 b e)
      = ∑ k : Fin 26, x2 (ix3 k (⟨(x0 (ix3 b (0 : Fin 64) (k.castLE (by decide) : Fin 36))).toNat, hin _⟩ : Fin 100000) e) := by
  subst hx0 hx2
  obtain ⟨gA, gB, hA, hB, rfl⟩ := h
  have hb := b.isLt
  have he := e.isLt
  rw [resOf_apply]
  -- the task, and the place in its block
  let c : Fin 2 := ⟨b.val / 128 % 2, Nat.mod_lt _ (by decide)⟩
  let s : Fin 16 := ⟨b.val / 128 / 2, by omega⟩
  let x : S64x128.Idx := ix2 (⟨b.val / 2 % 64, Nat.mod_lt _ (by decide)⟩ : Fin 64) (⟨b.val % 2 * 64 + e.val, by omega⟩ : Fin 128)
  have hx0 : (x 0).val = b.val / 2 % 64 := rfl
  have hx1 : (x 1).val = b.val % 2 * 64 + e.val := rfl
  have hr : (⟨b.val / 2, by omega⟩ : Fin 2048).val = 128 * s.val + 64 * c.val + (x 0).val := by
    show b.val / 2 = 128 * (b.val / 128 / 2) + 64 * (b.val / 128 % 2) + b.val / 2 % 64
    omega
  have eA := outSl2_emb c s x ⟨b.val / 2, by omega⟩ hr
  have eB := outSl3_emb c s x ⟨b.val / 2, by omega⟩ hr
  have gA' := joinA_entry m d gA hA (c, s) x
  have gB' := joinB_entry m d gB hB (c, s) x
  rw [eA] at gA'
  rw [eB] at gB'
  show gA (ix2 _ (x 1)) + gB (ix2 _ (x 1)) = _
  rw [gA', gB']
  -- the words and the tables
  let w : Fin 4096 → Fin 26 → Fin 100000 := fun b' k =>
    ⟨((m (tl d main_arg0) : S4096x64x36.Idx → Elt Ideal .i32) (ix3 b' (0 : Fin 64) (k.castLE (by decide) : Fin 36))).toNat, hin _⟩
  have hm : 2 * (x 0).val + (x 1).val / 64 = b.val % 128 := by rw [hx0, hx1]; omega
  rw [tiles_eq_embSpec (m (tl d main_arg2)) (wantA m d) (wantB m d) _ _ x w b e (by rw [hx1]; omega)
    (fun j hj hq => by
      rw [idxSl2_read c s _ _ hq, idxA_apply]
      show ((m (tl d main_arg0) : S4096x64x36.Idx → Elt Ideal .i32) _).toNat = ((m (tl d main_arg0) : S4096x64x36.Idx → Elt Ideal .i32) _).toNat
      congr 2
      funext a
      match a with
      | ⟨0, _⟩ => exact Fin.ext (show (4096 * (b.val / 128 / 2) + 2048 * (b.val / 128 % 2) + ((2 * (x 0).val + (x 1).val / 64) * 16 + j)) / 16 = b.val by rw [hm]; omega)
      | ⟨1, _⟩ => rfl
      | ⟨2, _⟩ => exact Fin.ext (show (4096 * (b.val / 128 / 2) + 2048 * (b.val / 128 % 2) + ((2 * (x 0).val + (x 1).val / 64) * 16 + j)) % 16 = j by rw [hm]; omega))
    (fun j hj hq => by
      rw [idxSl3_read c s _ _ hq, idxB_apply]
      show ((m (tl d main_arg0) : S4096x64x36.Idx → Elt Ideal .i32) _).toNat = ((m (tl d main_arg0) : S4096x64x36.Idx → Elt Ideal .i32) _).toNat
      congr 2
      funext a
      match a with
      | ⟨0, _⟩ => exact Fin.ext (show (2560 * (b.val / 128 / 2) + 1280 * (b.val / 128 % 2) + ((2 * (x 0).val + (x 1).val / 64) * 10 + j)) / 10 = b.val by rw [hm]; omega)
      | ⟨1, _⟩ => rfl
      | ⟨2, _⟩ => exact Fin.ext (show 16 + (2560 * (b.val / 128 / 2) + 1280 * (b.val / 128 % 2) + ((2 * (x 0).val + (x 1).val / 64) * 10 + j)) % 10 = 16 + j by rw [hm]; omega))
    (fun k h v hk hh hv => by
      rw [tbAt2_wantA m d k h v e.val hk hh hv he, tblAt_of_lt _ (by omega) hv he])
    (fun k h v hk hh hv => by
      rw [tbAt3_wantB m d k h v e.val hk hh hv he, tblAt_of_lt _ (by omega) hv he])]
  rfl

/-- The same over the launch valuation of device `d` at the two arguments' buffers. -/
theorem res_value_launch :
    ∀ (m : (ℓ : Loc nD τ sig) → Buf (Elt Ideal) ℓ) (d : Dev nD)
      (hin : ∀ i, (V0 m d (dr main_arg0) i).toNat < 100000)
      (R : S4096x64.Idx → Elt Ideal .f32) (_h : ResOK m d R) (b : Fin 4096) (e : Fin 64),
      let T : S26x100000x64.Idx → EReal := V0 m d (dr main_arg2)
      R (ValueIdx.ix2 b e) = ∑ k : Fin 26,
        T (ValueIdx.ix3 k (⟨(V0 m d (dr main_arg0) (ValueIdx.ix3 b (0 : Fin 64) (k.castLE (by decide) : Fin 36))).toNat, hin _⟩ : Fin 100000) e) :=
  fun m d hin R h b e => res_value m d (V0 m d (dr main_arg0)) (V0 m d (dr main_arg2)) rfl rfl hin R h b e

end Cert.Proof.KI

end
-- ==== Proof.PreRange.lean ====
/-
  What the precondition says of the integer input: the predicate is a conjunction of three "all" reductions, and
  the middle one, read at an index, bounds every word of the input between 0 and 99999 as a signed integer; so
  every word, read as a natural number, is below the vocabulary's size 100000.
-/
import proofs.«219250_g10247791969013_week1_w1_750_27_alg».proof.Pre_input_domain
import proofs.«219250_g10247791969013_week1_w1_750_27_alg».proof.Proof.Gen.Pre_input_domain
import Idealize.ShloMosaic.Lib.ReduceAll
import Idealize.ShloMosaic.Lib.ValueIdx
import Idealize.ShloMosaic.Lib.Affine

noncomputable section

namespace Cert.Proof.PreRange

open Idealize.ShloMosaic Cert.Pre_input_domain

variable {F : FTy → Type} [FloatOps F]

instance : Subsingleton S_.Idx := ⟨fun a b => funext fun d => d.elim0⟩

theorem ofBool_eq_one (b : Bool) : BitVec.ofBool b = 1#1 ↔ b = true := by cases b <;> decide

/-- A word between 0 and 99999 as a signed integer is below 100000 as a natural number. -/
theorem toNat_lt (w : BitVec 32) (h0 : IntOp.cmpi .sge w 0#32 = 1#1) (h1 : IntOp.cmpi .sle w 99999#32 = 1#1) :
    w.toNat < 100000 := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

/-- Under the precondition every word of the input is below 100000. -/
theorem input_lt (a0 : IVec S4096x64x36 32) (a1 : IVec S_ 32) (a2 : FVec F S26x100000x64 .f32)
    (h : Cert.Pre_input_domain.fn (F := F) a0 a1 a2 = fun _ => 1#1) (i : S4096x64x36.Idx) : (a0 i).toNat < 100000 := by
  have e := congrFun h ValueIdx.ix0
  unfold Cert.Pre_input_domain.fn at e
  dsimp only at e
  obtain ⟨e1, -⟩ := IntOp.andi_eq_one.1 e
  obtain ⟨-, e2⟩ := IntOp.andi_eq_one.1 e1
  have e3 := Host.reduce_andi_all _ _ _ _ _ e2 i
  obtain ⟨h0, h1⟩ := IntOp.andi_eq_one.1 e3
  exact toNat_lt _ h0 h1

end Cert.Proof.PreRange

end
-- ==== Proof.RefValue.lean ====
/-
  The reference's embedded output read at an index. Its gather takes, for batch row b and feature k, the start
  index (k, input[b, 0, k]) — each component first wrapped (a negative index has the axis' extent added) and then
  clamped by the gather into the axis — and reads the 64 entries of that table row; the reduce then sums over the 26
  features from the zero word. So entry (b, d) is the zero word plus the sum over k of tables[k', v', d] with k', v'
  the wrapped and clamped components.
-/
import proofs.«219250_g10247791969013_week1_w1_750_27_alg».proof.Proof.Gen.ReferenceIdeal.Read
import Idealize.ShloMosaic.Lib.ValueIdx
import Idealize.ShloMosaic.Lib.Pipeline.Value

noncomputable section

namespace Cert.Proof.RefValue

open Cert.ReferenceIdeal Cert.ReferenceIdeal.Gen Cert.ReferenceIdeal.Read
open Idealize.ShloMosaic Idealize.ShloMosaic.ValueIdx

variable {F : FTy → Type} [FloatOps F]

local notation "gd" => gather_S26x100000x64_S4096x26x2_S4096x26x64_2_01_n_n_01_2_1164

/-- Axis 0 of the operand index of result index (b, k, d): component 0 of start index (b, k), signed, clamped. -/
theorem operand_axis0 {w : Nat} (idx : IVec S4096x26x2 w) (b : Fin 4096) (k : Fin 26) (d : Fin 64) :
    (gd).start (ix3 b k d) idx (0 : Fin 3) + (gd).batchCoord (ix3 b k d) (0 : Fin 3) + (gd).offCoord (ix3 b k d) (0 : Fin 3)
      = min (idx (ix3 b k (0 : Fin 2))).toInt.toNat 25 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 3) ∈ (gd).startIndexMap from by decide)]
  have hsi : (gd).siIdx (ix3 b k d) ⟨List.idxOf (0 : Fin 3) (gd).startIndexMap,
      List.idxOf_lt_length_iff.2 (by decide)⟩ = ix3 b k (0 : Fin 2) := by
    funext c; refine Fin.ext ?_
    match c with
    | ⟨0, _⟩ => rfl
    | ⟨1, _⟩ => rfl
    | ⟨2, _⟩ => rfl
  rw [hsi]
  rfl

/-- Axis 1: component 1 of the start index, signed, clamped into the vocabulary. -/
theorem operand_axis1 {w : Nat} (idx : IVec S4096x26x2 w) (b : Fin 4096) (k : Fin 26) (d : Fin 64) :
    (gd).start (ix3 b k d) idx (1 : Fin 3) + (gd).batchCoord (ix3 b k d) (1 : Fin 3) + (gd).offCoord (ix3 b k d) (1 : Fin 3)
      = min (idx (ix3 b k (1 : Fin 2))).toInt.toNat 99999 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ (gd).startIndexMap from by decide)]
  have hsi : (gd).siIdx (ix3 b k d) ⟨List.idxOf (1 : Fin 3) (gd).startIndexMap,
      List.idxOf_lt_length_iff.2 (by decide)⟩ = ix3 b k (1 : Fin 2) := by
    funext c; refine Fin.ext ?_
    match c with
    | ⟨0, _⟩ => rfl
    | ⟨1, _⟩ => rfl
    | ⟨2, _⟩ => rfl
  rw [hsi]
  rfl

/-- Axis 2: the offset coordinate d, from start 0. -/
theorem operand_axis2 {w : Nat} (idx : IVec S4096x26x2 w) (b : Fin 4096) (k : Fin 26) (d : Fin 64) :
    (gd).start (ix3 b k d) idx (2 : Fin 3) + (gd).batchCoord (ix3 b k d) (2 : Fin 3) + (gd).offCoord (ix3 b k d) (2 : Fin 3)
      = d.val := by
  rw [GatherDims.batchCoord_eq_zero _ _ _ List.not_mem_nil]
  unfold GatherDims.start
  rw [dif_neg (show (2 : Fin 3) ∉ (gd).startIndexMap from by decide)]
  simp only [Nat.add_zero, Nat.zero_add]
  rfl

/-- The gather of rows of a [26, 100000, 64] operand at start indices [4096, 26, 2], read at (b, k, d): the operand
    at (the two components of start index (b, k), read signed and clamped into their axes, then d). -/
theorem gather_apply {α : Type} {w : Nat} (x : S26x100000x64.Idx → α) (idx : IVec S4096x26x2 w)
    (b : Fin 4096) (k : Fin 26) (d : Fin 64) :
    Host.gather gd x idx (ix3 b k d)
      = x (ix3 (⟨min (idx (ix3 b k (0 : Fin 2))).toInt.toNat 25, by omega⟩ : Fin 26)
              (⟨min (idx (ix3 b k (1 : Fin 2))).toInt.toNat 99999, by omega⟩ : Fin 100000) d) := by
  unfold Host.gather
  congr 1
  funext a
  refine Fin.ext ?_
  fin_cases a
  · exact operand_axis0 idx b k d
  · exact operand_axis1 idx b k d
  · exact operand_axis2 idx b k d

/-- Component 0 of start index (b, k): the feature number k (the iota, which is never negative, so unwrapped). -/
theorem start_feature (x0 : (⟨S4096x64x36, .i32⟩ : BufTy).Contents (Elt F)) (b : Fin 4096) (k : Fin 26) :
    val_main_v21 (F := F) x0 (ix3 b k (0 : Fin 2)) = val_main_v12 (F := F) (ix2 (0 : Fin 1) k) := by
  unfold val_main_v21
  rw [concatenate_pair_apply_left (t := S4096x26x2) (s₁ := S4096x26x1) (s₂ := S4096x26x1) (2 : Fin 3) _ _ _ (ix3 b k (0 : Fin 2)) rfl (ix3 b k (0 : Fin 1))
    (fun c => by match c with | ⟨0, _⟩ => rfl | ⟨1, _⟩ => rfl | ⟨2, _⟩ => rfl)]
  rw [val_main_v19_apply, val_main_v18_apply]
  exact congrArg _ (funext fun c => Fin.ext (by match c with | ⟨0, _⟩ => rfl | ⟨1, _⟩ => rfl))

/-- Component 1 of start index (b, k): the input word at (b, 0, k), wrapped. -/
theorem start_row (x0 : (⟨S4096x64x36, .i32⟩ : BufTy).Contents (Elt F)) (b : Fin 4096) (k : Fin 26) :
    val_main_v21 (F := F) x0 (ix3 b k (1 : Fin 2)) = val_main_v17 (F := F) x0 (ix2 b k) := by
  unfold val_main_v21
  rw [concatenate_pair_apply_right (t := S4096x26x2) (s₁ := S4096x26x1) (s₂ := S4096x26x1) (2 : Fin 3) _ _ _ (ix3 b k (1 : Fin 2)) rfl rfl (ix3 b k (0 : Fin 1))
    (fun c hc => by
      match c with
      | ⟨0, _⟩ => rfl
      | ⟨1, _⟩ => rfl
      | ⟨2, _⟩ => exact absurd rfl hc)
    rfl]
  rw [val_main_v20_apply]
  exact congrArg _ (funext fun c => Fin.ext (by match c with | ⟨0, _⟩ => rfl | ⟨1, _⟩ => rfl))

/-! ## The two components under the range hypothesis -/

theorem ofBool_eq_one (b : Bool) : BitVec.ofBool b = 1#1 ↔ b = true := by cases b <;> decide

/-- A word below 100000 is not negative as a signed integer. -/
theorem slt_zero_of_lt (w : BitVec 32) (h : w.toNat < 100000) : IntOp.cmpi .slt w 0#32 = 0#1 := by
  refine eq_zero_of_ne_one fun h0 => ?_
  unfold IntOp.cmpi at h0
  rw [ofBool_eq_one] at h0
  simp only [BitVec.slt, decide_eq_true_eq] at h0
  unfold BitVec.toInt at h0
  split at h0 <;> simp at h0 <;> omega

/-- and its signed reading is its natural number. -/
theorem toInt_toNat_of_lt (w : BitVec 32) (h : w.toNat < 100000) : w.toInt.toNat = w.toNat := by
  unfold BitVec.toInt
  split <;> omega

/-- Component 0, clamped into the 26 tables, is the feature number. -/
theorem feature_clamped : ∀ k : Fin 26, min (val_main_v12 (F := F) (ix2 (0 : Fin 1) k)).toInt.toNat 25 = k.val := by
  intro k
  rw [val_main_v12_apply, val_main_v9_apply, val_main_v7_apply, val_main_v8_apply, val_main_v6_apply, val_main_c_apply]
  have hk : (idx_main_v7 (ix2 (0 : Fin 1) k) 0).val = k.val := rfl
  rw [hk]
  have hneg : ∀ k : Fin 26, IntOp.cmpi .slt (BitVec.ofNat 32 k.val) 0#32 = 0#1 := by decide
  have hval : ∀ k : Fin 26, min (BitVec.ofNat 32 k.val).toInt.toNat 25 = k.val := by decide
  rw [hneg k, select_zero]
  exact hval k

/-- The input word the row component comes from: the reshape and the slice composed pick (b, 0, k). -/
theorem row_word (x0 : (⟨S4096x64x36, .i32⟩ : BufTy).Contents (Elt F)) (b : Fin 4096) (k : Fin 26) :
    val_main_v5 (F := F) x0 (ix2 b k) = x0 (ix3 b (0 : Fin 64) (k.castLE (by decide) : Fin 36)) := by
  rw [val_main_v5_apply, val_main_v4_apply]
  refine congrArg x0 (funext fun a => Fin.ext ?_)
  have hb := b.isLt
  have hk := k.isLt
  match a with
  | ⟨0, _⟩ => show (b.val * 26 + k.val) / 26 = b.val; omega
  | ⟨1, _⟩ => rfl
  | ⟨2, _⟩ => show (b.val * 26 + k.val) % 26 = k.val; omega

/-- Component 1, clamped into the vocabulary, is the input word itself when that word is below 100000. -/
theorem row_clamped (x0 : (⟨S4096x64x36, .i32⟩ : BufTy).Contents (Elt F)) (b : Fin 4096) (k : Fin 26)
    (h : (x0 (ix3 b (0 : Fin 64) (k.castLE (by decide) : Fin 36))).toNat < 100000) :
    min (val_main_v17 (F := F) x0 (ix2 b k)).toInt.toNat 99999 = (x0 (ix3 b (0 : Fin 64) (k.castLE (by decide) : Fin 36))).toNat := by
  rw [val_main_v17_apply, val_main_v14_apply, val_main_v13_apply, val_main_c_1_apply, row_word, slt_zero_of_lt _ h,
    select_zero, toInt_toNat_of_lt _ h]
  omega

/-- THE REFERENCE'S EMBEDDED OUTPUT at (b, d), at Ideal, when every input word is below 100000: the zero word plus the
    sum over the 26 features k of tables[k, input[b, 0, k], d]. -/
theorem embedded_apply (x0 : (⟨S4096x64x36, .i32⟩ : BufTy).Contents (Elt Ideal)) (x2 : (⟨S26x100000x64, .f32⟩ : BufTy).Contents (Elt Ideal))
    (hx0 : ∀ i, (x0 i).toNat < 100000) (b : Fin 4096) (d : Fin 64) :
    val_main_v23 (F := Ideal) x0 x2 (ix2 b d)
      = (val_main_cst (F := Ideal)) (Shape.Idx.first h_S_)
        + ∑ k : Fin 26, x2 (ix3 k (⟨(x0 (ix3 b (0 : Fin 64) (k.castLE (by decide) : Fin 36))).toNat, hx0 _⟩ : Fin 100000) d) := by
  rw [val_main_v23_apply]
  refine congrArg (_ + ·) (Finset.sum_congr rfl fun k _ => ?_)
  have hi : idx_main_v23 (ix2 b d) k = ix3 b k d := by
    funext a; match a with | ⟨0, _⟩ => rfl | ⟨1, _⟩ => rfl | ⟨2, _⟩ => rfl
  rw [hi]
  unfold val_main_v22
  rw [gather_apply]
  refine congrArg x2 (funext fun a => Fin.ext ?_)
  match a with
  | ⟨0, _⟩ =>
    show min (val_main_v21 (F := Ideal) x0 (ix3 b k (0 : Fin 2))).toInt.toNat 25 = k.val
    rw [start_feature]; exact feature_clamped k
  | ⟨1, _⟩ =>
    show min (val_main_v21 (F := Ideal) x0 (ix3 b k (1 : Fin 2))).toInt.toNat 99999 = _
    rw [start_row]; exact row_clamped x0 b k (hx0 _)
  | ⟨2, _⟩ => rfl

end Cert.Proof.RefValue

end
-- ==== Proof.KI.Assemble.lean ====
/-
  The idealized kernel program's two conjuncts, from the four statements the launch rests on: its frame is its run
  with the results dropped; the algebraic conjunct is its run at the extended reals beside the reference's generated
  run, the three results equal — the two numeric windows because both programs apply the same host operations to the
  same input, the embedded output because a sum of 16 and 10 gathered table rows is the sum of the 26.
-/
import proofs.«219250_g10247791969013_week1_w1_750_27_alg».proof.Defs
import proofs.«219250_g10247791969013_week1_w1_750_27_alg».proof.Proof.KI.Run
import proofs.«219250_g10247791969013_week1_w1_750_27_alg».proof.Proof.KI.HostVals
import proofs.«219250_g10247791969013_week1_w1_750_27_alg».proof.Proof.KI.ResValue
import proofs.«219250_g10247791969013_week1_w1_750_27_alg».proof.Proof.PreRange
import proofs.«219250_g10247791969013_week1_w1_750_27_alg».proof.Proof.RefRun
import proofs.«219250_g10247791969013_week1_w1_750_27_alg».proof.Proof.RefValue
import proofs.«219250_g10247791969013_week1_w1_750_27_alg».proof.Proof.Gen.KernelIdeal
import proofs.«219250_g10247791969013_week1_w1_750_27_alg».proof.Proof.Gen.Pre_input_domain

noncomputable section

namespace Cert.Proof.KI

open Cert.KernelIdeal Cert.KernelIdeal.Gen

open Idealize.ShloMosaic Idealize.ShloMosaic.TcCoe
open Idealize.SL Idealize.SL.Sem
open Idealize.ShloMosaic.StableHlo

/-- Under the precondition every word of the input is below 100000, at either instance. -/
theorem input_lt_of_pre {F : FTy → Type} [FloatOps F] (m : (ℓ : Loc nD τ sig) → Buf (Elt F) ℓ)
    (h : ∀ c : Dev nD, (Cert.Pre_input_domain.fn (F := F) (m ((c.tc : Thread nD τ).loc main_arg0)) (m ((c.tc : Thread nD τ).loc main_arg1)) (m ((c.tc : Thread nD τ).loc main_arg2))) = (fun _ => 1#1))
    (d : Dev nD) (i : S4096x64x36.Idx) : (V0 m d (dr main_arg0) i).toNat < 100000 :=
  Cert.Proof.PreRange.input_lt _ _ _ (h d) i

theorem idxA_lt_of_pre {F : FTy → Type} [FloatOps F] (m : (ℓ : Loc nD τ sig) → Buf (Elt F) ℓ)
    (h : ∀ c : Dev nD, (Cert.Pre_input_domain.fn (F := F) (m ((c.tc : Thread nD τ).loc main_arg0)) (m ((c.tc : Thread nD τ).loc main_arg1)) (m ((c.tc : Thread nD τ).loc main_arg2))) = (fun _ => 1#1))
    (d : Dev nD) (j : S65536.Idx) : (idxA m d j).toNat < 100000 := by
  obtain ⟨i, e⟩ := idxA_word m d j
  rw [e]; exact input_lt_of_pre m h d i
theorem idxB_lt_of_pre {F : FTy → Type} [FloatOps F] (m : (ℓ : Loc nD τ sig) → Buf (Elt F) ℓ)
    (h : ∀ c : Dev nD, (Cert.Pre_input_domain.fn (F := F) (m ((c.tc : Thread nD τ).loc main_arg0)) (m ((c.tc : Thread nD τ).loc main_arg1)) (m ((c.tc : Thread nD τ).loc main_arg2))) = (fun _ => 1#1))
    (d : Dev nD) (j : S40960.Idx) : (idxB m d j).toNat < 100000 := by
  obtain ⟨i, e⟩ := idxB_word m d j
  rw [e]; exact input_lt_of_pre m h d i

/-- The idealized kernel program terminates on every weakly fair execution of all its threads, faults nowhere and
    leaves its three arguments as they were. -/
theorem frame_KernelIdeal (h2 : TileBody2 Ideal) (h3 : TileBody3 Ideal) (hfund : RegionsFund Ideal) (hreg : RegionsWp Ideal) :
    Cert.frame_KernelIdeal := fun m ρ hpre =>
  (θ_run Cert.KernelIdeal.defs _ _).mono
    (fun _ h c => ⟨(h c).1.trans (VB_arg0 m c), (h c).2.1.trans (VB_arg1 m c), (h c).2.2.1.trans (VB_arg2 m c)⟩)
    (run_main (F := Ideal) m ρ h2 h3 hfund hreg (idxA_lt_of_pre m hpre) (idxB_lt_of_pre m hpre))

/-- The two numeric windows after the stretches are the reference's terms of the input. -/
theorem VB_v2 (m : (ℓ : Loc nD τ sig) → Buf (Elt Ideal) ℓ) (d : Dev nD) :
    VB m d (dr main_v2) = Cert.ReferenceIdeal.Read.val_main_v2 (F := Ideal) (V0 m d (dr main_arg0)) := by
  unfold VB; rw [opsB_keeps (by decide)]; unfold VA
  after_results
  rfl
theorem VB_v3 (m : (ℓ : Loc nD τ sig) → Buf (Elt Ideal) ℓ) (d : Dev nD) :
    VB m d (dr main_v3) = Cert.ReferenceIdeal.Read.val_main_v3 (F := Ideal) (V0 m d (dr main_arg0)) := by
  unfold VB; rw [opsB_keeps (by decide)]; unfold VA
  after_results
  rfl

/-- At the extended reals the idealized kernel program and the reference, run from memories that agree on the
    arguments, both end, with equal results and unchanged arguments. -/
theorem algebraic (h2 : TileBody2 Ideal) (h3 : TileBody3 Ideal) (hfund : RegionsFund Ideal) (hreg : RegionsWp Ideal) :
    Cert.algebraic_KernelIdeal_ReferenceIdeal := by
  intro m ρ m' ρ' hpre0 hagree
  have hpre : ∀ c : Dev nD, (Cert.Pre_input_domain.fn (F := Ideal) (m ((c.tc : Thread nD τ).loc main_arg0)) (m ((c.tc : Thread nD τ).loc main_arg1)) (m ((c.tc : Thread nD τ).loc main_arg2))) = (fun _ => 1#1) := hpre0
  refine ⟨fun c => Cert.ReferenceIdeal.Read.val_main_v2 (F := Ideal) (V0 m c (dr main_arg0)),
    fun c => Cert.ReferenceIdeal.Read.val_main_v3 (F := Ideal) (V0 m c (dr main_arg0)),
    fun c => Cert.ReferenceIdeal.Read.val_main_v23 (F := Ideal) (V0 m c (dr main_arg0)) (V0 m c (dr main_arg2)), ?_, ?_⟩
  · refine (θ_run Cert.KernelIdeal.defs _ _).mono (fun _ h c => ?_)
      (run_main (F := Ideal) m ρ h2 h3 hfund hreg (idxA_lt_of_pre m hpre) (idxB_lt_of_pre m hpre))
    obtain ⟨ha0, ha1, ha2, hv2, hv3, hR⟩ := h c
    refine ⟨hv2.trans (VB_v2 m c), hv3.trans (VB_v3 m c), ?_, ha0.trans (VB_arg0 m c), ha1.trans (VB_arg1 m c), ha2.trans (VB_arg2 m c)⟩
    funext i
    obtain ⟨b, e, rfl⟩ : ∃ (b : Fin 4096) (e : Fin 64), i = ValueIdx.ix2 b e := ⟨i 0, i 1, ValueIdx.eq_ix2 i⟩
    rw [res_value m c (V0 m c (dr main_arg0)) (V0 m c (dr main_arg2)) rfl rfl (input_lt_of_pre m hpre c) _ hR b e]
    show _ = Cert.ReferenceIdeal.Read.val_main_v23 (F := Ideal) (V0 m c (dr main_arg0)) (V0 m c (dr main_arg2)) (ValueIdx.ix2 b e)
    rw [Cert.Proof.RefValue.embedded_apply _ _ (input_lt_of_pre m hpre c) b e]
    show _ = (Ideal.ofBits .f32 0x00000000#32 : EReal) + _
    rw [Ideal.ofBits_zero_f32, zero_add]
  · refine (θ_run Cert.ReferenceIdeal.defs _ _).mono (fun _ h c => ?_) (Cert.ReferenceIdeal.Value.run (F := Ideal) m' ρ')
    obtain ⟨hv2, hv3, hv23, ha0, ha1, ha2⟩ := h c
    have e0 := (hagree c).1
    have e2 := (hagree c).2.2
    refine ⟨?_, ?_, ?_, ha0, ha1, ha2⟩
    · rw [hv2, Cert.ReferenceIdeal.Read.val_main_v2_eq, e0]
    · rw [hv3, Cert.ReferenceIdeal.Read.val_main_v3_eq, e0]
    · rw [hv23, Cert.ReferenceIdeal.Read.val_main_v23_eq, e0, e2]

end Cert.Proof.KI

end
-- ==== Proof.KI.TransData.lean ====
import proofs.«219250_g10247791969013_week1_w1_750_27_alg».proof.Proof.KI.TransSpec
import Idealize.ShloMosaic.Lib.ValueIdx

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

/-! ## The proof data of the two pipelined transposes

Relational proof data: an input window's staging buffer is left as it was found; the result window's is left holding,
on the rows that lie inside the vocabulary, the pair's two tables side by side — the rows of the last block past the
vocabulary's end hold what the clipped fetch left there, which nothing states. Both input windows read the one array of
transposed tables, each at half of its share. -/

/-- What the result's staging buffer holds after the body at grid point `(k, cc)` of the pipeline whose first pair is
    `base`: row `r` of the block, when row `cc * 25088 + r` lies inside the vocabulary, holds that row of table
    `2 (k + base)` in lanes `[0, 64)` and of table `2 (k + base) + 1` in lanes `[64, 128)`. -/
def OutOk (base : ℕ) (A : S26x64x100000.Idx → Elt F .f32) (k cc : ℕ) (X : S25088x128.Idx → Elt F .f32) : Prop :=
  ∀ (r h d : ℕ) (hr : r < 25088) (hh : h < 2) (hd : d < 64) (hv : cc * 25088 + r < 100000) (hk : 2 * (k + base) + h < 26),
    X (ix2 (⟨r, hr⟩ : Fin 25088) (⟨h * 64 + d, by omega⟩ : Fin 128))
      = A (ix3 (⟨2 * (k + base) + h, hk⟩ : Fin 26) (⟨d, hd⟩ : Fin 64) (⟨cc * 25088 + r, hv⟩ : Fin 100000))

variable (A : S26x64x100000.Idx → Elt F .f32) (B5 : S802816x128.Idx → Elt F .f32) (B6 : S501760x128.Idx → Elt F .f32)
  (O : CellTallies nD τ sig (HIx 2)) (b : ℕ)

/-- Pipeline 0 on core `c`: the tables at `A` behind both input windows, the result at `B5` at entry; the invariant is
    the scoped buffers no window of it stages; the core owes `O` throughout, its recorded pairs at levels at most `b`. -/
def rdat0 (c : Dev nD) : Pipeline.RDat τ (Elt F) (HIx 2) ℕ UU ℕ (Pipeline.pin (pcfgs (F := F)) adm 0) c where
  A w := match w with
    | ⟨0, _⟩ => A
    | ⟨1, _⟩ => A
    | ⟨2, _⟩ => B5
  after w t := match w with
    | ⟨0, _⟩ => fun Y X => X = Y
    | ⟨1, _⟩ => fun Y X => X = Y
    | ⟨2, _⟩ => fun _ X => OutOk 0 A (grid0.coords t 0).val (grid0.coords t 1).val X
  Φ _ := Pipeline.scopedRest (Pipeline.pin (pcfgs (F := F)) adm 0).spec c
  q w := match w with
    | ⟨0, _⟩ => fullShare.left
    | ⟨1, _⟩ => fullShare.right
    | ⟨2, _⟩ => fullShare
  owed _ := O
  recorded _ := {p | (K (F := F)).lev ((c.tc : Thread nD τ), p.1) p.2 ≤ b}

/-- Pipeline 1 likewise, its pairs starting at pair 8. -/
def rdat1 (c : Dev nD) : Pipeline.RDat τ (Elt F) (HIx 2) ℕ UU ℕ (Pipeline.pin (pcfgs (F := F)) adm 1) c where
  A w := match w with
    | ⟨0, _⟩ => A
    | ⟨1, _⟩ => A
    | ⟨2, _⟩ => B6
  after w t := match w with
    | ⟨0, _⟩ => fun Y X => X = Y
    | ⟨1, _⟩ => fun Y X => X = Y
    | ⟨2, _⟩ => fun _ X => OutOk 8 A (grid1.coords t 0).val (grid1.coords t 1).val X
  Φ _ := Pipeline.scopedRest (Pipeline.pin (pcfgs (F := F)) adm 1).spec c
  q w := match w with
    | ⟨0, _⟩ => fullShare.left
    | ⟨1, _⟩ => fullShare.right
    | ⟨2, _⟩ => fullShare
  owed _ := O
  recorded _ := {p | (K (F := F)).lev ((c.tc : Thread nD τ), p.1) p.2 ≤ b}

/-- The two pipelines' proof data. -/
def rdats : (p : Fin 2) → (c : Dev nD) → Pipeline.RDat τ (Elt F) (HIx 2) ℕ UU ℕ (Pipeline.pin (pcfgs (F := F)) adm p) c
  | ⟨0, _⟩ => fun c => rdat0 A B5 O b c
  | ⟨1, _⟩ => fun c => rdat1 A B6 O b c

end Cert.Proof.KI

end
-- ==== Proof.KI.TransPure.lean ====
import proofs.«219250_g10247791969013_week1_w1_750_27_alg».proof.Proof.KI.TransData
import Idealize.ShloMosaic.Lib.ValueIdx
import proofs.«219250_g10247791969013_week1_w1_750_27_alg».proof.Proof.Gen.KernelIdeal.Skeleton
import proofs.«219250_g10247791969013_week1_w1_750_27_alg».proof.Proof.Gen.KernelIdeal.Points
import Idealize.ShloMosaic.Lib.Pipeline.Value
import Idealize.ShloMosaic.Lib.Writes

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

set_option maxRecDepth 8192

set_option maxRecDepth 8192

/-! ## The transposes' body, as a function of what it finds

Pure facts: what the two transposed payloads are at an index; what a buffer written by the body's two half-width
stores reads at an index; what the result's staging buffer therefore holds against the inputs' staging buffers. -/

/-- What the body leaves in the result's buffer `X`, against what it found in the two inputs' (`X0`, `X1`): row `r` holds
    column `r` of the first input in lanes `[0, 64)` and of the second in lanes `[64, 128)`. -/
def BodyOut (X0 X1 : S1x64x25088.Idx → Elt F .f32) (X : S25088x128.Idx → Elt F .f32) : Prop :=
  ∀ (r d : ℕ) (hr : r < 25088) (hd : d < 64),
    X (ix2 (⟨r, hr⟩ : Fin 25088) (⟨d, by omega⟩ : Fin 128))
        = X0 (ix3 (⟨0, by decide⟩ : Fin 1) (⟨d, hd⟩ : Fin 64) (⟨r, hr⟩ : Fin 25088))
      ∧ X (ix2 (⟨r, hr⟩ : Fin 25088) (⟨64 + d, by omega⟩ : Fin 128))
        = X1 (ix3 (⟨0, by decide⟩ : Fin 1) (⟨d, hd⟩ : Fin 64) (⟨r, hr⟩ : Fin 25088))

/-- The transposed payload at `(r, d)` is the block at `(0, d, r)`. -/
theorem pay1_apply (v0 : S1x64x25088.Idx → Elt F .f32) (j : S25088x64.Idx) :
    k0_pay1 (F := F) v0 j = v0 (ix3 (⟨0, by decide⟩ : Fin 1) (j 1) (j 0)) := by
  unfold k0_pay1
  rw [transpose_apply [1, 0] _ transposes_S64x25088_p1_0_S25088x64 j (ix2 (j 1) (j 0)) (by intro bb; fin_cases bb <;> rfl)]
  rw [shapeCast_apply _ shapeCasts_S1x64x25088_S64x25088 (ix2 (j 1) (j 0)) (ix3 (⟨0, by decide⟩ : Fin 1) (j 1) (j 0))
    (by rw [Shape.rowMajor_val_three, Shape.rowMajor_val_two]; simp)]

theorem pay2_apply (v0 : S1x64x25088.Idx → Elt F .f32) (j : S25088x64.Idx) :
    k0_pay2 (F := F) v0 j = v0 (ix3 (⟨0, by decide⟩ : Fin 1) (j 1) (j 0)) := pay1_apply v0 j

/-- The second pipeline's payloads are the first's. -/
theorem k1_pay1_eq (v : Vec F S1x64x25088 .f32) : k1_pay1 (F := F) v = k0_pay1 (F := F) v := rfl
theorem k1_pay2_eq (v : Vec F S1x64x25088 .f32) : k1_pay2 (F := F) v = k0_pay2 (F := F) v := rfl

section Views

variable {sg : RefSig} {κ : Kind} {sp : Space}

/-- A load through the whole-shape rectangle at zero offsets reads what the view reads. -/
theorem readAt_unit_zero_view {S : Shape} {e : EltTy} (v : View sg κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f := by
  subst h; funext x
  show v.read (Elt F) f ((Rect.whole S).emb x) = v.read (Elt F) f x
  rw [Rect.emb_whole_apply]

/-- The left half-width rectangle of the result's block and the right one. -/
abbrev rL : Rect S25088x128 := Rect.unit (s := S25088x128) ![0, 0] S25088x64.size inb_S25088x128_S25088x64_0_0
abbrev rR : Rect S25088x128 := Rect.unit (s := S25088x128) ![0, 64] S25088x64.size inb_S25088x128_S25088x64_0_64

theorem rL_emb (x : rL.shape.Idx) (a : Fin 2) : ((rL.emb x) a : ℕ) = (![0, 0] : Fin 2 → ℕ) a + (x a : ℕ) := by
  rw [Rect.emb_apply]; show (![0, 0] : Fin 2 → ℕ) a + 1 * (x a : ℕ) = _; omega
theorem rR_emb (x : rR.shape.Idx) (a : Fin 2) : ((rR.emb x) a : ℕ) = (![0, 64] : Fin 2 → ℕ) a + (x a : ℕ) := by
  rw [Rect.emb_apply]; show (![0, 64] : Fin 2 → ℕ) a + 1 * (x a : ℕ) = _; omega

/-- A buffer written through the left half and then the right half of a view reads, at a lane below 64, the left payload, -/
theorem read_two_writes_left (v : View sg κ sp S25088x128 .f32) (f : v.ty.Contents (Elt F)) (wL wR : S25088x64.Idx → Elt F .f32)
    (r d : ℕ) (hr : r < 25088) (hd : d < 64) :
    v.read (Elt F) (v.writes (Elt F) f [⟨rR, wR⟩, ⟨rL, wL⟩]) (ix2 (⟨r, hr⟩ : Fin 25088) (⟨d, by omega⟩ : Fin 128))
      = wL (ix2 (⟨r, hr⟩ : Fin 25088) (⟨d, hd⟩ : Fin 64)) := by
  rw [View.writes_cons]
  rw [View.read_slice_write_of_not_mem (v := v) rR _ wR Finset.univ (y := ix2 (⟨r, hr⟩ : Fin 25088) (⟨d, by omega⟩ : Fin 128)) (by
    rw [Finset.mem_map]; rintro ⟨x, -, hx⟩
    have h1 := congrArg (fun j : S25088x128.Idx => ((j 1 : Fin _) : ℕ)) hx
    have h2 := rR_emb x 1
    simp only [DFunLike.coe] at h1
    simp at h1 h2
    omega)]
  rw [View.writes_cons, View.writes_nil]
  have e : (ix2 (⟨r, hr⟩ : Fin 25088) (⟨d, by omega⟩ : Fin 128) : S25088x128.Idx)
      = rL.emb (ix2 (⟨r, hr⟩ : Fin 25088) (⟨d, hd⟩ : Fin 64)) := by
    funext a; apply Fin.ext; rw [rL_emb]
    fin_cases a <;> simp
  rw [e]
  exact View.read_slice_write_emb (v := v) rL f wL (Finset.mem_univ _)

/-- and at a lane from 64 on the right one. -/
theorem read_two_writes_right (v : View sg κ sp S25088x128 .f32) (f : v.ty.Contents (Elt F)) (wL wR : S25088x64.Idx → Elt F .f32)
    (r d : ℕ) (hr : r < 25088) (hd : d < 64) :
    v.read (Elt F) (v.writes (Elt F) f [⟨rR, wR⟩, ⟨rL, wL⟩]) (ix2 (⟨r, hr⟩ : Fin 25088) (⟨64 + d, by omega⟩ : Fin 128))
      = wR (ix2 (⟨r, hr⟩ : Fin 25088) (⟨d, hd⟩ : Fin 64)) := by
  rw [View.writes_cons]
  have e : (ix2 (⟨r, hr⟩ : Fin 25088) (⟨64 + d, by omega⟩ : Fin 128) : S25088x128.Idx)
      = rR.emb (ix2 (⟨r, hr⟩ : Fin 25088) (⟨d, hd⟩ : Fin 64)) := by
    funext a; apply Fin.ext; rw [rR_emb]
    fin_cases a <;> simp
  rw [e]
  exact View.read_slice_write_emb (v := v) rR _ wR (Finset.mem_univ _)

/-- So the body's two stores of the transposed inputs leave the result's buffer as `BodyOut` says. -/
theorem bodyOut_writes (v : View sg κ sp S25088x128 .f32) (f : v.ty.Contents (Elt F)) (X0 X1 : S1x64x25088.Idx → Elt F .f32) :
    BodyOut X0 X1 (v.read (Elt F) (v.writes (Elt F) f [⟨rR, k0_pay2 X1⟩, ⟨rL, k0_pay1 X0⟩])) := by
  intro r d hr hd
  refine ⟨?_, ?_⟩
  · rw [read_two_writes_left v f _ _ r d hr hd, pay1_apply]
  · rw [read_two_writes_right v f _ _ r d hr hd, pay2_apply]

end Views

/-! ## What a fetched input buffer holds, and so what the body leaves -/

section Fetched

variable (A : S26x64x100000.Idx → Elt F .f32) (B5 : S802816x128.Idx → Elt F .f32) (B6 : S501760x128.Idx → Elt F .f32)
  (O : CellTallies nD τ sig (HIx 2)) (b : ℕ)

/-- A coordinate of a block lies in the part a cut transfer moves when it lies in the block and inside the array. -/
theorem lt_extent_of {ix k d j : ℕ} (hj : j < k) (hd : ix * k + j < d) : j < (Pipeline.Clip.of ix k d).extent k := by
  unfold Pipeline.Clip.of; split
  · exact hj
  · show j < d - ix * k; omega

/-- The input windows' block indices at a grid point, off the point's coordinates. -/
theorem tr0_0 : ∀ (t : Fin grid0.N) (a : Fin 3),
    cc0_transform_0 (grid0.coords t) a = (![2 * ((grid0.coords t 0).val + 0) + 0, 0, (grid0.coords t 1).val] : Fin 3 → ℕ) a := by decide +kernel
theorem tr0_1 : ∀ (t : Fin grid0.N) (a : Fin 3),
    cc0_transform_1 (grid0.coords t) a = (![2 * ((grid0.coords t 0).val + 0) + 1, 0, (grid0.coords t 1).val] : Fin 3 → ℕ) a := by decide +kernel
theorem tr1_0 : ∀ (t : Fin grid1.N) (a : Fin 3),
    cc1_transform_0 (grid1.coords t) a = (![2 * ((grid1.coords t 0).val + 8) + 0, 0, (grid1.coords t 1).val] : Fin 3 → ℕ) a := by decide +kernel
theorem tr1_1 : ∀ (t : Fin grid1.N) (a : Fin 3),
    cc1_transform_1 (grid1.coords t) a = (![2 * ((grid1.coords t 0).val + 8) + 1, 0, (grid1.coords t 1).val] : Fin 3 → ℕ) a := by decide +kernel

/-- A filled block at an index the transfer moves is what was filled in. -/
theorem fill_apply_of_lt {G : Pipeline.Grid} (w : Pipeline.Window sig G) {α : Type} (i : G.Coords) (dd : w.block.Idx → α)
    (g : (w.xblock i).Idx → α) (j : w.block.Idx) (hj : ∀ a, (j a).val < w.xsize i a) :
    w.fill i dd g j = g (fun a => ⟨(j a).val, hj a⟩) := by
  unfold Pipeline.Window.fill
  rw [dif_pos ((w.moved_iff i j).mpr hj)]

set_option maxHeartbeats 1000000 in
theorem fetched0_0_apply (c : Dev nD) (t : Fin grid0.N) (d0 : S1x64x25088.Idx → Elt F .f32)
    (r d : ℕ) (hr : r < 25088) (hd : d < 64) (hv : (grid0.coords t 1).val * 25088 + r < 100000) (hk : 2 * ((grid0.coords t 0).val + 0) + 0 < 26) :
    (rdats A B5 B6 O b 0 c).fetched (0 : Fin 3) t d0 (ix3 (⟨0, by decide⟩ : Fin 1) (⟨d, hd⟩ : Fin 64) (⟨r, hr⟩ : Fin 25088))
      = A (ix3 (⟨2 * ((grid0.coords t 0).val + 0) + 0, hk⟩ : Fin 26) (⟨d, hd⟩ : Fin 64) (⟨(grid0.coords t 1).val * 25088 + r, hv⟩ : Fin 100000)) := by
  have hj : ∀ a : Fin 3, ((ix3 (⟨0, by decide⟩ : Fin 1) (⟨d, hd⟩ : Fin 64) (⟨r, hr⟩ : Fin 25088) : S1x64x25088.Idx) a).val
      < win0_0.xsize (grid0.coords t) a := by
    intro a
    show _ < (Pipeline.Clip.of (cc0_transform_0 (grid0.coords t) a) (S1x64x25088.size a) (S26x64x100000.size a)).extent (S1x64x25088.size a)
    apply lt_extent_of
    · fin_cases a <;> first | (simp; done) | (simp; omega) | omega
    · rw [tr0_0 t a]; fin_cases a <;> first | (simp; done) | (simp; omega) | omega
  unfold Pipeline.RDat.fetched
  rw [fill_apply_of_lt _ _ _ _ _ hj]
  show A ((win0_0.rect t).emb _) = _
  congr 1
  funext a; apply Fin.ext
  rw [Pipeline.Window.rect_emb_val]
  show cc0_transform_0 (grid0.coords t) a * S1x64x25088.size a + _ = _
  rw [tr0_0 t a]
  fin_cases a <;> first | (simp; done) | (simp; omega) | omega

set_option maxHeartbeats 1000000 in
theorem fetched0_1_apply (c : Dev nD) (t : Fin grid0.N) (d0 : S1x64x25088.Idx → Elt F .f32)
    (r d : ℕ) (hr : r < 25088) (hd : d < 64) (hv : (grid0.coords t 1).val * 25088 + r < 100000) (hk : 2 * ((grid0.coords t 0).val + 0) + 1 < 26) :
    (rdats A B5 B6 O b 0 c).fetched (1 : Fin 3) t d0 (ix3 (⟨0, by decide⟩ : Fin 1) (⟨d, hd⟩ : Fin 64) (⟨r, hr⟩ : Fin 25088))
      = A (ix3 (⟨2 * ((grid0.coords t 0).val + 0) + 1, hk⟩ : Fin 26) (⟨d, hd⟩ : Fin 64) (⟨(grid0.coords t 1).val * 25088 + r, hv⟩ : Fin 100000)) := by
  have hj : ∀ a : Fin 3, ((ix3 (⟨0, by decide⟩ : Fin 1) (⟨d, hd⟩ : Fin 64) (⟨r, hr⟩ : Fin 25088) : S1x64x25088.Idx) a).val
      < win0_1.xsize (grid0.coords t) a := by
    intro a
    show _ < (Pipeline.Clip.of (cc0_transform_1 (grid0.coords t) a) (S1x64x25088.size a) (S26x64x100000.size a)).extent (S1x64x25088.size a)
    apply lt_extent_of
    · fin_cases a <;> first | (simp; done) | (simp; omega) | omega
    · rw [tr0_1 t a]; fin_cases a <;> first | (simp; done) | (simp; omega) | omega
  unfold Pipeline.RDat.fetched
  rw [fill_apply_of_lt _ _ _ _ _ hj]
  show A ((win0_1.rect t).emb _) = _
  congr 1
  funext a; apply Fin.ext
  rw [Pipeline.Window.rect_emb_val]
  show cc0_transform_1 (grid0.coords t) a * S1x64x25088.size a + _ = _
  rw [tr0_1 t a]
  fin_cases a <;> first | (simp; done) | (simp; omega) | omega

set_option maxHeartbeats 1000000 in
theorem fetched1_0_apply (c : Dev nD) (t : Fin grid1.N) (d0 : S1x64x25088.Idx → Elt F .f32)
    (r d : ℕ) (hr : r < 25088) (hd : d < 64) (hv : (grid1.coords t 1).val * 25088 + r < 100000) (hk : 2 * ((grid1.coords t 0).val + 8) + 0 < 26) :
    (rdats A B5 B6 O b 1 c).fetched (0 : Fin 3) t d0 (ix3 (⟨0, by decide⟩ : Fin 1) (⟨d, hd⟩ : Fin 64) (⟨r, hr⟩ : Fin 25088))
      = A (ix3 (⟨2 * ((grid1.coords t 0).val + 8) + 0, hk⟩ : Fin 26) (⟨d, hd⟩ : Fin 64) (⟨(grid1.coords t 1).val * 25088 + r, hv⟩ : Fin 100000)) := by
  have hj : ∀ a : Fin 3, ((ix3 (⟨0, by decide⟩ : Fin 1) (⟨d, hd⟩ : Fin 64) (⟨r, hr⟩ : Fin 25088) : S1x64x25088.Idx) a).val
      < win1_0.xsize (grid1.coords t) a := by
    intro a
    show _ < (Pipeline.Clip.of (cc1_transform_0 (grid1.coords t) a) (S1x64x25088.size a) (S26x64x100000.size a)).extent (S1x64x25088.size a)
    apply lt_extent_of
    · fin_cases a <;> first | (simp; done) | (simp; omega) | omega
    · rw [tr1_0 t a]; fin_cases a <;> first | (simp; done) | (simp; omega) | omega
  unfold Pipeline.RDat.fetched
  rw [fill_apply_of_lt _ _ _ _ _ hj]
  show A ((win1_0.rect t).emb _) = _
  congr 1
  funext a; apply Fin.ext
  rw [Pipeline.Window.rect_emb_val]
  show cc1_transform_0 (grid1.coords t) a * S1x64x25088.size a + _ = _
  rw [tr1_0 t a]
  fin_cases a <;> first | (simp; done) | (simp; omega) | omega

set_option maxHeartbeats 1000000 in
theorem fetched1_1_apply (c : Dev nD) (t : Fin grid1.N) (d0 : S1x64x25088.Idx → Elt F .f32)
    (r d : ℕ) (hr : r < 25088) (hd : d < 64) (hv : (grid1.coords t 1).val * 25088 + r < 100000) (hk : 2 * ((grid1.coords t 0).val + 8) + 1 < 26) :
    (rdats A B5 B6 O b 1 c).fetched (1 : Fin 3) t d0 (ix3 (⟨0, by decide⟩ : Fin 1) (⟨d, hd⟩ : Fin 64) (⟨r, hr⟩ : Fin 25088))
      = A (ix3 (⟨2 * ((grid1.coords t 0).val + 8) + 1, hk⟩ : Fin 26) (⟨d, hd⟩ : Fin 64) (⟨(grid1.coords t 1).val * 25088 + r, hv⟩ : Fin 100000)) := by
  have hj : ∀ a : Fin 3, ((ix3 (⟨0, by decide⟩ : Fin 1) (⟨d, hd⟩ : Fin 64) (⟨r, hr⟩ : Fin 25088) : S1x64x25088.Idx) a).val
      < win1_1.xsize (grid1.coords t) a := by
    intro a
    show _ < (Pipeline.Clip.of (cc1_transform_1 (grid1.coords t) a) (S1x64x25088.size a) (S26x64x100000.size a)).extent (S1x64x25088.size a)
    apply lt_extent_of
    · fin_cases a <;> first | (simp; done) | (simp; omega) | omega
    · rw [tr1_1 t a]; fin_cases a <;> first | (simp; done) | (simp; omega) | omega
  unfold Pipeline.RDat.fetched
  rw [fill_apply_of_lt _ _ _ _ _ hj]
  show A ((win1_1.rect t).emb _) = _
  congr 1
  funext a; apply Fin.ext
  rw [Pipeline.Window.rect_emb_val]
  show cc1_transform_1 (grid1.coords t) a * S1x64x25088.size a + _ = _
  rw [tr1_1 t a]
  fin_cases a <;> first | (simp; done) | (simp; omega) | omega

/-- What the body leaves in the result's buffer of pipeline 0, from what the two fetches put in the inputs'. -/
theorem outOk0 (c : Dev nD) (t : Fin (Pipeline.pin (pcfgs (F := F)) adm 0).N) (Y0 Y1 : S1x64x25088.Idx → Elt F .f32)
    (h0 : (rdats A B5 B6 O b 0 c).Finds (0 : Fin 3) t Y0) (h1 : (rdats A B5 B6 O b 0 c).Finds (1 : Fin 3) t Y1)
    (X : S25088x128.Idx → Elt F .f32) (hX : BodyOut Y0 Y1 X) :
    OutOk 0 A (grid0.coords t 0).val (grid0.coords t 1).val X := by
  obtain ⟨d0, rfl⟩ := ((rdats A B5 B6 O b 0 c).finds_of_fetch (w := (0 : Fin 3)) (t := t) (fetch0_0 t) Y0).mp h0
  obtain ⟨d1, rfl⟩ := ((rdats A B5 B6 O b 0 c).finds_of_fetch (w := (1 : Fin 3)) (t := t) (fetch0_1 t) Y1).mp h1
  intro r h d hr hh hd hv hk
  obtain rfl | rfl : h = 0 ∨ h = 1 := by omega
  · have e := (hX r d hr hd).1
    rw [fetched0_0_apply A B5 B6 O b c t d0 r d hr hd hv hk] at e
    have e2 : (⟨0 * 64 + d, by omega⟩ : Fin 128) = ⟨d, by omega⟩ := Fin.ext (by show 0 * 64 + d = d; omega)
    rw [e2]; exact e
  · have e := (hX r d hr hd).2
    rw [fetched0_1_apply A B5 B6 O b c t d1 r d hr hd hv hk] at e
    have e2 : (⟨1 * 64 + d, by omega⟩ : Fin 128) = ⟨64 + d, by omega⟩ := Fin.ext (by show 1 * 64 + d = 64 + d; omega)
    rw [e2]; exact e

/-- What the body leaves in the result's buffer of pipeline 1, from what the two fetches put in the inputs'. -/
theorem outOk1 (c : Dev nD) (t : Fin (Pipeline.pin (pcfgs (F := F)) adm 1).N) (Y0 Y1 : S1x64x25088.Idx → Elt F .f32)
    (h0 : (rdats A B5 B6 O b 1 c).Finds (0 : Fin 3) t Y0) (h1 : (rdats A B5 B6 O b 1 c).Finds (1 : Fin 3) t Y1)
    (X : S25088x128.Idx → Elt F .f32) (hX : BodyOut Y0 Y1 X) :
    OutOk 8 A (grid1.coords t 0).val (grid1.coords t 1).val X := by
  obtain ⟨d0, rfl⟩ := ((rdats A B5 B6 O b 1 c).finds_of_fetch (w := (0 : Fin 3)) (t := t) (fetch1_0 t) Y0).mp h0
  obtain ⟨d1, rfl⟩ := ((rdats A B5 B6 O b 1 c).finds_of_fetch (w := (1 : Fin 3)) (t := t) (fetch1_1 t) Y1).mp h1
  intro r h d hr hh hd hv hk
  obtain rfl | rfl : h = 0 ∨ h = 1 := by omega
  · have e := (hX r d hr hd).1
    rw [fetched1_0_apply A B5 B6 O b c t d0 r d hr hd hv hk] at e
    have e2 : (⟨0 * 64 + d, by omega⟩ : Fin 128) = ⟨d, by omega⟩ := Fin.ext (by show 0 * 64 + d = d; omega)
    rw [e2]; exact e
  · have e := (hX r d hr hd).2
    rw [fetched1_1_apply A B5 B6 O b c t d1 r d hr hd hv hk] at e
    have e2 : (⟨1 * 64 + d, by omega⟩ : Fin 128) = ⟨64 + d, by omega⟩ := Fin.ext (by show 1 * 64 + d = 64 + d; omega)
    rw [e2]; exact e

end Fetched

end Cert.Proof.KI

end
-- ==== Proof.KI.TransBody.lean ====
import proofs.«219250_g10247791969013_week1_w1_750_27_alg».proof.Proof.KI.TransPure
import Idealize.ShloMosaic.Lib.ValueIdx
import Idealize.ShloMosaic.Lib.Tactic

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

set_option maxRecDepth 8192

/-! ## The body obligation -/

section Body

variable (A : S26x64x100000.Idx → Elt F .f32) (B5 : S802816x128.Idx → Elt F .f32) (B6 : S501760x128.Idx → Elt F .f32)
  (O : CellTallies nD τ sig (HIx 2)) (b : ℕ)

theorem hz3 : (![0, 0, 0] : Fin 3 → ℕ) = fun _ => 0 := funext fun a => by fin_cases a <;> rfl

/-- The body on any three whole staging memrefs: the inputs' are left as found, the result's is left as `BodyOut` says. -/
theorem sound_body0 (c : Dev nD) (E : Set ℕ) (i : grid0.Coords) (m0 m1 : Memref sig .tc .vmem S1x64x25088 .f32) (h0 : m0.IsWhole) (h1 : m1.IsWhole)
    (m2 : Memref sig .tc .vmem S25088x128 .f32) (h2 : m2.IsWhole)
    (X0 X1 : S1x64x25088.Idx → Elt F .f32) (X2 : S25088x128.Idx → Elt F .f32) :
    (iprop(owns (c.tc : Thread nD τ) m0 fullShare X0 ∗ owns (c.tc : Thread nD τ) m1 fullShare X1 ∗ owns (c.tc : Thread nD τ) m2 fullShare X2) : sProp 𝕄)
      ⊢ wp frame (wpE (defs₀ (F := F)) 𝒱₀ (c.tc : Thread nD τ) none) E (cc0__transpose_body i m0 h0 m1 h1 m2 h2) fun _ =>
          iprop(owns (c.tc : Thread nD τ) m0 fullShare X0 ∗ owns (c.tc : Thread nD τ) m1 fullShare X1
            ∗ ∃ X, ⌜BodyOut X0 X1 X⌝ ∗ owns (c.tc : Thread nD τ) m2 fullShare X) := by
  unfold owns
  simp only [cc0__transpose_body_eq_skeleton]; unfold cc0__transpose_body_skel
  simp only [Prog.lift, Prog.bind_op, Prog.bind_ret]
  iintro ⟨⟨%f0, %hf0, H0⟩, ⟨%f1, %hf1, H1⟩, ⟨%f2, %hf2, H2⟩⟩
  sl_steps
  isplitl [H0]
  · iexists f0; isplitr; · ipureintro; exact hf0
    iexact H0
  isplitl [H1]
  · iexists f1; isplitr; · ipureintro; exact hf1
    iexact H1
  iexists m2.view.read (Elt F) (m2.view.writes (Elt F) f2 [⟨rR, k0_pay2 X1⟩, ⟨rL, k0_pay1 X0⟩])
  isplitr
  · ipureintro; exact bodyOut_writes m2.view f2 X0 X1
  iexists m2.view.writes (Elt F) f2 [⟨rR, k0_pay2 X1⟩, ⟨rL, k0_pay1 X0⟩]
  isplitr; · ipureintro; rfl
  rw [← hf0, ← hf1, ← readAt_unit_zero_view m0.view hz3 inb_S1x64x25088_S1x64x25088_0_0_0 f0,
    ← readAt_unit_zero_view m1.view hz3 inb_S1x64x25088_S1x64x25088_0_0_0 f1]
  iexact H2

/-- The second pipeline's body is the first's, word for word. -/
theorem cc1_body_eq (i1 : grid1.Coords) (i0 : grid0.Coords) (m0 m1 : Memref sig .tc .vmem S1x64x25088 .f32) (h0 : m0.IsWhole) (h1 : m1.IsWhole)
    (m2 : Memref sig .tc .vmem S25088x128 .f32) (h2 : m2.IsWhole) :
    cc1__transpose_body (F := F) i1 m0 h0 m1 h1 m2 h2 = cc0__transpose_body (F := F) i0 m0 h0 m1 h1 m2 h2 := rfl

end Body

section Obligation

variable (A : S26x64x100000.Idx → Elt F .f32) (B5 : S802816x128.Idx → Elt F .f32) (B6 : S501760x128.Idx → Elt F .f32)
  (O : CellTallies nD τ sig (HIx 2)) (b : ℕ)

/-- A grid point of pipeline 0 (the body does not read its coordinates). -/
def i00 : grid0.Coords := grid0.coords ⟨0, by rw [N_0]; decide⟩

/-- The body obligation of pipeline 0. -/
theorem body0 (c : Dev nD) : (rdats A B5 B6 O b 0 c).BodyObligation (defs₀ (F := F)) 𝒱₀ none Set.univ := by
  intro t Y hY
  rw [bigSep_W0, bigSep_W0]
  have hout : ∀ X, BodyOut (Y 0) (Y 1) X → (rdats A B5 B6 O b 0 c).after 2 t (Y 2) X :=
    fun X hX => outOk0 A B5 B6 O b c t (Y 0) (Y 1) (hY 0) (hY 1) X hX
  have hprog : defs₀ (F := F) Proc.tc (Pipeline.pin (pcfgs (F := F)) adm 0).body
        ((Pipeline.pin (pcfgs (F := F)) adm 0).bodyArgs t ((Pipeline.pin (pcfgs (F := F)) adm 0).slots t))
      = cc0__transpose_body (grid0.coords t) (win0_0.stage (cfg0.slots t 0)) (hstage0_0 ((cfg0.slots t 0).cast nbuf0_0))
          (win0_1.stage (cfg0.slots t 1)) (hstage0_1 ((cfg0.slots t 1).cast nbuf0_1))
          (win0_2.stage (cfg0.slots t 2)) (hstage0_2 ((cfg0.slots t 2).cast nbuf0_2)) := rfl
  rw [hprog]
  have hΦ : ∀ u, (rdats A B5 B6 O b 0 c).Φ u = (rdats A B5 B6 O b 0 c).Φ 0 := fun _ => rfl
  have hOw : ∀ u, (rdats A B5 B6 O b 0 c).owesAt none u = (rdats A B5 B6 O b 0 c).owesAt none 0 := fun _ => rfl
  rw [hΦ t.castSucc, hΦ t.succ, hOw t.castSucc, hOw t.succ]
  iintro ⟨HΦ, HO, H0, H1, H2⟩
  iapply (wp_wand_r frame _ Set.univ)
  isplitl [H0 H1 H2]
  · iapply (sound_body0 c Set.univ (grid0.coords t) _ _ _ _ _ _ (Y 0) (Y 1) (Y 2))
    isplitl [H0]; · iexact H0
    isplitl [H1]; · iexact H1
    iexact H2
  · iintro %_ ⟨H0, H1, %X, %hX, H2⟩
    isplitl [HΦ]; · iexact HΦ
    isplitl [HO]; · iexact HO
    isplitl [H0]
    · iexists (Y 0); isplitr; · ipureintro; exact (rfl : Y 0 = Y 0)
      iexact H0
    isplitl [H1]
    · iexists (Y 1); isplitr; · ipureintro; exact (rfl : Y 1 = Y 1)
      iexact H1
    iexists X; isplitr; · ipureintro; exact hout X hX
    iexact H2

/-- The body obligation of pipeline 1. -/
theorem body1 (c : Dev nD) : (rdats A B5 B6 O b 1 c).BodyObligation (defs₀ (F := F)) 𝒱₀ none Set.univ := by
  intro t Y hY
  rw [bigSep_W1, bigSep_W1]
  have hout : ∀ X, BodyOut (Y 0) (Y 1) X → (rdats A B5 B6 O b 1 c).after 2 t (Y 2) X :=
    fun X hX => outOk1 A B5 B6 O b c t (Y 0) (Y 1) (hY 0) (hY 1) X hX
  have hprog : defs₀ (F := F) Proc.tc (Pipeline.pin (pcfgs (F := F)) adm 1).body
        ((Pipeline.pin (pcfgs (F := F)) adm 1).bodyArgs t ((Pipeline.pin (pcfgs (F := F)) adm 1).slots t))
      = cc0__transpose_body i00 (win1_0.stage (cfg1.slots t 0)) (hstage1_0 ((cfg1.slots t 0).cast nbuf1_0))
          (win1_1.stage (cfg1.slots t 1)) (hstage1_1 ((cfg1.slots t 1).cast nbuf1_1))
          (win1_2.stage (cfg1.slots t 2)) (hstage1_2 ((cfg1.slots t 2).cast nbuf1_2)) := rfl
  rw [hprog]
  have hΦ : ∀ u, (rdats A B5 B6 O b 1 c).Φ u = (rdats A B5 B6 O b 1 c).Φ 0 := fun _ => rfl
  have hOw : ∀ u, (rdats A B5 B6 O b 1 c).owesAt none u = (rdats A B5 B6 O b 1 c).owesAt none 0 := fun _ => rfl
  rw [hΦ t.castSucc, hΦ t.succ, hOw t.castSucc, hOw t.succ]
  iintro ⟨HΦ, HO, H0, H1, H2⟩
  iapply (wp_wand_r frame _ Set.univ)
  isplitl [H0 H1 H2]
  · iapply (sound_body0 c Set.univ i00 _ _ _ _ _ _ (Y 0) (Y 1) (Y 2))
    isplitl [H0]; · iexact H0
    isplitl [H1]; · iexact H1
    iexact H2
  · iintro %_ ⟨H0, H1, %X, %hX, H2⟩
    isplitl [HΦ]; · iexact HΦ
    isplitl [HO]; · iexact HO
    isplitl [H0]
    · iexists (Y 0); isplitr; · ipureintro; exact (rfl : Y 0 = Y 0)
      iexact H0
    isplitl [H1]
    · iexists (Y 1); isplitr; · ipureintro; exact (rfl : Y 1 = Y 1)
      iexact H1
    iexists X; isplitr; · ipureintro; exact hout X hX
    iexact H2

end Obligation

end Cert.Proof.KI

end
-- ==== Proof.KI.TransValue.lean ====
import proofs.«219250_g10247791969013_week1_w1_750_27_alg».proof.Proof.KI.TransData
import Idealize.ShloMosaic.Lib.ValueIdx
import proofs.«219250_g10247791969013_week1_w1_750_27_alg».proof.Proof.Gen.KernelIdeal.Points
import Idealize.ShloMosaic.Lib.Pipeline.Value

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

set_option maxRecDepth 16384

/-! ## What the results' arrays hold after the run

The result window's blocks tile its array, one block per grid point, each written back once: by induction over the
write-backs, after those below `n` every block below `n` holds its pair of tables side by side on the rows inside the
vocabulary; a later write-back does not touch an earlier block. -/

section Value0

variable (A : S26x64x100000.Idx → Elt F .f32) (B5 : S802816x128.Idx → Elt F .f32) (B6 : S501760x128.Idx → Elt F .f32)
  (O : CellTallies nD τ sig (HIx 2)) (b : ℕ)

/-- The result window's block index at a grid point is the point's number; and the point's coordinates. -/
theorem tr0_2 : ∀ (t : Fin grid0.N) (a : Fin 2), cc0_transform_2 (grid0.coords t) a = (![t.val, 0] : Fin 2 → ℕ) a := by decide +kernel
theorem co0 : ∀ t : Fin grid0.N, (grid0.coords t 0).val = t.val / 4 ∧ (grid0.coords t 1).val = t.val % 4 := by decide +kernel

/-- Block `u` of the result holds, on the rows inside the vocabulary, its pair's two tables side by side: the element at
    row `u * 25088 + r`, lane `h * 64 + d` is the tables' at `(2 (u / 4 + 0) + h, d, (u % 4) * 25088 + r)`. -/
def Blk0 (u : ℕ) (G : S802816x128.Idx → Elt F .f32) : Prop :=
  ∀ (r h d : ℕ) (i : S802816x128.Idx) (j : S26x64x100000.Idx), r < 25088 → h < 2 → d < 64 →
    (i 0).val = u * 25088 + r → (i 1).val = h * 64 + d →
    (j 0).val = 2 * (u / 4 + 0) + h → (j 1).val = d → (j 2).val = (u % 4) * 25088 + r → G i = A j

/-- The element of the result's array under an element of point `u`'s block. -/
theorem blk0_emb (u : Fin grid0.N) (y : (win0_2.xblock (grid0.coords u)).Idx) (a : Fin 2) :
    (((win0_2.rect u).emb y) a : ℕ) = (![u.val * 25088, 0] : Fin 2 → ℕ) a + (y a : ℕ) := by
  rw [Pipeline.Window.rect_emb_val]
  show cc0_transform_2 (grid0.coords u) a * S25088x128.size a + _ = _
  rw [tr0_2 u a]
  fin_cases a <;> first | (simp; done) | (simp; omega) | omega

/-- The same through the block's own view of the array. -/
theorem blkv0_emb (u : Fin (Pipeline.pin (pcfgs (F := F)) adm 0).N) (y : (win0_2.xblock (grid0.coords u)).Idx) (a : Fin 2) :
    (((((Pipeline.pin (pcfgs (F := F)) adm 0).win (2 : Fin 3)).blk u).view.emb y) a : ℕ) = (![u.val * 25088, 0] : Fin 2 → ℕ) a + (y a : ℕ) :=
  blk0_emb u y a

set_option maxHeartbeats 2000000 in
/-- After the write-backs below `n`, every block below `n` holds its pair. -/
theorem arrAt0_blocks (c : Dev nD) : ∀ (n : ℕ) (hn : n ≤ 32) (G : S802816x128.Idx → Elt F .f32),
    (rdats A B5 B6 O b 0 c).ArrAt (2 : Fin 3) n G → ∀ u, u < n → Blk0 A u G
  | 0, _, _, _ => fun u hu => absurd hu (Nat.not_lt_zero u)
  | n + 1, hn, G, h => by
    have hN : n < (Pipeline.pin (pcfgs (F := F)) adm 0).N := by show n < grid0.N; rw [N_0]; omega
    have hf : ((Pipeline.pin (pcfgs (F := F)) adm 0).win (2 : Fin 3)).flush ⟨n, hN⟩ = true := flush0_2 ⟨n, hN⟩
    have hstep : (rdats A B5 B6 O b 0 c).ArrAt (2 : Fin 3) (n + 1) G
        = (rdats A B5 B6 O b 0 c).ArrStep (2 : Fin 3) ⟨n, hN⟩ ((rdats A B5 B6 O b 0 c).ArrAt (2 : Fin 3) n) G := by
      show (if h : n < (Pipeline.pin (pcfgs (F := F)) adm 0).N then
          (if ((Pipeline.pin (pcfgs (F := F)) adm 0).win (2 : Fin 3)).flush ⟨n, h⟩ = true then
            (rdats A B5 B6 O b 0 c).ArrStep (2 : Fin 3) ⟨n, h⟩ ((rdats A B5 B6 O b 0 c).ArrAt (2 : Fin 3) n)
          else (rdats A B5 B6 O b 0 c).ArrAt (2 : Fin 3) n)
        else (rdats A B5 B6 O b 0 c).ArrAt (2 : Fin 3) n) G = _
      rw [dif_pos hN, if_pos hf]
    rw [hstep] at h
    obtain ⟨G₀, X, hG₀, ⟨Y, _, hXY⟩, hG⟩ := h
    have ih := arrAt0_blocks c n (by omega) G₀ hG₀
    have hX : OutOk 0 A (grid0.coords ⟨n, hN⟩ 0).val (grid0.coords ⟨n, hN⟩ 1).val X := hXY
    have hco := co0 ⟨n, hN⟩
    have hco1 : (grid0.coords ⟨n, hN⟩ 0).val = n / 4 := hco.1
    have hco2 : (grid0.coords ⟨n, hN⟩ 1).val = n % 4 := hco.2
    intro u hu r h d i j hr hh hd hi0 hi1 hj0 hj1 hj2
    by_cases hun : u = n
    · subst hun
      -- the block just written: the element under (r, h * 64 + d) of the block
      have e : i = (((Pipeline.pin (pcfgs (F := F)) adm 0).win (2 : Fin 3)).blk ⟨u, hN⟩).view.emb (ix2 (⟨r, hr⟩ : Fin 25088) (⟨h * 64 + d, by omega⟩ : Fin 128)) := by
        funext a; apply Fin.ext; rw [blkv0_emb]
        fin_cases a
        · show (i 0).val = _; rw [hi0]; simp
        · show (i 1).val = _; rw [hi1]; simp
      rw [hG, e, View.write_emb_of_mem _ _ (Finset.mem_univ _)]
      have hj0lt : (j 0).val < 26 := (j 0).isLt
      have hj2lt : (j 2).val < 100000 := (j 2).isLt
      have hA := hX r h d hr hh hd (by rw [hco2]; show u % 4 * 25088 + r < 100000; omega) (by rw [hco1]; show 2 * (u / 4 + _) + h < 26; omega)
      refine Eq.trans ?_ (hA.trans (congrArg A ?_))
      · rfl
      · funext a; apply Fin.ext
        fin_cases a
        · show 2 * ((grid0.coords ⟨u, hN⟩ 0).val + 0) + h = (j 0).val; rw [hj0, hco1]
        · show d = (j 1).val; rw [hj1]
        · show (grid0.coords ⟨u, hN⟩ 1).val * 25088 + r = (j 2).val; rw [hj2, hco2]
    · -- an earlier block: the write-back does not touch it
      rw [hG, View.write_of_not_mem _ _ _ (fun hm => by
        obtain ⟨x, -, hx⟩ := Finset.mem_map.mp hm
        have h1 : ((((((Pipeline.pin (pcfgs (F := F)) adm 0).win (2 : Fin 3)).blk ⟨n, hN⟩).view.emb x) 0 : Fin _) : ℕ) = (i 0).val := by rw [hx]
        have h2 := blkv0_emb ⟨n, hN⟩ x 0
        have h3 : (x 0 : ℕ) < 25088 := (x 0).isLt
        rw [h2, hi0] at h1
        simp at h1
        omega)]
      exact ih u (by omega) r h d i j hr hh hd hi0 hi1 hj0 hj1 hj2

/-- So the result's array after the run holds the pairs side by side. -/
theorem arrAt0 (c : Dev nD) (G : S802816x128.Idx → Elt F .f32)
    (h : (rdats A B5 B6 O b 0 c).ArrAt (2 : Fin 3) (Pipeline.pin (pcfgs (F := F)) adm 0).N G) : Trans0 A G := by
  have hN : (Pipeline.pin (pcfgs (F := F)) adm 0).N = 32 := N_0
  rw [hN] at h
  have hb := arrAt0_blocks A B5 B6 O b c 32 (le_refl _) G h
  intro k v hh d hk hv hh2 hd
  exact hb (k * 4 + v / 25088) (by omega) (v % 25088) hh d _ _ (Nat.mod_lt _ (by decide)) hh2 hd
    (by show k * 100352 + v = (k * 4 + v / 25088) * 25088 + v % 25088; omega)
    (by show hh * 64 + d = hh * 64 + d; rfl)
    (by show 2 * k + hh = 2 * ((k * 4 + v / 25088) / 4 + 0) + hh; omega)
    (by show d = d; rfl)
    (by show v = (k * 4 + v / 25088) % 4 * 25088 + v % 25088; omega)

end Value0

section Value1

variable (A : S26x64x100000.Idx → Elt F .f32) (B5 : S802816x128.Idx → Elt F .f32) (B6 : S501760x128.Idx → Elt F .f32)
  (O : CellTallies nD τ sig (HIx 2)) (b : ℕ)

/-- The result window's block index at a grid point is the point's number; and the point's coordinates. -/
theorem tr1_2 : ∀ (t : Fin grid1.N) (a : Fin 2), cc1_transform_2 (grid1.coords t) a = (![t.val, 0] : Fin 2 → ℕ) a := by decide +kernel
theorem co1 : ∀ t : Fin grid1.N, (grid1.coords t 0).val = t.val / 4 ∧ (grid1.coords t 1).val = t.val % 4 := by decide +kernel

/-- Block `u` of the result holds, on the rows inside the vocabulary, its pair's two tables side by side: the element at
    row `u * 25088 + r`, lane `h * 64 + d` is the tables' at `(2 (u / 4 + 8) + h, d, (u % 4) * 25088 + r)`. -/
def Blk1 (u : ℕ) (G : S501760x128.Idx → Elt F .f32) : Prop :=
  ∀ (r h d : ℕ) (i : S501760x128.Idx) (j : S26x64x100000.Idx), r < 25088 → h < 2 → d < 64 →
    (i 0).val = u * 25088 + r → (i 1).val = h * 64 + d →
    (j 0).val = 2 * (u / 4 + 8) + h → (j 1).val = d → (j 2).val = (u % 4) * 25088 + r → G i = A j

/-- The element of the result's array under an element of point `u`'s block. -/
theorem blk1_emb (u : Fin grid1.N) (y : (win1_2.xblock (grid1.coords u)).Idx) (a : Fin 2) :
    (((win1_2.rect u).emb y) a : ℕ) = (![u.val * 25088, 0] : Fin 2 → ℕ) a + (y a : ℕ) := by
  rw [Pipeline.Window.rect_emb_val]
  show cc1_transform_2 (grid1.coords u) a * S25088x128.size a + _ = _
  rw [tr1_2 u a]
  fin_cases a <;> first | (simp; done) | (simp; omega) | omega

/-- The same through the block's own view of the array. -/
theorem blkv1_emb (u : Fin (Pipeline.pin (pcfgs (F := F)) adm 1).N) (y : (win1_2.xblock (grid1.coords u)).Idx) (a : Fin 2) :
    (((((Pipeline.pin (pcfgs (F := F)) adm 1).win (2 : Fin 3)).blk u).view.emb y) a : ℕ) = (![u.val * 25088, 0] : Fin 2 → ℕ) a + (y a : ℕ) :=
  blk1_emb u y a

set_option maxHeartbeats 2000000 in
/-- After the write-backs below `n`, every block below `n` holds its pair. -/
theorem arrAt1_blocks (c : Dev nD) : ∀ (n : ℕ) (hn : n ≤ 20) (G : S501760x128.Idx → Elt F .f32),
    (rdats A B5 B6 O b 1 c).ArrAt (2 : Fin 3) n G → ∀ u, u < n → Blk1 A u G
  | 0, _, _, _ => fun u hu => absurd hu (Nat.not_lt_zero u)
  | n + 1, hn, G, h => by
    have hN : n < (Pipeline.pin (pcfgs (F := F)) adm 1).N := by show n < grid1.N; rw [N_1]; omega
    have hf : ((Pipeline.pin (pcfgs (F := F)) adm 1).win (2 : Fin 3)).flush ⟨n, hN⟩ = true := flush1_2 ⟨n, hN⟩
    have hstep : (rdats A B5 B6 O b 1 c).ArrAt (2 : Fin 3) (n + 1) G
        = (rdats A B5 B6 O b 1 c).ArrStep (2 : Fin 3) ⟨n, hN⟩ ((rdats A B5 B6 O b 1 c).ArrAt (2 : Fin 3) n) G := by
      show (if h : n < (Pipeline.pin (pcfgs (F := F)) adm 1).N then
          (if ((Pipeline.pin (pcfgs (F := F)) adm 1).win (2 : Fin 3)).flush ⟨n, h⟩ = true then
            (rdats A B5 B6 O b 1 c).ArrStep (2 : Fin 3) ⟨n, h⟩ ((rdats A B5 B6 O b 1 c).ArrAt (2 : Fin 3) n)
          else (rdats A B5 B6 O b 1 c).ArrAt (2 : Fin 3) n)
        else (rdats A B5 B6 O b 1 c).ArrAt (2 : Fin 3) n) G = _
      rw [dif_pos hN, if_pos hf]
    rw [hstep] at h
    obtain ⟨G₀, X, hG₀, ⟨Y, _, hXY⟩, hG⟩ := h
    have ih := arrAt1_blocks c n (by omega) G₀ hG₀
    have hX : OutOk 8 A (grid1.coords ⟨n, hN⟩ 0).val (grid1.coords ⟨n, hN⟩ 1).val X := hXY
    have hco := co1 ⟨n, hN⟩
    have hco1 : (grid1.coords ⟨n, hN⟩ 0).val = n / 4 := hco.1
    have hco2 : (grid1.coords ⟨n, hN⟩ 1).val = n % 4 := hco.2
    intro u hu r h d i j hr hh hd hi0 hi1 hj0 hj1 hj2
    by_cases hun : u = n
    · subst hun
      -- the block just written: the element under (r, h * 64 + d) of the block
      have e : i = (((Pipeline.pin (pcfgs (F := F)) adm 1).win (2 : Fin 3)).blk ⟨u, hN⟩).view.emb (ix2 (⟨r, hr⟩ : Fin 25088) (⟨h * 64 + d, by omega⟩ : Fin 128)) := by
        funext a; apply Fin.ext; rw [blkv1_emb]
        fin_cases a
        · show (i 0).val = _; rw [hi0]; simp
        · show (i 1).val = _; rw [hi1]; simp
      rw [hG, e, View.write_emb_of_mem _ _ (Finset.mem_univ _)]
      have hj0lt : (j 0).val < 26 := (j 0).isLt
      have hj2lt : (j 2).val < 100000 := (j 2).isLt
      have hA := hX r h d hr hh hd (by rw [hco2]; show u % 4 * 25088 + r < 100000; omega) (by rw [hco1]; show 2 * (u / 4 + _) + h < 26; omega)
      refine Eq.trans ?_ (hA.trans (congrArg A ?_))
      · rfl
      · funext a; apply Fin.ext
        fin_cases a
        · show 2 * ((grid1.coords ⟨u, hN⟩ 0).val + 8) + h = (j 0).val; rw [hj0, hco1]
        · show d = (j 1).val; rw [hj1]
        · show (grid1.coords ⟨u, hN⟩ 1).val * 25088 + r = (j 2).val; rw [hj2, hco2]
    · -- an earlier block: the write-back does not touch it
      rw [hG, View.write_of_not_mem _ _ _ (fun hm => by
        obtain ⟨x, -, hx⟩ := Finset.mem_map.mp hm
        have h1 : ((((((Pipeline.pin (pcfgs (F := F)) adm 1).win (2 : Fin 3)).blk ⟨n, hN⟩).view.emb x) 0 : Fin _) : ℕ) = (i 0).val := by rw [hx]
        have h2 := blkv1_emb ⟨n, hN⟩ x 0
        have h3 : (x 0 : ℕ) < 25088 := (x 0).isLt
        rw [h2, hi0] at h1
        simp at h1
        omega)]
      exact ih u (by omega) r h d i j hr hh hd hi0 hi1 hj0 hj1 hj2

/-- So the result's array after the run holds the pairs side by side. -/
theorem arrAt1 (c : Dev nD) (G : S501760x128.Idx → Elt F .f32)
    (h : (rdats A B5 B6 O b 1 c).ArrAt (2 : Fin 3) (Pipeline.pin (pcfgs (F := F)) adm 1).N G) : Trans1 A G := by
  have hN : (Pipeline.pin (pcfgs (F := F)) adm 1).N = 20 := N_1
  rw [hN] at h
  have hb := arrAt1_blocks A B5 B6 O b c 20 (le_refl _) G h
  intro k v hh d hk hv hh2 hd
  exact hb (k * 4 + v / 25088) (by omega) (v % 25088) hh d _ _ (Nat.mod_lt _ (by decide)) hh2 hd
    (by show k * 100352 + v = (k * 4 + v / 25088) * 25088 + v % 25088; omega)
    (by show hh * 64 + d = hh * 64 + d; rfl)
    (by show 2 * (k + 8) + hh = 2 * ((k * 4 + v / 25088) / 4 + 8) + hh; omega)
    (by show d = d; rfl)
    (by show v = (k * 4 + v / 25088) % 4 * 25088 + v % 25088; omega)

end Value1

end Cert.Proof.KI

end
-- ==== Proof.KI.Regions.lean ====
import proofs.«219250_g10247791969013_week1_w1_750_27_alg».proof.Proof.KI.TransBody
import proofs.«219250_g10247791969013_week1_w1_750_27_alg».proof.Proof.KI.TransValue
import Idealize.ShloMosaic.Lib.ValueIdx

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

set_option maxHeartbeats 1000000
set_option maxRecDepth 8192

/-! ## The two regions as records, and their run -/

section Regions

variable (A : S26x64x100000.Idx → Elt F .f32) (B5 : S802816x128.Idx → Elt F .f32) (B6 : S501760x128.Idx → Elt F .f32)
  (O : CellTallies nD τ sig (HIx 2)) (b : ℕ)

theorem bigSep_fin0 {M : Type} [URA M] (Φ : Fin 0 → sProp M) : bigSep Finset.univ Φ = (BI.emp : sProp M) := by
  rw [Finset.univ_eq_empty, BI.bigSep_empty]
theorem bigSep_P {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- No pipeline has a prefetched table. -/
theorem prefHeld0 (c : Dev nD) (q) (V) : (Pipeline.prefHeld (pcfgs (F := F) 0).pre c q V : sProp 𝕄) = BI.emp := bigSep_fin0 _
theorem prefHeld1 (c : Dev nD) (q) (V) : (Pipeline.prefHeld (pcfgs (F := F) 1).pre c q V : sProp 𝕄) = BI.emp := bigSep_fin0 _

/-- What the core owes, its recorded pairs at levels at most `b`. -/
def owesB (c : Dev nD) : sProp 𝕄 := iprop(∃ W, ⌜(K (F := F)).WBelow (c.tc : Thread nD τ) W b⌝ ∗ owes (c.tc : Thread nD τ) O W)

/-- The thread states around region 0 -/
def segPre0 (c : Dev nD) : sProp 𝕄 :=
  iprop((((c.tc : Thread nD τ).loc main_v4) ↦{fullShare} A) ∗ (((c.tc : Thread nD τ).loc main_v5) ↦{fullShare} B5) ∗ owesB O b c)
def segPost0 (c : Dev nD) : sProp 𝕄 :=
  iprop((((c.tc : Thread nD τ).loc main_v4) ↦{fullShare} A)
    ∗ (∃ f : S802816x128.Idx → Elt F .f32, ⌜Trans0 A f⌝ ∗ ((c.tc : Thread nD τ).loc main_v5) ↦{fullShare} f) ∗ owesB O b c)
/-- and around region 1. -/
def segPre1 (c : Dev nD) : sProp 𝕄 :=
  iprop((((c.tc : Thread nD τ).loc main_v4) ↦{fullShare} A) ∗ (((c.tc : Thread nD τ).loc main_v6) ↦{fullShare} B6) ∗ owesB O b c)
def segPost1 (c : Dev nD) : sProp 𝕄 :=
  iprop((((c.tc : Thread nD τ).loc main_v4) ↦{fullShare} A)
    ∗ (∃ f : S501760x128.Idx → Elt F .f32, ⌜Trans1 A f⌝ ∗ ((c.tc : Thread nD τ).loc main_v6) ↦{fullShare} f) ∗ owesB O b c)

/-- The windows' arrays of pipeline 0 at any contents: each behind its whole buffer. -/
theorem arrays0_eq (c : Dev nD) (Fa) : ((rdats A B5 B6 O b 0 c).arrays Fa : sProp 𝕄)
    = bigSep Finset.univ fun w : Fin 3 =>
        (((c.tc : Thread nD τ).loc (Pipeline.arrRef spec0 w)) ↦{(rdats A B5 B6 O b 0 c).share w} Fa w : sProp 𝕄) := by
  unfold Pipeline.RDat.arrays
  exact bigSep_congr fun w _ => by
    have harr : ((Pipeline.pin (pcfgs (F := F)) adm 0).win w).arr.IsWhole := arr_whole0 w
    rw [harr.set_eq_univ]; rfl
theorem arrays1_eq (c : Dev nD) (Fa) : ((rdats A B5 B6 O b 1 c).arrays Fa : sProp 𝕄)
    = bigSep Finset.univ fun w : Fin 3 =>
        (((c.tc : Thread nD τ).loc (Pipeline.arrRef spec1 w)) ↦{(rdats A B5 B6 O b 1 c).share w} Fa w : sProp 𝕄) := by
  unfold Pipeline.RDat.arrays
  exact bigSep_congr fun w _ => by
    have harr : ((Pipeline.pin (pcfgs (F := F)) adm 1).win w).arr.IsWhole := arr_whole1 w
    rw [harr.set_eq_univ]; rfl

theorem arraysAt0_eq (c : Dev nD) (n : ℕ) : ((rdats A B5 B6 O b 0 c).arraysAt n : sProp 𝕄)
    = bigSep Finset.univ fun w : Fin 3 => iprop(∃ Fw, ⌜(rdats A B5 B6 O b 0 c).ArrAt w n Fw⌝
        ∗ (((c.tc : Thread nD τ).loc (Pipeline.arrRef spec0 w)) ↦{(rdats A B5 B6 O b 0 c).share w} Fw : sProp 𝕄)) := by
  unfold Pipeline.RDat.arraysAt
  exact bigSep_congr fun w _ => by
    have harr : ((Pipeline.pin (pcfgs (F := F)) adm 0).win w).arr.IsWhole := arr_whole0 w
    rw [harr.set_eq_univ]; rfl
theorem arraysAt1_eq (c : Dev nD) (n : ℕ) : ((rdats A B5 B6 O b 1 c).arraysAt n : sProp 𝕄)
    = bigSep Finset.univ fun w : Fin 3 => iprop(∃ Fw, ⌜(rdats A B5 B6 O b 1 c).ArrAt w n Fw⌝
        ∗ (((c.tc : Thread nD τ).loc (Pipeline.arrRef spec1 w)) ↦{(rdats A B5 B6 O b 1 c).share w} Fw : sProp 𝕄)) := by
  unfold Pipeline.RDat.arraysAt
  exact bigSep_congr fun w _ => by
    have harr : ((Pipeline.pin (pcfgs (F := F)) adm 1).win w).arr.IsWhole := arr_whole1 w
    rw [harr.set_eq_univ]; rfl

variable (lv : GSem nD τ sig → HIx 2 → ℕ) (hlv : (K (F := F)).Refines lv) (hO : ∀ g, O g none = 0)

include hlv hO in
theorem hwaits0 (c : Dev nD) :
    (levAts (K (F := F)).L lv : sProp 𝕄) ⊢ Pipeline.RDat.cellsWaits (Pipeline.pin (pcfgs (F := F)) adm) (rdats A B5 B6 O b) none 0 c :=
  Pipeline.RDat.cellsWaits_intro _ _ _ _ _ fun w s t => (K (F := F)).mayWait_none _ hO lv hlv
include hlv hO in
theorem hwaits1 (c : Dev nD) :
    (levAts (K (F := F)).L lv : sProp 𝕄) ⊢ Pipeline.RDat.cellsWaits (Pipeline.pin (pcfgs (F := F)) adm) (rdats A B5 B6 O b) none 1 c :=
  Pipeline.RDat.cellsWaits_intro _ _ _ _ _ fun w s t => (K (F := F)).mayWait_none _ hO lv hlv

/-- ENTRY of region 0. -/
theorem hentry0 (c : Dev nD) :
    iprop(segPre0 A B5 O b c ∗ (BI.emp : sProp 𝕄) ∗ levAts (K (F := F)).L lv)
      ⊢ |={Set.univ}=> iprop((rdats A B5 B6 O b 0 c).arrays (rdats A B5 B6 O b 0 c).A ∗ (BI.emp : sProp 𝕄)
          ∗ (rdats A B5 B6 O b 0 c).owesAt none 0 ∗ (BI.emp : sProp 𝕄) ∗ (BI.emp : sProp 𝕄)) := by
  rw [arrays0_eq, bigSep_W0]
  unfold segPre0 owesB
  iintro ⟨⟨H4, H5, %W, %hW, HO⟩, -, -⟩
  ihave H4' := (pointsTo_share (PosShare.mem_left_op_right fullShare)).1 $$ H4
  icases H4' with ⟨H4l, H4r⟩
  imodintro
  isplitl [H4l H4r H5]
  · isplitl [H4l]; · iexact H4l
    isplitl [H4r]; · iexact H4r
    iexact H5
  isplitr; · iempintro
  isplitl [HO]
  · iexists W; isplitr
    · ipureintro; exact fun p hp => Or.inl (hW p hp)
    iexact HO
  isplitr <;> iempintro

/-- EXIT of region 0. -/
theorem hexit0 (c : Dev nD) :
    iprop((rdats A B5 B6 O b 0 c).arraysAt (Pipeline.pin (pcfgs (F := F)) adm 0).N
        ∗ (rdats A B5 B6 O b 0 c).owesAt none (Fin.last (Pipeline.pin (pcfgs (F := F)) adm 0).N) ∗ (BI.emp : sProp 𝕄) ∗ (BI.emp : sProp 𝕄))
      ⊢ |={Set.univ}=> segPost0 A O b c := by
  rw [arraysAt0_eq, bigSep_W0]
  unfold segPost0 owesB
  have hin0 : (rdats A B5 B6 O b 0 c).ArrAt (0 : Fin 3) (Pipeline.pin (pcfgs (F := F)) adm 0).N = fun Fw => Fw = A :=
    (rdats A B5 B6 O b 0 c).ArrAt_in (0 : Fin 3) rfl _
  have hin1 : (rdats A B5 B6 O b 0 c).ArrAt (1 : Fin 3) (Pipeline.pin (pcfgs (F := F)) adm 0).N = fun Fw => Fw = A :=
    (rdats A B5 B6 O b 0 c).ArrAt_in (1 : Fin 3) rfl _
  rw [hin0, hin1]
  iintro ⟨⟨⟨%F0, %h0, H0⟩, ⟨%F1, %h1, H1⟩, ⟨%F2, %h2, H2⟩⟩, ⟨%W, %hW, HO⟩, -, -⟩
  have e0 : A = F0 := h0.symm
  have e1 : A = F1 := h1.symm
  subst e0; subst e1
  imodintro
  isplitl [H0 H1]
  · iapply (pointsTo_share (PosShare.mem_left_op_right fullShare)).2
    isplitl [H0]; · iexact H0
    iexact H1
  isplitl [H2]
  · iexists F2; isplitr; · ipureintro; exact arrAt0 A B5 B6 O b c F2 h2
    iexact H2
  iexists W; isplitr
  · ipureintro; intro p hp
    rcases hW hp with h | ⟨w, s, rfl⟩
    · exact h
    · exact Nat.zero_le _
  iexact HO

/-- ENTRY of region 1. -/
theorem hentry1 (c : Dev nD) :
    iprop(segPre1 A B6 O b c ∗ (BI.emp : sProp 𝕄) ∗ levAts (K (F := F)).L lv)
      ⊢ |={Set.univ}=> iprop((rdats A B5 B6 O b 1 c).arrays (rdats A B5 B6 O b 1 c).A ∗ (BI.emp : sProp 𝕄)
          ∗ (rdats A B5 B6 O b 1 c).owesAt none 0 ∗ (BI.emp : sProp 𝕄) ∗ (BI.emp : sProp 𝕄)) := by
  rw [arrays1_eq, bigSep_W1]
  unfold segPre1 owesB
  iintro ⟨⟨H4, H5, %W, %hW, HO⟩, -, -⟩
  ihave H4' := (pointsTo_share (PosShare.mem_left_op_right fullShare)).1 $$ H4
  icases H4' with ⟨H4l, H4r⟩
  imodintro
  isplitl [H4l H4r H5]
  · isplitl [H4l]; · iexact H4l
    isplitl [H4r]; · iexact H4r
    iexact H5
  isplitr; · iempintro
  isplitl [HO]
  · iexists W; isplitr
    · ipureintro; exact fun p hp => Or.inl (hW p hp)
    iexact HO
  isplitr <;> iempintro

/-- EXIT of region 1. -/
theorem hexit1 (c : Dev nD) :
    iprop((rdats A B5 B6 O b 1 c).arraysAt (Pipeline.pin (pcfgs (F := F)) adm 1).N
        ∗ (rdats A B5 B6 O b 1 c).owesAt none (Fin.last (Pipeline.pin (pcfgs (F := F)) adm 1).N) ∗ (BI.emp : sProp 𝕄) ∗ (BI.emp : sProp 𝕄))
      ⊢ |={Set.univ}=> segPost1 A O b c := by
  rw [arraysAt1_eq, bigSep_W1]
  unfold segPost1 owesB
  have hin0 : (rdats A B5 B6 O b 1 c).ArrAt (0 : Fin 3) (Pipeline.pin (pcfgs (F := F)) adm 1).N = fun Fw => Fw = A :=
    (rdats A B5 B6 O b 1 c).ArrAt_in (0 : Fin 3) rfl _
  have hin1 : (rdats A B5 B6 O b 1 c).ArrAt (1 : Fin 3) (Pipeline.pin (pcfgs (F := F)) adm 1).N = fun Fw => Fw = A :=
    (rdats A B5 B6 O b 1 c).ArrAt_in (1 : Fin 3) rfl _
  rw [hin0, hin1]
  iintro ⟨⟨⟨%F0, %h0, H0⟩, ⟨%F1, %h1, H1⟩, ⟨%F2, %h2, H2⟩⟩, ⟨%W, %hW, HO⟩, -, -⟩
  have e0 : A = F0 := h0.symm
  have e1 : A = F1 := h1.symm
  subst e0; subst e1
  imodintro
  isplitl [H0 H1]
  · iapply (pointsTo_share (PosShare.mem_left_op_right fullShare)).2
    isplitl [H0]; · iexact H0
    iexact H1
  isplitl [H2]
  · iexists F2; isplitr; · ipureintro; exact arrAt1 A B5 B6 O b c F2 h2
    iexact H2
  iexists W; isplitr
  · ipureintro; intro p hp
    rcases hW hp with h | ⟨w, s, rfl⟩
    · exact h
    · exact Nat.zero_le _
  iexact HO

theorem rdats_zero (c : Dev nD) : rdats A B5 B6 O b 0 c = rdat0 A B5 O b c := rfl
theorem rdats_one (c : Dev nD) : rdats A B5 B6 O b 1 c = rdat1 A B6 O b c := rfl
theorem hΦ0 (c : Dev nD) (u : Fin ((Pipeline.pin (pcfgs (F := F)) adm 0).N + 1)) :
    (rdats A B5 B6 O b 0 c).Φ u = Pipeline.scopedRest (Pipeline.pin (pcfgs (F := F)) adm 0).spec c := by
  rw [rdats_zero]; unfold rdat0; dsimp only
theorem hΦ1 (c : Dev nD) (u : Fin ((Pipeline.pin (pcfgs (F := F)) adm 1).N + 1)) :
    (rdats A B5 B6 O b 1 c).Φ u = Pipeline.scopedRest (Pipeline.pin (pcfgs (F := F)) adm 1).spec c := by
  rw [rdats_one]; unfold rdat1; dsimp only

/-- The first transpose as a region of @main. -/
def seg0 : Pipeline.RDat.RegionSeg (pcfgs (F := F)) adm (rdats A B5 B6 O b) none (defs₀ (F := F)) 𝒱₀ (K (F := F)).L lv 0 where
  win := winFacts₀0
  block_pos := block_pos0
  stage_whole := stage_whole0
  K := PEmpty
  osem k := k.elim
  ho := Pipeline.OwnSemFacts.none _
  hbody c := body0 A B5 B6 O b c
  hwaits c := hwaits0 A B5 B6 O b lv hlv hO c
  pre c := segPre0 A B5 O b c
  post c := segPost0 A O b c
  X _ := BI.emp
  Y _ := BI.emp
  Z _ := BI.emp
  hentry c := by
    rw [Pipeline.ownSems0_none, prefHeld0]
    exact hentry0 A B5 B6 O b lv c
  hin c := by
    rw [hΦ0 A B5 B6 O b c]
    iintro ⟨-, -, H⟩; iexact H
  hout c := by
    rw [Pipeline.ownSems0_none, hΦ0 A B5 B6 O b c]
    iintro H
    isplitr; · iempintro
    isplitr; · iempintro
    iexact H
  hexit c := hexit0 A B5 B6 O b c

/-- The second. -/
def seg1 : Pipeline.RDat.RegionSeg (pcfgs (F := F)) adm (rdats A B5 B6 O b) none (defs₀ (F := F)) 𝒱₀ (K (F := F)).L lv 1 where
  win := winFacts₀1
  block_pos := block_pos1
  stage_whole := stage_whole1
  K := PEmpty
  osem k := k.elim
  ho := Pipeline.OwnSemFacts.none _
  hbody c := body1 A B5 B6 O b c
  hwaits c := hwaits1 A B5 B6 O b lv hlv hO c
  pre c := segPre1 A B6 O b c
  post c := segPost1 A O b c
  X _ := BI.emp
  Y _ := BI.emp
  Z _ := BI.emp
  hentry c := by
    rw [Pipeline.ownSems0_none, prefHeld1]
    exact hentry1 A B5 B6 O b lv c
  hin c := by
    rw [hΦ1 A B5 B6 O b c]
    iintro ⟨-, -, H⟩; iexact H
  hout c := by
    rw [Pipeline.ownSems0_none, hΦ1 A B5 B6 O b c]
    iintro H
    isplitr; · iempintro
    isplitr; · iempintro
    iexact H
  hexit c := hexit1 A B5 B6 O b c

include B6 hlv hO in
/-- Region 0 run from its thread state, on the pipelines' own body table. -/
theorem region0_wp (c : Dev nD) {α : Type} (k : PUnit → Prog (TpuEff nD τ sig (Elt F) (ΛP (F := F)) .tc) α) (Q : α → sProp 𝕄) :
    iprop((iprop(boundary (c.tc : Thread nD τ) ∗ segPost0 A O b c) -∗ wp frame (wpE (D (F := F)) 𝒱 (c.tc : Thread nD τ) none) Set.univ (k ⟨⟩) Q)
        ∗ boundary (c.tc : Thread nD τ) ∗ segPre0 A B5 O b c ∗ levAts (K (F := F)).L lv
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) k) Q :=
  Pipeline.RDat.RegionSeg.wp (pcfgs (F := F)) adm (rdats A B5 B6 O b) none cellOf_inj EP (defs₀ (F := F)) 𝒱₀ (K (F := F)).L lv
    (seg0 A B5 B6 O b lv hlv hO) c none (fun _ hu => by cases hu) k Q

include B5 hlv hO in
theorem region1_wp (c : Dev nD) {α : Type} (k : PUnit → Prog (TpuEff nD τ sig (Elt F) (ΛP (F := F)) .tc) α) (Q : α → sProp 𝕄) :
    iprop((iprop(boundary (c.tc : Thread nD τ) ∗ segPost1 A O b c) -∗ wp frame (wpE (D (F := F)) 𝒱 (c.tc : Thread nD τ) none) Set.univ (k ⟨⟩) Q)
        ∗ boundary (c.tc : Thread nD τ) ∗ segPre1 A B6 O b c ∗ levAts (K (F := F)).L lv
        ∗ Pipeline.cellsGhost (Pipeline.pin (pcfgs (F := F)) adm) EP 1 c ∗ Pipeline.toksInit (Pipeline.pin (pcfgs (F := F)) adm) EP 1 c)
      ⊢ wp frame (wpE (D (F := F)) 𝒱 (c.tc : Thread nD τ) none) Set.univ (.op (.customCall (Pipeline.entry 1) ()) k) Q :=
  Pipeline.RDat.RegionSeg.wp (pcfgs (F := F)) adm (rdats A B5 B6 O b) none cellOf_inj EP (defs₀ (F := F)) 𝒱₀ (K (F := F)).L lv
    (seg1 A B5 B6 O b lv hlv hO) c none (fun _ hu => by cases hu) k Q

end Regions

/-- The staging cells of the two pipelines are pairwise distinct, at the pipelines' (absent) prefetched tables. -/
theorem cellOf_inj' : Function.Injective (Pipeline.cellOf (nD := nD) (τ := τ) (Pipeline.pin (pcfgs (F := F)) adm)) :=
  cellOf_inj

section Run

variable (A : S26x64x100000.Idx → Elt F .f32) (O : CellTallies nD τ sig (HIx 2)) (b : ℕ)
variable (lv : GSem nD τ sig → HIx 2 → ℕ) (hlv : (K (F := F)).Refines lv) (hO : ∀ g, O g none = 0)

/-- One core's share of the funding, regrouped by pipeline. -/
theorem ghost_regroup (c : Dev nD) :
    (iprop((bigSep Finset.univ fun p : Fin 2 => Pipeline.cellsGhost (Pipeline.pin (pcfgs (F := F)) adm) EP p c)
        ∗ (bigSep Finset.univ fun p : Fin 2 => Pipeline.toksInit (Pipeline.pin (pcfgs (F := F)) adm) EP p c)) : sProp 𝕄)
      ⊢ regGhost c := by
  rw [bigSep_P, bigSep_P]
  unfold regGhost
  iintro ⟨⟨Hg0, Hg1⟩, Ht0, Ht1⟩
  isplitl [Hg0]; · iexact Hg0
  isplitl [Ht0]; · iexact Ht0
  isplitl [Hg1]; · iexact Hg1
  iexact Ht1

/-- What the launch element funds for the two transposes: from the rounds library's launch element at their staging
    cells, every core's staging cells' ghost state and duty tokens. -/
theorem regions_fund :
    BI.own (EP (F := F) (initOf (Pipeline.cells (Pipeline.pin (pcfgs (F := F)) adm) cellOf_inj') (Pipeline.launchToks (Pipeline.pin (pcfgs (F := F)) adm) cellOf_inj')))
      ⊢ iprop(|==> bigSep Finset.univ fun c : Dev nD => (regGhost c : sProp 𝕄)) := by
  refine (Pipeline.fund_ghost (Pipeline.pin (pcfgs (F := F)) adm) EP cellOf_inj').trans (bupd_mono ?_)
  rw [← bigSep_sep']
  exact bigSep_mono fun c _ => ghost_regroup c

include hlv hO in
/-- The two pipelined transposes of @main, in sequence, on the TensorCore of `c`, inside the SparseCore launch: from the
    region boundary, the tables whole at `A`, the two results whole at anything, what the core owes (nothing at the
    index the pipelines wait at) and the staging cells' ghost state, they run to the boundary, the tables unchanged and
    each result holding the pairs of tables side by side; the continuation runs from there. -/
theorem regions_wp_aux (c : Dev nD)
    {α : Type} (k : PUnit → Prog (TpuEff nD τ sig (Elt F) (SparseCore.Sig (ΛP (F := F)) 2) .tc) α) (Q : α → sProp 𝕄) :
    iprop((iprop(boundary (c.tc : Thread nD τ) ∗ regPost c A O b)
            -∗ wp frame (wpE ((K (F := F)).defs D) 𝒱 (c.tc : Thread nD τ) none) Set.univ (k ⟨⟩) Q)
        ∗ boundary (c.tc : Thread nD τ) ∗ regPre c A O b ∗ levAts (K (F := F)).L lv ∗ regGhost c)
      ⊢ wp frame (wpE ((K (F := F)).defs D) 𝒱 (c.tc : Thread nD τ) none) Set.univ
          (Prog.lift (.customCall (SparseCore.inner (Pipeline.entry 0)) ()) >>= fun _ =>
            Prog.lift (.customCall (SparseCore.inner (Pipeline.entry 1)) ()) >>= k) Q := by
  simp only [wp_bind]
  unfold regPre regGhost
  iintro ⟨Hk, Hb, ⟨H4, ⟨%f5, H5⟩, ⟨%f6, H6⟩, HO⟩, #Hlev, Hg0, Ht0, Hg1, Ht1⟩
  iapply ((K (F := F)).wp_liftProg (D (F := F)) 𝒱 (c.tc : Thread nD τ) Set.univ none (Prog.lift (.customCall (Pipeline.entry 0) ())) _)
  iapply (region0_wp A f5 f6 O b lv hlv hO c (fun x => .ret x) _)
  unfold segPre0 segPost0 owesB
  isplitl [Hk H6 Hg1 Ht1]
  · iintro ⟨Hb, H4, ⟨%g5, %hg5, H5⟩, HO⟩
    iapply (le_wp_ret _ _)
    iapply ((K (F := F)).wp_liftProg (D (F := F)) 𝒱 (c.tc : Thread nD τ) Set.univ none (Prog.lift (.customCall (Pipeline.entry 1) ())) _)
    iapply (region1_wp A f5 f6 O b lv hlv hO c (fun x => .ret x) _)
    unfold segPre1 segPost1 owesB
    isplitl [Hk H5]
    · iintro ⟨Hb, H4, ⟨%g6, %hg6, H6⟩, HO⟩
      iapply (le_wp_ret _ _)
      iapply Hk
      unfold regPost
      isplitl [Hb]; · iexact Hb
      isplitl [H4]; · iexact H4
      isplitl [H5]
      · iexists g5; isplitr; · ipureintro; exact hg5
        iexact H5
      isplitl [H6]
      · iexists g6; isplitr; · ipureintro; exact hg6
        iexact H6
      iexact HO
    isplitl [Hb]; · iexact Hb
    isplitl [H4 H6 HO]
    · isplitl [H4]; · iexact H4
      isplitl [H6]; · iexact H6
      iexact HO
    isplitr; · iexact Hlev
    isplitl [Hg1]; · iexact Hg1
    iexact Ht1
  isplitl [Hb]; · iexact Hb
  isplitl [H4 H5 HO]
  · isplitl [H4]; · iexact H4
    isplitl [H5]; · iexact H5
    iexact HO
  isplitr; · iexact Hlev
  isplitl [Hg0]; · iexact Hg0
  iexact Ht0

end Run

/-- The two pipelined transposes of @main in sequence, as the launch's `hmain` applies them. -/
theorem regions_wp (lv : GSem nD τ sig → HIx 2 → ℕ) (hlv : (K (F := F)).Refines lv) (c : Dev nD)
    (A : S26x64x100000.Idx → Elt F .f32) (O : CellTallies nD τ sig (HIx 2)) (hO : ∀ g, O g none = 0) (b : ℕ)
    {α : Type} (k : PUnit → Prog (TpuEff nD τ sig (Elt F) (SparseCore.Sig (ΛP (F := F)) 2) .tc) α) (Q : α → sProp 𝕄) :
    iprop((iprop(boundary (c.tc : Thread nD τ) ∗ regPost c A O b)
            -∗ wp frame (wpE ((K (F := F)).defs D) 𝒱 (c.tc : Thread nD τ) none) Set.univ (k ⟨⟩) Q)
        ∗ boundary (c.tc : Thread nD τ) ∗ regPre c A O b ∗ levAts (K (F := F)).L lv ∗ regGhost c)
      ⊢ wp frame (wpE ((K (F := F)).defs D) 𝒱 (c.tc : Thread nD τ) none) Set.univ
          (Prog.lift (.customCall (SparseCore.inner (Pipeline.entry 0)) ()) >>= fun _ =>
            Prog.lift (.customCall (SparseCore.inner (Pipeline.entry 1)) ()) >>= k) Q :=
  regions_wp_aux A O b lv hlv hO c k Q

end Cert.Proof.KI

end
-- ==== Proof.KI.LeavesTrans.lean ====
/-
  The two statements about the pipelined transposes that the launch rests on, from their proofs.
-/
import proofs.«219250_g10247791969013_week1_w1_750_27_alg».proof.Proof.KI.Spec
import proofs.«219250_g10247791969013_week1_w1_750_27_alg».proof.Proof.KI.Regions

noncomputable section

namespace Cert.Proof.KI

open Cert.KernelIdeal Cert.KernelIdeal.Gen

open Idealize.ShloMosaic

variable {F : FTy → Type} [FloatOps F]

theorem regionsFund : RegionsFund F := fun _ => regions_fund
theorem regionsWp : RegionsWp F := fun lv hlv c A O hO b _ k Q => regions_wp lv hlv c A O hO b k Q

end Cert.Proof.KI

end
-- ==== Proof.KI.Tile2Res.lean ====
/-
  One vector subcore's task of the first embedding-sum call: what it is handed, what it leaves, and the value it
  writes. The task copies its 2048 index words into its own memory, turns each into a row number of the
  pair table (the word plus (position mod 16 / 2) * 100352) beside the lane offset (position mod 16 mod 2) * 64,
  gathers the named rows 128 at a time through two buffers, adds up sixteen gathered half-rows per batch row, and
  copies its 64 x 128 block of sums out.
-/
import proofs.«219250_g10247791969013_week1_w1_750_27_alg».proof.Proof.KI.Base
import proofs.«219250_g10247791969013_week1_w1_750_27_alg».proof.Proof.KI.Tile2Defs
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The task's own buffers and semaphores -/

open Idealize.ShloMosaic.SparseCore.Cfg (tileRest ownBufs ownSems0 ownCells ownRefs mem_ownCells mem_ownRefs)

/-- The task's copy of its index words (2048). -/
abbrev sI2 : Memref sig .scVector .vmem S2048 .i32 := Memref.whole cc2_scratch0
/-- The lane offsets beside them (2064 words, the last 16 never written). -/
abbrev sH2 : Memref sig .scVector .vmem S2064 .i32 := Memref.whole cc2_scratch1
/-- The two gather buffers (2 x 128 x 128). -/
abbrev sR2 : Memref sig .scVector .vmem S2x128x128 .f32 := Memref.whole cc2_scratch2
/-- The block of sums (64 x 128). -/
abbrev sO2 : Memref sig .scVector .vmem S64x128 .f32 := Memref.whole cc2_scratch3

variable (d : Dev nD) (L : grid2.Coords)

/-- The semaphore of the even chunks' gathers. -/
abbrev cellA2 : GSem nD τ sig := (thr2 d L, .dma cc2_scratch4.sem)
/-- The semaphore of the odd chunks' gathers. -/
abbrev cellB2 : GSem nD τ sig := (thr2 d L, .dma cc2_scratch5.sem)
/-- The semaphore of the copy in. -/
abbrev cellC2 : GSem nD τ sig := (thr2 d L, .dma cc2_scoped0.sem)
/-- The semaphore of the copy out. -/
abbrev cellD2 : GSem nD τ sig := (thr2 d L, .dma cc2_scoped1.sem)

omit [FloatOps F] in
/-- The four semaphores the task uses are among the subcore's own: they are them, at zero, and the rest. -/
theorem ownSems0_V2 :
    (ownSems0 (thr2 d L) : sProp 𝕄)
      = iprop(semVal (cellA2 d L) 0 ∗ semVal (cellB2 d L) 0 ∗ semVal (cellC2 d L) 0 ∗ semVal (cellD2 d L) 0
          ∗ bigSep (((((ownCells (thr2 d L)).erase (cellA2 d L)).erase (cellB2 d L)).erase (cellC2 d L)).erase (cellD2 d L))
              fun g => semVal g 0) := by
  unfold SparseCore.Cfg.ownSems0
  have hA : cellA2 d L ∈ ownCells (thr2 d L) := (mem_ownCells (g := cellA2 d L)).mpr ⟨rfl, by
    show (SemLoc.dma cc2_scratch4.sem : SemLoc sig).isScoped .scVector = true; decide⟩
  have hB : cellB2 d L ∈ ownCells (thr2 d L) := (mem_ownCells (g := cellB2 d L)).mpr ⟨rfl, by
    show (SemLoc.dma cc2_scratch5.sem : SemLoc sig).isScoped .scVector = true; decide⟩
  have hC : cellC2 d L ∈ ownCells (thr2 d L) := (mem_ownCells (g := cellC2 d L)).mpr ⟨rfl, by
    show (SemLoc.dma cc2_scoped0.sem : SemLoc sig).isScoped .scVector = true; decide⟩
  have hD : cellD2 d L ∈ ownCells (thr2 d L) := (mem_ownCells (g := cellD2 d L)).mpr ⟨rfl, by
    show (SemLoc.dma cc2_scoped1.sem : SemLoc sig).isScoped .scVector = true; decide⟩
  have nBA : cellB2 d L ≠ cellA2 d L := by simp [cellA2, cellB2]; decide
  have nCA : cellC2 d L ≠ cellA2 d L := by simp [cellA2, cellC2]; decide
  have nCB : cellC2 d L ≠ cellB2 d L := by simp [cellB2, cellC2]; decide
  have nDA : cellD2 d L ≠ cellA2 d L := by simp [cellA2, cellD2]; decide
  have nDB : cellD2 d L ≠ cellB2 d L := by simp [cellB2, cellD2]; decide
  have nDC : cellD2 d L ≠ cellC2 d L := by simp [cellC2, cellD2]; decide
  rw [SparseCore.bigSep_erase' hA,
    SparseCore.bigSep_erase' (Finset.mem_erase.mpr ⟨nBA, hB⟩),
    SparseCore.bigSep_erase' (Finset.mem_erase.mpr ⟨nCB, Finset.mem_erase.mpr ⟨nCA, hC⟩⟩),
    SparseCore.bigSep_erase' (Finset.mem_erase.mpr ⟨nDC, Finset.mem_erase.mpr ⟨nDB, Finset.mem_erase.mpr ⟨nDA, hD⟩⟩⟩)]

omit [FloatOps F] in
/-- The four scratch buffers are among the subcore's own: they are them, whole at some contents, and the rest. -/
theorem ownBufs_V2 :
    (ownBufs (thr2 d L) : sProp 𝕄)
      = iprop((∃ f, (sI2).view.loc (thr2 d L) ↦{fullShare} f) ∗ (∃ f, (sH2).view.loc (thr2 d L) ↦{fullShare} f)
          ∗ (∃ f, (sR2).view.loc (thr2 d L) ↦{fullShare} f) ∗ (∃ f, (sO2).view.loc (thr2 d L) ↦{fullShare} f)
          ∗ bigSep (((((ownRefs (τ := τ) (.scVector (cV2 L) (jV2 L))).erase ((Proc.scVector (cV2 L) (jV2 L)).devRef cc2_scratch0)).erase
              ((Proc.scVector (cV2 L) (jV2 L)).devRef cc2_scratch1)).erase ((Proc.scVector (cV2 L) (jV2 L)).devRef cc2_scratch2)).erase
              ((Proc.scVector (cV2 L) (jV2 L)).devRef cc2_scratch3))
              fun b => iprop(∃ f, ((d, b) : Loc nD τ sig) ↦{fullShare} f)) := by
  unfold SparseCore.Cfg.ownBufs
  have m0 := SparseCore.Cfg.mem_ownRefs_of_owner (p := Proc.scVector (cV2 L) (jV2 L)) (b := (Proc.scVector (cV2 L) (jV2 L)).devRef cc2_scratch0) rfl
  have m1 := SparseCore.Cfg.mem_ownRefs_of_owner (p := Proc.scVector (cV2 L) (jV2 L)) (b := (Proc.scVector (cV2 L) (jV2 L)).devRef cc2_scratch1) rfl
  have m2 := SparseCore.Cfg.mem_ownRefs_of_owner (p := Proc.scVector (cV2 L) (jV2 L)) (b := (Proc.scVector (cV2 L) (jV2 L)).devRef cc2_scratch2) rfl
  have m3 := SparseCore.Cfg.mem_ownRefs_of_owner (p := Proc.scVector (cV2 L) (jV2 L)) (b := (Proc.scVector (cV2 L) (jV2 L)).devRef cc2_scratch3) rfl
  have n10 : (Proc.scVector (cV2 L) (jV2 L)).devRef cc2_scratch1 ≠ (Proc.scVector (cV2 L) (jV2 L)).devRef cc2_scratch0 :=
    fun e => absurd (Proc.devRef_injective _ e) (show (cc2_scratch1 : Ref sig .scVector) ≠ cc2_scratch0 by decide)
  have n20 : (Proc.scVector (cV2 L) (jV2 L)).devRef cc2_scratch2 ≠ (Proc.scVector (cV2 L) (jV2 L)).devRef cc2_scratch0 :=
    fun e => absurd (Proc.devRef_injective _ e) (show (cc2_scratch2 : Ref sig .scVector) ≠ cc2_scratch0 by decide)
  have n21 : (Proc.scVector (cV2 L) (jV2 L)).devRef cc2_scratch2 ≠ (Proc.scVector (cV2 L) (jV2 L)).devRef cc2_scratch1 :=
    fun e => absurd (Proc.devRef_injective _ e) (show (cc2_scratch2 : Ref sig .scVector) ≠ cc2_scratch1 by decide)
  have n30 : (Proc.scVector (cV2 L) (jV2 L)).devRef cc2_scratch3 ≠ (Proc.scVector (cV2 L) (jV2 L)).devRef cc2_scratch0 :=
    fun e => absurd (Proc.devRef_injective _ e) (show (cc2_scratch3 : Ref sig .scVector) ≠ cc2_scratch0 by decide)
  have n31 : (Proc.scVector (cV2 L) (jV2 L)).devRef cc2_scratch3 ≠ (Proc.scVector (cV2 L) (jV2 L)).devRef cc2_scratch1 :=
    fun e => absurd (Proc.devRef_injective _ e) (show (cc2_scratch3 : Ref sig .scVector) ≠ cc2_scratch1 by decide)
  have n32 : (Proc.scVector (cV2 L) (jV2 L)).devRef cc2_scratch3 ≠ (Proc.scVector (cV2 L) (jV2 L)).devRef cc2_scratch2 :=
    fun e => absurd (Proc.devRef_injective _ e) (show (cc2_scratch3 : Ref sig .scVector) ≠ cc2_scratch2 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

/-! ## The rewrite of the index list, word by word -/

/-- The word at position `p` after the rewrite: the index plus the pair's block of rows. -/
def rewW2 (w : BitVec 32) (p : ℕ) : BitVec 32 := w + BitVec.ofNat 32 (p % 16 / 2 * 100352)
/-- The lane offset at position `p`: which half of the pair's row. -/
def halfW2 (p : ℕ) : BitVec 32 := BitVec.ofNat 32 (p % 16 % 2 * 64)

/-- Before trip `k` of the rewrite the first `16 k` words are rewritten, the others as copied in. -/
def XI5 (c5 g : S2048.Idx → BitVec 32) (k : ℕ) : Prop :=
  ∀ x : S2048.Idx, g x = if (x 0).val < 16 * k then rewW2 (c5 x) (x 0).val else c5 x
/-- Before trip `k` the first `16 k` lane offsets are in place. -/
def XI6 (g : S2064.Idx → BitVec 32) (k : ℕ) : Prop :=
  ∀ x : S2064.Idx, (x 0).val < 16 * k → g x = halfW2 (x 0).val

end Cert.Proof.KI

end
-- ==== Proof.KI.Tile2Pay.lean ====
/-
  The payloads of the index-list rewrite, lane by lane: the position's remainder by 16, the lane offset stored
  beside the list, and the block of rows added to the index word.
-/
import proofs.«219250_g10247791969013_week1_w1_750_27_alg».proof.Proof.KI.Tile2Res
import proofs.«219250_g10247791969013_week1_w1_750_27_alg».proof.Proof.Gen.KernelIdeal.Skeleton
import Idealize.ShloMosaic.Lib.Pipeline.Value
import Idealize.ShloMosaic.Lib.ValueLayout
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.ValueIdx (ix1 ix2 ix3 eq_ix1 eq_ix2 eq_ix3)

omit [FloatOps F] in
theorem pay209_val : ∀ k : Fin k2_t1_loop.trips, ∀ u : Fin 16, k2_pay209 k (ix1 u) = BitVec.ofNat 32 u.val := by decide +kernel
omit [FloatOps F] in
theorem pay210_val : ∀ k : Fin k2_t1_loop.trips, ∀ u : Fin 16, k2_pay210 k (ix1 u) = BitVec.ofNat 32 (u.val % 2 * 64) := by decide +kernel
omit [FloatOps F] in
theorem shr_mul_val : ∀ u : Fin 16,
    IntOp.muli (IntOp.shrui .vector (BitVec.ofNat 32 u.val) 1#32) 100352#32 = BitVec.ofNat 32 (u.val / 2 * 100352) := by decide +kernel
/-- The word stored at lane `u`: the word loaded plus `(u / 2) * 100352`. -/
theorem pay211_val (k : Fin k2_t1_loop.trips) (v : Vec F S16 .i32) (u : Fin 16) :
    k2_pay211 (F := F) k v (ix1 u) = (v (ix1 u) : BitVec 32) + BitVec.ofNat 32 (u.val / 2 * 100352) := by
  unfold k2_pay211
  simp only [shapeCast_self]
  show IntOp.addi (v (ix1 u)) (IntOp.muli (IntOp.shrui .vector (k2_pay209 k (ix1 u)) 1#32) 100352#32) = _
  rw [pay209_val, shr_mul_val]; rfl

end Cert.Proof.KI

end
-- ==== Proof.KI.Tile2Pure.lean ====
/-
  One trip of the index-list rewrite on the contents of the two lists: the sixteen words of the trip take their
  rewritten values, every other word stays.
-/
import proofs.«219250_g10247791969013_week1_w1_750_27_alg».proof.Proof.KI.Tile2Pay

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.ValueIdx (ix1 ix2 ix3 eq_ix1 eq_ix2 eq_ix3)

/-! ## One trip of the rewrite, on the contents -/

theorem XI5_zero {κ : Kind} {sp : Space} (v : View sig κ sp S2048 .i32) (f : v.ty.Contents (Elt F)) (c5 : S2048.Idx → BitVec 32) :
    XI5 c5 (v.read (Elt F) (v.write (Elt F) f c5 Finset.univ)) 0 := by
  intro x
  rw [View.read_write_univ]
  simp

omit [FloatOps F] in
theorem XI6_zero (g : S2064.Idx → BitVec 32) : XI6 g 0 := fun x hx => absurd hx (by omega)

/-- A single 16-word piece written at `16 k` into a list of `n` words: inside it the piece's lane, outside the old word. -/
theorem read_piece16 {n : ℕ} {κ : Kind} {sp : Space} (v : View sig κ sp ⟨1, ![n]⟩ .i32) (g : v.ty.Contents (Elt F))
    (off : Fin 1 → ℕ) (inb : ∀ a, off a + S16.size a ≤ (⟨1, ![n]⟩ : Shape).size a) (w : S16.Idx → BitVec 32) (k : ℕ) (hoff : off = ![16 * k])
    (x : (⟨1, ![n]⟩ : Shape).Idx) :
    v.read (Elt F) (v.writes (Elt F) g [⟨Rect.unit (s := ⟨1, ![n]⟩) off S16.size inb, w⟩]) x
      = if h : 16 * k ≤ (x 0).val ∧ (x 0).val < 16 * k + 16 then w (ix1 ⟨(x 0).val - 16 * k, by omega⟩) else v.read (Elt F) g x := by
  subst hoff
  split
  · rename_i h
    have hx : x = (Rect.unit (s := ⟨1, ![n]⟩) ![16 * k] S16.size inb).emb (ix1 (⟨(x 0).val - 16 * k, by omega⟩ : Fin 16) : S16.Idx) := by
      funext a
      match a with
      | ⟨0, _⟩ => exact Fin.ext (by simp only [Rect.emb_apply, Rect.off_unit, Rect.stride_unit]; simp; omega)
    conv_lhs => rw [hx]
    exact View.read_writes_cons_emb (Val := Elt F) v g (Rect.unit (s := ⟨1, ![n]⟩) ![16 * k] S16.size inb) w [] _
  · rename_i h
    refine View.read_writes_apply_of_forall_not_mem v g x _ ?_
    intro p hp
    rw [List.mem_singleton] at hp
    subst hp
    rw [Rect.mem_set_unit]
    intro hm
    have := hm 0
    simp at this
    omega

theorem XI6_step {κ : Kind} {sp : Space} (v : View sig κ sp S2064 .i32) (g : v.ty.Contents (Elt F)) (k : Fin k2_t1_loop.trips)
    (h : XI6 (v.read (Elt F) g) k.val) :
    XI6 (v.read (Elt F) (v.writes (Elt F) g [⟨Rect.unit (s := S2064) (k2_off2 k) S16.size (k2_off2_inb k), k2_pay210 k⟩])) (k.val + 1) := by
  intro x hx
  have e := read_piece16 (F := F) v g (k2_off2 k) (k2_off2_inb k) (k2_pay210 k) k.val (k2_off2_eq k) x
  refine e.trans ?_
  split
  · rename_i hin
    rw [pay210_val]
    unfold halfW2
    congr 1
    show ((x 0).val - 16 * k.val) % 2 * 64 = (x 0).val % 16 % 2 * 64
    omega
  · rename_i hout
    apply h
    have hx' : (x 0).val < 16 * (k.val + 1) := hx
    omega

theorem XI5_step {κ : Kind} {sp : Space} (v : View sig κ sp S2048 .i32) (g : v.ty.Contents (Elt F)) (c5 : S2048.Idx → BitVec 32)
    (k : Fin k2_t1_loop.trips) (h : XI5 c5 (v.read (Elt F) g) k.val) :
    XI5 c5 (v.read (Elt F) (v.writes (Elt F) g [⟨Rect.unit (s := S2048) (k2_off3 k) S16.size (k2_off3_inb k),
      k2_pay211 k (v.readAt (Elt F) (Rect.unit (s := S2048) (k2_off3 k) S16.size (k2_off3_inb k)).toLoadRect g)⟩])) (k.val + 1) := by
  intro x
  have e := read_piece16 (F := F) v g (k2_off3 k) (k2_off3_inb k)
    (k2_pay211 k (v.readAt (Elt F) (Rect.unit (s := S2048) (k2_off3 k) S16.size (k2_off3_inb k)).toLoadRect g)) k.val (k2_off3_eq k) x
  refine e.trans ?_
  have hk := h x
  split
  · rename_i hin
    rw [pay211_val]
    have hidx : (Rect.unit (s := S2048) (k2_off3 k) S16.size (k2_off3_inb k)).toLoadRect.idx (ix1 (⟨(x 0).val - 16 * k.val, by omega⟩ : Fin 16) : S16.Idx) = x := by
      funext a
      match a with
      | ⟨0, _⟩ => exact Fin.ext (by simp only [LoadRect.idx_apply]; simp [k2_off3_eq]; omega)
    rw [View.readAt_apply, hidx, hk, if_neg (by omega), if_pos (by omega)]
    unfold rewW2
    have e2 : ((x 0).val - 16 * k.val) / 2 * 100352 = (x 0).val % 16 / 2 * 100352 := by omega
    show c5 x + BitVec.ofNat 32 (((x 0).val - 16 * k.val) / 2 * 100352) = _
    rw [e2]
  · rename_i hout
    rw [hk]
    by_cases h1 : (x 0).val < 16 * k.val
    · rw [if_pos h1, if_pos (by omega)]
    · rw [if_neg h1, if_neg (by omega)]

end Cert.Proof.KI

end
-- ==== Proof.KI.Tile2Pre.lean ====
/-
  The rewrite loop of one vector subcore's task: its invariant and one trip.
-/
import proofs.«219250_g10247791969013_week1_w1_750_27_alg».proof.Proof.KI.Tile2Pure
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid2.Coords)

/-- The rewrite loop's invariant: the two lists at some contents, rewritten below `16 k`. -/
def xfInv (c5 : S2048.Idx → BitVec 32) (k : ℕ) (_ : Unit) : sProp 𝕄 :=
  iprop(∃ g5 g6, ((sI2).view.loc (thr2 d L) ↦{fullShare} g5) ∗ ((sH2).view.loc (thr2 d L) ↦{fullShare} g6)
    ∗ ⌜XI5 c5 ((sI2).view.read (Elt F) g5) k ∧ XI6 ((sH2).view.read (Elt F) g6) k⌝)

set_option maxHeartbeats 2000000 in
theorem xform_trip (c5 : S2048.Idx → BitVec 32) (k : Fin k2_t1_loop.trips) (acc : Unit) :
    xfInv (F := F) d L c5 k.val acc ⊢ wp frame (wpE (defs₀ (F := F)) 𝒱₀ (thr2 d L) none) Set.univ
      (k2_t1_body L tabM2 (Memref.isWhole_whole _) idxM2 (Memref.isWhole_whole _) outM2 (Memref.isWhole_whole _)
        sI2 (Memref.isWhole_whole _) sH2 (Memref.isWhole_whole _) sR2 (Memref.isWhole_whole _) sO2 (Memref.isWhole_whole _)
        cc2_scratch4 cc2_scratch5 cc2_scoped0 cc2_scoped1 k acc) (xfInv (F := F) d L c5 (k.val + 1)) := by
  unfold xfInv
  iintro ⟨%g5, %g6, H5, H6, %hP⟩
  unfold k2_t1_body
  sl_exec
  sl_step
  iexists _, _
  isplitl [H5]; · iexact H5
  isplitl [H6]; · iexact H6
  ipureintro
  exact ⟨XI5_step (sI2).view g5 c5 k hP.1, XI6_step (sH2).view g6 k hP.2⟩

/-- An assertion set aside for a while. -/
def Aside (P : sProp 𝕄) : sProp 𝕄 := P
theorem aside_intro (P : sProp 𝕄) : P ⊢ Aside P := by unfold Aside; exact .rfl
theorem aside_elim (P : sProp 𝕄) : Aside P ⊢ P := by unfold Aside; exact .rfl

end Cert.Proof.KI

end
-- ==== Proof.KI.Tile2RingDefs.lean ====
/-
  The two-buffer ring of gathers of one vector subcore's task: the buffers as the task names them, what a gather
  delivers, and how far the block of sums is done before a trip.
-/
import proofs.«219250_g10247791969013_week1_w1_750_27_alg».proof.Proof.KI.Tile2Res

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

/-! ## The ring of gathers: its buffers, and what a gather delivers -/

/-- The gather buffer of the even chunks. -/
abbrev dstA2 : Memref sig .scVector .vmem S128x128 .f32 :=
  ((sR2).slice (Rect.unit (s := S2x128x128) ![0, 0, 0] S1x128x128.size inb_S2x128x128_S1x128x128_0_0_0) (fun _ => rfl)).squeeze S128x128 squeezes_S1x128x128_S128x128
/-- The gather buffer of the odd chunks. -/
abbrev dstB2 : Memref sig .scVector .vmem S128x128 .f32 :=
  ((sR2).slice (Rect.unit (s := S2x128x128) ![1, 0, 0] S1x128x128.size inb_S2x128x128_S1x128x128_1_0_0) (fun _ => rfl)).squeeze S128x128 squeezes_S1x128x128_S128x128
/-- The table as the gathers name it. -/
abbrev tabSl2 : Memref sig .scVector .hbm S802816x128 .f32 :=
  (tabM2).slice (Rect.unit (s := S802816x128) ![0, 0] S802816x128.size inb_S802816x128_S802816x128_0_0) (fun _ => rfl)

omit [FloatOps F] in
theorem inbC2 (c : ℕ) (hc : c < 16) : ∀ a, (![128 * c] : Fin 1 → ℕ) a + S128.size a ≤ S2048.size a :=
  Rect.inb₁ (by show 128 * c + 128 ≤ 2048; omega)
/-- The 128 list words of chunk `c`. -/
abbrev offsC2 (c : ℕ) (hc : c < 16) : Memref sig .scVector .vmem S128 .i32 :=
  (sI2).slice (Rect.unit (s := S2048) ![128 * c] S128.size (inbC2 c hc)) (fun _ => rfl)

/-- The elements of the even chunks' gather buffer. -/
abbrev setA2 : Finset S2x128x128.Idx := (dstA2).view.set
/-- The elements of the odd chunks' gather buffer. -/
abbrev setB2 : Finset S2x128x128.Idx := (dstB2).view.set
/-- The elements of chunk `c` of the list. -/
abbrev setC2 (c : ℕ) (hc : c < 16) : Finset S2048.Idx := (offsC2 c hc).view.set
/-- The elements of the table (all of them). -/
abbrev setT2 : Finset S802816x128.Idx := (tabSl2).view.set

/-- What chunk `c`'s gather delivers: row `r` is the table row the list names at position `128 c + r`. -/
def gathSpec2 (tb : S802816x128.Idx → Elt F .f32) (ix : S2048.Idx → Elt F .i32) (c : ℕ) : S128x128.Idx → Elt F .f32 :=
  fun x => tbAt2 tb (gRow2 ix (128 * c + (x 0).val)) (x 1).val

/-- The block of sums is done below row `8 k`. -/
def OutOK2 (tb : S802816x128.Idx → Elt F .f32) (ix : S2048.Idx → Elt F .i32) (k : ℕ) (g : S64x128.Idx → Elt F .f32) : Prop :=
  ∀ x : S64x128.Idx, (x 0).val < 8 * k → g x = OUT2 tb ix x

theorem OutOK2_zero (tb : S802816x128.Idx → Elt F .f32) (ix : S2048.Idx → Elt F .i32) (g : S64x128.Idx → Elt F .f32) : OutOK2 tb ix 0 g :=
  fun x hx => absurd hx (by omega)

end Cert.Proof.KI

end
-- ==== Proof.KI.AccSpec.lean ====
/-
  The accumulate loop's specification, free of any program: a list of lane offsets, two slots of gathered rows,
  the 16-lane window a trip adds to each accumulator, and the accumulators after `k` trips as a left fold from zeros.
-/
import Idealize.ShloMosaic.PureOps.Ideal
import Idealize.ShloMosaic.Lib.ValueIdx
import Idealize.ShloMosaic.Lib.Pipeline.Value

noncomputable section

namespace Cert.Proof.KI

open Idealize.ShloMosaic
open Idealize.ShloMosaic.ValueIdx

variable {F : FTy → Type} [FloatOps F]

/-- Sixteen lanes. -/
abbrev SL16 : Shape := ⟨1, ![16]⟩
/-- The lane-offset list, `nH` words. -/
abbrev SH (nH : ℕ) : Shape := ⟨1, ![nH]⟩
/-- The gathered rows: two slots of `nR` rows of 128 lanes. -/
abbrev SR (nR : ℕ) : Shape := ⟨3, ![2, nR, 128]⟩

/-- The word of a list at a natural position (reduced into range, so the function is total). -/
def at1 {α : Type} {nH : ℕ} [NeZero nH] (H : (SH nH).Idx → α) (p : ℕ) : α :=
  H (ix1 ⟨p % nH, Nat.mod_lt _ (Nat.pos_of_ne_zero (NeZero.ne nH))⟩)

/-- The element of the gathered rows at natural coordinates (each reduced into range). -/
def at3 {α : Type} {nR : ℕ} [NeZero nR] (R : (SR nR).Idx → α) (a b c : ℕ) : α :=
  R (ix3 ⟨a % 2, Nat.mod_lt _ (by decide)⟩ ⟨b % nR, Nat.mod_lt _ (Nat.pos_of_ne_zero (NeZero.ne nR))⟩
    ⟨c % 128, Nat.mod_lt _ (by decide)⟩)

theorem at1_of_lt {α : Type} {nH : ℕ} [NeZero nH] (H : (SH nH).Idx → α) {p : ℕ} (hp : p < nH) :
    at1 H p = H (ix1 ⟨p, hp⟩) := by
  unfold at1; congr 2; exact Fin.ext (Nat.mod_eq_of_lt hp)

theorem at3_of_lt {α : Type} {nR : ℕ} [NeZero nR] (R : (SR nR).Idx → α) {a b c : ℕ} (ha : a < 2) (hb : b < nR) (hc : c < 128) :
    at3 R a b c = R (ix3 ⟨a, ha⟩ ⟨b, hb⟩ ⟨c, hc⟩) := by
  unfold at3
  have e1 : a % 2 = a := Nat.mod_eq_of_lt ha
  have e2 : b % nR = b := Nat.mod_eq_of_lt hb
  have e3 : c % 128 = c := Nat.mod_eq_of_lt hc
  congr 1
  funext x
  match x with
  | ⟨0, _⟩ => exact Fin.ext e1
  | ⟨1, _⟩ => exact Fin.ext e2
  | ⟨2, _⟩ => exact Fin.ext e3

/-! ## What the trip's loads read, as entries of the two arrays -/

/-- One lane. -/
abbrev SL1 : Shape := ⟨1, ![1]⟩
/-- A 16-lane window of one row of one slot. -/
abbrev SL1x1x16 : Shape := ⟨3, ![1, 1, 16]⟩

/-- Lane 0 of the 16 words loaded at position `p` of the list is the list's word at `p`. -/
theorem word_of_load {α : Type} {nH : ℕ} [NeZero nH] (H : (SH nH).Idx → α) (off : Fin 1 → ℕ)
    (inb : ∀ a, off a + SL16.size a ≤ (SH nH).size a) (p : ℕ) (hoff : off = ![p])
    (hc : SL16.ShapeCasts SL16) (hs : SL16.Slices ![0] SL1) (hp : ∀ a, (![0] : Fin 1 → ℕ) a < SL1.size a) :
    extractAt ![0] (extractStridedSlice SL1 ![0]
        (shapeCast SL16 (fun x : SL16.Idx => H ((Rect.unit (s := SH nH) off SL16.size inb).toLoadRect.idx x)) hc) hs) hp
      = at1 H p := by
  subst hoff
  have hp' : p < nH := by
    have h0 := inb 0
    have e1 : (![p] : Fin 1 → ℕ) 0 = p := rfl
    have e2 : SL16.size 0 = 16 := rfl
    have e3 : (SH nH).size 0 = nH := rfl
    omega
  rw [at1_of_lt H hp', shapeCast_self]
  unfold extractAt extractStridedSlice
  show H _ = H _
  congr 1
  funext a
  match a with
  | ⟨0, _⟩ => exact Fin.ext (show p + 1 * (0 + 0) = p by omega)

/-- Lane `l` of the window loaded at `(slot, r, c)` of the rows is the rows' entry `(slot, r, c + l)`. -/
theorem window_of_load {α : Type} {nR : ℕ} [NeZero nR] (R : (SR nR).Idx → α) (off : Fin 3 → ℕ)
    (inb : ∀ a, off a + SL1x1x16.size a ≤ (SR nR).size a) (slot r c : ℕ) (hoff : off = ![slot, r, c])
    (hc : SL1x1x16.ShapeCasts SL16) (l : SL16.Idx) :
    shapeCast SL16 (fun x : SL1x1x16.Idx => R ((Rect.unit (s := SR nR) off SL1x1x16.size inb).toLoadRect.idx x)) hc l
      = at3 R slot r (c + (l 0).val) := by
  subst hoff
  have h0 := inb 0
  have h1 := inb 1
  have h2 := inb 2
  have e0 : (![slot, r, c] : Fin 3 → ℕ) 0 = slot := rfl
  have e1 : (![slot, r, c] : Fin 3 → ℕ) 1 = r := rfl
  have e2 : (![slot, r, c] : Fin 3 → ℕ) 2 = c := rfl
  have s0 : SL1x1x16.size 0 = 1 := rfl
  have s1 : SL1x1x16.size 1 = 1 := rfl
  have s2 : SL1x1x16.size 2 = 16 := rfl
  have t0 : (SR nR).size 0 = 2 := rfl
  have t1 : (SR nR).size 1 = nR := rfl
  have t2 : (SR nR).size 2 = 128 := rfl
  have hl : (l 0).val < 16 := (l 0).isLt
  rw [at3_of_lt R (by omega : slot < 2) (by omega : r < nR) (by omega : c + (l 0).val < 128)]
  rw [shapeCast_apply _ hc l (ix3 (0 : Fin 1) (0 : Fin 1) (l 0 : Fin 16)) (by
    rw [Shape.rowMajor_val_three, Shape.rowMajor_val_one]
    show ((0 : ℕ) * 1 + 0) * 16 + (l 0).val = (l 0).val
    omega)]
  show R _ = R _
  congr 1
  funext a
  match a with
  | ⟨0, _⟩ => exact Fin.ext (show slot + 1 * 0 = slot by omega)
  | ⟨1, _⟩ => exact Fin.ext (show r + 1 * 0 = r by omega)
  | ⟨2, _⟩ => exact Fin.ext (show c + 1 * (l 0).val = c + (l 0).val by omega)

/-- A lane offset that is 0 or 64 plus a lane-group offset `16 t` (`t < 4`) does not wrap. -/
theorem offset_add_toNat (v : BitVec 32) (hv : v = 0#32 ∨ v = 64#32) (t : Fin 4) :
    (v + BitVec.ofNat 32 (16 * t.val)).toNat = v.toNat + 16 * t.val := by
  rcases hv with rfl | rfl <;> fin_cases t <;> decide

/-- With the lane offset 0 or 64, each of the four windows lies inside its row of its slot. -/
theorem windows_inb {nR : ℕ} (slot r : ℕ) (v : BitVec 32) (hv : v = 0#32 ∨ v = 64#32) (hslot : slot < 2) (hr : r < nR)
    (t : Fin 4) (a : Fin 3) :
    (![slot, r, (v + BitVec.ofNat 32 (16 * t.val)).toNat] : Fin 3 → ℕ) a + SL1x1x16.size a ≤ (SR nR).size a := by
  rw [offset_add_toNat v hv t]
  have hv' : v.toNat ≤ 64 := by rcases hv with rfl | rfl <;> decide
  have ht := t.isLt
  match a with
  | ⟨0, _⟩ => show slot + 1 ≤ 2; omega
  | ⟨1, _⟩ => show r + 1 ≤ nR; omega
  | ⟨2, _⟩ => show v.toNat + 16 * t.val + 16 ≤ 128; omega

/-- The four accumulators. -/
abbrev Acc4 (F : FTy → Type) : Type := FVec F SL16 .f32 × FVec F SL16 .f32 × FVec F SL16 .f32 × FVec F SL16 .f32

/-- The zero word. -/
def zf : F .f32 := Scalar.ofBits .f32 0x00000000#32

/-- Sixteen lanes of zeros. -/
def zero16 : FVec F SL16 .f32 := broadcast SL16 (Scalar.ofBits .f32 0x00000000#32)

theorem zero16_apply (l : SL16.Idx) : zero16 (F := F) l = zf := rfl

/-- Lane group `t` of what trip `j` adds: row `r₀ + j` of slot `slot`, lanes `H(p₀ + j) + 16 t + ·`. -/
def accRow {nH nR : ℕ} [NeZero nH] [NeZero nR] (R : (SR nR).Idx → F .f32) (H : (SH nH).Idx → BitVec 32)
    (slot r₀ p₀ j t : ℕ) : FVec F SL16 .f32 :=
  fun l => at3 R slot (r₀ + j) ((at1 H (p₀ + j)).toNat + 16 * t + (l 0).val)

/-- The accumulators before trip `k`: the left fold of the rows of the trips before it, from zeros. -/
def accAt {nH nR : ℕ} [NeZero nH] [NeZero nR] (R : (SR nR).Idx → F .f32) (H : (SH nH).Idx → BitVec 32)
    (slot r₀ p₀ : ℕ) : ℕ → Acc4 F
  | 0 => (zero16, zero16, zero16, zero16)
  | k + 1 =>
    ((addf (accAt R H slot r₀ p₀ k).1 (accRow R H slot r₀ p₀ k 0)),
     (addf (accAt R H slot r₀ p₀ k).2.1 (accRow R H slot r₀ p₀ k 1)),
     (addf (accAt R H slot r₀ p₀ k).2.2.1 (accRow R H slot r₀ p₀ k 2)),
     (addf (accAt R H slot r₀ p₀ k).2.2.2 (accRow R H slot r₀ p₀ k 3)))

/-- Accumulator `t` (`t < 4`) of the four. -/
def Acc4.get (a : Acc4 F) (t : ℕ) : FVec F SL16 .f32 :=
  if t = 0 then a.1 else if t = 1 then a.2.1 else if t = 2 then a.2.2.1 else a.2.2.2

/-- One lane of one accumulator after `k` trips is the left fold, over the trips before `k` in order, of the scalar
    addition from the zero word. -/
theorem accAt_get_foldl {nH nR : ℕ} [NeZero nH] [NeZero nR] (R : (SR nR).Idx → F .f32) (H : (SH nH).Idx → BitVec 32)
    (slot r₀ p₀ : ℕ) (k t : ℕ) (ht : t < 4) (l : SL16.Idx) :
    (accAt R H slot r₀ p₀ k).get t l
      = (List.range k).foldl (fun (a : F .f32) j => FloatOps.addf a (accRow R H slot r₀ p₀ j t l)) zf := by
  induction k with
  | zero =>
    have h0 : accAt R H slot r₀ p₀ 0 = (zero16, zero16, zero16, zero16) := rfl
    rw [h0]
    unfold Acc4.get
    simp only [List.range_zero, List.foldl_nil]
    split_ifs <;> rfl
  | succ k ih =>
    rw [List.range_succ, List.foldl_append]
    simp only [List.foldl_cons, List.foldl_nil]
    rw [← ih]
    have hs : accAt R H slot r₀ p₀ (k + 1) =
      ((addf (accAt R H slot r₀ p₀ k).1 (accRow R H slot r₀ p₀ k 0)),
       (addf (accAt R H slot r₀ p₀ k).2.1 (accRow R H slot r₀ p₀ k 1)),
       (addf (accAt R H slot r₀ p₀ k).2.2.1 (accRow R H slot r₀ p₀ k 2)),
       (addf (accAt R H slot r₀ p₀ k).2.2.2 (accRow R H slot r₀ p₀ k 3))) := rfl
    rw [hs]
    unfold Acc4.get
    interval_cases t <;> simp <;> rfl

end Cert.Proof.KI

end
-- ==== Proof.KI.AccumStep.lean ====
/-
  One trip of the accumulate loop of the embedding-sum kernels, over the offset functions of its accesses.

  A trip reads a word `v` of the lane-offset list at position `p₀ + k`, assumes the four 16-lane windows
  `v + 16 t` (t < 4) lie inside a 128-lane row, loads those four windows of row `r₀ + k` of slot `slot` of the
  gathered rows, and adds each to its accumulator. With the list holding only 0 or 64 at those positions the
  assumption holds, and after `k` trips accumulator `t` is the left fold
  `(… ((0 + row 0) + row 1) …) + row (k-1)`, `row j = R(slot, r₀ + j, H(p₀ + j) + 16 t + ·)`.
-/
import proofs.«219250_g10247791969013_week1_w1_750_27_alg».proof.KernelIdeal
import proofs.«219250_g10247791969013_week1_w1_750_27_alg».proof.Proof.Gen.KernelIdeal
import proofs.«219250_g10247791969013_week1_w1_750_27_alg».proof.Proof.KI.AccSpec
import Idealize.ShloMosaic.Lib.Exec
import Idealize.ShloMosaic.Lib.Tactic

noncomputable section

namespace Cert.Proof.KI

open Cert.KernelIdeal

open Idealize.ShloMosaic Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## One trip, over its offset functions -/

/-- One trip of the accumulate loop: the word, the assumed side condition, four 16-lane loads and four adds. -/
def accTrip (cc : Fin τ.nSC) (ss : Fin τ.nSub) {nH nR : ℕ}
    (argH : Memref sig .scVector .vmem (SH nH) .i32) (argR : Memref sig .scVector .vmem (SR nR) .f32)
    (L : Scf.Loop 32)
    (offH : Fin L.trips → Fin 1 → ℕ) (inbH : ∀ k, ∀ a, offH k a + S16.size a ≤ (SH nH).size a)
    (offR : Fin L.trips → BitVec 32 → BitVec 32 → Fin 3 → ℕ)
    (chk : Fin L.trips → BitVec 32 → Prop) (dec : ∀ k v, Decidable (chk k v))
    (inbR : ∀ k v, chk k v → ∀ (r : Fin 4), ∀ a, offR k v (BitVec.ofNat 32 (16 * r.val)) a + S1x1x16.size a ≤ (SR nR).size a) :
    Fin L.trips → Acc4 F → Prog (TpuEff nD τ sig (Elt F) Λ₀ (.scVector cc ss)) (Acc4 F) :=
  fun k (a0, a1, a2, a3) => do
    let w : Vec F S16 .i32 ← Prog.lift (.load argH (Rect.unit (s := SH nH) (offH k) S16.size (inbH k)).toLoadRect (View.loadsAt_vmem Facts₀.h_S16))
    let v : BitVec 32 := extractAt ![0] (extractStridedSlice S1 ![0] (shapeCast S16 w Facts₀.shapeCasts_S16_S16) Facts₀.slices_S16_o0_S1) Facts₀.inpos_S1_p0
    have hw : chk k v := (← Prog.lift (TpuEff.assume (chk k v) (dec k v))).down
    let x0 : Vec F S1x1x16 .f32 ← Prog.lift (.load argR (Rect.unit (s := SR nR) (offR k v 0#32) S1x1x16.size (inbR k v hw 0)).toLoadRect (View.loadsAt_vmem Facts₀.h_S1x1x16))
    let x1 : Vec F S1x1x16 .f32 ← Prog.lift (.load argR (Rect.unit (s := SR nR) (offR k v 16#32) S1x1x16.size (inbR k v hw 1)).toLoadRect (View.loadsAt_vmem Facts₀.h_S1x1x16))
    let x2 : Vec F S1x1x16 .f32 ← Prog.lift (.load argR (Rect.unit (s := SR nR) (offR k v 32#32) S1x1x16.size (inbR k v hw 2)).toLoadRect (View.loadsAt_vmem Facts₀.h_S1x1x16))
    let x3 : Vec F S1x1x16 .f32 ← Prog.lift (.load argR (Rect.unit (s := SR nR) (offR k v 48#32) S1x1x16.size (inbR k v hw 3)).toLoadRect (View.loadsAt_vmem Facts₀.h_S1x1x16))
    pure (addf a0 (shapeCast S16 x0 Facts₀.shapeCasts_S1x1x16_S16), addf a1 (shapeCast S16 x1 Facts₀.shapeCasts_S1x1x16_S16),
          addf a2 (shapeCast S16 x2 Facts₀.shapeCasts_S1x1x16_S16), addf a3 (shapeCast S16 x3 Facts₀.shapeCasts_S1x1x16_S16))

/-! ## What a trip reads -/

/-- The lane offset a trip reads: lane 0 of the 16 words loaded from the list. -/
def tripWord {κ : Kind} {nH : ℕ} (argH : Memref sig κ .vmem (SH nH) .i32) (off : Fin 1 → ℕ)
    (inb : ∀ a, off a + S16.size a ≤ (SH nH).size a) (fH : BufTy.Contents (Elt F) argH.view.ty) : BitVec 32 :=
  extractAt ![0] (extractStridedSlice S1 ![0]
    (shapeCast S16 (argH.view.readAt (Elt F) (Rect.unit (s := SH nH) off S16.size inb).toLoadRect fH) Facts₀.shapeCasts_S16_S16)
    Facts₀.slices_S16_o0_S1) Facts₀.inpos_S1_p0

theorem tripWord_eq {κ : Kind} {nH : ℕ} [NeZero nH] (argH : Memref sig κ .vmem (SH nH) .i32) (off : Fin 1 → ℕ)
    (inb : ∀ a, off a + S16.size a ≤ (SH nH).size a) (fH : BufTy.Contents (Elt F) argH.view.ty) (p : ℕ) (hoff : off = ![p]) :
    tripWord (F := F) argH off inb fH = at1 (argH.view.read (Elt F) fH) p :=
  word_of_load (argH.view.read (Elt F) fH) off inb p hoff _ _ _

/-- The window a trip loads for lane group `t`, as the row the fold adds. -/
theorem window_eq {κ : Kind} {nH nR : ℕ} [NeZero nH] [NeZero nR] (argR : Memref sig κ .vmem (SR nR) .f32)
    (fR : BufTy.Contents (Elt F) argR.view.ty) (H : (SH nH).Idx → BitVec 32) (slot r₀ p₀ j : ℕ) (t : Fin 4)
    (v c : BitVec 32) (hc : c = BitVec.ofNat 32 (16 * t.val)) (hv : v = at1 H (p₀ + j)) (hv01 : v = 0#32 ∨ v = 64#32)
    (off : Fin 3 → ℕ) (inb : ∀ a, off a + S1x1x16.size a ≤ (SR nR).size a) (hoff : off = ![slot, r₀ + j, (v + c).toNat]) :
    shapeCast S16 (argR.view.readAt (Elt F) (Rect.unit (s := SR nR) off S1x1x16.size inb).toLoadRect fR) Facts₀.shapeCasts_S1x1x16_S16
      = accRow (F := F) (argR.view.read (Elt F) fR) H slot r₀ p₀ j t.val := by
  funext l
  refine (window_of_load (argR.view.read (Elt F) fR) off inb slot (r₀ + j) ((v + c).toNat) hoff _ l).trans ?_
  unfold accRow
  rw [hc, offset_add_toNat v hv01 t, hv]

/-! ## The invariant and the step -/

section Step

variable (Ix Name U Lvl : Type) [DecidableEq Ix] [DecidableEq Name] [RA.URA U] [Preorder Lvl]

/-- Before trip `k`: the accumulators are the fold of the trips before it; the lane-offset list is held whole and the
    gathered rows are held on a set `IR` of their elements (any shares), at contents `fH`, `fR`. -/
def AccInv (d : Dev nD) (cc : Fin τ.nSC) (ss : Fin τ.nSub) {nH nR : ℕ} [NeZero nH] [NeZero nR]
    (argH : Memref sig .scVector .vmem (SH nH) .i32) (argR : Memref sig .scVector .vmem (SR nR) .f32)
    (IR : Finset (Idx (argR.view.loc ((d, .scVector cc ss) : Thread nD τ))))
    (qH qR : PosShare TreeShare) (fH : BufTy.Contents (Elt F) argH.view.ty) (fR : BufTy.Contents (Elt F) argR.view.ty)
    (slot r₀ p₀ : ℕ) (k : ℕ) (acc : Acc4 F) : sProp (MT nD τ sig Ix (Elt F) Name U Lvl) :=
  iprop(⌜acc = accAt (argR.view.read (Elt F) fR) (argH.view.read (Elt F) fH) slot r₀ p₀ k⌝
    ∗ (argH.view.loc ((d, .scVector cc ss) : Thread nD τ) ↦[argH.view.set]{qH} fH)
    ∗ (argR.view.loc ((d, .scVector cc ss) : Thread nD τ) ↦[IR]{qR} fR))

/-- ONE TRIP preserves the invariant, given the offsets' closed forms, that the side condition is the four windows'
    range fact, that the accesses stay inside the two arrays, that the slot's rows are among the elements held, and
    that the list holds 0 or 64 at the positions read. -/
theorem accTrip_step (𝒱 : Variants) (d : Dev nD) (cc : Fin τ.nSC) (ss : Fin τ.nSub) (bd : Option 𝒱.V) (E : Set Name)
    {nH nR : ℕ} [NeZero nH] [NeZero nR]
    (argH : Memref sig .scVector .vmem (SH nH) .i32) (argR : Memref sig .scVector .vmem (SR nR) .f32)
    (L : Scf.Loop 32)
    (offH : Fin L.trips → Fin 1 → ℕ) (inbH : ∀ k, ∀ a, offH k a + S16.size a ≤ (SH nH).size a)
    (offR : Fin L.trips → BitVec 32 → BitVec 32 → Fin 3 → ℕ)
    (chk : Fin L.trips → BitVec 32 → Prop) (dec : ∀ k v, Decidable (chk k v))
    (inbR : ∀ k v, chk k v → ∀ (r : Fin 4), ∀ a, offR k v (BitVec.ofNat 32 (16 * r.val)) a + S1x1x16.size a ≤ (SR nR).size a)
    (IR : Finset (Idx (argR.view.loc ((d, .scVector cc ss) : Thread nD τ))))
    (qH qR : PosShare TreeShare) (fH : BufTy.Contents (Elt F) argH.view.ty) (fR : BufTy.Contents (Elt F) argR.view.ty)
    (slot r₀ p₀ : ℕ)
    (hoffH : ∀ k, offH k = ![p₀ + k.val])
    (hoffR : ∀ k v c, offR k v c = ![slot, r₀ + k.val, (v + c).toNat])
    (hchk : ∀ k v, (∀ (r : Fin 4), ∀ a, offR k v (BitVec.ofNat 32 (16 * r.val)) a + S1x1x16.size a ≤ (SR nR).size a) → chk k v)
    (hslot : slot < 2) (hrows : r₀ + L.trips ≤ nR)
    (hIR : ∀ x : (SR nR).Idx, (x 0).val = slot → argR.view.emb x ∈ IR)
    (hH : ∀ j, j < L.trips → at1 (argH.view.read (Elt F) fH) (p₀ + j) = 0#32 ∨ at1 (argH.view.read (Elt F) fH) (p₀ + j) = 64#32)
    (k : Fin L.trips) (acc : Acc4 F) :
    AccInv (F := F) Ix Name U Lvl d cc ss argH argR IR qH qR fH fR slot r₀ p₀ k.val acc
      ⊢ wp frame (wpE (defs₀ (F := F)) 𝒱 ((d, .scVector cc ss) : Thread nD τ) bd) E
          (accTrip (F := F) cc ss argH argR L offH inbH offR chk dec inbR k acc)
          (AccInv (F := F) Ix Name U Lvl d cc ss argH argR IR qH qR fH fR slot r₀ p₀ (k.val + 1)) := by
  obtain ⟨a0, a1, a2, a3⟩ := acc
  have hk := k.isLt
  -- the word read, 0 or 64, and the windows' range fact
  have hv0 : tripWord (F := F) argH (offH k) (inbH k) fH = at1 (argH.view.read (Elt F) fH) (p₀ + k.val) :=
    tripWord_eq argH (offH k) (inbH k) fH (p₀ + k.val) (hoffH k)
  have hv01 : tripWord (F := F) argH (offH k) (inbH k) fH = 0#32 ∨ tripWord (F := F) argH (offH k) (inbH k) fH = 64#32 := by
    rw [hv0]; exact hH k.val hk
  have hc : chk k (tripWord (F := F) argH (offH k) (inbH k) fH) :=
    hchk k _ (fun r a => by
      rw [hoffR]
      exact windows_inb slot (r₀ + k.val) _ hv01 hslot (by omega) r a)
  have hsub : ∀ (off : Fin 3 → ℕ) (inb : ∀ a, off a + S1x1x16.size a ≤ (SR nR).size a), off 0 = slot →
      argR.view.setOn (Rect.unit (s := SR nR) off S1x1x16.size inb).toLoadRect.set ⊆ IR := by
    intro off inb h0 y hy
    obtain ⟨x, hx, rfl⟩ := Finset.mem_map.mp hy
    refine hIR x ?_
    have h1 := (Rect.mem_set_unit.mp hx) 0
    have s0 : S1x1x16.size 0 = 1 := rfl
    omega
  have hz : ∀ (v c : BitVec 32), offR k v c 0 = slot := fun v c => by rw [hoffR]; rfl
  unfold AccInv
  iintro ⟨%hacc, HH, HR⟩
  unfold accTrip
  iapply (wp_load 𝒱 ((d, .scVector cc ss) : Thread nD τ) bd E (m := argH) (View.setOn_subset_set _ _)) $$ HH
  iintro HH
  iapply (wp_assume 𝒱 ((d, .scVector cc ss) : Thread nD τ) bd E hc)
  iapply (wp_load 𝒱 ((d, .scVector cc ss) : Thread nD τ) bd E (m := argR)
    (hsub (offR k (tripWord (F := F) argH (offH k) (inbH k) fH) 0#32) (inbR k _ hc 0) (hz _ _))) $$ HR
  iintro HR
  iapply (wp_load 𝒱 ((d, .scVector cc ss) : Thread nD τ) bd E (m := argR)
    (hsub (offR k (tripWord (F := F) argH (offH k) (inbH k) fH) 16#32) (inbR k _ hc 1) (hz _ _))) $$ HR
  iintro HR
  iapply (wp_load 𝒱 ((d, .scVector cc ss) : Thread nD τ) bd E (m := argR)
    (hsub (offR k (tripWord (F := F) argH (offH k) (inbH k) fH) 32#32) (inbR k _ hc 2) (hz _ _))) $$ HR
  iintro HR
  iapply (wp_load 𝒱 ((d, .scVector cc ss) : Thread nD τ) bd E (m := argR)
    (hsub (offR k (tripWord (F := F) argH (offH k) (inbH k) fH) 48#32) (inbR k _ hc 3) (hz _ _))) $$ HR
  iintro HR
  iapply (Idealize.SL.Sem.le_wp_ret _ _)
  isplitr
  · ipureintro
    have hs : accAt (F := F) (argR.view.read (Elt F) fR) (argH.view.read (Elt F) fH) slot r₀ p₀ (k.val + 1) =
      ((addf (accAt (argR.view.read (Elt F) fR) (argH.view.read (Elt F) fH) slot r₀ p₀ k.val).1 (accRow (argR.view.read (Elt F) fR) (argH.view.read (Elt F) fH) slot r₀ p₀ k.val 0)),
       (addf (accAt (argR.view.read (Elt F) fR) (argH.view.read (Elt F) fH) slot r₀ p₀ k.val).2.1 (accRow (argR.view.read (Elt F) fR) (argH.view.read (Elt F) fH) slot r₀ p₀ k.val 1)),
       (addf (accAt (argR.view.read (Elt F) fR) (argH.view.read (Elt F) fH) slot r₀ p₀ k.val).2.2.1 (accRow (argR.view.read (Elt F) fR) (argH.view.read (Elt F) fH) slot r₀ p₀ k.val 2)),
       (addf (accAt (argR.view.read (Elt F) fR) (argH.view.read (Elt F) fH) slot r₀ p₀ k.val).2.2.2 (accRow (argR.view.read (Elt F) fR) (argH.view.read (Elt F) fH) slot r₀ p₀ k.val 3))) := rfl
    rw [hs, ← hacc]
    have w0 := window_eq (F := F) argR fR (argH.view.read (Elt F) fH) slot r₀ p₀ k.val (0 : Fin 4) _ 0#32 rfl hv0 hv01 _ (inbR k _ hc 0) (hoffR k _ _)
    have w1 := window_eq (F := F) argR fR (argH.view.read (Elt F) fH) slot r₀ p₀ k.val (1 : Fin 4) _ 16#32 rfl hv0 hv01 _ (inbR k _ hc 1) (hoffR k _ _)
    have w2 := window_eq (F := F) argR fR (argH.view.read (Elt F) fH) slot r₀ p₀ k.val (2 : Fin 4) _ 32#32 rfl hv0 hv01 _ (inbR k _ hc 2) (hoffR k _ _)
    have w3 := window_eq (F := F) argR fR (argH.view.read (Elt F) fH) slot r₀ p₀ k.val (3 : Fin 4) _ 48#32 rfl hv0 hv01 _ (inbR k _ hc 3) (hoffR k _ _)
    exact Prod.ext (congrArg (addf a0) w0) (Prod.ext (congrArg (addf a1) w1) (Prod.ext (congrArg (addf a2) w2) (congrArg (addf a3) w3)))
  isplitl [HH]
  · iexact HH
  · iexact HR

end Step

end Cert.Proof.KI

end
-- ==== Proof.KI.Accum.lean ====
/-
  The accumulate loops of the embedding-sum kernel over 16 features per batch row: each of the sixteen loops (two
  slots of gathered rows, eight batch rows per slot) has as its trip the accumulate trip at that loop's offsets — the
  lane-offset list read at `256·chunk-pair + 16·(8·slot + row) + k`, the gathered rows at `(slot, 16·row + k, ·)` —
  so one trip takes the left-fold invariant at `k` to the invariant at `k + 1`.
-/
import proofs.«219250_g10247791969013_week1_w1_750_27_alg».proof.Proof.Gen.KernelIdeal.Skeleton
import proofs.«219250_g10247791969013_week1_w1_750_27_alg».proof.Proof.KI.AccumStep

set_option maxRecDepth 65536

noncomputable section

namespace Cert.Proof.KI

open Cert.KernelIdeal Cert.KernelIdeal.Gen

open Idealize.ShloMosaic Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### Loop 3: slot 0, batch row 0 of the chunk -/

/-- The loop's trip is the accumulate trip at its offset functions. -/
theorem k2_t3_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k2_t2 : Fin k2_t2_loop.trips) :
    k2_t3_body (F := F) i arg2 harg2 arg3 harg3 arg4 harg4 arg5 harg5 arg6 harg6 arg7 harg7 arg8 harg8 arg9 arg10 v14_r0 v14_r1 c0_i32_15 c1_i32_16 k2_t2
      = accTrip (F := F) ((i 0).castLE hcore2) ((i 1).castLE hsub2) arg6 arg7 k2_t3_loop (k2_off5 k2_t2) (Facts₀.k2_off5_inb k2_t2)
          k2_off6 k2_chk1 k2_chk1.dec Cert.KernelIdeal.k2_off6_inb := rfl

/-- The rows' offsets in closed form: slot 0, row `0 + k`, lane `v + c`. -/
theorem k2_off6_closed (k : Fin k2_t3_loop.trips) (v c : BitVec 32) :
    k2_off6 k v c = ![0, 0 + k.val, (v + c).toNat] := by
  have hm : ∀ k : Fin k2_t3_loop.trips, (k2_off6 k 0#32 0#32) 1 = 0 + k.val := by decide +kernel
  funext a
  match a with
  | ⟨0, _⟩ => rfl
  | ⟨1, _⟩ => exact hm k
  | ⟨2, _⟩ => rfl

/-- One trip of loop 3 preserves the left-fold invariant. -/
theorem accum_k2_t3 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k2_t2 : Fin k2_t2_loop.trips)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t3_loop.trips → at1 (arg6.view.read (Elt F) fH) (256 * k2_t2.val + 0 + j) = 0#32 ∨ at1 (arg6.view.read (Elt F) fH) (256 * k2_t2.val + 0 + j) = 64#32)
    (k : Fin k2_t3_loop.trips) (acc : Acc4 F) :
    AccInv (F := F) Ix Name U Lvl d ((i 0).castLE hcore2) ((i 1).castLE hsub2) arg6 arg7 IR qH qR fH fR 0 0 (256 * k2_t2.val + 0) k.val acc
      ⊢ wp frame (wpE (defs₀ (F := F)) 𝒱 ((d, .scVector ((i 0).castLE hcore2) ((i 1).castLE hsub2)) : Thread nD τ) bd) E
          (k2_t3_body (F := F) i arg2 harg2 arg3 harg3 arg4 harg4 arg5 harg5 arg6 harg6 arg7 harg7 arg8 harg8 arg9 arg10 v14_r0 v14_r1 c0_i32_15 c1_i32_16 k2_t2 k acc)
          (AccInv (F := F) Ix Name U Lvl d ((i 0).castLE hcore2) ((i 1).castLE hsub2) arg6 arg7 IR qH qR fH fR 0 0 (256 * k2_t2.val + 0) (k.val + 1)) := by
  rw [k2_t3_body_eq]
  exact accTrip_step (F := F) Ix Name U Lvl 𝒱 d _ _ bd E arg6 arg7 k2_t3_loop _ _ _ _ _ _ IR qH qR fH fR 0 0 (256 * k2_t2.val + 0)
    (fun k => (k2_off5_eq k2_t2 k).trans (by first | rfl | (congr 1; omega))) k2_off6_closed (fun _ _ h => h)
    (by decide) (by decide) hIR hH k acc

/-! ### Loop 4: slot 0, batch row 1 of the chunk -/

/-- The loop's trip is the accumulate trip at its offset functions. -/
theorem k2_t4_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v44 : FVec F S16 .f32) (cst_33 : F .f32) :
    k2_t4_body (F := F) i arg2 harg2 arg3 harg3 arg4 harg4 arg5 harg5 arg6 harg6 arg7 harg7 arg8 harg8 arg9 arg10 v14_r0 v14_r1 k2_t2 v14 v44 cst_33
      = accTrip (F := F) ((i 0).castLE hcore2) ((i 1).castLE hsub2) arg6 arg7 k2_t4_loop (k2_off11 k2_t2) (Facts₀.k2_off11_inb k2_t2)
          k2_off12 k2_chk2 k2_chk2.dec Cert.KernelIdeal.k2_off12_inb := rfl

/-- The rows' offsets in closed form: slot 0, row `16 + k`, lane `v + c`. -/
theorem k2_off12_closed (k : Fin k2_t4_loop.trips) (v c : BitVec 32) :
    k2_off12 k v c = ![0, 16 + k.val, (v + c).toNat] := by
  have hm : ∀ k : Fin k2_t4_loop.trips, (k2_off12 k 0#32 0#32) 1 = 16 + k.val := by decide +kernel
  funext a
  match a with
  | ⟨0, _⟩ => rfl
  | ⟨1, _⟩ => exact hm k
  | ⟨2, _⟩ => rfl

/-- One trip of loop 4 preserves the left-fold invariant. -/
theorem accum_k2_t4 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v44 : FVec F S16 .f32) (cst_33 : F .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t4_loop.trips → at1 (arg6.view.read (Elt F) fH) (256 * k2_t2.val + 16 + j) = 0#32 ∨ at1 (arg6.view.read (Elt F) fH) (256 * k2_t2.val + 16 + j) = 64#32)
    (k : Fin k2_t4_loop.trips) (acc : Acc4 F) :
    AccInv (F := F) Ix Name U Lvl d ((i 0).castLE hcore2) ((i 1).castLE hsub2) arg6 arg7 IR qH qR fH fR 0 16 (256 * k2_t2.val + 16) k.val acc
      ⊢ wp frame (wpE (defs₀ (F := F)) 𝒱 ((d, .scVector ((i 0).castLE hcore2) ((i 1).castLE hsub2)) : Thread nD τ) bd) E
          (k2_t4_body (F := F) i arg2 harg2 arg3 harg3 arg4 harg4 arg5 harg5 arg6 harg6 arg7 harg7 arg8 harg8 arg9 arg10 v14_r0 v14_r1 k2_t2 v14 v44 cst_33 k acc)
          (AccInv (F := F) Ix Name U Lvl d ((i 0).castLE hcore2) ((i 1).castLE hsub2) arg6 arg7 IR qH qR fH fR 0 16 (256 * k2_t2.val + 16) (k.val + 1)) := by
  rw [k2_t4_body_eq]
  exact accTrip_step (F := F) Ix Name U Lvl 𝒱 d _ _ bd E arg6 arg7 k2_t4_loop _ _ _ _ _ _ IR qH qR fH fR 0 16 (256 * k2_t2.val + 16)
    (fun k => (k2_off11_eq k2_t2 k).trans (by first | rfl | (congr 1; omega))) k2_off12_closed (fun _ _ h => h)
    (by decide) (by decide) hIR hH k acc

/-! ### Loop 5: slot 0, batch row 2 of the chunk -/

/-- The loop's trip is the accumulate trip at its offset functions. -/
theorem k2_t5_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v44 : FVec F S16 .f32) (cst_33 : F .f32) :
    k2_t5_body (F := F) i arg2 harg2 arg3 harg3 arg4 harg4 arg5 harg5 arg6 harg6 arg7 harg7 arg8 harg8 arg9 arg10 v14_r0 v14_r1 k2_t2 v14 v44 cst_33
      = accTrip (F := F) ((i 0).castLE hcore2) ((i 1).castLE hsub2) arg6 arg7 k2_t5_loop (k2_off17 k2_t2) (Facts₀.k2_off17_inb k2_t2)
          k2_off18 k2_chk3 k2_chk3.dec Cert.KernelIdeal.k2_off18_inb := rfl

/-- The rows' offsets in closed form: slot 0, row `32 + k`, lane `v + c`. -/
theorem k2_off18_closed (k : Fin k2_t5_loop.trips) (v c : BitVec 32) :
    k2_off18 k v c = ![0, 32 + k.val, (v + c).toNat] := by
  have hm : ∀ k : Fin k2_t5_loop.trips, (k2_off18 k 0#32 0#32) 1 = 32 + k.val := by decide +kernel
  funext a
  match a with
  | ⟨0, _⟩ => rfl
  | ⟨1, _⟩ => exact hm k
  | ⟨2, _⟩ => rfl

/-- One trip of loop 5 preserves the left-fold invariant. -/
theorem accum_k2_t5 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v44 : FVec F S16 .f32) (cst_33 : F .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t5_loop.trips → at1 (arg6.view.read (Elt F) fH) (256 * k2_t2.val + 32 + j) = 0#32 ∨ at1 (arg6.view.read (Elt F) fH) (256 * k2_t2.val + 32 + j) = 64#32)
    (k : Fin k2_t5_loop.trips) (acc : Acc4 F) :
    AccInv (F := F) Ix Name U Lvl d ((i 0).castLE hcore2) ((i 1).castLE hsub2) arg6 arg7 IR qH qR fH fR 0 32 (256 * k2_t2.val + 32) k.val acc
      ⊢ wp frame (wpE (defs₀ (F := F)) 𝒱 ((d, .scVector ((i 0).castLE hcore2) ((i 1).castLE hsub2)) : Thread nD τ) bd) E
          (k2_t5_body (F := F) i arg2 harg2 arg3 harg3 arg4 harg4 arg5 harg5 arg6 harg6 arg7 harg7 arg8 harg8 arg9 arg10 v14_r0 v14_r1 k2_t2 v14 v44 cst_33 k acc)
          (AccInv (F := F) Ix Name U Lvl d ((i 0).castLE hcore2) ((i 1).castLE hsub2) arg6 arg7 IR qH qR fH fR 0 32 (256 * k2_t2.val + 32) (k.val + 1)) := by
  rw [k2_t5_body_eq]
  exact accTrip_step (F := F) Ix Name U Lvl 𝒱 d _ _ bd E arg6 arg7 k2_t5_loop _ _ _ _ _ _ IR qH qR fH fR 0 32 (256 * k2_t2.val + 32)
    (fun k => (k2_off17_eq k2_t2 k).trans (by first | rfl | (congr 1; omega))) k2_off18_closed (fun _ _ h => h)
    (by decide) (by decide) hIR hH k acc

/-! ### Loop 6: slot 0, batch row 3 of the chunk -/

/-- The loop's trip is the accumulate trip at its offset functions. -/
theorem k2_t6_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v73_0 : FVec F S16 .f32) (v73_1 : FVec F S16 .f32) (v73_2 : FVec F S16 .f32) (v73_3 : FVec F S16 .f32) (v75 : BitVec 32) (v77 : Vec F S1x16 .f32) :
    k2_t6_body (F := F) i arg2 harg2 arg3 harg3 arg4 harg4 arg5 harg5 arg6 harg6 arg7 harg7 arg8 harg8 arg9 arg10 v14_r0 v14_r1 k2_t2 v14 v73_0 v73_1 v73_2 v73_3 v75 v77
      = accTrip (F := F) ((i 0).castLE hcore2) ((i 1).castLE hsub2) arg6 arg7 k2_t6_loop (k2_off19 k2_t2) (Facts₀.k2_off19_inb k2_t2)
          k2_off20 k2_chk4 k2_chk4.dec Cert.KernelIdeal.k2_off20_inb := rfl

/-- The rows' offsets in closed form: slot 0, row `48 + k`, lane `v + c`. -/
theorem k2_off20_closed (k : Fin k2_t6_loop.trips) (v c : BitVec 32) :
    k2_off20 k v c = ![0, 48 + k.val, (v + c).toNat] := by
  have hm : ∀ k : Fin k2_t6_loop.trips, (k2_off20 k 0#32 0#32) 1 = 48 + k.val := by decide +kernel
  funext a
  match a with
  | ⟨0, _⟩ => rfl
  | ⟨1, _⟩ => exact hm k
  | ⟨2, _⟩ => rfl

/-- One trip of loop 6 preserves the left-fold invariant. -/
theorem accum_k2_t6 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v73_0 : FVec F S16 .f32) (v73_1 : FVec F S16 .f32) (v73_2 : FVec F S16 .f32) (v73_3 : FVec F S16 .f32) (v75 : BitVec 32) (v77 : Vec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t6_loop.trips → at1 (arg6.view.read (Elt F) fH) (256 * k2_t2.val + 48 + j) = 0#32 ∨ at1 (arg6.view.read (Elt F) fH) (256 * k2_t2.val + 48 + j) = 64#32)
    (k : Fin k2_t6_loop.trips) (acc : Acc4 F) :
    AccInv (F := F) Ix Name U Lvl d ((i 0).castLE hcore2) ((i 1).castLE hsub2) arg6 arg7 IR qH qR fH fR 0 48 (256 * k2_t2.val + 48) k.val acc
      ⊢ wp frame (wpE (defs₀ (F := F)) 𝒱 ((d, .scVector ((i 0).castLE hcore2) ((i 1).castLE hsub2)) : Thread nD τ) bd) E
          (k2_t6_body (F := F) i arg2 harg2 arg3 harg3 arg4 harg4 arg5 harg5 arg6 harg6 arg7 harg7 arg8 harg8 arg9 arg10 v14_r0 v14_r1 k2_t2 v14 v73_0 v73_1 v73_2 v73_3 v75 v77 k acc)
          (AccInv (F := F) Ix Name U Lvl d ((i 0).castLE hcore2) ((i 1).castLE hsub2) arg6 arg7 IR qH qR fH fR 0 48 (256 * k2_t2.val + 48) (k.val + 1)) := by
  rw [k2_t6_body_eq]
  exact accTrip_step (F := F) Ix Name U Lvl 𝒱 d _ _ bd E arg6 arg7 k2_t6_loop _ _ _ _ _ _ IR qH qR fH fR 0 48 (256 * k2_t2.val + 48)
    (fun k => (k2_off19_eq k2_t2 k).trans (by first | rfl | (congr 1; omega))) k2_off20_closed (fun _ _ h => h)
    (by decide) (by decide) hIR hH k acc

/-! ### Loop 7: slot 0, batch row 4 of the chunk -/

/-- The loop's trip is the accumulate trip at its offset functions. -/
theorem k2_t7_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v97_3 : FVec F S16 .f32) (v113 : Vec F S1x16 .f32) :
    k2_t7_body (F := F) i arg2 harg2 arg3 harg3 arg4 harg4 arg5 harg5 arg6 harg6 arg7 harg7 arg8 harg8 arg9 arg10 v14_r0 v14_r1 k2_t2 v14 v97_3 v113
      = accTrip (F := F) ((i 0).castLE hcore2) ((i 1).castLE hsub2) arg6 arg7 k2_t7_loop (k2_off21 k2_t2) (Facts₀.k2_off21_inb k2_t2)
          k2_off22 k2_chk5 k2_chk5.dec Cert.KernelIdeal.k2_off22_inb := rfl

/-- The rows' offsets in closed form: slot 0, row `64 + k`, lane `v + c`. -/
theorem k2_off22_closed (k : Fin k2_t7_loop.trips) (v c : BitVec 32) :
    k2_off22 k v c = ![0, 64 + k.val, (v + c).toNat] := by
  have hm : ∀ k : Fin k2_t7_loop.trips, (k2_off22 k 0#32 0#32) 1 = 64 + k.val := by decide +kernel
  funext a
  match a with
  | ⟨0, _⟩ => rfl
  | ⟨1, _⟩ => exact hm k
  | ⟨2, _⟩ => rfl

/-- One trip of loop 7 preserves the left-fold invariant. -/
theorem accum_k2_t7 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v97_3 : FVec F S16 .f32) (v113 : Vec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t7_loop.trips → at1 (arg6.view.read (Elt F) fH) (256 * k2_t2.val + 64 + j) = 0#32 ∨ at1 (arg6.view.read (Elt F) fH) (256 * k2_t2.val + 64 + j) = 64#32)
    (k : Fin k2_t7_loop.trips) (acc : Acc4 F) :
    AccInv (F := F) Ix Name U Lvl d ((i 0).castLE hcore2) ((i 1).castLE hsub2) arg6 arg7 IR qH qR fH fR 0 64 (256 * k2_t2.val + 64) k.val acc
      ⊢ wp frame (wpE (defs₀ (F := F)) 𝒱 ((d, .scVector ((i 0).castLE hcore2) ((i 1).castLE hsub2)) : Thread nD τ) bd) E
          (k2_t7_body (F := F) i arg2 harg2 arg3 harg3 arg4 harg4 arg5 harg5 arg6 harg6 arg7 harg7 arg8 harg8 arg9 arg10 v14_r0 v14_r1 k2_t2 v14 v97_3 v113 k acc)
          (AccInv (F := F) Ix Name U Lvl d ((i 0).castLE hcore2) ((i 1).castLE hsub2) arg6 arg7 IR qH qR fH fR 0 64 (256 * k2_t2.val + 64) (k.val + 1)) := by
  rw [k2_t7_body_eq]
  exact accTrip_step (F := F) Ix Name U Lvl 𝒱 d _ _ bd E arg6 arg7 k2_t7_loop _ _ _ _ _ _ IR qH qR fH fR 0 64 (256 * k2_t2.val + 64)
    (fun k => (k2_off21_eq k2_t2 k).trans (by first | rfl | (congr 1; omega))) k2_off22_closed (fun _ _ h => h)
    (by decide) (by decide) hIR hH k acc

/-! ### Loop 8: slot 0, batch row 5 of the chunk -/

/-- The loop's trip is the accumulate trip at its offset functions. -/
theorem k2_t8_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v97_3 : FVec F S16 .f32) (v113 : Vec F S1x16 .f32) :
    k2_t8_body (F := F) i arg2 harg2 arg3 harg3 arg4 harg4 arg5 harg5 arg6 harg6 arg7 harg7 arg8 harg8 arg9 arg10 v14_r0 v14_r1 k2_t2 v14 v97_3 v113
      = accTrip (F := F) ((i 0).castLE hcore2) ((i 1).castLE hsub2) arg6 arg7 k2_t8_loop (k2_off23 k2_t2) (Facts₀.k2_off23_inb k2_t2)
          k2_off24 k2_chk6 k2_chk6.dec Cert.KernelIdeal.k2_off24_inb := rfl

/-- The rows' offsets in closed form: slot 0, row `80 + k`, lane `v + c`. -/
theorem k2_off24_closed (k : Fin k2_t8_loop.trips) (v c : BitVec 32) :
    k2_off24 k v c = ![0, 80 + k.val, (v + c).toNat] := by
  have hm : ∀ k : Fin k2_t8_loop.trips, (k2_off24 k 0#32 0#32) 1 = 80 + k.val := by decide +kernel
  funext a
  match a with
  | ⟨0, _⟩ => rfl
  | ⟨1, _⟩ => exact hm k
  | ⟨2, _⟩ => rfl

/-- One trip of loop 8 preserves the left-fold invariant. -/
theorem accum_k2_t8 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v97_3 : FVec F S16 .f32) (v113 : Vec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t8_loop.trips → at1 (arg6.view.read (Elt F) fH) (256 * k2_t2.val + 80 + j) = 0#32 ∨ at1 (arg6.view.read (Elt F) fH) (256 * k2_t2.val + 80 + j) = 64#32)
    (k : Fin k2_t8_loop.trips) (acc : Acc4 F) :
    AccInv (F := F) Ix Name U Lvl d ((i 0).castLE hcore2) ((i 1).castLE hsub2) arg6 arg7 IR qH qR fH fR 0 80 (256 * k2_t2.val + 80) k.val acc
      ⊢ wp frame (wpE (defs₀ (F := F)) 𝒱 ((d, .scVector ((i 0).castLE hcore2) ((i 1).castLE hsub2)) : Thread nD τ) bd) E
          (k2_t8_body (F := F) i arg2 harg2 arg3 harg3 arg4 harg4 arg5 harg5 arg6 harg6 arg7 harg7 arg8 harg8 arg9 arg10 v14_r0 v14_r1 k2_t2 v14 v97_3 v113 k acc)
          (AccInv (F := F) Ix Name U Lvl d ((i 0).castLE hcore2) ((i 1).castLE hsub2) arg6 arg7 IR qH qR fH fR 0 80 (256 * k2_t2.val + 80) (k.val + 1)) := by
  rw [k2_t8_body_eq]
  exact accTrip_step (F := F) Ix Name U Lvl 𝒱 d _ _ bd E arg6 arg7 k2_t8_loop _ _ _ _ _ _ IR qH qR fH fR 0 80 (256 * k2_t2.val + 80)
    (fun k => (k2_off23_eq k2_t2 k).trans (by first | rfl | (congr 1; omega))) k2_off24_closed (fun _ _ h => h)
    (by decide) (by decide) hIR hH k acc

/-! ### Loop 9: slot 0, batch row 6 of the chunk -/

/-- The loop's trip is the accumulate trip at its offset functions. -/
theorem k2_t9_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v145_0 : FVec F S16 .f32) (v145_1 : FVec F S16 .f32) (v145_2 : FVec F S16 .f32) (v145_3 : FVec F S16 .f32) (c4_i32_92 : BitVec 32) :
    k2_t9_body (F := F) i arg2 harg2 arg3 harg3 arg4 harg4 arg5 harg5 arg6 harg6 arg7 harg7 arg8 harg8 arg9 arg10 v14_r0 v14_r1 k2_t2 v14 v145_0 v145_1 v145_2 v145_3 c4_i32_92
      = accTrip (F := F) ((i 0).castLE hcore2) ((i 1).castLE hsub2) arg6 arg7 k2_t9_loop (k2_off25 k2_t2) (Facts₀.k2_off25_inb k2_t2)
          k2_off26 k2_chk7 k2_chk7.dec Cert.KernelIdeal.k2_off26_inb := rfl

/-- The rows' offsets in closed form: slot 0, row `96 + k`, lane `v + c`. -/
theorem k2_off26_closed (k : Fin k2_t9_loop.trips) (v c : BitVec 32) :
    k2_off26 k v c = ![0, 96 + k.val, (v + c).toNat] := by
  have hm : ∀ k : Fin k2_t9_loop.trips, (k2_off26 k 0#32 0#32) 1 = 96 + k.val := by decide +kernel
  funext a
  match a with
  | ⟨0, _⟩ => rfl
  | ⟨1, _⟩ => exact hm k
  | ⟨2, _⟩ => rfl

/-- One trip of loop 9 preserves the left-fold invariant. -/
theorem accum_k2_t9 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v145_0 : FVec F S16 .f32) (v145_1 : FVec F S16 .f32) (v145_2 : FVec F S16 .f32) (v145_3 : FVec F S16 .f32) (c4_i32_92 : BitVec 32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t9_loop.trips → at1 (arg6.view.read (Elt F) fH) (256 * k2_t2.val + 96 + j) = 0#32 ∨ at1 (arg6.view.read (Elt F) fH) (256 * k2_t2.val + 96 + j) = 64#32)
    (k : Fin k2_t9_loop.trips) (acc : Acc4 F) :
    AccInv (F := F) Ix Name U Lvl d ((i 0).castLE hcore2) ((i 1).castLE hsub2) arg6 arg7 IR qH qR fH fR 0 96 (256 * k2_t2.val + 96) k.val acc
      ⊢ wp frame (wpE (defs₀ (F := F)) 𝒱 ((d, .scVector ((i 0).castLE hcore2) ((i 1).castLE hsub2)) : Thread nD τ) bd) E
          (k2_t9_body (F := F) i arg2 harg2 arg3 harg3 arg4 harg4 arg5 harg5 arg6 harg6 arg7 harg7 arg8 harg8 arg9 arg10 v14_r0 v14_r1 k2_t2 v14 v145_0 v145_1 v145_2 v145_3 c4_i32_92 k acc)
          (AccInv (F := F) Ix Name U Lvl d ((i 0).castLE hcore2) ((i 1).castLE hsub2) arg6 arg7 IR qH qR fH fR 0 96 (256 * k2_t2.val + 96) (k.val + 1)) := by
  rw [k2_t9_body_eq]
  exact accTrip_step (F := F) Ix Name U Lvl 𝒱 d _ _ bd E arg6 arg7 k2_t9_loop _ _ _ _ _ _ IR qH qR fH fR 0 96 (256 * k2_t2.val + 96)
    (fun k => (k2_off25_eq k2_t2 k).trans (by first | rfl | (congr 1; omega))) k2_off26_closed (fun _ _ h => h)
    (by decide) (by decide) hIR hH k acc

/-! ### Loop 10: slot 0, batch row 7 of the chunk -/

/-- The loop's trip is the accumulate trip at its offset functions. -/
theorem k2_t10_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v169_2 : FVec F S16 .f32) (v169_3 : FVec F S16 .f32) (v171 : BitVec 32) (v181 : Vec F S1x16 .f32) :
    k2_t10_body (F := F) i arg2 harg2 arg3 harg3 arg4 harg4 arg5 harg5 arg6 harg6 arg7 harg7 arg8 harg8 arg9 arg10 v14_r0 v14_r1 k2_t2 v14 v169_2 v169_3 v171 v181
      = accTrip (F := F) ((i 0).castLE hcore2) ((i 1).castLE hsub2) arg6 arg7 k2_t10_loop (k2_off27 k2_t2) (Facts₀.k2_off27_inb k2_t2)
          k2_off28 k2_chk8 k2_chk8.dec Cert.KernelIdeal.k2_off28_inb := rfl

/-- The rows' offsets in closed form: slot 0, row `112 + k`, lane `v + c`. -/
theorem k2_off28_closed (k : Fin k2_t10_loop.trips) (v c : BitVec 32) :
    k2_off28 k v c = ![0, 112 + k.val, (v + c).toNat] := by
  have hm : ∀ k : Fin k2_t10_loop.trips, (k2_off28 k 0#32 0#32) 1 = 112 + k.val := by decide +kernel
  funext a
  match a with
  | ⟨0, _⟩ => rfl
  | ⟨1, _⟩ => exact hm k
  | ⟨2, _⟩ => rfl

/-- One trip of loop 10 preserves the left-fold invariant. -/
theorem accum_k2_t10 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v169_2 : FVec F S16 .f32) (v169_3 : FVec F S16 .f32) (v171 : BitVec 32) (v181 : Vec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t10_loop.trips → at1 (arg6.view.read (Elt F) fH) (256 * k2_t2.val + 112 + j) = 0#32 ∨ at1 (arg6.view.read (Elt F) fH) (256 * k2_t2.val + 112 + j) = 64#32)
    (k : Fin k2_t10_loop.trips) (acc : Acc4 F) :
    AccInv (F := F) Ix Name U Lvl d ((i 0).castLE hcore2) ((i 1).castLE hsub2) arg6 arg7 IR qH qR fH fR 0 112 (256 * k2_t2.val + 112) k.val acc
      ⊢ wp frame (wpE (defs₀ (F := F)) 𝒱 ((d, .scVector ((i 0).castLE hcore2) ((i 1).castLE hsub2)) : Thread nD τ) bd) E
          (k2_t10_body (F := F) i arg2 harg2 arg3 harg3 arg4 harg4 arg5 harg5 arg6 harg6 arg7 harg7 arg8 harg8 arg9 arg10 v14_r0 v14_r1 k2_t2 v14 v169_2 v169_3 v171 v181 k acc)
          (AccInv (F := F) Ix Name U Lvl d ((i 0).castLE hcore2) ((i 1).castLE hsub2) arg6 arg7 IR qH qR fH fR 0 112 (256 * k2_t2.val + 112) (k.val + 1)) := by
  rw [k2_t10_body_eq]
  exact accTrip_step (F := F) Ix Name U Lvl 𝒱 d _ _ bd E arg6 arg7 k2_t10_loop _ _ _ _ _ _ IR qH qR fH fR 0 112 (256 * k2_t2.val + 112)
    (fun k => (k2_off27_eq k2_t2 k).trans (by first | rfl | (congr 1; omega))) k2_off28_closed (fun _ _ h => h)
    (by decide) (by decide) hIR hH k acc

/-! ### Loop 11: slot 1, batch row 0 of the chunk -/

/-- The loop's trip is the accumulate trip at its offset functions. -/
theorem k2_t11_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (c1_i32_128 : BitVec 32) :
    k2_t11_body (F := F) i arg2 harg2 arg3 harg3 arg4 harg4 arg5 harg5 arg6 harg6 arg7 harg7 arg8 harg8 arg9 arg10 v14_r0 v14_r1 k2_t2 v14 c1_i32_128
      = accTrip (F := F) ((i 0).castLE hcore2) ((i 1).castLE hsub2) arg6 arg7 k2_t11_loop (k2_off31 k2_t2) (Facts₀.k2_off31_inb k2_t2)
          k2_off32 k2_chk9 k2_chk9.dec Cert.KernelIdeal.k2_off32_inb := rfl

/-- The rows' offsets in closed form: slot 1, row `0 + k`, lane `v + c`. -/
theorem k2_off32_closed (k : Fin k2_t11_loop.trips) (v c : BitVec 32) :
    k2_off32 k v c = ![1, 0 + k.val, (v + c).toNat] := by
  have hm : ∀ k : Fin k2_t11_loop.trips, (k2_off32 k 0#32 0#32) 1 = 0 + k.val := by decide +kernel
  funext a
  match a with
  | ⟨0, _⟩ => rfl
  | ⟨1, _⟩ => exact hm k
  | ⟨2, _⟩ => rfl

/-- One trip of loop 11 preserves the left-fold invariant. -/
theorem accum_k2_t11 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (c1_i32_128 : BitVec 32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t11_loop.trips → at1 (arg6.view.read (Elt F) fH) (256 * k2_t2.val + 128 + j) = 0#32 ∨ at1 (arg6.view.read (Elt F) fH) (256 * k2_t2.val + 128 + j) = 64#32)
    (k : Fin k2_t11_loop.trips) (acc : Acc4 F) :
    AccInv (F := F) Ix Name U Lvl d ((i 0).castLE hcore2) ((i 1).castLE hsub2) arg6 arg7 IR qH qR fH fR 1 0 (256 * k2_t2.val + 128) k.val acc
      ⊢ wp frame (wpE (defs₀ (F := F)) 𝒱 ((d, .scVector ((i 0).castLE hcore2) ((i 1).castLE hsub2)) : Thread nD τ) bd) E
          (k2_t11_body (F := F) i arg2 harg2 arg3 harg3 arg4 harg4 arg5 harg5 arg6 harg6 arg7 harg7 arg8 harg8 arg9 arg10 v14_r0 v14_r1 k2_t2 v14 c1_i32_128 k acc)
          (AccInv (F := F) Ix Name U Lvl d ((i 0).castLE hcore2) ((i 1).castLE hsub2) arg6 arg7 IR qH qR fH fR 1 0 (256 * k2_t2.val + 128) (k.val + 1)) := by
  rw [k2_t11_body_eq]
  exact accTrip_step (F := F) Ix Name U Lvl 𝒱 d _ _ bd E arg6 arg7 k2_t11_loop _ _ _ _ _ _ IR qH qR fH fR 1 0 (256 * k2_t2.val + 128)
    (fun k => (k2_off31_eq k2_t2 k).trans (by first | rfl | (congr 1; omega))) k2_off32_closed (fun _ _ h => h)
    (by decide) (by decide) hIR hH k acc

/-! ### Loop 12: slot 1, batch row 1 of the chunk -/

/-- The loop's trip is the accumulate trip at its offset functions. -/
theorem k2_t12_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v246 : FVec F S16 .f32) (v247 : FVec F S16 .f32) (cst_151 : F .f32) :
    k2_t12_body (F := F) i arg2 harg2 arg3 harg3 arg4 harg4 arg5 harg5 arg6 harg6 arg7 harg7 arg8 harg8 arg9 arg10 v14_r0 v14_r1 k2_t2 v216 v246 v247 cst_151
      = accTrip (F := F) ((i 0).castLE hcore2) ((i 1).castLE hsub2) arg6 arg7 k2_t12_loop (k2_off37 k2_t2) (Facts₀.k2_off37_inb k2_t2)
          k2_off38 k2_chk10 k2_chk10.dec Cert.KernelIdeal.k2_off38_inb := rfl

/-- The rows' offsets in closed form: slot 1, row `16 + k`, lane `v + c`. -/
theorem k2_off38_closed (k : Fin k2_t12_loop.trips) (v c : BitVec 32) :
    k2_off38 k v c = ![1, 16 + k.val, (v + c).toNat] := by
  have hm : ∀ k : Fin k2_t12_loop.trips, (k2_off38 k 0#32 0#32) 1 = 16 + k.val := by decide +kernel
  funext a
  match a with
  | ⟨0, _⟩ => rfl
  | ⟨1, _⟩ => exact hm k
  | ⟨2, _⟩ => rfl

/-- One trip of loop 12 preserves the left-fold invariant. -/
theorem accum_k2_t12 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v246 : FVec F S16 .f32) (v247 : FVec F S16 .f32) (cst_151 : F .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t12_loop.trips → at1 (arg6.view.read (Elt F) fH) (256 * k2_t2.val + 144 + j) = 0#32 ∨ at1 (arg6.view.read (Elt F) fH) (256 * k2_t2.val + 144 + j) = 64#32)
    (k : Fin k2_t12_loop.trips) (acc : Acc4 F) :
    AccInv (F := F) Ix Name U Lvl d ((i 0).castLE hcore2) ((i 1).castLE hsub2) arg6 arg7 IR qH qR fH fR 1 16 (256 * k2_t2.val + 144) k.val acc
      ⊢ wp frame (wpE (defs₀ (F := F)) 𝒱 ((d, .scVector ((i 0).castLE hcore2) ((i 1).castLE hsub2)) : Thread nD τ) bd) E
          (k2_t12_body (F := F) i arg2 harg2 arg3 harg3 arg4 harg4 arg5 harg5 arg6 harg6 arg7 harg7 arg8 harg8 arg9 arg10 v14_r0 v14_r1 k2_t2 v216 v246 v247 cst_151 k acc)
          (AccInv (F := F) Ix Name U Lvl d ((i 0).castLE hcore2) ((i 1).castLE hsub2) arg6 arg7 IR qH qR fH fR 1 16 (256 * k2_t2.val + 144) (k.val + 1)) := by
  rw [k2_t12_body_eq]
  exact accTrip_step (F := F) Ix Name U Lvl 𝒱 d _ _ bd E arg6 arg7 k2_t12_loop _ _ _ _ _ _ IR qH qR fH fR 1 16 (256 * k2_t2.val + 144)
    (fun k => (k2_off37_eq k2_t2 k).trans (by first | rfl | (congr 1; omega))) k2_off38_closed (fun _ _ h => h)
    (by decide) (by decide) hIR hH k acc

/-! ### Loop 13: slot 1, batch row 2 of the chunk -/

/-- The loop's trip is the accumulate trip at its offset functions. -/
theorem k2_t13_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v246 : FVec F S16 .f32) (v247 : FVec F S16 .f32) (cst_151 : F .f32) :
    k2_t13_body (F := F) i arg2 harg2 arg3 harg3 arg4 harg4 arg5 harg5 arg6 harg6 arg7 harg7 arg8 harg8 arg9 arg10 v14_r0 v14_r1 k2_t2 v216 v246 v247 cst_151
      = accTrip (F := F) ((i 0).castLE hcore2) ((i 1).castLE hsub2) arg6 arg7 k2_t13_loop (k2_off43 k2_t2) (Facts₀.k2_off43_inb k2_t2)
          k2_off44 k2_chk11 k2_chk11.dec Cert.KernelIdeal.k2_off44_inb := rfl

/-- The rows' offsets in closed form: slot 1, row `32 + k`, lane `v + c`. -/
theorem k2_off44_closed (k : Fin k2_t13_loop.trips) (v c : BitVec 32) :
    k2_off44 k v c = ![1, 32 + k.val, (v + c).toNat] := by
  have hm : ∀ k : Fin k2_t13_loop.trips, (k2_off44 k 0#32 0#32) 1 = 32 + k.val := by decide +kernel
  funext a
  match a with
  | ⟨0, _⟩ => rfl
  | ⟨1, _⟩ => exact hm k
  | ⟨2, _⟩ => rfl

/-- One trip of loop 13 preserves the left-fold invariant. -/
theorem accum_k2_t13 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v246 : FVec F S16 .f32) (v247 : FVec F S16 .f32) (cst_151 : F .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t13_loop.trips → at1 (arg6.view.read (Elt F) fH) (256 * k2_t2.val + 160 + j) = 0#32 ∨ at1 (arg6.view.read (Elt F) fH) (256 * k2_t2.val + 160 + j) = 64#32)
    (k : Fin k2_t13_loop.trips) (acc : Acc4 F) :
    AccInv (F := F) Ix Name U Lvl d ((i 0).castLE hcore2) ((i 1).castLE hsub2) arg6 arg7 IR qH qR fH fR 1 32 (256 * k2_t2.val + 160) k.val acc
      ⊢ wp frame (wpE (defs₀ (F := F)) 𝒱 ((d, .scVector ((i 0).castLE hcore2) ((i 1).castLE hsub2)) : Thread nD τ) bd) E
          (k2_t13_body (F := F) i arg2 harg2 arg3 harg3 arg4 harg4 arg5 harg5 arg6 harg6 arg7 harg7 arg8 harg8 arg9 arg10 v14_r0 v14_r1 k2_t2 v216 v246 v247 cst_151 k acc)
          (AccInv (F := F) Ix Name U Lvl d ((i 0).castLE hcore2) ((i 1).castLE hsub2) arg6 arg7 IR qH qR fH fR 1 32 (256 * k2_t2.val + 160) (k.val + 1)) := by
  rw [k2_t13_body_eq]
  exact accTrip_step (F := F) Ix Name U Lvl 𝒱 d _ _ bd E arg6 arg7 k2_t13_loop _ _ _ _ _ _ IR qH qR fH fR 1 32 (256 * k2_t2.val + 160)
    (fun k => (k2_off43_eq k2_t2 k).trans (by first | rfl | (congr 1; omega))) k2_off44_closed (fun _ _ h => h)
    (by decide) (by decide) hIR hH k acc

/-! ### Loop 14: slot 1, batch row 3 of the chunk -/

/-- The loop's trip is the accumulate trip at its offset functions. -/
theorem k2_t14_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v275_1 : FVec F S16 .f32) (v275_2 : FVec F S16 .f32) (v275_3 : FVec F S16 .f32) (v277 : BitVec 32) (v281 : FVec F S1x16 .f32) :
    k2_t14_body (F := F) i arg2 harg2 arg3 harg3 arg4 harg4 arg5 harg5 arg6 harg6 arg7 harg7 arg8 harg8 arg9 arg10 v14_r0 v14_r1 k2_t2 v216 v275_1 v275_2 v275_3 v277 v281
      = accTrip (F := F) ((i 0).castLE hcore2) ((i 1).castLE hsub2) arg6 arg7 k2_t14_loop (k2_off45 k2_t2) (Facts₀.k2_off45_inb k2_t2)
          k2_off46 k2_chk12 k2_chk12.dec Cert.KernelIdeal.k2_off46_inb := rfl

/-- The rows' offsets in closed form: slot 1, row `48 + k`, lane `v + c`. -/
theorem k2_off46_closed (k : Fin k2_t14_loop.trips) (v c : BitVec 32) :
    k2_off46 k v c = ![1, 48 + k.val, (v + c).toNat] := by
  have hm : ∀ k : Fin k2_t14_loop.trips, (k2_off46 k 0#32 0#32) 1 = 48 + k.val := by decide +kernel
  funext a
  match a with
  | ⟨0, _⟩ => rfl
  | ⟨1, _⟩ => exact hm k
  | ⟨2, _⟩ => rfl

/-- One trip of loop 14 preserves the left-fold invariant. -/
theorem accum_k2_t14 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v275_1 : FVec F S16 .f32) (v275_2 : FVec F S16 .f32) (v275_3 : FVec F S16 .f32) (v277 : BitVec 32) (v281 : FVec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t14_loop.trips → at1 (arg6.view.read (Elt F) fH) (256 * k2_t2.val + 176 + j) = 0#32 ∨ at1 (arg6.view.read (Elt F) fH) (256 * k2_t2.val + 176 + j) = 64#32)
    (k : Fin k2_t14_loop.trips) (acc : Acc4 F) :
    AccInv (F := F) Ix Name U Lvl d ((i 0).castLE hcore2) ((i 1).castLE hsub2) arg6 arg7 IR qH qR fH fR 1 48 (256 * k2_t2.val + 176) k.val acc
      ⊢ wp frame (wpE (defs₀ (F := F)) 𝒱 ((d, .scVector ((i 0).castLE hcore2) ((i 1).castLE hsub2)) : Thread nD τ) bd) E
          (k2_t14_body (F := F) i arg2 harg2 arg3 harg3 arg4 harg4 arg5 harg5 arg6 harg6 arg7 harg7 arg8 harg8 arg9 arg10 v14_r0 v14_r1 k2_t2 v216 v275_1 v275_2 v275_3 v277 v281 k acc)
          (AccInv (F := F) Ix Name U Lvl d ((i 0).castLE hcore2) ((i 1).castLE hsub2) arg6 arg7 IR qH qR fH fR 1 48 (256 * k2_t2.val + 176) (k.val + 1)) := by
  rw [k2_t14_body_eq]
  exact accTrip_step (F := F) Ix Name U Lvl 𝒱 d _ _ bd E arg6 arg7 k2_t14_loop _ _ _ _ _ _ IR qH qR fH fR 1 48 (256 * k2_t2.val + 176)
    (fun k => (k2_off45_eq k2_t2 k).trans (by first | rfl | (congr 1; omega))) k2_off46_closed (fun _ _ h => h)
    (by decide) (by decide) hIR hH k acc

/-! ### Loop 15: slot 1, batch row 4 of the chunk -/

/-- The loop's trip is the accumulate trip at its offset functions. -/
theorem k2_t15_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v317 : FVec F S1x16 .f32) :
    k2_t15_body (F := F) i arg2 harg2 arg3 harg3 arg4 harg4 arg5 harg5 arg6 harg6 arg7 harg7 arg8 harg8 arg9 arg10 v14_r0 v14_r1 k2_t2 v216 v317
      = accTrip (F := F) ((i 0).castLE hcore2) ((i 1).castLE hsub2) arg6 arg7 k2_t15_loop (k2_off47 k2_t2) (Facts₀.k2_off47_inb k2_t2)
          k2_off48 k2_chk13 k2_chk13.dec Cert.KernelIdeal.k2_off48_inb := rfl

/-- The rows' offsets in closed form: slot 1, row `64 + k`, lane `v + c`. -/
theorem k2_off48_closed (k : Fin k2_t15_loop.trips) (v c : BitVec 32) :
    k2_off48 k v c = ![1, 64 + k.val, (v + c).toNat] := by
  have hm : ∀ k : Fin k2_t15_loop.trips, (k2_off48 k 0#32 0#32) 1 = 64 + k.val := by decide +kernel
  funext a
  match a with
  | ⟨0, _⟩ => rfl
  | ⟨1, _⟩ => exact hm k
  | ⟨2, _⟩ => rfl

/-- One trip of loop 15 preserves the left-fold invariant. -/
theorem accum_k2_t15 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v317 : FVec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t15_loop.trips → at1 (arg6.view.read (Elt F) fH) (256 * k2_t2.val + 192 + j) = 0#32 ∨ at1 (arg6.view.read (Elt F) fH) (256 * k2_t2.val + 192 + j) = 64#32)
    (k : Fin k2_t15_loop.trips) (acc : Acc4 F) :
    AccInv (F := F) Ix Name U Lvl d ((i 0).castLE hcore2) ((i 1).castLE hsub2) arg6 arg7 IR qH qR fH fR 1 64 (256 * k2_t2.val + 192) k.val acc
      ⊢ wp frame (wpE (defs₀ (F := F)) 𝒱 ((d, .scVector ((i 0).castLE hcore2) ((i 1).castLE hsub2)) : Thread nD τ) bd) E
          (k2_t15_body (F := F) i arg2 harg2 arg3 harg3 arg4 harg4 arg5 harg5 arg6 harg6 arg7 harg7 arg8 harg8 arg9 arg10 v14_r0 v14_r1 k2_t2 v216 v317 k acc)
          (AccInv (F := F) Ix Name U Lvl d ((i 0).castLE hcore2) ((i 1).castLE hsub2) arg6 arg7 IR qH qR fH fR 1 64 (256 * k2_t2.val + 192) (k.val + 1)) := by
  rw [k2_t15_body_eq]
  exact accTrip_step (F := F) Ix Name U Lvl 𝒱 d _ _ bd E arg6 arg7 k2_t15_loop _ _ _ _ _ _ IR qH qR fH fR 1 64 (256 * k2_t2.val + 192)
    (fun k => (k2_off47_eq k2_t2 k).trans (by first | rfl | (congr 1; omega))) k2_off48_closed (fun _ _ h => h)
    (by decide) (by decide) hIR hH k acc

/-! ### Loop 16: slot 1, batch row 5 of the chunk -/

/-- The loop's trip is the accumulate trip at its offset functions. -/
theorem k2_t16_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v317 : FVec F S1x16 .f32) :
    k2_t16_body (F := F) i arg2 harg2 arg3 harg3 arg4 harg4 arg5 harg5 arg6 harg6 arg7 harg7 arg8 harg8 arg9 arg10 v14_r0 v14_r1 k2_t2 v216 v317
      = accTrip (F := F) ((i 0).castLE hcore2) ((i 1).castLE hsub2) arg6 arg7 k2_t16_loop (k2_off49 k2_t2) (Facts₀.k2_off49_inb k2_t2)
          k2_off50 k2_chk14 k2_chk14.dec Cert.KernelIdeal.k2_off50_inb := rfl

/-- The rows' offsets in closed form: slot 1, row `80 + k`, lane `v + c`. -/
theorem k2_off50_closed (k : Fin k2_t16_loop.trips) (v c : BitVec 32) :
    k2_off50 k v c = ![1, 80 + k.val, (v + c).toNat] := by
  have hm : ∀ k : Fin k2_t16_loop.trips, (k2_off50 k 0#32 0#32) 1 = 80 + k.val := by decide +kernel
  funext a
  match a with
  | ⟨0, _⟩ => rfl
  | ⟨1, _⟩ => exact hm k
  | ⟨2, _⟩ => rfl

/-- One trip of loop 16 preserves the left-fold invariant. -/
theorem accum_k2_t16 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v317 : FVec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t16_loop.trips → at1 (arg6.view.read (Elt F) fH) (256 * k2_t2.val + 208 + j) = 0#32 ∨ at1 (arg6.view.read (Elt F) fH) (256 * k2_t2.val + 208 + j) = 64#32)
    (k : Fin k2_t16_loop.trips) (acc : Acc4 F) :
    AccInv (F := F) Ix Name U Lvl d ((i 0).castLE hcore2) ((i 1).castLE hsub2) arg6 arg7 IR qH qR fH fR 1 80 (256 * k2_t2.val + 208) k.val acc
      ⊢ wp frame (wpE (defs₀ (F := F)) 𝒱 ((d, .scVector ((i 0).castLE hcore2) ((i 1).castLE hsub2)) : Thread nD τ) bd) E
          (k2_t16_body (F := F) i arg2 harg2 arg3 harg3 arg4 harg4 arg5 harg5 arg6 harg6 arg7 harg7 arg8 harg8 arg9 arg10 v14_r0 v14_r1 k2_t2 v216 v317 k acc)
          (AccInv (F := F) Ix Name U Lvl d ((i 0).castLE hcore2) ((i 1).castLE hsub2) arg6 arg7 IR qH qR fH fR 1 80 (256 * k2_t2.val + 208) (k.val + 1)) := by
  rw [k2_t16_body_eq]
  exact accTrip_step (F := F) Ix Name U Lvl 𝒱 d _ _ bd E arg6 arg7 k2_t16_loop _ _ _ _ _ _ IR qH qR fH fR 1 80 (256 * k2_t2.val + 208)
    (fun k => (k2_off49_eq k2_t2 k).trans (by first | rfl | (congr 1; omega))) k2_off50_closed (fun _ _ h => h)
    (by decide) (by decide) hIR hH k acc

/-! ### Loop 17: slot 1, batch row 6 of the chunk -/

/-- The loop's trip is the accumulate trip at its offset functions. -/
theorem k2_t17_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v347_0 : FVec F S16 .f32) (v347_1 : FVec F S16 .f32) (v347_2 : FVec F S16 .f32) (v347_3 : FVec F S16 .f32) (v348 : BitVec 32) (c2_i32_214 : BitVec 32) :
    k2_t17_body (F := F) i arg2 harg2 arg3 harg3 arg4 harg4 arg5 harg5 arg6 harg6 arg7 harg7 arg8 harg8 arg9 arg10 v14_r0 v14_r1 k2_t2 v216 v347_0 v347_1 v347_2 v347_3 v348 c2_i32_214
      = accTrip (F := F) ((i 0).castLE hcore2) ((i 1).castLE hsub2) arg6 arg7 k2_t17_loop (k2_off51 k2_t2) (Facts₀.k2_off51_inb k2_t2)
          k2_off52 k2_chk15 k2_chk15.dec Cert.KernelIdeal.k2_off52_inb := rfl

/-- The rows' offsets in closed form: slot 1, row `96 + k`, lane `v + c`. -/
theorem k2_off52_closed (k : Fin k2_t17_loop.trips) (v c : BitVec 32) :
    k2_off52 k v c = ![1, 96 + k.val, (v + c).toNat] := by
  have hm : ∀ k : Fin k2_t17_loop.trips, (k2_off52 k 0#32 0#32) 1 = 96 + k.val := by decide +kernel
  funext a
  match a with
  | ⟨0, _⟩ => rfl
  | ⟨1, _⟩ => exact hm k
  | ⟨2, _⟩ => rfl

/-- One trip of loop 17 preserves the left-fold invariant. -/
theorem accum_k2_t17 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v347_0 : FVec F S16 .f32) (v347_1 : FVec F S16 .f32) (v347_2 : FVec F S16 .f32) (v347_3 : FVec F S16 .f32) (v348 : BitVec 32) (c2_i32_214 : BitVec 32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t17_loop.trips → at1 (arg6.view.read (Elt F) fH) (256 * k2_t2.val + 224 + j) = 0#32 ∨ at1 (arg6.view.read (Elt F) fH) (256 * k2_t2.val + 224 + j) = 64#32)
    (k : Fin k2_t17_loop.trips) (acc : Acc4 F) :
    AccInv (F := F) Ix Name U Lvl d ((i 0).castLE hcore2) ((i 1).castLE hsub2) arg6 arg7 IR qH qR fH fR 1 96 (256 * k2_t2.val + 224) k.val acc
      ⊢ wp frame (wpE (defs₀ (F := F)) 𝒱 ((d, .scVector ((i 0).castLE hcore2) ((i 1).castLE hsub2)) : Thread nD τ) bd) E
          (k2_t17_body (F := F) i arg2 harg2 arg3 harg3 arg4 harg4 arg5 harg5 arg6 harg6 arg7 harg7 arg8 harg8 arg9 arg10 v14_r0 v14_r1 k2_t2 v216 v347_0 v347_1 v347_2 v347_3 v348 c2_i32_214 k acc)
          (AccInv (F := F) Ix Name U Lvl d ((i 0).castLE hcore2) ((i 1).castLE hsub2) arg6 arg7 IR qH qR fH fR 1 96 (256 * k2_t2.val + 224) (k.val + 1)) := by
  rw [k2_t17_body_eq]
  exact accTrip_step (F := F) Ix Name U Lvl 𝒱 d _ _ bd E arg6 arg7 k2_t17_loop _ _ _ _ _ _ IR qH qR fH fR 1 96 (256 * k2_t2.val + 224)
    (fun k => (k2_off51_eq k2_t2 k).trans (by first | rfl | (congr 1; omega))) k2_off52_closed (fun _ _ h => h)
    (by decide) (by decide) hIR hH k acc

/-! ### Loop 18: slot 1, batch row 7 of the chunk -/

/-- The loop's trip is the accumulate trip at its offset functions. -/
theorem k2_t18_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k2_t2 : Fin k2_t2_loop.trips) :
    k2_t18_body (F := F) i arg2 harg2 arg3 harg3 arg4 harg4 arg5 harg5 arg6 harg6 arg7 harg7 arg8 harg8 arg9 arg10 v14_r0 v14_r1 c0_i32_15 c1_i32_16 k2_t2
      = accTrip (F := F) ((i 0).castLE hcore2) ((i 1).castLE hsub2) arg6 arg7 k2_t18_loop (k2_off53 k2_t2) (Facts₀.k2_off53_inb k2_t2)
          k2_off54 k2_chk16 k2_chk16.dec Cert.KernelIdeal.k2_off54_inb := rfl

/-- The rows' offsets in closed form: slot 1, row `112 + k`, lane `v + c`. -/
theorem k2_off54_closed (k : Fin k2_t18_loop.trips) (v c : BitVec 32) :
    k2_off54 k v c = ![1, 112 + k.val, (v + c).toNat] := by
  have hm : ∀ k : Fin k2_t18_loop.trips, (k2_off54 k 0#32 0#32) 1 = 112 + k.val := by decide +kernel
  funext a
  match a with
  | ⟨0, _⟩ => rfl
  | ⟨1, _⟩ => exact hm k
  | ⟨2, _⟩ => rfl

/-- One trip of loop 18 preserves the left-fold invariant. -/
theorem accum_k2_t18 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k2_t2 : Fin k2_t2_loop.trips)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t18_loop.trips → at1 (arg6.view.read (Elt F) fH) (256 * k2_t2.val + 240 + j) = 0#32 ∨ at1 (arg6.view.read (Elt F) fH) (256 * k2_t2.val + 240 + j) = 64#32)
    (k : Fin k2_t18_loop.trips) (acc : Acc4 F) :
    AccInv (F := F) Ix Name U Lvl d ((i 0).castLE hcore2) ((i 1).castLE hsub2) arg6 arg7 IR qH qR fH fR 1 112 (256 * k2_t2.val + 240) k.val acc
      ⊢ wp frame (wpE (defs₀ (F := F)) 𝒱 ((d, .scVector ((i 0).castLE hcore2) ((i 1).castLE hsub2)) : Thread nD τ) bd) E
          (k2_t18_body (F := F) i arg2 harg2 arg3 harg3 arg4 harg4 arg5 harg5 arg6 harg6 arg7 harg7 arg8 harg8 arg9 arg10 v14_r0 v14_r1 c0_i32_15 c1_i32_16 k2_t2 k acc)
          (AccInv (F := F) Ix Name U Lvl d ((i 0).castLE hcore2) ((i 1).castLE hsub2) arg6 arg7 IR qH qR fH fR 1 112 (256 * k2_t2.val + 240) (k.val + 1)) := by
  rw [k2_t18_body_eq]
  exact accTrip_step (F := F) Ix Name U Lvl 𝒱 d _ _ bd E arg6 arg7 k2_t18_loop _ _ _ _ _ _ IR qH qR fH fR 1 112 (256 * k2_t2.val + 240)
    (fun k => (k2_off53_eq k2_t2 k).trans (by first | rfl | (congr 1; omega))) k2_off54_closed (fun _ _ h => h)
    (by decide) (by decide) hIR hH k acc

end Cert.Proof.KI

end
-- ==== Proof.KI.AccFold.lean ====
/-
  Reading one lane of an accumulator after `n` trips as a left fold of any summands the rows agree with: the bridge
  from the accumulate loop's invariant to a sum stated over other names for the same entries.
-/
import proofs.«219250_g10247791969013_week1_w1_750_27_alg».proof.Proof.KI.AccSpec

noncomputable section

namespace Cert.Proof.KI

open Idealize.ShloMosaic
open Idealize.ShloMosaic.ValueIdx

variable {F : FTy → Type} [FloatOps F]

/-- Two step functions that agree at every position below `n` fold the positions `0, …, n-1` alike. -/
theorem foldl_range_congr {α : Type} (f g : α → ℕ → α) (z : α) (n : ℕ) (h : ∀ a j, j < n → f a j = g a j) :
    (List.range n).foldl f z = (List.range n).foldl g z := by
  induction n with
  | zero => rfl
  | succ n ih =>
    rw [List.range_succ, List.foldl_append, List.foldl_append, List.foldl_cons, List.foldl_nil, List.foldl_cons,
      List.foldl_nil, ih (fun a j hj => h a j (by omega)), h _ n (by omega)]

/-- Lane `l` of accumulator `t` after `n` trips is the left fold from the zero word of any summands `g j` that the
    rows' windows equal. -/
theorem accAt_get_eq_foldl_of {nH nR : ℕ} [NeZero nH] [NeZero nR] (R : (SR nR).Idx → F .f32) (H : (SH nH).Idx → BitVec 32)
    (slot r₀ p₀ n t : ℕ) (ht : t < 4) (l : SL16.Idx) (g : ℕ → F .f32)
    (hg : ∀ j, j < n → accRow R H slot r₀ p₀ j t l = g j) :
    (accAt R H slot r₀ p₀ n).get t l = (List.range n).foldl (fun (a : F .f32) j => FloatOps.addf a (g j)) zf := by
  rw [accAt_get_foldl R H slot r₀ p₀ n t ht l]
  exact foldl_range_congr _ _ _ _ (fun a j hj => by rw [hg j hj])

/-- The window entry a trip adds, with the coordinates in range: entry `(slot, r₀ + j, H(p₀ + j) + 16 t + l)` of the rows. -/
theorem accRow_apply {nH nR : ℕ} [NeZero nH] [NeZero nR] (R : (SR nR).Idx → F .f32) (H : (SH nH).Idx → BitVec 32)
    (slot r₀ p₀ j t : ℕ) (l : SL16.Idx) (hs : slot < 2) (hr : r₀ + j < nR) (hp : p₀ + j < nH)
    (hc : (H (ix1 ⟨p₀ + j, hp⟩)).toNat + 16 * t + (l 0).val < 128) :
    accRow R H slot r₀ p₀ j t l
      = R (ix3 ⟨slot, hs⟩ ⟨r₀ + j, hr⟩ ⟨(H (ix1 ⟨p₀ + j, hp⟩)).toNat + 16 * t + (l 0).val, hc⟩) := by
  unfold accRow
  have e : at1 H (p₀ + j) = H (ix1 ⟨p₀ + j, hp⟩) := at1_of_lt H hp
  rw [at3_of_lt R hs hr (by rw [e]; exact hc)]
  congr 1
  funext a
  match a with
  | ⟨0, _⟩ => rfl
  | ⟨1, _⟩ => rfl
  | ⟨2, _⟩ => exact Fin.ext (by show (at1 H (p₀ + j)).toNat + 16 * t + (l 0).val = _; rw [e])

end Cert.Proof.KI

end
-- ==== Proof.KI.Tile2Facts.lean ====
/-
  Pure facts about one vector subcore's task of the first embedding-sum call: the rewritten index words as row
  numbers of the pair table, the lane offsets, what a gather of 128 rows delivers, and the value one accumulate loop
  leaves in its four accumulators.
-/
import proofs.«219250_g10247791969013_week1_w1_750_27_alg».proof.Proof.KI.Tile2RingDefs
import proofs.«219250_g10247791969013_week1_w1_750_27_alg».proof.Proof.KI.AccFold

noncomputable section

namespace Cert.Proof.KI

open Cert.KernelIdeal Cert.KernelIdeal.Gen

open Idealize.ShloMosaic
open Idealize.ShloMosaic.ValueIdx

variable {F : FTy → Type} [FloatOps F]

/-! ## The rewritten words and the lane offsets -/

/-- After the whole rewrite a word of the list, as a number, is the table row it names, and that row is in the table. -/
theorem rew_toNat2 (ix g : S2048.Idx → BitVec 32) (hg : XI5 ix g 128) (hix : ∀ j, (ix j).toNat < 100000) (y : S2048.Idx) :
    (g y).toNat = gRow2 (F := F) ix (y 0).val ∧ (g y).toNat < 802816 := by
  have hy : (y 0).val < 2048 := (y 0).isLt
  have hgy := hg y
  rw [if_pos (by omega)] at hgy
  have hyy : ix (ix1 ⟨(y 0).val, hy⟩) = ix y := congrArg ix (eq_ix1 y).symm
  have hi := hix y
  have e : (g y).toNat = (ix y).toNat + (y 0).val % 16 / 2 * 100352 := by
    rw [hgy]
    unfold rewW2
    rw [BitVec.toNat_add, BitVec.toNat_ofNat]
    have h2 : (2 : ℕ) ^ 32 = 4294967296 := by norm_num
    rw [h2]
    omega
  refine ⟨?_, by omega⟩
  unfold gRow2
  rw [dif_pos hy, hyy, e]

/-- After the whole rewrite the lane offset at position `p` is `(p mod 16 mod 2) · 64`. -/
theorem half_val2 (g : (SH 2064).Idx → BitVec 32) (hg : XI6 g 128) (p : ℕ) (hp : p < 2048) :
    at1 g p = BitVec.ofNat 32 (p % 16 % 2 * 64) := by
  rw [at1_of_lt g (by omega : p < 2064)]
  exact hg (ix1 ⟨p, by omega⟩) (by show p < 16 * 128; omega)

/-- So it is 0 or 64. -/
theorem half_val2_cases (g : (SH 2064).Idx → BitVec 32) (hg : XI6 g 128) (p : ℕ) (hp : p < 2048) :
    at1 g p = 0#32 ∨ at1 g p = 64#32 := by
  rw [half_val2 g hg p hp]
  rcases Nat.mod_two_eq_zero_or_one (p % 16) with h | h
  · left; rw [h]
  · right; rw [h]

/-! ## What a gather delivers -/

/-- At rank one the position of an element is its coordinate. -/
theorem rowMajor_symm_rank1 {n : ℕ} (k : Fin (⟨1, ![n]⟩ : Shape).numel) (q : ℕ) (hq : q < n) (hk : k.val = q) :
    (⟨1, ![n]⟩ : Shape).rowMajor.symm k = ix1 ⟨q, hq⟩ := by
  rw [Equiv.symm_apply_eq]
  refine Fin.ext ?_
  rw [Shape.rowMajor_val_one]
  exact hk

/-- The gather of chunk `c`: row `r` of what it delivers is the table row the rewritten list names at position
    `128 c + r`. -/
theorem gather_spec2 (d : Dev nD) (L : grid2.Coords) (Tb : Buf (Elt F) ((tabM2).view.loc (thr2 d L))) (ix : S2048.Idx → Elt F .i32)
    (g5 : Buf (Elt F) ((sI2).view.loc (thr2 d L))) (hg5 : XI5 ix ((sI2).view.read (Elt F) g5) 128) (hix : ∀ j, (ix j).toNat < 100000)
    (c : ℕ) (off : Fin 1 → ℕ) (inb : ∀ a, off a + S128.size a ≤ S2048.size a) (hs) (hoff : off = ![128 * c])
    (hn : S128.numel = S128x128.size gathers_S802816x128_S128x128.axis')
    (hin : ∀ x, (((sI2).slice (Rect.unit (s := S2048) off S128.size inb) hs).view.read (Elt F) g5 x).toNat < S802816x128.size gathers_S802816x128_S128x128.axis) :
    SparseCore.gatherPayload gathers_S802816x128_S128x128 ((tabSl2).view.read (Elt F) Tb)
        (SparseCore.rows (((sI2).slice (Rect.unit (s := S2048) off S128.size inb) hs).view.read (Elt F) g5) hn hin)
      = gathSpec2 ((tabM2).view.read (Elt F) Tb) ix c := by
  subst hoff
  funext x
  have hx0 : (x 0).val < 128 := (x 0).isLt
  have hx1 : (x 1).val < 128 := (x 1).isLt
  have hc : 128 * c + 128 ≤ 2048 := by
    have h0 := inb 0
    have e1 : (![128 * c] : Fin 1 → ℕ) 0 = 128 * c := rfl
    have e2 : S128.size 0 = 128 := rfl
    have e3 : S2048.size 0 = 2048 := rfl
    omega
  have hw : ((sI2).slice (Rect.unit (s := S2048) ![128 * c] S128.size inb) hs).view.read (Elt F) g5 (ix1 ⟨(x 0).val, hx0⟩)
      = (sI2).view.read (Elt F) g5 (ix1 ⟨128 * c + (x 0).val, by omega⟩) := by
    show (sI2).view.read (Elt F) g5 ((Rect.unit (s := S2048) ![128 * c] S128.size inb).emb (ix1 ⟨(x 0).val, hx0⟩)) = _
    congr 1
    funext a
    match a with
    | ⟨0, _⟩ => exact Fin.ext (show 128 * c + 1 * (x 0).val = 128 * c + (x 0).val by omega)
  have hr := rew_toNat2 (F := F) ix _ hg5 hix (ix1 ⟨128 * c + (x 0).val, by omega⟩)
  have hr1 : ((sI2).view.read (Elt F) g5 (ix1 ⟨128 * c + (x 0).val, by omega⟩)).toNat = gRow2 (F := F) ix (128 * c + (x 0).val) := hr.1
  have hlt : gRow2 (F := F) ix (128 * c + (x 0).val) < 802816 := by rw [← hr1]; exact hr.2
  have hrow : (SparseCore.rows (((sI2).slice (Rect.unit (s := S2048) ![128 * c] S128.size inb) hs).view.read (Elt F) g5) hn hin
        (x gathers_S802816x128_S128x128.axis')).val
      = gRow2 (F := F) ix (128 * c + (x 0).val) := by
    have e := rowMajor_symm_rank1 (n := 128) ((x gathers_S802816x128_S128x128.axis').cast hn.symm) (x 0).val hx0 rfl
    show ((((sI2).slice (Rect.unit (s := S2048) ![128 * c] S128.size inb) hs).view.read (Elt F) g5)
      (S128.rowMajor.symm ((x gathers_S802816x128_S128x128.axis').cast hn.symm))).toNat = _
    rw [e, hw, hr1]
  unfold SparseCore.gatherPayload gathSpec2 tbAt2
  rw [dif_pos ⟨hlt, hx1⟩]
  show (tabM2).view.read (Elt F) Tb ((Rect.unit (s := S802816x128) ![0, 0] S802816x128.size _).emb
      (gathers_S802816x128_S128x128.idx _ x)) = _
  congr 1
  funext a
  match a with
  | ⟨0, _⟩ =>
    refine Fin.ext ?_
    show 0 + 1 * (gathers_S802816x128_S128x128.idx _ x ⟨0, _⟩).val = gRow2 (F := F) ix (128 * c + (x 0).val)
    rw [Nat.zero_add, Nat.one_mul]
    exact (congrArg Fin.val (Shape.Gathers.idx_axis gathers_S802816x128_S128x128 _ x)).trans hrow
  | ⟨1, _⟩ =>
    refine Fin.ext ?_
    show 0 + 1 * (gathers_S802816x128_S128x128.idx _ x ⟨1, _⟩).val = (x 1).val
    rw [Nat.zero_add, Nat.one_mul]
    exact Shape.Gathers.idx_of_ne gathers_S802816x128_S128x128 _ x ⟨1, by decide⟩ (by decide)

/-! ## The value of one accumulate loop -/

/-- With the gathered rows of the slot being the table rows the list names for chunk `chunk`, and the lane offsets
    `(p mod 16 mod 2) · 64`, lane `l` of accumulator `t` after the sixteen trips of batch row `bi` of the chunk is the
    task's entry at row `4 chunk + bi / 2`, lane `(bi mod 2) · 64 + 16 t + l`. -/
theorem acc_value2 (tb : S802816x128.Idx → Elt F .f32) (ix : S2048.Idx → Elt F .i32) (R : (SR 128).Idx → F .f32) (H : (SH 2064).Idx → BitVec 32)
    (slot chunk bi p₀ : ℕ) (hslot : slot < 2) (hchunk : chunk < 16) (hbi : bi < 8) (hp₀ : p₀ = 128 * chunk + 16 * bi)
    (hR : ∀ r c, r < 128 → c < 128 → at3 R slot r c = tbAt2 tb (gRow2 ix (128 * chunk + r)) c)
    (hH : ∀ p, p < 2048 → at1 H p = BitVec.ofNat 32 (p % 16 % 2 * 64))
    (t : ℕ) (ht : t < 4) (l : SL16.Idx) :
    (accAt R H slot (16 * bi) p₀ 16).get t l
      = OUT2 tb ix (ix2 (⟨4 * chunk + bi / 2, by omega⟩ : Fin 64) (⟨bi % 2 * 64 + 16 * t + (l 0).val, by have hl : (l 0).val < 16 := (l 0).isLt; omega⟩ : Fin 128)) := by
  subst hp₀
  have hl : (l 0).val < 16 := (l 0).isLt
  rw [accAt_get_eq_foldl_of R H slot (16 * bi) (128 * chunk + 16 * bi) 16 t ht l
    (fun j => tbAt2 tb (gRow2 ix ((2 * (4 * chunk + bi / 2) + (bi % 2 * 64 + 16 * t + (l 0).val) / 64) * 16 + j))
      (j % 2 * 64 + (bi % 2 * 64 + 16 * t + (l 0).val) % 64))
    (fun j hj => by
      unfold accRow
      have hw : at1 H (128 * chunk + 16 * bi + j) = BitVec.ofNat 32 (j % 2 * 64) := by
        rw [hH _ (by omega)]
        have e : (128 * chunk + 16 * bi + j) % 16 = j := by omega
        rw [e]
      have hn : (BitVec.ofNat 32 (j % 2 * 64)).toNat = j % 2 * 64 := by
        rw [BitVec.toNat_ofNat]
        have h2 : (2 : ℕ) ^ 32 = 4294967296 := by norm_num
        rw [h2]
        omega
      rw [hw, hn, hR (16 * bi + j) (j % 2 * 64 + 16 * t + (l 0).val) (by omega) (by omega)]
      have e1 : (2 * (4 * chunk + bi / 2) + (bi % 2 * 64 + 16 * t + (l 0).val) / 64) * 16 + j = 128 * chunk + (16 * bi + j) := by omega
      have e2 : j % 2 * 64 + (bi % 2 * 64 + 16 * t + (l 0).val) % 64 = j % 2 * 64 + 16 * t + (l 0).val := by omega
      rw [e1, e2])]
  rfl

end Cert.Proof.KI

end
-- ==== Proof.KI.Tile2Facts2.lean ====
/-
  The two gather buffers of a vector subcore's task as parts of the scratch of gathered rows: the rows of slot 0
  (resp. 1) are exactly the even (resp. odd) buffer's elements, and what is written through a buffer is read back, at
  slot, row and lane, from the scratch.
-/
import proofs.«219250_g10247791969013_week1_w1_750_27_alg».proof.Proof.KI.Tile2RingDefs
import proofs.«219250_g10247791969013_week1_w1_750_27_alg».proof.Proof.KI.AccSpec
import Idealize.ShloMosaic.Lib.Writes
import Idealize.ShloMosaic.Lib.Exec.Geometry

noncomputable section

namespace Cert.Proof.KI

open Cert.KernelIdeal Cert.KernelIdeal.Gen

open Idealize.ShloMosaic
open Idealize.ShloMosaic.ValueIdx

variable {F : FTy → Type} [FloatOps F]

/-- The rows of one slot as a rectangle of the scratch. -/
abbrev slotRect2 (s : ℕ) (inb : ∀ a, (![s, 0, 0] : Fin 3 → ℕ) a + S1x128x128.size a ≤ S2x128x128.size a) : Rect S2x128x128 :=
  Rect.unit (s := S2x128x128) ![s, 0, 0] S1x128x128.size inb

/-- An element of slot `s` of the scratch lies in the rectangle of that slot. -/
theorem mem_slotRect2 (s : ℕ) (inb) (x : S2x128x128.Idx) (hx : (x 0).val = s) : x ∈ (slotRect2 s inb).set := by
  rw [Rect.mem_set_unit]
  intro a
  match a with
  | ⟨0, _⟩ =>
    show s ≤ (x 0).val ∧ (x 0).val < s + 1
    omega
  | ⟨1, _⟩ =>
    have h1 : (x 1).val < 128 := (x 1).isLt
    show 0 ≤ (x 1).val ∧ (x 1).val < 0 + 128
    omega
  | ⟨2, _⟩ =>
    have h2 : (x 2).val < 128 := (x 2).isLt
    show 0 ≤ (x 2).val ∧ (x 2).val < 0 + 128
    omega

omit [FloatOps F] in
/-- Slot 0's rows are among the even buffer's elements. -/
theorem hIR_A2 : ∀ x : (SR 128).Idx, (x 0).val = 0 → (sR2).view.emb x ∈ (dstA2).view.set := by
  intro x hx
  rw [Memref.set_view_squeeze]
  show (sR2).view.emb x ∈ ((sR2).view.slice (slotRect2 0 inb_S2x128x128_S1x128x128_0_0_0)).set
  rw [View.set_slice]
  exact Finset.mem_map_of_mem _ (mem_slotRect2 0 _ x hx)

omit [FloatOps F] in
/-- Slot 1's rows are among the odd buffer's elements. -/
theorem hIR_B2 : ∀ x : (SR 128).Idx, (x 0).val = 1 → (sR2).view.emb x ∈ (dstB2).view.set := by
  intro x hx
  rw [Memref.set_view_squeeze]
  show (sR2).view.emb x ∈ ((sR2).view.slice (slotRect2 1 inb_S2x128x128_S1x128x128_1_0_0)).set
  rw [View.set_slice]
  exact Finset.mem_map_of_mem _ (mem_slotRect2 1 _ x hx)

/-- The row-major regrouping of one slot's rows `1 × 128 × 128` as `128 × 128` keeps row and lane. -/
theorem reshape_slot_symm (h : S128x128.numel = S1x128x128.numel) (r c : ℕ) (hr : r < 128) (hc : c < 128) :
    (Shape.reshapeEquiv h).symm (ix3 (0 : Fin 1) (⟨r, hr⟩ : Fin 128) (⟨c, hc⟩ : Fin 128) : S1x128x128.Idx)
      = (ix2 (⟨r, hr⟩ : Fin 128) (⟨c, hc⟩ : Fin 128) : S128x128.Idx) := by
  rw [Equiv.symm_apply_eq]
  refine (Shape.reshapeEquiv_eq_of_rowMajor h ?_).symm
  rw [Shape.rowMajor_val_three, Shape.rowMajor_val_two]
  show (0 * 128 + r) * 128 + c = r * 128 + c
  omega

/-- What is written through the buffer of slot `s` is read back from the scratch at `(s, r, c)`. -/
theorem read_slot2 (s : ℕ) (hs : s < 2) (inb) (hq : S1x128x128.Squeezes S128x128)
    (g : (sR2).view.ty.Contents (Elt F)) (p : S128x128.Idx → Elt F .f32) (r c : ℕ) (hr : r < 128) (hc : c < 128) :
    at3 ((sR2).view.read (Elt F)
        ((((sR2).slice (slotRect2 s inb) (fun _ => rfl)).squeeze S128x128 hq).view.write (Elt F) g p Finset.univ)) s r c
      = p (ix2 ⟨r, hr⟩ ⟨c, hc⟩) := by
  rw [at3_of_lt _ hs hr hc]
  show (sR2).view.read (Elt F) ((((sR2).view.slice (slotRect2 s inb)).reshape S128x128 hq.numel_eq).write (Elt F) g p Finset.univ)
    (ix3 ⟨s, hs⟩ ⟨r, hr⟩ ⟨c, hc⟩) = _
  rw [View.write_reshape_univ]
  have hx : (ix3 (⟨s, hs⟩ : Fin 2) (⟨r, hr⟩ : Fin 128) (⟨c, hc⟩ : Fin 128) : S2x128x128.Idx)
      = (slotRect2 s inb).emb (ix3 (0 : Fin 1) (⟨r, hr⟩ : Fin 128) (⟨c, hc⟩ : Fin 128) : S1x128x128.Idx) := by
    funext a
    match a with
    | ⟨0, _⟩ => exact Fin.ext (show s = s + 1 * 0 by omega)
    | ⟨1, _⟩ => exact Fin.ext (show r = 0 + 1 * r by omega)
    | ⟨2, _⟩ => exact Fin.ext (show c = 0 + 1 * c by omega)
  rw [hx, View.read_slice_write_emb _ _ _ (Finset.mem_univ _), reshape_slot_symm _ r c hr hc]

/-- The even buffer. -/
theorem read_slotA2 (g : (sR2).view.ty.Contents (Elt F)) (p : S128x128.Idx → Elt F .f32) (r c : ℕ) (hr : r < 128) (hc : c < 128) :
    at3 ((sR2).view.read (Elt F) ((dstA2).view.write (Elt F) g p Finset.univ)) 0 r c = p (ix2 ⟨r, hr⟩ ⟨c, hc⟩) :=
  read_slot2 0 (by decide) inb_S2x128x128_S1x128x128_0_0_0 squeezes_S1x128x128_S128x128 g p r c hr hc

/-- The odd buffer. -/
theorem read_slotB2 (g : (sR2).view.ty.Contents (Elt F)) (p : S128x128.Idx → Elt F .f32) (r c : ℕ) (hr : r < 128) (hc : c < 128) :
    at3 ((sR2).view.read (Elt F) ((dstB2).view.write (Elt F) g p Finset.univ)) 1 r c = p (ix2 ⟨r, hr⟩ ⟨c, hc⟩) :=
  read_slot2 1 (by decide) inb_S2x128x128_S1x128x128_1_0_0 squeezes_S1x128x128_S128x128 g p r c hr hc

end Cert.Proof.KI

end
-- ==== Proof.KI.Tile2Stores.lean ====
/-
  Four 16-lane stores of four accumulators into one row of a 64 × 128 block, read back: inside the 64 lanes written
  the block holds the accumulators' lanes, elsewhere what it held before.
-/
import proofs.«219250_g10247791969013_week1_w1_750_27_alg».proof.Proof.KI.Tile2RingDefs
import proofs.«219250_g10247791969013_week1_w1_750_27_alg».proof.Proof.KI.AccSpec
import Idealize.ShloMosaic.Lib.Writes
import Idealize.ShloMosaic.Lib.ValueLayout

noncomputable section

namespace Cert.Proof.KI

open Cert.KernelIdeal Cert.KernelIdeal.Gen

open Idealize.ShloMosaic
open Idealize.ShloMosaic.ValueIdx

variable {F : FTy → Type} [FloatOps F]

/-- An element the last piece does not cover reads as under the pieces before it. -/
theorem read_writes_cons_of_not_mem {κ : Kind} {sp : Space} {s : Shape} {e : EltTy} (v : View sig κ sp s e)
    (g : v.ty.Contents (Elt F)) (p : View.Piece (Elt F) s e) (L : List (View.Piece (Elt F) s e)) (y : s.Idx) (h : y ∉ p.1.set) :
    v.read (Elt F) (v.writes (Elt F) g (p :: L)) y = v.read (Elt F) (v.writes (Elt F) g L) y := by
  rw [View.writes_cons, View.read_slice_write_of_not_mem p.1 _ _ _ (by rw [Rect.map_emb_univ]; exact h)]

/-- One 16-lane piece written at `(row, col)`, over earlier pieces `L`: inside it the vector's lane, outside what the
    earlier pieces left. -/
theorem read_piece1x16 {κ : Kind} {sp : Space} (v : View sig κ sp S64x128 .f32) (g : v.ty.Contents (Elt F))
    (w : SL16.Idx → F .f32) (off : Fin 2 → ℕ) (inb : ∀ a, off a + S1x16.size a ≤ S64x128.size a) (row col : ℕ)
    (hoff : off = ![row, col]) (hsc : SL16.ShapeCasts S1x16) (L : List (View.Piece (Elt F) S64x128 .f32)) (x : S64x128.Idx) :
    v.read (Elt F) (v.writes (Elt F) g (⟨Rect.unit (s := S64x128) off S1x16.size inb, shapeCast S1x16 w hsc⟩ :: L)) x
      = if h : (x 0).val = row ∧ col ≤ (x 1).val ∧ (x 1).val < col + 16 then w (ix1 (⟨(x 1).val - col, by omega⟩ : Fin 16))
        else v.read (Elt F) (v.writes (Elt F) g L) x := by
  subst hoff
  split
  · rename_i h
    have hx : x = (Rect.unit (s := S64x128) ![row, col] S1x16.size inb).emb
        (ix2 (0 : Fin 1) (⟨(x 1).val - col, by omega⟩ : Fin 16) : S1x16.Idx) := by
      funext a
      match a with
      | ⟨0, _⟩ => exact Fin.ext (show (x 0).val = row + 1 * 0 by omega)
      | ⟨1, _⟩ => exact Fin.ext (show (x 1).val = col + 1 * ((x 1).val - col) by omega)
    conv_lhs => rw [hx]
    rw [View.read_writes_cons_emb (Val := Elt F) v g (Rect.unit (s := S64x128) ![row, col] S1x16.size inb) (shapeCast S1x16 w hsc) L _]
    exact shapeCast_a_1a_apply w hsc 0 _
  · rename_i h
    refine read_writes_cons_of_not_mem v g _ L x ?_
    rw [Rect.mem_set_unit]
    intro hm
    have h0 := hm 0
    have h1 := hm 1
    have e0 : (![row, col] : Fin 2 → ℕ) 0 = row := rfl
    have e1 : (![row, col] : Fin 2 → ℕ) 1 = col := rfl
    have s0 : S1x16.size 0 = 1 := rfl
    have s1 : S1x16.size 1 = 16 := rfl
    rw [e0, s0] at h0
    rw [e1, s1] at h1
    exact h ⟨by omega, by omega, by omega⟩

/-- The four stores after an accumulate loop (the last listed first): row `row`, lanes `c0 … c0 + 63` hold lane
    `(λ - c0) mod 16` of accumulator `(λ - c0) / 16`; every other element is as before. -/
theorem read_four_stores {κ : Kind} {sp : Space} (v : View sig κ sp S64x128 .f32) (g : v.ty.Contents (Elt F)) (a : Acc4 F)
    (row c0 : ℕ) (o0 o1 o2 o3 : Fin 2 → ℕ)
    (i0 : ∀ b, o0 b + S1x16.size b ≤ S64x128.size b) (i1 : ∀ b, o1 b + S1x16.size b ≤ S64x128.size b)
    (i2 : ∀ b, o2 b + S1x16.size b ≤ S64x128.size b) (i3 : ∀ b, o3 b + S1x16.size b ≤ S64x128.size b)
    (h0 : o0 = ![row, c0]) (h1 : o1 = ![row, c0 + 16]) (h2 : o2 = ![row, c0 + 32]) (h3 : o3 = ![row, c0 + 48])
    (hsc : SL16.ShapeCasts S1x16) (x : S64x128.Idx) :
    v.read (Elt F) (v.writes (Elt F) g
        [⟨Rect.unit (s := S64x128) o3 S1x16.size i3, shapeCast S1x16 a.2.2.2 hsc⟩,
         ⟨Rect.unit (s := S64x128) o2 S1x16.size i2, shapeCast S1x16 a.2.2.1 hsc⟩,
         ⟨Rect.unit (s := S64x128) o1 S1x16.size i1, shapeCast S1x16 a.2.1 hsc⟩,
         ⟨Rect.unit (s := S64x128) o0 S1x16.size i0, shapeCast S1x16 a.1 hsc⟩]) x
      = if h : (x 0).val = row ∧ c0 ≤ (x 1).val ∧ (x 1).val < c0 + 64
        then (a.get (((x 1).val - c0) / 16)) (ix1 (⟨((x 1).val - c0) % 16, Nat.mod_lt _ (by decide)⟩ : Fin 16))
        else v.read (Elt F) g x := by
  rw [read_piece1x16 v g a.2.2.2 o3 i3 row (c0 + 48) h3 hsc _ x]
  split
  · rename_i q3
    rw [dif_pos ⟨q3.1, by omega, by omega⟩]
    have e : ((x 1).val - c0) / 16 = 3 := by omega
    rw [e]
    refine congrArg (fun i : Fin 16 => a.2.2.2 (ix1 i)) (Fin.ext ?_)
    show (x 1).val - (c0 + 48) = ((x 1).val - c0) % 16
    omega
  · rename_i q3
    rw [read_piece1x16 v g a.2.2.1 o2 i2 row (c0 + 32) h2 hsc _ x]
    split
    · rename_i q2
      rw [dif_pos ⟨q2.1, by omega, by omega⟩]
      have e : ((x 1).val - c0) / 16 = 2 := by omega
      rw [e]
      refine congrArg (fun i : Fin 16 => a.2.2.1 (ix1 i)) (Fin.ext ?_)
      show (x 1).val - (c0 + 32) = ((x 1).val - c0) % 16
      omega
    · rename_i q2
      rw [read_piece1x16 v g a.2.1 o1 i1 row (c0 + 16) h1 hsc _ x]
      split
      · rename_i q1
        rw [dif_pos ⟨q1.1, by omega, by omega⟩]
        have e : ((x 1).val - c0) / 16 = 1 := by omega
        rw [e]
        refine congrArg (fun i : Fin 16 => a.2.1 (ix1 i)) (Fin.ext ?_)
        show (x 1).val - (c0 + 16) = ((x 1).val - c0) % 16
        omega
      · rename_i q1
        rw [read_piece1x16 v g a.1 o0 i0 row c0 h0 hsc _ x]
        split
        · rename_i q0
          rw [dif_pos ⟨q0.1, by omega, by omega⟩]
          have e : ((x 1).val - c0) / 16 = 0 := by omega
          rw [e]
          refine congrArg (fun i : Fin 16 => a.1 (ix1 i)) (Fin.ext ?_)
          show (x 1).val - c0 = ((x 1).val - c0) % 16
          omega
        · rename_i q0
          rw [dif_neg (fun hh => by
            have := hh.1; have := hh.2.1; have := hh.2.2
            by_cases c3 : c0 + 48 ≤ (x 1).val
            · exact q3 ⟨hh.1, c3, by omega⟩
            · by_cases c2 : c0 + 32 ≤ (x 1).val
              · exact q2 ⟨hh.1, c2, by omega⟩
              · by_cases c1 : c0 + 16 ≤ (x 1).val
                · exact q1 ⟨hh.1, c1, by omega⟩
                · exact q0 ⟨hh.1, hh.2.1, by omega⟩)]
          rfl

end Cert.Proof.KI

end
-- ==== Proof.KI.Tile2Ring.lean ====
/-
  The ring of gathers of one vector subcore's task: the invariant of its loop — both gathers of a trip's two chunks in
  flight on their semaphores, the block of sums done below the trip's rows.
-/
import proofs.«219250_g10247791969013_week1_w1_750_27_alg».proof.Proof.KI.Tile2Pre
import proofs.«219250_g10247791969013_week1_w1_750_27_alg».proof.Proof.KI.Tile2RingDefs
import proofs.«219250_g10247791969013_week1_w1_750_27_alg».proof.Proof.KI.Accum
import proofs.«219250_g10247791969013_week1_w1_750_27_alg».proof.Proof.KI.Tile2Facts
import proofs.«219250_g10247791969013_week1_w1_750_27_alg».proof.Proof.KI.Tile2Facts2
import proofs.«219250_g10247791969013_week1_w1_750_27_alg».proof.Proof.KI.Tile2Stores
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid2.Coords)

set_option quotPrecheck false in
local notation "tabSlN" => ((tabM2).slice (Rect.unit (s := S802816x128) ![0, 0] S802816x128.size inb_S802816x128_S802816x128_0_0) (fun _ => rfl))
set_option quotPrecheck false in
local notation "dstAN" => (((sR2).slice (Rect.unit (s := S2x128x128) ![0, 0, 0] S1x128x128.size inb_S2x128x128_S1x128x128_0_0_0) (fun _ => rfl)).squeeze S128x128 squeezes_S1x128x128_S128x128)
set_option quotPrecheck false in
local notation "dstBN" => (((sR2).slice (Rect.unit (s := S2x128x128) ![1, 0, 0] S1x128x128.size inb_S2x128x128_S1x128x128_1_0_0) (fun _ => rfl)).squeeze S128x128 squeezes_S1x128x128_S128x128)

omit [FloatOps F] in
theorem lt16a {k : ℕ} (h : k < 8) : 2 * k < 16 := by omega
omit [FloatOps F] in
theorem lt16b {k : ℕ} (h : k < 8) : 2 * k + 1 < 16 := by omega
variable (q : PosShare TreeShare) (Tb : Buf (Elt F) ((tabM2).view.loc (thr2 d L)))
  (tb : S802816x128.Idx → Elt F .f32) (ix : S2048.Idx → Elt F .i32)
  (g5 : Buf (Elt F) ((sI2).view.loc (thr2 d L))) (g6 : Buf (Elt F) ((sH2).view.loc (thr2 d L)))
  (O : CellTallies nD τ sig (HIx 2)) (W : Waits sig (HIx 2))

/-- A gather in flight on semaphore `sm`: it delivers the buffer's elements `Sd` at contents `gw`, the list's elements
    `So` and the table's share `qt` back. -/
def flight2 (sm : DmaSem sig) (Sd : Finset S2x128x128.Idx) (gw : Buf (Elt F) ((sR2).view.loc (thr2 d L))) (So : Finset S2048.Idx)
    (ql qt : PosShare TreeShare) : sProp 𝕄 :=
  Transfers.Flight countersEmb (thr2 d L) (SemLoc.dma sm) (default : HIx 2) 524288
    iprop((((sR2).view.loc (thr2 d L) ↦[Sd]{fullShare} gw) ∗ ((sI2).view.loc (thr2 d L) ↦[So]{ql} g5))
      ∗ ((tabM2).view.loc (thr2 d L) ↦[((tabSlN).view.set : Finset S802816x128.Idx)]{qt} Tb))

/-- Before trip `k < 8` of the ring: the gathers of chunks `2 k` and `2 k + 1` in flight, the block of sums done
    below row `8 k`. -/
def ringBusy2 (k : ℕ) (hk : k < 8) : sProp 𝕄 :=
  iprop(∃ (gA gB gR : Buf (Elt F) ((sR2).view.loc (thr2 d L))) (g8 : Buf (Elt F) ((sO2).view.loc (thr2 d L))) (W' : Waits sig (HIx 2))
      (pA pB : S128x128.Idx → Elt F .f32),
    owes (thr2 d L) O W' ∗ ((sH2).view.loc (thr2 d L) ↦{fullShare} g6) ∗ ((sO2).view.loc (thr2 d L) ↦{fullShare} g8)
    ∗ Aside ((tabM2).view.loc (thr2 d L) ↦[(tabM2).view.set \ ((tabSlN).view.set : Finset S802816x128.Idx)]{q.left} Tb)
    ∗ Aside ((tabM2).view.loc (thr2 d L) ↦[(tabM2).view.set \ ((tabSlN).view.set : Finset S802816x128.Idx)]{q.right} Tb)
    ∗ flight2 d L Tb g5 cc2_scratch4.sem ((dstAN).view.set : Finset S2x128x128.Idx) ((dstAN).view.write (Elt F) gA pA Finset.univ) (((offsC2 (2 * k) (lt16a hk)).view.set : Finset S2048.Idx)) fullShare.left q.left
    ∗ flight2 d L Tb g5 cc2_scratch5.sem ((dstBN).view.set : Finset S2x128x128.Idx) ((dstBN).view.write (Elt F) gB pB Finset.univ) (((offsC2 (2 * k + 1) (lt16b hk)).view.set : Finset S2048.Idx)) fullShare.right q.right
    ∗ Aside ((sR2).view.loc (thr2 d L) ↦[(Finset.univ \ ((dstAN).view.set : Finset S2x128x128.Idx)) \ ((dstBN).view.set : Finset S2x128x128.Idx)]{fullShare} gR)
    ∗ Aside ((sI2).view.loc (thr2 d L) ↦[Finset.univ \ ((offsC2 (2 * k) (lt16a hk)).view.set : Finset S2048.Idx)]{fullShare.left} g5)
    ∗ Aside ((sI2).view.loc (thr2 d L) ↦[Finset.univ \ ((offsC2 (2 * k + 1) (lt16b hk)).view.set : Finset S2048.Idx)]{fullShare.right} g5)
    ∗ ⌜(∀ p ∈ W', p ∈ W ∨ p.2 = none) ∧ OutOK2 tb ix k ((sO2).view.read (Elt F) g8)
        ∧ pA = gathSpec2 tb ix (2 * k) ∧ pB = gathSpec2 tb ix (2 * k + 1)⌝)

/-- After the last trip: nothing in flight, the block of sums done. -/
def ringDone2 : sProp 𝕄 :=
  iprop(∃ (gR : Buf (Elt F) ((sR2).view.loc (thr2 d L))) (g8 : Buf (Elt F) ((sO2).view.loc (thr2 d L))) (W' : Waits sig (HIx 2)),
    owes (thr2 d L) O W' ∗ ((sH2).view.loc (thr2 d L) ↦{fullShare} g6) ∗ ((sO2).view.loc (thr2 d L) ↦{fullShare} g8)
    ∗ Aside ((tabM2).view.loc (thr2 d L) ↦[(tabM2).view.set \ ((tabSlN).view.set : Finset S802816x128.Idx)]{q.left} Tb)
    ∗ Aside ((tabM2).view.loc (thr2 d L) ↦[(tabM2).view.set \ ((tabSlN).view.set : Finset S802816x128.Idx)]{q.right} Tb)
    ∗ semVal (cellA2 d L) 0 ∗ semVal (cellB2 d L) 0
    ∗ ((sR2).view.loc (thr2 d L) ↦{fullShare} gR) ∗ ((sI2).view.loc (thr2 d L) ↦{fullShare} g5)
    ∗ ((tabM2).view.loc (thr2 d L) ↦[((tabSlN).view.set : Finset S802816x128.Idx)]{q.left} Tb) ∗ ((tabM2).view.loc (thr2 d L) ↦[((tabSlN).view.set : Finset S802816x128.Idx)]{q.right} Tb)
    ∗ ⌜(∀ p ∈ W', p ∈ W ∨ p.2 = none) ∧ OutOK2 tb ix 8 ((sO2).view.read (Elt F) g8)⌝)

/-- The ring loop's invariant. -/
def ringInv2 (k : ℕ) (_ : Unit) : sProp 𝕄 :=
  if h : k < 8 then ringBusy2 d L q Tb tb ix g5 g6 O W k h else ringDone2 d L q Tb tb ix g5 g6 O W

end Cert.Proof.KI

end
-- ==== Proof.KI.Tile2Chunks.lean ====
/-
  The index list of a vector subcore's task cut into its sixteen chunks of 128 words: the chunks the two gathers of
  the next trip name are the chunks `2 (k + 1)` and `2 (k + 1) + 1`, they lie outside the two chunks of trip `k`, and
  the list held in those pieces is the list held whole; likewise the two gather buffers and the rest of the scratch of
  gathered rows.
-/
import proofs.«219250_g10247791969013_week1_w1_750_27_alg».proof.Proof.KI.Tile2Ring

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The chunks as intervals of positions -/

/-- The 128 words from position `q` of the list: a word belongs to them when its position is in `[q, q + 128)`. -/
theorem mem_chunk2 (off : Fin 1 → ℕ) (inb : ∀ a, off a + S128.size a ≤ S2048.size a) (hs) (q : ℕ) (hoff : off = ![q]) (i : S2048.Idx) :
    i ∈ (((sI2).slice (Rect.unit (s := S2048) off S128.size inb) hs).view.set : Finset S2048.Idx)
      ↔ q ≤ (i 0).val ∧ (i 0).val < q + 128 := by
  subst hoff
  have hset : (((sI2).slice (Rect.unit (s := S2048) ![q] S128.size inb) hs).view.set : Finset S2048.Idx)
      = (Rect.unit (s := S2048) ![q] S128.size inb).set := View.set_slice_whole _ _
  rw [hset, Rect.mem_set_unit]
  constructor
  · intro h
    exact h 0
  · intro h a
    obtain rfl : a = 0 := Subsingleton.elim _ _
    exact h

/-- Chunk `c`. -/
abbrev C2 (c : ℕ) (h : c < 16) : Finset S2048.Idx := ((offsC2 c h).view.set : Finset S2048.Idx)
/-- The chunk the even slot's next gather names. -/
abbrev A29 (k : Fin k2_t2_loop.trips) (hc : k2_cond1 k = 1#1) : Finset S2048.Idx :=
  (((sI2).slice (Rect.unit (s := S2048) (k2_off29 k) S128.size (k2_off29_inb k hc)) (fun _ => rfl)).view.set : Finset S2048.Idx)
/-- The chunk the odd slot's next gather names. -/
abbrev B55 (k : Fin k2_t2_loop.trips) (hc2 : k2_cond2 k = 1#1) : Finset S2048.Idx :=
  (((sI2).slice (Rect.unit (s := S2048) (k2_off55 k) S128.size (k2_off55_inb k hc2)) (fun _ => rfl)).view.set : Finset S2048.Idx)

theorem mem_C2 (c : ℕ) (h : c < 16) (i : S2048.Idx) : i ∈ C2 c h ↔ 128 * c ≤ (i 0).val ∧ (i 0).val < 128 * c + 128 :=
  mem_chunk2 _ _ _ (128 * c) rfl i
theorem mem_A29 (k : Fin k2_t2_loop.trips) (hc : k2_cond1 k = 1#1) (i : S2048.Idx) :
    i ∈ A29 k hc ↔ 256 * k.val + 256 ≤ (i 0).val ∧ (i 0).val < 256 * k.val + 256 + 128 :=
  mem_chunk2 _ _ _ (256 * k.val + 256) (k2_off29_eq k) i
theorem mem_B55 (k : Fin k2_t2_loop.trips) (hc2 : k2_cond2 k = 1#1) (i : S2048.Idx) :
    i ∈ B55 k hc2 ↔ 256 * k.val + 384 ≤ (i 0).val ∧ (i 0).val < 256 * k.val + 384 + 128 :=
  mem_chunk2 _ _ _ (256 * k.val + 384) (k2_off55_eq k) i

/-- The even slot's next chunk lies outside the two chunks of trip `k`. -/
theorem chunkA_sub2 (k : Fin k2_t2_loop.trips) (hc : k2_cond1 k = 1#1) :
    A29 k hc ⊆ (Finset.univ \ C2 (2 * k.val) (lt16a k.isLt)) \ C2 (2 * k.val + 1) (lt16b k.isLt) := by
  intro i hi
  rw [mem_A29] at hi
  rw [Finset.mem_sdiff, Finset.mem_sdiff, mem_C2, mem_C2]
  exact ⟨⟨Finset.mem_univ _, by omega⟩, by omega⟩

/-- The odd slot's next chunk lies outside those two and outside the even slot's next chunk. -/
theorem chunkB_sub2 (k : Fin k2_t2_loop.trips) (hc : k2_cond1 k = 1#1) (hc2 : k2_cond2 k = 1#1) :
    B55 k hc2 ⊆ ((Finset.univ \ C2 (2 * k.val) (lt16a k.isLt)) \ C2 (2 * k.val + 1) (lt16b k.isLt)) \ A29 k hc := by
  intro i hi
  rw [mem_B55] at hi
  rw [Finset.mem_sdiff, Finset.mem_sdiff, Finset.mem_sdiff, mem_C2, mem_C2, mem_A29]
  exact ⟨⟨⟨Finset.mem_univ _, by omega⟩, by omega⟩, by omega⟩

/-- The even slot's next chunk is chunk `2 (k + 1)`. -/
theorem eqA2 (k : Fin k2_t2_loop.trips) (hc : k2_cond1 k = 1#1) (hk7 : k.val + 1 < 8) :
    A29 k hc = C2 (2 * (k.val + 1)) (lt16a hk7) := by
  ext i
  rw [mem_A29, mem_C2]
  omega

/-- The odd slot's next chunk is chunk `2 (k + 1) + 1`. -/
theorem eqB2 (k : Fin k2_t2_loop.trips) (hc2 : k2_cond2 k = 1#1) (hk7 : k.val + 1 < 8) :
    B55 k hc2 = C2 (2 * (k.val + 1) + 1) (lt16b hk7) := by
  ext i
  rw [mem_B55, mem_C2]
  omega

/-! ## The list held in pieces is the list held -/

variable (d : Dev nD) (L : grid2.Coords)

/-- The two chunks of trip `k` and the rest of the list less the two chunks named next: the list less those two. -/
theorem chunks_rejoin2 (k : Fin k2_t2_loop.trips) (hc : k2_cond1 k = 1#1) (hc2 : k2_cond2 k = 1#1)
    (g5 : Buf (Elt F) ((sI2).view.loc (thr2 d L))) :
    iprop(((sI2).view.loc (thr2 d L) ↦[C2 (2 * k.val) (lt16a k.isLt)]{fullShare} g5)
        ∗ ((sI2).view.loc (thr2 d L) ↦[C2 (2 * k.val + 1) (lt16b k.isLt)]{fullShare} g5)
        ∗ ((sI2).view.loc (thr2 d L) ↦[(((Finset.univ \ C2 (2 * k.val) (lt16a k.isLt)) \ C2 (2 * k.val + 1) (lt16b k.isLt)) \ A29 k hc) \ B55 k hc2]{fullShare} g5))
      ⊢ ((sI2).view.loc (thr2 d L) ↦[(Finset.univ \ A29 k hc) \ B55 k hc2]{fullShare} g5 : sProp 𝕄) := by
  have hd1 : Disjoint (C2 (2 * k.val + 1) (lt16b k.isLt))
      ((((Finset.univ \ C2 (2 * k.val) (lt16a k.isLt)) \ C2 (2 * k.val + 1) (lt16b k.isLt)) \ A29 k hc) \ B55 k hc2) := by
    refine Finset.disjoint_left.mpr fun i h1 h2 => ?_
    rw [Finset.mem_sdiff, Finset.mem_sdiff, Finset.mem_sdiff] at h2
    exact h2.1.1.2 h1
  have hd0 : Disjoint (C2 (2 * k.val) (lt16a k.isLt))
      (C2 (2 * k.val + 1) (lt16b k.isLt) ∪
        ((((Finset.univ \ C2 (2 * k.val) (lt16a k.isLt)) \ C2 (2 * k.val + 1) (lt16b k.isLt)) \ A29 k hc) \ B55 k hc2)) := by
    refine Finset.disjoint_left.mpr fun i h1 h2 => ?_
    rcases Finset.mem_union.mp h2 with h2 | h2
    · rw [mem_C2] at h1 h2; omega
    · rw [Finset.mem_sdiff, Finset.mem_sdiff, Finset.mem_sdiff, Finset.mem_sdiff] at h2
      exact h2.1.1.1.2 h1
  have hset : C2 (2 * k.val) (lt16a k.isLt) ∪ (C2 (2 * k.val + 1) (lt16b k.isLt) ∪
        ((((Finset.univ \ C2 (2 * k.val) (lt16a k.isLt)) \ C2 (2 * k.val + 1) (lt16b k.isLt)) \ A29 k hc) \ B55 k hc2))
      = (Finset.univ \ A29 k hc) \ B55 k hc2 := by
    ext i
    simp only [Finset.mem_union, Finset.mem_sdiff, Finset.mem_univ, true_and]
    rw [mem_C2, mem_C2, mem_A29, mem_B55]
    constructor
    · rintro (h | h | h)
      · constructor <;> omega
      · constructor <;> omega
      · exact ⟨h.1.2, h.2⟩
    · intro h
      by_cases h0 : 128 * (2 * k.val) ≤ (i 0).val ∧ (i 0).val < 128 * (2 * k.val) + 128
      · exact .inl h0
      · by_cases h1 : 128 * (2 * k.val + 1) ≤ (i 0).val ∧ (i 0).val < 128 * (2 * k.val + 1) + 128
        · exact .inr (.inl h1)
        · exact .inr (.inr ⟨⟨⟨h0, h1⟩, h.1⟩, h.2⟩)
  refine (sep_mono_right (pointsTo_union hd1).2).trans (((pointsTo_union hd0).2).trans (Entails.of_eq ?_))
  rw [hset]

/-- At the last trip: the two chunks and the rest are the whole list. -/
theorem chunks_rejoin_last2 (k : Fin k2_t2_loop.trips) (g5 : Buf (Elt F) ((sI2).view.loc (thr2 d L))) :
    iprop(((sI2).view.loc (thr2 d L) ↦[C2 (2 * k.val) (lt16a k.isLt)]{fullShare} g5)
        ∗ ((sI2).view.loc (thr2 d L) ↦[C2 (2 * k.val + 1) (lt16b k.isLt)]{fullShare} g5)
        ∗ ((sI2).view.loc (thr2 d L) ↦[(Finset.univ \ C2 (2 * k.val) (lt16a k.isLt)) \ C2 (2 * k.val + 1) (lt16b k.isLt)]{fullShare} g5))
      ⊢ ((sI2).view.loc (thr2 d L) ↦{fullShare} g5 : sProp 𝕄) := by
  have h1 : C2 (2 * k.val + 1) (lt16b k.isLt) ⊆ Finset.univ \ C2 (2 * k.val) (lt16a k.isLt) := by
    intro i hi
    rw [Finset.mem_sdiff]
    refine ⟨Finset.mem_univ _, fun h0 => ?_⟩
    rw [mem_C2] at hi h0
    omega
  exact (sep_mono_right (pointsTo_split_subset h1).2).trans (pointsTo_split_subset (Finset.subset_univ _)).2

/-! ## The two gather buffers and the rest of the scratch -/

omit [FloatOps F] in
/-- An element of the even buffer is in slot 0, one of the odd buffer in slot 1. -/
theorem mem_dstA2 (x : S2x128x128.Idx) (hx : x ∈ ((dstA2).view.set : Finset S2x128x128.Idx)) : (x 0).val = 0 := by
  rw [Memref.set_view_squeeze] at hx
  have hset : (((sR2).slice (Rect.unit (s := S2x128x128) ![0, 0, 0] S1x128x128.size inb_S2x128x128_S1x128x128_0_0_0) (fun _ => rfl)).view.set : Finset S2x128x128.Idx)
      = (Rect.unit (s := S2x128x128) ![0, 0, 0] S1x128x128.size inb_S2x128x128_S1x128x128_0_0_0).set := View.set_slice_whole _ _
  rw [hset, Rect.mem_set_unit] at hx
  have h0 := hx 0
  have e0 : (![0, 0, 0] : Fin 3 → ℕ) 0 = 0 := rfl
  have s0 : S1x128x128.size 0 = 1 := rfl
  rw [e0, s0] at h0
  omega

omit [FloatOps F] in
theorem mem_dstB2 (x : S2x128x128.Idx) (hx : x ∈ ((dstB2).view.set : Finset S2x128x128.Idx)) : (x 0).val = 1 := by
  rw [Memref.set_view_squeeze] at hx
  have hset : (((sR2).slice (Rect.unit (s := S2x128x128) ![1, 0, 0] S1x128x128.size inb_S2x128x128_S1x128x128_1_0_0) (fun _ => rfl)).view.set : Finset S2x128x128.Idx)
      = (Rect.unit (s := S2x128x128) ![1, 0, 0] S1x128x128.size inb_S2x128x128_S1x128x128_1_0_0).set := View.set_slice_whole _ _
  rw [hset, Rect.mem_set_unit] at hx
  have h0 := hx 0
  have e0 : (![1, 0, 0] : Fin 3 → ℕ) 0 = 1 := rfl
  have s0 : S1x128x128.size 0 = 1 := rfl
  rw [e0, s0] at h0
  omega

/-- The two gather buffers and the rest of the scratch are the scratch, whole, at some contents. -/
theorem slots_rejoin2 (fA fB fR : Buf (Elt F) ((sR2).view.loc (thr2 d L))) :
    iprop(((sR2).view.loc (thr2 d L) ↦[(dstA2).view.set]{fullShare} fA) ∗ ((sR2).view.loc (thr2 d L) ↦[(dstB2).view.set]{fullShare} fB)
        ∗ ((sR2).view.loc (thr2 d L) ↦[(Finset.univ \ (dstA2).view.set) \ (dstB2).view.set]{fullShare} fR))
      ⊢ (∃ f, (sR2).view.loc (thr2 d L) ↦{fullShare} f : sProp 𝕄) := by
  have hB : ((dstB2).view.set : Finset S2x128x128.Idx) ⊆ Finset.univ \ ((dstA2).view.set : Finset S2x128x128.Idx) := by
    intro x hx
    rw [Finset.mem_sdiff]
    refine ⟨Finset.mem_univ _, fun hA => ?_⟩
    have h0 := mem_dstA2 x hA
    have h1 := mem_dstB2 x hx
    omega
  refine (sep_mono_right (pointsTo_join_subset hB)).trans ((pointsTo_join_subset (Finset.subset_univ _)).trans ?_)
  iintro H
  iexists _
  iexact H

end Cert.Proof.KI

end
-- ==== Proof.KI.Tile2Chunks2.lean ====
/-
  The two gather buffers of a vector subcore's task share no element.
-/
import proofs.«219250_g10247791969013_week1_w1_750_27_alg».proof.Proof.KI.Tile2Chunks

noncomputable section

namespace Cert.Proof.KI

open Cert.KernelIdeal Cert.KernelIdeal.Gen

open Idealize.ShloMosaic

/-- The even buffer's elements lie outside the odd buffer. -/
theorem disjAB2 : ((dstA2).view.set : Finset S2x128x128.Idx) ⊆ Finset.univ \ ((dstB2).view.set : Finset S2x128x128.Idx) := by
  intro x hx
  rw [Finset.mem_sdiff]
  refine ⟨Finset.mem_univ _, fun hB => ?_⟩
  have h0 := mem_dstA2 x hx
  have h1 := mem_dstB2 x hB
  omega

/-- The odd buffer's elements lie outside the even buffer. -/
theorem disjBA2 : ((dstB2).view.set : Finset S2x128x128.Idx) ⊆ Finset.univ \ ((dstA2).view.set : Finset S2x128x128.Idx) := by
  intro x hx
  rw [Finset.mem_sdiff]
  refine ⟨Finset.mem_univ _, fun hA => ?_⟩
  have h0 := mem_dstA2 x hA
  have h1 := mem_dstB2 x hx
  omega

end Cert.Proof.KI

end
-- ==== Proof.KI.Tile2Stores2.lean ====
/-
  Four 16-lane stores of four accumulators into one row of a 64 × 128 block, on top of earlier stores: inside the 64
  lanes written the block holds the accumulators' lanes, elsewhere what the earlier stores left.
-/
import proofs.«219250_g10247791969013_week1_w1_750_27_alg».proof.Proof.KI.Tile2Stores

noncomputable section

namespace Cert.Proof.KI

open Cert.KernelIdeal Cert.KernelIdeal.Gen

open Idealize.ShloMosaic
open Idealize.ShloMosaic.ValueIdx

variable {F : FTy → Type} [FloatOps F]

/-- The four stores after an accumulate loop (the last listed first) on top of earlier pieces `L`: row `row`, lanes
    `c0 … c0 + 63` hold lane `(λ - c0) mod 16` of accumulator `(λ - c0) / 16`; every other element is as the earlier
    pieces left it. -/
theorem read_four_stores_cons {κ : Kind} {sp : Space} (v : View sig κ sp S64x128 .f32) (g : v.ty.Contents (Elt F)) (a : Acc4 F)
    (row c0 : ℕ) (o0 o1 o2 o3 : Fin 2 → ℕ)
    (i0 : ∀ b, o0 b + S1x16.size b ≤ S64x128.size b) (i1 : ∀ b, o1 b + S1x16.size b ≤ S64x128.size b)
    (i2 : ∀ b, o2 b + S1x16.size b ≤ S64x128.size b) (i3 : ∀ b, o3 b + S1x16.size b ≤ S64x128.size b)
    (h0 : o0 = ![row, c0]) (h1 : o1 = ![row, c0 + 16]) (h2 : o2 = ![row, c0 + 32]) (h3 : o3 = ![row, c0 + 48])
    (hsc : SL16.ShapeCasts S1x16) (L : List (View.Piece (Elt F) S64x128 .f32)) (x : S64x128.Idx) :
    v.read (Elt F) (v.writes (Elt F) g
        (⟨Rect.unit (s := S64x128) o3 S1x16.size i3, shapeCast S1x16 a.2.2.2 hsc⟩ ::
         ⟨Rect.unit (s := S64x128) o2 S1x16.size i2, shapeCast S1x16 a.2.2.1 hsc⟩ ::
         ⟨Rect.unit (s := S64x128) o1 S1x16.size i1, shapeCast S1x16 a.2.1 hsc⟩ ::
         ⟨Rect.unit (s := S64x128) o0 S1x16.size i0, shapeCast S1x16 a.1 hsc⟩ :: L)) x
      = if h : (x 0).val = row ∧ c0 ≤ (x 1).val ∧ (x 1).val < c0 + 64
        then (a.get (((x 1).val - c0) / 16)) (ix1 (⟨((x 1).val - c0) % 16, Nat.mod_lt _ (by decide)⟩ : Fin 16))
        else v.read (Elt F) (v.writes (Elt F) g L) x := by
  rw [read_piece1x16 v g a.2.2.2 o3 i3 row (c0 + 48) h3 hsc _ x]
  split
  · rename_i q3
    rw [dif_pos ⟨q3.1, by omega, by omega⟩]
    have e : ((x 1).val - c0) / 16 = 3 := by omega
    rw [e]
    refine congrArg (fun i : Fin 16 => a.2.2.2 (ix1 i)) (Fin.ext ?_)
    show (x 1).val - (c0 + 48) = ((x 1).val - c0) % 16
    omega
  · rename_i q3
    rw [read_piece1x16 v g a.2.2.1 o2 i2 row (c0 + 32) h2 hsc _ x]
    split
    · rename_i q2
      rw [dif_pos ⟨q2.1, by omega, by omega⟩]
      have e : ((x 1).val - c0) / 16 = 2 := by omega
      rw [e]
      refine congrArg (fun i : Fin 16 => a.2.2.1 (ix1 i)) (Fin.ext ?_)
      show (x 1).val - (c0 + 32) = ((x 1).val - c0) % 16
      omega
    · rename_i q2
      rw [read_piece1x16 v g a.2.1 o1 i1 row (c0 + 16) h1 hsc _ x]
      split
      · rename_i q1
        rw [dif_pos ⟨q1.1, by omega, by omega⟩]
        have e : ((x 1).val - c0) / 16 = 1 := by omega
        rw [e]
        refine congrArg (fun i : Fin 16 => a.2.1 (ix1 i)) (Fin.ext ?_)
        show (x 1).val - (c0 + 16) = ((x 1).val - c0) % 16
        omega
      · rename_i q1
        rw [read_piece1x16 v g a.1 o0 i0 row c0 h0 hsc _ x]
        split
        · rename_i q0
          rw [dif_pos ⟨q0.1, by omega, by omega⟩]
          have e : ((x 1).val - c0) / 16 = 0 := by omega
          rw [e]
          refine congrArg (fun i : Fin 16 => a.1 (ix1 i)) (Fin.ext ?_)
          show (x 1).val - c0 = ((x 1).val - c0) % 16
          omega
        · rename_i q0
          rw [dif_neg (fun hh => by
            have := hh.1; have := hh.2.1; have := hh.2.2
            by_cases c3 : c0 + 48 ≤ (x 1).val
            · exact q3 ⟨hh.1, c3, by omega⟩
            · by_cases c2 : c0 + 32 ≤ (x 1).val
              · exact q2 ⟨hh.1, c2, by omega⟩
              · by_cases c1 : c0 + 16 ≤ (x 1).val
                · exact q1 ⟨hh.1, c1, by omega⟩
                · exact q0 ⟨hh.1, hh.2.1, by omega⟩)]

end Cert.Proof.KI

end
-- ==== Proof.KI.Tile2Blocks.lean ====
/-
  The block of sums after the stores of a whole trip: the stores come in blocks of four 16-lane pieces (one block per
  accumulate loop), each block covering 64 lanes of one row. An element some block covers reads the lane of the
  accumulator that block stored there; an element no block covers reads as before the trip. With the accumulators at
  their left folds, a covered element reads the task's entry.
-/
import proofs.«219250_g10247791969013_week1_w1_750_27_alg».proof.Proof.KI.Tile2Stores2
import proofs.«219250_g10247791969013_week1_w1_750_27_alg».proof.Proof.KI.Tile2Facts

noncomputable section

namespace Cert.Proof.KI

open Cert.KernelIdeal Cert.KernelIdeal.Gen

open Idealize.ShloMosaic
open Idealize.ShloMosaic.ValueIdx

variable {F : FTy → Type} [FloatOps F]

/-- One block of four stores: the row, the first lane, the four accumulators, and the four pieces' offsets with their
    in-bounds facts and closed forms. -/
structure Blk (F : FTy → Type) where
  row : ℕ
  c0 : ℕ
  a : Acc4 F
  o0 : Fin 2 → ℕ
  o1 : Fin 2 → ℕ
  o2 : Fin 2 → ℕ
  o3 : Fin 2 → ℕ
  i0 : ∀ b, o0 b + S1x16.size b ≤ S64x128.size b
  i1 : ∀ b, o1 b + S1x16.size b ≤ S64x128.size b
  i2 : ∀ b, o2 b + S1x16.size b ≤ S64x128.size b
  i3 : ∀ b, o3 b + S1x16.size b ≤ S64x128.size b
  h0 : o0 = ![row, c0]
  h1 : o1 = ![row, c0 + 16]
  h2 : o2 = ![row, c0 + 32]
  h3 : o3 = ![row, c0 + 48]

/-- The block's four pieces, the last stored first. -/
def Blk.pieces (b : Blk F) (hsc : SL16.ShapeCasts S1x16) : List (View.Piece (Elt F) S64x128 .f32) :=
  [⟨Rect.unit (s := S64x128) b.o3 S1x16.size b.i3, shapeCast S1x16 b.a.2.2.2 hsc⟩,
   ⟨Rect.unit (s := S64x128) b.o2 S1x16.size b.i2, shapeCast S1x16 b.a.2.2.1 hsc⟩,
   ⟨Rect.unit (s := S64x128) b.o1 S1x16.size b.i1, shapeCast S1x16 b.a.2.1 hsc⟩,
   ⟨Rect.unit (s := S64x128) b.o0 S1x16.size b.i0, shapeCast S1x16 b.a.1 hsc⟩]

/-- The block covers the element `x`. -/
def Blk.covers (b : Blk F) (x : S64x128.Idx) : Prop := (x 0).val = b.row ∧ b.c0 ≤ (x 1).val ∧ (x 1).val < b.c0 + 64

/-- What the block stored at an element it covers. -/
def Blk.at (b : Blk F) (x : S64x128.Idx) : F .f32 :=
  (b.a.get (((x 1).val - b.c0) / 16)) (ix1 (⟨((x 1).val - b.c0) % 16, Nat.mod_lt _ (by decide)⟩ : Fin 16))

/-- The pieces of a list of blocks, the last block first. -/
def blkPieces (hsc : SL16.ShapeCasts S1x16) : List (Blk F) → List (View.Piece (Elt F) S64x128 .f32)
  | [] => []
  | b :: bs => b.pieces hsc ++ blkPieces hsc bs

/-- One more block on top. -/
theorem read_blk_cons {κ : Kind} {sp : Space} (v : View sig κ sp S64x128 .f32) (g : v.ty.Contents (Elt F))
    (hsc : SL16.ShapeCasts S1x16) (b : Blk F) (bs : List (Blk F)) (x : S64x128.Idx) [Decidable (b.covers x)] :
    v.read (Elt F) (v.writes (Elt F) g (blkPieces hsc (b :: bs))) x
      = if b.covers x then b.at x else v.read (Elt F) (v.writes (Elt F) g (blkPieces hsc bs)) x := by
  have e := read_four_stores_cons v g b.a b.row b.c0 b.o0 b.o1 b.o2 b.o3 b.i0 b.i1 b.i2 b.i3 b.h0 b.h1 b.h2 b.h3 hsc
    (blkPieces hsc bs) x
  refine Eq.trans ?_ (e.trans ?_)
  · rfl
  · by_cases hc : b.covers x
    · have hc' : (x 0).val = b.row ∧ b.c0 ≤ (x 1).val ∧ (x 1).val < b.c0 + 64 := hc
      rw [if_pos hc, dif_pos hc']
      rfl
    · have hc' : ¬ ((x 0).val = b.row ∧ b.c0 ≤ (x 1).val ∧ (x 1).val < b.c0 + 64) := hc
      rw [if_neg hc, dif_neg hc']

/-- An element no block covers reads as before. -/
theorem read_blks_uncovered {κ : Kind} {sp : Space} (v : View sig κ sp S64x128 .f32) (g : v.ty.Contents (Elt F))
    (hsc : SL16.ShapeCasts S1x16) (x : S64x128.Idx) :
    ∀ bs : List (Blk F), (∀ b ∈ bs, ¬ b.covers x) → v.read (Elt F) (v.writes (Elt F) g (blkPieces hsc bs)) x = v.read (Elt F) g x
  | [], _ => rfl
  | b :: bs, h => by
    classical
    rw [read_blk_cons v g hsc b bs x, if_neg (h b List.mem_cons_self)]
    exact read_blks_uncovered v g hsc x bs fun b' hb' => h b' (List.mem_cons_of_mem _ hb')

/-- An element some block covers reads the value every covering block agrees on. -/
theorem read_blks_covered {κ : Kind} {sp : Space} (v : View sig κ sp S64x128 .f32) (g : v.ty.Contents (Elt F))
    (hsc : SL16.ShapeCasts S1x16) (x : S64x128.Idx) (val : F .f32) :
    ∀ bs : List (Blk F), (∃ b ∈ bs, b.covers x) → (∀ b ∈ bs, b.covers x → b.at x = val) →
      v.read (Elt F) (v.writes (Elt F) g (blkPieces hsc bs)) x = val
  | [], hex, _ => by obtain ⟨b, hb, _⟩ := hex; cases hb
  | b :: bs, hex, hval => by
    classical
    rw [read_blk_cons v g hsc b bs x]
    by_cases hc : b.covers x
    · rw [if_pos hc]; exact hval b List.mem_cons_self hc
    · rw [if_neg hc]
      refine read_blks_covered v g hsc x val bs ?_ fun b' hb' => hval b' (List.mem_cons_of_mem _ hb')
      obtain ⟨b', hb', hc'⟩ := hex
      rcases List.mem_cons.mp hb' with rfl | hb''
      · exact absurd hc' hc
      · exact ⟨b', hb'', hc'⟩

/-- A covered element of the block of batch row `bi` of chunk `chunk` reads the task's entry there, when the block's
    accumulators are the left folds over the chunk's gathered rows. -/
theorem blk_value2 (tb : S802816x128.Idx → Elt F .f32) (ix : S2048.Idx → Elt F .i32) (R : (SR 128).Idx → F .f32) (H : (SH 2064).Idx → BitVec 32)
    (slot chunk bi p₀ : ℕ) (hslot : slot < 2) (hchunk : chunk < 16) (hbi : bi < 8) (hp₀ : p₀ = 128 * chunk + 16 * bi)
    (hR : ∀ r c, r < 128 → c < 128 → at3 R slot r c = tbAt2 tb (gRow2 ix (128 * chunk + r)) c)
    (hH : ∀ p, p < 2048 → at1 H p = BitVec.ofNat 32 (p % 16 % 2 * 64))
    (b : Blk F) (hrow : b.row = 4 * chunk + bi / 2) (hc0 : b.c0 = bi % 2 * 64) (ha : b.a = accAt R H slot (16 * bi) p₀ 16)
    (x : S64x128.Idx) (hx : b.covers x) : b.at x = OUT2 tb ix x := by
  obtain ⟨h0, h1, h2⟩ := hx
  unfold Blk.at
  rw [ha, acc_value2 tb ix R H slot chunk bi p₀ hslot hchunk hbi hp₀ hR hH (((x 1).val - b.c0) / 16) (by omega)
    (ix1 (⟨((x 1).val - b.c0) % 16, Nat.mod_lt _ (by decide)⟩ : Fin 16))]
  congr 1
  funext a
  match a with
  | ⟨0, _⟩ => exact Fin.ext (show 4 * chunk + bi / 2 = (x 0).val by omega)
  | ⟨1, _⟩ => exact Fin.ext (show bi % 2 * 64 + 16 * (((x 1).val - b.c0) / 16) + ((x 1).val - b.c0) % 16 = (x 1).val by omega)

end Cert.Proof.KI

end
-- ==== Proof.KI.Tile2OutStep.lean ====
/-
  One trip of the ring completes eight more rows of the block of sums: if before the trip the block is done below row
  `8 k`, the trip's blocks of stores touch only rows `8 k … 8 k + 7`, cover each of their elements, and store the
  task's entries, then after the trip the block is done below row `8 (k + 1)`.
-/
import proofs.«219250_g10247791969013_week1_w1_750_27_alg».proof.Proof.KI.Tile2Blocks
import proofs.«219250_g10247791969013_week1_w1_750_27_alg».proof.Proof.KI.Tile2RingDefs

noncomputable section

namespace Cert.Proof.KI

open Cert.KernelIdeal Cert.KernelIdeal.Gen

open Idealize.ShloMosaic
open Idealize.ShloMosaic.ValueIdx

variable {F : FTy → Type} [FloatOps F]

theorem outOK_step2 {κ : Kind} {sp : Space} (v : View sig κ sp S64x128 .f32) (g : v.ty.Contents (Elt F))
    (tb : S802816x128.Idx → Elt F .f32) (ix : S2048.Idx → Elt F .i32) (k : ℕ)
    (hsc : SL16.ShapeCasts S1x16) (bs : List (Blk F))
    (hprev : OutOK2 tb ix k (v.read (Elt F) g))
    (hrows : ∀ b ∈ bs, 8 * k ≤ b.row)
    (hcover : ∀ x : S64x128.Idx, 8 * k ≤ (x 0).val → (x 0).val < 8 * (k + 1) → ∃ b ∈ bs, b.covers x)
    (hval : ∀ b ∈ bs, ∀ x : S64x128.Idx, b.covers x → b.at x = OUT2 tb ix x) :
    OutOK2 tb ix (k + 1) (v.read (Elt F) (v.writes (Elt F) g (blkPieces hsc bs))) := by
  intro x hx
  by_cases hlow : (x 0).val < 8 * k
  · rw [read_blks_uncovered v g hsc x bs (fun b hb hc => by
      have h1 := hrows b hb
      have h2 : (x 0).val = b.row := hc.1
      omega)]
    exact hprev x hlow
  · exact read_blks_covered v g hsc x _ bs (hcover x (by omega) hx) (fun b hb hc => hval b hb x hc)

end Cert.Proof.KI

end
-- ==== Proof.KI.Tile2TripOut.lean ====
/-
  The block of sums after one whole trip of the ring: the sixty-four 16-lane stores of the trip (sixteen accumulate
  loops, four stores each, the last listed first) complete rows `8 k … 8 k + 7`, given that before the trip the block
  was done below row `8 k`, that the two gather buffers hold the rows the list names for chunks `2 k` and `2 k + 1`,
  that the lane offsets are in place, and that each loop's accumulators are its left folds.
-/
import proofs.«219250_g10247791969013_week1_w1_750_27_alg».proof.Proof.KI.Tile2Facts2
import proofs.«219250_g10247791969013_week1_w1_750_27_alg».proof.Proof.Gen.KernelIdeal.Skeleton
import proofs.«219250_g10247791969013_week1_w1_750_27_alg».proof.Proof.KI.Tile2OutStep

set_option maxRecDepth 65536

noncomputable section

namespace Cert.Proof.KI

open Cert.KernelIdeal Cert.KernelIdeal.Gen

open Idealize.ShloMosaic
open Idealize.ShloMosaic.ValueIdx

variable {F : FTy → Type} [FloatOps F]

set_option maxHeartbeats 4000000 in
theorem trip_out2 (k : Fin k2_t2_loop.trips) (tb : S802816x128.Idx → Elt F .f32) (ix : S2048.Idx → Elt F .i32)
    (g8 : (sO2).view.ty.Contents (Elt F)) (gA gB : (sR2).view.ty.Contents (Elt F)) (pA pB : S128x128.Idx → Elt F .f32)
    (g6 : (sH2).view.ty.Contents (Elt F)) (acc3 acc4 acc5 acc6 acc7 acc8 acc9 acc10 acc11 acc12 acc13 acc14 acc15 acc16 acc17 acc18 : Acc4 F)
    (hprev : OutOK2 tb ix k.val ((sO2).view.read (Elt F) g8))
    (hpA : pA = gathSpec2 tb ix (2 * k.val)) (hpB : pB = gathSpec2 tb ix (2 * k.val + 1))
    (hg6 : XI6 ((sH2).view.read (Elt F) g6) 128)
    (hacc3 : acc3 = accAt ((sR2).view.read (Elt F) ((dstA2).view.write (Elt F) gA pA Finset.univ)) ((sH2).view.read (Elt F) g6) 0 0 (256 * k.val + 0) (Scf.trips k2_t3_loop.lb k2_t3_loop.ub k2_t3_loop.st))
    (hacc4 : acc4 = accAt ((sR2).view.read (Elt F) ((dstA2).view.write (Elt F) gA pA Finset.univ)) ((sH2).view.read (Elt F) g6) 0 16 (256 * k.val + 16) (Scf.trips k2_t4_loop.lb k2_t4_loop.ub k2_t4_loop.st))
    (hacc5 : acc5 = accAt ((sR2).view.read (Elt F) ((dstA2).view.write (Elt F) gA pA Finset.univ)) ((sH2).view.read (Elt F) g6) 0 32 (256 * k.val + 32) (Scf.trips k2_t5_loop.lb k2_t5_loop.ub k2_t5_loop.st))
    (hacc6 : acc6 = accAt ((sR2).view.read (Elt F) ((dstA2).view.write (Elt F) gA pA Finset.univ)) ((sH2).view.read (Elt F) g6) 0 48 (256 * k.val + 48) (Scf.trips k2_t6_loop.lb k2_t6_loop.ub k2_t6_loop.st))
    (hacc7 : acc7 = accAt ((sR2).view.read (Elt F) ((dstA2).view.write (Elt F) gA pA Finset.univ)) ((sH2).view.read (Elt F) g6) 0 64 (256 * k.val + 64) (Scf.trips k2_t7_loop.lb k2_t7_loop.ub k2_t7_loop.st))
    (hacc8 : acc8 = accAt ((sR2).view.read (Elt F) ((dstA2).view.write (Elt F) gA pA Finset.univ)) ((sH2).view.read (Elt F) g6) 0 80 (256 * k.val + 80) (Scf.trips k2_t8_loop.lb k2_t8_loop.ub k2_t8_loop.st))
    (hacc9 : acc9 = accAt ((sR2).view.read (Elt F) ((dstA2).view.write (Elt F) gA pA Finset.univ)) ((sH2).view.read (Elt F) g6) 0 96 (256 * k.val + 96) (Scf.trips k2_t9_loop.lb k2_t9_loop.ub k2_t9_loop.st))
    (hacc10 : acc10 = accAt ((sR2).view.read (Elt F) ((dstA2).view.write (Elt F) gA pA Finset.univ)) ((sH2).view.read (Elt F) g6) 0 112 (256 * k.val + 112) (Scf.trips k2_t10_loop.lb k2_t10_loop.ub k2_t10_loop.st))
    (hacc11 : acc11 = accAt ((sR2).view.read (Elt F) ((dstB2).view.write (Elt F) gB pB Finset.univ)) ((sH2).view.read (Elt F) g6) 1 0 (256 * k.val + 128) (Scf.trips k2_t11_loop.lb k2_t11_loop.ub k2_t11_loop.st))
    (hacc12 : acc12 = accAt ((sR2).view.read (Elt F) ((dstB2).view.write (Elt F) gB pB Finset.univ)) ((sH2).view.read (Elt F) g6) 1 16 (256 * k.val + 144) (Scf.trips k2_t12_loop.lb k2_t12_loop.ub k2_t12_loop.st))
    (hacc13 : acc13 = accAt ((sR2).view.read (Elt F) ((dstB2).view.write (Elt F) gB pB Finset.univ)) ((sH2).view.read (Elt F) g6) 1 32 (256 * k.val + 160) (Scf.trips k2_t13_loop.lb k2_t13_loop.ub k2_t13_loop.st))
    (hacc14 : acc14 = accAt ((sR2).view.read (Elt F) ((dstB2).view.write (Elt F) gB pB Finset.univ)) ((sH2).view.read (Elt F) g6) 1 48 (256 * k.val + 176) (Scf.trips k2_t14_loop.lb k2_t14_loop.ub k2_t14_loop.st))
    (hacc15 : acc15 = accAt ((sR2).view.read (Elt F) ((dstB2).view.write (Elt F) gB pB Finset.univ)) ((sH2).view.read (Elt F) g6) 1 64 (256 * k.val + 192) (Scf.trips k2_t15_loop.lb k2_t15_loop.ub k2_t15_loop.st))
    (hacc16 : acc16 = accAt ((sR2).view.read (Elt F) ((dstB2).view.write (Elt F) gB pB Finset.univ)) ((sH2).view.read (Elt F) g6) 1 80 (256 * k.val + 208) (Scf.trips k2_t16_loop.lb k2_t16_loop.ub k2_t16_loop.st))
    (hacc17 : acc17 = accAt ((sR2).view.read (Elt F) ((dstB2).view.write (Elt F) gB pB Finset.univ)) ((sH2).view.read (Elt F) g6) 1 96 (256 * k.val + 224) (Scf.trips k2_t17_loop.lb k2_t17_loop.ub k2_t17_loop.st))
    (hacc18 : acc18 = accAt ((sR2).view.read (Elt F) ((dstB2).view.write (Elt F) gB pB Finset.univ)) ((sH2).view.read (Elt F) g6) 1 112 (256 * k.val + 240) (Scf.trips k2_t18_loop.lb k2_t18_loop.ub k2_t18_loop.st)) :
    OutOK2 tb ix (k.val + 1) ((sO2).view.read (Elt F) ((sO2).view.writes (Elt F) g8
      ([⟨Rect.unit (s := S64x128) (k2_off42 k 3#32) S1x16.size (k2_off42_inb k 3), k2_pay208 acc18.2.2.2⟩,
        ⟨Rect.unit (s := S64x128) (k2_off41 k 3#32) S1x16.size (k2_off41_inb k 3), k2_pay207 acc18.2.2.1⟩,
        ⟨Rect.unit (s := S64x128) (k2_off40 k 3#32) S1x16.size (k2_off40_inb k 3), k2_pay206 acc18.2.1⟩,
        ⟨Rect.unit (s := S64x128) (k2_off39 k 3#32) S1x16.size (k2_off39_inb k 3), k2_pay205 acc18.1⟩,
        ⟨Rect.unit (s := S64x128) (k2_off36 k 3#32) S1x16.size (k2_off36_inb k 3), k2_pay195 acc17.2.2.2⟩,
        ⟨Rect.unit (s := S64x128) (k2_off35 k 3#32) S1x16.size (k2_off35_inb k 3), k2_pay194 acc17.2.2.1⟩,
        ⟨Rect.unit (s := S64x128) (k2_off34 k 3#32) S1x16.size (k2_off34_inb k 3), k2_pay193 acc17.2.1⟩,
        ⟨Rect.unit (s := S64x128) (k2_off33 k 3#32) S1x16.size (k2_off33_inb k 3), k2_pay192 acc17.1⟩,
        ⟨Rect.unit (s := S64x128) (k2_off42 k 2#32) S1x16.size (k2_off42_inb k 2), k2_pay182 acc16.2.2.2⟩,
        ⟨Rect.unit (s := S64x128) (k2_off41 k 2#32) S1x16.size (k2_off41_inb k 2), k2_pay181 acc16.2.2.1⟩,
        ⟨Rect.unit (s := S64x128) (k2_off40 k 2#32) S1x16.size (k2_off40_inb k 2), k2_pay180 acc16.2.1⟩,
        ⟨Rect.unit (s := S64x128) (k2_off39 k 2#32) S1x16.size (k2_off39_inb k 2), k2_pay179 acc16.1⟩,
        ⟨Rect.unit (s := S64x128) (k2_off36 k 2#32) S1x16.size (k2_off36_inb k 2), k2_pay169 acc15.2.2.2⟩,
        ⟨Rect.unit (s := S64x128) (k2_off35 k 2#32) S1x16.size (k2_off35_inb k 2), k2_pay168 acc15.2.2.1⟩,
        ⟨Rect.unit (s := S64x128) (k2_off34 k 2#32) S1x16.size (k2_off34_inb k 2), k2_pay167 acc15.2.1⟩,
        ⟨Rect.unit (s := S64x128) (k2_off33 k 2#32) S1x16.size (k2_off33_inb k 2), k2_pay166 acc15.1⟩,
        ⟨Rect.unit (s := S64x128) (k2_off42 k 1#32) S1x16.size (k2_off42_inb k 1), k2_pay156 acc14.2.2.2⟩,
        ⟨Rect.unit (s := S64x128) (k2_off41 k 1#32) S1x16.size (k2_off41_inb k 1), k2_pay155 acc14.2.2.1⟩,
        ⟨Rect.unit (s := S64x128) (k2_off40 k 1#32) S1x16.size (k2_off40_inb k 1), k2_pay154 acc14.2.1⟩,
        ⟨Rect.unit (s := S64x128) (k2_off39 k 1#32) S1x16.size (k2_off39_inb k 1), k2_pay153 acc14.1⟩,
        ⟨Rect.unit (s := S64x128) (k2_off36 k 1#32) S1x16.size (k2_off36_inb k 1), k2_pay143 acc13.2.2.2⟩,
        ⟨Rect.unit (s := S64x128) (k2_off35 k 1#32) S1x16.size (k2_off35_inb k 1), k2_pay142 acc13.2.2.1⟩,
        ⟨Rect.unit (s := S64x128) (k2_off34 k 1#32) S1x16.size (k2_off34_inb k 1), k2_pay141 acc13.2.1⟩,
        ⟨Rect.unit (s := S64x128) (k2_off33 k 1#32) S1x16.size (k2_off33_inb k 1), k2_pay140 acc13.1⟩,
        ⟨Rect.unit (s := S64x128) (k2_off42 k 0#32) S1x16.size (k2_off42_inb k 0), k2_pay130 acc12.2.2.2⟩,
        ⟨Rect.unit (s := S64x128) (k2_off41 k 0#32) S1x16.size (k2_off41_inb k 0), k2_pay129 acc12.2.2.1⟩,
        ⟨Rect.unit (s := S64x128) (k2_off40 k 0#32) S1x16.size (k2_off40_inb k 0), k2_pay128 acc12.2.1⟩,
        ⟨Rect.unit (s := S64x128) (k2_off39 k 0#32) S1x16.size (k2_off39_inb k 0), k2_pay127 acc12.1⟩,
        ⟨Rect.unit (s := S64x128) (k2_off36 k 0#32) S1x16.size (k2_off36_inb k 0), k2_pay117 acc11.2.2.2⟩,
        ⟨Rect.unit (s := S64x128) (k2_off35 k 0#32) S1x16.size (k2_off35_inb k 0), k2_pay116 acc11.2.2.1⟩,
        ⟨Rect.unit (s := S64x128) (k2_off34 k 0#32) S1x16.size (k2_off34_inb k 0), k2_pay115 acc11.2.1⟩,
        ⟨Rect.unit (s := S64x128) (k2_off33 k 0#32) S1x16.size (k2_off33_inb k 0), k2_pay114 acc11.1⟩,
        ⟨Rect.unit (s := S64x128) (k2_off16 k 3#32) S1x16.size (k2_off16_inb k 3), k2_pay104 acc10.2.2.2⟩,
        ⟨Rect.unit (s := S64x128) (k2_off15 k 3#32) S1x16.size (k2_off15_inb k 3), k2_pay103 acc10.2.2.1⟩,
        ⟨Rect.unit (s := S64x128) (k2_off14 k 3#32) S1x16.size (k2_off14_inb k 3), k2_pay102 acc10.2.1⟩,
        ⟨Rect.unit (s := S64x128) (k2_off13 k 3#32) S1x16.size (k2_off13_inb k 3), k2_pay101 acc10.1⟩,
        ⟨Rect.unit (s := S64x128) (k2_off10 k 3#32) S1x16.size (k2_off10_inb k 3), k2_pay91 acc9.2.2.2⟩,
        ⟨Rect.unit (s := S64x128) (k2_off9 k 3#32) S1x16.size (k2_off9_inb k 3), k2_pay90 acc9.2.2.1⟩,
        ⟨Rect.unit (s := S64x128) (k2_off8 k 3#32) S1x16.size (k2_off8_inb k 3), k2_pay89 acc9.2.1⟩,
        ⟨Rect.unit (s := S64x128) (k2_off7 k 3#32) S1x16.size (k2_off7_inb k 3), k2_pay88 acc9.1⟩,
        ⟨Rect.unit (s := S64x128) (k2_off16 k 2#32) S1x16.size (k2_off16_inb k 2), k2_pay78 acc8.2.2.2⟩,
        ⟨Rect.unit (s := S64x128) (k2_off15 k 2#32) S1x16.size (k2_off15_inb k 2), k2_pay77 acc8.2.2.1⟩,
        ⟨Rect.unit (s := S64x128) (k2_off14 k 2#32) S1x16.size (k2_off14_inb k 2), k2_pay76 acc8.2.1⟩,
        ⟨Rect.unit (s := S64x128) (k2_off13 k 2#32) S1x16.size (k2_off13_inb k 2), k2_pay75 acc8.1⟩,
        ⟨Rect.unit (s := S64x128) (k2_off10 k 2#32) S1x16.size (k2_off10_inb k 2), k2_pay65 acc7.2.2.2⟩,
        ⟨Rect.unit (s := S64x128) (k2_off9 k 2#32) S1x16.size (k2_off9_inb k 2), k2_pay64 acc7.2.2.1⟩,
        ⟨Rect.unit (s := S64x128) (k2_off8 k 2#32) S1x16.size (k2_off8_inb k 2), k2_pay63 acc7.2.1⟩,
        ⟨Rect.unit (s := S64x128) (k2_off7 k 2#32) S1x16.size (k2_off7_inb k 2), k2_pay62 acc7.1⟩,
        ⟨Rect.unit (s := S64x128) (k2_off16 k 1#32) S1x16.size (k2_off16_inb k 1), k2_pay52 acc6.2.2.2⟩,
        ⟨Rect.unit (s := S64x128) (k2_off15 k 1#32) S1x16.size (k2_off15_inb k 1), k2_pay51 acc6.2.2.1⟩,
        ⟨Rect.unit (s := S64x128) (k2_off14 k 1#32) S1x16.size (k2_off14_inb k 1), k2_pay50 acc6.2.1⟩,
        ⟨Rect.unit (s := S64x128) (k2_off13 k 1#32) S1x16.size (k2_off13_inb k 1), k2_pay49 acc6.1⟩,
        ⟨Rect.unit (s := S64x128) (k2_off10 k 1#32) S1x16.size (k2_off10_inb k 1), k2_pay39 acc5.2.2.2⟩,
        ⟨Rect.unit (s := S64x128) (k2_off9 k 1#32) S1x16.size (k2_off9_inb k 1), k2_pay38 acc5.2.2.1⟩,
        ⟨Rect.unit (s := S64x128) (k2_off8 k 1#32) S1x16.size (k2_off8_inb k 1), k2_pay37 acc5.2.1⟩,
        ⟨Rect.unit (s := S64x128) (k2_off7 k 1#32) S1x16.size (k2_off7_inb k 1), k2_pay36 acc5.1⟩,
        ⟨Rect.unit (s := S64x128) (k2_off16 k 0#32) S1x16.size (k2_off16_inb k 0), k2_pay26 acc4.2.2.2⟩,
        ⟨Rect.unit (s := S64x128) (k2_off15 k 0#32) S1x16.size (k2_off15_inb k 0), k2_pay25 acc4.2.2.1⟩,
        ⟨Rect.unit (s := S64x128) (k2_off14 k 0#32) S1x16.size (k2_off14_inb k 0), k2_pay24 acc4.2.1⟩,
        ⟨Rect.unit (s := S64x128) (k2_off13 k 0#32) S1x16.size (k2_off13_inb k 0), k2_pay23 acc4.1⟩,
        ⟨Rect.unit (s := S64x128) (k2_off10 k 0#32) S1x16.size (k2_off10_inb k 0), k2_pay13 acc3.2.2.2⟩,
        ⟨Rect.unit (s := S64x128) (k2_off9 k 0#32) S1x16.size (k2_off9_inb k 0), k2_pay12 acc3.2.2.1⟩,
        ⟨Rect.unit (s := S64x128) (k2_off8 k 0#32) S1x16.size (k2_off8_inb k 0), k2_pay11 acc3.2.1⟩,
        ⟨Rect.unit (s := S64x128) (k2_off7 k 0#32) S1x16.size (k2_off7_inb k 0), k2_pay10 acc3.1⟩] : List (View.Piece (Elt F) S64x128 .f32)))) := by
  have hk : k.val < 8 := k.isLt
  have hH : ∀ p, p < 2048 → at1 ((sH2).view.read (Elt F) g6) p = BitVec.ofNat 32 (p % 16 % 2 * 64) :=
    fun p hp => half_val2 _ hg6 p hp
  have hRA : ∀ r c, r < 128 → c < 128 →
      at3 ((sR2).view.read (Elt F) ((dstA2).view.write (Elt F) gA pA Finset.univ)) 0 r c = tbAt2 tb (gRow2 ix (128 * (2 * k.val) + r)) c := by
    intro r c hr hc
    rw [read_slotA2 gA pA r c hr hc, hpA]
    rfl
  have hRB : ∀ r c, r < 128 → c < 128 →
      at3 ((sR2).view.read (Elt F) ((dstB2).view.write (Elt F) gB pB Finset.univ)) 1 r c = tbAt2 tb (gRow2 ix (128 * (2 * k.val + 1) + r)) c := by
    intro r c hr hc
    rw [read_slotB2 gB pB r c hr hc, hpB]
    rfl
  let b3 : Blk F := { row := 8 * k.val + 0, c0 := 0, a := acc3, o0 := k2_off7 k 0#32, o1 := k2_off8 k 0#32, o2 := k2_off9 k 0#32, o3 := k2_off10 k 0#32, i0 := k2_off7_inb k 0, i1 := k2_off8_inb k 0, i2 := k2_off9_inb k 0, i3 := k2_off10_inb k 0, h0 := k2_off7_eq k 0, h1 := k2_off8_eq k 0, h2 := k2_off9_eq k 0, h3 := k2_off10_eq k 0 }
  let b4 : Blk F := { row := 8 * k.val + 0, c0 := 64, a := acc4, o0 := k2_off13 k 0#32, o1 := k2_off14 k 0#32, o2 := k2_off15 k 0#32, o3 := k2_off16 k 0#32, i0 := k2_off13_inb k 0, i1 := k2_off14_inb k 0, i2 := k2_off15_inb k 0, i3 := k2_off16_inb k 0, h0 := k2_off13_eq k 0, h1 := k2_off14_eq k 0, h2 := k2_off15_eq k 0, h3 := k2_off16_eq k 0 }
  let b5 : Blk F := { row := 8 * k.val + 1, c0 := 0, a := acc5, o0 := k2_off7 k 1#32, o1 := k2_off8 k 1#32, o2 := k2_off9 k 1#32, o3 := k2_off10 k 1#32, i0 := k2_off7_inb k 1, i1 := k2_off8_inb k 1, i2 := k2_off9_inb k 1, i3 := k2_off10_inb k 1, h0 := k2_off7_eq k 1, h1 := k2_off8_eq k 1, h2 := k2_off9_eq k 1, h3 := k2_off10_eq k 1 }
  let b6 : Blk F := { row := 8 * k.val + 1, c0 := 64, a := acc6, o0 := k2_off13 k 1#32, o1 := k2_off14 k 1#32, o2 := k2_off15 k 1#32, o3 := k2_off16 k 1#32, i0 := k2_off13_inb k 1, i1 := k2_off14_inb k 1, i2 := k2_off15_inb k 1, i3 := k2_off16_inb k 1, h0 := k2_off13_eq k 1, h1 := k2_off14_eq k 1, h2 := k2_off15_eq k 1, h3 := k2_off16_eq k 1 }
  let b7 : Blk F := { row := 8 * k.val + 2, c0 := 0, a := acc7, o0 := k2_off7 k 2#32, o1 := k2_off8 k 2#32, o2 := k2_off9 k 2#32, o3 := k2_off10 k 2#32, i0 := k2_off7_inb k 2, i1 := k2_off8_inb k 2, i2 := k2_off9_inb k 2, i3 := k2_off10_inb k 2, h0 := k2_off7_eq k 2, h1 := k2_off8_eq k 2, h2 := k2_off9_eq k 2, h3 := k2_off10_eq k 2 }
  let b8 : Blk F := { row := 8 * k.val + 2, c0 := 64, a := acc8, o0 := k2_off13 k 2#32, o1 := k2_off14 k 2#32, o2 := k2_off15 k 2#32, o3 := k2_off16 k 2#32, i0 := k2_off13_inb k 2, i1 := k2_off14_inb k 2, i2 := k2_off15_inb k 2, i3 := k2_off16_inb k 2, h0 := k2_off13_eq k 2, h1 := k2_off14_eq k 2, h2 := k2_off15_eq k 2, h3 := k2_off16_eq k 2 }
  let b9 : Blk F := { row := 8 * k.val + 3, c0 := 0, a := acc9, o0 := k2_off7 k 3#32, o1 := k2_off8 k 3#32, o2 := k2_off9 k 3#32, o3 := k2_off10 k 3#32, i0 := k2_off7_inb k 3, i1 := k2_off8_inb k 3, i2 := k2_off9_inb k 3, i3 := k2_off10_inb k 3, h0 := k2_off7_eq k 3, h1 := k2_off8_eq k 3, h2 := k2_off9_eq k 3, h3 := k2_off10_eq k 3 }
  let b10 : Blk F := { row := 8 * k.val + 3, c0 := 64, a := acc10, o0 := k2_off13 k 3#32, o1 := k2_off14 k 3#32, o2 := k2_off15 k 3#32, o3 := k2_off16 k 3#32, i0 := k2_off13_inb k 3, i1 := k2_off14_inb k 3, i2 := k2_off15_inb k 3, i3 := k2_off16_inb k 3, h0 := k2_off13_eq k 3, h1 := k2_off14_eq k 3, h2 := k2_off15_eq k 3, h3 := k2_off16_eq k 3 }
  let b11 : Blk F := { row := 8 * k.val + 0 + 4, c0 := 0, a := acc11, o0 := k2_off33 k 0#32, o1 := k2_off34 k 0#32, o2 := k2_off35 k 0#32, o3 := k2_off36 k 0#32, i0 := k2_off33_inb k 0, i1 := k2_off34_inb k 0, i2 := k2_off35_inb k 0, i3 := k2_off36_inb k 0, h0 := k2_off33_eq k 0, h1 := k2_off34_eq k 0, h2 := k2_off35_eq k 0, h3 := k2_off36_eq k 0 }
  let b12 : Blk F := { row := 8 * k.val + 0 + 4, c0 := 64, a := acc12, o0 := k2_off39 k 0#32, o1 := k2_off40 k 0#32, o2 := k2_off41 k 0#32, o3 := k2_off42 k 0#32, i0 := k2_off39_inb k 0, i1 := k2_off40_inb k 0, i2 := k2_off41_inb k 0, i3 := k2_off42_inb k 0, h0 := k2_off39_eq k 0, h1 := k2_off40_eq k 0, h2 := k2_off41_eq k 0, h3 := k2_off42_eq k 0 }
  let b13 : Blk F := { row := 8 * k.val + 1 + 4, c0 := 0, a := acc13, o0 := k2_off33 k 1#32, o1 := k2_off34 k 1#32, o2 := k2_off35 k 1#32, o3 := k2_off36 k 1#32, i0 := k2_off33_inb k 1, i1 := k2_off34_inb k 1, i2 := k2_off35_inb k 1, i3 := k2_off36_inb k 1, h0 := k2_off33_eq k 1, h1 := k2_off34_eq k 1, h2 := k2_off35_eq k 1, h3 := k2_off36_eq k 1 }
  let b14 : Blk F := { row := 8 * k.val + 1 + 4, c0 := 64, a := acc14, o0 := k2_off39 k 1#32, o1 := k2_off40 k 1#32, o2 := k2_off41 k 1#32, o3 := k2_off42 k 1#32, i0 := k2_off39_inb k 1, i1 := k2_off40_inb k 1, i2 := k2_off41_inb k 1, i3 := k2_off42_inb k 1, h0 := k2_off39_eq k 1, h1 := k2_off40_eq k 1, h2 := k2_off41_eq k 1, h3 := k2_off42_eq k 1 }
  let b15 : Blk F := { row := 8 * k.val + 2 + 4, c0 := 0, a := acc15, o0 := k2_off33 k 2#32, o1 := k2_off34 k 2#32, o2 := k2_off35 k 2#32, o3 := k2_off36 k 2#32, i0 := k2_off33_inb k 2, i1 := k2_off34_inb k 2, i2 := k2_off35_inb k 2, i3 := k2_off36_inb k 2, h0 := k2_off33_eq k 2, h1 := k2_off34_eq k 2, h2 := k2_off35_eq k 2, h3 := k2_off36_eq k 2 }
  let b16 : Blk F := { row := 8 * k.val + 2 + 4, c0 := 64, a := acc16, o0 := k2_off39 k 2#32, o1 := k2_off40 k 2#32, o2 := k2_off41 k 2#32, o3 := k2_off42 k 2#32, i0 := k2_off39_inb k 2, i1 := k2_off40_inb k 2, i2 := k2_off41_inb k 2, i3 := k2_off42_inb k 2, h0 := k2_off39_eq k 2, h1 := k2_off40_eq k 2, h2 := k2_off41_eq k 2, h3 := k2_off42_eq k 2 }
  let b17 : Blk F := { row := 8 * k.val + 3 + 4, c0 := 0, a := acc17, o0 := k2_off33 k 3#32, o1 := k2_off34 k 3#32, o2 := k2_off35 k 3#32, o3 := k2_off36 k 3#32, i0 := k2_off33_inb k 3, i1 := k2_off34_inb k 3, i2 := k2_off35_inb k 3, i3 := k2_off36_inb k 3, h0 := k2_off33_eq k 3, h1 := k2_off34_eq k 3, h2 := k2_off35_eq k 3, h3 := k2_off36_eq k 3 }
  let b18 : Blk F := { row := 8 * k.val + 3 + 4, c0 := 64, a := acc18, o0 := k2_off39 k 3#32, o1 := k2_off40 k 3#32, o2 := k2_off41 k 3#32, o3 := k2_off42 k 3#32, i0 := k2_off39_inb k 3, i1 := k2_off40_inb k 3, i2 := k2_off41_inb k 3, i3 := k2_off42_inb k 3, h0 := k2_off39_eq k 3, h1 := k2_off40_eq k 3, h2 := k2_off41_eq k 3, h3 := k2_off42_eq k 3 }
  have hlist : ([⟨Rect.unit (s := S64x128) (k2_off42 k 3#32) S1x16.size (k2_off42_inb k 3), k2_pay208 acc18.2.2.2⟩,
        ⟨Rect.unit (s := S64x128) (k2_off41 k 3#32) S1x16.size (k2_off41_inb k 3), k2_pay207 acc18.2.2.1⟩,
        ⟨Rect.unit (s := S64x128) (k2_off40 k 3#32) S1x16.size (k2_off40_inb k 3), k2_pay206 acc18.2.1⟩,
        ⟨Rect.unit (s := S64x128) (k2_off39 k 3#32) S1x16.size (k2_off39_inb k 3), k2_pay205 acc18.1⟩,
        ⟨Rect.unit (s := S64x128) (k2_off36 k 3#32) S1x16.size (k2_off36_inb k 3), k2_pay195 acc17.2.2.2⟩,
        ⟨Rect.unit (s := S64x128) (k2_off35 k 3#32) S1x16.size (k2_off35_inb k 3), k2_pay194 acc17.2.2.1⟩,
        ⟨Rect.unit (s := S64x128) (k2_off34 k 3#32) S1x16.size (k2_off34_inb k 3), k2_pay193 acc17.2.1⟩,
        ⟨Rect.unit (s := S64x128) (k2_off33 k 3#32) S1x16.size (k2_off33_inb k 3), k2_pay192 acc17.1⟩,
        ⟨Rect.unit (s := S64x128) (k2_off42 k 2#32) S1x16.size (k2_off42_inb k 2), k2_pay182 acc16.2.2.2⟩,
        ⟨Rect.unit (s := S64x128) (k2_off41 k 2#32) S1x16.size (k2_off41_inb k 2), k2_pay181 acc16.2.2.1⟩,
        ⟨Rect.unit (s := S64x128) (k2_off40 k 2#32) S1x16.size (k2_off40_inb k 2), k2_pay180 acc16.2.1⟩,
        ⟨Rect.unit (s := S64x128) (k2_off39 k 2#32) S1x16.size (k2_off39_inb k 2), k2_pay179 acc16.1⟩,
        ⟨Rect.unit (s := S64x128) (k2_off36 k 2#32) S1x16.size (k2_off36_inb k 2), k2_pay169 acc15.2.2.2⟩,
        ⟨Rect.unit (s := S64x128) (k2_off35 k 2#32) S1x16.size (k2_off35_inb k 2), k2_pay168 acc15.2.2.1⟩,
        ⟨Rect.unit (s := S64x128) (k2_off34 k 2#32) S1x16.size (k2_off34_inb k 2), k2_pay167 acc15.2.1⟩,
        ⟨Rect.unit (s := S64x128) (k2_off33 k 2#32) S1x16.size (k2_off33_inb k 2), k2_pay166 acc15.1⟩,
        ⟨Rect.unit (s := S64x128) (k2_off42 k 1#32) S1x16.size (k2_off42_inb k 1), k2_pay156 acc14.2.2.2⟩,
        ⟨Rect.unit (s := S64x128) (k2_off41 k 1#32) S1x16.size (k2_off41_inb k 1), k2_pay155 acc14.2.2.1⟩,
        ⟨Rect.unit (s := S64x128) (k2_off40 k 1#32) S1x16.size (k2_off40_inb k 1), k2_pay154 acc14.2.1⟩,
        ⟨Rect.unit (s := S64x128) (k2_off39 k 1#32) S1x16.size (k2_off39_inb k 1), k2_pay153 acc14.1⟩,
        ⟨Rect.unit (s := S64x128) (k2_off36 k 1#32) S1x16.size (k2_off36_inb k 1), k2_pay143 acc13.2.2.2⟩,
        ⟨Rect.unit (s := S64x128) (k2_off35 k 1#32) S1x16.size (k2_off35_inb k 1), k2_pay142 acc13.2.2.1⟩,
        ⟨Rect.unit (s := S64x128) (k2_off34 k 1#32) S1x16.size (k2_off34_inb k 1), k2_pay141 acc13.2.1⟩,
        ⟨Rect.unit (s := S64x128) (k2_off33 k 1#32) S1x16.size (k2_off33_inb k 1), k2_pay140 acc13.1⟩,
        ⟨Rect.unit (s := S64x128) (k2_off42 k 0#32) S1x16.size (k2_off42_inb k 0), k2_pay130 acc12.2.2.2⟩,
        ⟨Rect.unit (s := S64x128) (k2_off41 k 0#32) S1x16.size (k2_off41_inb k 0), k2_pay129 acc12.2.2.1⟩,
        ⟨Rect.unit (s := S64x128) (k2_off40 k 0#32) S1x16.size (k2_off40_inb k 0), k2_pay128 acc12.2.1⟩,
        ⟨Rect.unit (s := S64x128) (k2_off39 k 0#32) S1x16.size (k2_off39_inb k 0), k2_pay127 acc12.1⟩,
        ⟨Rect.unit (s := S64x128) (k2_off36 k 0#32) S1x16.size (k2_off36_inb k 0), k2_pay117 acc11.2.2.2⟩,
        ⟨Rect.unit (s := S64x128) (k2_off35 k 0#32) S1x16.size (k2_off35_inb k 0), k2_pay116 acc11.2.2.1⟩,
        ⟨Rect.unit (s := S64x128) (k2_off34 k 0#32) S1x16.size (k2_off34_inb k 0), k2_pay115 acc11.2.1⟩,
        ⟨Rect.unit (s := S64x128) (k2_off33 k 0#32) S1x16.size (k2_off33_inb k 0), k2_pay114 acc11.1⟩,
        ⟨Rect.unit (s := S64x128) (k2_off16 k 3#32) S1x16.size (k2_off16_inb k 3), k2_pay104 acc10.2.2.2⟩,
        ⟨Rect.unit (s := S64x128) (k2_off15 k 3#32) S1x16.size (k2_off15_inb k 3), k2_pay103 acc10.2.2.1⟩,
        ⟨Rect.unit (s := S64x128) (k2_off14 k 3#32) S1x16.size (k2_off14_inb k 3), k2_pay102 acc10.2.1⟩,
        ⟨Rect.unit (s := S64x128) (k2_off13 k 3#32) S1x16.size (k2_off13_inb k 3), k2_pay101 acc10.1⟩,
        ⟨Rect.unit (s := S64x128) (k2_off10 k 3#32) S1x16.size (k2_off10_inb k 3), k2_pay91 acc9.2.2.2⟩,
        ⟨Rect.unit (s := S64x128) (k2_off9 k 3#32) S1x16.size (k2_off9_inb k 3), k2_pay90 acc9.2.2.1⟩,
        ⟨Rect.unit (s := S64x128) (k2_off8 k 3#32) S1x16.size (k2_off8_inb k 3), k2_pay89 acc9.2.1⟩,
        ⟨Rect.unit (s := S64x128) (k2_off7 k 3#32) S1x16.size (k2_off7_inb k 3), k2_pay88 acc9.1⟩,
        ⟨Rect.unit (s := S64x128) (k2_off16 k 2#32) S1x16.size (k2_off16_inb k 2), k2_pay78 acc8.2.2.2⟩,
        ⟨Rect.unit (s := S64x128) (k2_off15 k 2#32) S1x16.size (k2_off15_inb k 2), k2_pay77 acc8.2.2.1⟩,
        ⟨Rect.unit (s := S64x128) (k2_off14 k 2#32) S1x16.size (k2_off14_inb k 2), k2_pay76 acc8.2.1⟩,
        ⟨Rect.unit (s := S64x128) (k2_off13 k 2#32) S1x16.size (k2_off13_inb k 2), k2_pay75 acc8.1⟩,
        ⟨Rect.unit (s := S64x128) (k2_off10 k 2#32) S1x16.size (k2_off10_inb k 2), k2_pay65 acc7.2.2.2⟩,
        ⟨Rect.unit (s := S64x128) (k2_off9 k 2#32) S1x16.size (k2_off9_inb k 2), k2_pay64 acc7.2.2.1⟩,
        ⟨Rect.unit (s := S64x128) (k2_off8 k 2#32) S1x16.size (k2_off8_inb k 2), k2_pay63 acc7.2.1⟩,
        ⟨Rect.unit (s := S64x128) (k2_off7 k 2#32) S1x16.size (k2_off7_inb k 2), k2_pay62 acc7.1⟩,
        ⟨Rect.unit (s := S64x128) (k2_off16 k 1#32) S1x16.size (k2_off16_inb k 1), k2_pay52 acc6.2.2.2⟩,
        ⟨Rect.unit (s := S64x128) (k2_off15 k 1#32) S1x16.size (k2_off15_inb k 1), k2_pay51 acc6.2.2.1⟩,
        ⟨Rect.unit (s := S64x128) (k2_off14 k 1#32) S1x16.size (k2_off14_inb k 1), k2_pay50 acc6.2.1⟩,
        ⟨Rect.unit (s := S64x128) (k2_off13 k 1#32) S1x16.size (k2_off13_inb k 1), k2_pay49 acc6.1⟩,
        ⟨Rect.unit (s := S64x128) (k2_off10 k 1#32) S1x16.size (k2_off10_inb k 1), k2_pay39 acc5.2.2.2⟩,
        ⟨Rect.unit (s := S64x128) (k2_off9 k 1#32) S1x16.size (k2_off9_inb k 1), k2_pay38 acc5.2.2.1⟩,
        ⟨Rect.unit (s := S64x128) (k2_off8 k 1#32) S1x16.size (k2_off8_inb k 1), k2_pay37 acc5.2.1⟩,
        ⟨Rect.unit (s := S64x128) (k2_off7 k 1#32) S1x16.size (k2_off7_inb k 1), k2_pay36 acc5.1⟩,
        ⟨Rect.unit (s := S64x128) (k2_off16 k 0#32) S1x16.size (k2_off16_inb k 0), k2_pay26 acc4.2.2.2⟩,
        ⟨Rect.unit (s := S64x128) (k2_off15 k 0#32) S1x16.size (k2_off15_inb k 0), k2_pay25 acc4.2.2.1⟩,
        ⟨Rect.unit (s := S64x128) (k2_off14 k 0#32) S1x16.size (k2_off14_inb k 0), k2_pay24 acc4.2.1⟩,
        ⟨Rect.unit (s := S64x128) (k2_off13 k 0#32) S1x16.size (k2_off13_inb k 0), k2_pay23 acc4.1⟩,
        ⟨Rect.unit (s := S64x128) (k2_off10 k 0#32) S1x16.size (k2_off10_inb k 0), k2_pay13 acc3.2.2.2⟩,
        ⟨Rect.unit (s := S64x128) (k2_off9 k 0#32) S1x16.size (k2_off9_inb k 0), k2_pay12 acc3.2.2.1⟩,
        ⟨Rect.unit (s := S64x128) (k2_off8 k 0#32) S1x16.size (k2_off8_inb k 0), k2_pay11 acc3.2.1⟩,
        ⟨Rect.unit (s := S64x128) (k2_off7 k 0#32) S1x16.size (k2_off7_inb k 0), k2_pay10 acc3.1⟩] : List (View.Piece (Elt F) S64x128 .f32))
      = blkPieces shapeCasts_S16_S1x16 [b18, b17, b16, b15, b14, b13, b12, b11, b10, b9, b8, b7, b6, b5, b4, b3] := rfl
  rw [hlist]
  refine outOK_step2 (sO2).view g8 tb ix k.val shapeCasts_S16_S1x16 [b18, b17, b16, b15, b14, b13, b12, b11, b10, b9, b8, b7, b6, b5, b4, b3] hprev ?hrows ?hcover ?hval
  case hrows =>
    intro b hb
    simp only [List.mem_cons, List.mem_nil_iff, or_false] at hb
    rcases hb with rfl | rfl | rfl | rfl | rfl | rfl | rfl | rfl | rfl | rfl | rfl | rfl | rfl | rfl | rfl | rfl
    all_goals (first | (show 8 * k.val ≤ 8 * k.val + _ + 4; omega) | (show 8 * k.val ≤ 8 * k.val + _; omega))
  case hcover =>
    intro x hlo hhi
    have hx1 : (x 1).val < 128 := (x 1).isLt
    rcases (by omega : (x 0).val = 8 * k.val + 0 ∨ (x 0).val = 8 * k.val + 1 ∨ (x 0).val = 8 * k.val + 2 ∨ (x 0).val = 8 * k.val + 3 ∨ (x 0).val = 8 * k.val + 4 ∨ (x 0).val = 8 * k.val + 5 ∨ (x 0).val = 8 * k.val + 6 ∨ (x 0).val = 8 * k.val + 7) with h | h | h | h | h | h | h | h <;>
      rcases (by omega : (x 1).val < 64 ∨ 64 ≤ (x 1).val) with h' | h'
    · exact ⟨b3, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), ⟨by show (x 0).val = 8 * k.val + 0; omega, by show 0 ≤ (x 1).val; omega, by show (x 1).val < 0 + 64; omega⟩⟩
    · exact ⟨b4, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), ⟨by show (x 0).val = 8 * k.val + 0; omega, by show 64 ≤ (x 1).val; omega, by show (x 1).val < 64 + 64; omega⟩⟩
    · exact ⟨b5, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), ⟨by show (x 0).val = 8 * k.val + 1; omega, by show 0 ≤ (x 1).val; omega, by show (x 1).val < 0 + 64; omega⟩⟩
    · exact ⟨b6, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), ⟨by show (x 0).val = 8 * k.val + 1; omega, by show 64 ≤ (x 1).val; omega, by show (x 1).val < 64 + 64; omega⟩⟩
    · exact ⟨b7, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), ⟨by show (x 0).val = 8 * k.val + 2; omega, by show 0 ≤ (x 1).val; omega, by show (x 1).val < 0 + 64; omega⟩⟩
    · exact ⟨b8, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ⟨by show (x 0).val = 8 * k.val + 2; omega, by show 64 ≤ (x 1).val; omega, by show (x 1).val < 64 + 64; omega⟩⟩
    · exact ⟨b9, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ⟨by show (x 0).val = 8 * k.val + 3; omega, by show 0 ≤ (x 1).val; omega, by show (x 1).val < 0 + 64; omega⟩⟩
    · exact ⟨b10, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ⟨by show (x 0).val = 8 * k.val + 3; omega, by show 64 ≤ (x 1).val; omega, by show (x 1).val < 64 + 64; omega⟩⟩
    · exact ⟨b11, (List.mem_cons_of_mem _ (List.mem_cons_of_mem _ (List.mem_cons_of_mem _ (List.mem_cons_of_mem _ (List.mem_cons_of_mem _ (List.mem_cons_of_mem _ (List.mem_cons_of_mem _ (List.mem_cons_self)))))))), ⟨by show (x 0).val = 8 * k.val + 0 + 4; omega, by show 0 ≤ (x 1).val; omega, by show (x 1).val < 0 + 64; omega⟩⟩
    · exact ⟨b12, (List.mem_cons_of_mem _ (List.mem_cons_of_mem _ (List.mem_cons_of_mem _ (List.mem_cons_of_mem _ (List.mem_cons_of_mem _ (List.mem_cons_of_mem _ (List.mem_cons_self))))))), ⟨by show (x 0).val = 8 * k.val + 0 + 4; omega, by show 64 ≤ (x 1).val; omega, by show (x 1).val < 64 + 64; omega⟩⟩
    · exact ⟨b13, (List.mem_cons_of_mem _ (List.mem_cons_of_mem _ (List.mem_cons_of_mem _ (List.mem_cons_of_mem _ (List.mem_cons_of_mem _ (List.mem_cons_self)))))), ⟨by show (x 0).val = 8 * k.val + 1 + 4; omega, by show 0 ≤ (x 1).val; omega, by show (x 1).val < 0 + 64; omega⟩⟩
    · exact ⟨b14, (List.mem_cons_of_mem _ (List.mem_cons_of_mem _ (List.mem_cons_of_mem _ (List.mem_cons_of_mem _ (List.mem_cons_self))))), ⟨by show (x 0).val = 8 * k.val + 1 + 4; omega, by show 64 ≤ (x 1).val; omega, by show (x 1).val < 64 + 64; omega⟩⟩
    · exact ⟨b15, (List.mem_cons_of_mem _ (List.mem_cons_of_mem _ (List.mem_cons_of_mem _ (List.mem_cons_self)))), ⟨by show (x 0).val = 8 * k.val + 2 + 4; omega, by show 0 ≤ (x 1).val; omega, by show (x 1).val < 0 + 64; omega⟩⟩
    · exact ⟨b16, (List.mem_cons_of_mem _ (List.mem_cons_of_mem _ (List.mem_cons_self))), ⟨by show (x 0).val = 8 * k.val + 2 + 4; omega, by show 64 ≤ (x 1).val; omega, by show (x 1).val < 64 + 64; omega⟩⟩
    · exact ⟨b17, (List.mem_cons_of_mem _ (List.mem_cons_self)), ⟨by show (x 0).val = 8 * k.val + 3 + 4; omega, by show 0 ≤ (x 1).val; omega, by show (x 1).val < 0 + 64; omega⟩⟩
    · exact ⟨b18, (List.mem_cons_self), ⟨by show (x 0).val = 8 * k.val + 3 + 4; omega, by show 64 ≤ (x 1).val; omega, by show (x 1).val < 64 + 64; omega⟩⟩
  case hval =>
    intro b hb x hx
    simp only [List.mem_cons, List.mem_nil_iff, or_false] at hb
    rcases hb with rfl | rfl | rfl | rfl | rfl | rfl | rfl | rfl | rfl | rfl | rfl | rfl | rfl | rfl | rfl | rfl
    · exact blk_value2 tb ix _ _ 1 (2 * k.val + 1) 7 (256 * k.val + 240) (by decide) (by omega) (by decide) (by omega) hRB hH b18 (by show 8 * k.val + 3 + 4 = 4 * (2 * k.val + 1) + 7 / 2; omega) rfl hacc18 x hx
    · exact blk_value2 tb ix _ _ 1 (2 * k.val + 1) 6 (256 * k.val + 224) (by decide) (by omega) (by decide) (by omega) hRB hH b17 (by show 8 * k.val + 3 + 4 = 4 * (2 * k.val + 1) + 6 / 2; omega) rfl hacc17 x hx
    · exact blk_value2 tb ix _ _ 1 (2 * k.val + 1) 5 (256 * k.val + 208) (by decide) (by omega) (by decide) (by omega) hRB hH b16 (by show 8 * k.val + 2 + 4 = 4 * (2 * k.val + 1) + 5 / 2; omega) rfl hacc16 x hx
    · exact blk_value2 tb ix _ _ 1 (2 * k.val + 1) 4 (256 * k.val + 192) (by decide) (by omega) (by decide) (by omega) hRB hH b15 (by show 8 * k.val + 2 + 4 = 4 * (2 * k.val + 1) + 4 / 2; omega) rfl hacc15 x hx
    · exact blk_value2 tb ix _ _ 1 (2 * k.val + 1) 3 (256 * k.val + 176) (by decide) (by omega) (by decide) (by omega) hRB hH b14 (by show 8 * k.val + 1 + 4 = 4 * (2 * k.val + 1) + 3 / 2; omega) rfl hacc14 x hx
    · exact blk_value2 tb ix _ _ 1 (2 * k.val + 1) 2 (256 * k.val + 160) (by decide) (by omega) (by decide) (by omega) hRB hH b13 (by show 8 * k.val + 1 + 4 = 4 * (2 * k.val + 1) + 2 / 2; omega) rfl hacc13 x hx
    · exact blk_value2 tb ix _ _ 1 (2 * k.val + 1) 1 (256 * k.val + 144) (by decide) (by omega) (by decide) (by omega) hRB hH b12 (by show 8 * k.val + 0 + 4 = 4 * (2 * k.val + 1) + 1 / 2; omega) rfl hacc12 x hx
    · exact blk_value2 tb ix _ _ 1 (2 * k.val + 1) 0 (256 * k.val + 128) (by decide) (by omega) (by decide) (by omega) hRB hH b11 (by show 8 * k.val + 0 + 4 = 4 * (2 * k.val + 1) + 0 / 2; omega) rfl hacc11 x hx
    · exact blk_value2 tb ix _ _ 0 (2 * k.val) 7 (256 * k.val + 112) (by decide) (by omega) (by decide) (by omega) hRA hH b10 (by show 8 * k.val + 3 = 4 * (2 * k.val) + 7 / 2; omega) rfl hacc10 x hx
    · exact blk_value2 tb ix _ _ 0 (2 * k.val) 6 (256 * k.val + 96) (by decide) (by omega) (by decide) (by omega) hRA hH b9 (by show 8 * k.val + 3 = 4 * (2 * k.val) + 6 / 2; omega) rfl hacc9 x hx
    · exact blk_value2 tb ix _ _ 0 (2 * k.val) 5 (256 * k.val + 80) (by decide) (by omega) (by decide) (by omega) hRA hH b8 (by show 8 * k.val + 2 = 4 * (2 * k.val) + 5 / 2; omega) rfl hacc8 x hx
    · exact blk_value2 tb ix _ _ 0 (2 * k.val) 4 (256 * k.val + 64) (by decide) (by omega) (by decide) (by omega) hRA hH b7 (by show 8 * k.val + 2 = 4 * (2 * k.val) + 4 / 2; omega) rfl hacc7 x hx
    · exact blk_value2 tb ix _ _ 0 (2 * k.val) 3 (256 * k.val + 48) (by decide) (by omega) (by decide) (by omega) hRA hH b6 (by show 8 * k.val + 1 = 4 * (2 * k.val) + 3 / 2; omega) rfl hacc6 x hx
    · exact blk_value2 tb ix _ _ 0 (2 * k.val) 2 (256 * k.val + 32) (by decide) (by omega) (by decide) (by omega) hRA hH b5 (by show 8 * k.val + 1 = 4 * (2 * k.val) + 2 / 2; omega) rfl hacc5 x hx
    · exact blk_value2 tb ix _ _ 0 (2 * k.val) 1 (256 * k.val + 16) (by decide) (by omega) (by decide) (by omega) hRA hH b4 (by show 8 * k.val + 0 = 4 * (2 * k.val) + 1 / 2; omega) rfl hacc4 x hx
    · exact blk_value2 tb ix _ _ 0 (2 * k.val) 0 (256 * k.val + 0) (by decide) (by omega) (by decide) (by omega) hRA hH b3 (by show 8 * k.val + 0 = 4 * (2 * k.val) + 0 / 2; omega) rfl hacc3 x hx

end Cert.Proof.KI

end
-- ==== Proof.KI.Tile2TripLast.lean ====
/-
  The last trip of the ring of gathers of one vector subcore's task: both chunks are waited for and added up, nothing is
  started again, and the ring is left with nothing in flight.
-/
import proofs.«219250_g10247791969013_week1_w1_750_27_alg».proof.Proof.KI.Tile2Chunks
import proofs.«219250_g10247791969013_week1_w1_750_27_alg».proof.Proof.KI.Tile2TripOut
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid2.Coords)

set_option quotPrecheck false in
local notation "tabSlN" => ((tabM2).slice (Rect.unit (s := S802816x128) ![0, 0] S802816x128.size inb_S802816x128_S802816x128_0_0) (fun _ => rfl))
set_option quotPrecheck false in
local notation "dstAN" => (((sR2).slice (Rect.unit (s := S2x128x128) ![0, 0, 0] S1x128x128.size inb_S2x128x128_S1x128x128_0_0_0) (fun _ => rfl)).squeeze S128x128 squeezes_S1x128x128_S128x128)
set_option quotPrecheck false in
local notation "dstBN" => (((sR2).slice (Rect.unit (s := S2x128x128) ![1, 0, 0] S1x128x128.size inb_S2x128x128_S1x128x128_1_0_0) (fun _ => rfl)).squeeze S128x128 squeezes_S1x128x128_S128x128)

variable (q : PosShare TreeShare) (Tb : Buf (Elt F) ((tabM2).view.loc (thr2 d L)))
  (tb : S802816x128.Idx → Elt F .f32) (ix : S2048.Idx → Elt F .i32)
  (g5 : Buf (Elt F) ((sI2).view.loc (thr2 d L))) (g6 : Buf (Elt F) ((sH2).view.loc (thr2 d L)))
  (O : CellTallies nD τ sig (HIx 2)) (W : Waits sig (HIx 2))

omit [FloatOps F] in
theorem cond1_iff2L : ∀ k : Fin k2_t2_loop.trips, k2_cond1 k = 1#1 ↔ k.val + 1 < 8 := by decide +kernel
omit [FloatOps F] in
theorem cond2_iff2L : ∀ k : Fin k2_t2_loop.trips, k2_cond2 k = 1#1 ↔ k.val + 1 < 8 := by decide +kernel

set_option maxHeartbeats 16000000 in
/-- The last trip of the ring (no chunk after next): wait for the even chunk, add up its eight batch rows; the same for the
    odd chunk; nothing is left in flight. -/
theorem ring_trip_last (k : Fin k2_t2_loop.trips) (acc : Unit)
    (hg5 : XI5 ix ((sI2).view.read (Elt F) g5) 128) (hg6 : XI6 ((sH2).view.read (Elt F) g6) 128)
    (htb : tb = (tabM2).view.read (Elt F) Tb) (hix : ∀ j, (ix j).toNat < 100000) (hO : ∀ g, O g none = 0)
    (hc : ¬ k2_cond1 k = 1#1) :
    iprop(levAts (K (F := F)).L (K (F := F)).lev ∗ ringInv2 (F := F) d L q Tb tb ix g5 g6 O W k.val acc)
      ⊢ wp frame (wpE (defs₀ (F := F)) 𝒱₀ (thr2 d L) none) Set.univ
      (k2_t2_body L tabM2 (Memref.isWhole_whole _) idxM2 (Memref.isWhole_whole _) outM2 (Memref.isWhole_whole _)
        sI2 (Memref.isWhole_whole _) sH2 (Memref.isWhole_whole _) sR2 (Memref.isWhole_whole _) sO2 (Memref.isWhole_whole _)
        cc2_scratch4 cc2_scratch5 cc2_scoped0 cc2_scoped1 k acc)
      (fun a => iprop(levAts (K (F := F)).L (K (F := F)).lev ∗ ringInv2 (F := F) d L q Tb tb ix g5 g6 O W (k.val + 1) a)) := by
  subst htb
  have hk8 : k.val < 8 := k.isLt
  unfold k2_t2_body
  rw [k2_part12_eq_skeleton]
  unfold k2_part12_skel
  rw [k2_part1_eq_skeleton, k2_part2_eq_skeleton, k2_part3_eq_skeleton, k2_part4_eq_skeleton, k2_part5_eq_skeleton, k2_part6_eq_skeleton,
    k2_part7_eq_skeleton, k2_part8_eq_skeleton, k2_part9_eq_skeleton, k2_part10_eq_skeleton, k2_part11_eq_skeleton]
  unfold k2_part1_skel k2_part2_skel k2_part3_skel k2_part4_skel k2_part5_skel k2_part6_skel k2_part7_skel k2_part8_skel k2_part9_skel k2_part10_skel k2_part11_skel
  unfold ringInv2
  rw [dif_pos hk8]
  have hk7 : ¬ (k.val + 1 < 8) := fun h => hc ((cond1_iff2L k).mpr h)
  have hc2 : ¬ k2_cond2 k = 1#1 := fun h => hk7 ((cond2_iff2L k).mp h)
  rw [dif_neg hk7]
  unfold ringBusy2 ringDone2 flight2
  iintro ⟨#Hlv, %gA, %gB, %gR, %g8, %W', %pA, %pB, HO, H6, H8, HtL, HtR, HfA, HfB, H7, H5L, H5R, %hfin⟩
  ihave #Hmw := ((K (F := F)).mayWaits_none (thr := thr2 d L) hO) $$ Hlv
  have hall : ∀ y, ((sI2).view.read (Elt F) g5 y).toNat < 802816 := fun y => (rew_toNat2 (F := F) _ _ hg5 hix y).2
  have hH0 : ∀ p, p < 2048 → at1 ((sH2).view.read (Elt F) g6) p = 0#32 ∨ at1 ((sH2).view.read (Elt F) g6) p = 64#32 := fun p hp => half_val2_cases _ hg6 p hp
  have hIRA : ∀ x : (SR 128).Idx, (x 0).val = 0 → (sR2).view.emb x ∈ (dstAN).view.set := hIR_A2
  have hIRB : ∀ x : (SR 128).Idx, (x 0).val = 1 → (sR2).view.emb x ∈ (dstBN).view.set := hIR_B2
  -- the wait for the even chunk
  sl_exec
  icases HfA_dst with ⟨HdA, HoA⟩
  -- batch row 0 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 0 (256 * k.val + 0)) $$ [H6 HdA]
  · intro k' acc'
    exact accum_k2_t3 (HIx 2) ℕ UU ℕ 𝒱₀ d none Set.univ L tabM2 _ idxM2 _ outM2 _ sI2 _ sH2 _ sR2 _ sO2 _ cc2_scratch4 cc2_scratch5 cc2_scoped0 cc2_scoped1 (0#32) (1#32) k
      (dstAN).view.set fullShare fullShare g6 ((dstAN).view.write (Elt F) gA pA Finset.univ) hIRA (fun j hj => hH0 _ (by have : j < 16 := hj; omega)) k' acc'
  · unfold AccInv
    isplitr
    · ipureintro; rfl
    isplitl [H6]
    · iexact H6
    iexact HdA
  iintro %acc3 HI
  unfold AccInv
  icases HI with ⟨%hacc3, H6, HdA⟩
  sl_exec
  -- batch row 1 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 16 (256 * k.val + 16)) $$ [H6 HdA]
  · intro k' acc'
    apply accum_k2_t4
    · exact hIRA
    · exact fun j hj => hH0 _ (by have : j < 16 := hj; omega)
  · unfold AccInv
    isplitr
    · ipureintro; rfl
    isplitl [H6]
    · iexact H6
    iexact HdA
  iintro %acc4 HI
  unfold AccInv
  icases HI with ⟨%hacc4, H6, HdA⟩
  sl_exec
  -- batch row 2 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 32 (256 * k.val + 32)) $$ [H6 HdA]
  · intro k' acc'
    apply accum_k2_t5
    · exact hIRA
    · exact fun j hj => hH0 _ (by have : j < 16 := hj; omega)
  · unfold AccInv
    isplitr
    · ipureintro; rfl
    isplitl [H6]
    · iexact H6
    iexact HdA
  iintro %acc5 HI
  unfold AccInv
  icases HI with ⟨%hacc5, H6, HdA⟩
  sl_exec
  -- batch row 3 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 48 (256 * k.val + 48)) $$ [H6 HdA]
  · intro k' acc'
    apply accum_k2_t6
    · exact hIRA
    · exact fun j hj => hH0 _ (by have : j < 16 := hj; omega)
  · unfold AccInv
    isplitr
    · ipureintro; rfl
    isplitl [H6]
    · iexact H6
    iexact HdA
  iintro %acc6 HI
  unfold AccInv
  icases HI with ⟨%hacc6, H6, HdA⟩
  sl_exec
  -- batch row 4 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 64 (256 * k.val + 64)) $$ [H6 HdA]
  · intro k' acc'
    apply accum_k2_t7
    · exact hIRA
    · exact fun j hj => hH0 _ (by have : j < 16 := hj; omega)
  · unfold AccInv
    isplitr
    · ipureintro; rfl
    isplitl [H6]
    · iexact H6
    iexact HdA
  iintro %acc7 HI
  unfold AccInv
  icases HI with ⟨%hacc7, H6, HdA⟩
  sl_exec
  -- batch row 5 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 80 (256 * k.val + 80)) $$ [H6 HdA]
  · intro k' acc'
    apply accum_k2_t8
    · exact hIRA
    · exact fun j hj => hH0 _ (by have : j < 16 := hj; omega)
  · unfold AccInv
    isplitr
    · ipureintro; rfl
    isplitl [H6]
    · iexact H6
    iexact HdA
  iintro %acc8 HI
  unfold AccInv
  icases HI with ⟨%hacc8, H6, HdA⟩
  sl_exec
  -- batch row 6 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 96 (256 * k.val + 96)) $$ [H6 HdA]
  · intro k' acc'
    apply accum_k2_t9
    · exact hIRA
    · exact fun j hj => hH0 _ (by have : j < 16 := hj; omega)
  · unfold AccInv
    isplitr
    · ipureintro; rfl
    isplitl [H6]
    · iexact H6
    iexact HdA
  iintro %acc9 HI
  unfold AccInv
  icases HI with ⟨%hacc9, H6, HdA⟩
  sl_exec
  -- batch row 7 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 112 (256 * k.val + 112)) $$ [H6 HdA]
  · intro k' acc'
    apply accum_k2_t10
    · exact hIRA
    · exact fun j hj => hH0 _ (by have : j < 16 := hj; omega)
  · unfold AccInv
    isplitr
    · ipureintro; rfl
    isplitl [H6]
    · iexact H6
    iexact HdA
  iintro %acc10 HI
  unfold AccInv
  icases HI with ⟨%hacc10, H6, HdA⟩
  -- the even chunk after next is not started; the wait for the odd chunk
  sl_exec
  icases HfB_dst with ⟨HdB, HoB⟩
  -- batch row 0 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 0 (256 * k.val + 128)) $$ [H6 HdB]
  · intro k' acc'
    apply accum_k2_t11
    · exact hIRB
    · exact fun j hj => hH0 _ (by have : j < 16 := hj; omega)
  · unfold AccInv
    isplitr
    · ipureintro; rfl
    isplitl [H6]
    · iexact H6
    iexact HdB
  iintro %acc11 HI
  unfold AccInv
  icases HI with ⟨%hacc11, H6, HdB⟩
  sl_exec
  -- batch row 1 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 16 (256 * k.val + 144)) $$ [H6 HdB]
  · intro k' acc'
    apply accum_k2_t12
    · exact hIRB
    · exact fun j hj => hH0 _ (by have : j < 16 := hj; omega)
  · unfold AccInv
    isplitr
    · ipureintro; rfl
    isplitl [H6]
    · iexact H6
    iexact HdB
  iintro %acc12 HI
  unfold AccInv
  icases HI with ⟨%hacc12, H6, HdB⟩
  sl_exec
  -- batch row 2 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 32 (256 * k.val + 160)) $$ [H6 HdB]
  · intro k' acc'
    apply accum_k2_t13
    · exact hIRB
    · exact fun j hj => hH0 _ (by have : j < 16 := hj; omega)
  · unfold AccInv
    isplitr
    · ipureintro; rfl
    isplitl [H6]
    · iexact H6
    iexact HdB
  iintro %acc13 HI
  unfold AccInv
  icases HI with ⟨%hacc13, H6, HdB⟩
  sl_exec
  -- batch row 3 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 48 (256 * k.val + 176)) $$ [H6 HdB]
  · intro k' acc'
    apply accum_k2_t14
    · exact hIRB
    · exact fun j hj => hH0 _ (by have : j < 16 := hj; omega)
  · unfold AccInv
    isplitr
    · ipureintro; rfl
    isplitl [H6]
    · iexact H6
    iexact HdB
  iintro %acc14 HI
  unfold AccInv
  icases HI with ⟨%hacc14, H6, HdB⟩
  sl_exec
  -- batch row 4 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 64 (256 * k.val + 192)) $$ [H6 HdB]
  · intro k' acc'
    apply accum_k2_t15
    · exact hIRB
    · exact fun j hj => hH0 _ (by have : j < 16 := hj; omega)
  · unfold AccInv
    isplitr
    · ipureintro; rfl
    isplitl [H6]
    · iexact H6
    iexact HdB
  iintro %acc15 HI
  unfold AccInv
  icases HI with ⟨%hacc15, H6, HdB⟩
  sl_exec
  -- batch row 5 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 80 (256 * k.val + 208)) $$ [H6 HdB]
  · intro k' acc'
    apply accum_k2_t16
    · exact hIRB
    · exact fun j hj => hH0 _ (by have : j < 16 := hj; omega)
  · unfold AccInv
    isplitr
    · ipureintro; rfl
    isplitl [H6]
    · iexact H6
    iexact HdB
  iintro %acc16 HI
  unfold AccInv
  icases HI with ⟨%hacc16, H6, HdB⟩
  sl_exec
  -- batch row 6 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 96 (256 * k.val + 224)) $$ [H6 HdB]
  · intro k' acc'
    apply accum_k2_t17
    · exact hIRB
    · exact fun j hj => hH0 _ (by have : j < 16 := hj; omega)
  · unfold AccInv
    isplitr
    · ipureintro; rfl
    isplitl [H6]
    · iexact H6
    iexact HdB
  iintro %acc17 HI
  unfold AccInv
  icases HI with ⟨%hacc17, H6, HdB⟩
  sl_exec
  -- batch row 7 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 112 (256 * k.val + 240)) $$ [H6 HdB]
  · intro k' acc'
    apply accum_k2_t18
    · exact hIRB
    · exact fun j hj => hH0 _ (by have : j < 16 := hj; omega)
  · unfold AccInv
    isplitr
    · ipureintro; rfl
    isplitl [H6]
    · iexact H6
    iexact HdB
  iintro %acc18 HI
  unfold AccInv
  icases HI with ⟨%hacc18, H6, HdB⟩
  -- the odd chunk after next is not started either
  sl_exec
  sl_step
  isplitr; · iexact Hlv
  -- the two gather buffers and the rest of the scratch: the scratch whole
  ihave H7 := (aside_elim _) $$ H7
  ihave HR := (slots_rejoin2 d L _ _ _) $$ [HdA HdB H7]
  · isplitl [HdA]; · iexact HdA
    isplitl [HdB]; · iexact HdB
    iexact H7
  icases HR with ⟨%gR', HR⟩
  -- the list whole: each half's chunk beside its rest, then the two halves
  ihave H5L := (aside_elim _) $$ H5L
  ihave H5L := (pointsTo_split_subset (ℓ := (sI2).view.loc (thr2 d L)) (q := fullShare.left) (f := g5) (Finset.subset_univ _)).2 $$ [HoA H5L]
  · isplitl [HoA] <;> iassumption
  ihave H5R := (aside_elim _) $$ H5R
  ihave H5R := (pointsTo_split_subset (ℓ := (sI2).view.loc (thr2 d L)) (q := fullShare.right) (f := g5) (Finset.subset_univ _)).2 $$ [HoB H5R]
  · isplitl [HoB] <;> iassumption
  ihave H5 := (pointsTo_share (PosShare.mem_left_op_right fullShare)).2 $$ [H5L H5R]
  · isplitl [H5L] <;> iassumption
  have hs6 : ((sH2).view.set : Finset (Idx ((sH2).view.loc (thr2 d L)))) = Finset.univ := View.set_whole _
  ihave H6 := (Entails.of_eq (congrArg (fun S => (((sH2).view.loc (thr2 d L) ↦[S]{fullShare} g6 : sProp 𝕄))) hs6)) $$ H6
  iexists gR', _, _
  isplitl [HO]; · iexact HO
  isplitl [H6]; · iexact H6
  isplitl [H8]; · iexact H8
  isplitl [HtL]; · iexact HtL
  isplitl [HtR]; · iexact HtR
  isplitl [HfA]; · iexact HfA
  isplitl [HfB]; · iexact HfB
  isplitl [HR]; · iexact HR
  isplitl [H5]; · iexact H5
  isplitl [HfA_src]; · iexact HfA_src
  isplitl [HfB_src]; · iexact HfB_src
  ipureintro
  refine ⟨?_, ?_⟩
  · intro p hp
    rcases Finset.mem_insert.mp hp with rfl | hp
    · exact Or.inr rfl
    · rcases Finset.mem_insert.mp hp with rfl | hp
      · exact Or.inr rfl
      · exact hfin.1 p hp
  · -- the block of sums after the last trip
    have e : k.val + 1 = 8 := by omega
    have h := trip_out2 k _ ix g8 gA gB pA pB g6 _ _ _ _ _ _ _ _ _ _ _ _ _ _ _ _ hfin.2.1 hfin.2.2.1 hfin.2.2.2 hg6 hacc3 hacc4 hacc5 hacc6 hacc7 hacc8 hacc9 hacc10 hacc11 hacc12 hacc13 hacc14 hacc15 hacc16 hacc17 hacc18
    rw [e] at h
    exact h

end Cert.Proof.KI

end
-- ==== Proof.KI.Tile2Trip.lean ====
/-
  One trip of the ring of gathers of one vector subcore's task: wait for the even chunk, add up its eight batch rows,
  start the even chunk after next; the same for the odd chunk.
-/
import proofs.«219250_g10247791969013_week1_w1_750_27_alg».proof.Proof.KI.Tile2Ring
import proofs.«219250_g10247791969013_week1_w1_750_27_alg».proof.Proof.KI.Tile2Chunks
import proofs.«219250_g10247791969013_week1_w1_750_27_alg».proof.Proof.KI.Tile2Chunks2
import proofs.«219250_g10247791969013_week1_w1_750_27_alg».proof.Proof.KI.Tile2TripOut
import proofs.«219250_g10247791969013_week1_w1_750_27_alg».proof.Proof.KI.Tile2TripLast
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid2.Coords)

set_option quotPrecheck false in
local notation "tabSlN" => ((tabM2).slice (Rect.unit (s := S802816x128) ![0, 0] S802816x128.size inb_S802816x128_S802816x128_0_0) (fun _ => rfl))
set_option quotPrecheck false in
local notation "dstAN" => (((sR2).slice (Rect.unit (s := S2x128x128) ![0, 0, 0] S1x128x128.size inb_S2x128x128_S1x128x128_0_0_0) (fun _ => rfl)).squeeze S128x128 squeezes_S1x128x128_S128x128)
set_option quotPrecheck false in
local notation "dstBN" => (((sR2).slice (Rect.unit (s := S2x128x128) ![1, 0, 0] S1x128x128.size inb_S2x128x128_S1x128x128_1_0_0) (fun _ => rfl)).squeeze S128x128 squeezes_S1x128x128_S128x128)

variable (q : PosShare TreeShare) (Tb : Buf (Elt F) ((tabM2).view.loc (thr2 d L)))
  (tb : S802816x128.Idx → Elt F .f32) (ix : S2048.Idx → Elt F .i32)
  (g5 : Buf (Elt F) ((sI2).view.loc (thr2 d L))) (g6 : Buf (Elt F) ((sH2).view.loc (thr2 d L)))
  (O : CellTallies nD τ sig (HIx 2)) (W : Waits sig (HIx 2))

omit [FloatOps F] in
theorem cond1_iff2 : ∀ k : Fin k2_t2_loop.trips, k2_cond1 k = 1#1 ↔ k.val + 1 < 8 := by decide +kernel
omit [FloatOps F] in
theorem cond2_iff2 : ∀ k : Fin k2_t2_loop.trips, k2_cond2 k = 1#1 ↔ k.val + 1 < 8 := by decide +kernel

/-- The even buffer's rows put back beside what lies outside both buffers: everything but the odd buffer. -/
theorem rowsA_join2 (g f : Buf (Elt F) ((sR2).view.loc (thr2 d L))) :
    iprop(((sR2).view.loc (thr2 d L) ↦[((dstAN).view.set : Finset S2x128x128.Idx)]{fullShare} g)
      ∗ ((sR2).view.loc (thr2 d L) ↦[(Finset.univ \ ((dstAN).view.set : Finset S2x128x128.Idx)) \ ((dstBN).view.set : Finset S2x128x128.Idx)]{fullShare} f))
      ⊢ ((sR2).view.loc (thr2 d L) ↦[Finset.univ \ ((dstBN).view.set : Finset S2x128x128.Idx)]{fullShare}
          (Finset.piecewise ((dstAN).view.set : Finset S2x128x128.Idx) g f) : sProp 𝕄) := by
  rw [sdiff_right_comm]
  exact pointsTo_join_subset disjAB2

/-- The odd buffer's rows put back likewise: everything but the even buffer. -/
theorem rowsB_join2 (g f : Buf (Elt F) ((sR2).view.loc (thr2 d L))) :
    iprop(((sR2).view.loc (thr2 d L) ↦[((dstBN).view.set : Finset S2x128x128.Idx)]{fullShare} g)
      ∗ ((sR2).view.loc (thr2 d L) ↦[(Finset.univ \ ((dstBN).view.set : Finset S2x128x128.Idx)) \ ((dstAN).view.set : Finset S2x128x128.Idx)]{fullShare} f))
      ⊢ ((sR2).view.loc (thr2 d L) ↦[Finset.univ \ ((dstAN).view.set : Finset S2x128x128.Idx)]{fullShare}
          (Finset.piecewise ((dstBN).view.set : Finset S2x128x128.Idx) g f) : sProp 𝕄) := by
  rw [sdiff_right_comm]
  exact pointsTo_join_subset disjBA2

omit [FloatOps F] in
theorem hsubT2 : (((tabSlN).view.set : Finset S802816x128.Idx)) ⊆ (tabM2).view.set := View.set_slice_subset (tabM2).view _

theorem eqA2s (k : Fin k2_t2_loop.trips) (hc : k2_cond1 k = 1#1) (hk7 : k.val + 1 < 8) :
    (((sI2).slice (Rect.unit (s := S2048) (k2_off29 k) S128.size (k2_off29_inb k hc)) (fun _ => rfl)).view.set : Finset S2048.Idx) = ((offsC2 (2 * (k.val + 1)) (lt16a hk7)).view.set : Finset S2048.Idx) :=
  eqA2 k hc hk7
theorem eqB2s (k : Fin k2_t2_loop.trips) (hc2 : k2_cond2 k = 1#1) (hk7 : k.val + 1 < 8) :
    (((sI2).slice (Rect.unit (s := S2048) (k2_off55 k) S128.size (k2_off55_inb k hc2)) (fun _ => rfl)).view.set : Finset S2048.Idx) = ((offsC2 (2 * (k.val + 1) + 1) (lt16b hk7)).view.set : Finset S2048.Idx) :=
  eqB2 k hc2 hk7
set_option maxHeartbeats 16000000 in
/-- One trip of the ring: wait for the even chunk, add up its eight batch rows, start the even chunk after next; the same
    for the odd chunk. -/
theorem ring_trip (k : Fin k2_t2_loop.trips) (acc : Unit)
    (hg5 : XI5 ix ((sI2).view.read (Elt F) g5) 128) (hg6 : XI6 ((sH2).view.read (Elt F) g6) 128)
    (htb : tb = (tabM2).view.read (Elt F) Tb) (hix : ∀ j, (ix j).toNat < 100000) (hO : ∀ g, O g none = 0) :
    iprop(levAts (K (F := F)).L (K (F := F)).lev ∗ ringInv2 (F := F) d L q Tb tb ix g5 g6 O W k.val acc)
      ⊢ wp frame (wpE (defs₀ (F := F)) 𝒱₀ (thr2 d L) none) Set.univ
      (k2_t2_body L tabM2 (Memref.isWhole_whole _) idxM2 (Memref.isWhole_whole _) outM2 (Memref.isWhole_whole _)
        sI2 (Memref.isWhole_whole _) sH2 (Memref.isWhole_whole _) sR2 (Memref.isWhole_whole _) sO2 (Memref.isWhole_whole _)
        cc2_scratch4 cc2_scratch5 cc2_scoped0 cc2_scoped1 k acc)
      (fun a => iprop(levAts (K (F := F)).L (K (F := F)).lev ∗ ringInv2 (F := F) d L q Tb tb ix g5 g6 O W (k.val + 1) a)) := by
  by_cases hc : k2_cond1 k = 1#1
  · -- more trips follow: both chunks after next are started
    subst htb
    have hk8 : k.val < 8 := k.isLt
    unfold k2_t2_body
    rw [k2_part12_eq_skeleton]
    unfold k2_part12_skel
    rw [k2_part1_eq_skeleton, k2_part2_eq_skeleton, k2_part3_eq_skeleton, k2_part4_eq_skeleton, k2_part5_eq_skeleton, k2_part6_eq_skeleton,
      k2_part7_eq_skeleton, k2_part8_eq_skeleton, k2_part9_eq_skeleton, k2_part10_eq_skeleton, k2_part11_eq_skeleton]
    unfold k2_part1_skel k2_part2_skel k2_part3_skel k2_part4_skel k2_part5_skel k2_part6_skel k2_part7_skel k2_part8_skel k2_part9_skel k2_part10_skel k2_part11_skel
    unfold ringInv2
    rw [dif_pos hk8]
    have hk7 : k.val + 1 < 8 := (cond1_iff2 k).mp hc
    have hc2 : k2_cond2 k = 1#1 := (cond2_iff2 k).mpr hk7
    rw [dif_pos hk7]
    unfold ringBusy2 flight2
    iintro ⟨#Hlv, %gA, %gB, %gR, %g8, %W', %pA, %pB, HO, H6, H8, HtL, HtR, HfA, HfB, H7, H5L, H5R, %hfin⟩
    ihave #Hmw := ((K (F := F)).mayWaits_none (thr := thr2 d L) hO) $$ Hlv
    have hall : ∀ y, ((sI2).view.read (Elt F) g5 y).toNat < 802816 := fun y => (rew_toNat2 (F := F) _ _ hg5 hix y).2
    have hH0 : ∀ p, p < 2048 → at1 ((sH2).view.read (Elt F) g6) p = 0#32 ∨ at1 ((sH2).view.read (Elt F) g6) p = 64#32 := fun p hp => half_val2_cases _ hg6 p hp
    have hIRA : ∀ x : (SR 128).Idx, (x 0).val = 0 → (sR2).view.emb x ∈ (dstAN).view.set := hIR_A2
    have hIRB : ∀ x : (SR 128).Idx, (x 0).val = 1 → (sR2).view.emb x ∈ (dstBN).view.set := hIR_B2
    have hinA : ∀ x, ((sI2.slice (Rect.unit (s := S2048) (k2_off29 k) S128.size (k2_off29_inb k hc)) (fun _ => rfl)).view.read (Elt F) g5 x).toNat < 802816 := fun x => hall _
    have hinB : ∀ x, ((sI2.slice (Rect.unit (s := S2048) (k2_off55 k) S128.size (k2_off55_inb k hc2)) (fun _ => rfl)).view.read (Elt F) g5 x).toNat < 802816 := fun x => hall _
    -- the wait for the even chunk
    sl_exec
    icases HfA_dst with ⟨HdA, HoA⟩
    -- batch row 0 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 0 (256 * k.val + 0)) $$ [H6 HdA]
    · intro k' acc'
      exact accum_k2_t3 (HIx 2) ℕ UU ℕ 𝒱₀ d none Set.univ L tabM2 _ idxM2 _ outM2 _ sI2 _ sH2 _ sR2 _ sO2 _ cc2_scratch4 cc2_scratch5 cc2_scoped0 cc2_scoped1 (0#32) (1#32) k
        (dstAN).view.set fullShare fullShare g6 ((dstAN).view.write (Elt F) gA pA Finset.univ) hIRA (fun j hj => hH0 _ (by have : j < 16 := hj; omega)) k' acc'
    · unfold AccInv
      isplitr
      · ipureintro; rfl
      isplitl [H6]
      · iexact H6
      iexact HdA
    iintro %acc3 HI
    unfold AccInv
    icases HI with ⟨%hacc3, H6, HdA⟩
    sl_exec
    -- batch row 1 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 16 (256 * k.val + 16)) $$ [H6 HdA]
    · intro k' acc'
      apply accum_k2_t4
      · exact hIRA
      · exact fun j hj => hH0 _ (by have : j < 16 := hj; omega)
    · unfold AccInv
      isplitr
      · ipureintro; rfl
      isplitl [H6]
      · iexact H6
      iexact HdA
    iintro %acc4 HI
    unfold AccInv
    icases HI with ⟨%hacc4, H6, HdA⟩
    sl_exec
    -- batch row 2 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 32 (256 * k.val + 32)) $$ [H6 HdA]
    · intro k' acc'
      apply accum_k2_t5
      · exact hIRA
      · exact fun j hj => hH0 _ (by have : j < 16 := hj; omega)
    · unfold AccInv
      isplitr
      · ipureintro; rfl
      isplitl [H6]
      · iexact H6
      iexact HdA
    iintro %acc5 HI
    unfold AccInv
    icases HI with ⟨%hacc5, H6, HdA⟩
    sl_exec
    -- batch row 3 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 48 (256 * k.val + 48)) $$ [H6 HdA]
    · intro k' acc'
      apply accum_k2_t6
      · exact hIRA
      · exact fun j hj => hH0 _ (by have : j < 16 := hj; omega)
    · unfold AccInv
      isplitr
      · ipureintro; rfl
      isplitl [H6]
      · iexact H6
      iexact HdA
    iintro %acc6 HI
    unfold AccInv
    icases HI with ⟨%hacc6, H6, HdA⟩
    sl_exec
    -- batch row 4 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 64 (256 * k.val + 64)) $$ [H6 HdA]
    · intro k' acc'
      apply accum_k2_t7
      · exact hIRA
      · exact fun j hj => hH0 _ (by have : j < 16 := hj; omega)
    · unfold AccInv
      isplitr
      · ipureintro; rfl
      isplitl [H6]
      · iexact H6
      iexact HdA
    iintro %acc7 HI
    unfold AccInv
    icases HI with ⟨%hacc7, H6, HdA⟩
    sl_exec
    -- batch row 5 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 80 (256 * k.val + 80)) $$ [H6 HdA]
    · intro k' acc'
      apply accum_k2_t8
      · exact hIRA
      · exact fun j hj => hH0 _ (by have : j < 16 := hj; omega)
    · unfold AccInv
      isplitr
      · ipureintro; rfl
      isplitl [H6]
      · iexact H6
      iexact HdA
    iintro %acc8 HI
    unfold AccInv
    icases HI with ⟨%hacc8, H6, HdA⟩
    sl_exec
    -- batch row 6 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 96 (256 * k.val + 96)) $$ [H6 HdA]
    · intro k' acc'
      apply accum_k2_t9
      · exact hIRA
      · exact fun j hj => hH0 _ (by have : j < 16 := hj; omega)
    · unfold AccInv
      isplitr
      · ipureintro; rfl
      isplitl [H6]
      · iexact H6
      iexact HdA
    iintro %acc9 HI
    unfold AccInv
    icases HI with ⟨%hacc9, H6, HdA⟩
    sl_exec
    -- batch row 7 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 112 (256 * k.val + 112)) $$ [H6 HdA]
    · intro k' acc'
      apply accum_k2_t10
      · exact hIRA
      · exact fun j hj => hH0 _ (by have : j < 16 := hj; omega)
    · unfold AccInv
      isplitr
      · ipureintro; rfl
      isplitl [H6]
      · iexact H6
      iexact HdA
    iintro %acc10 HI
    unfold AccInv
    icases HI with ⟨%hacc10, H6, HdA⟩
    -- what the even chain holds, whole again, for its next gather
    ihave HtL := (aside_elim _) $$ HtL
    ihave HtL := (pointsTo_split_subset (ℓ := (tabM2).view.loc (thr2 d L)) (q := q.left) (f := Tb) hsubT2).2 $$ [HfA_src HtL]
    · isplitl [HfA_src] <;> iassumption
    ihave H5L := (aside_elim _) $$ H5L
    ihave H5L := (pointsTo_split_subset (ℓ := (sI2).view.loc (thr2 d L)) (q := fullShare.left) (f := g5) (Finset.subset_univ ((offsC2 (2 * k.val) (lt16a hk8)).view.set : Finset S2048.Idx))).2 $$ [HoA H5L]
    · isplitl [HoA] <;> iassumption
    ihave H7 := (aside_elim _) $$ H7
    ihave H7 := (rowsA_join2 d L _ _) $$ [HdA H7]
    · isplitl [HdA] <;> iassumption
    sl_exec
    icases HfB_dst with ⟨HdB, HoB⟩
    ihave HtL := (aside_intro _) $$ HtL
    ihave H5L := (aside_intro _) $$ H5L
    -- batch row 0 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 0 (256 * k.val + 128)) $$ [H6 HdB]
    · intro k' acc'
      apply accum_k2_t11
      · exact hIRB
      · exact fun j hj => hH0 _ (by have : j < 16 := hj; omega)
    · unfold AccInv
      isplitr
      · ipureintro; rfl
      isplitl [H6]
      · iexact H6
      iexact HdB
    iintro %acc11 HI
    unfold AccInv
    icases HI with ⟨%hacc11, H6, HdB⟩
    sl_exec
    -- batch row 1 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 16 (256 * k.val + 144)) $$ [H6 HdB]
    · intro k' acc'
      apply accum_k2_t12
      · exact hIRB
      · exact fun j hj => hH0 _ (by have : j < 16 := hj; omega)
    · unfold AccInv
      isplitr
      · ipureintro; rfl
      isplitl [H6]
      · iexact H6
      iexact HdB
    iintro %acc12 HI
    unfold AccInv
    icases HI with ⟨%hacc12, H6, HdB⟩
    sl_exec
    -- batch row 2 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 32 (256 * k.val + 160)) $$ [H6 HdB]
    · intro k' acc'
      apply accum_k2_t13
      · exact hIRB
      · exact fun j hj => hH0 _ (by have : j < 16 := hj; omega)
    · unfold AccInv
      isplitr
      · ipureintro; rfl
      isplitl [H6]
      · iexact H6
      iexact HdB
    iintro %acc13 HI
    unfold AccInv
    icases HI with ⟨%hacc13, H6, HdB⟩
    sl_exec
    -- batch row 3 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 48 (256 * k.val + 176)) $$ [H6 HdB]
    · intro k' acc'
      apply accum_k2_t14
      · exact hIRB
      · exact fun j hj => hH0 _ (by have : j < 16 := hj; omega)
    · unfold AccInv
      isplitr
      · ipureintro; rfl
      isplitl [H6]
      · iexact H6
      iexact HdB
    iintro %acc14 HI
    unfold AccInv
    icases HI with ⟨%hacc14, H6, HdB⟩
    sl_exec
    -- batch row 4 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 64 (256 * k.val + 192)) $$ [H6 HdB]
    · intro k' acc'
      apply accum_k2_t15
      · exact hIRB
      · exact fun j hj => hH0 _ (by have : j < 16 := hj; omega)
    · unfold AccInv
      isplitr
      · ipureintro; rfl
      isplitl [H6]
      · iexact H6
      iexact HdB
    iintro %acc15 HI
    unfold AccInv
    icases HI with ⟨%hacc15, H6, HdB⟩
    sl_exec
    -- batch row 5 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 80 (256 * k.val + 208)) $$ [H6 HdB]
    · intro k' acc'
      apply accum_k2_t16
      · exact hIRB
      · exact fun j hj => hH0 _ (by have : j < 16 := hj; omega)
    · unfold AccInv
      isplitr
      · ipureintro; rfl
      isplitl [H6]
      · iexact H6
      iexact HdB
    iintro %acc16 HI
    unfold AccInv
    icases HI with ⟨%hacc16, H6, HdB⟩
    sl_exec
    -- batch row 6 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 96 (256 * k.val + 224)) $$ [H6 HdB]
    · intro k' acc'
      apply accum_k2_t17
      · exact hIRB
      · exact fun j hj => hH0 _ (by have : j < 16 := hj; omega)
    · unfold AccInv
      isplitr
      · ipureintro; rfl
      isplitl [H6]
      · iexact H6
      iexact HdB
    iintro %acc17 HI
    unfold AccInv
    icases HI with ⟨%hacc17, H6, HdB⟩
    sl_exec
    -- batch row 7 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 112 (256 * k.val + 240)) $$ [H6 HdB]
    · intro k' acc'
      apply accum_k2_t18
      · exact hIRB
      · exact fun j hj => hH0 _ (by have : j < 16 := hj; omega)
    · unfold AccInv
      isplitr
      · ipureintro; rfl
      isplitl [H6]
      · iexact H6
      iexact HdB
    iintro %acc18 HI
    unfold AccInv
    icases HI with ⟨%hacc18, H6, HdB⟩
    -- what the odd chain holds, whole again, for its next gather
    ihave HtR := (aside_elim _) $$ HtR
    ihave HtR := (pointsTo_split_subset (ℓ := (tabM2).view.loc (thr2 d L)) (q := q.right) (f := Tb) hsubT2).2 $$ [HfB_src HtR]
    · isplitl [HfB_src] <;> iassumption
    ihave H5R := (aside_elim _) $$ H5R
    ihave H5R := (pointsTo_split_subset (ℓ := (sI2).view.loc (thr2 d L)) (q := fullShare.right) (f := g5) (Finset.subset_univ ((offsC2 (2 * k.val + 1) (lt16b hk8)).view.set : Finset S2048.Idx))).2 $$ [HoB H5R]
    · isplitl [HoB] <;> iassumption
    ihave H7 := (rowsB_join2 d L _ _) $$ [HdB H7]
    · isplitl [HdB] <;> iassumption
    sl_exec
    ihave HtR := (aside_intro _) $$ HtR
    ihave H5R := (aside_intro _) $$ H5R
    ihave H7 := (aside_intro _) $$ H7
    sl_step
    rw [eqA2s k hc hk7, eqB2s k hc2 hk7]
    isplitr [HO H6 H8 HtL HtR HfA HfB H7 H5L H5R]
    · iexact Hlv
    iexists _, _, _, _, _, _, _
    isplitl [HO]; · iexact HO
    isplitl [H6]; · iexact H6
    isplitl [H8]; · iexact H8
    isplitl [HtL]; · iexact HtL
    isplitl [HtR]; · iexact HtR
    isplitl [HfA]; · iexact HfA
    isplitl [HfB]; · iexact HfB
    isplitl [H7]; · iexact H7
    isplitl [H5L]; · iexact H5L
    isplitl [H5R]; · iexact H5R
    ipureintro
    refine ⟨?_, ?_, ?_, ?_⟩
    · intro p hp
      rcases Finset.mem_insert.mp hp with rfl | hp
      · exact Or.inr rfl
      rcases Finset.mem_insert.mp hp with rfl | hp
      · exact Or.inr rfl
      exact hfin.1 p hp
    · exact trip_out2 k _ ix g8 gA gB pA pB g6 _ _ _ _ _ _ _ _ _ _ _ _ _ _ _ _ hfin.2.1 hfin.2.2.1 hfin.2.2.2 hg6 hacc3 hacc4 hacc5 hacc6 hacc7 hacc8 hacc9 hacc10 hacc11 hacc12 hacc13 hacc14 hacc15 hacc16 hacc17 hacc18
    · exact gather_spec2 d L Tb ix g5 hg5 hix (2 * (k.val + 1)) (k2_off29 k) _ _
        ((k2_off29_eq k).trans (by rw [show 128 * (2 * (k.val + 1)) = 256 * k.val + 256 from by omega])) _ _
    · exact gather_spec2 d L Tb ix g5 hg5 hix (2 * (k.val + 1) + 1) (k2_off55 k) _ _
        ((k2_off55_eq k).trans (by rw [show 128 * (2 * (k.val + 1) + 1) = 256 * k.val + 384 from by omega])) _ _
  · -- the last trip: nothing more is started; everything comes back
    exact ring_trip_last d L q Tb tb ix g5 g6 O W k acc hg5 hg6 htb hix hO hc

end Cert.Proof.KI

end
-- ==== Proof.KI.Tile2.lean ====
/-
  One vector subcore's task of the first embedding-sum call, run from what it is handed to what it leaves.
-/
import proofs.«219250_g10247791969013_week1_w1_750_27_alg».proof.Proof.KI.Tile2Trip
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

/-! ## The task -/

variable (d : Dev nD) (L : grid2.Coords)

theorem ringInv2_last (q : PosShare TreeShare) (Tb : Buf (Elt F) ((tabM2).view.loc (thr2 d L)))
    (tb : S802816x128.Idx → Elt F .f32) (ix : S2048.Idx → Elt F .i32)
    (g5 : Buf (Elt F) ((sI2).view.loc (thr2 d L))) (g6 : Buf (Elt F) ((sH2).view.loc (thr2 d L)))
    (O : CellTallies nD τ sig (HIx 2)) (W : Waits sig (HIx 2)) (n : ℕ) (hn : ¬ n < 8) (a : Unit) :
    ringInv2 (F := F) d L q Tb tb ix g5 g6 O W n a = ringDone2 (F := F) d L q Tb tb ix g5 g6 O W := by
  unfold ringInv2; rw [dif_neg hn]

/-- An unmasked write through the whole-shape rectangle of a view is the write through the view. -/
theorem write_slice_whole {sg : RefSig} {κ : Kind} {sp : Space} {S : Shape} {e : EltTy} (v : View sg κ sp S e)
    (f : v.ty.Contents (Elt F)) (w : S.Idx → Elt F e) :
    (v.slice (Rect.whole S)).write (Elt F) f w Finset.univ = v.write (Elt F) f w Finset.univ := by
  funext i
  by_cases hi : i ∈ v.setOn Finset.univ
  · obtain ⟨x, -, rfl⟩ := Finset.mem_map.mp hi
    have e1 : v.emb x = (v.slice (Rect.whole S)).emb x := by
      show v.emb x = v.emb ((Rect.whole S).emb x); rw [Rect.emb_whole_apply]
    rw [View.write_emb_of_mem _ _ (Finset.mem_univ x)]
    conv_lhs => rw [e1]
    rw [View.write_emb_of_mem _ _ (Finset.mem_univ x)]
  · rw [View.write_of_not_mem _ _ _ hi, View.write_of_not_mem _ _ _ (fun h => hi (by
      obtain ⟨x, -, hx⟩ := Finset.mem_map.mp h
      exact Finset.mem_map.mpr ⟨(Rect.whole S).emb x, Finset.mem_univ _, hx⟩))]

set_option maxHeartbeats 4000000 in
/-- One vector subcore's task of the first embedding-sum call: handed a share of the pair table, a share of its 2048
    index words (each below 100000), its 64 result rows at any contents, its own buffers and semaphores, it runs to
    its end, gives the shares back unchanged and leaves its result rows at `OUT2`. -/
theorem tile2_body (hF : (K (F := F)).Facts) (q qi : PosShare TreeShare)
    (Tb : Buf (Elt F) ((tabM2).view.loc (thr2 d L))) (Ix : Buf (Elt F) ((idxSl2 L).view.loc (thr2 d L)))
    (fo : Buf (Elt F) ((outSl2 L).view.loc (thr2 d L)))
    (hIx : ∀ j, ((idxSl2 L).view.read (Elt F) Ix j).toNat < 100000)
    (O : CellTallies nD τ sig (HIx 2)) (W : Waits sig (HIx 2)) (hO : ∀ g, O g none = 0) :
    iprop(levAts (K (F := F)).L (K (F := F)).lev
        ∗ ((tabM2).view.loc (thr2 d L) ↦[(tabM2).view.set]{q} Tb)
        ∗ ((idxSl2 L).view.loc (thr2 d L) ↦[(idxSl2 L).view.set]{qi} Ix)
        ∗ ((outSl2 L).view.loc (thr2 d L) ↦[(outSl2 L).view.set]{fullShare} fo)
        ∗ scopedBufs (thr2 d L) ∗ scopedSems0 (thr2 d L) ∗ owes (thr2 d L) O W)
      ⊢ (wp frame (wpE (defs₀ (F := F)) 𝒱₀ (thr2 d L) none) Set.univ
          (cc2__emb_body L tabM2 (Memref.isWhole_whole _) idxM2 (Memref.isWhole_whole _) outM2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            cc2_scratch4 cc2_scratch5 cc2_scoped0 cc2_scoped1)
          fun _ => iprop(((tabM2).view.loc (thr2 d L) ↦[(tabM2).view.set]{q} Tb)
            ∗ ((idxSl2 L).view.loc (thr2 d L) ↦[(idxSl2 L).view.set]{qi} Ix)
            ∗ ((outSl2 L).view.loc (thr2 d L) ↦[(outSl2 L).view.set]{fullShare}
                ((outSl2 L).view.write (Elt F) fo (OUT2 ((tabM2).view.read (Elt F) Tb) ((idxSl2 L).view.read (Elt F) Ix)) Finset.univ))
            ∗ scopedBufs (thr2 d L) ∗ scopedSems0 (thr2 d L)
            ∗ ∃ W', ⌜∀ p ∈ W', p ∈ W ∨ p.2 = none⌝ ∗ owes (thr2 d L) O W') : sProp 𝕄) := by
  rw [(K (F := F)).scopedBufs_V hF d (cV2 L) (jV2 L), SparseCore.Cfg.scopedSems0_V (Val := Elt F) d (cV2 L) (jV2 L), ownSems0_V2, ownBufs_V2]
  iintro ⟨#Hlv, Ht, Hi, Ho, ⟨⟨%f5, H5⟩, ⟨%f6, H6⟩, ⟨%f7, H7⟩, ⟨%f8, H8⟩, Hbufs⟩, ⟨HsA, HsB, HsC, HsD, Hsems⟩, HO⟩
  ihave #Hmw := ((K (F := F)).mayWaits_none (thr := thr2 d L) hO) $$ Hlv
  -- the table's share in two halves, one per gather buffer; the second set aside until the first gather is out
  ihave Ht2 := (pointsTo_share (PosShare.mem_left_op_right q)).1 $$ Ht
  icases Ht2 with ⟨HtL, HtR⟩
  ihave HtR' := (aside_intro _) $$ HtR
  sl_unfold [cc2__emb_body, k2_part13]
  -- the copy in
  sl_exec
  -- the rewrite of the list
  sl_for (xfInv (F := F) d L ((idxSl2 L).view.read (Elt F) Ix)) $$ [H5 H6]
  · exact xform_trip d L _
  · unfold xfInv
    iexists _, _
    isplitl [H5]; · iexact H5
    isplitl [H6]; · iexact H6
    ipureintro
    exact ⟨XI5_zero _ _ _, XI6_zero _⟩
  iintro %acc HI
  unfold xfInv
  icases HI with ⟨%g5, %g6, H5, H6, %hP⟩
  -- every rewritten word names a row of the pair table
  have hall : ∀ y, ((sI2).view.read (Elt F) g5 y).toNat < 802816 := fun y => (rew_toNat2 (F := F) _ _ hP.1 hIx y).2
  have hin0 : ∀ x, ((sI2.slice (Rect.unit (s := S2048) ![0] S128.size inb_S2048_S128_0) (fun _ => rfl)).view.read (Elt F) g5 x).toNat < 802816 := fun x => hall _
  have hin1 : ∀ x, ((sI2.slice (Rect.unit (s := S2048) ![128] S128.size inb_S2048_S128_128) (fun _ => rfl)).view.read (Elt F) g5 x).toNat < 802816 := fun x => hall _
  -- the list in two halves too, one per gather chain; the second set aside until the first gather is out
  ihave H5s := (pointsTo_share (PosShare.mem_left_op_right fullShare)).1 $$ H5
  icases H5s with ⟨H5L, H5R⟩
  ihave H5R' := (aside_intro _) $$ H5R
  -- the first two gathers
  sl_exec
  ihave HtL := (aside_intro _) $$ HtL
  ihave H5L := (aside_intro _) $$ H5L
  ihave HtR := (aside_elim _) $$ HtR'
  ihave H5R := (aside_elim _) $$ H5R'
  sl_exec
  -- the ring of gathers
  ihave HtR := (aside_intro _) $$ HtR
  ihave H5R := (aside_intro _) $$ H5R
  ihave H7 := (aside_intro _) $$ H7
  sl_for (fun k a => iprop(levAts (K (F := F)).L (K (F := F)).lev
      ∗ ringInv2 (F := F) d L q Tb ((tabM2).view.read (Elt F) Tb) ((idxSl2 L).view.read (Elt F) Ix) g5 g6 O
          (insert (SemLoc.dma cc2_scoped0.sem, (default : HIx 2)) W) k a)) $$ [Hlv HsA HtL HsB HtR H7 H5L H5R H6 H8 HO]
  · intro k acc
    exact ring_trip d L q Tb _ _ g5 g6 O _ k acc hP.1 hP.2 rfl hIx hO
  · -- ENTRY: the state after the two first gathers is the invariant before trip 0
    unfold ringInv2
    rw [dif_pos (show (0 : ℕ) < 8 by decide)]
    unfold ringBusy2 flight2
    isplitr; · iexact Hlv
    iexists f7, _, _, f8, (insert (SemLoc.dma cc2_scoped0.sem, (default : HIx 2)) W), _, _
    isplitl [HO]; · iexact HO
    isplitl [H6]; · iexact H6
    isplitl [H8]; · iexact H8
    isplitl [HtL]; · iexact HtL
    isplitl [HtR]; · iexact HtR
    isplitl [HsA]; · iexact HsA
    isplitl [HsB]; · iexact HsB
    isplitl [H7]; · iexact H7
    isplitl [H5L]; · iexact H5L
    isplitl [H5R]; · iexact H5R
    ipureintro
    refine ⟨fun p hp => Or.inl hp, OutOK2_zero _ _ _, ?_, ?_⟩
    · exact gather_spec2 d L Tb _ g5 hP.1 hIx 0 ![0] inb_S2048_S128_0 _ rfl rfl hin0
    · exact gather_spec2 d L Tb _ g5 hP.1 hIx 1 ![128] inb_S2048_S128_128 _ rfl rfl hin1
  iintro %acc2 HI
  -- TAIL: the invariant after trip 8, the copy out, the post
  icases HI with ⟨-, HI⟩
  ihave HI := (Entails.of_eq (ringInv2_last d L q Tb _ _ g5 g6 O _ _ (by decide) acc2)) $$ HI
  unfold ringDone2
  icases HI with ⟨%gR, %g8, %W', HO, H6, H8, HtLr, HtRr, HsA, HsB, H7, H5, HtA, HtB, %hfin⟩
  ihave HtLr := (aside_elim _) $$ HtLr
  ihave HtRr := (aside_elim _) $$ HtRr
  have hsub : ((tabSl2).view.set : Finset (Idx ((tabM2).view.loc (thr2 d L)))) ⊆ (tabM2).view.set := View.set_slice_subset (tabM2).view _
  ihave HtL := (pointsTo_split_subset (ℓ := (tabM2).view.loc (thr2 d L)) (q := q.left) (f := Tb) hsub).2 $$ [HtA HtLr]
  · isplitl [HtA]; · iexact HtA
    iexact HtLr
  ihave HtR := (pointsTo_split_subset (ℓ := (tabM2).view.loc (thr2 d L)) (q := q.right) (f := Tb) hsub).2 $$ [HtB HtRr]
  · isplitl [HtB]; · iexact HtB
    iexact HtRr
  ihave Ht := (pointsTo_share (PosShare.mem_left_op_right q)).2 $$ [HtL HtR]
  · isplitl [HtL]; · iexact HtL
    iexact HtR
  -- the copy out
  sl_exec
  sl_step
  -- the block of sums is the specification's, all 64 rows of it
  have hOut : (sO2).view.read (Elt F) g8 = OUT2 ((tabM2).view.read (Elt F) Tb) ((idxSl2 L).view.read (Elt F) Ix) :=
    funext fun x => hfin.2 x (by have h64 : (x 0).val < 64 := (x 0).isLt; omega)
  have hpay : tile2_body.sl.dma0_1 d L g8 = (sO2).view.read (Elt F) g8 := rfl
  have hval : (outSl2 L).view.writes (Elt F) fo [⟨Rect.whole S64x128, tile2_body.sl.dma0_1 d L g8⟩]
      = (outSl2 L).view.write (Elt F) fo (OUT2 ((tabM2).view.read (Elt F) Tb) ((idxSl2 L).view.read (Elt F) Ix)) Finset.univ := by
    rw [hpay, hOut, View.writes_singleton]; exact write_slice_whole _ _ _
  rw [← hval]
  isplitl [Ht]; · iexact Ht
  isplitl [Hi]; · iexact Hi
  isplitl [Ho]; · iexact Ho
  isplitl [H5 H6 H7 H8 Hbufs]
  · isplitl [H5]; · iexists g5; iexact H5
    isplitl [H6]; · iexists g6; iexact H6
    isplitl [H7]; · iexists gR; iexact H7
    isplitl [H8]; · iexists g8; iexact H8
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists (insert (SemLoc.dma cc2_scoped1.sem, (default : HIx 2)) W')
  isplitr
  · ipureintro
    intro p hp
    rcases Finset.mem_insert.mp hp with rfl | hp
    · exact Or.inr rfl
    · rcases hfin.1 p hp with h | h
      · rcases Finset.mem_insert.mp h with rfl | h
        · exact Or.inr rfl
        · exact Or.inl h
      · exact Or.inr h
  iexact HO
-- ==== Proof.KI.Tile3Res.lean ====
/-
  One vector subcore's task of the second embedding-sum call: what it is handed, what it leaves, and the value it
  writes. The task copies its 1280 index words into its own memory, turns each into a row number of the
  pair table (the word plus (position mod 10 / 2) * 100352) beside the lane offset (position mod 10 mod 2) * 64,
  gathers the named rows 80 at a time through two buffers, adds up ten gathered half-rows per batch row, and
  copies its 64 x 128 block of sums out.
-/
import proofs.«219250_g10247791969013_week1_w1_750_27_alg».proof.Proof.KI.Base
import proofs.«219250_g10247791969013_week1_w1_750_27_alg».proof.Proof.KI.Tile3Defs
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The task's own buffers and semaphores -/

open Idealize.ShloMosaic.SparseCore.Cfg (tileRest ownBufs ownSems0 ownCells ownRefs mem_ownCells mem_ownRefs)

/-- The task's copy of its index words (1280). -/
abbrev sI3 : Memref sig .scVector .vmem S1280 .i32 := Memref.whole cc3_scratch0
/-- The lane offsets beside them (1296 words, the last 16 never written). -/
abbrev sH3 : Memref sig .scVector .vmem S1296 .i32 := Memref.whole cc3_scratch1
/-- The two gather buffers (2 x 80 x 128). -/
abbrev sR3 : Memref sig .scVector .vmem S2x80x128 .f32 := Memref.whole cc3_scratch2
/-- The block of sums (64 x 128). -/
abbrev sO3 : Memref sig .scVector .vmem S64x128 .f32 := Memref.whole cc3_scratch3

variable (d : Dev nD) (L : grid3.Coords)

/-- The semaphore of the even chunks' gathers. -/
abbrev cellA3 : GSem nD τ sig := (thr3 d L, .dma cc3_scratch4.sem)
/-- The semaphore of the odd chunks' gathers. -/
abbrev cellB3 : GSem nD τ sig := (thr3 d L, .dma cc3_scratch5.sem)
/-- The semaphore of the copy in. -/
abbrev cellC3 : GSem nD τ sig := (thr3 d L, .dma cc3_scoped0.sem)
/-- The semaphore of the copy out. -/
abbrev cellD3 : GSem nD τ sig := (thr3 d L, .dma cc3_scoped1.sem)

omit [FloatOps F] in
/-- The four semaphores the task uses are among the subcore's own: they are them, at zero, and the rest. -/
theorem ownSems0_V3 :
    (ownSems0 (thr3 d L) : sProp 𝕄)
      = iprop(semVal (cellA3 d L) 0 ∗ semVal (cellB3 d L) 0 ∗ semVal (cellC3 d L) 0 ∗ semVal (cellD3 d L) 0
          ∗ bigSep (((((ownCells (thr3 d L)).erase (cellA3 d L)).erase (cellB3 d L)).erase (cellC3 d L)).erase (cellD3 d L))
              fun g => semVal g 0) := by
  unfold SparseCore.Cfg.ownSems0
  have hA : cellA3 d L ∈ ownCells (thr3 d L) := (mem_ownCells (g := cellA3 d L)).mpr ⟨rfl, by
    show (SemLoc.dma cc3_scratch4.sem : SemLoc sig).isScoped .scVector = true; decide⟩
  have hB : cellB3 d L ∈ ownCells (thr3 d L) := (mem_ownCells (g := cellB3 d L)).mpr ⟨rfl, by
    show (SemLoc.dma cc3_scratch5.sem : SemLoc sig).isScoped .scVector = true; decide⟩
  have hC : cellC3 d L ∈ ownCells (thr3 d L) := (mem_ownCells (g := cellC3 d L)).mpr ⟨rfl, by
    show (SemLoc.dma cc3_scoped0.sem : SemLoc sig).isScoped .scVector = true; decide⟩
  have hD : cellD3 d L ∈ ownCells (thr3 d L) := (mem_ownCells (g := cellD3 d L)).mpr ⟨rfl, by
    show (SemLoc.dma cc3_scoped1.sem : SemLoc sig).isScoped .scVector = true; decide⟩
  have nBA : cellB3 d L ≠ cellA3 d L := by simp [cellA3, cellB3]; decide
  have nCA : cellC3 d L ≠ cellA3 d L := by simp [cellA3, cellC3]; decide
  have nCB : cellC3 d L ≠ cellB3 d L := by simp [cellB3, cellC3]; decide
  have nDA : cellD3 d L ≠ cellA3 d L := by simp [cellA3, cellD3]; decide
  have nDB : cellD3 d L ≠ cellB3 d L := by simp [cellB3, cellD3]; decide
  have nDC : cellD3 d L ≠ cellC3 d L := by simp [cellC3, cellD3]; decide
  rw [SparseCore.bigSep_erase' hA,
    SparseCore.bigSep_erase' (Finset.mem_erase.mpr ⟨nBA, hB⟩),
    SparseCore.bigSep_erase' (Finset.mem_erase.mpr ⟨nCB, Finset.mem_erase.mpr ⟨nCA, hC⟩⟩),
    SparseCore.bigSep_erase' (Finset.mem_erase.mpr ⟨nDC, Finset.mem_erase.mpr ⟨nDB, Finset.mem_erase.mpr ⟨nDA, hD⟩⟩⟩)]

omit [FloatOps F] in
/-- The four scratch buffers are among the subcore's own: they are them, whole at some contents, and the rest. -/
theorem ownBufs_V3 :
    (ownBufs (thr3 d L) : sProp 𝕄)
      = iprop((∃ f, (sI3).view.loc (thr3 d L) ↦{fullShare} f) ∗ (∃ f, (sH3).view.loc (thr3 d L) ↦{fullShare} f)
          ∗ (∃ f, (sR3).view.loc (thr3 d L) ↦{fullShare} f) ∗ (∃ f, (sO3).view.loc (thr3 d L) ↦{fullShare} f)
          ∗ bigSep (((((ownRefs (τ := τ) (.scVector (cV3 L) (jV3 L))).erase ((Proc.scVector (cV3 L) (jV3 L)).devRef cc3_scratch0)).erase
              ((Proc.scVector (cV3 L) (jV3 L)).devRef cc3_scratch1)).erase ((Proc.scVector (cV3 L) (jV3 L)).devRef cc3_scratch2)).erase
              ((Proc.scVector (cV3 L) (jV3 L)).devRef cc3_scratch3))
              fun b => iprop(∃ f, ((d, b) : Loc nD τ sig) ↦{fullShare} f)) := by
  unfold SparseCore.Cfg.ownBufs
  have m0 := SparseCore.Cfg.mem_ownRefs_of_owner (p := Proc.scVector (cV3 L) (jV3 L)) (b := (Proc.scVector (cV3 L) (jV3 L)).devRef cc3_scratch0) rfl
  have m1 := SparseCore.Cfg.mem_ownRefs_of_owner (p := Proc.scVector (cV3 L) (jV3 L)) (b := (Proc.scVector (cV3 L) (jV3 L)).devRef cc3_scratch1) rfl
  have m2 := SparseCore.Cfg.mem_ownRefs_of_owner (p := Proc.scVector (cV3 L) (jV3 L)) (b := (Proc.scVector (cV3 L) (jV3 L)).devRef cc3_scratch2) rfl
  have m3 := SparseCore.Cfg.mem_ownRefs_of_owner (p := Proc.scVector (cV3 L) (jV3 L)) (b := (Proc.scVector (cV3 L) (jV3 L)).devRef cc3_scratch3) rfl
  have n10 : (Proc.scVector (cV3 L) (jV3 L)).devRef cc3_scratch1 ≠ (Proc.scVector (cV3 L) (jV3 L)).devRef cc3_scratch0 :=
    fun e => absurd (Proc.devRef_injective _ e) (show (cc3_scratch1 : Ref sig .scVector) ≠ cc3_scratch0 by decide)
  have n20 : (Proc.scVector (cV3 L) (jV3 L)).devRef cc3_scratch2 ≠ (Proc.scVector (cV3 L) (jV3 L)).devRef cc3_scratch0 :=
    fun e => absurd (Proc.devRef_injective _ e) (show (cc3_scratch2 : Ref sig .scVector) ≠ cc3_scratch0 by decide)
  have n21 : (Proc.scVector (cV3 L) (jV3 L)).devRef cc3_scratch2 ≠ (Proc.scVector (cV3 L) (jV3 L)).devRef cc3_scratch1 :=
    fun e => absurd (Proc.devRef_injective _ e) (show (cc3_scratch2 : Ref sig .scVector) ≠ cc3_scratch1 by decide)
  have n30 : (Proc.scVector (cV3 L) (jV3 L)).devRef cc3_scratch3 ≠ (Proc.scVector (cV3 L) (jV3 L)).devRef cc3_scratch0 :=
    fun e => absurd (Proc.devRef_injective _ e) (show (cc3_scratch3 : Ref sig .scVector) ≠ cc3_scratch0 by decide)
  have n31 : (Proc.scVector (cV3 L) (jV3 L)).devRef cc3_scratch3 ≠ (Proc.scVector (cV3 L) (jV3 L)).devRef cc3_scratch1 :=
    fun e => absurd (Proc.devRef_injective _ e) (show (cc3_scratch3 : Ref sig .scVector) ≠ cc3_scratch1 by decide)
  have n32 : (Proc.scVector (cV3 L) (jV3 L)).devRef cc3_scratch3 ≠ (Proc.scVector (cV3 L) (jV3 L)).devRef cc3_scratch2 :=
    fun e => absurd (Proc.devRef_injective _ e) (show (cc3_scratch3 : Ref sig .scVector) ≠ cc3_scratch2 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

/-! ## The rewrite of the index list, word by word -/

/-- The word at position `p` after the rewrite: the index plus the pair's block of rows. -/
def rewW3 (w : BitVec 32) (p : ℕ) : BitVec 32 := w + BitVec.ofNat 32 (p % 10 / 2 * 100352)
/-- The lane offset at position `p`: which half of the pair's row. -/
def halfW3 (p : ℕ) : BitVec 32 := BitVec.ofNat 32 (p % 10 % 2 * 64)

/-- Before trip `k` of the rewrite the first `16 k` words are rewritten, the others as copied in. -/
def ZI5 (c5 g : S1280.Idx → BitVec 32) (k : ℕ) : Prop :=
  ∀ x : S1280.Idx, g x = if (x 0).val < 16 * k then rewW3 (c5 x) (x 0).val else c5 x
/-- Before trip `k` the first `16 k` lane offsets are in place. -/
def ZI6 (g : S1296.Idx → BitVec 32) (k : ℕ) : Prop :=
  ∀ x : S1296.Idx, (x 0).val < 16 * k → g x = halfW3 (x 0).val

end Cert.Proof.KI

end
-- ==== Proof.KI.Tile3Pay.lean ====
/-
  The payloads of the index-list rewrite, lane by lane: the position's remainder by 10, the lane offset stored
  beside the list, and the block of rows added to the index word.
-/
import proofs.«219250_g10247791969013_week1_w1_750_27_alg».proof.Proof.KI.Tile3Res
import proofs.«219250_g10247791969013_week1_w1_750_27_alg».proof.Proof.Gen.KernelIdeal.Skeleton
import Idealize.ShloMosaic.Lib.Pipeline.Value
import Idealize.ShloMosaic.Lib.ValueLayout
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.ValueIdx (ix1 ix2 ix3 eq_ix1 eq_ix2 eq_ix3)

omit [FloatOps F] in
theorem pay209_val3 : ∀ k : Fin k3_t1_loop.trips, ∀ u : Fin 16, k3_pay209 k (ix1 u) = BitVec.ofNat 32 ((16 * k.val + u.val) % 10) := by decide +kernel
omit [FloatOps F] in
theorem pay210_val3 : ∀ k : Fin k3_t1_loop.trips, ∀ u : Fin 16, k3_pay210 k (ix1 u) = BitVec.ofNat 32 ((16 * k.val + u.val) % 10 % 2 * 64) := by decide +kernel
omit [FloatOps F] in
theorem shr_mul_val3 : ∀ r : Fin 10,
    IntOp.muli (IntOp.shrui .vector (BitVec.ofNat 32 r.val) 1#32) 100352#32 = BitVec.ofNat 32 (r.val / 2 * 100352) := by decide +kernel
/-- The word stored at lane `u` of trip `k`: the word loaded plus `((16 k + u) mod 10 / 2) * 100352`. -/
theorem pay211_val3 (k : Fin k3_t1_loop.trips) (v : Vec F S16 .i32) (u : Fin 16) :
    k3_pay211 (F := F) k v (ix1 u) = (v (ix1 u) : BitVec 32) + BitVec.ofNat 32 ((16 * k.val + u.val) % 10 / 2 * 100352) := by
  unfold k3_pay211
  simp only [shapeCast_self]
  show IntOp.addi (v (ix1 u)) (IntOp.muli (IntOp.shrui .vector (k3_pay209 k (ix1 u)) 1#32) 100352#32) = _
  rw [pay209_val3]
  exact congrArg (fun z => (v (ix1 u) : BitVec 32) + z) (shr_mul_val3 ⟨(16 * k.val + u.val) % 10, Nat.mod_lt _ (by decide)⟩)

end Cert.Proof.KI

end
-- ==== Proof.KI.Tile3Pure.lean ====
/-
  One trip of the index-list rewrite on the contents of the two lists: the sixteen words of the trip take their
  rewritten values, every other word stays.
-/
import proofs.«219250_g10247791969013_week1_w1_750_27_alg».proof.Proof.KI.Tile3Pay
import proofs.«219250_g10247791969013_week1_w1_750_27_alg».proof.Proof.KI.Tile2Pure

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.ValueIdx (ix1 ix2 ix3 eq_ix1 eq_ix2 eq_ix3)

/-! ## One trip of the rewrite, on the contents -/

theorem ZI5_zero3 {κ : Kind} {sp : Space} (v : View sig κ sp S1280 .i32) (f : v.ty.Contents (Elt F)) (c5 : S1280.Idx → BitVec 32) :
    ZI5 c5 (v.read (Elt F) (v.write (Elt F) f c5 Finset.univ)) 0 := by
  intro x
  rw [View.read_write_univ]
  simp

omit [FloatOps F] in
theorem ZI6_zero3 (g : S1296.Idx → BitVec 32) : ZI6 g 0 := fun x hx => absurd hx (by omega)

theorem ZI6_step3 {κ : Kind} {sp : Space} (v : View sig κ sp S1296 .i32) (g : v.ty.Contents (Elt F)) (k : Fin k3_t1_loop.trips)
    (h : ZI6 (v.read (Elt F) g) k.val) :
    ZI6 (v.read (Elt F) (v.writes (Elt F) g [⟨Rect.unit (s := S1296) (k3_off2 k) S16.size (k3_off2_inb k), k3_pay210 k⟩])) (k.val + 1) := by
  intro x hx
  have e := read_piece16 (F := F) v g (k3_off2 k) (k3_off2_inb k) (k3_pay210 k) k.val (k3_off2_eq k) x
  refine e.trans ?_
  split
  · rename_i hin
    rw [pay210_val3]
    unfold halfW3
    congr 1
    show (16 * k.val + ((x 0).val - 16 * k.val)) % 10 % 2 * 64 = (x 0).val % 10 % 2 * 64
    omega
  · rename_i hout
    apply h
    have hx' : (x 0).val < 16 * (k.val + 1) := hx
    omega

theorem ZI5_step3 {κ : Kind} {sp : Space} (v : View sig κ sp S1280 .i32) (g : v.ty.Contents (Elt F)) (c5 : S1280.Idx → BitVec 32)
    (k : Fin k3_t1_loop.trips) (h : ZI5 c5 (v.read (Elt F) g) k.val) :
    ZI5 c5 (v.read (Elt F) (v.writes (Elt F) g [⟨Rect.unit (s := S1280) (k3_off3 k) S16.size (k3_off3_inb k),
      k3_pay211 k (v.readAt (Elt F) (Rect.unit (s := S1280) (k3_off3 k) S16.size (k3_off3_inb k)).toLoadRect g)⟩])) (k.val + 1) := by
  intro x
  have e := read_piece16 (F := F) v g (k3_off3 k) (k3_off3_inb k)
    (k3_pay211 k (v.readAt (Elt F) (Rect.unit (s := S1280) (k3_off3 k) S16.size (k3_off3_inb k)).toLoadRect g)) k.val (k3_off3_eq k) x
  refine e.trans ?_
  have hk := h x
  split
  · rename_i hin
    rw [pay211_val3]
    have hidx : (Rect.unit (s := S1280) (k3_off3 k) S16.size (k3_off3_inb k)).toLoadRect.idx (ix1 (⟨(x 0).val - 16 * k.val, by omega⟩ : Fin 16) : S16.Idx) = x := by
      funext a
      match a with
      | ⟨0, _⟩ => exact Fin.ext (by simp only [LoadRect.idx_apply]; simp [k3_off3_eq]; omega)
    rw [View.readAt_apply, hidx, hk, if_neg (by omega), if_pos (by omega)]
    unfold rewW3
    have e2 : (16 * k.val + ((x 0).val - 16 * k.val)) % 10 / 2 * 100352 = (x 0).val % 10 / 2 * 100352 := by
      have e3 : 16 * k.val + ((x 0).val - 16 * k.val) = (x 0).val := by omega
      rw [e3]
    show c5 x + BitVec.ofNat 32 ((16 * k.val + ((x 0).val - 16 * k.val)) % 10 / 2 * 100352) = _
    rw [e2]
  · rename_i hout
    rw [hk]
    by_cases h1 : (x 0).val < 16 * k.val
    · rw [if_pos h1, if_pos (by omega)]
    · rw [if_neg h1, if_neg (by omega)]

end Cert.Proof.KI

end
-- ==== Proof.KI.Tile3Pre.lean ====
/-
  The rewrite loop of one vector subcore's task: its invariant and one trip.
-/
import proofs.«219250_g10247791969013_week1_w1_750_27_alg».proof.Proof.KI.Tile3Pure
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid3.Coords)

/-- The rewrite loop's invariant: the two lists at some contents, rewritten below `16 k`. -/
def xfInv3 (c5 : S1280.Idx → BitVec 32) (k : ℕ) (_ : Unit) : sProp 𝕄 :=
  iprop(∃ g5 g6, ((sI3).view.loc (thr3 d L) ↦{fullShare} g5) ∗ ((sH3).view.loc (thr3 d L) ↦{fullShare} g6)
    ∗ ⌜ZI5 c5 ((sI3).view.read (Elt F) g5) k ∧ ZI6 ((sH3).view.read (Elt F) g6) k⌝)

set_option maxHeartbeats 2000000 in
theorem xform_trip3 (c5 : S1280.Idx → BitVec 32) (k : Fin k3_t1_loop.trips) (acc : Unit) :
    xfInv3 (F := F) d L c5 k.val acc ⊢ wp frame (wpE (defs₀ (F := F)) 𝒱₀ (thr3 d L) none) Set.univ
      (k3_t1_body L tabM3 (Memref.isWhole_whole _) idxM3 (Memref.isWhole_whole _) outM3 (Memref.isWhole_whole _)
        sI3 (Memref.isWhole_whole _) sH3 (Memref.isWhole_whole _) sR3 (Memref.isWhole_whole _) sO3 (Memref.isWhole_whole _)
        cc3_scratch4 cc3_scratch5 cc3_scoped0 cc3_scoped1 k acc) (xfInv3 (F := F) d L c5 (k.val + 1)) := by
  unfold xfInv3
  iintro ⟨%g5, %g6, H5, H6, %hP⟩
  unfold k3_t1_body
  sl_exec
  sl_step
  iexists _, _
  isplitl [H5]; · iexact H5
  isplitl [H6]; · iexact H6
  ipureintro
  exact ⟨ZI5_step3 (sI3).view g5 c5 k hP.1, ZI6_step3 (sH3).view g6 k hP.2⟩

end Cert.Proof.KI

end
-- ==== Proof.KI.Tile3RingDefs.lean ====
/-
  The two-buffer ring of gathers of one vector subcore's task: the buffers as the task names them, what a gather
  delivers, and how far the block of sums is done before a trip.
-/
import proofs.«219250_g10247791969013_week1_w1_750_27_alg».proof.Proof.KI.Tile3Res

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

/-! ## The ring of gathers: its buffers, and what a gather delivers -/

/-- The gather buffer of the even chunks. -/
abbrev dstA3 : Memref sig .scVector .vmem S80x128 .f32 :=
  ((sR3).slice (Rect.unit (s := S2x80x128) ![0, 0, 0] S1x80x128.size inb_S2x80x128_S1x80x128_0_0_0) (fun _ => rfl)).squeeze S80x128 squeezes_S1x80x128_S80x128
/-- The gather buffer of the odd chunks. -/
abbrev dstB3 : Memref sig .scVector .vmem S80x128 .f32 :=
  ((sR3).slice (Rect.unit (s := S2x80x128) ![1, 0, 0] S1x80x128.size inb_S2x80x128_S1x80x128_1_0_0) (fun _ => rfl)).squeeze S80x128 squeezes_S1x80x128_S80x128
/-- The table as the gathers name it. -/
abbrev tabSl3 : Memref sig .scVector .hbm S501760x128 .f32 :=
  (tabM3).slice (Rect.unit (s := S501760x128) ![0, 0] S501760x128.size inb_S501760x128_S501760x128_0_0) (fun _ => rfl)

omit [FloatOps F] in
theorem inbC3 (c : ℕ) (hc : c < 16) : ∀ a, (![80 * c] : Fin 1 → ℕ) a + S80.size a ≤ S1280.size a :=
  Rect.inb₁ (by show 80 * c + 80 ≤ 1280; omega)
/-- The 80 list words of chunk `c`. -/
abbrev offsC3 (c : ℕ) (hc : c < 16) : Memref sig .scVector .vmem S80 .i32 :=
  (sI3).slice (Rect.unit (s := S1280) ![80 * c] S80.size (inbC3 c hc)) (fun _ => rfl)

/-- The elements of the even chunks' gather buffer. -/
abbrev setA3 : Finset S2x80x128.Idx := (dstA3).view.set
/-- The elements of the odd chunks' gather buffer. -/
abbrev setB3 : Finset S2x80x128.Idx := (dstB3).view.set
/-- The elements of chunk `c` of the list. -/
abbrev setC3 (c : ℕ) (hc : c < 16) : Finset S1280.Idx := (offsC3 c hc).view.set
/-- The elements of the table (all of them). -/
abbrev setT3 : Finset S501760x128.Idx := (tabSl3).view.set

/-- What chunk `c`'s gather delivers: row `r` is the table row the list names at position `80 c + r`. -/
def gathSpec3 (tb : S501760x128.Idx → Elt F .f32) (ix : S1280.Idx → Elt F .i32) (c : ℕ) : S80x128.Idx → Elt F .f32 :=
  fun x => tbAt3 tb (gRow3 ix (80 * c + (x 0).val)) (x 1).val

/-- The block of sums is done below row `8 k`. -/
def OutOK3 (tb : S501760x128.Idx → Elt F .f32) (ix : S1280.Idx → Elt F .i32) (k : ℕ) (g : S64x128.Idx → Elt F .f32) : Prop :=
  ∀ x : S64x128.Idx, (x 0).val < 8 * k → g x = OUT3 tb ix x

theorem OutOK3_zero (tb : S501760x128.Idx → Elt F .f32) (ix : S1280.Idx → Elt F .i32) (g : S64x128.Idx → Elt F .f32) : OutOK3 tb ix 0 g :=
  fun x hx => absurd hx (by omega)

end Cert.Proof.KI

end
-- ==== Proof.KI.Accum3.lean ====
/-
  The accumulate loops of the embedding-sum kernel over 10 features per batch row: each of the sixteen loops (two
  slots of gathered rows, eight batch rows per slot) has as its trip the accumulate trip at that loop's offsets — the
  lane-offset list read at `160·chunk-pair + 10·(8·slot + row) + k`, the gathered rows at `(slot, 10·row + k, ·)` —
  so one trip takes the left-fold invariant at `k` to the invariant at `k + 1`.
-/
import proofs.«219250_g10247791969013_week1_w1_750_27_alg».proof.Proof.Gen.KernelIdeal.Skeleton
import proofs.«219250_g10247791969013_week1_w1_750_27_alg».proof.Proof.KI.AccumStep

set_option maxRecDepth 65536

noncomputable section

namespace Cert.Proof.KI

open Cert.KernelIdeal Cert.KernelIdeal.Gen

open Idealize.ShloMosaic Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### Loop 3: slot 0, batch row 0 of the chunk -/

/-- The loop's trip is the accumulate trip at its offset functions. -/
theorem k3_t3_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k3_t2 : Fin k3_t2_loop.trips) :
    k3_t3_body (F := F) i arg2 harg2 arg3 harg3 arg4 harg4 arg5 harg5 arg6 harg6 arg7 harg7 arg8 harg8 arg9 arg10 v14_r0 v14_r1 c0_i32_15 c1_i32_16 k3_t2
      = accTrip (F := F) ((i 0).castLE hcore3) ((i 1).castLE hsub3) arg6 arg7 k3_t3_loop (k3_off5 k3_t2) (Facts₀.k3_off5_inb k3_t2)
          k3_off6 k3_chk1 k3_chk1.dec Cert.KernelIdeal.k3_off6_inb := rfl

/-- The rows' offsets in closed form: slot 0, row `0 + k`, lane `v + c`. -/
theorem k3_off6_closed (k : Fin k3_t3_loop.trips) (v c : BitVec 32) :
    k3_off6 k v c = ![0, 0 + k.val, (v + c).toNat] := by
  have hm : ∀ k : Fin k3_t3_loop.trips, (k3_off6 k 0#32 0#32) 1 = 0 + k.val := by decide +kernel
  funext a
  match a with
  | ⟨0, _⟩ => rfl
  | ⟨1, _⟩ => exact hm k
  | ⟨2, _⟩ => rfl

/-- One trip of loop 3 preserves the left-fold invariant. -/
theorem accum_k3_t3 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k3_t2 : Fin k3_t2_loop.trips)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t3_loop.trips → at1 (arg6.view.read (Elt F) fH) (160 * k3_t2.val + 0 + j) = 0#32 ∨ at1 (arg6.view.read (Elt F) fH) (160 * k3_t2.val + 0 + j) = 64#32)
    (k : Fin k3_t3_loop.trips) (acc : Acc4 F) :
    AccInv (F := F) Ix Name U Lvl d ((i 0).castLE hcore3) ((i 1).castLE hsub3) arg6 arg7 IR qH qR fH fR 0 0 (160 * k3_t2.val + 0) k.val acc
      ⊢ wp frame (wpE (defs₀ (F := F)) 𝒱 ((d, .scVector ((i 0).castLE hcore3) ((i 1).castLE hsub3)) : Thread nD τ) bd) E
          (k3_t3_body (F := F) i arg2 harg2 arg3 harg3 arg4 harg4 arg5 harg5 arg6 harg6 arg7 harg7 arg8 harg8 arg9 arg10 v14_r0 v14_r1 c0_i32_15 c1_i32_16 k3_t2 k acc)
          (AccInv (F := F) Ix Name U Lvl d ((i 0).castLE hcore3) ((i 1).castLE hsub3) arg6 arg7 IR qH qR fH fR 0 0 (160 * k3_t2.val + 0) (k.val + 1)) := by
  rw [k3_t3_body_eq]
  exact accTrip_step (F := F) Ix Name U Lvl 𝒱 d _ _ bd E arg6 arg7 k3_t3_loop _ _ _ _ _ _ IR qH qR fH fR 0 0 (160 * k3_t2.val + 0)
    (fun k => (k3_off5_eq k3_t2 k).trans (by first | rfl | (congr 1; omega))) k3_off6_closed (fun _ _ h => h)
    (by decide) (by decide) hIR hH k acc

/-! ### Loop 4: slot 0, batch row 1 of the chunk -/

/-- The loop's trip is the accumulate trip at its offset functions. -/
theorem k3_t4_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v44 : FVec F S16 .f32) (cst_33 : F .f32) :
    k3_t4_body (F := F) i arg2 harg2 arg3 harg3 arg4 harg4 arg5 harg5 arg6 harg6 arg7 harg7 arg8 harg8 arg9 arg10 v14_r0 v14_r1 k3_t2 v14 v44 cst_33
      = accTrip (F := F) ((i 0).castLE hcore3) ((i 1).castLE hsub3) arg6 arg7 k3_t4_loop (k3_off11 k3_t2) (Facts₀.k3_off11_inb k3_t2)
          k3_off12 k3_chk2 k3_chk2.dec Cert.KernelIdeal.k3_off12_inb := rfl

/-- The rows' offsets in closed form: slot 0, row `10 + k`, lane `v + c`. -/
theorem k3_off12_closed (k : Fin k3_t4_loop.trips) (v c : BitVec 32) :
    k3_off12 k v c = ![0, 10 + k.val, (v + c).toNat] := by
  have hm : ∀ k : Fin k3_t4_loop.trips, (k3_off12 k 0#32 0#32) 1 = 10 + k.val := by decide +kernel
  funext a
  match a with
  | ⟨0, _⟩ => rfl
  | ⟨1, _⟩ => exact hm k
  | ⟨2, _⟩ => rfl

/-- One trip of loop 4 preserves the left-fold invariant. -/
theorem accum_k3_t4 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v44 : FVec F S16 .f32) (cst_33 : F .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t4_loop.trips → at1 (arg6.view.read (Elt F) fH) (160 * k3_t2.val + 10 + j) = 0#32 ∨ at1 (arg6.view.read (Elt F) fH) (160 * k3_t2.val + 10 + j) = 64#32)
    (k : Fin k3_t4_loop.trips) (acc : Acc4 F) :
    AccInv (F := F) Ix Name U Lvl d ((i 0).castLE hcore3) ((i 1).castLE hsub3) arg6 arg7 IR qH qR fH fR 0 10 (160 * k3_t2.val + 10) k.val acc
      ⊢ wp frame (wpE (defs₀ (F := F)) 𝒱 ((d, .scVector ((i 0).castLE hcore3) ((i 1).castLE hsub3)) : Thread nD τ) bd) E
          (k3_t4_body (F := F) i arg2 harg2 arg3 harg3 arg4 harg4 arg5 harg5 arg6 harg6 arg7 harg7 arg8 harg8 arg9 arg10 v14_r0 v14_r1 k3_t2 v14 v44 cst_33 k acc)
          (AccInv (F := F) Ix Name U Lvl d ((i 0).castLE hcore3) ((i 1).castLE hsub3) arg6 arg7 IR qH qR fH fR 0 10 (160 * k3_t2.val + 10) (k.val + 1)) := by
  rw [k3_t4_body_eq]
  exact accTrip_step (F := F) Ix Name U Lvl 𝒱 d _ _ bd E arg6 arg7 k3_t4_loop _ _ _ _ _ _ IR qH qR fH fR 0 10 (160 * k3_t2.val + 10)
    (fun k => (k3_off11_eq k3_t2 k).trans (by first | rfl | (congr 1; omega))) k3_off12_closed (fun _ _ h => h)
    (by decide) (by decide) hIR hH k acc

/-! ### Loop 5: slot 0, batch row 2 of the chunk -/

/-- The loop's trip is the accumulate trip at its offset functions. -/
theorem k3_t5_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v44 : FVec F S16 .f32) (cst_33 : F .f32) :
    k3_t5_body (F := F) i arg2 harg2 arg3 harg3 arg4 harg4 arg5 harg5 arg6 harg6 arg7 harg7 arg8 harg8 arg9 arg10 v14_r0 v14_r1 k3_t2 v14 v44 cst_33
      = accTrip (F := F) ((i 0).castLE hcore3) ((i 1).castLE hsub3) arg6 arg7 k3_t5_loop (k3_off17 k3_t2) (Facts₀.k3_off17_inb k3_t2)
          k3_off18 k3_chk3 k3_chk3.dec Cert.KernelIdeal.k3_off18_inb := rfl

/-- The rows' offsets in closed form: slot 0, row `20 + k`, lane `v + c`. -/
theorem k3_off18_closed (k : Fin k3_t5_loop.trips) (v c : BitVec 32) :
    k3_off18 k v c = ![0, 20 + k.val, (v + c).toNat] := by
  have hm : ∀ k : Fin k3_t5_loop.trips, (k3_off18 k 0#32 0#32) 1 = 20 + k.val := by decide +kernel
  funext a
  match a with
  | ⟨0, _⟩ => rfl
  | ⟨1, _⟩ => exact hm k
  | ⟨2, _⟩ => rfl

/-- One trip of loop 5 preserves the left-fold invariant. -/
theorem accum_k3_t5 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v44 : FVec F S16 .f32) (cst_33 : F .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t5_loop.trips → at1 (arg6.view.read (Elt F) fH) (160 * k3_t2.val + 20 + j) = 0#32 ∨ at1 (arg6.view.read (Elt F) fH) (160 * k3_t2.val + 20 + j) = 64#32)
    (k : Fin k3_t5_loop.trips) (acc : Acc4 F) :
    AccInv (F := F) Ix Name U Lvl d ((i 0).castLE hcore3) ((i 1).castLE hsub3) arg6 arg7 IR qH qR fH fR 0 20 (160 * k3_t2.val + 20) k.val acc
      ⊢ wp frame (wpE (defs₀ (F := F)) 𝒱 ((d, .scVector ((i 0).castLE hcore3) ((i 1).castLE hsub3)) : Thread nD τ) bd) E
          (k3_t5_body (F := F) i arg2 harg2 arg3 harg3 arg4 harg4 arg5 harg5 arg6 harg6 arg7 harg7 arg8 harg8 arg9 arg10 v14_r0 v14_r1 k3_t2 v14 v44 cst_33 k acc)
          (AccInv (F := F) Ix Name U Lvl d ((i 0).castLE hcore3) ((i 1).castLE hsub3) arg6 arg7 IR qH qR fH fR 0 20 (160 * k3_t2.val + 20) (k.val + 1)) := by
  rw [k3_t5_body_eq]
  exact accTrip_step (F := F) Ix Name U Lvl 𝒱 d _ _ bd E arg6 arg7 k3_t5_loop _ _ _ _ _ _ IR qH qR fH fR 0 20 (160 * k3_t2.val + 20)
    (fun k => (k3_off17_eq k3_t2 k).trans (by first | rfl | (congr 1; omega))) k3_off18_closed (fun _ _ h => h)
    (by decide) (by decide) hIR hH k acc

/-! ### Loop 6: slot 0, batch row 3 of the chunk -/

/-- The loop's trip is the accumulate trip at its offset functions. -/
theorem k3_t6_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v73_0 : FVec F S16 .f32) (v73_1 : FVec F S16 .f32) (v73_2 : FVec F S16 .f32) (v73_3 : FVec F S16 .f32) (v75 : BitVec 32) (v77 : Vec F S1x16 .f32) :
    k3_t6_body (F := F) i arg2 harg2 arg3 harg3 arg4 harg4 arg5 harg5 arg6 harg6 arg7 harg7 arg8 harg8 arg9 arg10 v14_r0 v14_r1 k3_t2 v14 v73_0 v73_1 v73_2 v73_3 v75 v77
      = accTrip (F := F) ((i 0).castLE hcore3) ((i 1).castLE hsub3) arg6 arg7 k3_t6_loop (k3_off19 k3_t2) (Facts₀.k3_off19_inb k3_t2)
          k3_off20 k3_chk4 k3_chk4.dec Cert.KernelIdeal.k3_off20_inb := rfl

/-- The rows' offsets in closed form: slot 0, row `30 + k`, lane `v + c`. -/
theorem k3_off20_closed (k : Fin k3_t6_loop.trips) (v c : BitVec 32) :
    k3_off20 k v c = ![0, 30 + k.val, (v + c).toNat] := by
  have hm : ∀ k : Fin k3_t6_loop.trips, (k3_off20 k 0#32 0#32) 1 = 30 + k.val := by decide +kernel
  funext a
  match a with
  | ⟨0, _⟩ => rfl
  | ⟨1, _⟩ => exact hm k
  | ⟨2, _⟩ => rfl

/-- One trip of loop 6 preserves the left-fold invariant. -/
theorem accum_k3_t6 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v73_0 : FVec F S16 .f32) (v73_1 : FVec F S16 .f32) (v73_2 : FVec F S16 .f32) (v73_3 : FVec F S16 .f32) (v75 : BitVec 32) (v77 : Vec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t6_loop.trips → at1 (arg6.view.read (Elt F) fH) (160 * k3_t2.val + 30 + j) = 0#32 ∨ at1 (arg6.view.read (Elt F) fH) (160 * k3_t2.val + 30 + j) = 64#32)
    (k : Fin k3_t6_loop.trips) (acc : Acc4 F) :
    AccInv (F := F) Ix Name U Lvl d ((i 0).castLE hcore3) ((i 1).castLE hsub3) arg6 arg7 IR qH qR fH fR 0 30 (160 * k3_t2.val + 30) k.val acc
      ⊢ wp frame (wpE (defs₀ (F := F)) 𝒱 ((d, .scVector ((i 0).castLE hcore3) ((i 1).castLE hsub3)) : Thread nD τ) bd) E
          (k3_t6_body (F := F) i arg2 harg2 arg3 harg3 arg4 harg4 arg5 harg5 arg6 harg6 arg7 harg7 arg8 harg8 arg9 arg10 v14_r0 v14_r1 k3_t2 v14 v73_0 v73_1 v73_2 v73_3 v75 v77 k acc)
          (AccInv (F := F) Ix Name U Lvl d ((i 0).castLE hcore3) ((i 1).castLE hsub3) arg6 arg7 IR qH qR fH fR 0 30 (160 * k3_t2.val + 30) (k.val + 1)) := by
  rw [k3_t6_body_eq]
  exact accTrip_step (F := F) Ix Name U Lvl 𝒱 d _ _ bd E arg6 arg7 k3_t6_loop _ _ _ _ _ _ IR qH qR fH fR 0 30 (160 * k3_t2.val + 30)
    (fun k => (k3_off19_eq k3_t2 k).trans (by first | rfl | (congr 1; omega))) k3_off20_closed (fun _ _ h => h)
    (by decide) (by decide) hIR hH k acc

/-! ### Loop 7: slot 0, batch row 4 of the chunk -/

/-- The loop's trip is the accumulate trip at its offset functions. -/
theorem k3_t7_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v97_3 : FVec F S16 .f32) (v113 : Vec F S1x16 .f32) :
    k3_t7_body (F := F) i arg2 harg2 arg3 harg3 arg4 harg4 arg5 harg5 arg6 harg6 arg7 harg7 arg8 harg8 arg9 arg10 v14_r0 v14_r1 k3_t2 v14 v97_3 v113
      = accTrip (F := F) ((i 0).castLE hcore3) ((i 1).castLE hsub3) arg6 arg7 k3_t7_loop (k3_off21 k3_t2) (Facts₀.k3_off21_inb k3_t2)
          k3_off22 k3_chk5 k3_chk5.dec Cert.KernelIdeal.k3_off22_inb := rfl

/-- The rows' offsets in closed form: slot 0, row `40 + k`, lane `v + c`. -/
theorem k3_off22_closed (k : Fin k3_t7_loop.trips) (v c : BitVec 32) :
    k3_off22 k v c = ![0, 40 + k.val, (v + c).toNat] := by
  have hm : ∀ k : Fin k3_t7_loop.trips, (k3_off22 k 0#32 0#32) 1 = 40 + k.val := by decide +kernel
  funext a
  match a with
  | ⟨0, _⟩ => rfl
  | ⟨1, _⟩ => exact hm k
  | ⟨2, _⟩ => rfl

/-- One trip of loop 7 preserves the left-fold invariant. -/
theorem accum_k3_t7 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v97_3 : FVec F S16 .f32) (v113 : Vec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t7_loop.trips → at1 (arg6.view.read (Elt F) fH) (160 * k3_t2.val + 40 + j) = 0#32 ∨ at1 (arg6.view.read (Elt F) fH) (160 * k3_t2.val + 40 + j) = 64#32)
    (k : Fin k3_t7_loop.trips) (acc : Acc4 F) :
    AccInv (F := F) Ix Name U Lvl d ((i 0).castLE hcore3) ((i 1).castLE hsub3) arg6 arg7 IR qH qR fH fR 0 40 (160 * k3_t2.val + 40) k.val acc
      ⊢ wp frame (wpE (defs₀ (F := F)) 𝒱 ((d, .scVector ((i 0).castLE hcore3) ((i 1).castLE hsub3)) : Thread nD τ) bd) E
          (k3_t7_body (F := F) i arg2 harg2 arg3 harg3 arg4 harg4 arg5 harg5 arg6 harg6 arg7 harg7 arg8 harg8 arg9 arg10 v14_r0 v14_r1 k3_t2 v14 v97_3 v113 k acc)
          (AccInv (F := F) Ix Name U Lvl d ((i 0).castLE hcore3) ((i 1).castLE hsub3) arg6 arg7 IR qH qR fH fR 0 40 (160 * k3_t2.val + 40) (k.val + 1)) := by
  rw [k3_t7_body_eq]
  exact accTrip_step (F := F) Ix Name U Lvl 𝒱 d _ _ bd E arg6 arg7 k3_t7_loop _ _ _ _ _ _ IR qH qR fH fR 0 40 (160 * k3_t2.val + 40)
    (fun k => (k3_off21_eq k3_t2 k).trans (by first | rfl | (congr 1; omega))) k3_off22_closed (fun _ _ h => h)
    (by decide) (by decide) hIR hH k acc

/-! ### Loop 8: slot 0, batch row 5 of the chunk -/

/-- The loop's trip is the accumulate trip at its offset functions. -/
theorem k3_t8_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v97_3 : FVec F S16 .f32) (v113 : Vec F S1x16 .f32) :
    k3_t8_body (F := F) i arg2 harg2 arg3 harg3 arg4 harg4 arg5 harg5 arg6 harg6 arg7 harg7 arg8 harg8 arg9 arg10 v14_r0 v14_r1 k3_t2 v14 v97_3 v113
      = accTrip (F := F) ((i 0).castLE hcore3) ((i 1).castLE hsub3) arg6 arg7 k3_t8_loop (k3_off23 k3_t2) (Facts₀.k3_off23_inb k3_t2)
          k3_off24 k3_chk6 k3_chk6.dec Cert.KernelIdeal.k3_off24_inb := rfl

/-- The rows' offsets in closed form: slot 0, row `50 + k`, lane `v + c`. -/
theorem k3_off24_closed (k : Fin k3_t8_loop.trips) (v c : BitVec 32) :
    k3_off24 k v c = ![0, 50 + k.val, (v + c).toNat] := by
  have hm : ∀ k : Fin k3_t8_loop.trips, (k3_off24 k 0#32 0#32) 1 = 50 + k.val := by decide +kernel
  funext a
  match a with
  | ⟨0, _⟩ => rfl
  | ⟨1, _⟩ => exact hm k
  | ⟨2, _⟩ => rfl

/-- One trip of loop 8 preserves the left-fold invariant. -/
theorem accum_k3_t8 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v97_3 : FVec F S16 .f32) (v113 : Vec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t8_loop.trips → at1 (arg6.view.read (Elt F) fH) (160 * k3_t2.val + 50 + j) = 0#32 ∨ at1 (arg6.view.read (Elt F) fH) (160 * k3_t2.val + 50 + j) = 64#32)
    (k : Fin k3_t8_loop.trips) (acc : Acc4 F) :
    AccInv (F := F) Ix Name U Lvl d ((i 0).castLE hcore3) ((i 1).castLE hsub3) arg6 arg7 IR qH qR fH fR 0 50 (160 * k3_t2.val + 50) k.val acc
      ⊢ wp frame (wpE (defs₀ (F := F)) 𝒱 ((d, .scVector ((i 0).castLE hcore3) ((i 1).castLE hsub3)) : Thread nD τ) bd) E
          (k3_t8_body (F := F) i arg2 harg2 arg3 harg3 arg4 harg4 arg5 harg5 arg6 harg6 arg7 harg7 arg8 harg8 arg9 arg10 v14_r0 v14_r1 k3_t2 v14 v97_3 v113 k acc)
          (AccInv (F := F) Ix Name U Lvl d ((i 0).castLE hcore3) ((i 1).castLE hsub3) arg6 arg7 IR qH qR fH fR 0 50 (160 * k3_t2.val + 50) (k.val + 1)) := by
  rw [k3_t8_body_eq]
  exact accTrip_step (F := F) Ix Name U Lvl 𝒱 d _ _ bd E arg6 arg7 k3_t8_loop _ _ _ _ _ _ IR qH qR fH fR 0 50 (160 * k3_t2.val + 50)
    (fun k => (k3_off23_eq k3_t2 k).trans (by first | rfl | (congr 1; omega))) k3_off24_closed (fun _ _ h => h)
    (by decide) (by decide) hIR hH k acc

/-! ### Loop 9: slot 0, batch row 6 of the chunk -/

/-- The loop's trip is the accumulate trip at its offset functions. -/
theorem k3_t9_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v145_0 : FVec F S16 .f32) (v145_1 : FVec F S16 .f32) (v145_2 : FVec F S16 .f32) (v145_3 : FVec F S16 .f32) (c4_i32_92 : BitVec 32) :
    k3_t9_body (F := F) i arg2 harg2 arg3 harg3 arg4 harg4 arg5 harg5 arg6 harg6 arg7 harg7 arg8 harg8 arg9 arg10 v14_r0 v14_r1 k3_t2 v14 v145_0 v145_1 v145_2 v145_3 c4_i32_92
      = accTrip (F := F) ((i 0).castLE hcore3) ((i 1).castLE hsub3) arg6 arg7 k3_t9_loop (k3_off25 k3_t2) (Facts₀.k3_off25_inb k3_t2)
          k3_off26 k3_chk7 k3_chk7.dec Cert.KernelIdeal.k3_off26_inb := rfl

/-- The rows' offsets in closed form: slot 0, row `60 + k`, lane `v + c`. -/
theorem k3_off26_closed (k : Fin k3_t9_loop.trips) (v c : BitVec 32) :
    k3_off26 k v c = ![0, 60 + k.val, (v + c).toNat] := by
  have hm : ∀ k : Fin k3_t9_loop.trips, (k3_off26 k 0#32 0#32) 1 = 60 + k.val := by decide +kernel
  funext a
  match a with
  | ⟨0, _⟩ => rfl
  | ⟨1, _⟩ => exact hm k
  | ⟨2, _⟩ => rfl

/-- One trip of loop 9 preserves the left-fold invariant. -/
theorem accum_k3_t9 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v145_0 : FVec F S16 .f32) (v145_1 : FVec F S16 .f32) (v145_2 : FVec F S16 .f32) (v145_3 : FVec F S16 .f32) (c4_i32_92 : BitVec 32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t9_loop.trips → at1 (arg6.view.read (Elt F) fH) (160 * k3_t2.val + 60 + j) = 0#32 ∨ at1 (arg6.view.read (Elt F) fH) (160 * k3_t2.val + 60 + j) = 64#32)
    (k : Fin k3_t9_loop.trips) (acc : Acc4 F) :
    AccInv (F := F) Ix Name U Lvl d ((i 0).castLE hcore3) ((i 1).castLE hsub3) arg6 arg7 IR qH qR fH fR 0 60 (160 * k3_t2.val + 60) k.val acc
      ⊢ wp frame (wpE (defs₀ (F := F)) 𝒱 ((d, .scVector ((i 0).castLE hcore3) ((i 1).castLE hsub3)) : Thread nD τ) bd) E
          (k3_t9_body (F := F) i arg2 harg2 arg3 harg3 arg4 harg4 arg5 harg5 arg6 harg6 arg7 harg7 arg8 harg8 arg9 arg10 v14_r0 v14_r1 k3_t2 v14 v145_0 v145_1 v145_2 v145_3 c4_i32_92 k acc)
          (AccInv (F := F) Ix Name U Lvl d ((i 0).castLE hcore3) ((i 1).castLE hsub3) arg6 arg7 IR qH qR fH fR 0 60 (160 * k3_t2.val + 60) (k.val + 1)) := by
  rw [k3_t9_body_eq]
  exact accTrip_step (F := F) Ix Name U Lvl 𝒱 d _ _ bd E arg6 arg7 k3_t9_loop _ _ _ _ _ _ IR qH qR fH fR 0 60 (160 * k3_t2.val + 60)
    (fun k => (k3_off25_eq k3_t2 k).trans (by first | rfl | (congr 1; omega))) k3_off26_closed (fun _ _ h => h)
    (by decide) (by decide) hIR hH k acc

/-! ### Loop 10: slot 0, batch row 7 of the chunk -/

/-- The loop's trip is the accumulate trip at its offset functions. -/
theorem k3_t10_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v169_2 : FVec F S16 .f32) (v169_3 : FVec F S16 .f32) (v171 : BitVec 32) (v181 : Vec F S1x16 .f32) :
    k3_t10_body (F := F) i arg2 harg2 arg3 harg3 arg4 harg4 arg5 harg5 arg6 harg6 arg7 harg7 arg8 harg8 arg9 arg10 v14_r0 v14_r1 k3_t2 v14 v169_2 v169_3 v171 v181
      = accTrip (F := F) ((i 0).castLE hcore3) ((i 1).castLE hsub3) arg6 arg7 k3_t10_loop (k3_off27 k3_t2) (Facts₀.k3_off27_inb k3_t2)
          k3_off28 k3_chk8 k3_chk8.dec Cert.KernelIdeal.k3_off28_inb := rfl

/-- The rows' offsets in closed form: slot 0, row `70 + k`, lane `v + c`. -/
theorem k3_off28_closed (k : Fin k3_t10_loop.trips) (v c : BitVec 32) :
    k3_off28 k v c = ![0, 70 + k.val, (v + c).toNat] := by
  have hm : ∀ k : Fin k3_t10_loop.trips, (k3_off28 k 0#32 0#32) 1 = 70 + k.val := by decide +kernel
  funext a
  match a with
  | ⟨0, _⟩ => rfl
  | ⟨1, _⟩ => exact hm k
  | ⟨2, _⟩ => rfl

/-- One trip of loop 10 preserves the left-fold invariant. -/
theorem accum_k3_t10 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v169_2 : FVec F S16 .f32) (v169_3 : FVec F S16 .f32) (v171 : BitVec 32) (v181 : Vec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t10_loop.trips → at1 (arg6.view.read (Elt F) fH) (160 * k3_t2.val + 70 + j) = 0#32 ∨ at1 (arg6.view.read (Elt F) fH) (160 * k3_t2.val + 70 + j) = 64#32)
    (k : Fin k3_t10_loop.trips) (acc : Acc4 F) :
    AccInv (F := F) Ix Name U Lvl d ((i 0).castLE hcore3) ((i 1).castLE hsub3) arg6 arg7 IR qH qR fH fR 0 70 (160 * k3_t2.val + 70) k.val acc
      ⊢ wp frame (wpE (defs₀ (F := F)) 𝒱 ((d, .scVector ((i 0).castLE hcore3) ((i 1).castLE hsub3)) : Thread nD τ) bd) E
          (k3_t10_body (F := F) i arg2 harg2 arg3 harg3 arg4 harg4 arg5 harg5 arg6 harg6 arg7 harg7 arg8 harg8 arg9 arg10 v14_r0 v14_r1 k3_t2 v14 v169_2 v169_3 v171 v181 k acc)
          (AccInv (F := F) Ix Name U Lvl d ((i 0).castLE hcore3) ((i 1).castLE hsub3) arg6 arg7 IR qH qR fH fR 0 70 (160 * k3_t2.val + 70) (k.val + 1)) := by
  rw [k3_t10_body_eq]
  exact accTrip_step (F := F) Ix Name U Lvl 𝒱 d _ _ bd E arg6 arg7 k3_t10_loop _ _ _ _ _ _ IR qH qR fH fR 0 70 (160 * k3_t2.val + 70)
    (fun k => (k3_off27_eq k3_t2 k).trans (by first | rfl | (congr 1; omega))) k3_off28_closed (fun _ _ h => h)
    (by decide) (by decide) hIR hH k acc

/-! ### Loop 11: slot 1, batch row 0 of the chunk -/

/-- The loop's trip is the accumulate trip at its offset functions. -/
theorem k3_t11_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (c1_i32_127 : BitVec 32) :
    k3_t11_body (F := F) i arg2 harg2 arg3 harg3 arg4 harg4 arg5 harg5 arg6 harg6 arg7 harg7 arg8 harg8 arg9 arg10 v14_r0 v14_r1 k3_t2 v14 c1_i32_127
      = accTrip (F := F) ((i 0).castLE hcore3) ((i 1).castLE hsub3) arg6 arg7 k3_t11_loop (k3_off31 k3_t2) (Facts₀.k3_off31_inb k3_t2)
          k3_off32 k3_chk9 k3_chk9.dec Cert.KernelIdeal.k3_off32_inb := rfl

/-- The rows' offsets in closed form: slot 1, row `0 + k`, lane `v + c`. -/
theorem k3_off32_closed (k : Fin k3_t11_loop.trips) (v c : BitVec 32) :
    k3_off32 k v c = ![1, 0 + k.val, (v + c).toNat] := by
  have hm : ∀ k : Fin k3_t11_loop.trips, (k3_off32 k 0#32 0#32) 1 = 0 + k.val := by decide +kernel
  funext a
  match a with
  | ⟨0, _⟩ => rfl
  | ⟨1, _⟩ => exact hm k
  | ⟨2, _⟩ => rfl

/-- One trip of loop 11 preserves the left-fold invariant. -/
theorem accum_k3_t11 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (c1_i32_127 : BitVec 32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t11_loop.trips → at1 (arg6.view.read (Elt F) fH) (160 * k3_t2.val + 80 + j) = 0#32 ∨ at1 (arg6.view.read (Elt F) fH) (160 * k3_t2.val + 80 + j) = 64#32)
    (k : Fin k3_t11_loop.trips) (acc : Acc4 F) :
    AccInv (F := F) Ix Name U Lvl d ((i 0).castLE hcore3) ((i 1).castLE hsub3) arg6 arg7 IR qH qR fH fR 1 0 (160 * k3_t2.val + 80) k.val acc
      ⊢ wp frame (wpE (defs₀ (F := F)) 𝒱 ((d, .scVector ((i 0).castLE hcore3) ((i 1).castLE hsub3)) : Thread nD τ) bd) E
          (k3_t11_body (F := F) i arg2 harg2 arg3 harg3 arg4 harg4 arg5 harg5 arg6 harg6 arg7 harg7 arg8 harg8 arg9 arg10 v14_r0 v14_r1 k3_t2 v14 c1_i32_127 k acc)
          (AccInv (F := F) Ix Name U Lvl d ((i 0).castLE hcore3) ((i 1).castLE hsub3) arg6 arg7 IR qH qR fH fR 1 0 (160 * k3_t2.val + 80) (k.val + 1)) := by
  rw [k3_t11_body_eq]
  exact accTrip_step (F := F) Ix Name U Lvl 𝒱 d _ _ bd E arg6 arg7 k3_t11_loop _ _ _ _ _ _ IR qH qR fH fR 1 0 (160 * k3_t2.val + 80)
    (fun k => (k3_off31_eq k3_t2 k).trans (by first | rfl | (congr 1; omega))) k3_off32_closed (fun _ _ h => h)
    (by decide) (by decide) hIR hH k acc

/-! ### Loop 12: slot 1, batch row 1 of the chunk -/

/-- The loop's trip is the accumulate trip at its offset functions. -/
theorem k3_t12_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v246 : FVec F S16 .f32) (v247 : FVec F S16 .f32) (cst_150 : F .f32) :
    k3_t12_body (F := F) i arg2 harg2 arg3 harg3 arg4 harg4 arg5 harg5 arg6 harg6 arg7 harg7 arg8 harg8 arg9 arg10 v14_r0 v14_r1 k3_t2 v216 v246 v247 cst_150
      = accTrip (F := F) ((i 0).castLE hcore3) ((i 1).castLE hsub3) arg6 arg7 k3_t12_loop (k3_off37 k3_t2) (Facts₀.k3_off37_inb k3_t2)
          k3_off38 k3_chk10 k3_chk10.dec Cert.KernelIdeal.k3_off38_inb := rfl

/-- The rows' offsets in closed form: slot 1, row `10 + k`, lane `v + c`. -/
theorem k3_off38_closed (k : Fin k3_t12_loop.trips) (v c : BitVec 32) :
    k3_off38 k v c = ![1, 10 + k.val, (v + c).toNat] := by
  have hm : ∀ k : Fin k3_t12_loop.trips, (k3_off38 k 0#32 0#32) 1 = 10 + k.val := by decide +kernel
  funext a
  match a with
  | ⟨0, _⟩ => rfl
  | ⟨1, _⟩ => exact hm k
  | ⟨2, _⟩ => rfl

/-- One trip of loop 12 preserves the left-fold invariant. -/
theorem accum_k3_t12 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v246 : FVec F S16 .f32) (v247 : FVec F S16 .f32) (cst_150 : F .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t12_loop.trips → at1 (arg6.view.read (Elt F) fH) (160 * k3_t2.val + 90 + j) = 0#32 ∨ at1 (arg6.view.read (Elt F) fH) (160 * k3_t2.val + 90 + j) = 64#32)
    (k : Fin k3_t12_loop.trips) (acc : Acc4 F) :
    AccInv (F := F) Ix Name U Lvl d ((i 0).castLE hcore3) ((i 1).castLE hsub3) arg6 arg7 IR qH qR fH fR 1 10 (160 * k3_t2.val + 90) k.val acc
      ⊢ wp frame (wpE (defs₀ (F := F)) 𝒱 ((d, .scVector ((i 0).castLE hcore3) ((i 1).castLE hsub3)) : Thread nD τ) bd) E
          (k3_t12_body (F := F) i arg2 harg2 arg3 harg3 arg4 harg4 arg5 harg5 arg6 harg6 arg7 harg7 arg8 harg8 arg9 arg10 v14_r0 v14_r1 k3_t2 v216 v246 v247 cst_150 k acc)
          (AccInv (F := F) Ix Name U Lvl d ((i 0).castLE hcore3) ((i 1).castLE hsub3) arg6 arg7 IR qH qR fH fR 1 10 (160 * k3_t2.val + 90) (k.val + 1)) := by
  rw [k3_t12_body_eq]
  exact accTrip_step (F := F) Ix Name U Lvl 𝒱 d _ _ bd E arg6 arg7 k3_t12_loop _ _ _ _ _ _ IR qH qR fH fR 1 10 (160 * k3_t2.val + 90)
    (fun k => (k3_off37_eq k3_t2 k).trans (by first | rfl | (congr 1; omega))) k3_off38_closed (fun _ _ h => h)
    (by decide) (by decide) hIR hH k acc

/-! ### Loop 13: slot 1, batch row 2 of the chunk -/

/-- The loop's trip is the accumulate trip at its offset functions. -/
theorem k3_t13_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v246 : FVec F S16 .f32) (v247 : FVec F S16 .f32) (cst_150 : F .f32) :
    k3_t13_body (F := F) i arg2 harg2 arg3 harg3 arg4 harg4 arg5 harg5 arg6 harg6 arg7 harg7 arg8 harg8 arg9 arg10 v14_r0 v14_r1 k3_t2 v216 v246 v247 cst_150
      = accTrip (F := F) ((i 0).castLE hcore3) ((i 1).castLE hsub3) arg6 arg7 k3_t13_loop (k3_off43 k3_t2) (Facts₀.k3_off43_inb k3_t2)
          k3_off44 k3_chk11 k3_chk11.dec Cert.KernelIdeal.k3_off44_inb := rfl

/-- The rows' offsets in closed form: slot 1, row `20 + k`, lane `v + c`. -/
theorem k3_off44_closed (k : Fin k3_t13_loop.trips) (v c : BitVec 32) :
    k3_off44 k v c = ![1, 20 + k.val, (v + c).toNat] := by
  have hm : ∀ k : Fin k3_t13_loop.trips, (k3_off44 k 0#32 0#32) 1 = 20 + k.val := by decide +kernel
  funext a
  match a with
  | ⟨0, _⟩ => rfl
  | ⟨1, _⟩ => exact hm k
  | ⟨2, _⟩ => rfl

/-- One trip of loop 13 preserves the left-fold invariant. -/
theorem accum_k3_t13 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v246 : FVec F S16 .f32) (v247 : FVec F S16 .f32) (cst_150 : F .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t13_loop.trips → at1 (arg6.view.read (Elt F) fH) (160 * k3_t2.val + 100 + j) = 0#32 ∨ at1 (arg6.view.read (Elt F) fH) (160 * k3_t2.val + 100 + j) = 64#32)
    (k : Fin k3_t13_loop.trips) (acc : Acc4 F) :
    AccInv (F := F) Ix Name U Lvl d ((i 0).castLE hcore3) ((i 1).castLE hsub3) arg6 arg7 IR qH qR fH fR 1 20 (160 * k3_t2.val + 100) k.val acc
      ⊢ wp frame (wpE (defs₀ (F := F)) 𝒱 ((d, .scVector ((i 0).castLE hcore3) ((i 1).castLE hsub3)) : Thread nD τ) bd) E
          (k3_t13_body (F := F) i arg2 harg2 arg3 harg3 arg4 harg4 arg5 harg5 arg6 harg6 arg7 harg7 arg8 harg8 arg9 arg10 v14_r0 v14_r1 k3_t2 v216 v246 v247 cst_150 k acc)
          (AccInv (F := F) Ix Name U Lvl d ((i 0).castLE hcore3) ((i 1).castLE hsub3) arg6 arg7 IR qH qR fH fR 1 20 (160 * k3_t2.val + 100) (k.val + 1)) := by
  rw [k3_t13_body_eq]
  exact accTrip_step (F := F) Ix Name U Lvl 𝒱 d _ _ bd E arg6 arg7 k3_t13_loop _ _ _ _ _ _ IR qH qR fH fR 1 20 (160 * k3_t2.val + 100)
    (fun k => (k3_off43_eq k3_t2 k).trans (by first | rfl | (congr 1; omega))) k3_off44_closed (fun _ _ h => h)
    (by decide) (by decide) hIR hH k acc

/-! ### Loop 14: slot 1, batch row 3 of the chunk -/

/-- The loop's trip is the accumulate trip at its offset functions. -/
theorem k3_t14_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v275_1 : FVec F S16 .f32) (v275_2 : FVec F S16 .f32) (v275_3 : FVec F S16 .f32) (v277 : BitVec 32) (v281 : FVec F S1x16 .f32) :
    k3_t14_body (F := F) i arg2 harg2 arg3 harg3 arg4 harg4 arg5 harg5 arg6 harg6 arg7 harg7 arg8 harg8 arg9 arg10 v14_r0 v14_r1 k3_t2 v216 v275_1 v275_2 v275_3 v277 v281
      = accTrip (F := F) ((i 0).castLE hcore3) ((i 1).castLE hsub3) arg6 arg7 k3_t14_loop (k3_off45 k3_t2) (Facts₀.k3_off45_inb k3_t2)
          k3_off46 k3_chk12 k3_chk12.dec Cert.KernelIdeal.k3_off46_inb := rfl

/-- The rows' offsets in closed form: slot 1, row `30 + k`, lane `v + c`. -/
theorem k3_off46_closed (k : Fin k3_t14_loop.trips) (v c : BitVec 32) :
    k3_off46 k v c = ![1, 30 + k.val, (v + c).toNat] := by
  have hm : ∀ k : Fin k3_t14_loop.trips, (k3_off46 k 0#32 0#32) 1 = 30 + k.val := by decide +kernel
  funext a
  match a with
  | ⟨0, _⟩ => rfl
  | ⟨1, _⟩ => exact hm k
  | ⟨2, _⟩ => rfl

/-- One trip of loop 14 preserves the left-fold invariant. -/
theorem accum_k3_t14 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v275_1 : FVec F S16 .f32) (v275_2 : FVec F S16 .f32) (v275_3 : FVec F S16 .f32) (v277 : BitVec 32) (v281 : FVec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t14_loop.trips → at1 (arg6.view.read (Elt F) fH) (160 * k3_t2.val + 110 + j) = 0#32 ∨ at1 (arg6.view.read (Elt F) fH) (160 * k3_t2.val + 110 + j) = 64#32)
    (k : Fin k3_t14_loop.trips) (acc : Acc4 F) :
    AccInv (F := F) Ix Name U Lvl d ((i 0).castLE hcore3) ((i 1).castLE hsub3) arg6 arg7 IR qH qR fH fR 1 30 (160 * k3_t2.val + 110) k.val acc
      ⊢ wp frame (wpE (defs₀ (F := F)) 𝒱 ((d, .scVector ((i 0).castLE hcore3) ((i 1).castLE hsub3)) : Thread nD τ) bd) E
          (k3_t14_body (F := F) i arg2 harg2 arg3 harg3 arg4 harg4 arg5 harg5 arg6 harg6 arg7 harg7 arg8 harg8 arg9 arg10 v14_r0 v14_r1 k3_t2 v216 v275_1 v275_2 v275_3 v277 v281 k acc)
          (AccInv (F := F) Ix Name U Lvl d ((i 0).castLE hcore3) ((i 1).castLE hsub3) arg6 arg7 IR qH qR fH fR 1 30 (160 * k3_t2.val + 110) (k.val + 1)) := by
  rw [k3_t14_body_eq]
  exact accTrip_step (F := F) Ix Name U Lvl 𝒱 d _ _ bd E arg6 arg7 k3_t14_loop _ _ _ _ _ _ IR qH qR fH fR 1 30 (160 * k3_t2.val + 110)
    (fun k => (k3_off45_eq k3_t2 k).trans (by first | rfl | (congr 1; omega))) k3_off46_closed (fun _ _ h => h)
    (by decide) (by decide) hIR hH k acc

/-! ### Loop 15: slot 1, batch row 4 of the chunk -/

/-- The loop's trip is the accumulate trip at its offset functions. -/
theorem k3_t15_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v317 : FVec F S1x16 .f32) :
    k3_t15_body (F := F) i arg2 harg2 arg3 harg3 arg4 harg4 arg5 harg5 arg6 harg6 arg7 harg7 arg8 harg8 arg9 arg10 v14_r0 v14_r1 k3_t2 v216 v317
      = accTrip (F := F) ((i 0).castLE hcore3) ((i 1).castLE hsub3) arg6 arg7 k3_t15_loop (k3_off47 k3_t2) (Facts₀.k3_off47_inb k3_t2)
          k3_off48 k3_chk13 k3_chk13.dec Cert.KernelIdeal.k3_off48_inb := rfl

/-- The rows' offsets in closed form: slot 1, row `40 + k`, lane `v + c`. -/
theorem k3_off48_closed (k : Fin k3_t15_loop.trips) (v c : BitVec 32) :
    k3_off48 k v c = ![1, 40 + k.val, (v + c).toNat] := by
  have hm : ∀ k : Fin k3_t15_loop.trips, (k3_off48 k 0#32 0#32) 1 = 40 + k.val := by decide +kernel
  funext a
  match a with
  | ⟨0, _⟩ => rfl
  | ⟨1, _⟩ => exact hm k
  | ⟨2, _⟩ => rfl

/-- One trip of loop 15 preserves the left-fold invariant. -/
theorem accum_k3_t15 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v317 : FVec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t15_loop.trips → at1 (arg6.view.read (Elt F) fH) (160 * k3_t2.val + 120 + j) = 0#32 ∨ at1 (arg6.view.read (Elt F) fH) (160 * k3_t2.val + 120 + j) = 64#32)
    (k : Fin k3_t15_loop.trips) (acc : Acc4 F) :
    AccInv (F := F) Ix Name U Lvl d ((i 0).castLE hcore3) ((i 1).castLE hsub3) arg6 arg7 IR qH qR fH fR 1 40 (160 * k3_t2.val + 120) k.val acc
      ⊢ wp frame (wpE (defs₀ (F := F)) 𝒱 ((d, .scVector ((i 0).castLE hcore3) ((i 1).castLE hsub3)) : Thread nD τ) bd) E
          (k3_t15_body (F := F) i arg2 harg2 arg3 harg3 arg4 harg4 arg5 harg5 arg6 harg6 arg7 harg7 arg8 harg8 arg9 arg10 v14_r0 v14_r1 k3_t2 v216 v317 k acc)
          (AccInv (F := F) Ix Name U Lvl d ((i 0).castLE hcore3) ((i 1).castLE hsub3) arg6 arg7 IR qH qR fH fR 1 40 (160 * k3_t2.val + 120) (k.val + 1)) := by
  rw [k3_t15_body_eq]
  exact accTrip_step (F := F) Ix Name U Lvl 𝒱 d _ _ bd E arg6 arg7 k3_t15_loop _ _ _ _ _ _ IR qH qR fH fR 1 40 (160 * k3_t2.val + 120)
    (fun k => (k3_off47_eq k3_t2 k).trans (by first | rfl | (congr 1; omega))) k3_off48_closed (fun _ _ h => h)
    (by decide) (by decide) hIR hH k acc

/-! ### Loop 16: slot 1, batch row 5 of the chunk -/

/-- The loop's trip is the accumulate trip at its offset functions. -/
theorem k3_t16_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v317 : FVec F S1x16 .f32) :
    k3_t16_body (F := F) i arg2 harg2 arg3 harg3 arg4 harg4 arg5 harg5 arg6 harg6 arg7 harg7 arg8 harg8 arg9 arg10 v14_r0 v14_r1 k3_t2 v216 v317
      = accTrip (F := F) ((i 0).castLE hcore3) ((i 1).castLE hsub3) arg6 arg7 k3_t16_loop (k3_off49 k3_t2) (Facts₀.k3_off49_inb k3_t2)
          k3_off50 k3_chk14 k3_chk14.dec Cert.KernelIdeal.k3_off50_inb := rfl

/-- The rows' offsets in closed form: slot 1, row `50 + k`, lane `v + c`. -/
theorem k3_off50_closed (k : Fin k3_t16_loop.trips) (v c : BitVec 32) :
    k3_off50 k v c = ![1, 50 + k.val, (v + c).toNat] := by
  have hm : ∀ k : Fin k3_t16_loop.trips, (k3_off50 k 0#32 0#32) 1 = 50 + k.val := by decide +kernel
  funext a
  match a with
  | ⟨0, _⟩ => rfl
  | ⟨1, _⟩ => exact hm k
  | ⟨2, _⟩ => rfl

/-- One trip of loop 16 preserves the left-fold invariant. -/
theorem accum_k3_t16 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v317 : FVec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t16_loop.trips → at1 (arg6.view.read (Elt F) fH) (160 * k3_t2.val + 130 + j) = 0#32 ∨ at1 (arg6.view.read (Elt F) fH) (160 * k3_t2.val + 130 + j) = 64#32)
    (k : Fin k3_t16_loop.trips) (acc : Acc4 F) :
    AccInv (F := F) Ix Name U Lvl d ((i 0).castLE hcore3) ((i 1).castLE hsub3) arg6 arg7 IR qH qR fH fR 1 50 (160 * k3_t2.val + 130) k.val acc
      ⊢ wp frame (wpE (defs₀ (F := F)) 𝒱 ((d, .scVector ((i 0).castLE hcore3) ((i 1).castLE hsub3)) : Thread nD τ) bd) E
          (k3_t16_body (F := F) i arg2 harg2 arg3 harg3 arg4 harg4 arg5 harg5 arg6 harg6 arg7 harg7 arg8 harg8 arg9 arg10 v14_r0 v14_r1 k3_t2 v216 v317 k acc)
          (AccInv (F := F) Ix Name U Lvl d ((i 0).castLE hcore3) ((i 1).castLE hsub3) arg6 arg7 IR qH qR fH fR 1 50 (160 * k3_t2.val + 130) (k.val + 1)) := by
  rw [k3_t16_body_eq]
  exact accTrip_step (F := F) Ix Name U Lvl 𝒱 d _ _ bd E arg6 arg7 k3_t16_loop _ _ _ _ _ _ IR qH qR fH fR 1 50 (160 * k3_t2.val + 130)
    (fun k => (k3_off49_eq k3_t2 k).trans (by first | rfl | (congr 1; omega))) k3_off50_closed (fun _ _ h => h)
    (by decide) (by decide) hIR hH k acc

/-! ### Loop 17: slot 1, batch row 6 of the chunk -/

/-- The loop's trip is the accumulate trip at its offset functions. -/
theorem k3_t17_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v347_0 : FVec F S16 .f32) (v347_1 : FVec F S16 .f32) (v347_2 : FVec F S16 .f32) (v347_3 : FVec F S16 .f32) (v348 : BitVec 32) (c2_i32_213 : BitVec 32) :
    k3_t17_body (F := F) i arg2 harg2 arg3 harg3 arg4 harg4 arg5 harg5 arg6 harg6 arg7 harg7 arg8 harg8 arg9 arg10 v14_r0 v14_r1 k3_t2 v216 v347_0 v347_1 v347_2 v347_3 v348 c2_i32_213
      = accTrip (F := F) ((i 0).castLE hcore3) ((i 1).castLE hsub3) arg6 arg7 k3_t17_loop (k3_off51 k3_t2) (Facts₀.k3_off51_inb k3_t2)
          k3_off52 k3_chk15 k3_chk15.dec Cert.KernelIdeal.k3_off52_inb := rfl

/-- The rows' offsets in closed form: slot 1, row `60 + k`, lane `v + c`. -/
theorem k3_off52_closed (k : Fin k3_t17_loop.trips) (v c : BitVec 32) :
    k3_off52 k v c = ![1, 60 + k.val, (v + c).toNat] := by
  have hm : ∀ k : Fin k3_t17_loop.trips, (k3_off52 k 0#32 0#32) 1 = 60 + k.val := by decide +kernel
  funext a
  match a with
  | ⟨0, _⟩ => rfl
  | ⟨1, _⟩ => exact hm k
  | ⟨2, _⟩ => rfl

/-- One trip of loop 17 preserves the left-fold invariant. -/
theorem accum_k3_t17 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v347_0 : FVec F S16 .f32) (v347_1 : FVec F S16 .f32) (v347_2 : FVec F S16 .f32) (v347_3 : FVec F S16 .f32) (v348 : BitVec 32) (c2_i32_213 : BitVec 32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t17_loop.trips → at1 (arg6.view.read (Elt F) fH) (160 * k3_t2.val + 140 + j) = 0#32 ∨ at1 (arg6.view.read (Elt F) fH) (160 * k3_t2.val + 140 + j) = 64#32)
    (k : Fin k3_t17_loop.trips) (acc : Acc4 F) :
    AccInv (F := F) Ix Name U Lvl d ((i 0).castLE hcore3) ((i 1).castLE hsub3) arg6 arg7 IR qH qR fH fR 1 60 (160 * k3_t2.val + 140) k.val acc
      ⊢ wp frame (wpE (defs₀ (F := F)) 𝒱 ((d, .scVector ((i 0).castLE hcore3) ((i 1).castLE hsub3)) : Thread nD τ) bd) E
          (k3_t17_body (F := F) i arg2 harg2 arg3 harg3 arg4 harg4 arg5 harg5 arg6 harg6 arg7 harg7 arg8 harg8 arg9 arg10 v14_r0 v14_r1 k3_t2 v216 v347_0 v347_1 v347_2 v347_3 v348 c2_i32_213 k acc)
          (AccInv (F := F) Ix Name U Lvl d ((i 0).castLE hcore3) ((i 1).castLE hsub3) arg6 arg7 IR qH qR fH fR 1 60 (160 * k3_t2.val + 140) (k.val + 1)) := by
  rw [k3_t17_body_eq]
  exact accTrip_step (F := F) Ix Name U Lvl 𝒱 d _ _ bd E arg6 arg7 k3_t17_loop _ _ _ _ _ _ IR qH qR fH fR 1 60 (160 * k3_t2.val + 140)
    (fun k => (k3_off51_eq k3_t2 k).trans (by first | rfl | (congr 1; omega))) k3_off52_closed (fun _ _ h => h)
    (by decide) (by decide) hIR hH k acc

/-! ### Loop 18: slot 1, batch row 7 of the chunk -/

/-- The loop's trip is the accumulate trip at its offset functions. -/
theorem k3_t18_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k3_t2 : Fin k3_t2_loop.trips) :
    k3_t18_body (F := F) i arg2 harg2 arg3 harg3 arg4 harg4 arg5 harg5 arg6 harg6 arg7 harg7 arg8 harg8 arg9 arg10 v14_r0 v14_r1 c0_i32_15 c1_i32_16 k3_t2
      = accTrip (F := F) ((i 0).castLE hcore3) ((i 1).castLE hsub3) arg6 arg7 k3_t18_loop (k3_off53 k3_t2) (Facts₀.k3_off53_inb k3_t2)
          k3_off54 k3_chk16 k3_chk16.dec Cert.KernelIdeal.k3_off54_inb := rfl

/-- The rows' offsets in closed form: slot 1, row `70 + k`, lane `v + c`. -/
theorem k3_off54_closed (k : Fin k3_t18_loop.trips) (v c : BitVec 32) :
    k3_off54 k v c = ![1, 70 + k.val, (v + c).toNat] := by
  have hm : ∀ k : Fin k3_t18_loop.trips, (k3_off54 k 0#32 0#32) 1 = 70 + k.val := by decide +kernel
  funext a
  match a with
  | ⟨0, _⟩ => rfl
  | ⟨1, _⟩ => exact hm k
  | ⟨2, _⟩ => rfl

/-- One trip of loop 18 preserves the left-fold invariant. -/
theorem accum_k3_t18 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k3_t2 : Fin k3_t2_loop.trips)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t18_loop.trips → at1 (arg6.view.read (Elt F) fH) (160 * k3_t2.val + 150 + j) = 0#32 ∨ at1 (arg6.view.read (Elt F) fH) (160 * k3_t2.val + 150 + j) = 64#32)
    (k : Fin k3_t18_loop.trips) (acc : Acc4 F) :
    AccInv (F := F) Ix Name U Lvl d ((i 0).castLE hcore3) ((i 1).castLE hsub3) arg6 arg7 IR qH qR fH fR 1 70 (160 * k3_t2.val + 150) k.val acc
      ⊢ wp frame (wpE (defs₀ (F := F)) 𝒱 ((d, .scVector ((i 0).castLE hcore3) ((i 1).castLE hsub3)) : Thread nD τ) bd) E
          (k3_t18_body (F := F) i arg2 harg2 arg3 harg3 arg4 harg4 arg5 harg5 arg6 harg6 arg7 harg7 arg8 harg8 arg9 arg10 v14_r0 v14_r1 c0_i32_15 c1_i32_16 k3_t2 k acc)
          (AccInv (F := F) Ix Name U Lvl d ((i 0).castLE hcore3) ((i 1).castLE hsub3) arg6 arg7 IR qH qR fH fR 1 70 (160 * k3_t2.val + 150) (k.val + 1)) := by
  rw [k3_t18_body_eq]
  exact accTrip_step (F := F) Ix Name U Lvl 𝒱 d _ _ bd E arg6 arg7 k3_t18_loop _ _ _ _ _ _ IR qH qR fH fR 1 70 (160 * k3_t2.val + 150)
    (fun k => (k3_off53_eq k3_t2 k).trans (by first | rfl | (congr 1; omega))) k3_off54_closed (fun _ _ h => h)
    (by decide) (by decide) hIR hH k acc

end Cert.Proof.KI

end
-- ==== Proof.KI.Tile3Facts.lean ====
/-
  Pure facts about one vector subcore's task of the second embedding-sum call: the rewritten index words as row
  numbers of the pair table, the lane offsets, what a gather of 80 rows delivers, and the value one accumulate loop
  leaves in its four accumulators.
-/
import proofs.«219250_g10247791969013_week1_w1_750_27_alg».proof.Proof.KI.Tile3RingDefs
import proofs.«219250_g10247791969013_week1_w1_750_27_alg».proof.Proof.KI.AccFold
import proofs.«219250_g10247791969013_week1_w1_750_27_alg».proof.Proof.KI.Tile2Facts

noncomputable section

namespace Cert.Proof.KI

open Cert.KernelIdeal Cert.KernelIdeal.Gen

open Idealize.ShloMosaic
open Idealize.ShloMosaic.ValueIdx

variable {F : FTy → Type} [FloatOps F]

/-! ## The rewritten words and the lane offsets -/

/-- After the whole rewrite a word of the list, as a number, is the table row it names, and that row is in the table. -/
theorem rew_toNat3 (ix g : S1280.Idx → BitVec 32) (hg : ZI5 ix g 80) (hix : ∀ j, (ix j).toNat < 100000) (y : S1280.Idx) :
    (g y).toNat = gRow3 (F := F) ix (y 0).val ∧ (g y).toNat < 501760 := by
  have hy : (y 0).val < 1280 := (y 0).isLt
  have hgy := hg y
  rw [if_pos (by omega)] at hgy
  have hyy : ix (ix1 ⟨(y 0).val, hy⟩) = ix y := congrArg ix (eq_ix1 y).symm
  have hi := hix y
  have e : (g y).toNat = (ix y).toNat + (y 0).val % 10 / 2 * 100352 := by
    rw [hgy]
    unfold rewW3
    rw [BitVec.toNat_add, BitVec.toNat_ofNat]
    have h2 : (2 : ℕ) ^ 32 = 4294967296 := by norm_num
    rw [h2]
    omega
  refine ⟨?_, by omega⟩
  unfold gRow3
  rw [dif_pos hy, hyy, e]

/-- After the whole rewrite the lane offset at position `p` is `(p mod 10 mod 2) · 64`. -/
theorem half_val3 (g : (SH 1296).Idx → BitVec 32) (hg : ZI6 g 80) (p : ℕ) (hp : p < 1280) :
    at1 g p = BitVec.ofNat 32 (p % 10 % 2 * 64) := by
  rw [at1_of_lt g (by omega : p < 1296)]
  exact hg (ix1 ⟨p, by omega⟩) (by show p < 16 * 80; omega)

/-- So it is 0 or 64. -/
theorem half_val3_cases (g : (SH 1296).Idx → BitVec 32) (hg : ZI6 g 80) (p : ℕ) (hp : p < 1280) :
    at1 g p = 0#32 ∨ at1 g p = 64#32 := by
  rw [half_val3 g hg p hp]
  rcases Nat.mod_two_eq_zero_or_one (p % 10) with h | h
  · left; rw [h]
  · right; rw [h]

/-! ## What a gather delivers -/

/-- The gather of chunk `c`: row `r` of what it delivers is the table row the rewritten list names at position
    `80 c + r`. -/
theorem gather_spec3 (d : Dev nD) (L : grid3.Coords) (Tb : Buf (Elt F) ((tabM3).view.loc (thr3 d L))) (ix : S1280.Idx → Elt F .i32)
    (g5 : Buf (Elt F) ((sI3).view.loc (thr3 d L))) (hg5 : ZI5 ix ((sI3).view.read (Elt F) g5) 80) (hix : ∀ j, (ix j).toNat < 100000)
    (c : ℕ) (off : Fin 1 → ℕ) (inb : ∀ a, off a + S80.size a ≤ S1280.size a) (hs) (hoff : off = ![80 * c])
    (hn : S80.numel = S80x128.size gathers_S501760x128_S80x128.axis')
    (hin : ∀ x, (((sI3).slice (Rect.unit (s := S1280) off S80.size inb) hs).view.read (Elt F) g5 x).toNat < S501760x128.size gathers_S501760x128_S80x128.axis) :
    SparseCore.gatherPayload gathers_S501760x128_S80x128 ((tabSl3).view.read (Elt F) Tb)
        (SparseCore.rows (((sI3).slice (Rect.unit (s := S1280) off S80.size inb) hs).view.read (Elt F) g5) hn hin)
      = gathSpec3 ((tabM3).view.read (Elt F) Tb) ix c := by
  subst hoff
  funext x
  have hx0 : (x 0).val < 80 := (x 0).isLt
  have hx1 : (x 1).val < 128 := (x 1).isLt
  have hc : 80 * c + 80 ≤ 1280 := by
    have h0 := inb 0
    have e1 : (![80 * c] : Fin 1 → ℕ) 0 = 80 * c := rfl
    have e2 : S80.size 0 = 80 := rfl
    have e3 : S1280.size 0 = 1280 := rfl
    omega
  have hw : ((sI3).slice (Rect.unit (s := S1280) ![80 * c] S80.size inb) hs).view.read (Elt F) g5 (ix1 ⟨(x 0).val, hx0⟩)
      = (sI3).view.read (Elt F) g5 (ix1 ⟨80 * c + (x 0).val, by omega⟩) := by
    show (sI3).view.read (Elt F) g5 ((Rect.unit (s := S1280) ![80 * c] S80.size inb).emb (ix1 ⟨(x 0).val, hx0⟩)) = _
    congr 1
    funext a
    match a with
    | ⟨0, _⟩ => exact Fin.ext (show 80 * c + 1 * (x 0).val = 80 * c + (x 0).val by omega)
  have hr := rew_toNat3 (F := F) ix _ hg5 hix (ix1 ⟨80 * c + (x 0).val, by omega⟩)
  have hr1 : ((sI3).view.read (Elt F) g5 (ix1 ⟨80 * c + (x 0).val, by omega⟩)).toNat = gRow3 (F := F) ix (80 * c + (x 0).val) := hr.1
  have hlt : gRow3 (F := F) ix (80 * c + (x 0).val) < 501760 := by rw [← hr1]; exact hr.2
  have hrow : (SparseCore.rows (((sI3).slice (Rect.unit (s := S1280) ![80 * c] S80.size inb) hs).view.read (Elt F) g5) hn hin
        (x gathers_S501760x128_S80x128.axis')).val
      = gRow3 (F := F) ix (80 * c + (x 0).val) := by
    have e := rowMajor_symm_rank1 (n := 80) ((x gathers_S501760x128_S80x128.axis').cast hn.symm) (x 0).val hx0 rfl
    show ((((sI3).slice (Rect.unit (s := S1280) ![80 * c] S80.size inb) hs).view.read (Elt F) g5)
      (S80.rowMajor.symm ((x gathers_S501760x128_S80x128.axis').cast hn.symm))).toNat = _
    rw [e, hw, hr1]
  unfold SparseCore.gatherPayload gathSpec3 tbAt3
  rw [dif_pos ⟨hlt, hx1⟩]
  show (tabM3).view.read (Elt F) Tb ((Rect.unit (s := S501760x128) ![0, 0] S501760x128.size _).emb
      (gathers_S501760x128_S80x128.idx _ x)) = _
  congr 1
  funext a
  match a with
  | ⟨0, _⟩ =>
    refine Fin.ext ?_
    show 0 + 1 * (gathers_S501760x128_S80x128.idx _ x ⟨0, _⟩).val = gRow3 (F := F) ix (80 * c + (x 0).val)
    rw [Nat.zero_add, Nat.one_mul]
    exact (congrArg Fin.val (Shape.Gathers.idx_axis gathers_S501760x128_S80x128 _ x)).trans hrow
  | ⟨1, _⟩ =>
    refine Fin.ext ?_
    show 0 + 1 * (gathers_S501760x128_S80x128.idx _ x ⟨1, _⟩).val = (x 1).val
    rw [Nat.zero_add, Nat.one_mul]
    exact Shape.Gathers.idx_of_ne gathers_S501760x128_S80x128 _ x ⟨1, by decide⟩ (by decide)

/-! ## The value of one accumulate loop -/

/-- With the gathered rows of the slot being the table rows the list names for chunk `chunk`, and the lane offsets
    `(p mod 10 mod 2) · 64`, lane `l` of accumulator `t` after the ten trips of batch row `bi` of the chunk is the
    task's entry at row `4 chunk + bi / 2`, lane `(bi mod 2) · 64 + 16 t + l`. -/
theorem acc_value3 (tb : S501760x128.Idx → Elt F .f32) (ix : S1280.Idx → Elt F .i32) (R : (SR 80).Idx → F .f32) (H : (SH 1296).Idx → BitVec 32)
    (slot chunk bi p₀ : ℕ) (hslot : slot < 2) (hchunk : chunk < 16) (hbi : bi < 8) (hp₀ : p₀ = 80 * chunk + 10 * bi)
    (hR : ∀ r c, r < 80 → c < 128 → at3 R slot r c = tbAt3 tb (gRow3 ix (80 * chunk + r)) c)
    (hH : ∀ p, p < 1280 → at1 H p = BitVec.ofNat 32 (p % 10 % 2 * 64))
    (t : ℕ) (ht : t < 4) (l : SL16.Idx) :
    (accAt R H slot (10 * bi) p₀ 10).get t l
      = OUT3 tb ix (ix2 (⟨4 * chunk + bi / 2, by omega⟩ : Fin 64) (⟨bi % 2 * 64 + 16 * t + (l 0).val, by have hl : (l 0).val < 16 := (l 0).isLt; omega⟩ : Fin 128)) := by
  subst hp₀
  have hl : (l 0).val < 16 := (l 0).isLt
  rw [accAt_get_eq_foldl_of R H slot (10 * bi) (80 * chunk + 10 * bi) 10 t ht l
    (fun j => tbAt3 tb (gRow3 ix ((2 * (4 * chunk + bi / 2) + (bi % 2 * 64 + 16 * t + (l 0).val) / 64) * 10 + j))
      (j % 2 * 64 + (bi % 2 * 64 + 16 * t + (l 0).val) % 64))
    (fun j hj => by
      unfold accRow
      have hw : at1 H (80 * chunk + 10 * bi + j) = BitVec.ofNat 32 (j % 2 * 64) := by
        rw [hH _ (by omega)]
        have e : (80 * chunk + 10 * bi + j) % 10 = j := by omega
        rw [e]
      have hn : (BitVec.ofNat 32 (j % 2 * 64)).toNat = j % 2 * 64 := by
        rw [BitVec.toNat_ofNat]
        have h2 : (2 : ℕ) ^ 32 = 4294967296 := by norm_num
        rw [h2]
        omega
      rw [hw, hn, hR (10 * bi + j) (j % 2 * 64 + 16 * t + (l 0).val) (by omega) (by omega)]
      have e1 : (2 * (4 * chunk + bi / 2) + (bi % 2 * 64 + 16 * t + (l 0).val) / 64) * 10 + j = 80 * chunk + (10 * bi + j) := by omega
      have e2 : j % 2 * 64 + (bi % 2 * 64 + 16 * t + (l 0).val) % 64 = j % 2 * 64 + 16 * t + (l 0).val := by omega
      rw [e1, e2])]
  rfl

end Cert.Proof.KI

end
-- ==== Proof.KI.Tile3Facts2.lean ====
/-
  The two gather buffers of a vector subcore's task as parts of the scratch of gathered rows: the rows of slot 0
  (resp. 1) are exactly the even (resp. odd) buffer's elements, and what is written through a buffer is read back, at
  slot, row and lane, from the scratch.
-/
import proofs.«219250_g10247791969013_week1_w1_750_27_alg».proof.Proof.KI.Tile3RingDefs
import proofs.«219250_g10247791969013_week1_w1_750_27_alg».proof.Proof.KI.AccSpec
import Idealize.ShloMosaic.Lib.Writes
import Idealize.ShloMosaic.Lib.Exec.Geometry

noncomputable section

namespace Cert.Proof.KI

open Cert.KernelIdeal Cert.KernelIdeal.Gen

open Idealize.ShloMosaic
open Idealize.ShloMosaic.ValueIdx

variable {F : FTy → Type} [FloatOps F]

/-- The rows of one slot as a rectangle of the scratch. -/
abbrev slotRect3 (s : ℕ) (inb : ∀ a, (![s, 0, 0] : Fin 3 → ℕ) a + S1x80x128.size a ≤ S2x80x128.size a) : Rect S2x80x128 :=
  Rect.unit (s := S2x80x128) ![s, 0, 0] S1x80x128.size inb

/-- An element of slot `s` of the scratch lies in the rectangle of that slot. -/
theorem mem_slotRect3 (s : ℕ) (inb) (x : S2x80x128.Idx) (hx : (x 0).val = s) : x ∈ (slotRect3 s inb).set := by
  rw [Rect.mem_set_unit]
  intro a
  match a with
  | ⟨0, _⟩ =>
    show s ≤ (x 0).val ∧ (x 0).val < s + 1
    omega
  | ⟨1, _⟩ =>
    have h1 : (x 1).val < 80 := (x 1).isLt
    show 0 ≤ (x 1).val ∧ (x 1).val < 0 + 80
    omega
  | ⟨2, _⟩ =>
    have h2 : (x 2).val < 128 := (x 2).isLt
    show 0 ≤ (x 2).val ∧ (x 2).val < 0 + 128
    omega

omit [FloatOps F] in
/-- Slot 0's rows are among the even buffer's elements. -/
theorem hIR_A3 : ∀ x : (SR 80).Idx, (x 0).val = 0 → (sR3).view.emb x ∈ (dstA3).view.set := by
  intro x hx
  rw [Memref.set_view_squeeze]
  show (sR3).view.emb x ∈ ((sR3).view.slice (slotRect3 0 inb_S2x80x128_S1x80x128_0_0_0)).set
  rw [View.set_slice]
  exact Finset.mem_map_of_mem _ (mem_slotRect3 0 _ x hx)

omit [FloatOps F] in
/-- Slot 1's rows are among the odd buffer's elements. -/
theorem hIR_B3 : ∀ x : (SR 80).Idx, (x 0).val = 1 → (sR3).view.emb x ∈ (dstB3).view.set := by
  intro x hx
  rw [Memref.set_view_squeeze]
  show (sR3).view.emb x ∈ ((sR3).view.slice (slotRect3 1 inb_S2x80x128_S1x80x128_1_0_0)).set
  rw [View.set_slice]
  exact Finset.mem_map_of_mem _ (mem_slotRect3 1 _ x hx)

/-- The row-major regrouping of one slot's rows `1 × 80 × 128` as `80 × 128` keeps row and lane. -/
theorem reshape_slot_symm3 (h : S80x128.numel = S1x80x128.numel) (r c : ℕ) (hr : r < 80) (hc : c < 128) :
    (Shape.reshapeEquiv h).symm (ix3 (0 : Fin 1) (⟨r, hr⟩ : Fin 80) (⟨c, hc⟩ : Fin 128) : S1x80x128.Idx)
      = (ix2 (⟨r, hr⟩ : Fin 80) (⟨c, hc⟩ : Fin 128) : S80x128.Idx) := by
  rw [Equiv.symm_apply_eq]
  refine (Shape.reshapeEquiv_eq_of_rowMajor h ?_).symm
  rw [Shape.rowMajor_val_three, Shape.rowMajor_val_two]
  show (0 * 80 + r) * 128 + c = r * 128 + c
  omega

/-- What is written through the buffer of slot `s` is read back from the scratch at `(s, r, c)`. -/
theorem read_slot3 (s : ℕ) (hs : s < 2) (inb) (hq : S1x80x128.Squeezes S80x128)
    (g : (sR3).view.ty.Contents (Elt F)) (p : S80x128.Idx → Elt F .f32) (r c : ℕ) (hr : r < 80) (hc : c < 128) :
    at3 ((sR3).view.read (Elt F)
        ((((sR3).slice (slotRect3 s inb) (fun _ => rfl)).squeeze S80x128 hq).view.write (Elt F) g p Finset.univ)) s r c
      = p (ix2 ⟨r, hr⟩ ⟨c, hc⟩) := by
  rw [at3_of_lt _ hs hr hc]
  show (sR3).view.read (Elt F) ((((sR3).view.slice (slotRect3 s inb)).reshape S80x128 hq.numel_eq).write (Elt F) g p Finset.univ)
    (ix3 ⟨s, hs⟩ ⟨r, hr⟩ ⟨c, hc⟩) = _
  rw [View.write_reshape_univ]
  have hx : (ix3 (⟨s, hs⟩ : Fin 2) (⟨r, hr⟩ : Fin 80) (⟨c, hc⟩ : Fin 128) : S2x80x128.Idx)
      = (slotRect3 s inb).emb (ix3 (0 : Fin 1) (⟨r, hr⟩ : Fin 80) (⟨c, hc⟩ : Fin 128) : S1x80x128.Idx) := by
    funext a
    match a with
    | ⟨0, _⟩ => exact Fin.ext (show s = s + 1 * 0 by omega)
    | ⟨1, _⟩ => exact Fin.ext (show r = 0 + 1 * r by omega)
    | ⟨2, _⟩ => exact Fin.ext (show c = 0 + 1 * c by omega)
  rw [hx, View.read_slice_write_emb _ _ _ (Finset.mem_univ _), reshape_slot_symm3 _ r c hr hc]

/-- The even buffer. -/
theorem read_slotA3 (g : (sR3).view.ty.Contents (Elt F)) (p : S80x128.Idx → Elt F .f32) (r c : ℕ) (hr : r < 80) (hc : c < 128) :
    at3 ((sR3).view.read (Elt F) ((dstA3).view.write (Elt F) g p Finset.univ)) 0 r c = p (ix2 ⟨r, hr⟩ ⟨c, hc⟩) :=
  read_slot3 0 (by decide) inb_S2x80x128_S1x80x128_0_0_0 squeezes_S1x80x128_S80x128 g p r c hr hc

/-- The odd buffer. -/
theorem read_slotB3 (g : (sR3).view.ty.Contents (Elt F)) (p : S80x128.Idx → Elt F .f32) (r c : ℕ) (hr : r < 80) (hc : c < 128) :
    at3 ((sR3).view.read (Elt F) ((dstB3).view.write (Elt F) g p Finset.univ)) 1 r c = p (ix2 ⟨r, hr⟩ ⟨c, hc⟩) :=
  read_slot3 1 (by decide) inb_S2x80x128_S1x80x128_1_0_0 squeezes_S1x80x128_S80x128 g p r c hr hc

end Cert.Proof.KI

end
-- ==== Proof.KI.Tile3Ring.lean ====
/-
  The ring of gathers of one vector subcore's task: the invariant of its loop — both gathers of a trip's two chunks in
  flight on their semaphores, the block of sums done below the trip's rows.
-/
import proofs.«219250_g10247791969013_week1_w1_750_27_alg».proof.Proof.KI.Tile3Pre
import proofs.«219250_g10247791969013_week1_w1_750_27_alg».proof.Proof.KI.Tile3RingDefs
import proofs.«219250_g10247791969013_week1_w1_750_27_alg».proof.Proof.KI.Accum3
import proofs.«219250_g10247791969013_week1_w1_750_27_alg».proof.Proof.KI.Tile3Facts
import proofs.«219250_g10247791969013_week1_w1_750_27_alg».proof.Proof.KI.Tile3Facts2
import proofs.«219250_g10247791969013_week1_w1_750_27_alg».proof.Proof.KI.Tile2Stores
import proofs.«219250_g10247791969013_week1_w1_750_27_alg».proof.Proof.KI.Tile2Ring
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid3.Coords)

set_option quotPrecheck false in
local notation "tabSlN" => ((tabM3).slice (Rect.unit (s := S501760x128) ![0, 0] S501760x128.size inb_S501760x128_S501760x128_0_0) (fun _ => rfl))
set_option quotPrecheck false in
local notation "dstAN" => (((sR3).slice (Rect.unit (s := S2x80x128) ![0, 0, 0] S1x80x128.size inb_S2x80x128_S1x80x128_0_0_0) (fun _ => rfl)).squeeze S80x128 squeezes_S1x80x128_S80x128)
set_option quotPrecheck false in
local notation "dstBN" => (((sR3).slice (Rect.unit (s := S2x80x128) ![1, 0, 0] S1x80x128.size inb_S2x80x128_S1x80x128_1_0_0) (fun _ => rfl)).squeeze S80x128 squeezes_S1x80x128_S80x128)

variable (q : PosShare TreeShare) (Tb : Buf (Elt F) ((tabM3).view.loc (thr3 d L)))
  (tb : S501760x128.Idx → Elt F .f32) (ix : S1280.Idx → Elt F .i32)
  (g5 : Buf (Elt F) ((sI3).view.loc (thr3 d L))) (g6 : Buf (Elt F) ((sH3).view.loc (thr3 d L)))
  (O : CellTallies nD τ sig (HIx 2)) (W : Waits sig (HIx 2))

/-- A gather in flight on semaphore `sm`: it delivers the buffer's elements `Sd` at contents `gw`, the list's elements
    `So` and the table's share `qt` back. -/
def flight3 (sm : DmaSem sig) (Sd : Finset S2x80x128.Idx) (gw : Buf (Elt F) ((sR3).view.loc (thr3 d L))) (So : Finset S1280.Idx)
    (ql qt : PosShare TreeShare) : sProp 𝕄 :=
  Transfers.Flight countersEmb (thr3 d L) (SemLoc.dma sm) (default : HIx 2) 327680
    iprop((((sR3).view.loc (thr3 d L) ↦[Sd]{fullShare} gw) ∗ ((sI3).view.loc (thr3 d L) ↦[So]{ql} g5))
      ∗ ((tabM3).view.loc (thr3 d L) ↦[((tabSlN).view.set : Finset S501760x128.Idx)]{qt} Tb))

/-- Before trip `k < 8` of the ring: the gathers of chunks `2 k` and `2 k + 1` in flight, the block of sums done
    below row `8 k`. -/
def ringBusy3 (k : ℕ) (hk : k < 8) : sProp 𝕄 :=
  iprop(∃ (gA gB gR : Buf (Elt F) ((sR3).view.loc (thr3 d L))) (g8 : Buf (Elt F) ((sO3).view.loc (thr3 d L))) (W' : Waits sig (HIx 2))
      (pA pB : S80x128.Idx → Elt F .f32),
    owes (thr3 d L) O W' ∗ ((sH3).view.loc (thr3 d L) ↦{fullShare} g6) ∗ ((sO3).view.loc (thr3 d L) ↦{fullShare} g8)
    ∗ Aside ((tabM3).view.loc (thr3 d L) ↦[(tabM3).view.set \ ((tabSlN).view.set : Finset S501760x128.Idx)]{q.left} Tb)
    ∗ Aside ((tabM3).view.loc (thr3 d L) ↦[(tabM3).view.set \ ((tabSlN).view.set : Finset S501760x128.Idx)]{q.right} Tb)
    ∗ flight3 d L Tb g5 cc3_scratch4.sem ((dstAN).view.set : Finset S2x80x128.Idx) ((dstAN).view.write (Elt F) gA pA Finset.univ) (((offsC3 (2 * k) (lt16a hk)).view.set : Finset S1280.Idx)) fullShare.left q.left
    ∗ flight3 d L Tb g5 cc3_scratch5.sem ((dstBN).view.set : Finset S2x80x128.Idx) ((dstBN).view.write (Elt F) gB pB Finset.univ) (((offsC3 (2 * k + 1) (lt16b hk)).view.set : Finset S1280.Idx)) fullShare.right q.right
    ∗ Aside ((sR3).view.loc (thr3 d L) ↦[(Finset.univ \ ((dstAN).view.set : Finset S2x80x128.Idx)) \ ((dstBN).view.set : Finset S2x80x128.Idx)]{fullShare} gR)
    ∗ Aside ((sI3).view.loc (thr3 d L) ↦[Finset.univ \ ((offsC3 (2 * k) (lt16a hk)).view.set : Finset S1280.Idx)]{fullShare.left} g5)
    ∗ Aside ((sI3).view.loc (thr3 d L) ↦[Finset.univ \ ((offsC3 (2 * k + 1) (lt16b hk)).view.set : Finset S1280.Idx)]{fullShare.right} g5)
    ∗ ⌜(∀ p ∈ W', p ∈ W ∨ p.2 = none) ∧ OutOK3 tb ix k ((sO3).view.read (Elt F) g8)
        ∧ pA = gathSpec3 tb ix (2 * k) ∧ pB = gathSpec3 tb ix (2 * k + 1)⌝)

/-- After the last trip: nothing in flight, the block of sums done. -/
def ringDone3 : sProp 𝕄 :=
  iprop(∃ (gR : Buf (Elt F) ((sR3).view.loc (thr3 d L))) (g8 : Buf (Elt F) ((sO3).view.loc (thr3 d L))) (W' : Waits sig (HIx 2)),
    owes (thr3 d L) O W' ∗ ((sH3).view.loc (thr3 d L) ↦{fullShare} g6) ∗ ((sO3).view.loc (thr3 d L) ↦{fullShare} g8)
    ∗ Aside ((tabM3).view.loc (thr3 d L) ↦[(tabM3).view.set \ ((tabSlN).view.set : Finset S501760x128.Idx)]{q.left} Tb)
    ∗ Aside ((tabM3).view.loc (thr3 d L) ↦[(tabM3).view.set \ ((tabSlN).view.set : Finset S501760x128.Idx)]{q.right} Tb)
    ∗ semVal (cellA3 d L) 0 ∗ semVal (cellB3 d L) 0
    ∗ ((sR3).view.loc (thr3 d L) ↦{fullShare} gR) ∗ ((sI3).view.loc (thr3 d L) ↦{fullShare} g5)
    ∗ ((tabM3).view.loc (thr3 d L) ↦[((tabSlN).view.set : Finset S501760x128.Idx)]{q.left} Tb) ∗ ((tabM3).view.loc (thr3 d L) ↦[((tabSlN).view.set : Finset S501760x128.Idx)]{q.right} Tb)
    ∗ ⌜(∀ p ∈ W', p ∈ W ∨ p.2 = none) ∧ OutOK3 tb ix 8 ((sO3).view.read (Elt F) g8)⌝)

/-- The ring loop's invariant. -/
def ringInv3 (k : ℕ) (_ : Unit) : sProp 𝕄 :=
  if h : k < 8 then ringBusy3 d L q Tb tb ix g5 g6 O W k h else ringDone3 d L q Tb tb ix g5 g6 O W

end Cert.Proof.KI

end
-- ==== Proof.KI.Tile3Chunks.lean ====
/-
  The index list of a vector subcore's task cut into its sixteen chunks of 80 words: the chunks the two gathers of
  the next trip name are the chunks `2 (k + 1)` and `2 (k + 1) + 1`, they lie outside the two chunks of trip `k`, and
  the list held in those pieces is the list held whole; likewise the two gather buffers and the rest of the scratch of
  gathered rows.
-/
import proofs.«219250_g10247791969013_week1_w1_750_27_alg».proof.Proof.KI.Tile2Ring
import proofs.«219250_g10247791969013_week1_w1_750_27_alg».proof.Proof.KI.Tile3RingDefs
import Idealize.ShloMosaic.Lib.Exec.Geometry

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The chunks as intervals of positions -/

/-- The 80 words from position `q` of the list: a word belongs to them when its position is in `[q, q + 80)`. -/
theorem mem_chunk3 (off : Fin 1 → ℕ) (inb : ∀ a, off a + S80.size a ≤ S1280.size a) (hs) (q : ℕ) (hoff : off = ![q]) (i : S1280.Idx) :
    i ∈ (((sI3).slice (Rect.unit (s := S1280) off S80.size inb) hs).view.set : Finset S1280.Idx)
      ↔ q ≤ (i 0).val ∧ (i 0).val < q + 80 := by
  subst hoff
  have hset : (((sI3).slice (Rect.unit (s := S1280) ![q] S80.size inb) hs).view.set : Finset S1280.Idx)
      = (Rect.unit (s := S1280) ![q] S80.size inb).set := View.set_slice_whole _ _
  rw [hset, Rect.mem_set_unit]
  constructor
  · intro h
    exact h 0
  · intro h a
    obtain rfl : a = 0 := Subsingleton.elim _ _
    exact h

/-- Chunk `c`. -/
abbrev C3 (c : ℕ) (h : c < 16) : Finset S1280.Idx := ((offsC3 c h).view.set : Finset S1280.Idx)
/-- The chunk the even slot's next gather names. -/
abbrev A3_29 (k : Fin k3_t2_loop.trips) (hc : k3_cond1 k = 1#1) : Finset S1280.Idx :=
  (((sI3).slice (Rect.unit (s := S1280) (k3_off29 k) S80.size (k3_off29_inb k hc)) (fun _ => rfl)).view.set : Finset S1280.Idx)
/-- The chunk the odd slot's next gather names. -/
abbrev B3_55 (k : Fin k3_t2_loop.trips) (hc2 : k3_cond2 k = 1#1) : Finset S1280.Idx :=
  (((sI3).slice (Rect.unit (s := S1280) (k3_off55 k) S80.size (k3_off55_inb k hc2)) (fun _ => rfl)).view.set : Finset S1280.Idx)

theorem mem_C3 (c : ℕ) (h : c < 16) (i : S1280.Idx) : i ∈ C3 c h ↔ 80 * c ≤ (i 0).val ∧ (i 0).val < 80 * c + 80 :=
  mem_chunk3 _ _ _ (80 * c) rfl i
theorem mem_A3_29 (k : Fin k3_t2_loop.trips) (hc : k3_cond1 k = 1#1) (i : S1280.Idx) :
    i ∈ A3_29 k hc ↔ 160 * k.val + 160 ≤ (i 0).val ∧ (i 0).val < 160 * k.val + 160 + 80 :=
  mem_chunk3 _ _ _ (160 * k.val + 160) (k3_off29_eq k) i
theorem mem_B3_55 (k : Fin k3_t2_loop.trips) (hc2 : k3_cond2 k = 1#1) (i : S1280.Idx) :
    i ∈ B3_55 k hc2 ↔ 160 * k.val + 240 ≤ (i 0).val ∧ (i 0).val < 160 * k.val + 240 + 80 :=
  mem_chunk3 _ _ _ (160 * k.val + 240) (k3_off55_eq k) i

/-- The even slot's next chunk lies outside the two chunks of trip `k`. -/
theorem chunkA_sub3 (k : Fin k3_t2_loop.trips) (hc : k3_cond1 k = 1#1) :
    A3_29 k hc ⊆ (Finset.univ \ C3 (2 * k.val) (lt16a k.isLt)) \ C3 (2 * k.val + 1) (lt16b k.isLt) := by
  intro i hi
  rw [mem_A3_29] at hi
  rw [Finset.mem_sdiff, Finset.mem_sdiff, mem_C3, mem_C3]
  exact ⟨⟨Finset.mem_univ _, by omega⟩, by omega⟩

/-- The odd slot's next chunk lies outside those two and outside the even slot's next chunk. -/
theorem chunkB_sub3 (k : Fin k3_t2_loop.trips) (hc : k3_cond1 k = 1#1) (hc2 : k3_cond2 k = 1#1) :
    B3_55 k hc2 ⊆ ((Finset.univ \ C3 (2 * k.val) (lt16a k.isLt)) \ C3 (2 * k.val + 1) (lt16b k.isLt)) \ A3_29 k hc := by
  intro i hi
  rw [mem_B3_55] at hi
  rw [Finset.mem_sdiff, Finset.mem_sdiff, Finset.mem_sdiff, mem_C3, mem_C3, mem_A3_29]
  exact ⟨⟨⟨Finset.mem_univ _, by omega⟩, by omega⟩, by omega⟩

/-- The even slot's next chunk is chunk `2 (k + 1)`. -/
theorem eqA3 (k : Fin k3_t2_loop.trips) (hc : k3_cond1 k = 1#1) (hk7 : k.val + 1 < 8) :
    A3_29 k hc = C3 (2 * (k.val + 1)) (lt16a hk7) := by
  ext i
  rw [mem_A3_29, mem_C3]
  omega

/-- The odd slot's next chunk is chunk `2 (k + 1) + 1`. -/
theorem eqB3 (k : Fin k3_t2_loop.trips) (hc2 : k3_cond2 k = 1#1) (hk7 : k.val + 1 < 8) :
    B3_55 k hc2 = C3 (2 * (k.val + 1) + 1) (lt16b hk7) := by
  ext i
  rw [mem_B3_55, mem_C3]
  omega

/-! ## The list held in pieces is the list held -/

variable (d : Dev nD) (L : grid3.Coords)

/-- The two chunks of trip `k` and the rest of the list less the two chunks named next: the list less those two. -/
theorem chunks_rejoin3 (k : Fin k3_t2_loop.trips) (hc : k3_cond1 k = 1#1) (hc2 : k3_cond2 k = 1#1)
    (g5 : Buf (Elt F) ((sI3).view.loc (thr3 d L))) :
    iprop(((sI3).view.loc (thr3 d L) ↦[C3 (2 * k.val) (lt16a k.isLt)]{fullShare} g5)
        ∗ ((sI3).view.loc (thr3 d L) ↦[C3 (2 * k.val + 1) (lt16b k.isLt)]{fullShare} g5)
        ∗ ((sI3).view.loc (thr3 d L) ↦[(((Finset.univ \ C3 (2 * k.val) (lt16a k.isLt)) \ C3 (2 * k.val + 1) (lt16b k.isLt)) \ A3_29 k hc) \ B3_55 k hc2]{fullShare} g5))
      ⊢ ((sI3).view.loc (thr3 d L) ↦[(Finset.univ \ A3_29 k hc) \ B3_55 k hc2]{fullShare} g5 : sProp 𝕄) := by
  have hd1 : Disjoint (C3 (2 * k.val + 1) (lt16b k.isLt))
      ((((Finset.univ \ C3 (2 * k.val) (lt16a k.isLt)) \ C3 (2 * k.val + 1) (lt16b k.isLt)) \ A3_29 k hc) \ B3_55 k hc2) := by
    refine Finset.disjoint_left.mpr fun i h1 h2 => ?_
    rw [Finset.mem_sdiff, Finset.mem_sdiff, Finset.mem_sdiff] at h2
    exact h2.1.1.2 h1
  have hd0 : Disjoint (C3 (2 * k.val) (lt16a k.isLt))
      (C3 (2 * k.val + 1) (lt16b k.isLt) ∪
        ((((Finset.univ \ C3 (2 * k.val) (lt16a k.isLt)) \ C3 (2 * k.val + 1) (lt16b k.isLt)) \ A3_29 k hc) \ B3_55 k hc2)) := by
    refine Finset.disjoint_left.mpr fun i h1 h2 => ?_
    rcases Finset.mem_union.mp h2 with h2 | h2
    · rw [mem_C3] at h1 h2; omega
    · rw [Finset.mem_sdiff, Finset.mem_sdiff, Finset.mem_sdiff, Finset.mem_sdiff] at h2
      exact h2.1.1.1.2 h1
  have hset : C3 (2 * k.val) (lt16a k.isLt) ∪ (C3 (2 * k.val + 1) (lt16b k.isLt) ∪
        ((((Finset.univ \ C3 (2 * k.val) (lt16a k.isLt)) \ C3 (2 * k.val + 1) (lt16b k.isLt)) \ A3_29 k hc) \ B3_55 k hc2))
      = (Finset.univ \ A3_29 k hc) \ B3_55 k hc2 := by
    ext i
    simp only [Finset.mem_union, Finset.mem_sdiff, Finset.mem_univ, true_and]
    rw [mem_C3, mem_C3, mem_A3_29, mem_B3_55]
    constructor
    · rintro (h | h | h)
      · constructor <;> omega
      · constructor <;> omega
      · exact ⟨h.1.2, h.2⟩
    · intro h
      by_cases h0 : 80 * (2 * k.val) ≤ (i 0).val ∧ (i 0).val < 80 * (2 * k.val) + 80
      · exact .inl h0
      · by_cases h1 : 80 * (2 * k.val + 1) ≤ (i 0).val ∧ (i 0).val < 80 * (2 * k.val + 1) + 80
        · exact .inr (.inl h1)
        · exact .inr (.inr ⟨⟨⟨h0, h1⟩, h.1⟩, h.2⟩)
  refine (sep_mono_right (pointsTo_union hd1).2).trans (((pointsTo_union hd0).2).trans (Entails.of_eq ?_))
  rw [hset]

/-- At the last trip: the two chunks and the rest are the whole list. -/
theorem chunks_rejoin_last3 (k : Fin k3_t2_loop.trips) (g5 : Buf (Elt F) ((sI3).view.loc (thr3 d L))) :
    iprop(((sI3).view.loc (thr3 d L) ↦[C3 (2 * k.val) (lt16a k.isLt)]{fullShare} g5)
        ∗ ((sI3).view.loc (thr3 d L) ↦[C3 (2 * k.val + 1) (lt16b k.isLt)]{fullShare} g5)
        ∗ ((sI3).view.loc (thr3 d L) ↦[(Finset.univ \ C3 (2 * k.val) (lt16a k.isLt)) \ C3 (2 * k.val + 1) (lt16b k.isLt)]{fullShare} g5))
      ⊢ ((sI3).view.loc (thr3 d L) ↦{fullShare} g5 : sProp 𝕄) := by
  have h1 : C3 (2 * k.val + 1) (lt16b k.isLt) ⊆ Finset.univ \ C3 (2 * k.val) (lt16a k.isLt) := by
    intro i hi
    rw [Finset.mem_sdiff]
    refine ⟨Finset.mem_univ _, fun h0 => ?_⟩
    rw [mem_C3] at hi h0
    omega
  exact (sep_mono_right (pointsTo_split_subset h1).2).trans (pointsTo_split_subset (Finset.subset_univ _)).2

/-! ## The two gather buffers and the rest of the scratch -/

omit [FloatOps F] in
/-- An element of the even buffer is in slot 0, one of the odd buffer in slot 1. -/
theorem mem_dstA3 (x : S2x80x128.Idx) (hx : x ∈ ((dstA3).view.set : Finset S2x80x128.Idx)) : (x 0).val = 0 := by
  rw [Memref.set_view_squeeze] at hx
  have hset : (((sR3).slice (Rect.unit (s := S2x80x128) ![0, 0, 0] S1x80x128.size inb_S2x80x128_S1x80x128_0_0_0) (fun _ => rfl)).view.set : Finset S2x80x128.Idx)
      = (Rect.unit (s := S2x80x128) ![0, 0, 0] S1x80x128.size inb_S2x80x128_S1x80x128_0_0_0).set := View.set_slice_whole _ _
  rw [hset, Rect.mem_set_unit] at hx
  have h0 := hx 0
  have e0 : (![0, 0, 0] : Fin 3 → ℕ) 0 = 0 := rfl
  have s0 : S1x80x128.size 0 = 1 := rfl
  rw [e0, s0] at h0
  omega

omit [FloatOps F] in
theorem mem_dstB3 (x : S2x80x128.Idx) (hx : x ∈ ((dstB3).view.set : Finset S2x80x128.Idx)) : (x 0).val = 1 := by
  rw [Memref.set_view_squeeze] at hx
  have hset : (((sR3).slice (Rect.unit (s := S2x80x128) ![1, 0, 0] S1x80x128.size inb_S2x80x128_S1x80x128_1_0_0) (fun _ => rfl)).view.set : Finset S2x80x128.Idx)
      = (Rect.unit (s := S2x80x128) ![1, 0, 0] S1x80x128.size inb_S2x80x128_S1x80x128_1_0_0).set := View.set_slice_whole _ _
  rw [hset, Rect.mem_set_unit] at hx
  have h0 := hx 0
  have e0 : (![1, 0, 0] : Fin 3 → ℕ) 0 = 1 := rfl
  have s0 : S1x80x128.size 0 = 1 := rfl
  rw [e0, s0] at h0
  omega

/-- The two gather buffers and the rest of the scratch are the scratch, whole, at some contents. -/
theorem slots_rejoin3 (fA fB fR : Buf (Elt F) ((sR3).view.loc (thr3 d L))) :
    iprop(((sR3).view.loc (thr3 d L) ↦[(dstA3).view.set]{fullShare} fA) ∗ ((sR3).view.loc (thr3 d L) ↦[(dstB3).view.set]{fullShare} fB)
        ∗ ((sR3).view.loc (thr3 d L) ↦[(Finset.univ \ (dstA3).view.set) \ (dstB3).view.set]{fullShare} fR))
      ⊢ (∃ f, (sR3).view.loc (thr3 d L) ↦{fullShare} f : sProp 𝕄) := by
  have hB : ((dstB3).view.set : Finset S2x80x128.Idx) ⊆ Finset.univ \ ((dstA3).view.set : Finset S2x80x128.Idx) := by
    intro x hx
    rw [Finset.mem_sdiff]
    refine ⟨Finset.mem_univ _, fun hA => ?_⟩
    have h0 := mem_dstA3 x hA
    have h1 := mem_dstB3 x hx
    omega
  refine (sep_mono_right (pointsTo_join_subset hB)).trans ((pointsTo_join_subset (Finset.subset_univ _)).trans ?_)
  iintro H
  iexists _
  iexact H

end Cert.Proof.KI

end
-- ==== Proof.KI.Tile3Chunks2.lean ====
/-
  The two gather buffers of a vector subcore's task share no element.
-/
import proofs.«219250_g10247791969013_week1_w1_750_27_alg».proof.Proof.KI.Tile3Chunks

noncomputable section

namespace Cert.Proof.KI

open Cert.KernelIdeal Cert.KernelIdeal.Gen

open Idealize.ShloMosaic

/-- The even buffer's elements lie outside the odd buffer. -/
theorem disjAB3 : ((dstA3).view.set : Finset S2x80x128.Idx) ⊆ Finset.univ \ ((dstB3).view.set : Finset S2x80x128.Idx) := by
  intro x hx
  rw [Finset.mem_sdiff]
  refine ⟨Finset.mem_univ _, fun hB => ?_⟩
  have h0 := mem_dstA3 x hx
  have h1 := mem_dstB3 x hB
  omega

/-- The odd buffer's elements lie outside the even buffer. -/
theorem disjBA3 : ((dstB3).view.set : Finset S2x80x128.Idx) ⊆ Finset.univ \ ((dstA3).view.set : Finset S2x80x128.Idx) := by
  intro x hx
  rw [Finset.mem_sdiff]
  refine ⟨Finset.mem_univ _, fun hA => ?_⟩
  have h0 := mem_dstA3 x hA
  have h1 := mem_dstB3 x hx
  omega

end Cert.Proof.KI

end
-- ==== Proof.KI.Tile3Blocks.lean ====
/-
  A covered element of a block of four stores of the second embedding-sum call reads the task's entry there.
-/
import proofs.«219250_g10247791969013_week1_w1_750_27_alg».proof.Proof.KI.Tile2Blocks
import proofs.«219250_g10247791969013_week1_w1_750_27_alg».proof.Proof.KI.Tile3Facts

noncomputable section

namespace Cert.Proof.KI

open Cert.KernelIdeal Cert.KernelIdeal.Gen

open Idealize.ShloMosaic
open Idealize.ShloMosaic.ValueIdx

variable {F : FTy → Type} [FloatOps F]

/-- A covered element of the block of batch row `bi` of chunk `chunk` reads the task's entry there, when the block's
    accumulators are the left folds over the chunk's gathered rows. -/
theorem blk_value3 (tb : S501760x128.Idx → Elt F .f32) (ix : S1280.Idx → Elt F .i32) (R : (SR 80).Idx → F .f32) (H : (SH 1296).Idx → BitVec 32)
    (slot chunk bi p₀ : ℕ) (hslot : slot < 2) (hchunk : chunk < 16) (hbi : bi < 8) (hp₀ : p₀ = 80 * chunk + 10 * bi)
    (hR : ∀ r c, r < 80 → c < 128 → at3 R slot r c = tbAt3 tb (gRow3 ix (80 * chunk + r)) c)
    (hH : ∀ p, p < 1280 → at1 H p = BitVec.ofNat 32 (p % 10 % 2 * 64))
    (b : Blk F) (hrow : b.row = 4 * chunk + bi / 2) (hc0 : b.c0 = bi % 2 * 64) (ha : b.a = accAt R H slot (10 * bi) p₀ 10)
    (x : S64x128.Idx) (hx : b.covers x) : b.at x = OUT3 tb ix x := by
  obtain ⟨h0, h1, h2⟩ := hx
  unfold Blk.at
  rw [ha, acc_value3 tb ix R H slot chunk bi p₀ hslot hchunk hbi hp₀ hR hH (((x 1).val - b.c0) / 16) (by omega)
    (ix1 (⟨((x 1).val - b.c0) % 16, Nat.mod_lt _ (by decide)⟩ : Fin 16))]
  congr 1
  funext a
  match a with
  | ⟨0, _⟩ => exact Fin.ext (show 4 * chunk + bi / 2 = (x 0).val by omega)
  | ⟨1, _⟩ => exact Fin.ext (show bi % 2 * 64 + 16 * (((x 1).val - b.c0) / 16) + ((x 1).val - b.c0) % 16 = (x 1).val by omega)

end Cert.Proof.KI

end
-- ==== Proof.KI.Tile3OutStep.lean ====
/-
  One trip of the ring completes eight more rows of the block of sums: if before the trip the block is done below row
  `8 k`, the trip's blocks of stores touch only rows `8 k … 8 k + 7`, cover each of their elements, and store the
  task's entries, then after the trip the block is done below row `8 (k + 1)`.
-/
import proofs.«219250_g10247791969013_week1_w1_750_27_alg».proof.Proof.KI.Tile3Blocks
import proofs.«219250_g10247791969013_week1_w1_750_27_alg».proof.Proof.KI.Tile3RingDefs

noncomputable section

namespace Cert.Proof.KI

open Cert.KernelIdeal Cert.KernelIdeal.Gen

open Idealize.ShloMosaic
open Idealize.ShloMosaic.ValueIdx

variable {F : FTy → Type} [FloatOps F]

theorem outOK_step3 {κ : Kind} {sp : Space} (v : View sig κ sp S64x128 .f32) (g : v.ty.Contents (Elt F))
    (tb : S501760x128.Idx → Elt F .f32) (ix : S1280.Idx → Elt F .i32) (k : ℕ)
    (hsc : SL16.ShapeCasts S1x16) (bs : List (Blk F))
    (hprev : OutOK3 tb ix k (v.read (Elt F) g))
    (hrows : ∀ b ∈ bs, 8 * k ≤ b.row)
    (hcover : ∀ x : S64x128.Idx, 8 * k ≤ (x 0).val → (x 0).val < 8 * (k + 1) → ∃ b ∈ bs, b.covers x)
    (hval : ∀ b ∈ bs, ∀ x : S64x128.Idx, b.covers x → b.at x = OUT3 tb ix x) :
    OutOK3 tb ix (k + 1) (v.read (Elt F) (v.writes (Elt F) g (blkPieces hsc bs))) := by
  intro x hx
  by_cases hlow : (x 0).val < 8 * k
  · rw [read_blks_uncovered v g hsc x bs (fun b hb hc => by
      have h1 := hrows b hb
      have h2 : (x 0).val = b.row := hc.1
      omega)]
    exact hprev x hlow
  · exact read_blks_covered v g hsc x _ bs (hcover x (by omega) hx) (fun b hb hc => hval b hb x hc)

end Cert.Proof.KI

end
-- ==== Proof.KI.Tile3TripOut.lean ====
/-
  The block of sums after one whole trip of the ring: the sixty-four 16-lane stores of the trip (sixteen accumulate
  loops, four stores each, the last listed first) complete rows `8 k … 8 k + 7`, given that before the trip the block
  was done below row `8 k`, that the two gather buffers hold the rows the list names for chunks `2 k` and `2 k + 1`,
  that the lane offsets are in place, and that each loop's accumulators are its left folds.
-/
import proofs.«219250_g10247791969013_week1_w1_750_27_alg».proof.Proof.KI.Tile3Facts2
import proofs.«219250_g10247791969013_week1_w1_750_27_alg».proof.Proof.Gen.KernelIdeal.Skeleton
import proofs.«219250_g10247791969013_week1_w1_750_27_alg».proof.Proof.KI.Tile3OutStep

set_option maxRecDepth 65536

noncomputable section

namespace Cert.Proof.KI

open Cert.KernelIdeal Cert.KernelIdeal.Gen

open Idealize.ShloMosaic
open Idealize.ShloMosaic.ValueIdx

variable {F : FTy → Type} [FloatOps F]

set_option maxHeartbeats 4000000 in
theorem trip_out3 (k : Fin k3_t2_loop.trips) (tb : S501760x128.Idx → Elt F .f32) (ix : S1280.Idx → Elt F .i32)
    (g8 : (sO3).view.ty.Contents (Elt F)) (gA gB : (sR3).view.ty.Contents (Elt F)) (pA pB : S80x128.Idx → Elt F .f32)
    (g6 : (sH3).view.ty.Contents (Elt F)) (acc3 acc4 acc5 acc6 acc7 acc8 acc9 acc10 acc11 acc12 acc13 acc14 acc15 acc16 acc17 acc18 : Acc4 F)
    (hprev : OutOK3 tb ix k.val ((sO3).view.read (Elt F) g8))
    (hpA : pA = gathSpec3 tb ix (2 * k.val)) (hpB : pB = gathSpec3 tb ix (2 * k.val + 1))
    (hg6 : ZI6 ((sH3).view.read (Elt F) g6) 80)
    (hacc3 : acc3 = accAt ((sR3).view.read (Elt F) ((dstA3).view.write (Elt F) gA pA Finset.univ)) ((sH3).view.read (Elt F) g6) 0 0 (160 * k.val + 0) (Scf.trips k3_t3_loop.lb k3_t3_loop.ub k3_t3_loop.st))
    (hacc4 : acc4 = accAt ((sR3).view.read (Elt F) ((dstA3).view.write (Elt F) gA pA Finset.univ)) ((sH3).view.read (Elt F) g6) 0 10 (160 * k.val + 10) (Scf.trips k3_t4_loop.lb k3_t4_loop.ub k3_t4_loop.st))
    (hacc5 : acc5 = accAt ((sR3).view.read (Elt F) ((dstA3).view.write (Elt F) gA pA Finset.univ)) ((sH3).view.read (Elt F) g6) 0 20 (160 * k.val + 20) (Scf.trips k3_t5_loop.lb k3_t5_loop.ub k3_t5_loop.st))
    (hacc6 : acc6 = accAt ((sR3).view.read (Elt F) ((dstA3).view.write (Elt F) gA pA Finset.univ)) ((sH3).view.read (Elt F) g6) 0 30 (160 * k.val + 30) (Scf.trips k3_t6_loop.lb k3_t6_loop.ub k3_t6_loop.st))
    (hacc7 : acc7 = accAt ((sR3).view.read (Elt F) ((dstA3).view.write (Elt F) gA pA Finset.univ)) ((sH3).view.read (Elt F) g6) 0 40 (160 * k.val + 40) (Scf.trips k3_t7_loop.lb k3_t7_loop.ub k3_t7_loop.st))
    (hacc8 : acc8 = accAt ((sR3).view.read (Elt F) ((dstA3).view.write (Elt F) gA pA Finset.univ)) ((sH3).view.read (Elt F) g6) 0 50 (160 * k.val + 50) (Scf.trips k3_t8_loop.lb k3_t8_loop.ub k3_t8_loop.st))
    (hacc9 : acc9 = accAt ((sR3).view.read (Elt F) ((dstA3).view.write (Elt F) gA pA Finset.univ)) ((sH3).view.read (Elt F) g6) 0 60 (160 * k.val + 60) (Scf.trips k3_t9_loop.lb k3_t9_loop.ub k3_t9_loop.st))
    (hacc10 : acc10 = accAt ((sR3).view.read (Elt F) ((dstA3).view.write (Elt F) gA pA Finset.univ)) ((sH3).view.read (Elt F) g6) 0 70 (160 * k.val + 70) (Scf.trips k3_t10_loop.lb k3_t10_loop.ub k3_t10_loop.st))
    (hacc11 : acc11 = accAt ((sR3).view.read (Elt F) ((dstB3).view.write (Elt F) gB pB Finset.univ)) ((sH3).view.read (Elt F) g6) 1 0 (160 * k.val + 80) (Scf.trips k3_t11_loop.lb k3_t11_loop.ub k3_t11_loop.st))
    (hacc12 : acc12 = accAt ((sR3).view.read (Elt F) ((dstB3).view.write (Elt F) gB pB Finset.univ)) ((sH3).view.read (Elt F) g6) 1 10 (160 * k.val + 90) (Scf.trips k3_t12_loop.lb k3_t12_loop.ub k3_t12_loop.st))
    (hacc13 : acc13 = accAt ((sR3).view.read (Elt F) ((dstB3).view.write (Elt F) gB pB Finset.univ)) ((sH3).view.read (Elt F) g6) 1 20 (160 * k.val + 100) (Scf.trips k3_t13_loop.lb k3_t13_loop.ub k3_t13_loop.st))
    (hacc14 : acc14 = accAt ((sR3).view.read (Elt F) ((dstB3).view.write (Elt F) gB pB Finset.univ)) ((sH3).view.read (Elt F) g6) 1 30 (160 * k.val + 110) (Scf.trips k3_t14_loop.lb k3_t14_loop.ub k3_t14_loop.st))
    (hacc15 : acc15 = accAt ((sR3).view.read (Elt F) ((dstB3).view.write (Elt F) gB pB Finset.univ)) ((sH3).view.read (Elt F) g6) 1 40 (160 * k.val + 120) (Scf.trips k3_t15_loop.lb k3_t15_loop.ub k3_t15_loop.st))
    (hacc16 : acc16 = accAt ((sR3).view.read (Elt F) ((dstB3).view.write (Elt F) gB pB Finset.univ)) ((sH3).view.read (Elt F) g6) 1 50 (160 * k.val + 130) (Scf.trips k3_t16_loop.lb k3_t16_loop.ub k3_t16_loop.st))
    (hacc17 : acc17 = accAt ((sR3).view.read (Elt F) ((dstB3).view.write (Elt F) gB pB Finset.univ)) ((sH3).view.read (Elt F) g6) 1 60 (160 * k.val + 140) (Scf.trips k3_t17_loop.lb k3_t17_loop.ub k3_t17_loop.st))
    (hacc18 : acc18 = accAt ((sR3).view.read (Elt F) ((dstB3).view.write (Elt F) gB pB Finset.univ)) ((sH3).view.read (Elt F) g6) 1 70 (160 * k.val + 150) (Scf.trips k3_t18_loop.lb k3_t18_loop.ub k3_t18_loop.st)) :
    OutOK3 tb ix (k.val + 1) ((sO3).view.read (Elt F) ((sO3).view.writes (Elt F) g8
      ([⟨Rect.unit (s := S64x128) (k3_off42 k 3#32) S1x16.size (k3_off42_inb k 3), k3_pay208 acc18.2.2.2⟩,
        ⟨Rect.unit (s := S64x128) (k3_off41 k 3#32) S1x16.size (k3_off41_inb k 3), k3_pay207 acc18.2.2.1⟩,
        ⟨Rect.unit (s := S64x128) (k3_off40 k 3#32) S1x16.size (k3_off40_inb k 3), k3_pay206 acc18.2.1⟩,
        ⟨Rect.unit (s := S64x128) (k3_off39 k 3#32) S1x16.size (k3_off39_inb k 3), k3_pay205 acc18.1⟩,
        ⟨Rect.unit (s := S64x128) (k3_off36 k 3#32) S1x16.size (k3_off36_inb k 3), k3_pay195 acc17.2.2.2⟩,
        ⟨Rect.unit (s := S64x128) (k3_off35 k 3#32) S1x16.size (k3_off35_inb k 3), k3_pay194 acc17.2.2.1⟩,
        ⟨Rect.unit (s := S64x128) (k3_off34 k 3#32) S1x16.size (k3_off34_inb k 3), k3_pay193 acc17.2.1⟩,
        ⟨Rect.unit (s := S64x128) (k3_off33 k 3#32) S1x16.size (k3_off33_inb k 3), k3_pay192 acc17.1⟩,
        ⟨Rect.unit (s := S64x128) (k3_off42 k 2#32) S1x16.size (k3_off42_inb k 2), k3_pay182 acc16.2.2.2⟩,
        ⟨Rect.unit (s := S64x128) (k3_off41 k 2#32) S1x16.size (k3_off41_inb k 2), k3_pay181 acc16.2.2.1⟩,
        ⟨Rect.unit (s := S64x128) (k3_off40 k 2#32) S1x16.size (k3_off40_inb k 2), k3_pay180 acc16.2.1⟩,
        ⟨Rect.unit (s := S64x128) (k3_off39 k 2#32) S1x16.size (k3_off39_inb k 2), k3_pay179 acc16.1⟩,
        ⟨Rect.unit (s := S64x128) (k3_off36 k 2#32) S1x16.size (k3_off36_inb k 2), k3_pay169 acc15.2.2.2⟩,
        ⟨Rect.unit (s := S64x128) (k3_off35 k 2#32) S1x16.size (k3_off35_inb k 2), k3_pay168 acc15.2.2.1⟩,
        ⟨Rect.unit (s := S64x128) (k3_off34 k 2#32) S1x16.size (k3_off34_inb k 2), k3_pay167 acc15.2.1⟩,
        ⟨Rect.unit (s := S64x128) (k3_off33 k 2#32) S1x16.size (k3_off33_inb k 2), k3_pay166 acc15.1⟩,
        ⟨Rect.unit (s := S64x128) (k3_off42 k 1#32) S1x16.size (k3_off42_inb k 1), k3_pay156 acc14.2.2.2⟩,
        ⟨Rect.unit (s := S64x128) (k3_off41 k 1#32) S1x16.size (k3_off41_inb k 1), k3_pay155 acc14.2.2.1⟩,
        ⟨Rect.unit (s := S64x128) (k3_off40 k 1#32) S1x16.size (k3_off40_inb k 1), k3_pay154 acc14.2.1⟩,
        ⟨Rect.unit (s := S64x128) (k3_off39 k 1#32) S1x16.size (k3_off39_inb k 1), k3_pay153 acc14.1⟩,
        ⟨Rect.unit (s := S64x128) (k3_off36 k 1#32) S1x16.size (k3_off36_inb k 1), k3_pay143 acc13.2.2.2⟩,
        ⟨Rect.unit (s := S64x128) (k3_off35 k 1#32) S1x16.size (k3_off35_inb k 1), k3_pay142 acc13.2.2.1⟩,
        ⟨Rect.unit (s := S64x128) (k3_off34 k 1#32) S1x16.size (k3_off34_inb k 1), k3_pay141 acc13.2.1⟩,
        ⟨Rect.unit (s := S64x128) (k3_off33 k 1#32) S1x16.size (k3_off33_inb k 1), k3_pay140 acc13.1⟩,
        ⟨Rect.unit (s := S64x128) (k3_off42 k 0#32) S1x16.size (k3_off42_inb k 0), k3_pay130 acc12.2.2.2⟩,
        ⟨Rect.unit (s := S64x128) (k3_off41 k 0#32) S1x16.size (k3_off41_inb k 0), k3_pay129 acc12.2.2.1⟩,
        ⟨Rect.unit (s := S64x128) (k3_off40 k 0#32) S1x16.size (k3_off40_inb k 0), k3_pay128 acc12.2.1⟩,
        ⟨Rect.unit (s := S64x128) (k3_off39 k 0#32) S1x16.size (k3_off39_inb k 0), k3_pay127 acc12.1⟩,
        ⟨Rect.unit (s := S64x128) (k3_off36 k 0#32) S1x16.size (k3_off36_inb k 0), k3_pay117 acc11.2.2.2⟩,
        ⟨Rect.unit (s := S64x128) (k3_off35 k 0#32) S1x16.size (k3_off35_inb k 0), k3_pay116 acc11.2.2.1⟩,
        ⟨Rect.unit (s := S64x128) (k3_off34 k 0#32) S1x16.size (k3_off34_inb k 0), k3_pay115 acc11.2.1⟩,
        ⟨Rect.unit (s := S64x128) (k3_off33 k 0#32) S1x16.size (k3_off33_inb k 0), k3_pay114 acc11.1⟩,
        ⟨Rect.unit (s := S64x128) (k3_off16 k 3#32) S1x16.size (k3_off16_inb k 3), k3_pay104 acc10.2.2.2⟩,
        ⟨Rect.unit (s := S64x128) (k3_off15 k 3#32) S1x16.size (k3_off15_inb k 3), k3_pay103 acc10.2.2.1⟩,
        ⟨Rect.unit (s := S64x128) (k3_off14 k 3#32) S1x16.size (k3_off14_inb k 3), k3_pay102 acc10.2.1⟩,
        ⟨Rect.unit (s := S64x128) (k3_off13 k 3#32) S1x16.size (k3_off13_inb k 3), k3_pay101 acc10.1⟩,
        ⟨Rect.unit (s := S64x128) (k3_off10 k 3#32) S1x16.size (k3_off10_inb k 3), k3_pay91 acc9.2.2.2⟩,
        ⟨Rect.unit (s := S64x128) (k3_off9 k 3#32) S1x16.size (k3_off9_inb k 3), k3_pay90 acc9.2.2.1⟩,
        ⟨Rect.unit (s := S64x128) (k3_off8 k 3#32) S1x16.size (k3_off8_inb k 3), k3_pay89 acc9.2.1⟩,
        ⟨Rect.unit (s := S64x128) (k3_off7 k 3#32) S1x16.size (k3_off7_inb k 3), k3_pay88 acc9.1⟩,
        ⟨Rect.unit (s := S64x128) (k3_off16 k 2#32) S1x16.size (k3_off16_inb k 2), k3_pay78 acc8.2.2.2⟩,
        ⟨Rect.unit (s := S64x128) (k3_off15 k 2#32) S1x16.size (k3_off15_inb k 2), k3_pay77 acc8.2.2.1⟩,
        ⟨Rect.unit (s := S64x128) (k3_off14 k 2#32) S1x16.size (k3_off14_inb k 2), k3_pay76 acc8.2.1⟩,
        ⟨Rect.unit (s := S64x128) (k3_off13 k 2#32) S1x16.size (k3_off13_inb k 2), k3_pay75 acc8.1⟩,
        ⟨Rect.unit (s := S64x128) (k3_off10 k 2#32) S1x16.size (k3_off10_inb k 2), k3_pay65 acc7.2.2.2⟩,
        ⟨Rect.unit (s := S64x128) (k3_off9 k 2#32) S1x16.size (k3_off9_inb k 2), k3_pay64 acc7.2.2.1⟩,
        ⟨Rect.unit (s := S64x128) (k3_off8 k 2#32) S1x16.size (k3_off8_inb k 2), k3_pay63 acc7.2.1⟩,
        ⟨Rect.unit (s := S64x128) (k3_off7 k 2#32) S1x16.size (k3_off7_inb k 2), k3_pay62 acc7.1⟩,
        ⟨Rect.unit (s := S64x128) (k3_off16 k 1#32) S1x16.size (k3_off16_inb k 1), k3_pay52 acc6.2.2.2⟩,
        ⟨Rect.unit (s := S64x128) (k3_off15 k 1#32) S1x16.size (k3_off15_inb k 1), k3_pay51 acc6.2.2.1⟩,
        ⟨Rect.unit (s := S64x128) (k3_off14 k 1#32) S1x16.size (k3_off14_inb k 1), k3_pay50 acc6.2.1⟩,
        ⟨Rect.unit (s := S64x128) (k3_off13 k 1#32) S1x16.size (k3_off13_inb k 1), k3_pay49 acc6.1⟩,
        ⟨Rect.unit (s := S64x128) (k3_off10 k 1#32) S1x16.size (k3_off10_inb k 1), k3_pay39 acc5.2.2.2⟩,
        ⟨Rect.unit (s := S64x128) (k3_off9 k 1#32) S1x16.size (k3_off9_inb k 1), k3_pay38 acc5.2.2.1⟩,
        ⟨Rect.unit (s := S64x128) (k3_off8 k 1#32) S1x16.size (k3_off8_inb k 1), k3_pay37 acc5.2.1⟩,
        ⟨Rect.unit (s := S64x128) (k3_off7 k 1#32) S1x16.size (k3_off7_inb k 1), k3_pay36 acc5.1⟩,
        ⟨Rect.unit (s := S64x128) (k3_off16 k 0#32) S1x16.size (k3_off16_inb k 0), k3_pay26 acc4.2.2.2⟩,
        ⟨Rect.unit (s := S64x128) (k3_off15 k 0#32) S1x16.size (k3_off15_inb k 0), k3_pay25 acc4.2.2.1⟩,
        ⟨Rect.unit (s := S64x128) (k3_off14 k 0#32) S1x16.size (k3_off14_inb k 0), k3_pay24 acc4.2.1⟩,
        ⟨Rect.unit (s := S64x128) (k3_off13 k 0#32) S1x16.size (k3_off13_inb k 0), k3_pay23 acc4.1⟩,
        ⟨Rect.unit (s := S64x128) (k3_off10 k 0#32) S1x16.size (k3_off10_inb k 0), k3_pay13 acc3.2.2.2⟩,
        ⟨Rect.unit (s := S64x128) (k3_off9 k 0#32) S1x16.size (k3_off9_inb k 0), k3_pay12 acc3.2.2.1⟩,
        ⟨Rect.unit (s := S64x128) (k3_off8 k 0#32) S1x16.size (k3_off8_inb k 0), k3_pay11 acc3.2.1⟩,
        ⟨Rect.unit (s := S64x128) (k3_off7 k 0#32) S1x16.size (k3_off7_inb k 0), k3_pay10 acc3.1⟩] : List (View.Piece (Elt F) S64x128 .f32)))) := by
  have hk : k.val < 8 := k.isLt
  have hH : ∀ p, p < 1280 → at1 ((sH3).view.read (Elt F) g6) p = BitVec.ofNat 32 (p % 10 % 2 * 64) :=
    fun p hp => half_val3 _ hg6 p hp
  have hRA : ∀ r c, r < 80 → c < 128 →
      at3 ((sR3).view.read (Elt F) ((dstA3).view.write (Elt F) gA pA Finset.univ)) 0 r c = tbAt3 tb (gRow3 ix (80 * (2 * k.val) + r)) c := by
    intro r c hr hc
    rw [read_slotA3 gA pA r c hr hc, hpA]
    rfl
  have hRB : ∀ r c, r < 80 → c < 128 →
      at3 ((sR3).view.read (Elt F) ((dstB3).view.write (Elt F) gB pB Finset.univ)) 1 r c = tbAt3 tb (gRow3 ix (80 * (2 * k.val + 1) + r)) c := by
    intro r c hr hc
    rw [read_slotB3 gB pB r c hr hc, hpB]
    rfl
  let b3 : Blk F := { row := 8 * k.val + 0, c0 := 0, a := acc3, o0 := k3_off7 k 0#32, o1 := k3_off8 k 0#32, o2 := k3_off9 k 0#32, o3 := k3_off10 k 0#32, i0 := k3_off7_inb k 0, i1 := k3_off8_inb k 0, i2 := k3_off9_inb k 0, i3 := k3_off10_inb k 0, h0 := k3_off7_eq k 0, h1 := k3_off8_eq k 0, h2 := k3_off9_eq k 0, h3 := k3_off10_eq k 0 }
  let b4 : Blk F := { row := 8 * k.val + 0, c0 := 64, a := acc4, o0 := k3_off13 k 0#32, o1 := k3_off14 k 0#32, o2 := k3_off15 k 0#32, o3 := k3_off16 k 0#32, i0 := k3_off13_inb k 0, i1 := k3_off14_inb k 0, i2 := k3_off15_inb k 0, i3 := k3_off16_inb k 0, h0 := k3_off13_eq k 0, h1 := k3_off14_eq k 0, h2 := k3_off15_eq k 0, h3 := k3_off16_eq k 0 }
  let b5 : Blk F := { row := 8 * k.val + 1, c0 := 0, a := acc5, o0 := k3_off7 k 1#32, o1 := k3_off8 k 1#32, o2 := k3_off9 k 1#32, o3 := k3_off10 k 1#32, i0 := k3_off7_inb k 1, i1 := k3_off8_inb k 1, i2 := k3_off9_inb k 1, i3 := k3_off10_inb k 1, h0 := k3_off7_eq k 1, h1 := k3_off8_eq k 1, h2 := k3_off9_eq k 1, h3 := k3_off10_eq k 1 }
  let b6 : Blk F := { row := 8 * k.val + 1, c0 := 64, a := acc6, o0 := k3_off13 k 1#32, o1 := k3_off14 k 1#32, o2 := k3_off15 k 1#32, o3 := k3_off16 k 1#32, i0 := k3_off13_inb k 1, i1 := k3_off14_inb k 1, i2 := k3_off15_inb k 1, i3 := k3_off16_inb k 1, h0 := k3_off13_eq k 1, h1 := k3_off14_eq k 1, h2 := k3_off15_eq k 1, h3 := k3_off16_eq k 1 }
  let b7 : Blk F := { row := 8 * k.val + 2, c0 := 0, a := acc7, o0 := k3_off7 k 2#32, o1 := k3_off8 k 2#32, o2 := k3_off9 k 2#32, o3 := k3_off10 k 2#32, i0 := k3_off7_inb k 2, i1 := k3_off8_inb k 2, i2 := k3_off9_inb k 2, i3 := k3_off10_inb k 2, h0 := k3_off7_eq k 2, h1 := k3_off8_eq k 2, h2 := k3_off9_eq k 2, h3 := k3_off10_eq k 2 }
  let b8 : Blk F := { row := 8 * k.val + 2, c0 := 64, a := acc8, o0 := k3_off13 k 2#32, o1 := k3_off14 k 2#32, o2 := k3_off15 k 2#32, o3 := k3_off16 k 2#32, i0 := k3_off13_inb k 2, i1 := k3_off14_inb k 2, i2 := k3_off15_inb k 2, i3 := k3_off16_inb k 2, h0 := k3_off13_eq k 2, h1 := k3_off14_eq k 2, h2 := k3_off15_eq k 2, h3 := k3_off16_eq k 2 }
  let b9 : Blk F := { row := 8 * k.val + 3, c0 := 0, a := acc9, o0 := k3_off7 k 3#32, o1 := k3_off8 k 3#32, o2 := k3_off9 k 3#32, o3 := k3_off10 k 3#32, i0 := k3_off7_inb k 3, i1 := k3_off8_inb k 3, i2 := k3_off9_inb k 3, i3 := k3_off10_inb k 3, h0 := k3_off7_eq k 3, h1 := k3_off8_eq k 3, h2 := k3_off9_eq k 3, h3 := k3_off10_eq k 3 }
  let b10 : Blk F := { row := 8 * k.val + 3, c0 := 64, a := acc10, o0 := k3_off13 k 3#32, o1 := k3_off14 k 3#32, o2 := k3_off15 k 3#32, o3 := k3_off16 k 3#32, i0 := k3_off13_inb k 3, i1 := k3_off14_inb k 3, i2 := k3_off15_inb k 3, i3 := k3_off16_inb k 3, h0 := k3_off13_eq k 3, h1 := k3_off14_eq k 3, h2 := k3_off15_eq k 3, h3 := k3_off16_eq k 3 }
  let b11 : Blk F := { row := 8 * k.val + 0 + 4, c0 := 0, a := acc11, o0 := k3_off33 k 0#32, o1 := k3_off34 k 0#32, o2 := k3_off35 k 0#32, o3 := k3_off36 k 0#32, i0 := k3_off33_inb k 0, i1 := k3_off34_inb k 0, i2 := k3_off35_inb k 0, i3 := k3_off36_inb k 0, h0 := k3_off33_eq k 0, h1 := k3_off34_eq k 0, h2 := k3_off35_eq k 0, h3 := k3_off36_eq k 0 }
  let b12 : Blk F := { row := 8 * k.val + 0 + 4, c0 := 64, a := acc12, o0 := k3_off39 k 0#32, o1 := k3_off40 k 0#32, o2 := k3_off41 k 0#32, o3 := k3_off42 k 0#32, i0 := k3_off39_inb k 0, i1 := k3_off40_inb k 0, i2 := k3_off41_inb k 0, i3 := k3_off42_inb k 0, h0 := k3_off39_eq k 0, h1 := k3_off40_eq k 0, h2 := k3_off41_eq k 0, h3 := k3_off42_eq k 0 }
  let b13 : Blk F := { row := 8 * k.val + 1 + 4, c0 := 0, a := acc13, o0 := k3_off33 k 1#32, o1 := k3_off34 k 1#32, o2 := k3_off35 k 1#32, o3 := k3_off36 k 1#32, i0 := k3_off33_inb k 1, i1 := k3_off34_inb k 1, i2 := k3_off35_inb k 1, i3 := k3_off36_inb k 1, h0 := k3_off33_eq k 1, h1 := k3_off34_eq k 1, h2 := k3_off35_eq k 1, h3 := k3_off36_eq k 1 }
  let b14 : Blk F := { row := 8 * k.val + 1 + 4, c0 := 64, a := acc14, o0 := k3_off39 k 1#32, o1 := k3_off40 k 1#32, o2 := k3_off41 k 1#32, o3 := k3_off42 k 1#32, i0 := k3_off39_inb k 1, i1 := k3_off40_inb k 1, i2 := k3_off41_inb k 1, i3 := k3_off42_inb k 1, h0 := k3_off39_eq k 1, h1 := k3_off40_eq k 1, h2 := k3_off41_eq k 1, h3 := k3_off42_eq k 1 }
  let b15 : Blk F := { row := 8 * k.val + 2 + 4, c0 := 0, a := acc15, o0 := k3_off33 k 2#32, o1 := k3_off34 k 2#32, o2 := k3_off35 k 2#32, o3 := k3_off36 k 2#32, i0 := k3_off33_inb k 2, i1 := k3_off34_inb k 2, i2 := k3_off35_inb k 2, i3 := k3_off36_inb k 2, h0 := k3_off33_eq k 2, h1 := k3_off34_eq k 2, h2 := k3_off35_eq k 2, h3 := k3_off36_eq k 2 }
  let b16 : Blk F := { row := 8 * k.val + 2 + 4, c0 := 64, a := acc16, o0 := k3_off39 k 2#32, o1 := k3_off40 k 2#32, o2 := k3_off41 k 2#32, o3 := k3_off42 k 2#32, i0 := k3_off39_inb k 2, i1 := k3_off40_inb k 2, i2 := k3_off41_inb k 2, i3 := k3_off42_inb k 2, h0 := k3_off39_eq k 2, h1 := k3_off40_eq k 2, h2 := k3_off41_eq k 2, h3 := k3_off42_eq k 2 }
  let b17 : Blk F := { row := 8 * k.val + 3 + 4, c0 := 0, a := acc17, o0 := k3_off33 k 3#32, o1 := k3_off34 k 3#32, o2 := k3_off35 k 3#32, o3 := k3_off36 k 3#32, i0 := k3_off33_inb k 3, i1 := k3_off34_inb k 3, i2 := k3_off35_inb k 3, i3 := k3_off36_inb k 3, h0 := k3_off33_eq k 3, h1 := k3_off34_eq k 3, h2 := k3_off35_eq k 3, h3 := k3_off36_eq k 3 }
  let b18 : Blk F := { row := 8 * k.val + 3 + 4, c0 := 64, a := acc18, o0 := k3_off39 k 3#32, o1 := k3_off40 k 3#32, o2 := k3_off41 k 3#32, o3 := k3_off42 k 3#32, i0 := k3_off39_inb k 3, i1 := k3_off40_inb k 3, i2 := k3_off41_inb k 3, i3 := k3_off42_inb k 3, h0 := k3_off39_eq k 3, h1 := k3_off40_eq k 3, h2 := k3_off41_eq k 3, h3 := k3_off42_eq k 3 }
  have hlist : ([⟨Rect.unit (s := S64x128) (k3_off42 k 3#32) S1x16.size (k3_off42_inb k 3), k3_pay208 acc18.2.2.2⟩,
        ⟨Rect.unit (s := S64x128) (k3_off41 k 3#32) S1x16.size (k3_off41_inb k 3), k3_pay207 acc18.2.2.1⟩,
        ⟨Rect.unit (s := S64x128) (k3_off40 k 3#32) S1x16.size (k3_off40_inb k 3), k3_pay206 acc18.2.1⟩,
        ⟨Rect.unit (s := S64x128) (k3_off39 k 3#32) S1x16.size (k3_off39_inb k 3), k3_pay205 acc18.1⟩,
        ⟨Rect.unit (s := S64x128) (k3_off36 k 3#32) S1x16.size (k3_off36_inb k 3), k3_pay195 acc17.2.2.2⟩,
        ⟨Rect.unit (s := S64x128) (k3_off35 k 3#32) S1x16.size (k3_off35_inb k 3), k3_pay194 acc17.2.2.1⟩,
        ⟨Rect.unit (s := S64x128) (k3_off34 k 3#32) S1x16.size (k3_off34_inb k 3), k3_pay193 acc17.2.1⟩,
        ⟨Rect.unit (s := S64x128) (k3_off33 k 3#32) S1x16.size (k3_off33_inb k 3), k3_pay192 acc17.1⟩,
        ⟨Rect.unit (s := S64x128) (k3_off42 k 2#32) S1x16.size (k3_off42_inb k 2), k3_pay182 acc16.2.2.2⟩,
        ⟨Rect.unit (s := S64x128) (k3_off41 k 2#32) S1x16.size (k3_off41_inb k 2), k3_pay181 acc16.2.2.1⟩,
        ⟨Rect.unit (s := S64x128) (k3_off40 k 2#32) S1x16.size (k3_off40_inb k 2), k3_pay180 acc16.2.1⟩,
        ⟨Rect.unit (s := S64x128) (k3_off39 k 2#32) S1x16.size (k3_off39_inb k 2), k3_pay179 acc16.1⟩,
        ⟨Rect.unit (s := S64x128) (k3_off36 k 2#32) S1x16.size (k3_off36_inb k 2), k3_pay169 acc15.2.2.2⟩,
        ⟨Rect.unit (s := S64x128) (k3_off35 k 2#32) S1x16.size (k3_off35_inb k 2), k3_pay168 acc15.2.2.1⟩,
        ⟨Rect.unit (s := S64x128) (k3_off34 k 2#32) S1x16.size (k3_off34_inb k 2), k3_pay167 acc15.2.1⟩,
        ⟨Rect.unit (s := S64x128) (k3_off33 k 2#32) S1x16.size (k3_off33_inb k 2), k3_pay166 acc15.1⟩,
        ⟨Rect.unit (s := S64x128) (k3_off42 k 1#32) S1x16.size (k3_off42_inb k 1), k3_pay156 acc14.2.2.2⟩,
        ⟨Rect.unit (s := S64x128) (k3_off41 k 1#32) S1x16.size (k3_off41_inb k 1), k3_pay155 acc14.2.2.1⟩,
        ⟨Rect.unit (s := S64x128) (k3_off40 k 1#32) S1x16.size (k3_off40_inb k 1), k3_pay154 acc14.2.1⟩,
        ⟨Rect.unit (s := S64x128) (k3_off39 k 1#32) S1x16.size (k3_off39_inb k 1), k3_pay153 acc14.1⟩,
        ⟨Rect.unit (s := S64x128) (k3_off36 k 1#32) S1x16.size (k3_off36_inb k 1), k3_pay143 acc13.2.2.2⟩,
        ⟨Rect.unit (s := S64x128) (k3_off35 k 1#32) S1x16.size (k3_off35_inb k 1), k3_pay142 acc13.2.2.1⟩,
        ⟨Rect.unit (s := S64x128) (k3_off34 k 1#32) S1x16.size (k3_off34_inb k 1), k3_pay141 acc13.2.1⟩,
        ⟨Rect.unit (s := S64x128) (k3_off33 k 1#32) S1x16.size (k3_off33_inb k 1), k3_pay140 acc13.1⟩,
        ⟨Rect.unit (s := S64x128) (k3_off42 k 0#32) S1x16.size (k3_off42_inb k 0), k3_pay130 acc12.2.2.2⟩,
        ⟨Rect.unit (s := S64x128) (k3_off41 k 0#32) S1x16.size (k3_off41_inb k 0), k3_pay129 acc12.2.2.1⟩,
        ⟨Rect.unit (s := S64x128) (k3_off40 k 0#32) S1x16.size (k3_off40_inb k 0), k3_pay128 acc12.2.1⟩,
        ⟨Rect.unit (s := S64x128) (k3_off39 k 0#32) S1x16.size (k3_off39_inb k 0), k3_pay127 acc12.1⟩,
        ⟨Rect.unit (s := S64x128) (k3_off36 k 0#32) S1x16.size (k3_off36_inb k 0), k3_pay117 acc11.2.2.2⟩,
        ⟨Rect.unit (s := S64x128) (k3_off35 k 0#32) S1x16.size (k3_off35_inb k 0), k3_pay116 acc11.2.2.1⟩,
        ⟨Rect.unit (s := S64x128) (k3_off34 k 0#32) S1x16.size (k3_off34_inb k 0), k3_pay115 acc11.2.1⟩,
        ⟨Rect.unit (s := S64x128) (k3_off33 k 0#32) S1x16.size (k3_off33_inb k 0), k3_pay114 acc11.1⟩,
        ⟨Rect.unit (s := S64x128) (k3_off16 k 3#32) S1x16.size (k3_off16_inb k 3), k3_pay104 acc10.2.2.2⟩,
        ⟨Rect.unit (s := S64x128) (k3_off15 k 3#32) S1x16.size (k3_off15_inb k 3), k3_pay103 acc10.2.2.1⟩,
        ⟨Rect.unit (s := S64x128) (k3_off14 k 3#32) S1x16.size (k3_off14_inb k 3), k3_pay102 acc10.2.1⟩,
        ⟨Rect.unit (s := S64x128) (k3_off13 k 3#32) S1x16.size (k3_off13_inb k 3), k3_pay101 acc10.1⟩,
        ⟨Rect.unit (s := S64x128) (k3_off10 k 3#32) S1x16.size (k3_off10_inb k 3), k3_pay91 acc9.2.2.2⟩,
        ⟨Rect.unit (s := S64x128) (k3_off9 k 3#32) S1x16.size (k3_off9_inb k 3), k3_pay90 acc9.2.2.1⟩,
        ⟨Rect.unit (s := S64x128) (k3_off8 k 3#32) S1x16.size (k3_off8_inb k 3), k3_pay89 acc9.2.1⟩,
        ⟨Rect.unit (s := S64x128) (k3_off7 k 3#32) S1x16.size (k3_off7_inb k 3), k3_pay88 acc9.1⟩,
        ⟨Rect.unit (s := S64x128) (k3_off16 k 2#32) S1x16.size (k3_off16_inb k 2), k3_pay78 acc8.2.2.2⟩,
        ⟨Rect.unit (s := S64x128) (k3_off15 k 2#32) S1x16.size (k3_off15_inb k 2), k3_pay77 acc8.2.2.1⟩,
        ⟨Rect.unit (s := S64x128) (k3_off14 k 2#32) S1x16.size (k3_off14_inb k 2), k3_pay76 acc8.2.1⟩,
        ⟨Rect.unit (s := S64x128) (k3_off13 k 2#32) S1x16.size (k3_off13_inb k 2), k3_pay75 acc8.1⟩,
        ⟨Rect.unit (s := S64x128) (k3_off10 k 2#32) S1x16.size (k3_off10_inb k 2), k3_pay65 acc7.2.2.2⟩,
        ⟨Rect.unit (s := S64x128) (k3_off9 k 2#32) S1x16.size (k3_off9_inb k 2), k3_pay64 acc7.2.2.1⟩,
        ⟨Rect.unit (s := S64x128) (k3_off8 k 2#32) S1x16.size (k3_off8_inb k 2), k3_pay63 acc7.2.1⟩,
        ⟨Rect.unit (s := S64x128) (k3_off7 k 2#32) S1x16.size (k3_off7_inb k 2), k3_pay62 acc7.1⟩,
        ⟨Rect.unit (s := S64x128) (k3_off16 k 1#32) S1x16.size (k3_off16_inb k 1), k3_pay52 acc6.2.2.2⟩,
        ⟨Rect.unit (s := S64x128) (k3_off15 k 1#32) S1x16.size (k3_off15_inb k 1), k3_pay51 acc6.2.2.1⟩,
        ⟨Rect.unit (s := S64x128) (k3_off14 k 1#32) S1x16.size (k3_off14_inb k 1), k3_pay50 acc6.2.1⟩,
        ⟨Rect.unit (s := S64x128) (k3_off13 k 1#32) S1x16.size (k3_off13_inb k 1), k3_pay49 acc6.1⟩,
        ⟨Rect.unit (s := S64x128) (k3_off10 k 1#32) S1x16.size (k3_off10_inb k 1), k3_pay39 acc5.2.2.2⟩,
        ⟨Rect.unit (s := S64x128) (k3_off9 k 1#32) S1x16.size (k3_off9_inb k 1), k3_pay38 acc5.2.2.1⟩,
        ⟨Rect.unit (s := S64x128) (k3_off8 k 1#32) S1x16.size (k3_off8_inb k 1), k3_pay37 acc5.2.1⟩,
        ⟨Rect.unit (s := S64x128) (k3_off7 k 1#32) S1x16.size (k3_off7_inb k 1), k3_pay36 acc5.1⟩,
        ⟨Rect.unit (s := S64x128) (k3_off16 k 0#32) S1x16.size (k3_off16_inb k 0), k3_pay26 acc4.2.2.2⟩,
        ⟨Rect.unit (s := S64x128) (k3_off15 k 0#32) S1x16.size (k3_off15_inb k 0), k3_pay25 acc4.2.2.1⟩,
        ⟨Rect.unit (s := S64x128) (k3_off14 k 0#32) S1x16.size (k3_off14_inb k 0), k3_pay24 acc4.2.1⟩,
        ⟨Rect.unit (s := S64x128) (k3_off13 k 0#32) S1x16.size (k3_off13_inb k 0), k3_pay23 acc4.1⟩,
        ⟨Rect.unit (s := S64x128) (k3_off10 k 0#32) S1x16.size (k3_off10_inb k 0), k3_pay13 acc3.2.2.2⟩,
        ⟨Rect.unit (s := S64x128) (k3_off9 k 0#32) S1x16.size (k3_off9_inb k 0), k3_pay12 acc3.2.2.1⟩,
        ⟨Rect.unit (s := S64x128) (k3_off8 k 0#32) S1x16.size (k3_off8_inb k 0), k3_pay11 acc3.2.1⟩,
        ⟨Rect.unit (s := S64x128) (k3_off7 k 0#32) S1x16.size (k3_off7_inb k 0), k3_pay10 acc3.1⟩] : List (View.Piece (Elt F) S64x128 .f32))
      = blkPieces shapeCasts_S16_S1x16 [b18, b17, b16, b15, b14, b13, b12, b11, b10, b9, b8, b7, b6, b5, b4, b3] := rfl
  rw [hlist]
  refine outOK_step3 (sO3).view g8 tb ix k.val shapeCasts_S16_S1x16 [b18, b17, b16, b15, b14, b13, b12, b11, b10, b9, b8, b7, b6, b5, b4, b3] hprev ?hrows ?hcover ?hval
  case hrows =>
    intro b hb
    simp only [List.mem_cons, List.mem_nil_iff, or_false] at hb
    rcases hb with rfl | rfl | rfl | rfl | rfl | rfl | rfl | rfl | rfl | rfl | rfl | rfl | rfl | rfl | rfl | rfl
    all_goals (first | (show 8 * k.val ≤ 8 * k.val + _ + 4; omega) | (show 8 * k.val ≤ 8 * k.val + _; omega))
  case hcover =>
    intro x hlo hhi
    have hx1 : (x 1).val < 128 := (x 1).isLt
    rcases (by omega : (x 0).val = 8 * k.val + 0 ∨ (x 0).val = 8 * k.val + 1 ∨ (x 0).val = 8 * k.val + 2 ∨ (x 0).val = 8 * k.val + 3 ∨ (x 0).val = 8 * k.val + 4 ∨ (x 0).val = 8 * k.val + 5 ∨ (x 0).val = 8 * k.val + 6 ∨ (x 0).val = 8 * k.val + 7) with h | h | h | h | h | h | h | h <;>
      rcases (by omega : (x 1).val < 64 ∨ 64 ≤ (x 1).val) with h' | h'
    · exact ⟨b3, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), ⟨by show (x 0).val = 8 * k.val + 0; omega, by show 0 ≤ (x 1).val; omega, by show (x 1).val < 0 + 64; omega⟩⟩
    · exact ⟨b4, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), ⟨by show (x 0).val = 8 * k.val + 0; omega, by show 64 ≤ (x 1).val; omega, by show (x 1).val < 64 + 64; omega⟩⟩
    · exact ⟨b5, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), ⟨by show (x 0).val = 8 * k.val + 1; omega, by show 0 ≤ (x 1).val; omega, by show (x 1).val < 0 + 64; omega⟩⟩
    · exact ⟨b6, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), ⟨by show (x 0).val = 8 * k.val + 1; omega, by show 64 ≤ (x 1).val; omega, by show (x 1).val < 64 + 64; omega⟩⟩
    · exact ⟨b7, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), ⟨by show (x 0).val = 8 * k.val + 2; omega, by show 0 ≤ (x 1).val; omega, by show (x 1).val < 0 + 64; omega⟩⟩
    · exact ⟨b8, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ⟨by show (x 0).val = 8 * k.val + 2; omega, by show 64 ≤ (x 1).val; omega, by show (x 1).val < 64 + 64; omega⟩⟩
    · exact ⟨b9, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ⟨by show (x 0).val = 8 * k.val + 3; omega, by show 0 ≤ (x 1).val; omega, by show (x 1).val < 0 + 64; omega⟩⟩
    · exact ⟨b10, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ⟨by show (x 0).val = 8 * k.val + 3; omega, by show 64 ≤ (x 1).val; omega, by show (x 1).val < 64 + 64; omega⟩⟩
    · exact ⟨b11, (List.mem_cons_of_mem _ (List.mem_cons_of_mem _ (List.mem_cons_of_mem _ (List.mem_cons_of_mem _ (List.mem_cons_of_mem _ (List.mem_cons_of_mem _ (List.mem_cons_of_mem _ (List.mem_cons_self)))))))), ⟨by show (x 0).val = 8 * k.val + 0 + 4; omega, by show 0 ≤ (x 1).val; omega, by show (x 1).val < 0 + 64; omega⟩⟩
    · exact ⟨b12, (List.mem_cons_of_mem _ (List.mem_cons_of_mem _ (List.mem_cons_of_mem _ (List.mem_cons_of_mem _ (List.mem_cons_of_mem _ (List.mem_cons_of_mem _ (List.mem_cons_self))))))), ⟨by show (x 0).val = 8 * k.val + 0 + 4; omega, by show 64 ≤ (x 1).val; omega, by show (x 1).val < 64 + 64; omega⟩⟩
    · exact ⟨b13, (List.mem_cons_of_mem _ (List.mem_cons_of_mem _ (List.mem_cons_of_mem _ (List.mem_cons_of_mem _ (List.mem_cons_of_mem _ (List.mem_cons_self)))))), ⟨by show (x 0).val = 8 * k.val + 1 + 4; omega, by show 0 ≤ (x 1).val; omega, by show (x 1).val < 0 + 64; omega⟩⟩
    · exact ⟨b14, (List.mem_cons_of_mem _ (List.mem_cons_of_mem _ (List.mem_cons_of_mem _ (List.mem_cons_of_mem _ (List.mem_cons_self))))), ⟨by show (x 0).val = 8 * k.val + 1 + 4; omega, by show 64 ≤ (x 1).val; omega, by show (x 1).val < 64 + 64; omega⟩⟩
    · exact ⟨b15, (List.mem_cons_of_mem _ (List.mem_cons_of_mem _ (List.mem_cons_of_mem _ (List.mem_cons_self)))), ⟨by show (x 0).val = 8 * k.val + 2 + 4; omega, by show 0 ≤ (x 1).val; omega, by show (x 1).val < 0 + 64; omega⟩⟩
    · exact ⟨b16, (List.mem_cons_of_mem _ (List.mem_cons_of_mem _ (List.mem_cons_self))), ⟨by show (x 0).val = 8 * k.val + 2 + 4; omega, by show 64 ≤ (x 1).val; omega, by show (x 1).val < 64 + 64; omega⟩⟩
    · exact ⟨b17, (List.mem_cons_of_mem _ (List.mem_cons_self)), ⟨by show (x 0).val = 8 * k.val + 3 + 4; omega, by show 0 ≤ (x 1).val; omega, by show (x 1).val < 0 + 64; omega⟩⟩
    · exact ⟨b18, (List.mem_cons_self), ⟨by show (x 0).val = 8 * k.val + 3 + 4; omega, by show 64 ≤ (x 1).val; omega, by show (x 1).val < 64 + 64; omega⟩⟩
  case hval =>
    intro b hb x hx
    simp only [List.mem_cons, List.mem_nil_iff, or_false] at hb
    rcases hb with rfl | rfl | rfl | rfl | rfl | rfl | rfl | rfl | rfl | rfl | rfl | rfl | rfl | rfl | rfl | rfl
    · exact blk_value3 tb ix _ _ 1 (2 * k.val + 1) 7 (160 * k.val + 150) (by decide) (by omega) (by decide) (by omega) hRB hH b18 (by show 8 * k.val + 3 + 4 = 4 * (2 * k.val + 1) + 7 / 2; omega) rfl hacc18 x hx
    · exact blk_value3 tb ix _ _ 1 (2 * k.val + 1) 6 (160 * k.val + 140) (by decide) (by omega) (by decide) (by omega) hRB hH b17 (by show 8 * k.val + 3 + 4 = 4 * (2 * k.val + 1) + 6 / 2; omega) rfl hacc17 x hx
    · exact blk_value3 tb ix _ _ 1 (2 * k.val + 1) 5 (160 * k.val + 130) (by decide) (by omega) (by decide) (by omega) hRB hH b16 (by show 8 * k.val + 2 + 4 = 4 * (2 * k.val + 1) + 5 / 2; omega) rfl hacc16 x hx
    · exact blk_value3 tb ix _ _ 1 (2 * k.val + 1) 4 (160 * k.val + 120) (by decide) (by omega) (by decide) (by omega) hRB hH b15 (by show 8 * k.val + 2 + 4 = 4 * (2 * k.val + 1) + 4 / 2; omega) rfl hacc15 x hx
    · exact blk_value3 tb ix _ _ 1 (2 * k.val + 1) 3 (160 * k.val + 110) (by decide) (by omega) (by decide) (by omega) hRB hH b14 (by show 8 * k.val + 1 + 4 = 4 * (2 * k.val + 1) + 3 / 2; omega) rfl hacc14 x hx
    · exact blk_value3 tb ix _ _ 1 (2 * k.val + 1) 2 (160 * k.val + 100) (by decide) (by omega) (by decide) (by omega) hRB hH b13 (by show 8 * k.val + 1 + 4 = 4 * (2 * k.val + 1) + 2 / 2; omega) rfl hacc13 x hx
    · exact blk_value3 tb ix _ _ 1 (2 * k.val + 1) 1 (160 * k.val + 90) (by decide) (by omega) (by decide) (by omega) hRB hH b12 (by show 8 * k.val + 0 + 4 = 4 * (2 * k.val + 1) + 1 / 2; omega) rfl hacc12 x hx
    · exact blk_value3 tb ix _ _ 1 (2 * k.val + 1) 0 (160 * k.val + 80) (by decide) (by omega) (by decide) (by omega) hRB hH b11 (by show 8 * k.val + 0 + 4 = 4 * (2 * k.val + 1) + 0 / 2; omega) rfl hacc11 x hx
    · exact blk_value3 tb ix _ _ 0 (2 * k.val) 7 (160 * k.val + 70) (by decide) (by omega) (by decide) (by omega) hRA hH b10 (by show 8 * k.val + 3 = 4 * (2 * k.val) + 7 / 2; omega) rfl hacc10 x hx
    · exact blk_value3 tb ix _ _ 0 (2 * k.val) 6 (160 * k.val + 60) (by decide) (by omega) (by decide) (by omega) hRA hH b9 (by show 8 * k.val + 3 = 4 * (2 * k.val) + 6 / 2; omega) rfl hacc9 x hx
    · exact blk_value3 tb ix _ _ 0 (2 * k.val) 5 (160 * k.val + 50) (by decide) (by omega) (by decide) (by omega) hRA hH b8 (by show 8 * k.val + 2 = 4 * (2 * k.val) + 5 / 2; omega) rfl hacc8 x hx
    · exact blk_value3 tb ix _ _ 0 (2 * k.val) 4 (160 * k.val + 40) (by decide) (by omega) (by decide) (by omega) hRA hH b7 (by show 8 * k.val + 2 = 4 * (2 * k.val) + 4 / 2; omega) rfl hacc7 x hx
    · exact blk_value3 tb ix _ _ 0 (2 * k.val) 3 (160 * k.val + 30) (by decide) (by omega) (by decide) (by omega) hRA hH b6 (by show 8 * k.val + 1 = 4 * (2 * k.val) + 3 / 2; omega) rfl hacc6 x hx
    · exact blk_value3 tb ix _ _ 0 (2 * k.val) 2 (160 * k.val + 20) (by decide) (by omega) (by decide) (by omega) hRA hH b5 (by show 8 * k.val + 1 = 4 * (2 * k.val) + 2 / 2; omega) rfl hacc5 x hx
    · exact blk_value3 tb ix _ _ 0 (2 * k.val) 1 (160 * k.val + 10) (by decide) (by omega) (by decide) (by omega) hRA hH b4 (by show 8 * k.val + 0 = 4 * (2 * k.val) + 1 / 2; omega) rfl hacc4 x hx
    · exact blk_value3 tb ix _ _ 0 (2 * k.val) 0 (160 * k.val + 0) (by decide) (by omega) (by decide) (by omega) hRA hH b3 (by show 8 * k.val + 0 = 4 * (2 * k.val) + 0 / 2; omega) rfl hacc3 x hx

end Cert.Proof.KI

end
-- ==== Proof.KI.Tile3TripLast.lean ====
/-
  The last trip of the ring of gathers of one vector subcore's task of the second call: both chunks are waited for and
  added up, nothing is started again, and the ring is left with nothing in flight.
-/
import proofs.«219250_g10247791969013_week1_w1_750_27_alg».proof.Proof.KI.Tile3Ring
import proofs.«219250_g10247791969013_week1_w1_750_27_alg».proof.Proof.KI.Tile3Chunks
import proofs.«219250_g10247791969013_week1_w1_750_27_alg».proof.Proof.KI.Tile3Chunks2
import proofs.«219250_g10247791969013_week1_w1_750_27_alg».proof.Proof.KI.Tile3TripOut
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid3.Coords)

set_option quotPrecheck false in
local notation "tabSlN" => ((tabM3).slice (Rect.unit (s := S501760x128) ![0, 0] S501760x128.size inb_S501760x128_S501760x128_0_0) (fun _ => rfl))
set_option quotPrecheck false in
local notation "dstAN" => (((sR3).slice (Rect.unit (s := S2x80x128) ![0, 0, 0] S1x80x128.size inb_S2x80x128_S1x80x128_0_0_0) (fun _ => rfl)).squeeze S80x128 squeezes_S1x80x128_S80x128)
set_option quotPrecheck false in
local notation "dstBN" => (((sR3).slice (Rect.unit (s := S2x80x128) ![1, 0, 0] S1x80x128.size inb_S2x80x128_S1x80x128_1_0_0) (fun _ => rfl)).squeeze S80x128 squeezes_S1x80x128_S80x128)

variable (q : PosShare TreeShare) (Tb : Buf (Elt F) ((tabM3).view.loc (thr3 d L)))
  (tb : S501760x128.Idx → Elt F .f32) (ix : S1280.Idx → Elt F .i32)
  (g5 : Buf (Elt F) ((sI3).view.loc (thr3 d L))) (g6 : Buf (Elt F) ((sH3).view.loc (thr3 d L)))
  (O : CellTallies nD τ sig (HIx 2)) (W : Waits sig (HIx 2))

omit [FloatOps F] in
theorem cond1_iff3L : ∀ k : Fin k3_t2_loop.trips, k3_cond1 k = 1#1 ↔ k.val + 1 < 8 := by decide +kernel
omit [FloatOps F] in
theorem cond2_iff3L : ∀ k : Fin k3_t2_loop.trips, k3_cond2 k = 1#1 ↔ k.val + 1 < 8 := by decide +kernel

set_option maxHeartbeats 16000000 in
/-- The last trip of the ring (no chunk after next): wait for the even chunk, add up its eight batch rows; the same for the
    odd chunk; nothing is left in flight. -/
theorem ring_trip_last3 (k : Fin k3_t2_loop.trips) (acc : Unit)
    (hg5 : ZI5 ix ((sI3).view.read (Elt F) g5) 80) (hg6 : ZI6 ((sH3).view.read (Elt F) g6) 80)
    (htb : tb = (tabM3).view.read (Elt F) Tb) (hix : ∀ j, (ix j).toNat < 100000) (hO : ∀ g, O g none = 0)
    (hc : ¬ k3_cond1 k = 1#1) :
    iprop(levAts (K (F := F)).L (K (F := F)).lev ∗ ringInv3 (F := F) d L q Tb tb ix g5 g6 O W k.val acc)
      ⊢ wp frame (wpE (defs₀ (F := F)) 𝒱₀ (thr3 d L) none) Set.univ
      (k3_t2_body L tabM3 (Memref.isWhole_whole _) idxM3 (Memref.isWhole_whole _) outM3 (Memref.isWhole_whole _)
        sI3 (Memref.isWhole_whole _) sH3 (Memref.isWhole_whole _) sR3 (Memref.isWhole_whole _) sO3 (Memref.isWhole_whole _)
        cc3_scratch4 cc3_scratch5 cc3_scoped0 cc3_scoped1 k acc)
      (fun a => iprop(levAts (K (F := F)).L (K (F := F)).lev ∗ ringInv3 (F := F) d L q Tb tb ix g5 g6 O W (k.val + 1) a)) := by
  subst htb
  have hk8 : k.val < 8 := k.isLt
  unfold k3_t2_body
  rw [k3_part12_eq_skeleton]
  unfold k3_part12_skel
  rw [k3_part1_eq_skeleton, k3_part2_eq_skeleton, k3_part3_eq_skeleton, k3_part4_eq_skeleton, k3_part5_eq_skeleton, k3_part6_eq_skeleton,
    k3_part7_eq_skeleton, k3_part8_eq_skeleton, k3_part9_eq_skeleton, k3_part10_eq_skeleton, k3_part11_eq_skeleton]
  unfold k3_part1_skel k3_part2_skel k3_part3_skel k3_part4_skel k3_part5_skel k3_part6_skel k3_part7_skel k3_part8_skel k3_part9_skel k3_part10_skel k3_part11_skel
  unfold ringInv3
  rw [dif_pos hk8]
  have hk7 : ¬ (k.val + 1 < 8) := fun h => hc ((cond1_iff3L k).mpr h)
  have hc2 : ¬ k3_cond2 k = 1#1 := fun h => hk7 ((cond2_iff3L k).mp h)
  rw [dif_neg hk7]
  unfold ringBusy3 ringDone3 flight3
  iintro ⟨#Hlv, %gA, %gB, %gR, %g8, %W', %pA, %pB, HO, H6, H8, HtL, HtR, HfA, HfB, H7, H5L, H5R, %hfin⟩
  ihave #Hmw := ((K (F := F)).mayWaits_none (thr := thr3 d L) hO) $$ Hlv
  have hall : ∀ y, ((sI3).view.read (Elt F) g5 y).toNat < 501760 := fun y => (rew_toNat3 (F := F) _ _ hg5 hix y).2
  have hH0 : ∀ p, p < 1280 → at1 ((sH3).view.read (Elt F) g6) p = 0#32 ∨ at1 ((sH3).view.read (Elt F) g6) p = 64#32 := fun p hp => half_val3_cases _ hg6 p hp
  have hIRA : ∀ x : (SR 80).Idx, (x 0).val = 0 → (sR3).view.emb x ∈ (dstAN).view.set := hIR_A3
  have hIRB : ∀ x : (SR 80).Idx, (x 0).val = 1 → (sR3).view.emb x ∈ (dstBN).view.set := hIR_B3
  -- the wait for the even chunk
  sl_exec
  icases HfA_dst with ⟨HdA, HoA⟩
  -- batch row 0 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 0 (160 * k.val + 0)) $$ [H6 HdA]
  · intro k' acc'
    exact accum_k3_t3 (HIx 2) ℕ UU ℕ 𝒱₀ d none Set.univ L tabM3 _ idxM3 _ outM3 _ sI3 _ sH3 _ sR3 _ sO3 _ cc3_scratch4 cc3_scratch5 cc3_scoped0 cc3_scoped1 (0#32) (1#32) k
      (dstAN).view.set fullShare fullShare g6 ((dstAN).view.write (Elt F) gA pA Finset.univ) hIRA (fun j hj => hH0 _ (by have : j < 10 := hj; omega)) k' acc'
  · unfold AccInv
    isplitr
    · ipureintro; rfl
    isplitl [H6]
    · iexact H6
    iexact HdA
  iintro %acc3 HI
  unfold AccInv
  icases HI with ⟨%hacc3, H6, HdA⟩
  sl_exec
  -- batch row 1 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 10 (160 * k.val + 10)) $$ [H6 HdA]
  · intro k' acc'
    apply accum_k3_t4
    · exact hIRA
    · exact fun j hj => hH0 _ (by have : j < 10 := hj; omega)
  · unfold AccInv
    isplitr
    · ipureintro; rfl
    isplitl [H6]
    · iexact H6
    iexact HdA
  iintro %acc4 HI
  unfold AccInv
  icases HI with ⟨%hacc4, H6, HdA⟩
  sl_exec
  -- batch row 2 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 20 (160 * k.val + 20)) $$ [H6 HdA]
  · intro k' acc'
    apply accum_k3_t5
    · exact hIRA
    · exact fun j hj => hH0 _ (by have : j < 10 := hj; omega)
  · unfold AccInv
    isplitr
    · ipureintro; rfl
    isplitl [H6]
    · iexact H6
    iexact HdA
  iintro %acc5 HI
  unfold AccInv
  icases HI with ⟨%hacc5, H6, HdA⟩
  sl_exec
  -- batch row 3 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 30 (160 * k.val + 30)) $$ [H6 HdA]
  · intro k' acc'
    apply accum_k3_t6
    · exact hIRA
    · exact fun j hj => hH0 _ (by have : j < 10 := hj; omega)
  · unfold AccInv
    isplitr
    · ipureintro; rfl
    isplitl [H6]
    · iexact H6
    iexact HdA
  iintro %acc6 HI
  unfold AccInv
  icases HI with ⟨%hacc6, H6, HdA⟩
  sl_exec
  -- batch row 4 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 40 (160 * k.val + 40)) $$ [H6 HdA]
  · intro k' acc'
    apply accum_k3_t7
    · exact hIRA
    · exact fun j hj => hH0 _ (by have : j < 10 := hj; omega)
  · unfold AccInv
    isplitr
    · ipureintro; rfl
    isplitl [H6]
    · iexact H6
    iexact HdA
  iintro %acc7 HI
  unfold AccInv
  icases HI with ⟨%hacc7, H6, HdA⟩
  sl_exec
  -- batch row 5 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 50 (160 * k.val + 50)) $$ [H6 HdA]
  · intro k' acc'
    apply accum_k3_t8
    · exact hIRA
    · exact fun j hj => hH0 _ (by have : j < 10 := hj; omega)
  · unfold AccInv
    isplitr
    · ipureintro; rfl
    isplitl [H6]
    · iexact H6
    iexact HdA
  iintro %acc8 HI
  unfold AccInv
  icases HI with ⟨%hacc8, H6, HdA⟩
  sl_exec
  -- batch row 6 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 60 (160 * k.val + 60)) $$ [H6 HdA]
  · intro k' acc'
    apply accum_k3_t9
    · exact hIRA
    · exact fun j hj => hH0 _ (by have : j < 10 := hj; omega)
  · unfold AccInv
    isplitr
    · ipureintro; rfl
    isplitl [H6]
    · iexact H6
    iexact HdA
  iintro %acc9 HI
  unfold AccInv
  icases HI with ⟨%hacc9, H6, HdA⟩
  sl_exec
  -- batch row 7 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 70 (160 * k.val + 70)) $$ [H6 HdA]
  · intro k' acc'
    apply accum_k3_t10
    · exact hIRA
    · exact fun j hj => hH0 _ (by have : j < 10 := hj; omega)
  · unfold AccInv
    isplitr
    · ipureintro; rfl
    isplitl [H6]
    · iexact H6
    iexact HdA
  iintro %acc10 HI
  unfold AccInv
  icases HI with ⟨%hacc10, H6, HdA⟩
  -- the even chunk after next is not started; the wait for the odd chunk
  sl_exec
  icases HfB_dst with ⟨HdB, HoB⟩
  -- batch row 0 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 0 (160 * k.val + 80)) $$ [H6 HdB]
  · intro k' acc'
    apply accum_k3_t11
    · exact hIRB
    · exact fun j hj => hH0 _ (by have : j < 10 := hj; omega)
  · unfold AccInv
    isplitr
    · ipureintro; rfl
    isplitl [H6]
    · iexact H6
    iexact HdB
  iintro %acc11 HI
  unfold AccInv
  icases HI with ⟨%hacc11, H6, HdB⟩
  sl_exec
  -- batch row 1 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 10 (160 * k.val + 90)) $$ [H6 HdB]
  · intro k' acc'
    apply accum_k3_t12
    · exact hIRB
    · exact fun j hj => hH0 _ (by have : j < 10 := hj; omega)
  · unfold AccInv
    isplitr
    · ipureintro; rfl
    isplitl [H6]
    · iexact H6
    iexact HdB
  iintro %acc12 HI
  unfold AccInv
  icases HI with ⟨%hacc12, H6, HdB⟩
  sl_exec
  -- batch row 2 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 20 (160 * k.val + 100)) $$ [H6 HdB]
  · intro k' acc'
    apply accum_k3_t13
    · exact hIRB
    · exact fun j hj => hH0 _ (by have : j < 10 := hj; omega)
  · unfold AccInv
    isplitr
    · ipureintro; rfl
    isplitl [H6]
    · iexact H6
    iexact HdB
  iintro %acc13 HI
  unfold AccInv
  icases HI with ⟨%hacc13, H6, HdB⟩
  sl_exec
  -- batch row 3 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 30 (160 * k.val + 110)) $$ [H6 HdB]
  · intro k' acc'
    apply accum_k3_t14
    · exact hIRB
    · exact fun j hj => hH0 _ (by have : j < 10 := hj; omega)
  · unfold AccInv
    isplitr
    · ipureintro; rfl
    isplitl [H6]
    · iexact H6
    iexact HdB
  iintro %acc14 HI
  unfold AccInv
  icases HI with ⟨%hacc14, H6, HdB⟩
  sl_exec
  -- batch row 4 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 40 (160 * k.val + 120)) $$ [H6 HdB]
  · intro k' acc'
    apply accum_k3_t15
    · exact hIRB
    · exact fun j hj => hH0 _ (by have : j < 10 := hj; omega)
  · unfold AccInv
    isplitr
    · ipureintro; rfl
    isplitl [H6]
    · iexact H6
    iexact HdB
  iintro %acc15 HI
  unfold AccInv
  icases HI with ⟨%hacc15, H6, HdB⟩
  sl_exec
  -- batch row 5 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 50 (160 * k.val + 130)) $$ [H6 HdB]
  · intro k' acc'
    apply accum_k3_t16
    · exact hIRB
    · exact fun j hj => hH0 _ (by have : j < 10 := hj; omega)
  · unfold AccInv
    isplitr
    · ipureintro; rfl
    isplitl [H6]
    · iexact H6
    iexact HdB
  iintro %acc16 HI
  unfold AccInv
  icases HI with ⟨%hacc16, H6, HdB⟩
  sl_exec
  -- batch row 6 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 60 (160 * k.val + 140)) $$ [H6 HdB]
  · intro k' acc'
    apply accum_k3_t17
    · exact hIRB
    · exact fun j hj => hH0 _ (by have : j < 10 := hj; omega)
  · unfold AccInv
    isplitr
    · ipureintro; rfl
    isplitl [H6]
    · iexact H6
    iexact HdB
  iintro %acc17 HI
  unfold AccInv
  icases HI with ⟨%hacc17, H6, HdB⟩
  sl_exec
  -- batch row 7 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 70 (160 * k.val + 150)) $$ [H6 HdB]
  · intro k' acc'
    apply accum_k3_t18
    · exact hIRB
    · exact fun j hj => hH0 _ (by have : j < 10 := hj; omega)
  · unfold AccInv
    isplitr
    · ipureintro; rfl
    isplitl [H6]
    · iexact H6
    iexact HdB
  iintro %acc18 HI
  unfold AccInv
  icases HI with ⟨%hacc18, H6, HdB⟩
  -- the odd chunk after next is not started either
  sl_exec
  sl_step
  isplitr; · iexact Hlv
  -- the two gather buffers and the rest of the scratch: the scratch whole
  ihave H7 := (aside_elim _) $$ H7
  ihave HR := (slots_rejoin3 d L _ _ _) $$ [HdA HdB H7]
  · isplitl [HdA]; · iexact HdA
    isplitl [HdB]; · iexact HdB
    iexact H7
  icases HR with ⟨%gR', HR⟩
  -- the list whole: each half's chunk beside its rest, then the two halves
  ihave H5L := (aside_elim _) $$ H5L
  ihave H5L := (pointsTo_split_subset (ℓ := (sI3).view.loc (thr3 d L)) (q := fullShare.left) (f := g5) (Finset.subset_univ _)).2 $$ [HoA H5L]
  · isplitl [HoA] <;> iassumption
  ihave H5R := (aside_elim _) $$ H5R
  ihave H5R := (pointsTo_split_subset (ℓ := (sI3).view.loc (thr3 d L)) (q := fullShare.right) (f := g5) (Finset.subset_univ _)).2 $$ [HoB H5R]
  · isplitl [HoB] <;> iassumption
  ihave H5 := (pointsTo_share (PosShare.mem_left_op_right fullShare)).2 $$ [H5L H5R]
  · isplitl [H5L] <;> iassumption
  have hs6 : ((sH3).view.set : Finset (Idx ((sH3).view.loc (thr3 d L)))) = Finset.univ := View.set_whole _
  ihave H6 := (Entails.of_eq (congrArg (fun S => (((sH3).view.loc (thr3 d L) ↦[S]{fullShare} g6 : sProp 𝕄))) hs6)) $$ H6
  iexists gR', _, _
  isplitl [HO]; · iexact HO
  isplitl [H6]; · iexact H6
  isplitl [H8]; · iexact H8
  isplitl [HtL]; · iexact HtL
  isplitl [HtR]; · iexact HtR
  isplitl [HfA]; · iexact HfA
  isplitl [HfB]; · iexact HfB
  isplitl [HR]; · iexact HR
  isplitl [H5]; · iexact H5
  isplitl [HfA_src]; · iexact HfA_src
  isplitl [HfB_src]; · iexact HfB_src
  ipureintro
  refine ⟨?_, ?_⟩
  · intro p hp
    rcases Finset.mem_insert.mp hp with rfl | hp
    · exact Or.inr rfl
    · rcases Finset.mem_insert.mp hp with rfl | hp
      · exact Or.inr rfl
      · exact hfin.1 p hp
  · -- the block of sums after the last trip
    have e : k.val + 1 = 8 := by omega
    have h := trip_out3 k _ ix g8 gA gB pA pB g6 _ _ _ _ _ _ _ _ _ _ _ _ _ _ _ _ hfin.2.1 hfin.2.2.1 hfin.2.2.2 hg6 hacc3 hacc4 hacc5 hacc6 hacc7 hacc8 hacc9 hacc10 hacc11 hacc12 hacc13 hacc14 hacc15 hacc16 hacc17 hacc18
    rw [e] at h
    exact h

end Cert.Proof.KI

end
-- ==== Proof.KI.Tile3Trip.lean ====
/-
  One trip of the ring of gathers of one vector subcore's task: wait for the even chunk, add up its eight batch rows,
  start the even chunk after next; the same for the odd chunk.
-/
import proofs.«219250_g10247791969013_week1_w1_750_27_alg».proof.Proof.KI.Tile3Ring
import proofs.«219250_g10247791969013_week1_w1_750_27_alg».proof.Proof.KI.Tile3Chunks
import proofs.«219250_g10247791969013_week1_w1_750_27_alg».proof.Proof.KI.Tile3Chunks2
import proofs.«219250_g10247791969013_week1_w1_750_27_alg».proof.Proof.KI.Tile3TripOut
import proofs.«219250_g10247791969013_week1_w1_750_27_alg».proof.Proof.KI.Tile3TripLast
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid3.Coords)

set_option quotPrecheck false in
local notation "tabSlN" => ((tabM3).slice (Rect.unit (s := S501760x128) ![0, 0] S501760x128.size inb_S501760x128_S501760x128_0_0) (fun _ => rfl))
set_option quotPrecheck false in
local notation "dstAN" => (((sR3).slice (Rect.unit (s := S2x80x128) ![0, 0, 0] S1x80x128.size inb_S2x80x128_S1x80x128_0_0_0) (fun _ => rfl)).squeeze S80x128 squeezes_S1x80x128_S80x128)
set_option quotPrecheck false in
local notation "dstBN" => (((sR3).slice (Rect.unit (s := S2x80x128) ![1, 0, 0] S1x80x128.size inb_S2x80x128_S1x80x128_1_0_0) (fun _ => rfl)).squeeze S80x128 squeezes_S1x80x128_S80x128)

variable (q : PosShare TreeShare) (Tb : Buf (Elt F) ((tabM3).view.loc (thr3 d L)))
  (tb : S501760x128.Idx → Elt F .f32) (ix : S1280.Idx → Elt F .i32)
  (g5 : Buf (Elt F) ((sI3).view.loc (thr3 d L))) (g6 : Buf (Elt F) ((sH3).view.loc (thr3 d L)))
  (O : CellTallies nD τ sig (HIx 2)) (W : Waits sig (HIx 2))

omit [FloatOps F] in
theorem cond1_iff3 : ∀ k : Fin k3_t2_loop.trips, k3_cond1 k = 1#1 ↔ k.val + 1 < 8 := by decide +kernel
omit [FloatOps F] in
theorem cond2_iff3 : ∀ k : Fin k3_t2_loop.trips, k3_cond2 k = 1#1 ↔ k.val + 1 < 8 := by decide +kernel

/-- The even buffer's rows put back beside what lies outside both buffers: everything but the odd buffer. -/
theorem rowsA_join3 (g f : Buf (Elt F) ((sR3).view.loc (thr3 d L))) :
    iprop(((sR3).view.loc (thr3 d L) ↦[((dstAN).view.set : Finset S2x80x128.Idx)]{fullShare} g)
      ∗ ((sR3).view.loc (thr3 d L) ↦[(Finset.univ \ ((dstAN).view.set : Finset S2x80x128.Idx)) \ ((dstBN).view.set : Finset S2x80x128.Idx)]{fullShare} f))
      ⊢ ((sR3).view.loc (thr3 d L) ↦[Finset.univ \ ((dstBN).view.set : Finset S2x80x128.Idx)]{fullShare}
          (Finset.piecewise ((dstAN).view.set : Finset S2x80x128.Idx) g f) : sProp 𝕄) := by
  rw [sdiff_right_comm]
  exact pointsTo_join_subset disjAB3

/-- The odd buffer's rows put back likewise: everything but the even buffer. -/
theorem rowsB_join3 (g f : Buf (Elt F) ((sR3).view.loc (thr3 d L))) :
    iprop(((sR3).view.loc (thr3 d L) ↦[((dstBN).view.set : Finset S2x80x128.Idx)]{fullShare} g)
      ∗ ((sR3).view.loc (thr3 d L) ↦[(Finset.univ \ ((dstBN).view.set : Finset S2x80x128.Idx)) \ ((dstAN).view.set : Finset S2x80x128.Idx)]{fullShare} f))
      ⊢ ((sR3).view.loc (thr3 d L) ↦[Finset.univ \ ((dstAN).view.set : Finset S2x80x128.Idx)]{fullShare}
          (Finset.piecewise ((dstBN).view.set : Finset S2x80x128.Idx) g f) : sProp 𝕄) := by
  rw [sdiff_right_comm]
  exact pointsTo_join_subset disjBA3

omit [FloatOps F] in
theorem hsubT3 : (((tabSlN).view.set : Finset S501760x128.Idx)) ⊆ (tabM3).view.set := View.set_slice_subset (tabM3).view _

theorem eqA3s (k : Fin k3_t2_loop.trips) (hc : k3_cond1 k = 1#1) (hk7 : k.val + 1 < 8) :
    (((sI3).slice (Rect.unit (s := S1280) (k3_off29 k) S80.size (k3_off29_inb k hc)) (fun _ => rfl)).view.set : Finset S1280.Idx) = ((offsC3 (2 * (k.val + 1)) (lt16a hk7)).view.set : Finset S1280.Idx) :=
  eqA3 k hc hk7
theorem eqB3s (k : Fin k3_t2_loop.trips) (hc2 : k3_cond2 k = 1#1) (hk7 : k.val + 1 < 8) :
    (((sI3).slice (Rect.unit (s := S1280) (k3_off55 k) S80.size (k3_off55_inb k hc2)) (fun _ => rfl)).view.set : Finset S1280.Idx) = ((offsC3 (2 * (k.val + 1) + 1) (lt16b hk7)).view.set : Finset S1280.Idx) :=
  eqB3 k hc2 hk7
set_option maxHeartbeats 16000000 in
/-- One trip of the ring: wait for the even chunk, add up its eight batch rows, start the even chunk after next; the same
    for the odd chunk. -/
theorem ring_trip3 (k : Fin k3_t2_loop.trips) (acc : Unit)
    (hg5 : ZI5 ix ((sI3).view.read (Elt F) g5) 80) (hg6 : ZI6 ((sH3).view.read (Elt F) g6) 80)
    (htb : tb = (tabM3).view.read (Elt F) Tb) (hix : ∀ j, (ix j).toNat < 100000) (hO : ∀ g, O g none = 0) :
    iprop(levAts (K (F := F)).L (K (F := F)).lev ∗ ringInv3 (F := F) d L q Tb tb ix g5 g6 O W k.val acc)
      ⊢ wp frame (wpE (defs₀ (F := F)) 𝒱₀ (thr3 d L) none) Set.univ
      (k3_t2_body L tabM3 (Memref.isWhole_whole _) idxM3 (Memref.isWhole_whole _) outM3 (Memref.isWhole_whole _)
        sI3 (Memref.isWhole_whole _) sH3 (Memref.isWhole_whole _) sR3 (Memref.isWhole_whole _) sO3 (Memref.isWhole_whole _)
        cc3_scratch4 cc3_scratch5 cc3_scoped0 cc3_scoped1 k acc)
      (fun a => iprop(levAts (K (F := F)).L (K (F := F)).lev ∗ ringInv3 (F := F) d L q Tb tb ix g5 g6 O W (k.val + 1) a)) := by
  by_cases hc : k3_cond1 k = 1#1
  · -- more trips follow: both chunks after next are started
    subst htb
    have hk8 : k.val < 8 := k.isLt
    unfold k3_t2_body
    rw [k3_part12_eq_skeleton]
    unfold k3_part12_skel
    rw [k3_part1_eq_skeleton, k3_part2_eq_skeleton, k3_part3_eq_skeleton, k3_part4_eq_skeleton, k3_part5_eq_skeleton, k3_part6_eq_skeleton,
      k3_part7_eq_skeleton, k3_part8_eq_skeleton, k3_part9_eq_skeleton, k3_part10_eq_skeleton, k3_part11_eq_skeleton]
    unfold k3_part1_skel k3_part2_skel k3_part3_skel k3_part4_skel k3_part5_skel k3_part6_skel k3_part7_skel k3_part8_skel k3_part9_skel k3_part10_skel k3_part11_skel
    unfold ringInv3
    rw [dif_pos hk8]
    have hk7 : k.val + 1 < 8 := (cond1_iff3 k).mp hc
    have hc2 : k3_cond2 k = 1#1 := (cond2_iff3 k).mpr hk7
    rw [dif_pos hk7]
    unfold ringBusy3 flight3
    iintro ⟨#Hlv, %gA, %gB, %gR, %g8, %W', %pA, %pB, HO, H6, H8, HtL, HtR, HfA, HfB, H7, H5L, H5R, %hfin⟩
    ihave #Hmw := ((K (F := F)).mayWaits_none (thr := thr3 d L) hO) $$ Hlv
    have hall : ∀ y, ((sI3).view.read (Elt F) g5 y).toNat < 501760 := fun y => (rew_toNat3 (F := F) _ _ hg5 hix y).2
    have hH0 : ∀ p, p < 1280 → at1 ((sH3).view.read (Elt F) g6) p = 0#32 ∨ at1 ((sH3).view.read (Elt F) g6) p = 64#32 := fun p hp => half_val3_cases _ hg6 p hp
    have hIRA : ∀ x : (SR 80).Idx, (x 0).val = 0 → (sR3).view.emb x ∈ (dstAN).view.set := hIR_A3
    have hIRB : ∀ x : (SR 80).Idx, (x 0).val = 1 → (sR3).view.emb x ∈ (dstBN).view.set := hIR_B3
    have hinA : ∀ x, ((sI3.slice (Rect.unit (s := S1280) (k3_off29 k) S80.size (k3_off29_inb k hc)) (fun _ => rfl)).view.read (Elt F) g5 x).toNat < 501760 := fun x => hall _
    have hinB : ∀ x, ((sI3.slice (Rect.unit (s := S1280) (k3_off55 k) S80.size (k3_off55_inb k hc2)) (fun _ => rfl)).view.read (Elt F) g5 x).toNat < 501760 := fun x => hall _
    -- the wait for the even chunk
    sl_exec
    icases HfA_dst with ⟨HdA, HoA⟩
    -- batch row 0 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 0 (160 * k.val + 0)) $$ [H6 HdA]
    · intro k' acc'
      exact accum_k3_t3 (HIx 2) ℕ UU ℕ 𝒱₀ d none Set.univ L tabM3 _ idxM3 _ outM3 _ sI3 _ sH3 _ sR3 _ sO3 _ cc3_scratch4 cc3_scratch5 cc3_scoped0 cc3_scoped1 (0#32) (1#32) k
        (dstAN).view.set fullShare fullShare g6 ((dstAN).view.write (Elt F) gA pA Finset.univ) hIRA (fun j hj => hH0 _ (by have : j < 10 := hj; omega)) k' acc'
    · unfold AccInv
      isplitr
      · ipureintro; rfl
      isplitl [H6]
      · iexact H6
      iexact HdA
    iintro %acc3 HI
    unfold AccInv
    icases HI with ⟨%hacc3, H6, HdA⟩
    sl_exec
    -- batch row 1 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 10 (160 * k.val + 10)) $$ [H6 HdA]
    · intro k' acc'
      apply accum_k3_t4
      · exact hIRA
      · exact fun j hj => hH0 _ (by have : j < 10 := hj; omega)
    · unfold AccInv
      isplitr
      · ipureintro; rfl
      isplitl [H6]
      · iexact H6
      iexact HdA
    iintro %acc4 HI
    unfold AccInv
    icases HI with ⟨%hacc4, H6, HdA⟩
    sl_exec
    -- batch row 2 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 20 (160 * k.val + 20)) $$ [H6 HdA]
    · intro k' acc'
      apply accum_k3_t5
      · exact hIRA
      · exact fun j hj => hH0 _ (by have : j < 10 := hj; omega)
    · unfold AccInv
      isplitr
      · ipureintro; rfl
      isplitl [H6]
      · iexact H6
      iexact HdA
    iintro %acc5 HI
    unfold AccInv
    icases HI with ⟨%hacc5, H6, HdA⟩
    sl_exec
    -- batch row 3 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 30 (160 * k.val + 30)) $$ [H6 HdA]
    · intro k' acc'
      apply accum_k3_t6
      · exact hIRA
      · exact fun j hj => hH0 _ (by have : j < 10 := hj; omega)
    · unfold AccInv
      isplitr
      · ipureintro; rfl
      isplitl [H6]
      · iexact H6
      iexact HdA
    iintro %acc6 HI
    unfold AccInv
    icases HI with ⟨%hacc6, H6, HdA⟩
    sl_exec
    -- batch row 4 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 40 (160 * k.val + 40)) $$ [H6 HdA]
    · intro k' acc'
      apply accum_k3_t7
      · exact hIRA
      · exact fun j hj => hH0 _ (by have : j < 10 := hj; omega)
    · unfold AccInv
      isplitr
      · ipureintro; rfl
      isplitl [H6]
      · iexact H6
      iexact HdA
    iintro %acc7 HI
    unfold AccInv
    icases HI with ⟨%hacc7, H6, HdA⟩
    sl_exec
    -- batch row 5 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 50 (160 * k.val + 50)) $$ [H6 HdA]
    · intro k' acc'
      apply accum_k3_t8
      · exact hIRA
      · exact fun j hj => hH0 _ (by have : j < 10 := hj; omega)
    · unfold AccInv
      isplitr
      · ipureintro; rfl
      isplitl [H6]
      · iexact H6
      iexact HdA
    iintro %acc8 HI
    unfold AccInv
    icases HI with ⟨%hacc8, H6, HdA⟩
    sl_exec
    -- batch row 6 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 60 (160 * k.val + 60)) $$ [H6 HdA]
    · intro k' acc'
      apply accum_k3_t9
      · exact hIRA
      · exact fun j hj => hH0 _ (by have : j < 10 := hj; omega)
    · unfold AccInv
      isplitr
      · ipureintro; rfl
      isplitl [H6]
      · iexact H6
      iexact HdA
    iintro %acc9 HI
    unfold AccInv
    icases HI with ⟨%hacc9, H6, HdA⟩
    sl_exec
    -- batch row 7 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 70 (160 * k.val + 70)) $$ [H6 HdA]
    · intro k' acc'
      apply accum_k3_t10
      · exact hIRA
      · exact fun j hj => hH0 _ (by have : j < 10 := hj; omega)
    · unfold AccInv
      isplitr
      · ipureintro; rfl
      isplitl [H6]
      · iexact H6
      iexact HdA
    iintro %acc10 HI
    unfold AccInv
    icases HI with ⟨%hacc10, H6, HdA⟩
    -- what the even chain holds, whole again, for its next gather
    ihave HtL := (aside_elim _) $$ HtL
    ihave HtL := (pointsTo_split_subset (ℓ := (tabM3).view.loc (thr3 d L)) (q := q.left) (f := Tb) hsubT3).2 $$ [HfA_src HtL]
    · isplitl [HfA_src] <;> iassumption
    ihave H5L := (aside_elim _) $$ H5L
    ihave H5L := (pointsTo_split_subset (ℓ := (sI3).view.loc (thr3 d L)) (q := fullShare.left) (f := g5) (Finset.subset_univ ((offsC3 (2 * k.val) (lt16a hk8)).view.set : Finset S1280.Idx))).2 $$ [HoA H5L]
    · isplitl [HoA] <;> iassumption
    ihave H7 := (aside_elim _) $$ H7
    ihave H7 := (rowsA_join3 d L _ _) $$ [HdA H7]
    · isplitl [HdA] <;> iassumption
    sl_exec
    icases HfB_dst with ⟨HdB, HoB⟩
    ihave HtL := (aside_intro _) $$ HtL
    ihave H5L := (aside_intro _) $$ H5L
    -- batch row 0 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 0 (160 * k.val + 80)) $$ [H6 HdB]
    · intro k' acc'
      apply accum_k3_t11
      · exact hIRB
      · exact fun j hj => hH0 _ (by have : j < 10 := hj; omega)
    · unfold AccInv
      isplitr
      · ipureintro; rfl
      isplitl [H6]
      · iexact H6
      iexact HdB
    iintro %acc11 HI
    unfold AccInv
    icases HI with ⟨%hacc11, H6, HdB⟩
    sl_exec
    -- batch row 1 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 10 (160 * k.val + 90)) $$ [H6 HdB]
    · intro k' acc'
      apply accum_k3_t12
      · exact hIRB
      · exact fun j hj => hH0 _ (by have : j < 10 := hj; omega)
    · unfold AccInv
      isplitr
      · ipureintro; rfl
      isplitl [H6]
      · iexact H6
      iexact HdB
    iintro %acc12 HI
    unfold AccInv
    icases HI with ⟨%hacc12, H6, HdB⟩
    sl_exec
    -- batch row 2 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 20 (160 * k.val + 100)) $$ [H6 HdB]
    · intro k' acc'
      apply accum_k3_t13
      · exact hIRB
      · exact fun j hj => hH0 _ (by have : j < 10 := hj; omega)
    · unfold AccInv
      isplitr
      · ipureintro; rfl
      isplitl [H6]
      · iexact H6
      iexact HdB
    iintro %acc13 HI
    unfold AccInv
    icases HI with ⟨%hacc13, H6, HdB⟩
    sl_exec
    -- batch row 3 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 30 (160 * k.val + 110)) $$ [H6 HdB]
    · intro k' acc'
      apply accum_k3_t14
      · exact hIRB
      · exact fun j hj => hH0 _ (by have : j < 10 := hj; omega)
    · unfold AccInv
      isplitr
      · ipureintro; rfl
      isplitl [H6]
      · iexact H6
      iexact HdB
    iintro %acc14 HI
    unfold AccInv
    icases HI with ⟨%hacc14, H6, HdB⟩
    sl_exec
    -- batch row 4 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 40 (160 * k.val + 120)) $$ [H6 HdB]
    · intro k' acc'
      apply accum_k3_t15
      · exact hIRB
      · exact fun j hj => hH0 _ (by have : j < 10 := hj; omega)
    · unfold AccInv
      isplitr
      · ipureintro; rfl
      isplitl [H6]
      · iexact H6
      iexact HdB
    iintro %acc15 HI
    unfold AccInv
    icases HI with ⟨%hacc15, H6, HdB⟩
    sl_exec
    -- batch row 5 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 50 (160 * k.val + 130)) $$ [H6 HdB]
    · intro k' acc'
      apply accum_k3_t16
      · exact hIRB
      · exact fun j hj => hH0 _ (by have : j < 10 := hj; omega)
    · unfold AccInv
      isplitr
      · ipureintro; rfl
      isplitl [H6]
      · iexact H6
      iexact HdB
    iintro %acc16 HI
    unfold AccInv
    icases HI with ⟨%hacc16, H6, HdB⟩
    sl_exec
    -- batch row 6 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 60 (160 * k.val + 140)) $$ [H6 HdB]
    · intro k' acc'
      apply accum_k3_t17
      · exact hIRB
      · exact fun j hj => hH0 _ (by have : j < 10 := hj; omega)
    · unfold AccInv
      isplitr
      · ipureintro; rfl
      isplitl [H6]
      · iexact H6
      iexact HdB
    iintro %acc17 HI
    unfold AccInv
    icases HI with ⟨%hacc17, H6, HdB⟩
    sl_exec
    -- batch row 7 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 70 (160 * k.val + 150)) $$ [H6 HdB]
    · intro k' acc'
      apply accum_k3_t18
      · exact hIRB
      · exact fun j hj => hH0 _ (by have : j < 10 := hj; omega)
    · unfold AccInv
      isplitr
      · ipureintro; rfl
      isplitl [H6]
      · iexact H6
      iexact HdB
    iintro %acc18 HI
    unfold AccInv
    icases HI with ⟨%hacc18, H6, HdB⟩
    -- what the odd chain holds, whole again, for its next gather
    ihave HtR := (aside_elim _) $$ HtR
    ihave HtR := (pointsTo_split_subset (ℓ := (tabM3).view.loc (thr3 d L)) (q := q.right) (f := Tb) hsubT3).2 $$ [HfB_src HtR]
    · isplitl [HfB_src] <;> iassumption
    ihave H5R := (aside_elim _) $$ H5R
    ihave H5R := (pointsTo_split_subset (ℓ := (sI3).view.loc (thr3 d L)) (q := fullShare.right) (f := g5) (Finset.subset_univ ((offsC3 (2 * k.val + 1) (lt16b hk8)).view.set : Finset S1280.Idx))).2 $$ [HoB H5R]
    · isplitl [HoB] <;> iassumption
    ihave H7 := (rowsB_join3 d L _ _) $$ [HdB H7]
    · isplitl [HdB] <;> iassumption
    sl_exec
    ihave HtR := (aside_intro _) $$ HtR
    ihave H5R := (aside_intro _) $$ H5R
    ihave H7 := (aside_intro _) $$ H7
    sl_step
    rw [eqA3s k hc hk7, eqB3s k hc2 hk7]
    isplitr [HO H6 H8 HtL HtR HfA HfB H7 H5L H5R]
    · iexact Hlv
    iexists _, _, _, _, _, _, _
    isplitl [HO]; · iexact HO
    isplitl [H6]; · iexact H6
    isplitl [H8]; · iexact H8
    isplitl [HtL]; · iexact HtL
    isplitl [HtR]; · iexact HtR
    isplitl [HfA]; · iexact HfA
    isplitl [HfB]; · iexact HfB
    isplitl [H7]; · iexact H7
    isplitl [H5L]; · iexact H5L
    isplitl [H5R]; · iexact H5R
    ipureintro
    refine ⟨?_, ?_, ?_, ?_⟩
    · intro p hp
      rcases Finset.mem_insert.mp hp with rfl | hp
      · exact Or.inr rfl
      rcases Finset.mem_insert.mp hp with rfl | hp
      · exact Or.inr rfl
      exact hfin.1 p hp
    · exact trip_out3 k _ ix g8 gA gB pA pB g6 _ _ _ _ _ _ _ _ _ _ _ _ _ _ _ _ hfin.2.1 hfin.2.2.1 hfin.2.2.2 hg6 hacc3 hacc4 hacc5 hacc6 hacc7 hacc8 hacc9 hacc10 hacc11 hacc12 hacc13 hacc14 hacc15 hacc16 hacc17 hacc18
    · exact gather_spec3 d L Tb ix g5 hg5 hix (2 * (k.val + 1)) (k3_off29 k) _ _
        ((k3_off29_eq k).trans (by rw [show 80 * (2 * (k.val + 1)) = 160 * k.val + 160 from by omega])) _ _
    · exact gather_spec3 d L Tb ix g5 hg5 hix (2 * (k.val + 1) + 1) (k3_off55 k) _ _
        ((k3_off55_eq k).trans (by rw [show 80 * (2 * (k.val + 1) + 1) = 160 * k.val + 240 from by omega])) _ _
  · -- the last trip: nothing more is started; everything comes back
    exact ring_trip_last3 d L q Tb tb ix g5 g6 O W k acc hg5 hg6 htb hix hO hc

end Cert.Proof.KI

end
-- ==== Proof.KI.Tile3.lean ====
/-
  One vector subcore's task of the second embedding-sum call, run from what it is handed to what it leaves.
-/
import proofs.«219250_g10247791969013_week1_w1_750_27_alg».proof.Proof.KI.Tile3Trip
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

/-! ## The task -/

variable (d : Dev nD) (L : grid3.Coords)

theorem ringInv3_last (q : PosShare TreeShare) (Tb : Buf (Elt F) ((tabM3).view.loc (thr3 d L)))
    (tb : S501760x128.Idx → Elt F .f32) (ix : S1280.Idx → Elt F .i32)
    (g5 : Buf (Elt F) ((sI3).view.loc (thr3 d L))) (g6 : Buf (Elt F) ((sH3).view.loc (thr3 d L)))
    (O : CellTallies nD τ sig (HIx 2)) (W : Waits sig (HIx 2)) (n : ℕ) (hn : ¬ n < 8) (a : Unit) :
    ringInv3 (F := F) d L q Tb tb ix g5 g6 O W n a = ringDone3 (F := F) d L q Tb tb ix g5 g6 O W := by
  unfold ringInv3; rw [dif_neg hn]

/-- An unmasked write through the whole-shape rectangle of a view is the write through the view. -/
theorem write_slice_whole3 {sg : RefSig} {κ : Kind} {sp : Space} {S : Shape} {e : EltTy} (v : View sg κ sp S e)
    (f : v.ty.Contents (Elt F)) (w : S.Idx → Elt F e) :
    (v.slice (Rect.whole S)).write (Elt F) f w Finset.univ = v.write (Elt F) f w Finset.univ := by
  funext i
  by_cases hi : i ∈ v.setOn Finset.univ
  · obtain ⟨x, -, rfl⟩ := Finset.mem_map.mp hi
    have e1 : v.emb x = (v.slice (Rect.whole S)).emb x := by
      show v.emb x = v.emb ((Rect.whole S).emb x); rw [Rect.emb_whole_apply]
    rw [View.write_emb_of_mem _ _ (Finset.mem_univ x)]
    conv_lhs => rw [e1]
    rw [View.write_emb_of_mem _ _ (Finset.mem_univ x)]
  · rw [View.write_of_not_mem _ _ _ hi, View.write_of_not_mem _ _ _ (fun h => hi (by
      obtain ⟨x, -, hx⟩ := Finset.mem_map.mp h
      exact Finset.mem_map.mpr ⟨(Rect.whole S).emb x, Finset.mem_univ _, hx⟩))]

set_option maxHeartbeats 4000000 in
/-- One vector subcore's task of the second embedding-sum call: handed a share of the pair table, a share of its 1280
    index words (each below 100000), its 64 result rows at any contents, its own buffers and semaphores, it runs to
    its end, gives the shares back unchanged and leaves its result rows at `OUT3`. -/
theorem tile3_body (hF : (K (F := F)).Facts) (q qi : PosShare TreeShare)
    (Tb : Buf (Elt F) ((tabM3).view.loc (thr3 d L))) (Ix : Buf (Elt F) ((idxSl3 L).view.loc (thr3 d L)))
    (fo : Buf (Elt F) ((outSl3 L).view.loc (thr3 d L)))
    (hIx : ∀ j, ((idxSl3 L).view.read (Elt F) Ix j).toNat < 100000)
    (O : CellTallies nD τ sig (HIx 2)) (W : Waits sig (HIx 2)) (hO : ∀ g, O g none = 0) :
    iprop(levAts (K (F := F)).L (K (F := F)).lev
        ∗ ((tabM3).view.loc (thr3 d L) ↦[(tabM3).view.set]{q} Tb)
        ∗ ((idxSl3 L).view.loc (thr3 d L) ↦[(idxSl3 L).view.set]{qi} Ix)
        ∗ ((outSl3 L).view.loc (thr3 d L) ↦[(outSl3 L).view.set]{fullShare} fo)
        ∗ scopedBufs (thr3 d L) ∗ scopedSems0 (thr3 d L) ∗ owes (thr3 d L) O W)
      ⊢ (wp frame (wpE (defs₀ (F := F)) 𝒱₀ (thr3 d L) none) Set.univ
          (cc3__emb_body L tabM3 (Memref.isWhole_whole _) idxM3 (Memref.isWhole_whole _) outM3 (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            cc3_scratch4 cc3_scratch5 cc3_scoped0 cc3_scoped1)
          fun _ => iprop(((tabM3).view.loc (thr3 d L) ↦[(tabM3).view.set]{q} Tb)
            ∗ ((idxSl3 L).view.loc (thr3 d L) ↦[(idxSl3 L).view.set]{qi} Ix)
            ∗ ((outSl3 L).view.loc (thr3 d L) ↦[(outSl3 L).view.set]{fullShare}
                ((outSl3 L).view.write (Elt F) fo (OUT3 ((tabM3).view.read (Elt F) Tb) ((idxSl3 L).view.read (Elt F) Ix)) Finset.univ))
            ∗ scopedBufs (thr3 d L) ∗ scopedSems0 (thr3 d L)
            ∗ ∃ W', ⌜∀ p ∈ W', p ∈ W ∨ p.2 = none⌝ ∗ owes (thr3 d L) O W') : sProp 𝕄) := by
  rw [(K (F := F)).scopedBufs_V hF d (cV3 L) (jV3 L), SparseCore.Cfg.scopedSems0_V (Val := Elt F) d (cV3 L) (jV3 L), ownSems0_V3, ownBufs_V3]
  iintro ⟨#Hlv, Ht, Hi, Ho, ⟨⟨%f5, H5⟩, ⟨%f6, H6⟩, ⟨%f7, H7⟩, ⟨%f8, H8⟩, Hbufs⟩, ⟨HsA, HsB, HsC, HsD, Hsems⟩, HO⟩
  ihave #Hmw := ((K (F := F)).mayWaits_none (thr := thr3 d L) hO) $$ Hlv
  -- the table's share in two halves, one per gather buffer; the second set aside until the first gather is out
  ihave Ht2 := (pointsTo_share (PosShare.mem_left_op_right q)).1 $$ Ht
  icases Ht2 with ⟨HtL, HtR⟩
  ihave HtR' := (aside_intro _) $$ HtR
  sl_unfold [cc3__emb_body, k3_part13]
  -- the copy in
  sl_exec
  -- the rewrite of the list
  sl_for (xfInv3 (F := F) d L ((idxSl3 L).view.read (Elt F) Ix)) $$ [H5 H6]
  · exact xform_trip3 d L _
  · unfold xfInv3
    iexists _, _
    isplitl [H5]; · iexact H5
    isplitl [H6]; · iexact H6
    ipureintro
    exact ⟨ZI5_zero3 _ _ _, ZI6_zero3 _⟩
  iintro %acc HI
  unfold xfInv3
  icases HI with ⟨%g5, %g6, H5, H6, %hP⟩
  -- every rewritten word names a row of the pair table
  have hall : ∀ y, ((sI3).view.read (Elt F) g5 y).toNat < 501760 := fun y => (rew_toNat3 (F := F) _ _ hP.1 hIx y).2
  have hin0 : ∀ x, ((sI3.slice (Rect.unit (s := S1280) ![0] S80.size inb_S1280_S80_0) (fun _ => rfl)).view.read (Elt F) g5 x).toNat < 501760 := fun x => hall _
  have hin1 : ∀ x, ((sI3.slice (Rect.unit (s := S1280) ![80] S80.size inb_S1280_S80_80) (fun _ => rfl)).view.read (Elt F) g5 x).toNat < 501760 := fun x => hall _
  -- the list in two halves too, one per gather chain; the second set aside until the first gather is out
  ihave H5s := (pointsTo_share (PosShare.mem_left_op_right fullShare)).1 $$ H5
  icases H5s with ⟨H5L, H5R⟩
  ihave H5R' := (aside_intro _) $$ H5R
  -- the first two gathers
  sl_exec
  ihave HtL := (aside_intro _) $$ HtL
  ihave H5L := (aside_intro _) $$ H5L
  ihave HtR := (aside_elim _) $$ HtR'
  ihave H5R := (aside_elim _) $$ H5R'
  sl_exec
  -- the ring of gathers
  ihave HtR := (aside_intro _) $$ HtR
  ihave H5R := (aside_intro _) $$ H5R
  ihave H7 := (aside_intro _) $$ H7
  sl_for (fun k a => iprop(levAts (K (F := F)).L (K (F := F)).lev
      ∗ ringInv3 (F := F) d L q Tb ((tabM3).view.read (Elt F) Tb) ((idxSl3 L).view.read (Elt F) Ix) g5 g6 O
          (insert (SemLoc.dma cc3_scoped0.sem, (default : HIx 2)) W) k a)) $$ [Hlv HsA HtL HsB HtR H7 H5L H5R H6 H8 HO]
  · intro k acc
    exact ring_trip3 d L q Tb _ _ g5 g6 O _ k acc hP.1 hP.2 rfl hIx hO
  · -- ENTRY: the state after the two first gathers is the invariant before trip 0
    unfold ringInv3
    rw [dif_pos (show (0 : ℕ) < 8 by decide)]
    unfold ringBusy3 flight3
    isplitr; · iexact Hlv
    iexists f7, _, _, f8, (insert (SemLoc.dma cc3_scoped0.sem, (default : HIx 2)) W), _, _
    isplitl [HO]; · iexact HO
    isplitl [H6]; · iexact H6
    isplitl [H8]; · iexact H8
    isplitl [HtL]; · iexact HtL
    isplitl [HtR]; · iexact HtR
    isplitl [HsA]; · iexact HsA
    isplitl [HsB]; · iexact HsB
    isplitl [H7]; · iexact H7
    isplitl [H5L]; · iexact H5L
    isplitl [H5R]; · iexact H5R
    ipureintro
    refine ⟨fun p hp => Or.inl hp, OutOK3_zero _ _ _, ?_, ?_⟩
    · exact gather_spec3 d L Tb _ g5 hP.1 hIx 0 ![0] inb_S1280_S80_0 _ rfl rfl hin0
    · exact gather_spec3 d L Tb _ g5 hP.1 hIx 1 ![80] inb_S1280_S80_80 _ rfl rfl hin1
  iintro %acc2 HI
  -- TAIL: the invariant after trip 8, the copy out, the post
  icases HI with ⟨-, HI⟩
  ihave HI := (Entails.of_eq (ringInv3_last d L q Tb _ _ g5 g6 O _ _ (by decide) acc2)) $$ HI
  unfold ringDone3
  icases HI with ⟨%gR, %g8, %W', HO, H6, H8, HtLr, HtRr, HsA, HsB, H7, H5, HtA, HtB, %hfin⟩
  ihave HtLr := (aside_elim _) $$ HtLr
  ihave HtRr := (aside_elim _) $$ HtRr
  have hsub : ((tabSl3).view.set : Finset (Idx ((tabM3).view.loc (thr3 d L)))) ⊆ (tabM3).view.set := View.set_slice_subset (tabM3).view _
  ihave HtL := (pointsTo_split_subset (ℓ := (tabM3).view.loc (thr3 d L)) (q := q.left) (f := Tb) hsub).2 $$ [HtA HtLr]
  · isplitl [HtA]; · iexact HtA
    iexact HtLr
  ihave HtR := (pointsTo_split_subset (ℓ := (tabM3).view.loc (thr3 d L)) (q := q.right) (f := Tb) hsub).2 $$ [HtB HtRr]
  · isplitl [HtB]; · iexact HtB
    iexact HtRr
  ihave Ht := (pointsTo_share (PosShare.mem_left_op_right q)).2 $$ [HtL HtR]
  · isplitl [HtL]; · iexact HtL
    iexact HtR
  -- the copy out
  sl_exec
  sl_step
  -- the block of sums is the specification's, all 64 rows of it
  have hOut : (sO3).view.read (Elt F) g8 = OUT3 ((tabM3).view.read (Elt F) Tb) ((idxSl3 L).view.read (Elt F) Ix) :=
    funext fun x => hfin.2 x (by have h64 : (x 0).val < 64 := (x 0).isLt; omega)
  have hpay : tile3_body.sl.dma0_1 d L g8 = (sO3).view.read (Elt F) g8 := rfl
  have hval : (outSl3 L).view.writes (Elt F) fo [⟨Rect.whole S64x128, tile3_body.sl.dma0_1 d L g8⟩]
      = (outSl3 L).view.write (Elt F) fo (OUT3 ((tabM3).view.read (Elt F) Tb) ((idxSl3 L).view.read (Elt F) Ix)) Finset.univ := by
    rw [hpay, hOut, View.writes_singleton]; exact write_slice_whole3 _ _ _
  rw [← hval]
  isplitl [Ht]; · iexact Ht
  isplitl [Hi]; · iexact Hi
  isplitl [Ho]; · iexact Ho
  isplitl [H5 H6 H7 H8 Hbufs]
  · isplitl [H5]; · iexists g5; iexact H5
    isplitl [H6]; · iexists g6; iexact H6
    isplitl [H7]; · iexists gR; iexact H7
    isplitl [H8]; · iexists g8; iexact H8
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists (insert (SemLoc.dma cc3_scoped1.sem, (default : HIx 2)) W')
  isplitr
  · ipureintro
    intro p hp
    rcases Finset.mem_insert.mp hp with rfl | hp
    · exact Or.inr rfl
    · rcases hfin.1 p hp with h | h
      · rcases Finset.mem_insert.mp h with rfl | h
        · exact Or.inr rfl
        · exact Or.inl h
      · exact Or.inr h
  iexact HO
-- ==== Proof.KI.LeavesTile.lean ====
/-
  The two statements about one vector subcore's task that the launch rests on, from their proofs.
-/
import proofs.«219250_g10247791969013_week1_w1_750_27_alg».proof.Proof.KI.Spec
import proofs.«219250_g10247791969013_week1_w1_750_27_alg».proof.Proof.KI.Tile2
import proofs.«219250_g10247791969013_week1_w1_750_27_alg».proof.Proof.KI.Tile3

noncomputable section

namespace Cert.Proof.KI

open Cert.KernelIdeal Cert.KernelIdeal.Gen

open Idealize.ShloMosaic

variable {F : FTy → Type} [FloatOps F]

theorem tileBody2 : TileBody2 F := fun d L hF q qi Tb Ix fo hIx O W hO => tile2_body d L hF q qi Tb Ix fo hIx O W hO

theorem tileBody3 : TileBody3 F := fun d L hF q qi Tb Ix fo hIx O W hO => tile3_body d L hF q qi Tb Ix fo hIx O W hO

end Cert.Proof.KI

end
-- ==== Proof.KB.Base.lean ====
/-
  The kernel program as the SparseCore launch theorem sees it, and the resource algebra every part of its
  proof is stated over: the launch handshakes' rounds, the two pipelined transposes' staging cells (rounds with unit
  duties), and the schedule-free counters of the vector subcores' own copies and gathers.
-/
import proofs.«219250_g10247791969013_week1_w1_750_27_alg».proof.Kernel
import proofs.«219250_g10247791969013_week1_w1_750_27_alg».proof.Proof.Gen.Kernel
import proofs.«219250_g10247791969013_week1_w1_750_27_alg».proof.Proof.Gen.Kernel.Launch
import Idealize.ShloMosaic.Lib.SparseCore.Launch
import Idealize.ShloMosaic.Lib.Pipeline.Kit
import Idealize.ShloMosaic.Lib.Pipeline.Regions
import Idealize.ShloMosaic.Lib.Transfers
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The label signature under the SparseCore calls: the kernels' labels and the two pipelined regions. -/
abbrev ΛP : Labels := Pipeline.Sig Λ₀ (Fin 2) fun p => (pcfgs (F := F) p).Adm
/-- The two SparseCore calls of @main. -/
abbrev K : SparseCore.Cfg τ sig (ΛP (F := F)) 2 := sc (F := F)
/-- The body table under them. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_q (q : Fin 2) : (K (F := F)).nCore q = 2 := by fin_cases q <;> rfl
theorem nSub_q (q : Fin 2) : (K (F := F)).nSub q = 16 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, staging cells, and the counters of the tiles' own transfers (found by instance in the right factor). -/
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

instance EP_landsIn : (EP : Emb UP 𝕄).LandsIn (upEmb : UEmb _ 𝕄) := by unfold EP; infer_instance

end Cert.Proof.KB

end
-- ==== Proof.KB.Host.lean ====
/-
  @main of the kernel program, cut at its four kernel launches: three straight stretches of host
  operations (the numeric features' slices and the transposed tables; the two flat index lists; the final sum and
  reshape) around the two pipelined transposes and the two SparseCore calls, and the valuations the stretches
  leave.
-/
import proofs.«219250_g10247791969013_week1_w1_750_27_alg».proof.Proof.KB.Base
import Idealize.ShloMosaic.Lib.StableHlo.Run

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.Sem
open Idealize.ShloMosaic.StableHlo

variable {F : FTy → Type} [FloatOps F]

/-- The first stretch: the numeric columns sliced out, converted and cut into the past and future windows; the
    tables with their last two axes swapped. -/
abbrev opsA : List (HloOp τ sig (Elt F)) :=
  [
    unary main_arg0 main_v0 ((extractStridedSlice S4096x64x10 ![0, 0, 26] · slices_S4096x64x36_S4096x64x10_0_0_26) : (⟨S4096x64x36, .i32⟩ : BufTy).Contents (Elt F) → (⟨S4096x64x10, .i32⟩ : BufTy).Contents (Elt F)),
    unary main_v0 main_v1 (sitofp .f32 : (⟨S4096x64x10, .i32⟩ : BufTy).Contents (Elt F) → (⟨S4096x64x10, .f32⟩ : BufTy).Contents (Elt F)),
    unary main_v1 main_v2 ((extractStridedSlice S4096x52x10 ![0, 0, 0] · slices_S4096x64x10_S4096x52x10_0_0_0) : (⟨S4096x64x10, .f32⟩ : BufTy).Contents (Elt F) → (⟨S4096x52x10, .f32⟩ : BufTy).Contents (Elt F)),
    unary main_v1 main_v3 ((extractStridedSlice S4096x12x10 ![0, 52, 0] · slices_S4096x64x10_S4096x12x10_0_52_0) : (⟨S4096x64x10, .f32⟩ : BufTy).Contents (Elt F) → (⟨S4096x12x10, .f32⟩ : BufTy).Contents (Elt F)),
    unary main_arg2 main_v4 ((transpose S26x64x100000 [0, 2, 1] · transposes_S26x100000x64_S26x64x100000_0_2_1) : (⟨S26x100000x64, .f32⟩ : BufTy).Contents (Elt F) → (⟨S26x64x100000, .f32⟩ : BufTy).Contents (Elt F)) ]

/-- The second stretch: the index columns 0–15 and 16–25 of time step 0, each flattened batch-major. -/
abbrev opsB : List (HloOp τ sig (Elt F)) :=
  [
    unary main_arg0 main_v7 ((extractStridedSlice S4096x1x16 ![0, 0, 0] · slices_S4096x64x36_S4096x1x16_0_0_0) : (⟨S4096x64x36, .i32⟩ : BufTy).Contents (Elt F) → (⟨S4096x1x16, .i32⟩ : BufTy).Contents (Elt F)),
    reshape main_v7 main_v8 rfl shapeCasts_S4096x1x16_S4096x16,
    reshape main_v8 main_v9 rfl shapeCasts_S4096x16_S65536,
    unary main_arg0 main_v10 ((extractStridedSlice S4096x1x10 ![0, 0, 16] · slices_S4096x64x36_S4096x1x10_0_0_16) : (⟨S4096x64x36, .i32⟩ : BufTy).Contents (Elt F) → (⟨S4096x1x10, .i32⟩ : BufTy).Contents (Elt F)),
    reshape main_v10 main_v11 rfl shapeCasts_S4096x1x10_S4096x10,
    reshape main_v11 main_v12 rfl shapeCasts_S4096x10_S40960 ]

/-- The last stretch: the two partial sums added and reshaped to one row per batch element. -/
abbrev opsC : List (HloOp τ sig (Elt F)) :=
  [
    binary main_v13 main_v14 main_v15 (addf : (⟨S2048x128, .f32⟩ : BufTy).Contents (Elt F) → (⟨S2048x128, .f32⟩ : BufTy).Contents (Elt F) → (⟨S2048x128, .f32⟩ : BufTy).Contents (Elt F)),
    reshape main_v15 main_v16 rfl shapeCasts_S2048x128_S4096x64 ]

/-- @main is the three stretches around its four launches. -/
theorem main_eq (d : Dev nD) :
    main (F := F) d
      = (seq opsA >>= fun _ =>
          Prog.lift (.customCall (SparseCore.inner (Pipeline.entry 0)) ()) >>= fun _ =>
          Prog.lift (.customCall (SparseCore.inner (Pipeline.entry 1)) ()) >>= fun _ =>
          seq opsB >>= fun _ =>
          (sc (F := F)).run d 0 >>= fun _ =>
          (sc (F := F)).run d 1 >>= fun _ =>
          seq opsC) := rfl

/-- The launch valuation of device d, and the valuations after the first two stretches (the second stretch reads
    only the input, so it is taken from the first stretch's valuation whatever the transposes wrote). -/
abbrev V0 (m : (ℓ : Loc nD τ sig) → Buf (Elt F) ℓ) (d : Dev nD) : Valuation τ sig (Elt F) := launchContents m d
def VA (m : (ℓ : Loc nD τ sig) → Buf (Elt F) ℓ) (d : Dev nD) : Valuation τ sig (Elt F) := after opsA (V0 m d)
def VB (m : (ℓ : Loc nD τ sig) → Buf (Elt F) ℓ) (d : Dev nD) : Valuation τ sig (Elt F) := after opsB (VA m d)

end Cert.Proof.KB

end
-- ==== Proof.KB.Tile2Defs.lean ====
/-
  One vector subcore's task of the first embedding-sum call: what it is handed, what it leaves, and the value it
  writes. The task copies its 2048 index words into its own memory, turns each into a row number of the
  pair table (the word plus (position mod 16 / 2) * 100352) beside the lane offset (position mod 16 mod 2) * 64,
  gathers the named rows 128 at a time through two buffers, adds up sixteen gathered half-rows per batch row, and
  copies its 64 x 128 block of sums out.
-/
import proofs.«219250_g10247791969013_week1_w1_750_27_alg».proof.Proof.KB.Base
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The place -/

/-- The SparseCore of grid point `L`. -/
abbrev cV2 (L : grid2.Coords) : Fin τ.nSC := (L 0).castLE hcore2
/-- Its vector subcore. -/
abbrev jV2 (L : grid2.Coords) : Fin τ.nSub := (L 1).castLE hsub2
/-- The thread that runs the task of grid point `L` on device `d`. -/
abbrev thr2 (d : Dev nD) (L : grid2.Coords) : Thread nD τ := V d (cV2 L) (jV2 L)

/-- The pair table, whole. -/
abbrev tabM2 : Memref sig .scVector .hbm S802816x128 .f32 := Memref.whole main_v5_scv
/-- The flat index list, whole. -/
abbrev idxM2 : Memref sig .scVector .hbm S65536 .i32 := Memref.whole main_v9_scv
/-- The result, whole. -/
abbrev outM2 : Memref sig .scVector .hbm S2048x128 .f32 := Memref.whole main_v13_scv
/-- The 2048 index words of grid point `L`, as the task slices them. -/
abbrev idxSl2 (L : grid2.Coords) : Memref sig .scVector .hbm S2048 .i32 :=
  idxM2.slice (Rect.unit (s := S65536) (k2_off1 L) S2048.size (k2_off1_inb L)) (fun _ => rfl)
/-- The 64 result rows of grid point `L`, as the task slices them. -/
abbrev outSl2 (L : grid2.Coords) : Memref sig .scVector .hbm S64x128 .f32 :=
  outM2.slice (Rect.unit (s := S2048x128) (k2_off56 L) S64x128.size (k2_off56_inb L)) (fun _ => rfl)

/-! ## The value -/

/-- The zero word the sums start from. -/
def zf2 : Elt F .f32 := (Scalar.ofBits .f32 0x00000000#32 : F .f32)

/-- The table row the task's list names at position `p` after its rewrite: the index word there plus
    `(p mod 16 / 2) * 100352` (the pair's block of rows). -/
def gRow2 (ix : S2048.Idx → Elt F .i32) (p : ℕ) : ℕ :=
  if h : p < 2048 then (ix (ValueIdx.ix1 ⟨p, h⟩)).toNat + p % 16 / 2 * 100352 else 0

/-- The table at row `r`, column `c` (the zero word outside it). -/
def tbAt2 (tb : S802816x128.Idx → Elt F .f32) (r c : ℕ) : Elt F .f32 :=
  if h : r < 802816 ∧ c < 128 then tb (ValueIdx.ix2 ⟨r, h.1⟩ ⟨c, h.2⟩) else zf2

/-- What the task leaves at row `x 0`, lane `x 1` of its block: batch row `b = 2 (x 0) + (x 1) / 64` of the task,
    lane `(x 1) mod 64` of the sum of its sixteen embedding rows — the `j`-th being the half `j mod 2` of table row
    `gRow2 ix (16 b + j)` — added up from the zero word in the order `j = 0, …, 15`. -/
def OUT2 (tb : S802816x128.Idx → Elt F .f32) (ix : S2048.Idx → Elt F .i32) : S64x128.Idx → Elt F .f32 := fun x =>
  (List.range 16).foldl (fun acc j =>
    (FloatOps.addf (acc : F .f32) (tbAt2 tb (gRow2 ix ((2 * (x 0).val + (x 1).val / 64) * 16 + j)) (j % 2 * 64 + (x 1).val % 64)) : F .f32)) zf2

end Cert.Proof.KB

end
-- ==== Proof.KB.Tile3Defs.lean ====
/-
  One vector subcore's task of the second embedding-sum call: what it is handed, what it leaves, and the value it
  writes. The task copies its 1280 index words into its own memory, turns each into a row number of the
  pair table (the word plus (position mod 10 / 2) * 100352) beside the lane offset (position mod 10 mod 2) * 64,
  gathers the named rows 80 at a time through two buffers, adds up ten gathered half-rows per batch row, and
  copies its 64 x 128 block of sums out.
-/
import proofs.«219250_g10247791969013_week1_w1_750_27_alg».proof.Proof.KB.Base
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The place -/

/-- The SparseCore of grid point `L`. -/
abbrev cV3 (L : grid3.Coords) : Fin τ.nSC := (L 0).castLE hcore3
/-- Its vector subcore. -/
abbrev jV3 (L : grid3.Coords) : Fin τ.nSub := (L 1).castLE hsub3
/-- The thread that runs the task of grid point `L` on device `d`. -/
abbrev thr3 (d : Dev nD) (L : grid3.Coords) : Thread nD τ := V d (cV3 L) (jV3 L)

/-- The pair table, whole. -/
abbrev tabM3 : Memref sig .scVector .hbm S501760x128 .f32 := Memref.whole main_v6_scv
/-- The flat index list, whole. -/
abbrev idxM3 : Memref sig .scVector .hbm S40960 .i32 := Memref.whole main_v12_scv
/-- The result, whole. -/
abbrev outM3 : Memref sig .scVector .hbm S2048x128 .f32 := Memref.whole main_v14_scv
/-- The 1280 index words of grid point `L`, as the task slices them. -/
abbrev idxSl3 (L : grid3.Coords) : Memref sig .scVector .hbm S1280 .i32 :=
  idxM3.slice (Rect.unit (s := S40960) (k3_off1 L) S1280.size (k3_off1_inb L)) (fun _ => rfl)
/-- The 64 result rows of grid point `L`, as the task slices them. -/
abbrev outSl3 (L : grid3.Coords) : Memref sig .scVector .hbm S64x128 .f32 :=
  outM3.slice (Rect.unit (s := S2048x128) (k3_off56 L) S64x128.size (k3_off56_inb L)) (fun _ => rfl)

/-! ## The value -/

/-- The zero word the sums start from. -/
def zf3 : Elt F .f32 := (Scalar.ofBits .f32 0x00000000#32 : F .f32)

/-- The table row the task's list names at position `p` after its rewrite: the index word there plus
    `(p mod 10 / 2) * 100352` (the pair's block of rows). -/
def gRow3 (ix : S1280.Idx → Elt F .i32) (p : ℕ) : ℕ :=
  if h : p < 1280 then (ix (ValueIdx.ix1 ⟨p, h⟩)).toNat + p % 10 / 2 * 100352 else 0

/-- The table at row `r`, column `c` (the zero word outside it). -/
def tbAt3 (tb : S501760x128.Idx → Elt F .f32) (r c : ℕ) : Elt F .f32 :=
  if h : r < 501760 ∧ c < 128 then tb (ValueIdx.ix2 ⟨r, h.1⟩ ⟨c, h.2⟩) else zf3

/-- What the task leaves at row `x 0`, lane `x 1` of its block: batch row `b = 2 (x 0) + (x 1) / 64` of the task,
    lane `(x 1) mod 64` of the sum of its ten embedding rows — the `j`-th being the half `j mod 2` of table row
    `gRow3 ix (10 b + j)` — added up from the zero word in the order `j = 0, …, 9`. -/
def OUT3 (tb : S501760x128.Idx → Elt F .f32) (ix : S1280.Idx → Elt F .i32) : S64x128.Idx → Elt F .f32 := fun x =>
  (List.range 10).foldl (fun acc j =>
    (FloatOps.addf (acc : F .f32) (tbAt3 tb (gRow3 ix ((2 * (x 0).val + (x 1).val / 64) * 10 + j)) (j % 2 * 64 + (x 1).val % 64)) : F .f32)) zf3

end Cert.Proof.KB

end
-- ==== Proof.KB.Pay.lean ====
/-
  What the launch handshakes of the two SparseCore calls carry. Each call reads a pair table whole (every one of
  the 32 tasks holds a read share of it), cuts the flat index list into the tasks' 32 runs of words and the result
  into their 32 blocks of 64 rows; a task hands back its block at the sums of its batch rows. A SparseCore's part
  is the product of its sixteen tasks' parts, so the sequencer's split is the identity.

  The pair table a call finds is what the pipelined transpose before it wrote: on the rows of a pair's block below
  the vocabulary's size it is the transposed tables' entry, and above them (the 352 rows the last input block
  overhangs by) it is not determined. A task never reads those rows, and what it leaves is stated over the
  determined part only.
-/
import proofs.«219250_g10247791969013_week1_w1_750_27_alg».proof.Proof.KB.Base
import proofs.«219250_g10247791969013_week1_w1_750_27_alg».proof.Proof.KB.Host
import proofs.«219250_g10247791969013_week1_w1_750_27_alg».proof.Proof.KB.Tile2Defs
import proofs.«219250_g10247791969013_week1_w1_750_27_alg».proof.Proof.KB.Tile3Defs
import Idealize.ShloMosaic.Lib.Transfers
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-- A buffer of @main on device d, as the TensorCore names it. -/
abbrev tl (d : Dev nD) (b : Ref sig .tc) : Loc nD τ sig := (SparseCore.T d).loc b

/-! ## What the arrays hold -/

/-- The transposed tables [26, 64, 100000] the first stretch leaves. -/
def tabT (d : Dev nD) : S26x64x100000.Idx → Elt F .f32 := VA m d (Proc.devRef .tc main_v4)
/-- The flat index lists the second stretch leaves: columns 0–15, and columns 16–25. -/
def idxA (d : Dev nD) : S65536.Idx → Elt F .i32 := VB m d (Proc.devRef .tc main_v9)
def idxB (d : Dev nD) : S40960.Idx → Elt F .i32 := VB m d (Proc.devRef .tc main_v12)

/-- The pair table of pairs first, first + 1, …: row k * 100352 + v, lane h * 64 + e holds table 2 (first + k) + h,
    entry (v, e); stated with the vocabulary coordinate clamped, so that it is one total function (the clamp is
    never met on the rows a task reads). -/
def pairTab (first : ℕ) (npairs : ℕ) (A : S26x64x100000.Idx → Elt F .f32) (hn : 2 * (first + npairs) ≤ 26) :
    (⟨2, ![npairs * 100352, 128]⟩ : Shape).Idx → Elt F .f32 := fun i =>
  A (ix3 (⟨2 * (first + (i 0).val / 100352) + (i 1).val / 64, by
        have h0 : (i 0).val < npairs * 100352 := (i 0).isLt
        have h1 : (i 1).val < 128 := (i 1).isLt
        omega⟩ : Fin 26)
      (⟨(i 1).val % 64, Nat.mod_lt _ (by decide)⟩ : Fin 64)
      (⟨min ((i 0).val % 100352) 99999, by omega⟩ : Fin 100000))

/-- A table array agrees with the pair table on every row below the vocabulary's size within its pair's block. -/
def TabOK {n : ℕ} (want tb : (⟨2, ![n, 128]⟩ : Shape).Idx → Elt F .f32) : Prop :=
  ∀ i, (i 0).val % 100352 < 100000 → tb i = want i

/-- The read share of a pair table that the task at (c, s) holds: the full share cut in two for the SparseCores, each
    half in sixteen for its vector subcores. -/
abbrev tok (c : Fin 2) (s : Fin 16) : PosShare TreeShare :=
  Transfers.shareTok (Transfers.shareTok fullShare 2 c) 16 s

/-! ## Call 0: the tasks' parts -/

/-- Grid coordinates from a SparseCore and a vector subcore of the call's grid. -/
def coords2 (c : Fin 2) (s : Fin 16) : grid2.Coords :=
  fun | 0 => c | 1 => s | ⟨_ + 2, h⟩ => absurd h (Nat.not_lt.2 (Nat.le_add_left _ _))

/-- The call's pair table: pairs 0–7. -/
def wantA (d : Dev nD) : S802816x128.Idx → Elt F .f32 := pairTab 0 8 (tabT m d) (by decide)

/-- What the task at grid point L is handed: a read share q of the pair table (at contents that agree with the pair
    table where it is determined), its run of index words, and its block of result rows at any contents. -/
def tileIn2 (d : Dev nD) (L : grid2.Coords) (q : PosShare TreeShare) : sProp 𝕄 :=
  iprop((∃ Tb : S802816x128.Idx → Elt F .f32, ⌜TabOK (wantA m d) Tb⌝ ∗ (tl d main_v5 ↦{q} Tb))
        ∗ (tl d main_v9 ↦[(idxSl2 L).view.set]{fullShare} idxA m d)
        ∗ ∃ fo : S2048x128.Idx → Elt F .f32, tl d main_v13 ↦[(outSl2 L).view.set]{fullShare} fo)

/-- What it hands back: its block of result rows at the sums over the pair table of its run of index words. -/
def tileOut2 (d : Dev nD) (L : grid2.Coords) : sProp 𝕄 :=
  iprop(∃ fo : S2048x128.Idx → Elt F .f32, tl d main_v13 ↦[(outSl2 L).view.set]{fullShare}
    ((outSl2 L).view.write (Elt F) fo (OUT2 (wantA m d) ((idxSl2 L).view.read (Elt F) (idxA m d))) Finset.univ))

/-! ## Call 1: the tasks' parts -/

/-- Grid coordinates from a SparseCore and a vector subcore of the call's grid. -/
def coords3 (c : Fin 2) (s : Fin 16) : grid3.Coords :=
  fun | 0 => c | 1 => s | ⟨_ + 2, h⟩ => absurd h (Nat.not_lt.2 (Nat.le_add_left _ _))

/-- The call's pair table: pairs 8–12. -/
def wantB (d : Dev nD) : S501760x128.Idx → Elt F .f32 := pairTab 8 5 (tabT m d) (by decide)

/-- What the task at grid point L is handed: a read share q of the pair table (at contents that agree with the pair
    table where it is determined), its run of index words, and its block of result rows at any contents. -/
def tileIn3 (d : Dev nD) (L : grid3.Coords) (q : PosShare TreeShare) : sProp 𝕄 :=
  iprop((∃ Tb : S501760x128.Idx → Elt F .f32, ⌜TabOK (wantB m d) Tb⌝ ∗ (tl d main_v6 ↦{q} Tb))
        ∗ (tl d main_v12 ↦[(idxSl3 L).view.set]{fullShare} idxB m d)
        ∗ ∃ fo : S2048x128.Idx → Elt F .f32, tl d main_v14 ↦[(outSl3 L).view.set]{fullShare} fo)

/-- What it hands back: its block of result rows at the sums over the pair table of its run of index words. -/
def tileOut3 (d : Dev nD) (L : grid3.Coords) : sProp 𝕄 :=
  iprop(∃ fo : S2048x128.Idx → Elt F .f32, tl d main_v14 ↦[(outSl3 L).view.set]{fullShare}
    ((outSl3 L).view.write (Elt F) fo (OUT3 (wantB m d) ((idxSl3 L).view.read (Elt F) (idxB m d))) Finset.univ))

/-! ## The record -/

/-- What the handshakes carry: a SparseCore's part of a call is the product of its sixteen tasks' parts, both ways;
    no kernel's proof consumes anything of the launch's. -/
def P : (K (F := F)).Pay (nD := nD) (Val := Elt F) (Name := ℕ) (U := UU) where
  st := fun
    | 0 => fun d (c : Fin 2) => bigSep Finset.univ fun s : Fin 16 => tileIn2 m d (coords2 c s) (tok c s)
    | 1 => fun d (c : Fin 2) => bigSep Finset.univ fun s : Fin 16 => tileIn3 m d (coords3 c s) (tok c s)
    | ⟨_ + 2, h⟩ => absurd h (Nat.not_lt.2 (Nat.le_add_left _ _))
  dn := fun
    | 0 => fun d (c : Fin 2) => bigSep Finset.univ fun s : Fin 16 => tileOut2 m d (coords2 c s)
    | 1 => fun d (c : Fin 2) => bigSep Finset.univ fun s : Fin 16 => tileOut3 m d (coords3 c s)
    | ⟨_ + 2, h⟩ => absurd h (Nat.not_lt.2 (Nat.le_add_left _ _))
  go := fun
    | 0 => fun d (c : Fin 2) (s : Fin 16) => tileIn2 m d (coords2 c s) (tok c s)
    | 1 => fun d (c : Fin 2) (s : Fin 16) => tileIn3 m d (coords3 c s) (tok c s)
    | ⟨_ + 2, h⟩ => absurd h (Nat.not_lt.2 (Nat.le_add_left _ _))
  td := fun
    | 0 => fun d (c : Fin 2) (s : Fin 16) => tileOut2 m d (coords2 c s)
    | 1 => fun d (c : Fin 2) (s : Fin 16) => tileOut3 m d (coords3 c s)
    | ⟨_ + 2, h⟩ => absurd h (Nat.not_lt.2 (Nat.le_add_left _ _))
  x := fun _ _ => iprop(emp)

instance tileIn2_storable (d : Dev nD) (L : grid2.Coords) (q : PosShare TreeShare) : BI.Storable (upEmb : UEmb _ 𝕄) (tileIn2 m d L q) := by
  unfold tileIn2; infer_instance
instance tileOut2_storable (d : Dev nD) (L : grid2.Coords) : BI.Storable (upEmb : UEmb _ 𝕄) (tileOut2 m d L) := by
  unfold tileOut2; infer_instance
instance tileIn3_storable (d : Dev nD) (L : grid3.Coords) (q : PosShare TreeShare) : BI.Storable (upEmb : UEmb _ 𝕄) (tileIn3 m d L q) := by
  unfold tileIn3; infer_instance
instance tileOut3_storable (d : Dev nD) (L : grid3.Coords) : BI.Storable (upEmb : UEmb _ 𝕄) (tileOut3 m d L) := by
  unfold tileOut3; infer_instance

instance P_storable : (P (F := F) m).IsStorable where
  st q d c := match q with
    | 0 => (inferInstance : BI.Storable (upEmb : UEmb _ 𝕄) (bigSep Finset.univ fun s : Fin 16 => tileIn2 m d (coords2 c s) (tok c s)))
    | 1 => (inferInstance : BI.Storable (upEmb : UEmb _ 𝕄) (bigSep Finset.univ fun s : Fin 16 => tileIn3 m d (coords3 c s) (tok c s)))
  dn q d c := match q with
    | 0 => (inferInstance : BI.Storable (upEmb : UEmb _ 𝕄) (bigSep Finset.univ fun s : Fin 16 => tileOut2 m d (coords2 c s)))
    | 1 => (inferInstance : BI.Storable (upEmb : UEmb _ 𝕄) (bigSep Finset.univ fun s : Fin 16 => tileOut3 m d (coords3 c s)))
  go q d c s := match q with
    | 0 => (inferInstance : BI.Storable (upEmb : UEmb _ 𝕄) (tileIn2 m d (coords2 c s) (tok c s)))
    | 1 => (inferInstance : BI.Storable (upEmb : UEmb _ 𝕄) (tileIn3 m d (coords3 c s) (tok c s)))
  td q d c s := match q with
    | 0 => (inferInstance : BI.Storable (upEmb : UEmb _ 𝕄) (tileOut2 m d (coords2 c s)))
    | 1 => (inferInstance : BI.Storable (upEmb : UEmb _ 𝕄) (tileOut3 m d (coords3 c s)))

/-- The sequencer's split of a SparseCore's part into its tasks' parts, and the join back, are the identity. -/
theorem vecSplit (q : Fin 2) : (K (F := F)).VecSplit' (P m) q := by
  intro d c
  match q with
  | 0 =>
    show (bigSep Finset.univ fun s : Fin 16 => tileIn2 m d (coords2 c s) (tok c s)) ⊢ |={Set.univ}=> iprop(
      (bigSep Finset.univ fun s : Fin 16 => tileIn2 m d (coords2 c s) (tok c s))
      ∗ ((bigSep Finset.univ fun s : Fin 16 => tileOut2 m d (coords2 c s)) -∗ bigSep Finset.univ fun s : Fin 16 => tileOut2 m d (coords2 c s)))
    iintro H; imodintro
    isplitl [H]; · iexact H
    iintro H; iexact H
  | 1 =>
    show (bigSep Finset.univ fun s : Fin 16 => tileIn3 m d (coords3 c s) (tok c s)) ⊢ |={Set.univ}=> iprop(
      (bigSep Finset.univ fun s : Fin 16 => tileIn3 m d (coords3 c s) (tok c s))
      ∗ ((bigSep Finset.univ fun s : Fin 16 => tileOut3 m d (coords3 c s)) -∗ bigSep Finset.univ fun s : Fin 16 => tileOut3 m d (coords3 c s)))
    iintro H; imodintro
    isplitl [H]; · iexact H
    iintro H; iexact H

end Cert.Proof.KB

end
-- ==== Proof.KB.TransSpec.lean ====
import proofs.«219250_g10247791969013_week1_w1_750_27_alg».proof.Proof.KB.Base
import Idealize.ShloMosaic.Lib.ValueIdx

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

/-! ## What the two pipelined transposes compute

Pipeline 0 writes, for each of the first eight PAIRS of tables, the two tables of the pair side by side: row
`k * 100352 + v` of its result holds row `v` of table `2 k` in lanes `[0, 64)` and row `v` of table `2 k + 1` in lanes
`[64, 128)`, read off the transposed tables `A (table, d, v)`. Pipeline 1 does the same for pairs 8 … 12. The rows
`v ≥ 100000` of each pair (the part of the last block past the vocabulary) hold values nothing states. -/

/-- The pipelines' prefetched tables: none has one. -/
abbrev adm : (p : Fin 2) → (pcfgs (F := F) p).Adm := fun p => (cfgs p).toPCfg_adm

/-- Pipeline 0's result against the transposed tables. -/
def Trans0 (A : S26x64x100000.Idx → Elt F .f32) (f : S802816x128.Idx → Elt F .f32) : Prop :=
  ∀ (k v h d : ℕ) (hk : k < 8) (hv : v < 100000) (hh : h < 2) (hd : d < 64),
    f (ix2 (⟨k * 100352 + v, by omega⟩ : Fin 802816) (⟨h * 64 + d, by omega⟩ : Fin 128))
      = A (ix3 (⟨2 * k + h, by omega⟩ : Fin 26) (⟨d, hd⟩ : Fin 64) (⟨v, hv⟩ : Fin 100000))

/-- Pipeline 1's result against the transposed tables. -/
def Trans1 (A : S26x64x100000.Idx → Elt F .f32) (f : S501760x128.Idx → Elt F .f32) : Prop :=
  ∀ (k v h d : ℕ) (hk : k < 5) (hv : v < 100000) (hh : h < 2) (hd : d < 64),
    f (ix2 (⟨k * 100352 + v, by omega⟩ : Fin 501760) (⟨h * 64 + d, by omega⟩ : Fin 128))
      = A (ix3 (⟨2 * (k + 8) + h, by omega⟩ : Fin 26) (⟨d, hd⟩ : Fin 64) (⟨v, hv⟩ : Fin 100000))

/-- What the TensorCore holds of its own when it enters the first transpose: the transposed tables whole at `A`, the two
    results whole at anything, and what it owes, its recorded pairs at levels at most `b`. -/
def regPre (c : Dev nD) (A : S26x64x100000.Idx → Elt F .f32) (O : CellTallies nD τ sig (HIx 2)) (b : ℕ) : sProp 𝕄 :=
  iprop((((c.tc : Thread nD τ).loc main_v4) ↦{fullShare} A)
    ∗ (∃ f : S802816x128.Idx → Elt F .f32, ((c.tc : Thread nD τ).loc main_v5) ↦{fullShare} f)
    ∗ (∃ f : S501760x128.Idx → Elt F .f32, ((c.tc : Thread nD τ).loc main_v6) ↦{fullShare} f)
    ∗ ∃ W, ⌜(K (F := F)).WBelow (c.tc : Thread nD τ) W b⌝ ∗ owes (c.tc : Thread nD τ) O W)

/-- What it holds when it leaves the second: the tables unchanged, each result at contents that are the pairs side by
    side, and what it owes unchanged. -/
def regPost (c : Dev nD) (A : S26x64x100000.Idx → Elt F .f32) (O : CellTallies nD τ sig (HIx 2)) (b : ℕ) : sProp 𝕄 :=
  iprop((((c.tc : Thread nD τ).loc main_v4) ↦{fullShare} A)
    ∗ (∃ f : S802816x128.Idx → Elt F .f32, ⌜Trans0 A f⌝ ∗ ((c.tc : Thread nD τ).loc main_v5) ↦{fullShare} f)
    ∗ (∃ f : S501760x128.Idx → Elt F .f32, ⌜Trans1 A f⌝ ∗ ((c.tc : Thread nD τ).loc main_v6) ↦{fullShare} f)
    ∗ ∃ W, ⌜(K (F := F)).WBelow (c.tc : Thread nD τ) W b⌝ ∗ owes (c.tc : Thread nD τ) O W)

/-- The staging cells' ghost state of both pipelines on core `c`, as the launch element deals it. -/
def regGhost (c : Dev nD) : sProp 𝕄 :=
  iprop(Pipeline.cellsGhost (Pipeline.pin (pcfgs (F := F)) adm) EP 0 c ∗ Pipeline.toksInit (Pipeline.pin (pcfgs (F := F)) adm) EP 0 c
    ∗ Pipeline.cellsGhost (Pipeline.pin (pcfgs (F := F)) adm) EP 1 c ∗ Pipeline.toksInit (Pipeline.pin (pcfgs (F := F)) adm) EP 1 c)

end Cert.Proof.KB

end
-- ==== Proof.KB.Spec.lean ====
/-
  The four statements the launch of the kernel program rests on, each proved in a module of its own: one
  vector subcore's task of each SparseCore call as a triple, what the launch element funds for the two pipelined
  transposes, and the two transposes run in sequence on the TensorCore. Stated here once, so that the launch is a
  proof FROM them and each of them a proof OF exactly this text.
-/
import proofs.«219250_g10247791969013_week1_w1_750_27_alg».proof.Proof.KB.Base
import proofs.«219250_g10247791969013_week1_w1_750_27_alg».proof.Proof.KB.TransSpec
import proofs.«219250_g10247791969013_week1_w1_750_27_alg».proof.Proof.KB.Tile2Defs
import proofs.«219250_g10247791969013_week1_w1_750_27_alg».proof.Proof.KB.Tile3Defs

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable (F : FTy → Type) [FloatOps F]

local notation "𝕄" => MT nD τ sig (HIx 2) (Elt F) ℕ UU ℕ

/-- One vector subcore's task of SparseCore call 0, as a triple: handed a share of the pair table, a share of its run of
    index words (each below 100000), its 64 result rows at any contents, its own buffers and semaphores, and owing
    O with the recorded waits W, the task's body runs to its end, gives the shares back unchanged, leaves its
    result rows at the sums, and owes O still. -/
def TileBody2 : Prop :=
  ∀ (d : Dev nD) (L : grid2.Coords) (_hF : (K (F := F)).Facts) (q qi : PosShare TreeShare)
    (Tb : Buf (Elt F) ((tabM2).view.loc (thr2 d L))) (Ix : Buf (Elt F) ((idxSl2 L).view.loc (thr2 d L)))
    (fo : Buf (Elt F) ((outSl2 L).view.loc (thr2 d L)))
    (_hIx : ∀ j, ((idxSl2 L).view.read (Elt F) Ix j).toNat < 100000)
    (O : CellTallies nD τ sig (HIx 2)) (W : Waits sig (HIx 2)) (_hO : ∀ g, O g none = 0),
    iprop(levAts (K (F := F)).L (K (F := F)).lev
        ∗ ((tabM2).view.loc (thr2 d L) ↦[(tabM2).view.set]{q} Tb)
        ∗ ((idxSl2 L).view.loc (thr2 d L) ↦[(idxSl2 L).view.set]{qi} Ix)
        ∗ ((outSl2 L).view.loc (thr2 d L) ↦[(outSl2 L).view.set]{fullShare} fo)
        ∗ scopedBufs (thr2 d L) ∗ scopedSems0 (thr2 d L) ∗ owes (thr2 d L) O W)
      ⊢ (wp frame (wpE (defs₀ (F := F)) 𝒱₀ (thr2 d L) none) Set.univ
          (cc2__emb_body L tabM2 (Memref.isWhole_whole _) idxM2 (Memref.isWhole_whole _) outM2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            cc2_scratch4 cc2_scratch5 cc2_scoped0 cc2_scoped1)
          fun _ => iprop(((tabM2).view.loc (thr2 d L) ↦[(tabM2).view.set]{q} Tb)
            ∗ ((idxSl2 L).view.loc (thr2 d L) ↦[(idxSl2 L).view.set]{qi} Ix)
            ∗ ((outSl2 L).view.loc (thr2 d L) ↦[(outSl2 L).view.set]{fullShare}
                ((outSl2 L).view.write (Elt F) fo (OUT2 ((tabM2).view.read (Elt F) Tb) ((idxSl2 L).view.read (Elt F) Ix)) Finset.univ))
            ∗ scopedBufs (thr2 d L) ∗ scopedSems0 (thr2 d L)
            ∗ ∃ W', ⌜∀ p ∈ W', p ∈ W ∨ p.2 = none⌝ ∗ owes (thr2 d L) O W') : sProp 𝕄)

/-- One vector subcore's task of SparseCore call 1, as a triple: handed a share of the pair table, a share of its run of
    index words (each below 100000), its 64 result rows at any contents, its own buffers and semaphores, and owing
    O with the recorded waits W, the task's body runs to its end, gives the shares back unchanged, leaves its
    result rows at the sums, and owes O still. -/
def TileBody3 : Prop :=
  ∀ (d : Dev nD) (L : grid3.Coords) (_hF : (K (F := F)).Facts) (q qi : PosShare TreeShare)
    (Tb : Buf (Elt F) ((tabM3).view.loc (thr3 d L))) (Ix : Buf (Elt F) ((idxSl3 L).view.loc (thr3 d L)))
    (fo : Buf (Elt F) ((outSl3 L).view.loc (thr3 d L)))
    (_hIx : ∀ j, ((idxSl3 L).view.read (Elt F) Ix j).toNat < 100000)
    (O : CellTallies nD τ sig (HIx 2)) (W : Waits sig (HIx 2)) (_hO : ∀ g, O g none = 0),
    iprop(levAts (K (F := F)).L (K (F := F)).lev
        ∗ ((tabM3).view.loc (thr3 d L) ↦[(tabM3).view.set]{q} Tb)
        ∗ ((idxSl3 L).view.loc (thr3 d L) ↦[(idxSl3 L).view.set]{qi} Ix)
        ∗ ((outSl3 L).view.loc (thr3 d L) ↦[(outSl3 L).view.set]{fullShare} fo)
        ∗ scopedBufs (thr3 d L) ∗ scopedSems0 (thr3 d L) ∗ owes (thr3 d L) O W)
      ⊢ (wp frame (wpE (defs₀ (F := F)) 𝒱₀ (thr3 d L) none) Set.univ
          (cc3__emb_body L tabM3 (Memref.isWhole_whole _) idxM3 (Memref.isWhole_whole _) outM3 (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            cc3_scratch4 cc3_scratch5 cc3_scoped0 cc3_scoped1)
          fun _ => iprop(((tabM3).view.loc (thr3 d L) ↦[(tabM3).view.set]{q} Tb)
            ∗ ((idxSl3 L).view.loc (thr3 d L) ↦[(idxSl3 L).view.set]{qi} Ix)
            ∗ ((outSl3 L).view.loc (thr3 d L) ↦[(outSl3 L).view.set]{fullShare}
                ((outSl3 L).view.write (Elt F) fo (OUT3 ((tabM3).view.read (Elt F) Tb) ((idxSl3 L).view.read (Elt F) Ix)) Finset.univ))
            ∗ scopedBufs (thr3 d L) ∗ scopedSems0 (thr3 d L)
            ∗ ∃ W', ⌜∀ p ∈ W', p ∈ W ∨ p.2 = none⌝ ∗ owes (thr3 d L) O W') : sProp 𝕄)

/-- What the launch element funds for the two transposes: from the rounds library's launch element at their staging
    cells, every core's staging cells' ghost state and duty tokens. -/
def RegionsFund : Prop :=
  ∀ (hinj : Function.Injective (Pipeline.cellOf (nD := nD) (τ := τ) (Pipeline.pin (pcfgs (F := F)) adm))),
    BI.own (EP (F := F) (initOf (Pipeline.cells (Pipeline.pin (pcfgs (F := F)) adm) hinj) (Pipeline.launchToks (Pipeline.pin (pcfgs (F := F)) adm) hinj)))
      ⊢ iprop(|==> bigSep Finset.univ fun c : Dev nD => (regGhost c : sProp 𝕄))

/-- The two pipelined transposes of @main, in sequence, on the TensorCore of c, inside the SparseCore launch: from the
    region boundary, the tables whole at A, the two results whole at anything, what the core owes (nothing at the
    index the pipelines wait at) and the staging cells' ghost state, they run to the boundary, the tables unchanged and
    each result holding the pairs of tables side by side; the continuation runs from there. -/
def RegionsWp : Prop :=
  ∀ (lv : GSem nD τ sig → HIx 2 → ℕ) (_hlv : (K (F := F)).Refines lv) (c : Dev nD)
    (A : S26x64x100000.Idx → Elt F .f32) (O : CellTallies nD τ sig (HIx 2)) (_hO : ∀ g, O g none = 0) (b : ℕ)
    {α : Type} (k : PUnit → Prog (TpuEff nD τ sig (Elt F) (SparseCore.Sig (ΛP (F := F)) 2) .tc) α) (Q : α → sProp 𝕄),
    iprop((iprop(boundary (c.tc : Thread nD τ) ∗ regPost c A O b)
            -∗ wp frame (wpE ((K (F := F)).defs D) 𝒱 (c.tc : Thread nD τ) none) Set.univ (k ⟨⟩) Q)
        ∗ boundary (c.tc : Thread nD τ) ∗ regPre c A O b ∗ levAts (K (F := F)).L lv ∗ regGhost c)
      ⊢ wp frame (wpE ((K (F := F)).defs D) 𝒱 (c.tc : Thread nD τ) none) Set.univ
          (Prog.lift (.customCall (SparseCore.inner (Pipeline.entry 0)) ()) >>= fun _ =>
            Prog.lift (.customCall (SparseCore.inner (Pipeline.entry 1)) ()) >>= k) Q

end Cert.Proof.KB

end
-- ==== Proof.KB.Obl.lean ====
/-
  The launch theorem's obligations for the two SparseCore calls, from the tasks' triples. A task is handed a pair
  table that is determined only on the rows it can name; what it leaves is rewritten over the determined pair
  table, so that the block it hands back is one function of the launch memory.
-/
import proofs.«219250_g10247791969013_week1_w1_750_27_alg».proof.Proof.KB.Pay
import proofs.«219250_g10247791969013_week1_w1_750_27_alg».proof.Proof.KB.Spec
import Idealize.ShloMosaic.Lib.SparseCore.Launch
import Idealize.ShloMosaic.Lib.Tactic

noncomputable section

namespace Cert.Proof.KB

open Cert.Kernel Cert.Kernel.Gen

open Idealize.ShloMosaic Idealize.ShloMosaic.ValueIdx
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The value does not read the undetermined rows -/

/-- What a task leaves depends on the pair table only through the rows below the vocabulary's size within each pair's
    block: two tables that agree there give the same sums, when every index word is below 100000. -/
theorem OUT2_congr (tb tb' : S802816x128.Idx → Elt F .f32) (ix : S2048.Idx → Elt F .i32)
    (hix : ∀ j, (ix j).toNat < 100000) (h : ∀ i, (i 0).val % 100352 < 100000 → tb i = tb' i) : OUT2 tb ix = OUT2 tb' ix := by
  funext x
  unfold OUT2
  refine List.foldl_ext _ _ _ fun acc j hj => ?_
  have hj' : j < 16 := List.mem_range.mp hj
  have hx0 : (x 0).val < 64 := (x 0).isLt
  have hx1 : (x 1).val < 128 := (x 1).isLt
  have hp : (2 * (x 0).val + (x 1).val / 64) * 16 + j < 2048 := by omega
  refine congrArg (FloatOps.addf (acc : F .f32)) ?_
  unfold gRow2
  rw [dif_pos hp]
  have hw := hix (ix1 ⟨(2 * (x 0).val + (x 1).val / 64) * 16 + j, hp⟩)
  generalize (ix (ix1 ⟨(2 * (x 0).val + (x 1).val / 64) * 16 + j, hp⟩)).toNat = w at hw
  have hr : w + ((2 * (x 0).val + (x 1).val / 64) * 16 + j) % 16 / 2 * 100352 < 802816 ∧ j % 2 * 64 + (x 1).val % 64 < 128 := by
    constructor <;> omega
  unfold tbAt2
  rw [dif_pos hr, dif_pos hr]
  refine h _ ?_
  show (w + ((2 * (x 0).val + (x 1).val / 64) * 16 + j) % 16 / 2 * 100352) % 100352 < 100000
  omega

/-- What a task leaves depends on the pair table only through the rows below the vocabulary's size within each pair's
    block: two tables that agree there give the same sums, when every index word is below 100000. -/
theorem OUT3_congr (tb tb' : S501760x128.Idx → Elt F .f32) (ix : S1280.Idx → Elt F .i32)
    (hix : ∀ j, (ix j).toNat < 100000) (h : ∀ i, (i 0).val % 100352 < 100000 → tb i = tb' i) : OUT3 tb ix = OUT3 tb' ix := by
  funext x
  unfold OUT3
  refine List.foldl_ext _ _ _ fun acc j hj => ?_
  have hj' : j < 10 := List.mem_range.mp hj
  have hx0 : (x 0).val < 64 := (x 0).isLt
  have hx1 : (x 1).val < 128 := (x 1).isLt
  have hp : (2 * (x 0).val + (x 1).val / 64) * 10 + j < 1280 := by omega
  refine congrArg (FloatOps.addf (acc : F .f32)) ?_
  unfold gRow3
  rw [dif_pos hp]
  have hw := hix (ix1 ⟨(2 * (x 0).val + (x 1).val / 64) * 10 + j, hp⟩)
  generalize (ix (ix1 ⟨(2 * (x 0).val + (x 1).val / 64) * 10 + j, hp⟩)).toNat = w at hw
  have hr : w + ((2 * (x 0).val + (x 1).val / 64) * 10 + j) % 10 / 2 * 100352 < 501760 ∧ j % 2 * 64 + (x 1).val % 64 < 128 := by
    constructor <;> omega
  unfold tbAt3
  rw [dif_pos hr, dif_pos hr]
  refine h _ ?_
  show (w + ((2 * (x 0).val + (x 1).val / 64) * 10 + j) % 10 / 2 * 100352) % 100352 < 100000
  omega

variable (m : (ℓ : Loc nD τ sig) → Buf (Elt F) ℓ)

/-! ## Call 0 -/

/-- The three arrays as the task's memrefs address them are the TensorCore's arrays. -/
theorem pts_tab2 (d : Dev nD) (L : grid2.Coords) (q : PosShare TreeShare) (f : S802816x128.Idx → Elt F .f32) :
    ((tabM2).view.loc (thr2 d L) ↦[(tabM2).view.set]{q} f : sProp 𝕄) = (tl d main_v5 ↦{q} f) := by
  simp only [Memref.view_whole, View.set_whole]
theorem pts_idx2 (d : Dev nD) (L : grid2.Coords) (q : PosShare TreeShare) (f : S65536.Idx → Elt F .i32) :
    ((idxSl2 L).view.loc (thr2 d L) ↦[(idxSl2 L).view.set]{q} f : sProp 𝕄) = (tl d main_v9 ↦[(idxSl2 L).view.set]{q} f) := rfl
theorem pts_out2 (d : Dev nD) (L : grid2.Coords) (q : PosShare TreeShare) (f : S2048x128.Idx → Elt F .f32) :
    ((outSl2 L).view.loc (thr2 d L) ↦[(outSl2 L).view.set]{q} f : sProp 𝕄) = (tl d main_v13 ↦[(outSl2 L).view.set]{q} f) := rfl

theorem defs₀_vector2 (c : Fin τ.nSC) (s : Fin τ.nSub) :
    defs₀ (F := F) (.scVector c s) 2 ()
      = SparseCore.onTile hcore2 hsub2 (fun c s => cc2__emb_body (fun | 0 => c | 1 => s | ⟨_ + 2, h⟩ => absurd h (Nat.not_lt.2 (Nat.le_add_left _ _)))
          (Memref.whole main_v5_scv) (Memref.isWhole_whole _) (Memref.whole main_v9_scv) (Memref.isWhole_whole _) (Memref.whole main_v13_scv) (Memref.isWhole_whole _)
          (Memref.whole cc2_scratch0) (Memref.isWhole_whole _) (Memref.whole cc2_scratch1) (Memref.isWhole_whole _)
          (Memref.whole cc2_scratch2) (Memref.isWhole_whole _) (Memref.whole cc2_scratch3) (Memref.isWhole_whole _)
          cc2_scratch4 cc2_scratch5 cc2_scoped0 cc2_scoped1) ⟨⟩ c s := rfl

/-- What the task's triple leaves is what the taskDone handshake carries: the result rows rewritten over the determined
    pair table, the shares of the table and of the index words dropped. -/
theorem tile2_post (d : Dev nD) (L : grid2.Coords) (q : PosShare TreeShare) (qq : Fin 2)
    (Tb : S802816x128.Idx → Elt F .f32) (fo : S2048x128.Idx → Elt F .f32) (hTb : TabOK (wantA m d) Tb)
    (hIx : ∀ j, ((idxSl2 L).view.read (Elt F) (idxA m d) j).toNat < 100000)
    (O : CellTallies nD τ sig (HIx 2)) (W : Waits sig (HIx 2)) :
    iprop(((tabM2).view.loc (thr2 d L) ↦[(tabM2).view.set]{q} Tb)
        ∗ ((idxSl2 L).view.loc (thr2 d L) ↦[(idxSl2 L).view.set]{fullShare} idxA m d)
        ∗ ((outSl2 L).view.loc (thr2 d L) ↦[(outSl2 L).view.set]{fullShare}
            ((outSl2 L).view.write (Elt F) fo (OUT2 ((tabM2).view.read (Elt F) Tb) ((idxSl2 L).view.read (Elt F) (idxA m d))) Finset.univ))
        ∗ scopedBufs (thr2 d L) ∗ scopedSems0 (thr2 d L)
        ∗ ∃ W', ⌜∀ p ∈ W', p ∈ W ∨ p.2 = none⌝ ∗ owes (thr2 d L) O W')
      ⊢ (iprop(tileOut2 m d L ∗ scopedBufs (thr2 d L) ∗ scopedSems0 (thr2 d L)
          ∗ ∃ W', ⌜∀ p ∈ W', p ∈ W ∨ p.2 = none ∨ p.2 = some qq⌝ ∗ owes (thr2 d L) O W') : sProp 𝕄) := by
  iintro ⟨-, -, Hout, Hsb, Hss, %W', %hW', HO⟩
  isplitl [Hout]
  · have hEq : (((outSl2 L).view.loc (thr2 d L) ↦[(outSl2 L).view.set]{fullShare}
            ((outSl2 L).view.write (Elt F) fo (OUT2 ((tabM2).view.read (Elt F) Tb) ((idxSl2 L).view.read (Elt F) (idxA m d))) Finset.univ)) : sProp 𝕄)
        = (tl d main_v13 ↦[(outSl2 L).view.set]{fullShare}
            ((outSl2 L).view.write (Elt F) fo (OUT2 (wantA m d) ((idxSl2 L).view.read (Elt F) (idxA m d))) Finset.univ)) := by
      rw [OUT2_congr ((tabM2).view.read (Elt F) Tb) (wantA m d) _ hIx (fun i hi => hTb i hi)]
    unfold tileOut2
    iexists fo
    iapply (Entails.of_eq hEq)
    iexact Hout
  isplitl [Hsb]; · iexact Hsb
  isplitl [Hss]; · iexact Hss
  iexists W'; isplitr
  · ipureintro; exact fun p hp => (hW' p hp).imp_right Or.inl
  · iexact HO

/-- One task of call 0: from what the go handshake hands it to what the taskDone handshake carries back. -/
theorem tile2_go_td (h2 : TileBody2 F) (hF : (K (F := F)).Facts) (hin : ∀ d i, (idxA m d i).toNat < 100000)
    (d : Dev nD) (L : grid2.Coords) (q : PosShare TreeShare) (qq : Fin 2)
    (O : CellTallies nD τ sig (HIx 2)) (W : Waits sig (HIx 2)) (hO : ∀ g, O g none = 0) :
    iprop(levAts (K (F := F)).L (K (F := F)).lev ∗ emp ∗ tileIn2 m d L q
        ∗ scopedBufs (thr2 d L) ∗ scopedSems0 (thr2 d L) ∗ owes (thr2 d L) O W)
      ⊢ (wp frame (wpE (defs₀ (F := F)) 𝒱₀ (thr2 d L) none) Set.univ
          (cc2__emb_body L tabM2 (Memref.isWhole_whole _) idxM2 (Memref.isWhole_whole _) outM2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            cc2_scratch4 cc2_scratch5 cc2_scoped0 cc2_scoped1)
          fun _ => iprop(tileOut2 m d L ∗ scopedBufs (thr2 d L) ∗ scopedSems0 (thr2 d L)
            ∗ ∃ W', ⌜∀ p ∈ W', p ∈ W ∨ p.2 = none ∨ p.2 = some qq⌝ ∗ owes (thr2 d L) O W') : sProp 𝕄) := by
  unfold tileIn2
  iintro ⟨#Hlv, -, ⟨⟨%Tb, %hTb, Htab⟩, Hidx, %fo, Hout⟩, Hsb, Hss, HO⟩
  have hIx : ∀ j, ((idxSl2 L).view.read (Elt F) (idxA m d) j).toNat < 100000 := fun j => hin d _
  iapply (wp_mono frame _ _ fun _ => tile2_post m d L q qq Tb fo hTb hIx O W)
  iapply (h2 d L hF q fullShare Tb (idxA m d) fo hIx O W hO)
  isplitr; · iexact Hlv
  isplitl [Htab]; · rw [pts_tab2]; iexact Htab
  isplitl [Hidx]; · rw [pts_idx2]; iexact Hidx
  isplitl [Hout]; · rw [pts_out2]; iexact Hout
  isplitl [Hsb]; · iexact Hsb
  isplitl [Hss]; · iexact Hss
  iexact HO

/-- The launch theorem's obligation for call 0: every task of its grid. -/
theorem tileObl2 (h2 : TileBody2 F) (hF : (K (F := F)).Facts) (hin : ∀ d i, (idxA m d i).toNat < 100000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector2]; simp only [SparseCore.onTile, hc, and_self, ↓reduceDIte]
  exact tile2_go_td m h2 hF hin d (coords2 c i) (tok c i) 0 O W hO

/-! ## Call 1 -/

/-- The three arrays as the task's memrefs address them are the TensorCore's arrays. -/
theorem pts_tab3 (d : Dev nD) (L : grid3.Coords) (q : PosShare TreeShare) (f : S501760x128.Idx → Elt F .f32) :
    ((tabM3).view.loc (thr3 d L) ↦[(tabM3).view.set]{q} f : sProp 𝕄) = (tl d main_v6 ↦{q} f) := by
  simp only [Memref.view_whole, View.set_whole]
theorem pts_idx3 (d : Dev nD) (L : grid3.Coords) (q : PosShare TreeShare) (f : S40960.Idx → Elt F .i32) :
    ((idxSl3 L).view.loc (thr3 d L) ↦[(idxSl3 L).view.set]{q} f : sProp 𝕄) = (tl d main_v12 ↦[(idxSl3 L).view.set]{q} f) := rfl
theorem pts_out3 (d : Dev nD) (L : grid3.Coords) (q : PosShare TreeShare) (f : S2048x128.Idx → Elt F .f32) :
    ((outSl3 L).view.loc (thr3 d L) ↦[(outSl3 L).view.set]{q} f : sProp 𝕄) = (tl d main_v14 ↦[(outSl3 L).view.set]{q} f) := rfl

theorem defs₀_vector3 (c : Fin τ.nSC) (s : Fin τ.nSub) :
    defs₀ (F := F) (.scVector c s) 3 ()
      = SparseCore.onTile hcore3 hsub3 (fun c s => cc3__emb_body (fun | 0 => c | 1 => s | ⟨_ + 2, h⟩ => absurd h (Nat.not_lt.2 (Nat.le_add_left _ _)))
          (Memref.whole main_v6_scv) (Memref.isWhole_whole _) (Memref.whole main_v12_scv) (Memref.isWhole_whole _) (Memref.whole main_v14_scv) (Memref.isWhole_whole _)
          (Memref.whole cc3_scratch0) (Memref.isWhole_whole _) (Memref.whole cc3_scratch1) (Memref.isWhole_whole _)
          (Memref.whole cc3_scratch2) (Memref.isWhole_whole _) (Memref.whole cc3_scratch3) (Memref.isWhole_whole _)
          cc3_scratch4 cc3_scratch5 cc3_scoped0 cc3_scoped1) ⟨⟩ c s := rfl

/-- What the task's triple leaves is what the taskDone handshake carries: the result rows rewritten over the determined
    pair table, the shares of the table and of the index words dropped. -/
theorem tile3_post (d : Dev nD) (L : grid3.Coords) (q : PosShare TreeShare) (qq : Fin 2)
    (Tb : S501760x128.Idx → Elt F .f32) (fo : S2048x128.Idx → Elt F .f32) (hTb : TabOK (wantB m d) Tb)
    (hIx : ∀ j, ((idxSl3 L).view.read (Elt F) (idxB m d) j).toNat < 100000)
    (O : CellTallies nD τ sig (HIx 2)) (W : Waits sig (HIx 2)) :
    iprop(((tabM3).view.loc (thr3 d L) ↦[(tabM3).view.set]{q} Tb)
        ∗ ((idxSl3 L).view.loc (thr3 d L) ↦[(idxSl3 L).view.set]{fullShare} idxB m d)
        ∗ ((outSl3 L).view.loc (thr3 d L) ↦[(outSl3 L).view.set]{fullShare}
            ((outSl3 L).view.write (Elt F) fo (OUT3 ((tabM3).view.read (Elt F) Tb) ((idxSl3 L).view.read (Elt F) (idxB m d))) Finset.univ))
        ∗ scopedBufs (thr3 d L) ∗ scopedSems0 (thr3 d L)
        ∗ ∃ W', ⌜∀ p ∈ W', p ∈ W ∨ p.2 = none⌝ ∗ owes (thr3 d L) O W')
      ⊢ (iprop(tileOut3 m d L ∗ scopedBufs (thr3 d L) ∗ scopedSems0 (thr3 d L)
          ∗ ∃ W', ⌜∀ p ∈ W', p ∈ W ∨ p.2 = none ∨ p.2 = some qq⌝ ∗ owes (thr3 d L) O W') : sProp 𝕄) := by
  iintro ⟨-, -, Hout, Hsb, Hss, %W', %hW', HO⟩
  isplitl [Hout]
  · have hEq : (((outSl3 L).view.loc (thr3 d L) ↦[(outSl3 L).view.set]{fullShare}
            ((outSl3 L).view.write (Elt F) fo (OUT3 ((tabM3).view.read (Elt F) Tb) ((idxSl3 L).view.read (Elt F) (idxB m d))) Finset.univ)) : sProp 𝕄)
        = (tl d main_v14 ↦[(outSl3 L).view.set]{fullShare}
            ((outSl3 L).view.write (Elt F) fo (OUT3 (wantB m d) ((idxSl3 L).view.read (Elt F) (idxB m d))) Finset.univ)) := by
      rw [OUT3_congr ((tabM3).view.read (Elt F) Tb) (wantB m d) _ hIx (fun i hi => hTb i hi)]
    unfold tileOut3
    iexists fo
    iapply (Entails.of_eq hEq)
    iexact Hout
  isplitl [Hsb]; · iexact Hsb
  isplitl [Hss]; · iexact Hss
  iexists W'; isplitr
  · ipureintro; exact fun p hp => (hW' p hp).imp_right Or.inl
  · iexact HO

/-- One task of call 1: from what the go handshake hands it to what the taskDone handshake carries back. -/
theorem tile3_go_td (h3 : TileBody3 F) (hF : (K (F := F)).Facts) (hin : ∀ d i, (idxB m d i).toNat < 100000)
    (d : Dev nD) (L : grid3.Coords) (q : PosShare TreeShare) (qq : Fin 2)
    (O : CellTallies nD τ sig (HIx 2)) (W : Waits sig (HIx 2)) (hO : ∀ g, O g none = 0) :
    iprop(levAts (K (F := F)).L (K (F := F)).lev ∗ emp ∗ tileIn3 m d L q
        ∗ scopedBufs (thr3 d L) ∗ scopedSems0 (thr3 d L) ∗ owes (thr3 d L) O W)
      ⊢ (wp frame (wpE (defs₀ (F := F)) 𝒱₀ (thr3 d L) none) Set.univ
          (cc3__emb_body L tabM3 (Memref.isWhole_whole _) idxM3 (Memref.isWhole_whole _) outM3 (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            cc3_scratch4 cc3_scratch5 cc3_scoped0 cc3_scoped1)
          fun _ => iprop(tileOut3 m d L ∗ scopedBufs (thr3 d L) ∗ scopedSems0 (thr3 d L)
            ∗ ∃ W', ⌜∀ p ∈ W', p ∈ W ∨ p.2 = none ∨ p.2 = some qq⌝ ∗ owes (thr3 d L) O W') : sProp 𝕄) := by
  unfold tileIn3
  iintro ⟨#Hlv, -, ⟨⟨%Tb, %hTb, Htab⟩, Hidx, %fo, Hout⟩, Hsb, Hss, HO⟩
  have hIx : ∀ j, ((idxSl3 L).view.read (Elt F) (idxB m d) j).toNat < 100000 := fun j => hin d _
  iapply (wp_mono frame _ _ fun _ => tile3_post m d L q qq Tb fo hTb hIx O W)
  iapply (h3 d L hF q fullShare Tb (idxB m d) fo hIx O W hO)
  isplitr; · iexact Hlv
  isplitl [Htab]; · rw [pts_tab3]; iexact Htab
  isplitl [Hidx]; · rw [pts_idx3]; iexact Hidx
  isplitl [Hout]; · rw [pts_out3]; iexact Hout
  isplitl [Hsb]; · iexact Hsb
  isplitl [Hss]; · iexact Hss
  iexact HO

/-- The launch theorem's obligation for call 1: every task of its grid. -/
theorem tileObl3 (h3 : TileBody3 F) (hF : (K (F := F)).Facts) (hin : ∀ d i, (idxB m d i).toNat < 100000) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  exact tile3_go_td m h3 hF hin d (coords3 c i) (tok c i) 1 O W hO

end Cert.Proof.KB

end
-- ==== Proof.KB.Cover.lean ====
/-
  How the two SparseCore calls cut their arrays among the 32 tasks: the task at SparseCore c, vector subcore s has
  number 2 s + c; the runs of index words of the tasks are consecutive and partition the flat index list, and their
  blocks of 64 result rows partition the result.
-/
import proofs.«219250_g10247791969013_week1_w1_750_27_alg».proof.Proof.KB.Pay

noncomputable section

namespace Cert.Proof.KB

open Cert.Kernel Cert.Kernel.Gen

open Idealize.ShloMosaic
open Idealize.SL Idealize.SL.Sem

/-! ## Call 0 -/

/-- The run of index words, and the block of result rows, of the task at SparseCore a.1, vector subcore a.2. -/
abbrev idxSet2 (a : Fin 2 × Fin 16) : Finset S65536.Idx := (idxSl2 (coords2 a.1 a.2)).view.set
abbrev outSet2 (a : Fin 2 × Fin 16) : Finset S2048x128.Idx := (outSl2 (coords2 a.1 a.2)).view.set

/-- A word of the flat index list belongs to the run of the task at (c, s) exactly when its position is in the task's
    2048 positions, which start at 2048 * (2 s + c). -/
theorem mem_idx2 (L : grid2.Coords) (i : S65536.Idx) :
    i ∈ ((idxSl2 L).view.set : Finset S65536.Idx) ↔ 4096 * (L 1).val + 2048 * (L 0).val ≤ (i 0).val ∧ (i 0).val < 4096 * (L 1).val + 2048 * (L 0).val + 2048 := by
  have hs : ((idxSl2 L).view.set : Finset S65536.Idx)
      = (Rect.unit (s := S65536) (k2_off1 L) S2048.size (k2_off1_inb L)).set := View.set_slice_whole _ _
  rw [hs, Rect.mem_set_unit]
  constructor
  · intro h
    have h0 := h 0
    rw [k2_off1_eq] at h0
    exact h0
  · intro h a
    obtain rfl : a = 0 := Subsingleton.elim _ _
    rw [k2_off1_eq]
    exact h

/-- A row of the result belongs to the block of the task at (c, s) exactly when it is one of the task's 64 rows, which
    start at 64 * (2 s + c). -/
theorem mem_out2 (L : grid2.Coords) (i : S2048x128.Idx) :
    i ∈ ((outSl2 L).view.set : Finset S2048x128.Idx) ↔ 128 * (L 1).val + 64 * (L 0).val ≤ (i 0).val ∧ (i 0).val < 128 * (L 1).val + 64 * (L 0).val + 64 := by
  have hs : ((outSl2 L).view.set : Finset S2048x128.Idx)
      = (Rect.unit (s := S2048x128) (k2_off56 L) S64x128.size (k2_off56_inb L)).set := View.set_slice_whole _ _
  rw [hs, Rect.mem_set_unit]
  constructor
  · intro h
    have h0 := h 0
    rw [k2_off56_eq] at h0
    exact h0
  · intro h a
    rw [k2_off56_eq]
    match a with
    | ⟨0, _⟩ => exact h
    | ⟨1, _⟩ =>
      have h1 : (i 1).val < 128 := (i 1).isLt
      exact ⟨Nat.zero_le _, (by show (i 1).val < 0 + 128; omega)⟩

theorem idx2_disjoint : ∀ a ∈ (Finset.univ : Finset (Fin 2 × Fin 16)), ∀ b ∈ (Finset.univ : Finset (Fin 2 × Fin 16)), a ≠ b →
    Disjoint (idxSet2 a) (idxSet2 b) := by
  intro a _ b _ hab
  refine Finset.disjoint_left.mpr fun i hi hj => hab ?_
  replace hi : i ∈ ((idxSl2 (coords2 a.1 a.2)).view.set : Finset S65536.Idx) := hi
  replace hj : i ∈ ((idxSl2 (coords2 b.1 b.2)).view.set : Finset S65536.Idx) := hj
  rw [mem_idx2] at hi hj
  have e0 : (coords2 a.1 a.2 0).val = a.1.val := rfl
  have e1 : (coords2 a.1 a.2 1).val = a.2.val := rfl
  have f0 : (coords2 b.1 b.2 0).val = b.1.val := rfl
  have f1 : (coords2 b.1 b.2 1).val = b.2.val := rfl
  rw [e0, e1] at hi; rw [f0, f1] at hj
  have ha1 := a.1.isLt; have hb1 := b.1.isLt
  exact Prod.ext (Fin.ext (by omega)) (Fin.ext (by omega))

theorem idx2_cover : (Finset.univ : Finset (Fin 2 × Fin 16)).biUnion idxSet2 = Finset.univ := by
  refine Finset.eq_univ_of_forall fun i => Finset.mem_biUnion.mpr ?_
  have hi : (i 0).val < 65536 := (i 0).isLt
  have hc : (i 0).val / 2048 % 2 < 2 := Nat.mod_lt _ (by decide)
  have hs : (i 0).val / 2048 / 2 < 16 := by omega
  refine ⟨(⟨(i 0).val / 2048 % 2, hc⟩, ⟨(i 0).val / 2048 / 2, hs⟩), Finset.mem_univ _,
    (mem_idx2 (coords2 ⟨(i 0).val / 2048 % 2, hc⟩ ⟨(i 0).val / 2048 / 2, hs⟩) i).mpr ?_⟩
  show 4096 * ((i 0).val / 2048 / 2) + 2048 * ((i 0).val / 2048 % 2) ≤ (i 0).val ∧ (i 0).val < 4096 * ((i 0).val / 2048 / 2) + 2048 * ((i 0).val / 2048 % 2) + 2048
  omega

theorem out2_disjoint : ∀ a ∈ (Finset.univ : Finset (Fin 2 × Fin 16)), ∀ b ∈ (Finset.univ : Finset (Fin 2 × Fin 16)), a ≠ b →
    Disjoint (outSet2 a) (outSet2 b) := by
  intro a _ b _ hab
  refine Finset.disjoint_left.mpr fun i hi hj => hab ?_
  replace hi : i ∈ ((outSl2 (coords2 a.1 a.2)).view.set : Finset S2048x128.Idx) := hi
  replace hj : i ∈ ((outSl2 (coords2 b.1 b.2)).view.set : Finset S2048x128.Idx) := hj
  rw [mem_out2] at hi hj
  have e0 : (coords2 a.1 a.2 0).val = a.1.val := rfl
  have e1 : (coords2 a.1 a.2 1).val = a.2.val := rfl
  have f0 : (coords2 b.1 b.2 0).val = b.1.val := rfl
  have f1 : (coords2 b.1 b.2 1).val = b.2.val := rfl
  rw [e0, e1] at hi; rw [f0, f1] at hj
  have ha1 := a.1.isLt; have hb1 := b.1.isLt
  exact Prod.ext (Fin.ext (by omega)) (Fin.ext (by omega))

theorem out2_cover : (Finset.univ : Finset (Fin 2 × Fin 16)).biUnion outSet2 = Finset.univ := by
  refine Finset.eq_univ_of_forall fun i => Finset.mem_biUnion.mpr ?_
  have hi : (i 0).val < 2048 := (i 0).isLt
  have hc : (i 0).val / 64 % 2 < 2 := Nat.mod_lt _ (by decide)
  have hs : (i 0).val / 64 / 2 < 16 := by omega
  refine ⟨(⟨(i 0).val / 64 % 2, hc⟩, ⟨(i 0).val / 64 / 2, hs⟩), Finset.mem_univ _,
    (mem_out2 (coords2 ⟨(i 0).val / 64 % 2, hc⟩ ⟨(i 0).val / 64 / 2, hs⟩) i).mpr ?_⟩
  show 128 * ((i 0).val / 64 / 2) + 64 * ((i 0).val / 64 % 2) ≤ (i 0).val ∧ (i 0).val < 128 * ((i 0).val / 64 / 2) + 64 * ((i 0).val / 64 % 2) + 64
  omega

/-! ## Call 1 -/

/-- The run of index words, and the block of result rows, of the task at SparseCore a.1, vector subcore a.2. -/
abbrev idxSet3 (a : Fin 2 × Fin 16) : Finset S40960.Idx := (idxSl3 (coords3 a.1 a.2)).view.set
abbrev outSet3 (a : Fin 2 × Fin 16) : Finset S2048x128.Idx := (outSl3 (coords3 a.1 a.2)).view.set

/-- A word of the flat index list belongs to the run of the task at (c, s) exactly when its position is in the task's
    1280 positions, which start at 1280 * (2 s + c). -/
theorem mem_idx3 (L : grid3.Coords) (i : S40960.Idx) :
    i ∈ ((idxSl3 L).view.set : Finset S40960.Idx) ↔ 2560 * (L 1).val + 1280 * (L 0).val ≤ (i 0).val ∧ (i 0).val < 2560 * (L 1).val + 1280 * (L 0).val + 1280 := by
  have hs : ((idxSl3 L).view.set : Finset S40960.Idx)
      = (Rect.unit (s := S40960) (k3_off1 L) S1280.size (k3_off1_inb L)).set := View.set_slice_whole _ _
  rw [hs, Rect.mem_set_unit]
  constructor
  · intro h
    have h0 := h 0
    rw [k3_off1_eq] at h0
    exact h0
  · intro h a
    obtain rfl : a = 0 := Subsingleton.elim _ _
    rw [k3_off1_eq]
    exact h

/-- A row of the result belongs to the block of the task at (c, s) exactly when it is one of the task's 64 rows, which
    start at 64 * (2 s + c). -/
theorem mem_out3 (L : grid3.Coords) (i : S2048x128.Idx) :
    i ∈ ((outSl3 L).view.set : Finset S2048x128.Idx) ↔ 128 * (L 1).val + 64 * (L 0).val ≤ (i 0).val ∧ (i 0).val < 128 * (L 1).val + 64 * (L 0).val + 64 := by
  have hs : ((outSl3 L).view.set : Finset S2048x128.Idx)
      = (Rect.unit (s := S2048x128) (k3_off56 L) S64x128.size (k3_off56_inb L)).set := View.set_slice_whole _ _
  rw [hs, Rect.mem_set_unit]
  constructor
  · intro h
    have h0 := h 0
    rw [k3_off56_eq] at h0
    exact h0
  · intro h a
    rw [k3_off56_eq]
    match a with
    | ⟨0, _⟩ => exact h
    | ⟨1, _⟩ =>
      have h1 : (i 1).val < 128 := (i 1).isLt
      exact ⟨Nat.zero_le _, (by show (i 1).val < 0 + 128; omega)⟩

theorem idx3_disjoint : ∀ a ∈ (Finset.univ : Finset (Fin 2 × Fin 16)), ∀ b ∈ (Finset.univ : Finset (Fin 2 × Fin 16)), a ≠ b →
    Disjoint (idxSet3 a) (idxSet3 b) := by
  intro a _ b _ hab
  refine Finset.disjoint_left.mpr fun i hi hj => hab ?_
  replace hi : i ∈ ((idxSl3 (coords3 a.1 a.2)).view.set : Finset S40960.Idx) := hi
  replace hj : i ∈ ((idxSl3 (coords3 b.1 b.2)).view.set : Finset S40960.Idx) := hj
  rw [mem_idx3] at hi hj
  have e0 : (coords3 a.1 a.2 0).val = a.1.val := rfl
  have e1 : (coords3 a.1 a.2 1).val = a.2.val := rfl
  have f0 : (coords3 b.1 b.2 0).val = b.1.val := rfl
  have f1 : (coords3 b.1 b.2 1).val = b.2.val := rfl
  rw [e0, e1] at hi; rw [f0, f1] at hj
  have ha1 := a.1.isLt; have hb1 := b.1.isLt
  exact Prod.ext (Fin.ext (by omega)) (Fin.ext (by omega))

theorem idx3_cover : (Finset.univ : Finset (Fin 2 × Fin 16)).biUnion idxSet3 = Finset.univ := by
  refine Finset.eq_univ_of_forall fun i => Finset.mem_biUnion.mpr ?_
  have hi : (i 0).val < 40960 := (i 0).isLt
  have hc : (i 0).val / 1280 % 2 < 2 := Nat.mod_lt _ (by decide)
  have hs : (i 0).val / 1280 / 2 < 16 := by omega
  refine ⟨(⟨(i 0).val / 1280 % 2, hc⟩, ⟨(i 0).val / 1280 / 2, hs⟩), Finset.mem_univ _,
    (mem_idx3 (coords3 ⟨(i 0).val / 1280 % 2, hc⟩ ⟨(i 0).val / 1280 / 2, hs⟩) i).mpr ?_⟩
  show 2560 * ((i 0).val / 1280 / 2) + 1280 * ((i 0).val / 1280 % 2) ≤ (i 0).val ∧ (i 0).val < 2560 * ((i 0).val / 1280 / 2) + 1280 * ((i 0).val / 1280 % 2) + 1280
  omega

theorem out3_disjoint : ∀ a ∈ (Finset.univ : Finset (Fin 2 × Fin 16)), ∀ b ∈ (Finset.univ : Finset (Fin 2 × Fin 16)), a ≠ b →
    Disjoint (outSet3 a) (outSet3 b) := by
  intro a _ b _ hab
  refine Finset.disjoint_left.mpr fun i hi hj => hab ?_
  replace hi : i ∈ ((outSl3 (coords3 a.1 a.2)).view.set : Finset S2048x128.Idx) := hi
  replace hj : i ∈ ((outSl3 (coords3 b.1 b.2)).view.set : Finset S2048x128.Idx) := hj
  rw [mem_out3] at hi hj
  have e0 : (coords3 a.1 a.2 0).val = a.1.val := rfl
  have e1 : (coords3 a.1 a.2 1).val = a.2.val := rfl
  have f0 : (coords3 b.1 b.2 0).val = b.1.val := rfl
  have f1 : (coords3 b.1 b.2 1).val = b.2.val := rfl
  rw [e0, e1] at hi; rw [f0, f1] at hj
  have ha1 := a.1.isLt; have hb1 := b.1.isLt
  exact Prod.ext (Fin.ext (by omega)) (Fin.ext (by omega))

theorem out3_cover : (Finset.univ : Finset (Fin 2 × Fin 16)).biUnion outSet3 = Finset.univ := by
  refine Finset.eq_univ_of_forall fun i => Finset.mem_biUnion.mpr ?_
  have hi : (i 0).val < 2048 := (i 0).isLt
  have hc : (i 0).val / 64 % 2 < 2 := Nat.mod_lt _ (by decide)
  have hs : (i 0).val / 64 / 2 < 16 := by omega
  refine ⟨(⟨(i 0).val / 64 % 2, hc⟩, ⟨(i 0).val / 64 / 2, hs⟩), Finset.mem_univ _,
    (mem_out3 (coords3 ⟨(i 0).val / 64 % 2, hc⟩ ⟨(i 0).val / 64 / 2, hs⟩) i).mpr ?_⟩
  show 128 * ((i 0).val / 64 / 2) + 64 * ((i 0).val / 64 % 2) ≤ (i 0).val ∧ (i 0).val < 128 * ((i 0).val / 64 / 2) + 64 * ((i 0).val / 64 % 2) + 64
  omega

end Cert.Proof.KB

end
-- ==== Proof.KB.ResSpec.lean ====
/-
  What @main leaves in its third result, stated from what the two SparseCore calls hand back. Each call's result
  array is known block by block: on the block of rows of the task at (c, s) it is that task's sums. The third result
  is the last stretch of host operations (the sum of the two arrays, reshaped to one row per batch element) applied
  to two such arrays.
-/
import proofs.«219250_g10247791969013_week1_w1_750_27_alg».proof.Proof.KB.Pay

noncomputable section

namespace Cert.Proof.KB

open Cert.Kernel Cert.Kernel.Gen

open Idealize.ShloMosaic Idealize.ShloMosaic.TcCoe
open Idealize.SL Idealize.SL.Sem
open Idealize.ShloMosaic.StableHlo

variable {F : FTy → Type} [FloatOps F]

variable (m : (ℓ : Loc nD τ sig) → Buf (Elt F) ℓ)

/-- A buffer of @main as a device buffer. -/
abbrev dr (b : Ref sig .tc) : DevRef τ sig := Proc.devRef .tc b

/-- An array g is call 0's result: on each task's block of rows it is that task's sums (written over whatever the
    block held). -/
def JoinA (d : Dev nD) (g : S2048x128.Idx → Elt F .f32) : Prop :=
  ∀ a : Fin 2 × Fin 16, ∃ fo : S2048x128.Idx → Elt F .f32,
    ∀ i ∈ ((outSl2 (coords2 a.1 a.2)).view.set : Finset S2048x128.Idx),
      g i = (outSl2 (coords2 a.1 a.2)).view.write (Elt F) fo
              (OUT2 (wantA m d) ((idxSl2 (coords2 a.1 a.2)).view.read (Elt F) (idxA m d))) Finset.univ i

/-- The same for call 1. -/
def JoinB (d : Dev nD) (g : S2048x128.Idx → Elt F .f32) : Prop :=
  ∀ a : Fin 2 × Fin 16, ∃ fo : S2048x128.Idx → Elt F .f32,
    ∀ i ∈ ((outSl3 (coords3 a.1 a.2)).view.set : Finset S2048x128.Idx),
      g i = (outSl3 (coords3 a.1 a.2)).view.write (Elt F) fo
              (OUT3 (wantB m d) ((idxSl3 (coords3 a.1 a.2)).view.read (Elt F) (idxB m d))) Finset.univ i

/-- The valuation the last stretch starts from: the second stretch's, with the two calls' results in place. -/
def VC (d : Dev nD) (gA gB : S2048x128.Idx → Elt F .f32) : Valuation τ sig (Elt F) :=
  Function.update (Function.update (VB m d) (dr main_v13) gA) (dr main_v14) gB

/-- The third result from the two calls' results. -/
def resOf (d : Dev nD) (gA gB : S2048x128.Idx → Elt F .f32) : S4096x64.Idx → Elt F .f32 :=
  after opsC (VC m d gA gB) (dr main_v16)

/-- An array is a third result of @main. -/
def ResOK (d : Dev nD) (R : S4096x64.Idx → Elt F .f32) : Prop :=
  ∃ gA gB, JoinA m d gA ∧ JoinB m d gB ∧ R = resOf m d gA gB

end Cert.Proof.KB

end
-- ==== Proof.KB.CallIO.lean ====
/-
  A SparseCore call's operands and results on the TensorCore's side: the pair table whole becomes the 32 tasks'
  read shares, the flat index list their 32 runs, the result their 32 blocks of rows; and the blocks the tasks hand
  back join into the result whole, known block by block.
-/
import proofs.«219250_g10247791969013_week1_w1_750_27_alg».proof.Proof.KB.Pay
import proofs.«219250_g10247791969013_week1_w1_750_27_alg».proof.Proof.KB.Cover
import proofs.«219250_g10247791969013_week1_w1_750_27_alg».proof.Proof.KB.ResSpec
import Idealize.ShloMosaic.Lib.SparseCore.Launch
import Idealize.ShloMosaic.Lib.Transfers
import Idealize.ShloMosaic.Lib.Tactic

noncomputable section

namespace Cert.Proof.KB

open Cert.Kernel Cert.Kernel.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ)

/-! ## Call 0 -/

/-- The index list cut into the tasks' runs, and the result cut into their blocks. -/
theorem idx2_pieces (d : Dev nD) (f : S65536.Idx → Elt F .i32) :
    (tl d main_v9 ↦{fullShare} f : sProp 𝕄)
      = bigSep Finset.univ fun c : Fin 2 => bigSep Finset.univ fun s : Fin 16 => tl d main_v9 ↦[idxSet2 (c, s)]{fullShare} f := by
  rw [← bigSep_univ_prod (fun a : Fin 2 × Fin 16 => (tl d main_v9 ↦[idxSet2 a]{fullShare} f : sProp 𝕄)),
    ← pointsTo_biUnion Finset.univ (ℓ := tl d main_v9) idxSet2 idx2_disjoint, idx2_cover]
  try rfl
theorem out2_pieces (d : Dev nD) (f : S2048x128.Idx → Elt F .f32) :
    (tl d main_v13 ↦{fullShare} f : sProp 𝕄)
      = bigSep Finset.univ fun c : Fin 2 => bigSep Finset.univ fun s : Fin 16 => tl d main_v13 ↦[outSet2 (c, s)]{fullShare} f := by
  rw [← bigSep_univ_prod (fun a : Fin 2 × Fin 16 => (tl d main_v13 ↦[outSet2 a]{fullShare} f : sProp 𝕄)),
    ← pointsTo_biUnion Finset.univ (ℓ := tl d main_v13) outSet2 out2_disjoint, out2_cover]
  try rfl

/-- The pair table whole, cut into the 32 tasks' read shares. -/
theorem tab2_toks (d : Dev nD) (f : S802816x128.Idx → Elt F .f32) :
    (tl d main_v5 ↦{fullShare} f : sProp 𝕄)
      ⊢ bigSep Finset.univ fun c : Fin 2 => bigSep Finset.univ fun s : Fin 16 => tl d main_v5 ↦{tok c s} f := by
  refine (Transfers.pointsTo_toks_split fullShare 2).trans (sep_elim_right.trans ?_)
  exact bigSep_mono fun c _ => (Transfers.pointsTo_toks_split (Transfers.shareTok fullShare 2 c) 16).trans sep_elim_right

/-- What the call takes for the two SparseCores, from the TensorCore's three arrays. -/
theorem st2_intro (d : Dev nD) (f : S802816x128.Idx → Elt F .f32) (hf : TabOK (wantA m d) f) :
    iprop((tl d main_v5 ↦{fullShare} f) ∗ (tl d main_v9 ↦{fullShare} idxA m d)
        ∗ ∃ fo : S2048x128.Idx → Elt F .f32, tl d main_v13 ↦{fullShare} fo)
      ⊢ (bigSep Finset.univ fun c : Fin ((K (F := F)).nCore 0) => (P m).st 0 d c : sProp 𝕄) := by
  show _ ⊢ bigSep (Finset.univ : Finset (Fin 2)) fun c => bigSep Finset.univ fun s : Fin 16 => tileIn2 m d (coords2 c s) (tok c s)
  have key : ∀ (fo : S2048x128.Idx → Elt F .f32) (c : Fin 2) (s : Fin 16),
      iprop((tl d main_v5 ↦{tok c s} f) ∗ (tl d main_v9 ↦[idxSet2 (c, s)]{fullShare} idxA m d) ∗ (tl d main_v13 ↦[outSet2 (c, s)]{fullShare} fo))
        ⊢ (tileIn2 m d (coords2 c s) (tok c s) : sProp 𝕄) := fun fo c s => by
    unfold tileIn2
    iintro ⟨HA, HB, HC⟩
    isplitl [HA]
    · iexists f; isplitr
      · ipureintro; exact hf
      · iexact HA
    isplitl [HB]; · iexact HB
    iexists fo; iexact HC
  iintro ⟨HT, HI, %fo, HO⟩
  ihave HT' := (tab2_toks d f) $$ HT
  ihave HI' := (Entails.of_eq (idx2_pieces d (idxA m d))) $$ HI
  ihave HO' := (Entails.of_eq (out2_pieces d fo)) $$ HO
  have hmono : ((bigSep Finset.univ fun c : Fin 2 => bigSep Finset.univ fun s : Fin 16 =>
        iprop((tl d main_v5 ↦{tok c s} f) ∗ (tl d main_v9 ↦[idxSet2 (c, s)]{fullShare} idxA m d) ∗ (tl d main_v13 ↦[outSet2 (c, s)]{fullShare} fo))) : sProp 𝕄)
      ⊢ bigSep Finset.univ fun c : Fin 2 => bigSep Finset.univ fun s : Fin 16 => tileIn2 m d (coords2 c s) (tok c s) :=
    bigSep_mono fun c _ => bigSep_mono fun s _ => key fo c s
  iapply hmono
  simp only [bigSep_sep']
  isplitl [HT']; · iexact HT'
  isplitl [HI']; · iexact HI'
  iexact HO'

/-- What the call hands back: the result whole, known block by block. -/
theorem dn2_elim [∀ e, Nonempty (Elt F e)] (d : Dev nD) :
    (bigSep Finset.univ fun c : Fin ((K (F := F)).nCore 0) => (P m).dn 0 d c : sProp 𝕄)
      ⊢ iprop(∃ g : S2048x128.Idx → Elt F .f32, ⌜JoinA m d g⌝ ∗ tl d main_v13 ↦{fullShare} g) := by
  show (bigSep (Finset.univ : Finset (Fin 2)) fun c => bigSep Finset.univ fun s : Fin 16 => tileOut2 m d (coords2 c s)) ⊢ _
  rw [← bigSep_univ_prod (fun a : Fin 2 × Fin 16 => (tileOut2 m d (coords2 a.1 a.2) : sProp 𝕄))]
  unfold tileOut2
  refine (bigSep_exists_pi Finset.univ (fun (a : Fin 2 × Fin 16) (fo : S2048x128.Idx → Elt F .f32) =>
    (tl d main_v13 ↦[outSet2 a]{fullShare}
      ((outSl2 (coords2 a.1 a.2)).view.write (Elt F) fo (OUT2 (wantA m d) ((idxSl2 (coords2 a.1 a.2)).view.read (Elt F) (idxA m d))) Finset.univ) : sProp 𝕄))).trans ?_
  iintro ⟨%fs, H⟩
  ihave H' := (pointsTo_biUnion_join (ℓ := tl d main_v13) (q := fullShare) Finset.univ outSet2
    (fun a => (outSl2 (coords2 a.1 a.2)).view.write (Elt F) (fs a) (OUT2 (wantA m d) ((idxSl2 (coords2 a.1 a.2)).view.read (Elt F) (idxA m d))) Finset.univ)
    (fs (0, 0)) out2_disjoint) $$ H
  icases H' with ⟨%g, %hg, Hg⟩
  rw [out2_cover]
  iexists g; isplitr
  · ipureintro
    intro a
    exact ⟨fs a, fun i hi => hg a (Finset.mem_univ a) i hi⟩
  · iexact Hg

/-! ## Call 1 -/

/-- The index list cut into the tasks' runs, and the result cut into their blocks. -/
theorem idx3_pieces (d : Dev nD) (f : S40960.Idx → Elt F .i32) :
    (tl d main_v12 ↦{fullShare} f : sProp 𝕄)
      = bigSep Finset.univ fun c : Fin 2 => bigSep Finset.univ fun s : Fin 16 => tl d main_v12 ↦[idxSet3 (c, s)]{fullShare} f := by
  rw [← bigSep_univ_prod (fun a : Fin 2 × Fin 16 => (tl d main_v12 ↦[idxSet3 a]{fullShare} f : sProp 𝕄)),
    ← pointsTo_biUnion Finset.univ (ℓ := tl d main_v12) idxSet3 idx3_disjoint, idx3_cover]
  try rfl
theorem out3_pieces (d : Dev nD) (f : S2048x128.Idx → Elt F .f32) :
    (tl d main_v14 ↦{fullShare} f : sProp 𝕄)
      = bigSep Finset.univ fun c : Fin 2 => bigSep Finset.univ fun s : Fin 16 => tl d main_v14 ↦[outSet3 (c, s)]{fullShare} f := by
  rw [← bigSep_univ_prod (fun a : Fin 2 × Fin 16 => (tl d main_v14 ↦[outSet3 a]{fullShare} f : sProp 𝕄)),
    ← pointsTo_biUnion Finset.univ (ℓ := tl d main_v14) outSet3 out3_disjoint, out3_cover]
  try rfl

/-- The pair table whole, cut into the 32 tasks' read shares. -/
theorem tab3_toks (d : Dev nD) (f : S501760x128.Idx → Elt F .f32) :
    (tl d main_v6 ↦{fullShare} f : sProp 𝕄)
      ⊢ bigSep Finset.univ fun c : Fin 2 => bigSep Finset.univ fun s : Fin 16 => tl d main_v6 ↦{tok c s} f := by
  refine (Transfers.pointsTo_toks_split fullShare 2).trans (sep_elim_right.trans ?_)
  exact bigSep_mono fun c _ => (Transfers.pointsTo_toks_split (Transfers.shareTok fullShare 2 c) 16).trans sep_elim_right

/-- What the call takes for the two SparseCores, from the TensorCore's three arrays. -/
theorem st3_intro (d : Dev nD) (f : S501760x128.Idx → Elt F .f32) (hf : TabOK (wantB m d) f) :
    iprop((tl d main_v6 ↦{fullShare} f) ∗ (tl d main_v12 ↦{fullShare} idxB m d)
        ∗ ∃ fo : S2048x128.Idx → Elt F .f32, tl d main_v14 ↦{fullShare} fo)
      ⊢ (bigSep Finset.univ fun c : Fin ((K (F := F)).nCore 1) => (P m).st 1 d c : sProp 𝕄) := by
  show _ ⊢ bigSep (Finset.univ : Finset (Fin 2)) fun c => bigSep Finset.univ fun s : Fin 16 => tileIn3 m d (coords3 c s) (tok c s)
  have key : ∀ (fo : S2048x128.Idx → Elt F .f32) (c : Fin 2) (s : Fin 16),
      iprop((tl d main_v6 ↦{tok c s} f) ∗ (tl d main_v12 ↦[idxSet3 (c, s)]{fullShare} idxB m d) ∗ (tl d main_v14 ↦[outSet3 (c, s)]{fullShare} fo))
        ⊢ (tileIn3 m d (coords3 c s) (tok c s) : sProp 𝕄) := fun fo c s => by
    unfold tileIn3
    iintro ⟨HA, HB, HC⟩
    isplitl [HA]
    · iexists f; isplitr
      · ipureintro; exact hf
      · iexact HA
    isplitl [HB]; · iexact HB
    iexists fo; iexact HC
  iintro ⟨HT, HI, %fo, HO⟩
  ihave HT' := (tab3_toks d f) $$ HT
  ihave HI' := (Entails.of_eq (idx3_pieces d (idxB m d))) $$ HI
  ihave HO' := (Entails.of_eq (out3_pieces d fo)) $$ HO
  have hmono : ((bigSep Finset.univ fun c : Fin 2 => bigSep Finset.univ fun s : Fin 16 =>
        iprop((tl d main_v6 ↦{tok c s} f) ∗ (tl d main_v12 ↦[idxSet3 (c, s)]{fullShare} idxB m d) ∗ (tl d main_v14 ↦[outSet3 (c, s)]{fullShare} fo))) : sProp 𝕄)
      ⊢ bigSep Finset.univ fun c : Fin 2 => bigSep Finset.univ fun s : Fin 16 => tileIn3 m d (coords3 c s) (tok c s) :=
    bigSep_mono fun c _ => bigSep_mono fun s _ => key fo c s
  iapply hmono
  simp only [bigSep_sep']
  isplitl [HT']; · iexact HT'
  isplitl [HI']; · iexact HI'
  iexact HO'

/-- What the call hands back: the result whole, known block by block. -/
theorem dn3_elim [∀ e, Nonempty (Elt F e)] (d : Dev nD) :
    (bigSep Finset.univ fun c : Fin ((K (F := F)).nCore 1) => (P m).dn 1 d c : sProp 𝕄)
      ⊢ iprop(∃ g : S2048x128.Idx → Elt F .f32, ⌜JoinB m d g⌝ ∗ tl d main_v14 ↦{fullShare} g) := by
  show (bigSep (Finset.univ : Finset (Fin 2)) fun c => bigSep Finset.univ fun s : Fin 16 => tileOut3 m d (coords3 c s)) ⊢ _
  rw [← bigSep_univ_prod (fun a : Fin 2 × Fin 16 => (tileOut3 m d (coords3 a.1 a.2) : sProp 𝕄))]
  unfold tileOut3
  refine (bigSep_exists_pi Finset.univ (fun (a : Fin 2 × Fin 16) (fo : S2048x128.Idx → Elt F .f32) =>
    (tl d main_v14 ↦[outSet3 a]{fullShare}
      ((outSl3 (coords3 a.1 a.2)).view.write (Elt F) fo (OUT3 (wantB m d) ((idxSl3 (coords3 a.1 a.2)).view.read (Elt F) (idxB m d))) Finset.univ) : sProp 𝕄))).trans ?_
  iintro ⟨%fs, H⟩
  ihave H' := (pointsTo_biUnion_join (ℓ := tl d main_v14) (q := fullShare) Finset.univ outSet3
    (fun a => (outSl3 (coords3 a.1 a.2)).view.write (Elt F) (fs a) (OUT3 (wantB m d) ((idxSl3 (coords3 a.1 a.2)).view.read (Elt F) (idxB m d))) Finset.univ)
    (fs (0, 0)) out3_disjoint) $$ H
  icases H' with ⟨%g, %hg, Hg⟩
  rw [out3_cover]
  iexists g; isplitr
  · ipureintro
    intro a
    exact ⟨fs a, fun i hi => hg a (Finset.mem_univ a) i hi⟩
  · iexact Hg

end Cert.Proof.KB

end
-- ==== Proof.KB.LaunchElem.lean ====
/-
  The launch element of the certificate's ghost state: the launch handshakes' rounds, the two pipelines' staging
  cells (funded here into every core's cells' ghost state and duty tokens), and the unit of the tasks' transfer
  counters. No kernel's proof consumes anything of the launch's.
-/
import proofs.«219250_g10247791969013_week1_w1_750_27_alg».proof.Proof.KB.Pay
import proofs.«219250_g10247791969013_week1_w1_750_27_alg».proof.Proof.KB.Spec
import Idealize.ShloMosaic.Lib.SparseCore.Launch
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The staging cells of the two pipelines are pairwise distinct. -/
theorem cellOf_inj0 (F : FTy → Type) [FloatOps F] :
    Function.Injective (Pipeline.cellOf (nD := nD) (τ := τ) (Pipeline.pin (pcfgs (F := F)) adm)) := cellOf_inj

/-- The pipelines' part of the launch element: their staging cells' rounds, every duty's token. -/
def uP (F : FTy → Type) [FloatOps F] : UP :=
  initOf (Pipeline.cells (Pipeline.pin (pcfgs (F := F)) adm) (cellOf_inj0 F)) (Pipeline.launchToks (Pipeline.pin (pcfgs (F := F)) adm) (cellOf_inj0 F))

/-- The launch element. -/
def u₀ (F : FTy → Type) [FloatOps F] : UU := (initOf (K (F := F)).hsCells (K (F := F)).hsToks, (uP F, 1))

omit [FloatOps F] in
/-- The element splits into the handshakes' and the pipelines' parts. -/
theorem ownU_split (a : UH) (b : UP) (c : Counters) : (ownU (a, (b, c)) : sProp 𝕄) ⊢ iprop(BI.own (EH a) ∗ BI.own (EP (F := F) b)) := by
  iintro H
  ihave H' := (ownU_pair a (b, c)) $$ H
  icases H' with ⟨HH, HR⟩
  ihave HR' := (own_pair_emb (embR : Emb (UP × Counters) 𝕄) b c) $$ HR
  icases HR' with ⟨HP, -⟩
  isplitl [HH]; · iexact HH
  iexact HP

variable (m : (ℓ : Loc nD τ sig) → Buf (Elt F) ℓ)

theorem bigSep_emp' {I : Type} (s : Finset I) : (bigSep s fun _ => iprop(emp)) = (iprop(emp) : sProp 𝕄) := bigSep_emp_const s

/-- The launch element deals the handshakes their rounds and every core its pipelines' ghost state. -/
theorem hu₀ (hfund : RegionsFund F) : (ownU (u₀ F) : sProp 𝕄)
    ⊢ |={Set.univ}=> iprop(BI.own (EH (initOf (K (F := F)).hsCells (K (F := F)).hsToks)) ∗ (bigSep Finset.univ fun d : Dev nD => (regGhost d : sProp 𝕄))
        ∗ bigSep Finset.univ fun thr : Thread nD τ => bigSep Finset.univ fun q : Fin 2 => (P m).x q thr) := by
  unfold u₀ uP
  iintro Hu
  ihave H := (ownU_split _ _ _) $$ Hu
  icases H with ⟨HH, HP⟩
  imod (hfund (cellOf_inj0 F)) $$ HP with Hg
  imodintro
  isplitl [HH]; · iexact HH
  isplitl [Hg]; · iexact Hg
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The TensorCore's handshake state, opened at what it owes -/

/-- The TensorCore owes nothing at the index its own kernels' waits are recorded at. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- The state before call n gives up what the core owes, and takes it back. -/
theorem tcSt_open (d : Dev nD) (n : ℕ) :
    ((K (F := F)).tcSt EH d n : sProp 𝕄)
      ⊢ iprop((∃ W, ⌜(K (F := F)).WBelow (SparseCore.T d) W (8 * n)⌝ ∗ owes (SparseCore.T d) ((K (F := F)).Otc d n) W)
          ∗ ((∃ W, ⌜(K (F := F)).WBelow (SparseCore.T d) W (8 * n)⌝ ∗ owes (SparseCore.T d) ((K (F := F)).Otc d n) W) -∗ (K (F := F)).tcSt EH d n)) := by
  unfold SparseCore.Cfg.tcSt
  iintro ⟨HO, Hr⟩
  isplitl [HO]; · iexact HO
  iintro HO
  isplitl [HO]; · iexact HO
  iexact Hr

end Cert.Proof.KB

end
-- ==== Proof.KB.MainTC.lean ====
/-
  @main on the TensorCore, inside the SparseCore launch: the first stretch of host operations; the two pipelined
  transposes (from the transposed tables to the two pair tables); the second stretch (the flat index lists); the
  two SparseCore calls, each handed its pair table, its index list and its result array and handing the result back
  known block by block; the last stretch (the sum and the reshape). It ends holding the three arguments and the two
  numeric results at their values, and the third result at an array that is a sum of two block-wise known arrays.
-/
import proofs.«219250_g10247791969013_week1_w1_750_27_alg».proof.Proof.KB.Obl
import proofs.«219250_g10247791969013_week1_w1_750_27_alg».proof.Proof.KB.CallIO
import proofs.«219250_g10247791969013_week1_w1_750_27_alg».proof.Proof.KB.LaunchElem
import Idealize.ShloMosaic.Lib.Pipeline.Frame
import Idealize.ShloMosaic.Lib.StableHlo.Run

noncomputable section

namespace Cert.Proof.KB

open Cert.Kernel Cert.Kernel.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The sets of arrays each step holds -/

/-- Every array of @main. -/
abbrev SAll : Finset (DevRef τ sig) := Pipeline.ucRefs τ sig
/-- The transposes' three arrays. -/
abbrev T1 : Finset (DevRef τ sig) := {dr main_v4, dr main_v5, dr main_v6}
/-- The calls' index lists and results, and the last stretch's two arrays. -/
abbrev T2 : Finset (DevRef τ sig) := {dr main_v9, dr main_v12, dr main_v13, dr main_v14, dr main_v15, dr main_v16}
/-- What the claim reads besides the third result. -/
abbrev T3 : Finset (DevRef τ sig) := {dr main_arg0, dr main_arg1, dr main_arg2, dr main_v2, dr main_v3}
/-- The last stretch's arrays. -/
abbrev T4 : Finset (DevRef τ sig) := {dr main_v13, dr main_v14, dr main_v15, dr main_v16}
abbrev S1 : Finset (DevRef τ sig) := SAll \ T1
abbrev S2 : Finset (DevRef τ sig) := S1 \ T2

theorem T1_sub : T1 ⊆ SAll := by decide
theorem T2_sub : T2 ⊆ S1 := by decide
theorem T3_sub : T3 ⊆ S2 := by decide

theorem opsA_sub : ∀ op ∈ (opsA : List (HloOp τ sig (Elt F))), op.bufs ⊆ SAll := by
  intro op hop
  simp only [opsA, List.mem_cons, List.mem_nil_iff, or_false] at hop
  rcases hop with rfl | rfl | rfl | rfl | rfl <;> first | (rw [StableHlo.unary_bufs]; decide) | (rw [StableHlo.reshape_bufs]; decide) | (rw [StableHlo.binary_bufs]; decide)
theorem opsB_sub : ∀ op ∈ (opsB : List (HloOp τ sig (Elt F))), op.bufs ⊆ S1 := by
  intro op hop
  simp only [opsB, List.mem_cons, List.mem_nil_iff, or_false] at hop
  rcases hop with rfl | rfl | rfl | rfl | rfl | rfl <;> first | (rw [StableHlo.unary_bufs]; decide) | (rw [StableHlo.reshape_bufs]; decide) | (rw [StableHlo.binary_bufs]; decide)
theorem opsC_sub : ∀ op ∈ (opsC : List (HloOp τ sig (Elt F))), op.bufs ⊆ T4 := by
  intro op hop
  simp only [opsC, List.mem_cons, List.mem_nil_iff, or_false] at hop
  rcases hop with rfl | rfl <;> first | (rw [StableHlo.unary_bufs]; decide) | (rw [StableHlo.reshape_bufs]; decide) | (rw [StableHlo.binary_bufs]; decide)
theorem opsA_fresh : ∀ op ∈ (opsA : List (HloOp τ sig (Elt F))), op.fresh = ∅ := by
  intro op hop
  simp only [opsA, List.mem_cons, List.mem_nil_iff, or_false] at hop
  rcases hop with rfl | rfl | rfl | rfl | rfl <;> rfl
theorem opsB_fresh : ∀ op ∈ (opsB : List (HloOp τ sig (Elt F))), op.fresh = ∅ := by
  intro op hop
  simp only [opsB, List.mem_cons, List.mem_nil_iff, or_false] at hop
  rcases hop with rfl | rfl | rfl | rfl | rfl | rfl <;> rfl
theorem opsC_fresh : ∀ op ∈ (opsC : List (HloOp τ sig (Elt F))), op.fresh = ∅ := by
  intro op hop
  simp only [opsC, List.mem_cons, List.mem_nil_iff, or_false] at hop
  rcases hop with rfl | rfl <;> rfl

omit [FloatOps F] in
theorem held_T1 (d : Dev nD) (W : Valuation τ sig (Elt F)) :
    (held (SparseCore.T d) T1 W : sProp 𝕄)
      = iprop((tl d main_v4 ↦{fullShare} W (dr main_v4)) ∗ (tl d main_v5 ↦{fullShare} W (dr main_v5)) ∗ tl d main_v6 ↦{fullShare} W (dr main_v6)) := by
  unfold held T1
  rw [SparseCore.bigSep_insert' (by decide), SparseCore.bigSep_insert' (by decide), bigSep_singleton]
omit [FloatOps F] in
theorem held_T2 (d : Dev nD) (W : Valuation τ sig (Elt F)) :
    (held (SparseCore.T d) T2 W : sProp 𝕄)
      = iprop((tl d main_v9 ↦{fullShare} W (dr main_v9)) ∗ (tl d main_v12 ↦{fullShare} W (dr main_v12)) ∗ (tl d main_v13 ↦{fullShare} W (dr main_v13))
          ∗ (tl d main_v14 ↦{fullShare} W (dr main_v14)) ∗ (tl d main_v15 ↦{fullShare} W (dr main_v15)) ∗ tl d main_v16 ↦{fullShare} W (dr main_v16)) := by
  unfold held T2
  rw [SparseCore.bigSep_insert' (by decide), SparseCore.bigSep_insert' (by decide), SparseCore.bigSep_insert' (by decide),
    SparseCore.bigSep_insert' (by decide), SparseCore.bigSep_insert' (by decide), bigSep_singleton]
omit [FloatOps F] in
theorem held_T4 (d : Dev nD) (W : Valuation τ sig (Elt F)) :
    (held (SparseCore.T d) T4 W : sProp 𝕄)
      = iprop((tl d main_v13 ↦{fullShare} W (dr main_v13)) ∗ (tl d main_v14 ↦{fullShare} W (dr main_v14))
          ∗ (tl d main_v15 ↦{fullShare} W (dr main_v15)) ∗ tl d main_v16 ↦{fullShare} W (dr main_v16)) := by
  unfold held T4
  rw [SparseCore.bigSep_insert' (by decide), SparseCore.bigSep_insert' (by decide), SparseCore.bigSep_insert' (by decide), bigSep_singleton]

omit [FloatOps F] in
theorem held_T3 (d : Dev nD) (W : Valuation τ sig (Elt F)) :
    (held (SparseCore.T d) T3 W : sProp 𝕄)
      = iprop((tl d main_arg0 ↦{fullShare} W (dr main_arg0)) ∗ (tl d main_arg1 ↦{fullShare} W (dr main_arg1)) ∗ (tl d main_arg2 ↦{fullShare} W (dr main_arg2))
          ∗ (tl d main_v2 ↦{fullShare} W (dr main_v2)) ∗ tl d main_v3 ↦{fullShare} W (dr main_v3)) := by
  unfold held T3
  rw [SparseCore.bigSep_insert' (by decide), SparseCore.bigSep_insert' (by decide), SparseCore.bigSep_insert' (by decide),
    SparseCore.bigSep_insert' (by decide), bigSep_singleton]

/-- The launch's arrays as a held set at the launch valuation. -/
theorem unscoped_held (d : Dev nD) :
    (unscopedBufs d (fun b => m ((SparseCore.T d).loc b)) : sProp 𝕄) = held (SparseCore.T d) SAll (V0 m d) :=
  Pipeline.unscopedBufs_held d (V0 m d)

/-! ## The pair tables the transposes leave are the determined pair tables where those are determined -/

theorem tabOK_of_trans0 (A : S26x64x100000.Idx → Elt F .f32) (f : S802816x128.Idx → Elt F .f32) (h : Trans0 A f) :
    TabOK (pairTab 0 8 A (by decide)) f := by
  intro i hi
  have h0 : (i 0).val < 802816 := (i 0).isLt
  have h1 : (i 1).val < 128 := (i 1).isLt
  have e := h ((i 0).val / 100352) ((i 0).val % 100352) ((i 1).val / 64) ((i 1).val % 64) (by omega) hi (by omega) (by omega)
  have hi' : i = ValueIdx.ix2 (⟨(i 0).val / 100352 * 100352 + (i 0).val % 100352, by omega⟩ : Fin 802816) (⟨(i 1).val / 64 * 64 + (i 1).val % 64, by omega⟩ : Fin 128) := by
    funext a; refine Fin.ext ?_
    match a with
    | ⟨0, _⟩ => show (i 0).val = (i 0).val / 100352 * 100352 + (i 0).val % 100352; omega
    | ⟨1, _⟩ => show (i 1).val = (i 1).val / 64 * 64 + (i 1).val % 64; omega
  have hfi : f i = f (ValueIdx.ix2 (⟨(i 0).val / 100352 * 100352 + (i 0).val % 100352, by omega⟩ : Fin 802816) (⟨(i 1).val / 64 * 64 + (i 1).val % 64, by omega⟩ : Fin 128)) :=
    congrArg f hi'
  rw [hfi, e]
  unfold pairTab
  refine congrArg A (funext fun a => Fin.ext ?_)
  match a with
  | ⟨0, _⟩ => show 2 * ((i 0).val / 100352) + (i 1).val / 64 = 2 * (0 + (i 0).val / 100352) + (i 1).val / 64; omega
  | ⟨1, _⟩ => rfl
  | ⟨2, _⟩ => show (i 0).val % 100352 = min ((i 0).val % 100352) 99999; omega

theorem tabOK_of_trans1 (A : S26x64x100000.Idx → Elt F .f32) (f : S501760x128.Idx → Elt F .f32) (h : Trans1 A f) :
    TabOK (pairTab 8 5 A (by decide)) f := by
  intro i hi
  have h0 : (i 0).val < 501760 := (i 0).isLt
  have h1 : (i 1).val < 128 := (i 1).isLt
  have e := h ((i 0).val / 100352) ((i 0).val % 100352) ((i 1).val / 64) ((i 1).val % 64) (by omega) hi (by omega) (by omega)
  have hi' : i = ValueIdx.ix2 (⟨(i 0).val / 100352 * 100352 + (i 0).val % 100352, by omega⟩ : Fin 501760) (⟨(i 1).val / 64 * 64 + (i 1).val % 64, by omega⟩ : Fin 128) := by
    funext a; refine Fin.ext ?_
    match a with
    | ⟨0, _⟩ => show (i 0).val = (i 0).val / 100352 * 100352 + (i 0).val % 100352; omega
    | ⟨1, _⟩ => show (i 1).val = (i 1).val / 64 * 64 + (i 1).val % 64; omega
  have hfi : f i = f (ValueIdx.ix2 (⟨(i 0).val / 100352 * 100352 + (i 0).val % 100352, by omega⟩ : Fin 501760) (⟨(i 1).val / 64 * 64 + (i 1).val % 64, by omega⟩ : Fin 128)) :=
    congrArg f hi'
  rw [hfi, e]
  unfold pairTab
  refine congrArg A (funext fun a => Fin.ext ?_)
  match a with
  | ⟨0, _⟩ => show 2 * ((i 0).val / 100352 + 8) + (i 1).val / 64 = 2 * (8 + (i 0).val / 100352) + (i 1).val / 64; omega
  | ⟨1, _⟩ => rfl
  | ⟨2, _⟩ => show (i 0).val % 100352 = min ((i 0).val % 100352) 99999; omega

/-- The transposes' results against the first stretch's transposed tables are the calls' determined pair tables. -/
theorem wantA_ok (d : Dev nD) (f : S802816x128.Idx → Elt F .f32) (h : Trans0 (tabT m d) f) : TabOK (wantA m d) f := by
  unfold wantA; exact tabOK_of_trans0 _ _ h
theorem wantB_ok (d : Dev nD) (f : S501760x128.Idx → Elt F .f32) (h : Trans1 (tabT m d) f) : TabOK (wantB m d) f := by
  unfold wantB; exact tabOK_of_trans1 _ _ h

/-! ## What @main leaves the claim -/

/-- The three arguments and the two numeric results at their values, and the third result at a sum of two block-wise
    known arrays. -/
def FIN (d : Dev nD) : sProp 𝕄 :=
  iprop((tl d main_arg0 ↦{fullShare} VB m d (dr main_arg0)) ∗ (tl d main_arg1 ↦{fullShare} VB m d (dr main_arg1))
    ∗ (tl d main_arg2 ↦{fullShare} VB m d (dr main_arg2)) ∗ (tl d main_v2 ↦{fullShare} VB m d (dr main_v2))
    ∗ (tl d main_v3 ↦{fullShare} VB m d (dr main_v3))
    ∗ ∃ R : S4096x64.Idx → Elt F .f32, ⌜ResOK m d R⌝ ∗ tl d main_v16 ↦{fullShare} R)

/-! ## @main -/

set_option maxHeartbeats 800000 in
/-- @main on device d's TensorCore. -/
theorem hmain (hreg : RegionsWp F) (κ : GSem nD τ sig → ℕ) (d : Dev nD) :
    iprop((K (F := F)).ctx EH (P m) κ ∗ (K (F := F)).tcSt EH d 0 ∗ (K (F := F)).tcRes m ρ d ∗ regGhost d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscoped_held, main_eq]
  iintro ⟨#Hctx, Hst, ⟨Hb, Hh, -, -⟩, Hg⟩
  -- the first stretch
  iapply (wp_seq 𝒱 none Set.univ d SAll _ opsA opsA_sub opsA_fresh (V0 m d)) $$ [Hb Hh]
  · isplitl [Hb]; · iexact Hb
    iexact Hh
  iintro ⟨Hb, Hh⟩
  ihave Hh := (Entails.of_eq (show (held (SparseCore.T d) SAll (after opsA (V0 m d)) : sProp 𝕄) = held (SparseCore.T d) SAll (VA m d) from by unfold VA; rfl)) $$ Hh
  ihave Hh' := (Entails.of_eq (held_sub_split (SparseCore.T d) T1_sub (VA m d))) $$ Hh
  icases Hh' with ⟨H1, Hh⟩
  ihave H1' := (Entails.of_eq (held_T1 d (VA m d))) $$ H1
  icases H1' with ⟨H4, H5, H6⟩
  ihave Hst' := (tcSt_open d 0) $$ Hst
  icases Hst' with ⟨HO, Hstk⟩
  -- the two transposes
  iapply (hreg (K (F := F)).lev (by sl_refines_lev) d (tabT m d) ((K (F := F)).Otc d 0) (Otc_none d 0) (8 * 0) _ _)
  isplitr [Hb H4 H5 H6 HO Hg]
  rotate_left
  · isplitl [Hb]; · iexact Hb
    isplitl [H4 H5 H6 HO]
    · unfold regPre
      isplitl [H4]
      · iapply (Entails.of_eq (show (tl d main_v4 ↦{fullShare} VA m d (dr main_v4) : sProp 𝕄) = (tl d main_v4 ↦{fullShare} tabT m d) from by unfold tabT; rfl))
        iexact H4
      isplitl [H5]; · iexists _; iexact H5
      isplitl [H6]; · iexists _; iexact H6
      iexact HO
    isplitr
    · iapply ((K (F := F)).ctx_levAts κ); iexact Hctx
    · iexact Hg
  iintro ⟨Hb, Hpost⟩
  unfold regPost
  icases Hpost with ⟨-, ⟨%f5, %h5, H5⟩, ⟨%f6, %h6, H6⟩, HO⟩
  ihave Hst := Hstk $$ HO
  -- the second stretch
  iapply (wp_seq 𝒱 none Set.univ d S1 _ opsB opsB_sub opsB_fresh (VA m d)) $$ [Hb Hh]
  · isplitl [Hb]; · iexact Hb
    iexact Hh
  iintro ⟨Hb, Hh⟩
  ihave Hh := (Entails.of_eq (show (held (SparseCore.T d) S1 (after opsB (VA m d)) : sProp 𝕄) = held (SparseCore.T d) S1 (VB m d) from by unfold VB; rfl)) $$ Hh
  ihave Hh' := (Entails.of_eq (held_sub_split (SparseCore.T d) T2_sub (VB m d))) $$ Hh
  icases Hh' with ⟨H2, Hh⟩
  ihave H2' := (Entails.of_eq (held_T2 d (VB m d))) $$ H2
  icases H2' with ⟨H9, H12, H13, H14, H15, H16⟩
  -- call 0
  rw [wp_bind]
  iapply ((K (F := F)).wp_run (D (F := F)) 𝒱 (EH := EH) (P := P m) κ d 0)
  isplitr; · iexact Hctx
  isplitl [Hst]; · iexact Hst
  isplitl [H5 H9 H13]
  · iapply (st2_intro m d f5 (wantA_ok m d f5 h5))
    isplitl [H5]; · iexact H5
    isplitl [H9]
    · iapply (Entails.of_eq (show (tl d main_v9 ↦{fullShare} VB m d (dr main_v9) : sProp 𝕄) = (tl d main_v9 ↦{fullShare} idxA m d) from by unfold idxA; rfl))
      iexact H9
    iexists _; iexact H13
  iintro ⟨Hst, Hdn⟩
  ihave Hdn' := (dn2_elim m d) $$ Hdn
  icases Hdn' with ⟨%gA, %hgA, H13⟩
  -- call 1
  rw [wp_bind]
  iapply ((K (F := F)).wp_run (D (F := F)) 𝒱 (EH := EH) (P := P m) κ d 1)
  isplitr; · iexact Hctx
  isplitl [Hst]; · iexact Hst
  isplitl [H6 H12 H14]
  · iapply (st3_intro m d f6 (wantB_ok m d f6 h6))
    isplitl [H6]; · iexact H6
    isplitl [H12]
    · iapply (Entails.of_eq (show (tl d main_v12 ↦{fullShare} VB m d (dr main_v12) : sProp 𝕄) = (tl d main_v12 ↦{fullShare} idxB m d) from by unfold idxB; rfl))
      iexact H12
    iexists _; iexact H14
  iintro ⟨Hst, Hdn⟩
  ihave Hdn' := (dn3_elim m d) $$ Hdn
  icases Hdn' with ⟨%gB, %hgB, H14⟩
  -- the last stretch
  rw [← bind_pure (seq opsC)]
  iapply (wp_seq 𝒱 none Set.univ d T4 _ opsC opsC_sub opsC_fresh (VC m d gA gB)) $$ [Hb H13 H14 H15 H16]
  · isplitl [Hb]; · iexact Hb
    rw [held_T4]
    unfold VC
    rw [Function.update_of_ne (show dr main_v13 ≠ dr main_v14 by decide), Function.update_self, Function.update_self,
      Function.update_of_ne (show dr main_v15 ≠ dr main_v14 by decide), Function.update_of_ne (show dr main_v15 ≠ dr main_v13 by decide),
      Function.update_of_ne (show dr main_v16 ≠ dr main_v14 by decide), Function.update_of_ne (show dr main_v16 ≠ dr main_v13 by decide)]
    isplitl [H13]; · iexact H13
    isplitl [H14]; · iexact H14
    isplitl [H15]; · iexact H15
    iexact H16
  iintro ⟨Hb, H4'⟩
  ihave H4'' := (Entails.of_eq (held_T4 d (after opsC (VC m d gA gB)))) $$ H4'
  icases H4'' with ⟨-, -, -, H16⟩
  ihave Hh' := (Entails.of_eq (held_sub_split (SparseCore.T d) T3_sub (VB m d))) $$ Hh
  icases Hh' with ⟨H3, -⟩
  rw [wp_pure]; imodintro
  isplitl [Hst]; · iexact Hst
  ihave H3' := (Entails.of_eq (held_T3 d (VB m d))) $$ H3
  icases H3' with ⟨Ha0, Ha1, Ha2, Hv2, Hv3⟩
  unfold FIN
  isplitl [Ha0]; · iexact Ha0
  isplitl [Ha1]; · iexact Ha1
  isplitl [Ha2]; · iexact Ha2
  isplitl [Hv2]; · iexact Hv2
  isplitl [Hv3]; · iexact Hv3
  iexists (resOf m d gA gB); isplitr
  · ipureintro; exact ⟨gA, gB, hgA, hgB, rfl⟩
  · iexact H16

end Cert.Proof.KB

end
-- ==== Proof.KB.Run.lean ====
/-
  The kernel program's run, from the launch theorem: every weakly fair execution of all its threads
  terminates, nothing faulting, and every final memory has the three arguments and the two numeric results at the
  host stretches' values of the launch memory, and the third result at a sum of two block-wise known arrays.
-/
import proofs.«219250_g10247791969013_week1_w1_750_27_alg».proof.Proof.KB.MainTC

noncomputable section

namespace Cert.Proof.KB

open Cert.Kernel Cert.Kernel.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

variable (m : (ℓ : Loc nD τ sig) → Buf (Elt F) ℓ) (ρ : Dev nD → PrngReg)

/-- What the final memory of device d is read for: the three arguments and the two numeric results at the second
    stretch's valuation, the third result a sum of two block-wise known arrays. -/
def fq (d : Dev nD) (s' : Phys nD τ sig (Elt F)) : Prop :=
  s'.mem.mem (tl d main_arg0) = VB m d (dr main_arg0) ∧ s'.mem.mem (tl d main_arg1) = VB m d (dr main_arg1)
    ∧ s'.mem.mem (tl d main_arg2) = VB m d (dr main_arg2) ∧ s'.mem.mem (tl d main_v2) = VB m d (dr main_v2)
    ∧ s'.mem.mem (tl d main_v3) = VB m d (dr main_v3) ∧ ResOK m d (s'.mem.mem (tl d main_v16))

theorem hfin (d : Dev nD) (s' : Phys nD τ sig (Elt F)) : iprop(FIN m d ∗ SI s') ⊢ (⌜fq m d s'⌝ : sProp 𝕄) := by
  unfold FIN
  iintro ⟨⟨Ha0, Ha1, Ha2, Hv2, Hv3, %R, %hR, H16⟩, HSI⟩
  ihave H := (persistent_entails_right (SI_pointsTo_agree (st := s') (ℓ := tl d main_arg0) (I := Finset.univ) (q := fullShare) (f := VB m d (dr main_arg0)))) $$ [HSI Ha0]
  · isplitl [HSI] <;> iassumption
  icases H with ⟨%h0, HSI, -⟩
  ihave H := (persistent_entails_right (SI_pointsTo_agree (st := s') (ℓ := tl d main_arg1) (I := Finset.univ) (q := fullShare) (f := VB m d (dr main_arg1)))) $$ [HSI Ha1]
  · isplitl [HSI] <;> iassumption
  icases H with ⟨%h1, HSI, -⟩
  ihave H := (persistent_entails_right (SI_pointsTo_agree (st := s') (ℓ := tl d main_arg2) (I := Finset.univ) (q := fullShare) (f := VB m d (dr main_arg2)))) $$ [HSI Ha2]
  · isplitl [HSI] <;> iassumption
  icases H with ⟨%h2, HSI, -⟩
  ihave H := (persistent_entails_right (SI_pointsTo_agree (st := s') (ℓ := tl d main_v2) (I := Finset.univ) (q := fullShare) (f := VB m d (dr main_v2)))) $$ [HSI Hv2]
  · isplitl [HSI] <;> iassumption
  icases H with ⟨%h3, HSI, -⟩
  ihave H := (persistent_entails_right (SI_pointsTo_agree (st := s') (ℓ := tl d main_v3) (I := Finset.univ) (q := fullShare) (f := VB m d (dr main_v3)))) $$ [HSI Hv3]
  · isplitl [HSI] <;> iassumption
  icases H with ⟨%h4, HSI, -⟩
  ihave H := (SI_pointsTo_agree (st := s') (ℓ := tl d main_v16) (I := Finset.univ) (q := fullShare) (f := R)) $$ [HSI H16]
  · isplitl [HSI] <;> iassumption
  icases H with %h5
  ipureintro
  refine ⟨funext fun i => h0 i (Finset.mem_univ i), funext fun i => h1 i (Finset.mem_univ i), funext fun i => h2 i (Finset.mem_univ i),
    funext fun i => h3 i (Finset.mem_univ i), funext fun i => h4 i (Finset.mem_univ i), ?_⟩
  rw [show s'.mem.mem (tl d main_v16) = R from funext fun i => h5 i (Finset.mem_univ i)]
  exact hR

/-- The program's run. -/
def QC : PUnit × MemSt nD τ sig (Elt F) → Prop := fun r => ∀ d : Dev nD,
  r.2.mem (tl d main_arg0) = VB m d (dr main_arg0) ∧ r.2.mem (tl d main_arg1) = VB m d (dr main_arg1)
    ∧ r.2.mem (tl d main_arg2) = VB m d (dr main_arg2) ∧ r.2.mem (tl d main_v2) = VB m d (dr main_v2)
    ∧ r.2.mem (tl d main_v3) = VB m d (dr main_v3) ∧ ResOK m d (r.2.mem (tl d main_v16))

theorem run_main [∀ e, Nonempty (Elt F e)] (h2 : TileBody2 F) (h3 : TileBody3 F) (hfund : RegionsFund F) (hreg : RegionsWp F)
    (hA : ∀ d i, (idxA m d i).toNat < 100000) (hB : ∀ d i, (idxB m d i).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl2 m h2 facts hA | 1 => tileObl3 m h3 facts hB)
    (fun q _ => SparseCore.Cfg.VecSplit.of_plain (vecSplit m q))
    m ρ main (fun d => regGhost d) (FIN m) (u₀ F) (sep_elim_left.trans (hu₀ m hfund)) (hmain m ρ hreg) (fq m) (hfin m) (QC m) (fun _ h => h)

end Cert.Proof.KB

end
-- ==== Proof.KB.HostVals.lean ====
/-
  What the host stretches leave: no operation writes an argument, so the arguments keep their launch contents; and
  the two flat index lists are slices of the input reshaped, so every one of their words is a word of the input.
-/
import proofs.«219250_g10247791969013_week1_w1_750_27_alg».proof.Proof.KB.Pay
import proofs.«219250_g10247791969013_week1_w1_750_27_alg».proof.Proof.KB.ResSpec

noncomputable section

namespace Cert.Proof.KB

open Cert.Kernel Cert.Kernel.Gen

open Idealize.ShloMosaic Idealize.ShloMosaic.TcCoe
open Idealize.SL Idealize.SL.Sem
open Idealize.ShloMosaic.StableHlo

variable {F : FTy → Type} [FloatOps F]

variable (m : (ℓ : Loc nD τ sig) → Buf (Elt F) ℓ)

theorem opsA_keeps {b : DevRef τ sig} (hb : b ∉ ({dr main_v0, dr main_v1, dr main_v2, dr main_v3, dr main_v4} : Finset (DevRef τ sig)))
    (W : Valuation τ sig (Elt F)) : after opsA W b = W b := by
  refine after_of_forall_not_mem opsA W fun op hop hw => hb ?_
  simp only [opsA, List.mem_cons, List.mem_nil_iff, or_false] at hop
  rcases hop with rfl | rfl | rfl | rfl | rfl
  all_goals
    rw [Finset.mem_singleton.mp hw]
    decide

theorem opsB_keeps {b : DevRef τ sig} (hb : b ∉ ({dr main_v7, dr main_v8, dr main_v9, dr main_v10, dr main_v11, dr main_v12} : Finset (DevRef τ sig)))
    (W : Valuation τ sig (Elt F)) : after opsB W b = W b := by
  refine after_of_forall_not_mem opsB W fun op hop hw => hb ?_
  simp only [opsB, List.mem_cons, List.mem_nil_iff, or_false] at hop
  rcases hop with rfl | rfl | rfl | rfl | rfl | rfl
  all_goals
    rw [Finset.mem_singleton.mp hw]
    decide

/-- The arguments after the two stretches are the launch's. -/
theorem VB_arg0 (d : Dev nD) : VB m d (dr main_arg0) = V0 m d (dr main_arg0) := by
  unfold VB VA; rw [opsB_keeps (by decide), opsA_keeps (by decide)]
theorem VB_arg1 (d : Dev nD) : VB m d (dr main_arg1) = V0 m d (dr main_arg1) := by
  unfold VB VA; rw [opsB_keeps (by decide), opsA_keeps (by decide)]
theorem VB_arg2 (d : Dev nD) : VB m d (dr main_arg2) = V0 m d (dr main_arg2) := by
  unfold VB VA; rw [opsB_keeps (by decide), opsA_keeps (by decide)]

/-- Every word of the first index list is a word of the input. -/
theorem idxA_word (d : Dev nD) (j : S65536.Idx) : ∃ i : S4096x64x36.Idx, idxA m d j = V0 m d (dr main_arg0) i := by
  have e : idxA m d = shapeCast S65536 (shapeCast S4096x16 (extractStridedSlice S4096x1x16 ![0, 0, 0] (V0 m d (dr main_arg0)) slices_S4096x64x36_S4096x1x16_0_0_0) shapeCasts_S4096x1x16_S4096x16) shapeCasts_S4096x16_S65536 := by
    unfold idxA VB
    after_results
    rw [show VA m d (dr main_arg0) = V0 m d (dr main_arg0) from by unfold VA; exact opsA_keeps (by decide) _]
    rfl
  rw [e]
  exact ⟨_, rfl⟩

/-- Every word of the second index list is a word of the input. -/
theorem idxB_word (d : Dev nD) (j : S40960.Idx) : ∃ i : S4096x64x36.Idx, idxB m d j = V0 m d (dr main_arg0) i := by
  have e : idxB m d = shapeCast S40960 (shapeCast S4096x10 (extractStridedSlice S4096x1x10 ![0, 0, 16] (V0 m d (dr main_arg0)) slices_S4096x64x36_S4096x1x10_0_0_16) shapeCasts_S4096x1x10_S4096x10) shapeCasts_S4096x10_S40960 := by
    unfold idxB VB
    after_results
    rw [show VA m d (dr main_arg0) = V0 m d (dr main_arg0) from by unfold VA; exact opsA_keeps (by decide) _]
    rfl
  rw [e]
  exact ⟨_, rfl⟩

end Cert.Proof.KB

end
-- ==== Proof.KB.Assemble.lean ====
/-
  The kernel program's frame, from the four statements the launch rests on: its run with the results dropped.
-/
import proofs.«219250_g10247791969013_week1_w1_750_27_alg».proof.Defs
import proofs.«219250_g10247791969013_week1_w1_750_27_alg».proof.Proof.KB.Run
import proofs.«219250_g10247791969013_week1_w1_750_27_alg».proof.Proof.KB.HostVals
import proofs.«219250_g10247791969013_week1_w1_750_27_alg».proof.Proof.PreRange
import proofs.«219250_g10247791969013_week1_w1_750_27_alg».proof.Proof.Gen.Kernel
import proofs.«219250_g10247791969013_week1_w1_750_27_alg».proof.Proof.Gen.Pre_input_domain

noncomputable section

namespace Cert.Proof.KB

open Cert.Kernel Cert.Kernel.Gen

open Idealize.ShloMosaic Idealize.ShloMosaic.TcCoe
open Idealize.SL Idealize.SL.Sem
open Idealize.ShloMosaic.StableHlo

/-- Under the precondition every word of the input is below 100000. -/
theorem input_lt_of_pre {F : FTy → Type} [FloatOps F] (m : (ℓ : Loc nD τ sig) → Buf (Elt F) ℓ)
    (h : ∀ c : Dev nD, (Cert.Pre_input_domain.fn (F := F) (m ((c.tc : Thread nD τ).loc main_arg0)) (m ((c.tc : Thread nD τ).loc main_arg1)) (m ((c.tc : Thread nD τ).loc main_arg2))) = (fun _ => 1#1))
    (d : Dev nD) (i : S4096x64x36.Idx) : (V0 m d (dr main_arg0) i).toNat < 100000 :=
  Cert.Proof.PreRange.input_lt _ _ _ (h d) i

theorem idxA_lt_of_pre {F : FTy → Type} [FloatOps F] (m : (ℓ : Loc nD τ sig) → Buf (Elt F) ℓ)
    (h : ∀ c : Dev nD, (Cert.Pre_input_domain.fn (F := F) (m ((c.tc : Thread nD τ).loc main_arg0)) (m ((c.tc : Thread nD τ).loc main_arg1)) (m ((c.tc : Thread nD τ).loc main_arg2))) = (fun _ => 1#1))
    (d : Dev nD) (j : S65536.Idx) : (idxA m d j).toNat < 100000 := by
  obtain ⟨i, e⟩ := idxA_word m d j
  rw [e]; exact input_lt_of_pre m h d i
theorem idxB_lt_of_pre {F : FTy → Type} [FloatOps F] (m : (ℓ : Loc nD τ sig) → Buf (Elt F) ℓ)
    (h : ∀ c : Dev nD, (Cert.Pre_input_domain.fn (F := F) (m ((c.tc : Thread nD τ).loc main_arg0)) (m ((c.tc : Thread nD τ).loc main_arg1)) (m ((c.tc : Thread nD τ).loc main_arg2))) = (fun _ => 1#1))
    (d : Dev nD) (j : S40960.Idx) : (idxB m d j).toNat < 100000 := by
  obtain ⟨i, e⟩ := idxB_word m d j
  rw [e]; exact input_lt_of_pre m h d i

/-- The kernel program terminates on every weakly fair execution of all its threads, faults nowhere and leaves its
    three arguments as they were. -/
theorem frame_Kernel (h2 : TileBody2 Bits) (h3 : TileBody3 Bits) (hfund : RegionsFund Bits) (hreg : RegionsWp Bits) :
    Cert.frame_Kernel := fun m ρ hpre =>
  (θ_run Cert.Kernel.defs _ _).mono
    (fun _ h c => ⟨(h c).1.trans (VB_arg0 m c), (h c).2.1.trans (VB_arg1 m c), (h c).2.2.1.trans (VB_arg2 m c)⟩)
    (run_main (F := Bits) m ρ h2 h3 hfund hreg (idxA_lt_of_pre m hpre) (idxB_lt_of_pre m hpre))

end Cert.Proof.KB

end
-- ==== Proof.KB.TransData.lean ====
import proofs.«219250_g10247791969013_week1_w1_750_27_alg».proof.Proof.KB.TransSpec
import Idealize.ShloMosaic.Lib.ValueIdx

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

/-! ## The proof data of the two pipelined transposes

Relational proof data: an input window's staging buffer is left as it was found; the result window's is left holding,
on the rows that lie inside the vocabulary, the pair's two tables side by side — the rows of the last block past the
vocabulary's end hold what the clipped fetch left there, which nothing states. Both input windows read the one array of
transposed tables, each at half of its share. -/

/-- What the result's staging buffer holds after the body at grid point `(k, cc)` of the pipeline whose first pair is
    `base`: row `r` of the block, when row `cc * 25088 + r` lies inside the vocabulary, holds that row of table
    `2 (k + base)` in lanes `[0, 64)` and of table `2 (k + base) + 1` in lanes `[64, 128)`. -/
def OutOk (base : ℕ) (A : S26x64x100000.Idx → Elt F .f32) (k cc : ℕ) (X : S25088x128.Idx → Elt F .f32) : Prop :=
  ∀ (r h d : ℕ) (hr : r < 25088) (hh : h < 2) (hd : d < 64) (hv : cc * 25088 + r < 100000) (hk : 2 * (k + base) + h < 26),
    X (ix2 (⟨r, hr⟩ : Fin 25088) (⟨h * 64 + d, by omega⟩ : Fin 128))
      = A (ix3 (⟨2 * (k + base) + h, hk⟩ : Fin 26) (⟨d, hd⟩ : Fin 64) (⟨cc * 25088 + r, hv⟩ : Fin 100000))

variable (A : S26x64x100000.Idx → Elt F .f32) (B5 : S802816x128.Idx → Elt F .f32) (B6 : S501760x128.Idx → Elt F .f32)
  (O : CellTallies nD τ sig (HIx 2)) (b : ℕ)

/-- Pipeline 0 on core `c`: the tables at `A` behind both input windows, the result at `B5` at entry; the invariant is
    the scoped buffers no window of it stages; the core owes `O` throughout, its recorded pairs at levels at most `b`. -/
def rdat0 (c : Dev nD) : Pipeline.RDat τ (Elt F) (HIx 2) ℕ UU ℕ (Pipeline.pin (pcfgs (F := F)) adm 0) c where
  A w := match w with
    | ⟨0, _⟩ => A
    | ⟨1, _⟩ => A
    | ⟨2, _⟩ => B5
  after w t := match w with
    | ⟨0, _⟩ => fun Y X => X = Y
    | ⟨1, _⟩ => fun Y X => X = Y
    | ⟨2, _⟩ => fun _ X => OutOk 0 A (grid0.coords t 0).val (grid0.coords t 1).val X
  Φ _ := Pipeline.scopedRest (Pipeline.pin (pcfgs (F := F)) adm 0).spec c
  q w := match w with
    | ⟨0, _⟩ => fullShare.left
    | ⟨1, _⟩ => fullShare.right
    | ⟨2, _⟩ => fullShare
  owed _ := O
  recorded _ := {p | (K (F := F)).lev ((c.tc : Thread nD τ), p.1) p.2 ≤ b}

/-- Pipeline 1 likewise, its pairs starting at pair 8. -/
def rdat1 (c : Dev nD) : Pipeline.RDat τ (Elt F) (HIx 2) ℕ UU ℕ (Pipeline.pin (pcfgs (F := F)) adm 1) c where
  A w := match w with
    | ⟨0, _⟩ => A
    | ⟨1, _⟩ => A
    | ⟨2, _⟩ => B6
  after w t := match w with
    | ⟨0, _⟩ => fun Y X => X = Y
    | ⟨1, _⟩ => fun Y X => X = Y
    | ⟨2, _⟩ => fun _ X => OutOk 8 A (grid1.coords t 0).val (grid1.coords t 1).val X
  Φ _ := Pipeline.scopedRest (Pipeline.pin (pcfgs (F := F)) adm 1).spec c
  q w := match w with
    | ⟨0, _⟩ => fullShare.left
    | ⟨1, _⟩ => fullShare.right
    | ⟨2, _⟩ => fullShare
  owed _ := O
  recorded _ := {p | (K (F := F)).lev ((c.tc : Thread nD τ), p.1) p.2 ≤ b}

/-- The two pipelines' proof data. -/
def rdats : (p : Fin 2) → (c : Dev nD) → Pipeline.RDat τ (Elt F) (HIx 2) ℕ UU ℕ (Pipeline.pin (pcfgs (F := F)) adm p) c
  | ⟨0, _⟩ => fun c => rdat0 A B5 O b c
  | ⟨1, _⟩ => fun c => rdat1 A B6 O b c

end Cert.Proof.KB

end
-- ==== Proof.KB.TransPure.lean ====
import proofs.«219250_g10247791969013_week1_w1_750_27_alg».proof.Proof.KB.TransData
import Idealize.ShloMosaic.Lib.ValueIdx
import proofs.«219250_g10247791969013_week1_w1_750_27_alg».proof.Proof.Gen.Kernel.Skeleton
import proofs.«219250_g10247791969013_week1_w1_750_27_alg».proof.Proof.Gen.Kernel.Points
import Idealize.ShloMosaic.Lib.Pipeline.Value
import Idealize.ShloMosaic.Lib.Writes

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

set_option maxRecDepth 8192

set_option maxRecDepth 8192

/-! ## The transposes' body, as a function of what it finds

Pure facts: what the two transposed payloads are at an index; what a buffer written by the body's two half-width
stores reads at an index; what the result's staging buffer therefore holds against the inputs' staging buffers. -/

/-- What the body leaves in the result's buffer `X`, against what it found in the two inputs' (`X0`, `X1`): row `r` holds
    column `r` of the first input in lanes `[0, 64)` and of the second in lanes `[64, 128)`. -/
def BodyOut (X0 X1 : S1x64x25088.Idx → Elt F .f32) (X : S25088x128.Idx → Elt F .f32) : Prop :=
  ∀ (r d : ℕ) (hr : r < 25088) (hd : d < 64),
    X (ix2 (⟨r, hr⟩ : Fin 25088) (⟨d, by omega⟩ : Fin 128))
        = X0 (ix3 (⟨0, by decide⟩ : Fin 1) (⟨d, hd⟩ : Fin 64) (⟨r, hr⟩ : Fin 25088))
      ∧ X (ix2 (⟨r, hr⟩ : Fin 25088) (⟨64 + d, by omega⟩ : Fin 128))
        = X1 (ix3 (⟨0, by decide⟩ : Fin 1) (⟨d, hd⟩ : Fin 64) (⟨r, hr⟩ : Fin 25088))

/-- The transposed payload at `(r, d)` is the block at `(0, d, r)`. -/
theorem pay1_apply (v0 : S1x64x25088.Idx → Elt F .f32) (j : S25088x64.Idx) :
    k0_pay1 (F := F) v0 j = v0 (ix3 (⟨0, by decide⟩ : Fin 1) (j 1) (j 0)) := by
  unfold k0_pay1
  rw [transpose_apply [1, 0] _ transposes_S64x25088_p1_0_S25088x64 j (ix2 (j 1) (j 0)) (by intro bb; fin_cases bb <;> rfl)]
  rw [shapeCast_apply _ shapeCasts_S1x64x25088_S64x25088 (ix2 (j 1) (j 0)) (ix3 (⟨0, by decide⟩ : Fin 1) (j 1) (j 0))
    (by rw [Shape.rowMajor_val_three, Shape.rowMajor_val_two]; simp)]

theorem pay2_apply (v0 : S1x64x25088.Idx → Elt F .f32) (j : S25088x64.Idx) :
    k0_pay2 (F := F) v0 j = v0 (ix3 (⟨0, by decide⟩ : Fin 1) (j 1) (j 0)) := pay1_apply v0 j

/-- The second pipeline's payloads are the first's. -/
theorem k1_pay1_eq (v : Vec F S1x64x25088 .f32) : k1_pay1 (F := F) v = k0_pay1 (F := F) v := rfl
theorem k1_pay2_eq (v : Vec F S1x64x25088 .f32) : k1_pay2 (F := F) v = k0_pay2 (F := F) v := rfl

section Views

variable {sg : RefSig} {κ : Kind} {sp : Space}

/-- A load through the whole-shape rectangle at zero offsets reads what the view reads. -/
theorem readAt_unit_zero_view {S : Shape} {e : EltTy} (v : View sg κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f := by
  subst h; funext x
  show v.read (Elt F) f ((Rect.whole S).emb x) = v.read (Elt F) f x
  rw [Rect.emb_whole_apply]

/-- The left half-width rectangle of the result's block and the right one. -/
abbrev rL : Rect S25088x128 := Rect.unit (s := S25088x128) ![0, 0] S25088x64.size inb_S25088x128_S25088x64_0_0
abbrev rR : Rect S25088x128 := Rect.unit (s := S25088x128) ![0, 64] S25088x64.size inb_S25088x128_S25088x64_0_64

theorem rL_emb (x : rL.shape.Idx) (a : Fin 2) : ((rL.emb x) a : ℕ) = (![0, 0] : Fin 2 → ℕ) a + (x a : ℕ) := by
  rw [Rect.emb_apply]; show (![0, 0] : Fin 2 → ℕ) a + 1 * (x a : ℕ) = _; omega
theorem rR_emb (x : rR.shape.Idx) (a : Fin 2) : ((rR.emb x) a : ℕ) = (![0, 64] : Fin 2 → ℕ) a + (x a : ℕ) := by
  rw [Rect.emb_apply]; show (![0, 64] : Fin 2 → ℕ) a + 1 * (x a : ℕ) = _; omega

/-- A buffer written through the left half and then the right half of a view reads, at a lane below 64, the left payload, -/
theorem read_two_writes_left (v : View sg κ sp S25088x128 .f32) (f : v.ty.Contents (Elt F)) (wL wR : S25088x64.Idx → Elt F .f32)
    (r d : ℕ) (hr : r < 25088) (hd : d < 64) :
    v.read (Elt F) (v.writes (Elt F) f [⟨rR, wR⟩, ⟨rL, wL⟩]) (ix2 (⟨r, hr⟩ : Fin 25088) (⟨d, by omega⟩ : Fin 128))
      = wL (ix2 (⟨r, hr⟩ : Fin 25088) (⟨d, hd⟩ : Fin 64)) := by
  rw [View.writes_cons]
  rw [View.read_slice_write_of_not_mem (v := v) rR _ wR Finset.univ (y := ix2 (⟨r, hr⟩ : Fin 25088) (⟨d, by omega⟩ : Fin 128)) (by
    rw [Finset.mem_map]; rintro ⟨x, -, hx⟩
    have h1 := congrArg (fun j : S25088x128.Idx => ((j 1 : Fin _) : ℕ)) hx
    have h2 := rR_emb x 1
    simp only [DFunLike.coe] at h1
    simp at h1 h2
    omega)]
  rw [View.writes_cons, View.writes_nil]
  have e : (ix2 (⟨r, hr⟩ : Fin 25088) (⟨d, by omega⟩ : Fin 128) : S25088x128.Idx)
      = rL.emb (ix2 (⟨r, hr⟩ : Fin 25088) (⟨d, hd⟩ : Fin 64)) := by
    funext a; apply Fin.ext; rw [rL_emb]
    fin_cases a <;> simp
  rw [e]
  exact View.read_slice_write_emb (v := v) rL f wL (Finset.mem_univ _)

/-- and at a lane from 64 on the right one. -/
theorem read_two_writes_right (v : View sg κ sp S25088x128 .f32) (f : v.ty.Contents (Elt F)) (wL wR : S25088x64.Idx → Elt F .f32)
    (r d : ℕ) (hr : r < 25088) (hd : d < 64) :
    v.read (Elt F) (v.writes (Elt F) f [⟨rR, wR⟩, ⟨rL, wL⟩]) (ix2 (⟨r, hr⟩ : Fin 25088) (⟨64 + d, by omega⟩ : Fin 128))
      = wR (ix2 (⟨r, hr⟩ : Fin 25088) (⟨d, hd⟩ : Fin 64)) := by
  rw [View.writes_cons]
  have e : (ix2 (⟨r, hr⟩ : Fin 25088) (⟨64 + d, by omega⟩ : Fin 128) : S25088x128.Idx)
      = rR.emb (ix2 (⟨r, hr⟩ : Fin 25088) (⟨d, hd⟩ : Fin 64)) := by
    funext a; apply Fin.ext; rw [rR_emb]
    fin_cases a <;> simp
  rw [e]
  exact View.read_slice_write_emb (v := v) rR _ wR (Finset.mem_univ _)

/-- So the body's two stores of the transposed inputs leave the result's buffer as `BodyOut` says. -/
theorem bodyOut_writes (v : View sg κ sp S25088x128 .f32) (f : v.ty.Contents (Elt F)) (X0 X1 : S1x64x25088.Idx → Elt F .f32) :
    BodyOut X0 X1 (v.read (Elt F) (v.writes (Elt F) f [⟨rR, k0_pay2 X1⟩, ⟨rL, k0_pay1 X0⟩])) := by
  intro r d hr hd
  refine ⟨?_, ?_⟩
  · rw [read_two_writes_left v f _ _ r d hr hd, pay1_apply]
  · rw [read_two_writes_right v f _ _ r d hr hd, pay2_apply]

end Views

/-! ## What a fetched input buffer holds, and so what the body leaves -/

section Fetched

variable (A : S26x64x100000.Idx → Elt F .f32) (B5 : S802816x128.Idx → Elt F .f32) (B6 : S501760x128.Idx → Elt F .f32)
  (O : CellTallies nD τ sig (HIx 2)) (b : ℕ)

/-- A coordinate of a block lies in the part a cut transfer moves when it lies in the block and inside the array. -/
theorem lt_extent_of {ix k d j : ℕ} (hj : j < k) (hd : ix * k + j < d) : j < (Pipeline.Clip.of ix k d).extent k := by
  unfold Pipeline.Clip.of; split
  · exact hj
  · show j < d - ix * k; omega

/-- The input windows' block indices at a grid point, off the point's coordinates. -/
theorem tr0_0 : ∀ (t : Fin grid0.N) (a : Fin 3),
    cc0_transform_0 (grid0.coords t) a = (![2 * ((grid0.coords t 0).val + 0) + 0, 0, (grid0.coords t 1).val] : Fin 3 → ℕ) a := by decide +kernel
theorem tr0_1 : ∀ (t : Fin grid0.N) (a : Fin 3),
    cc0_transform_1 (grid0.coords t) a = (![2 * ((grid0.coords t 0).val + 0) + 1, 0, (grid0.coords t 1).val] : Fin 3 → ℕ) a := by decide +kernel
theorem tr1_0 : ∀ (t : Fin grid1.N) (a : Fin 3),
    cc1_transform_0 (grid1.coords t) a = (![2 * ((grid1.coords t 0).val + 8) + 0, 0, (grid1.coords t 1).val] : Fin 3 → ℕ) a := by decide +kernel
theorem tr1_1 : ∀ (t : Fin grid1.N) (a : Fin 3),
    cc1_transform_1 (grid1.coords t) a = (![2 * ((grid1.coords t 0).val + 8) + 1, 0, (grid1.coords t 1).val] : Fin 3 → ℕ) a := by decide +kernel

/-- A filled block at an index the transfer moves is what was filled in. -/
theorem fill_apply_of_lt {G : Pipeline.Grid} (w : Pipeline.Window sig G) {α : Type} (i : G.Coords) (dd : w.block.Idx → α)
    (g : (w.xblock i).Idx → α) (j : w.block.Idx) (hj : ∀ a, (j a).val < w.xsize i a) :
    w.fill i dd g j = g (fun a => ⟨(j a).val, hj a⟩) := by
  unfold Pipeline.Window.fill
  rw [dif_pos ((w.moved_iff i j).mpr hj)]

set_option maxHeartbeats 1000000 in
theorem fetched0_0_apply (c : Dev nD) (t : Fin grid0.N) (d0 : S1x64x25088.Idx → Elt F .f32)
    (r d : ℕ) (hr : r < 25088) (hd : d < 64) (hv : (grid0.coords t 1).val * 25088 + r < 100000) (hk : 2 * ((grid0.coords t 0).val + 0) + 0 < 26) :
    (rdats A B5 B6 O b 0 c).fetched (0 : Fin 3) t d0 (ix3 (⟨0, by decide⟩ : Fin 1) (⟨d, hd⟩ : Fin 64) (⟨r, hr⟩ : Fin 25088))
      = A (ix3 (⟨2 * ((grid0.coords t 0).val + 0) + 0, hk⟩ : Fin 26) (⟨d, hd⟩ : Fin 64) (⟨(grid0.coords t 1).val * 25088 + r, hv⟩ : Fin 100000)) := by
  have hj : ∀ a : Fin 3, ((ix3 (⟨0, by decide⟩ : Fin 1) (⟨d, hd⟩ : Fin 64) (⟨r, hr⟩ : Fin 25088) : S1x64x25088.Idx) a).val
      < win0_0.xsize (grid0.coords t) a := by
    intro a
    show _ < (Pipeline.Clip.of (cc0_transform_0 (grid0.coords t) a) (S1x64x25088.size a) (S26x64x100000.size a)).extent (S1x64x25088.size a)
    apply lt_extent_of
    · fin_cases a <;> first | (simp; done) | (simp; omega) | omega
    · rw [tr0_0 t a]; fin_cases a <;> first | (simp; done) | (simp; omega) | omega
  unfold Pipeline.RDat.fetched
  rw [fill_apply_of_lt _ _ _ _ _ hj]
  show A ((win0_0.rect t).emb _) = _
  congr 1
  funext a; apply Fin.ext
  rw [Pipeline.Window.rect_emb_val]
  show cc0_transform_0 (grid0.coords t) a * S1x64x25088.size a + _ = _
  rw [tr0_0 t a]
  fin_cases a <;> first | (simp; done) | (simp; omega) | omega

set_option maxHeartbeats 1000000 in
theorem fetched0_1_apply (c : Dev nD) (t : Fin grid0.N) (d0 : S1x64x25088.Idx → Elt F .f32)
    (r d : ℕ) (hr : r < 25088) (hd : d < 64) (hv : (grid0.coords t 1).val * 25088 + r < 100000) (hk : 2 * ((grid0.coords t 0).val + 0) + 1 < 26) :
    (rdats A B5 B6 O b 0 c).fetched (1 : Fin 3) t d0 (ix3 (⟨0, by decide⟩ : Fin 1) (⟨d, hd⟩ : Fin 64) (⟨r, hr⟩ : Fin 25088))
      = A (ix3 (⟨2 * ((grid0.coords t 0).val + 0) + 1, hk⟩ : Fin 26) (⟨d, hd⟩ : Fin 64) (⟨(grid0.coords t 1).val * 25088 + r, hv⟩ : Fin 100000)) := by
  have hj : ∀ a : Fin 3, ((ix3 (⟨0, by decide⟩ : Fin 1) (⟨d, hd⟩ : Fin 64) (⟨r, hr⟩ : Fin 25088) : S1x64x25088.Idx) a).val
      < win0_1.xsize (grid0.coords t) a := by
    intro a
    show _ < (Pipeline.Clip.of (cc0_transform_1 (grid0.coords t) a) (S1x64x25088.size a) (S26x64x100000.size a)).extent (S1x64x25088.size a)
    apply lt_extent_of
    · fin_cases a <;> first | (simp; done) | (simp; omega) | omega
    · rw [tr0_1 t a]; fin_cases a <;> first | (simp; done) | (simp; omega) | omega
  unfold Pipeline.RDat.fetched
  rw [fill_apply_of_lt _ _ _ _ _ hj]
  show A ((win0_1.rect t).emb _) = _
  congr 1
  funext a; apply Fin.ext
  rw [Pipeline.Window.rect_emb_val]
  show cc0_transform_1 (grid0.coords t) a * S1x64x25088.size a + _ = _
  rw [tr0_1 t a]
  fin_cases a <;> first | (simp; done) | (simp; omega) | omega

set_option maxHeartbeats 1000000 in
theorem fetched1_0_apply (c : Dev nD) (t : Fin grid1.N) (d0 : S1x64x25088.Idx → Elt F .f32)
    (r d : ℕ) (hr : r < 25088) (hd : d < 64) (hv : (grid1.coords t 1).val * 25088 + r < 100000) (hk : 2 * ((grid1.coords t 0).val + 8) + 0 < 26) :
    (rdats A B5 B6 O b 1 c).fetched (0 : Fin 3) t d0 (ix3 (⟨0, by decide⟩ : Fin 1) (⟨d, hd⟩ : Fin 64) (⟨r, hr⟩ : Fin 25088))
      = A (ix3 (⟨2 * ((grid1.coords t 0).val + 8) + 0, hk⟩ : Fin 26) (⟨d, hd⟩ : Fin 64) (⟨(grid1.coords t 1).val * 25088 + r, hv⟩ : Fin 100000)) := by
  have hj : ∀ a : Fin 3, ((ix3 (⟨0, by decide⟩ : Fin 1) (⟨d, hd⟩ : Fin 64) (⟨r, hr⟩ : Fin 25088) : S1x64x25088.Idx) a).val
      < win1_0.xsize (grid1.coords t) a := by
    intro a
    show _ < (Pipeline.Clip.of (cc1_transform_0 (grid1.coords t) a) (S1x64x25088.size a) (S26x64x100000.size a)).extent (S1x64x25088.size a)
    apply lt_extent_of
    · fin_cases a <;> first | (simp; done) | (simp; omega) | omega
    · rw [tr1_0 t a]; fin_cases a <;> first | (simp; done) | (simp; omega) | omega
  unfold Pipeline.RDat.fetched
  rw [fill_apply_of_lt _ _ _ _ _ hj]
  show A ((win1_0.rect t).emb _) = _
  congr 1
  funext a; apply Fin.ext
  rw [Pipeline.Window.rect_emb_val]
  show cc1_transform_0 (grid1.coords t) a * S1x64x25088.size a + _ = _
  rw [tr1_0 t a]
  fin_cases a <;> first | (simp; done) | (simp; omega) | omega

set_option maxHeartbeats 1000000 in
theorem fetched1_1_apply (c : Dev nD) (t : Fin grid1.N) (d0 : S1x64x25088.Idx → Elt F .f32)
    (r d : ℕ) (hr : r < 25088) (hd : d < 64) (hv : (grid1.coords t 1).val * 25088 + r < 100000) (hk : 2 * ((grid1.coords t 0).val + 8) + 1 < 26) :
    (rdats A B5 B6 O b 1 c).fetched (1 : Fin 3) t d0 (ix3 (⟨0, by decide⟩ : Fin 1) (⟨d, hd⟩ : Fin 64) (⟨r, hr⟩ : Fin 25088))
      = A (ix3 (⟨2 * ((grid1.coords t 0).val + 8) + 1, hk⟩ : Fin 26) (⟨d, hd⟩ : Fin 64) (⟨(grid1.coords t 1).val * 25088 + r, hv⟩ : Fin 100000)) := by
  have hj : ∀ a : Fin 3, ((ix3 (⟨0, by decide⟩ : Fin 1) (⟨d, hd⟩ : Fin 64) (⟨r, hr⟩ : Fin 25088) : S1x64x25088.Idx) a).val
      < win1_1.xsize (grid1.coords t) a := by
    intro a
    show _ < (Pipeline.Clip.of (cc1_transform_1 (grid1.coords t) a) (S1x64x25088.size a) (S26x64x100000.size a)).extent (S1x64x25088.size a)
    apply lt_extent_of
    · fin_cases a <;> first | (simp; done) | (simp; omega) | omega
    · rw [tr1_1 t a]; fin_cases a <;> first | (simp; done) | (simp; omega) | omega
  unfold Pipeline.RDat.fetched
  rw [fill_apply_of_lt _ _ _ _ _ hj]
  show A ((win1_1.rect t).emb _) = _
  congr 1
  funext a; apply Fin.ext
  rw [Pipeline.Window.rect_emb_val]
  show cc1_transform_1 (grid1.coords t) a * S1x64x25088.size a + _ = _
  rw [tr1_1 t a]
  fin_cases a <;> first | (simp; done) | (simp; omega) | omega

/-- What the body leaves in the result's buffer of pipeline 0, from what the two fetches put in the inputs'. -/
theorem outOk0 (c : Dev nD) (t : Fin (Pipeline.pin (pcfgs (F := F)) adm 0).N) (Y0 Y1 : S1x64x25088.Idx → Elt F .f32)
    (h0 : (rdats A B5 B6 O b 0 c).Finds (0 : Fin 3) t Y0) (h1 : (rdats A B5 B6 O b 0 c).Finds (1 : Fin 3) t Y1)
    (X : S25088x128.Idx → Elt F .f32) (hX : BodyOut Y0 Y1 X) :
    OutOk 0 A (grid0.coords t 0).val (grid0.coords t 1).val X := by
  obtain ⟨d0, rfl⟩ := ((rdats A B5 B6 O b 0 c).finds_of_fetch (w := (0 : Fin 3)) (t := t) (fetch0_0 t) Y0).mp h0
  obtain ⟨d1, rfl⟩ := ((rdats A B5 B6 O b 0 c).finds_of_fetch (w := (1 : Fin 3)) (t := t) (fetch0_1 t) Y1).mp h1
  intro r h d hr hh hd hv hk
  obtain rfl | rfl : h = 0 ∨ h = 1 := by omega
  · have e := (hX r d hr hd).1
    rw [fetched0_0_apply A B5 B6 O b c t d0 r d hr hd hv hk] at e
    have e2 : (⟨0 * 64 + d, by omega⟩ : Fin 128) = ⟨d, by omega⟩ := Fin.ext (by show 0 * 64 + d = d; omega)
    rw [e2]; exact e
  · have e := (hX r d hr hd).2
    rw [fetched0_1_apply A B5 B6 O b c t d1 r d hr hd hv hk] at e
    have e2 : (⟨1 * 64 + d, by omega⟩ : Fin 128) = ⟨64 + d, by omega⟩ := Fin.ext (by show 1 * 64 + d = 64 + d; omega)
    rw [e2]; exact e

/-- What the body leaves in the result's buffer of pipeline 1, from what the two fetches put in the inputs'. -/
theorem outOk1 (c : Dev nD) (t : Fin (Pipeline.pin (pcfgs (F := F)) adm 1).N) (Y0 Y1 : S1x64x25088.Idx → Elt F .f32)
    (h0 : (rdats A B5 B6 O b 1 c).Finds (0 : Fin 3) t Y0) (h1 : (rdats A B5 B6 O b 1 c).Finds (1 : Fin 3) t Y1)
    (X : S25088x128.Idx → Elt F .f32) (hX : BodyOut Y0 Y1 X) :
    OutOk 8 A (grid1.coords t 0).val (grid1.coords t 1).val X := by
  obtain ⟨d0, rfl⟩ := ((rdats A B5 B6 O b 1 c).finds_of_fetch (w := (0 : Fin 3)) (t := t) (fetch1_0 t) Y0).mp h0
  obtain ⟨d1, rfl⟩ := ((rdats A B5 B6 O b 1 c).finds_of_fetch (w := (1 : Fin 3)) (t := t) (fetch1_1 t) Y1).mp h1
  intro r h d hr hh hd hv hk
  obtain rfl | rfl : h = 0 ∨ h = 1 := by omega
  · have e := (hX r d hr hd).1
    rw [fetched1_0_apply A B5 B6 O b c t d0 r d hr hd hv hk] at e
    have e2 : (⟨0 * 64 + d, by omega⟩ : Fin 128) = ⟨d, by omega⟩ := Fin.ext (by show 0 * 64 + d = d; omega)
    rw [e2]; exact e
  · have e := (hX r d hr hd).2
    rw [fetched1_1_apply A B5 B6 O b c t d1 r d hr hd hv hk] at e
    have e2 : (⟨1 * 64 + d, by omega⟩ : Fin 128) = ⟨64 + d, by omega⟩ := Fin.ext (by show 1 * 64 + d = 64 + d; omega)
    rw [e2]; exact e

end Fetched

end Cert.Proof.KB

end
-- ==== Proof.KB.TransBody.lean ====
import proofs.«219250_g10247791969013_week1_w1_750_27_alg».proof.Proof.KB.TransPure
import Idealize.ShloMosaic.Lib.ValueIdx
import Idealize.ShloMosaic.Lib.Tactic

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

set_option maxRecDepth 8192

/-! ## The body obligation -/

section Body

variable (A : S26x64x100000.Idx → Elt F .f32) (B5 : S802816x128.Idx → Elt F .f32) (B6 : S501760x128.Idx → Elt F .f32)
  (O : CellTallies nD τ sig (HIx 2)) (b : ℕ)

theorem hz3 : (![0, 0, 0] : Fin 3 → ℕ) = fun _ => 0 := funext fun a => by fin_cases a <;> rfl

/-- The body on any three whole staging memrefs: the inputs' are left as found, the result's is left as `BodyOut` says. -/
theorem sound_body0 (c : Dev nD) (E : Set ℕ) (i : grid0.Coords) (m0 m1 : Memref sig .tc .vmem S1x64x25088 .f32) (h0 : m0.IsWhole) (h1 : m1.IsWhole)
    (m2 : Memref sig .tc .vmem S25088x128 .f32) (h2 : m2.IsWhole)
    (X0 X1 : S1x64x25088.Idx → Elt F .f32) (X2 : S25088x128.Idx → Elt F .f32) :
    (iprop(owns (c.tc : Thread nD τ) m0 fullShare X0 ∗ owns (c.tc : Thread nD τ) m1 fullShare X1 ∗ owns (c.tc : Thread nD τ) m2 fullShare X2) : sProp 𝕄)
      ⊢ wp frame (wpE (defs₀ (F := F)) 𝒱₀ (c.tc : Thread nD τ) none) E (cc0__transpose_body i m0 h0 m1 h1 m2 h2) fun _ =>
          iprop(owns (c.tc : Thread nD τ) m0 fullShare X0 ∗ owns (c.tc : Thread nD τ) m1 fullShare X1
            ∗ ∃ X, ⌜BodyOut X0 X1 X⌝ ∗ owns (c.tc : Thread nD τ) m2 fullShare X) := by
  unfold owns
  simp only [cc0__transpose_body_eq_skeleton]; unfold cc0__transpose_body_skel
  simp only [Prog.lift, Prog.bind_op, Prog.bind_ret]
  iintro ⟨⟨%f0, %hf0, H0⟩, ⟨%f1, %hf1, H1⟩, ⟨%f2, %hf2, H2⟩⟩
  sl_steps
  isplitl [H0]
  · iexists f0; isplitr; · ipureintro; exact hf0
    iexact H0
  isplitl [H1]
  · iexists f1; isplitr; · ipureintro; exact hf1
    iexact H1
  iexists m2.view.read (Elt F) (m2.view.writes (Elt F) f2 [⟨rR, k0_pay2 X1⟩, ⟨rL, k0_pay1 X0⟩])
  isplitr
  · ipureintro; exact bodyOut_writes m2.view f2 X0 X1
  iexists m2.view.writes (Elt F) f2 [⟨rR, k0_pay2 X1⟩, ⟨rL, k0_pay1 X0⟩]
  isplitr; · ipureintro; rfl
  rw [← hf0, ← hf1, ← readAt_unit_zero_view m0.view hz3 inb_S1x64x25088_S1x64x25088_0_0_0 f0,
    ← readAt_unit_zero_view m1.view hz3 inb_S1x64x25088_S1x64x25088_0_0_0 f1]
  iexact H2

/-- The second pipeline's body is the first's, word for word. -/
theorem cc1_body_eq (i1 : grid1.Coords) (i0 : grid0.Coords) (m0 m1 : Memref sig .tc .vmem S1x64x25088 .f32) (h0 : m0.IsWhole) (h1 : m1.IsWhole)
    (m2 : Memref sig .tc .vmem S25088x128 .f32) (h2 : m2.IsWhole) :
    cc1__transpose_body (F := F) i1 m0 h0 m1 h1 m2 h2 = cc0__transpose_body (F := F) i0 m0 h0 m1 h1 m2 h2 := rfl

end Body

section Obligation

variable (A : S26x64x100000.Idx → Elt F .f32) (B5 : S802816x128.Idx → Elt F .f32) (B6 : S501760x128.Idx → Elt F .f32)
  (O : CellTallies nD τ sig (HIx 2)) (b : ℕ)

/-- A grid point of pipeline 0 (the body does not read its coordinates). -/
def i00 : grid0.Coords := grid0.coords ⟨0, by rw [N_0]; decide⟩

/-- The body obligation of pipeline 0. -/
theorem body0 (c : Dev nD) : (rdats A B5 B6 O b 0 c).BodyObligation (defs₀ (F := F)) 𝒱₀ none Set.univ := by
  intro t Y hY
  rw [bigSep_W0, bigSep_W0]
  have hout : ∀ X, BodyOut (Y 0) (Y 1) X → (rdats A B5 B6 O b 0 c).after 2 t (Y 2) X :=
    fun X hX => outOk0 A B5 B6 O b c t (Y 0) (Y 1) (hY 0) (hY 1) X hX
  have hprog : defs₀ (F := F) Proc.tc (Pipeline.pin (pcfgs (F := F)) adm 0).body
        ((Pipeline.pin (pcfgs (F := F)) adm 0).bodyArgs t ((Pipeline.pin (pcfgs (F := F)) adm 0).slots t))
      = cc0__transpose_body (grid0.coords t) (win0_0.stage (cfg0.slots t 0)) (hstage0_0 ((cfg0.slots t 0).cast nbuf0_0))
          (win0_1.stage (cfg0.slots t 1)) (hstage0_1 ((cfg0.slots t 1).cast nbuf0_1))
          (win0_2.stage (cfg0.slots t 2)) (hstage0_2 ((cfg0.slots t 2).cast nbuf0_2)) := rfl
  rw [hprog]
  have hΦ : ∀ u, (rdats A B5 B6 O b 0 c).Φ u = (rdats A B5 B6 O b 0 c).Φ 0 := fun _ => rfl
  have hOw : ∀ u, (rdats A B5 B6 O b 0 c).owesAt none u = (rdats A B5 B6 O b 0 c).owesAt none 0 := fun _ => rfl
  rw [hΦ t.castSucc, hΦ t.succ, hOw t.castSucc, hOw t.succ]
  iintro ⟨HΦ, HO, H0, H1, H2⟩
  iapply (wp_wand_r frame _ Set.univ)
  isplitl [H0 H1 H2]
  · iapply (sound_body0 c Set.univ (grid0.coords t) _ _ _ _ _ _ (Y 0) (Y 1) (Y 2))
    isplitl [H0]; · iexact H0
    isplitl [H1]; · iexact H1
    iexact H2
  · iintro %_ ⟨H0, H1, %X, %hX, H2⟩
    isplitl [HΦ]; · iexact HΦ
    isplitl [HO]; · iexact HO
    isplitl [H0]
    · iexists (Y 0); isplitr; · ipureintro; exact (rfl : Y 0 = Y 0)
      iexact H0
    isplitl [H1]
    · iexists (Y 1); isplitr; · ipureintro; exact (rfl : Y 1 = Y 1)
      iexact H1
    iexists X; isplitr; · ipureintro; exact hout X hX
    iexact H2

/-- The body obligation of pipeline 1. -/
theorem body1 (c : Dev nD) : (rdats A B5 B6 O b 1 c).BodyObligation (defs₀ (F := F)) 𝒱₀ none Set.univ := by
  intro t Y hY
  rw [bigSep_W1, bigSep_W1]
  have hout : ∀ X, BodyOut (Y 0) (Y 1) X → (rdats A B5 B6 O b 1 c).after 2 t (Y 2) X :=
    fun X hX => outOk1 A B5 B6 O b c t (Y 0) (Y 1) (hY 0) (hY 1) X hX
  have hprog : defs₀ (F := F) Proc.tc (Pipeline.pin (pcfgs (F := F)) adm 1).body
        ((Pipeline.pin (pcfgs (F := F)) adm 1).bodyArgs t ((Pipeline.pin (pcfgs (F := F)) adm 1).slots t))
      = cc0__transpose_body i00 (win1_0.stage (cfg1.slots t 0)) (hstage1_0 ((cfg1.slots t 0).cast nbuf1_0))
          (win1_1.stage (cfg1.slots t 1)) (hstage1_1 ((cfg1.slots t 1).cast nbuf1_1))
          (win1_2.stage (cfg1.slots t 2)) (hstage1_2 ((cfg1.slots t 2).cast nbuf1_2)) := rfl
  rw [hprog]
  have hΦ : ∀ u, (rdats A B5 B6 O b 1 c).Φ u = (rdats A B5 B6 O b 1 c).Φ 0 := fun _ => rfl
  have hOw : ∀ u, (rdats A B5 B6 O b 1 c).owesAt none u = (rdats A B5 B6 O b 1 c).owesAt none 0 := fun _ => rfl
  rw [hΦ t.castSucc, hΦ t.succ, hOw t.castSucc, hOw t.succ]
  iintro ⟨HΦ, HO, H0, H1, H2⟩
  iapply (wp_wand_r frame _ Set.univ)
  isplitl [H0 H1 H2]
  · iapply (sound_body0 c Set.univ i00 _ _ _ _ _ _ (Y 0) (Y 1) (Y 2))
    isplitl [H0]; · iexact H0
    isplitl [H1]; · iexact H1
    iexact H2
  · iintro %_ ⟨H0, H1, %X, %hX, H2⟩
    isplitl [HΦ]; · iexact HΦ
    isplitl [HO]; · iexact HO
    isplitl [H0]
    · iexists (Y 0); isplitr; · ipureintro; exact (rfl : Y 0 = Y 0)
      iexact H0
    isplitl [H1]
    · iexists (Y 1); isplitr; · ipureintro; exact (rfl : Y 1 = Y 1)
      iexact H1
    iexists X; isplitr; · ipureintro; exact hout X hX
    iexact H2

end Obligation

end Cert.Proof.KB

end
-- ==== Proof.KB.TransValue.lean ====
import proofs.«219250_g10247791969013_week1_w1_750_27_alg».proof.Proof.KB.TransData
import Idealize.ShloMosaic.Lib.ValueIdx
import proofs.«219250_g10247791969013_week1_w1_750_27_alg».proof.Proof.Gen.Kernel.Points
import Idealize.ShloMosaic.Lib.Pipeline.Value

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

set_option maxRecDepth 16384

/-! ## What the results' arrays hold after the run

The result window's blocks tile its array, one block per grid point, each written back once: by induction over the
write-backs, after those below `n` every block below `n` holds its pair of tables side by side on the rows inside the
vocabulary; a later write-back does not touch an earlier block. -/

section Value0

variable (A : S26x64x100000.Idx → Elt F .f32) (B5 : S802816x128.Idx → Elt F .f32) (B6 : S501760x128.Idx → Elt F .f32)
  (O : CellTallies nD τ sig (HIx 2)) (b : ℕ)

/-- The result window's block index at a grid point is the point's number; and the point's coordinates. -/
theorem tr0_2 : ∀ (t : Fin grid0.N) (a : Fin 2), cc0_transform_2 (grid0.coords t) a = (![t.val, 0] : Fin 2 → ℕ) a := by decide +kernel
theorem co0 : ∀ t : Fin grid0.N, (grid0.coords t 0).val = t.val / 4 ∧ (grid0.coords t 1).val = t.val % 4 := by decide +kernel

/-- Block `u` of the result holds, on the rows inside the vocabulary, its pair's two tables side by side: the element at
    row `u * 25088 + r`, lane `h * 64 + d` is the tables' at `(2 (u / 4 + 0) + h, d, (u % 4) * 25088 + r)`. -/
def Blk0 (u : ℕ) (G : S802816x128.Idx → Elt F .f32) : Prop :=
  ∀ (r h d : ℕ) (i : S802816x128.Idx) (j : S26x64x100000.Idx), r < 25088 → h < 2 → d < 64 →
    (i 0).val = u * 25088 + r → (i 1).val = h * 64 + d →
    (j 0).val = 2 * (u / 4 + 0) + h → (j 1).val = d → (j 2).val = (u % 4) * 25088 + r → G i = A j

/-- The element of the result's array under an element of point `u`'s block. -/
theorem blk0_emb (u : Fin grid0.N) (y : (win0_2.xblock (grid0.coords u)).Idx) (a : Fin 2) :
    (((win0_2.rect u).emb y) a : ℕ) = (![u.val * 25088, 0] : Fin 2 → ℕ) a + (y a : ℕ) := by
  rw [Pipeline.Window.rect_emb_val]
  show cc0_transform_2 (grid0.coords u) a * S25088x128.size a + _ = _
  rw [tr0_2 u a]
  fin_cases a <;> first | (simp; done) | (simp; omega) | omega

/-- The same through the block's own view of the array. -/
theorem blkv0_emb (u : Fin (Pipeline.pin (pcfgs (F := F)) adm 0).N) (y : (win0_2.xblock (grid0.coords u)).Idx) (a : Fin 2) :
    (((((Pipeline.pin (pcfgs (F := F)) adm 0).win (2 : Fin 3)).blk u).view.emb y) a : ℕ) = (![u.val * 25088, 0] : Fin 2 → ℕ) a + (y a : ℕ) :=
  blk0_emb u y a

set_option maxHeartbeats 2000000 in
/-- After the write-backs below `n`, every block below `n` holds its pair. -/
theorem arrAt0_blocks (c : Dev nD) : ∀ (n : ℕ) (hn : n ≤ 32) (G : S802816x128.Idx → Elt F .f32),
    (rdats A B5 B6 O b 0 c).ArrAt (2 : Fin 3) n G → ∀ u, u < n → Blk0 A u G
  | 0, _, _, _ => fun u hu => absurd hu (Nat.not_lt_zero u)
  | n + 1, hn, G, h => by
    have hN : n < (Pipeline.pin (pcfgs (F := F)) adm 0).N := by show n < grid0.N; rw [N_0]; omega
    have hf : ((Pipeline.pin (pcfgs (F := F)) adm 0).win (2 : Fin 3)).flush ⟨n, hN⟩ = true := flush0_2 ⟨n, hN⟩
    have hstep : (rdats A B5 B6 O b 0 c).ArrAt (2 : Fin 3) (n + 1) G
        = (rdats A B5 B6 O b 0 c).ArrStep (2 : Fin 3) ⟨n, hN⟩ ((rdats A B5 B6 O b 0 c).ArrAt (2 : Fin 3) n) G := by
      show (if h : n < (Pipeline.pin (pcfgs (F := F)) adm 0).N then
          (if ((Pipeline.pin (pcfgs (F := F)) adm 0).win (2 : Fin 3)).flush ⟨n, h⟩ = true then
            (rdats A B5 B6 O b 0 c).ArrStep (2 : Fin 3) ⟨n, h⟩ ((rdats A B5 B6 O b 0 c).ArrAt (2 : Fin 3) n)
          else (rdats A B5 B6 O b 0 c).ArrAt (2 : Fin 3) n)
        else (rdats A B5 B6 O b 0 c).ArrAt (2 : Fin 3) n) G = _
      rw [dif_pos hN, if_pos hf]
    rw [hstep] at h
    obtain ⟨G₀, X, hG₀, ⟨Y, _, hXY⟩, hG⟩ := h
    have ih := arrAt0_blocks c n (by omega) G₀ hG₀
    have hX : OutOk 0 A (grid0.coords ⟨n, hN⟩ 0).val (grid0.coords ⟨n, hN⟩ 1).val X := hXY
    have hco := co0 ⟨n, hN⟩
    have hco1 : (grid0.coords ⟨n, hN⟩ 0).val = n / 4 := hco.1
    have hco2 : (grid0.coords ⟨n, hN⟩ 1).val = n % 4 := hco.2
    intro u hu r h d i j hr hh hd hi0 hi1 hj0 hj1 hj2
    by_cases hun : u = n
    · subst hun
      -- the block just written: the element under (r, h * 64 + d) of the block
      have e : i = (((Pipeline.pin (pcfgs (F := F)) adm 0).win (2 : Fin 3)).blk ⟨u, hN⟩).view.emb (ix2 (⟨r, hr⟩ : Fin 25088) (⟨h * 64 + d, by omega⟩ : Fin 128)) := by
        funext a; apply Fin.ext; rw [blkv0_emb]
        fin_cases a
        · show (i 0).val = _; rw [hi0]; simp
        · show (i 1).val = _; rw [hi1]; simp
      rw [hG, e, View.write_emb_of_mem _ _ (Finset.mem_univ _)]
      have hj0lt : (j 0).val < 26 := (j 0).isLt
      have hj2lt : (j 2).val < 100000 := (j 2).isLt
      have hA := hX r h d hr hh hd (by rw [hco2]; show u % 4 * 25088 + r < 100000; omega) (by rw [hco1]; show 2 * (u / 4 + _) + h < 26; omega)
      refine Eq.trans ?_ (hA.trans (congrArg A ?_))
      · rfl
      · funext a; apply Fin.ext
        fin_cases a
        · show 2 * ((grid0.coords ⟨u, hN⟩ 0).val + 0) + h = (j 0).val; rw [hj0, hco1]
        · show d = (j 1).val; rw [hj1]
        · show (grid0.coords ⟨u, hN⟩ 1).val * 25088 + r = (j 2).val; rw [hj2, hco2]
    · -- an earlier block: the write-back does not touch it
      rw [hG, View.write_of_not_mem _ _ _ (fun hm => by
        obtain ⟨x, -, hx⟩ := Finset.mem_map.mp hm
        have h1 : ((((((Pipeline.pin (pcfgs (F := F)) adm 0).win (2 : Fin 3)).blk ⟨n, hN⟩).view.emb x) 0 : Fin _) : ℕ) = (i 0).val := by rw [hx]
        have h2 := blkv0_emb ⟨n, hN⟩ x 0
        have h3 : (x 0 : ℕ) < 25088 := (x 0).isLt
        rw [h2, hi0] at h1
        simp at h1
        omega)]
      exact ih u (by omega) r h d i j hr hh hd hi0 hi1 hj0 hj1 hj2

/-- So the result's array after the run holds the pairs side by side. -/
theorem arrAt0 (c : Dev nD) (G : S802816x128.Idx → Elt F .f32)
    (h : (rdats A B5 B6 O b 0 c).ArrAt (2 : Fin 3) (Pipeline.pin (pcfgs (F := F)) adm 0).N G) : Trans0 A G := by
  have hN : (Pipeline.pin (pcfgs (F := F)) adm 0).N = 32 := N_0
  rw [hN] at h
  have hb := arrAt0_blocks A B5 B6 O b c 32 (le_refl _) G h
  intro k v hh d hk hv hh2 hd
  exact hb (k * 4 + v / 25088) (by omega) (v % 25088) hh d _ _ (Nat.mod_lt _ (by decide)) hh2 hd
    (by show k * 100352 + v = (k * 4 + v / 25088) * 25088 + v % 25088; omega)
    (by show hh * 64 + d = hh * 64 + d; rfl)
    (by show 2 * k + hh = 2 * ((k * 4 + v / 25088) / 4 + 0) + hh; omega)
    (by show d = d; rfl)
    (by show v = (k * 4 + v / 25088) % 4 * 25088 + v % 25088; omega)

end Value0

section Value1

variable (A : S26x64x100000.Idx → Elt F .f32) (B5 : S802816x128.Idx → Elt F .f32) (B6 : S501760x128.Idx → Elt F .f32)
  (O : CellTallies nD τ sig (HIx 2)) (b : ℕ)

/-- The result window's block index at a grid point is the point's number; and the point's coordinates. -/
theorem tr1_2 : ∀ (t : Fin grid1.N) (a : Fin 2), cc1_transform_2 (grid1.coords t) a = (![t.val, 0] : Fin 2 → ℕ) a := by decide +kernel
theorem co1 : ∀ t : Fin grid1.N, (grid1.coords t 0).val = t.val / 4 ∧ (grid1.coords t 1).val = t.val % 4 := by decide +kernel

/-- Block `u` of the result holds, on the rows inside the vocabulary, its pair's two tables side by side: the element at
    row `u * 25088 + r`, lane `h * 64 + d` is the tables' at `(2 (u / 4 + 8) + h, d, (u % 4) * 25088 + r)`. -/
def Blk1 (u : ℕ) (G : S501760x128.Idx → Elt F .f32) : Prop :=
  ∀ (r h d : ℕ) (i : S501760x128.Idx) (j : S26x64x100000.Idx), r < 25088 → h < 2 → d < 64 →
    (i 0).val = u * 25088 + r → (i 1).val = h * 64 + d →
    (j 0).val = 2 * (u / 4 + 8) + h → (j 1).val = d → (j 2).val = (u % 4) * 25088 + r → G i = A j

/-- The element of the result's array under an element of point `u`'s block. -/
theorem blk1_emb (u : Fin grid1.N) (y : (win1_2.xblock (grid1.coords u)).Idx) (a : Fin 2) :
    (((win1_2.rect u).emb y) a : ℕ) = (![u.val * 25088, 0] : Fin 2 → ℕ) a + (y a : ℕ) := by
  rw [Pipeline.Window.rect_emb_val]
  show cc1_transform_2 (grid1.coords u) a * S25088x128.size a + _ = _
  rw [tr1_2 u a]
  fin_cases a <;> first | (simp; done) | (simp; omega) | omega

/-- The same through the block's own view of the array. -/
theorem blkv1_emb (u : Fin (Pipeline.pin (pcfgs (F := F)) adm 1).N) (y : (win1_2.xblock (grid1.coords u)).Idx) (a : Fin 2) :
    (((((Pipeline.pin (pcfgs (F := F)) adm 1).win (2 : Fin 3)).blk u).view.emb y) a : ℕ) = (![u.val * 25088, 0] : Fin 2 → ℕ) a + (y a : ℕ) :=
  blk1_emb u y a

set_option maxHeartbeats 2000000 in
/-- After the write-backs below `n`, every block below `n` holds its pair. -/
theorem arrAt1_blocks (c : Dev nD) : ∀ (n : ℕ) (hn : n ≤ 20) (G : S501760x128.Idx → Elt F .f32),
    (rdats A B5 B6 O b 1 c).ArrAt (2 : Fin 3) n G → ∀ u, u < n → Blk1 A u G
  | 0, _, _, _ => fun u hu => absurd hu (Nat.not_lt_zero u)
  | n + 1, hn, G, h => by
    have hN : n < (Pipeline.pin (pcfgs (F := F)) adm 1).N := by show n < grid1.N; rw [N_1]; omega
    have hf : ((Pipeline.pin (pcfgs (F := F)) adm 1).win (2 : Fin 3)).flush ⟨n, hN⟩ = true := flush1_2 ⟨n, hN⟩
    have hstep : (rdats A B5 B6 O b 1 c).ArrAt (2 : Fin 3) (n + 1) G
        = (rdats A B5 B6 O b 1 c).ArrStep (2 : Fin 3) ⟨n, hN⟩ ((rdats A B5 B6 O b 1 c).ArrAt (2 : Fin 3) n) G := by
      show (if h : n < (Pipeline.pin (pcfgs (F := F)) adm 1).N then
          (if ((Pipeline.pin (pcfgs (F := F)) adm 1).win (2 : Fin 3)).flush ⟨n, h⟩ = true then
            (rdats A B5 B6 O b 1 c).ArrStep (2 : Fin 3) ⟨n, h⟩ ((rdats A B5 B6 O b 1 c).ArrAt (2 : Fin 3) n)
          else (rdats A B5 B6 O b 1 c).ArrAt (2 : Fin 3) n)
        else (rdats A B5 B6 O b 1 c).ArrAt (2 : Fin 3) n) G = _
      rw [dif_pos hN, if_pos hf]
    rw [hstep] at h
    obtain ⟨G₀, X, hG₀, ⟨Y, _, hXY⟩, hG⟩ := h
    have ih := arrAt1_blocks c n (by omega) G₀ hG₀
    have hX : OutOk 8 A (grid1.coords ⟨n, hN⟩ 0).val (grid1.coords ⟨n, hN⟩ 1).val X := hXY
    have hco := co1 ⟨n, hN⟩
    have hco1 : (grid1.coords ⟨n, hN⟩ 0).val = n / 4 := hco.1
    have hco2 : (grid1.coords ⟨n, hN⟩ 1).val = n % 4 := hco.2
    intro u hu r h d i j hr hh hd hi0 hi1 hj0 hj1 hj2
    by_cases hun : u = n
    · subst hun
      -- the block just written: the element under (r, h * 64 + d) of the block
      have e : i = (((Pipeline.pin (pcfgs (F := F)) adm 1).win (2 : Fin 3)).blk ⟨u, hN⟩).view.emb (ix2 (⟨r, hr⟩ : Fin 25088) (⟨h * 64 + d, by omega⟩ : Fin 128)) := by
        funext a; apply Fin.ext; rw [blkv1_emb]
        fin_cases a
        · show (i 0).val = _; rw [hi0]; simp
        · show (i 1).val = _; rw [hi1]; simp
      rw [hG, e, View.write_emb_of_mem _ _ (Finset.mem_univ _)]
      have hj0lt : (j 0).val < 26 := (j 0).isLt
      have hj2lt : (j 2).val < 100000 := (j 2).isLt
      have hA := hX r h d hr hh hd (by rw [hco2]; show u % 4 * 25088 + r < 100000; omega) (by rw [hco1]; show 2 * (u / 4 + _) + h < 26; omega)
      refine Eq.trans ?_ (hA.trans (congrArg A ?_))
      · rfl
      · funext a; apply Fin.ext
        fin_cases a
        · show 2 * ((grid1.coords ⟨u, hN⟩ 0).val + 8) + h = (j 0).val; rw [hj0, hco1]
        · show d = (j 1).val; rw [hj1]
        · show (grid1.coords ⟨u, hN⟩ 1).val * 25088 + r = (j 2).val; rw [hj2, hco2]
    · -- an earlier block: the write-back does not touch it
      rw [hG, View.write_of_not_mem _ _ _ (fun hm => by
        obtain ⟨x, -, hx⟩ := Finset.mem_map.mp hm
        have h1 : ((((((Pipeline.pin (pcfgs (F := F)) adm 1).win (2 : Fin 3)).blk ⟨n, hN⟩).view.emb x) 0 : Fin _) : ℕ) = (i 0).val := by rw [hx]
        have h2 := blkv1_emb ⟨n, hN⟩ x 0
        have h3 : (x 0 : ℕ) < 25088 := (x 0).isLt
        rw [h2, hi0] at h1
        simp at h1
        omega)]
      exact ih u (by omega) r h d i j hr hh hd hi0 hi1 hj0 hj1 hj2

/-- So the result's array after the run holds the pairs side by side. -/
theorem arrAt1 (c : Dev nD) (G : S501760x128.Idx → Elt F .f32)
    (h : (rdats A B5 B6 O b 1 c).ArrAt (2 : Fin 3) (Pipeline.pin (pcfgs (F := F)) adm 1).N G) : Trans1 A G := by
  have hN : (Pipeline.pin (pcfgs (F := F)) adm 1).N = 20 := N_1
  rw [hN] at h
  have hb := arrAt1_blocks A B5 B6 O b c 20 (le_refl _) G h
  intro k v hh d hk hv hh2 hd
  exact hb (k * 4 + v / 25088) (by omega) (v % 25088) hh d _ _ (Nat.mod_lt _ (by decide)) hh2 hd
    (by show k * 100352 + v = (k * 4 + v / 25088) * 25088 + v % 25088; omega)
    (by show hh * 64 + d = hh * 64 + d; rfl)
    (by show 2 * (k + 8) + hh = 2 * ((k * 4 + v / 25088) / 4 + 8) + hh; omega)
    (by show d = d; rfl)
    (by show v = (k * 4 + v / 25088) % 4 * 25088 + v % 25088; omega)

end Value1

end Cert.Proof.KB

end
-- ==== Proof.KB.Regions.lean ====
import proofs.«219250_g10247791969013_week1_w1_750_27_alg».proof.Proof.KB.TransBody
import proofs.«219250_g10247791969013_week1_w1_750_27_alg».proof.Proof.KB.TransValue
import Idealize.ShloMosaic.Lib.ValueIdx

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 2) (Elt F) ℕ UU ℕ

set_option maxHeartbeats 1000000
set_option maxRecDepth 8192

/-! ## The two regions as records, and their run -/

section Regions

variable (A : S26x64x100000.Idx → Elt F .f32) (B5 : S802816x128.Idx → Elt F .f32) (B6 : S501760x128.Idx → Elt F .f32)
  (O : CellTallies nD τ sig (HIx 2)) (b : ℕ)

theorem bigSep_fin0 {M : Type} [URA M] (Φ : Fin 0 → sProp M) : bigSep Finset.univ Φ = (BI.emp : sProp M) := by
  rw [Finset.univ_eq_empty, BI.bigSep_empty]
theorem bigSep_P {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- No pipeline has a prefetched table. -/
theorem prefHeld0 (c : Dev nD) (q) (V) : (Pipeline.prefHeld (pcfgs (F := F) 0).pre c q V : sProp 𝕄) = BI.emp := bigSep_fin0 _
theorem prefHeld1 (c : Dev nD) (q) (V) : (Pipeline.prefHeld (pcfgs (F := F) 1).pre c q V : sProp 𝕄) = BI.emp := bigSep_fin0 _

/-- What the core owes, its recorded pairs at levels at most `b`. -/
def owesB (c : Dev nD) : sProp 𝕄 := iprop(∃ W, ⌜(K (F := F)).WBelow (c.tc : Thread nD τ) W b⌝ ∗ owes (c.tc : Thread nD τ) O W)

/-- The thread states around region 0 -/
def segPre0 (c : Dev nD) : sProp 𝕄 :=
  iprop((((c.tc : Thread nD τ).loc main_v4) ↦{fullShare} A) ∗ (((c.tc : Thread nD τ).loc main_v5) ↦{fullShare} B5) ∗ owesB O b c)
def segPost0 (c : Dev nD) : sProp 𝕄 :=
  iprop((((c.tc : Thread nD τ).loc main_v4) ↦{fullShare} A)
    ∗ (∃ f : S802816x128.Idx → Elt F .f32, ⌜Trans0 A f⌝ ∗ ((c.tc : Thread nD τ).loc main_v5) ↦{fullShare} f) ∗ owesB O b c)
/-- and around region 1. -/
def segPre1 (c : Dev nD) : sProp 𝕄 :=
  iprop((((c.tc : Thread nD τ).loc main_v4) ↦{fullShare} A) ∗ (((c.tc : Thread nD τ).loc main_v6) ↦{fullShare} B6) ∗ owesB O b c)
def segPost1 (c : Dev nD) : sProp 𝕄 :=
  iprop((((c.tc : Thread nD τ).loc main_v4) ↦{fullShare} A)
    ∗ (∃ f : S501760x128.Idx → Elt F .f32, ⌜Trans1 A f⌝ ∗ ((c.tc : Thread nD τ).loc main_v6) ↦{fullShare} f) ∗ owesB O b c)

/-- The windows' arrays of pipeline 0 at any contents: each behind its whole buffer. -/
theorem arrays0_eq (c : Dev nD) (Fa) : ((rdats A B5 B6 O b 0 c).arrays Fa : sProp 𝕄)
    = bigSep Finset.univ fun w : Fin 3 =>
        (((c.tc : Thread nD τ).loc (Pipeline.arrRef spec0 w)) ↦{(rdats A B5 B6 O b 0 c).share w} Fa w : sProp 𝕄) := by
  unfold Pipeline.RDat.arrays
  exact bigSep_congr fun w _ => by
    have harr : ((Pipeline.pin (pcfgs (F := F)) adm 0).win w).arr.IsWhole := arr_whole0 w
    rw [harr.set_eq_univ]; rfl
theorem arrays1_eq (c : Dev nD) (Fa) : ((rdats A B5 B6 O b 1 c).arrays Fa : sProp 𝕄)
    = bigSep Finset.univ fun w : Fin 3 =>
        (((c.tc : Thread nD τ).loc (Pipeline.arrRef spec1 w)) ↦{(rdats A B5 B6 O b 1 c).share w} Fa w : sProp 𝕄) := by
  unfold Pipeline.RDat.arrays
  exact bigSep_congr fun w _ => by
    have harr : ((Pipeline.pin (pcfgs (F := F)) adm 1).win w).arr.IsWhole := arr_whole1 w
    rw [harr.set_eq_univ]; rfl

theorem arraysAt0_eq (c : Dev nD) (n : ℕ) : ((rdats A B5 B6 O b 0 c).arraysAt n : sProp 𝕄)
    = bigSep Finset.univ fun w : Fin 3 => iprop(∃ Fw, ⌜(rdats A B5 B6 O b 0 c).ArrAt w n Fw⌝
        ∗ (((c.tc : Thread nD τ).loc (Pipeline.arrRef spec0 w)) ↦{(rdats A B5 B6 O b 0 c).share w} Fw : sProp 𝕄)) := by
  unfold Pipeline.RDat.arraysAt
  exact bigSep_congr fun w _ => by
    have harr : ((Pipeline.pin (pcfgs (F := F)) adm 0).win w).arr.IsWhole := arr_whole0 w
    rw [harr.set_eq_univ]; rfl
theorem arraysAt1_eq (c : Dev nD) (n : ℕ) : ((rdats A B5 B6 O b 1 c).arraysAt n : sProp 𝕄)
    = bigSep Finset.univ fun w : Fin 3 => iprop(∃ Fw, ⌜(rdats A B5 B6 O b 1 c).ArrAt w n Fw⌝
        ∗ (((c.tc : Thread nD τ).loc (Pipeline.arrRef spec1 w)) ↦{(rdats A B5 B6 O b 1 c).share w} Fw : sProp 𝕄)) := by
  unfold Pipeline.RDat.arraysAt
  exact bigSep_congr fun w _ => by
    have harr : ((Pipeline.pin (pcfgs (F := F)) adm 1).win w).arr.IsWhole := arr_whole1 w
    rw [harr.set_eq_univ]; rfl

variable (lv : GSem nD τ sig → HIx 2 → ℕ) (hlv : (K (F := F)).Refines lv) (hO : ∀ g, O g none = 0)

include hlv hO in
theorem hwaits0 (c : Dev nD) :
    (levAts (K (F := F)).L lv : sProp 𝕄) ⊢ Pipeline.RDat.cellsWaits (Pipeline.pin (pcfgs (F := F)) adm) (rdats A B5 B6 O b) none 0 c :=
  Pipeline.RDat.cellsWaits_intro _ _ _ _ _ fun w s t => (K (F := F)).mayWait_none _ hO lv hlv
include hlv hO in
theorem hwaits1 (c : Dev nD) :
    (levAts (K (F := F)).L lv : sProp 𝕄) ⊢ Pipeline.RDat.cellsWaits (Pipeline.pin (pcfgs (F := F)) adm) (rdats A B5 B6 O b) none 1 c :=
  Pipeline.RDat.cellsWaits_intro _ _ _ _ _ fun w s t => (K (F := F)).mayWait_none _ hO lv hlv

/-- ENTRY of region 0. -/
theorem hentry0 (c : Dev nD) :
    iprop(segPre0 A B5 O b c ∗ (BI.emp : sProp 𝕄) ∗ levAts (K (F := F)).L lv)
      ⊢ |={Set.univ}=> iprop((rdats A B5 B6 O b 0 c).arrays (rdats A B5 B6 O b 0 c).A ∗ (BI.emp : sProp 𝕄)
          ∗ (rdats A B5 B6 O b 0 c).owesAt none 0 ∗ (BI.emp : sProp 𝕄) ∗ (BI.emp : sProp 𝕄)) := by
  rw [arrays0_eq, bigSep_W0]
  unfold segPre0 owesB
  iintro ⟨⟨H4, H5, %W, %hW, HO⟩, -, -⟩
  ihave H4' := (pointsTo_share (PosShare.mem_left_op_right fullShare)).1 $$ H4
  icases H4' with ⟨H4l, H4r⟩
  imodintro
  isplitl [H4l H4r H5]
  · isplitl [H4l]; · iexact H4l
    isplitl [H4r]; · iexact H4r
    iexact H5
  isplitr; · iempintro
  isplitl [HO]
  · iexists W; isplitr
    · ipureintro; exact fun p hp => Or.inl (hW p hp)
    iexact HO
  isplitr <;> iempintro

/-- EXIT of region 0. -/
theorem hexit0 (c : Dev nD) :
    iprop((rdats A B5 B6 O b 0 c).arraysAt (Pipeline.pin (pcfgs (F := F)) adm 0).N
        ∗ (rdats A B5 B6 O b 0 c).owesAt none (Fin.last (Pipeline.pin (pcfgs (F := F)) adm 0).N) ∗ (BI.emp : sProp 𝕄) ∗ (BI.emp : sProp 𝕄))
      ⊢ |={Set.univ}=> segPost0 A O b c := by
  rw [arraysAt0_eq, bigSep_W0]
  unfold segPost0 owesB
  have hin0 : (rdats A B5 B6 O b 0 c).ArrAt (0 : Fin 3) (Pipeline.pin (pcfgs (F := F)) adm 0).N = fun Fw => Fw = A :=
    (rdats A B5 B6 O b 0 c).ArrAt_in (0 : Fin 3) rfl _
  have hin1 : (rdats A B5 B6 O b 0 c).ArrAt (1 : Fin 3) (Pipeline.pin (pcfgs (F := F)) adm 0).N = fun Fw => Fw = A :=
    (rdats A B5 B6 O b 0 c).ArrAt_in (1 : Fin 3) rfl _
  rw [hin0, hin1]
  iintro ⟨⟨⟨%F0, %h0, H0⟩, ⟨%F1, %h1, H1⟩, ⟨%F2, %h2, H2⟩⟩, ⟨%W, %hW, HO⟩, -, -⟩
  have e0 : A = F0 := h0.symm
  have e1 : A = F1 := h1.symm
  subst e0; subst e1
  imodintro
  isplitl [H0 H1]
  · iapply (pointsTo_share (PosShare.mem_left_op_right fullShare)).2
    isplitl [H0]; · iexact H0
    iexact H1
  isplitl [H2]
  · iexists F2; isplitr; · ipureintro; exact arrAt0 A B5 B6 O b c F2 h2
    iexact H2
  iexists W; isplitr
  · ipureintro; intro p hp
    rcases hW hp with h | ⟨w, s, rfl⟩
    · exact h
    · exact Nat.zero_le _
  iexact HO

/-- ENTRY of region 1. -/
theorem hentry1 (c : Dev nD) :
    iprop(segPre1 A B6 O b c ∗ (BI.emp : sProp 𝕄) ∗ levAts (K (F := F)).L lv)
      ⊢ |={Set.univ}=> iprop((rdats A B5 B6 O b 1 c).arrays (rdats A B5 B6 O b 1 c).A ∗ (BI.emp : sProp 𝕄)
          ∗ (rdats A B5 B6 O b 1 c).owesAt none 0 ∗ (BI.emp : sProp 𝕄) ∗ (BI.emp : sProp 𝕄)) := by
  rw [arrays1_eq, bigSep_W1]
  unfold segPre1 owesB
  iintro ⟨⟨H4, H5, %W, %hW, HO⟩, -, -⟩
  ihave H4' := (pointsTo_share (PosShare.mem_left_op_right fullShare)).1 $$ H4
  icases H4' with ⟨H4l, H4r⟩
  imodintro
  isplitl [H4l H4r H5]
  · isplitl [H4l]; · iexact H4l
    isplitl [H4r]; · iexact H4r
    iexact H5
  isplitr; · iempintro
  isplitl [HO]
  · iexists W; isplitr
    · ipureintro; exact fun p hp => Or.inl (hW p hp)
    iexact HO
  isplitr <;> iempintro

/-- EXIT of region 1. -/
theorem hexit1 (c : Dev nD) :
    iprop((rdats A B5 B6 O b 1 c).arraysAt (Pipeline.pin (pcfgs (F := F)) adm 1).N
        ∗ (rdats A B5 B6 O b 1 c).owesAt none (Fin.last (Pipeline.pin (pcfgs (F := F)) adm 1).N) ∗ (BI.emp : sProp 𝕄) ∗ (BI.emp : sProp 𝕄))
      ⊢ |={Set.univ}=> segPost1 A O b c := by
  rw [arraysAt1_eq, bigSep_W1]
  unfold segPost1 owesB
  have hin0 : (rdats A B5 B6 O b 1 c).ArrAt (0 : Fin 3) (Pipeline.pin (pcfgs (F := F)) adm 1).N = fun Fw => Fw = A :=
    (rdats A B5 B6 O b 1 c).ArrAt_in (0 : Fin 3) rfl _
  have hin1 : (rdats A B5 B6 O b 1 c).ArrAt (1 : Fin 3) (Pipeline.pin (pcfgs (F := F)) adm 1).N = fun Fw => Fw = A :=
    (rdats A B5 B6 O b 1 c).ArrAt_in (1 : Fin 3) rfl _
  rw [hin0, hin1]
  iintro ⟨⟨⟨%F0, %h0, H0⟩, ⟨%F1, %h1, H1⟩, ⟨%F2, %h2, H2⟩⟩, ⟨%W, %hW, HO⟩, -, -⟩
  have e0 : A = F0 := h0.symm
  have e1 : A = F1 := h1.symm
  subst e0; subst e1
  imodintro
  isplitl [H0 H1]
  · iapply (pointsTo_share (PosShare.mem_left_op_right fullShare)).2
    isplitl [H0]; · iexact H0
    iexact H1
  isplitl [H2]
  · iexists F2; isplitr; · ipureintro; exact arrAt1 A B5 B6 O b c F2 h2
    iexact H2
  iexists W; isplitr
  · ipureintro; intro p hp
    rcases hW hp with h | ⟨w, s, rfl⟩
    · exact h
    · exact Nat.zero_le _
  iexact HO

theorem rdats_zero (c : Dev nD) : rdats A B5 B6 O b 0 c = rdat0 A B5 O b c := rfl
theorem rdats_one (c : Dev nD) : rdats A B5 B6 O b 1 c = rdat1 A B6 O b c := rfl
theorem hΦ0 (c : Dev nD) (u : Fin ((Pipeline.pin (pcfgs (F := F)) adm 0).N + 1)) :
    (rdats A B5 B6 O b 0 c).Φ u = Pipeline.scopedRest (Pipeline.pin (pcfgs (F := F)) adm 0).spec c := by
  rw [rdats_zero]; unfold rdat0; dsimp only
theorem hΦ1 (c : Dev nD) (u : Fin ((Pipeline.pin (pcfgs (F := F)) adm 1).N + 1)) :
    (rdats A B5 B6 O b 1 c).Φ u = Pipeline.scopedRest (Pipeline.pin (pcfgs (F := F)) adm 1).spec c := by
  rw [rdats_one]; unfold rdat1; dsimp only

/-- The first transpose as a region of @main. -/
def seg0 : Pipeline.RDat.RegionSeg (pcfgs (F := F)) adm (rdats A B5 B6 O b) none (defs₀ (F := F)) 𝒱₀ (K (F := F)).L lv 0 where
  win := winFacts₀0
  block_pos := block_pos0
  stage_whole := stage_whole0
  K := PEmpty
  osem k := k.elim
  ho := Pipeline.OwnSemFacts.none _
  hbody c := body0 A B5 B6 O b c
  hwaits c := hwaits0 A B5 B6 O b lv hlv hO c
  pre c := segPre0 A B5 O b c
  post c := segPost0 A O b c
  X _ := BI.emp
  Y _ := BI.emp
  Z _ := BI.emp
  hentry c := by
    rw [Pipeline.ownSems0_none, prefHeld0]
    exact hentry0 A B5 B6 O b lv c
  hin c := by
    rw [hΦ0 A B5 B6 O b c]
    iintro ⟨-, -, H⟩; iexact H
  hout c := by
    rw [Pipeline.ownSems0_none, hΦ0 A B5 B6 O b c]
    iintro H
    isplitr; · iempintro
    isplitr; · iempintro
    iexact H
  hexit c := hexit0 A B5 B6 O b c

/-- The second. -/
def seg1 : Pipeline.RDat.RegionSeg (pcfgs (F := F)) adm (rdats A B5 B6 O b) none (defs₀ (F := F)) 𝒱₀ (K (F := F)).L lv 1 where
  win := winFacts₀1
  block_pos := block_pos1
  stage_whole := stage_whole1
  K := PEmpty
  osem k := k.elim
  ho := Pipeline.OwnSemFacts.none _
  hbody c := body1 A B5 B6 O b c
  hwaits c := hwaits1 A B5 B6 O b lv hlv hO c
  pre c := segPre1 A B6 O b c
  post c := segPost1 A O b c
  X _ := BI.emp
  Y _ := BI.emp
  Z _ := BI.emp
  hentry c := by
    rw [Pipeline.ownSems0_none, prefHeld1]
    exact hentry1 A B5 B6 O b lv c
  hin c := by
    rw [hΦ1 A B5 B6 O b c]
    iintro ⟨-, -, H⟩; iexact H
  hout c := by
    rw [Pipeline.ownSems0_none, hΦ1 A B5 B6 O b c]
    iintro H
    isplitr; · iempintro
    isplitr; · iempintro
    iexact H
  hexit c := hexit1 A B5 B6 O b c

include B6 hlv hO in
/-- Region 0 run from its thread state, on the pipelines' own body table. -/
theorem region0_wp (c : Dev nD) {α : Type} (k : PUnit → Prog (TpuEff nD τ sig (Elt F) (ΛP (F := F)) .tc) α) (Q : α → sProp 𝕄) :
    iprop((iprop(boundary (c.tc : Thread nD τ) ∗ segPost0 A O b c) -∗ wp frame (wpE (D (F := F)) 𝒱 (c.tc : Thread nD τ) none) Set.univ (k ⟨⟩) Q)
        ∗ boundary (c.tc : Thread nD τ) ∗ segPre0 A B5 O b c ∗ levAts (K (F := F)).L lv
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) k) Q :=
  Pipeline.RDat.RegionSeg.wp (pcfgs (F := F)) adm (rdats A B5 B6 O b) none cellOf_inj EP (defs₀ (F := F)) 𝒱₀ (K (F := F)).L lv
    (seg0 A B5 B6 O b lv hlv hO) c none (fun _ hu => by cases hu) k Q

include B5 hlv hO in
theorem region1_wp (c : Dev nD) {α : Type} (k : PUnit → Prog (TpuEff nD τ sig (Elt F) (ΛP (F := F)) .tc) α) (Q : α → sProp 𝕄) :
    iprop((iprop(boundary (c.tc : Thread nD τ) ∗ segPost1 A O b c) -∗ wp frame (wpE (D (F := F)) 𝒱 (c.tc : Thread nD τ) none) Set.univ (k ⟨⟩) Q)
        ∗ boundary (c.tc : Thread nD τ) ∗ segPre1 A B6 O b c ∗ levAts (K (F := F)).L lv
        ∗ Pipeline.cellsGhost (Pipeline.pin (pcfgs (F := F)) adm) EP 1 c ∗ Pipeline.toksInit (Pipeline.pin (pcfgs (F := F)) adm) EP 1 c)
      ⊢ wp frame (wpE (D (F := F)) 𝒱 (c.tc : Thread nD τ) none) Set.univ (.op (.customCall (Pipeline.entry 1) ()) k) Q :=
  Pipeline.RDat.RegionSeg.wp (pcfgs (F := F)) adm (rdats A B5 B6 O b) none cellOf_inj EP (defs₀ (F := F)) 𝒱₀ (K (F := F)).L lv
    (seg1 A B5 B6 O b lv hlv hO) c none (fun _ hu => by cases hu) k Q

end Regions

/-- The staging cells of the two pipelines are pairwise distinct, at the pipelines' (absent) prefetched tables. -/
theorem cellOf_inj' : Function.Injective (Pipeline.cellOf (nD := nD) (τ := τ) (Pipeline.pin (pcfgs (F := F)) adm)) :=
  cellOf_inj

section Run

variable (A : S26x64x100000.Idx → Elt F .f32) (O : CellTallies nD τ sig (HIx 2)) (b : ℕ)
variable (lv : GSem nD τ sig → HIx 2 → ℕ) (hlv : (K (F := F)).Refines lv) (hO : ∀ g, O g none = 0)

/-- One core's share of the funding, regrouped by pipeline. -/
theorem ghost_regroup (c : Dev nD) :
    (iprop((bigSep Finset.univ fun p : Fin 2 => Pipeline.cellsGhost (Pipeline.pin (pcfgs (F := F)) adm) EP p c)
        ∗ (bigSep Finset.univ fun p : Fin 2 => Pipeline.toksInit (Pipeline.pin (pcfgs (F := F)) adm) EP p c)) : sProp 𝕄)
      ⊢ regGhost c := by
  rw [bigSep_P, bigSep_P]
  unfold regGhost
  iintro ⟨⟨Hg0, Hg1⟩, Ht0, Ht1⟩
  isplitl [Hg0]; · iexact Hg0
  isplitl [Ht0]; · iexact Ht0
  isplitl [Hg1]; · iexact Hg1
  iexact Ht1

/-- What the launch element funds for the two transposes: from the rounds library's launch element at their staging
    cells, every core's staging cells' ghost state and duty tokens. -/
theorem regions_fund :
    BI.own (EP (F := F) (initOf (Pipeline.cells (Pipeline.pin (pcfgs (F := F)) adm) cellOf_inj') (Pipeline.launchToks (Pipeline.pin (pcfgs (F := F)) adm) cellOf_inj')))
      ⊢ iprop(|==> bigSep Finset.univ fun c : Dev nD => (regGhost c : sProp 𝕄)) := by
  refine (Pipeline.fund_ghost (Pipeline.pin (pcfgs (F := F)) adm) EP cellOf_inj').trans (bupd_mono ?_)
  rw [← bigSep_sep']
  exact bigSep_mono fun c _ => ghost_regroup c

include hlv hO in
/-- The two pipelined transposes of @main, in sequence, on the TensorCore of `c`, inside the SparseCore launch: from the
    region boundary, the tables whole at `A`, the two results whole at anything, what the core owes (nothing at the
    index the pipelines wait at) and the staging cells' ghost state, they run to the boundary, the tables unchanged and
    each result holding the pairs of tables side by side; the continuation runs from there. -/
theorem regions_wp_aux (c : Dev nD)
    {α : Type} (k : PUnit → Prog (TpuEff nD τ sig (Elt F) (SparseCore.Sig (ΛP (F := F)) 2) .tc) α) (Q : α → sProp 𝕄) :
    iprop((iprop(boundary (c.tc : Thread nD τ) ∗ regPost c A O b)
            -∗ wp frame (wpE ((K (F := F)).defs D) 𝒱 (c.tc : Thread nD τ) none) Set.univ (k ⟨⟩) Q)
        ∗ boundary (c.tc : Thread nD τ) ∗ regPre c A O b ∗ levAts (K (F := F)).L lv ∗ regGhost c)
      ⊢ wp frame (wpE ((K (F := F)).defs D) 𝒱 (c.tc : Thread nD τ) none) Set.univ
          (Prog.lift (.customCall (SparseCore.inner (Pipeline.entry 0)) ()) >>= fun _ =>
            Prog.lift (.customCall (SparseCore.inner (Pipeline.entry 1)) ()) >>= k) Q := by
  simp only [wp_bind]
  unfold regPre regGhost
  iintro ⟨Hk, Hb, ⟨H4, ⟨%f5, H5⟩, ⟨%f6, H6⟩, HO⟩, #Hlev, Hg0, Ht0, Hg1, Ht1⟩
  iapply ((K (F := F)).wp_liftProg (D (F := F)) 𝒱 (c.tc : Thread nD τ) Set.univ none (Prog.lift (.customCall (Pipeline.entry 0) ())) _)
  iapply (region0_wp A f5 f6 O b lv hlv hO c (fun x => .ret x) _)
  unfold segPre0 segPost0 owesB
  isplitl [Hk H6 Hg1 Ht1]
  · iintro ⟨Hb, H4, ⟨%g5, %hg5, H5⟩, HO⟩
    iapply (le_wp_ret _ _)
    iapply ((K (F := F)).wp_liftProg (D (F := F)) 𝒱 (c.tc : Thread nD τ) Set.univ none (Prog.lift (.customCall (Pipeline.entry 1) ())) _)
    iapply (region1_wp A f5 f6 O b lv hlv hO c (fun x => .ret x) _)
    unfold segPre1 segPost1 owesB
    isplitl [Hk H5]
    · iintro ⟨Hb, H4, ⟨%g6, %hg6, H6⟩, HO⟩
      iapply (le_wp_ret _ _)
      iapply Hk
      unfold regPost
      isplitl [Hb]; · iexact Hb
      isplitl [H4]; · iexact H4
      isplitl [H5]
      · iexists g5; isplitr; · ipureintro; exact hg5
        iexact H5
      isplitl [H6]
      · iexists g6; isplitr; · ipureintro; exact hg6
        iexact H6
      iexact HO
    isplitl [Hb]; · iexact Hb
    isplitl [H4 H6 HO]
    · isplitl [H4]; · iexact H4
      isplitl [H6]; · iexact H6
      iexact HO
    isplitr; · iexact Hlev
    isplitl [Hg1]; · iexact Hg1
    iexact Ht1
  isplitl [Hb]; · iexact Hb
  isplitl [H4 H5 HO]
  · isplitl [H4]; · iexact H4
    isplitl [H5]; · iexact H5
    iexact HO
  isplitr; · iexact Hlev
  isplitl [Hg0]; · iexact Hg0
  iexact Ht0

end Run

/-- The two pipelined transposes of @main in sequence, as the launch's `hmain` applies them. -/
theorem regions_wp (lv : GSem nD τ sig → HIx 2 → ℕ) (hlv : (K (F := F)).Refines lv) (c : Dev nD)
    (A : S26x64x100000.Idx → Elt F .f32) (O : CellTallies nD τ sig (HIx 2)) (hO : ∀ g, O g none = 0) (b : ℕ)
    {α : Type} (k : PUnit → Prog (TpuEff nD τ sig (Elt F) (SparseCore.Sig (ΛP (F := F)) 2) .tc) α) (Q : α → sProp 𝕄) :
    iprop((iprop(boundary (c.tc : Thread nD τ) ∗ regPost c A O b)
            -∗ wp frame (wpE ((K (F := F)).defs D) 𝒱 (c.tc : Thread nD τ) none) Set.univ (k ⟨⟩) Q)
        ∗ boundary (c.tc : Thread nD τ) ∗ regPre c A O b ∗ levAts (K (F := F)).L lv ∗ regGhost c)
      ⊢ wp frame (wpE ((K (F := F)).defs D) 𝒱 (c.tc : Thread nD τ) none) Set.univ
          (Prog.lift (.customCall (SparseCore.inner (Pipeline.entry 0)) ()) >>= fun _ =>
            Prog.lift (.customCall (SparseCore.inner (Pipeline.entry 1)) ()) >>= k) Q :=
  regions_wp_aux A O b lv hlv hO c k Q

end Cert.Proof.KB

end
-- ==== Proof.KB.LeavesTrans.lean ====
/-
  The two statements about the pipelined transposes that the launch rests on, from their proofs.
-/
import proofs.«219250_g10247791969013_week1_w1_750_27_alg».proof.Proof.KB.Spec
import proofs.«219250_g10247791969013_week1_w1_750_27_alg».proof.Proof.KB.Regions

noncomputable section

namespace Cert.Proof.KB

open Cert.Kernel Cert.Kernel.Gen

open Idealize.ShloMosaic

variable {F : FTy → Type} [FloatOps F]

theorem regionsFund : RegionsFund F := fun _ => regions_fund
theorem regionsWp : RegionsWp F := fun lv hlv c A O hO b _ k Q => regions_wp lv hlv c A O hO b k Q

end Cert.Proof.KB

end
-- ==== Proof.KB.Tile2Res.lean ====
/-
  One vector subcore's task of the first embedding-sum call: what it is handed, what it leaves, and the value it
  writes. The task copies its 2048 index words into its own memory, turns each into a row number of the
  pair table (the word plus (position mod 16 / 2) * 100352) beside the lane offset (position mod 16 mod 2) * 64,
  gathers the named rows 128 at a time through two buffers, adds up sixteen gathered half-rows per batch row, and
  copies its 64 x 128 block of sums out.
-/
import proofs.«219250_g10247791969013_week1_w1_750_27_alg».proof.Proof.KB.Base
import proofs.«219250_g10247791969013_week1_w1_750_27_alg».proof.Proof.KB.Tile2Defs
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The task's own buffers and semaphores -/

open Idealize.ShloMosaic.SparseCore.Cfg (tileRest ownBufs ownSems0 ownCells ownRefs mem_ownCells mem_ownRefs)

/-- The task's copy of its index words (2048). -/
abbrev sI2 : Memref sig .scVector .vmem S2048 .i32 := Memref.whole cc2_scratch0
/-- The lane offsets beside them (2064 words, the last 16 never written). -/
abbrev sH2 : Memref sig .scVector .vmem S2064 .i32 := Memref.whole cc2_scratch1
/-- The two gather buffers (2 x 128 x 128). -/
abbrev sR2 : Memref sig .scVector .vmem S2x128x128 .f32 := Memref.whole cc2_scratch2
/-- The block of sums (64 x 128). -/
abbrev sO2 : Memref sig .scVector .vmem S64x128 .f32 := Memref.whole cc2_scratch3

variable (d : Dev nD) (L : grid2.Coords)

/-- The semaphore of the even chunks' gathers. -/
abbrev cellA2 : GSem nD τ sig := (thr2 d L, .dma cc2_scratch4.sem)
/-- The semaphore of the odd chunks' gathers. -/
abbrev cellB2 : GSem nD τ sig := (thr2 d L, .dma cc2_scratch5.sem)
/-- The semaphore of the copy in. -/
abbrev cellC2 : GSem nD τ sig := (thr2 d L, .dma cc2_scoped0.sem)
/-- The semaphore of the copy out. -/
abbrev cellD2 : GSem nD τ sig := (thr2 d L, .dma cc2_scoped1.sem)

omit [FloatOps F] in
/-- The four semaphores the task uses are among the subcore's own: they are them, at zero, and the rest. -/
theorem ownSems0_V2 :
    (ownSems0 (thr2 d L) : sProp 𝕄)
      = iprop(semVal (cellA2 d L) 0 ∗ semVal (cellB2 d L) 0 ∗ semVal (cellC2 d L) 0 ∗ semVal (cellD2 d L) 0
          ∗ bigSep (((((ownCells (thr2 d L)).erase (cellA2 d L)).erase (cellB2 d L)).erase (cellC2 d L)).erase (cellD2 d L))
              fun g => semVal g 0) := by
  unfold SparseCore.Cfg.ownSems0
  have hA : cellA2 d L ∈ ownCells (thr2 d L) := (mem_ownCells (g := cellA2 d L)).mpr ⟨rfl, by
    show (SemLoc.dma cc2_scratch4.sem : SemLoc sig).isScoped .scVector = true; decide⟩
  have hB : cellB2 d L ∈ ownCells (thr2 d L) := (mem_ownCells (g := cellB2 d L)).mpr ⟨rfl, by
    show (SemLoc.dma cc2_scratch5.sem : SemLoc sig).isScoped .scVector = true; decide⟩
  have hC : cellC2 d L ∈ ownCells (thr2 d L) := (mem_ownCells (g := cellC2 d L)).mpr ⟨rfl, by
    show (SemLoc.dma cc2_scoped0.sem : SemLoc sig).isScoped .scVector = true; decide⟩
  have hD : cellD2 d L ∈ ownCells (thr2 d L) := (mem_ownCells (g := cellD2 d L)).mpr ⟨rfl, by
    show (SemLoc.dma cc2_scoped1.sem : SemLoc sig).isScoped .scVector = true; decide⟩
  have nBA : cellB2 d L ≠ cellA2 d L := by simp [cellA2, cellB2]; decide
  have nCA : cellC2 d L ≠ cellA2 d L := by simp [cellA2, cellC2]; decide
  have nCB : cellC2 d L ≠ cellB2 d L := by simp [cellB2, cellC2]; decide
  have nDA : cellD2 d L ≠ cellA2 d L := by simp [cellA2, cellD2]; decide
  have nDB : cellD2 d L ≠ cellB2 d L := by simp [cellB2, cellD2]; decide
  have nDC : cellD2 d L ≠ cellC2 d L := by simp [cellC2, cellD2]; decide
  rw [SparseCore.bigSep_erase' hA,
    SparseCore.bigSep_erase' (Finset.mem_erase.mpr ⟨nBA, hB⟩),
    SparseCore.bigSep_erase' (Finset.mem_erase.mpr ⟨nCB, Finset.mem_erase.mpr ⟨nCA, hC⟩⟩),
    SparseCore.bigSep_erase' (Finset.mem_erase.mpr ⟨nDC, Finset.mem_erase.mpr ⟨nDB, Finset.mem_erase.mpr ⟨nDA, hD⟩⟩⟩)]

omit [FloatOps F] in
/-- The four scratch buffers are among the subcore's own: they are them, whole at some contents, and the rest. -/
theorem ownBufs_V2 :
    (ownBufs (thr2 d L) : sProp 𝕄)
      = iprop((∃ f, (sI2).view.loc (thr2 d L) ↦{fullShare} f) ∗ (∃ f, (sH2).view.loc (thr2 d L) ↦{fullShare} f)
          ∗ (∃ f, (sR2).view.loc (thr2 d L) ↦{fullShare} f) ∗ (∃ f, (sO2).view.loc (thr2 d L) ↦{fullShare} f)
          ∗ bigSep (((((ownRefs (τ := τ) (.scVector (cV2 L) (jV2 L))).erase ((Proc.scVector (cV2 L) (jV2 L)).devRef cc2_scratch0)).erase
              ((Proc.scVector (cV2 L) (jV2 L)).devRef cc2_scratch1)).erase ((Proc.scVector (cV2 L) (jV2 L)).devRef cc2_scratch2)).erase
              ((Proc.scVector (cV2 L) (jV2 L)).devRef cc2_scratch3))
              fun b => iprop(∃ f, ((d, b) : Loc nD τ sig) ↦{fullShare} f)) := by
  unfold SparseCore.Cfg.ownBufs
  have m0 := SparseCore.Cfg.mem_ownRefs_of_owner (p := Proc.scVector (cV2 L) (jV2 L)) (b := (Proc.scVector (cV2 L) (jV2 L)).devRef cc2_scratch0) rfl
  have m1 := SparseCore.Cfg.mem_ownRefs_of_owner (p := Proc.scVector (cV2 L) (jV2 L)) (b := (Proc.scVector (cV2 L) (jV2 L)).devRef cc2_scratch1) rfl
  have m2 := SparseCore.Cfg.mem_ownRefs_of_owner (p := Proc.scVector (cV2 L) (jV2 L)) (b := (Proc.scVector (cV2 L) (jV2 L)).devRef cc2_scratch2) rfl
  have m3 := SparseCore.Cfg.mem_ownRefs_of_owner (p := Proc.scVector (cV2 L) (jV2 L)) (b := (Proc.scVector (cV2 L) (jV2 L)).devRef cc2_scratch3) rfl
  have n10 : (Proc.scVector (cV2 L) (jV2 L)).devRef cc2_scratch1 ≠ (Proc.scVector (cV2 L) (jV2 L)).devRef cc2_scratch0 :=
    fun e => absurd (Proc.devRef_injective _ e) (show (cc2_scratch1 : Ref sig .scVector) ≠ cc2_scratch0 by decide)
  have n20 : (Proc.scVector (cV2 L) (jV2 L)).devRef cc2_scratch2 ≠ (Proc.scVector (cV2 L) (jV2 L)).devRef cc2_scratch0 :=
    fun e => absurd (Proc.devRef_injective _ e) (show (cc2_scratch2 : Ref sig .scVector) ≠ cc2_scratch0 by decide)
  have n21 : (Proc.scVector (cV2 L) (jV2 L)).devRef cc2_scratch2 ≠ (Proc.scVector (cV2 L) (jV2 L)).devRef cc2_scratch1 :=
    fun e => absurd (Proc.devRef_injective _ e) (show (cc2_scratch2 : Ref sig .scVector) ≠ cc2_scratch1 by decide)
  have n30 : (Proc.scVector (cV2 L) (jV2 L)).devRef cc2_scratch3 ≠ (Proc.scVector (cV2 L) (jV2 L)).devRef cc2_scratch0 :=
    fun e => absurd (Proc.devRef_injective _ e) (show (cc2_scratch3 : Ref sig .scVector) ≠ cc2_scratch0 by decide)
  have n31 : (Proc.scVector (cV2 L) (jV2 L)).devRef cc2_scratch3 ≠ (Proc.scVector (cV2 L) (jV2 L)).devRef cc2_scratch1 :=
    fun e => absurd (Proc.devRef_injective _ e) (show (cc2_scratch3 : Ref sig .scVector) ≠ cc2_scratch1 by decide)
  have n32 : (Proc.scVector (cV2 L) (jV2 L)).devRef cc2_scratch3 ≠ (Proc.scVector (cV2 L) (jV2 L)).devRef cc2_scratch2 :=
    fun e => absurd (Proc.devRef_injective _ e) (show (cc2_scratch3 : Ref sig .scVector) ≠ cc2_scratch2 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

/-! ## The rewrite of the index list, word by word -/

/-- The word at position `p` after the rewrite: the index plus the pair's block of rows. -/
def rewW2 (w : BitVec 32) (p : ℕ) : BitVec 32 := w + BitVec.ofNat 32 (p % 16 / 2 * 100352)
/-- The lane offset at position `p`: which half of the pair's row. -/
def halfW2 (p : ℕ) : BitVec 32 := BitVec.ofNat 32 (p % 16 % 2 * 64)

/-- Before trip `k` of the rewrite the first `16 k` words are rewritten, the others as copied in. -/
def XI5 (c5 g : S2048.Idx → BitVec 32) (k : ℕ) : Prop :=
  ∀ x : S2048.Idx, g x = if (x 0).val < 16 * k then rewW2 (c5 x) (x 0).val else c5 x
/-- Before trip `k` the first `16 k` lane offsets are in place. -/
def XI6 (g : S2064.Idx → BitVec 32) (k : ℕ) : Prop :=
  ∀ x : S2064.Idx, (x 0).val < 16 * k → g x = halfW2 (x 0).val

end Cert.Proof.KB

end
-- ==== Proof.KB.Tile2Pay.lean ====
/-
  The payloads of the index-list rewrite, lane by lane: the position's remainder by 16, the lane offset stored
  beside the list, and the block of rows added to the index word.
-/
import proofs.«219250_g10247791969013_week1_w1_750_27_alg».proof.Proof.KB.Tile2Res
import proofs.«219250_g10247791969013_week1_w1_750_27_alg».proof.Proof.Gen.Kernel.Skeleton
import Idealize.ShloMosaic.Lib.Pipeline.Value
import Idealize.ShloMosaic.Lib.ValueLayout
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.ValueIdx (ix1 ix2 ix3 eq_ix1 eq_ix2 eq_ix3)

omit [FloatOps F] in
theorem pay209_val : ∀ k : Fin k2_t1_loop.trips, ∀ u : Fin 16, k2_pay209 k (ix1 u) = BitVec.ofNat 32 u.val := by decide +kernel
omit [FloatOps F] in
theorem pay210_val : ∀ k : Fin k2_t1_loop.trips, ∀ u : Fin 16, k2_pay210 k (ix1 u) = BitVec.ofNat 32 (u.val % 2 * 64) := by decide +kernel
omit [FloatOps F] in
theorem shr_mul_val : ∀ u : Fin 16,
    IntOp.muli (IntOp.shrui .vector (BitVec.ofNat 32 u.val) 1#32) 100352#32 = BitVec.ofNat 32 (u.val / 2 * 100352) := by decide +kernel
/-- The word stored at lane `u`: the word loaded plus `(u / 2) * 100352`. -/
theorem pay211_val (k : Fin k2_t1_loop.trips) (v : Vec F S16 .i32) (u : Fin 16) :
    k2_pay211 (F := F) k v (ix1 u) = (v (ix1 u) : BitVec 32) + BitVec.ofNat 32 (u.val / 2 * 100352) := by
  unfold k2_pay211
  simp only [shapeCast_self]
  show IntOp.addi (v (ix1 u)) (IntOp.muli (IntOp.shrui .vector (k2_pay209 k (ix1 u)) 1#32) 100352#32) = _
  rw [pay209_val, shr_mul_val]; rfl

end Cert.Proof.KB

end
-- ==== Proof.KB.Tile2Pure.lean ====
/-
  One trip of the index-list rewrite on the contents of the two lists: the sixteen words of the trip take their
  rewritten values, every other word stays.
-/
import proofs.«219250_g10247791969013_week1_w1_750_27_alg».proof.Proof.KB.Tile2Pay

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.ValueIdx (ix1 ix2 ix3 eq_ix1 eq_ix2 eq_ix3)

/-! ## One trip of the rewrite, on the contents -/

theorem XI5_zero {κ : Kind} {sp : Space} (v : View sig κ sp S2048 .i32) (f : v.ty.Contents (Elt F)) (c5 : S2048.Idx → BitVec 32) :
    XI5 c5 (v.read (Elt F) (v.write (Elt F) f c5 Finset.univ)) 0 := by
  intro x
  rw [View.read_write_univ]
  simp

omit [FloatOps F] in
theorem XI6_zero (g : S2064.Idx → BitVec 32) : XI6 g 0 := fun x hx => absurd hx (by omega)

/-- A single 16-word piece written at `16 k` into a list of `n` words: inside it the piece's lane, outside the old word. -/
theorem read_piece16 {n : ℕ} {κ : Kind} {sp : Space} (v : View sig κ sp ⟨1, ![n]⟩ .i32) (g : v.ty.Contents (Elt F))
    (off : Fin 1 → ℕ) (inb : ∀ a, off a + S16.size a ≤ (⟨1, ![n]⟩ : Shape).size a) (w : S16.Idx → BitVec 32) (k : ℕ) (hoff : off = ![16 * k])
    (x : (⟨1, ![n]⟩ : Shape).Idx) :
    v.read (Elt F) (v.writes (Elt F) g [⟨Rect.unit (s := ⟨1, ![n]⟩) off S16.size inb, w⟩]) x
      = if h : 16 * k ≤ (x 0).val ∧ (x 0).val < 16 * k + 16 then w (ix1 ⟨(x 0).val - 16 * k, by omega⟩) else v.read (Elt F) g x := by
  subst hoff
  split
  · rename_i h
    have hx : x = (Rect.unit (s := ⟨1, ![n]⟩) ![16 * k] S16.size inb).emb (ix1 (⟨(x 0).val - 16 * k, by omega⟩ : Fin 16) : S16.Idx) := by
      funext a
      match a with
      | ⟨0, _⟩ => exact Fin.ext (by simp only [Rect.emb_apply, Rect.off_unit, Rect.stride_unit]; simp; omega)
    conv_lhs => rw [hx]
    exact View.read_writes_cons_emb (Val := Elt F) v g (Rect.unit (s := ⟨1, ![n]⟩) ![16 * k] S16.size inb) w [] _
  · rename_i h
    refine View.read_writes_apply_of_forall_not_mem v g x _ ?_
    intro p hp
    rw [List.mem_singleton] at hp
    subst hp
    rw [Rect.mem_set_unit]
    intro hm
    have := hm 0
    simp at this
    omega

theorem XI6_step {κ : Kind} {sp : Space} (v : View sig κ sp S2064 .i32) (g : v.ty.Contents (Elt F)) (k : Fin k2_t1_loop.trips)
    (h : XI6 (v.read (Elt F) g) k.val) :
    XI6 (v.read (Elt F) (v.writes (Elt F) g [⟨Rect.unit (s := S2064) (k2_off2 k) S16.size (k2_off2_inb k), k2_pay210 k⟩])) (k.val + 1) := by
  intro x hx
  have e := read_piece16 (F := F) v g (k2_off2 k) (k2_off2_inb k) (k2_pay210 k) k.val (k2_off2_eq k) x
  refine e.trans ?_
  split
  · rename_i hin
    rw [pay210_val]
    unfold halfW2
    congr 1
    show ((x 0).val - 16 * k.val) % 2 * 64 = (x 0).val % 16 % 2 * 64
    omega
  · rename_i hout
    apply h
    have hx' : (x 0).val < 16 * (k.val + 1) := hx
    omega

theorem XI5_step {κ : Kind} {sp : Space} (v : View sig κ sp S2048 .i32) (g : v.ty.Contents (Elt F)) (c5 : S2048.Idx → BitVec 32)
    (k : Fin k2_t1_loop.trips) (h : XI5 c5 (v.read (Elt F) g) k.val) :
    XI5 c5 (v.read (Elt F) (v.writes (Elt F) g [⟨Rect.unit (s := S2048) (k2_off3 k) S16.size (k2_off3_inb k),
      k2_pay211 k (v.readAt (Elt F) (Rect.unit (s := S2048) (k2_off3 k) S16.size (k2_off3_inb k)).toLoadRect g)⟩])) (k.val + 1) := by
  intro x
  have e := read_piece16 (F := F) v g (k2_off3 k) (k2_off3_inb k)
    (k2_pay211 k (v.readAt (Elt F) (Rect.unit (s := S2048) (k2_off3 k) S16.size (k2_off3_inb k)).toLoadRect g)) k.val (k2_off3_eq k) x
  refine e.trans ?_
  have hk := h x
  split
  · rename_i hin
    rw [pay211_val]
    have hidx : (Rect.unit (s := S2048) (k2_off3 k) S16.size (k2_off3_inb k)).toLoadRect.idx (ix1 (⟨(x 0).val - 16 * k.val, by omega⟩ : Fin 16) : S16.Idx) = x := by
      funext a
      match a with
      | ⟨0, _⟩ => exact Fin.ext (by simp only [LoadRect.idx_apply]; simp [k2_off3_eq]; omega)
    rw [View.readAt_apply, hidx, hk, if_neg (by omega), if_pos (by omega)]
    unfold rewW2
    have e2 : ((x 0).val - 16 * k.val) / 2 * 100352 = (x 0).val % 16 / 2 * 100352 := by omega
    show c5 x + BitVec.ofNat 32 (((x 0).val - 16 * k.val) / 2 * 100352) = _
    rw [e2]
  · rename_i hout
    rw [hk]
    by_cases h1 : (x 0).val < 16 * k.val
    · rw [if_pos h1, if_pos (by omega)]
    · rw [if_neg h1, if_neg (by omega)]

end Cert.Proof.KB

end
-- ==== Proof.KB.Tile2Pre.lean ====
/-
  The rewrite loop of one vector subcore's task: its invariant and one trip.
-/
import proofs.«219250_g10247791969013_week1_w1_750_27_alg».proof.Proof.KB.Tile2Pure
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid2.Coords)

/-- The rewrite loop's invariant: the two lists at some contents, rewritten below `16 k`. -/
def xfInv (c5 : S2048.Idx → BitVec 32) (k : ℕ) (_ : Unit) : sProp 𝕄 :=
  iprop(∃ g5 g6, ((sI2).view.loc (thr2 d L) ↦{fullShare} g5) ∗ ((sH2).view.loc (thr2 d L) ↦{fullShare} g6)
    ∗ ⌜XI5 c5 ((sI2).view.read (Elt F) g5) k ∧ XI6 ((sH2).view.read (Elt F) g6) k⌝)

set_option maxHeartbeats 2000000 in
theorem xform_trip (c5 : S2048.Idx → BitVec 32) (k : Fin k2_t1_loop.trips) (acc : Unit) :
    xfInv (F := F) d L c5 k.val acc ⊢ wp frame (wpE (defs₀ (F := F)) 𝒱₀ (thr2 d L) none) Set.univ
      (k2_t1_body L tabM2 (Memref.isWhole_whole _) idxM2 (Memref.isWhole_whole _) outM2 (Memref.isWhole_whole _)
        sI2 (Memref.isWhole_whole _) sH2 (Memref.isWhole_whole _) sR2 (Memref.isWhole_whole _) sO2 (Memref.isWhole_whole _)
        cc2_scratch4 cc2_scratch5 cc2_scoped0 cc2_scoped1 k acc) (xfInv (F := F) d L c5 (k.val + 1)) := by
  unfold xfInv
  iintro ⟨%g5, %g6, H5, H6, %hP⟩
  unfold k2_t1_body
  sl_exec
  sl_step
  iexists _, _
  isplitl [H5]; · iexact H5
  isplitl [H6]; · iexact H6
  ipureintro
  exact ⟨XI5_step (sI2).view g5 c5 k hP.1, XI6_step (sH2).view g6 k hP.2⟩

/-- An assertion set aside for a while. -/
def Aside (P : sProp 𝕄) : sProp 𝕄 := P
theorem aside_intro (P : sProp 𝕄) : P ⊢ Aside P := by unfold Aside; exact .rfl
theorem aside_elim (P : sProp 𝕄) : Aside P ⊢ P := by unfold Aside; exact .rfl

end Cert.Proof.KB

end
-- ==== Proof.KB.Tile2RingDefs.lean ====
/-
  The two-buffer ring of gathers of one vector subcore's task: the buffers as the task names them, what a gather
  delivers, and how far the block of sums is done before a trip.
-/
import proofs.«219250_g10247791969013_week1_w1_750_27_alg».proof.Proof.KB.Tile2Res

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

/-! ## The ring of gathers: its buffers, and what a gather delivers -/

/-- The gather buffer of the even chunks. -/
abbrev dstA2 : Memref sig .scVector .vmem S128x128 .f32 :=
  ((sR2).slice (Rect.unit (s := S2x128x128) ![0, 0, 0] S1x128x128.size inb_S2x128x128_S1x128x128_0_0_0) (fun _ => rfl)).squeeze S128x128 squeezes_S1x128x128_S128x128
/-- The gather buffer of the odd chunks. -/
abbrev dstB2 : Memref sig .scVector .vmem S128x128 .f32 :=
  ((sR2).slice (Rect.unit (s := S2x128x128) ![1, 0, 0] S1x128x128.size inb_S2x128x128_S1x128x128_1_0_0) (fun _ => rfl)).squeeze S128x128 squeezes_S1x128x128_S128x128
/-- The table as the gathers name it. -/
abbrev tabSl2 : Memref sig .scVector .hbm S802816x128 .f32 :=
  (tabM2).slice (Rect.unit (s := S802816x128) ![0, 0] S802816x128.size inb_S802816x128_S802816x128_0_0) (fun _ => rfl)

omit [FloatOps F] in
theorem inbC2 (c : ℕ) (hc : c < 16) : ∀ a, (![128 * c] : Fin 1 → ℕ) a + S128.size a ≤ S2048.size a :=
  Rect.inb₁ (by show 128 * c + 128 ≤ 2048; omega)
/-- The 128 list words of chunk `c`. -/
abbrev offsC2 (c : ℕ) (hc : c < 16) : Memref sig .scVector .vmem S128 .i32 :=
  (sI2).slice (Rect.unit (s := S2048) ![128 * c] S128.size (inbC2 c hc)) (fun _ => rfl)

/-- The elements of the even chunks' gather buffer. -/
abbrev setA2 : Finset S2x128x128.Idx := (dstA2).view.set
/-- The elements of the odd chunks' gather buffer. -/
abbrev setB2 : Finset S2x128x128.Idx := (dstB2).view.set
/-- The elements of chunk `c` of the list. -/
abbrev setC2 (c : ℕ) (hc : c < 16) : Finset S2048.Idx := (offsC2 c hc).view.set
/-- The elements of the table (all of them). -/
abbrev setT2 : Finset S802816x128.Idx := (tabSl2).view.set

/-- What chunk `c`'s gather delivers: row `r` is the table row the list names at position `128 c + r`. -/
def gathSpec2 (tb : S802816x128.Idx → Elt F .f32) (ix : S2048.Idx → Elt F .i32) (c : ℕ) : S128x128.Idx → Elt F .f32 :=
  fun x => tbAt2 tb (gRow2 ix (128 * c + (x 0).val)) (x 1).val

/-- The block of sums is done below row `8 k`. -/
def OutOK2 (tb : S802816x128.Idx → Elt F .f32) (ix : S2048.Idx → Elt F .i32) (k : ℕ) (g : S64x128.Idx → Elt F .f32) : Prop :=
  ∀ x : S64x128.Idx, (x 0).val < 8 * k → g x = OUT2 tb ix x

theorem OutOK2_zero (tb : S802816x128.Idx → Elt F .f32) (ix : S2048.Idx → Elt F .i32) (g : S64x128.Idx → Elt F .f32) : OutOK2 tb ix 0 g :=
  fun x hx => absurd hx (by omega)

end Cert.Proof.KB

end
-- ==== Proof.KB.AccumStep.lean ====
/-
  One trip of the accumulate loop of the embedding-sum kernels, over the offset functions of its accesses.

  A trip reads a word `v` of the lane-offset list at position `p₀ + k`, assumes the four 16-lane windows
  `v + 16 t` (t < 4) lie inside a 128-lane row, loads those four windows of row `r₀ + k` of slot `slot` of the
  gathered rows, and adds each to its accumulator. With the list holding only 0 or 64 at those positions the
  assumption holds, and after `k` trips accumulator `t` is the left fold
  `(… ((0 + row 0) + row 1) …) + row (k-1)`, `row j = R(slot, r₀ + j, H(p₀ + j) + 16 t + ·)`.
-/
import proofs.«219250_g10247791969013_week1_w1_750_27_alg».proof.Kernel
import proofs.«219250_g10247791969013_week1_w1_750_27_alg».proof.Proof.Gen.Kernel
import proofs.«219250_g10247791969013_week1_w1_750_27_alg».proof.Proof.KI.AccSpec
import Idealize.ShloMosaic.Lib.Exec
import Idealize.ShloMosaic.Lib.Tactic

noncomputable section

namespace Cert.Proof.KB

open Cert.Proof.KI
open Cert.Kernel

open Idealize.ShloMosaic Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## One trip, over its offset functions -/

/-- One trip of the accumulate loop: the word, the assumed side condition, four 16-lane loads and four adds. -/
def accTrip (cc : Fin τ.nSC) (ss : Fin τ.nSub) {nH nR : ℕ}
    (argH : Memref sig .scVector .vmem (SH nH) .i32) (argR : Memref sig .scVector .vmem (SR nR) .f32)
    (L : Scf.Loop 32)
    (offH : Fin L.trips → Fin 1 → ℕ) (inbH : ∀ k, ∀ a, offH k a + S16.size a ≤ (SH nH).size a)
    (offR : Fin L.trips → BitVec 32 → BitVec 32 → Fin 3 → ℕ)
    (chk : Fin L.trips → BitVec 32 → Prop) (dec : ∀ k v, Decidable (chk k v))
    (inbR : ∀ k v, chk k v → ∀ (r : Fin 4), ∀ a, offR k v (BitVec.ofNat 32 (16 * r.val)) a + S1x1x16.size a ≤ (SR nR).size a) :
    Fin L.trips → Acc4 F → Prog (TpuEff nD τ sig (Elt F) Λ₀ (.scVector cc ss)) (Acc4 F) :=
  fun k (a0, a1, a2, a3) => do
    let w : Vec F S16 .i32 ← Prog.lift (.load argH (Rect.unit (s := SH nH) (offH k) S16.size (inbH k)).toLoadRect (View.loadsAt_vmem Facts₀.h_S16))
    let v : BitVec 32 := extractAt ![0] (extractStridedSlice S1 ![0] (shapeCast S16 w Facts₀.shapeCasts_S16_S16) Facts₀.slices_S16_o0_S1) Facts₀.inpos_S1_p0
    have hw : chk k v := (← Prog.lift (TpuEff.assume (chk k v) (dec k v))).down
    let x0 : Vec F S1x1x16 .f32 ← Prog.lift (.load argR (Rect.unit (s := SR nR) (offR k v 0#32) S1x1x16.size (inbR k v hw 0)).toLoadRect (View.loadsAt_vmem Facts₀.h_S1x1x16))
    let x1 : Vec F S1x1x16 .f32 ← Prog.lift (.load argR (Rect.unit (s := SR nR) (offR k v 16#32) S1x1x16.size (inbR k v hw 1)).toLoadRect (View.loadsAt_vmem Facts₀.h_S1x1x16))
    let x2 : Vec F S1x1x16 .f32 ← Prog.lift (.load argR (Rect.unit (s := SR nR) (offR k v 32#32) S1x1x16.size (inbR k v hw 2)).toLoadRect (View.loadsAt_vmem Facts₀.h_S1x1x16))
    let x3 : Vec F S1x1x16 .f32 ← Prog.lift (.load argR (Rect.unit (s := SR nR) (offR k v 48#32) S1x1x16.size (inbR k v hw 3)).toLoadRect (View.loadsAt_vmem Facts₀.h_S1x1x16))
    pure (addf a0 (shapeCast S16 x0 Facts₀.shapeCasts_S1x1x16_S16), addf a1 (shapeCast S16 x1 Facts₀.shapeCasts_S1x1x16_S16),
          addf a2 (shapeCast S16 x2 Facts₀.shapeCasts_S1x1x16_S16), addf a3 (shapeCast S16 x3 Facts₀.shapeCasts_S1x1x16_S16))

/-! ## What a trip reads -/

/-- The lane offset a trip reads: lane 0 of the 16 words loaded from the list. -/
def tripWord {κ : Kind} {nH : ℕ} (argH : Memref sig κ .vmem (SH nH) .i32) (off : Fin 1 → ℕ)
    (inb : ∀ a, off a + S16.size a ≤ (SH nH).size a) (fH : BufTy.Contents (Elt F) argH.view.ty) : BitVec 32 :=
  extractAt ![0] (extractStridedSlice S1 ![0]
    (shapeCast S16 (argH.view.readAt (Elt F) (Rect.unit (s := SH nH) off S16.size inb).toLoadRect fH) Facts₀.shapeCasts_S16_S16)
    Facts₀.slices_S16_o0_S1) Facts₀.inpos_S1_p0

theorem tripWord_eq {κ : Kind} {nH : ℕ} [NeZero nH] (argH : Memref sig κ .vmem (SH nH) .i32) (off : Fin 1 → ℕ)
    (inb : ∀ a, off a + S16.size a ≤ (SH nH).size a) (fH : BufTy.Contents (Elt F) argH.view.ty) (p : ℕ) (hoff : off = ![p]) :
    tripWord (F := F) argH off inb fH = at1 (argH.view.read (Elt F) fH) p :=
  word_of_load (argH.view.read (Elt F) fH) off inb p hoff _ _ _

/-- The window a trip loads for lane group `t`, as the row the fold adds. -/
theorem window_eq {κ : Kind} {nH nR : ℕ} [NeZero nH] [NeZero nR] (argR : Memref sig κ .vmem (SR nR) .f32)
    (fR : BufTy.Contents (Elt F) argR.view.ty) (H : (SH nH).Idx → BitVec 32) (slot r₀ p₀ j : ℕ) (t : Fin 4)
    (v c : BitVec 32) (hc : c = BitVec.ofNat 32 (16 * t.val)) (hv : v = at1 H (p₀ + j)) (hv01 : v = 0#32 ∨ v = 64#32)
    (off : Fin 3 → ℕ) (inb : ∀ a, off a + S1x1x16.size a ≤ (SR nR).size a) (hoff : off = ![slot, r₀ + j, (v + c).toNat]) :
    shapeCast S16 (argR.view.readAt (Elt F) (Rect.unit (s := SR nR) off S1x1x16.size inb).toLoadRect fR) Facts₀.shapeCasts_S1x1x16_S16
      = accRow (F := F) (argR.view.read (Elt F) fR) H slot r₀ p₀ j t.val := by
  funext l
  refine (window_of_load (argR.view.read (Elt F) fR) off inb slot (r₀ + j) ((v + c).toNat) hoff _ l).trans ?_
  unfold accRow
  rw [hc, offset_add_toNat v hv01 t, hv]

/-! ## The invariant and the step -/

section Step

variable (Ix Name U Lvl : Type) [DecidableEq Ix] [DecidableEq Name] [RA.URA U] [Preorder Lvl]

/-- Before trip `k`: the accumulators are the fold of the trips before it; the lane-offset list is held whole and the
    gathered rows are held on a set `IR` of their elements (any shares), at contents `fH`, `fR`. -/
def AccInv (d : Dev nD) (cc : Fin τ.nSC) (ss : Fin τ.nSub) {nH nR : ℕ} [NeZero nH] [NeZero nR]
    (argH : Memref sig .scVector .vmem (SH nH) .i32) (argR : Memref sig .scVector .vmem (SR nR) .f32)
    (IR : Finset (Idx (argR.view.loc ((d, .scVector cc ss) : Thread nD τ))))
    (qH qR : PosShare TreeShare) (fH : BufTy.Contents (Elt F) argH.view.ty) (fR : BufTy.Contents (Elt F) argR.view.ty)
    (slot r₀ p₀ : ℕ) (k : ℕ) (acc : Acc4 F) : sProp (MT nD τ sig Ix (Elt F) Name U Lvl) :=
  iprop(⌜acc = accAt (argR.view.read (Elt F) fR) (argH.view.read (Elt F) fH) slot r₀ p₀ k⌝
    ∗ (argH.view.loc ((d, .scVector cc ss) : Thread nD τ) ↦[argH.view.set]{qH} fH)
    ∗ (argR.view.loc ((d, .scVector cc ss) : Thread nD τ) ↦[IR]{qR} fR))

/-- ONE TRIP preserves the invariant, given the offsets' closed forms, that the side condition is the four windows'
    range fact, that the accesses stay inside the two arrays, that the slot's rows are among the elements held, and
    that the list holds 0 or 64 at the positions read. -/
theorem accTrip_step (𝒱 : Variants) (d : Dev nD) (cc : Fin τ.nSC) (ss : Fin τ.nSub) (bd : Option 𝒱.V) (E : Set Name)
    {nH nR : ℕ} [NeZero nH] [NeZero nR]
    (argH : Memref sig .scVector .vmem (SH nH) .i32) (argR : Memref sig .scVector .vmem (SR nR) .f32)
    (L : Scf.Loop 32)
    (offH : Fin L.trips → Fin 1 → ℕ) (inbH : ∀ k, ∀ a, offH k a + S16.size a ≤ (SH nH).size a)
    (offR : Fin L.trips → BitVec 32 → BitVec 32 → Fin 3 → ℕ)
    (chk : Fin L.trips → BitVec 32 → Prop) (dec : ∀ k v, Decidable (chk k v))
    (inbR : ∀ k v, chk k v → ∀ (r : Fin 4), ∀ a, offR k v (BitVec.ofNat 32 (16 * r.val)) a + S1x1x16.size a ≤ (SR nR).size a)
    (IR : Finset (Idx (argR.view.loc ((d, .scVector cc ss) : Thread nD τ))))
    (qH qR : PosShare TreeShare) (fH : BufTy.Contents (Elt F) argH.view.ty) (fR : BufTy.Contents (Elt F) argR.view.ty)
    (slot r₀ p₀ : ℕ)
    (hoffH : ∀ k, offH k = ![p₀ + k.val])
    (hoffR : ∀ k v c, offR k v c = ![slot, r₀ + k.val, (v + c).toNat])
    (hchk : ∀ k v, (∀ (r : Fin 4), ∀ a, offR k v (BitVec.ofNat 32 (16 * r.val)) a + S1x1x16.size a ≤ (SR nR).size a) → chk k v)
    (hslot : slot < 2) (hrows : r₀ + L.trips ≤ nR)
    (hIR : ∀ x : (SR nR).Idx, (x 0).val = slot → argR.view.emb x ∈ IR)
    (hH : ∀ j, j < L.trips → at1 (argH.view.read (Elt F) fH) (p₀ + j) = 0#32 ∨ at1 (argH.view.read (Elt F) fH) (p₀ + j) = 64#32)
    (k : Fin L.trips) (acc : Acc4 F) :
    AccInv (F := F) Ix Name U Lvl d cc ss argH argR IR qH qR fH fR slot r₀ p₀ k.val acc
      ⊢ wp frame (wpE (defs₀ (F := F)) 𝒱 ((d, .scVector cc ss) : Thread nD τ) bd) E
          (accTrip (F := F) cc ss argH argR L offH inbH offR chk dec inbR k acc)
          (AccInv (F := F) Ix Name U Lvl d cc ss argH argR IR qH qR fH fR slot r₀ p₀ (k.val + 1)) := by
  obtain ⟨a0, a1, a2, a3⟩ := acc
  have hk := k.isLt
  -- the word read, 0 or 64, and the windows' range fact
  have hv0 : tripWord (F := F) argH (offH k) (inbH k) fH = at1 (argH.view.read (Elt F) fH) (p₀ + k.val) :=
    tripWord_eq argH (offH k) (inbH k) fH (p₀ + k.val) (hoffH k)
  have hv01 : tripWord (F := F) argH (offH k) (inbH k) fH = 0#32 ∨ tripWord (F := F) argH (offH k) (inbH k) fH = 64#32 := by
    rw [hv0]; exact hH k.val hk
  have hc : chk k (tripWord (F := F) argH (offH k) (inbH k) fH) :=
    hchk k _ (fun r a => by
      rw [hoffR]
      exact windows_inb slot (r₀ + k.val) _ hv01 hslot (by omega) r a)
  have hsub : ∀ (off : Fin 3 → ℕ) (inb : ∀ a, off a + S1x1x16.size a ≤ (SR nR).size a), off 0 = slot →
      argR.view.setOn (Rect.unit (s := SR nR) off S1x1x16.size inb).toLoadRect.set ⊆ IR := by
    intro off inb h0 y hy
    obtain ⟨x, hx, rfl⟩ := Finset.mem_map.mp hy
    refine hIR x ?_
    have h1 := (Rect.mem_set_unit.mp hx) 0
    have s0 : S1x1x16.size 0 = 1 := rfl
    omega
  have hz : ∀ (v c : BitVec 32), offR k v c 0 = slot := fun v c => by rw [hoffR]; rfl
  unfold AccInv
  iintro ⟨%hacc, HH, HR⟩
  unfold accTrip
  iapply (wp_load 𝒱 ((d, .scVector cc ss) : Thread nD τ) bd E (m := argH) (View.setOn_subset_set _ _)) $$ HH
  iintro HH
  iapply (wp_assume 𝒱 ((d, .scVector cc ss) : Thread nD τ) bd E hc)
  iapply (wp_load 𝒱 ((d, .scVector cc ss) : Thread nD τ) bd E (m := argR)
    (hsub (offR k (tripWord (F := F) argH (offH k) (inbH k) fH) 0#32) (inbR k _ hc 0) (hz _ _))) $$ HR
  iintro HR
  iapply (wp_load 𝒱 ((d, .scVector cc ss) : Thread nD τ) bd E (m := argR)
    (hsub (offR k (tripWord (F := F) argH (offH k) (inbH k) fH) 16#32) (inbR k _ hc 1) (hz _ _))) $$ HR
  iintro HR
  iapply (wp_load 𝒱 ((d, .scVector cc ss) : Thread nD τ) bd E (m := argR)
    (hsub (offR k (tripWord (F := F) argH (offH k) (inbH k) fH) 32#32) (inbR k _ hc 2) (hz _ _))) $$ HR
  iintro HR
  iapply (wp_load 𝒱 ((d, .scVector cc ss) : Thread nD τ) bd E (m := argR)
    (hsub (offR k (tripWord (F := F) argH (offH k) (inbH k) fH) 48#32) (inbR k _ hc 3) (hz _ _))) $$ HR
  iintro HR
  iapply (Idealize.SL.Sem.le_wp_ret _ _)
  isplitr
  · ipureintro
    have hs : accAt (F := F) (argR.view.read (Elt F) fR) (argH.view.read (Elt F) fH) slot r₀ p₀ (k.val + 1) =
      ((addf (accAt (argR.view.read (Elt F) fR) (argH.view.read (Elt F) fH) slot r₀ p₀ k.val).1 (accRow (argR.view.read (Elt F) fR) (argH.view.read (Elt F) fH) slot r₀ p₀ k.val 0)),
       (addf (accAt (argR.view.read (Elt F) fR) (argH.view.read (Elt F) fH) slot r₀ p₀ k.val).2.1 (accRow (argR.view.read (Elt F) fR) (argH.view.read (Elt F) fH) slot r₀ p₀ k.val 1)),
       (addf (accAt (argR.view.read (Elt F) fR) (argH.view.read (Elt F) fH) slot r₀ p₀ k.val).2.2.1 (accRow (argR.view.read (Elt F) fR) (argH.view.read (Elt F) fH) slot r₀ p₀ k.val 2)),
       (addf (accAt (argR.view.read (Elt F) fR) (argH.view.read (Elt F) fH) slot r₀ p₀ k.val).2.2.2 (accRow (argR.view.read (Elt F) fR) (argH.view.read (Elt F) fH) slot r₀ p₀ k.val 3))) := rfl
    rw [hs, ← hacc]
    have w0 := window_eq (F := F) argR fR (argH.view.read (Elt F) fH) slot r₀ p₀ k.val (0 : Fin 4) _ 0#32 rfl hv0 hv01 _ (inbR k _ hc 0) (hoffR k _ _)
    have w1 := window_eq (F := F) argR fR (argH.view.read (Elt F) fH) slot r₀ p₀ k.val (1 : Fin 4) _ 16#32 rfl hv0 hv01 _ (inbR k _ hc 1) (hoffR k _ _)
    have w2 := window_eq (F := F) argR fR (argH.view.read (Elt F) fH) slot r₀ p₀ k.val (2 : Fin 4) _ 32#32 rfl hv0 hv01 _ (inbR k _ hc 2) (hoffR k _ _)
    have w3 := window_eq (F := F) argR fR (argH.view.read (Elt F) fH) slot r₀ p₀ k.val (3 : Fin 4) _ 48#32 rfl hv0 hv01 _ (inbR k _ hc 3) (hoffR k _ _)
    exact Prod.ext (congrArg (addf a0) w0) (Prod.ext (congrArg (addf a1) w1) (Prod.ext (congrArg (addf a2) w2) (congrArg (addf a3) w3)))
  isplitl [HH]
  · iexact HH
  · iexact HR

end Step

end Cert.Proof.KB

end
-- ==== Proof.KB.Accum.lean ====
/-
  The accumulate loops of the embedding-sum kernel over 16 features per batch row: each of the sixteen loops (two
  slots of gathered rows, eight batch rows per slot) has as its trip the accumulate trip at that loop's offsets — the
  lane-offset list read at `256·chunk-pair + 16·(8·slot + row) + k`, the gathered rows at `(slot, 16·row + k, ·)` —
  so one trip takes the left-fold invariant at `k` to the invariant at `k + 1`.
-/
import proofs.«219250_g10247791969013_week1_w1_750_27_alg».proof.Proof.Gen.Kernel.Skeleton
import proofs.«219250_g10247791969013_week1_w1_750_27_alg».proof.Proof.KB.AccumStep

set_option maxRecDepth 65536

noncomputable section

namespace Cert.Proof.KB

open Cert.Proof.KI
open Cert.Kernel Cert.Kernel.Gen

open Idealize.ShloMosaic Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### Loop 3: slot 0, batch row 0 of the chunk -/

/-- The loop's trip is the accumulate trip at its offset functions. -/
theorem k2_t3_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k2_t2 : Fin k2_t2_loop.trips) :
    k2_t3_body (F := F) i arg2 harg2 arg3 harg3 arg4 harg4 arg5 harg5 arg6 harg6 arg7 harg7 arg8 harg8 arg9 arg10 v14_r0 v14_r1 c0_i32_15 c1_i32_16 k2_t2
      = accTrip (F := F) ((i 0).castLE hcore2) ((i 1).castLE hsub2) arg6 arg7 k2_t3_loop (k2_off5 k2_t2) (Facts₀.k2_off5_inb k2_t2)
          k2_off6 k2_chk1 k2_chk1.dec Cert.Kernel.k2_off6_inb := rfl

/-- The rows' offsets in closed form: slot 0, row `0 + k`, lane `v + c`. -/
theorem k2_off6_closed (k : Fin k2_t3_loop.trips) (v c : BitVec 32) :
    k2_off6 k v c = ![0, 0 + k.val, (v + c).toNat] := by
  have hm : ∀ k : Fin k2_t3_loop.trips, (k2_off6 k 0#32 0#32) 1 = 0 + k.val := by decide +kernel
  funext a
  match a with
  | ⟨0, _⟩ => rfl
  | ⟨1, _⟩ => exact hm k
  | ⟨2, _⟩ => rfl

/-- One trip of loop 3 preserves the left-fold invariant. -/
theorem accum_k2_t3 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k2_t2 : Fin k2_t2_loop.trips)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t3_loop.trips → at1 (arg6.view.read (Elt F) fH) (256 * k2_t2.val + 0 + j) = 0#32 ∨ at1 (arg6.view.read (Elt F) fH) (256 * k2_t2.val + 0 + j) = 64#32)
    (k : Fin k2_t3_loop.trips) (acc : Acc4 F) :
    AccInv (F := F) Ix Name U Lvl d ((i 0).castLE hcore2) ((i 1).castLE hsub2) arg6 arg7 IR qH qR fH fR 0 0 (256 * k2_t2.val + 0) k.val acc
      ⊢ wp frame (wpE (defs₀ (F := F)) 𝒱 ((d, .scVector ((i 0).castLE hcore2) ((i 1).castLE hsub2)) : Thread nD τ) bd) E
          (k2_t3_body (F := F) i arg2 harg2 arg3 harg3 arg4 harg4 arg5 harg5 arg6 harg6 arg7 harg7 arg8 harg8 arg9 arg10 v14_r0 v14_r1 c0_i32_15 c1_i32_16 k2_t2 k acc)
          (AccInv (F := F) Ix Name U Lvl d ((i 0).castLE hcore2) ((i 1).castLE hsub2) arg6 arg7 IR qH qR fH fR 0 0 (256 * k2_t2.val + 0) (k.val + 1)) := by
  rw [k2_t3_body_eq]
  exact accTrip_step (F := F) Ix Name U Lvl 𝒱 d _ _ bd E arg6 arg7 k2_t3_loop _ _ _ _ _ _ IR qH qR fH fR 0 0 (256 * k2_t2.val + 0)
    (fun k => (k2_off5_eq k2_t2 k).trans (by first | rfl | (congr 1; omega))) k2_off6_closed (fun _ _ h => h)
    (by decide) (by decide) hIR hH k acc

/-! ### Loop 4: slot 0, batch row 1 of the chunk -/

/-- The loop's trip is the accumulate trip at its offset functions. -/
theorem k2_t4_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v44 : FVec F S16 .f32) (cst_33 : F .f32) :
    k2_t4_body (F := F) i arg2 harg2 arg3 harg3 arg4 harg4 arg5 harg5 arg6 harg6 arg7 harg7 arg8 harg8 arg9 arg10 v14_r0 v14_r1 k2_t2 v14 v44 cst_33
      = accTrip (F := F) ((i 0).castLE hcore2) ((i 1).castLE hsub2) arg6 arg7 k2_t4_loop (k2_off11 k2_t2) (Facts₀.k2_off11_inb k2_t2)
          k2_off12 k2_chk2 k2_chk2.dec Cert.Kernel.k2_off12_inb := rfl

/-- The rows' offsets in closed form: slot 0, row `16 + k`, lane `v + c`. -/
theorem k2_off12_closed (k : Fin k2_t4_loop.trips) (v c : BitVec 32) :
    k2_off12 k v c = ![0, 16 + k.val, (v + c).toNat] := by
  have hm : ∀ k : Fin k2_t4_loop.trips, (k2_off12 k 0#32 0#32) 1 = 16 + k.val := by decide +kernel
  funext a
  match a with
  | ⟨0, _⟩ => rfl
  | ⟨1, _⟩ => exact hm k
  | ⟨2, _⟩ => rfl

/-- One trip of loop 4 preserves the left-fold invariant. -/
theorem accum_k2_t4 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v44 : FVec F S16 .f32) (cst_33 : F .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t4_loop.trips → at1 (arg6.view.read (Elt F) fH) (256 * k2_t2.val + 16 + j) = 0#32 ∨ at1 (arg6.view.read (Elt F) fH) (256 * k2_t2.val + 16 + j) = 64#32)
    (k : Fin k2_t4_loop.trips) (acc : Acc4 F) :
    AccInv (F := F) Ix Name U Lvl d ((i 0).castLE hcore2) ((i 1).castLE hsub2) arg6 arg7 IR qH qR fH fR 0 16 (256 * k2_t2.val + 16) k.val acc
      ⊢ wp frame (wpE (defs₀ (F := F)) 𝒱 ((d, .scVector ((i 0).castLE hcore2) ((i 1).castLE hsub2)) : Thread nD τ) bd) E
          (k2_t4_body (F := F) i arg2 harg2 arg3 harg3 arg4 harg4 arg5 harg5 arg6 harg6 arg7 harg7 arg8 harg8 arg9 arg10 v14_r0 v14_r1 k2_t2 v14 v44 cst_33 k acc)
          (AccInv (F := F) Ix Name U Lvl d ((i 0).castLE hcore2) ((i 1).castLE hsub2) arg6 arg7 IR qH qR fH fR 0 16 (256 * k2_t2.val + 16) (k.val + 1)) := by
  rw [k2_t4_body_eq]
  exact accTrip_step (F := F) Ix Name U Lvl 𝒱 d _ _ bd E arg6 arg7 k2_t4_loop _ _ _ _ _ _ IR qH qR fH fR 0 16 (256 * k2_t2.val + 16)
    (fun k => (k2_off11_eq k2_t2 k).trans (by first | rfl | (congr 1; omega))) k2_off12_closed (fun _ _ h => h)
    (by decide) (by decide) hIR hH k acc

/-! ### Loop 5: slot 0, batch row 2 of the chunk -/

/-- The loop's trip is the accumulate trip at its offset functions. -/
theorem k2_t5_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v44 : FVec F S16 .f32) (cst_33 : F .f32) :
    k2_t5_body (F := F) i arg2 harg2 arg3 harg3 arg4 harg4 arg5 harg5 arg6 harg6 arg7 harg7 arg8 harg8 arg9 arg10 v14_r0 v14_r1 k2_t2 v14 v44 cst_33
      = accTrip (F := F) ((i 0).castLE hcore2) ((i 1).castLE hsub2) arg6 arg7 k2_t5_loop (k2_off17 k2_t2) (Facts₀.k2_off17_inb k2_t2)
          k2_off18 k2_chk3 k2_chk3.dec Cert.Kernel.k2_off18_inb := rfl

/-- The rows' offsets in closed form: slot 0, row `32 + k`, lane `v + c`. -/
theorem k2_off18_closed (k : Fin k2_t5_loop.trips) (v c : BitVec 32) :
    k2_off18 k v c = ![0, 32 + k.val, (v + c).toNat] := by
  have hm : ∀ k : Fin k2_t5_loop.trips, (k2_off18 k 0#32 0#32) 1 = 32 + k.val := by decide +kernel
  funext a
  match a with
  | ⟨0, _⟩ => rfl
  | ⟨1, _⟩ => exact hm k
  | ⟨2, _⟩ => rfl

/-- One trip of loop 5 preserves the left-fold invariant. -/
theorem accum_k2_t5 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v44 : FVec F S16 .f32) (cst_33 : F .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t5_loop.trips → at1 (arg6.view.read (Elt F) fH) (256 * k2_t2.val + 32 + j) = 0#32 ∨ at1 (arg6.view.read (Elt F) fH) (256 * k2_t2.val + 32 + j) = 64#32)
    (k : Fin k2_t5_loop.trips) (acc : Acc4 F) :
    AccInv (F := F) Ix Name U Lvl d ((i 0).castLE hcore2) ((i 1).castLE hsub2) arg6 arg7 IR qH qR fH fR 0 32 (256 * k2_t2.val + 32) k.val acc
      ⊢ wp frame (wpE (defs₀ (F := F)) 𝒱 ((d, .scVector ((i 0).castLE hcore2) ((i 1).castLE hsub2)) : Thread nD τ) bd) E
          (k2_t5_body (F := F) i arg2 harg2 arg3 harg3 arg4 harg4 arg5 harg5 arg6 harg6 arg7 harg7 arg8 harg8 arg9 arg10 v14_r0 v14_r1 k2_t2 v14 v44 cst_33 k acc)
          (AccInv (F := F) Ix Name U Lvl d ((i 0).castLE hcore2) ((i 1).castLE hsub2) arg6 arg7 IR qH qR fH fR 0 32 (256 * k2_t2.val + 32) (k.val + 1)) := by
  rw [k2_t5_body_eq]
  exact accTrip_step (F := F) Ix Name U Lvl 𝒱 d _ _ bd E arg6 arg7 k2_t5_loop _ _ _ _ _ _ IR qH qR fH fR 0 32 (256 * k2_t2.val + 32)
    (fun k => (k2_off17_eq k2_t2 k).trans (by first | rfl | (congr 1; omega))) k2_off18_closed (fun _ _ h => h)
    (by decide) (by decide) hIR hH k acc

/-! ### Loop 6: slot 0, batch row 3 of the chunk -/

/-- The loop's trip is the accumulate trip at its offset functions. -/
theorem k2_t6_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v73_0 : FVec F S16 .f32) (v73_1 : FVec F S16 .f32) (v73_2 : FVec F S16 .f32) (v73_3 : FVec F S16 .f32) (v75 : BitVec 32) (v77 : Vec F S1x16 .f32) :
    k2_t6_body (F := F) i arg2 harg2 arg3 harg3 arg4 harg4 arg5 harg5 arg6 harg6 arg7 harg7 arg8 harg8 arg9 arg10 v14_r0 v14_r1 k2_t2 v14 v73_0 v73_1 v73_2 v73_3 v75 v77
      = accTrip (F := F) ((i 0).castLE hcore2) ((i 1).castLE hsub2) arg6 arg7 k2_t6_loop (k2_off19 k2_t2) (Facts₀.k2_off19_inb k2_t2)
          k2_off20 k2_chk4 k2_chk4.dec Cert.Kernel.k2_off20_inb := rfl

/-- The rows' offsets in closed form: slot 0, row `48 + k`, lane `v + c`. -/
theorem k2_off20_closed (k : Fin k2_t6_loop.trips) (v c : BitVec 32) :
    k2_off20 k v c = ![0, 48 + k.val, (v + c).toNat] := by
  have hm : ∀ k : Fin k2_t6_loop.trips, (k2_off20 k 0#32 0#32) 1 = 48 + k.val := by decide +kernel
  funext a
  match a with
  | ⟨0, _⟩ => rfl
  | ⟨1, _⟩ => exact hm k
  | ⟨2, _⟩ => rfl

/-- One trip of loop 6 preserves the left-fold invariant. -/
theorem accum_k2_t6 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v73_0 : FVec F S16 .f32) (v73_1 : FVec F S16 .f32) (v73_2 : FVec F S16 .f32) (v73_3 : FVec F S16 .f32) (v75 : BitVec 32) (v77 : Vec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t6_loop.trips → at1 (arg6.view.read (Elt F) fH) (256 * k2_t2.val + 48 + j) = 0#32 ∨ at1 (arg6.view.read (Elt F) fH) (256 * k2_t2.val + 48 + j) = 64#32)
    (k : Fin k2_t6_loop.trips) (acc : Acc4 F) :
    AccInv (F := F) Ix Name U Lvl d ((i 0).castLE hcore2) ((i 1).castLE hsub2) arg6 arg7 IR qH qR fH fR 0 48 (256 * k2_t2.val + 48) k.val acc
      ⊢ wp frame (wpE (defs₀ (F := F)) 𝒱 ((d, .scVector ((i 0).castLE hcore2) ((i 1).castLE hsub2)) : Thread nD τ) bd) E
          (k2_t6_body (F := F) i arg2 harg2 arg3 harg3 arg4 harg4 arg5 harg5 arg6 harg6 arg7 harg7 arg8 harg8 arg9 arg10 v14_r0 v14_r1 k2_t2 v14 v73_0 v73_1 v73_2 v73_3 v75 v77 k acc)
          (AccInv (F := F) Ix Name U Lvl d ((i 0).castLE hcore2) ((i 1).castLE hsub2) arg6 arg7 IR qH qR fH fR 0 48 (256 * k2_t2.val + 48) (k.val + 1)) := by
  rw [k2_t6_body_eq]
  exact accTrip_step (F := F) Ix Name U Lvl 𝒱 d _ _ bd E arg6 arg7 k2_t6_loop _ _ _ _ _ _ IR qH qR fH fR 0 48 (256 * k2_t2.val + 48)
    (fun k => (k2_off19_eq k2_t2 k).trans (by first | rfl | (congr 1; omega))) k2_off20_closed (fun _ _ h => h)
    (by decide) (by decide) hIR hH k acc

/-! ### Loop 7: slot 0, batch row 4 of the chunk -/

/-- The loop's trip is the accumulate trip at its offset functions. -/
theorem k2_t7_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v97_3 : FVec F S16 .f32) (v113 : Vec F S1x16 .f32) :
    k2_t7_body (F := F) i arg2 harg2 arg3 harg3 arg4 harg4 arg5 harg5 arg6 harg6 arg7 harg7 arg8 harg8 arg9 arg10 v14_r0 v14_r1 k2_t2 v14 v97_3 v113
      = accTrip (F := F) ((i 0).castLE hcore2) ((i 1).castLE hsub2) arg6 arg7 k2_t7_loop (k2_off21 k2_t2) (Facts₀.k2_off21_inb k2_t2)
          k2_off22 k2_chk5 k2_chk5.dec Cert.Kernel.k2_off22_inb := rfl

/-- The rows' offsets in closed form: slot 0, row `64 + k`, lane `v + c`. -/
theorem k2_off22_closed (k : Fin k2_t7_loop.trips) (v c : BitVec 32) :
    k2_off22 k v c = ![0, 64 + k.val, (v + c).toNat] := by
  have hm : ∀ k : Fin k2_t7_loop.trips, (k2_off22 k 0#32 0#32) 1 = 64 + k.val := by decide +kernel
  funext a
  match a with
  | ⟨0, _⟩ => rfl
  | ⟨1, _⟩ => exact hm k
  | ⟨2, _⟩ => rfl

/-- One trip of loop 7 preserves the left-fold invariant. -/
theorem accum_k2_t7 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v97_3 : FVec F S16 .f32) (v113 : Vec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t7_loop.trips → at1 (arg6.view.read (Elt F) fH) (256 * k2_t2.val + 64 + j) = 0#32 ∨ at1 (arg6.view.read (Elt F) fH) (256 * k2_t2.val + 64 + j) = 64#32)
    (k : Fin k2_t7_loop.trips) (acc : Acc4 F) :
    AccInv (F := F) Ix Name U Lvl d ((i 0).castLE hcore2) ((i 1).castLE hsub2) arg6 arg7 IR qH qR fH fR 0 64 (256 * k2_t2.val + 64) k.val acc
      ⊢ wp frame (wpE (defs₀ (F := F)) 𝒱 ((d, .scVector ((i 0).castLE hcore2) ((i 1).castLE hsub2)) : Thread nD τ) bd) E
          (k2_t7_body (F := F) i arg2 harg2 arg3 harg3 arg4 harg4 arg5 harg5 arg6 harg6 arg7 harg7 arg8 harg8 arg9 arg10 v14_r0 v14_r1 k2_t2 v14 v97_3 v113 k acc)
          (AccInv (F := F) Ix Name U Lvl d ((i 0).castLE hcore2) ((i 1).castLE hsub2) arg6 arg7 IR qH qR fH fR 0 64 (256 * k2_t2.val + 64) (k.val + 1)) := by
  rw [k2_t7_body_eq]
  exact accTrip_step (F := F) Ix Name U Lvl 𝒱 d _ _ bd E arg6 arg7 k2_t7_loop _ _ _ _ _ _ IR qH qR fH fR 0 64 (256 * k2_t2.val + 64)
    (fun k => (k2_off21_eq k2_t2 k).trans (by first | rfl | (congr 1; omega))) k2_off22_closed (fun _ _ h => h)
    (by decide) (by decide) hIR hH k acc

/-! ### Loop 8: slot 0, batch row 5 of the chunk -/

/-- The loop's trip is the accumulate trip at its offset functions. -/
theorem k2_t8_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v97_3 : FVec F S16 .f32) (v113 : Vec F S1x16 .f32) :
    k2_t8_body (F := F) i arg2 harg2 arg3 harg3 arg4 harg4 arg5 harg5 arg6 harg6 arg7 harg7 arg8 harg8 arg9 arg10 v14_r0 v14_r1 k2_t2 v14 v97_3 v113
      = accTrip (F := F) ((i 0).castLE hcore2) ((i 1).castLE hsub2) arg6 arg7 k2_t8_loop (k2_off23 k2_t2) (Facts₀.k2_off23_inb k2_t2)
          k2_off24 k2_chk6 k2_chk6.dec Cert.Kernel.k2_off24_inb := rfl

/-- The rows' offsets in closed form: slot 0, row `80 + k`, lane `v + c`. -/
theorem k2_off24_closed (k : Fin k2_t8_loop.trips) (v c : BitVec 32) :
    k2_off24 k v c = ![0, 80 + k.val, (v + c).toNat] := by
  have hm : ∀ k : Fin k2_t8_loop.trips, (k2_off24 k 0#32 0#32) 1 = 80 + k.val := by decide +kernel
  funext a
  match a with
  | ⟨0, _⟩ => rfl
  | ⟨1, _⟩ => exact hm k
  | ⟨2, _⟩ => rfl

/-- One trip of loop 8 preserves the left-fold invariant. -/
theorem accum_k2_t8 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v97_3 : FVec F S16 .f32) (v113 : Vec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t8_loop.trips → at1 (arg6.view.read (Elt F) fH) (256 * k2_t2.val + 80 + j) = 0#32 ∨ at1 (arg6.view.read (Elt F) fH) (256 * k2_t2.val + 80 + j) = 64#32)
    (k : Fin k2_t8_loop.trips) (acc : Acc4 F) :
    AccInv (F := F) Ix Name U Lvl d ((i 0).castLE hcore2) ((i 1).castLE hsub2) arg6 arg7 IR qH qR fH fR 0 80 (256 * k2_t2.val + 80) k.val acc
      ⊢ wp frame (wpE (defs₀ (F := F)) 𝒱 ((d, .scVector ((i 0).castLE hcore2) ((i 1).castLE hsub2)) : Thread nD τ) bd) E
          (k2_t8_body (F := F) i arg2 harg2 arg3 harg3 arg4 harg4 arg5 harg5 arg6 harg6 arg7 harg7 arg8 harg8 arg9 arg10 v14_r0 v14_r1 k2_t2 v14 v97_3 v113 k acc)
          (AccInv (F := F) Ix Name U Lvl d ((i 0).castLE hcore2) ((i 1).castLE hsub2) arg6 arg7 IR qH qR fH fR 0 80 (256 * k2_t2.val + 80) (k.val + 1)) := by
  rw [k2_t8_body_eq]
  exact accTrip_step (F := F) Ix Name U Lvl 𝒱 d _ _ bd E arg6 arg7 k2_t8_loop _ _ _ _ _ _ IR qH qR fH fR 0 80 (256 * k2_t2.val + 80)
    (fun k => (k2_off23_eq k2_t2 k).trans (by first | rfl | (congr 1; omega))) k2_off24_closed (fun _ _ h => h)
    (by decide) (by decide) hIR hH k acc

/-! ### Loop 9: slot 0, batch row 6 of the chunk -/

/-- The loop's trip is the accumulate trip at its offset functions. -/
theorem k2_t9_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v145_0 : FVec F S16 .f32) (v145_1 : FVec F S16 .f32) (v145_2 : FVec F S16 .f32) (v145_3 : FVec F S16 .f32) (c4_i32_92 : BitVec 32) :
    k2_t9_body (F := F) i arg2 harg2 arg3 harg3 arg4 harg4 arg5 harg5 arg6 harg6 arg7 harg7 arg8 harg8 arg9 arg10 v14_r0 v14_r1 k2_t2 v14 v145_0 v145_1 v145_2 v145_3 c4_i32_92
      = accTrip (F := F) ((i 0).castLE hcore2) ((i 1).castLE hsub2) arg6 arg7 k2_t9_loop (k2_off25 k2_t2) (Facts₀.k2_off25_inb k2_t2)
          k2_off26 k2_chk7 k2_chk7.dec Cert.Kernel.k2_off26_inb := rfl

/-- The rows' offsets in closed form: slot 0, row `96 + k`, lane `v + c`. -/
theorem k2_off26_closed (k : Fin k2_t9_loop.trips) (v c : BitVec 32) :
    k2_off26 k v c = ![0, 96 + k.val, (v + c).toNat] := by
  have hm : ∀ k : Fin k2_t9_loop.trips, (k2_off26 k 0#32 0#32) 1 = 96 + k.val := by decide +kernel
  funext a
  match a with
  | ⟨0, _⟩ => rfl
  | ⟨1, _⟩ => exact hm k
  | ⟨2, _⟩ => rfl

/-- One trip of loop 9 preserves the left-fold invariant. -/
theorem accum_k2_t9 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v145_0 : FVec F S16 .f32) (v145_1 : FVec F S16 .f32) (v145_2 : FVec F S16 .f32) (v145_3 : FVec F S16 .f32) (c4_i32_92 : BitVec 32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t9_loop.trips → at1 (arg6.view.read (Elt F) fH) (256 * k2_t2.val + 96 + j) = 0#32 ∨ at1 (arg6.view.read (Elt F) fH) (256 * k2_t2.val + 96 + j) = 64#32)
    (k : Fin k2_t9_loop.trips) (acc : Acc4 F) :
    AccInv (F := F) Ix Name U Lvl d ((i 0).castLE hcore2) ((i 1).castLE hsub2) arg6 arg7 IR qH qR fH fR 0 96 (256 * k2_t2.val + 96) k.val acc
      ⊢ wp frame (wpE (defs₀ (F := F)) 𝒱 ((d, .scVector ((i 0).castLE hcore2) ((i 1).castLE hsub2)) : Thread nD τ) bd) E
          (k2_t9_body (F := F) i arg2 harg2 arg3 harg3 arg4 harg4 arg5 harg5 arg6 harg6 arg7 harg7 arg8 harg8 arg9 arg10 v14_r0 v14_r1 k2_t2 v14 v145_0 v145_1 v145_2 v145_3 c4_i32_92 k acc)
          (AccInv (F := F) Ix Name U Lvl d ((i 0).castLE hcore2) ((i 1).castLE hsub2) arg6 arg7 IR qH qR fH fR 0 96 (256 * k2_t2.val + 96) (k.val + 1)) := by
  rw [k2_t9_body_eq]
  exact accTrip_step (F := F) Ix Name U Lvl 𝒱 d _ _ bd E arg6 arg7 k2_t9_loop _ _ _ _ _ _ IR qH qR fH fR 0 96 (256 * k2_t2.val + 96)
    (fun k => (k2_off25_eq k2_t2 k).trans (by first | rfl | (congr 1; omega))) k2_off26_closed (fun _ _ h => h)
    (by decide) (by decide) hIR hH k acc

/-! ### Loop 10: slot 0, batch row 7 of the chunk -/

/-- The loop's trip is the accumulate trip at its offset functions. -/
theorem k2_t10_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v169_2 : FVec F S16 .f32) (v169_3 : FVec F S16 .f32) (v171 : BitVec 32) (v181 : Vec F S1x16 .f32) :
    k2_t10_body (F := F) i arg2 harg2 arg3 harg3 arg4 harg4 arg5 harg5 arg6 harg6 arg7 harg7 arg8 harg8 arg9 arg10 v14_r0 v14_r1 k2_t2 v14 v169_2 v169_3 v171 v181
      = accTrip (F := F) ((i 0).castLE hcore2) ((i 1).castLE hsub2) arg6 arg7 k2_t10_loop (k2_off27 k2_t2) (Facts₀.k2_off27_inb k2_t2)
          k2_off28 k2_chk8 k2_chk8.dec Cert.Kernel.k2_off28_inb := rfl

/-- The rows' offsets in closed form: slot 0, row `112 + k`, lane `v + c`. -/
theorem k2_off28_closed (k : Fin k2_t10_loop.trips) (v c : BitVec 32) :
    k2_off28 k v c = ![0, 112 + k.val, (v + c).toNat] := by
  have hm : ∀ k : Fin k2_t10_loop.trips, (k2_off28 k 0#32 0#32) 1 = 112 + k.val := by decide +kernel
  funext a
  match a with
  | ⟨0, _⟩ => rfl
  | ⟨1, _⟩ => exact hm k
  | ⟨2, _⟩ => rfl

/-- One trip of loop 10 preserves the left-fold invariant. -/
theorem accum_k2_t10 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (v169_2 : FVec F S16 .f32) (v169_3 : FVec F S16 .f32) (v171 : BitVec 32) (v181 : Vec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 0 → arg7.view.emb x ∈ IR)
    (hH : ∀ j, j < k2_t10_loop.trips → at1 (arg6.view.read (Elt F) fH) (256 * k2_t2.val + 112 + j) = 0#32 ∨ at1 (arg6.view.read (Elt F) fH) (256 * k2_t2.val + 112 + j) = 64#32)
    (k : Fin k2_t10_loop.trips) (acc : Acc4 F) :
    AccInv (F := F) Ix Name U Lvl d ((i 0).castLE hcore2) ((i 1).castLE hsub2) arg6 arg7 IR qH qR fH fR 0 112 (256 * k2_t2.val + 112) k.val acc
      ⊢ wp frame (wpE (defs₀ (F := F)) 𝒱 ((d, .scVector ((i 0).castLE hcore2) ((i 1).castLE hsub2)) : Thread nD τ) bd) E
          (k2_t10_body (F := F) i arg2 harg2 arg3 harg3 arg4 harg4 arg5 harg5 arg6 harg6 arg7 harg7 arg8 harg8 arg9 arg10 v14_r0 v14_r1 k2_t2 v14 v169_2 v169_3 v171 v181 k acc)
          (AccInv (F := F) Ix Name U Lvl d ((i 0).castLE hcore2) ((i 1).castLE hsub2) arg6 arg7 IR qH qR fH fR 0 112 (256 * k2_t2.val + 112) (k.val + 1)) := by
  rw [k2_t10_body_eq]
  exact accTrip_step (F := F) Ix Name U Lvl 𝒱 d _ _ bd E arg6 arg7 k2_t10_loop _ _ _ _ _ _ IR qH qR fH fR 0 112 (256 * k2_t2.val + 112)
    (fun k => (k2_off27_eq k2_t2 k).trans (by first | rfl | (congr 1; omega))) k2_off28_closed (fun _ _ h => h)
    (by decide) (by decide) hIR hH k acc

/-! ### Loop 11: slot 1, batch row 0 of the chunk -/

/-- The loop's trip is the accumulate trip at its offset functions. -/
theorem k2_t11_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (c1_i32_128 : BitVec 32) :
    k2_t11_body (F := F) i arg2 harg2 arg3 harg3 arg4 harg4 arg5 harg5 arg6 harg6 arg7 harg7 arg8 harg8 arg9 arg10 v14_r0 v14_r1 k2_t2 v14 c1_i32_128
      = accTrip (F := F) ((i 0).castLE hcore2) ((i 1).castLE hsub2) arg6 arg7 k2_t11_loop (k2_off31 k2_t2) (Facts₀.k2_off31_inb k2_t2)
          k2_off32 k2_chk9 k2_chk9.dec Cert.Kernel.k2_off32_inb := rfl

/-- The rows' offsets in closed form: slot 1, row `0 + k`, lane `v + c`. -/
theorem k2_off32_closed (k : Fin k2_t11_loop.trips) (v c : BitVec 32) :
    k2_off32 k v c = ![1, 0 + k.val, (v + c).toNat] := by
  have hm : ∀ k : Fin k2_t11_loop.trips, (k2_off32 k 0#32 0#32) 1 = 0 + k.val := by decide +kernel
  funext a
  match a with
  | ⟨0, _⟩ => rfl
  | ⟨1, _⟩ => exact hm k
  | ⟨2, _⟩ => rfl

/-- One trip of loop 11 preserves the left-fold invariant. -/
theorem accum_k2_t11 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v14 : BitVec 32) (c1_i32_128 : BitVec 32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t11_loop.trips → at1 (arg6.view.read (Elt F) fH) (256 * k2_t2.val + 128 + j) = 0#32 ∨ at1 (arg6.view.read (Elt F) fH) (256 * k2_t2.val + 128 + j) = 64#32)
    (k : Fin k2_t11_loop.trips) (acc : Acc4 F) :
    AccInv (F := F) Ix Name U Lvl d ((i 0).castLE hcore2) ((i 1).castLE hsub2) arg6 arg7 IR qH qR fH fR 1 0 (256 * k2_t2.val + 128) k.val acc
      ⊢ wp frame (wpE (defs₀ (F := F)) 𝒱 ((d, .scVector ((i 0).castLE hcore2) ((i 1).castLE hsub2)) : Thread nD τ) bd) E
          (k2_t11_body (F := F) i arg2 harg2 arg3 harg3 arg4 harg4 arg5 harg5 arg6 harg6 arg7 harg7 arg8 harg8 arg9 arg10 v14_r0 v14_r1 k2_t2 v14 c1_i32_128 k acc)
          (AccInv (F := F) Ix Name U Lvl d ((i 0).castLE hcore2) ((i 1).castLE hsub2) arg6 arg7 IR qH qR fH fR 1 0 (256 * k2_t2.val + 128) (k.val + 1)) := by
  rw [k2_t11_body_eq]
  exact accTrip_step (F := F) Ix Name U Lvl 𝒱 d _ _ bd E arg6 arg7 k2_t11_loop _ _ _ _ _ _ IR qH qR fH fR 1 0 (256 * k2_t2.val + 128)
    (fun k => (k2_off31_eq k2_t2 k).trans (by first | rfl | (congr 1; omega))) k2_off32_closed (fun _ _ h => h)
    (by decide) (by decide) hIR hH k acc

/-! ### Loop 12: slot 1, batch row 1 of the chunk -/

/-- The loop's trip is the accumulate trip at its offset functions. -/
theorem k2_t12_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v246 : FVec F S16 .f32) (v247 : FVec F S16 .f32) (cst_151 : F .f32) :
    k2_t12_body (F := F) i arg2 harg2 arg3 harg3 arg4 harg4 arg5 harg5 arg6 harg6 arg7 harg7 arg8 harg8 arg9 arg10 v14_r0 v14_r1 k2_t2 v216 v246 v247 cst_151
      = accTrip (F := F) ((i 0).castLE hcore2) ((i 1).castLE hsub2) arg6 arg7 k2_t12_loop (k2_off37 k2_t2) (Facts₀.k2_off37_inb k2_t2)
          k2_off38 k2_chk10 k2_chk10.dec Cert.Kernel.k2_off38_inb := rfl

/-- The rows' offsets in closed form: slot 1, row `16 + k`, lane `v + c`. -/
theorem k2_off38_closed (k : Fin k2_t12_loop.trips) (v c : BitVec 32) :
    k2_off38 k v c = ![1, 16 + k.val, (v + c).toNat] := by
  have hm : ∀ k : Fin k2_t12_loop.trips, (k2_off38 k 0#32 0#32) 1 = 16 + k.val := by decide +kernel
  funext a
  match a with
  | ⟨0, _⟩ => rfl
  | ⟨1, _⟩ => exact hm k
  | ⟨2, _⟩ => rfl

/-- One trip of loop 12 preserves the left-fold invariant. -/
theorem accum_k2_t12 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v246 : FVec F S16 .f32) (v247 : FVec F S16 .f32) (cst_151 : F .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t12_loop.trips → at1 (arg6.view.read (Elt F) fH) (256 * k2_t2.val + 144 + j) = 0#32 ∨ at1 (arg6.view.read (Elt F) fH) (256 * k2_t2.val + 144 + j) = 64#32)
    (k : Fin k2_t12_loop.trips) (acc : Acc4 F) :
    AccInv (F := F) Ix Name U Lvl d ((i 0).castLE hcore2) ((i 1).castLE hsub2) arg6 arg7 IR qH qR fH fR 1 16 (256 * k2_t2.val + 144) k.val acc
      ⊢ wp frame (wpE (defs₀ (F := F)) 𝒱 ((d, .scVector ((i 0).castLE hcore2) ((i 1).castLE hsub2)) : Thread nD τ) bd) E
          (k2_t12_body (F := F) i arg2 harg2 arg3 harg3 arg4 harg4 arg5 harg5 arg6 harg6 arg7 harg7 arg8 harg8 arg9 arg10 v14_r0 v14_r1 k2_t2 v216 v246 v247 cst_151 k acc)
          (AccInv (F := F) Ix Name U Lvl d ((i 0).castLE hcore2) ((i 1).castLE hsub2) arg6 arg7 IR qH qR fH fR 1 16 (256 * k2_t2.val + 144) (k.val + 1)) := by
  rw [k2_t12_body_eq]
  exact accTrip_step (F := F) Ix Name U Lvl 𝒱 d _ _ bd E arg6 arg7 k2_t12_loop _ _ _ _ _ _ IR qH qR fH fR 1 16 (256 * k2_t2.val + 144)
    (fun k => (k2_off37_eq k2_t2 k).trans (by first | rfl | (congr 1; omega))) k2_off38_closed (fun _ _ h => h)
    (by decide) (by decide) hIR hH k acc

/-! ### Loop 13: slot 1, batch row 2 of the chunk -/

/-- The loop's trip is the accumulate trip at its offset functions. -/
theorem k2_t13_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v246 : FVec F S16 .f32) (v247 : FVec F S16 .f32) (cst_151 : F .f32) :
    k2_t13_body (F := F) i arg2 harg2 arg3 harg3 arg4 harg4 arg5 harg5 arg6 harg6 arg7 harg7 arg8 harg8 arg9 arg10 v14_r0 v14_r1 k2_t2 v216 v246 v247 cst_151
      = accTrip (F := F) ((i 0).castLE hcore2) ((i 1).castLE hsub2) arg6 arg7 k2_t13_loop (k2_off43 k2_t2) (Facts₀.k2_off43_inb k2_t2)
          k2_off44 k2_chk11 k2_chk11.dec Cert.Kernel.k2_off44_inb := rfl

/-- The rows' offsets in closed form: slot 1, row `32 + k`, lane `v + c`. -/
theorem k2_off44_closed (k : Fin k2_t13_loop.trips) (v c : BitVec 32) :
    k2_off44 k v c = ![1, 32 + k.val, (v + c).toNat] := by
  have hm : ∀ k : Fin k2_t13_loop.trips, (k2_off44 k 0#32 0#32) 1 = 32 + k.val := by decide +kernel
  funext a
  match a with
  | ⟨0, _⟩ => rfl
  | ⟨1, _⟩ => exact hm k
  | ⟨2, _⟩ => rfl

/-- One trip of loop 13 preserves the left-fold invariant. -/
theorem accum_k2_t13 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v246 : FVec F S16 .f32) (v247 : FVec F S16 .f32) (cst_151 : F .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t13_loop.trips → at1 (arg6.view.read (Elt F) fH) (256 * k2_t2.val + 160 + j) = 0#32 ∨ at1 (arg6.view.read (Elt F) fH) (256 * k2_t2.val + 160 + j) = 64#32)
    (k : Fin k2_t13_loop.trips) (acc : Acc4 F) :
    AccInv (F := F) Ix Name U Lvl d ((i 0).castLE hcore2) ((i 1).castLE hsub2) arg6 arg7 IR qH qR fH fR 1 32 (256 * k2_t2.val + 160) k.val acc
      ⊢ wp frame (wpE (defs₀ (F := F)) 𝒱 ((d, .scVector ((i 0).castLE hcore2) ((i 1).castLE hsub2)) : Thread nD τ) bd) E
          (k2_t13_body (F := F) i arg2 harg2 arg3 harg3 arg4 harg4 arg5 harg5 arg6 harg6 arg7 harg7 arg8 harg8 arg9 arg10 v14_r0 v14_r1 k2_t2 v216 v246 v247 cst_151 k acc)
          (AccInv (F := F) Ix Name U Lvl d ((i 0).castLE hcore2) ((i 1).castLE hsub2) arg6 arg7 IR qH qR fH fR 1 32 (256 * k2_t2.val + 160) (k.val + 1)) := by
  rw [k2_t13_body_eq]
  exact accTrip_step (F := F) Ix Name U Lvl 𝒱 d _ _ bd E arg6 arg7 k2_t13_loop _ _ _ _ _ _ IR qH qR fH fR 1 32 (256 * k2_t2.val + 160)
    (fun k => (k2_off43_eq k2_t2 k).trans (by first | rfl | (congr 1; omega))) k2_off44_closed (fun _ _ h => h)
    (by decide) (by decide) hIR hH k acc

/-! ### Loop 14: slot 1, batch row 3 of the chunk -/

/-- The loop's trip is the accumulate trip at its offset functions. -/
theorem k2_t14_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v275_1 : FVec F S16 .f32) (v275_2 : FVec F S16 .f32) (v275_3 : FVec F S16 .f32) (v277 : BitVec 32) (v281 : FVec F S1x16 .f32) :
    k2_t14_body (F := F) i arg2 harg2 arg3 harg3 arg4 harg4 arg5 harg5 arg6 harg6 arg7 harg7 arg8 harg8 arg9 arg10 v14_r0 v14_r1 k2_t2 v216 v275_1 v275_2 v275_3 v277 v281
      = accTrip (F := F) ((i 0).castLE hcore2) ((i 1).castLE hsub2) arg6 arg7 k2_t14_loop (k2_off45 k2_t2) (Facts₀.k2_off45_inb k2_t2)
          k2_off46 k2_chk12 k2_chk12.dec Cert.Kernel.k2_off46_inb := rfl

/-- The rows' offsets in closed form: slot 1, row `48 + k`, lane `v + c`. -/
theorem k2_off46_closed (k : Fin k2_t14_loop.trips) (v c : BitVec 32) :
    k2_off46 k v c = ![1, 48 + k.val, (v + c).toNat] := by
  have hm : ∀ k : Fin k2_t14_loop.trips, (k2_off46 k 0#32 0#32) 1 = 48 + k.val := by decide +kernel
  funext a
  match a with
  | ⟨0, _⟩ => rfl
  | ⟨1, _⟩ => exact hm k
  | ⟨2, _⟩ => rfl

/-- One trip of loop 14 preserves the left-fold invariant. -/
theorem accum_k2_t14 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v275_1 : FVec F S16 .f32) (v275_2 : FVec F S16 .f32) (v275_3 : FVec F S16 .f32) (v277 : BitVec 32) (v281 : FVec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t14_loop.trips → at1 (arg6.view.read (Elt F) fH) (256 * k2_t2.val + 176 + j) = 0#32 ∨ at1 (arg6.view.read (Elt F) fH) (256 * k2_t2.val + 176 + j) = 64#32)
    (k : Fin k2_t14_loop.trips) (acc : Acc4 F) :
    AccInv (F := F) Ix Name U Lvl d ((i 0).castLE hcore2) ((i 1).castLE hsub2) arg6 arg7 IR qH qR fH fR 1 48 (256 * k2_t2.val + 176) k.val acc
      ⊢ wp frame (wpE (defs₀ (F := F)) 𝒱 ((d, .scVector ((i 0).castLE hcore2) ((i 1).castLE hsub2)) : Thread nD τ) bd) E
          (k2_t14_body (F := F) i arg2 harg2 arg3 harg3 arg4 harg4 arg5 harg5 arg6 harg6 arg7 harg7 arg8 harg8 arg9 arg10 v14_r0 v14_r1 k2_t2 v216 v275_1 v275_2 v275_3 v277 v281 k acc)
          (AccInv (F := F) Ix Name U Lvl d ((i 0).castLE hcore2) ((i 1).castLE hsub2) arg6 arg7 IR qH qR fH fR 1 48 (256 * k2_t2.val + 176) (k.val + 1)) := by
  rw [k2_t14_body_eq]
  exact accTrip_step (F := F) Ix Name U Lvl 𝒱 d _ _ bd E arg6 arg7 k2_t14_loop _ _ _ _ _ _ IR qH qR fH fR 1 48 (256 * k2_t2.val + 176)
    (fun k => (k2_off45_eq k2_t2 k).trans (by first | rfl | (congr 1; omega))) k2_off46_closed (fun _ _ h => h)
    (by decide) (by decide) hIR hH k acc

/-! ### Loop 15: slot 1, batch row 4 of the chunk -/

/-- The loop's trip is the accumulate trip at its offset functions. -/
theorem k2_t15_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v317 : FVec F S1x16 .f32) :
    k2_t15_body (F := F) i arg2 harg2 arg3 harg3 arg4 harg4 arg5 harg5 arg6 harg6 arg7 harg7 arg8 harg8 arg9 arg10 v14_r0 v14_r1 k2_t2 v216 v317
      = accTrip (F := F) ((i 0).castLE hcore2) ((i 1).castLE hsub2) arg6 arg7 k2_t15_loop (k2_off47 k2_t2) (Facts₀.k2_off47_inb k2_t2)
          k2_off48 k2_chk13 k2_chk13.dec Cert.Kernel.k2_off48_inb := rfl

/-- The rows' offsets in closed form: slot 1, row `64 + k`, lane `v + c`. -/
theorem k2_off48_closed (k : Fin k2_t15_loop.trips) (v c : BitVec 32) :
    k2_off48 k v c = ![1, 64 + k.val, (v + c).toNat] := by
  have hm : ∀ k : Fin k2_t15_loop.trips, (k2_off48 k 0#32 0#32) 1 = 64 + k.val := by decide +kernel
  funext a
  match a with
  | ⟨0, _⟩ => rfl
  | ⟨1, _⟩ => exact hm k
  | ⟨2, _⟩ => rfl

/-- One trip of loop 15 preserves the left-fold invariant. -/
theorem accum_k2_t15 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v317 : FVec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t15_loop.trips → at1 (arg6.view.read (Elt F) fH) (256 * k2_t2.val + 192 + j) = 0#32 ∨ at1 (arg6.view.read (Elt F) fH) (256 * k2_t2.val + 192 + j) = 64#32)
    (k : Fin k2_t15_loop.trips) (acc : Acc4 F) :
    AccInv (F := F) Ix Name U Lvl d ((i 0).castLE hcore2) ((i 1).castLE hsub2) arg6 arg7 IR qH qR fH fR 1 64 (256 * k2_t2.val + 192) k.val acc
      ⊢ wp frame (wpE (defs₀ (F := F)) 𝒱 ((d, .scVector ((i 0).castLE hcore2) ((i 1).castLE hsub2)) : Thread nD τ) bd) E
          (k2_t15_body (F := F) i arg2 harg2 arg3 harg3 arg4 harg4 arg5 harg5 arg6 harg6 arg7 harg7 arg8 harg8 arg9 arg10 v14_r0 v14_r1 k2_t2 v216 v317 k acc)
          (AccInv (F := F) Ix Name U Lvl d ((i 0).castLE hcore2) ((i 1).castLE hsub2) arg6 arg7 IR qH qR fH fR 1 64 (256 * k2_t2.val + 192) (k.val + 1)) := by
  rw [k2_t15_body_eq]
  exact accTrip_step (F := F) Ix Name U Lvl 𝒱 d _ _ bd E arg6 arg7 k2_t15_loop _ _ _ _ _ _ IR qH qR fH fR 1 64 (256 * k2_t2.val + 192)
    (fun k => (k2_off47_eq k2_t2 k).trans (by first | rfl | (congr 1; omega))) k2_off48_closed (fun _ _ h => h)
    (by decide) (by decide) hIR hH k acc

/-! ### Loop 16: slot 1, batch row 5 of the chunk -/

/-- The loop's trip is the accumulate trip at its offset functions. -/
theorem k2_t16_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v317 : FVec F S1x16 .f32) :
    k2_t16_body (F := F) i arg2 harg2 arg3 harg3 arg4 harg4 arg5 harg5 arg6 harg6 arg7 harg7 arg8 harg8 arg9 arg10 v14_r0 v14_r1 k2_t2 v216 v317
      = accTrip (F := F) ((i 0).castLE hcore2) ((i 1).castLE hsub2) arg6 arg7 k2_t16_loop (k2_off49 k2_t2) (Facts₀.k2_off49_inb k2_t2)
          k2_off50 k2_chk14 k2_chk14.dec Cert.Kernel.k2_off50_inb := rfl

/-- The rows' offsets in closed form: slot 1, row `80 + k`, lane `v + c`. -/
theorem k2_off50_closed (k : Fin k2_t16_loop.trips) (v c : BitVec 32) :
    k2_off50 k v c = ![1, 80 + k.val, (v + c).toNat] := by
  have hm : ∀ k : Fin k2_t16_loop.trips, (k2_off50 k 0#32 0#32) 1 = 80 + k.val := by decide +kernel
  funext a
  match a with
  | ⟨0, _⟩ => rfl
  | ⟨1, _⟩ => exact hm k
  | ⟨2, _⟩ => rfl

/-- One trip of loop 16 preserves the left-fold invariant. -/
theorem accum_k2_t16 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v317 : FVec F S1x16 .f32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t16_loop.trips → at1 (arg6.view.read (Elt F) fH) (256 * k2_t2.val + 208 + j) = 0#32 ∨ at1 (arg6.view.read (Elt F) fH) (256 * k2_t2.val + 208 + j) = 64#32)
    (k : Fin k2_t16_loop.trips) (acc : Acc4 F) :
    AccInv (F := F) Ix Name U Lvl d ((i 0).castLE hcore2) ((i 1).castLE hsub2) arg6 arg7 IR qH qR fH fR 1 80 (256 * k2_t2.val + 208) k.val acc
      ⊢ wp frame (wpE (defs₀ (F := F)) 𝒱 ((d, .scVector ((i 0).castLE hcore2) ((i 1).castLE hsub2)) : Thread nD τ) bd) E
          (k2_t16_body (F := F) i arg2 harg2 arg3 harg3 arg4 harg4 arg5 harg5 arg6 harg6 arg7 harg7 arg8 harg8 arg9 arg10 v14_r0 v14_r1 k2_t2 v216 v317 k acc)
          (AccInv (F := F) Ix Name U Lvl d ((i 0).castLE hcore2) ((i 1).castLE hsub2) arg6 arg7 IR qH qR fH fR 1 80 (256 * k2_t2.val + 208) (k.val + 1)) := by
  rw [k2_t16_body_eq]
  exact accTrip_step (F := F) Ix Name U Lvl 𝒱 d _ _ bd E arg6 arg7 k2_t16_loop _ _ _ _ _ _ IR qH qR fH fR 1 80 (256 * k2_t2.val + 208)
    (fun k => (k2_off49_eq k2_t2 k).trans (by first | rfl | (congr 1; omega))) k2_off50_closed (fun _ _ h => h)
    (by decide) (by decide) hIR hH k acc

/-! ### Loop 17: slot 1, batch row 6 of the chunk -/

/-- The loop's trip is the accumulate trip at its offset functions. -/
theorem k2_t17_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v347_0 : FVec F S16 .f32) (v347_1 : FVec F S16 .f32) (v347_2 : FVec F S16 .f32) (v347_3 : FVec F S16 .f32) (v348 : BitVec 32) (c2_i32_214 : BitVec 32) :
    k2_t17_body (F := F) i arg2 harg2 arg3 harg3 arg4 harg4 arg5 harg5 arg6 harg6 arg7 harg7 arg8 harg8 arg9 arg10 v14_r0 v14_r1 k2_t2 v216 v347_0 v347_1 v347_2 v347_3 v348 c2_i32_214
      = accTrip (F := F) ((i 0).castLE hcore2) ((i 1).castLE hsub2) arg6 arg7 k2_t17_loop (k2_off51 k2_t2) (Facts₀.k2_off51_inb k2_t2)
          k2_off52 k2_chk15 k2_chk15.dec Cert.Kernel.k2_off52_inb := rfl

/-- The rows' offsets in closed form: slot 1, row `96 + k`, lane `v + c`. -/
theorem k2_off52_closed (k : Fin k2_t17_loop.trips) (v c : BitVec 32) :
    k2_off52 k v c = ![1, 96 + k.val, (v + c).toNat] := by
  have hm : ∀ k : Fin k2_t17_loop.trips, (k2_off52 k 0#32 0#32) 1 = 96 + k.val := by decide +kernel
  funext a
  match a with
  | ⟨0, _⟩ => rfl
  | ⟨1, _⟩ => exact hm k
  | ⟨2, _⟩ => rfl

/-- One trip of loop 17 preserves the left-fold invariant. -/
theorem accum_k2_t17 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k2_t2 : Fin k2_t2_loop.trips) (v216 : BitVec 32) (v347_0 : FVec F S16 .f32) (v347_1 : FVec F S16 .f32) (v347_2 : FVec F S16 .f32) (v347_3 : FVec F S16 .f32) (v348 : BitVec 32) (c2_i32_214 : BitVec 32)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t17_loop.trips → at1 (arg6.view.read (Elt F) fH) (256 * k2_t2.val + 224 + j) = 0#32 ∨ at1 (arg6.view.read (Elt F) fH) (256 * k2_t2.val + 224 + j) = 64#32)
    (k : Fin k2_t17_loop.trips) (acc : Acc4 F) :
    AccInv (F := F) Ix Name U Lvl d ((i 0).castLE hcore2) ((i 1).castLE hsub2) arg6 arg7 IR qH qR fH fR 1 96 (256 * k2_t2.val + 224) k.val acc
      ⊢ wp frame (wpE (defs₀ (F := F)) 𝒱 ((d, .scVector ((i 0).castLE hcore2) ((i 1).castLE hsub2)) : Thread nD τ) bd) E
          (k2_t17_body (F := F) i arg2 harg2 arg3 harg3 arg4 harg4 arg5 harg5 arg6 harg6 arg7 harg7 arg8 harg8 arg9 arg10 v14_r0 v14_r1 k2_t2 v216 v347_0 v347_1 v347_2 v347_3 v348 c2_i32_214 k acc)
          (AccInv (F := F) Ix Name U Lvl d ((i 0).castLE hcore2) ((i 1).castLE hsub2) arg6 arg7 IR qH qR fH fR 1 96 (256 * k2_t2.val + 224) (k.val + 1)) := by
  rw [k2_t17_body_eq]
  exact accTrip_step (F := F) Ix Name U Lvl 𝒱 d _ _ bd E arg6 arg7 k2_t17_loop _ _ _ _ _ _ IR qH qR fH fR 1 96 (256 * k2_t2.val + 224)
    (fun k => (k2_off51_eq k2_t2 k).trans (by first | rfl | (congr 1; omega))) k2_off52_closed (fun _ _ h => h)
    (by decide) (by decide) hIR hH k acc

/-! ### Loop 18: slot 1, batch row 7 of the chunk -/

/-- The loop's trip is the accumulate trip at its offset functions. -/
theorem k2_t18_body_eq (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k2_t2 : Fin k2_t2_loop.trips) :
    k2_t18_body (F := F) i arg2 harg2 arg3 harg3 arg4 harg4 arg5 harg5 arg6 harg6 arg7 harg7 arg8 harg8 arg9 arg10 v14_r0 v14_r1 c0_i32_15 c1_i32_16 k2_t2
      = accTrip (F := F) ((i 0).castLE hcore2) ((i 1).castLE hsub2) arg6 arg7 k2_t18_loop (k2_off53 k2_t2) (Facts₀.k2_off53_inb k2_t2)
          k2_off54 k2_chk16 k2_chk16.dec Cert.Kernel.k2_off54_inb := rfl

/-- The rows' offsets in closed form: slot 1, row `112 + k`, lane `v + c`. -/
theorem k2_off54_closed (k : Fin k2_t18_loop.trips) (v c : BitVec 32) :
    k2_off54 k v c = ![1, 112 + k.val, (v + c).toNat] := by
  have hm : ∀ k : Fin k2_t18_loop.trips, (k2_off54 k 0#32 0#32) 1 = 112 + k.val := by decide +kernel
  funext a
  match a with
  | ⟨0, _⟩ => rfl
  | ⟨1, _⟩ => exact hm k
  | ⟨2, _⟩ => rfl

/-- One trip of loop 18 preserves the left-fold invariant. -/
theorem accum_k2_t18 (Ix Name U Lvl : Type) [DecidableEq Ix] [DecidableEq Name] [RA.URA U] [Preorder Lvl]
    (𝒱 : Variants) (d : Dev nD) (bd : Option 𝒱.V) (E : Set Name) (i : grid2.Coords) (arg2 : Memref sig .scVector .hbm S802816x128 .f32) (harg2 : arg2.IsWhole) (arg3 : Memref sig .scVector .hbm S65536 .i32) (harg3 : arg3.IsWhole) (arg4 : Memref sig .scVector .hbm S2048x128 .f32) (harg4 : arg4.IsWhole) (arg5 : Memref sig .scVector .vmem S2048 .i32) (harg5 : arg5.IsWhole) (arg6 : Memref sig .scVector .vmem S2064 .i32) (harg6 : arg6.IsWhole) (arg7 : Memref sig .scVector .vmem S2x128x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k2_t2 : Fin k2_t2_loop.trips)
    (IR : Finset (Idx (arg7.view.loc ((d, .scVector ((i 0).castLE hcore2) ((i 1).castLE hsub2)) : Thread nD τ))))
    (qH qR : PosShare TreeShare) (fH : BufTy.Contents (Elt F) arg6.view.ty) (fR : BufTy.Contents (Elt F) arg7.view.ty)
    (hIR : ∀ x : (SR 128).Idx, (x 0).val = 1 → arg7.view.emb x ∈ IR)
    (hH : ∀ j, j < k2_t18_loop.trips → at1 (arg6.view.read (Elt F) fH) (256 * k2_t2.val + 240 + j) = 0#32 ∨ at1 (arg6.view.read (Elt F) fH) (256 * k2_t2.val + 240 + j) = 64#32)
    (k : Fin k2_t18_loop.trips) (acc : Acc4 F) :
    AccInv (F := F) Ix Name U Lvl d ((i 0).castLE hcore2) ((i 1).castLE hsub2) arg6 arg7 IR qH qR fH fR 1 112 (256 * k2_t2.val + 240) k.val acc
      ⊢ wp frame (wpE (defs₀ (F := F)) 𝒱 ((d, .scVector ((i 0).castLE hcore2) ((i 1).castLE hsub2)) : Thread nD τ) bd) E
          (k2_t18_body (F := F) i arg2 harg2 arg3 harg3 arg4 harg4 arg5 harg5 arg6 harg6 arg7 harg7 arg8 harg8 arg9 arg10 v14_r0 v14_r1 c0_i32_15 c1_i32_16 k2_t2 k acc)
          (AccInv (F := F) Ix Name U Lvl d ((i 0).castLE hcore2) ((i 1).castLE hsub2) arg6 arg7 IR qH qR fH fR 1 112 (256 * k2_t2.val + 240) (k.val + 1)) := by
  rw [k2_t18_body_eq]
  exact accTrip_step (F := F) Ix Name U Lvl 𝒱 d _ _ bd E arg6 arg7 k2_t18_loop _ _ _ _ _ _ IR qH qR fH fR 1 112 (256 * k2_t2.val + 240)
    (fun k => (k2_off53_eq k2_t2 k).trans (by first | rfl | (congr 1; omega))) k2_off54_closed (fun _ _ h => h)
    (by decide) (by decide) hIR hH k acc

end Cert.Proof.KB

end
-- ==== Proof.KB.Tile2Facts.lean ====
/-
  Pure facts about one vector subcore's task of the first embedding-sum call: the rewritten index words as row
  numbers of the pair table, the lane offsets, what a gather of 128 rows delivers, and the value one accumulate loop
  leaves in its four accumulators.
-/
import proofs.«219250_g10247791969013_week1_w1_750_27_alg».proof.Proof.KB.Tile2RingDefs
import proofs.«219250_g10247791969013_week1_w1_750_27_alg».proof.Proof.KI.AccFold

noncomputable section

namespace Cert.Proof.KB

open Cert.Proof.KI

open Cert.Kernel Cert.Kernel.Gen

open Idealize.ShloMosaic
open Idealize.ShloMosaic.ValueIdx

variable {F : FTy → Type} [FloatOps F]

/-! ## The rewritten words and the lane offsets -/

/-- After the whole rewrite a word of the list, as a number, is the table row it names, and that row is in the table. -/
theorem rew_toNat2 (ix g : S2048.Idx → BitVec 32) (hg : XI5 ix g 128) (hix : ∀ j, (ix j).toNat < 100000) (y : S2048.Idx) :
    (g y).toNat = gRow2 (F := F) ix (y 0).val ∧ (g y).toNat < 802816 := by
  have hy : (y 0).val < 2048 := (y 0).isLt
  have hgy := hg y
  rw [if_pos (by omega)] at hgy
  have hyy : ix (ix1 ⟨(y 0).val, hy⟩) = ix y := congrArg ix (eq_ix1 y).symm
  have hi := hix y
  have e : (g y).toNat = (ix y).toNat + (y 0).val % 16 / 2 * 100352 := by
    rw [hgy]
    unfold rewW2
    rw [BitVec.toNat_add, BitVec.toNat_ofNat]
    have h2 : (2 : ℕ) ^ 32 = 4294967296 := by norm_num
    rw [h2]
    omega
  refine ⟨?_, by omega⟩
  unfold gRow2
  rw [dif_pos hy, hyy, e]

/-- After the whole rewrite the lane offset at position `p` is `(p mod 16 mod 2) · 64`. -/
theorem half_val2 (g : (SH 2064).Idx → BitVec 32) (hg : XI6 g 128) (p : ℕ) (hp : p < 2048) :
    at1 g p = BitVec.ofNat 32 (p % 16 % 2 * 64) := by
  rw [at1_of_lt g (by omega : p < 2064)]
  exact hg (ix1 ⟨p, by omega⟩) (by show p < 16 * 128; omega)

/-- So it is 0 or 64. -/
theorem half_val2_cases (g : (SH 2064).Idx → BitVec 32) (hg : XI6 g 128) (p : ℕ) (hp : p < 2048) :
    at1 g p = 0#32 ∨ at1 g p = 64#32 := by
  rw [half_val2 g hg p hp]
  rcases Nat.mod_two_eq_zero_or_one (p % 16) with h | h
  · left; rw [h]
  · right; rw [h]

/-! ## What a gather delivers -/

/-- At rank one the position of an element is its coordinate. -/
theorem rowMajor_symm_rank1 {n : ℕ} (k : Fin (⟨1, ![n]⟩ : Shape).numel) (q : ℕ) (hq : q < n) (hk : k.val = q) :
    (⟨1, ![n]⟩ : Shape).rowMajor.symm k = ix1 ⟨q, hq⟩ := by
  rw [Equiv.symm_apply_eq]
  refine Fin.ext ?_
  rw [Shape.rowMajor_val_one]
  exact hk

/-- The gather of chunk `c`: row `r` of what it delivers is the table row the rewritten list names at position
    `128 c + r`. -/
theorem gather_spec2 (d : Dev nD) (L : grid2.Coords) (Tb : Buf (Elt F) ((tabM2).view.loc (thr2 d L))) (ix : S2048.Idx → Elt F .i32)
    (g5 : Buf (Elt F) ((sI2).view.loc (thr2 d L))) (hg5 : XI5 ix ((sI2).view.read (Elt F) g5) 128) (hix : ∀ j, (ix j).toNat < 100000)
    (c : ℕ) (off : Fin 1 → ℕ) (inb : ∀ a, off a + S128.size a ≤ S2048.size a) (hs) (hoff : off = ![128 * c])
    (hn : S128.numel = S128x128.size gathers_S802816x128_S128x128.axis')
    (hin : ∀ x, (((sI2).slice (Rect.unit (s := S2048) off S128.size inb) hs).view.read (Elt F) g5 x).toNat < S802816x128.size gathers_S802816x128_S128x128.axis) :
    SparseCore.gatherPayload gathers_S802816x128_S128x128 ((tabSl2).view.read (Elt F) Tb)
        (SparseCore.rows (((sI2).slice (Rect.unit (s := S2048) off S128.size inb) hs).view.read (Elt F) g5) hn hin)
      = gathSpec2 ((tabM2).view.read (Elt F) Tb) ix c := by
  subst hoff
  funext x
  have hx0 : (x 0).val < 128 := (x 0).isLt
  have hx1 : (x 1).val < 128 := (x 1).isLt
  have hc : 128 * c + 128 ≤ 2048 := by
    have h0 := inb 0
    have e1 : (![128 * c] : Fin 1 → ℕ) 0 = 128 * c := rfl
    have e2 : S128.size 0 = 128 := rfl
    have e3 : S2048.size 0 = 2048 := rfl
    omega
  have hw : ((sI2).slice (Rect.unit (s := S2048) ![128 * c] S128.size inb) hs).view.read (Elt F) g5 (ix1 ⟨(x 0).val, hx0⟩)
      = (sI2).view.read (Elt F) g5 (ix1 ⟨128 * c + (x 0).val, by omega⟩) := by
    show (sI2).view.read (Elt F) g5 ((Rect.unit (s := S2048) ![128 * c] S128.size inb).emb (ix1 ⟨(x 0).val, hx0⟩)) = _
    congr 1
    funext a
    match a with
    | ⟨0, _⟩ => exact Fin.ext (show 128 * c + 1 * (x 0).val = 128 * c + (x 0).val by omega)
  have hr := rew_toNat2 (F := F) ix _ hg5 hix (ix1 ⟨128 * c + (x 0).val, by omega⟩)
  have hr1 : ((sI2).view.read (Elt F) g5 (ix1 ⟨128 * c + (x 0).val, by omega⟩)).toNat = gRow2 (F := F) ix (128 * c + (x 0).val) := hr.1
  have hlt : gRow2 (F := F) ix (128 * c + (x 0).val) < 802816 := by rw [← hr1]; exact hr.2
  have hrow : (SparseCore.rows (((sI2).slice (Rect.unit (s := S2048) ![128 * c] S128.size inb) hs).view.read (Elt F) g5) hn hin
        (x gathers_S802816x128_S128x128.axis')).val
      = gRow2 (F := F) ix (128 * c + (x 0).val) := by
    have e := rowMajor_symm_rank1 (n := 128) ((x gathers_S802816x128_S128x128.axis').cast hn.symm) (x 0).val hx0 rfl
    show ((((sI2).slice (Rect.unit (s := S2048) ![128 * c] S128.size inb) hs).view.read (Elt F) g5)
      (S128.rowMajor.symm ((x gathers_S802816x128_S128x128.axis').cast hn.symm))).toNat = _
    rw [e, hw, hr1]
  unfold SparseCore.gatherPayload gathSpec2 tbAt2
  rw [dif_pos ⟨hlt, hx1⟩]
  show (tabM2).view.read (Elt F) Tb ((Rect.unit (s := S802816x128) ![0, 0] S802816x128.size _).emb
      (gathers_S802816x128_S128x128.idx _ x)) = _
  congr 1
  funext a
  match a with
  | ⟨0, _⟩ =>
    refine Fin.ext ?_
    show 0 + 1 * (gathers_S802816x128_S128x128.idx _ x ⟨0, _⟩).val = gRow2 (F := F) ix (128 * c + (x 0).val)
    rw [Nat.zero_add, Nat.one_mul]
    exact (congrArg Fin.val (Shape.Gathers.idx_axis gathers_S802816x128_S128x128 _ x)).trans hrow
  | ⟨1, _⟩ =>
    refine Fin.ext ?_
    show 0 + 1 * (gathers_S802816x128_S128x128.idx _ x ⟨1, _⟩).val = (x 1).val
    rw [Nat.zero_add, Nat.one_mul]
    exact Shape.Gathers.idx_of_ne gathers_S802816x128_S128x128 _ x ⟨1, by decide⟩ (by decide)

/-! ## The value of one accumulate loop -/

/-- With the gathered rows of the slot being the table rows the list names for chunk `chunk`, and the lane offsets
    `(p mod 16 mod 2) · 64`, lane `l` of accumulator `t` after the sixteen trips of batch row `bi` of the chunk is the
    task's entry at row `4 chunk + bi / 2`, lane `(bi mod 2) · 64 + 16 t + l`. -/
theorem acc_value2 (tb : S802816x128.Idx → Elt F .f32) (ix : S2048.Idx → Elt F .i32) (R : (SR 128).Idx → F .f32) (H : (SH 2064).Idx → BitVec 32)
    (slot chunk bi p₀ : ℕ) (hslot : slot < 2) (hchunk : chunk < 16) (hbi : bi < 8) (hp₀ : p₀ = 128 * chunk + 16 * bi)
    (hR : ∀ r c, r < 128 → c < 128 → at3 R slot r c = tbAt2 tb (gRow2 ix (128 * chunk + r)) c)
    (hH : ∀ p, p < 2048 → at1 H p = BitVec.ofNat 32 (p % 16 % 2 * 64))
    (t : ℕ) (ht : t < 4) (l : SL16.Idx) :
    (accAt R H slot (16 * bi) p₀ 16).get t l
      = OUT2 tb ix (ix2 (⟨4 * chunk + bi / 2, by omega⟩ : Fin 64) (⟨bi % 2 * 64 + 16 * t + (l 0).val, by have hl : (l 0).val < 16 := (l 0).isLt; omega⟩ : Fin 128)) := by
  subst hp₀
  have hl : (l 0).val < 16 := (l 0).isLt
  rw [accAt_get_eq_foldl_of R H slot (16 * bi) (128 * chunk + 16 * bi) 16 t ht l
    (fun j => tbAt2 tb (gRow2 ix ((2 * (4 * chunk + bi / 2) + (bi % 2 * 64 + 16 * t + (l 0).val) / 64) * 16 + j))
      (j % 2 * 64 + (bi % 2 * 64 + 16 * t + (l 0).val) % 64))
    (fun j hj => by
      unfold accRow
      have hw : at1 H (128 * chunk + 16 * bi + j) = BitVec.ofNat 32 (j % 2 * 64) := by
        rw [hH _ (by omega)]
        have e : (128 * chunk + 16 * bi + j) % 16 = j := by omega
        rw [e]
      have hn : (BitVec.ofNat 32 (j % 2 * 64)).toNat = j % 2 * 64 := by
        rw [BitVec.toNat_ofNat]
        have h2 : (2 : ℕ) ^ 32 = 4294967296 := by norm_num
        rw [h2]
        omega
      rw [hw, hn, hR (16 * bi + j) (j % 2 * 64 + 16 * t + (l 0).val) (by omega) (by omega)]
      have e1 : (2 * (4 * chunk + bi / 2) + (bi % 2 * 64 + 16 * t + (l 0).val) / 64) * 16 + j = 128 * chunk + (16 * bi + j) := by omega
      have e2 : j % 2 * 64 + (bi % 2 * 64 + 16 * t + (l 0).val) % 64 = j % 2 * 64 + 16 * t + (l 0).val := by omega
      rw [e1, e2])]
  rfl

end Cert.Proof.KB

end
-- ==== Proof.KB.Tile2Facts2.lean ====
/-
  The two gather buffers of a vector subcore's task as parts of the scratch of gathered rows: the rows of slot 0
  (resp. 1) are exactly the even (resp. odd) buffer's elements, and what is written through a buffer is read back, at
  slot, row and lane, from the scratch.
-/
import proofs.«219250_g10247791969013_week1_w1_750_27_alg».proof.Proof.KB.Tile2RingDefs
import proofs.«219250_g10247791969013_week1_w1_750_27_alg».proof.Proof.KI.AccSpec
import Idealize.ShloMosaic.Lib.Writes
import Idealize.ShloMosaic.Lib.Exec.Geometry

noncomputable section

namespace Cert.Proof.KB

open Cert.Proof.KI

open Cert.Kernel Cert.Kernel.Gen

open Idealize.ShloMosaic
open Idealize.ShloMosaic.ValueIdx

variable {F : FTy → Type} [FloatOps F]

/-- The rows of one slot as a rectangle of the scratch. -/
abbrev slotRect2 (s : ℕ) (inb : ∀ a, (![s, 0, 0] : Fin 3 → ℕ) a + S1x128x128.size a ≤ S2x128x128.size a) : Rect S2x128x128 :=
  Rect.unit (s := S2x128x128) ![s, 0, 0] S1x128x128.size inb

/-- An element of slot `s` of the scratch lies in the rectangle of that slot. -/
theorem mem_slotRect2 (s : ℕ) (inb) (x : S2x128x128.Idx) (hx : (x 0).val = s) : x ∈ (slotRect2 s inb).set := by
  rw [Rect.mem_set_unit]
  intro a
  match a with
  | ⟨0, _⟩ =>
    show s ≤ (x 0).val ∧ (x 0).val < s + 1
    omega
  | ⟨1, _⟩ =>
    have h1 : (x 1).val < 128 := (x 1).isLt
    show 0 ≤ (x 1).val ∧ (x 1).val < 0 + 128
    omega
  | ⟨2, _⟩ =>
    have h2 : (x 2).val < 128 := (x 2).isLt
    show 0 ≤ (x 2).val ∧ (x 2).val < 0 + 128
    omega

omit [FloatOps F] in
/-- Slot 0's rows are among the even buffer's elements. -/
theorem hIR_A2 : ∀ x : (SR 128).Idx, (x 0).val = 0 → (sR2).view.emb x ∈ (dstA2).view.set := by
  intro x hx
  rw [Memref.set_view_squeeze]
  show (sR2).view.emb x ∈ ((sR2).view.slice (slotRect2 0 inb_S2x128x128_S1x128x128_0_0_0)).set
  rw [View.set_slice]
  exact Finset.mem_map_of_mem _ (mem_slotRect2 0 _ x hx)

omit [FloatOps F] in
/-- Slot 1's rows are among the odd buffer's elements. -/
theorem hIR_B2 : ∀ x : (SR 128).Idx, (x 0).val = 1 → (sR2).view.emb x ∈ (dstB2).view.set := by
  intro x hx
  rw [Memref.set_view_squeeze]
  show (sR2).view.emb x ∈ ((sR2).view.slice (slotRect2 1 inb_S2x128x128_S1x128x128_1_0_0)).set
  rw [View.set_slice]
  exact Finset.mem_map_of_mem _ (mem_slotRect2 1 _ x hx)

/-- The row-major regrouping of one slot's rows `1 × 128 × 128` as `128 × 128` keeps row and lane. -/
theorem reshape_slot_symm (h : S128x128.numel = S1x128x128.numel) (r c : ℕ) (hr : r < 128) (hc : c < 128) :
    (Shape.reshapeEquiv h).symm (ix3 (0 : Fin 1) (⟨r, hr⟩ : Fin 128) (⟨c, hc⟩ : Fin 128) : S1x128x128.Idx)
      = (ix2 (⟨r, hr⟩ : Fin 128) (⟨c, hc⟩ : Fin 128) : S128x128.Idx) := by
  rw [Equiv.symm_apply_eq]
  refine (Shape.reshapeEquiv_eq_of_rowMajor h ?_).symm
  rw [Shape.rowMajor_val_three, Shape.rowMajor_val_two]
  show (0 * 128 + r) * 128 + c = r * 128 + c
  omega

/-- What is written through the buffer of slot `s` is read back from the scratch at `(s, r, c)`. -/
theorem read_slot2 (s : ℕ) (hs : s < 2) (inb) (hq : S1x128x128.Squeezes S128x128)
    (g : (sR2).view.ty.Contents (Elt F)) (p : S128x128.Idx → Elt F .f32) (r c : ℕ) (hr : r < 128) (hc : c < 128) :
    at3 ((sR2).view.read (Elt F)
        ((((sR2).slice (slotRect2 s inb) (fun _ => rfl)).squeeze S128x128 hq).view.write (Elt F) g p Finset.univ)) s r c
      = p (ix2 ⟨r, hr⟩ ⟨c, hc⟩) := by
  rw [at3_of_lt _ hs hr hc]
  show (sR2).view.read (Elt F) ((((sR2).view.slice (slotRect2 s inb)).reshape S128x128 hq.numel_eq).write (Elt F) g p Finset.univ)
    (ix3 ⟨s, hs⟩ ⟨r, hr⟩ ⟨c, hc⟩) = _
  rw [View.write_reshape_univ]
  have hx : (ix3 (⟨s, hs⟩ : Fin 2) (⟨r, hr⟩ : Fin 128) (⟨c, hc⟩ : Fin 128) : S2x128x128.Idx)
      = (slotRect2 s inb).emb (ix3 (0 : Fin 1) (⟨r, hr⟩ : Fin 128) (⟨c, hc⟩ : Fin 128) : S1x128x128.Idx) := by
    funext a
    match a with
    | ⟨0, _⟩ => exact Fin.ext (show s = s + 1 * 0 by omega)
    | ⟨1, _⟩ => exact Fin.ext (show r = 0 + 1 * r by omega)
    | ⟨2, _⟩ => exact Fin.ext (show c = 0 + 1 * c by omega)
  rw [hx, View.read_slice_write_emb _ _ _ (Finset.mem_univ _), reshape_slot_symm _ r c hr hc]

/-- The even buffer. -/
theorem read_slotA2 (g : (sR2).view.ty.Contents (Elt F)) (p : S128x128.Idx → Elt F .f32) (r c : ℕ) (hr : r < 128) (hc : c < 128) :
    at3 ((sR2).view.read (Elt F) ((dstA2).view.write (Elt F) g p Finset.univ)) 0 r c = p (ix2 ⟨r, hr⟩ ⟨c, hc⟩) :=
  read_slot2 0 (by decide) inb_S2x128x128_S1x128x128_0_0_0 squeezes_S1x128x128_S128x128 g p r c hr hc

/-- The odd buffer. -/
theorem read_slotB2 (g : (sR2).view.ty.Contents (Elt F)) (p : S128x128.Idx → Elt F .f32) (r c : ℕ) (hr : r < 128) (hc : c < 128) :
    at3 ((sR2).view.read (Elt F) ((dstB2).view.write (Elt F) g p Finset.univ)) 1 r c = p (ix2 ⟨r, hr⟩ ⟨c, hc⟩) :=
  read_slot2 1 (by decide) inb_S2x128x128_S1x128x128_1_0_0 squeezes_S1x128x128_S128x128 g p r c hr hc

end Cert.Proof.KB

end
-- ==== Proof.KB.Tile2Stores.lean ====
/-
  Four 16-lane stores of four accumulators into one row of a 64 × 128 block, read back: inside the 64 lanes written
  the block holds the accumulators' lanes, elsewhere what it held before.
-/
import proofs.«219250_g10247791969013_week1_w1_750_27_alg».proof.Proof.KB.Tile2RingDefs
import proofs.«219250_g10247791969013_week1_w1_750_27_alg».proof.Proof.KI.AccSpec
import Idealize.ShloMosaic.Lib.Writes
import Idealize.ShloMosaic.Lib.ValueLayout

noncomputable section

namespace Cert.Proof.KB

open Cert.Proof.KI

open Cert.Kernel Cert.Kernel.Gen

open Idealize.ShloMosaic
open Idealize.ShloMosaic.ValueIdx

variable {F : FTy → Type} [FloatOps F]

/-- An element the last piece does not cover reads as under the pieces before it. -/
theorem read_writes_cons_of_not_mem {κ : Kind} {sp : Space} {s : Shape} {e : EltTy} (v : View sig κ sp s e)
    (g : v.ty.Contents (Elt F)) (p : View.Piece (Elt F) s e) (L : List (View.Piece (Elt F) s e)) (y : s.Idx) (h : y ∉ p.1.set) :
    v.read (Elt F) (v.writes (Elt F) g (p :: L)) y = v.read (Elt F) (v.writes (Elt F) g L) y := by
  rw [View.writes_cons, View.read_slice_write_of_not_mem p.1 _ _ _ (by rw [Rect.map_emb_univ]; exact h)]

/-- One 16-lane piece written at `(row, col)`, over earlier pieces `L`: inside it the vector's lane, outside what the
    earlier pieces left. -/
theorem read_piece1x16 {κ : Kind} {sp : Space} (v : View sig κ sp S64x128 .f32) (g : v.ty.Contents (Elt F))
    (w : SL16.Idx → F .f32) (off : Fin 2 → ℕ) (inb : ∀ a, off a + S1x16.size a ≤ S64x128.size a) (row col : ℕ)
    (hoff : off = ![row, col]) (hsc : SL16.ShapeCasts S1x16) (L : List (View.Piece (Elt F) S64x128 .f32)) (x : S64x128.Idx) :
    v.read (Elt F) (v.writes (Elt F) g (⟨Rect.unit (s := S64x128) off S1x16.size inb, shapeCast S1x16 w hsc⟩ :: L)) x
      = if h : (x 0).val = row ∧ col ≤ (x 1).val ∧ (x 1).val < col + 16 then w (ix1 (⟨(x 1).val - col, by omega⟩ : Fin 16))
        else v.read (Elt F) (v.writes (Elt F) g L) x := by
  subst hoff
  split
  · rename_i h
    have hx : x = (Rect.unit (s := S64x128) ![row, col] S1x16.size inb).emb
        (ix2 (0 : Fin 1) (⟨(x 1).val - col, by omega⟩ : Fin 16) : S1x16.Idx) := by
      funext a
      match a with
      | ⟨0, _⟩ => exact Fin.ext (show (x 0).val = row + 1 * 0 by omega)
      | ⟨1, _⟩ => exact Fin.ext (show (x 1).val = col + 1 * ((x 1).val - col) by omega)
    conv_lhs => rw [hx]
    rw [View.read_writes_cons_emb (Val := Elt F) v g (Rect.unit (s := S64x128) ![row, col] S1x16.size inb) (shapeCast S1x16 w hsc) L _]
    exact shapeCast_a_1a_apply w hsc 0 _
  · rename_i h
    refine read_writes_cons_of_not_mem v g _ L x ?_
    rw [Rect.mem_set_unit]
    intro hm
    have h0 := hm 0
    have h1 := hm 1
    have e0 : (![row, col] : Fin 2 → ℕ) 0 = row := rfl
    have e1 : (![row, col] : Fin 2 → ℕ) 1 = col := rfl
    have s0 : S1x16.size 0 = 1 := rfl
    have s1 : S1x16.size 1 = 16 := rfl
    rw [e0, s0] at h0
    rw [e1, s1] at h1
    exact h ⟨by omega, by omega, by omega⟩

/-- The four stores after an accumulate loop (the last listed first): row `row`, lanes `c0 … c0 + 63` hold lane
    `(λ - c0) mod 16` of accumulator `(λ - c0) / 16`; every other element is as before. -/
theorem read_four_stores {κ : Kind} {sp : Space} (v : View sig κ sp S64x128 .f32) (g : v.ty.Contents (Elt F)) (a : Acc4 F)
    (row c0 : ℕ) (o0 o1 o2 o3 : Fin 2 → ℕ)
    (i0 : ∀ b, o0 b + S1x16.size b ≤ S64x128.size b) (i1 : ∀ b, o1 b + S1x16.size b ≤ S64x128.size b)
    (i2 : ∀ b, o2 b + S1x16.size b ≤ S64x128.size b) (i3 : ∀ b, o3 b + S1x16.size b ≤ S64x128.size b)
    (h0 : o0 = ![row, c0]) (h1 : o1 = ![row, c0 + 16]) (h2 : o2 = ![row, c0 + 32]) (h3 : o3 = ![row, c0 + 48])
    (hsc : SL16.ShapeCasts S1x16) (x : S64x128.Idx) :
    v.read (Elt F) (v.writes (Elt F) g
        [⟨Rect.unit (s := S64x128) o3 S1x16.size i3, shapeCast S1x16 a.2.2.2 hsc⟩,
         ⟨Rect.unit (s := S64x128) o2 S1x16.size i2, shapeCast S1x16 a.2.2.1 hsc⟩,
         ⟨Rect.unit (s := S64x128) o1 S1x16.size i1, shapeCast S1x16 a.2.1 hsc⟩,
         ⟨Rect.unit (s := S64x128) o0 S1x16.size i0, shapeCast S1x16 a.1 hsc⟩]) x
      = if h : (x 0).val = row ∧ c0 ≤ (x 1).val ∧ (x 1).val < c0 + 64
        then (a.get (((x 1).val - c0) / 16)) (ix1 (⟨((x 1).val - c0) % 16, Nat.mod_lt _ (by decide)⟩ : Fin 16))
        else v.read (Elt F) g x := by
  rw [read_piece1x16 v g a.2.2.2 o3 i3 row (c0 + 48) h3 hsc _ x]
  split
  · rename_i q3
    rw [dif_pos ⟨q3.1, by omega, by omega⟩]
    have e : ((x 1).val - c0) / 16 = 3 := by omega
    rw [e]
    refine congrArg (fun i : Fin 16 => a.2.2.2 (ix1 i)) (Fin.ext ?_)
    show (x 1).val - (c0 + 48) = ((x 1).val - c0) % 16
    omega
  · rename_i q3
    rw [read_piece1x16 v g a.2.2.1 o2 i2 row (c0 + 32) h2 hsc _ x]
    split
    · rename_i q2
      rw [dif_pos ⟨q2.1, by omega, by omega⟩]
      have e : ((x 1).val - c0) / 16 = 2 := by omega
      rw [e]
      refine congrArg (fun i : Fin 16 => a.2.2.1 (ix1 i)) (Fin.ext ?_)
      show (x 1).val - (c0 + 32) = ((x 1).val - c0) % 16
      omega
    · rename_i q2
      rw [read_piece1x16 v g a.2.1 o1 i1 row (c0 + 16) h1 hsc _ x]
      split
      · rename_i q1
        rw [dif_pos ⟨q1.1, by omega, by omega⟩]
        have e : ((x 1).val - c0) / 16 = 1 := by omega
        rw [e]
        refine congrArg (fun i : Fin 16 => a.2.1 (ix1 i)) (Fin.ext ?_)
        show (x 1).val - (c0 + 16) = ((x 1).val - c0) % 16
        omega
      · rename_i q1
        rw [read_piece1x16 v g a.1 o0 i0 row c0 h0 hsc _ x]
        split
        · rename_i q0
          rw [dif_pos ⟨q0.1, by omega, by omega⟩]
          have e : ((x 1).val - c0) / 16 = 0 := by omega
          rw [e]
          refine congrArg (fun i : Fin 16 => a.1 (ix1 i)) (Fin.ext ?_)
          show (x 1).val - c0 = ((x 1).val - c0) % 16
          omega
        · rename_i q0
          rw [dif_neg (fun hh => by
            have := hh.1; have := hh.2.1; have := hh.2.2
            by_cases c3 : c0 + 48 ≤ (x 1).val
            · exact q3 ⟨hh.1, c3, by omega⟩
            · by_cases c2 : c0 + 32 ≤ (x 1).val
              · exact q2 ⟨hh.1, c2, by omega⟩
              · by_cases c1 : c0 + 16 ≤ (x 1).val
                · exact q1 ⟨hh.1, c1, by omega⟩
                · exact q0 ⟨hh.1, hh.2.1, by omega⟩)]
          rfl

end Cert.Proof.KB

end
-- ==== Proof.KB.Tile2Ring.lean ====
/-
  The ring of gathers of one vector subcore's task: the invariant of its loop — both gathers of a trip's two chunks in
  flight on their semaphores, the block of sums done below the trip's rows.
-/
import proofs.«219250_g10247791969013_week1_w1_750_27_alg».proof.Proof.KB.Tile2Pre
import proofs.«219250_g10247791969013_week1_w1_750_27_alg».proof.Proof.KB.Tile2RingDefs
import proofs.«219250_g10247791969013_week1_w1_750_27_alg».proof.Proof.KB.Accum
import proofs.«219250_g10247791969013_week1_w1_750_27_alg».proof.Proof.KB.Tile2Facts
import proofs.«219250_g10247791969013_week1_w1_750_27_alg».proof.Proof.KB.Tile2Facts2
import proofs.«219250_g10247791969013_week1_w1_750_27_alg».proof.Proof.KB.Tile2Stores
import Idealize.ShloMosaic.Lib.Tactic

noncomputable section

namespace Cert.Proof.KB

open Cert.Proof.KI

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid2.Coords)

set_option quotPrecheck false in
local notation "tabSlN" => ((tabM2).slice (Rect.unit (s := S802816x128) ![0, 0] S802816x128.size inb_S802816x128_S802816x128_0_0) (fun _ => rfl))
set_option quotPrecheck false in
local notation "dstAN" => (((sR2).slice (Rect.unit (s := S2x128x128) ![0, 0, 0] S1x128x128.size inb_S2x128x128_S1x128x128_0_0_0) (fun _ => rfl)).squeeze S128x128 squeezes_S1x128x128_S128x128)
set_option quotPrecheck false in
local notation "dstBN" => (((sR2).slice (Rect.unit (s := S2x128x128) ![1, 0, 0] S1x128x128.size inb_S2x128x128_S1x128x128_1_0_0) (fun _ => rfl)).squeeze S128x128 squeezes_S1x128x128_S128x128)

omit [FloatOps F] in
theorem lt16a {k : ℕ} (h : k < 8) : 2 * k < 16 := by omega
omit [FloatOps F] in
theorem lt16b {k : ℕ} (h : k < 8) : 2 * k + 1 < 16 := by omega
variable (q : PosShare TreeShare) (Tb : Buf (Elt F) ((tabM2).view.loc (thr2 d L)))
  (tb : S802816x128.Idx → Elt F .f32) (ix : S2048.Idx → Elt F .i32)
  (g5 : Buf (Elt F) ((sI2).view.loc (thr2 d L))) (g6 : Buf (Elt F) ((sH2).view.loc (thr2 d L)))
  (O : CellTallies nD τ sig (HIx 2)) (W : Waits sig (HIx 2))

/-- A gather in flight on semaphore `sm`: it delivers the buffer's elements `Sd` at contents `gw`, the list's elements
    `So` and the table's share `qt` back. -/
def flight2 (sm : DmaSem sig) (Sd : Finset S2x128x128.Idx) (gw : Buf (Elt F) ((sR2).view.loc (thr2 d L))) (So : Finset S2048.Idx)
    (ql qt : PosShare TreeShare) : sProp 𝕄 :=
  Transfers.Flight countersEmb (thr2 d L) (SemLoc.dma sm) (default : HIx 2) 524288
    iprop((((sR2).view.loc (thr2 d L) ↦[Sd]{fullShare} gw) ∗ ((sI2).view.loc (thr2 d L) ↦[So]{ql} g5))
      ∗ ((tabM2).view.loc (thr2 d L) ↦[((tabSlN).view.set : Finset S802816x128.Idx)]{qt} Tb))

/-- Before trip `k < 8` of the ring: the gathers of chunks `2 k` and `2 k + 1` in flight, the block of sums done
    below row `8 k`. -/
def ringBusy2 (k : ℕ) (hk : k < 8) : sProp 𝕄 :=
  iprop(∃ (gA gB gR : Buf (Elt F) ((sR2).view.loc (thr2 d L))) (g8 : Buf (Elt F) ((sO2).view.loc (thr2 d L))) (W' : Waits sig (HIx 2))
      (pA pB : S128x128.Idx → Elt F .f32),
    owes (thr2 d L) O W' ∗ ((sH2).view.loc (thr2 d L) ↦{fullShare} g6) ∗ ((sO2).view.loc (thr2 d L) ↦{fullShare} g8)
    ∗ Aside ((tabM2).view.loc (thr2 d L) ↦[(tabM2).view.set \ ((tabSlN).view.set : Finset S802816x128.Idx)]{q.left} Tb)
    ∗ Aside ((tabM2).view.loc (thr2 d L) ↦[(tabM2).view.set \ ((tabSlN).view.set : Finset S802816x128.Idx)]{q.right} Tb)
    ∗ flight2 d L Tb g5 cc2_scratch4.sem ((dstAN).view.set : Finset S2x128x128.Idx) ((dstAN).view.write (Elt F) gA pA Finset.univ) (((offsC2 (2 * k) (lt16a hk)).view.set : Finset S2048.Idx)) fullShare.left q.left
    ∗ flight2 d L Tb g5 cc2_scratch5.sem ((dstBN).view.set : Finset S2x128x128.Idx) ((dstBN).view.write (Elt F) gB pB Finset.univ) (((offsC2 (2 * k + 1) (lt16b hk)).view.set : Finset S2048.Idx)) fullShare.right q.right
    ∗ Aside ((sR2).view.loc (thr2 d L) ↦[(Finset.univ \ ((dstAN).view.set : Finset S2x128x128.Idx)) \ ((dstBN).view.set : Finset S2x128x128.Idx)]{fullShare} gR)
    ∗ Aside ((sI2).view.loc (thr2 d L) ↦[Finset.univ \ ((offsC2 (2 * k) (lt16a hk)).view.set : Finset S2048.Idx)]{fullShare.left} g5)
    ∗ Aside ((sI2).view.loc (thr2 d L) ↦[Finset.univ \ ((offsC2 (2 * k + 1) (lt16b hk)).view.set : Finset S2048.Idx)]{fullShare.right} g5)
    ∗ ⌜(∀ p ∈ W', p ∈ W ∨ p.2 = none) ∧ OutOK2 tb ix k ((sO2).view.read (Elt F) g8)
        ∧ pA = gathSpec2 tb ix (2 * k) ∧ pB = gathSpec2 tb ix (2 * k + 1)⌝)

/-- After the last trip: nothing in flight, the block of sums done. -/
def ringDone2 : sProp 𝕄 :=
  iprop(∃ (gR : Buf (Elt F) ((sR2).view.loc (thr2 d L))) (g8 : Buf (Elt F) ((sO2).view.loc (thr2 d L))) (W' : Waits sig (HIx 2)),
    owes (thr2 d L) O W' ∗ ((sH2).view.loc (thr2 d L) ↦{fullShare} g6) ∗ ((sO2).view.loc (thr2 d L) ↦{fullShare} g8)
    ∗ Aside ((tabM2).view.loc (thr2 d L) ↦[(tabM2).view.set \ ((tabSlN).view.set : Finset S802816x128.Idx)]{q.left} Tb)
    ∗ Aside ((tabM2).view.loc (thr2 d L) ↦[(tabM2).view.set \ ((tabSlN).view.set : Finset S802816x128.Idx)]{q.right} Tb)
    ∗ semVal (cellA2 d L) 0 ∗ semVal (cellB2 d L) 0
    ∗ ((sR2).view.loc (thr2 d L) ↦{fullShare} gR) ∗ ((sI2).view.loc (thr2 d L) ↦{fullShare} g5)
    ∗ ((tabM2).view.loc (thr2 d L) ↦[((tabSlN).view.set : Finset S802816x128.Idx)]{q.left} Tb) ∗ ((tabM2).view.loc (thr2 d L) ↦[((tabSlN).view.set : Finset S802816x128.Idx)]{q.right} Tb)
    ∗ ⌜(∀ p ∈ W', p ∈ W ∨ p.2 = none) ∧ OutOK2 tb ix 8 ((sO2).view.read (Elt F) g8)⌝)

/-- The ring loop's invariant. -/
def ringInv2 (k : ℕ) (_ : Unit) : sProp 𝕄 :=
  if h : k < 8 then ringBusy2 d L q Tb tb ix g5 g6 O W k h else ringDone2 d L q Tb tb ix g5 g6 O W

end Cert.Proof.KB

end
-- ==== Proof.KB.Tile2Chunks.lean ====
/-
  The index list of a vector subcore's task cut into its sixteen chunks of 128 words: the chunks the two gathers of
  the next trip name are the chunks `2 (k + 1)` and `2 (k + 1) + 1`, they lie outside the two chunks of trip `k`, and
  the list held in those pieces is the list held whole; likewise the two gather buffers and the rest of the scratch of
  gathered rows.
-/
import proofs.«219250_g10247791969013_week1_w1_750_27_alg».proof.Proof.KB.Tile2Ring

noncomputable section

namespace Cert.Proof.KB

open Cert.Proof.KI

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The chunks as intervals of positions -/

/-- The 128 words from position `q` of the list: a word belongs to them when its position is in `[q, q + 128)`. -/
theorem mem_chunk2 (off : Fin 1 → ℕ) (inb : ∀ a, off a + S128.size a ≤ S2048.size a) (hs) (q : ℕ) (hoff : off = ![q]) (i : S2048.Idx) :
    i ∈ (((sI2).slice (Rect.unit (s := S2048) off S128.size inb) hs).view.set : Finset S2048.Idx)
      ↔ q ≤ (i 0).val ∧ (i 0).val < q + 128 := by
  subst hoff
  have hset : (((sI2).slice (Rect.unit (s := S2048) ![q] S128.size inb) hs).view.set : Finset S2048.Idx)
      = (Rect.unit (s := S2048) ![q] S128.size inb).set := View.set_slice_whole _ _
  rw [hset, Rect.mem_set_unit]
  constructor
  · intro h
    exact h 0
  · intro h a
    obtain rfl : a = 0 := Subsingleton.elim _ _
    exact h

/-- Chunk `c`. -/
abbrev C2 (c : ℕ) (h : c < 16) : Finset S2048.Idx := ((offsC2 c h).view.set : Finset S2048.Idx)
/-- The chunk the even slot's next gather names. -/
abbrev A29 (k : Fin k2_t2_loop.trips) (hc : k2_cond1 k = 1#1) : Finset S2048.Idx :=
  (((sI2).slice (Rect.unit (s := S2048) (k2_off29 k) S128.size (k2_off29_inb k hc)) (fun _ => rfl)).view.set : Finset S2048.Idx)
/-- The chunk the odd slot's next gather names. -/
abbrev B55 (k : Fin k2_t2_loop.trips) (hc2 : k2_cond2 k = 1#1) : Finset S2048.Idx :=
  (((sI2).slice (Rect.unit (s := S2048) (k2_off55 k) S128.size (k2_off55_inb k hc2)) (fun _ => rfl)).view.set : Finset S2048.Idx)

theorem mem_C2 (c : ℕ) (h : c < 16) (i : S2048.Idx) : i ∈ C2 c h ↔ 128 * c ≤ (i 0).val ∧ (i 0).val < 128 * c + 128 :=
  mem_chunk2 _ _ _ (128 * c) rfl i
theorem mem_A29 (k : Fin k2_t2_loop.trips) (hc : k2_cond1 k = 1#1) (i : S2048.Idx) :
    i ∈ A29 k hc ↔ 256 * k.val + 256 ≤ (i 0).val ∧ (i 0).val < 256 * k.val + 256 + 128 :=
  mem_chunk2 _ _ _ (256 * k.val + 256) (k2_off29_eq k) i
theorem mem_B55 (k : Fin k2_t2_loop.trips) (hc2 : k2_cond2 k = 1#1) (i : S2048.Idx) :
    i ∈ B55 k hc2 ↔ 256 * k.val + 384 ≤ (i 0).val ∧ (i 0).val < 256 * k.val + 384 + 128 :=
  mem_chunk2 _ _ _ (256 * k.val + 384) (k2_off55_eq k) i

/-- The even slot's next chunk lies outside the two chunks of trip `k`. -/
theorem chunkA_sub2 (k : Fin k2_t2_loop.trips) (hc : k2_cond1 k = 1#1) :
    A29 k hc ⊆ (Finset.univ \ C2 (2 * k.val) (lt16a k.isLt)) \ C2 (2 * k.val + 1) (lt16b k.isLt) := by
  intro i hi
  rw [mem_A29] at hi
  rw [Finset.mem_sdiff, Finset.mem_sdiff, mem_C2, mem_C2]
  exact ⟨⟨Finset.mem_univ _, by omega⟩, by omega⟩

/-- The odd slot's next chunk lies outside those two and outside the even slot's next chunk. -/
theorem chunkB_sub2 (k : Fin k2_t2_loop.trips) (hc : k2_cond1 k = 1#1) (hc2 : k2_cond2 k = 1#1) :
    B55 k hc2 ⊆ ((Finset.univ \ C2 (2 * k.val) (lt16a k.isLt)) \ C2 (2 * k.val + 1) (lt16b k.isLt)) \ A29 k hc := by
  intro i hi
  rw [mem_B55] at hi
  rw [Finset.mem_sdiff, Finset.mem_sdiff, Finset.mem_sdiff, mem_C2, mem_C2, mem_A29]
  exact ⟨⟨⟨Finset.mem_univ _, by omega⟩, by omega⟩, by omega⟩

/-- The even slot's next chunk is chunk `2 (k + 1)`. -/
theorem eqA2 (k : Fin k2_t2_loop.trips) (hc : k2_cond1 k = 1#1) (hk7 : k.val + 1 < 8) :
    A29 k hc = C2 (2 * (k.val + 1)) (lt16a hk7) := by
  ext i
  rw [mem_A29, mem_C2]
  omega

/-- The odd slot's next chunk is chunk `2 (k + 1) + 1`. -/
theorem eqB2 (k : Fin k2_t2_loop.trips) (hc2 : k2_cond2 k = 1#1) (hk7 : k.val + 1 < 8) :
    B55 k hc2 = C2 (2 * (k.val + 1) + 1) (lt16b hk7) := by
  ext i
  rw [mem_B55, mem_C2]
  omega

/-! ## The list held in pieces is the list held -/

variable (d : Dev nD) (L : grid2.Coords)

/-- The two chunks of trip `k` and the rest of the list less the two chunks named next: the list less those two. -/
theorem chunks_rejoin2 (k : Fin k2_t2_loop.trips) (hc : k2_cond1 k = 1#1) (hc2 : k2_cond2 k = 1#1)
    (g5 : Buf (Elt F) ((sI2).view.loc (thr2 d L))) :
    iprop(((sI2).view.loc (thr2 d L) ↦[C2 (2 * k.val) (lt16a k.isLt)]{fullShare} g5)
        ∗ ((sI2).view.loc (thr2 d L) ↦[C2 (2 * k.val + 1) (lt16b k.isLt)]{fullShare} g5)
        ∗ ((sI2).view.loc (thr2 d L) ↦[(((Finset.univ \ C2 (2 * k.val) (lt16a k.isLt)) \ C2 (2 * k.val + 1) (lt16b k.isLt)) \ A29 k hc) \ B55 k hc2]{fullShare} g5))
      ⊢ ((sI2).view.loc (thr2 d L) ↦[(Finset.univ \ A29 k hc) \ B55 k hc2]{fullShare} g5 : sProp 𝕄) := by
  have hd1 : Disjoint (C2 (2 * k.val + 1) (lt16b k.isLt))
      ((((Finset.univ \ C2 (2 * k.val) (lt16a k.isLt)) \ C2 (2 * k.val + 1) (lt16b k.isLt)) \ A29 k hc) \ B55 k hc2) := by
    refine Finset.disjoint_left.mpr fun i h1 h2 => ?_
    rw [Finset.mem_sdiff, Finset.mem_sdiff, Finset.mem_sdiff] at h2
    exact h2.1.1.2 h1
  have hd0 : Disjoint (C2 (2 * k.val) (lt16a k.isLt))
      (C2 (2 * k.val + 1) (lt16b k.isLt) ∪
        ((((Finset.univ \ C2 (2 * k.val) (lt16a k.isLt)) \ C2 (2 * k.val + 1) (lt16b k.isLt)) \ A29 k hc) \ B55 k hc2)) := by
    refine Finset.disjoint_left.mpr fun i h1 h2 => ?_
    rcases Finset.mem_union.mp h2 with h2 | h2
    · rw [mem_C2] at h1 h2; omega
    · rw [Finset.mem_sdiff, Finset.mem_sdiff, Finset.mem_sdiff, Finset.mem_sdiff] at h2
      exact h2.1.1.1.2 h1
  have hset : C2 (2 * k.val) (lt16a k.isLt) ∪ (C2 (2 * k.val + 1) (lt16b k.isLt) ∪
        ((((Finset.univ \ C2 (2 * k.val) (lt16a k.isLt)) \ C2 (2 * k.val + 1) (lt16b k.isLt)) \ A29 k hc) \ B55 k hc2))
      = (Finset.univ \ A29 k hc) \ B55 k hc2 := by
    ext i
    simp only [Finset.mem_union, Finset.mem_sdiff, Finset.mem_univ, true_and]
    rw [mem_C2, mem_C2, mem_A29, mem_B55]
    constructor
    · rintro (h | h | h)
      · constructor <;> omega
      · constructor <;> omega
      · exact ⟨h.1.2, h.2⟩
    · intro h
      by_cases h0 : 128 * (2 * k.val) ≤ (i 0).val ∧ (i 0).val < 128 * (2 * k.val) + 128
      · exact .inl h0
      · by_cases h1 : 128 * (2 * k.val + 1) ≤ (i 0).val ∧ (i 0).val < 128 * (2 * k.val + 1) + 128
        · exact .inr (.inl h1)
        · exact .inr (.inr ⟨⟨⟨h0, h1⟩, h.1⟩, h.2⟩)
  refine (sep_mono_right (pointsTo_union hd1).2).trans (((pointsTo_union hd0).2).trans (Entails.of_eq ?_))
  rw [hset]

/-- At the last trip: the two chunks and the rest are the whole list. -/
theorem chunks_rejoin_last2 (k : Fin k2_t2_loop.trips) (g5 : Buf (Elt F) ((sI2).view.loc (thr2 d L))) :
    iprop(((sI2).view.loc (thr2 d L) ↦[C2 (2 * k.val) (lt16a k.isLt)]{fullShare} g5)
        ∗ ((sI2).view.loc (thr2 d L) ↦[C2 (2 * k.val + 1) (lt16b k.isLt)]{fullShare} g5)
        ∗ ((sI2).view.loc (thr2 d L) ↦[(Finset.univ \ C2 (2 * k.val) (lt16a k.isLt)) \ C2 (2 * k.val + 1) (lt16b k.isLt)]{fullShare} g5))
      ⊢ ((sI2).view.loc (thr2 d L) ↦{fullShare} g5 : sProp 𝕄) := by
  have h1 : C2 (2 * k.val + 1) (lt16b k.isLt) ⊆ Finset.univ \ C2 (2 * k.val) (lt16a k.isLt) := by
    intro i hi
    rw [Finset.mem_sdiff]
    refine ⟨Finset.mem_univ _, fun h0 => ?_⟩
    rw [mem_C2] at hi h0
    omega
  exact (sep_mono_right (pointsTo_split_subset h1).2).trans (pointsTo_split_subset (Finset.subset_univ _)).2

/-! ## The two gather buffers and the rest of the scratch -/

omit [FloatOps F] in
/-- An element of the even buffer is in slot 0, one of the odd buffer in slot 1. -/
theorem mem_dstA2 (x : S2x128x128.Idx) (hx : x ∈ ((dstA2).view.set : Finset S2x128x128.Idx)) : (x 0).val = 0 := by
  rw [Memref.set_view_squeeze] at hx
  have hset : (((sR2).slice (Rect.unit (s := S2x128x128) ![0, 0, 0] S1x128x128.size inb_S2x128x128_S1x128x128_0_0_0) (fun _ => rfl)).view.set : Finset S2x128x128.Idx)
      = (Rect.unit (s := S2x128x128) ![0, 0, 0] S1x128x128.size inb_S2x128x128_S1x128x128_0_0_0).set := View.set_slice_whole _ _
  rw [hset, Rect.mem_set_unit] at hx
  have h0 := hx 0
  have e0 : (![0, 0, 0] : Fin 3 → ℕ) 0 = 0 := rfl
  have s0 : S1x128x128.size 0 = 1 := rfl
  rw [e0, s0] at h0
  omega

omit [FloatOps F] in
theorem mem_dstB2 (x : S2x128x128.Idx) (hx : x ∈ ((dstB2).view.set : Finset S2x128x128.Idx)) : (x 0).val = 1 := by
  rw [Memref.set_view_squeeze] at hx
  have hset : (((sR2).slice (Rect.unit (s := S2x128x128) ![1, 0, 0] S1x128x128.size inb_S2x128x128_S1x128x128_1_0_0) (fun _ => rfl)).view.set : Finset S2x128x128.Idx)
      = (Rect.unit (s := S2x128x128) ![1, 0, 0] S1x128x128.size inb_S2x128x128_S1x128x128_1_0_0).set := View.set_slice_whole _ _
  rw [hset, Rect.mem_set_unit] at hx
  have h0 := hx 0
  have e0 : (![1, 0, 0] : Fin 3 → ℕ) 0 = 1 := rfl
  have s0 : S1x128x128.size 0 = 1 := rfl
  rw [e0, s0] at h0
  omega

/-- The two gather buffers and the rest of the scratch are the scratch, whole, at some contents. -/
theorem slots_rejoin2 (fA fB fR : Buf (Elt F) ((sR2).view.loc (thr2 d L))) :
    iprop(((sR2).view.loc (thr2 d L) ↦[(dstA2).view.set]{fullShare} fA) ∗ ((sR2).view.loc (thr2 d L) ↦[(dstB2).view.set]{fullShare} fB)
        ∗ ((sR2).view.loc (thr2 d L) ↦[(Finset.univ \ (dstA2).view.set) \ (dstB2).view.set]{fullShare} fR))
      ⊢ (∃ f, (sR2).view.loc (thr2 d L) ↦{fullShare} f : sProp 𝕄) := by
  have hB : ((dstB2).view.set : Finset S2x128x128.Idx) ⊆ Finset.univ \ ((dstA2).view.set : Finset S2x128x128.Idx) := by
    intro x hx
    rw [Finset.mem_sdiff]
    refine ⟨Finset.mem_univ _, fun hA => ?_⟩
    have h0 := mem_dstA2 x hA
    have h1 := mem_dstB2 x hx
    omega
  refine (sep_mono_right (pointsTo_join_subset hB)).trans ((pointsTo_join_subset (Finset.subset_univ _)).trans ?_)
  iintro H
  iexists _
  iexact H

end Cert.Proof.KB

end
-- ==== Proof.KB.Tile2Chunks2.lean ====
/-
  The two gather buffers of a vector subcore's task share no element.
-/
import proofs.«219250_g10247791969013_week1_w1_750_27_alg».proof.Proof.KB.Tile2Chunks

noncomputable section

namespace Cert.Proof.KB

open Cert.Proof.KI

open Cert.Kernel Cert.Kernel.Gen

open Idealize.ShloMosaic

/-- The even buffer's elements lie outside the odd buffer. -/
theorem disjAB2 : ((dstA2).view.set : Finset S2x128x128.Idx) ⊆ Finset.univ \ ((dstB2).view.set : Finset S2x128x128.Idx) := by
  intro x hx
  rw [Finset.mem_sdiff]
  refine ⟨Finset.mem_univ _, fun hB => ?_⟩
  have h0 := mem_dstA2 x hx
  have h1 := mem_dstB2 x hB
  omega

/-- The odd buffer's elements lie outside the even buffer. -/
theorem disjBA2 : ((dstB2).view.set : Finset S2x128x128.Idx) ⊆ Finset.univ \ ((dstA2).view.set : Finset S2x128x128.Idx) := by
  intro x hx
  rw [Finset.mem_sdiff]
  refine ⟨Finset.mem_univ _, fun hA => ?_⟩
  have h0 := mem_dstA2 x hA
  have h1 := mem_dstB2 x hx
  omega

end Cert.Proof.KB

end
-- ==== Proof.KB.Tile2Stores2.lean ====
/-
  Four 16-lane stores of four accumulators into one row of a 64 × 128 block, on top of earlier stores: inside the 64
  lanes written the block holds the accumulators' lanes, elsewhere what the earlier stores left.
-/
import proofs.«219250_g10247791969013_week1_w1_750_27_alg».proof.Proof.KB.Tile2Stores

noncomputable section

namespace Cert.Proof.KB

open Cert.Proof.KI

open Cert.Kernel Cert.Kernel.Gen

open Idealize.ShloMosaic
open Idealize.ShloMosaic.ValueIdx

variable {F : FTy → Type} [FloatOps F]

/-- The four stores after an accumulate loop (the last listed first) on top of earlier pieces `L`: row `row`, lanes
    `c0 … c0 + 63` hold lane `(λ - c0) mod 16` of accumulator `(λ - c0) / 16`; every other element is as the earlier
    pieces left it. -/
theorem read_four_stores_cons {κ : Kind} {sp : Space} (v : View sig κ sp S64x128 .f32) (g : v.ty.Contents (Elt F)) (a : Acc4 F)
    (row c0 : ℕ) (o0 o1 o2 o3 : Fin 2 → ℕ)
    (i0 : ∀ b, o0 b + S1x16.size b ≤ S64x128.size b) (i1 : ∀ b, o1 b + S1x16.size b ≤ S64x128.size b)
    (i2 : ∀ b, o2 b + S1x16.size b ≤ S64x128.size b) (i3 : ∀ b, o3 b + S1x16.size b ≤ S64x128.size b)
    (h0 : o0 = ![row, c0]) (h1 : o1 = ![row, c0 + 16]) (h2 : o2 = ![row, c0 + 32]) (h3 : o3 = ![row, c0 + 48])
    (hsc : SL16.ShapeCasts S1x16) (L : List (View.Piece (Elt F) S64x128 .f32)) (x : S64x128.Idx) :
    v.read (Elt F) (v.writes (Elt F) g
        (⟨Rect.unit (s := S64x128) o3 S1x16.size i3, shapeCast S1x16 a.2.2.2 hsc⟩ ::
         ⟨Rect.unit (s := S64x128) o2 S1x16.size i2, shapeCast S1x16 a.2.2.1 hsc⟩ ::
         ⟨Rect.unit (s := S64x128) o1 S1x16.size i1, shapeCast S1x16 a.2.1 hsc⟩ ::
         ⟨Rect.unit (s := S64x128) o0 S1x16.size i0, shapeCast S1x16 a.1 hsc⟩ :: L)) x
      = if h : (x 0).val = row ∧ c0 ≤ (x 1).val ∧ (x 1).val < c0 + 64
        then (a.get (((x 1).val - c0) / 16)) (ix1 (⟨((x 1).val - c0) % 16, Nat.mod_lt _ (by decide)⟩ : Fin 16))
        else v.read (Elt F) (v.writes (Elt F) g L) x := by
  rw [read_piece1x16 v g a.2.2.2 o3 i3 row (c0 + 48) h3 hsc _ x]
  split
  · rename_i q3
    rw [dif_pos ⟨q3.1, by omega, by omega⟩]
    have e : ((x 1).val - c0) / 16 = 3 := by omega
    rw [e]
    refine congrArg (fun i : Fin 16 => a.2.2.2 (ix1 i)) (Fin.ext ?_)
    show (x 1).val - (c0 + 48) = ((x 1).val - c0) % 16
    omega
  · rename_i q3
    rw [read_piece1x16 v g a.2.2.1 o2 i2 row (c0 + 32) h2 hsc _ x]
    split
    · rename_i q2
      rw [dif_pos ⟨q2.1, by omega, by omega⟩]
      have e : ((x 1).val - c0) / 16 = 2 := by omega
      rw [e]
      refine congrArg (fun i : Fin 16 => a.2.2.1 (ix1 i)) (Fin.ext ?_)
      show (x 1).val - (c0 + 32) = ((x 1).val - c0) % 16
      omega
    · rename_i q2
      rw [read_piece1x16 v g a.2.1 o1 i1 row (c0 + 16) h1 hsc _ x]
      split
      · rename_i q1
        rw [dif_pos ⟨q1.1, by omega, by omega⟩]
        have e : ((x 1).val - c0) / 16 = 1 := by omega
        rw [e]
        refine congrArg (fun i : Fin 16 => a.2.1 (ix1 i)) (Fin.ext ?_)
        show (x 1).val - (c0 + 16) = ((x 1).val - c0) % 16
        omega
      · rename_i q1
        rw [read_piece1x16 v g a.1 o0 i0 row c0 h0 hsc _ x]
        split
        · rename_i q0
          rw [dif_pos ⟨q0.1, by omega, by omega⟩]
          have e : ((x 1).val - c0) / 16 = 0 := by omega
          rw [e]
          refine congrArg (fun i : Fin 16 => a.1 (ix1 i)) (Fin.ext ?_)
          show (x 1).val - c0 = ((x 1).val - c0) % 16
          omega
        · rename_i q0
          rw [dif_neg (fun hh => by
            have := hh.1; have := hh.2.1; have := hh.2.2
            by_cases c3 : c0 + 48 ≤ (x 1).val
            · exact q3 ⟨hh.1, c3, by omega⟩
            · by_cases c2 : c0 + 32 ≤ (x 1).val
              · exact q2 ⟨hh.1, c2, by omega⟩
              · by_cases c1 : c0 + 16 ≤ (x 1).val
                · exact q1 ⟨hh.1, c1, by omega⟩
                · exact q0 ⟨hh.1, hh.2.1, by omega⟩)]

end Cert.Proof.KB

end
-- ==== Proof.KB.Tile2Blocks.lean ====
/-
  The block of sums after the stores of a whole trip: the stores come in blocks of four 16-lane pieces (one block per
  accumulate loop), each block covering 64 lanes of one row. An element some block covers reads the lane of the
  accumulator that block stored there; an element no block covers reads as before the trip. With the accumulators at
  their left folds, a covered element reads the task's entry.
-/
import proofs.«219250_g10247791969013_week1_w1_750_27_alg».proof.Proof.KB.Tile2Stores2
import proofs.«219250_g10247791969013_week1_w1_750_27_alg».proof.Proof.KB.Tile2Facts

noncomputable section

namespace Cert.Proof.KB

open Cert.Proof.KI

open Cert.Kernel Cert.Kernel.Gen

open Idealize.ShloMosaic
open Idealize.ShloMosaic.ValueIdx

variable {F : FTy → Type} [FloatOps F]

/-- One block of four stores: the row, the first lane, the four accumulators, and the four pieces' offsets with their
    in-bounds facts and closed forms. -/
structure Blk (F : FTy → Type) where
  row : ℕ
  c0 : ℕ
  a : Acc4 F
  o0 : Fin 2 → ℕ
  o1 : Fin 2 → ℕ
  o2 : Fin 2 → ℕ
  o3 : Fin 2 → ℕ
  i0 : ∀ b, o0 b + S1x16.size b ≤ S64x128.size b
  i1 : ∀ b, o1 b + S1x16.size b ≤ S64x128.size b
  i2 : ∀ b, o2 b + S1x16.size b ≤ S64x128.size b
  i3 : ∀ b, o3 b + S1x16.size b ≤ S64x128.size b
  h0 : o0 = ![row, c0]
  h1 : o1 = ![row, c0 + 16]
  h2 : o2 = ![row, c0 + 32]
  h3 : o3 = ![row, c0 + 48]

/-- The block's four pieces, the last stored first. -/
def Blk.pieces (b : Blk F) (hsc : SL16.ShapeCasts S1x16) : List (View.Piece (Elt F) S64x128 .f32) :=
  [⟨Rect.unit (s := S64x128) b.o3 S1x16.size b.i3, shapeCast S1x16 b.a.2.2.2 hsc⟩,
   ⟨Rect.unit (s := S64x128) b.o2 S1x16.size b.i2, shapeCast S1x16 b.a.2.2.1 hsc⟩,
   ⟨Rect.unit (s := S64x128) b.o1 S1x16.size b.i1, shapeCast S1x16 b.a.2.1 hsc⟩,
   ⟨Rect.unit (s := S64x128) b.o0 S1x16.size b.i0, shapeCast S1x16 b.a.1 hsc⟩]

/-- The block covers the element `x`. -/
def Blk.covers (b : Blk F) (x : S64x128.Idx) : Prop := (x 0).val = b.row ∧ b.c0 ≤ (x 1).val ∧ (x 1).val < b.c0 + 64

/-- What the block stored at an element it covers. -/
def Blk.at (b : Blk F) (x : S64x128.Idx) : F .f32 :=
  (b.a.get (((x 1).val - b.c0) / 16)) (ix1 (⟨((x 1).val - b.c0) % 16, Nat.mod_lt _ (by decide)⟩ : Fin 16))

/-- The pieces of a list of blocks, the last block first. -/
def blkPieces (hsc : SL16.ShapeCasts S1x16) : List (Blk F) → List (View.Piece (Elt F) S64x128 .f32)
  | [] => []
  | b :: bs => b.pieces hsc ++ blkPieces hsc bs

/-- One more block on top. -/
theorem read_blk_cons {κ : Kind} {sp : Space} (v : View sig κ sp S64x128 .f32) (g : v.ty.Contents (Elt F))
    (hsc : SL16.ShapeCasts S1x16) (b : Blk F) (bs : List (Blk F)) (x : S64x128.Idx) [Decidable (b.covers x)] :
    v.read (Elt F) (v.writes (Elt F) g (blkPieces hsc (b :: bs))) x
      = if b.covers x then b.at x else v.read (Elt F) (v.writes (Elt F) g (blkPieces hsc bs)) x := by
  have e := read_four_stores_cons v g b.a b.row b.c0 b.o0 b.o1 b.o2 b.o3 b.i0 b.i1 b.i2 b.i3 b.h0 b.h1 b.h2 b.h3 hsc
    (blkPieces hsc bs) x
  refine Eq.trans ?_ (e.trans ?_)
  · rfl
  · by_cases hc : b.covers x
    · have hc' : (x 0).val = b.row ∧ b.c0 ≤ (x 1).val ∧ (x 1).val < b.c0 + 64 := hc
      rw [if_pos hc, dif_pos hc']
      rfl
    · have hc' : ¬ ((x 0).val = b.row ∧ b.c0 ≤ (x 1).val ∧ (x 1).val < b.c0 + 64) := hc
      rw [if_neg hc, dif_neg hc']

/-- An element no block covers reads as before. -/
theorem read_blks_uncovered {κ : Kind} {sp : Space} (v : View sig κ sp S64x128 .f32) (g : v.ty.Contents (Elt F))
    (hsc : SL16.ShapeCasts S1x16) (x : S64x128.Idx) :
    ∀ bs : List (Blk F), (∀ b ∈ bs, ¬ b.covers x) → v.read (Elt F) (v.writes (Elt F) g (blkPieces hsc bs)) x = v.read (Elt F) g x
  | [], _ => rfl
  | b :: bs, h => by
    classical
    rw [read_blk_cons v g hsc b bs x, if_neg (h b List.mem_cons_self)]
    exact read_blks_uncovered v g hsc x bs fun b' hb' => h b' (List.mem_cons_of_mem _ hb')

/-- An element some block covers reads the value every covering block agrees on. -/
theorem read_blks_covered {κ : Kind} {sp : Space} (v : View sig κ sp S64x128 .f32) (g : v.ty.Contents (Elt F))
    (hsc : SL16.ShapeCasts S1x16) (x : S64x128.Idx) (val : F .f32) :
    ∀ bs : List (Blk F), (∃ b ∈ bs, b.covers x) → (∀ b ∈ bs, b.covers x → b.at x = val) →
      v.read (Elt F) (v.writes (Elt F) g (blkPieces hsc bs)) x = val
  | [], hex, _ => by obtain ⟨b, hb, _⟩ := hex; cases hb
  | b :: bs, hex, hval => by
    classical
    rw [read_blk_cons v g hsc b bs x]
    by_cases hc : b.covers x
    · rw [if_pos hc]; exact hval b List.mem_cons_self hc
    · rw [if_neg hc]
      refine read_blks_covered v g hsc x val bs ?_ fun b' hb' => hval b' (List.mem_cons_of_mem _ hb')
      obtain ⟨b', hb', hc'⟩ := hex
      rcases List.mem_cons.mp hb' with rfl | hb''
      · exact absurd hc' hc
      · exact ⟨b', hb'', hc'⟩

/-- A covered element of the block of batch row `bi` of chunk `chunk` reads the task's entry there, when the block's
    accumulators are the left folds over the chunk's gathered rows. -/
theorem blk_value2 (tb : S802816x128.Idx → Elt F .f32) (ix : S2048.Idx → Elt F .i32) (R : (SR 128).Idx → F .f32) (H : (SH 2064).Idx → BitVec 32)
    (slot chunk bi p₀ : ℕ) (hslot : slot < 2) (hchunk : chunk < 16) (hbi : bi < 8) (hp₀ : p₀ = 128 * chunk + 16 * bi)
    (hR : ∀ r c, r < 128 → c < 128 → at3 R slot r c = tbAt2 tb (gRow2 ix (128 * chunk + r)) c)
    (hH : ∀ p, p < 2048 → at1 H p = BitVec.ofNat 32 (p % 16 % 2 * 64))
    (b : Blk F) (hrow : b.row = 4 * chunk + bi / 2) (hc0 : b.c0 = bi % 2 * 64) (ha : b.a = accAt R H slot (16 * bi) p₀ 16)
    (x : S64x128.Idx) (hx : b.covers x) : b.at x = OUT2 tb ix x := by
  obtain ⟨h0, h1, h2⟩ := hx
  unfold Blk.at
  rw [ha, acc_value2 tb ix R H slot chunk bi p₀ hslot hchunk hbi hp₀ hR hH (((x 1).val - b.c0) / 16) (by omega)
    (ix1 (⟨((x 1).val - b.c0) % 16, Nat.mod_lt _ (by decide)⟩ : Fin 16))]
  congr 1
  funext a
  match a with
  | ⟨0, _⟩ => exact Fin.ext (show 4 * chunk + bi / 2 = (x 0).val by omega)
  | ⟨1, _⟩ => exact Fin.ext (show bi % 2 * 64 + 16 * (((x 1).val - b.c0) / 16) + ((x 1).val - b.c0) % 16 = (x 1).val by omega)

end Cert.Proof.KB

end
-- ==== Proof.KB.Tile2OutStep.lean ====
/-
  One trip of the ring completes eight more rows of the block of sums: if before the trip the block is done below row
  `8 k`, the trip's blocks of stores touch only rows `8 k … 8 k + 7`, cover each of their elements, and store the
  task's entries, then after the trip the block is done below row `8 (k + 1)`.
-/
import proofs.«219250_g10247791969013_week1_w1_750_27_alg».proof.Proof.KB.Tile2Blocks
import proofs.«219250_g10247791969013_week1_w1_750_27_alg».proof.Proof.KB.Tile2RingDefs

noncomputable section

namespace Cert.Proof.KB

open Cert.Proof.KI

open Cert.Kernel Cert.Kernel.Gen

open Idealize.ShloMosaic
open Idealize.ShloMosaic.ValueIdx

variable {F : FTy → Type} [FloatOps F]

theorem outOK_step2 {κ : Kind} {sp : Space} (v : View sig κ sp S64x128 .f32) (g : v.ty.Contents (Elt F))
    (tb : S802816x128.Idx → Elt F .f32) (ix : S2048.Idx → Elt F .i32) (k : ℕ)
    (hsc : SL16.ShapeCasts S1x16) (bs : List (Blk F))
    (hprev : OutOK2 tb ix k (v.read (Elt F) g))
    (hrows : ∀ b ∈ bs, 8 * k ≤ b.row)
    (hcover : ∀ x : S64x128.Idx, 8 * k ≤ (x 0).val → (x 0).val < 8 * (k + 1) → ∃ b ∈ bs, b.covers x)
    (hval : ∀ b ∈ bs, ∀ x : S64x128.Idx, b.covers x → b.at x = OUT2 tb ix x) :
    OutOK2 tb ix (k + 1) (v.read (Elt F) (v.writes (Elt F) g (blkPieces hsc bs))) := by
  intro x hx
  by_cases hlow : (x 0).val < 8 * k
  · rw [read_blks_uncovered v g hsc x bs (fun b hb hc => by
      have h1 := hrows b hb
      have h2 : (x 0).val = b.row := hc.1
      omega)]
    exact hprev x hlow
  · exact read_blks_covered v g hsc x _ bs (hcover x (by omega) hx) (fun b hb hc => hval b hb x hc)

end Cert.Proof.KB

end
-- ==== Proof.KB.Tile2TripOut.lean ====
/-
  The block of sums after one whole trip of the ring: the sixty-four 16-lane stores of the trip (sixteen accumulate
  loops, four stores each, the last listed first) complete rows `8 k … 8 k + 7`, given that before the trip the block
  was done below row `8 k`, that the two gather buffers hold the rows the list names for chunks `2 k` and `2 k + 1`,
  that the lane offsets are in place, and that each loop's accumulators are its left folds.
-/
import proofs.«219250_g10247791969013_week1_w1_750_27_alg».proof.Proof.KB.Tile2Facts2
import proofs.«219250_g10247791969013_week1_w1_750_27_alg».proof.Proof.Gen.Kernel.Skeleton
import proofs.«219250_g10247791969013_week1_w1_750_27_alg».proof.Proof.KB.Tile2OutStep

set_option maxRecDepth 65536

noncomputable section

namespace Cert.Proof.KB

open Cert.Proof.KI

open Cert.Kernel Cert.Kernel.Gen

open Idealize.ShloMosaic
open Idealize.ShloMosaic.ValueIdx

variable {F : FTy → Type} [FloatOps F]

set_option maxHeartbeats 4000000 in
theorem trip_out2 (k : Fin k2_t2_loop.trips) (tb : S802816x128.Idx → Elt F .f32) (ix : S2048.Idx → Elt F .i32)
    (g8 : (sO2).view.ty.Contents (Elt F)) (gA gB : (sR2).view.ty.Contents (Elt F)) (pA pB : S128x128.Idx → Elt F .f32)
    (g6 : (sH2).view.ty.Contents (Elt F)) (acc3 acc4 acc5 acc6 acc7 acc8 acc9 acc10 acc11 acc12 acc13 acc14 acc15 acc16 acc17 acc18 : Acc4 F)
    (hprev : OutOK2 tb ix k.val ((sO2).view.read (Elt F) g8))
    (hpA : pA = gathSpec2 tb ix (2 * k.val)) (hpB : pB = gathSpec2 tb ix (2 * k.val + 1))
    (hg6 : XI6 ((sH2).view.read (Elt F) g6) 128)
    (hacc3 : acc3 = accAt ((sR2).view.read (Elt F) ((dstA2).view.write (Elt F) gA pA Finset.univ)) ((sH2).view.read (Elt F) g6) 0 0 (256 * k.val + 0) (Scf.trips k2_t3_loop.lb k2_t3_loop.ub k2_t3_loop.st))
    (hacc4 : acc4 = accAt ((sR2).view.read (Elt F) ((dstA2).view.write (Elt F) gA pA Finset.univ)) ((sH2).view.read (Elt F) g6) 0 16 (256 * k.val + 16) (Scf.trips k2_t4_loop.lb k2_t4_loop.ub k2_t4_loop.st))
    (hacc5 : acc5 = accAt ((sR2).view.read (Elt F) ((dstA2).view.write (Elt F) gA pA Finset.univ)) ((sH2).view.read (Elt F) g6) 0 32 (256 * k.val + 32) (Scf.trips k2_t5_loop.lb k2_t5_loop.ub k2_t5_loop.st))
    (hacc6 : acc6 = accAt ((sR2).view.read (Elt F) ((dstA2).view.write (Elt F) gA pA Finset.univ)) ((sH2).view.read (Elt F) g6) 0 48 (256 * k.val + 48) (Scf.trips k2_t6_loop.lb k2_t6_loop.ub k2_t6_loop.st))
    (hacc7 : acc7 = accAt ((sR2).view.read (Elt F) ((dstA2).view.write (Elt F) gA pA Finset.univ)) ((sH2).view.read (Elt F) g6) 0 64 (256 * k.val + 64) (Scf.trips k2_t7_loop.lb k2_t7_loop.ub k2_t7_loop.st))
    (hacc8 : acc8 = accAt ((sR2).view.read (Elt F) ((dstA2).view.write (Elt F) gA pA Finset.univ)) ((sH2).view.read (Elt F) g6) 0 80 (256 * k.val + 80) (Scf.trips k2_t8_loop.lb k2_t8_loop.ub k2_t8_loop.st))
    (hacc9 : acc9 = accAt ((sR2).view.read (Elt F) ((dstA2).view.write (Elt F) gA pA Finset.univ)) ((sH2).view.read (Elt F) g6) 0 96 (256 * k.val + 96) (Scf.trips k2_t9_loop.lb k2_t9_loop.ub k2_t9_loop.st))
    (hacc10 : acc10 = accAt ((sR2).view.read (Elt F) ((dstA2).view.write (Elt F) gA pA Finset.univ)) ((sH2).view.read (Elt F) g6) 0 112 (256 * k.val + 112) (Scf.trips k2_t10_loop.lb k2_t10_loop.ub k2_t10_loop.st))
    (hacc11 : acc11 = accAt ((sR2).view.read (Elt F) ((dstB2).view.write (Elt F) gB pB Finset.univ)) ((sH2).view.read (Elt F) g6) 1 0 (256 * k.val + 128) (Scf.trips k2_t11_loop.lb k2_t11_loop.ub k2_t11_loop.st))
    (hacc12 : acc12 = accAt ((sR2).view.read (Elt F) ((dstB2).view.write (Elt F) gB pB Finset.univ)) ((sH2).view.read (Elt F) g6) 1 16 (256 * k.val + 144) (Scf.trips k2_t12_loop.lb k2_t12_loop.ub k2_t12_loop.st))
    (hacc13 : acc13 = accAt ((sR2).view.read (Elt F) ((dstB2).view.write (Elt F) gB pB Finset.univ)) ((sH2).view.read (Elt F) g6) 1 32 (256 * k.val + 160) (Scf.trips k2_t13_loop.lb k2_t13_loop.ub k2_t13_loop.st))
    (hacc14 : acc14 = accAt ((sR2).view.read (Elt F) ((dstB2).view.write (Elt F) gB pB Finset.univ)) ((sH2).view.read (Elt F) g6) 1 48 (256 * k.val + 176) (Scf.trips k2_t14_loop.lb k2_t14_loop.ub k2_t14_loop.st))
    (hacc15 : acc15 = accAt ((sR2).view.read (Elt F) ((dstB2).view.write (Elt F) gB pB Finset.univ)) ((sH2).view.read (Elt F) g6) 1 64 (256 * k.val + 192) (Scf.trips k2_t15_loop.lb k2_t15_loop.ub k2_t15_loop.st))
    (hacc16 : acc16 = accAt ((sR2).view.read (Elt F) ((dstB2).view.write (Elt F) gB pB Finset.univ)) ((sH2).view.read (Elt F) g6) 1 80 (256 * k.val + 208) (Scf.trips k2_t16_loop.lb k2_t16_loop.ub k2_t16_loop.st))
    (hacc17 : acc17 = accAt ((sR2).view.read (Elt F) ((dstB2).view.write (Elt F) gB pB Finset.univ)) ((sH2).view.read (Elt F) g6) 1 96 (256 * k.val + 224) (Scf.trips k2_t17_loop.lb k2_t17_loop.ub k2_t17_loop.st))
    (hacc18 : acc18 = accAt ((sR2).view.read (Elt F) ((dstB2).view.write (Elt F) gB pB Finset.univ)) ((sH2).view.read (Elt F) g6) 1 112 (256 * k.val + 240) (Scf.trips k2_t18_loop.lb k2_t18_loop.ub k2_t18_loop.st)) :
    OutOK2 tb ix (k.val + 1) ((sO2).view.read (Elt F) ((sO2).view.writes (Elt F) g8
      ([⟨Rect.unit (s := S64x128) (k2_off42 k 3#32) S1x16.size (k2_off42_inb k 3), k2_pay208 acc18.2.2.2⟩,
        ⟨Rect.unit (s := S64x128) (k2_off41 k 3#32) S1x16.size (k2_off41_inb k 3), k2_pay207 acc18.2.2.1⟩,
        ⟨Rect.unit (s := S64x128) (k2_off40 k 3#32) S1x16.size (k2_off40_inb k 3), k2_pay206 acc18.2.1⟩,
        ⟨Rect.unit (s := S64x128) (k2_off39 k 3#32) S1x16.size (k2_off39_inb k 3), k2_pay205 acc18.1⟩,
        ⟨Rect.unit (s := S64x128) (k2_off36 k 3#32) S1x16.size (k2_off36_inb k 3), k2_pay195 acc17.2.2.2⟩,
        ⟨Rect.unit (s := S64x128) (k2_off35 k 3#32) S1x16.size (k2_off35_inb k 3), k2_pay194 acc17.2.2.1⟩,
        ⟨Rect.unit (s := S64x128) (k2_off34 k 3#32) S1x16.size (k2_off34_inb k 3), k2_pay193 acc17.2.1⟩,
        ⟨Rect.unit (s := S64x128) (k2_off33 k 3#32) S1x16.size (k2_off33_inb k 3), k2_pay192 acc17.1⟩,
        ⟨Rect.unit (s := S64x128) (k2_off42 k 2#32) S1x16.size (k2_off42_inb k 2), k2_pay182 acc16.2.2.2⟩,
        ⟨Rect.unit (s := S64x128) (k2_off41 k 2#32) S1x16.size (k2_off41_inb k 2), k2_pay181 acc16.2.2.1⟩,
        ⟨Rect.unit (s := S64x128) (k2_off40 k 2#32) S1x16.size (k2_off40_inb k 2), k2_pay180 acc16.2.1⟩,
        ⟨Rect.unit (s := S64x128) (k2_off39 k 2#32) S1x16.size (k2_off39_inb k 2), k2_pay179 acc16.1⟩,
        ⟨Rect.unit (s := S64x128) (k2_off36 k 2#32) S1x16.size (k2_off36_inb k 2), k2_pay169 acc15.2.2.2⟩,
        ⟨Rect.unit (s := S64x128) (k2_off35 k 2#32) S1x16.size (k2_off35_inb k 2), k2_pay168 acc15.2.2.1⟩,
        ⟨Rect.unit (s := S64x128) (k2_off34 k 2#32) S1x16.size (k2_off34_inb k 2), k2_pay167 acc15.2.1⟩,
        ⟨Rect.unit (s := S64x128) (k2_off33 k 2#32) S1x16.size (k2_off33_inb k 2), k2_pay166 acc15.1⟩,
        ⟨Rect.unit (s := S64x128) (k2_off42 k 1#32) S1x16.size (k2_off42_inb k 1), k2_pay156 acc14.2.2.2⟩,
        ⟨Rect.unit (s := S64x128) (k2_off41 k 1#32) S1x16.size (k2_off41_inb k 1), k2_pay155 acc14.2.2.1⟩,
        ⟨Rect.unit (s := S64x128) (k2_off40 k 1#32) S1x16.size (k2_off40_inb k 1), k2_pay154 acc14.2.1⟩,
        ⟨Rect.unit (s := S64x128) (k2_off39 k 1#32) S1x16.size (k2_off39_inb k 1), k2_pay153 acc14.1⟩,
        ⟨Rect.unit (s := S64x128) (k2_off36 k 1#32) S1x16.size (k2_off36_inb k 1), k2_pay143 acc13.2.2.2⟩,
        ⟨Rect.unit (s := S64x128) (k2_off35 k 1#32) S1x16.size (k2_off35_inb k 1), k2_pay142 acc13.2.2.1⟩,
        ⟨Rect.unit (s := S64x128) (k2_off34 k 1#32) S1x16.size (k2_off34_inb k 1), k2_pay141 acc13.2.1⟩,
        ⟨Rect.unit (s := S64x128) (k2_off33 k 1#32) S1x16.size (k2_off33_inb k 1), k2_pay140 acc13.1⟩,
        ⟨Rect.unit (s := S64x128) (k2_off42 k 0#32) S1x16.size (k2_off42_inb k 0), k2_pay130 acc12.2.2.2⟩,
        ⟨Rect.unit (s := S64x128) (k2_off41 k 0#32) S1x16.size (k2_off41_inb k 0), k2_pay129 acc12.2.2.1⟩,
        ⟨Rect.unit (s := S64x128) (k2_off40 k 0#32) S1x16.size (k2_off40_inb k 0), k2_pay128 acc12.2.1⟩,
        ⟨Rect.unit (s := S64x128) (k2_off39 k 0#32) S1x16.size (k2_off39_inb k 0), k2_pay127 acc12.1⟩,
        ⟨Rect.unit (s := S64x128) (k2_off36 k 0#32) S1x16.size (k2_off36_inb k 0), k2_pay117 acc11.2.2.2⟩,
        ⟨Rect.unit (s := S64x128) (k2_off35 k 0#32) S1x16.size (k2_off35_inb k 0), k2_pay116 acc11.2.2.1⟩,
        ⟨Rect.unit (s := S64x128) (k2_off34 k 0#32) S1x16.size (k2_off34_inb k 0), k2_pay115 acc11.2.1⟩,
        ⟨Rect.unit (s := S64x128) (k2_off33 k 0#32) S1x16.size (k2_off33_inb k 0), k2_pay114 acc11.1⟩,
        ⟨Rect.unit (s := S64x128) (k2_off16 k 3#32) S1x16.size (k2_off16_inb k 3), k2_pay104 acc10.2.2.2⟩,
        ⟨Rect.unit (s := S64x128) (k2_off15 k 3#32) S1x16.size (k2_off15_inb k 3), k2_pay103 acc10.2.2.1⟩,
        ⟨Rect.unit (s := S64x128) (k2_off14 k 3#32) S1x16.size (k2_off14_inb k 3), k2_pay102 acc10.2.1⟩,
        ⟨Rect.unit (s := S64x128) (k2_off13 k 3#32) S1x16.size (k2_off13_inb k 3), k2_pay101 acc10.1⟩,
        ⟨Rect.unit (s := S64x128) (k2_off10 k 3#32) S1x16.size (k2_off10_inb k 3), k2_pay91 acc9.2.2.2⟩,
        ⟨Rect.unit (s := S64x128) (k2_off9 k 3#32) S1x16.size (k2_off9_inb k 3), k2_pay90 acc9.2.2.1⟩,
        ⟨Rect.unit (s := S64x128) (k2_off8 k 3#32) S1x16.size (k2_off8_inb k 3), k2_pay89 acc9.2.1⟩,
        ⟨Rect.unit (s := S64x128) (k2_off7 k 3#32) S1x16.size (k2_off7_inb k 3), k2_pay88 acc9.1⟩,
        ⟨Rect.unit (s := S64x128) (k2_off16 k 2#32) S1x16.size (k2_off16_inb k 2), k2_pay78 acc8.2.2.2⟩,
        ⟨Rect.unit (s := S64x128) (k2_off15 k 2#32) S1x16.size (k2_off15_inb k 2), k2_pay77 acc8.2.2.1⟩,
        ⟨Rect.unit (s := S64x128) (k2_off14 k 2#32) S1x16.size (k2_off14_inb k 2), k2_pay76 acc8.2.1⟩,
        ⟨Rect.unit (s := S64x128) (k2_off13 k 2#32) S1x16.size (k2_off13_inb k 2), k2_pay75 acc8.1⟩,
        ⟨Rect.unit (s := S64x128) (k2_off10 k 2#32) S1x16.size (k2_off10_inb k 2), k2_pay65 acc7.2.2.2⟩,
        ⟨Rect.unit (s := S64x128) (k2_off9 k 2#32) S1x16.size (k2_off9_inb k 2), k2_pay64 acc7.2.2.1⟩,
        ⟨Rect.unit (s := S64x128) (k2_off8 k 2#32) S1x16.size (k2_off8_inb k 2), k2_pay63 acc7.2.1⟩,
        ⟨Rect.unit (s := S64x128) (k2_off7 k 2#32) S1x16.size (k2_off7_inb k 2), k2_pay62 acc7.1⟩,
        ⟨Rect.unit (s := S64x128) (k2_off16 k 1#32) S1x16.size (k2_off16_inb k 1), k2_pay52 acc6.2.2.2⟩,
        ⟨Rect.unit (s := S64x128) (k2_off15 k 1#32) S1x16.size (k2_off15_inb k 1), k2_pay51 acc6.2.2.1⟩,
        ⟨Rect.unit (s := S64x128) (k2_off14 k 1#32) S1x16.size (k2_off14_inb k 1), k2_pay50 acc6.2.1⟩,
        ⟨Rect.unit (s := S64x128) (k2_off13 k 1#32) S1x16.size (k2_off13_inb k 1), k2_pay49 acc6.1⟩,
        ⟨Rect.unit (s := S64x128) (k2_off10 k 1#32) S1x16.size (k2_off10_inb k 1), k2_pay39 acc5.2.2.2⟩,
        ⟨Rect.unit (s := S64x128) (k2_off9 k 1#32) S1x16.size (k2_off9_inb k 1), k2_pay38 acc5.2.2.1⟩,
        ⟨Rect.unit (s := S64x128) (k2_off8 k 1#32) S1x16.size (k2_off8_inb k 1), k2_pay37 acc5.2.1⟩,
        ⟨Rect.unit (s := S64x128) (k2_off7 k 1#32) S1x16.size (k2_off7_inb k 1), k2_pay36 acc5.1⟩,
        ⟨Rect.unit (s := S64x128) (k2_off16 k 0#32) S1x16.size (k2_off16_inb k 0), k2_pay26 acc4.2.2.2⟩,
        ⟨Rect.unit (s := S64x128) (k2_off15 k 0#32) S1x16.size (k2_off15_inb k 0), k2_pay25 acc4.2.2.1⟩,
        ⟨Rect.unit (s := S64x128) (k2_off14 k 0#32) S1x16.size (k2_off14_inb k 0), k2_pay24 acc4.2.1⟩,
        ⟨Rect.unit (s := S64x128) (k2_off13 k 0#32) S1x16.size (k2_off13_inb k 0), k2_pay23 acc4.1⟩,
        ⟨Rect.unit (s := S64x128) (k2_off10 k 0#32) S1x16.size (k2_off10_inb k 0), k2_pay13 acc3.2.2.2⟩,
        ⟨Rect.unit (s := S64x128) (k2_off9 k 0#32) S1x16.size (k2_off9_inb k 0), k2_pay12 acc3.2.2.1⟩,
        ⟨Rect.unit (s := S64x128) (k2_off8 k 0#32) S1x16.size (k2_off8_inb k 0), k2_pay11 acc3.2.1⟩,
        ⟨Rect.unit (s := S64x128) (k2_off7 k 0#32) S1x16.size (k2_off7_inb k 0), k2_pay10 acc3.1⟩] : List (View.Piece (Elt F) S64x128 .f32)))) := by
  have hk : k.val < 8 := k.isLt
  have hH : ∀ p, p < 2048 → at1 ((sH2).view.read (Elt F) g6) p = BitVec.ofNat 32 (p % 16 % 2 * 64) :=
    fun p hp => half_val2 _ hg6 p hp
  have hRA : ∀ r c, r < 128 → c < 128 →
      at3 ((sR2).view.read (Elt F) ((dstA2).view.write (Elt F) gA pA Finset.univ)) 0 r c = tbAt2 tb (gRow2 ix (128 * (2 * k.val) + r)) c := by
    intro r c hr hc
    rw [read_slotA2 gA pA r c hr hc, hpA]
    rfl
  have hRB : ∀ r c, r < 128 → c < 128 →
      at3 ((sR2).view.read (Elt F) ((dstB2).view.write (Elt F) gB pB Finset.univ)) 1 r c = tbAt2 tb (gRow2 ix (128 * (2 * k.val + 1) + r)) c := by
    intro r c hr hc
    rw [read_slotB2 gB pB r c hr hc, hpB]
    rfl
  let b3 : Blk F := { row := 8 * k.val + 0, c0 := 0, a := acc3, o0 := k2_off7 k 0#32, o1 := k2_off8 k 0#32, o2 := k2_off9 k 0#32, o3 := k2_off10 k 0#32, i0 := k2_off7_inb k 0, i1 := k2_off8_inb k 0, i2 := k2_off9_inb k 0, i3 := k2_off10_inb k 0, h0 := k2_off7_eq k 0, h1 := k2_off8_eq k 0, h2 := k2_off9_eq k 0, h3 := k2_off10_eq k 0 }
  let b4 : Blk F := { row := 8 * k.val + 0, c0 := 64, a := acc4, o0 := k2_off13 k 0#32, o1 := k2_off14 k 0#32, o2 := k2_off15 k 0#32, o3 := k2_off16 k 0#32, i0 := k2_off13_inb k 0, i1 := k2_off14_inb k 0, i2 := k2_off15_inb k 0, i3 := k2_off16_inb k 0, h0 := k2_off13_eq k 0, h1 := k2_off14_eq k 0, h2 := k2_off15_eq k 0, h3 := k2_off16_eq k 0 }
  let b5 : Blk F := { row := 8 * k.val + 1, c0 := 0, a := acc5, o0 := k2_off7 k 1#32, o1 := k2_off8 k 1#32, o2 := k2_off9 k 1#32, o3 := k2_off10 k 1#32, i0 := k2_off7_inb k 1, i1 := k2_off8_inb k 1, i2 := k2_off9_inb k 1, i3 := k2_off10_inb k 1, h0 := k2_off7_eq k 1, h1 := k2_off8_eq k 1, h2 := k2_off9_eq k 1, h3 := k2_off10_eq k 1 }
  let b6 : Blk F := { row := 8 * k.val + 1, c0 := 64, a := acc6, o0 := k2_off13 k 1#32, o1 := k2_off14 k 1#32, o2 := k2_off15 k 1#32, o3 := k2_off16 k 1#32, i0 := k2_off13_inb k 1, i1 := k2_off14_inb k 1, i2 := k2_off15_inb k 1, i3 := k2_off16_inb k 1, h0 := k2_off13_eq k 1, h1 := k2_off14_eq k 1, h2 := k2_off15_eq k 1, h3 := k2_off16_eq k 1 }
  let b7 : Blk F := { row := 8 * k.val + 2, c0 := 0, a := acc7, o0 := k2_off7 k 2#32, o1 := k2_off8 k 2#32, o2 := k2_off9 k 2#32, o3 := k2_off10 k 2#32, i0 := k2_off7_inb k 2, i1 := k2_off8_inb k 2, i2 := k2_off9_inb k 2, i3 := k2_off10_inb k 2, h0 := k2_off7_eq k 2, h1 := k2_off8_eq k 2, h2 := k2_off9_eq k 2, h3 := k2_off10_eq k 2 }
  let b8 : Blk F := { row := 8 * k.val + 2, c0 := 64, a := acc8, o0 := k2_off13 k 2#32, o1 := k2_off14 k 2#32, o2 := k2_off15 k 2#32, o3 := k2_off16 k 2#32, i0 := k2_off13_inb k 2, i1 := k2_off14_inb k 2, i2 := k2_off15_inb k 2, i3 := k2_off16_inb k 2, h0 := k2_off13_eq k 2, h1 := k2_off14_eq k 2, h2 := k2_off15_eq k 2, h3 := k2_off16_eq k 2 }
  let b9 : Blk F := { row := 8 * k.val + 3, c0 := 0, a := acc9, o0 := k2_off7 k 3#32, o1 := k2_off8 k 3#32, o2 := k2_off9 k 3#32, o3 := k2_off10 k 3#32, i0 := k2_off7_inb k 3, i1 := k2_off8_inb k 3, i2 := k2_off9_inb k 3, i3 := k2_off10_inb k 3, h0 := k2_off7_eq k 3, h1 := k2_off8_eq k 3, h2 := k2_off9_eq k 3, h3 := k2_off10_eq k 3 }
  let b10 : Blk F := { row := 8 * k.val + 3, c0 := 64, a := acc10, o0 := k2_off13 k 3#32, o1 := k2_off14 k 3#32, o2 := k2_off15 k 3#32, o3 := k2_off16 k 3#32, i0 := k2_off13_inb k 3, i1 := k2_off14_inb k 3, i2 := k2_off15_inb k 3, i3 := k2_off16_inb k 3, h0 := k2_off13_eq k 3, h1 := k2_off14_eq k 3, h2 := k2_off15_eq k 3, h3 := k2_off16_eq k 3 }
  let b11 : Blk F := { row := 8 * k.val + 0 + 4, c0 := 0, a := acc11, o0 := k2_off33 k 0#32, o1 := k2_off34 k 0#32, o2 := k2_off35 k 0#32, o3 := k2_off36 k 0#32, i0 := k2_off33_inb k 0, i1 := k2_off34_inb k 0, i2 := k2_off35_inb k 0, i3 := k2_off36_inb k 0, h0 := k2_off33_eq k 0, h1 := k2_off34_eq k 0, h2 := k2_off35_eq k 0, h3 := k2_off36_eq k 0 }
  let b12 : Blk F := { row := 8 * k.val + 0 + 4, c0 := 64, a := acc12, o0 := k2_off39 k 0#32, o1 := k2_off40 k 0#32, o2 := k2_off41 k 0#32, o3 := k2_off42 k 0#32, i0 := k2_off39_inb k 0, i1 := k2_off40_inb k 0, i2 := k2_off41_inb k 0, i3 := k2_off42_inb k 0, h0 := k2_off39_eq k 0, h1 := k2_off40_eq k 0, h2 := k2_off41_eq k 0, h3 := k2_off42_eq k 0 }
  let b13 : Blk F := { row := 8 * k.val + 1 + 4, c0 := 0, a := acc13, o0 := k2_off33 k 1#32, o1 := k2_off34 k 1#32, o2 := k2_off35 k 1#32, o3 := k2_off36 k 1#32, i0 := k2_off33_inb k 1, i1 := k2_off34_inb k 1, i2 := k2_off35_inb k 1, i3 := k2_off36_inb k 1, h0 := k2_off33_eq k 1, h1 := k2_off34_eq k 1, h2 := k2_off35_eq k 1, h3 := k2_off36_eq k 1 }
  let b14 : Blk F := { row := 8 * k.val + 1 + 4, c0 := 64, a := acc14, o0 := k2_off39 k 1#32, o1 := k2_off40 k 1#32, o2 := k2_off41 k 1#32, o3 := k2_off42 k 1#32, i0 := k2_off39_inb k 1, i1 := k2_off40_inb k 1, i2 := k2_off41_inb k 1, i3 := k2_off42_inb k 1, h0 := k2_off39_eq k 1, h1 := k2_off40_eq k 1, h2 := k2_off41_eq k 1, h3 := k2_off42_eq k 1 }
  let b15 : Blk F := { row := 8 * k.val + 2 + 4, c0 := 0, a := acc15, o0 := k2_off33 k 2#32, o1 := k2_off34 k 2#32, o2 := k2_off35 k 2#32, o3 := k2_off36 k 2#32, i0 := k2_off33_inb k 2, i1 := k2_off34_inb k 2, i2 := k2_off35_inb k 2, i3 := k2_off36_inb k 2, h0 := k2_off33_eq k 2, h1 := k2_off34_eq k 2, h2 := k2_off35_eq k 2, h3 := k2_off36_eq k 2 }
  let b16 : Blk F := { row := 8 * k.val + 2 + 4, c0 := 64, a := acc16, o0 := k2_off39 k 2#32, o1 := k2_off40 k 2#32, o2 := k2_off41 k 2#32, o3 := k2_off42 k 2#32, i0 := k2_off39_inb k 2, i1 := k2_off40_inb k 2, i2 := k2_off41_inb k 2, i3 := k2_off42_inb k 2, h0 := k2_off39_eq k 2, h1 := k2_off40_eq k 2, h2 := k2_off41_eq k 2, h3 := k2_off42_eq k 2 }
  let b17 : Blk F := { row := 8 * k.val + 3 + 4, c0 := 0, a := acc17, o0 := k2_off33 k 3#32, o1 := k2_off34 k 3#32, o2 := k2_off35 k 3#32, o3 := k2_off36 k 3#32, i0 := k2_off33_inb k 3, i1 := k2_off34_inb k 3, i2 := k2_off35_inb k 3, i3 := k2_off36_inb k 3, h0 := k2_off33_eq k 3, h1 := k2_off34_eq k 3, h2 := k2_off35_eq k 3, h3 := k2_off36_eq k 3 }
  let b18 : Blk F := { row := 8 * k.val + 3 + 4, c0 := 64, a := acc18, o0 := k2_off39 k 3#32, o1 := k2_off40 k 3#32, o2 := k2_off41 k 3#32, o3 := k2_off42 k 3#32, i0 := k2_off39_inb k 3, i1 := k2_off40_inb k 3, i2 := k2_off41_inb k 3, i3 := k2_off42_inb k 3, h0 := k2_off39_eq k 3, h1 := k2_off40_eq k 3, h2 := k2_off41_eq k 3, h3 := k2_off42_eq k 3 }
  have hlist : ([⟨Rect.unit (s := S64x128) (k2_off42 k 3#32) S1x16.size (k2_off42_inb k 3), k2_pay208 acc18.2.2.2⟩,
        ⟨Rect.unit (s := S64x128) (k2_off41 k 3#32) S1x16.size (k2_off41_inb k 3), k2_pay207 acc18.2.2.1⟩,
        ⟨Rect.unit (s := S64x128) (k2_off40 k 3#32) S1x16.size (k2_off40_inb k 3), k2_pay206 acc18.2.1⟩,
        ⟨Rect.unit (s := S64x128) (k2_off39 k 3#32) S1x16.size (k2_off39_inb k 3), k2_pay205 acc18.1⟩,
        ⟨Rect.unit (s := S64x128) (k2_off36 k 3#32) S1x16.size (k2_off36_inb k 3), k2_pay195 acc17.2.2.2⟩,
        ⟨Rect.unit (s := S64x128) (k2_off35 k 3#32) S1x16.size (k2_off35_inb k 3), k2_pay194 acc17.2.2.1⟩,
        ⟨Rect.unit (s := S64x128) (k2_off34 k 3#32) S1x16.size (k2_off34_inb k 3), k2_pay193 acc17.2.1⟩,
        ⟨Rect.unit (s := S64x128) (k2_off33 k 3#32) S1x16.size (k2_off33_inb k 3), k2_pay192 acc17.1⟩,
        ⟨Rect.unit (s := S64x128) (k2_off42 k 2#32) S1x16.size (k2_off42_inb k 2), k2_pay182 acc16.2.2.2⟩,
        ⟨Rect.unit (s := S64x128) (k2_off41 k 2#32) S1x16.size (k2_off41_inb k 2), k2_pay181 acc16.2.2.1⟩,
        ⟨Rect.unit (s := S64x128) (k2_off40 k 2#32) S1x16.size (k2_off40_inb k 2), k2_pay180 acc16.2.1⟩,
        ⟨Rect.unit (s := S64x128) (k2_off39 k 2#32) S1x16.size (k2_off39_inb k 2), k2_pay179 acc16.1⟩,
        ⟨Rect.unit (s := S64x128) (k2_off36 k 2#32) S1x16.size (k2_off36_inb k 2), k2_pay169 acc15.2.2.2⟩,
        ⟨Rect.unit (s := S64x128) (k2_off35 k 2#32) S1x16.size (k2_off35_inb k 2), k2_pay168 acc15.2.2.1⟩,
        ⟨Rect.unit (s := S64x128) (k2_off34 k 2#32) S1x16.size (k2_off34_inb k 2), k2_pay167 acc15.2.1⟩,
        ⟨Rect.unit (s := S64x128) (k2_off33 k 2#32) S1x16.size (k2_off33_inb k 2), k2_pay166 acc15.1⟩,
        ⟨Rect.unit (s := S64x128) (k2_off42 k 1#32) S1x16.size (k2_off42_inb k 1), k2_pay156 acc14.2.2.2⟩,
        ⟨Rect.unit (s := S64x128) (k2_off41 k 1#32) S1x16.size (k2_off41_inb k 1), k2_pay155 acc14.2.2.1⟩,
        ⟨Rect.unit (s := S64x128) (k2_off40 k 1#32) S1x16.size (k2_off40_inb k 1), k2_pay154 acc14.2.1⟩,
        ⟨Rect.unit (s := S64x128) (k2_off39 k 1#32) S1x16.size (k2_off39_inb k 1), k2_pay153 acc14.1⟩,
        ⟨Rect.unit (s := S64x128) (k2_off36 k 1#32) S1x16.size (k2_off36_inb k 1), k2_pay143 acc13.2.2.2⟩,
        ⟨Rect.unit (s := S64x128) (k2_off35 k 1#32) S1x16.size (k2_off35_inb k 1), k2_pay142 acc13.2.2.1⟩,
        ⟨Rect.unit (s := S64x128) (k2_off34 k 1#32) S1x16.size (k2_off34_inb k 1), k2_pay141 acc13.2.1⟩,
        ⟨Rect.unit (s := S64x128) (k2_off33 k 1#32) S1x16.size (k2_off33_inb k 1), k2_pay140 acc13.1⟩,
        ⟨Rect.unit (s := S64x128) (k2_off42 k 0#32) S1x16.size (k2_off42_inb k 0), k2_pay130 acc12.2.2.2⟩,
        ⟨Rect.unit (s := S64x128) (k2_off41 k 0#32) S1x16.size (k2_off41_inb k 0), k2_pay129 acc12.2.2.1⟩,
        ⟨Rect.unit (s := S64x128) (k2_off40 k 0#32) S1x16.size (k2_off40_inb k 0), k2_pay128 acc12.2.1⟩,
        ⟨Rect.unit (s := S64x128) (k2_off39 k 0#32) S1x16.size (k2_off39_inb k 0), k2_pay127 acc12.1⟩,
        ⟨Rect.unit (s := S64x128) (k2_off36 k 0#32) S1x16.size (k2_off36_inb k 0), k2_pay117 acc11.2.2.2⟩,
        ⟨Rect.unit (s := S64x128) (k2_off35 k 0#32) S1x16.size (k2_off35_inb k 0), k2_pay116 acc11.2.2.1⟩,
        ⟨Rect.unit (s := S64x128) (k2_off34 k 0#32) S1x16.size (k2_off34_inb k 0), k2_pay115 acc11.2.1⟩,
        ⟨Rect.unit (s := S64x128) (k2_off33 k 0#32) S1x16.size (k2_off33_inb k 0), k2_pay114 acc11.1⟩,
        ⟨Rect.unit (s := S64x128) (k2_off16 k 3#32) S1x16.size (k2_off16_inb k 3), k2_pay104 acc10.2.2.2⟩,
        ⟨Rect.unit (s := S64x128) (k2_off15 k 3#32) S1x16.size (k2_off15_inb k 3), k2_pay103 acc10.2.2.1⟩,
        ⟨Rect.unit (s := S64x128) (k2_off14 k 3#32) S1x16.size (k2_off14_inb k 3), k2_pay102 acc10.2.1⟩,
        ⟨Rect.unit (s := S64x128) (k2_off13 k 3#32) S1x16.size (k2_off13_inb k 3), k2_pay101 acc10.1⟩,
        ⟨Rect.unit (s := S64x128) (k2_off10 k 3#32) S1x16.size (k2_off10_inb k 3), k2_pay91 acc9.2.2.2⟩,
        ⟨Rect.unit (s := S64x128) (k2_off9 k 3#32) S1x16.size (k2_off9_inb k 3), k2_pay90 acc9.2.2.1⟩,
        ⟨Rect.unit (s := S64x128) (k2_off8 k 3#32) S1x16.size (k2_off8_inb k 3), k2_pay89 acc9.2.1⟩,
        ⟨Rect.unit (s := S64x128) (k2_off7 k 3#32) S1x16.size (k2_off7_inb k 3), k2_pay88 acc9.1⟩,
        ⟨Rect.unit (s := S64x128) (k2_off16 k 2#32) S1x16.size (k2_off16_inb k 2), k2_pay78 acc8.2.2.2⟩,
        ⟨Rect.unit (s := S64x128) (k2_off15 k 2#32) S1x16.size (k2_off15_inb k 2), k2_pay77 acc8.2.2.1⟩,
        ⟨Rect.unit (s := S64x128) (k2_off14 k 2#32) S1x16.size (k2_off14_inb k 2), k2_pay76 acc8.2.1⟩,
        ⟨Rect.unit (s := S64x128) (k2_off13 k 2#32) S1x16.size (k2_off13_inb k 2), k2_pay75 acc8.1⟩,
        ⟨Rect.unit (s := S64x128) (k2_off10 k 2#32) S1x16.size (k2_off10_inb k 2), k2_pay65 acc7.2.2.2⟩,
        ⟨Rect.unit (s := S64x128) (k2_off9 k 2#32) S1x16.size (k2_off9_inb k 2), k2_pay64 acc7.2.2.1⟩,
        ⟨Rect.unit (s := S64x128) (k2_off8 k 2#32) S1x16.size (k2_off8_inb k 2), k2_pay63 acc7.2.1⟩,
        ⟨Rect.unit (s := S64x128) (k2_off7 k 2#32) S1x16.size (k2_off7_inb k 2), k2_pay62 acc7.1⟩,
        ⟨Rect.unit (s := S64x128) (k2_off16 k 1#32) S1x16.size (k2_off16_inb k 1), k2_pay52 acc6.2.2.2⟩,
        ⟨Rect.unit (s := S64x128) (k2_off15 k 1#32) S1x16.size (k2_off15_inb k 1), k2_pay51 acc6.2.2.1⟩,
        ⟨Rect.unit (s := S64x128) (k2_off14 k 1#32) S1x16.size (k2_off14_inb k 1), k2_pay50 acc6.2.1⟩,
        ⟨Rect.unit (s := S64x128) (k2_off13 k 1#32) S1x16.size (k2_off13_inb k 1), k2_pay49 acc6.1⟩,
        ⟨Rect.unit (s := S64x128) (k2_off10 k 1#32) S1x16.size (k2_off10_inb k 1), k2_pay39 acc5.2.2.2⟩,
        ⟨Rect.unit (s := S64x128) (k2_off9 k 1#32) S1x16.size (k2_off9_inb k 1), k2_pay38 acc5.2.2.1⟩,
        ⟨Rect.unit (s := S64x128) (k2_off8 k 1#32) S1x16.size (k2_off8_inb k 1), k2_pay37 acc5.2.1⟩,
        ⟨Rect.unit (s := S64x128) (k2_off7 k 1#32) S1x16.size (k2_off7_inb k 1), k2_pay36 acc5.1⟩,
        ⟨Rect.unit (s := S64x128) (k2_off16 k 0#32) S1x16.size (k2_off16_inb k 0), k2_pay26 acc4.2.2.2⟩,
        ⟨Rect.unit (s := S64x128) (k2_off15 k 0#32) S1x16.size (k2_off15_inb k 0), k2_pay25 acc4.2.2.1⟩,
        ⟨Rect.unit (s := S64x128) (k2_off14 k 0#32) S1x16.size (k2_off14_inb k 0), k2_pay24 acc4.2.1⟩,
        ⟨Rect.unit (s := S64x128) (k2_off13 k 0#32) S1x16.size (k2_off13_inb k 0), k2_pay23 acc4.1⟩,
        ⟨Rect.unit (s := S64x128) (k2_off10 k 0#32) S1x16.size (k2_off10_inb k 0), k2_pay13 acc3.2.2.2⟩,
        ⟨Rect.unit (s := S64x128) (k2_off9 k 0#32) S1x16.size (k2_off9_inb k 0), k2_pay12 acc3.2.2.1⟩,
        ⟨Rect.unit (s := S64x128) (k2_off8 k 0#32) S1x16.size (k2_off8_inb k 0), k2_pay11 acc3.2.1⟩,
        ⟨Rect.unit (s := S64x128) (k2_off7 k 0#32) S1x16.size (k2_off7_inb k 0), k2_pay10 acc3.1⟩] : List (View.Piece (Elt F) S64x128 .f32))
      = blkPieces shapeCasts_S16_S1x16 [b18, b17, b16, b15, b14, b13, b12, b11, b10, b9, b8, b7, b6, b5, b4, b3] := rfl
  rw [hlist]
  refine outOK_step2 (sO2).view g8 tb ix k.val shapeCasts_S16_S1x16 [b18, b17, b16, b15, b14, b13, b12, b11, b10, b9, b8, b7, b6, b5, b4, b3] hprev ?hrows ?hcover ?hval
  case hrows =>
    intro b hb
    simp only [List.mem_cons, List.mem_nil_iff, or_false] at hb
    rcases hb with rfl | rfl | rfl | rfl | rfl | rfl | rfl | rfl | rfl | rfl | rfl | rfl | rfl | rfl | rfl | rfl
    all_goals (first | (show 8 * k.val ≤ 8 * k.val + _ + 4; omega) | (show 8 * k.val ≤ 8 * k.val + _; omega))
  case hcover =>
    intro x hlo hhi
    have hx1 : (x 1).val < 128 := (x 1).isLt
    rcases (by omega : (x 0).val = 8 * k.val + 0 ∨ (x 0).val = 8 * k.val + 1 ∨ (x 0).val = 8 * k.val + 2 ∨ (x 0).val = 8 * k.val + 3 ∨ (x 0).val = 8 * k.val + 4 ∨ (x 0).val = 8 * k.val + 5 ∨ (x 0).val = 8 * k.val + 6 ∨ (x 0).val = 8 * k.val + 7) with h | h | h | h | h | h | h | h <;>
      rcases (by omega : (x 1).val < 64 ∨ 64 ≤ (x 1).val) with h' | h'
    · exact ⟨b3, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), ⟨by show (x 0).val = 8 * k.val + 0; omega, by show 0 ≤ (x 1).val; omega, by show (x 1).val < 0 + 64; omega⟩⟩
    · exact ⟨b4, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), ⟨by show (x 0).val = 8 * k.val + 0; omega, by show 64 ≤ (x 1).val; omega, by show (x 1).val < 64 + 64; omega⟩⟩
    · exact ⟨b5, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), ⟨by show (x 0).val = 8 * k.val + 1; omega, by show 0 ≤ (x 1).val; omega, by show (x 1).val < 0 + 64; omega⟩⟩
    · exact ⟨b6, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), ⟨by show (x 0).val = 8 * k.val + 1; omega, by show 64 ≤ (x 1).val; omega, by show (x 1).val < 64 + 64; omega⟩⟩
    · exact ⟨b7, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), ⟨by show (x 0).val = 8 * k.val + 2; omega, by show 0 ≤ (x 1).val; omega, by show (x 1).val < 0 + 64; omega⟩⟩
    · exact ⟨b8, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ⟨by show (x 0).val = 8 * k.val + 2; omega, by show 64 ≤ (x 1).val; omega, by show (x 1).val < 64 + 64; omega⟩⟩
    · exact ⟨b9, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ⟨by show (x 0).val = 8 * k.val + 3; omega, by show 0 ≤ (x 1).val; omega, by show (x 1).val < 0 + 64; omega⟩⟩
    · exact ⟨b10, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ⟨by show (x 0).val = 8 * k.val + 3; omega, by show 64 ≤ (x 1).val; omega, by show (x 1).val < 64 + 64; omega⟩⟩
    · exact ⟨b11, (List.mem_cons_of_mem _ (List.mem_cons_of_mem _ (List.mem_cons_of_mem _ (List.mem_cons_of_mem _ (List.mem_cons_of_mem _ (List.mem_cons_of_mem _ (List.mem_cons_of_mem _ (List.mem_cons_self)))))))), ⟨by show (x 0).val = 8 * k.val + 0 + 4; omega, by show 0 ≤ (x 1).val; omega, by show (x 1).val < 0 + 64; omega⟩⟩
    · exact ⟨b12, (List.mem_cons_of_mem _ (List.mem_cons_of_mem _ (List.mem_cons_of_mem _ (List.mem_cons_of_mem _ (List.mem_cons_of_mem _ (List.mem_cons_of_mem _ (List.mem_cons_self))))))), ⟨by show (x 0).val = 8 * k.val + 0 + 4; omega, by show 64 ≤ (x 1).val; omega, by show (x 1).val < 64 + 64; omega⟩⟩
    · exact ⟨b13, (List.mem_cons_of_mem _ (List.mem_cons_of_mem _ (List.mem_cons_of_mem _ (List.mem_cons_of_mem _ (List.mem_cons_of_mem _ (List.mem_cons_self)))))), ⟨by show (x 0).val = 8 * k.val + 1 + 4; omega, by show 0 ≤ (x 1).val; omega, by show (x 1).val < 0 + 64; omega⟩⟩
    · exact ⟨b14, (List.mem_cons_of_mem _ (List.mem_cons_of_mem _ (List.mem_cons_of_mem _ (List.mem_cons_of_mem _ (List.mem_cons_self))))), ⟨by show (x 0).val = 8 * k.val + 1 + 4; omega, by show 64 ≤ (x 1).val; omega, by show (x 1).val < 64 + 64; omega⟩⟩
    · exact ⟨b15, (List.mem_cons_of_mem _ (List.mem_cons_of_mem _ (List.mem_cons_of_mem _ (List.mem_cons_self)))), ⟨by show (x 0).val = 8 * k.val + 2 + 4; omega, by show 0 ≤ (x 1).val; omega, by show (x 1).val < 0 + 64; omega⟩⟩
    · exact ⟨b16, (List.mem_cons_of_mem _ (List.mem_cons_of_mem _ (List.mem_cons_self))), ⟨by show (x 0).val = 8 * k.val + 2 + 4; omega, by show 64 ≤ (x 1).val; omega, by show (x 1).val < 64 + 64; omega⟩⟩
    · exact ⟨b17, (List.mem_cons_of_mem _ (List.mem_cons_self)), ⟨by show (x 0).val = 8 * k.val + 3 + 4; omega, by show 0 ≤ (x 1).val; omega, by show (x 1).val < 0 + 64; omega⟩⟩
    · exact ⟨b18, (List.mem_cons_self), ⟨by show (x 0).val = 8 * k.val + 3 + 4; omega, by show 64 ≤ (x 1).val; omega, by show (x 1).val < 64 + 64; omega⟩⟩
  case hval =>
    intro b hb x hx
    simp only [List.mem_cons, List.mem_nil_iff, or_false] at hb
    rcases hb with rfl | rfl | rfl | rfl | rfl | rfl | rfl | rfl | rfl | rfl | rfl | rfl | rfl | rfl | rfl | rfl
    · exact blk_value2 tb ix _ _ 1 (2 * k.val + 1) 7 (256 * k.val + 240) (by decide) (by omega) (by decide) (by omega) hRB hH b18 (by show 8 * k.val + 3 + 4 = 4 * (2 * k.val + 1) + 7 / 2; omega) rfl hacc18 x hx
    · exact blk_value2 tb ix _ _ 1 (2 * k.val + 1) 6 (256 * k.val + 224) (by decide) (by omega) (by decide) (by omega) hRB hH b17 (by show 8 * k.val + 3 + 4 = 4 * (2 * k.val + 1) + 6 / 2; omega) rfl hacc17 x hx
    · exact blk_value2 tb ix _ _ 1 (2 * k.val + 1) 5 (256 * k.val + 208) (by decide) (by omega) (by decide) (by omega) hRB hH b16 (by show 8 * k.val + 2 + 4 = 4 * (2 * k.val + 1) + 5 / 2; omega) rfl hacc16 x hx
    · exact blk_value2 tb ix _ _ 1 (2 * k.val + 1) 4 (256 * k.val + 192) (by decide) (by omega) (by decide) (by omega) hRB hH b15 (by show 8 * k.val + 2 + 4 = 4 * (2 * k.val + 1) + 4 / 2; omega) rfl hacc15 x hx
    · exact blk_value2 tb ix _ _ 1 (2 * k.val + 1) 3 (256 * k.val + 176) (by decide) (by omega) (by decide) (by omega) hRB hH b14 (by show 8 * k.val + 1 + 4 = 4 * (2 * k.val + 1) + 3 / 2; omega) rfl hacc14 x hx
    · exact blk_value2 tb ix _ _ 1 (2 * k.val + 1) 2 (256 * k.val + 160) (by decide) (by omega) (by decide) (by omega) hRB hH b13 (by show 8 * k.val + 1 + 4 = 4 * (2 * k.val + 1) + 2 / 2; omega) rfl hacc13 x hx
    · exact blk_value2 tb ix _ _ 1 (2 * k.val + 1) 1 (256 * k.val + 144) (by decide) (by omega) (by decide) (by omega) hRB hH b12 (by show 8 * k.val + 0 + 4 = 4 * (2 * k.val + 1) + 1 / 2; omega) rfl hacc12 x hx
    · exact blk_value2 tb ix _ _ 1 (2 * k.val + 1) 0 (256 * k.val + 128) (by decide) (by omega) (by decide) (by omega) hRB hH b11 (by show 8 * k.val + 0 + 4 = 4 * (2 * k.val + 1) + 0 / 2; omega) rfl hacc11 x hx
    · exact blk_value2 tb ix _ _ 0 (2 * k.val) 7 (256 * k.val + 112) (by decide) (by omega) (by decide) (by omega) hRA hH b10 (by show 8 * k.val + 3 = 4 * (2 * k.val) + 7 / 2; omega) rfl hacc10 x hx
    · exact blk_value2 tb ix _ _ 0 (2 * k.val) 6 (256 * k.val + 96) (by decide) (by omega) (by decide) (by omega) hRA hH b9 (by show 8 * k.val + 3 = 4 * (2 * k.val) + 6 / 2; omega) rfl hacc9 x hx
    · exact blk_value2 tb ix _ _ 0 (2 * k.val) 5 (256 * k.val + 80) (by decide) (by omega) (by decide) (by omega) hRA hH b8 (by show 8 * k.val + 2 = 4 * (2 * k.val) + 5 / 2; omega) rfl hacc8 x hx
    · exact blk_value2 tb ix _ _ 0 (2 * k.val) 4 (256 * k.val + 64) (by decide) (by omega) (by decide) (by omega) hRA hH b7 (by show 8 * k.val + 2 = 4 * (2 * k.val) + 4 / 2; omega) rfl hacc7 x hx
    · exact blk_value2 tb ix _ _ 0 (2 * k.val) 3 (256 * k.val + 48) (by decide) (by omega) (by decide) (by omega) hRA hH b6 (by show 8 * k.val + 1 = 4 * (2 * k.val) + 3 / 2; omega) rfl hacc6 x hx
    · exact blk_value2 tb ix _ _ 0 (2 * k.val) 2 (256 * k.val + 32) (by decide) (by omega) (by decide) (by omega) hRA hH b5 (by show 8 * k.val + 1 = 4 * (2 * k.val) + 2 / 2; omega) rfl hacc5 x hx
    · exact blk_value2 tb ix _ _ 0 (2 * k.val) 1 (256 * k.val + 16) (by decide) (by omega) (by decide) (by omega) hRA hH b4 (by show 8 * k.val + 0 = 4 * (2 * k.val) + 1 / 2; omega) rfl hacc4 x hx
    · exact blk_value2 tb ix _ _ 0 (2 * k.val) 0 (256 * k.val + 0) (by decide) (by omega) (by decide) (by omega) hRA hH b3 (by show 8 * k.val + 0 = 4 * (2 * k.val) + 0 / 2; omega) rfl hacc3 x hx

end Cert.Proof.KB

end
-- ==== Proof.KB.Tile2TripLast.lean ====
/-
  The last trip of the ring of gathers of one vector subcore's task: both chunks are waited for and added up, nothing is
  started again, and the ring is left with nothing in flight.
-/
import proofs.«219250_g10247791969013_week1_w1_750_27_alg».proof.Proof.KB.Tile2Chunks
import proofs.«219250_g10247791969013_week1_w1_750_27_alg».proof.Proof.KB.Tile2TripOut
import Idealize.ShloMosaic.Lib.Tactic

noncomputable section

namespace Cert.Proof.KB

open Cert.Proof.KI

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid2.Coords)

set_option quotPrecheck false in
local notation "tabSlN" => ((tabM2).slice (Rect.unit (s := S802816x128) ![0, 0] S802816x128.size inb_S802816x128_S802816x128_0_0) (fun _ => rfl))
set_option quotPrecheck false in
local notation "dstAN" => (((sR2).slice (Rect.unit (s := S2x128x128) ![0, 0, 0] S1x128x128.size inb_S2x128x128_S1x128x128_0_0_0) (fun _ => rfl)).squeeze S128x128 squeezes_S1x128x128_S128x128)
set_option quotPrecheck false in
local notation "dstBN" => (((sR2).slice (Rect.unit (s := S2x128x128) ![1, 0, 0] S1x128x128.size inb_S2x128x128_S1x128x128_1_0_0) (fun _ => rfl)).squeeze S128x128 squeezes_S1x128x128_S128x128)

variable (q : PosShare TreeShare) (Tb : Buf (Elt F) ((tabM2).view.loc (thr2 d L)))
  (tb : S802816x128.Idx → Elt F .f32) (ix : S2048.Idx → Elt F .i32)
  (g5 : Buf (Elt F) ((sI2).view.loc (thr2 d L))) (g6 : Buf (Elt F) ((sH2).view.loc (thr2 d L)))
  (O : CellTallies nD τ sig (HIx 2)) (W : Waits sig (HIx 2))

omit [FloatOps F] in
theorem cond1_iff2L : ∀ k : Fin k2_t2_loop.trips, k2_cond1 k = 1#1 ↔ k.val + 1 < 8 := by decide +kernel
omit [FloatOps F] in
theorem cond2_iff2L : ∀ k : Fin k2_t2_loop.trips, k2_cond2 k = 1#1 ↔ k.val + 1 < 8 := by decide +kernel

set_option maxHeartbeats 16000000 in
/-- The last trip of the ring (no chunk after next): wait for the even chunk, add up its eight batch rows; the same for the
    odd chunk; nothing is left in flight. -/
theorem ring_trip_last (k : Fin k2_t2_loop.trips) (acc : Unit)
    (hg5 : XI5 ix ((sI2).view.read (Elt F) g5) 128) (hg6 : XI6 ((sH2).view.read (Elt F) g6) 128)
    (htb : tb = (tabM2).view.read (Elt F) Tb) (hix : ∀ j, (ix j).toNat < 100000) (hO : ∀ g, O g none = 0)
    (hc : ¬ k2_cond1 k = 1#1) :
    iprop(levAts (K (F := F)).L (K (F := F)).lev ∗ ringInv2 (F := F) d L q Tb tb ix g5 g6 O W k.val acc)
      ⊢ wp frame (wpE (defs₀ (F := F)) 𝒱₀ (thr2 d L) none) Set.univ
      (k2_t2_body L tabM2 (Memref.isWhole_whole _) idxM2 (Memref.isWhole_whole _) outM2 (Memref.isWhole_whole _)
        sI2 (Memref.isWhole_whole _) sH2 (Memref.isWhole_whole _) sR2 (Memref.isWhole_whole _) sO2 (Memref.isWhole_whole _)
        cc2_scratch4 cc2_scratch5 cc2_scoped0 cc2_scoped1 k acc)
      (fun a => iprop(levAts (K (F := F)).L (K (F := F)).lev ∗ ringInv2 (F := F) d L q Tb tb ix g5 g6 O W (k.val + 1) a)) := by
  subst htb
  have hk8 : k.val < 8 := k.isLt
  unfold k2_t2_body
  rw [k2_part12_eq_skeleton]
  unfold k2_part12_skel
  rw [k2_part1_eq_skeleton, k2_part2_eq_skeleton, k2_part3_eq_skeleton, k2_part4_eq_skeleton, k2_part5_eq_skeleton, k2_part6_eq_skeleton,
    k2_part7_eq_skeleton, k2_part8_eq_skeleton, k2_part9_eq_skeleton, k2_part10_eq_skeleton, k2_part11_eq_skeleton]
  unfold k2_part1_skel k2_part2_skel k2_part3_skel k2_part4_skel k2_part5_skel k2_part6_skel k2_part7_skel k2_part8_skel k2_part9_skel k2_part10_skel k2_part11_skel
  unfold ringInv2
  rw [dif_pos hk8]
  have hk7 : ¬ (k.val + 1 < 8) := fun h => hc ((cond1_iff2L k).mpr h)
  have hc2 : ¬ k2_cond2 k = 1#1 := fun h => hk7 ((cond2_iff2L k).mp h)
  rw [dif_neg hk7]
  unfold ringBusy2 ringDone2 flight2
  iintro ⟨#Hlv, %gA, %gB, %gR, %g8, %W', %pA, %pB, HO, H6, H8, HtL, HtR, HfA, HfB, H7, H5L, H5R, %hfin⟩
  ihave #Hmw := ((K (F := F)).mayWaits_none (thr := thr2 d L) hO) $$ Hlv
  have hall : ∀ y, ((sI2).view.read (Elt F) g5 y).toNat < 802816 := fun y => (rew_toNat2 (F := F) _ _ hg5 hix y).2
  have hH0 : ∀ p, p < 2048 → at1 ((sH2).view.read (Elt F) g6) p = 0#32 ∨ at1 ((sH2).view.read (Elt F) g6) p = 64#32 := fun p hp => half_val2_cases _ hg6 p hp
  have hIRA : ∀ x : (SR 128).Idx, (x 0).val = 0 → (sR2).view.emb x ∈ (dstAN).view.set := hIR_A2
  have hIRB : ∀ x : (SR 128).Idx, (x 0).val = 1 → (sR2).view.emb x ∈ (dstBN).view.set := hIR_B2
  -- the wait for the even chunk
  sl_exec
  icases HfA_dst with ⟨HdA, HoA⟩
  -- batch row 0 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 0 (256 * k.val + 0)) $$ [H6 HdA]
  · intro k' acc'
    exact accum_k2_t3 (HIx 2) ℕ UU ℕ 𝒱₀ d none Set.univ L tabM2 _ idxM2 _ outM2 _ sI2 _ sH2 _ sR2 _ sO2 _ cc2_scratch4 cc2_scratch5 cc2_scoped0 cc2_scoped1 (0#32) (1#32) k
      (dstAN).view.set fullShare fullShare g6 ((dstAN).view.write (Elt F) gA pA Finset.univ) hIRA (fun j hj => hH0 _ (by have : j < 16 := hj; omega)) k' acc'
  · unfold AccInv
    isplitr
    · ipureintro; rfl
    isplitl [H6]
    · iexact H6
    iexact HdA
  iintro %acc3 HI
  unfold AccInv
  icases HI with ⟨%hacc3, H6, HdA⟩
  sl_exec
  -- batch row 1 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 16 (256 * k.val + 16)) $$ [H6 HdA]
  · intro k' acc'
    apply accum_k2_t4
    · exact hIRA
    · exact fun j hj => hH0 _ (by have : j < 16 := hj; omega)
  · unfold AccInv
    isplitr
    · ipureintro; rfl
    isplitl [H6]
    · iexact H6
    iexact HdA
  iintro %acc4 HI
  unfold AccInv
  icases HI with ⟨%hacc4, H6, HdA⟩
  sl_exec
  -- batch row 2 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 32 (256 * k.val + 32)) $$ [H6 HdA]
  · intro k' acc'
    apply accum_k2_t5
    · exact hIRA
    · exact fun j hj => hH0 _ (by have : j < 16 := hj; omega)
  · unfold AccInv
    isplitr
    · ipureintro; rfl
    isplitl [H6]
    · iexact H6
    iexact HdA
  iintro %acc5 HI
  unfold AccInv
  icases HI with ⟨%hacc5, H6, HdA⟩
  sl_exec
  -- batch row 3 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 48 (256 * k.val + 48)) $$ [H6 HdA]
  · intro k' acc'
    apply accum_k2_t6
    · exact hIRA
    · exact fun j hj => hH0 _ (by have : j < 16 := hj; omega)
  · unfold AccInv
    isplitr
    · ipureintro; rfl
    isplitl [H6]
    · iexact H6
    iexact HdA
  iintro %acc6 HI
  unfold AccInv
  icases HI with ⟨%hacc6, H6, HdA⟩
  sl_exec
  -- batch row 4 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 64 (256 * k.val + 64)) $$ [H6 HdA]
  · intro k' acc'
    apply accum_k2_t7
    · exact hIRA
    · exact fun j hj => hH0 _ (by have : j < 16 := hj; omega)
  · unfold AccInv
    isplitr
    · ipureintro; rfl
    isplitl [H6]
    · iexact H6
    iexact HdA
  iintro %acc7 HI
  unfold AccInv
  icases HI with ⟨%hacc7, H6, HdA⟩
  sl_exec
  -- batch row 5 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 80 (256 * k.val + 80)) $$ [H6 HdA]
  · intro k' acc'
    apply accum_k2_t8
    · exact hIRA
    · exact fun j hj => hH0 _ (by have : j < 16 := hj; omega)
  · unfold AccInv
    isplitr
    · ipureintro; rfl
    isplitl [H6]
    · iexact H6
    iexact HdA
  iintro %acc8 HI
  unfold AccInv
  icases HI with ⟨%hacc8, H6, HdA⟩
  sl_exec
  -- batch row 6 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 96 (256 * k.val + 96)) $$ [H6 HdA]
  · intro k' acc'
    apply accum_k2_t9
    · exact hIRA
    · exact fun j hj => hH0 _ (by have : j < 16 := hj; omega)
  · unfold AccInv
    isplitr
    · ipureintro; rfl
    isplitl [H6]
    · iexact H6
    iexact HdA
  iintro %acc9 HI
  unfold AccInv
  icases HI with ⟨%hacc9, H6, HdA⟩
  sl_exec
  -- batch row 7 of the even chunk
  iterate 8 (try sl_rw [Prog.bind_assoc])
  sl_for (AccInv (F := F) (HIx 2) ℕ UU ℕ d (cV2 L) (jV2 L) sH2 sR2 (dstAN).view.set fullShare fullShare g6 ((dstAN).view.write (Elt F) gA pA Finset.univ) 0 112 (256 * k.val + 112)) $$ [H6 HdA]
  · intro k' acc'
    apply accum_k2_t10
    · exact hIRA
    · exact fun j hj => hH0 _ (by have : j < 16 := hj; omega)
  · unfold AccInv
    isplitr
    · ipureintro; rfl
    isplitl [H6]
    · iexact H6
    iexact HdA
  iintro %acc10 HI
  unfold AccInv
  icases HI with ⟨%hacc10, H6, HdA⟩
  -- the even chunk after next is not started; the wait for the odd chunk
  sl_exec
  icases HfB_dst with ⟨HdB, HoB⟩
  -- batch row 0 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 0 (256 * k.val + 128)) $$ [H6 HdB]
  · intro k' acc'
    apply accum_k2_t11
    · exact hIRB
    · exact fun j hj => hH0 _ (by have : j < 16 := hj; omega)
  · unfold AccInv
    isplitr
    · ipureintro; rfl
    isplitl [H6]
    · iexact H6
    iexact HdB
  iintro %acc11 HI
  unfold AccInv
  icases HI with ⟨%hacc11, H6, HdB⟩
  sl_exec
  -- batch row 1 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 16 (256 * k.val + 144)) $$ [H6 HdB]
  · intro k' acc'
    apply accum_k2_t12
    · exact hIRB
    · exact fun j hj => hH0 _ (by have : j < 16 := hj; omega)
  · unfold AccInv
    isplitr
    · ipureintro; rfl
    isplitl [H6]
    · iexact H6
    iexact HdB
  iintro %acc12 HI
  unfold AccInv
  icases HI with ⟨%hacc12, H6, HdB⟩
  sl_exec
  -- batch row 2 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 32 (256 * k.val + 160)) $$ [H6 HdB]
  · intro k' acc'
    apply accum_k2_t13
    · exact hIRB
    · exact fun j hj => hH0 _ (by have : j < 16 := hj; omega)
  · unfold AccInv
    isplitr
    · ipureintro; rfl
    isplitl [H6]
    · iexact H6
    iexact HdB
  iintro %acc13 HI
  unfold AccInv
  icases HI with ⟨%hacc13, H6, HdB⟩
  sl_exec
  -- batch row 3 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 48 (256 * k.val + 176)) $$ [H6 HdB]
  · intro k' acc'
    apply accum_k2_t14
    · exact hIRB
    · exact fun j hj => hH0 _ (by have : j < 16 := hj; omega)
  · unfold AccInv
    isplitr
    · ipureintro; rfl
    isplitl [H6]
    · iexact H6
    iexact HdB
  iintro %acc14 HI
  unfold AccInv
  icases HI with ⟨%hacc14, H6, HdB⟩
  sl_exec
  -- batch row 4 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 64 (256 * k.val + 192)) $$ [H6 HdB]
  · intro k' acc'
    apply accum_k2_t15
    · exact hIRB
    · exact fun j hj => hH0 _ (by have : j < 16 := hj; omega)
  · unfold AccInv
    isplitr
    · ipureintro; rfl
    isplitl [H6]
    · iexact H6
    iexact HdB
  iintro %acc15 HI
  unfold AccInv
  icases HI with ⟨%hacc15, H6, HdB⟩
  sl_exec
  -- batch row 5 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 80 (256 * k.val + 208)) $$ [H6 HdB]
  · intro k' acc'
    apply accum_k2_t16
    · exact hIRB
    · exact fun j hj => hH0 _ (by have : j < 16 := hj; omega)
  · unfold AccInv
    isplitr
    · ipureintro; rfl
    isplitl [H6]
    · iexact H6
    iexact HdB
  iintro %acc16 HI
  unfold AccInv
  icases HI with ⟨%hacc16, H6, HdB⟩
  sl_exec
  -- batch row 6 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 96 (256 * k.val + 224)) $$ [H6 HdB]
  · intro k' acc'
    apply accum_k2_t17
    · exact hIRB
    · exact fun j hj => hH0 _ (by have : j < 16 := hj; omega)
  · unfold AccInv
    isplitr
    · ipureintro; rfl
    isplitl [H6]
    · iexact H6
    iexact HdB
  iintro %acc17 HI
  unfold AccInv
  icases HI with ⟨%hacc17, H6, HdB⟩
  sl_exec
  -- batch row 7 of the odd chunk
  iterate 8 (try sl_rw [Prog.bind_assoc])
  sl_for (AccInv (F := F) (HIx 2) ℕ UU ℕ d (cV2 L) (jV2 L) sH2 sR2 (dstBN).view.set fullShare fullShare g6 ((dstBN).view.write (Elt F) gB pB Finset.univ) 1 112 (256 * k.val + 240)) $$ [H6 HdB]
  · intro k' acc'
    apply accum_k2_t18
    · exact hIRB
    · exact fun j hj => hH0 _ (by have : j < 16 := hj; omega)
  · unfold AccInv
    isplitr
    · ipureintro; rfl
    isplitl [H6]
    · iexact H6
    iexact HdB
  iintro %acc18 HI
  unfold AccInv
  icases HI with ⟨%hacc18, H6, HdB⟩
  -- the odd chunk after next is not started either
  sl_exec
  sl_step
  isplitr; · iexact Hlv
  -- the two gather buffers and the rest of the scratch: the scratch whole
  ihave H7 := (aside_elim _) $$ H7
  ihave HR := (slots_rejoin2 d L _ _ _) $$ [HdA HdB H7]
  · isplitl [HdA]; · iexact HdA
    isplitl [HdB]; · iexact HdB
    iexact H7
  icases HR with ⟨%gR', HR⟩
  -- the list whole: each half's chunk beside its rest, then the two halves
  ihave H5L := (aside_elim _) $$ H5L
  ihave H5L := (pointsTo_split_subset (ℓ := (sI2).view.loc (thr2 d L)) (q := fullShare.left) (f := g5) (Finset.subset_univ _)).2 $$ [HoA H5L]
  · isplitl [HoA] <;> iassumption
  ihave H5R := (aside_elim _) $$ H5R
  ihave H5R := (pointsTo_split_subset (ℓ := (sI2).view.loc (thr2 d L)) (q := fullShare.right) (f := g5) (Finset.subset_univ _)).2 $$ [HoB H5R]
  · isplitl [HoB] <;> iassumption
  ihave H5 := (pointsTo_share (PosShare.mem_left_op_right fullShare)).2 $$ [H5L H5R]
  · isplitl [H5L] <;> iassumption
  have hs6 : ((sH2).view.set : Finset (Idx ((sH2).view.loc (thr2 d L)))) = Finset.univ := View.set_whole _
  ihave H6 := (Entails.of_eq (congrArg (fun S => (((sH2).view.loc (thr2 d L) ↦[S]{fullShare} g6 : sProp 𝕄))) hs6)) $$ H6
  iexists gR', _, _
  isplitl [HO]; · iexact HO
  isplitl [H6]; · iexact H6
  isplitl [H8]; · iexact H8
  isplitl [HtL]; · iexact HtL
  isplitl [HtR]; · iexact HtR
  isplitl [HfA]; · iexact HfA
  isplitl [HfB]; · iexact HfB
  isplitl [HR]; · iexact HR
  isplitl [H5]; · iexact H5
  isplitl [HfA_src]; · iexact HfA_src
  isplitl [HfB_src]; · iexact HfB_src
  ipureintro
  refine ⟨?_, ?_⟩
  · intro p hp
    rcases Finset.mem_insert.mp hp with rfl | hp
    · exact Or.inr rfl
    · rcases Finset.mem_insert.mp hp with rfl | hp
      · exact Or.inr rfl
      · exact hfin.1 p hp
  · -- the block of sums after the last trip
    have e : k.val + 1 = 8 := by omega
    have h := trip_out2 k _ ix g8 gA gB pA pB g6 _ _ _ _ _ _ _ _ _ _ _ _ _ _ _ _ hfin.2.1 hfin.2.2.1 hfin.2.2.2 hg6 hacc3 hacc4 hacc5 hacc6 hacc7 hacc8 hacc9 hacc10 hacc11 hacc12 hacc13 hacc14 hacc15 hacc16 hacc17 hacc18
    rw [e] at h
    exact h

end Cert.Proof.KB

end
-- ==== Proof.KB.Tile2Trip.lean ====
/-
  One trip of the ring of gathers of one vector subcore's task: wait for the even chunk, add up its eight batch rows,
  start the even chunk after next; the same for the odd chunk.
-/
import proofs.«219250_g10247791969013_week1_w1_750_27_alg».proof.Proof.KB.Tile2Ring
import proofs.«219250_g10247791969013_week1_w1_750_27_alg».proof.Proof.KB.Tile2Chunks
import proofs.«219250_g10247791969013_week1_w1_750_27_alg».proof.Proof.KB.Tile2Chunks2
import proofs.«219250_g10247791969013_week1_w1_750_27_alg».proof.Proof.KB.Tile2TripOut
import proofs.«219250_g10247791969013_week1_w1_750_27_alg».proof.Proof.KB.Tile2TripLast
import Idealize.ShloMosaic.Lib.Tactic

noncomputable section

namespace Cert.Proof.KB

open Cert.Proof.KI

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid2.Coords)

set_option quotPrecheck false in
local notation "tabSlN" => ((tabM2).slice (Rect.unit (s := S802816x128) ![0, 0] S802816x128.size inb_S802816x128_S802816x128_0_0) (fun _ => rfl))
set_option quotPrecheck false in
local notation "dstAN" => (((sR2).slice (Rect.unit (s := S2x128x128) ![0, 0, 0] S1x128x128.size inb_S2x128x128_S1x128x128_0_0_0) (fun _ => rfl)).squeeze S128x128 squeezes_S1x128x128_S128x128)
set_option quotPrecheck false in
local notation "dstBN" => (((sR2).slice (Rect.unit (s := S2x128x128) ![1, 0, 0] S1x128x128.size inb_S2x128x128_S1x128x128_1_0_0) (fun _ => rfl)).squeeze S128x128 squeezes_S1x128x128_S128x128)

variable (q : PosShare TreeShare) (Tb : Buf (Elt F) ((tabM2).view.loc (thr2 d L)))
  (tb : S802816x128.Idx → Elt F .f32) (ix : S2048.Idx → Elt F .i32)
  (g5 : Buf (Elt F) ((sI2).view.loc (thr2 d L))) (g6 : Buf (Elt F) ((sH2).view.loc (thr2 d L)))
  (O : CellTallies nD τ sig (HIx 2)) (W : Waits sig (HIx 2))

omit [FloatOps F] in
theorem cond1_iff2 : ∀ k : Fin k2_t2_loop.trips, k2_cond1 k = 1#1 ↔ k.val + 1 < 8 := by decide +kernel
omit [FloatOps F] in
theorem cond2_iff2 : ∀ k : Fin k2_t2_loop.trips, k2_cond2 k = 1#1 ↔ k.val + 1 < 8 := by decide +kernel

/-- The even buffer's rows put back beside what lies outside both buffers: everything but the odd buffer. -/
theorem rowsA_join2 (g f : Buf (Elt F) ((sR2).view.loc (thr2 d L))) :
    iprop(((sR2).view.loc (thr2 d L) ↦[((dstAN).view.set : Finset S2x128x128.Idx)]{fullShare} g)
      ∗ ((sR2).view.loc (thr2 d L) ↦[(Finset.univ \ ((dstAN).view.set : Finset S2x128x128.Idx)) \ ((dstBN).view.set : Finset S2x128x128.Idx)]{fullShare} f))
      ⊢ ((sR2).view.loc (thr2 d L) ↦[Finset.univ \ ((dstBN).view.set : Finset S2x128x128.Idx)]{fullShare}
          (Finset.piecewise ((dstAN).view.set : Finset S2x128x128.Idx) g f) : sProp 𝕄) := by
  rw [sdiff_right_comm]
  exact pointsTo_join_subset disjAB2

/-- The odd buffer's rows put back likewise: everything but the even buffer. -/
theorem rowsB_join2 (g f : Buf (Elt F) ((sR2).view.loc (thr2 d L))) :
    iprop(((sR2).view.loc (thr2 d L) ↦[((dstBN).view.set : Finset S2x128x128.Idx)]{fullShare} g)
      ∗ ((sR2).view.loc (thr2 d L) ↦[(Finset.univ \ ((dstBN).view.set : Finset S2x128x128.Idx)) \ ((dstAN).view.set : Finset S2x128x128.Idx)]{fullShare} f))
      ⊢ ((sR2).view.loc (thr2 d L) ↦[Finset.univ \ ((dstAN).view.set : Finset S2x128x128.Idx)]{fullShare}
          (Finset.piecewise ((dstBN).view.set : Finset S2x128x128.Idx) g f) : sProp 𝕄) := by
  rw [sdiff_right_comm]
  exact pointsTo_join_subset disjBA2

omit [FloatOps F] in
theorem hsubT2 : (((tabSlN).view.set : Finset S802816x128.Idx)) ⊆ (tabM2).view.set := View.set_slice_subset (tabM2).view _

theorem eqA2s (k : Fin k2_t2_loop.trips) (hc : k2_cond1 k = 1#1) (hk7 : k.val + 1 < 8) :
    (((sI2).slice (Rect.unit (s := S2048) (k2_off29 k) S128.size (k2_off29_inb k hc)) (fun _ => rfl)).view.set : Finset S2048.Idx) = ((offsC2 (2 * (k.val + 1)) (lt16a hk7)).view.set : Finset S2048.Idx) :=
  eqA2 k hc hk7
theorem eqB2s (k : Fin k2_t2_loop.trips) (hc2 : k2_cond2 k = 1#1) (hk7 : k.val + 1 < 8) :
    (((sI2).slice (Rect.unit (s := S2048) (k2_off55 k) S128.size (k2_off55_inb k hc2)) (fun _ => rfl)).view.set : Finset S2048.Idx) = ((offsC2 (2 * (k.val + 1) + 1) (lt16b hk7)).view.set : Finset S2048.Idx) :=
  eqB2 k hc2 hk7
set_option maxHeartbeats 16000000 in
/-- One trip of the ring: wait for the even chunk, add up its eight batch rows, start the even chunk after next; the same
    for the odd chunk. -/
theorem ring_trip (k : Fin k2_t2_loop.trips) (acc : Unit)
    (hg5 : XI5 ix ((sI2).view.read (Elt F) g5) 128) (hg6 : XI6 ((sH2).view.read (Elt F) g6) 128)
    (htb : tb = (tabM2).view.read (Elt F) Tb) (hix : ∀ j, (ix j).toNat < 100000) (hO : ∀ g, O g none = 0) :
    iprop(levAts (K (F := F)).L (K (F := F)).lev ∗ ringInv2 (F := F) d L q Tb tb ix g5 g6 O W k.val acc)
      ⊢ wp frame (wpE (defs₀ (F := F)) 𝒱₀ (thr2 d L) none) Set.univ
      (k2_t2_body L tabM2 (Memref.isWhole_whole _) idxM2 (Memref.isWhole_whole _) outM2 (Memref.isWhole_whole _)
        sI2 (Memref.isWhole_whole _) sH2 (Memref.isWhole_whole _) sR2 (Memref.isWhole_whole _) sO2 (Memref.isWhole_whole _)
        cc2_scratch4 cc2_scratch5 cc2_scoped0 cc2_scoped1 k acc)
      (fun a => iprop(levAts (K (F := F)).L (K (F := F)).lev ∗ ringInv2 (F := F) d L q Tb tb ix g5 g6 O W (k.val + 1) a)) := by
  by_cases hc : k2_cond1 k = 1#1
  · -- more trips follow: both chunks after next are started
    subst htb
    have hk8 : k.val < 8 := k.isLt
    unfold k2_t2_body
    rw [k2_part12_eq_skeleton]
    unfold k2_part12_skel
    rw [k2_part1_eq_skeleton, k2_part2_eq_skeleton, k2_part3_eq_skeleton, k2_part4_eq_skeleton, k2_part5_eq_skeleton, k2_part6_eq_skeleton,
      k2_part7_eq_skeleton, k2_part8_eq_skeleton, k2_part9_eq_skeleton, k2_part10_eq_skeleton, k2_part11_eq_skeleton]
    unfold k2_part1_skel k2_part2_skel k2_part3_skel k2_part4_skel k2_part5_skel k2_part6_skel k2_part7_skel k2_part8_skel k2_part9_skel k2_part10_skel k2_part11_skel
    unfold ringInv2
    rw [dif_pos hk8]
    have hk7 : k.val + 1 < 8 := (cond1_iff2 k).mp hc
    have hc2 : k2_cond2 k = 1#1 := (cond2_iff2 k).mpr hk7
    rw [dif_pos hk7]
    unfold ringBusy2 flight2
    iintro ⟨#Hlv, %gA, %gB, %gR, %g8, %W', %pA, %pB, HO, H6, H8, HtL, HtR, HfA, HfB, H7, H5L, H5R, %hfin⟩
    ihave #Hmw := ((K (F := F)).mayWaits_none (thr := thr2 d L) hO) $$ Hlv
    have hall : ∀ y, ((sI2).view.read (Elt F) g5 y).toNat < 802816 := fun y => (rew_toNat2 (F := F) _ _ hg5 hix y).2
    have hH0 : ∀ p, p < 2048 → at1 ((sH2).view.read (Elt F) g6) p = 0#32 ∨ at1 ((sH2).view.read (Elt F) g6) p = 64#32 := fun p hp => half_val2_cases _ hg6 p hp
    have hIRA : ∀ x : (SR 128).Idx, (x 0).val = 0 → (sR2).view.emb x ∈ (dstAN).view.set := hIR_A2
    have hIRB : ∀ x : (SR 128).Idx, (x 0).val = 1 → (sR2).view.emb x ∈ (dstBN).view.set := hIR_B2
    have hinA : ∀ x, ((sI2.slice (Rect.unit (s := S2048) (k2_off29 k) S128.size (k2_off29_inb k hc)) (fun _ => rfl)).view.read (Elt F) g5 x).toNat < 802816 := fun x => hall _
    have hinB : ∀ x, ((sI2.slice (Rect.unit (s := S2048) (k2_off55 k) S128.size (k2_off55_inb k hc2)) (fun _ => rfl)).view.read (Elt F) g5 x).toNat < 802816 := fun x => hall _
    -- the wait for the even chunk
    sl_exec
    icases HfA_dst with ⟨HdA, HoA⟩
    -- batch row 0 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 0 (256 * k.val + 0)) $$ [H6 HdA]
    · intro k' acc'
      exact accum_k2_t3 (HIx 2) ℕ UU ℕ 𝒱₀ d none Set.univ L tabM2 _ idxM2 _ outM2 _ sI2 _ sH2 _ sR2 _ sO2 _ cc2_scratch4 cc2_scratch5 cc2_scoped0 cc2_scoped1 (0#32) (1#32) k
        (dstAN).view.set fullShare fullShare g6 ((dstAN).view.write (Elt F) gA pA Finset.univ) hIRA (fun j hj => hH0 _ (by have : j < 16 := hj; omega)) k' acc'
    · unfold AccInv
      isplitr
      · ipureintro; rfl
      isplitl [H6]
      · iexact H6
      iexact HdA
    iintro %acc3 HI
    unfold AccInv
    icases HI with ⟨%hacc3, H6, HdA⟩
    sl_exec
    -- batch row 1 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 16 (256 * k.val + 16)) $$ [H6 HdA]
    · intro k' acc'
      apply accum_k2_t4
      · exact hIRA
      · exact fun j hj => hH0 _ (by have : j < 16 := hj; omega)
    · unfold AccInv
      isplitr
      · ipureintro; rfl
      isplitl [H6]
      · iexact H6
      iexact HdA
    iintro %acc4 HI
    unfold AccInv
    icases HI with ⟨%hacc4, H6, HdA⟩
    sl_exec
    -- batch row 2 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 32 (256 * k.val + 32)) $$ [H6 HdA]
    · intro k' acc'
      apply accum_k2_t5
      · exact hIRA
      · exact fun j hj => hH0 _ (by have : j < 16 := hj; omega)
    · unfold AccInv
      isplitr
      · ipureintro; rfl
      isplitl [H6]
      · iexact H6
      iexact HdA
    iintro %acc5 HI
    unfold AccInv
    icases HI with ⟨%hacc5, H6, HdA⟩
    sl_exec
    -- batch row 3 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 48 (256 * k.val + 48)) $$ [H6 HdA]
    · intro k' acc'
      apply accum_k2_t6
      · exact hIRA
      · exact fun j hj => hH0 _ (by have : j < 16 := hj; omega)
    · unfold AccInv
      isplitr
      · ipureintro; rfl
      isplitl [H6]
      · iexact H6
      iexact HdA
    iintro %acc6 HI
    unfold AccInv
    icases HI with ⟨%hacc6, H6, HdA⟩
    sl_exec
    -- batch row 4 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 64 (256 * k.val + 64)) $$ [H6 HdA]
    · intro k' acc'
      apply accum_k2_t7
      · exact hIRA
      · exact fun j hj => hH0 _ (by have : j < 16 := hj; omega)
    · unfold AccInv
      isplitr
      · ipureintro; rfl
      isplitl [H6]
      · iexact H6
      iexact HdA
    iintro %acc7 HI
    unfold AccInv
    icases HI with ⟨%hacc7, H6, HdA⟩
    sl_exec
    -- batch row 5 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 80 (256 * k.val + 80)) $$ [H6 HdA]
    · intro k' acc'
      apply accum_k2_t8
      · exact hIRA
      · exact fun j hj => hH0 _ (by have : j < 16 := hj; omega)
    · unfold AccInv
      isplitr
      · ipureintro; rfl
      isplitl [H6]
      · iexact H6
      iexact HdA
    iintro %acc8 HI
    unfold AccInv
    icases HI with ⟨%hacc8, H6, HdA⟩
    sl_exec
    -- batch row 6 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 96 (256 * k.val + 96)) $$ [H6 HdA]
    · intro k' acc'
      apply accum_k2_t9
      · exact hIRA
      · exact fun j hj => hH0 _ (by have : j < 16 := hj; omega)
    · unfold AccInv
      isplitr
      · ipureintro; rfl
      isplitl [H6]
      · iexact H6
      iexact HdA
    iintro %acc9 HI
    unfold AccInv
    icases HI with ⟨%hacc9, H6, HdA⟩
    sl_exec
    -- batch row 7 of the even chunk
    iterate 8 (try sl_rw [Prog.bind_assoc])
    sl_for (AccInv (F := F) (HIx 2) ℕ UU ℕ d (cV2 L) (jV2 L) sH2 sR2 (dstAN).view.set fullShare fullShare g6 ((dstAN).view.write (Elt F) gA pA Finset.univ) 0 112 (256 * k.val + 112)) $$ [H6 HdA]
    · intro k' acc'
      apply accum_k2_t10
      · exact hIRA
      · exact fun j hj => hH0 _ (by have : j < 16 := hj; omega)
    · unfold AccInv
      isplitr
      · ipureintro; rfl
      isplitl [H6]
      · iexact H6
      iexact HdA
    iintro %acc10 HI
    unfold AccInv
    icases HI with ⟨%hacc10, H6, HdA⟩
    -- what the even chain holds, whole again, for its next gather
    ihave HtL := (aside_elim _) $$ HtL
    ihave HtL := (pointsTo_split_subset (ℓ := (tabM2).view.loc (thr2 d L)) (q := q.left) (f := Tb) hsubT2).2 $$ [HfA_src HtL]
    · isplitl [HfA_src] <;> iassumption
    ihave H5L := (aside_elim _) $$ H5L
    ihave H5L := (pointsTo_split_subset (ℓ := (sI2).view.loc (thr2 d L)) (q := fullShare.left) (f := g5) (Finset.subset_univ ((offsC2 (2 * k.val) (lt16a hk8)).view.set : Finset S2048.Idx))).2 $$ [HoA H5L]
    · isplitl [HoA] <;> iassumption
    ihave H7 := (aside_elim _) $$ H7
    ihave H7 := (rowsA_join2 d L _ _) $$ [HdA H7]
    · isplitl [HdA] <;> iassumption
    sl_exec
    icases HfB_dst with ⟨HdB, HoB⟩
    ihave HtL := (aside_intro _) $$ HtL
    ihave H5L := (aside_intro _) $$ H5L
    -- batch row 0 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 0 (256 * k.val + 128)) $$ [H6 HdB]
    · intro k' acc'
      apply accum_k2_t11
      · exact hIRB
      · exact fun j hj => hH0 _ (by have : j < 16 := hj; omega)
    · unfold AccInv
      isplitr
      · ipureintro; rfl
      isplitl [H6]
      · iexact H6
      iexact HdB
    iintro %acc11 HI
    unfold AccInv
    icases HI with ⟨%hacc11, H6, HdB⟩
    sl_exec
    -- batch row 1 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 16 (256 * k.val + 144)) $$ [H6 HdB]
    · intro k' acc'
      apply accum_k2_t12
      · exact hIRB
      · exact fun j hj => hH0 _ (by have : j < 16 := hj; omega)
    · unfold AccInv
      isplitr
      · ipureintro; rfl
      isplitl [H6]
      · iexact H6
      iexact HdB
    iintro %acc12 HI
    unfold AccInv
    icases HI with ⟨%hacc12, H6, HdB⟩
    sl_exec
    -- batch row 2 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 32 (256 * k.val + 160)) $$ [H6 HdB]
    · intro k' acc'
      apply accum_k2_t13
      · exact hIRB
      · exact fun j hj => hH0 _ (by have : j < 16 := hj; omega)
    · unfold AccInv
      isplitr
      · ipureintro; rfl
      isplitl [H6]
      · iexact H6
      iexact HdB
    iintro %acc13 HI
    unfold AccInv
    icases HI with ⟨%hacc13, H6, HdB⟩
    sl_exec
    -- batch row 3 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 48 (256 * k.val + 176)) $$ [H6 HdB]
    · intro k' acc'
      apply accum_k2_t14
      · exact hIRB
      · exact fun j hj => hH0 _ (by have : j < 16 := hj; omega)
    · unfold AccInv
      isplitr
      · ipureintro; rfl
      isplitl [H6]
      · iexact H6
      iexact HdB
    iintro %acc14 HI
    unfold AccInv
    icases HI with ⟨%hacc14, H6, HdB⟩
    sl_exec
    -- batch row 4 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 64 (256 * k.val + 192)) $$ [H6 HdB]
    · intro k' acc'
      apply accum_k2_t15
      · exact hIRB
      · exact fun j hj => hH0 _ (by have : j < 16 := hj; omega)
    · unfold AccInv
      isplitr
      · ipureintro; rfl
      isplitl [H6]
      · iexact H6
      iexact HdB
    iintro %acc15 HI
    unfold AccInv
    icases HI with ⟨%hacc15, H6, HdB⟩
    sl_exec
    -- batch row 5 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 80 (256 * k.val + 208)) $$ [H6 HdB]
    · intro k' acc'
      apply accum_k2_t16
      · exact hIRB
      · exact fun j hj => hH0 _ (by have : j < 16 := hj; omega)
    · unfold AccInv
      isplitr
      · ipureintro; rfl
      isplitl [H6]
      · iexact H6
      iexact HdB
    iintro %acc16 HI
    unfold AccInv
    icases HI with ⟨%hacc16, H6, HdB⟩
    sl_exec
    -- batch row 6 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 96 (256 * k.val + 224)) $$ [H6 HdB]
    · intro k' acc'
      apply accum_k2_t17
      · exact hIRB
      · exact fun j hj => hH0 _ (by have : j < 16 := hj; omega)
    · unfold AccInv
      isplitr
      · ipureintro; rfl
      isplitl [H6]
      · iexact H6
      iexact HdB
    iintro %acc17 HI
    unfold AccInv
    icases HI with ⟨%hacc17, H6, HdB⟩
    sl_exec
    -- batch row 7 of the odd chunk
    iterate 8 (try sl_rw [Prog.bind_assoc])
    sl_for (AccInv (F := F) (HIx 2) ℕ UU ℕ d (cV2 L) (jV2 L) sH2 sR2 (dstBN).view.set fullShare fullShare g6 ((dstBN).view.write (Elt F) gB pB Finset.univ) 1 112 (256 * k.val + 240)) $$ [H6 HdB]
    · intro k' acc'
      apply accum_k2_t18
      · exact hIRB
      · exact fun j hj => hH0 _ (by have : j < 16 := hj; omega)
    · unfold AccInv
      isplitr
      · ipureintro; rfl
      isplitl [H6]
      · iexact H6
      iexact HdB
    iintro %acc18 HI
    unfold AccInv
    icases HI with ⟨%hacc18, H6, HdB⟩
    -- what the odd chain holds, whole again, for its next gather
    ihave HtR := (aside_elim _) $$ HtR
    ihave HtR := (pointsTo_split_subset (ℓ := (tabM2).view.loc (thr2 d L)) (q := q.right) (f := Tb) hsubT2).2 $$ [HfB_src HtR]
    · isplitl [HfB_src] <;> iassumption
    ihave H5R := (aside_elim _) $$ H5R
    ihave H5R := (pointsTo_split_subset (ℓ := (sI2).view.loc (thr2 d L)) (q := fullShare.right) (f := g5) (Finset.subset_univ ((offsC2 (2 * k.val + 1) (lt16b hk8)).view.set : Finset S2048.Idx))).2 $$ [HoB H5R]
    · isplitl [HoB] <;> iassumption
    ihave H7 := (rowsB_join2 d L _ _) $$ [HdB H7]
    · isplitl [HdB] <;> iassumption
    sl_exec
    ihave HtR := (aside_intro _) $$ HtR
    ihave H5R := (aside_intro _) $$ H5R
    ihave H7 := (aside_intro _) $$ H7
    sl_step
    rw [eqA2s k hc hk7, eqB2s k hc2 hk7]
    isplitr [HO H6 H8 HtL HtR HfA HfB H7 H5L H5R]
    · iexact Hlv
    iexists _, _, _, _, _, _, _
    isplitl [HO]; · iexact HO
    isplitl [H6]; · iexact H6
    isplitl [H8]; · iexact H8
    isplitl [HtL]; · iexact HtL
    isplitl [HtR]; · iexact HtR
    isplitl [HfA]; · iexact HfA
    isplitl [HfB]; · iexact HfB
    isplitl [H7]; · iexact H7
    isplitl [H5L]; · iexact H5L
    isplitl [H5R]; · iexact H5R
    ipureintro
    refine ⟨?_, ?_, ?_, ?_⟩
    · intro p hp
      rcases Finset.mem_insert.mp hp with rfl | hp
      · exact Or.inr rfl
      rcases Finset.mem_insert.mp hp with rfl | hp
      · exact Or.inr rfl
      exact hfin.1 p hp
    · exact trip_out2 k _ ix g8 gA gB pA pB g6 _ _ _ _ _ _ _ _ _ _ _ _ _ _ _ _ hfin.2.1 hfin.2.2.1 hfin.2.2.2 hg6 hacc3 hacc4 hacc5 hacc6 hacc7 hacc8 hacc9 hacc10 hacc11 hacc12 hacc13 hacc14 hacc15 hacc16 hacc17 hacc18
    · exact gather_spec2 d L Tb ix g5 hg5 hix (2 * (k.val + 1)) (k2_off29 k) _ _
        ((k2_off29_eq k).trans (by rw [show 128 * (2 * (k.val + 1)) = 256 * k.val + 256 from by omega])) _ _
    · exact gather_spec2 d L Tb ix g5 hg5 hix (2 * (k.val + 1) + 1) (k2_off55 k) _ _
        ((k2_off55_eq k).trans (by rw [show 128 * (2 * (k.val + 1) + 1) = 256 * k.val + 384 from by omega])) _ _
  · -- the last trip: nothing more is started; everything comes back
    exact ring_trip_last d L q Tb tb ix g5 g6 O W k acc hg5 hg6 htb hix hO hc

end Cert.Proof.KB

end
-- ==== Proof.KB.Tile2.lean ====
/-
  One vector subcore's task of the first embedding-sum call, run from what it is handed to what it leaves.
-/
import proofs.«219250_g10247791969013_week1_w1_750_27_alg».proof.Proof.KB.Tile2Trip
import Idealize.ShloMosaic.Lib.Tactic

noncomputable section

namespace Cert.Proof.KB

open Cert.Proof.KI

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

/-! ## The task -/

variable (d : Dev nD) (L : grid2.Coords)

theorem ringInv2_last (q : PosShare TreeShare) (Tb : Buf (Elt F) ((tabM2).view.loc (thr2 d L)))
    (tb : S802816x128.Idx → Elt F .f32) (ix : S2048.Idx → Elt F .i32)
    (g5 : Buf (Elt F) ((sI2).view.loc (thr2 d L))) (g6 : Buf (Elt F) ((sH2).view.loc (thr2 d L)))
    (O : CellTallies nD τ sig (HIx 2)) (W : Waits sig (HIx 2)) (n : ℕ) (hn : ¬ n < 8) (a : Unit) :
    ringInv2 (F := F) d L q Tb tb ix g5 g6 O W n a = ringDone2 (F := F) d L q Tb tb ix g5 g6 O W := by
  unfold ringInv2; rw [dif_neg hn]

/-- An unmasked write through the whole-shape rectangle of a view is the write through the view. -/
theorem write_slice_whole {sg : RefSig} {κ : Kind} {sp : Space} {S : Shape} {e : EltTy} (v : View sg κ sp S e)
    (f : v.ty.Contents (Elt F)) (w : S.Idx → Elt F e) :
    (v.slice (Rect.whole S)).write (Elt F) f w Finset.univ = v.write (Elt F) f w Finset.univ := by
  funext i
  by_cases hi : i ∈ v.setOn Finset.univ
  · obtain ⟨x, -, rfl⟩ := Finset.mem_map.mp hi
    have e1 : v.emb x = (v.slice (Rect.whole S)).emb x := by
      show v.emb x = v.emb ((Rect.whole S).emb x); rw [Rect.emb_whole_apply]
    rw [View.write_emb_of_mem _ _ (Finset.mem_univ x)]
    conv_lhs => rw [e1]
    rw [View.write_emb_of_mem _ _ (Finset.mem_univ x)]
  · rw [View.write_of_not_mem _ _ _ hi, View.write_of_not_mem _ _ _ (fun h => hi (by
      obtain ⟨x, -, hx⟩ := Finset.mem_map.mp h
      exact Finset.mem_map.mpr ⟨(Rect.whole S).emb x, Finset.mem_univ _, hx⟩))]

set_option maxHeartbeats 4000000 in
/-- One vector subcore's task of the first embedding-sum call: handed a share of the pair table, a share of its 2048
    index words (each below 100000), its 64 result rows at any contents, its own buffers and semaphores, it runs to
    its end, gives the shares back unchanged and leaves its result rows at `OUT2`. -/
theorem tile2_body (hF : (K (F := F)).Facts) (q qi : PosShare TreeShare)
    (Tb : Buf (Elt F) ((tabM2).view.loc (thr2 d L))) (Ix : Buf (Elt F) ((idxSl2 L).view.loc (thr2 d L)))
    (fo : Buf (Elt F) ((outSl2 L).view.loc (thr2 d L)))
    (hIx : ∀ j, ((idxSl2 L).view.read (Elt F) Ix j).toNat < 100000)
    (O : CellTallies nD τ sig (HIx 2)) (W : Waits sig (HIx 2)) (hO : ∀ g, O g none = 0) :
    iprop(levAts (K (F := F)).L (K (F := F)).lev
        ∗ ((tabM2).view.loc (thr2 d L) ↦[(tabM2).view.set]{q} Tb)
        ∗ ((idxSl2 L).view.loc (thr2 d L) ↦[(idxSl2 L).view.set]{qi} Ix)
        ∗ ((outSl2 L).view.loc (thr2 d L) ↦[(outSl2 L).view.set]{fullShare} fo)
        ∗ scopedBufs (thr2 d L) ∗ scopedSems0 (thr2 d L) ∗ owes (thr2 d L) O W)
      ⊢ (wp frame (wpE (defs₀ (F := F)) 𝒱₀ (thr2 d L) none) Set.univ
          (cc2__emb_body L tabM2 (Memref.isWhole_whole _) idxM2 (Memref.isWhole_whole _) outM2 (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            cc2_scratch4 cc2_scratch5 cc2_scoped0 cc2_scoped1)
          fun _ => iprop(((tabM2).view.loc (thr2 d L) ↦[(tabM2).view.set]{q} Tb)
            ∗ ((idxSl2 L).view.loc (thr2 d L) ↦[(idxSl2 L).view.set]{qi} Ix)
            ∗ ((outSl2 L).view.loc (thr2 d L) ↦[(outSl2 L).view.set]{fullShare}
                ((outSl2 L).view.write (Elt F) fo (OUT2 ((tabM2).view.read (Elt F) Tb) ((idxSl2 L).view.read (Elt F) Ix)) Finset.univ))
            ∗ scopedBufs (thr2 d L) ∗ scopedSems0 (thr2 d L)
            ∗ ∃ W', ⌜∀ p ∈ W', p ∈ W ∨ p.2 = none⌝ ∗ owes (thr2 d L) O W') : sProp 𝕄) := by
  rw [(K (F := F)).scopedBufs_V hF d (cV2 L) (jV2 L), SparseCore.Cfg.scopedSems0_V (Val := Elt F) d (cV2 L) (jV2 L), ownSems0_V2, ownBufs_V2]
  iintro ⟨#Hlv, Ht, Hi, Ho, ⟨⟨%f5, H5⟩, ⟨%f6, H6⟩, ⟨%f7, H7⟩, ⟨%f8, H8⟩, Hbufs⟩, ⟨HsA, HsB, HsC, HsD, Hsems⟩, HO⟩
  ihave #Hmw := ((K (F := F)).mayWaits_none (thr := thr2 d L) hO) $$ Hlv
  -- the table's share in two halves, one per gather buffer; the second set aside until the first gather is out
  ihave Ht2 := (pointsTo_share (PosShare.mem_left_op_right q)).1 $$ Ht
  icases Ht2 with ⟨HtL, HtR⟩
  ihave HtR' := (aside_intro _) $$ HtR
  sl_unfold [cc2__emb_body, k2_part13]
  -- the copy in
  sl_exec
  -- the rewrite of the list
  sl_for (xfInv (F := F) d L ((idxSl2 L).view.read (Elt F) Ix)) $$ [H5 H6]
  · exact xform_trip d L _
  · unfold xfInv
    iexists _, _
    isplitl [H5]; · iexact H5
    isplitl [H6]; · iexact H6
    ipureintro
    exact ⟨XI5_zero _ _ _, XI6_zero _⟩
  iintro %acc HI
  unfold xfInv
  icases HI with ⟨%g5, %g6, H5, H6, %hP⟩
  -- every rewritten word names a row of the pair table
  have hall : ∀ y, ((sI2).view.read (Elt F) g5 y).toNat < 802816 := fun y => (rew_toNat2 (F := F) _ _ hP.1 hIx y).2
  have hin0 : ∀ x, ((sI2.slice (Rect.unit (s := S2048) ![0] S128.size inb_S2048_S128_0) (fun _ => rfl)).view.read (Elt F) g5 x).toNat < 802816 := fun x => hall _
  have hin1 : ∀ x, ((sI2.slice (Rect.unit (s := S2048) ![128] S128.size inb_S2048_S128_128) (fun _ => rfl)).view.read (Elt F) g5 x).toNat < 802816 := fun x => hall _
  -- the list in two halves too, one per gather chain; the second set aside until the first gather is out
  ihave H5s := (pointsTo_share (PosShare.mem_left_op_right fullShare)).1 $$ H5
  icases H5s with ⟨H5L, H5R⟩
  ihave H5R' := (aside_intro _) $$ H5R
  -- the first two gathers
  sl_exec
  ihave HtL := (aside_intro _) $$ HtL
  ihave H5L := (aside_intro _) $$ H5L
  ihave HtR := (aside_elim _) $$ HtR'
  ihave H5R := (aside_elim _) $$ H5R'
  sl_exec
  -- the ring of gathers
  ihave HtR := (aside_intro _) $$ HtR
  ihave H5R := (aside_intro _) $$ H5R
  ihave H7 := (aside_intro _) $$ H7
  sl_for (fun k a => iprop(levAts (K (F := F)).L (K (F := F)).lev
      ∗ ringInv2 (F := F) d L q Tb ((tabM2).view.read (Elt F) Tb) ((idxSl2 L).view.read (Elt F) Ix) g5 g6 O
          (insert (SemLoc.dma cc2_scoped0.sem, (default : HIx 2)) W) k a)) $$ [Hlv HsA HtL HsB HtR H7 H5L H5R H6 H8 HO]
  · intro k acc
    exact ring_trip d L q Tb _ _ g5 g6 O _ k acc hP.1 hP.2 rfl hIx hO
  · -- ENTRY: the state after the two first gathers is the invariant before trip 0
    unfold ringInv2
    rw [dif_pos (show (0 : ℕ) < 8 by decide)]
    unfold ringBusy2 flight2
    isplitr; · iexact Hlv
    iexists f7, _, _, f8, (insert (SemLoc.dma cc2_scoped0.sem, (default : HIx 2)) W), _, _
    isplitl [HO]; · iexact HO
    isplitl [H6]; · iexact H6
    isplitl [H8]; · iexact H8
    isplitl [HtL]; · iexact HtL
    isplitl [HtR]; · iexact HtR
    isplitl [HsA]; · iexact HsA
    isplitl [HsB]; · iexact HsB
    isplitl [H7]; · iexact H7
    isplitl [H5L]; · iexact H5L
    isplitl [H5R]; · iexact H5R
    ipureintro
    refine ⟨fun p hp => Or.inl hp, OutOK2_zero _ _ _, ?_, ?_⟩
    · exact gather_spec2 d L Tb _ g5 hP.1 hIx 0 ![0] inb_S2048_S128_0 _ rfl rfl hin0
    · exact gather_spec2 d L Tb _ g5 hP.1 hIx 1 ![128] inb_S2048_S128_128 _ rfl rfl hin1
  iintro %acc2 HI
  -- TAIL: the invariant after trip 8, the copy out, the post
  icases HI with ⟨-, HI⟩
  ihave HI := (Entails.of_eq (ringInv2_last d L q Tb _ _ g5 g6 O _ _ (by decide) acc2)) $$ HI
  unfold ringDone2
  icases HI with ⟨%gR, %g8, %W', HO, H6, H8, HtLr, HtRr, HsA, HsB, H7, H5, HtA, HtB, %hfin⟩
  ihave HtLr := (aside_elim _) $$ HtLr
  ihave HtRr := (aside_elim _) $$ HtRr
  have hsub : ((tabSl2).view.set : Finset (Idx ((tabM2).view.loc (thr2 d L)))) ⊆ (tabM2).view.set := View.set_slice_subset (tabM2).view _
  ihave HtL := (pointsTo_split_subset (ℓ := (tabM2).view.loc (thr2 d L)) (q := q.left) (f := Tb) hsub).2 $$ [HtA HtLr]
  · isplitl [HtA]; · iexact HtA
    iexact HtLr
  ihave HtR := (pointsTo_split_subset (ℓ := (tabM2).view.loc (thr2 d L)) (q := q.right) (f := Tb) hsub).2 $$ [HtB HtRr]
  · isplitl [HtB]; · iexact HtB
    iexact HtRr
  ihave Ht := (pointsTo_share (PosShare.mem_left_op_right q)).2 $$ [HtL HtR]
  · isplitl [HtL]; · iexact HtL
    iexact HtR
  -- the copy out
  sl_exec
  sl_step
  -- the block of sums is the specification's, all 64 rows of it
  have hOut : (sO2).view.read (Elt F) g8 = OUT2 ((tabM2).view.read (Elt F) Tb) ((idxSl2 L).view.read (Elt F) Ix) :=
    funext fun x => hfin.2 x (by have h64 : (x 0).val < 64 := (x 0).isLt; omega)
  have hpay : tile2_body.sl.dma0_1 d L g8 = (sO2).view.read (Elt F) g8 := rfl
  have hval : (outSl2 L).view.writes (Elt F) fo [⟨Rect.whole S64x128, tile2_body.sl.dma0_1 d L g8⟩]
      = (outSl2 L).view.write (Elt F) fo (OUT2 ((tabM2).view.read (Elt F) Tb) ((idxSl2 L).view.read (Elt F) Ix)) Finset.univ := by
    rw [hpay, hOut, View.writes_singleton]; exact write_slice_whole _ _ _
  rw [← hval]
  isplitl [Ht]; · iexact Ht
  isplitl [Hi]; · iexact Hi
  isplitl [Ho]; · iexact Ho
  isplitl [H5 H6 H7 H8 Hbufs]
  · isplitl [H5]; · iexists g5; iexact H5
    isplitl [H6]; · iexists g6; iexact H6
    isplitl [H7]; · iexists gR; iexact H7
    isplitl [H8]; · iexists g8; iexact H8
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists (insert (SemLoc.dma cc2_scoped1.sem, (default : HIx 2)) W')
  isplitr
  · ipureintro
    intro p hp
    rcases Finset.mem_insert.mp hp with rfl | hp
    · exact Or.inr rfl
    · rcases hfin.1 p hp with h | h
      · rcases Finset.mem_insert.mp h with rfl | h
        · exact Or.inr rfl
        · exact Or.inl h
      · exact Or.inr h
  iexact HO
-- ==== Proof.KB.Tile3Res.lean ====
/-
  One vector subcore's task of the second embedding-sum call: what it is handed, what it leaves, and the value it
  writes. The task copies its 1280 index words into its own memory, turns each into a row number of the
  pair table (the word plus (position mod 10 / 2) * 100352) beside the lane offset (position mod 10 mod 2) * 64,
  gathers the named rows 80 at a time through two buffers, adds up ten gathered half-rows per batch row, and
  copies its 64 x 128 block of sums out.
-/
import proofs.«219250_g10247791969013_week1_w1_750_27_alg».proof.Proof.KB.Base
import proofs.«219250_g10247791969013_week1_w1_750_27_alg».proof.Proof.KB.Tile3Defs
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The task's own buffers and semaphores -/

open Idealize.ShloMosaic.SparseCore.Cfg (tileRest ownBufs ownSems0 ownCells ownRefs mem_ownCells mem_ownRefs)

/-- The task's copy of its index words (1280). -/
abbrev sI3 : Memref sig .scVector .vmem S1280 .i32 := Memref.whole cc3_scratch0
/-- The lane offsets beside them (1296 words, the last 16 never written). -/
abbrev sH3 : Memref sig .scVector .vmem S1296 .i32 := Memref.whole cc3_scratch1
/-- The two gather buffers (2 x 80 x 128). -/
abbrev sR3 : Memref sig .scVector .vmem S2x80x128 .f32 := Memref.whole cc3_scratch2
/-- The block of sums (64 x 128). -/
abbrev sO3 : Memref sig .scVector .vmem S64x128 .f32 := Memref.whole cc3_scratch3

variable (d : Dev nD) (L : grid3.Coords)

/-- The semaphore of the even chunks' gathers. -/
abbrev cellA3 : GSem nD τ sig := (thr3 d L, .dma cc3_scratch4.sem)
/-- The semaphore of the odd chunks' gathers. -/
abbrev cellB3 : GSem nD τ sig := (thr3 d L, .dma cc3_scratch5.sem)
/-- The semaphore of the copy in. -/
abbrev cellC3 : GSem nD τ sig := (thr3 d L, .dma cc3_scoped0.sem)
/-- The semaphore of the copy out. -/
abbrev cellD3 : GSem nD τ sig := (thr3 d L, .dma cc3_scoped1.sem)

omit [FloatOps F] in
/-- The four semaphores the task uses are among the subcore's own: they are them, at zero, and the rest. -/
theorem ownSems0_V3 :
    (ownSems0 (thr3 d L) : sProp 𝕄)
      = iprop(semVal (cellA3 d L) 0 ∗ semVal (cellB3 d L) 0 ∗ semVal (cellC3 d L) 0 ∗ semVal (cellD3 d L) 0
          ∗ bigSep (((((ownCells (thr3 d L)).erase (cellA3 d L)).erase (cellB3 d L)).erase (cellC3 d L)).erase (cellD3 d L))
              fun g => semVal g 0) := by
  unfold SparseCore.Cfg.ownSems0
  have hA : cellA3 d L ∈ ownCells (thr3 d L) := (mem_ownCells (g := cellA3 d L)).mpr ⟨rfl, by
    show (SemLoc.dma cc3_scratch4.sem : SemLoc sig).isScoped .scVector = true; decide⟩
  have hB : cellB3 d L ∈ ownCells (thr3 d L) := (mem_ownCells (g := cellB3 d L)).mpr ⟨rfl, by
    show (SemLoc.dma cc3_scratch5.sem : SemLoc sig).isScoped .scVector = true; decide⟩
  have hC : cellC3 d L ∈ ownCells (thr3 d L) := (mem_ownCells (g := cellC3 d L)).mpr ⟨rfl, by
    show (SemLoc.dma cc3_scoped0.sem : SemLoc sig).isScoped .scVector = true; decide⟩
  have hD : cellD3 d L ∈ ownCells (thr3 d L) := (mem_ownCells (g := cellD3 d L)).mpr ⟨rfl, by
    show (SemLoc.dma cc3_scoped1.sem : SemLoc sig).isScoped .scVector = true; decide⟩
  have nBA : cellB3 d L ≠ cellA3 d L := by simp [cellA3, cellB3]; decide
  have nCA : cellC3 d L ≠ cellA3 d L := by simp [cellA3, cellC3]; decide
  have nCB : cellC3 d L ≠ cellB3 d L := by simp [cellB3, cellC3]; decide
  have nDA : cellD3 d L ≠ cellA3 d L := by simp [cellA3, cellD3]; decide
  have nDB : cellD3 d L ≠ cellB3 d L := by simp [cellB3, cellD3]; decide
  have nDC : cellD3 d L ≠ cellC3 d L := by simp [cellC3, cellD3]; decide
  rw [SparseCore.bigSep_erase' hA,
    SparseCore.bigSep_erase' (Finset.mem_erase.mpr ⟨nBA, hB⟩),
    SparseCore.bigSep_erase' (Finset.mem_erase.mpr ⟨nCB, Finset.mem_erase.mpr ⟨nCA, hC⟩⟩),
    SparseCore.bigSep_erase' (Finset.mem_erase.mpr ⟨nDC, Finset.mem_erase.mpr ⟨nDB, Finset.mem_erase.mpr ⟨nDA, hD⟩⟩⟩)]

omit [FloatOps F] in
/-- The four scratch buffers are among the subcore's own: they are them, whole at some contents, and the rest. -/
theorem ownBufs_V3 :
    (ownBufs (thr3 d L) : sProp 𝕄)
      = iprop((∃ f, (sI3).view.loc (thr3 d L) ↦{fullShare} f) ∗ (∃ f, (sH3).view.loc (thr3 d L) ↦{fullShare} f)
          ∗ (∃ f, (sR3).view.loc (thr3 d L) ↦{fullShare} f) ∗ (∃ f, (sO3).view.loc (thr3 d L) ↦{fullShare} f)
          ∗ bigSep (((((ownRefs (τ := τ) (.scVector (cV3 L) (jV3 L))).erase ((Proc.scVector (cV3 L) (jV3 L)).devRef cc3_scratch0)).erase
              ((Proc.scVector (cV3 L) (jV3 L)).devRef cc3_scratch1)).erase ((Proc.scVector (cV3 L) (jV3 L)).devRef cc3_scratch2)).erase
              ((Proc.scVector (cV3 L) (jV3 L)).devRef cc3_scratch3))
              fun b => iprop(∃ f, ((d, b) : Loc nD τ sig) ↦{fullShare} f)) := by
  unfold SparseCore.Cfg.ownBufs
  have m0 := SparseCore.Cfg.mem_ownRefs_of_owner (p := Proc.scVector (cV3 L) (jV3 L)) (b := (Proc.scVector (cV3 L) (jV3 L)).devRef cc3_scratch0) rfl
  have m1 := SparseCore.Cfg.mem_ownRefs_of_owner (p := Proc.scVector (cV3 L) (jV3 L)) (b := (Proc.scVector (cV3 L) (jV3 L)).devRef cc3_scratch1) rfl
  have m2 := SparseCore.Cfg.mem_ownRefs_of_owner (p := Proc.scVector (cV3 L) (jV3 L)) (b := (Proc.scVector (cV3 L) (jV3 L)).devRef cc3_scratch2) rfl
  have m3 := SparseCore.Cfg.mem_ownRefs_of_owner (p := Proc.scVector (cV3 L) (jV3 L)) (b := (Proc.scVector (cV3 L) (jV3 L)).devRef cc3_scratch3) rfl
  have n10 : (Proc.scVector (cV3 L) (jV3 L)).devRef cc3_scratch1 ≠ (Proc.scVector (cV3 L) (jV3 L)).devRef cc3_scratch0 :=
    fun e => absurd (Proc.devRef_injective _ e) (show (cc3_scratch1 : Ref sig .scVector) ≠ cc3_scratch0 by decide)
  have n20 : (Proc.scVector (cV3 L) (jV3 L)).devRef cc3_scratch2 ≠ (Proc.scVector (cV3 L) (jV3 L)).devRef cc3_scratch0 :=
    fun e => absurd (Proc.devRef_injective _ e) (show (cc3_scratch2 : Ref sig .scVector) ≠ cc3_scratch0 by decide)
  have n21 : (Proc.scVector (cV3 L) (jV3 L)).devRef cc3_scratch2 ≠ (Proc.scVector (cV3 L) (jV3 L)).devRef cc3_scratch1 :=
    fun e => absurd (Proc.devRef_injective _ e) (show (cc3_scratch2 : Ref sig .scVector) ≠ cc3_scratch1 by decide)
  have n30 : (Proc.scVector (cV3 L) (jV3 L)).devRef cc3_scratch3 ≠ (Proc.scVector (cV3 L) (jV3 L)).devRef cc3_scratch0 :=
    fun e => absurd (Proc.devRef_injective _ e) (show (cc3_scratch3 : Ref sig .scVector) ≠ cc3_scratch0 by decide)
  have n31 : (Proc.scVector (cV3 L) (jV3 L)).devRef cc3_scratch3 ≠ (Proc.scVector (cV3 L) (jV3 L)).devRef cc3_scratch1 :=
    fun e => absurd (Proc.devRef_injective _ e) (show (cc3_scratch3 : Ref sig .scVector) ≠ cc3_scratch1 by decide)
  have n32 : (Proc.scVector (cV3 L) (jV3 L)).devRef cc3_scratch3 ≠ (Proc.scVector (cV3 L) (jV3 L)).devRef cc3_scratch2 :=
    fun e => absurd (Proc.devRef_injective _ e) (show (cc3_scratch3 : Ref sig .scVector) ≠ cc3_scratch2 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

/-! ## The rewrite of the index list, word by word -/

/-- The word at position `p` after the rewrite: the index plus the pair's block of rows. -/
def rewW3 (w : BitVec 32) (p : ℕ) : BitVec 32 := w + BitVec.ofNat 32 (p % 10 / 2 * 100352)
/-- The lane offset at position `p`: which half of the pair's row. -/
def halfW3 (p : ℕ) : BitVec 32 := BitVec.ofNat 32 (p % 10 % 2 * 64)

/-- Before trip `k` of the rewrite the first `16 k` words are rewritten, the others as copied in. -/
def ZI5 (c5 g : S1280.Idx → BitVec 32) (k : ℕ) : Prop :=
  ∀ x : S1280.Idx, g x = if (x 0).val < 16 * k then rewW3 (c5 x) (x 0).val else c5 x
/-- Before trip `k` the first `16 k` lane offsets are in place. -/
def ZI6 (g : S1296.Idx → BitVec 32) (k : ℕ) : Prop :=
  ∀ x : S1296.Idx, (x 0).val < 16 * k → g x = halfW3 (x 0).val

end Cert.Proof.KB

end
-- ==== Proof.KB.Tile3Pay.lean ====
/-
  The payloads of the index-list rewrite, lane by lane: the position's remainder by 10, the lane offset stored
  beside the list, and the block of rows added to the index word.
-/
import proofs.«219250_g10247791969013_week1_w1_750_27_alg».proof.Proof.KB.Tile3Res
import proofs.«219250_g10247791969013_week1_w1_750_27_alg».proof.Proof.Gen.Kernel.Skeleton
import Idealize.ShloMosaic.Lib.Pipeline.Value
import Idealize.ShloMosaic.Lib.ValueLayout
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.ValueIdx (ix1 ix2 ix3 eq_ix1 eq_ix2 eq_ix3)

omit [FloatOps F] in
theorem pay209_val3 : ∀ k : Fin k3_t1_loop.trips, ∀ u : Fin 16, k3_pay209 k (ix1 u) = BitVec.ofNat 32 ((16 * k.val + u.val) % 10) := by decide +kernel
omit [FloatOps F] in
theorem pay210_val3 : ∀ k : Fin k3_t1_loop.trips, ∀ u : Fin 16, k3_pay210 k (ix1 u) = BitVec.ofNat 32 ((16 * k.val + u.val) % 10 % 2 * 64) := by decide +kernel
omit [FloatOps F] in
theorem shr_mul_val3 : ∀ r : Fin 10,
    IntOp.muli (IntOp.shrui .vector (BitVec.ofNat 32 r.val) 1#32) 100352#32 = BitVec.ofNat 32 (r.val / 2 * 100352) := by decide +kernel
/-- The word stored at lane `u` of trip `k`: the word loaded plus `((16 k + u) mod 10 / 2) * 100352`. -/
theorem pay211_val3 (k : Fin k3_t1_loop.trips) (v : Vec F S16 .i32) (u : Fin 16) :
    k3_pay211 (F := F) k v (ix1 u) = (v (ix1 u) : BitVec 32) + BitVec.ofNat 32 ((16 * k.val + u.val) % 10 / 2 * 100352) := by
  unfold k3_pay211
  simp only [shapeCast_self]
  show IntOp.addi (v (ix1 u)) (IntOp.muli (IntOp.shrui .vector (k3_pay209 k (ix1 u)) 1#32) 100352#32) = _
  rw [pay209_val3]
  exact congrArg (fun z => (v (ix1 u) : BitVec 32) + z) (shr_mul_val3 ⟨(16 * k.val + u.val) % 10, Nat.mod_lt _ (by decide)⟩)

end Cert.Proof.KB

end
-- ==== Proof.KB.Tile3Pure.lean ====
/-
  One trip of the index-list rewrite on the contents of the two lists: the sixteen words of the trip take their
  rewritten values, every other word stays.
-/
import proofs.«219250_g10247791969013_week1_w1_750_27_alg».proof.Proof.KB.Tile3Pay
import proofs.«219250_g10247791969013_week1_w1_750_27_alg».proof.Proof.KB.Tile2Pure

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.ValueIdx (ix1 ix2 ix3 eq_ix1 eq_ix2 eq_ix3)

/-! ## One trip of the rewrite, on the contents -/

theorem ZI5_zero3 {κ : Kind} {sp : Space} (v : View sig κ sp S1280 .i32) (f : v.ty.Contents (Elt F)) (c5 : S1280.Idx → BitVec 32) :
    ZI5 c5 (v.read (Elt F) (v.write (Elt F) f c5 Finset.univ)) 0 := by
  intro x
  rw [View.read_write_univ]
  simp

omit [FloatOps F] in
theorem ZI6_zero3 (g : S1296.Idx → BitVec 32) : ZI6 g 0 := fun x hx => absurd hx (by omega)

theorem ZI6_step3 {κ : Kind} {sp : Space} (v : View sig κ sp S1296 .i32) (g : v.ty.Contents (Elt F)) (k : Fin k3_t1_loop.trips)
    (h : ZI6 (v.read (Elt F) g) k.val) :
    ZI6 (v.read (Elt F) (v.writes (Elt F) g [⟨Rect.unit (s := S1296) (k3_off2 k) S16.size (k3_off2_inb k), k3_pay210 k⟩])) (k.val + 1) := by
  intro x hx
  have e := read_piece16 (F := F) v g (k3_off2 k) (k3_off2_inb k) (k3_pay210 k) k.val (k3_off2_eq k) x
  refine e.trans ?_
  split
  · rename_i hin
    rw [pay210_val3]
    unfold halfW3
    congr 1
    show (16 * k.val + ((x 0).val - 16 * k.val)) % 10 % 2 * 64 = (x 0).val % 10 % 2 * 64
    omega
  · rename_i hout
    apply h
    have hx' : (x 0).val < 16 * (k.val + 1) := hx
    omega

theorem ZI5_step3 {κ : Kind} {sp : Space} (v : View sig κ sp S1280 .i32) (g : v.ty.Contents (Elt F)) (c5 : S1280.Idx → BitVec 32)
    (k : Fin k3_t1_loop.trips) (h : ZI5 c5 (v.read (Elt F) g) k.val) :
    ZI5 c5 (v.read (Elt F) (v.writes (Elt F) g [⟨Rect.unit (s := S1280) (k3_off3 k) S16.size (k3_off3_inb k),
      k3_pay211 k (v.readAt (Elt F) (Rect.unit (s := S1280) (k3_off3 k) S16.size (k3_off3_inb k)).toLoadRect g)⟩])) (k.val + 1) := by
  intro x
  have e := read_piece16 (F := F) v g (k3_off3 k) (k3_off3_inb k)
    (k3_pay211 k (v.readAt (Elt F) (Rect.unit (s := S1280) (k3_off3 k) S16.size (k3_off3_inb k)).toLoadRect g)) k.val (k3_off3_eq k) x
  refine e.trans ?_
  have hk := h x
  split
  · rename_i hin
    rw [pay211_val3]
    have hidx : (Rect.unit (s := S1280) (k3_off3 k) S16.size (k3_off3_inb k)).toLoadRect.idx (ix1 (⟨(x 0).val - 16 * k.val, by omega⟩ : Fin 16) : S16.Idx) = x := by
      funext a
      match a with
      | ⟨0, _⟩ => exact Fin.ext (by simp only [LoadRect.idx_apply]; simp [k3_off3_eq]; omega)
    rw [View.readAt_apply, hidx, hk, if_neg (by omega), if_pos (by omega)]
    unfold rewW3
    have e2 : (16 * k.val + ((x 0).val - 16 * k.val)) % 10 / 2 * 100352 = (x 0).val % 10 / 2 * 100352 := by
      have e3 : 16 * k.val + ((x 0).val - 16 * k.val) = (x 0).val := by omega
      rw [e3]
    show c5 x + BitVec.ofNat 32 ((16 * k.val + ((x 0).val - 16 * k.val)) % 10 / 2 * 100352) = _
    rw [e2]
  · rename_i hout
    rw [hk]
    by_cases h1 : (x 0).val < 16 * k.val
    · rw [if_pos h1, if_pos (by omega)]
    · rw [if_neg h1, if_neg (by omega)]

end Cert.Proof.KB

end
-- ==== Proof.KB.Tile3Pre.lean ====
/-
  The rewrite loop of one vector subcore's task: its invariant and one trip.
-/
import proofs.«219250_g10247791969013_week1_w1_750_27_alg».proof.Proof.KB.Tile3Pure
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid3.Coords)

/-- The rewrite loop's invariant: the two lists at some contents, rewritten below `16 k`. -/
def xfInv3 (c5 : S1280.Idx → BitVec 32) (k : ℕ) (_ : Unit) : sProp 𝕄 :=
  iprop(∃ g5 g6, ((sI3).view.loc (thr3 d L) ↦{fullShare} g5) ∗ ((sH3).view.loc (thr3 d L) ↦{fullShare} g6)
    ∗ ⌜ZI5 c5 ((sI3).view.read (Elt F) g5) k ∧ ZI6 ((sH3).view.read (Elt F) g6) k⌝)

set_option maxHeartbeats 2000000 in
theorem xform_trip3 (c5 : S1280.Idx → BitVec 32) (k : Fin k3_t1_loop.trips) (acc : Unit) :
    xfInv3 (F := F) d L c5 k.val acc ⊢ wp frame (wpE (defs₀ (F := F)) 𝒱₀ (thr3 d L) none) Set.univ
      (k3_t1_body L tabM3 (Memref.isWhole_whole _) idxM3 (Memref.isWhole_whole _) outM3 (Memref.isWhole_whole _)
        sI3 (Memref.isWhole_whole _) sH3 (Memref.isWhole_whole _) sR3 (Memref.isWhole_whole _) sO3 (Memref.isWhole_whole _)
        cc3_scratch4 cc3_scratch5 cc3_scoped0 cc3_scoped1 k acc) (xfInv3 (F := F) d L c5 (k.val + 1)) := by
  unfold xfInv3
  iintro ⟨%g5, %g6, H5, H6, %hP⟩
  unfold k3_t1_body
  sl_exec
  sl_step
  iexists _, _
  isplitl [H5]; · iexact H5
  isplitl [H6]; · iexact H6
  ipureintro
  exact ⟨ZI5_step3 (sI3).view g5 c5 k hP.1, ZI6_step3 (sH3).view g6 k hP.2⟩

end Cert.Proof.KB

end
-- ==== Proof.KB.Tile3RingDefs.lean ====
/-
  The two-buffer ring of gathers of one vector subcore's task: the buffers as the task names them, what a gather
  delivers, and how far the block of sums is done before a trip.
-/
import proofs.«219250_g10247791969013_week1_w1_750_27_alg».proof.Proof.KB.Tile3Res

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

/-! ## The ring of gathers: its buffers, and what a gather delivers -/

/-- The gather buffer of the even chunks. -/
abbrev dstA3 : Memref sig .scVector .vmem S80x128 .f32 :=
  ((sR3).slice (Rect.unit (s := S2x80x128) ![0, 0, 0] S1x80x128.size inb_S2x80x128_S1x80x128_0_0_0) (fun _ => rfl)).squeeze S80x128 squeezes_S1x80x128_S80x128
/-- The gather buffer of the odd chunks. -/
abbrev dstB3 : Memref sig .scVector .vmem S80x128 .f32 :=
  ((sR3).slice (Rect.unit (s := S2x80x128) ![1, 0, 0] S1x80x128.size inb_S2x80x128_S1x80x128_1_0_0) (fun _ => rfl)).squeeze S80x128 squeezes_S1x80x128_S80x128
/-- The table as the gathers name it. -/
abbrev tabSl3 : Memref sig .scVector .hbm S501760x128 .f32 :=
  (tabM3).slice (Rect.unit (s := S501760x128) ![0, 0] S501760x128.size inb_S501760x128_S501760x128_0_0) (fun _ => rfl)

omit [FloatOps F] in
theorem inbC3 (c : ℕ) (hc : c < 16) : ∀ a, (![80 * c] : Fin 1 → ℕ) a + S80.size a ≤ S1280.size a :=
  Rect.inb₁ (by show 80 * c + 80 ≤ 1280; omega)
/-- The 80 list words of chunk `c`. -/
abbrev offsC3 (c : ℕ) (hc : c < 16) : Memref sig .scVector .vmem S80 .i32 :=
  (sI3).slice (Rect.unit (s := S1280) ![80 * c] S80.size (inbC3 c hc)) (fun _ => rfl)

/-- The elements of the even chunks' gather buffer. -/
abbrev setA3 : Finset S2x80x128.Idx := (dstA3).view.set
/-- The elements of the odd chunks' gather buffer. -/
abbrev setB3 : Finset S2x80x128.Idx := (dstB3).view.set
/-- The elements of chunk `c` of the list. -/
abbrev setC3 (c : ℕ) (hc : c < 16) : Finset S1280.Idx := (offsC3 c hc).view.set
/-- The elements of the table (all of them). -/
abbrev setT3 : Finset S501760x128.Idx := (tabSl3).view.set

/-- What chunk `c`'s gather delivers: row `r` is the table row the list names at position `80 c + r`. -/
def gathSpec3 (tb : S501760x128.Idx → Elt F .f32) (ix : S1280.Idx → Elt F .i32) (c : ℕ) : S80x128.Idx → Elt F .f32 :=
  fun x => tbAt3 tb (gRow3 ix (80 * c + (x 0).val)) (x 1).val

/-- The block of sums is done below row `8 k`. -/
def OutOK3 (tb : S501760x128.Idx → Elt F .f32) (ix : S1280.Idx → Elt F .i32) (k : ℕ) (g : S64x128.Idx → Elt F .f32) : Prop :=
  ∀ x : S64x128.Idx, (x 0).val < 8 * k → g x = OUT3 tb ix x

theorem OutOK3_zero (tb : S501760x128.Idx → Elt F .f32) (ix : S1280.Idx → Elt F .i32) (g : S64x128.Idx → Elt F .f32) : OutOK3 tb ix 0 g :=
  fun x hx => absurd hx (by omega)

end Cert.Proof.KB

end
-- ==== Proof.KB.Accum3.lean ====
/-
  The accumulate loops of the embedding-sum kernel over 10 features per batch row: each of the sixteen loops (two
  slots of gathered rows, eight batch rows per slot) has as its trip the accumulate trip at that loop's offsets — the
  lane-offset list read at `160·chunk-pair + 10·(8·slot + row) + k`, the gathered rows at `(slot, 10·row + k, ·)` —
  so one trip takes the left-fold invariant at `k` to the invariant at `k + 1`.
-/
import proofs.«219250_g10247791969013_week1_w1_750_27_alg».proof.Proof.Gen.Kernel.Skeleton
import proofs.«219250_g10247791969013_week1_w1_750_27_alg».proof.Proof.KB.AccumStep

set_option maxRecDepth 65536

noncomputable section

namespace Cert.Proof.KB

open Cert.Proof.KI
open Cert.Kernel Cert.Kernel.Gen

open Idealize.ShloMosaic Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### Loop 3: slot 0, batch row 0 of the chunk -/

/-- The loop's trip is the accumulate trip at its offset functions. -/
theorem k3_t3_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k3_t2 : Fin k3_t2_loop.trips) :
    k3_t3_body (F := F) i arg2 harg2 arg3 harg3 arg4 harg4 arg5 harg5 arg6 harg6 arg7 harg7 arg8 harg8 arg9 arg10 v14_r0 v14_r1 c0_i32_15 c1_i32_16 k3_t2
      = accTrip (F := F) ((i 0).castLE hcore3) ((i 1).castLE hsub3) arg6 arg7 k3_t3_loop (k3_off5 k3_t2) (Facts₀.k3_off5_inb k3_t2)
          k3_off6 k3_chk1 k3_chk1.dec Cert.Kernel.k3_off6_inb := rfl

/-- The rows' offsets in closed form: slot 0, row `0 + k`, lane `v + c`. -/
theorem k3_off6_closed (k : Fin k3_t3_loop.trips) (v c : BitVec 32) :
    k3_off6 k v c = ![0, 0 + k.val, (v + c).toNat] := by
  have hm : ∀ k : Fin k3_t3_loop.trips, (k3_off6 k 0#32 0#32) 1 = 0 + k.val := by decide +kernel
  funext a
  match a with
  | ⟨0, _⟩ => rfl
  | ⟨1, _⟩ => exact hm k
  | ⟨2, _⟩ => rfl

/-- One trip of loop 3 preserves the left-fold invariant. -/
theorem accum_k3_t3 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k3_t2 : Fin k3_t2_loop.trips)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t3_loop.trips → at1 (arg6.view.read (Elt F) fH) (160 * k3_t2.val + 0 + j) = 0#32 ∨ at1 (arg6.view.read (Elt F) fH) (160 * k3_t2.val + 0 + j) = 64#32)
    (k : Fin k3_t3_loop.trips) (acc : Acc4 F) :
    AccInv (F := F) Ix Name U Lvl d ((i 0).castLE hcore3) ((i 1).castLE hsub3) arg6 arg7 IR qH qR fH fR 0 0 (160 * k3_t2.val + 0) k.val acc
      ⊢ wp frame (wpE (defs₀ (F := F)) 𝒱 ((d, .scVector ((i 0).castLE hcore3) ((i 1).castLE hsub3)) : Thread nD τ) bd) E
          (k3_t3_body (F := F) i arg2 harg2 arg3 harg3 arg4 harg4 arg5 harg5 arg6 harg6 arg7 harg7 arg8 harg8 arg9 arg10 v14_r0 v14_r1 c0_i32_15 c1_i32_16 k3_t2 k acc)
          (AccInv (F := F) Ix Name U Lvl d ((i 0).castLE hcore3) ((i 1).castLE hsub3) arg6 arg7 IR qH qR fH fR 0 0 (160 * k3_t2.val + 0) (k.val + 1)) := by
  rw [k3_t3_body_eq]
  exact accTrip_step (F := F) Ix Name U Lvl 𝒱 d _ _ bd E arg6 arg7 k3_t3_loop _ _ _ _ _ _ IR qH qR fH fR 0 0 (160 * k3_t2.val + 0)
    (fun k => (k3_off5_eq k3_t2 k).trans (by first | rfl | (congr 1; omega))) k3_off6_closed (fun _ _ h => h)
    (by decide) (by decide) hIR hH k acc

/-! ### Loop 4: slot 0, batch row 1 of the chunk -/

/-- The loop's trip is the accumulate trip at its offset functions. -/
theorem k3_t4_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v44 : FVec F S16 .f32) (cst_33 : F .f32) :
    k3_t4_body (F := F) i arg2 harg2 arg3 harg3 arg4 harg4 arg5 harg5 arg6 harg6 arg7 harg7 arg8 harg8 arg9 arg10 v14_r0 v14_r1 k3_t2 v14 v44 cst_33
      = accTrip (F := F) ((i 0).castLE hcore3) ((i 1).castLE hsub3) arg6 arg7 k3_t4_loop (k3_off11 k3_t2) (Facts₀.k3_off11_inb k3_t2)
          k3_off12 k3_chk2 k3_chk2.dec Cert.Kernel.k3_off12_inb := rfl

/-- The rows' offsets in closed form: slot 0, row `10 + k`, lane `v + c`. -/
theorem k3_off12_closed (k : Fin k3_t4_loop.trips) (v c : BitVec 32) :
    k3_off12 k v c = ![0, 10 + k.val, (v + c).toNat] := by
  have hm : ∀ k : Fin k3_t4_loop.trips, (k3_off12 k 0#32 0#32) 1 = 10 + k.val := by decide +kernel
  funext a
  match a with
  | ⟨0, _⟩ => rfl
  | ⟨1, _⟩ => exact hm k
  | ⟨2, _⟩ => rfl

/-- One trip of loop 4 preserves the left-fold invariant. -/
theorem accum_k3_t4 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v44 : FVec F S16 .f32) (cst_33 : F .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t4_loop.trips → at1 (arg6.view.read (Elt F) fH) (160 * k3_t2.val + 10 + j) = 0#32 ∨ at1 (arg6.view.read (Elt F) fH) (160 * k3_t2.val + 10 + j) = 64#32)
    (k : Fin k3_t4_loop.trips) (acc : Acc4 F) :
    AccInv (F := F) Ix Name U Lvl d ((i 0).castLE hcore3) ((i 1).castLE hsub3) arg6 arg7 IR qH qR fH fR 0 10 (160 * k3_t2.val + 10) k.val acc
      ⊢ wp frame (wpE (defs₀ (F := F)) 𝒱 ((d, .scVector ((i 0).castLE hcore3) ((i 1).castLE hsub3)) : Thread nD τ) bd) E
          (k3_t4_body (F := F) i arg2 harg2 arg3 harg3 arg4 harg4 arg5 harg5 arg6 harg6 arg7 harg7 arg8 harg8 arg9 arg10 v14_r0 v14_r1 k3_t2 v14 v44 cst_33 k acc)
          (AccInv (F := F) Ix Name U Lvl d ((i 0).castLE hcore3) ((i 1).castLE hsub3) arg6 arg7 IR qH qR fH fR 0 10 (160 * k3_t2.val + 10) (k.val + 1)) := by
  rw [k3_t4_body_eq]
  exact accTrip_step (F := F) Ix Name U Lvl 𝒱 d _ _ bd E arg6 arg7 k3_t4_loop _ _ _ _ _ _ IR qH qR fH fR 0 10 (160 * k3_t2.val + 10)
    (fun k => (k3_off11_eq k3_t2 k).trans (by first | rfl | (congr 1; omega))) k3_off12_closed (fun _ _ h => h)
    (by decide) (by decide) hIR hH k acc

/-! ### Loop 5: slot 0, batch row 2 of the chunk -/

/-- The loop's trip is the accumulate trip at its offset functions. -/
theorem k3_t5_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v44 : FVec F S16 .f32) (cst_33 : F .f32) :
    k3_t5_body (F := F) i arg2 harg2 arg3 harg3 arg4 harg4 arg5 harg5 arg6 harg6 arg7 harg7 arg8 harg8 arg9 arg10 v14_r0 v14_r1 k3_t2 v14 v44 cst_33
      = accTrip (F := F) ((i 0).castLE hcore3) ((i 1).castLE hsub3) arg6 arg7 k3_t5_loop (k3_off17 k3_t2) (Facts₀.k3_off17_inb k3_t2)
          k3_off18 k3_chk3 k3_chk3.dec Cert.Kernel.k3_off18_inb := rfl

/-- The rows' offsets in closed form: slot 0, row `20 + k`, lane `v + c`. -/
theorem k3_off18_closed (k : Fin k3_t5_loop.trips) (v c : BitVec 32) :
    k3_off18 k v c = ![0, 20 + k.val, (v + c).toNat] := by
  have hm : ∀ k : Fin k3_t5_loop.trips, (k3_off18 k 0#32 0#32) 1 = 20 + k.val := by decide +kernel
  funext a
  match a with
  | ⟨0, _⟩ => rfl
  | ⟨1, _⟩ => exact hm k
  | ⟨2, _⟩ => rfl

/-- One trip of loop 5 preserves the left-fold invariant. -/
theorem accum_k3_t5 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v44 : FVec F S16 .f32) (cst_33 : F .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t5_loop.trips → at1 (arg6.view.read (Elt F) fH) (160 * k3_t2.val + 20 + j) = 0#32 ∨ at1 (arg6.view.read (Elt F) fH) (160 * k3_t2.val + 20 + j) = 64#32)
    (k : Fin k3_t5_loop.trips) (acc : Acc4 F) :
    AccInv (F := F) Ix Name U Lvl d ((i 0).castLE hcore3) ((i 1).castLE hsub3) arg6 arg7 IR qH qR fH fR 0 20 (160 * k3_t2.val + 20) k.val acc
      ⊢ wp frame (wpE (defs₀ (F := F)) 𝒱 ((d, .scVector ((i 0).castLE hcore3) ((i 1).castLE hsub3)) : Thread nD τ) bd) E
          (k3_t5_body (F := F) i arg2 harg2 arg3 harg3 arg4 harg4 arg5 harg5 arg6 harg6 arg7 harg7 arg8 harg8 arg9 arg10 v14_r0 v14_r1 k3_t2 v14 v44 cst_33 k acc)
          (AccInv (F := F) Ix Name U Lvl d ((i 0).castLE hcore3) ((i 1).castLE hsub3) arg6 arg7 IR qH qR fH fR 0 20 (160 * k3_t2.val + 20) (k.val + 1)) := by
  rw [k3_t5_body_eq]
  exact accTrip_step (F := F) Ix Name U Lvl 𝒱 d _ _ bd E arg6 arg7 k3_t5_loop _ _ _ _ _ _ IR qH qR fH fR 0 20 (160 * k3_t2.val + 20)
    (fun k => (k3_off17_eq k3_t2 k).trans (by first | rfl | (congr 1; omega))) k3_off18_closed (fun _ _ h => h)
    (by decide) (by decide) hIR hH k acc

/-! ### Loop 6: slot 0, batch row 3 of the chunk -/

/-- The loop's trip is the accumulate trip at its offset functions. -/
theorem k3_t6_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v73_0 : FVec F S16 .f32) (v73_1 : FVec F S16 .f32) (v73_2 : FVec F S16 .f32) (v73_3 : FVec F S16 .f32) (v75 : BitVec 32) (v77 : Vec F S1x16 .f32) :
    k3_t6_body (F := F) i arg2 harg2 arg3 harg3 arg4 harg4 arg5 harg5 arg6 harg6 arg7 harg7 arg8 harg8 arg9 arg10 v14_r0 v14_r1 k3_t2 v14 v73_0 v73_1 v73_2 v73_3 v75 v77
      = accTrip (F := F) ((i 0).castLE hcore3) ((i 1).castLE hsub3) arg6 arg7 k3_t6_loop (k3_off19 k3_t2) (Facts₀.k3_off19_inb k3_t2)
          k3_off20 k3_chk4 k3_chk4.dec Cert.Kernel.k3_off20_inb := rfl

/-- The rows' offsets in closed form: slot 0, row `30 + k`, lane `v + c`. -/
theorem k3_off20_closed (k : Fin k3_t6_loop.trips) (v c : BitVec 32) :
    k3_off20 k v c = ![0, 30 + k.val, (v + c).toNat] := by
  have hm : ∀ k : Fin k3_t6_loop.trips, (k3_off20 k 0#32 0#32) 1 = 30 + k.val := by decide +kernel
  funext a
  match a with
  | ⟨0, _⟩ => rfl
  | ⟨1, _⟩ => exact hm k
  | ⟨2, _⟩ => rfl

/-- One trip of loop 6 preserves the left-fold invariant. -/
theorem accum_k3_t6 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v73_0 : FVec F S16 .f32) (v73_1 : FVec F S16 .f32) (v73_2 : FVec F S16 .f32) (v73_3 : FVec F S16 .f32) (v75 : BitVec 32) (v77 : Vec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t6_loop.trips → at1 (arg6.view.read (Elt F) fH) (160 * k3_t2.val + 30 + j) = 0#32 ∨ at1 (arg6.view.read (Elt F) fH) (160 * k3_t2.val + 30 + j) = 64#32)
    (k : Fin k3_t6_loop.trips) (acc : Acc4 F) :
    AccInv (F := F) Ix Name U Lvl d ((i 0).castLE hcore3) ((i 1).castLE hsub3) arg6 arg7 IR qH qR fH fR 0 30 (160 * k3_t2.val + 30) k.val acc
      ⊢ wp frame (wpE (defs₀ (F := F)) 𝒱 ((d, .scVector ((i 0).castLE hcore3) ((i 1).castLE hsub3)) : Thread nD τ) bd) E
          (k3_t6_body (F := F) i arg2 harg2 arg3 harg3 arg4 harg4 arg5 harg5 arg6 harg6 arg7 harg7 arg8 harg8 arg9 arg10 v14_r0 v14_r1 k3_t2 v14 v73_0 v73_1 v73_2 v73_3 v75 v77 k acc)
          (AccInv (F := F) Ix Name U Lvl d ((i 0).castLE hcore3) ((i 1).castLE hsub3) arg6 arg7 IR qH qR fH fR 0 30 (160 * k3_t2.val + 30) (k.val + 1)) := by
  rw [k3_t6_body_eq]
  exact accTrip_step (F := F) Ix Name U Lvl 𝒱 d _ _ bd E arg6 arg7 k3_t6_loop _ _ _ _ _ _ IR qH qR fH fR 0 30 (160 * k3_t2.val + 30)
    (fun k => (k3_off19_eq k3_t2 k).trans (by first | rfl | (congr 1; omega))) k3_off20_closed (fun _ _ h => h)
    (by decide) (by decide) hIR hH k acc

/-! ### Loop 7: slot 0, batch row 4 of the chunk -/

/-- The loop's trip is the accumulate trip at its offset functions. -/
theorem k3_t7_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v97_3 : FVec F S16 .f32) (v113 : Vec F S1x16 .f32) :
    k3_t7_body (F := F) i arg2 harg2 arg3 harg3 arg4 harg4 arg5 harg5 arg6 harg6 arg7 harg7 arg8 harg8 arg9 arg10 v14_r0 v14_r1 k3_t2 v14 v97_3 v113
      = accTrip (F := F) ((i 0).castLE hcore3) ((i 1).castLE hsub3) arg6 arg7 k3_t7_loop (k3_off21 k3_t2) (Facts₀.k3_off21_inb k3_t2)
          k3_off22 k3_chk5 k3_chk5.dec Cert.Kernel.k3_off22_inb := rfl

/-- The rows' offsets in closed form: slot 0, row `40 + k`, lane `v + c`. -/
theorem k3_off22_closed (k : Fin k3_t7_loop.trips) (v c : BitVec 32) :
    k3_off22 k v c = ![0, 40 + k.val, (v + c).toNat] := by
  have hm : ∀ k : Fin k3_t7_loop.trips, (k3_off22 k 0#32 0#32) 1 = 40 + k.val := by decide +kernel
  funext a
  match a with
  | ⟨0, _⟩ => rfl
  | ⟨1, _⟩ => exact hm k
  | ⟨2, _⟩ => rfl

/-- One trip of loop 7 preserves the left-fold invariant. -/
theorem accum_k3_t7 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v97_3 : FVec F S16 .f32) (v113 : Vec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t7_loop.trips → at1 (arg6.view.read (Elt F) fH) (160 * k3_t2.val + 40 + j) = 0#32 ∨ at1 (arg6.view.read (Elt F) fH) (160 * k3_t2.val + 40 + j) = 64#32)
    (k : Fin k3_t7_loop.trips) (acc : Acc4 F) :
    AccInv (F := F) Ix Name U Lvl d ((i 0).castLE hcore3) ((i 1).castLE hsub3) arg6 arg7 IR qH qR fH fR 0 40 (160 * k3_t2.val + 40) k.val acc
      ⊢ wp frame (wpE (defs₀ (F := F)) 𝒱 ((d, .scVector ((i 0).castLE hcore3) ((i 1).castLE hsub3)) : Thread nD τ) bd) E
          (k3_t7_body (F := F) i arg2 harg2 arg3 harg3 arg4 harg4 arg5 harg5 arg6 harg6 arg7 harg7 arg8 harg8 arg9 arg10 v14_r0 v14_r1 k3_t2 v14 v97_3 v113 k acc)
          (AccInv (F := F) Ix Name U Lvl d ((i 0).castLE hcore3) ((i 1).castLE hsub3) arg6 arg7 IR qH qR fH fR 0 40 (160 * k3_t2.val + 40) (k.val + 1)) := by
  rw [k3_t7_body_eq]
  exact accTrip_step (F := F) Ix Name U Lvl 𝒱 d _ _ bd E arg6 arg7 k3_t7_loop _ _ _ _ _ _ IR qH qR fH fR 0 40 (160 * k3_t2.val + 40)
    (fun k => (k3_off21_eq k3_t2 k).trans (by first | rfl | (congr 1; omega))) k3_off22_closed (fun _ _ h => h)
    (by decide) (by decide) hIR hH k acc

/-! ### Loop 8: slot 0, batch row 5 of the chunk -/

/-- The loop's trip is the accumulate trip at its offset functions. -/
theorem k3_t8_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v97_3 : FVec F S16 .f32) (v113 : Vec F S1x16 .f32) :
    k3_t8_body (F := F) i arg2 harg2 arg3 harg3 arg4 harg4 arg5 harg5 arg6 harg6 arg7 harg7 arg8 harg8 arg9 arg10 v14_r0 v14_r1 k3_t2 v14 v97_3 v113
      = accTrip (F := F) ((i 0).castLE hcore3) ((i 1).castLE hsub3) arg6 arg7 k3_t8_loop (k3_off23 k3_t2) (Facts₀.k3_off23_inb k3_t2)
          k3_off24 k3_chk6 k3_chk6.dec Cert.Kernel.k3_off24_inb := rfl

/-- The rows' offsets in closed form: slot 0, row `50 + k`, lane `v + c`. -/
theorem k3_off24_closed (k : Fin k3_t8_loop.trips) (v c : BitVec 32) :
    k3_off24 k v c = ![0, 50 + k.val, (v + c).toNat] := by
  have hm : ∀ k : Fin k3_t8_loop.trips, (k3_off24 k 0#32 0#32) 1 = 50 + k.val := by decide +kernel
  funext a
  match a with
  | ⟨0, _⟩ => rfl
  | ⟨1, _⟩ => exact hm k
  | ⟨2, _⟩ => rfl

/-- One trip of loop 8 preserves the left-fold invariant. -/
theorem accum_k3_t8 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v97_3 : FVec F S16 .f32) (v113 : Vec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t8_loop.trips → at1 (arg6.view.read (Elt F) fH) (160 * k3_t2.val + 50 + j) = 0#32 ∨ at1 (arg6.view.read (Elt F) fH) (160 * k3_t2.val + 50 + j) = 64#32)
    (k : Fin k3_t8_loop.trips) (acc : Acc4 F) :
    AccInv (F := F) Ix Name U Lvl d ((i 0).castLE hcore3) ((i 1).castLE hsub3) arg6 arg7 IR qH qR fH fR 0 50 (160 * k3_t2.val + 50) k.val acc
      ⊢ wp frame (wpE (defs₀ (F := F)) 𝒱 ((d, .scVector ((i 0).castLE hcore3) ((i 1).castLE hsub3)) : Thread nD τ) bd) E
          (k3_t8_body (F := F) i arg2 harg2 arg3 harg3 arg4 harg4 arg5 harg5 arg6 harg6 arg7 harg7 arg8 harg8 arg9 arg10 v14_r0 v14_r1 k3_t2 v14 v97_3 v113 k acc)
          (AccInv (F := F) Ix Name U Lvl d ((i 0).castLE hcore3) ((i 1).castLE hsub3) arg6 arg7 IR qH qR fH fR 0 50 (160 * k3_t2.val + 50) (k.val + 1)) := by
  rw [k3_t8_body_eq]
  exact accTrip_step (F := F) Ix Name U Lvl 𝒱 d _ _ bd E arg6 arg7 k3_t8_loop _ _ _ _ _ _ IR qH qR fH fR 0 50 (160 * k3_t2.val + 50)
    (fun k => (k3_off23_eq k3_t2 k).trans (by first | rfl | (congr 1; omega))) k3_off24_closed (fun _ _ h => h)
    (by decide) (by decide) hIR hH k acc

/-! ### Loop 9: slot 0, batch row 6 of the chunk -/

/-- The loop's trip is the accumulate trip at its offset functions. -/
theorem k3_t9_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v145_0 : FVec F S16 .f32) (v145_1 : FVec F S16 .f32) (v145_2 : FVec F S16 .f32) (v145_3 : FVec F S16 .f32) (c4_i32_92 : BitVec 32) :
    k3_t9_body (F := F) i arg2 harg2 arg3 harg3 arg4 harg4 arg5 harg5 arg6 harg6 arg7 harg7 arg8 harg8 arg9 arg10 v14_r0 v14_r1 k3_t2 v14 v145_0 v145_1 v145_2 v145_3 c4_i32_92
      = accTrip (F := F) ((i 0).castLE hcore3) ((i 1).castLE hsub3) arg6 arg7 k3_t9_loop (k3_off25 k3_t2) (Facts₀.k3_off25_inb k3_t2)
          k3_off26 k3_chk7 k3_chk7.dec Cert.Kernel.k3_off26_inb := rfl

/-- The rows' offsets in closed form: slot 0, row `60 + k`, lane `v + c`. -/
theorem k3_off26_closed (k : Fin k3_t9_loop.trips) (v c : BitVec 32) :
    k3_off26 k v c = ![0, 60 + k.val, (v + c).toNat] := by
  have hm : ∀ k : Fin k3_t9_loop.trips, (k3_off26 k 0#32 0#32) 1 = 60 + k.val := by decide +kernel
  funext a
  match a with
  | ⟨0, _⟩ => rfl
  | ⟨1, _⟩ => exact hm k
  | ⟨2, _⟩ => rfl

/-- One trip of loop 9 preserves the left-fold invariant. -/
theorem accum_k3_t9 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v145_0 : FVec F S16 .f32) (v145_1 : FVec F S16 .f32) (v145_2 : FVec F S16 .f32) (v145_3 : FVec F S16 .f32) (c4_i32_92 : BitVec 32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t9_loop.trips → at1 (arg6.view.read (Elt F) fH) (160 * k3_t2.val + 60 + j) = 0#32 ∨ at1 (arg6.view.read (Elt F) fH) (160 * k3_t2.val + 60 + j) = 64#32)
    (k : Fin k3_t9_loop.trips) (acc : Acc4 F) :
    AccInv (F := F) Ix Name U Lvl d ((i 0).castLE hcore3) ((i 1).castLE hsub3) arg6 arg7 IR qH qR fH fR 0 60 (160 * k3_t2.val + 60) k.val acc
      ⊢ wp frame (wpE (defs₀ (F := F)) 𝒱 ((d, .scVector ((i 0).castLE hcore3) ((i 1).castLE hsub3)) : Thread nD τ) bd) E
          (k3_t9_body (F := F) i arg2 harg2 arg3 harg3 arg4 harg4 arg5 harg5 arg6 harg6 arg7 harg7 arg8 harg8 arg9 arg10 v14_r0 v14_r1 k3_t2 v14 v145_0 v145_1 v145_2 v145_3 c4_i32_92 k acc)
          (AccInv (F := F) Ix Name U Lvl d ((i 0).castLE hcore3) ((i 1).castLE hsub3) arg6 arg7 IR qH qR fH fR 0 60 (160 * k3_t2.val + 60) (k.val + 1)) := by
  rw [k3_t9_body_eq]
  exact accTrip_step (F := F) Ix Name U Lvl 𝒱 d _ _ bd E arg6 arg7 k3_t9_loop _ _ _ _ _ _ IR qH qR fH fR 0 60 (160 * k3_t2.val + 60)
    (fun k => (k3_off25_eq k3_t2 k).trans (by first | rfl | (congr 1; omega))) k3_off26_closed (fun _ _ h => h)
    (by decide) (by decide) hIR hH k acc

/-! ### Loop 10: slot 0, batch row 7 of the chunk -/

/-- The loop's trip is the accumulate trip at its offset functions. -/
theorem k3_t10_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v169_2 : FVec F S16 .f32) (v169_3 : FVec F S16 .f32) (v171 : BitVec 32) (v181 : Vec F S1x16 .f32) :
    k3_t10_body (F := F) i arg2 harg2 arg3 harg3 arg4 harg4 arg5 harg5 arg6 harg6 arg7 harg7 arg8 harg8 arg9 arg10 v14_r0 v14_r1 k3_t2 v14 v169_2 v169_3 v171 v181
      = accTrip (F := F) ((i 0).castLE hcore3) ((i 1).castLE hsub3) arg6 arg7 k3_t10_loop (k3_off27 k3_t2) (Facts₀.k3_off27_inb k3_t2)
          k3_off28 k3_chk8 k3_chk8.dec Cert.Kernel.k3_off28_inb := rfl

/-- The rows' offsets in closed form: slot 0, row `70 + k`, lane `v + c`. -/
theorem k3_off28_closed (k : Fin k3_t10_loop.trips) (v c : BitVec 32) :
    k3_off28 k v c = ![0, 70 + k.val, (v + c).toNat] := by
  have hm : ∀ k : Fin k3_t10_loop.trips, (k3_off28 k 0#32 0#32) 1 = 70 + k.val := by decide +kernel
  funext a
  match a with
  | ⟨0, _⟩ => rfl
  | ⟨1, _⟩ => exact hm k
  | ⟨2, _⟩ => rfl

/-- One trip of loop 10 preserves the left-fold invariant. -/
theorem accum_k3_t10 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (v169_2 : FVec F S16 .f32) (v169_3 : FVec F S16 .f32) (v171 : BitVec 32) (v181 : Vec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 0 → arg7.view.emb x ∈ IR)
    (hH : ∀ j, j < k3_t10_loop.trips → at1 (arg6.view.read (Elt F) fH) (160 * k3_t2.val + 70 + j) = 0#32 ∨ at1 (arg6.view.read (Elt F) fH) (160 * k3_t2.val + 70 + j) = 64#32)
    (k : Fin k3_t10_loop.trips) (acc : Acc4 F) :
    AccInv (F := F) Ix Name U Lvl d ((i 0).castLE hcore3) ((i 1).castLE hsub3) arg6 arg7 IR qH qR fH fR 0 70 (160 * k3_t2.val + 70) k.val acc
      ⊢ wp frame (wpE (defs₀ (F := F)) 𝒱 ((d, .scVector ((i 0).castLE hcore3) ((i 1).castLE hsub3)) : Thread nD τ) bd) E
          (k3_t10_body (F := F) i arg2 harg2 arg3 harg3 arg4 harg4 arg5 harg5 arg6 harg6 arg7 harg7 arg8 harg8 arg9 arg10 v14_r0 v14_r1 k3_t2 v14 v169_2 v169_3 v171 v181 k acc)
          (AccInv (F := F) Ix Name U Lvl d ((i 0).castLE hcore3) ((i 1).castLE hsub3) arg6 arg7 IR qH qR fH fR 0 70 (160 * k3_t2.val + 70) (k.val + 1)) := by
  rw [k3_t10_body_eq]
  exact accTrip_step (F := F) Ix Name U Lvl 𝒱 d _ _ bd E arg6 arg7 k3_t10_loop _ _ _ _ _ _ IR qH qR fH fR 0 70 (160 * k3_t2.val + 70)
    (fun k => (k3_off27_eq k3_t2 k).trans (by first | rfl | (congr 1; omega))) k3_off28_closed (fun _ _ h => h)
    (by decide) (by decide) hIR hH k acc

/-! ### Loop 11: slot 1, batch row 0 of the chunk -/

/-- The loop's trip is the accumulate trip at its offset functions. -/
theorem k3_t11_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (c1_i32_127 : BitVec 32) :
    k3_t11_body (F := F) i arg2 harg2 arg3 harg3 arg4 harg4 arg5 harg5 arg6 harg6 arg7 harg7 arg8 harg8 arg9 arg10 v14_r0 v14_r1 k3_t2 v14 c1_i32_127
      = accTrip (F := F) ((i 0).castLE hcore3) ((i 1).castLE hsub3) arg6 arg7 k3_t11_loop (k3_off31 k3_t2) (Facts₀.k3_off31_inb k3_t2)
          k3_off32 k3_chk9 k3_chk9.dec Cert.Kernel.k3_off32_inb := rfl

/-- The rows' offsets in closed form: slot 1, row `0 + k`, lane `v + c`. -/
theorem k3_off32_closed (k : Fin k3_t11_loop.trips) (v c : BitVec 32) :
    k3_off32 k v c = ![1, 0 + k.val, (v + c).toNat] := by
  have hm : ∀ k : Fin k3_t11_loop.trips, (k3_off32 k 0#32 0#32) 1 = 0 + k.val := by decide +kernel
  funext a
  match a with
  | ⟨0, _⟩ => rfl
  | ⟨1, _⟩ => exact hm k
  | ⟨2, _⟩ => rfl

/-- One trip of loop 11 preserves the left-fold invariant. -/
theorem accum_k3_t11 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v14 : BitVec 32) (c1_i32_127 : BitVec 32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t11_loop.trips → at1 (arg6.view.read (Elt F) fH) (160 * k3_t2.val + 80 + j) = 0#32 ∨ at1 (arg6.view.read (Elt F) fH) (160 * k3_t2.val + 80 + j) = 64#32)
    (k : Fin k3_t11_loop.trips) (acc : Acc4 F) :
    AccInv (F := F) Ix Name U Lvl d ((i 0).castLE hcore3) ((i 1).castLE hsub3) arg6 arg7 IR qH qR fH fR 1 0 (160 * k3_t2.val + 80) k.val acc
      ⊢ wp frame (wpE (defs₀ (F := F)) 𝒱 ((d, .scVector ((i 0).castLE hcore3) ((i 1).castLE hsub3)) : Thread nD τ) bd) E
          (k3_t11_body (F := F) i arg2 harg2 arg3 harg3 arg4 harg4 arg5 harg5 arg6 harg6 arg7 harg7 arg8 harg8 arg9 arg10 v14_r0 v14_r1 k3_t2 v14 c1_i32_127 k acc)
          (AccInv (F := F) Ix Name U Lvl d ((i 0).castLE hcore3) ((i 1).castLE hsub3) arg6 arg7 IR qH qR fH fR 1 0 (160 * k3_t2.val + 80) (k.val + 1)) := by
  rw [k3_t11_body_eq]
  exact accTrip_step (F := F) Ix Name U Lvl 𝒱 d _ _ bd E arg6 arg7 k3_t11_loop _ _ _ _ _ _ IR qH qR fH fR 1 0 (160 * k3_t2.val + 80)
    (fun k => (k3_off31_eq k3_t2 k).trans (by first | rfl | (congr 1; omega))) k3_off32_closed (fun _ _ h => h)
    (by decide) (by decide) hIR hH k acc

/-! ### Loop 12: slot 1, batch row 1 of the chunk -/

/-- The loop's trip is the accumulate trip at its offset functions. -/
theorem k3_t12_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v246 : FVec F S16 .f32) (v247 : FVec F S16 .f32) (cst_150 : F .f32) :
    k3_t12_body (F := F) i arg2 harg2 arg3 harg3 arg4 harg4 arg5 harg5 arg6 harg6 arg7 harg7 arg8 harg8 arg9 arg10 v14_r0 v14_r1 k3_t2 v216 v246 v247 cst_150
      = accTrip (F := F) ((i 0).castLE hcore3) ((i 1).castLE hsub3) arg6 arg7 k3_t12_loop (k3_off37 k3_t2) (Facts₀.k3_off37_inb k3_t2)
          k3_off38 k3_chk10 k3_chk10.dec Cert.Kernel.k3_off38_inb := rfl

/-- The rows' offsets in closed form: slot 1, row `10 + k`, lane `v + c`. -/
theorem k3_off38_closed (k : Fin k3_t12_loop.trips) (v c : BitVec 32) :
    k3_off38 k v c = ![1, 10 + k.val, (v + c).toNat] := by
  have hm : ∀ k : Fin k3_t12_loop.trips, (k3_off38 k 0#32 0#32) 1 = 10 + k.val := by decide +kernel
  funext a
  match a with
  | ⟨0, _⟩ => rfl
  | ⟨1, _⟩ => exact hm k
  | ⟨2, _⟩ => rfl

/-- One trip of loop 12 preserves the left-fold invariant. -/
theorem accum_k3_t12 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v246 : FVec F S16 .f32) (v247 : FVec F S16 .f32) (cst_150 : F .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t12_loop.trips → at1 (arg6.view.read (Elt F) fH) (160 * k3_t2.val + 90 + j) = 0#32 ∨ at1 (arg6.view.read (Elt F) fH) (160 * k3_t2.val + 90 + j) = 64#32)
    (k : Fin k3_t12_loop.trips) (acc : Acc4 F) :
    AccInv (F := F) Ix Name U Lvl d ((i 0).castLE hcore3) ((i 1).castLE hsub3) arg6 arg7 IR qH qR fH fR 1 10 (160 * k3_t2.val + 90) k.val acc
      ⊢ wp frame (wpE (defs₀ (F := F)) 𝒱 ((d, .scVector ((i 0).castLE hcore3) ((i 1).castLE hsub3)) : Thread nD τ) bd) E
          (k3_t12_body (F := F) i arg2 harg2 arg3 harg3 arg4 harg4 arg5 harg5 arg6 harg6 arg7 harg7 arg8 harg8 arg9 arg10 v14_r0 v14_r1 k3_t2 v216 v246 v247 cst_150 k acc)
          (AccInv (F := F) Ix Name U Lvl d ((i 0).castLE hcore3) ((i 1).castLE hsub3) arg6 arg7 IR qH qR fH fR 1 10 (160 * k3_t2.val + 90) (k.val + 1)) := by
  rw [k3_t12_body_eq]
  exact accTrip_step (F := F) Ix Name U Lvl 𝒱 d _ _ bd E arg6 arg7 k3_t12_loop _ _ _ _ _ _ IR qH qR fH fR 1 10 (160 * k3_t2.val + 90)
    (fun k => (k3_off37_eq k3_t2 k).trans (by first | rfl | (congr 1; omega))) k3_off38_closed (fun _ _ h => h)
    (by decide) (by decide) hIR hH k acc

/-! ### Loop 13: slot 1, batch row 2 of the chunk -/

/-- The loop's trip is the accumulate trip at its offset functions. -/
theorem k3_t13_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v246 : FVec F S16 .f32) (v247 : FVec F S16 .f32) (cst_150 : F .f32) :
    k3_t13_body (F := F) i arg2 harg2 arg3 harg3 arg4 harg4 arg5 harg5 arg6 harg6 arg7 harg7 arg8 harg8 arg9 arg10 v14_r0 v14_r1 k3_t2 v216 v246 v247 cst_150
      = accTrip (F := F) ((i 0).castLE hcore3) ((i 1).castLE hsub3) arg6 arg7 k3_t13_loop (k3_off43 k3_t2) (Facts₀.k3_off43_inb k3_t2)
          k3_off44 k3_chk11 k3_chk11.dec Cert.Kernel.k3_off44_inb := rfl

/-- The rows' offsets in closed form: slot 1, row `20 + k`, lane `v + c`. -/
theorem k3_off44_closed (k : Fin k3_t13_loop.trips) (v c : BitVec 32) :
    k3_off44 k v c = ![1, 20 + k.val, (v + c).toNat] := by
  have hm : ∀ k : Fin k3_t13_loop.trips, (k3_off44 k 0#32 0#32) 1 = 20 + k.val := by decide +kernel
  funext a
  match a with
  | ⟨0, _⟩ => rfl
  | ⟨1, _⟩ => exact hm k
  | ⟨2, _⟩ => rfl

/-- One trip of loop 13 preserves the left-fold invariant. -/
theorem accum_k3_t13 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v246 : FVec F S16 .f32) (v247 : FVec F S16 .f32) (cst_150 : F .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t13_loop.trips → at1 (arg6.view.read (Elt F) fH) (160 * k3_t2.val + 100 + j) = 0#32 ∨ at1 (arg6.view.read (Elt F) fH) (160 * k3_t2.val + 100 + j) = 64#32)
    (k : Fin k3_t13_loop.trips) (acc : Acc4 F) :
    AccInv (F := F) Ix Name U Lvl d ((i 0).castLE hcore3) ((i 1).castLE hsub3) arg6 arg7 IR qH qR fH fR 1 20 (160 * k3_t2.val + 100) k.val acc
      ⊢ wp frame (wpE (defs₀ (F := F)) 𝒱 ((d, .scVector ((i 0).castLE hcore3) ((i 1).castLE hsub3)) : Thread nD τ) bd) E
          (k3_t13_body (F := F) i arg2 harg2 arg3 harg3 arg4 harg4 arg5 harg5 arg6 harg6 arg7 harg7 arg8 harg8 arg9 arg10 v14_r0 v14_r1 k3_t2 v216 v246 v247 cst_150 k acc)
          (AccInv (F := F) Ix Name U Lvl d ((i 0).castLE hcore3) ((i 1).castLE hsub3) arg6 arg7 IR qH qR fH fR 1 20 (160 * k3_t2.val + 100) (k.val + 1)) := by
  rw [k3_t13_body_eq]
  exact accTrip_step (F := F) Ix Name U Lvl 𝒱 d _ _ bd E arg6 arg7 k3_t13_loop _ _ _ _ _ _ IR qH qR fH fR 1 20 (160 * k3_t2.val + 100)
    (fun k => (k3_off43_eq k3_t2 k).trans (by first | rfl | (congr 1; omega))) k3_off44_closed (fun _ _ h => h)
    (by decide) (by decide) hIR hH k acc

/-! ### Loop 14: slot 1, batch row 3 of the chunk -/

/-- The loop's trip is the accumulate trip at its offset functions. -/
theorem k3_t14_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v275_1 : FVec F S16 .f32) (v275_2 : FVec F S16 .f32) (v275_3 : FVec F S16 .f32) (v277 : BitVec 32) (v281 : FVec F S1x16 .f32) :
    k3_t14_body (F := F) i arg2 harg2 arg3 harg3 arg4 harg4 arg5 harg5 arg6 harg6 arg7 harg7 arg8 harg8 arg9 arg10 v14_r0 v14_r1 k3_t2 v216 v275_1 v275_2 v275_3 v277 v281
      = accTrip (F := F) ((i 0).castLE hcore3) ((i 1).castLE hsub3) arg6 arg7 k3_t14_loop (k3_off45 k3_t2) (Facts₀.k3_off45_inb k3_t2)
          k3_off46 k3_chk12 k3_chk12.dec Cert.Kernel.k3_off46_inb := rfl

/-- The rows' offsets in closed form: slot 1, row `30 + k`, lane `v + c`. -/
theorem k3_off46_closed (k : Fin k3_t14_loop.trips) (v c : BitVec 32) :
    k3_off46 k v c = ![1, 30 + k.val, (v + c).toNat] := by
  have hm : ∀ k : Fin k3_t14_loop.trips, (k3_off46 k 0#32 0#32) 1 = 30 + k.val := by decide +kernel
  funext a
  match a with
  | ⟨0, _⟩ => rfl
  | ⟨1, _⟩ => exact hm k
  | ⟨2, _⟩ => rfl

/-- One trip of loop 14 preserves the left-fold invariant. -/
theorem accum_k3_t14 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v275_1 : FVec F S16 .f32) (v275_2 : FVec F S16 .f32) (v275_3 : FVec F S16 .f32) (v277 : BitVec 32) (v281 : FVec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t14_loop.trips → at1 (arg6.view.read (Elt F) fH) (160 * k3_t2.val + 110 + j) = 0#32 ∨ at1 (arg6.view.read (Elt F) fH) (160 * k3_t2.val + 110 + j) = 64#32)
    (k : Fin k3_t14_loop.trips) (acc : Acc4 F) :
    AccInv (F := F) Ix Name U Lvl d ((i 0).castLE hcore3) ((i 1).castLE hsub3) arg6 arg7 IR qH qR fH fR 1 30 (160 * k3_t2.val + 110) k.val acc
      ⊢ wp frame (wpE (defs₀ (F := F)) 𝒱 ((d, .scVector ((i 0).castLE hcore3) ((i 1).castLE hsub3)) : Thread nD τ) bd) E
          (k3_t14_body (F := F) i arg2 harg2 arg3 harg3 arg4 harg4 arg5 harg5 arg6 harg6 arg7 harg7 arg8 harg8 arg9 arg10 v14_r0 v14_r1 k3_t2 v216 v275_1 v275_2 v275_3 v277 v281 k acc)
          (AccInv (F := F) Ix Name U Lvl d ((i 0).castLE hcore3) ((i 1).castLE hsub3) arg6 arg7 IR qH qR fH fR 1 30 (160 * k3_t2.val + 110) (k.val + 1)) := by
  rw [k3_t14_body_eq]
  exact accTrip_step (F := F) Ix Name U Lvl 𝒱 d _ _ bd E arg6 arg7 k3_t14_loop _ _ _ _ _ _ IR qH qR fH fR 1 30 (160 * k3_t2.val + 110)
    (fun k => (k3_off45_eq k3_t2 k).trans (by first | rfl | (congr 1; omega))) k3_off46_closed (fun _ _ h => h)
    (by decide) (by decide) hIR hH k acc

/-! ### Loop 15: slot 1, batch row 4 of the chunk -/

/-- The loop's trip is the accumulate trip at its offset functions. -/
theorem k3_t15_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v317 : FVec F S1x16 .f32) :
    k3_t15_body (F := F) i arg2 harg2 arg3 harg3 arg4 harg4 arg5 harg5 arg6 harg6 arg7 harg7 arg8 harg8 arg9 arg10 v14_r0 v14_r1 k3_t2 v216 v317
      = accTrip (F := F) ((i 0).castLE hcore3) ((i 1).castLE hsub3) arg6 arg7 k3_t15_loop (k3_off47 k3_t2) (Facts₀.k3_off47_inb k3_t2)
          k3_off48 k3_chk13 k3_chk13.dec Cert.Kernel.k3_off48_inb := rfl

/-- The rows' offsets in closed form: slot 1, row `40 + k`, lane `v + c`. -/
theorem k3_off48_closed (k : Fin k3_t15_loop.trips) (v c : BitVec 32) :
    k3_off48 k v c = ![1, 40 + k.val, (v + c).toNat] := by
  have hm : ∀ k : Fin k3_t15_loop.trips, (k3_off48 k 0#32 0#32) 1 = 40 + k.val := by decide +kernel
  funext a
  match a with
  | ⟨0, _⟩ => rfl
  | ⟨1, _⟩ => exact hm k
  | ⟨2, _⟩ => rfl

/-- One trip of loop 15 preserves the left-fold invariant. -/
theorem accum_k3_t15 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v317 : FVec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t15_loop.trips → at1 (arg6.view.read (Elt F) fH) (160 * k3_t2.val + 120 + j) = 0#32 ∨ at1 (arg6.view.read (Elt F) fH) (160 * k3_t2.val + 120 + j) = 64#32)
    (k : Fin k3_t15_loop.trips) (acc : Acc4 F) :
    AccInv (F := F) Ix Name U Lvl d ((i 0).castLE hcore3) ((i 1).castLE hsub3) arg6 arg7 IR qH qR fH fR 1 40 (160 * k3_t2.val + 120) k.val acc
      ⊢ wp frame (wpE (defs₀ (F := F)) 𝒱 ((d, .scVector ((i 0).castLE hcore3) ((i 1).castLE hsub3)) : Thread nD τ) bd) E
          (k3_t15_body (F := F) i arg2 harg2 arg3 harg3 arg4 harg4 arg5 harg5 arg6 harg6 arg7 harg7 arg8 harg8 arg9 arg10 v14_r0 v14_r1 k3_t2 v216 v317 k acc)
          (AccInv (F := F) Ix Name U Lvl d ((i 0).castLE hcore3) ((i 1).castLE hsub3) arg6 arg7 IR qH qR fH fR 1 40 (160 * k3_t2.val + 120) (k.val + 1)) := by
  rw [k3_t15_body_eq]
  exact accTrip_step (F := F) Ix Name U Lvl 𝒱 d _ _ bd E arg6 arg7 k3_t15_loop _ _ _ _ _ _ IR qH qR fH fR 1 40 (160 * k3_t2.val + 120)
    (fun k => (k3_off47_eq k3_t2 k).trans (by first | rfl | (congr 1; omega))) k3_off48_closed (fun _ _ h => h)
    (by decide) (by decide) hIR hH k acc

/-! ### Loop 16: slot 1, batch row 5 of the chunk -/

/-- The loop's trip is the accumulate trip at its offset functions. -/
theorem k3_t16_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v317 : FVec F S1x16 .f32) :
    k3_t16_body (F := F) i arg2 harg2 arg3 harg3 arg4 harg4 arg5 harg5 arg6 harg6 arg7 harg7 arg8 harg8 arg9 arg10 v14_r0 v14_r1 k3_t2 v216 v317
      = accTrip (F := F) ((i 0).castLE hcore3) ((i 1).castLE hsub3) arg6 arg7 k3_t16_loop (k3_off49 k3_t2) (Facts₀.k3_off49_inb k3_t2)
          k3_off50 k3_chk14 k3_chk14.dec Cert.Kernel.k3_off50_inb := rfl

/-- The rows' offsets in closed form: slot 1, row `50 + k`, lane `v + c`. -/
theorem k3_off50_closed (k : Fin k3_t16_loop.trips) (v c : BitVec 32) :
    k3_off50 k v c = ![1, 50 + k.val, (v + c).toNat] := by
  have hm : ∀ k : Fin k3_t16_loop.trips, (k3_off50 k 0#32 0#32) 1 = 50 + k.val := by decide +kernel
  funext a
  match a with
  | ⟨0, _⟩ => rfl
  | ⟨1, _⟩ => exact hm k
  | ⟨2, _⟩ => rfl

/-- One trip of loop 16 preserves the left-fold invariant. -/
theorem accum_k3_t16 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v317 : FVec F S1x16 .f32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t16_loop.trips → at1 (arg6.view.read (Elt F) fH) (160 * k3_t2.val + 130 + j) = 0#32 ∨ at1 (arg6.view.read (Elt F) fH) (160 * k3_t2.val + 130 + j) = 64#32)
    (k : Fin k3_t16_loop.trips) (acc : Acc4 F) :
    AccInv (F := F) Ix Name U Lvl d ((i 0).castLE hcore3) ((i 1).castLE hsub3) arg6 arg7 IR qH qR fH fR 1 50 (160 * k3_t2.val + 130) k.val acc
      ⊢ wp frame (wpE (defs₀ (F := F)) 𝒱 ((d, .scVector ((i 0).castLE hcore3) ((i 1).castLE hsub3)) : Thread nD τ) bd) E
          (k3_t16_body (F := F) i arg2 harg2 arg3 harg3 arg4 harg4 arg5 harg5 arg6 harg6 arg7 harg7 arg8 harg8 arg9 arg10 v14_r0 v14_r1 k3_t2 v216 v317 k acc)
          (AccInv (F := F) Ix Name U Lvl d ((i 0).castLE hcore3) ((i 1).castLE hsub3) arg6 arg7 IR qH qR fH fR 1 50 (160 * k3_t2.val + 130) (k.val + 1)) := by
  rw [k3_t16_body_eq]
  exact accTrip_step (F := F) Ix Name U Lvl 𝒱 d _ _ bd E arg6 arg7 k3_t16_loop _ _ _ _ _ _ IR qH qR fH fR 1 50 (160 * k3_t2.val + 130)
    (fun k => (k3_off49_eq k3_t2 k).trans (by first | rfl | (congr 1; omega))) k3_off50_closed (fun _ _ h => h)
    (by decide) (by decide) hIR hH k acc

/-! ### Loop 17: slot 1, batch row 6 of the chunk -/

/-- The loop's trip is the accumulate trip at its offset functions. -/
theorem k3_t17_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v347_0 : FVec F S16 .f32) (v347_1 : FVec F S16 .f32) (v347_2 : FVec F S16 .f32) (v347_3 : FVec F S16 .f32) (v348 : BitVec 32) (c2_i32_213 : BitVec 32) :
    k3_t17_body (F := F) i arg2 harg2 arg3 harg3 arg4 harg4 arg5 harg5 arg6 harg6 arg7 harg7 arg8 harg8 arg9 arg10 v14_r0 v14_r1 k3_t2 v216 v347_0 v347_1 v347_2 v347_3 v348 c2_i32_213
      = accTrip (F := F) ((i 0).castLE hcore3) ((i 1).castLE hsub3) arg6 arg7 k3_t17_loop (k3_off51 k3_t2) (Facts₀.k3_off51_inb k3_t2)
          k3_off52 k3_chk15 k3_chk15.dec Cert.Kernel.k3_off52_inb := rfl

/-- The rows' offsets in closed form: slot 1, row `60 + k`, lane `v + c`. -/
theorem k3_off52_closed (k : Fin k3_t17_loop.trips) (v c : BitVec 32) :
    k3_off52 k v c = ![1, 60 + k.val, (v + c).toNat] := by
  have hm : ∀ k : Fin k3_t17_loop.trips, (k3_off52 k 0#32 0#32) 1 = 60 + k.val := by decide +kernel
  funext a
  match a with
  | ⟨0, _⟩ => rfl
  | ⟨1, _⟩ => exact hm k
  | ⟨2, _⟩ => rfl

/-- One trip of loop 17 preserves the left-fold invariant. -/
theorem accum_k3_t17 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (k3_t2 : Fin k3_t2_loop.trips) (v216 : BitVec 32) (v347_0 : FVec F S16 .f32) (v347_1 : FVec F S16 .f32) (v347_2 : FVec F S16 .f32) (v347_3 : FVec F S16 .f32) (v348 : BitVec 32) (c2_i32_213 : BitVec 32)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t17_loop.trips → at1 (arg6.view.read (Elt F) fH) (160 * k3_t2.val + 140 + j) = 0#32 ∨ at1 (arg6.view.read (Elt F) fH) (160 * k3_t2.val + 140 + j) = 64#32)
    (k : Fin k3_t17_loop.trips) (acc : Acc4 F) :
    AccInv (F := F) Ix Name U Lvl d ((i 0).castLE hcore3) ((i 1).castLE hsub3) arg6 arg7 IR qH qR fH fR 1 60 (160 * k3_t2.val + 140) k.val acc
      ⊢ wp frame (wpE (defs₀ (F := F)) 𝒱 ((d, .scVector ((i 0).castLE hcore3) ((i 1).castLE hsub3)) : Thread nD τ) bd) E
          (k3_t17_body (F := F) i arg2 harg2 arg3 harg3 arg4 harg4 arg5 harg5 arg6 harg6 arg7 harg7 arg8 harg8 arg9 arg10 v14_r0 v14_r1 k3_t2 v216 v347_0 v347_1 v347_2 v347_3 v348 c2_i32_213 k acc)
          (AccInv (F := F) Ix Name U Lvl d ((i 0).castLE hcore3) ((i 1).castLE hsub3) arg6 arg7 IR qH qR fH fR 1 60 (160 * k3_t2.val + 140) (k.val + 1)) := by
  rw [k3_t17_body_eq]
  exact accTrip_step (F := F) Ix Name U Lvl 𝒱 d _ _ bd E arg6 arg7 k3_t17_loop _ _ _ _ _ _ IR qH qR fH fR 1 60 (160 * k3_t2.val + 140)
    (fun k => (k3_off51_eq k3_t2 k).trans (by first | rfl | (congr 1; omega))) k3_off52_closed (fun _ _ h => h)
    (by decide) (by decide) hIR hH k acc

/-! ### Loop 18: slot 1, batch row 7 of the chunk -/

/-- The loop's trip is the accumulate trip at its offset functions. -/
theorem k3_t18_body_eq (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k3_t2 : Fin k3_t2_loop.trips) :
    k3_t18_body (F := F) i arg2 harg2 arg3 harg3 arg4 harg4 arg5 harg5 arg6 harg6 arg7 harg7 arg8 harg8 arg9 arg10 v14_r0 v14_r1 c0_i32_15 c1_i32_16 k3_t2
      = accTrip (F := F) ((i 0).castLE hcore3) ((i 1).castLE hsub3) arg6 arg7 k3_t18_loop (k3_off53 k3_t2) (Facts₀.k3_off53_inb k3_t2)
          k3_off54 k3_chk16 k3_chk16.dec Cert.Kernel.k3_off54_inb := rfl

/-- The rows' offsets in closed form: slot 1, row `70 + k`, lane `v + c`. -/
theorem k3_off54_closed (k : Fin k3_t18_loop.trips) (v c : BitVec 32) :
    k3_off54 k v c = ![1, 70 + k.val, (v + c).toNat] := by
  have hm : ∀ k : Fin k3_t18_loop.trips, (k3_off54 k 0#32 0#32) 1 = 70 + k.val := by decide +kernel
  funext a
  match a with
  | ⟨0, _⟩ => rfl
  | ⟨1, _⟩ => exact hm k
  | ⟨2, _⟩ => rfl

/-- One trip of loop 18 preserves the left-fold invariant. -/
theorem accum_k3_t18 (Ix Name U Lvl : Type) [DecidableEq Ix] [DecidableEq Name] [RA.URA U] [Preorder Lvl]
    (𝒱 : Variants) (d : Dev nD) (bd : Option 𝒱.V) (E : Set Name) (i : grid3.Coords) (arg2 : Memref sig .scVector .hbm S501760x128 .f32) (harg2 : arg2.IsWhole) (arg3 : Memref sig .scVector .hbm S40960 .i32) (harg3 : arg3.IsWhole) (arg4 : Memref sig .scVector .hbm S2048x128 .f32) (harg4 : arg4.IsWhole) (arg5 : Memref sig .scVector .vmem S1280 .i32) (harg5 : arg5.IsWhole) (arg6 : Memref sig .scVector .vmem S1296 .i32) (harg6 : arg6.IsWhole) (arg7 : Memref sig .scVector .vmem S2x80x128 .f32) (harg7 : arg7.IsWhole) (arg8 : Memref sig .scVector .vmem S64x128 .f32) (harg8 : arg8.IsWhole) (arg9 : DmaSems sig S_) (arg10 : DmaSems sig S_) (v14_r0 : DmaSems sig S_) (v14_r1 : DmaSems sig S_) (c0_i32_15 : BitVec 32) (c1_i32_16 : BitVec 32) (k3_t2 : Fin k3_t2_loop.trips)
    (IR : Finset (Idx (arg7.view.loc ((d, .scVector ((i 0).castLE hcore3) ((i 1).castLE hsub3)) : Thread nD τ))))
    (qH qR : PosShare TreeShare) (fH : BufTy.Contents (Elt F) arg6.view.ty) (fR : BufTy.Contents (Elt F) arg7.view.ty)
    (hIR : ∀ x : (SR 80).Idx, (x 0).val = 1 → arg7.view.emb x ∈ IR)
    (hH : ∀ j, j < k3_t18_loop.trips → at1 (arg6.view.read (Elt F) fH) (160 * k3_t2.val + 150 + j) = 0#32 ∨ at1 (arg6.view.read (Elt F) fH) (160 * k3_t2.val + 150 + j) = 64#32)
    (k : Fin k3_t18_loop.trips) (acc : Acc4 F) :
    AccInv (F := F) Ix Name U Lvl d ((i 0).castLE hcore3) ((i 1).castLE hsub3) arg6 arg7 IR qH qR fH fR 1 70 (160 * k3_t2.val + 150) k.val acc
      ⊢ wp frame (wpE (defs₀ (F := F)) 𝒱 ((d, .scVector ((i 0).castLE hcore3) ((i 1).castLE hsub3)) : Thread nD τ) bd) E
          (k3_t18_body (F := F) i arg2 harg2 arg3 harg3 arg4 harg4 arg5 harg5 arg6 harg6 arg7 harg7 arg8 harg8 arg9 arg10 v14_r0 v14_r1 c0_i32_15 c1_i32_16 k3_t2 k acc)
          (AccInv (F := F) Ix Name U Lvl d ((i 0).castLE hcore3) ((i 1).castLE hsub3) arg6 arg7 IR qH qR fH fR 1 70 (160 * k3_t2.val + 150) (k.val + 1)) := by
  rw [k3_t18_body_eq]
  exact accTrip_step (F := F) Ix Name U Lvl 𝒱 d _ _ bd E arg6 arg7 k3_t18_loop _ _ _ _ _ _ IR qH qR fH fR 1 70 (160 * k3_t2.val + 150)
    (fun k => (k3_off53_eq k3_t2 k).trans (by first | rfl | (congr 1; omega))) k3_off54_closed (fun _ _ h => h)
    (by decide) (by decide) hIR hH k acc

end Cert.Proof.KB

end
-- ==== Proof.KB.Tile3Facts.lean ====
/-
  Pure facts about one vector subcore's task of the second embedding-sum call: the rewritten index words as row
  numbers of the pair table, the lane offsets, what a gather of 80 rows delivers, and the value one accumulate loop
  leaves in its four accumulators.
-/
import proofs.«219250_g10247791969013_week1_w1_750_27_alg».proof.Proof.KB.Tile3RingDefs
import proofs.«219250_g10247791969013_week1_w1_750_27_alg».proof.Proof.KI.AccFold
import proofs.«219250_g10247791969013_week1_w1_750_27_alg».proof.Proof.KB.Tile2Facts

noncomputable section

namespace Cert.Proof.KB

open Cert.Proof.KI

open Cert.Kernel Cert.Kernel.Gen

open Idealize.ShloMosaic
open Idealize.ShloMosaic.ValueIdx

variable {F : FTy → Type} [FloatOps F]

/-! ## The rewritten words and the lane offsets -/

/-- After the whole rewrite a word of the list, as a number, is the table row it names, and that row is in the table. -/
theorem rew_toNat3 (ix g : S1280.Idx → BitVec 32) (hg : ZI5 ix g 80) (hix : ∀ j, (ix j).toNat < 100000) (y : S1280.Idx) :
    (g y).toNat = gRow3 (F := F) ix (y 0).val ∧ (g y).toNat < 501760 := by
  have hy : (y 0).val < 1280 := (y 0).isLt
  have hgy := hg y
  rw [if_pos (by omega)] at hgy
  have hyy : ix (ix1 ⟨(y 0).val, hy⟩) = ix y := congrArg ix (eq_ix1 y).symm
  have hi := hix y
  have e : (g y).toNat = (ix y).toNat + (y 0).val % 10 / 2 * 100352 := by
    rw [hgy]
    unfold rewW3
    rw [BitVec.toNat_add, BitVec.toNat_ofNat]
    have h2 : (2 : ℕ) ^ 32 = 4294967296 := by norm_num
    rw [h2]
    omega
  refine ⟨?_, by omega⟩
  unfold gRow3
  rw [dif_pos hy, hyy, e]

/-- After the whole rewrite the lane offset at position `p` is `(p mod 10 mod 2) · 64`. -/
theorem half_val3 (g : (SH 1296).Idx → BitVec 32) (hg : ZI6 g 80) (p : ℕ) (hp : p < 1280) :
    at1 g p = BitVec.ofNat 32 (p % 10 % 2 * 64) := by
  rw [at1_of_lt g (by omega : p < 1296)]
  exact hg (ix1 ⟨p, by omega⟩) (by show p < 16 * 80; omega)

/-- So it is 0 or 64. -/
theorem half_val3_cases (g : (SH 1296).Idx → BitVec 32) (hg : ZI6 g 80) (p : ℕ) (hp : p < 1280) :
    at1 g p = 0#32 ∨ at1 g p = 64#32 := by
  rw [half_val3 g hg p hp]
  rcases Nat.mod_two_eq_zero_or_one (p % 10) with h | h
  · left; rw [h]
  · right; rw [h]

/-! ## What a gather delivers -/

/-- The gather of chunk `c`: row `r` of what it delivers is the table row the rewritten list names at position
    `80 c + r`. -/
theorem gather_spec3 (d : Dev nD) (L : grid3.Coords) (Tb : Buf (Elt F) ((tabM3).view.loc (thr3 d L))) (ix : S1280.Idx → Elt F .i32)
    (g5 : Buf (Elt F) ((sI3).view.loc (thr3 d L))) (hg5 : ZI5 ix ((sI3).view.read (Elt F) g5) 80) (hix : ∀ j, (ix j).toNat < 100000)
    (c : ℕ) (off : Fin 1 → ℕ) (inb : ∀ a, off a + S80.size a ≤ S1280.size a) (hs) (hoff : off = ![80 * c])
    (hn : S80.numel = S80x128.size gathers_S501760x128_S80x128.axis')
    (hin : ∀ x, (((sI3).slice (Rect.unit (s := S1280) off S80.size inb) hs).view.read (Elt F) g5 x).toNat < S501760x128.size gathers_S501760x128_S80x128.axis) :
    SparseCore.gatherPayload gathers_S501760x128_S80x128 ((tabSl3).view.read (Elt F) Tb)
        (SparseCore.rows (((sI3).slice (Rect.unit (s := S1280) off S80.size inb) hs).view.read (Elt F) g5) hn hin)
      = gathSpec3 ((tabM3).view.read (Elt F) Tb) ix c := by
  subst hoff
  funext x
  have hx0 : (x 0).val < 80 := (x 0).isLt
  have hx1 : (x 1).val < 128 := (x 1).isLt
  have hc : 80 * c + 80 ≤ 1280 := by
    have h0 := inb 0
    have e1 : (![80 * c] : Fin 1 → ℕ) 0 = 80 * c := rfl
    have e2 : S80.size 0 = 80 := rfl
    have e3 : S1280.size 0 = 1280 := rfl
    omega
  have hw : ((sI3).slice (Rect.unit (s := S1280) ![80 * c] S80.size inb) hs).view.read (Elt F) g5 (ix1 ⟨(x 0).val, hx0⟩)
      = (sI3).view.read (Elt F) g5 (ix1 ⟨80 * c + (x 0).val, by omega⟩) := by
    show (sI3).view.read (Elt F) g5 ((Rect.unit (s := S1280) ![80 * c] S80.size inb).emb (ix1 ⟨(x 0).val, hx0⟩)) = _
    congr 1
    funext a
    match a with
    | ⟨0, _⟩ => exact Fin.ext (show 80 * c + 1 * (x 0).val = 80 * c + (x 0).val by omega)
  have hr := rew_toNat3 (F := F) ix _ hg5 hix (ix1 ⟨80 * c + (x 0).val, by omega⟩)
  have hr1 : ((sI3).view.read (Elt F) g5 (ix1 ⟨80 * c + (x 0).val, by omega⟩)).toNat = gRow3 (F := F) ix (80 * c + (x 0).val) := hr.1
  have hlt : gRow3 (F := F) ix (80 * c + (x 0).val) < 501760 := by rw [← hr1]; exact hr.2
  have hrow : (SparseCore.rows (((sI3).slice (Rect.unit (s := S1280) ![80 * c] S80.size inb) hs).view.read (Elt F) g5) hn hin
        (x gathers_S501760x128_S80x128.axis')).val
      = gRow3 (F := F) ix (80 * c + (x 0).val) := by
    have e := rowMajor_symm_rank1 (n := 80) ((x gathers_S501760x128_S80x128.axis').cast hn.symm) (x 0).val hx0 rfl
    show ((((sI3).slice (Rect.unit (s := S1280) ![80 * c] S80.size inb) hs).view.read (Elt F) g5)
      (S80.rowMajor.symm ((x gathers_S501760x128_S80x128.axis').cast hn.symm))).toNat = _
    rw [e, hw, hr1]
  unfold SparseCore.gatherPayload gathSpec3 tbAt3
  rw [dif_pos ⟨hlt, hx1⟩]
  show (tabM3).view.read (Elt F) Tb ((Rect.unit (s := S501760x128) ![0, 0] S501760x128.size _).emb
      (gathers_S501760x128_S80x128.idx _ x)) = _
  congr 1
  funext a
  match a with
  | ⟨0, _⟩ =>
    refine Fin.ext ?_
    show 0 + 1 * (gathers_S501760x128_S80x128.idx _ x ⟨0, _⟩).val = gRow3 (F := F) ix (80 * c + (x 0).val)
    rw [Nat.zero_add, Nat.one_mul]
    exact (congrArg Fin.val (Shape.Gathers.idx_axis gathers_S501760x128_S80x128 _ x)).trans hrow
  | ⟨1, _⟩ =>
    refine Fin.ext ?_
    show 0 + 1 * (gathers_S501760x128_S80x128.idx _ x ⟨1, _⟩).val = (x 1).val
    rw [Nat.zero_add, Nat.one_mul]
    exact Shape.Gathers.idx_of_ne gathers_S501760x128_S80x128 _ x ⟨1, by decide⟩ (by decide)

/-! ## The value of one accumulate loop -/

/-- With the gathered rows of the slot being the table rows the list names for chunk `chunk`, and the lane offsets
    `(p mod 10 mod 2) · 64`, lane `l` of accumulator `t` after the ten trips of batch row `bi` of the chunk is the
    task's entry at row `4 chunk + bi / 2`, lane `(bi mod 2) · 64 + 16 t + l`. -/
theorem acc_value3 (tb : S501760x128.Idx → Elt F .f32) (ix : S1280.Idx → Elt F .i32) (R : (SR 80).Idx → F .f32) (H : (SH 1296).Idx → BitVec 32)
    (slot chunk bi p₀ : ℕ) (hslot : slot < 2) (hchunk : chunk < 16) (hbi : bi < 8) (hp₀ : p₀ = 80 * chunk + 10 * bi)
    (hR : ∀ r c, r < 80 → c < 128 → at3 R slot r c = tbAt3 tb (gRow3 ix (80 * chunk + r)) c)
    (hH : ∀ p, p < 1280 → at1 H p = BitVec.ofNat 32 (p % 10 % 2 * 64))
    (t : ℕ) (ht : t < 4) (l : SL16.Idx) :
    (accAt R H slot (10 * bi) p₀ 10).get t l
      = OUT3 tb ix (ix2 (⟨4 * chunk + bi / 2, by omega⟩ : Fin 64) (⟨bi % 2 * 64 + 16 * t + (l 0).val, by have hl : (l 0).val < 16 := (l 0).isLt; omega⟩ : Fin 128)) := by
  subst hp₀
  have hl : (l 0).val < 16 := (l 0).isLt
  rw [accAt_get_eq_foldl_of R H slot (10 * bi) (80 * chunk + 10 * bi) 10 t ht l
    (fun j => tbAt3 tb (gRow3 ix ((2 * (4 * chunk + bi / 2) + (bi % 2 * 64 + 16 * t + (l 0).val) / 64) * 10 + j))
      (j % 2 * 64 + (bi % 2 * 64 + 16 * t + (l 0).val) % 64))
    (fun j hj => by
      unfold accRow
      have hw : at1 H (80 * chunk + 10 * bi + j) = BitVec.ofNat 32 (j % 2 * 64) := by
        rw [hH _ (by omega)]
        have e : (80 * chunk + 10 * bi + j) % 10 = j := by omega
        rw [e]
      have hn : (BitVec.ofNat 32 (j % 2 * 64)).toNat = j % 2 * 64 := by
        rw [BitVec.toNat_ofNat]
        have h2 : (2 : ℕ) ^ 32 = 4294967296 := by norm_num
        rw [h2]
        omega
      rw [hw, hn, hR (10 * bi + j) (j % 2 * 64 + 16 * t + (l 0).val) (by omega) (by omega)]
      have e1 : (2 * (4 * chunk + bi / 2) + (bi % 2 * 64 + 16 * t + (l 0).val) / 64) * 10 + j = 80 * chunk + (10 * bi + j) := by omega
      have e2 : j % 2 * 64 + (bi % 2 * 64 + 16 * t + (l 0).val) % 64 = j % 2 * 64 + 16 * t + (l 0).val := by omega
      rw [e1, e2])]
  rfl

end Cert.Proof.KB

end
-- ==== Proof.KB.Tile3Facts2.lean ====
/-
  The two gather buffers of a vector subcore's task as parts of the scratch of gathered rows: the rows of slot 0
  (resp. 1) are exactly the even (resp. odd) buffer's elements, and what is written through a buffer is read back, at
  slot, row and lane, from the scratch.
-/
import proofs.«219250_g10247791969013_week1_w1_750_27_alg».proof.Proof.KB.Tile3RingDefs
import proofs.«219250_g10247791969013_week1_w1_750_27_alg».proof.Proof.KI.AccSpec
import Idealize.ShloMosaic.Lib.Writes
import Idealize.ShloMosaic.Lib.Exec.Geometry

noncomputable section

namespace Cert.Proof.KB

open Cert.Proof.KI

open Cert.Kernel Cert.Kernel.Gen

open Idealize.ShloMosaic
open Idealize.ShloMosaic.ValueIdx

variable {F : FTy → Type} [FloatOps F]

/-- The rows of one slot as a rectangle of the scratch. -/
abbrev slotRect3 (s : ℕ) (inb : ∀ a, (![s, 0, 0] : Fin 3 → ℕ) a + S1x80x128.size a ≤ S2x80x128.size a) : Rect S2x80x128 :=
  Rect.unit (s := S2x80x128) ![s, 0, 0] S1x80x128.size inb

/-- An element of slot `s` of the scratch lies in the rectangle of that slot. -/
theorem mem_slotRect3 (s : ℕ) (inb) (x : S2x80x128.Idx) (hx : (x 0).val = s) : x ∈ (slotRect3 s inb).set := by
  rw [Rect.mem_set_unit]
  intro a
  match a with
  | ⟨0, _⟩ =>
    show s ≤ (x 0).val ∧ (x 0).val < s + 1
    omega
  | ⟨1, _⟩ =>
    have h1 : (x 1).val < 80 := (x 1).isLt
    show 0 ≤ (x 1).val ∧ (x 1).val < 0 + 80
    omega
  | ⟨2, _⟩ =>
    have h2 : (x 2).val < 128 := (x 2).isLt
    show 0 ≤ (x 2).val ∧ (x 2).val < 0 + 128
    omega

omit [FloatOps F] in
/-- Slot 0's rows are among the even buffer's elements. -/
theorem hIR_A3 : ∀ x : (SR 80).Idx, (x 0).val = 0 → (sR3).view.emb x ∈ (dstA3).view.set := by
  intro x hx
  rw [Memref.set_view_squeeze]
  show (sR3).view.emb x ∈ ((sR3).view.slice (slotRect3 0 inb_S2x80x128_S1x80x128_0_0_0)).set
  rw [View.set_slice]
  exact Finset.mem_map_of_mem _ (mem_slotRect3 0 _ x hx)

omit [FloatOps F] in
/-- Slot 1's rows are among the odd buffer's elements. -/
theorem hIR_B3 : ∀ x : (SR 80).Idx, (x 0).val = 1 → (sR3).view.emb x ∈ (dstB3).view.set := by
  intro x hx
  rw [Memref.set_view_squeeze]
  show (sR3).view.emb x ∈ ((sR3).view.slice (slotRect3 1 inb_S2x80x128_S1x80x128_1_0_0)).set
  rw [View.set_slice]
  exact Finset.mem_map_of_mem _ (mem_slotRect3 1 _ x hx)

/-- The row-major regrouping of one slot's rows `1 × 80 × 128` as `80 × 128` keeps row and lane. -/
theorem reshape_slot_symm3 (h : S80x128.numel = S1x80x128.numel) (r c : ℕ) (hr : r < 80) (hc : c < 128) :
    (Shape.reshapeEquiv h).symm (ix3 (0 : Fin 1) (⟨r, hr⟩ : Fin 80) (⟨c, hc⟩ : Fin 128) : S1x80x128.Idx)
      = (ix2 (⟨r, hr⟩ : Fin 80) (⟨c, hc⟩ : Fin 128) : S80x128.Idx) := by
  rw [Equiv.symm_apply_eq]
  refine (Shape.reshapeEquiv_eq_of_rowMajor h ?_).symm
  rw [Shape.rowMajor_val_three, Shape.rowMajor_val_two]
  show (0 * 80 + r) * 128 + c = r * 128 + c
  omega

/-- What is written through the buffer of slot `s` is read back from the scratch at `(s, r, c)`. -/
theorem read_slot3 (s : ℕ) (hs : s < 2) (inb) (hq : S1x80x128.Squeezes S80x128)
    (g : (sR3).view.ty.Contents (Elt F)) (p : S80x128.Idx → Elt F .f32) (r c : ℕ) (hr : r < 80) (hc : c < 128) :
    at3 ((sR3).view.read (Elt F)
        ((((sR3).slice (slotRect3 s inb) (fun _ => rfl)).squeeze S80x128 hq).view.write (Elt F) g p Finset.univ)) s r c
      = p (ix2 ⟨r, hr⟩ ⟨c, hc⟩) := by
  rw [at3_of_lt _ hs hr hc]
  show (sR3).view.read (Elt F) ((((sR3).view.slice (slotRect3 s inb)).reshape S80x128 hq.numel_eq).write (Elt F) g p Finset.univ)
    (ix3 ⟨s, hs⟩ ⟨r, hr⟩ ⟨c, hc⟩) = _
  rw [View.write_reshape_univ]
  have hx : (ix3 (⟨s, hs⟩ : Fin 2) (⟨r, hr⟩ : Fin 80) (⟨c, hc⟩ : Fin 128) : S2x80x128.Idx)
      = (slotRect3 s inb).emb (ix3 (0 : Fin 1) (⟨r, hr⟩ : Fin 80) (⟨c, hc⟩ : Fin 128) : S1x80x128.Idx) := by
    funext a
    match a with
    | ⟨0, _⟩ => exact Fin.ext (show s = s + 1 * 0 by omega)
    | ⟨1, _⟩ => exact Fin.ext (show r = 0 + 1 * r by omega)
    | ⟨2, _⟩ => exact Fin.ext (show c = 0 + 1 * c by omega)
  rw [hx, View.read_slice_write_emb _ _ _ (Finset.mem_univ _), reshape_slot_symm3 _ r c hr hc]

/-- The even buffer. -/
theorem read_slotA3 (g : (sR3).view.ty.Contents (Elt F)) (p : S80x128.Idx → Elt F .f32) (r c : ℕ) (hr : r < 80) (hc : c < 128) :
    at3 ((sR3).view.read (Elt F) ((dstA3).view.write (Elt F) g p Finset.univ)) 0 r c = p (ix2 ⟨r, hr⟩ ⟨c, hc⟩) :=
  read_slot3 0 (by decide) inb_S2x80x128_S1x80x128_0_0_0 squeezes_S1x80x128_S80x128 g p r c hr hc

/-- The odd buffer. -/
theorem read_slotB3 (g : (sR3).view.ty.Contents (Elt F)) (p : S80x128.Idx → Elt F .f32) (r c : ℕ) (hr : r < 80) (hc : c < 128) :
    at3 ((sR3).view.read (Elt F) ((dstB3).view.write (Elt F) g p Finset.univ)) 1 r c = p (ix2 ⟨r, hr⟩ ⟨c, hc⟩) :=
  read_slot3 1 (by decide) inb_S2x80x128_S1x80x128_1_0_0 squeezes_S1x80x128_S80x128 g p r c hr hc

end Cert.Proof.KB

end
-- ==== Proof.KB.Tile3Ring.lean ====
/-
  The ring of gathers of one vector subcore's task: the invariant of its loop — both gathers of a trip's two chunks in
  flight on their semaphores, the block of sums done below the trip's rows.
-/
import proofs.«219250_g10247791969013_week1_w1_750_27_alg».proof.Proof.KB.Tile3Pre
import proofs.«219250_g10247791969013_week1_w1_750_27_alg».proof.Proof.KB.Tile3RingDefs
import proofs.«219250_g10247791969013_week1_w1_750_27_alg».proof.Proof.KB.Accum3
import proofs.«219250_g10247791969013_week1_w1_750_27_alg».proof.Proof.KB.Tile3Facts
import proofs.«219250_g10247791969013_week1_w1_750_27_alg».proof.Proof.KB.Tile3Facts2
import proofs.«219250_g10247791969013_week1_w1_750_27_alg».proof.Proof.KB.Tile2Stores
import proofs.«219250_g10247791969013_week1_w1_750_27_alg».proof.Proof.KB.Tile2Ring
import Idealize.ShloMosaic.Lib.Tactic

noncomputable section

namespace Cert.Proof.KB

open Cert.Proof.KI

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid3.Coords)

set_option quotPrecheck false in
local notation "tabSlN" => ((tabM3).slice (Rect.unit (s := S501760x128) ![0, 0] S501760x128.size inb_S501760x128_S501760x128_0_0) (fun _ => rfl))
set_option quotPrecheck false in
local notation "dstAN" => (((sR3).slice (Rect.unit (s := S2x80x128) ![0, 0, 0] S1x80x128.size inb_S2x80x128_S1x80x128_0_0_0) (fun _ => rfl)).squeeze S80x128 squeezes_S1x80x128_S80x128)
set_option quotPrecheck false in
local notation "dstBN" => (((sR3).slice (Rect.unit (s := S2x80x128) ![1, 0, 0] S1x80x128.size inb_S2x80x128_S1x80x128_1_0_0) (fun _ => rfl)).squeeze S80x128 squeezes_S1x80x128_S80x128)

variable (q : PosShare TreeShare) (Tb : Buf (Elt F) ((tabM3).view.loc (thr3 d L)))
  (tb : S501760x128.Idx → Elt F .f32) (ix : S1280.Idx → Elt F .i32)
  (g5 : Buf (Elt F) ((sI3).view.loc (thr3 d L))) (g6 : Buf (Elt F) ((sH3).view.loc (thr3 d L)))
  (O : CellTallies nD τ sig (HIx 2)) (W : Waits sig (HIx 2))

/-- A gather in flight on semaphore `sm`: it delivers the buffer's elements `Sd` at contents `gw`, the list's elements
    `So` and the table's share `qt` back. -/
def flight3 (sm : DmaSem sig) (Sd : Finset S2x80x128.Idx) (gw : Buf (Elt F) ((sR3).view.loc (thr3 d L))) (So : Finset S1280.Idx)
    (ql qt : PosShare TreeShare) : sProp 𝕄 :=
  Transfers.Flight countersEmb (thr3 d L) (SemLoc.dma sm) (default : HIx 2) 327680
    iprop((((sR3).view.loc (thr3 d L) ↦[Sd]{fullShare} gw) ∗ ((sI3).view.loc (thr3 d L) ↦[So]{ql} g5))
      ∗ ((tabM3).view.loc (thr3 d L) ↦[((tabSlN).view.set : Finset S501760x128.Idx)]{qt} Tb))

/-- Before trip `k < 8` of the ring: the gathers of chunks `2 k` and `2 k + 1` in flight, the block of sums done
    below row `8 k`. -/
def ringBusy3 (k : ℕ) (hk : k < 8) : sProp 𝕄 :=
  iprop(∃ (gA gB gR : Buf (Elt F) ((sR3).view.loc (thr3 d L))) (g8 : Buf (Elt F) ((sO3).view.loc (thr3 d L))) (W' : Waits sig (HIx 2))
      (pA pB : S80x128.Idx → Elt F .f32),
    owes (thr3 d L) O W' ∗ ((sH3).view.loc (thr3 d L) ↦{fullShare} g6) ∗ ((sO3).view.loc (thr3 d L) ↦{fullShare} g8)
    ∗ Aside ((tabM3).view.loc (thr3 d L) ↦[(tabM3).view.set \ ((tabSlN).view.set : Finset S501760x128.Idx)]{q.left} Tb)
    ∗ Aside ((tabM3).view.loc (thr3 d L) ↦[(tabM3).view.set \ ((tabSlN).view.set : Finset S501760x128.Idx)]{q.right} Tb)
    ∗ flight3 d L Tb g5 cc3_scratch4.sem ((dstAN).view.set : Finset S2x80x128.Idx) ((dstAN).view.write (Elt F) gA pA Finset.univ) (((offsC3 (2 * k) (lt16a hk)).view.set : Finset S1280.Idx)) fullShare.left q.left
    ∗ flight3 d L Tb g5 cc3_scratch5.sem ((dstBN).view.set : Finset S2x80x128.Idx) ((dstBN).view.write (Elt F) gB pB Finset.univ) (((offsC3 (2 * k + 1) (lt16b hk)).view.set : Finset S1280.Idx)) fullShare.right q.right
    ∗ Aside ((sR3).view.loc (thr3 d L) ↦[(Finset.univ \ ((dstAN).view.set : Finset S2x80x128.Idx)) \ ((dstBN).view.set : Finset S2x80x128.Idx)]{fullShare} gR)
    ∗ Aside ((sI3).view.loc (thr3 d L) ↦[Finset.univ \ ((offsC3 (2 * k) (lt16a hk)).view.set : Finset S1280.Idx)]{fullShare.left} g5)
    ∗ Aside ((sI3).view.loc (thr3 d L) ↦[Finset.univ \ ((offsC3 (2 * k + 1) (lt16b hk)).view.set : Finset S1280.Idx)]{fullShare.right} g5)
    ∗ ⌜(∀ p ∈ W', p ∈ W ∨ p.2 = none) ∧ OutOK3 tb ix k ((sO3).view.read (Elt F) g8)
        ∧ pA = gathSpec3 tb ix (2 * k) ∧ pB = gathSpec3 tb ix (2 * k + 1)⌝)

/-- After the last trip: nothing in flight, the block of sums done. -/
def ringDone3 : sProp 𝕄 :=
  iprop(∃ (gR : Buf (Elt F) ((sR3).view.loc (thr3 d L))) (g8 : Buf (Elt F) ((sO3).view.loc (thr3 d L))) (W' : Waits sig (HIx 2)),
    owes (thr3 d L) O W' ∗ ((sH3).view.loc (thr3 d L) ↦{fullShare} g6) ∗ ((sO3).view.loc (thr3 d L) ↦{fullShare} g8)
    ∗ Aside ((tabM3).view.loc (thr3 d L) ↦[(tabM3).view.set \ ((tabSlN).view.set : Finset S501760x128.Idx)]{q.left} Tb)
    ∗ Aside ((tabM3).view.loc (thr3 d L) ↦[(tabM3).view.set \ ((tabSlN).view.set : Finset S501760x128.Idx)]{q.right} Tb)
    ∗ semVal (cellA3 d L) 0 ∗ semVal (cellB3 d L) 0
    ∗ ((sR3).view.loc (thr3 d L) ↦{fullShare} gR) ∗ ((sI3).view.loc (thr3 d L) ↦{fullShare} g5)
    ∗ ((tabM3).view.loc (thr3 d L) ↦[((tabSlN).view.set : Finset S501760x128.Idx)]{q.left} Tb) ∗ ((tabM3).view.loc (thr3 d L) ↦[((tabSlN).view.set : Finset S501760x128.Idx)]{q.right} Tb)
    ∗ ⌜(∀ p ∈ W', p ∈ W ∨ p.2 = none) ∧ OutOK3 tb ix 8 ((sO3).view.read (Elt F) g8)⌝)

/-- The ring loop's invariant. -/
def ringInv3 (k : ℕ) (_ : Unit) : sProp 𝕄 :=
  if h : k < 8 then ringBusy3 d L q Tb tb ix g5 g6 O W k h else ringDone3 d L q Tb tb ix g5 g6 O W

end Cert.Proof.KB

end
-- ==== Proof.KB.Tile3Chunks.lean ====
/-
  The index list of a vector subcore's task cut into its sixteen chunks of 80 words: the chunks the two gathers of
  the next trip name are the chunks `2 (k + 1)` and `2 (k + 1) + 1`, they lie outside the two chunks of trip `k`, and
  the list held in those pieces is the list held whole; likewise the two gather buffers and the rest of the scratch of
  gathered rows.
-/
import proofs.«219250_g10247791969013_week1_w1_750_27_alg».proof.Proof.KB.Tile2Ring
import proofs.«219250_g10247791969013_week1_w1_750_27_alg».proof.Proof.KB.Tile3RingDefs
import Idealize.ShloMosaic.Lib.Exec.Geometry

noncomputable section

namespace Cert.Proof.KB

open Cert.Proof.KI

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The chunks as intervals of positions -/

/-- The 80 words from position `q` of the list: a word belongs to them when its position is in `[q, q + 80)`. -/
theorem mem_chunk3 (off : Fin 1 → ℕ) (inb : ∀ a, off a + S80.size a ≤ S1280.size a) (hs) (q : ℕ) (hoff : off = ![q]) (i : S1280.Idx) :
    i ∈ (((sI3).slice (Rect.unit (s := S1280) off S80.size inb) hs).view.set : Finset S1280.Idx)
      ↔ q ≤ (i 0).val ∧ (i 0).val < q + 80 := by
  subst hoff
  have hset : (((sI3).slice (Rect.unit (s := S1280) ![q] S80.size inb) hs).view.set : Finset S1280.Idx)
      = (Rect.unit (s := S1280) ![q] S80.size inb).set := View.set_slice_whole _ _
  rw [hset, Rect.mem_set_unit]
  constructor
  · intro h
    exact h 0
  · intro h a
    obtain rfl : a = 0 := Subsingleton.elim _ _
    exact h

/-- Chunk `c`. -/
abbrev C3 (c : ℕ) (h : c < 16) : Finset S1280.Idx := ((offsC3 c h).view.set : Finset S1280.Idx)
/-- The chunk the even slot's next gather names. -/
abbrev A3_29 (k : Fin k3_t2_loop.trips) (hc : k3_cond1 k = 1#1) : Finset S1280.Idx :=
  (((sI3).slice (Rect.unit (s := S1280) (k3_off29 k) S80.size (k3_off29_inb k hc)) (fun _ => rfl)).view.set : Finset S1280.Idx)
/-- The chunk the odd slot's next gather names. -/
abbrev B3_55 (k : Fin k3_t2_loop.trips) (hc2 : k3_cond2 k = 1#1) : Finset S1280.Idx :=
  (((sI3).slice (Rect.unit (s := S1280) (k3_off55 k) S80.size (k3_off55_inb k hc2)) (fun _ => rfl)).view.set : Finset S1280.Idx)

theorem mem_C3 (c : ℕ) (h : c < 16) (i : S1280.Idx) : i ∈ C3 c h ↔ 80 * c ≤ (i 0).val ∧ (i 0).val < 80 * c + 80 :=
  mem_chunk3 _ _ _ (80 * c) rfl i
theorem mem_A3_29 (k : Fin k3_t2_loop.trips) (hc : k3_cond1 k = 1#1) (i : S1280.Idx) :
    i ∈ A3_29 k hc ↔ 160 * k.val + 160 ≤ (i 0).val ∧ (i 0).val < 160 * k.val + 160 + 80 :=
  mem_chunk3 _ _ _ (160 * k.val + 160) (k3_off29_eq k) i
theorem mem_B3_55 (k : Fin k3_t2_loop.trips) (hc2 : k3_cond2 k = 1#1) (i : S1280.Idx) :
    i ∈ B3_55 k hc2 ↔ 160 * k.val + 240 ≤ (i 0).val ∧ (i 0).val < 160 * k.val + 240 + 80 :=
  mem_chunk3 _ _ _ (160 * k.val + 240) (k3_off55_eq k) i

/-- The even slot's next chunk lies outside the two chunks of trip `k`. -/
theorem chunkA_sub3 (k : Fin k3_t2_loop.trips) (hc : k3_cond1 k = 1#1) :
    A3_29 k hc ⊆ (Finset.univ \ C3 (2 * k.val) (lt16a k.isLt)) \ C3 (2 * k.val + 1) (lt16b k.isLt) := by
  intro i hi
  rw [mem_A3_29] at hi
  rw [Finset.mem_sdiff, Finset.mem_sdiff, mem_C3, mem_C3]
  exact ⟨⟨Finset.mem_univ _, by omega⟩, by omega⟩

/-- The odd slot's next chunk lies outside those two and outside the even slot's next chunk. -/
theorem chunkB_sub3 (k : Fin k3_t2_loop.trips) (hc : k3_cond1 k = 1#1) (hc2 : k3_cond2 k = 1#1) :
    B3_55 k hc2 ⊆ ((Finset.univ \ C3 (2 * k.val) (lt16a k.isLt)) \ C3 (2 * k.val + 1) (lt16b k.isLt)) \ A3_29 k hc := by
  intro i hi
  rw [mem_B3_55] at hi
  rw [Finset.mem_sdiff, Finset.mem_sdiff, Finset.mem_sdiff, mem_C3, mem_C3, mem_A3_29]
  exact ⟨⟨⟨Finset.mem_univ _, by omega⟩, by omega⟩, by omega⟩

/-- The even slot's next chunk is chunk `2 (k + 1)`. -/
theorem eqA3 (k : Fin k3_t2_loop.trips) (hc : k3_cond1 k = 1#1) (hk7 : k.val + 1 < 8) :
    A3_29 k hc = C3 (2 * (k.val + 1)) (lt16a hk7) := by
  ext i
  rw [mem_A3_29, mem_C3]
  omega

/-- The odd slot's next chunk is chunk `2 (k + 1) + 1`. -/
theorem eqB3 (k : Fin k3_t2_loop.trips) (hc2 : k3_cond2 k = 1#1) (hk7 : k.val + 1 < 8) :
    B3_55 k hc2 = C3 (2 * (k.val + 1) + 1) (lt16b hk7) := by
  ext i
  rw [mem_B3_55, mem_C3]
  omega

/-! ## The list held in pieces is the list held -/

variable (d : Dev nD) (L : grid3.Coords)

/-- The two chunks of trip `k` and the rest of the list less the two chunks named next: the list less those two. -/
theorem chunks_rejoin3 (k : Fin k3_t2_loop.trips) (hc : k3_cond1 k = 1#1) (hc2 : k3_cond2 k = 1#1)
    (g5 : Buf (Elt F) ((sI3).view.loc (thr3 d L))) :
    iprop(((sI3).view.loc (thr3 d L) ↦[C3 (2 * k.val) (lt16a k.isLt)]{fullShare} g5)
        ∗ ((sI3).view.loc (thr3 d L) ↦[C3 (2 * k.val + 1) (lt16b k.isLt)]{fullShare} g5)
        ∗ ((sI3).view.loc (thr3 d L) ↦[(((Finset.univ \ C3 (2 * k.val) (lt16a k.isLt)) \ C3 (2 * k.val + 1) (lt16b k.isLt)) \ A3_29 k hc) \ B3_55 k hc2]{fullShare} g5))
      ⊢ ((sI3).view.loc (thr3 d L) ↦[(Finset.univ \ A3_29 k hc) \ B3_55 k hc2]{fullShare} g5 : sProp 𝕄) := by
  have hd1 : Disjoint (C3 (2 * k.val + 1) (lt16b k.isLt))
      ((((Finset.univ \ C3 (2 * k.val) (lt16a k.isLt)) \ C3 (2 * k.val + 1) (lt16b k.isLt)) \ A3_29 k hc) \ B3_55 k hc2) := by
    refine Finset.disjoint_left.mpr fun i h1 h2 => ?_
    rw [Finset.mem_sdiff, Finset.mem_sdiff, Finset.mem_sdiff] at h2
    exact h2.1.1.2 h1
  have hd0 : Disjoint (C3 (2 * k.val) (lt16a k.isLt))
      (C3 (2 * k.val + 1) (lt16b k.isLt) ∪
        ((((Finset.univ \ C3 (2 * k.val) (lt16a k.isLt)) \ C3 (2 * k.val + 1) (lt16b k.isLt)) \ A3_29 k hc) \ B3_55 k hc2)) := by
    refine Finset.disjoint_left.mpr fun i h1 h2 => ?_
    rcases Finset.mem_union.mp h2 with h2 | h2
    · rw [mem_C3] at h1 h2; omega
    · rw [Finset.mem_sdiff, Finset.mem_sdiff, Finset.mem_sdiff, Finset.mem_sdiff] at h2
      exact h2.1.1.1.2 h1
  have hset : C3 (2 * k.val) (lt16a k.isLt) ∪ (C3 (2 * k.val + 1) (lt16b k.isLt) ∪
        ((((Finset.univ \ C3 (2 * k.val) (lt16a k.isLt)) \ C3 (2 * k.val + 1) (lt16b k.isLt)) \ A3_29 k hc) \ B3_55 k hc2))
      = (Finset.univ \ A3_29 k hc) \ B3_55 k hc2 := by
    ext i
    simp only [Finset.mem_union, Finset.mem_sdiff, Finset.mem_univ, true_and]
    rw [mem_C3, mem_C3, mem_A3_29, mem_B3_55]
    constructor
    · rintro (h | h | h)
      · constructor <;> omega
      · constructor <;> omega
      · exact ⟨h.1.2, h.2⟩
    · intro h
      by_cases h0 : 80 * (2 * k.val) ≤ (i 0).val ∧ (i 0).val < 80 * (2 * k.val) + 80
      · exact .inl h0
      · by_cases h1 : 80 * (2 * k.val + 1) ≤ (i 0).val ∧ (i 0).val < 80 * (2 * k.val + 1) + 80
        · exact .inr (.inl h1)
        · exact .inr (.inr ⟨⟨⟨h0, h1⟩, h.1⟩, h.2⟩)
  refine (sep_mono_right (pointsTo_union hd1).2).trans (((pointsTo_union hd0).2).trans (Entails.of_eq ?_))
  rw [hset]

/-- At the last trip: the two chunks and the rest are the whole list. -/
theorem chunks_rejoin_last3 (k : Fin k3_t2_loop.trips) (g5 : Buf (Elt F) ((sI3).view.loc (thr3 d L))) :
    iprop(((sI3).view.loc (thr3 d L) ↦[C3 (2 * k.val) (lt16a k.isLt)]{fullShare} g5)
        ∗ ((sI3).view.loc (thr3 d L) ↦[C3 (2 * k.val + 1) (lt16b k.isLt)]{fullShare} g5)
        ∗ ((sI3).view.loc (thr3 d L) ↦[(Finset.univ \ C3 (2 * k.val) (lt16a k.isLt)) \ C3 (2 * k.val + 1) (lt16b k.isLt)]{fullShare} g5))
      ⊢ ((sI3).view.loc (thr3 d L) ↦{fullShare} g5 : sProp 𝕄) := by
  have h1 : C3 (2 * k.val + 1) (lt16b k.isLt) ⊆ Finset.univ \ C3 (2 * k.val) (lt16a k.isLt) := by
    intro i hi
    rw [Finset.mem_sdiff]
    refine ⟨Finset.mem_univ _, fun h0 => ?_⟩
    rw [mem_C3] at hi h0
    omega
  exact (sep_mono_right (pointsTo_split_subset h1).2).trans (pointsTo_split_subset (Finset.subset_univ _)).2

/-! ## The two gather buffers and the rest of the scratch -/

omit [FloatOps F] in
/-- An element of the even buffer is in slot 0, one of the odd buffer in slot 1. -/
theorem mem_dstA3 (x : S2x80x128.Idx) (hx : x ∈ ((dstA3).view.set : Finset S2x80x128.Idx)) : (x 0).val = 0 := by
  rw [Memref.set_view_squeeze] at hx
  have hset : (((sR3).slice (Rect.unit (s := S2x80x128) ![0, 0, 0] S1x80x128.size inb_S2x80x128_S1x80x128_0_0_0) (fun _ => rfl)).view.set : Finset S2x80x128.Idx)
      = (Rect.unit (s := S2x80x128) ![0, 0, 0] S1x80x128.size inb_S2x80x128_S1x80x128_0_0_0).set := View.set_slice_whole _ _
  rw [hset, Rect.mem_set_unit] at hx
  have h0 := hx 0
  have e0 : (![0, 0, 0] : Fin 3 → ℕ) 0 = 0 := rfl
  have s0 : S1x80x128.size 0 = 1 := rfl
  rw [e0, s0] at h0
  omega

omit [FloatOps F] in
theorem mem_dstB3 (x : S2x80x128.Idx) (hx : x ∈ ((dstB3).view.set : Finset S2x80x128.Idx)) : (x 0).val = 1 := by
  rw [Memref.set_view_squeeze] at hx
  have hset : (((sR3).slice (Rect.unit (s := S2x80x128) ![1, 0, 0] S1x80x128.size inb_S2x80x128_S1x80x128_1_0_0) (fun _ => rfl)).view.set : Finset S2x80x128.Idx)
      = (Rect.unit (s := S2x80x128) ![1, 0, 0] S1x80x128.size inb_S2x80x128_S1x80x128_1_0_0).set := View.set_slice_whole _ _
  rw [hset, Rect.mem_set_unit] at hx
  have h0 := hx 0
  have e0 : (![1, 0, 0] : Fin 3 → ℕ) 0 = 1 := rfl
  have s0 : S1x80x128.size 0 = 1 := rfl
  rw [e0, s0] at h0
  omega

/-- The two gather buffers and the rest of the scratch are the scratch, whole, at some contents. -/
theorem slots_rejoin3 (fA fB fR : Buf (Elt F) ((sR3).view.loc (thr3 d L))) :
    iprop(((sR3).view.loc (thr3 d L) ↦[(dstA3).view.set]{fullShare} fA) ∗ ((sR3).view.loc (thr3 d L) ↦[(dstB3).view.set]{fullShare} fB)
        ∗ ((sR3).view.loc (thr3 d L) ↦[(Finset.univ \ (dstA3).view.set) \ (dstB3).view.set]{fullShare} fR))
      ⊢ (∃ f, (sR3).view.loc (thr3 d L) ↦{fullShare} f : sProp 𝕄) := by
  have hB : ((dstB3).view.set : Finset S2x80x128.Idx) ⊆ Finset.univ \ ((dstA3).view.set : Finset S2x80x128.Idx) := by
    intro x hx
    rw [Finset.mem_sdiff]
    refine ⟨Finset.mem_univ _, fun hA => ?_⟩
    have h0 := mem_dstA3 x hA
    have h1 := mem_dstB3 x hx
    omega
  refine (sep_mono_right (pointsTo_join_subset hB)).trans ((pointsTo_join_subset (Finset.subset_univ _)).trans ?_)
  iintro H
  iexists _
  iexact H

end Cert.Proof.KB

end
-- ==== Proof.KB.Tile3Chunks2.lean ====
/-
  The two gather buffers of a vector subcore's task share no element.
-/
import proofs.«219250_g10247791969013_week1_w1_750_27_alg».proof.Proof.KB.Tile3Chunks

noncomputable section

namespace Cert.Proof.KB

open Cert.Proof.KI

open Cert.Kernel Cert.Kernel.Gen

open Idealize.ShloMosaic

/-- The even buffer's elements lie outside the odd buffer. -/
theorem disjAB3 : ((dstA3).view.set : Finset S2x80x128.Idx) ⊆ Finset.univ \ ((dstB3).view.set : Finset S2x80x128.Idx) := by
  intro x hx
  rw [Finset.mem_sdiff]
  refine ⟨Finset.mem_univ _, fun hB => ?_⟩
  have h0 := mem_dstA3 x hx
  have h1 := mem_dstB3 x hB
  omega

/-- The odd buffer's elements lie outside the even buffer. -/
theorem disjBA3 : ((dstB3).view.set : Finset S2x80x128.Idx) ⊆ Finset.univ \ ((dstA3).view.set : Finset S2x80x128.Idx) := by
  intro x hx
  rw [Finset.mem_sdiff]
  refine ⟨Finset.mem_univ _, fun hA => ?_⟩
  have h0 := mem_dstA3 x hA
  have h1 := mem_dstB3 x hx
  omega

end Cert.Proof.KB

end
-- ==== Proof.KB.Tile3Blocks.lean ====
/-
  A covered element of a block of four stores of the second embedding-sum call reads the task's entry there.
-/
import proofs.«219250_g10247791969013_week1_w1_750_27_alg».proof.Proof.KB.Tile2Blocks
import proofs.«219250_g10247791969013_week1_w1_750_27_alg».proof.Proof.KB.Tile3Facts

noncomputable section

namespace Cert.Proof.KB

open Cert.Proof.KI

open Cert.Kernel Cert.Kernel.Gen

open Idealize.ShloMosaic
open Idealize.ShloMosaic.ValueIdx

variable {F : FTy → Type} [FloatOps F]

/-- A covered element of the block of batch row `bi` of chunk `chunk` reads the task's entry there, when the block's
    accumulators are the left folds over the chunk's gathered rows. -/
theorem blk_value3 (tb : S501760x128.Idx → Elt F .f32) (ix : S1280.Idx → Elt F .i32) (R : (SR 80).Idx → F .f32) (H : (SH 1296).Idx → BitVec 32)
    (slot chunk bi p₀ : ℕ) (hslot : slot < 2) (hchunk : chunk < 16) (hbi : bi < 8) (hp₀ : p₀ = 80 * chunk + 10 * bi)
    (hR : ∀ r c, r < 80 → c < 128 → at3 R slot r c = tbAt3 tb (gRow3 ix (80 * chunk + r)) c)
    (hH : ∀ p, p < 1280 → at1 H p = BitVec.ofNat 32 (p % 10 % 2 * 64))
    (b : Blk F) (hrow : b.row = 4 * chunk + bi / 2) (hc0 : b.c0 = bi % 2 * 64) (ha : b.a = accAt R H slot (10 * bi) p₀ 10)
    (x : S64x128.Idx) (hx : b.covers x) : b.at x = OUT3 tb ix x := by
  obtain ⟨h0, h1, h2⟩ := hx
  unfold Blk.at
  rw [ha, acc_value3 tb ix R H slot chunk bi p₀ hslot hchunk hbi hp₀ hR hH (((x 1).val - b.c0) / 16) (by omega)
    (ix1 (⟨((x 1).val - b.c0) % 16, Nat.mod_lt _ (by decide)⟩ : Fin 16))]
  congr 1
  funext a
  match a with
  | ⟨0, _⟩ => exact Fin.ext (show 4 * chunk + bi / 2 = (x 0).val by omega)
  | ⟨1, _⟩ => exact Fin.ext (show bi % 2 * 64 + 16 * (((x 1).val - b.c0) / 16) + ((x 1).val - b.c0) % 16 = (x 1).val by omega)

end Cert.Proof.KB

end
-- ==== Proof.KB.Tile3OutStep.lean ====
/-
  One trip of the ring completes eight more rows of the block of sums: if before the trip the block is done below row
  `8 k`, the trip's blocks of stores touch only rows `8 k … 8 k + 7`, cover each of their elements, and store the
  task's entries, then after the trip the block is done below row `8 (k + 1)`.
-/
import proofs.«219250_g10247791969013_week1_w1_750_27_alg».proof.Proof.KB.Tile3Blocks
import proofs.«219250_g10247791969013_week1_w1_750_27_alg».proof.Proof.KB.Tile3RingDefs

noncomputable section

namespace Cert.Proof.KB

open Cert.Proof.KI

open Cert.Kernel Cert.Kernel.Gen

open Idealize.ShloMosaic
open Idealize.ShloMosaic.ValueIdx

variable {F : FTy → Type} [FloatOps F]

theorem outOK_step3 {κ : Kind} {sp : Space} (v : View sig κ sp S64x128 .f32) (g : v.ty.Contents (Elt F))
    (tb : S501760x128.Idx → Elt F .f32) (ix : S1280.Idx → Elt F .i32) (k : ℕ)
    (hsc : SL16.ShapeCasts S1x16) (bs : List (Blk F))
    (hprev : OutOK3 tb ix k (v.read (Elt F) g))
    (hrows : ∀ b ∈ bs, 8 * k ≤ b.row)
    (hcover : ∀ x : S64x128.Idx, 8 * k ≤ (x 0).val → (x 0).val < 8 * (k + 1) → ∃ b ∈ bs, b.covers x)
    (hval : ∀ b ∈ bs, ∀ x : S64x128.Idx, b.covers x → b.at x = OUT3 tb ix x) :
    OutOK3 tb ix (k + 1) (v.read (Elt F) (v.writes (Elt F) g (blkPieces hsc bs))) := by
  intro x hx
  by_cases hlow : (x 0).val < 8 * k
  · rw [read_blks_uncovered v g hsc x bs (fun b hb hc => by
      have h1 := hrows b hb
      have h2 : (x 0).val = b.row := hc.1
      omega)]
    exact hprev x hlow
  · exact read_blks_covered v g hsc x _ bs (hcover x (by omega) hx) (fun b hb hc => hval b hb x hc)

end Cert.Proof.KB

end
-- ==== Proof.KB.Tile3TripOut.lean ====
/-
  The block of sums after one whole trip of the ring: the sixty-four 16-lane stores of the trip (sixteen accumulate
  loops, four stores each, the last listed first) complete rows `8 k … 8 k + 7`, given that before the trip the block
  was done below row `8 k`, that the two gather buffers hold the rows the list names for chunks `2 k` and `2 k + 1`,
  that the lane offsets are in place, and that each loop's accumulators are its left folds.
-/
import proofs.«219250_g10247791969013_week1_w1_750_27_alg».proof.Proof.KB.Tile3Facts2
import proofs.«219250_g10247791969013_week1_w1_750_27_alg».proof.Proof.Gen.Kernel.Skeleton
import proofs.«219250_g10247791969013_week1_w1_750_27_alg».proof.Proof.KB.Tile3OutStep

set_option maxRecDepth 65536

noncomputable section

namespace Cert.Proof.KB

open Cert.Proof.KI

open Cert.Kernel Cert.Kernel.Gen

open Idealize.ShloMosaic
open Idealize.ShloMosaic.ValueIdx

variable {F : FTy → Type} [FloatOps F]

set_option maxHeartbeats 4000000 in
theorem trip_out3 (k : Fin k3_t2_loop.trips) (tb : S501760x128.Idx → Elt F .f32) (ix : S1280.Idx → Elt F .i32)
    (g8 : (sO3).view.ty.Contents (Elt F)) (gA gB : (sR3).view.ty.Contents (Elt F)) (pA pB : S80x128.Idx → Elt F .f32)
    (g6 : (sH3).view.ty.Contents (Elt F)) (acc3 acc4 acc5 acc6 acc7 acc8 acc9 acc10 acc11 acc12 acc13 acc14 acc15 acc16 acc17 acc18 : Acc4 F)
    (hprev : OutOK3 tb ix k.val ((sO3).view.read (Elt F) g8))
    (hpA : pA = gathSpec3 tb ix (2 * k.val)) (hpB : pB = gathSpec3 tb ix (2 * k.val + 1))
    (hg6 : ZI6 ((sH3).view.read (Elt F) g6) 80)
    (hacc3 : acc3 = accAt ((sR3).view.read (Elt F) ((dstA3).view.write (Elt F) gA pA Finset.univ)) ((sH3).view.read (Elt F) g6) 0 0 (160 * k.val + 0) (Scf.trips k3_t3_loop.lb k3_t3_loop.ub k3_t3_loop.st))
    (hacc4 : acc4 = accAt ((sR3).view.read (Elt F) ((dstA3).view.write (Elt F) gA pA Finset.univ)) ((sH3).view.read (Elt F) g6) 0 10 (160 * k.val + 10) (Scf.trips k3_t4_loop.lb k3_t4_loop.ub k3_t4_loop.st))
    (hacc5 : acc5 = accAt ((sR3).view.read (Elt F) ((dstA3).view.write (Elt F) gA pA Finset.univ)) ((sH3).view.read (Elt F) g6) 0 20 (160 * k.val + 20) (Scf.trips k3_t5_loop.lb k3_t5_loop.ub k3_t5_loop.st))
    (hacc6 : acc6 = accAt ((sR3).view.read (Elt F) ((dstA3).view.write (Elt F) gA pA Finset.univ)) ((sH3).view.read (Elt F) g6) 0 30 (160 * k.val + 30) (Scf.trips k3_t6_loop.lb k3_t6_loop.ub k3_t6_loop.st))
    (hacc7 : acc7 = accAt ((sR3).view.read (Elt F) ((dstA3).view.write (Elt F) gA pA Finset.univ)) ((sH3).view.read (Elt F) g6) 0 40 (160 * k.val + 40) (Scf.trips k3_t7_loop.lb k3_t7_loop.ub k3_t7_loop.st))
    (hacc8 : acc8 = accAt ((sR3).view.read (Elt F) ((dstA3).view.write (Elt F) gA pA Finset.univ)) ((sH3).view.read (Elt F) g6) 0 50 (160 * k.val + 50) (Scf.trips k3_t8_loop.lb k3_t8_loop.ub k3_t8_loop.st))
    (hacc9 : acc9 = accAt ((sR3).view.read (Elt F) ((dstA3).view.write (Elt F) gA pA Finset.univ)) ((sH3).view.read (Elt F) g6) 0 60 (160 * k.val + 60) (Scf.trips k3_t9_loop.lb k3_t9_loop.ub k3_t9_loop.st))
    (hacc10 : acc10 = accAt ((sR3).view.read (Elt F) ((dstA3).view.write (Elt F) gA pA Finset.univ)) ((sH3).view.read (Elt F) g6) 0 70 (160 * k.val + 70) (Scf.trips k3_t10_loop.lb k3_t10_loop.ub k3_t10_loop.st))
    (hacc11 : acc11 = accAt ((sR3).view.read (Elt F) ((dstB3).view.write (Elt F) gB pB Finset.univ)) ((sH3).view.read (Elt F) g6) 1 0 (160 * k.val + 80) (Scf.trips k3_t11_loop.lb k3_t11_loop.ub k3_t11_loop.st))
    (hacc12 : acc12 = accAt ((sR3).view.read (Elt F) ((dstB3).view.write (Elt F) gB pB Finset.univ)) ((sH3).view.read (Elt F) g6) 1 10 (160 * k.val + 90) (Scf.trips k3_t12_loop.lb k3_t12_loop.ub k3_t12_loop.st))
    (hacc13 : acc13 = accAt ((sR3).view.read (Elt F) ((dstB3).view.write (Elt F) gB pB Finset.univ)) ((sH3).view.read (Elt F) g6) 1 20 (160 * k.val + 100) (Scf.trips k3_t13_loop.lb k3_t13_loop.ub k3_t13_loop.st))
    (hacc14 : acc14 = accAt ((sR3).view.read (Elt F) ((dstB3).view.write (Elt F) gB pB Finset.univ)) ((sH3).view.read (Elt F) g6) 1 30 (160 * k.val + 110) (Scf.trips k3_t14_loop.lb k3_t14_loop.ub k3_t14_loop.st))
    (hacc15 : acc15 = accAt ((sR3).view.read (Elt F) ((dstB3).view.write (Elt F) gB pB Finset.univ)) ((sH3).view.read (Elt F) g6) 1 40 (160 * k.val + 120) (Scf.trips k3_t15_loop.lb k3_t15_loop.ub k3_t15_loop.st))
    (hacc16 : acc16 = accAt ((sR3).view.read (Elt F) ((dstB3).view.write (Elt F) gB pB Finset.univ)) ((sH3).view.read (Elt F) g6) 1 50 (160 * k.val + 130) (Scf.trips k3_t16_loop.lb k3_t16_loop.ub k3_t16_loop.st))
    (hacc17 : acc17 = accAt ((sR3).view.read (Elt F) ((dstB3).view.write (Elt F) gB pB Finset.univ)) ((sH3).view.read (Elt F) g6) 1 60 (160 * k.val + 140) (Scf.trips k3_t17_loop.lb k3_t17_loop.ub k3_t17_loop.st))
    (hacc18 : acc18 = accAt ((sR3).view.read (Elt F) ((dstB3).view.write (Elt F) gB pB Finset.univ)) ((sH3).view.read (Elt F) g6) 1 70 (160 * k.val + 150) (Scf.trips k3_t18_loop.lb k3_t18_loop.ub k3_t18_loop.st)) :
    OutOK3 tb ix (k.val + 1) ((sO3).view.read (Elt F) ((sO3).view.writes (Elt F) g8
      ([⟨Rect.unit (s := S64x128) (k3_off42 k 3#32) S1x16.size (k3_off42_inb k 3), k3_pay208 acc18.2.2.2⟩,
        ⟨Rect.unit (s := S64x128) (k3_off41 k 3#32) S1x16.size (k3_off41_inb k 3), k3_pay207 acc18.2.2.1⟩,
        ⟨Rect.unit (s := S64x128) (k3_off40 k 3#32) S1x16.size (k3_off40_inb k 3), k3_pay206 acc18.2.1⟩,
        ⟨Rect.unit (s := S64x128) (k3_off39 k 3#32) S1x16.size (k3_off39_inb k 3), k3_pay205 acc18.1⟩,
        ⟨Rect.unit (s := S64x128) (k3_off36 k 3#32) S1x16.size (k3_off36_inb k 3), k3_pay195 acc17.2.2.2⟩,
        ⟨Rect.unit (s := S64x128) (k3_off35 k 3#32) S1x16.size (k3_off35_inb k 3), k3_pay194 acc17.2.2.1⟩,
        ⟨Rect.unit (s := S64x128) (k3_off34 k 3#32) S1x16.size (k3_off34_inb k 3), k3_pay193 acc17.2.1⟩,
        ⟨Rect.unit (s := S64x128) (k3_off33 k 3#32) S1x16.size (k3_off33_inb k 3), k3_pay192 acc17.1⟩,
        ⟨Rect.unit (s := S64x128) (k3_off42 k 2#32) S1x16.size (k3_off42_inb k 2), k3_pay182 acc16.2.2.2⟩,
        ⟨Rect.unit (s := S64x128) (k3_off41 k 2#32) S1x16.size (k3_off41_inb k 2), k3_pay181 acc16.2.2.1⟩,
        ⟨Rect.unit (s := S64x128) (k3_off40 k 2#32) S1x16.size (k3_off40_inb k 2), k3_pay180 acc16.2.1⟩,
        ⟨Rect.unit (s := S64x128) (k3_off39 k 2#32) S1x16.size (k3_off39_inb k 2), k3_pay179 acc16.1⟩,
        ⟨Rect.unit (s := S64x128) (k3_off36 k 2#32) S1x16.size (k3_off36_inb k 2), k3_pay169 acc15.2.2.2⟩,
        ⟨Rect.unit (s := S64x128) (k3_off35 k 2#32) S1x16.size (k3_off35_inb k 2), k3_pay168 acc15.2.2.1⟩,
        ⟨Rect.unit (s := S64x128) (k3_off34 k 2#32) S1x16.size (k3_off34_inb k 2), k3_pay167 acc15.2.1⟩,
        ⟨Rect.unit (s := S64x128) (k3_off33 k 2#32) S1x16.size (k3_off33_inb k 2), k3_pay166 acc15.1⟩,
        ⟨Rect.unit (s := S64x128) (k3_off42 k 1#32) S1x16.size (k3_off42_inb k 1), k3_pay156 acc14.2.2.2⟩,
        ⟨Rect.unit (s := S64x128) (k3_off41 k 1#32) S1x16.size (k3_off41_inb k 1), k3_pay155 acc14.2.2.1⟩,
        ⟨Rect.unit (s := S64x128) (k3_off40 k 1#32) S1x16.size (k3_off40_inb k 1), k3_pay154 acc14.2.1⟩,
        ⟨Rect.unit (s := S64x128) (k3_off39 k 1#32) S1x16.size (k3_off39_inb k 1), k3_pay153 acc14.1⟩,
        ⟨Rect.unit (s := S64x128) (k3_off36 k 1#32) S1x16.size (k3_off36_inb k 1), k3_pay143 acc13.2.2.2⟩,
        ⟨Rect.unit (s := S64x128) (k3_off35 k 1#32) S1x16.size (k3_off35_inb k 1), k3_pay142 acc13.2.2.1⟩,
        ⟨Rect.unit (s := S64x128) (k3_off34 k 1#32) S1x16.size (k3_off34_inb k 1), k3_pay141 acc13.2.1⟩,
        ⟨Rect.unit (s := S64x128) (k3_off33 k 1#32) S1x16.size (k3_off33_inb k 1), k3_pay140 acc13.1⟩,
        ⟨Rect.unit (s := S64x128) (k3_off42 k 0#32) S1x16.size (k3_off42_inb k 0), k3_pay130 acc12.2.2.2⟩,
        ⟨Rect.unit (s := S64x128) (k3_off41 k 0#32) S1x16.size (k3_off41_inb k 0), k3_pay129 acc12.2.2.1⟩,
        ⟨Rect.unit (s := S64x128) (k3_off40 k 0#32) S1x16.size (k3_off40_inb k 0), k3_pay128 acc12.2.1⟩,
        ⟨Rect.unit (s := S64x128) (k3_off39 k 0#32) S1x16.size (k3_off39_inb k 0), k3_pay127 acc12.1⟩,
        ⟨Rect.unit (s := S64x128) (k3_off36 k 0#32) S1x16.size (k3_off36_inb k 0), k3_pay117 acc11.2.2.2⟩,
        ⟨Rect.unit (s := S64x128) (k3_off35 k 0#32) S1x16.size (k3_off35_inb k 0), k3_pay116 acc11.2.2.1⟩,
        ⟨Rect.unit (s := S64x128) (k3_off34 k 0#32) S1x16.size (k3_off34_inb k 0), k3_pay115 acc11.2.1⟩,
        ⟨Rect.unit (s := S64x128) (k3_off33 k 0#32) S1x16.size (k3_off33_inb k 0), k3_pay114 acc11.1⟩,
        ⟨Rect.unit (s := S64x128) (k3_off16 k 3#32) S1x16.size (k3_off16_inb k 3), k3_pay104 acc10.2.2.2⟩,
        ⟨Rect.unit (s := S64x128) (k3_off15 k 3#32) S1x16.size (k3_off15_inb k 3), k3_pay103 acc10.2.2.1⟩,
        ⟨Rect.unit (s := S64x128) (k3_off14 k 3#32) S1x16.size (k3_off14_inb k 3), k3_pay102 acc10.2.1⟩,
        ⟨Rect.unit (s := S64x128) (k3_off13 k 3#32) S1x16.size (k3_off13_inb k 3), k3_pay101 acc10.1⟩,
        ⟨Rect.unit (s := S64x128) (k3_off10 k 3#32) S1x16.size (k3_off10_inb k 3), k3_pay91 acc9.2.2.2⟩,
        ⟨Rect.unit (s := S64x128) (k3_off9 k 3#32) S1x16.size (k3_off9_inb k 3), k3_pay90 acc9.2.2.1⟩,
        ⟨Rect.unit (s := S64x128) (k3_off8 k 3#32) S1x16.size (k3_off8_inb k 3), k3_pay89 acc9.2.1⟩,
        ⟨Rect.unit (s := S64x128) (k3_off7 k 3#32) S1x16.size (k3_off7_inb k 3), k3_pay88 acc9.1⟩,
        ⟨Rect.unit (s := S64x128) (k3_off16 k 2#32) S1x16.size (k3_off16_inb k 2), k3_pay78 acc8.2.2.2⟩,
        ⟨Rect.unit (s := S64x128) (k3_off15 k 2#32) S1x16.size (k3_off15_inb k 2), k3_pay77 acc8.2.2.1⟩,
        ⟨Rect.unit (s := S64x128) (k3_off14 k 2#32) S1x16.size (k3_off14_inb k 2), k3_pay76 acc8.2.1⟩,
        ⟨Rect.unit (s := S64x128) (k3_off13 k 2#32) S1x16.size (k3_off13_inb k 2), k3_pay75 acc8.1⟩,
        ⟨Rect.unit (s := S64x128) (k3_off10 k 2#32) S1x16.size (k3_off10_inb k 2), k3_pay65 acc7.2.2.2⟩,
        ⟨Rect.unit (s := S64x128) (k3_off9 k 2#32) S1x16.size (k3_off9_inb k 2), k3_pay64 acc7.2.2.1⟩,
        ⟨Rect.unit (s := S64x128) (k3_off8 k 2#32) S1x16.size (k3_off8_inb k 2), k3_pay63 acc7.2.1⟩,
        ⟨Rect.unit (s := S64x128) (k3_off7 k 2#32) S1x16.size (k3_off7_inb k 2), k3_pay62 acc7.1⟩,
        ⟨Rect.unit (s := S64x128) (k3_off16 k 1#32) S1x16.size (k3_off16_inb k 1), k3_pay52 acc6.2.2.2⟩,
        ⟨Rect.unit (s := S64x128) (k3_off15 k 1#32) S1x16.size (k3_off15_inb k 1), k3_pay51 acc6.2.2.1⟩,
        ⟨Rect.unit (s := S64x128) (k3_off14 k 1#32) S1x16.size (k3_off14_inb k 1), k3_pay50 acc6.2.1⟩,
        ⟨Rect.unit (s := S64x128) (k3_off13 k 1#32) S1x16.size (k3_off13_inb k 1), k3_pay49 acc6.1⟩,
        ⟨Rect.unit (s := S64x128) (k3_off10 k 1#32) S1x16.size (k3_off10_inb k 1), k3_pay39 acc5.2.2.2⟩,
        ⟨Rect.unit (s := S64x128) (k3_off9 k 1#32) S1x16.size (k3_off9_inb k 1), k3_pay38 acc5.2.2.1⟩,
        ⟨Rect.unit (s := S64x128) (k3_off8 k 1#32) S1x16.size (k3_off8_inb k 1), k3_pay37 acc5.2.1⟩,
        ⟨Rect.unit (s := S64x128) (k3_off7 k 1#32) S1x16.size (k3_off7_inb k 1), k3_pay36 acc5.1⟩,
        ⟨Rect.unit (s := S64x128) (k3_off16 k 0#32) S1x16.size (k3_off16_inb k 0), k3_pay26 acc4.2.2.2⟩,
        ⟨Rect.unit (s := S64x128) (k3_off15 k 0#32) S1x16.size (k3_off15_inb k 0), k3_pay25 acc4.2.2.1⟩,
        ⟨Rect.unit (s := S64x128) (k3_off14 k 0#32) S1x16.size (k3_off14_inb k 0), k3_pay24 acc4.2.1⟩,
        ⟨Rect.unit (s := S64x128) (k3_off13 k 0#32) S1x16.size (k3_off13_inb k 0), k3_pay23 acc4.1⟩,
        ⟨Rect.unit (s := S64x128) (k3_off10 k 0#32) S1x16.size (k3_off10_inb k 0), k3_pay13 acc3.2.2.2⟩,
        ⟨Rect.unit (s := S64x128) (k3_off9 k 0#32) S1x16.size (k3_off9_inb k 0), k3_pay12 acc3.2.2.1⟩,
        ⟨Rect.unit (s := S64x128) (k3_off8 k 0#32) S1x16.size (k3_off8_inb k 0), k3_pay11 acc3.2.1⟩,
        ⟨Rect.unit (s := S64x128) (k3_off7 k 0#32) S1x16.size (k3_off7_inb k 0), k3_pay10 acc3.1⟩] : List (View.Piece (Elt F) S64x128 .f32)))) := by
  have hk : k.val < 8 := k.isLt
  have hH : ∀ p, p < 1280 → at1 ((sH3).view.read (Elt F) g6) p = BitVec.ofNat 32 (p % 10 % 2 * 64) :=
    fun p hp => half_val3 _ hg6 p hp
  have hRA : ∀ r c, r < 80 → c < 128 →
      at3 ((sR3).view.read (Elt F) ((dstA3).view.write (Elt F) gA pA Finset.univ)) 0 r c = tbAt3 tb (gRow3 ix (80 * (2 * k.val) + r)) c := by
    intro r c hr hc
    rw [read_slotA3 gA pA r c hr hc, hpA]
    rfl
  have hRB : ∀ r c, r < 80 → c < 128 →
      at3 ((sR3).view.read (Elt F) ((dstB3).view.write (Elt F) gB pB Finset.univ)) 1 r c = tbAt3 tb (gRow3 ix (80 * (2 * k.val + 1) + r)) c := by
    intro r c hr hc
    rw [read_slotB3 gB pB r c hr hc, hpB]
    rfl
  let b3 : Blk F := { row := 8 * k.val + 0, c0 := 0, a := acc3, o0 := k3_off7 k 0#32, o1 := k3_off8 k 0#32, o2 := k3_off9 k 0#32, o3 := k3_off10 k 0#32, i0 := k3_off7_inb k 0, i1 := k3_off8_inb k 0, i2 := k3_off9_inb k 0, i3 := k3_off10_inb k 0, h0 := k3_off7_eq k 0, h1 := k3_off8_eq k 0, h2 := k3_off9_eq k 0, h3 := k3_off10_eq k 0 }
  let b4 : Blk F := { row := 8 * k.val + 0, c0 := 64, a := acc4, o0 := k3_off13 k 0#32, o1 := k3_off14 k 0#32, o2 := k3_off15 k 0#32, o3 := k3_off16 k 0#32, i0 := k3_off13_inb k 0, i1 := k3_off14_inb k 0, i2 := k3_off15_inb k 0, i3 := k3_off16_inb k 0, h0 := k3_off13_eq k 0, h1 := k3_off14_eq k 0, h2 := k3_off15_eq k 0, h3 := k3_off16_eq k 0 }
  let b5 : Blk F := { row := 8 * k.val + 1, c0 := 0, a := acc5, o0 := k3_off7 k 1#32, o1 := k3_off8 k 1#32, o2 := k3_off9 k 1#32, o3 := k3_off10 k 1#32, i0 := k3_off7_inb k 1, i1 := k3_off8_inb k 1, i2 := k3_off9_inb k 1, i3 := k3_off10_inb k 1, h0 := k3_off7_eq k 1, h1 := k3_off8_eq k 1, h2 := k3_off9_eq k 1, h3 := k3_off10_eq k 1 }
  let b6 : Blk F := { row := 8 * k.val + 1, c0 := 64, a := acc6, o0 := k3_off13 k 1#32, o1 := k3_off14 k 1#32, o2 := k3_off15 k 1#32, o3 := k3_off16 k 1#32, i0 := k3_off13_inb k 1, i1 := k3_off14_inb k 1, i2 := k3_off15_inb k 1, i3 := k3_off16_inb k 1, h0 := k3_off13_eq k 1, h1 := k3_off14_eq k 1, h2 := k3_off15_eq k 1, h3 := k3_off16_eq k 1 }
  let b7 : Blk F := { row := 8 * k.val + 2, c0 := 0, a := acc7, o0 := k3_off7 k 2#32, o1 := k3_off8 k 2#32, o2 := k3_off9 k 2#32, o3 := k3_off10 k 2#32, i0 := k3_off7_inb k 2, i1 := k3_off8_inb k 2, i2 := k3_off9_inb k 2, i3 := k3_off10_inb k 2, h0 := k3_off7_eq k 2, h1 := k3_off8_eq k 2, h2 := k3_off9_eq k 2, h3 := k3_off10_eq k 2 }
  let b8 : Blk F := { row := 8 * k.val + 2, c0 := 64, a := acc8, o0 := k3_off13 k 2#32, o1 := k3_off14 k 2#32, o2 := k3_off15 k 2#32, o3 := k3_off16 k 2#32, i0 := k3_off13_inb k 2, i1 := k3_off14_inb k 2, i2 := k3_off15_inb k 2, i3 := k3_off16_inb k 2, h0 := k3_off13_eq k 2, h1 := k3_off14_eq k 2, h2 := k3_off15_eq k 2, h3 := k3_off16_eq k 2 }
  let b9 : Blk F := { row := 8 * k.val + 3, c0 := 0, a := acc9, o0 := k3_off7 k 3#32, o1 := k3_off8 k 3#32, o2 := k3_off9 k 3#32, o3 := k3_off10 k 3#32, i0 := k3_off7_inb k 3, i1 := k3_off8_inb k 3, i2 := k3_off9_inb k 3, i3 := k3_off10_inb k 3, h0 := k3_off7_eq k 3, h1 := k3_off8_eq k 3, h2 := k3_off9_eq k 3, h3 := k3_off10_eq k 3 }
  let b10 : Blk F := { row := 8 * k.val + 3, c0 := 64, a := acc10, o0 := k3_off13 k 3#32, o1 := k3_off14 k 3#32, o2 := k3_off15 k 3#32, o3 := k3_off16 k 3#32, i0 := k3_off13_inb k 3, i1 := k3_off14_inb k 3, i2 := k3_off15_inb k 3, i3 := k3_off16_inb k 3, h0 := k3_off13_eq k 3, h1 := k3_off14_eq k 3, h2 := k3_off15_eq k 3, h3 := k3_off16_eq k 3 }
  let b11 : Blk F := { row := 8 * k.val + 0 + 4, c0 := 0, a := acc11, o0 := k3_off33 k 0#32, o1 := k3_off34 k 0#32, o2 := k3_off35 k 0#32, o3 := k3_off36 k 0#32, i0 := k3_off33_inb k 0, i1 := k3_off34_inb k 0, i2 := k3_off35_inb k 0, i3 := k3_off36_inb k 0, h0 := k3_off33_eq k 0, h1 := k3_off34_eq k 0, h2 := k3_off35_eq k 0, h3 := k3_off36_eq k 0 }
  let b12 : Blk F := { row := 8 * k.val + 0 + 4, c0 := 64, a := acc12, o0 := k3_off39 k 0#32, o1 := k3_off40 k 0#32, o2 := k3_off41 k 0#32, o3 := k3_off42 k 0#32, i0 := k3_off39_inb k 0, i1 := k3_off40_inb k 0, i2 := k3_off41_inb k 0, i3 := k3_off42_inb k 0, h0 := k3_off39_eq k 0, h1 := k3_off40_eq k 0, h2 := k3_off41_eq k 0, h3 := k3_off42_eq k 0 }
  let b13 : Blk F := { row := 8 * k.val + 1 + 4, c0 := 0, a := acc13, o0 := k3_off33 k 1#32, o1 := k3_off34 k 1#32, o2 := k3_off35 k 1#32, o3 := k3_off36 k 1#32, i0 := k3_off33_inb k 1, i1 := k3_off34_inb k 1, i2 := k3_off35_inb k 1, i3 := k3_off36_inb k 1, h0 := k3_off33_eq k 1, h1 := k3_off34_eq k 1, h2 := k3_off35_eq k 1, h3 := k3_off36_eq k 1 }
  let b14 : Blk F := { row := 8 * k.val + 1 + 4, c0 := 64, a := acc14, o0 := k3_off39 k 1#32, o1 := k3_off40 k 1#32, o2 := k3_off41 k 1#32, o3 := k3_off42 k 1#32, i0 := k3_off39_inb k 1, i1 := k3_off40_inb k 1, i2 := k3_off41_inb k 1, i3 := k3_off42_inb k 1, h0 := k3_off39_eq k 1, h1 := k3_off40_eq k 1, h2 := k3_off41_eq k 1, h3 := k3_off42_eq k 1 }
  let b15 : Blk F := { row := 8 * k.val + 2 + 4, c0 := 0, a := acc15, o0 := k3_off33 k 2#32, o1 := k3_off34 k 2#32, o2 := k3_off35 k 2#32, o3 := k3_off36 k 2#32, i0 := k3_off33_inb k 2, i1 := k3_off34_inb k 2, i2 := k3_off35_inb k 2, i3 := k3_off36_inb k 2, h0 := k3_off33_eq k 2, h1 := k3_off34_eq k 2, h2 := k3_off35_eq k 2, h3 := k3_off36_eq k 2 }
  let b16 : Blk F := { row := 8 * k.val + 2 + 4, c0 := 64, a := acc16, o0 := k3_off39 k 2#32, o1 := k3_off40 k 2#32, o2 := k3_off41 k 2#32, o3 := k3_off42 k 2#32, i0 := k3_off39_inb k 2, i1 := k3_off40_inb k 2, i2 := k3_off41_inb k 2, i3 := k3_off42_inb k 2, h0 := k3_off39_eq k 2, h1 := k3_off40_eq k 2, h2 := k3_off41_eq k 2, h3 := k3_off42_eq k 2 }
  let b17 : Blk F := { row := 8 * k.val + 3 + 4, c0 := 0, a := acc17, o0 := k3_off33 k 3#32, o1 := k3_off34 k 3#32, o2 := k3_off35 k 3#32, o3 := k3_off36 k 3#32, i0 := k3_off33_inb k 3, i1 := k3_off34_inb k 3, i2 := k3_off35_inb k 3, i3 := k3_off36_inb k 3, h0 := k3_off33_eq k 3, h1 := k3_off34_eq k 3, h2 := k3_off35_eq k 3, h3 := k3_off36_eq k 3 }
  let b18 : Blk F := { row := 8 * k.val + 3 + 4, c0 := 64, a := acc18, o0 := k3_off39 k 3#32, o1 := k3_off40 k 3#32, o2 := k3_off41 k 3#32, o3 := k3_off42 k 3#32, i0 := k3_off39_inb k 3, i1 := k3_off40_inb k 3, i2 := k3_off41_inb k 3, i3 := k3_off42_inb k 3, h0 := k3_off39_eq k 3, h1 := k3_off40_eq k 3, h2 := k3_off41_eq k 3, h3 := k3_off42_eq k 3 }
  have hlist : ([⟨Rect.unit (s := S64x128) (k3_off42 k 3#32) S1x16.size (k3_off42_inb k 3), k3_pay208 acc18.2.2.2⟩,
        ⟨Rect.unit (s := S64x128) (k3_off41 k 3#32) S1x16.size (k3_off41_inb k 3), k3_pay207 acc18.2.2.1⟩,
        ⟨Rect.unit (s := S64x128) (k3_off40 k 3#32) S1x16.size (k3_off40_inb k 3), k3_pay206 acc18.2.1⟩,
        ⟨Rect.unit (s := S64x128) (k3_off39 k 3#32) S1x16.size (k3_off39_inb k 3), k3_pay205 acc18.1⟩,
        ⟨Rect.unit (s := S64x128) (k3_off36 k 3#32) S1x16.size (k3_off36_inb k 3), k3_pay195 acc17.2.2.2⟩,
        ⟨Rect.unit (s := S64x128) (k3_off35 k 3#32) S1x16.size (k3_off35_inb k 3), k3_pay194 acc17.2.2.1⟩,
        ⟨Rect.unit (s := S64x128) (k3_off34 k 3#32) S1x16.size (k3_off34_inb k 3), k3_pay193 acc17.2.1⟩,
        ⟨Rect.unit (s := S64x128) (k3_off33 k 3#32) S1x16.size (k3_off33_inb k 3), k3_pay192 acc17.1⟩,
        ⟨Rect.unit (s := S64x128) (k3_off42 k 2#32) S1x16.size (k3_off42_inb k 2), k3_pay182 acc16.2.2.2⟩,
        ⟨Rect.unit (s := S64x128) (k3_off41 k 2#32) S1x16.size (k3_off41_inb k 2), k3_pay181 acc16.2.2.1⟩,
        ⟨Rect.unit (s := S64x128) (k3_off40 k 2#32) S1x16.size (k3_off40_inb k 2), k3_pay180 acc16.2.1⟩,
        ⟨Rect.unit (s := S64x128) (k3_off39 k 2#32) S1x16.size (k3_off39_inb k 2), k3_pay179 acc16.1⟩,
        ⟨Rect.unit (s := S64x128) (k3_off36 k 2#32) S1x16.size (k3_off36_inb k 2), k3_pay169 acc15.2.2.2⟩,
        ⟨Rect.unit (s := S64x128) (k3_off35 k 2#32) S1x16.size (k3_off35_inb k 2), k3_pay168 acc15.2.2.1⟩,
        ⟨Rect.unit (s := S64x128) (k3_off34 k 2#32) S1x16.size (k3_off34_inb k 2), k3_pay167 acc15.2.1⟩,
        ⟨Rect.unit (s := S64x128) (k3_off33 k 2#32) S1x16.size (k3_off33_inb k 2), k3_pay166 acc15.1⟩,
        ⟨Rect.unit (s := S64x128) (k3_off42 k 1#32) S1x16.size (k3_off42_inb k 1), k3_pay156 acc14.2.2.2⟩,
        ⟨Rect.unit (s := S64x128) (k3_off41 k 1#32) S1x16.size (k3_off41_inb k 1), k3_pay155 acc14.2.2.1⟩,
        ⟨Rect.unit (s := S64x128) (k3_off40 k 1#32) S1x16.size (k3_off40_inb k 1), k3_pay154 acc14.2.1⟩,
        ⟨Rect.unit (s := S64x128) (k3_off39 k 1#32) S1x16.size (k3_off39_inb k 1), k3_pay153 acc14.1⟩,
        ⟨Rect.unit (s := S64x128) (k3_off36 k 1#32) S1x16.size (k3_off36_inb k 1), k3_pay143 acc13.2.2.2⟩,
        ⟨Rect.unit (s := S64x128) (k3_off35 k 1#32) S1x16.size (k3_off35_inb k 1), k3_pay142 acc13.2.2.1⟩,
        ⟨Rect.unit (s := S64x128) (k3_off34 k 1#32) S1x16.size (k3_off34_inb k 1), k3_pay141 acc13.2.1⟩,
        ⟨Rect.unit (s := S64x128) (k3_off33 k 1#32) S1x16.size (k3_off33_inb k 1), k3_pay140 acc13.1⟩,
        ⟨Rect.unit (s := S64x128) (k3_off42 k 0#32) S1x16.size (k3_off42_inb k 0), k3_pay130 acc12.2.2.2⟩,
        ⟨Rect.unit (s := S64x128) (k3_off41 k 0#32) S1x16.size (k3_off41_inb k 0), k3_pay129 acc12.2.2.1⟩,
        ⟨Rect.unit (s := S64x128) (k3_off40 k 0#32) S1x16.size (k3_off40_inb k 0), k3_pay128 acc12.2.1⟩,
        ⟨Rect.unit (s := S64x128) (k3_off39 k 0#32) S1x16.size (k3_off39_inb k 0), k3_pay127 acc12.1⟩,
        ⟨Rect.unit (s := S64x128) (k3_off36 k 0#32) S1x16.size (k3_off36_inb k 0), k3_pay117 acc11.2.2.2⟩,
        ⟨Rect.unit (s := S64x128) (k3_off35 k 0#32) S1x16.size (k3_off35_inb k 0), k3_pay116 acc11.2.2.1⟩,
        ⟨Rect.unit (s := S64x128) (k3_off34 k 0#32) S1x16.size (k3_off34_inb k 0), k3_pay115 acc11.2.1⟩,
        ⟨Rect.unit (s := S64x128) (k3_off33 k 0#32) S1x16.size (k3_off33_inb k 0), k3_pay114 acc11.1⟩,
        ⟨Rect.unit (s := S64x128) (k3_off16 k 3#32) S1x16.size (k3_off16_inb k 3), k3_pay104 acc10.2.2.2⟩,
        ⟨Rect.unit (s := S64x128) (k3_off15 k 3#32) S1x16.size (k3_off15_inb k 3), k3_pay103 acc10.2.2.1⟩,
        ⟨Rect.unit (s := S64x128) (k3_off14 k 3#32) S1x16.size (k3_off14_inb k 3), k3_pay102 acc10.2.1⟩,
        ⟨Rect.unit (s := S64x128) (k3_off13 k 3#32) S1x16.size (k3_off13_inb k 3), k3_pay101 acc10.1⟩,
        ⟨Rect.unit (s := S64x128) (k3_off10 k 3#32) S1x16.size (k3_off10_inb k 3), k3_pay91 acc9.2.2.2⟩,
        ⟨Rect.unit (s := S64x128) (k3_off9 k 3#32) S1x16.size (k3_off9_inb k 3), k3_pay90 acc9.2.2.1⟩,
        ⟨Rect.unit (s := S64x128) (k3_off8 k 3#32) S1x16.size (k3_off8_inb k 3), k3_pay89 acc9.2.1⟩,
        ⟨Rect.unit (s := S64x128) (k3_off7 k 3#32) S1x16.size (k3_off7_inb k 3), k3_pay88 acc9.1⟩,
        ⟨Rect.unit (s := S64x128) (k3_off16 k 2#32) S1x16.size (k3_off16_inb k 2), k3_pay78 acc8.2.2.2⟩,
        ⟨Rect.unit (s := S64x128) (k3_off15 k 2#32) S1x16.size (k3_off15_inb k 2), k3_pay77 acc8.2.2.1⟩,
        ⟨Rect.unit (s := S64x128) (k3_off14 k 2#32) S1x16.size (k3_off14_inb k 2), k3_pay76 acc8.2.1⟩,
        ⟨Rect.unit (s := S64x128) (k3_off13 k 2#32) S1x16.size (k3_off13_inb k 2), k3_pay75 acc8.1⟩,
        ⟨Rect.unit (s := S64x128) (k3_off10 k 2#32) S1x16.size (k3_off10_inb k 2), k3_pay65 acc7.2.2.2⟩,
        ⟨Rect.unit (s := S64x128) (k3_off9 k 2#32) S1x16.size (k3_off9_inb k 2), k3_pay64 acc7.2.2.1⟩,
        ⟨Rect.unit (s := S64x128) (k3_off8 k 2#32) S1x16.size (k3_off8_inb k 2), k3_pay63 acc7.2.1⟩,
        ⟨Rect.unit (s := S64x128) (k3_off7 k 2#32) S1x16.size (k3_off7_inb k 2), k3_pay62 acc7.1⟩,
        ⟨Rect.unit (s := S64x128) (k3_off16 k 1#32) S1x16.size (k3_off16_inb k 1), k3_pay52 acc6.2.2.2⟩,
        ⟨Rect.unit (s := S64x128) (k3_off15 k 1#32) S1x16.size (k3_off15_inb k 1), k3_pay51 acc6.2.2.1⟩,
        ⟨Rect.unit (s := S64x128) (k3_off14 k 1#32) S1x16.size (k3_off14_inb k 1), k3_pay50 acc6.2.1⟩,
        ⟨Rect.unit (s := S64x128) (k3_off13 k 1#32) S1x16.size (k3_off13_inb k 1), k3_pay49 acc6.1⟩,
        ⟨Rect.unit (s := S64x128) (k3_off10 k 1#32) S1x16.size (k3_off10_inb k 1), k3_pay39 acc5.2.2.2⟩,
        ⟨Rect.unit (s := S64x128) (k3_off9 k 1#32) S1x16.size (k3_off9_inb k 1), k3_pay38 acc5.2.2.1⟩,
        ⟨Rect.unit (s := S64x128) (k3_off8 k 1#32) S1x16.size (k3_off8_inb k 1), k3_pay37 acc5.2.1⟩,
        ⟨Rect.unit (s := S64x128) (k3_off7 k 1#32) S1x16.size (k3_off7_inb k 1), k3_pay36 acc5.1⟩,
        ⟨Rect.unit (s := S64x128) (k3_off16 k 0#32) S1x16.size (k3_off16_inb k 0), k3_pay26 acc4.2.2.2⟩,
        ⟨Rect.unit (s := S64x128) (k3_off15 k 0#32) S1x16.size (k3_off15_inb k 0), k3_pay25 acc4.2.2.1⟩,
        ⟨Rect.unit (s := S64x128) (k3_off14 k 0#32) S1x16.size (k3_off14_inb k 0), k3_pay24 acc4.2.1⟩,
        ⟨Rect.unit (s := S64x128) (k3_off13 k 0#32) S1x16.size (k3_off13_inb k 0), k3_pay23 acc4.1⟩,
        ⟨Rect.unit (s := S64x128) (k3_off10 k 0#32) S1x16.size (k3_off10_inb k 0), k3_pay13 acc3.2.2.2⟩,
        ⟨Rect.unit (s := S64x128) (k3_off9 k 0#32) S1x16.size (k3_off9_inb k 0), k3_pay12 acc3.2.2.1⟩,
        ⟨Rect.unit (s := S64x128) (k3_off8 k 0#32) S1x16.size (k3_off8_inb k 0), k3_pay11 acc3.2.1⟩,
        ⟨Rect.unit (s := S64x128) (k3_off7 k 0#32) S1x16.size (k3_off7_inb k 0), k3_pay10 acc3.1⟩] : List (View.Piece (Elt F) S64x128 .f32))
      = blkPieces shapeCasts_S16_S1x16 [b18, b17, b16, b15, b14, b13, b12, b11, b10, b9, b8, b7, b6, b5, b4, b3] := rfl
  rw [hlist]
  refine outOK_step3 (sO3).view g8 tb ix k.val shapeCasts_S16_S1x16 [b18, b17, b16, b15, b14, b13, b12, b11, b10, b9, b8, b7, b6, b5, b4, b3] hprev ?hrows ?hcover ?hval
  case hrows =>
    intro b hb
    simp only [List.mem_cons, List.mem_nil_iff, or_false] at hb
    rcases hb with rfl | rfl | rfl | rfl | rfl | rfl | rfl | rfl | rfl | rfl | rfl | rfl | rfl | rfl | rfl | rfl
    all_goals (first | (show 8 * k.val ≤ 8 * k.val + _ + 4; omega) | (show 8 * k.val ≤ 8 * k.val + _; omega))
  case hcover =>
    intro x hlo hhi
    have hx1 : (x 1).val < 128 := (x 1).isLt
    rcases (by omega : (x 0).val = 8 * k.val + 0 ∨ (x 0).val = 8 * k.val + 1 ∨ (x 0).val = 8 * k.val + 2 ∨ (x 0).val = 8 * k.val + 3 ∨ (x 0).val = 8 * k.val + 4 ∨ (x 0).val = 8 * k.val + 5 ∨ (x 0).val = 8 * k.val + 6 ∨ (x 0).val = 8 * k.val + 7) with h | h | h | h | h | h | h | h <;>
      rcases (by omega : (x 1).val < 64 ∨ 64 ≤ (x 1).val) with h' | h'
    · exact ⟨b3, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), ⟨by show (x 0).val = 8 * k.val + 0; omega, by show 0 ≤ (x 1).val; omega, by show (x 1).val < 0 + 64; omega⟩⟩
    · exact ⟨b4, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), ⟨by show (x 0).val = 8 * k.val + 0; omega, by show 64 ≤ (x 1).val; omega, by show (x 1).val < 64 + 64; omega⟩⟩
    · exact ⟨b5, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), ⟨by show (x 0).val = 8 * k.val + 1; omega, by show 0 ≤ (x 1).val; omega, by show (x 1).val < 0 + 64; omega⟩⟩
    · exact ⟨b6, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), ⟨by show (x 0).val = 8 * k.val + 1; omega, by show 64 ≤ (x 1).val; omega, by show (x 1).val < 64 + 64; omega⟩⟩
    · exact ⟨b7, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), ⟨by show (x 0).val = 8 * k.val + 2; omega, by show 0 ≤ (x 1).val; omega, by show (x 1).val < 0 + 64; omega⟩⟩
    · exact ⟨b8, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ⟨by show (x 0).val = 8 * k.val + 2; omega, by show 64 ≤ (x 1).val; omega, by show (x 1).val < 64 + 64; omega⟩⟩
    · exact ⟨b9, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ⟨by show (x 0).val = 8 * k.val + 3; omega, by show 0 ≤ (x 1).val; omega, by show (x 1).val < 0 + 64; omega⟩⟩
    · exact ⟨b10, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ⟨by show (x 0).val = 8 * k.val + 3; omega, by show 64 ≤ (x 1).val; omega, by show (x 1).val < 64 + 64; omega⟩⟩
    · exact ⟨b11, (List.mem_cons_of_mem _ (List.mem_cons_of_mem _ (List.mem_cons_of_mem _ (List.mem_cons_of_mem _ (List.mem_cons_of_mem _ (List.mem_cons_of_mem _ (List.mem_cons_of_mem _ (List.mem_cons_self)))))))), ⟨by show (x 0).val = 8 * k.val + 0 + 4; omega, by show 0 ≤ (x 1).val; omega, by show (x 1).val < 0 + 64; omega⟩⟩
    · exact ⟨b12, (List.mem_cons_of_mem _ (List.mem_cons_of_mem _ (List.mem_cons_of_mem _ (List.mem_cons_of_mem _ (List.mem_cons_of_mem _ (List.mem_cons_of_mem _ (List.mem_cons_self))))))), ⟨by show (x 0).val = 8 * k.val + 0 + 4; omega, by show 64 ≤ (x 1).val; omega, by show (x 1).val < 64 + 64; omega⟩⟩
    · exact ⟨b13, (List.mem_cons_of_mem _ (List.mem_cons_of_mem _ (List.mem_cons_of_mem _ (List.mem_cons_of_mem _ (List.mem_cons_of_mem _ (List.mem_cons_self)))))), ⟨by show (x 0).val = 8 * k.val + 1 + 4; omega, by show 0 ≤ (x 1).val; omega, by show (x 1).val < 0 + 64; omega⟩⟩
    · exact ⟨b14, (List.mem_cons_of_mem _ (List.mem_cons_of_mem _ (List.mem_cons_of_mem _ (List.mem_cons_of_mem _ (List.mem_cons_self))))), ⟨by show (x 0).val = 8 * k.val + 1 + 4; omega, by show 64 ≤ (x 1).val; omega, by show (x 1).val < 64 + 64; omega⟩⟩
    · exact ⟨b15, (List.mem_cons_of_mem _ (List.mem_cons_of_mem _ (List.mem_cons_of_mem _ (List.mem_cons_self)))), ⟨by show (x 0).val = 8 * k.val + 2 + 4; omega, by show 0 ≤ (x 1).val; omega, by show (x 1).val < 0 + 64; omega⟩⟩
    · exact ⟨b16, (List.mem_cons_of_mem _ (List.mem_cons_of_mem _ (List.mem_cons_self))), ⟨by show (x 0).val = 8 * k.val + 2 + 4; omega, by show 64 ≤ (x 1).val; omega, by show (x 1).val < 64 + 64; omega⟩⟩
    · exact ⟨b17, (List.mem_cons_of_mem _ (List.mem_cons_self)), ⟨by show (x 0).val = 8 * k.val + 3 + 4; omega, by show 0 ≤ (x 1).val; omega, by show (x 1).val < 0 + 64; omega⟩⟩
    · exact ⟨b18, (List.mem_cons_self), ⟨by show (x 0).val = 8 * k.val + 3 + 4; omega, by show 64 ≤ (x 1).val; omega, by show (x 1).val < 64 + 64; omega⟩⟩
  case hval =>
    intro b hb x hx
    simp only [List.mem_cons, List.mem_nil_iff, or_false] at hb
    rcases hb with rfl | rfl | rfl | rfl | rfl | rfl | rfl | rfl | rfl | rfl | rfl | rfl | rfl | rfl | rfl | rfl
    · exact blk_value3 tb ix _ _ 1 (2 * k.val + 1) 7 (160 * k.val + 150) (by decide) (by omega) (by decide) (by omega) hRB hH b18 (by show 8 * k.val + 3 + 4 = 4 * (2 * k.val + 1) + 7 / 2; omega) rfl hacc18 x hx
    · exact blk_value3 tb ix _ _ 1 (2 * k.val + 1) 6 (160 * k.val + 140) (by decide) (by omega) (by decide) (by omega) hRB hH b17 (by show 8 * k.val + 3 + 4 = 4 * (2 * k.val + 1) + 6 / 2; omega) rfl hacc17 x hx
    · exact blk_value3 tb ix _ _ 1 (2 * k.val + 1) 5 (160 * k.val + 130) (by decide) (by omega) (by decide) (by omega) hRB hH b16 (by show 8 * k.val + 2 + 4 = 4 * (2 * k.val + 1) + 5 / 2; omega) rfl hacc16 x hx
    · exact blk_value3 tb ix _ _ 1 (2 * k.val + 1) 4 (160 * k.val + 120) (by decide) (by omega) (by decide) (by omega) hRB hH b15 (by show 8 * k.val + 2 + 4 = 4 * (2 * k.val + 1) + 4 / 2; omega) rfl hacc15 x hx
    · exact blk_value3 tb ix _ _ 1 (2 * k.val + 1) 3 (160 * k.val + 110) (by decide) (by omega) (by decide) (by omega) hRB hH b14 (by show 8 * k.val + 1 + 4 = 4 * (2 * k.val + 1) + 3 / 2; omega) rfl hacc14 x hx
    · exact blk_value3 tb ix _ _ 1 (2 * k.val + 1) 2 (160 * k.val + 100) (by decide) (by omega) (by decide) (by omega) hRB hH b13 (by show 8 * k.val + 1 + 4 = 4 * (2 * k.val + 1) + 2 / 2; omega) rfl hacc13 x hx
    · exact blk_value3 tb ix _ _ 1 (2 * k.val + 1) 1 (160 * k.val + 90) (by decide) (by omega) (by decide) (by omega) hRB hH b12 (by show 8 * k.val + 0 + 4 = 4 * (2 * k.val + 1) + 1 / 2; omega) rfl hacc12 x hx
    · exact blk_value3 tb ix _ _ 1 (2 * k.val + 1) 0 (160 * k.val + 80) (by decide) (by omega) (by decide) (by omega) hRB hH b11 (by show 8 * k.val + 0 + 4 = 4 * (2 * k.val + 1) + 0 / 2; omega) rfl hacc11 x hx
    · exact blk_value3 tb ix _ _ 0 (2 * k.val) 7 (160 * k.val + 70) (by decide) (by omega) (by decide) (by omega) hRA hH b10 (by show 8 * k.val + 3 = 4 * (2 * k.val) + 7 / 2; omega) rfl hacc10 x hx
    · exact blk_value3 tb ix _ _ 0 (2 * k.val) 6 (160 * k.val + 60) (by decide) (by omega) (by decide) (by omega) hRA hH b9 (by show 8 * k.val + 3 = 4 * (2 * k.val) + 6 / 2; omega) rfl hacc9 x hx
    · exact blk_value3 tb ix _ _ 0 (2 * k.val) 5 (160 * k.val + 50) (by decide) (by omega) (by decide) (by omega) hRA hH b8 (by show 8 * k.val + 2 = 4 * (2 * k.val) + 5 / 2; omega) rfl hacc8 x hx
    · exact blk_value3 tb ix _ _ 0 (2 * k.val) 4 (160 * k.val + 40) (by decide) (by omega) (by decide) (by omega) hRA hH b7 (by show 8 * k.val + 2 = 4 * (2 * k.val) + 4 / 2; omega) rfl hacc7 x hx
    · exact blk_value3 tb ix _ _ 0 (2 * k.val) 3 (160 * k.val + 30) (by decide) (by omega) (by decide) (by omega) hRA hH b6 (by show 8 * k.val + 1 = 4 * (2 * k.val) + 3 / 2; omega) rfl hacc6 x hx
    · exact blk_value3 tb ix _ _ 0 (2 * k.val) 2 (160 * k.val + 20) (by decide) (by omega) (by decide) (by omega) hRA hH b5 (by show 8 * k.val + 1 = 4 * (2 * k.val) + 2 / 2; omega) rfl hacc5 x hx
    · exact blk_value3 tb ix _ _ 0 (2 * k.val) 1 (160 * k.val + 10) (by decide) (by omega) (by decide) (by omega) hRA hH b4 (by show 8 * k.val + 0 = 4 * (2 * k.val) + 1 / 2; omega) rfl hacc4 x hx
    · exact blk_value3 tb ix _ _ 0 (2 * k.val) 0 (160 * k.val + 0) (by decide) (by omega) (by decide) (by omega) hRA hH b3 (by show 8 * k.val + 0 = 4 * (2 * k.val) + 0 / 2; omega) rfl hacc3 x hx

end Cert.Proof.KB

end
-- ==== Proof.KB.Tile3TripLast.lean ====
/-
  The last trip of the ring of gathers of one vector subcore's task of the second call: both chunks are waited for and
  added up, nothing is started again, and the ring is left with nothing in flight.
-/
import proofs.«219250_g10247791969013_week1_w1_750_27_alg».proof.Proof.KB.Tile3Ring
import proofs.«219250_g10247791969013_week1_w1_750_27_alg».proof.Proof.KB.Tile3Chunks
import proofs.«219250_g10247791969013_week1_w1_750_27_alg».proof.Proof.KB.Tile3Chunks2
import proofs.«219250_g10247791969013_week1_w1_750_27_alg».proof.Proof.KB.Tile3TripOut
import Idealize.ShloMosaic.Lib.Tactic

noncomputable section

namespace Cert.Proof.KB

open Cert.Proof.KI

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid3.Coords)

set_option quotPrecheck false in
local notation "tabSlN" => ((tabM3).slice (Rect.unit (s := S501760x128) ![0, 0] S501760x128.size inb_S501760x128_S501760x128_0_0) (fun _ => rfl))
set_option quotPrecheck false in
local notation "dstAN" => (((sR3).slice (Rect.unit (s := S2x80x128) ![0, 0, 0] S1x80x128.size inb_S2x80x128_S1x80x128_0_0_0) (fun _ => rfl)).squeeze S80x128 squeezes_S1x80x128_S80x128)
set_option quotPrecheck false in
local notation "dstBN" => (((sR3).slice (Rect.unit (s := S2x80x128) ![1, 0, 0] S1x80x128.size inb_S2x80x128_S1x80x128_1_0_0) (fun _ => rfl)).squeeze S80x128 squeezes_S1x80x128_S80x128)

variable (q : PosShare TreeShare) (Tb : Buf (Elt F) ((tabM3).view.loc (thr3 d L)))
  (tb : S501760x128.Idx → Elt F .f32) (ix : S1280.Idx → Elt F .i32)
  (g5 : Buf (Elt F) ((sI3).view.loc (thr3 d L))) (g6 : Buf (Elt F) ((sH3).view.loc (thr3 d L)))
  (O : CellTallies nD τ sig (HIx 2)) (W : Waits sig (HIx 2))

omit [FloatOps F] in
theorem cond1_iff3L : ∀ k : Fin k3_t2_loop.trips, k3_cond1 k = 1#1 ↔ k.val + 1 < 8 := by decide +kernel
omit [FloatOps F] in
theorem cond2_iff3L : ∀ k : Fin k3_t2_loop.trips, k3_cond2 k = 1#1 ↔ k.val + 1 < 8 := by decide +kernel

set_option maxHeartbeats 16000000 in
/-- The last trip of the ring (no chunk after next): wait for the even chunk, add up its eight batch rows; the same for the
    odd chunk; nothing is left in flight. -/
theorem ring_trip_last3 (k : Fin k3_t2_loop.trips) (acc : Unit)
    (hg5 : ZI5 ix ((sI3).view.read (Elt F) g5) 80) (hg6 : ZI6 ((sH3).view.read (Elt F) g6) 80)
    (htb : tb = (tabM3).view.read (Elt F) Tb) (hix : ∀ j, (ix j).toNat < 100000) (hO : ∀ g, O g none = 0)
    (hc : ¬ k3_cond1 k = 1#1) :
    iprop(levAts (K (F := F)).L (K (F := F)).lev ∗ ringInv3 (F := F) d L q Tb tb ix g5 g6 O W k.val acc)
      ⊢ wp frame (wpE (defs₀ (F := F)) 𝒱₀ (thr3 d L) none) Set.univ
      (k3_t2_body L tabM3 (Memref.isWhole_whole _) idxM3 (Memref.isWhole_whole _) outM3 (Memref.isWhole_whole _)
        sI3 (Memref.isWhole_whole _) sH3 (Memref.isWhole_whole _) sR3 (Memref.isWhole_whole _) sO3 (Memref.isWhole_whole _)
        cc3_scratch4 cc3_scratch5 cc3_scoped0 cc3_scoped1 k acc)
      (fun a => iprop(levAts (K (F := F)).L (K (F := F)).lev ∗ ringInv3 (F := F) d L q Tb tb ix g5 g6 O W (k.val + 1) a)) := by
  subst htb
  have hk8 : k.val < 8 := k.isLt
  unfold k3_t2_body
  rw [k3_part12_eq_skeleton]
  unfold k3_part12_skel
  rw [k3_part1_eq_skeleton, k3_part2_eq_skeleton, k3_part3_eq_skeleton, k3_part4_eq_skeleton, k3_part5_eq_skeleton, k3_part6_eq_skeleton,
    k3_part7_eq_skeleton, k3_part8_eq_skeleton, k3_part9_eq_skeleton, k3_part10_eq_skeleton, k3_part11_eq_skeleton]
  unfold k3_part1_skel k3_part2_skel k3_part3_skel k3_part4_skel k3_part5_skel k3_part6_skel k3_part7_skel k3_part8_skel k3_part9_skel k3_part10_skel k3_part11_skel
  unfold ringInv3
  rw [dif_pos hk8]
  have hk7 : ¬ (k.val + 1 < 8) := fun h => hc ((cond1_iff3L k).mpr h)
  have hc2 : ¬ k3_cond2 k = 1#1 := fun h => hk7 ((cond2_iff3L k).mp h)
  rw [dif_neg hk7]
  unfold ringBusy3 ringDone3 flight3
  iintro ⟨#Hlv, %gA, %gB, %gR, %g8, %W', %pA, %pB, HO, H6, H8, HtL, HtR, HfA, HfB, H7, H5L, H5R, %hfin⟩
  ihave #Hmw := ((K (F := F)).mayWaits_none (thr := thr3 d L) hO) $$ Hlv
  have hall : ∀ y, ((sI3).view.read (Elt F) g5 y).toNat < 501760 := fun y => (rew_toNat3 (F := F) _ _ hg5 hix y).2
  have hH0 : ∀ p, p < 1280 → at1 ((sH3).view.read (Elt F) g6) p = 0#32 ∨ at1 ((sH3).view.read (Elt F) g6) p = 64#32 := fun p hp => half_val3_cases _ hg6 p hp
  have hIRA : ∀ x : (SR 80).Idx, (x 0).val = 0 → (sR3).view.emb x ∈ (dstAN).view.set := hIR_A3
  have hIRB : ∀ x : (SR 80).Idx, (x 0).val = 1 → (sR3).view.emb x ∈ (dstBN).view.set := hIR_B3
  -- the wait for the even chunk
  sl_exec
  icases HfA_dst with ⟨HdA, HoA⟩
  -- batch row 0 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 0 (160 * k.val + 0)) $$ [H6 HdA]
  · intro k' acc'
    exact accum_k3_t3 (HIx 2) ℕ UU ℕ 𝒱₀ d none Set.univ L tabM3 _ idxM3 _ outM3 _ sI3 _ sH3 _ sR3 _ sO3 _ cc3_scratch4 cc3_scratch5 cc3_scoped0 cc3_scoped1 (0#32) (1#32) k
      (dstAN).view.set fullShare fullShare g6 ((dstAN).view.write (Elt F) gA pA Finset.univ) hIRA (fun j hj => hH0 _ (by have : j < 10 := hj; omega)) k' acc'
  · unfold AccInv
    isplitr
    · ipureintro; rfl
    isplitl [H6]
    · iexact H6
    iexact HdA
  iintro %acc3 HI
  unfold AccInv
  icases HI with ⟨%hacc3, H6, HdA⟩
  sl_exec
  -- batch row 1 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 10 (160 * k.val + 10)) $$ [H6 HdA]
  · intro k' acc'
    apply accum_k3_t4
    · exact hIRA
    · exact fun j hj => hH0 _ (by have : j < 10 := hj; omega)
  · unfold AccInv
    isplitr
    · ipureintro; rfl
    isplitl [H6]
    · iexact H6
    iexact HdA
  iintro %acc4 HI
  unfold AccInv
  icases HI with ⟨%hacc4, H6, HdA⟩
  sl_exec
  -- batch row 2 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 20 (160 * k.val + 20)) $$ [H6 HdA]
  · intro k' acc'
    apply accum_k3_t5
    · exact hIRA
    · exact fun j hj => hH0 _ (by have : j < 10 := hj; omega)
  · unfold AccInv
    isplitr
    · ipureintro; rfl
    isplitl [H6]
    · iexact H6
    iexact HdA
  iintro %acc5 HI
  unfold AccInv
  icases HI with ⟨%hacc5, H6, HdA⟩
  sl_exec
  -- batch row 3 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 30 (160 * k.val + 30)) $$ [H6 HdA]
  · intro k' acc'
    apply accum_k3_t6
    · exact hIRA
    · exact fun j hj => hH0 _ (by have : j < 10 := hj; omega)
  · unfold AccInv
    isplitr
    · ipureintro; rfl
    isplitl [H6]
    · iexact H6
    iexact HdA
  iintro %acc6 HI
  unfold AccInv
  icases HI with ⟨%hacc6, H6, HdA⟩
  sl_exec
  -- batch row 4 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 40 (160 * k.val + 40)) $$ [H6 HdA]
  · intro k' acc'
    apply accum_k3_t7
    · exact hIRA
    · exact fun j hj => hH0 _ (by have : j < 10 := hj; omega)
  · unfold AccInv
    isplitr
    · ipureintro; rfl
    isplitl [H6]
    · iexact H6
    iexact HdA
  iintro %acc7 HI
  unfold AccInv
  icases HI with ⟨%hacc7, H6, HdA⟩
  sl_exec
  -- batch row 5 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 50 (160 * k.val + 50)) $$ [H6 HdA]
  · intro k' acc'
    apply accum_k3_t8
    · exact hIRA
    · exact fun j hj => hH0 _ (by have : j < 10 := hj; omega)
  · unfold AccInv
    isplitr
    · ipureintro; rfl
    isplitl [H6]
    · iexact H6
    iexact HdA
  iintro %acc8 HI
  unfold AccInv
  icases HI with ⟨%hacc8, H6, HdA⟩
  sl_exec
  -- batch row 6 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 60 (160 * k.val + 60)) $$ [H6 HdA]
  · intro k' acc'
    apply accum_k3_t9
    · exact hIRA
    · exact fun j hj => hH0 _ (by have : j < 10 := hj; omega)
  · unfold AccInv
    isplitr
    · ipureintro; rfl
    isplitl [H6]
    · iexact H6
    iexact HdA
  iintro %acc9 HI
  unfold AccInv
  icases HI with ⟨%hacc9, H6, HdA⟩
  sl_exec
  -- batch row 7 of the even chunk
  iterate 8 (try sl_rw [Prog.bind_assoc])
  sl_for (AccInv (F := F) (HIx 2) ℕ UU ℕ d (cV3 L) (jV3 L) sH3 sR3 (dstAN).view.set fullShare fullShare g6 ((dstAN).view.write (Elt F) gA pA Finset.univ) 0 70 (160 * k.val + 70)) $$ [H6 HdA]
  · intro k' acc'
    apply accum_k3_t10
    · exact hIRA
    · exact fun j hj => hH0 _ (by have : j < 10 := hj; omega)
  · unfold AccInv
    isplitr
    · ipureintro; rfl
    isplitl [H6]
    · iexact H6
    iexact HdA
  iintro %acc10 HI
  unfold AccInv
  icases HI with ⟨%hacc10, H6, HdA⟩
  -- the even chunk after next is not started; the wait for the odd chunk
  sl_exec
  icases HfB_dst with ⟨HdB, HoB⟩
  -- batch row 0 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 0 (160 * k.val + 80)) $$ [H6 HdB]
  · intro k' acc'
    apply accum_k3_t11
    · exact hIRB
    · exact fun j hj => hH0 _ (by have : j < 10 := hj; omega)
  · unfold AccInv
    isplitr
    · ipureintro; rfl
    isplitl [H6]
    · iexact H6
    iexact HdB
  iintro %acc11 HI
  unfold AccInv
  icases HI with ⟨%hacc11, H6, HdB⟩
  sl_exec
  -- batch row 1 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 10 (160 * k.val + 90)) $$ [H6 HdB]
  · intro k' acc'
    apply accum_k3_t12
    · exact hIRB
    · exact fun j hj => hH0 _ (by have : j < 10 := hj; omega)
  · unfold AccInv
    isplitr
    · ipureintro; rfl
    isplitl [H6]
    · iexact H6
    iexact HdB
  iintro %acc12 HI
  unfold AccInv
  icases HI with ⟨%hacc12, H6, HdB⟩
  sl_exec
  -- batch row 2 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 20 (160 * k.val + 100)) $$ [H6 HdB]
  · intro k' acc'
    apply accum_k3_t13
    · exact hIRB
    · exact fun j hj => hH0 _ (by have : j < 10 := hj; omega)
  · unfold AccInv
    isplitr
    · ipureintro; rfl
    isplitl [H6]
    · iexact H6
    iexact HdB
  iintro %acc13 HI
  unfold AccInv
  icases HI with ⟨%hacc13, H6, HdB⟩
  sl_exec
  -- batch row 3 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 30 (160 * k.val + 110)) $$ [H6 HdB]
  · intro k' acc'
    apply accum_k3_t14
    · exact hIRB
    · exact fun j hj => hH0 _ (by have : j < 10 := hj; omega)
  · unfold AccInv
    isplitr
    · ipureintro; rfl
    isplitl [H6]
    · iexact H6
    iexact HdB
  iintro %acc14 HI
  unfold AccInv
  icases HI with ⟨%hacc14, H6, HdB⟩
  sl_exec
  -- batch row 4 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 40 (160 * k.val + 120)) $$ [H6 HdB]
  · intro k' acc'
    apply accum_k3_t15
    · exact hIRB
    · exact fun j hj => hH0 _ (by have : j < 10 := hj; omega)
  · unfold AccInv
    isplitr
    · ipureintro; rfl
    isplitl [H6]
    · iexact H6
    iexact HdB
  iintro %acc15 HI
  unfold AccInv
  icases HI with ⟨%hacc15, H6, HdB⟩
  sl_exec
  -- batch row 5 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 50 (160 * k.val + 130)) $$ [H6 HdB]
  · intro k' acc'
    apply accum_k3_t16
    · exact hIRB
    · exact fun j hj => hH0 _ (by have : j < 10 := hj; omega)
  · unfold AccInv
    isplitr
    · ipureintro; rfl
    isplitl [H6]
    · iexact H6
    iexact HdB
  iintro %acc16 HI
  unfold AccInv
  icases HI with ⟨%hacc16, H6, HdB⟩
  sl_exec
  -- batch row 6 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 60 (160 * k.val + 140)) $$ [H6 HdB]
  · intro k' acc'
    apply accum_k3_t17
    · exact hIRB
    · exact fun j hj => hH0 _ (by have : j < 10 := hj; omega)
  · unfold AccInv
    isplitr
    · ipureintro; rfl
    isplitl [H6]
    · iexact H6
    iexact HdB
  iintro %acc17 HI
  unfold AccInv
  icases HI with ⟨%hacc17, H6, HdB⟩
  sl_exec
  -- batch row 7 of the odd chunk
  iterate 8 (try sl_rw [Prog.bind_assoc])
  sl_for (AccInv (F := F) (HIx 2) ℕ UU ℕ d (cV3 L) (jV3 L) sH3 sR3 (dstBN).view.set fullShare fullShare g6 ((dstBN).view.write (Elt F) gB pB Finset.univ) 1 70 (160 * k.val + 150)) $$ [H6 HdB]
  · intro k' acc'
    apply accum_k3_t18
    · exact hIRB
    · exact fun j hj => hH0 _ (by have : j < 10 := hj; omega)
  · unfold AccInv
    isplitr
    · ipureintro; rfl
    isplitl [H6]
    · iexact H6
    iexact HdB
  iintro %acc18 HI
  unfold AccInv
  icases HI with ⟨%hacc18, H6, HdB⟩
  -- the odd chunk after next is not started either
  sl_exec
  sl_step
  isplitr; · iexact Hlv
  -- the two gather buffers and the rest of the scratch: the scratch whole
  ihave H7 := (aside_elim _) $$ H7
  ihave HR := (slots_rejoin3 d L _ _ _) $$ [HdA HdB H7]
  · isplitl [HdA]; · iexact HdA
    isplitl [HdB]; · iexact HdB
    iexact H7
  icases HR with ⟨%gR', HR⟩
  -- the list whole: each half's chunk beside its rest, then the two halves
  ihave H5L := (aside_elim _) $$ H5L
  ihave H5L := (pointsTo_split_subset (ℓ := (sI3).view.loc (thr3 d L)) (q := fullShare.left) (f := g5) (Finset.subset_univ _)).2 $$ [HoA H5L]
  · isplitl [HoA] <;> iassumption
  ihave H5R := (aside_elim _) $$ H5R
  ihave H5R := (pointsTo_split_subset (ℓ := (sI3).view.loc (thr3 d L)) (q := fullShare.right) (f := g5) (Finset.subset_univ _)).2 $$ [HoB H5R]
  · isplitl [HoB] <;> iassumption
  ihave H5 := (pointsTo_share (PosShare.mem_left_op_right fullShare)).2 $$ [H5L H5R]
  · isplitl [H5L] <;> iassumption
  have hs6 : ((sH3).view.set : Finset (Idx ((sH3).view.loc (thr3 d L)))) = Finset.univ := View.set_whole _
  ihave H6 := (Entails.of_eq (congrArg (fun S => (((sH3).view.loc (thr3 d L) ↦[S]{fullShare} g6 : sProp 𝕄))) hs6)) $$ H6
  iexists gR', _, _
  isplitl [HO]; · iexact HO
  isplitl [H6]; · iexact H6
  isplitl [H8]; · iexact H8
  isplitl [HtL]; · iexact HtL
  isplitl [HtR]; · iexact HtR
  isplitl [HfA]; · iexact HfA
  isplitl [HfB]; · iexact HfB
  isplitl [HR]; · iexact HR
  isplitl [H5]; · iexact H5
  isplitl [HfA_src]; · iexact HfA_src
  isplitl [HfB_src]; · iexact HfB_src
  ipureintro
  refine ⟨?_, ?_⟩
  · intro p hp
    rcases Finset.mem_insert.mp hp with rfl | hp
    · exact Or.inr rfl
    · rcases Finset.mem_insert.mp hp with rfl | hp
      · exact Or.inr rfl
      · exact hfin.1 p hp
  · -- the block of sums after the last trip
    have e : k.val + 1 = 8 := by omega
    have h := trip_out3 k _ ix g8 gA gB pA pB g6 _ _ _ _ _ _ _ _ _ _ _ _ _ _ _ _ hfin.2.1 hfin.2.2.1 hfin.2.2.2 hg6 hacc3 hacc4 hacc5 hacc6 hacc7 hacc8 hacc9 hacc10 hacc11 hacc12 hacc13 hacc14 hacc15 hacc16 hacc17 hacc18
    rw [e] at h
    exact h

end Cert.Proof.KB

end
-- ==== Proof.KB.Tile3Trip.lean ====
/-
  One trip of the ring of gathers of one vector subcore's task: wait for the even chunk, add up its eight batch rows,
  start the even chunk after next; the same for the odd chunk.
-/
import proofs.«219250_g10247791969013_week1_w1_750_27_alg».proof.Proof.KB.Tile3Ring
import proofs.«219250_g10247791969013_week1_w1_750_27_alg».proof.Proof.KB.Tile3Chunks
import proofs.«219250_g10247791969013_week1_w1_750_27_alg».proof.Proof.KB.Tile3Chunks2
import proofs.«219250_g10247791969013_week1_w1_750_27_alg».proof.Proof.KB.Tile3TripOut
import proofs.«219250_g10247791969013_week1_w1_750_27_alg».proof.Proof.KB.Tile3TripLast
import Idealize.ShloMosaic.Lib.Tactic

noncomputable section

namespace Cert.Proof.KB

open Cert.Proof.KI

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

variable (d : Dev nD) (L : grid3.Coords)

set_option quotPrecheck false in
local notation "tabSlN" => ((tabM3).slice (Rect.unit (s := S501760x128) ![0, 0] S501760x128.size inb_S501760x128_S501760x128_0_0) (fun _ => rfl))
set_option quotPrecheck false in
local notation "dstAN" => (((sR3).slice (Rect.unit (s := S2x80x128) ![0, 0, 0] S1x80x128.size inb_S2x80x128_S1x80x128_0_0_0) (fun _ => rfl)).squeeze S80x128 squeezes_S1x80x128_S80x128)
set_option quotPrecheck false in
local notation "dstBN" => (((sR3).slice (Rect.unit (s := S2x80x128) ![1, 0, 0] S1x80x128.size inb_S2x80x128_S1x80x128_1_0_0) (fun _ => rfl)).squeeze S80x128 squeezes_S1x80x128_S80x128)

variable (q : PosShare TreeShare) (Tb : Buf (Elt F) ((tabM3).view.loc (thr3 d L)))
  (tb : S501760x128.Idx → Elt F .f32) (ix : S1280.Idx → Elt F .i32)
  (g5 : Buf (Elt F) ((sI3).view.loc (thr3 d L))) (g6 : Buf (Elt F) ((sH3).view.loc (thr3 d L)))
  (O : CellTallies nD τ sig (HIx 2)) (W : Waits sig (HIx 2))

omit [FloatOps F] in
theorem cond1_iff3 : ∀ k : Fin k3_t2_loop.trips, k3_cond1 k = 1#1 ↔ k.val + 1 < 8 := by decide +kernel
omit [FloatOps F] in
theorem cond2_iff3 : ∀ k : Fin k3_t2_loop.trips, k3_cond2 k = 1#1 ↔ k.val + 1 < 8 := by decide +kernel

/-- The even buffer's rows put back beside what lies outside both buffers: everything but the odd buffer. -/
theorem rowsA_join3 (g f : Buf (Elt F) ((sR3).view.loc (thr3 d L))) :
    iprop(((sR3).view.loc (thr3 d L) ↦[((dstAN).view.set : Finset S2x80x128.Idx)]{fullShare} g)
      ∗ ((sR3).view.loc (thr3 d L) ↦[(Finset.univ \ ((dstAN).view.set : Finset S2x80x128.Idx)) \ ((dstBN).view.set : Finset S2x80x128.Idx)]{fullShare} f))
      ⊢ ((sR3).view.loc (thr3 d L) ↦[Finset.univ \ ((dstBN).view.set : Finset S2x80x128.Idx)]{fullShare}
          (Finset.piecewise ((dstAN).view.set : Finset S2x80x128.Idx) g f) : sProp 𝕄) := by
  rw [sdiff_right_comm]
  exact pointsTo_join_subset disjAB3

/-- The odd buffer's rows put back likewise: everything but the even buffer. -/
theorem rowsB_join3 (g f : Buf (Elt F) ((sR3).view.loc (thr3 d L))) :
    iprop(((sR3).view.loc (thr3 d L) ↦[((dstBN).view.set : Finset S2x80x128.Idx)]{fullShare} g)
      ∗ ((sR3).view.loc (thr3 d L) ↦[(Finset.univ \ ((dstBN).view.set : Finset S2x80x128.Idx)) \ ((dstAN).view.set : Finset S2x80x128.Idx)]{fullShare} f))
      ⊢ ((sR3).view.loc (thr3 d L) ↦[Finset.univ \ ((dstAN).view.set : Finset S2x80x128.Idx)]{fullShare}
          (Finset.piecewise ((dstBN).view.set : Finset S2x80x128.Idx) g f) : sProp 𝕄) := by
  rw [sdiff_right_comm]
  exact pointsTo_join_subset disjBA3

omit [FloatOps F] in
theorem hsubT3 : (((tabSlN).view.set : Finset S501760x128.Idx)) ⊆ (tabM3).view.set := View.set_slice_subset (tabM3).view _

theorem eqA3s (k : Fin k3_t2_loop.trips) (hc : k3_cond1 k = 1#1) (hk7 : k.val + 1 < 8) :
    (((sI3).slice (Rect.unit (s := S1280) (k3_off29 k) S80.size (k3_off29_inb k hc)) (fun _ => rfl)).view.set : Finset S1280.Idx) = ((offsC3 (2 * (k.val + 1)) (lt16a hk7)).view.set : Finset S1280.Idx) :=
  eqA3 k hc hk7
theorem eqB3s (k : Fin k3_t2_loop.trips) (hc2 : k3_cond2 k = 1#1) (hk7 : k.val + 1 < 8) :
    (((sI3).slice (Rect.unit (s := S1280) (k3_off55 k) S80.size (k3_off55_inb k hc2)) (fun _ => rfl)).view.set : Finset S1280.Idx) = ((offsC3 (2 * (k.val + 1) + 1) (lt16b hk7)).view.set : Finset S1280.Idx) :=
  eqB3 k hc2 hk7
set_option maxHeartbeats 16000000 in
/-- One trip of the ring: wait for the even chunk, add up its eight batch rows, start the even chunk after next; the same
    for the odd chunk. -/
theorem ring_trip3 (k : Fin k3_t2_loop.trips) (acc : Unit)
    (hg5 : ZI5 ix ((sI3).view.read (Elt F) g5) 80) (hg6 : ZI6 ((sH3).view.read (Elt F) g6) 80)
    (htb : tb = (tabM3).view.read (Elt F) Tb) (hix : ∀ j, (ix j).toNat < 100000) (hO : ∀ g, O g none = 0) :
    iprop(levAts (K (F := F)).L (K (F := F)).lev ∗ ringInv3 (F := F) d L q Tb tb ix g5 g6 O W k.val acc)
      ⊢ wp frame (wpE (defs₀ (F := F)) 𝒱₀ (thr3 d L) none) Set.univ
      (k3_t2_body L tabM3 (Memref.isWhole_whole _) idxM3 (Memref.isWhole_whole _) outM3 (Memref.isWhole_whole _)
        sI3 (Memref.isWhole_whole _) sH3 (Memref.isWhole_whole _) sR3 (Memref.isWhole_whole _) sO3 (Memref.isWhole_whole _)
        cc3_scratch4 cc3_scratch5 cc3_scoped0 cc3_scoped1 k acc)
      (fun a => iprop(levAts (K (F := F)).L (K (F := F)).lev ∗ ringInv3 (F := F) d L q Tb tb ix g5 g6 O W (k.val + 1) a)) := by
  by_cases hc : k3_cond1 k = 1#1
  · -- more trips follow: both chunks after next are started
    subst htb
    have hk8 : k.val < 8 := k.isLt
    unfold k3_t2_body
    rw [k3_part12_eq_skeleton]
    unfold k3_part12_skel
    rw [k3_part1_eq_skeleton, k3_part2_eq_skeleton, k3_part3_eq_skeleton, k3_part4_eq_skeleton, k3_part5_eq_skeleton, k3_part6_eq_skeleton,
      k3_part7_eq_skeleton, k3_part8_eq_skeleton, k3_part9_eq_skeleton, k3_part10_eq_skeleton, k3_part11_eq_skeleton]
    unfold k3_part1_skel k3_part2_skel k3_part3_skel k3_part4_skel k3_part5_skel k3_part6_skel k3_part7_skel k3_part8_skel k3_part9_skel k3_part10_skel k3_part11_skel
    unfold ringInv3
    rw [dif_pos hk8]
    have hk7 : k.val + 1 < 8 := (cond1_iff3 k).mp hc
    have hc2 : k3_cond2 k = 1#1 := (cond2_iff3 k).mpr hk7
    rw [dif_pos hk7]
    unfold ringBusy3 flight3
    iintro ⟨#Hlv, %gA, %gB, %gR, %g8, %W', %pA, %pB, HO, H6, H8, HtL, HtR, HfA, HfB, H7, H5L, H5R, %hfin⟩
    ihave #Hmw := ((K (F := F)).mayWaits_none (thr := thr3 d L) hO) $$ Hlv
    have hall : ∀ y, ((sI3).view.read (Elt F) g5 y).toNat < 501760 := fun y => (rew_toNat3 (F := F) _ _ hg5 hix y).2
    have hH0 : ∀ p, p < 1280 → at1 ((sH3).view.read (Elt F) g6) p = 0#32 ∨ at1 ((sH3).view.read (Elt F) g6) p = 64#32 := fun p hp => half_val3_cases _ hg6 p hp
    have hIRA : ∀ x : (SR 80).Idx, (x 0).val = 0 → (sR3).view.emb x ∈ (dstAN).view.set := hIR_A3
    have hIRB : ∀ x : (SR 80).Idx, (x 0).val = 1 → (sR3).view.emb x ∈ (dstBN).view.set := hIR_B3
    have hinA : ∀ x, ((sI3.slice (Rect.unit (s := S1280) (k3_off29 k) S80.size (k3_off29_inb k hc)) (fun _ => rfl)).view.read (Elt F) g5 x).toNat < 501760 := fun x => hall _
    have hinB : ∀ x, ((sI3.slice (Rect.unit (s := S1280) (k3_off55 k) S80.size (k3_off55_inb k hc2)) (fun _ => rfl)).view.read (Elt F) g5 x).toNat < 501760 := fun x => hall _
    -- the wait for the even chunk
    sl_exec
    icases HfA_dst with ⟨HdA, HoA⟩
    -- batch row 0 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 0 (160 * k.val + 0)) $$ [H6 HdA]
    · intro k' acc'
      exact accum_k3_t3 (HIx 2) ℕ UU ℕ 𝒱₀ d none Set.univ L tabM3 _ idxM3 _ outM3 _ sI3 _ sH3 _ sR3 _ sO3 _ cc3_scratch4 cc3_scratch5 cc3_scoped0 cc3_scoped1 (0#32) (1#32) k
        (dstAN).view.set fullShare fullShare g6 ((dstAN).view.write (Elt F) gA pA Finset.univ) hIRA (fun j hj => hH0 _ (by have : j < 10 := hj; omega)) k' acc'
    · unfold AccInv
      isplitr
      · ipureintro; rfl
      isplitl [H6]
      · iexact H6
      iexact HdA
    iintro %acc3 HI
    unfold AccInv
    icases HI with ⟨%hacc3, H6, HdA⟩
    sl_exec
    -- batch row 1 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 10 (160 * k.val + 10)) $$ [H6 HdA]
    · intro k' acc'
      apply accum_k3_t4
      · exact hIRA
      · exact fun j hj => hH0 _ (by have : j < 10 := hj; omega)
    · unfold AccInv
      isplitr
      · ipureintro; rfl
      isplitl [H6]
      · iexact H6
      iexact HdA
    iintro %acc4 HI
    unfold AccInv
    icases HI with ⟨%hacc4, H6, HdA⟩
    sl_exec
    -- batch row 2 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 20 (160 * k.val + 20)) $$ [H6 HdA]
    · intro k' acc'
      apply accum_k3_t5
      · exact hIRA
      · exact fun j hj => hH0 _ (by have : j < 10 := hj; omega)
    · unfold AccInv
      isplitr
      · ipureintro; rfl
      isplitl [H6]
      · iexact H6
      iexact HdA
    iintro %acc5 HI
    unfold AccInv
    icases HI with ⟨%hacc5, H6, HdA⟩
    sl_exec
    -- batch row 3 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 30 (160 * k.val + 30)) $$ [H6 HdA]
    · intro k' acc'
      apply accum_k3_t6
      · exact hIRA
      · exact fun j hj => hH0 _ (by have : j < 10 := hj; omega)
    · unfold AccInv
      isplitr
      · ipureintro; rfl
      isplitl [H6]
      · iexact H6
      iexact HdA
    iintro %acc6 HI
    unfold AccInv
    icases HI with ⟨%hacc6, H6, HdA⟩
    sl_exec
    -- batch row 4 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 40 (160 * k.val + 40)) $$ [H6 HdA]
    · intro k' acc'
      apply accum_k3_t7
      · exact hIRA
      · exact fun j hj => hH0 _ (by have : j < 10 := hj; omega)
    · unfold AccInv
      isplitr
      · ipureintro; rfl
      isplitl [H6]
      · iexact H6
      iexact HdA
    iintro %acc7 HI
    unfold AccInv
    icases HI with ⟨%hacc7, H6, HdA⟩
    sl_exec
    -- batch row 5 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 50 (160 * k.val + 50)) $$ [H6 HdA]
    · intro k' acc'
      apply accum_k3_t8
      · exact hIRA
      · exact fun j hj => hH0 _ (by have : j < 10 := hj; omega)
    · unfold AccInv
      isplitr
      · ipureintro; rfl
      isplitl [H6]
      · iexact H6
      iexact HdA
    iintro %acc8 HI
    unfold AccInv
    icases HI with ⟨%hacc8, H6, HdA⟩
    sl_exec
    -- batch row 6 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 60 (160 * k.val + 60)) $$ [H6 HdA]
    · intro k' acc'
      apply accum_k3_t9
      · exact hIRA
      · exact fun j hj => hH0 _ (by have : j < 10 := hj; omega)
    · unfold AccInv
      isplitr
      · ipureintro; rfl
      isplitl [H6]
      · iexact H6
      iexact HdA
    iintro %acc9 HI
    unfold AccInv
    icases HI with ⟨%hacc9, H6, HdA⟩
    sl_exec
    -- batch row 7 of the even chunk
    iterate 8 (try sl_rw [Prog.bind_assoc])
    sl_for (AccInv (F := F) (HIx 2) ℕ UU ℕ d (cV3 L) (jV3 L) sH3 sR3 (dstAN).view.set fullShare fullShare g6 ((dstAN).view.write (Elt F) gA pA Finset.univ) 0 70 (160 * k.val + 70)) $$ [H6 HdA]
    · intro k' acc'
      apply accum_k3_t10
      · exact hIRA
      · exact fun j hj => hH0 _ (by have : j < 10 := hj; omega)
    · unfold AccInv
      isplitr
      · ipureintro; rfl
      isplitl [H6]
      · iexact H6
      iexact HdA
    iintro %acc10 HI
    unfold AccInv
    icases HI with ⟨%hacc10, H6, HdA⟩
    -- what the even chain holds, whole again, for its next gather
    ihave HtL := (aside_elim _) $$ HtL
    ihave HtL := (pointsTo_split_subset (ℓ := (tabM3).view.loc (thr3 d L)) (q := q.left) (f := Tb) hsubT3).2 $$ [HfA_src HtL]
    · isplitl [HfA_src] <;> iassumption
    ihave H5L := (aside_elim _) $$ H5L
    ihave H5L := (pointsTo_split_subset (ℓ := (sI3).view.loc (thr3 d L)) (q := fullShare.left) (f := g5) (Finset.subset_univ ((offsC3 (2 * k.val) (lt16a hk8)).view.set : Finset S1280.Idx))).2 $$ [HoA H5L]
    · isplitl [HoA] <;> iassumption
    ihave H7 := (aside_elim _) $$ H7
    ihave H7 := (rowsA_join3 d L _ _) $$ [HdA H7]
    · isplitl [HdA] <;> iassumption
    sl_exec
    icases HfB_dst with ⟨HdB, HoB⟩
    ihave HtL := (aside_intro _) $$ HtL
    ihave H5L := (aside_intro _) $$ H5L
    -- batch row 0 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 0 (160 * k.val + 80)) $$ [H6 HdB]
    · intro k' acc'
      apply accum_k3_t11
      · exact hIRB
      · exact fun j hj => hH0 _ (by have : j < 10 := hj; omega)
    · unfold AccInv
      isplitr
      · ipureintro; rfl
      isplitl [H6]
      · iexact H6
      iexact HdB
    iintro %acc11 HI
    unfold AccInv
    icases HI with ⟨%hacc11, H6, HdB⟩
    sl_exec
    -- batch row 1 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 10 (160 * k.val + 90)) $$ [H6 HdB]
    · intro k' acc'
      apply accum_k3_t12
      · exact hIRB
      · exact fun j hj => hH0 _ (by have : j < 10 := hj; omega)
    · unfold AccInv
      isplitr
      · ipureintro; rfl
      isplitl [H6]
      · iexact H6
      iexact HdB
    iintro %acc12 HI
    unfold AccInv
    icases HI with ⟨%hacc12, H6, HdB⟩
    sl_exec
    -- batch row 2 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 20 (160 * k.val + 100)) $$ [H6 HdB]
    · intro k' acc'
      apply accum_k3_t13
      · exact hIRB
      · exact fun j hj => hH0 _ (by have : j < 10 := hj; omega)
    · unfold AccInv
      isplitr
      · ipureintro; rfl
      isplitl [H6]
      · iexact H6
      iexact HdB
    iintro %acc13 HI
    unfold AccInv
    icases HI with ⟨%hacc13, H6, HdB⟩
    sl_exec
    -- batch row 3 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 30 (160 * k.val + 110)) $$ [H6 HdB]
    · intro k' acc'
      apply accum_k3_t14
      · exact hIRB
      · exact fun j hj => hH0 _ (by have : j < 10 := hj; omega)
    · unfold AccInv
      isplitr
      · ipureintro; rfl
      isplitl [H6]
      · iexact H6
      iexact HdB
    iintro %acc14 HI
    unfold AccInv
    icases HI with ⟨%hacc14, H6, HdB⟩
    sl_exec
    -- batch row 4 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 40 (160 * k.val + 120)) $$ [H6 HdB]
    · intro k' acc'
      apply accum_k3_t15
      · exact hIRB
      · exact fun j hj => hH0 _ (by have : j < 10 := hj; omega)
    · unfold AccInv
      isplitr
      · ipureintro; rfl
      isplitl [H6]
      · iexact H6
      iexact HdB
    iintro %acc15 HI
    unfold AccInv
    icases HI with ⟨%hacc15, H6, HdB⟩
    sl_exec
    -- batch row 5 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 50 (160 * k.val + 130)) $$ [H6 HdB]
    · intro k' acc'
      apply accum_k3_t16
      · exact hIRB
      · exact fun j hj => hH0 _ (by have : j < 10 := hj; omega)
    · unfold AccInv
      isplitr
      · ipureintro; rfl
      isplitl [H6]
      · iexact H6
      iexact HdB
    iintro %acc16 HI
    unfold AccInv
    icases HI with ⟨%hacc16, H6, HdB⟩
    sl_exec
    -- batch row 6 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 60 (160 * k.val + 140)) $$ [H6 HdB]
    · intro k' acc'
      apply accum_k3_t17
      · exact hIRB
      · exact fun j hj => hH0 _ (by have : j < 10 := hj; omega)
    · unfold AccInv
      isplitr
      · ipureintro; rfl
      isplitl [H6]
      · iexact H6
      iexact HdB
    iintro %acc17 HI
    unfold AccInv
    icases HI with ⟨%hacc17, H6, HdB⟩
    sl_exec
    -- batch row 7 of the odd chunk
    iterate 8 (try sl_rw [Prog.bind_assoc])
    sl_for (AccInv (F := F) (HIx 2) ℕ UU ℕ d (cV3 L) (jV3 L) sH3 sR3 (dstBN).view.set fullShare fullShare g6 ((dstBN).view.write (Elt F) gB pB Finset.univ) 1 70 (160 * k.val + 150)) $$ [H6 HdB]
    · intro k' acc'
      apply accum_k3_t18
      · exact hIRB
      · exact fun j hj => hH0 _ (by have : j < 10 := hj; omega)
    · unfold AccInv
      isplitr
      · ipureintro; rfl
      isplitl [H6]
      · iexact H6
      iexact HdB
    iintro %acc18 HI
    unfold AccInv
    icases HI with ⟨%hacc18, H6, HdB⟩
    -- what the odd chain holds, whole again, for its next gather
    ihave HtR := (aside_elim _) $$ HtR
    ihave HtR := (pointsTo_split_subset (ℓ := (tabM3).view.loc (thr3 d L)) (q := q.right) (f := Tb) hsubT3).2 $$ [HfB_src HtR]
    · isplitl [HfB_src] <;> iassumption
    ihave H5R := (aside_elim _) $$ H5R
    ihave H5R := (pointsTo_split_subset (ℓ := (sI3).view.loc (thr3 d L)) (q := fullShare.right) (f := g5) (Finset.subset_univ ((offsC3 (2 * k.val + 1) (lt16b hk8)).view.set : Finset S1280.Idx))).2 $$ [HoB H5R]
    · isplitl [HoB] <;> iassumption
    ihave H7 := (rowsB_join3 d L _ _) $$ [HdB H7]
    · isplitl [HdB] <;> iassumption
    sl_exec
    ihave HtR := (aside_intro _) $$ HtR
    ihave H5R := (aside_intro _) $$ H5R
    ihave H7 := (aside_intro _) $$ H7
    sl_step
    rw [eqA3s k hc hk7, eqB3s k hc2 hk7]
    isplitr [HO H6 H8 HtL HtR HfA HfB H7 H5L H5R]
    · iexact Hlv
    iexists _, _, _, _, _, _, _
    isplitl [HO]; · iexact HO
    isplitl [H6]; · iexact H6
    isplitl [H8]; · iexact H8
    isplitl [HtL]; · iexact HtL
    isplitl [HtR]; · iexact HtR
    isplitl [HfA]; · iexact HfA
    isplitl [HfB]; · iexact HfB
    isplitl [H7]; · iexact H7
    isplitl [H5L]; · iexact H5L
    isplitl [H5R]; · iexact H5R
    ipureintro
    refine ⟨?_, ?_, ?_, ?_⟩
    · intro p hp
      rcases Finset.mem_insert.mp hp with rfl | hp
      · exact Or.inr rfl
      rcases Finset.mem_insert.mp hp with rfl | hp
      · exact Or.inr rfl
      exact hfin.1 p hp
    · exact trip_out3 k _ ix g8 gA gB pA pB g6 _ _ _ _ _ _ _ _ _ _ _ _ _ _ _ _ hfin.2.1 hfin.2.2.1 hfin.2.2.2 hg6 hacc3 hacc4 hacc5 hacc6 hacc7 hacc8 hacc9 hacc10 hacc11 hacc12 hacc13 hacc14 hacc15 hacc16 hacc17 hacc18
    · exact gather_spec3 d L Tb ix g5 hg5 hix (2 * (k.val + 1)) (k3_off29 k) _ _
        ((k3_off29_eq k).trans (by rw [show 80 * (2 * (k.val + 1)) = 160 * k.val + 160 from by omega])) _ _
    · exact gather_spec3 d L Tb ix g5 hg5 hix (2 * (k.val + 1) + 1) (k3_off55 k) _ _
        ((k3_off55_eq k).trans (by rw [show 80 * (2 * (k.val + 1) + 1) = 160 * k.val + 240 from by omega])) _ _
  · -- the last trip: nothing more is started; everything comes back
    exact ring_trip_last3 d L q Tb tb ix g5 g6 O W k acc hg5 hg6 htb hix hO hc

end Cert.Proof.KB

end
-- ==== Proof.KB.Tile3.lean ====
/-
  One vector subcore's task of the second embedding-sum call, run from what it is handed to what it leaves.
-/
import proofs.«219250_g10247791969013_week1_w1_750_27_alg».proof.Proof.KB.Tile3Trip
import Idealize.ShloMosaic.Lib.Tactic

noncomputable section

namespace Cert.Proof.KB

open Cert.Proof.KI

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

open Idealize.ShloMosaic.SparseCore.Cfg (tileRest ownBufs ownSems0 ownCells ownRefs mem_ownCells mem_ownRefs)

/-! ## The task -/

variable (d : Dev nD) (L : grid3.Coords)

theorem ringInv3_last (q : PosShare TreeShare) (Tb : Buf (Elt F) ((tabM3).view.loc (thr3 d L)))
    (tb : S501760x128.Idx → Elt F .f32) (ix : S1280.Idx → Elt F .i32)
    (g5 : Buf (Elt F) ((sI3).view.loc (thr3 d L))) (g6 : Buf (Elt F) ((sH3).view.loc (thr3 d L)))
    (O : CellTallies nD τ sig (HIx 2)) (W : Waits sig (HIx 2)) (n : ℕ) (hn : ¬ n < 8) (a : Unit) :
    ringInv3 (F := F) d L q Tb tb ix g5 g6 O W n a = ringDone3 (F := F) d L q Tb tb ix g5 g6 O W := by
  unfold ringInv3; rw [dif_neg hn]

/-- An unmasked write through the whole-shape rectangle of a view is the write through the view. -/
theorem write_slice_whole3 {sg : RefSig} {κ : Kind} {sp : Space} {S : Shape} {e : EltTy} (v : View sg κ sp S e)
    (f : v.ty.Contents (Elt F)) (w : S.Idx → Elt F e) :
    (v.slice (Rect.whole S)).write (Elt F) f w Finset.univ = v.write (Elt F) f w Finset.univ := by
  funext i
  by_cases hi : i ∈ v.setOn Finset.univ
  · obtain ⟨x, -, rfl⟩ := Finset.mem_map.mp hi
    have e1 : v.emb x = (v.slice (Rect.whole S)).emb x := by
      show v.emb x = v.emb ((Rect.whole S).emb x); rw [Rect.emb_whole_apply]
    rw [View.write_emb_of_mem _ _ (Finset.mem_univ x)]
    conv_lhs => rw [e1]
    rw [View.write_emb_of_mem _ _ (Finset.mem_univ x)]
  · rw [View.write_of_not_mem _ _ _ hi, View.write_of_not_mem _ _ _ (fun h => hi (by
      obtain ⟨x, -, hx⟩ := Finset.mem_map.mp h
      exact Finset.mem_map.mpr ⟨(Rect.whole S).emb x, Finset.mem_univ _, hx⟩))]

set_option maxHeartbeats 4000000 in
/-- One vector subcore's task of the second embedding-sum call: handed a share of the pair table, a share of its 1280
    index words (each below 100000), its 64 result rows at any contents, its own buffers and semaphores, it runs to
    its end, gives the shares back unchanged and leaves its result rows at `OUT3`. -/
theorem tile3_body (hF : (K (F := F)).Facts) (q qi : PosShare TreeShare)
    (Tb : Buf (Elt F) ((tabM3).view.loc (thr3 d L))) (Ix : Buf (Elt F) ((idxSl3 L).view.loc (thr3 d L)))
    (fo : Buf (Elt F) ((outSl3 L).view.loc (thr3 d L)))
    (hIx : ∀ j, ((idxSl3 L).view.read (Elt F) Ix j).toNat < 100000)
    (O : CellTallies nD τ sig (HIx 2)) (W : Waits sig (HIx 2)) (hO : ∀ g, O g none = 0) :
    iprop(levAts (K (F := F)).L (K (F := F)).lev
        ∗ ((tabM3).view.loc (thr3 d L) ↦[(tabM3).view.set]{q} Tb)
        ∗ ((idxSl3 L).view.loc (thr3 d L) ↦[(idxSl3 L).view.set]{qi} Ix)
        ∗ ((outSl3 L).view.loc (thr3 d L) ↦[(outSl3 L).view.set]{fullShare} fo)
        ∗ scopedBufs (thr3 d L) ∗ scopedSems0 (thr3 d L) ∗ owes (thr3 d L) O W)
      ⊢ (wp frame (wpE (defs₀ (F := F)) 𝒱₀ (thr3 d L) none) Set.univ
          (cc3__emb_body L tabM3 (Memref.isWhole_whole _) idxM3 (Memref.isWhole_whole _) outM3 (Memref.isWhole_whole _)
            (Memref.whole cc3_scratch0) (Memref.isWhole_whole _) (Memref.whole cc3_scratch1) (Memref.isWhole_whole _)
            (Memref.whole cc3_scratch2) (Memref.isWhole_whole _) (Memref.whole cc3_scratch3) (Memref.isWhole_whole _)
            cc3_scratch4 cc3_scratch5 cc3_scoped0 cc3_scoped1)
          fun _ => iprop(((tabM3).view.loc (thr3 d L) ↦[(tabM3).view.set]{q} Tb)
            ∗ ((idxSl3 L).view.loc (thr3 d L) ↦[(idxSl3 L).view.set]{qi} Ix)
            ∗ ((outSl3 L).view.loc (thr3 d L) ↦[(outSl3 L).view.set]{fullShare}
                ((outSl3 L).view.write (Elt F) fo (OUT3 ((tabM3).view.read (Elt F) Tb) ((idxSl3 L).view.read (Elt F) Ix)) Finset.univ))
            ∗ scopedBufs (thr3 d L) ∗ scopedSems0 (thr3 d L)
            ∗ ∃ W', ⌜∀ p ∈ W', p ∈ W ∨ p.2 = none⌝ ∗ owes (thr3 d L) O W') : sProp 𝕄) := by
  rw [(K (F := F)).scopedBufs_V hF d (cV3 L) (jV3 L), SparseCore.Cfg.scopedSems0_V (Val := Elt F) d (cV3 L) (jV3 L), ownSems0_V3, ownBufs_V3]
  iintro ⟨#Hlv, Ht, Hi, Ho, ⟨⟨%f5, H5⟩, ⟨%f6, H6⟩, ⟨%f7, H7⟩, ⟨%f8, H8⟩, Hbufs⟩, ⟨HsA, HsB, HsC, HsD, Hsems⟩, HO⟩
  ihave #Hmw := ((K (F := F)).mayWaits_none (thr := thr3 d L) hO) $$ Hlv
  -- the table's share in two halves, one per gather buffer; the second set aside until the first gather is out
  ihave Ht2 := (pointsTo_share (PosShare.mem_left_op_right q)).1 $$ Ht
  icases Ht2 with ⟨HtL, HtR⟩
  ihave HtR' := (aside_intro _) $$ HtR
  sl_unfold [cc3__emb_body, k3_part13]
  -- the copy in
  sl_exec
  -- the rewrite of the list
  sl_for (xfInv3 (F := F) d L ((idxSl3 L).view.read (Elt F) Ix)) $$ [H5 H6]
  · exact xform_trip3 d L _
  · unfold xfInv3
    iexists _, _
    isplitl [H5]; · iexact H5
    isplitl [H6]; · iexact H6
    ipureintro
    exact ⟨ZI5_zero3 _ _ _, ZI6_zero3 _⟩
  iintro %acc HI
  unfold xfInv3
  icases HI with ⟨%g5, %g6, H5, H6, %hP⟩
  -- every rewritten word names a row of the pair table
  have hall : ∀ y, ((sI3).view.read (Elt F) g5 y).toNat < 501760 := fun y => (rew_toNat3 (F := F) _ _ hP.1 hIx y).2
  have hin0 : ∀ x, ((sI3.slice (Rect.unit (s := S1280) ![0] S80.size inb_S1280_S80_0) (fun _ => rfl)).view.read (Elt F) g5 x).toNat < 501760 := fun x => hall _
  have hin1 : ∀ x, ((sI3.slice (Rect.unit (s := S1280) ![80] S80.size inb_S1280_S80_80) (fun _ => rfl)).view.read (Elt F) g5 x).toNat < 501760 := fun x => hall _
  -- the list in two halves too, one per gather chain; the second set aside until the first gather is out
  ihave H5s := (pointsTo_share (PosShare.mem_left_op_right fullShare)).1 $$ H5
  icases H5s with ⟨H5L, H5R⟩
  ihave H5R' := (aside_intro _) $$ H5R
  -- the first two gathers
  sl_exec
  ihave HtL := (aside_intro _) $$ HtL
  ihave H5L := (aside_intro _) $$ H5L
  ihave HtR := (aside_elim _) $$ HtR'
  ihave H5R := (aside_elim _) $$ H5R'
  sl_exec
  -- the ring of gathers
  ihave HtR := (aside_intro _) $$ HtR
  ihave H5R := (aside_intro _) $$ H5R
  ihave H7 := (aside_intro _) $$ H7
  sl_for (fun k a => iprop(levAts (K (F := F)).L (K (F := F)).lev
      ∗ ringInv3 (F := F) d L q Tb ((tabM3).view.read (Elt F) Tb) ((idxSl3 L).view.read (Elt F) Ix) g5 g6 O
          (insert (SemLoc.dma cc3_scoped0.sem, (default : HIx 2)) W) k a)) $$ [Hlv HsA HtL HsB HtR H7 H5L H5R H6 H8 HO]
  · intro k acc
    exact ring_trip3 d L q Tb _ _ g5 g6 O _ k acc hP.1 hP.2 rfl hIx hO
  · -- ENTRY: the state after the two first gathers is the invariant before trip 0
    unfold ringInv3
    rw [dif_pos (show (0 : ℕ) < 8 by decide)]
    unfold ringBusy3 flight3
    isplitr; · iexact Hlv
    iexists f7, _, _, f8, (insert (SemLoc.dma cc3_scoped0.sem, (default : HIx 2)) W), _, _
    isplitl [HO]; · iexact HO
    isplitl [H6]; · iexact H6
    isplitl [H8]; · iexact H8
    isplitl [HtL]; · iexact HtL
    isplitl [HtR]; · iexact HtR
    isplitl [HsA]; · iexact HsA
    isplitl [HsB]; · iexact HsB
    isplitl [H7]; · iexact H7
    isplitl [H5L]; · iexact H5L
    isplitl [H5R]; · iexact H5R
    ipureintro
    refine ⟨fun p hp => Or.inl hp, OutOK3_zero _ _ _, ?_, ?_⟩
    · exact gather_spec3 d L Tb _ g5 hP.1 hIx 0 ![0] inb_S1280_S80_0 _ rfl rfl hin0
    · exact gather_spec3 d L Tb _ g5 hP.1 hIx 1 ![80] inb_S1280_S80_80 _ rfl rfl hin1
  iintro %acc2 HI
  -- TAIL: the invariant after trip 8, the copy out, the post
  icases HI with ⟨-, HI⟩
  ihave HI := (Entails.of_eq (ringInv3_last d L q Tb _ _ g5 g6 O _ _ (by decide) acc2)) $$ HI
  unfold ringDone3
  icases HI with ⟨%gR, %g8, %W', HO, H6, H8, HtLr, HtRr, HsA, HsB, H7, H5, HtA, HtB, %hfin⟩
  ihave HtLr := (aside_elim _) $$ HtLr
  ihave HtRr := (aside_elim _) $$ HtRr
  have hsub : ((tabSl3).view.set : Finset (Idx ((tabM3).view.loc (thr3 d L)))) ⊆ (tabM3).view.set := View.set_slice_subset (tabM3).view _
  ihave HtL := (pointsTo_split_subset (ℓ := (tabM3).view.loc (thr3 d L)) (q := q.left) (f := Tb) hsub).2 $$ [HtA HtLr]
  · isplitl [HtA]; · iexact HtA
    iexact HtLr
  ihave HtR := (pointsTo_split_subset (ℓ := (tabM3).view.loc (thr3 d L)) (q := q.right) (f := Tb) hsub).2 $$ [HtB HtRr]
  · isplitl [HtB]; · iexact HtB
    iexact HtRr
  ihave Ht := (pointsTo_share (PosShare.mem_left_op_right q)).2 $$ [HtL HtR]
  · isplitl [HtL]; · iexact HtL
    iexact HtR
  -- the copy out
  sl_exec
  sl_step
  -- the block of sums is the specification's, all 64 rows of it
  have hOut : (sO3).view.read (Elt F) g8 = OUT3 ((tabM3).view.read (Elt F) Tb) ((idxSl3 L).view.read (Elt F) Ix) :=
    funext fun x => hfin.2 x (by have h64 : (x 0).val < 64 := (x 0).isLt; omega)
  have hpay : tile3_body.sl.dma0_1 d L g8 = (sO3).view.read (Elt F) g8 := rfl
  have hval : (outSl3 L).view.writes (Elt F) fo [⟨Rect.whole S64x128, tile3_body.sl.dma0_1 d L g8⟩]
      = (outSl3 L).view.write (Elt F) fo (OUT3 ((tabM3).view.read (Elt F) Tb) ((idxSl3 L).view.read (Elt F) Ix)) Finset.univ := by
    rw [hpay, hOut, View.writes_singleton]; exact write_slice_whole3 _ _ _
  rw [← hval]
  isplitl [Ht]; · iexact Ht
  isplitl [Hi]; · iexact Hi
  isplitl [Ho]; · iexact Ho
  isplitl [H5 H6 H7 H8 Hbufs]
  · isplitl [H5]; · iexists g5; iexact H5
    isplitl [H6]; · iexists g6; iexact H6
    isplitl [H7]; · iexists gR; iexact H7
    isplitl [H8]; · iexists g8; iexact H8
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists (insert (SemLoc.dma cc3_scoped1.sem, (default : HIx 2)) W')
  isplitr
  · ipureintro
    intro p hp
    rcases Finset.mem_insert.mp hp with rfl | hp
    · exact Or.inr rfl
    · rcases hfin.1 p hp with h | h
      · rcases Finset.mem_insert.mp h with rfl | h
        · exact Or.inr rfl
        · exact Or.inl h
      · exact Or.inr h
  iexact HO
-- ==== Proof.KB.LeavesTile.lean ====
/-
  The two statements about one vector subcore's task that the launch rests on, from their proofs.
-/
import proofs.«219250_g10247791969013_week1_w1_750_27_alg».proof.Proof.KB.Spec
import proofs.«219250_g10247791969013_week1_w1_750_27_alg».proof.Proof.KB.Tile2
import proofs.«219250_g10247791969013_week1_w1_750_27_alg».proof.Proof.KB.Tile3

noncomputable section

namespace Cert.Proof.KB

open Cert.Kernel Cert.Kernel.Gen

open Idealize.ShloMosaic

variable {F : FTy → Type} [FloatOps F]

theorem tileBody2 : TileBody2 F := fun d L hF q qi Tb Ix fo hIx O W hO => tile2_body d L hF q qi Tb Ix fo hIx O W hO

theorem tileBody3 : TileBody3 F := fun d L hF q qi Tb Ix fo hIx O W hO => tile3_body d L hF q qi Tb Ix fo hIx O W hO

end Cert.Proof.KB

end
-- ==== Proof.lean ====
/-
  The certificate of the embedding-sum kernel against its reference: five conjuncts.

  The kernel program transposes the 26 tables pair by pair into two pair tables (two pipelined TensorCore kernels,
  whose last input block along the vocabulary overhangs the tables, so that the rows of a pair's block past the
  vocabulary's size are not determined), then sums, on the 32 vector subcores of the two SparseCores, the 16 resp.
  10 table rows each batch element names (a two-slot ring of row gathers per task), and adds the two partial sums.
  The reference gathers the 26 rows and sums them. Under the precondition every index is below the vocabulary's
  size, so no undetermined row is ever read; over the extended reals the sum of 16 and of 10 terms is the sum of the
  26, in any grouping, with no appeal to finiteness.

  Each program's run is proved once, generic in the float instance: @main's three stretches of host operations
  around the two transposes and the two SparseCore calls, from four statements proved in modules of their own (one
  task's body of each call as a triple; the transposes' launch element and their run). The frames are the runs with
  the values dropped; the algebraic conjunct is the idealized run beside the reference's generated run.
-/
import proofs.«219250_g10247791969013_week1_w1_750_27_alg».proof.Defs
import proofs.«219250_g10247791969013_week1_w1_750_27_alg».proof.Proof.Gen.Kernel
import proofs.«219250_g10247791969013_week1_w1_750_27_alg».proof.Proof.Gen.KernelIdeal
import proofs.«219250_g10247791969013_week1_w1_750_27_alg».proof.Proof.Gen.ReferenceIdeal
import proofs.«219250_g10247791969013_week1_w1_750_27_alg».proof.Proof.Gen.Pre_input_domain
import proofs.«219250_g10247791969013_week1_w1_750_27_alg».proof.Proof.RefRun
import proofs.«219250_g10247791969013_week1_w1_750_27_alg».proof.Proof.KI.Assemble
import proofs.«219250_g10247791969013_week1_w1_750_27_alg».proof.Proof.KI.LeavesTrans
import proofs.«219250_g10247791969013_week1_w1_750_27_alg».proof.Proof.KI.LeavesTile
import proofs.«219250_g10247791969013_week1_w1_750_27_alg».proof.Proof.KB.Assemble
import proofs.«219250_g10247791969013_week1_w1_750_27_alg».proof.Proof.KB.LeavesTrans
import proofs.«219250_g10247791969013_week1_w1_750_27_alg».proof.Proof.KB.LeavesTile
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.KB.frame_Kernel Cert.Proof.KB.tileBody2 Cert.Proof.KB.tileBody3 Cert.Proof.KB.regionsFund Cert.Proof.KB.regionsWp,
    Cert.Proof.KI.frame_KernelIdeal Cert.Proof.KI.tileBody2 Cert.Proof.KI.tileBody3 Cert.Proof.KI.regionsFund Cert.Proof.KI.regionsWp,
    Cert.Proof.RefRun.frame,
    trivial,
    Cert.Proof.KI.algebraic Cert.Proof.KI.tileBody2 Cert.Proof.KI.tileBody3 Cert.Proof.KI.regionsFund Cert.Proof.KI.regionsWp⟩

end Cert.Proof

end
